-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x128x160000 : Shape := ⟨3, ![1, 128, 160000]⟩
abbrev S1x160000x4 : Shape := ⟨3, ![1, 160000, 4]⟩
abbrev S128x128x1x5 : Shape := ⟨4, ![128, 128, 1, 5]⟩
abbrev S128 : Shape := ⟨1, ![128]⟩
abbrev S_ : Shape := ⟨0, ![]⟩

class Facts : Prop where
  bcast_S_S1x128x160000 : S_.BroadcastsInDim S1x128x160000 (![] : Fin 0 → Fin S1x128x160000.rank)
  reducesTo_S1x128x160000_S_d0_1_2 : S1x128x160000.ReducesTo [0, 1, 2] S_
  h_S_ : 0 < S_.numel
  bcast_S_S128x128x1x5 : S_.BroadcastsInDim S128x128x1x5 (![] : Fin 0 → Fin S128x128x1x5.rank)
  reducesTo_S128x128x1x5_S_d0_1_2_3 : S128x128x1x5.ReducesTo [0, 1, 2, 3] S_
  bcast_S_S128 : S_.BroadcastsInDim S128 (![] : Fin 0 → Fin S128.rank)
  reducesTo_S128_S_d0 : S128.ReducesTo [0] S_
  bcast_S_S1x160000x4 : S_.BroadcastsInDim S1x160000x4 (![] : Fin 0 → Fin S1x160000x4.rank)
  reducesTo_S1x160000x4_S_d0_1_2 : S1x160000x4.ReducesTo [0, 1, 2] S_

variable [Facts]

def fn_part1 {F : FTy → Type} [FloatOps F] (main_arg1 : IVec S1x160000x4 32) (main_v13 : IVec S_ 1) (main_v15 : IVec S1x160000x4 1) (main_c_5 : IVec S_ 32) : IVec S_ 1 :=
  let main_v16 : IVec S1x160000x4 32 := broadcastInDim S1x160000x4 ![] bcast_S_S1x160000x4 main_c_5
  let main_v17 : IVec S1x160000x4 1 := cmpi .sle main_arg1 main_v16
  let main_v18 : IVec S1x160000x4 1 := andi main_v15 main_v17
  let main_c_6 : IVec S_ 1 := constantI S_ 1 1#1
  let main_v19 : IVec S_ 1 := (fun x v => Host.reduce IntOp.andi x v reducesTo_S1x160000x4_S_d0_1_2 h_S_) main_v18 main_c_6
  let main_v20 : IVec S_ 1 := andi main_v13 main_v19
  main_v20

def fn {F : FTy → Type} [FloatOps F] (main_arg0 : FVec F S1x128x160000 .f32) (main_arg1 : IVec S1x160000x4 32) (main_arg2 : FVec F S128x128x1x5 .f32) (main_arg3 : FVec F S128 .f32) : IVec S_ 1 :=
  let main_v0 : FVec F S1x128x160000 .f32 := Host.absf main_arg0
  let main_cst : FVec F S_ .f32 := constant S_ .f32 0x7F800000#32
  let main_v1 : FVec F S1x128x160000 .f32 := broadcastInDim S1x128x160000 ![] bcast_S_S1x128x160000 main_cst
  let main_v2 : IVec S1x128x160000 1 := cmpf .olt main_v0 main_v1
  let main_c : IVec S_ 1 := constantI S_ 1 1#1
  let main_v3 : IVec S_ 1 := (fun x v => Host.reduce IntOp.andi x v reducesTo_S1x128x160000_S_d0_1_2 h_S_) main_v2 main_c
  let main_v4 : FVec F S128x128x1x5 .f32 := Host.absf main_arg2
  let main_cst_0 : FVec F S_ .f32 := constant S_ .f32 0x7F800000#32
  let main_v5 : FVec F S128x128x1x5 .f32 := broadcastInDim S128x128x1x5 ![] bcast_S_S128x128x1x5 main_cst_0
  let main_v6 : IVec S128x128x1x5 1 := cmpf .olt main_v4 main_v5
  let main_c_1 : IVec S_ 1 := constantI S_ 1 1#1
  let main_v7 : IVec S_ 1 := (fun x v => Host.reduce IntOp.andi x v reducesTo_S128x128x1x5_S_d0_1_2_3 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1x160000x4 32 := broadcastInDim S1x160000x4 ![] bcast_S_S1x160000x4 main_c_4
  let main_v15 : IVec S1x160000x4 1 := cmpi .sge main_arg1 main_v14
  let main_c_5 : IVec S_ 32 := constantI S_ 32 159999#32
  fn_part1 (F := F) main_arg1 main_v13 main_v15 main_c_5
-- ==== Kernel.lean ====
abbrev S1x128x160000 : Shape := ⟨3, ![1, 128, 160000]⟩
abbrev S1x160000x4 : Shape := ⟨3, ![1, 160000, 4]⟩
abbrev S128x128x1x5 : Shape := ⟨4, ![128, 128, 1, 5]⟩
abbrev S128 : Shape := ⟨1, ![128]⟩
abbrev S128x160000 : Shape := ⟨2, ![128, 160000]⟩
abbrev S160000x128 : Shape := ⟨2, ![160000, 128]⟩
abbrev S160000x4 : Shape := ⟨2, ![160000, 4]⟩
abbrev S1250x128x4 : Shape := ⟨3, ![1250, 128, 4]⟩
abbrev S1250x4x128 : Shape := ⟨3, ![1250, 4, 128]⟩
abbrev S128x128x5 : Shape := ⟨3, ![128, 128, 5]⟩
abbrev S5x128x128 : Shape := ⟨3, ![5, 128, 128]⟩
abbrev S128x1 : Shape := ⟨2, ![128, 1]⟩
abbrev S250x4x128 : Shape := ⟨3, ![250, 4, 128]⟩
abbrev S4x32000x128 : Shape := ⟨3, ![4, 32000, 128]⟩
abbrev S2x4x128 : Shape := ⟨3, ![2, 4, 128]⟩
abbrev S4x128x128 : Shape := ⟨3, ![4, 128, 128]⟩
abbrev S_ : Shape := ⟨0, ![]⟩
abbrev S1x4x128 : Shape := ⟨3, ![1, 4, 128]⟩
abbrev S4x128 : Shape := ⟨2, ![4, 128]⟩
abbrev S1x128x128 : Shape := ⟨3, ![1, 128, 128]⟩
abbrev S128x128 : Shape := ⟨2, ![128, 128]⟩
abbrev S1x1x128 : Shape := ⟨3, ![1, 1, 128]⟩
abbrev S128x3200 : Shape := ⟨2, ![128, 3200]⟩
abbrev S4x3200x128 : Shape := ⟨3, ![4, 3200, 128]⟩
abbrev S1x3200x128 : Shape := ⟨3, ![1, 3200, 128]⟩
abbrev S3200x128 : Shape := ⟨2, ![3200, 128]⟩
abbrev S1x128x160000x1 : Shape := ⟨4, ![1, 128, 160000, 1]⟩

abbrev nBuf : Table → Nat
  | .hbm => 28
  | .local .tc .vmem => 40
  | .local .scVector .vmem => 10
  | _ => 0

abbrev bufTy : (tb : Table) → Fin (nBuf tb) → BufTy
  | .hbm, ⟨0, _⟩ => ⟨S1x128x160000, .f32⟩
  | .hbm, ⟨1, _⟩ => ⟨S1x160000x4, .i32⟩
  | .hbm, ⟨2, _⟩ => ⟨S128x128x1x5, .f32⟩
  | .hbm, ⟨3, _⟩ => ⟨S128, .f32⟩
  | .hbm, ⟨4, _⟩ => ⟨S128x160000, .f32⟩
  | .hbm, ⟨5, _⟩ => ⟨S160000x128, .f32⟩
  | .hbm, ⟨6, _⟩ => ⟨S160000x4, .i32⟩
  | .hbm, ⟨7, _⟩ => ⟨S1250x128x4, .i32⟩
  | .hbm, ⟨8, _⟩ => ⟨S1250x4x128, .i32⟩
  | .hbm, ⟨9, _⟩ => ⟨S128x128x5, .f32⟩
  | .hbm, ⟨10, _⟩ => ⟨S5x128x128, .f32⟩
  | .hbm, ⟨11, _⟩ => ⟨S128x1, .f32⟩
  | .hbm, ⟨12, _⟩ => ⟨S250x4x128, .i32⟩
  | .hbm, ⟨13, _⟩ => ⟨S4x32000x128, .f32⟩
  | .hbm, ⟨14, _⟩ => ⟨S250x4x128, .i32⟩
  | .hbm, ⟨15, _⟩ => ⟨S4x32000x128, .f32⟩
  | .hbm, ⟨16, _⟩ => ⟨S250x4x128, .i32⟩
  | .hbm, ⟨17, _⟩ => ⟨S4x32000x128, .f32⟩
  | .hbm, ⟨18, _⟩ => ⟨S250x4x128, .i32⟩
  | .hbm, ⟨19, _⟩ => ⟨S4x32000x128, .f32⟩
  | .hbm, ⟨20, _⟩ => ⟨S250x4x128, .i32⟩
  | .hbm, ⟨21, _⟩ => ⟨S4x32000x128, .f32⟩
  | .hbm, ⟨22, _⟩ => ⟨S128x160000, .f32⟩
  | .hbm, ⟨23, _⟩ => ⟨S128x160000, .f32⟩
  | .hbm, ⟨24, _⟩ => ⟨S128x160000, .f32⟩
  | .hbm, ⟨25, _⟩ => ⟨S128x160000, .f32⟩
  | .hbm, ⟨26, _⟩ => ⟨S128x160000, .f32⟩
  | .hbm, ⟨27, _⟩ => ⟨S1x128x160000x1, .f32⟩
  | .local .tc .vmem, ⟨0, _⟩ => ⟨S128x3200, .f32⟩
  | .local .tc .vmem, ⟨1, _⟩ => ⟨S128x3200, .f32⟩
  | .local .tc .vmem, ⟨2, _⟩ => ⟨S4x3200x128, .f32⟩
  | .local .tc .vmem, ⟨3, _⟩ => ⟨S4x3200x128, .f32⟩
  | .local .tc .vmem, ⟨4, _⟩ => ⟨S5x128x128, .f32⟩
  | .local .tc .vmem, ⟨5, _⟩ => ⟨S128x1, .f32⟩
  | .local .tc .vmem, ⟨6, _⟩ => ⟨S128x3200, .f32⟩
  | .local .tc .vmem, ⟨7, _⟩ => ⟨S128x3200, .f32⟩
  | .local .tc .vmem, ⟨8, _⟩ => ⟨S128x3200, .f32⟩
  | .local .tc .vmem, ⟨9, _⟩ => ⟨S128x3200, .f32⟩
  | .local .tc .vmem, ⟨10, _⟩ => ⟨S4x3200x128, .f32⟩
  | .local .tc .vmem, ⟨11, _⟩ => ⟨S4x3200x128, .f32⟩
  | .local .tc .vmem, ⟨12, _⟩ => ⟨S5x128x128, .f32⟩
  | .local .tc .vmem, ⟨13, _⟩ => ⟨S128x1, .f32⟩
  | .local .tc .vmem, ⟨14, _⟩ => ⟨S128x3200, .f32⟩
  | .local .tc .vmem, ⟨15, _⟩ => ⟨S128x3200, .f32⟩
  | .local .tc .vmem, ⟨16, _⟩ => ⟨S128x3200, .f32⟩
  | .local .tc .vmem, ⟨17, _⟩ => ⟨S128x3200, .f32⟩
  | .local .tc .vmem, ⟨18, _⟩ => ⟨S4x3200x128, .f32⟩
  | .local .tc .vmem, ⟨19, _⟩ => ⟨S4x3200x128, .f32⟩
  | .local .tc .vmem, ⟨20, _⟩ => ⟨S5x128x128, .f32⟩
  | .local .tc .vmem, ⟨21, _⟩ => ⟨S128x1, .f32⟩
  | .local .tc .vmem, ⟨22, _⟩ => ⟨S128x3200, .f32⟩
  | .local .tc .vmem, ⟨23, _⟩ => ⟨S128x3200, .f32⟩
  | .local .tc .vmem, ⟨24, _⟩ => ⟨S128x3200, .f32⟩
  | .local .tc .vmem, ⟨25, _⟩ => ⟨S128x3200, .f32⟩
  | .local .tc .vmem, ⟨26, _⟩ => ⟨S4x3200x128, .f32⟩
  | .local .tc .vmem, ⟨27, _⟩ => ⟨S4x3200x128, .f32⟩
  | .local .tc .vmem, ⟨28, _⟩ => ⟨S5x128x128, .f32⟩
  | .local .tc .vmem, ⟨29, _⟩ => ⟨S128x1, .f32⟩
  | .local .tc .vmem, ⟨30, _⟩ => ⟨S128x3200, .f32⟩
  | .local .tc .vmem, ⟨31, _⟩ => ⟨S128x3200, .f32⟩
  | .local .tc .vmem, ⟨32, _⟩ => ⟨S128x3200, .f32⟩
  | .local .tc .vmem, ⟨33, _⟩ => ⟨S128x3200, .f32⟩
  | .local .tc .vmem, ⟨34, _⟩ => ⟨S4x3200x128, .f32⟩
  | .local .tc .vmem, ⟨35, _⟩ => ⟨S4x3200x128, .f32⟩
  | .local .tc .vmem, ⟨36, _⟩ => ⟨S5x128x128, .f32⟩
  | .local .tc .vmem, ⟨37, _⟩ => ⟨S128x1, .f32⟩
  | .local .tc .vmem, ⟨38, _⟩ => ⟨S128x3200, .f32⟩
  | .local .tc .vmem, ⟨39, _⟩ => ⟨S128x3200, .f32⟩
  | .local .scVector .vmem, ⟨0, _⟩ => ⟨S2x4x128, .i32⟩
  | .local .scVector .vmem, ⟨1, _⟩ => ⟨S4x128x128, .f32⟩
  | .local .scVector .vmem, ⟨2, _⟩ => ⟨S2x4x128, .i32⟩
  | .local .scVector .vmem, ⟨3, _⟩ => ⟨S4x128x128, .f32⟩
  | .local .scVector .vmem, ⟨4, _⟩ => ⟨S2x4x128, .i32⟩
  | .local .scVector .vmem, ⟨5, _⟩ => ⟨S4x128x128, .f32⟩
  | .local .scVector .vmem, ⟨6, _⟩ => ⟨S2x4x128, .i32⟩
  | .local .scVector .vmem, ⟨7, _⟩ => ⟨S4x128x128, .f32⟩
  | .local .scVector .vmem, ⟨8, _⟩ => ⟨S2x4x128, .i32⟩
  | .local .scVector .vmem, ⟨9, _⟩ => ⟨S4x128x128, .f32⟩
  | _, _ => ⟨S1x128x160000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 85 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTables nBuf rfl bufTy 4 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v1_scv : Ref sig .scVector := ⟨.hbm, 5, rfl⟩
abbrev main_v8_scv : Ref sig .scVector := ⟨.hbm, 12, rfl⟩
abbrev main_v9_scv : Ref sig .scVector := ⟨.hbm, 13, rfl⟩
abbrev main_v10_scv : Ref sig .scVector := ⟨.hbm, 14, rfl⟩
abbrev main_v11_scv : Ref sig .scVector := ⟨.hbm, 15, rfl⟩
abbrev main_v12_scv : Ref sig .scVector := ⟨.hbm, 16, rfl⟩
abbrev main_v13_scv : Ref sig .scVector := ⟨.hbm, 17, rfl⟩
abbrev main_v14_scv : Ref sig .scVector := ⟨.hbm, 18, rfl⟩
abbrev main_v15_scv : Ref sig .scVector := ⟨.hbm, 19, rfl⟩
abbrev main_v16_scv : Ref sig .scVector := ⟨.hbm, 20, rfl⟩
abbrev main_v17_scv : Ref sig .scVector := ⟨.hbm, 21, rfl⟩
abbrev cc5_stg0_0 : Ref sig .tc := ⟨.vmem, 0, rfl⟩
abbrev cc5_stg0_1 : Ref sig .tc := ⟨.vmem, 1, rfl⟩
abbrev cc5_stg1_0 : Ref sig .tc := ⟨.vmem, 2, rfl⟩
abbrev cc5_stg1_1 : Ref sig .tc := ⟨.vmem, 3, rfl⟩
abbrev cc5_stg2_0 : Ref sig .tc := ⟨.vmem, 4, rfl⟩
abbrev cc5_stg3_0 : Ref sig .tc := ⟨.vmem, 5, rfl⟩
abbrev cc5_stg4_0 : Ref sig .tc := ⟨.vmem, 6, rfl⟩
abbrev cc5_stg4_1 : Ref sig .tc := ⟨.vmem, 7, rfl⟩
abbrev cc6_stg0_0 : Ref sig .tc := ⟨.vmem, 8, rfl⟩
abbrev cc6_stg0_1 : Ref sig .tc := ⟨.vmem, 9, rfl⟩
abbrev cc6_stg1_0 : Ref sig .tc := ⟨.vmem, 10, rfl⟩
abbrev cc6_stg1_1 : Ref sig .tc := ⟨.vmem, 11, rfl⟩
abbrev cc6_stg2_0 : Ref sig .tc := ⟨.vmem, 12, rfl⟩
abbrev cc6_stg3_0 : Ref sig .tc := ⟨.vmem, 13, rfl⟩
abbrev cc6_stg4_0 : Ref sig .tc := ⟨.vmem, 14, rfl⟩
abbrev cc6_stg4_1 : Ref sig .tc := ⟨.vmem, 15, rfl⟩
abbrev cc7_stg0_0 : Ref sig .tc := ⟨.vmem, 16, rfl⟩
abbrev cc7_stg0_1 : Ref sig .tc := ⟨.vmem, 17, rfl⟩
abbrev cc7_stg1_0 : Ref sig .tc := ⟨.vmem, 18, rfl⟩
abbrev cc7_stg1_1 : Ref sig .tc := ⟨.vmem, 19, rfl⟩
abbrev cc7_stg2_0 : Ref sig .tc := ⟨.vmem, 20, rfl⟩
abbrev cc7_stg3_0 : Ref sig .tc := ⟨.vmem, 21, rfl⟩
abbrev cc7_stg4_0 : Ref sig .tc := ⟨.vmem, 22, rfl⟩
abbrev cc7_stg4_1 : Ref sig .tc := ⟨.vmem, 23, rfl⟩
abbrev cc8_stg0_0 : Ref sig .tc := ⟨.vmem, 24, rfl⟩
abbrev cc8_stg0_1 : Ref sig .tc := ⟨.vmem, 25, rfl⟩
abbrev cc8_stg1_0 : Ref sig .tc := ⟨.vmem, 26, rfl⟩
abbrev cc8_stg1_1 : Ref sig .tc := ⟨.vmem, 27, rfl⟩
abbrev cc8_stg2_0 : Ref sig .tc := ⟨.vmem, 28, rfl⟩
abbrev cc8_stg3_0 : Ref sig .tc := ⟨.vmem, 29, rfl⟩
abbrev cc8_stg4_0 : Ref sig .tc := ⟨.vmem, 30, rfl⟩
abbrev cc8_stg4_1 : Ref sig .tc := ⟨.vmem, 31, rfl⟩
abbrev cc9_stg0_0 : Ref sig .tc := ⟨.vmem, 32, rfl⟩
abbrev cc9_stg0_1 : Ref sig .tc := ⟨.vmem, 33, rfl⟩
abbrev cc9_stg1_0 : Ref sig .tc := ⟨.vmem, 34, rfl⟩
abbrev cc9_stg1_1 : Ref sig .tc := ⟨.vmem, 35, rfl⟩
abbrev cc9_stg2_0 : Ref sig .tc := ⟨.vmem, 36, rfl⟩
abbrev cc9_stg3_0 : Ref sig .tc := ⟨.vmem, 37, rfl⟩
abbrev cc9_stg4_0 : Ref sig .tc := ⟨.vmem, 38, rfl⟩
abbrev cc9_stg4_1 : Ref sig .tc := ⟨.vmem, 39, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_scratch0 : Ref sig .scVector := ⟨.vmem, 4, rfl⟩
abbrev cc2_scratch1 : Ref sig .scVector := ⟨.vmem, 5, rfl⟩
abbrev cc3_scratch0 : Ref sig .scVector := ⟨.vmem, 6, rfl⟩
abbrev cc3_scratch1 : Ref sig .scVector := ⟨.vmem, 7, rfl⟩
abbrev cc4_scratch0 : Ref sig .scVector := ⟨.vmem, 8, rfl⟩
abbrev cc4_scratch1 : Ref sig .scVector := ⟨.vmem, 9, rfl⟩
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem4_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem3_0 : DmaSem sig := 58
abbrev cc6_sem4_0 : DmaSem sig := 59
abbrev cc6_sem4_1 : DmaSem sig := 60
abbrev cc7_sem0_0 : DmaSem sig := 61
abbrev cc7_sem0_1 : DmaSem sig := 62
abbrev cc7_sem1_0 : DmaSem sig := 63
abbrev cc7_sem1_1 : DmaSem sig := 64
abbrev cc7_sem2_0 : DmaSem sig := 65
abbrev cc7_sem3_0 : DmaSem sig := 66
abbrev cc7_sem4_0 : DmaSem sig := 67
abbrev cc7_sem4_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem3_0 : DmaSem sig := 74
abbrev cc8_sem4_0 : DmaSem sig := 75
abbrev cc8_sem4_1 : DmaSem sig := 76
abbrev cc9_sem0_0 : DmaSem sig := 77
abbrev cc9_sem0_1 : DmaSem sig := 78
abbrev cc9_sem1_0 : DmaSem sig := 79
abbrev cc9_sem1_1 : DmaSem sig := 80
abbrev cc9_sem2_0 : DmaSem sig := 81
abbrev cc9_sem3_0 : DmaSem sig := 82
abbrev cc9_sem4_0 : DmaSem sig := 83
abbrev cc9_sem4_1 : DmaSem sig := 84
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
@[reducible] def k0_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c250_i32 : BitVec 32 := 250#32
  let v46 : BitVec 1 := Scalar.cmpi .slt v44 c250_i32
  let v47 : BitVec 32 := Scalar.extui v46
  let c0_i32_51 : BitVec 32 := 0#32
  let v48 : BitVec 1 := Scalar.cmpi .ne v47 c0_i32_51
  v48

def k0_off2 (k0_t1 : Fin k0_t1_loop.trips) : Fin 3 → Nat :=
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let c0_i32_52 : BitVec 32 := 0#32
  let c0_i32_53 : BitVec 32 := 0#32
  ![v45.toNat, 0, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c0_i32_54 : BitVec 32 := 0#32
  let c0_i32_55 : BitVec 32 := 0#32
  ![v44.toNat, 0, 0]
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c32_i32_60 : BitVec 32 := 32#32
  let v57 : BitVec 32 := Scalar.addi v44 c32_i32_60
  let c250_i32_61 : BitVec 32 := 250#32
  let v58 : BitVec 1 := Scalar.cmpi .slt v57 c250_i32_61
  let v59 : BitVec 32 := Scalar.extui v58
  let c0_i32_62 : BitVec 32 := 0#32
  let v60 : BitVec 1 := Scalar.cmpi .ne v59 c0_i32_62
  v60

def k0_off4 (k0_t1 : Fin k0_t1_loop.trips) : Fin 3 → Nat :=
  let c1_i32_163 : BitVec 32 := 1#32
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let v150 : BitVec 32 := Scalar.subi c1_i32_163 v45
  let c0_i32_164 : BitVec 32 := 0#32
  let c0_i32_165 : BitVec 32 := 0#32
  ![v150.toNat, 0, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c32_i32_162 : BitVec 32 := 32#32
  let v149 : BitVec 32 := Scalar.addi v44 c32_i32_162
  let c0_i32_166 : BitVec 32 := 0#32
  let c0_i32_167 : BitVec 32 := 0#32
  ![v149.toNat, 0, 0]
def k0_off6 (k0_t1 : Fin k0_t1_loop.trips) : Fin 3 → Nat :=
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let c0_i32_65 : BitVec 32 := 0#32
  let c0_i32_69 : BitVec 32 := 0#32
  ![v45.toNat, 0, 0]
def k0_off7 (k0_t1 : Fin k0_t1_loop.trips) : Fin 3 → Nat :=
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let c1_i32_74 : BitVec 32 := 1#32
  let c0_i32_78 : BitVec 32 := 0#32
  ![v45.toNat, 1, 0]
def k0_off8 (k0_t1 : Fin k0_t1_loop.trips) : Fin 3 → Nat :=
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let c2_i32_83 : BitVec 32 := 2#32
  let c0_i32_87 : BitVec 32 := 0#32
  ![v45.toNat, 2, 0]
def k0_off9 (k0_t1 : Fin k0_t1_loop.trips) : Fin 3 → Nat :=
  let c0_i32_9 : BitVec 32 := 0#32
  let c1_i32 : BitVec 32 := 1#32
  let arg16 : BitVec 32 := Scf.iv c0_i32_9 c1_i32 k0_t1
  let c2_i32_50 : BitVec 32 := 2#32
  let v45 : BitVec 32 := Scalar.remsi arg16 c2_i32_50
  let c3_i32_92 : BitVec 32 := 3#32
  let c0_i32_96 : BitVec 32 := 0#32
  ![v45.toNat, 3, 0]
def k0_off10 (i : grid0.Coords) (k0_t1 : Fin k0_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c128_i32 : BitVec 32 := 128#32
  let v98 : BitVec 32 := Scalar.muli v44 c128_i32
  let c0_i32_110 : BitVec 32 := 0#32
  ![0, v98.toNat, 0]
def k0_off11 (i : grid0.Coords) (k0_t1 : Fin k0_t1_loop.trips) : Fin 3 → Nat :=
  let c1_i32_123 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c128_i32_121 : BitVec 32 := 128#32
  let v112 : BitVec 32 := Scalar.muli v44 c128_i32_121
  let c0_i32_126 : BitVec 32 := 0#32
  ![1, v112.toNat, 0]
def k0_off12 (i : grid0.Coords) (k0_t1 : Fin k0_t1_loop.trips) : Fin 3 → Nat :=
  let c2_i32_139 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c128_i32_137 : BitVec 32 := 128#32
  let v126 : BitVec 32 := Scalar.muli v44 c128_i32_137
  let c0_i32_142 : BitVec 32 := 0#32
  ![2, v126.toNat, 0]
def k0_off13 (i : grid0.Coords) (k0_t1 : Fin k0_t1_loop.trips) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k0_t1
  let c32_i32 : BitVec 32 := 32#32
  let v43 : BitVec 32 := Scalar.muli arg16 c32_i32
  let v44 : BitVec 32 := Scalar.addi v1 v43
  let c128_i32_153 : BitVec 32 := 128#32
  let v140 : BitVec 32 := Scalar.muli v44 c128_i32_153
  let c0_i32_158 : BitVec 32 := 0#32
  ![3, v140.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
@[reducible] def k1_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k1_cond1 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c250_i32 : BitVec 32 := 250#32
  let v46 : BitVec 1 := Scalar.cmpi .slt v44 c250_i32
  let v47 : BitVec 32 := Scalar.extui v46
  let c0_i32_51 : BitVec 32 := 0#32
  let v48 : BitVec 1 := Scalar.cmpi .ne v47 c0_i32_51
  v48

def k1_off2 (k1_t1 : Fin k1_t1_loop.trips) : Fin 3 → Nat :=
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let c0_i32_52 : BitVec 32 := 0#32
  let c0_i32_53 : BitVec 32 := 0#32
  ![v45.toNat, 0, 0]
def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c0_i32_54 : BitVec 32 := 0#32
  let c0_i32_55 : BitVec 32 := 0#32
  ![v44.toNat, 0, 0]
def k1_cond2 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c32_i32_60 : BitVec 32 := 32#32
  let v57 : BitVec 32 := Scalar.addi v44 c32_i32_60
  let c250_i32_61 : BitVec 32 := 250#32
  let v58 : BitVec 1 := Scalar.cmpi .slt v57 c250_i32_61
  let v59 : BitVec 32 := Scalar.extui v58
  let c0_i32_62 : BitVec 32 := 0#32
  let v60 : BitVec 1 := Scalar.cmpi .ne v59 c0_i32_62
  v60

def k1_off4 (k1_t1 : Fin k1_t1_loop.trips) : Fin 3 → Nat :=
  let c1_i32_163 : BitVec 32 := 1#32
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let v150 : BitVec 32 := Scalar.subi c1_i32_163 v45
  let c0_i32_164 : BitVec 32 := 0#32
  let c0_i32_165 : BitVec 32 := 0#32
  ![v150.toNat, 0, 0]
def k1_off5 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c32_i32_162 : BitVec 32 := 32#32
  let v149 : BitVec 32 := Scalar.addi v44 c32_i32_162
  let c0_i32_166 : BitVec 32 := 0#32
  let c0_i32_167 : BitVec 32 := 0#32
  ![v149.toNat, 0, 0]
def k1_off6 (k1_t1 : Fin k1_t1_loop.trips) : Fin 3 → Nat :=
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let c0_i32_65 : BitVec 32 := 0#32
  let c0_i32_69 : BitVec 32 := 0#32
  ![v45.toNat, 0, 0]
def k1_off7 (k1_t1 : Fin k1_t1_loop.trips) : Fin 3 → Nat :=
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let c1_i32_74 : BitVec 32 := 1#32
  let c0_i32_78 : BitVec 32 := 0#32
  ![v45.toNat, 1, 0]
def k1_off8 (k1_t1 : Fin k1_t1_loop.trips) : Fin 3 → Nat :=
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let c2_i32_83 : BitVec 32 := 2#32
  let c0_i32_87 : BitVec 32 := 0#32
  ![v45.toNat, 2, 0]
def k1_off9 (k1_t1 : Fin k1_t1_loop.trips) : Fin 3 → Nat :=
  let c0_i32_9 : BitVec 32 := 0#32
  let c1_i32 : BitVec 32 := 1#32
  let arg16 : BitVec 32 := Scf.iv c0_i32_9 c1_i32 k1_t1
  let c2_i32_50 : BitVec 32 := 2#32
  let v45 : BitVec 32 := Scalar.remsi arg16 c2_i32_50
  let c3_i32_92 : BitVec 32 := 3#32
  let c0_i32_96 : BitVec 32 := 0#32
  ![v45.toNat, 3, 0]
def k1_off10 (i : grid1.Coords) (k1_t1 : Fin k1_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c128_i32 : BitVec 32 := 128#32
  let v98 : BitVec 32 := Scalar.muli v44 c128_i32
  let c0_i32_110 : BitVec 32 := 0#32
  ![0, v98.toNat, 0]
def k1_off11 (i : grid1.Coords) (k1_t1 : Fin k1_t1_loop.trips) : Fin 3 → Nat :=
  let c1_i32_123 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c128_i32_121 : BitVec 32 := 128#32
  let v112 : BitVec 32 := Scalar.muli v44 c128_i32_121
  let c0_i32_126 : BitVec 32 := 0#32
  ![1, v112.toNat, 0]
def k1_off12 (i : grid1.Coords) (k1_t1 : Fin k1_t1_loop.trips) : Fin 3 → Nat :=
  let c2_i32_139 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c128_i32_137 : BitVec 32 := 128#32
  let v126 : BitVec 32 := Scalar.muli v44 c128_i32_137
  let c0_i32_142 : BitVec 32 := 0#32
  ![2, v126.toNat, 0]
def k1_off13 (i : grid1.Coords) (k1_t1 : Fin k1_t1_loop.trips) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k1_t1
  let c32_i32 : BitVec 32 := 32#32
  let v43 : BitVec 32 := Scalar.muli arg16 c32_i32
  let v44 : BitVec 32 := Scalar.addi v1 v43
  let c128_i32_153 : BitVec 32 := 128#32
  let v140 : BitVec 32 := Scalar.muli v44 c128_i32_153
  let c0_i32_158 : BitVec 32 := 0#32
  ![3, v140.toNat, 0]
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
@[reducible] def k2_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k2_cond1 (i : grid2.Coords) (k2_t1 : Fin k2_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c250_i32 : BitVec 32 := 250#32
  let v46 : BitVec 1 := Scalar.cmpi .slt v44 c250_i32
  let v47 : BitVec 32 := Scalar.extui v46
  let c0_i32_51 : BitVec 32 := 0#32
  let v48 : BitVec 1 := Scalar.cmpi .ne v47 c0_i32_51
  v48

def k2_off2 (k2_t1 : Fin k2_t1_loop.trips) : Fin 3 → Nat :=
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let c0_i32_52 : BitVec 32 := 0#32
  let c0_i32_53 : BitVec 32 := 0#32
  ![v45.toNat, 0, 0]
def k2_off3 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c0_i32_54 : BitVec 32 := 0#32
  let c0_i32_55 : BitVec 32 := 0#32
  ![v44.toNat, 0, 0]
def k2_cond2 (i : grid2.Coords) (k2_t1 : Fin k2_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c32_i32_60 : BitVec 32 := 32#32
  let v57 : BitVec 32 := Scalar.addi v44 c32_i32_60
  let c250_i32_61 : BitVec 32 := 250#32
  let v58 : BitVec 1 := Scalar.cmpi .slt v57 c250_i32_61
  let v59 : BitVec 32 := Scalar.extui v58
  let c0_i32_62 : BitVec 32 := 0#32
  let v60 : BitVec 1 := Scalar.cmpi .ne v59 c0_i32_62
  v60

def k2_off4 (k2_t1 : Fin k2_t1_loop.trips) : Fin 3 → Nat :=
  let c1_i32_163 : BitVec 32 := 1#32
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let v150 : BitVec 32 := Scalar.subi c1_i32_163 v45
  let c0_i32_164 : BitVec 32 := 0#32
  let c0_i32_165 : BitVec 32 := 0#32
  ![v150.toNat, 0, 0]
def k2_off5 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c32_i32_162 : BitVec 32 := 32#32
  let v149 : BitVec 32 := Scalar.addi v44 c32_i32_162
  let c0_i32_166 : BitVec 32 := 0#32
  let c0_i32_167 : BitVec 32 := 0#32
  ![v149.toNat, 0, 0]
def k2_off6 (k2_t1 : Fin k2_t1_loop.trips) : Fin 3 → Nat :=
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let c0_i32_65 : BitVec 32 := 0#32
  let c0_i32_69 : BitVec 32 := 0#32
  ![v45.toNat, 0, 0]
def k2_off7 (k2_t1 : Fin k2_t1_loop.trips) : Fin 3 → Nat :=
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let c1_i32_74 : BitVec 32 := 1#32
  let c0_i32_78 : BitVec 32 := 0#32
  ![v45.toNat, 1, 0]
def k2_off8 (k2_t1 : Fin k2_t1_loop.trips) : Fin 3 → Nat :=
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let c2_i32_83 : BitVec 32 := 2#32
  let c0_i32_87 : BitVec 32 := 0#32
  ![v45.toNat, 2, 0]
def k2_off9 (k2_t1 : Fin k2_t1_loop.trips) : Fin 3 → Nat :=
  let c0_i32_9 : BitVec 32 := 0#32
  let c1_i32 : BitVec 32 := 1#32
  let arg16 : BitVec 32 := Scf.iv c0_i32_9 c1_i32 k2_t1
  let c2_i32_50 : BitVec 32 := 2#32
  let v45 : BitVec 32 := Scalar.remsi arg16 c2_i32_50
  let c3_i32_92 : BitVec 32 := 3#32
  let c0_i32_96 : BitVec 32 := 0#32
  ![v45.toNat, 3, 0]
def k2_off10 (i : grid2.Coords) (k2_t1 : Fin k2_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c128_i32 : BitVec 32 := 128#32
  let v98 : BitVec 32 := Scalar.muli v44 c128_i32
  let c0_i32_110 : BitVec 32 := 0#32
  ![0, v98.toNat, 0]
def k2_off11 (i : grid2.Coords) (k2_t1 : Fin k2_t1_loop.trips) : Fin 3 → Nat :=
  let c1_i32_123 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c128_i32_121 : BitVec 32 := 128#32
  let v112 : BitVec 32 := Scalar.muli v44 c128_i32_121
  let c0_i32_126 : BitVec 32 := 0#32
  ![1, v112.toNat, 0]
def k2_off12 (i : grid2.Coords) (k2_t1 : Fin k2_t1_loop.trips) : Fin 3 → Nat :=
  let c2_i32_139 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c128_i32_137 : BitVec 32 := 128#32
  let v126 : BitVec 32 := Scalar.muli v44 c128_i32_137
  let c0_i32_142 : BitVec 32 := 0#32
  ![2, v126.toNat, 0]
def k2_off13 (i : grid2.Coords) (k2_t1 : Fin k2_t1_loop.trips) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k2_t1
  let c32_i32 : BitVec 32 := 32#32
  let v43 : BitVec 32 := Scalar.muli arg16 c32_i32
  let v44 : BitVec 32 := Scalar.addi v1 v43
  let c128_i32_153 : BitVec 32 := 128#32
  let v140 : BitVec 32 := Scalar.muli v44 c128_i32_153
  let c0_i32_158 : BitVec 32 := 0#32
  ![3, v140.toNat, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
@[reducible] def k3_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k3_cond1 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c250_i32 : BitVec 32 := 250#32
  let v46 : BitVec 1 := Scalar.cmpi .slt v44 c250_i32
  let v47 : BitVec 32 := Scalar.extui v46
  let c0_i32_51 : BitVec 32 := 0#32
  let v48 : BitVec 1 := Scalar.cmpi .ne v47 c0_i32_51
  v48

def k3_off2 (k3_t1 : Fin k3_t1_loop.trips) : Fin 3 → Nat :=
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let c0_i32_52 : BitVec 32 := 0#32
  let c0_i32_53 : BitVec 32 := 0#32
  ![v45.toNat, 0, 0]
def k3_off3 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c0_i32_54 : BitVec 32 := 0#32
  let c0_i32_55 : BitVec 32 := 0#32
  ![v44.toNat, 0, 0]
def k3_cond2 (i : grid3.Coords) (k3_t1 : Fin k3_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c32_i32_60 : BitVec 32 := 32#32
  let v57 : BitVec 32 := Scalar.addi v44 c32_i32_60
  let c250_i32_61 : BitVec 32 := 250#32
  let v58 : BitVec 1 := Scalar.cmpi .slt v57 c250_i32_61
  let v59 : BitVec 32 := Scalar.extui v58
  let c0_i32_62 : BitVec 32 := 0#32
  let v60 : BitVec 1 := Scalar.cmpi .ne v59 c0_i32_62
  v60

def k3_off4 (k3_t1 : Fin k3_t1_loop.trips) : Fin 3 → Nat :=
  let c1_i32_163 : BitVec 32 := 1#32
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let v150 : BitVec 32 := Scalar.subi c1_i32_163 v45
  let c0_i32_164 : BitVec 32 := 0#32
  let c0_i32_165 : BitVec 32 := 0#32
  ![v150.toNat, 0, 0]
def k3_off5 (i : grid3.Coords) (k3_t1 : Fin k3_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c32_i32_162 : BitVec 32 := 32#32
  let v149 : BitVec 32 := Scalar.addi v44 c32_i32_162
  let c0_i32_166 : BitVec 32 := 0#32
  let c0_i32_167 : BitVec 32 := 0#32
  ![v149.toNat, 0, 0]
def k3_off6 (k3_t1 : Fin k3_t1_loop.trips) : Fin 3 → Nat :=
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let c0_i32_65 : BitVec 32 := 0#32
  let c0_i32_69 : BitVec 32 := 0#32
  ![v45.toNat, 0, 0]
def k3_off7 (k3_t1 : Fin k3_t1_loop.trips) : Fin 3 → Nat :=
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let c1_i32_74 : BitVec 32 := 1#32
  let c0_i32_78 : BitVec 32 := 0#32
  ![v45.toNat, 1, 0]
def k3_off8 (k3_t1 : Fin k3_t1_loop.trips) : Fin 3 → Nat :=
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let c2_i32_83 : BitVec 32 := 2#32
  let c0_i32_87 : BitVec 32 := 0#32
  ![v45.toNat, 2, 0]
def k3_off9 (k3_t1 : Fin k3_t1_loop.trips) : Fin 3 → Nat :=
  let c0_i32_9 : BitVec 32 := 0#32
  let c1_i32 : BitVec 32 := 1#32
  let arg16 : BitVec 32 := Scf.iv c0_i32_9 c1_i32 k3_t1
  let c2_i32_50 : BitVec 32 := 2#32
  let v45 : BitVec 32 := Scalar.remsi arg16 c2_i32_50
  let c3_i32_92 : BitVec 32 := 3#32
  let c0_i32_96 : BitVec 32 := 0#32
  ![v45.toNat, 3, 0]
def k3_off10 (i : grid3.Coords) (k3_t1 : Fin k3_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c128_i32 : BitVec 32 := 128#32
  let v98 : BitVec 32 := Scalar.muli v44 c128_i32
  let c0_i32_110 : BitVec 32 := 0#32
  ![0, v98.toNat, 0]
def k3_off11 (i : grid3.Coords) (k3_t1 : Fin k3_t1_loop.trips) : Fin 3 → Nat :=
  let c1_i32_123 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c128_i32_121 : BitVec 32 := 128#32
  let v112 : BitVec 32 := Scalar.muli v44 c128_i32_121
  let c0_i32_126 : BitVec 32 := 0#32
  ![1, v112.toNat, 0]
def k3_off12 (i : grid3.Coords) (k3_t1 : Fin k3_t1_loop.trips) : Fin 3 → Nat :=
  let c2_i32_139 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c128_i32_137 : BitVec 32 := 128#32
  let v126 : BitVec 32 := Scalar.muli v44 c128_i32_137
  let c0_i32_142 : BitVec 32 := 0#32
  ![2, v126.toNat, 0]
def k3_off13 (i : grid3.Coords) (k3_t1 : Fin k3_t1_loop.trips) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k3_t1
  let c32_i32 : BitVec 32 := 32#32
  let v43 : BitVec 32 := Scalar.muli arg16 c32_i32
  let v44 : BitVec 32 := Scalar.addi v1 v43
  let c128_i32_153 : BitVec 32 := 128#32
  let v140 : BitVec 32 := Scalar.muli v44 c128_i32_153
  let c0_i32_158 : BitVec 32 := 0#32
  ![3, v140.toNat, 0]
abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_3 : BitVec 32 := 0#32
  ![v1.toNat, 0, 0]
@[reducible] def k4_t1_loop : Scf.Loop 32 :=
  let c0_i32_9 : BitVec 32 := 0#32
  let c8_i32 : BitVec 32 := 8#32
  let v10 : BitVec 32 := Scalar.addi c0_i32_9 c8_i32
  let c1_i32 : BitVec 32 := 1#32
  ⟨c0_i32_9, v10, c1_i32⟩
def k4_cond1 (i : grid4.Coords) (k4_t1 : Fin k4_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c250_i32 : BitVec 32 := 250#32
  let v46 : BitVec 1 := Scalar.cmpi .slt v44 c250_i32
  let v47 : BitVec 32 := Scalar.extui v46
  let c0_i32_51 : BitVec 32 := 0#32
  let v48 : BitVec 1 := Scalar.cmpi .ne v47 c0_i32_51
  v48

def k4_off2 (k4_t1 : Fin k4_t1_loop.trips) : Fin 3 → Nat :=
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let c0_i32_52 : BitVec 32 := 0#32
  let c0_i32_53 : BitVec 32 := 0#32
  ![v45.toNat, 0, 0]
def k4_off3 (i : grid4.Coords) (k4_t1 : Fin k4_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c0_i32_54 : BitVec 32 := 0#32
  let c0_i32_55 : BitVec 32 := 0#32
  ![v44.toNat, 0, 0]
def k4_cond2 (i : grid4.Coords) (k4_t1 : Fin k4_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c32_i32_60 : BitVec 32 := 32#32
  let v57 : BitVec 32 := Scalar.addi v44 c32_i32_60
  let c250_i32_61 : BitVec 32 := 250#32
  let v58 : BitVec 1 := Scalar.cmpi .slt v57 c250_i32_61
  let v59 : BitVec 32 := Scalar.extui v58
  let c0_i32_62 : BitVec 32 := 0#32
  let v60 : BitVec 1 := Scalar.cmpi .ne v59 c0_i32_62
  v60

def k4_off4 (k4_t1 : Fin k4_t1_loop.trips) : Fin 3 → Nat :=
  let c1_i32_163 : BitVec 32 := 1#32
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let v150 : BitVec 32 := Scalar.subi c1_i32_163 v45
  let c0_i32_164 : BitVec 32 := 0#32
  let c0_i32_165 : BitVec 32 := 0#32
  ![v150.toNat, 0, 0]
def k4_off5 (i : grid4.Coords) (k4_t1 : Fin k4_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c32_i32_162 : BitVec 32 := 32#32
  let v149 : BitVec 32 := Scalar.addi v44 c32_i32_162
  let c0_i32_166 : BitVec 32 := 0#32
  let c0_i32_167 : BitVec 32 := 0#32
  ![v149.toNat, 0, 0]
def k4_off6 (k4_t1 : Fin k4_t1_loop.trips) : Fin 3 → Nat :=
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let c0_i32_65 : BitVec 32 := 0#32
  let c0_i32_69 : BitVec 32 := 0#32
  ![v45.toNat, 0, 0]
def k4_off7 (k4_t1 : Fin k4_t1_loop.trips) : Fin 3 → Nat :=
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let c1_i32_74 : BitVec 32 := 1#32
  let c0_i32_78 : BitVec 32 := 0#32
  ![v45.toNat, 1, 0]
def k4_off8 (k4_t1 : Fin k4_t1_loop.trips) : Fin 3 → Nat :=
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let c2_i32_83 : BitVec 32 := 2#32
  let c0_i32_87 : BitVec 32 := 0#32
  ![v45.toNat, 2, 0]
def k4_off9 (k4_t1 : Fin k4_t1_loop.trips) : Fin 3 → Nat :=
  let c0_i32_9 : BitVec 32 := 0#32
  let c1_i32 : BitVec 32 := 1#32
  let arg16 : BitVec 32 := Scf.iv c0_i32_9 c1_i32 k4_t1
  let c2_i32_50 : BitVec 32 := 2#32
  let v45 : BitVec 32 := Scalar.remsi arg16 c2_i32_50
  let c3_i32_92 : BitVec 32 := 3#32
  let c0_i32_96 : BitVec 32 := 0#32
  ![v45.toNat, 3, 0]
def k4_off10 (i : grid4.Coords) (k4_t1 : Fin k4_t1_loop.trips) : Fin 3 → Nat :=
  let c0_i32_107 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c128_i32 : BitVec 32 := 128#32
  let v98 : BitVec 32 := Scalar.muli v44 c128_i32
  let c0_i32_110 : BitVec 32 := 0#32
  ![0, v98.toNat, 0]
def k4_off11 (i : grid4.Coords) (k4_t1 : Fin k4_t1_loop.trips) : Fin 3 → Nat :=
  let c1_i32_123 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c128_i32_121 : BitVec 32 := 128#32
  let v112 : BitVec 32 := Scalar.muli v44 c128_i32_121
  let c0_i32_126 : BitVec 32 := 0#32
  ![1, v112.toNat, 0]
def k4_off12 (i : grid4.Coords) (k4_t1 : Fin k4_t1_loop.trips) : Fin 3 → Nat :=
  let c2_i32_139 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c128_i32_137 : BitVec 32 := 128#32
  let v126 : BitVec 32 := Scalar.muli v44 c128_i32_137
  let c0_i32_142 : BitVec 32 := 0#32
  ![2, v126.toNat, 0]
def k4_off13 (i : grid4.Coords) (k4_t1 : Fin k4_t1_loop.trips) : Fin 3 → Nat :=
  let c3_i32_155 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_9 : BitVec 32 := 0#32
  let c1_i32 : BitVec 32 := 1#32
  let arg16 : BitVec 32 := Scf.iv c0_i32_9 c1_i32 k4_t1
  let c32_i32 : BitVec 32 := 32#32
  let v43 : BitVec 32 := Scalar.muli arg16 c32_i32
  let v44 : BitVec 32 := Scalar.addi v1 v43
  let c128_i32_153 : BitVec 32 := 128#32
  let v140 : BitVec 32 := Scalar.muli v44 c128_i32_153
  let c0_i32_158 : BitVec 32 := 0#32
  ![3, v140.toNat, 0]
abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage5_0 : Fin 2 → Memref sig .tc .vmem S128x3200 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x3200x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S5x128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S128x3200 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

abbrev stage6_0 : Fin 2 → Memref sig .tc .vmem S128x3200 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4x3200x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S5x128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S128x3200 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![c0_i32.toNat, v0.toNat]

abbrev stage7_0 : Fin 2 → Memref sig .tc .vmem S128x3200 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4x3200x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S5x128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S128x3200 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c30_i32 : BitVec 32 := 30#32
  let v0 : BitVec 32 := Scalar.addi arg0 c30_i32
  let c0_i32 : BitVec 32 := 0#32
  let c0_i32_0 : BitVec 32 := 0#32
  ![c0_i32.toNat, v0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c30_i32 : BitVec 32 := 30#32
  let v0 : BitVec 32 := Scalar.addi arg0 c30_i32
  let c0_i32 : BitVec 32 := 0#32
  let c0_i32_0 : BitVec 32 := 0#32
  ![c0_i32.toNat, v0.toNat]

abbrev stage8_0 : Fin 2 → Memref sig .tc .vmem S128x3200 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4x3200x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S5x128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S128x3200 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

abbrev stage9_0 : Fin 2 → Memref sig .tc .vmem S128x3200 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4x3200x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S5x128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S128x3200 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))

class Facts₀ : Prop where
  shapeCasts_S1x128x160000_S128x160000 : S1x128x160000.ShapeCasts S128x160000
  transposes_S128x160000_S160000x128_1_0 : S128x160000.Transposes [1, 0] S160000x128
  shapeCasts_S1x160000x4_S160000x4 : S1x160000x4.ShapeCasts S160000x4
  shapeCasts_S160000x4_S1250x128x4 : S160000x4.ShapeCasts S1250x128x4
  transposes_S1250x128x4_S1250x4x128_0_2_1 : S1250x128x4.Transposes [0, 2, 1] S1250x4x128
  shapeCasts_S128x128x1x5_S128x128x5 : S128x128x1x5.ShapeCasts S128x128x5
  transposes_S128x128x5_S5x128x128_2_0_1 : S128x128x5.Transposes [2, 0, 1] S5x128x128
  shapeCasts_S128_S128x1 : S128.ShapeCasts S128x1
  slices_S1250x4x128_S250x4x128_0_0_0 : S1250x4x128.Slices ![0, 0, 0] S250x4x128
  inb_S2x4x128_S1x4x128_0_0_0 : ∀ a, (![0, 0, 0] : Fin 3 → Nat) a + S1x4x128.size a ≤ S2x4x128.size a
  squeezes_S1x4x128_S4x128 : S1x4x128.Squeezes S4x128
  inb_S4x128x128_S1x128x128_0_0_0 : ∀ a, (![0, 0, 0] : Fin 3 → Nat) a + S1x128x128.size a ≤ S4x128x128.size a
  squeezes_S1x128x128_S128x128 : S1x128x128.Squeezes S128x128
  inb_S4x32000x128_S1x128x128_0_0_0 : ∀ a, (![0, 0, 0] : Fin 3 → Nat) a + S1x128x128.size a ≤ S4x32000x128.size a
  squeezes_S1x1x128_S128 : S1x1x128.Squeezes S128
  inb_S160000x128_S160000x128_0_0 : ∀ a, (![0, 0] : Fin 2 → Nat) a + S160000x128.size a ≤ S160000x128.size a
  gathers_S160000x128_S128x128 : S160000x128.Gathers 0 S128x128
  inb_S4x128x128_S1x128x128_1_0_0 : ∀ a, (![1, 0, 0] : Fin 3 → Nat) a + S1x128x128.size a ≤ S4x128x128.size a
  inb_S4x32000x128_S1x128x128_1_0_0 : ∀ a, (![1, 0, 0] : Fin 3 → Nat) a + S1x128x128.size a ≤ S4x32000x128.size a
  inb_S4x128x128_S1x128x128_2_0_0 : ∀ a, (![2, 0, 0] : Fin 3 → Nat) a + S1x128x128.size a ≤ S4x128x128.size a
  inb_S4x32000x128_S1x128x128_2_0_0 : ∀ a, (![2, 0, 0] : Fin 3 → Nat) a + S1x128x128.size a ≤ S4x32000x128.size a
  inb_S4x128x128_S1x128x128_3_0_0 : ∀ a, (![3, 0, 0] : Fin 3 → Nat) a + S1x128x128.size a ≤ S4x128x128.size a
  inb_S4x32000x128_S1x128x128_3_0_0 : ∀ a, (![3, 0, 0] : Fin 3 → Nat) a + S1x128x128.size a ≤ S4x32000x128.size a
  slices_S1250x4x128_S250x4x128_250_0_0 : S1250x4x128.Slices ![250, 0, 0] S250x4x128
  slices_S1250x4x128_S250x4x128_500_0_0 : S1250x4x128.Slices ![500, 0, 0] S250x4x128
  slices_S1250x4x128_S250x4x128_750_0_0 : S1250x4x128.Slices ![750, 0, 0] S250x4x128
  slices_S1250x4x128_S250x4x128_1000_0_0 : S1250x4x128.Slices ![1000, 0, 0] S250x4x128
  inb_S4x3200x128_S1x3200x128_0_0_0 : ∀ a, (![0, 0, 0] : Fin 3 → Nat) a + S1x3200x128.size a ≤ S4x3200x128.size a
  h_S1x3200x128 : 0 < S1x3200x128.numel
  shapeCasts_S1x3200x128_S3200x128 : S1x3200x128.ShapeCasts S3200x128
  inb_S4x3200x128_S1x3200x128_1_0_0 : ∀ a, (![1, 0, 0] : Fin 3 → Nat) a + S1x3200x128.size a ≤ S4x3200x128.size a
  inb_S4x3200x128_S1x3200x128_2_0_0 : ∀ a, (![2, 0, 0] : Fin 3 → Nat) a + S1x3200x128.size a ≤ S4x3200x128.size a
  inb_S4x3200x128_S1x3200x128_3_0_0 : ∀ a, (![3, 0, 0] : Fin 3 → Nat) a + S1x3200x128.size a ≤ S4x3200x128.size a
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S128x3200_S128x3200_0_0 : ∀ a, (![0, 0] : Fin 2 → Nat) a + S128x3200.size a ≤ S128x3200.size a
  h_S128x3200 : 0 < S128x3200.numel
  shapeCasts_S128x3200_S128x3200 : S128x3200.ShapeCasts S128x3200
  inb_S5x128x128_S1x128x128_1_0_0 : ∀ a, (![1, 0, 0] : Fin 3 → Nat) a + S1x128x128.size a ≤ S5x128x128.size a
  inb_S5x128x128_S1x128x128_2_0_0 : ∀ a, (![2, 0, 0] : Fin 3 → Nat) a + S1x128x128.size a ≤ S5x128x128.size a
  inb_S5x128x128_S1x128x128_3_0_0 : ∀ a, (![3, 0, 0] : Fin 3 → Nat) a + S1x128x128.size a ≤ S5x128x128.size a
  inb_S5x128x128_S1x128x128_4_0_0 : ∀ a, (![4, 0, 0] : Fin 3 → Nat) a + S1x128x128.size a ≤ S5x128x128.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3200 : S128x1.Broadcasts S128x3200
  bcast_S128x160000_S1x128x160000x1_1_2 : S128x160000.BroadcastsInDim S1x128x160000x1 (![1, 2] : Fin 2 → Fin S1x128x160000x1.rank)
  dot_S128x128_S128x3200_S128x3200_1_0_0_1_n_n_wf : DotDims.WF S128x128 S128x3200 S128x3200 [1] [0] [0] [1] [] []
  dot_S128x128_S3200x128_S128x3200_1_1_0_0_n_n_wf : DotDims.WF S128x128 S3200x128 S128x3200 [1] [1] [0] [0] [] []
  hcc0_scratch2 : 0 + S_.numel ≤ 85
  hcc0_scratch3 : 1 + S_.numel ≤ 85
  hcc0_scratch4 : 2 + S_.numel ≤ 85
  hcc0_scratch5 : 3 + S_.numel ≤ 85
  hcc0_scratch6 : 4 + S_.numel ≤ 85
  hcc0_scratch7 : 5 + S_.numel ≤ 85
  hcc0_scratch8 : 6 + S_.numel ≤ 85
  hcc0_scratch9 : 7 + S_.numel ≤ 85
  hcc0_scratch10 : 8 + S_.numel ≤ 85
  hcc1_scratch2 : 9 + S_.numel ≤ 85
  hcc1_scratch3 : 10 + S_.numel ≤ 85
  hcc1_scratch4 : 11 + S_.numel ≤ 85
  hcc1_scratch5 : 12 + S_.numel ≤ 85
  hcc1_scratch6 : 13 + S_.numel ≤ 85
  hcc1_scratch7 : 14 + S_.numel ≤ 85
  hcc1_scratch8 : 15 + S_.numel ≤ 85
  hcc1_scratch9 : 16 + S_.numel ≤ 85
  hcc1_scratch10 : 17 + S_.numel ≤ 85
  hcc2_scratch2 : 18 + S_.numel ≤ 85
  hcc2_scratch3 : 19 + S_.numel ≤ 85
  hcc2_scratch4 : 20 + S_.numel ≤ 85
  hcc2_scratch5 : 21 + S_.numel ≤ 85
  hcc2_scratch6 : 22 + S_.numel ≤ 85
  hcc2_scratch7 : 23 + S_.numel ≤ 85
  hcc2_scratch8 : 24 + S_.numel ≤ 85
  hcc2_scratch9 : 25 + S_.numel ≤ 85
  hcc2_scratch10 : 26 + S_.numel ≤ 85
  hcc3_scratch2 : 27 + S_.numel ≤ 85
  hcc3_scratch3 : 28 + S_.numel ≤ 85
  hcc3_scratch4 : 29 + S_.numel ≤ 85
  hcc3_scratch5 : 30 + S_.numel ≤ 85
  hcc3_scratch6 : 31 + S_.numel ≤ 85
  hcc3_scratch7 : 32 + S_.numel ≤ 85
  hcc3_scratch8 : 33 + S_.numel ≤ 85
  hcc3_scratch9 : 34 + S_.numel ≤ 85
  hcc3_scratch10 : 35 + S_.numel ≤ 85
  hcc4_scratch2 : 36 + S_.numel ≤ 85
  hcc4_scratch3 : 37 + S_.numel ≤ 85
  hcc4_scratch4 : 38 + S_.numel ≤ 85
  hcc4_scratch5 : 39 + S_.numel ≤ 85
  hcc4_scratch6 : 40 + S_.numel ≤ 85
  hcc4_scratch7 : 41 + S_.numel ≤ 85
  hcc4_scratch8 : 42 + S_.numel ≤ 85
  hcc4_scratch9 : 43 + S_.numel ≤ 85
  hcc4_scratch10 : 44 + S_.numel ≤ 85
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x4x128.size a ≤ S250x4x128.size a
  k0_t1_ok : k0_t1_loop.OK
  k0_off2_inb : ∀ (i : grid0.Coords) (k0_t1 : Fin k0_t1_loop.trips), ∀ (k0_h1 : k0_cond1 i k0_t1 = 1#1), ∀ a, (k0_off2 k0_t1) a + S1x4x128.size a ≤ S2x4x128.size a
  k0_off3_inb : ∀ (i : grid0.Coords) (k0_t1 : Fin k0_t1_loop.trips), ∀ (k0_h1 : k0_cond1 i k0_t1 = 1#1), ∀ a, (k0_off3 i k0_t1) a + S1x4x128.size a ≤ S250x4x128.size a
  k0_off4_inb : ∀ (i : grid0.Coords) (k0_t1 : Fin k0_t1_loop.trips), ∀ (k0_h1 : k0_cond1 i k0_t1 = 1#1), ∀ (k0_h2 : k0_cond2 i k0_t1 = 1#1), ∀ a, (k0_off4 k0_t1) a + S1x4x128.size a ≤ S2x4x128.size a
  k0_off5_inb : ∀ (i : grid0.Coords) (k0_t1 : Fin k0_t1_loop.trips), ∀ (k0_h1 : k0_cond1 i k0_t1 = 1#1), ∀ (k0_h2 : k0_cond2 i k0_t1 = 1#1), ∀ a, (k0_off5 i k0_t1) a + S1x4x128.size a ≤ S250x4x128.size a
  k0_off6_inb : ∀ (i : grid0.Coords) (k0_t1 : Fin k0_t1_loop.trips), ∀ (k0_h1 : k0_cond1 i k0_t1 = 1#1), ∀ a, (k0_off6 k0_t1) a + S1x1x128.size a ≤ S2x4x128.size a
  k0_off7_inb : ∀ (i : grid0.Coords) (k0_t1 : Fin k0_t1_loop.trips), ∀ (k0_h1 : k0_cond1 i k0_t1 = 1#1), ∀ a, (k0_off7 k0_t1) a + S1x1x128.size a ≤ S2x4x128.size a
  k0_off8_inb : ∀ (i : grid0.Coords) (k0_t1 : Fin k0_t1_loop.trips), ∀ (k0_h1 : k0_cond1 i k0_t1 = 1#1), ∀ a, (k0_off8 k0_t1) a + S1x1x128.size a ≤ S2x4x128.size a
  k0_off9_inb : ∀ (i : grid0.Coords) (k0_t1 : Fin k0_t1_loop.trips), ∀ (k0_h1 : k0_cond1 i k0_t1 = 1#1), ∀ a, (k0_off9 k0_t1) a + S1x1x128.size a ≤ S2x4x128.size a
  k0_off10_inb : ∀ (i : grid0.Coords) (k0_t1 : Fin k0_t1_loop.trips), ∀ (k0_h1 : k0_cond1 i k0_t1 = 1#1), ∀ a, (k0_off10 i k0_t1) a + S1x128x128.size a ≤ S4x32000x128.size a
  k0_off11_inb : ∀ (i : grid0.Coords) (k0_t1 : Fin k0_t1_loop.trips), ∀ (k0_h1 : k0_cond1 i k0_t1 = 1#1), ∀ a, (k0_off11 i k0_t1) a + S1x128x128.size a ≤ S4x32000x128.size a
  k0_off12_inb : ∀ (i : grid0.Coords) (k0_t1 : Fin k0_t1_loop.trips), ∀ (k0_h1 : k0_cond1 i k0_t1 = 1#1), ∀ a, (k0_off12 i k0_t1) a + S1x128x128.size a ≤ S4x32000x128.size a
  k0_off13_inb : ∀ (i : grid0.Coords) (k0_t1 : Fin k0_t1_loop.trips), ∀ (k0_h1 : k0_cond1 i k0_t1 = 1#1), ∀ a, (k0_off13 i k0_t1) a + S1x128x128.size a ≤ S4x32000x128.size a
  hcore1 : grid1.bound 0 ≤ τ.nSC
  hsub1 : grid1.bound 1 ≤ τ.nSub
  k1_off1_inb : ∀ i : grid1.Coords, ∀ a, (k1_off1 i) a + S1x4x128.size a ≤ S250x4x128.size a
  k1_t1_ok : k1_t1_loop.OK
  k1_off2_inb : ∀ (i : grid1.Coords) (k1_t1 : Fin k1_t1_loop.trips), ∀ (k1_h1 : k1_cond1 i k1_t1 = 1#1), ∀ a, (k1_off2 k1_t1) a + S1x4x128.size a ≤ S2x4x128.size a
  k1_off3_inb : ∀ (i : grid1.Coords) (k1_t1 : Fin k1_t1_loop.trips), ∀ (k1_h1 : k1_cond1 i k1_t1 = 1#1), ∀ a, (k1_off3 i k1_t1) a + S1x4x128.size a ≤ S250x4x128.size a
  k1_off4_inb : ∀ (i : grid1.Coords) (k1_t1 : Fin k1_t1_loop.trips), ∀ (k1_h1 : k1_cond1 i k1_t1 = 1#1), ∀ (k1_h2 : k1_cond2 i k1_t1 = 1#1), ∀ a, (k1_off4 k1_t1) a + S1x4x128.size a ≤ S2x4x128.size a
  k1_off5_inb : ∀ (i : grid1.Coords) (k1_t1 : Fin k1_t1_loop.trips), ∀ (k1_h1 : k1_cond1 i k1_t1 = 1#1), ∀ (k1_h2 : k1_cond2 i k1_t1 = 1#1), ∀ a, (k1_off5 i k1_t1) a + S1x4x128.size a ≤ S250x4x128.size a
  k1_off6_inb : ∀ (i : grid1.Coords) (k1_t1 : Fin k1_t1_loop.trips), ∀ (k1_h1 : k1_cond1 i k1_t1 = 1#1), ∀ a, (k1_off6 k1_t1) a + S1x1x128.size a ≤ S2x4x128.size a
  k1_off7_inb : ∀ (i : grid1.Coords) (k1_t1 : Fin k1_t1_loop.trips), ∀ (k1_h1 : k1_cond1 i k1_t1 = 1#1), ∀ a, (k1_off7 k1_t1) a + S1x1x128.size a ≤ S2x4x128.size a
  k1_off8_inb : ∀ (i : grid1.Coords) (k1_t1 : Fin k1_t1_loop.trips), ∀ (k1_h1 : k1_cond1 i k1_t1 = 1#1), ∀ a, (k1_off8 k1_t1) a + S1x1x128.size a ≤ S2x4x128.size a
  k1_off9_inb : ∀ (i : grid1.Coords) (k1_t1 : Fin k1_t1_loop.trips), ∀ (k1_h1 : k1_cond1 i k1_t1 = 1#1), ∀ a, (k1_off9 k1_t1) a + S1x1x128.size a ≤ S2x4x128.size a
  k1_off10_inb : ∀ (i : grid1.Coords) (k1_t1 : Fin k1_t1_loop.trips), ∀ (k1_h1 : k1_cond1 i k1_t1 = 1#1), ∀ a, (k1_off10 i k1_t1) a + S1x128x128.size a ≤ S4x32000x128.size a
  k1_off11_inb : ∀ (i : grid1.Coords) (k1_t1 : Fin k1_t1_loop.trips), ∀ (k1_h1 : k1_cond1 i k1_t1 = 1#1), ∀ a, (k1_off11 i k1_t1) a + S1x128x128.size a ≤ S4x32000x128.size a
  k1_off12_inb : ∀ (i : grid1.Coords) (k1_t1 : Fin k1_t1_loop.trips), ∀ (k1_h1 : k1_cond1 i k1_t1 = 1#1), ∀ a, (k1_off12 i k1_t1) a + S1x128x128.size a ≤ S4x32000x128.size a
  k1_off13_inb : ∀ (i : grid1.Coords) (k1_t1 : Fin k1_t1_loop.trips), ∀ (k1_h1 : k1_cond1 i k1_t1 = 1#1), ∀ a, (k1_off13 i k1_t1) a + S1x128x128.size a ≤ S4x32000x128.size a
  hcore2 : grid2.bound 0 ≤ τ.nSC
  hsub2 : grid2.bound 1 ≤ τ.nSub
  k2_off1_inb : ∀ i : grid2.Coords, ∀ a, (k2_off1 i) a + S1x4x128.size a ≤ S250x4x128.size a
  k2_t1_ok : k2_t1_loop.OK
  k2_off2_inb : ∀ (i : grid2.Coords) (k2_t1 : Fin k2_t1_loop.trips), ∀ (k2_h1 : k2_cond1 i k2_t1 = 1#1), ∀ a, (k2_off2 k2_t1) a + S1x4x128.size a ≤ S2x4x128.size a
  k2_off3_inb : ∀ (i : grid2.Coords) (k2_t1 : Fin k2_t1_loop.trips), ∀ (k2_h1 : k2_cond1 i k2_t1 = 1#1), ∀ a, (k2_off3 i k2_t1) a + S1x4x128.size a ≤ S250x4x128.size a
  k2_off4_inb : ∀ (i : grid2.Coords) (k2_t1 : Fin k2_t1_loop.trips), ∀ (k2_h1 : k2_cond1 i k2_t1 = 1#1), ∀ (k2_h2 : k2_cond2 i k2_t1 = 1#1), ∀ a, (k2_off4 k2_t1) a + S1x4x128.size a ≤ S2x4x128.size a
  k2_off5_inb : ∀ (i : grid2.Coords) (k2_t1 : Fin k2_t1_loop.trips), ∀ (k2_h1 : k2_cond1 i k2_t1 = 1#1), ∀ (k2_h2 : k2_cond2 i k2_t1 = 1#1), ∀ a, (k2_off5 i k2_t1) a + S1x4x128.size a ≤ S250x4x128.size a
  k2_off6_inb : ∀ (i : grid2.Coords) (k2_t1 : Fin k2_t1_loop.trips), ∀ (k2_h1 : k2_cond1 i k2_t1 = 1#1), ∀ a, (k2_off6 k2_t1) a + S1x1x128.size a ≤ S2x4x128.size a
  k2_off7_inb : ∀ (i : grid2.Coords) (k2_t1 : Fin k2_t1_loop.trips), ∀ (k2_h1 : k2_cond1 i k2_t1 = 1#1), ∀ a, (k2_off7 k2_t1) a + S1x1x128.size a ≤ S2x4x128.size a
  k2_off8_inb : ∀ (i : grid2.Coords) (k2_t1 : Fin k2_t1_loop.trips), ∀ (k2_h1 : k2_cond1 i k2_t1 = 1#1), ∀ a, (k2_off8 k2_t1) a + S1x1x128.size a ≤ S2x4x128.size a
  k2_off9_inb : ∀ (i : grid2.Coords) (k2_t1 : Fin k2_t1_loop.trips), ∀ (k2_h1 : k2_cond1 i k2_t1 = 1#1), ∀ a, (k2_off9 k2_t1) a + S1x1x128.size a ≤ S2x4x128.size a
  k2_off10_inb : ∀ (i : grid2.Coords) (k2_t1 : Fin k2_t1_loop.trips), ∀ (k2_h1 : k2_cond1 i k2_t1 = 1#1), ∀ a, (k2_off10 i k2_t1) a + S1x128x128.size a ≤ S4x32000x128.size a
  k2_off11_inb : ∀ (i : grid2.Coords) (k2_t1 : Fin k2_t1_loop.trips), ∀ (k2_h1 : k2_cond1 i k2_t1 = 1#1), ∀ a, (k2_off11 i k2_t1) a + S1x128x128.size a ≤ S4x32000x128.size a
  k2_off12_inb : ∀ (i : grid2.Coords) (k2_t1 : Fin k2_t1_loop.trips), ∀ (k2_h1 : k2_cond1 i k2_t1 = 1#1), ∀ a, (k2_off12 i k2_t1) a + S1x128x128.size a ≤ S4x32000x128.size a
  k2_off13_inb : ∀ (i : grid2.Coords) (k2_t1 : Fin k2_t1_loop.trips), ∀ (k2_h1 : k2_cond1 i k2_t1 = 1#1), ∀ a, (k2_off13 i k2_t1) a + S1x128x128.size a ≤ S4x32000x128.size a
  hcore3 : grid3.bound 0 ≤ τ.nSC
  hsub3 : grid3.bound 1 ≤ τ.nSub
  k3_off1_inb : ∀ i : grid3.Coords, ∀ a, (k3_off1 i) a + S1x4x128.size a ≤ S250x4x128.size a
  k3_t1_ok : k3_t1_loop.OK
  k3_off2_inb : ∀ (i : grid3.Coords) (k3_t1 : Fin k3_t1_loop.trips), ∀ (k3_h1 : k3_cond1 i k3_t1 = 1#1), ∀ a, (k3_off2 k3_t1) a + S1x4x128.size a ≤ S2x4x128.size a
  k3_off3_inb : ∀ (i : grid3.Coords) (k3_t1 : Fin k3_t1_loop.trips), ∀ (k3_h1 : k3_cond1 i k3_t1 = 1#1), ∀ a, (k3_off3 i k3_t1) a + S1x4x128.size a ≤ S250x4x128.size a
  k3_off4_inb : ∀ (i : grid3.Coords) (k3_t1 : Fin k3_t1_loop.trips), ∀ (k3_h1 : k3_cond1 i k3_t1 = 1#1), ∀ (k3_h2 : k3_cond2 i k3_t1 = 1#1), ∀ a, (k3_off4 k3_t1) a + S1x4x128.size a ≤ S2x4x128.size a
  k3_off5_inb : ∀ (i : grid3.Coords) (k3_t1 : Fin k3_t1_loop.trips), ∀ (k3_h1 : k3_cond1 i k3_t1 = 1#1), ∀ (k3_h2 : k3_cond2 i k3_t1 = 1#1), ∀ a, (k3_off5 i k3_t1) a + S1x4x128.size a ≤ S250x4x128.size a
  k3_off6_inb : ∀ (i : grid3.Coords) (k3_t1 : Fin k3_t1_loop.trips), ∀ (k3_h1 : k3_cond1 i k3_t1 = 1#1), ∀ a, (k3_off6 k3_t1) a + S1x1x128.size a ≤ S2x4x128.size a
  k3_off7_inb : ∀ (i : grid3.Coords) (k3_t1 : Fin k3_t1_loop.trips), ∀ (k3_h1 : k3_cond1 i k3_t1 = 1#1), ∀ a, (k3_off7 k3_t1) a + S1x1x128.size a ≤ S2x4x128.size a
  k3_off8_inb : ∀ (i : grid3.Coords) (k3_t1 : Fin k3_t1_loop.trips), ∀ (k3_h1 : k3_cond1 i k3_t1 = 1#1), ∀ a, (k3_off8 k3_t1) a + S1x1x128.size a ≤ S2x4x128.size a
  k3_off9_inb : ∀ (i : grid3.Coords) (k3_t1 : Fin k3_t1_loop.trips), ∀ (k3_h1 : k3_cond1 i k3_t1 = 1#1), ∀ a, (k3_off9 k3_t1) a + S1x1x128.size a ≤ S2x4x128.size a
  k3_off10_inb : ∀ (i : grid3.Coords) (k3_t1 : Fin k3_t1_loop.trips), ∀ (k3_h1 : k3_cond1 i k3_t1 = 1#1), ∀ a, (k3_off10 i k3_t1) a + S1x128x128.size a ≤ S4x32000x128.size a
  k3_off11_inb : ∀ (i : grid3.Coords) (k3_t1 : Fin k3_t1_loop.trips), ∀ (k3_h1 : k3_cond1 i k3_t1 = 1#1), ∀ a, (k3_off11 i k3_t1) a + S1x128x128.size a ≤ S4x32000x128.size a
  k3_off12_inb : ∀ (i : grid3.Coords) (k3_t1 : Fin k3_t1_loop.trips), ∀ (k3_h1 : k3_cond1 i k3_t1 = 1#1), ∀ a, (k3_off12 i k3_t1) a + S1x128x128.size a ≤ S4x32000x128.size a
  k3_off13_inb : ∀ (i : grid3.Coords) (k3_t1 : Fin k3_t1_loop.trips), ∀ (k3_h1 : k3_cond1 i k3_t1 = 1#1), ∀ a, (k3_off13 i k3_t1) a + S1x128x128.size a ≤ S4x32000x128.size a
  hcore4 : grid4.bound 0 ≤ τ.nSC
  hsub4 : grid4.bound 1 ≤ τ.nSub
  k4_off1_inb : ∀ i : grid4.Coords, ∀ a, (k4_off1 i) a + S1x4x128.size a ≤ S250x4x128.size a
  k4_t1_ok : k4_t1_loop.OK
  k4_off2_inb : ∀ (i : grid4.Coords) (k4_t1 : Fin k4_t1_loop.trips), ∀ (k4_h1 : k4_cond1 i k4_t1 = 1#1), ∀ a, (k4_off2 k4_t1) a + S1x4x128.size a ≤ S2x4x128.size a
  k4_off3_inb : ∀ (i : grid4.Coords) (k4_t1 : Fin k4_t1_loop.trips), ∀ (k4_h1 : k4_cond1 i k4_t1 = 1#1), ∀ a, (k4_off3 i k4_t1) a + S1x4x128.size a ≤ S250x4x128.size a
  k4_off4_inb : ∀ (i : grid4.Coords) (k4_t1 : Fin k4_t1_loop.trips), ∀ (k4_h1 : k4_cond1 i k4_t1 = 1#1), ∀ (k4_h2 : k4_cond2 i k4_t1 = 1#1), ∀ a, (k4_off4 k4_t1) a + S1x4x128.size a ≤ S2x4x128.size a
  k4_off5_inb : ∀ (i : grid4.Coords) (k4_t1 : Fin k4_t1_loop.trips), ∀ (k4_h1 : k4_cond1 i k4_t1 = 1#1), ∀ (k4_h2 : k4_cond2 i k4_t1 = 1#1), ∀ a, (k4_off5 i k4_t1) a + S1x4x128.size a ≤ S250x4x128.size a
  k4_off6_inb : ∀ (i : grid4.Coords) (k4_t1 : Fin k4_t1_loop.trips), ∀ (k4_h1 : k4_cond1 i k4_t1 = 1#1), ∀ a, (k4_off6 k4_t1) a + S1x1x128.size a ≤ S2x4x128.size a
  k4_off7_inb : ∀ (i : grid4.Coords) (k4_t1 : Fin k4_t1_loop.trips), ∀ (k4_h1 : k4_cond1 i k4_t1 = 1#1), ∀ a, (k4_off7 k4_t1) a + S1x1x128.size a ≤ S2x4x128.size a
  k4_off8_inb : ∀ (i : grid4.Coords) (k4_t1 : Fin k4_t1_loop.trips), ∀ (k4_h1 : k4_cond1 i k4_t1 = 1#1), ∀ a, (k4_off8 k4_t1) a + S1x1x128.size a ≤ S2x4x128.size a
  k4_off9_inb : ∀ (i : grid4.Coords) (k4_t1 : Fin k4_t1_loop.trips), ∀ (k4_h1 : k4_cond1 i k4_t1 = 1#1), ∀ a, (k4_off9 k4_t1) a + S1x1x128.size a ≤ S2x4x128.size a
  k4_off10_inb : ∀ (i : grid4.Coords) (k4_t1 : Fin k4_t1_loop.trips), ∀ (k4_h1 : k4_cond1 i k4_t1 = 1#1), ∀ a, (k4_off10 i k4_t1) a + S1x128x128.size a ≤ S4x32000x128.size a
  k4_off11_inb : ∀ (i : grid4.Coords) (k4_t1 : Fin k4_t1_loop.trips), ∀ (k4_h1 : k4_cond1 i k4_t1 = 1#1), ∀ a, (k4_off11 i k4_t1) a + S1x128x128.size a ≤ S4x32000x128.size a
  k4_off12_inb : ∀ (i : grid4.Coords) (k4_t1 : Fin k4_t1_loop.trips), ∀ (k4_h1 : k4_cond1 i k4_t1 = 1#1), ∀ a, (k4_off12 i k4_t1) a + S1x128x128.size a ≤ S4x32000x128.size a
  k4_off13_inb : ∀ (i : grid4.Coords) (k4_t1 : Fin k4_t1_loop.trips), ∀ (k4_h1 : k4_cond1 i k4_t1 = 1#1), ∀ a, (k4_off13 i k4_t1) a + S1x128x128.size a ≤ S4x32000x128.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x3200.size a ≤ S128x160000.size a
  hwx5_0 : ∀ i : grid5.Coords, EltTy.bits .f32 = 32 ∨ (Rect.block (s := S128x160000) S128x3200.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4x3200x128.size a ≤ S4x32000x128.size a
  hwx5_1 : ∀ i : grid5.Coords, EltTy.bits .f32 = 32 ∨ (Rect.block (s := S4x32000x128) S4x3200x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S5x128x128.size a ≤ S5x128x128.size a
  hwx5_2 : ∀ i : grid5.Coords, EltTy.bits .f32 = 32 ∨ (Rect.block (s := S5x128x128) S5x128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S128x3200.size a ≤ S128x160000.size a
  hwx5_4 : ∀ i : grid5.Coords, EltTy.bits .f32 = 32 ∨ (Rect.block (s := S128x160000) S128x3200.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x3200.size a ≤ S128x160000.size a
  hwx6_0 : ∀ i : grid6.Coords, EltTy.bits .f32 = 32 ∨ (Rect.block (s := S128x160000) S128x3200.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4x3200x128.size a ≤ S4x32000x128.size a
  hwx6_1 : ∀ i : grid6.Coords, EltTy.bits .f32 = 32 ∨ (Rect.block (s := S4x32000x128) S4x3200x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S5x128x128.size a ≤ S5x128x128.size a
  hwx6_2 : ∀ i : grid6.Coords, EltTy.bits .f32 = 32 ∨ (Rect.block (s := S5x128x128) S5x128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_5 i = cc6_transform_5 i'
  hinb6_4 : ∀ (i : grid6.Coords) a, (cc6_transform_5 i a + 1) * S128x3200.size a ≤ S128x160000.size a
  hwx6_4 : ∀ i : grid6.Coords, EltTy.bits .f32 = 32 ∨ (Rect.block (s := S128x160000) S128x3200.size (cc6_transform_5 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x3200.size a ≤ S128x160000.size a
  hwx7_0 : ∀ i : grid7.Coords, EltTy.bits .f32 = 32 ∨ (Rect.block (s := S128x160000) S128x3200.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4x3200x128.size a ≤ S4x32000x128.size a
  hwx7_1 : ∀ i : grid7.Coords, EltTy.bits .f32 = 32 ∨ (Rect.block (s := S4x32000x128) S4x3200x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S5x128x128.size a ≤ S5x128x128.size a
  hwx7_2 : ∀ i : grid7.Coords, EltTy.bits .f32 = 32 ∨ (Rect.block (s := S5x128x128) S5x128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x1.size a ≤ S128x1.size a
  hwx7_3 : ∀ i : grid7.Coords, EltTy.bits .f32 = 32 ∨ (Rect.block (s := S128x1) S128x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_5 i = cc7_transform_5 i'
  hinb7_4 : ∀ (i : grid7.Coords) a, (cc7_transform_5 i a + 1) * S128x3200.size a ≤ S128x160000.size a
  hwx7_4 : ∀ i : grid7.Coords, EltTy.bits .f32 = 32 ∨ (Rect.block (s := S128x160000) S128x3200.size (cc7_transform_5 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x3200.size a ≤ S128x160000.size a
  hwx8_0 : ∀ i : grid8.Coords, EltTy.bits .f32 = 32 ∨ (Rect.block (s := S128x160000) S128x3200.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4x3200x128.size a ≤ S4x32000x128.size a
  hwx8_1 : ∀ i : grid8.Coords, EltTy.bits .f32 = 32 ∨ (Rect.block (s := S4x32000x128) S4x3200x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S5x128x128.size a ≤ S5x128x128.size a
  hwx8_2 : ∀ i : grid8.Coords, EltTy.bits .f32 = 32 ∨ (Rect.block (s := S5x128x128) S5x128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x1.size a ≤ S128x1.size a
  hwx8_3 : ∀ i : grid8.Coords, EltTy.bits .f32 = 32 ∨ (Rect.block (s := S128x1) S128x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_5 i = cc8_transform_5 i'
  hinb8_4 : ∀ (i : grid8.Coords) a, (cc8_transform_5 i a + 1) * S128x3200.size a ≤ S128x160000.size a
  hwx8_4 : ∀ i : grid8.Coords, EltTy.bits .f32 = 32 ∨ (Rect.block (s := S128x160000) S128x3200.size (cc8_transform_5 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S128x3200.size a ≤ S128x160000.size a
  hwx9_0 : ∀ i : grid9.Coords, EltTy.bits .f32 = 32 ∨ (Rect.block (s := S128x160000) S128x3200.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4x3200x128.size a ≤ S4x32000x128.size a
  hwx9_1 : ∀ i : grid9.Coords, EltTy.bits .f32 = 32 ∨ (Rect.block (s := S4x32000x128) S4x3200x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S5x128x128.size a ≤ S5x128x128.size a
  hwx9_2 : ∀ i : grid9.Coords, EltTy.bits .f32 = 32 ∨ (Rect.block (s := S5x128x128) S5x128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x1.size a ≤ S128x1.size a
  hwx9_3 : ∀ i : grid9.Coords, EltTy.bits .f32 = 32 ∨ (Rect.block (s := S128x1) S128x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_5 i = cc9_transform_5 i'
  hinb9_4 : ∀ (i : grid9.Coords) a, (cc9_transform_5 i a + 1) * S128x3200.size a ≤ S128x160000.size a
  hwx9_4 : ∀ i : grid9.Coords, EltTy.bits .f32 = 32 ∨ (Rect.block (s := S128x160000) S128x3200.size (cc9_transform_5 i) (hinb9_4 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc1_scratch2 : DmaSems sig S_ := SemArray.consecutive 9 S_ hcc1_scratch2
abbrev cc1_scratch3 : DmaSems sig S_ := SemArray.consecutive 10 S_ hcc1_scratch3
abbrev cc1_scratch4 : DmaSems sig S_ := SemArray.consecutive 11 S_ hcc1_scratch4
abbrev cc1_scratch5 : DmaSems sig S_ := SemArray.consecutive 12 S_ hcc1_scratch5
abbrev cc1_scratch6 : DmaSems sig S_ := SemArray.consecutive 13 S_ hcc1_scratch6
abbrev cc1_scratch7 : DmaSems sig S_ := SemArray.consecutive 14 S_ hcc1_scratch7
abbrev cc1_scratch8 : DmaSems sig S_ := SemArray.consecutive 15 S_ hcc1_scratch8
abbrev cc1_scratch9 : DmaSems sig S_ := SemArray.consecutive 16 S_ hcc1_scratch9
abbrev cc1_scratch10 : DmaSems sig S_ := SemArray.consecutive 17 S_ hcc1_scratch10
abbrev cc2_scratch2 : DmaSems sig S_ := SemArray.consecutive 18 S_ hcc2_scratch2
abbrev cc2_scratch3 : DmaSems sig S_ := SemArray.consecutive 19 S_ hcc2_scratch3
abbrev cc2_scratch4 : DmaSems sig S_ := SemArray.consecutive 20 S_ hcc2_scratch4
abbrev cc2_scratch5 : DmaSems sig S_ := SemArray.consecutive 21 S_ hcc2_scratch5
abbrev cc2_scratch6 : DmaSems sig S_ := SemArray.consecutive 22 S_ hcc2_scratch6
abbrev cc2_scratch7 : DmaSems sig S_ := SemArray.consecutive 23 S_ hcc2_scratch7
abbrev cc2_scratch8 : DmaSems sig S_ := SemArray.consecutive 24 S_ hcc2_scratch8
abbrev cc2_scratch9 : DmaSems sig S_ := SemArray.consecutive 25 S_ hcc2_scratch9
abbrev cc2_scratch10 : DmaSems sig S_ := SemArray.consecutive 26 S_ hcc2_scratch10
abbrev cc3_scratch2 : DmaSems sig S_ := SemArray.consecutive 27 S_ hcc3_scratch2
abbrev cc3_scratch3 : DmaSems sig S_ := SemArray.consecutive 28 S_ hcc3_scratch3
abbrev cc3_scratch4 : DmaSems sig S_ := SemArray.consecutive 29 S_ hcc3_scratch4
abbrev cc3_scratch5 : DmaSems sig S_ := SemArray.consecutive 30 S_ hcc3_scratch5
abbrev cc3_scratch6 : DmaSems sig S_ := SemArray.consecutive 31 S_ hcc3_scratch6
abbrev cc3_scratch7 : DmaSems sig S_ := SemArray.consecutive 32 S_ hcc3_scratch7
abbrev cc3_scratch8 : DmaSems sig S_ := SemArray.consecutive 33 S_ hcc3_scratch8
abbrev cc3_scratch9 : DmaSems sig S_ := SemArray.consecutive 34 S_ hcc3_scratch9
abbrev cc3_scratch10 : DmaSems sig S_ := SemArray.consecutive 35 S_ hcc3_scratch10
abbrev cc4_scratch2 : DmaSems sig S_ := SemArray.consecutive 36 S_ hcc4_scratch2
abbrev cc4_scratch3 : DmaSems sig S_ := SemArray.consecutive 37 S_ hcc4_scratch3
abbrev cc4_scratch4 : DmaSems sig S_ := SemArray.consecutive 38 S_ hcc4_scratch4
abbrev cc4_scratch5 : DmaSems sig S_ := SemArray.consecutive 39 S_ hcc4_scratch5
abbrev cc4_scratch6 : DmaSems sig S_ := SemArray.consecutive 40 S_ hcc4_scratch6
abbrev cc4_scratch7 : DmaSems sig S_ := SemArray.consecutive 41 S_ hcc4_scratch7
abbrev cc4_scratch8 : DmaSems sig S_ := SemArray.consecutive 42 S_ hcc4_scratch8
abbrev cc4_scratch9 : DmaSems sig S_ := SemArray.consecutive 43 S_ hcc4_scratch9
abbrev cc4_scratch10 : DmaSems sig S_ := SemArray.consecutive 44 S_ hcc4_scratch10
def dot_S128x128_S128x3200_S128x3200_1_0_0_1_n_n : DotDims S128x128 S128x3200 S128x3200 where
  lhsContracting := [1]
  rhsContracting := [0]
  lhsNonContracting := [0]
  rhsNonContracting := [1]
  lhsBatch := []
  rhsBatch := []
  wf := dot_S128x128_S128x3200_S128x3200_1_0_0_1_n_n_wf
def dot_S128x128_S3200x128_S128x3200_1_1_0_0_n_n : DotDims S128x128 S3200x128 S128x3200 where
  lhsContracting := [1]
  rhsContracting := [1]
  lhsNonContracting := [0]
  rhsNonContracting := [0]
  lhsBatch := []
  rhsBatch := []
  wf := dot_S128x128_S3200x128_S128x3200_1_1_0_0_n_n_wf

abbrev win5_0 : Pipeline.Window sig grid5 :=
  Pipeline.Window.ofSpec (Memref.whole main_v0) S128x3200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S4x3200x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S5x128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v7) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v18) S128x3200.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v0) S128x3200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S4x3200x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v6) S5x128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v7) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v19) S128x3200.size cc6_transform_5 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v0) S128x3200.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S4x3200x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v6) S5x128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v7) S128x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v20) S128x3200.size cc7_transform_5 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v0) S128x3200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v15) S4x3200x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v6) S5x128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v7) S128x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v21) S128x3200.size cc8_transform_5 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v0) S128x3200.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v17) S4x3200x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v6) S5x128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v7) S128x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v22) S128x3200.size cc9_transform_5 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S1x128x160000 : Shape := ⟨3, ![1, 128, 160000]⟩
abbrev S1x160000x4 : Shape := ⟨3, ![1, 160000, 4]⟩
abbrev S128x128x1x5 : Shape := ⟨4, ![128, 128, 1, 5]⟩
abbrev S128 : Shape := ⟨1, ![128]⟩
abbrev S160000 : Shape := ⟨1, ![160000]⟩
abbrev S1x160000x1 : Shape := ⟨3, ![1, 160000, 1]⟩
abbrev S1x160000x5 : Shape := ⟨3, ![1, 160000, 5]⟩
abbrev S_ : Shape := ⟨0, ![]⟩
abbrev S1 : Shape := ⟨1, ![1]⟩
abbrev S1x1x1 : Shape := ⟨3, ![1, 1, 1]⟩
abbrev S800000 : Shape := ⟨1, ![800000]⟩
abbrev S1x128x1 : Shape := ⟨3, ![1, 128, 1]⟩
abbrev S1x128x160001 : Shape := ⟨3, ![1, 128, 160001]⟩
abbrev S1x160001x128 : Shape := ⟨3, ![1, 160001, 128]⟩
abbrev S160001x128 : Shape := ⟨2, ![160001, 128]⟩
abbrev S800000x1 : Shape := ⟨2, ![800000, 1]⟩
abbrev S1x1 : Shape := ⟨2, ![1, 1]⟩
abbrev S800000x128 : Shape := ⟨2, ![800000, 128]⟩
abbrev S1x160000x5x128 : Shape := ⟨4, ![1, 160000, 5, 128]⟩
abbrev S1x128x160000x5 : Shape := ⟨4, ![1, 128, 160000, 5]⟩
abbrev S1x128x160000x1 : Shape := ⟨4, ![1, 128, 160000, 1]⟩
abbrev S128x128x5 : Shape := ⟨3, ![128, 128, 5]⟩
abbrev S128x1x160000 : Shape := ⟨3, ![128, 1, 160000]⟩

abbrev nBuf : Space → Nat
  | .hbm => 85
  | .vmem => 0
  | .smem => 0
  | _ => 0

abbrev bufTy : (tb : Table) → Fin (tcTables nBuf tb) → BufTy
  | .hbm, ⟨0, _⟩ => ⟨S1x128x160000, .f32⟩
  | .hbm, ⟨1, _⟩ => ⟨S1x160000x4, .i32⟩
  | .hbm, ⟨2, _⟩ => ⟨S128x128x1x5, .f32⟩
  | .hbm, ⟨3, _⟩ => ⟨S128, .f32⟩
  | .hbm, ⟨4, _⟩ => ⟨S160000, .i32⟩
  | .hbm, ⟨5, _⟩ => ⟨S1x160000x1, .i32⟩
  | .hbm, ⟨6, _⟩ => ⟨S1x160000x5, .i32⟩
  | .hbm, ⟨7, _⟩ => ⟨S_, .i32⟩
  | .hbm, ⟨8, _⟩ => ⟨S1x160000x5, .i32⟩
  | .hbm, ⟨9, _⟩ => ⟨S1x160000x5, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1x1x1, .i32⟩
  | .hbm, ⟨15, _⟩ => ⟨S1x160000x5, .i32⟩
  | .hbm, ⟨16, _⟩ => ⟨S1x160000x5, .i32⟩
  | .hbm, ⟨17, _⟩ => ⟨S800000, .i32⟩
  | .hbm, ⟨18, _⟩ => ⟨S_, .f32⟩
  | .hbm, ⟨19, _⟩ => ⟨S1x128x1, .f32⟩
  | .hbm, ⟨20, _⟩ => ⟨S1x128x160001, .f32⟩
  | .hbm, ⟨21, _⟩ => ⟨S1x160001x128, .f32⟩
  | .hbm, ⟨22, _⟩ => ⟨S160001x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S1, .i32⟩
  | .hbm, ⟨32, _⟩ => ⟨S_, .i32⟩
  | .hbm, ⟨33, _⟩ => ⟨S800000x1, .i32⟩
  | .hbm, ⟨34, _⟩ => ⟨S800000x1, .i1⟩
  | .hbm, ⟨35, _⟩ => ⟨S1x1, .i32⟩
  | .hbm, ⟨36, _⟩ => ⟨S800000x1, .i32⟩
  | .hbm, ⟨37, _⟩ => ⟨S800000x1, .i1⟩
  | .hbm, ⟨38, _⟩ => ⟨S800000x1, .i1⟩
  | .hbm, ⟨39, _⟩ => ⟨S_, .i1⟩
  | .hbm, ⟨40, _⟩ => ⟨S800000, .i1⟩
  | .hbm, ⟨41, _⟩ => ⟨S800000x128, .f32⟩
  | .hbm, ⟨42, _⟩ => ⟨S800000x128, .i1⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S1x160000x5x128, .f32⟩
  | .hbm, ⟨47, _⟩ => ⟨S1x128x160000x5, .f32⟩
  | .hbm, ⟨48, _⟩ => ⟨S1x128x160000x1, .f32⟩
  | .hbm, ⟨49, _⟩ => ⟨S1x128x160000, .f32⟩
  | .hbm, ⟨50, _⟩ => ⟨S1x128x160000x1, .f32⟩
  | .hbm, ⟨51, _⟩ => ⟨S1x128x160000, .f32⟩
  | .hbm, ⟨52, _⟩ => ⟨S1x128x160000, .f32⟩
  | .hbm, ⟨53, _⟩ => ⟨S1x128x160000x1, .f32⟩
  | .hbm, ⟨54, _⟩ => ⟨S1x128x160000, .f32⟩
  | .hbm, ⟨55, _⟩ => ⟨S1x128x160000x1, .f32⟩
  | .hbm, ⟨56, _⟩ => ⟨S1x128x160000, .f32⟩
  | .hbm, ⟨57, _⟩ => ⟨S1x128x160000, .f32⟩
  | .hbm, ⟨58, _⟩ => ⟨S1x128x160000x1, .f32⟩
  | .hbm, ⟨59, _⟩ => ⟨S1x128x160000, .f32⟩
  | .hbm, ⟨60, _⟩ => ⟨S1x128x160000x1, .f32⟩
  | .hbm, ⟨61, _⟩ => ⟨S1x128x160000, .f32⟩
  | .hbm, ⟨62, _⟩ => ⟨S1x128x160000, .f32⟩
  | .hbm, ⟨63, _⟩ => ⟨S1x128x160000, .f32⟩
  | .hbm, ⟨64, _⟩ => ⟨S1x128x160000x1, .f32⟩
  | .hbm, ⟨65, _⟩ => ⟨S1x128x160000, .f32⟩
  | .hbm, ⟨66, _⟩ => ⟨S1x128x160000x1, .f32⟩
  | .hbm, ⟨67, _⟩ => ⟨S1x128x160000, .f32⟩
  | .hbm, ⟨68, _⟩ => ⟨S1x128x160000, .f32⟩
  | .hbm, ⟨69, _⟩ => ⟨S1x128x160000, .f32⟩
  | .hbm, ⟨70, _⟩ => ⟨S1x128x160000x1, .f32⟩
  | .hbm, ⟨71, _⟩ => ⟨S1x128x160000, .f32⟩
  | .hbm, ⟨72, _⟩ => ⟨S1x128x160000x1, .f32⟩
  | .hbm, ⟨73, _⟩ => ⟨S1x128x160000x1, .f32⟩
  | .hbm, ⟨74, _⟩ => ⟨S1x128x160000x1, .f32⟩
  | .hbm, ⟨75, _⟩ => ⟨S1x128x160000x1, .f32⟩
  | .hbm, ⟨76, _⟩ => ⟨S1x128x160000x1, .f32⟩
  | .hbm, ⟨77, _⟩ => ⟨S1x128x160000x5, .f32⟩
  | .hbm, ⟨78, _⟩ => ⟨S128x128x5, .f32⟩
  | .hbm, ⟨79, _⟩ => ⟨S128x1x160000, .f32⟩
  | .hbm, ⟨80, _⟩ => ⟨S1x128x160000, .f32⟩
  | .hbm, ⟨81, _⟩ => ⟨S1x128x1, .f32⟩
  | .hbm, ⟨82, _⟩ => ⟨S1x128x160000, .f32⟩
  | .hbm, ⟨83, _⟩ => ⟨S1x128x160000, .f32⟩
  | .hbm, ⟨84, _⟩ => ⟨S1x128x160000x1, .f32⟩
  | _, _ => ⟨S1x128x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]

class Facts₀ : Prop where
  bcast_S160000_S1x160000x1_1 : S160000.BroadcastsInDim S1x160000x1 (![1] : Fin 1 → Fin S1x160000x1.rank)
  concatenates_S1x160000x1_S1x160000x4_S1x160000x5_d2 : Shape.Concatenates [S1x160000x1, S1x160000x4] S1x160000x5 2
  bcast_S_S1x160000x5 : S_.BroadcastsInDim S1x160000x5 (![] : Fin 0 → Fin S1x160000x5.rank)
  bcast_S_S1 : S_.BroadcastsInDim S1 (![] : Fin 0 → Fin S1.rank)
  bcast_S1_S1x1x1_0 : S1.BroadcastsInDim S1x1x1 (![0] : Fin 1 → Fin S1x1x1.rank)
  bcast_S1x1x1_S1x160000x5_0_1_2 : S1x1x1.BroadcastsInDim S1x160000x5 (![0, 1, 2] : Fin 3 → Fin S1x160000x5.rank)
  shapeCasts_S1x160000x5_S800000 : S1x160000x5.ShapeCasts S800000
  bcast_S_S1x128x1 : S_.BroadcastsInDim S1x128x1 (![] : Fin 0 → Fin S1x128x1.rank)
  concatenates_S1x128x1_S1x128x160000_S1x128x160001_d2 : Shape.Concatenates [S1x128x1, S1x128x160000] S1x128x160001 2
  transposes_S1x128x160001_S1x160001x128_0_2_1 : S1x128x160001.Transposes [0, 2, 1] S1x160001x128
  shapeCasts_S1x160001x128_S160001x128 : S1x160001x128.ShapeCasts S160001x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S800000x128_S1x160000x5x128 : S800000x128.ShapeCasts S1x160000x5x128
  transposes_S1x160000x5x128_S1x128x160000x5_0_3_1_2 : S1x160000x5x128.Transposes [0, 3, 1, 2] S1x128x160000x5
  slices_S1x128x160000x5_S1x128x160000x1_0_0_0_1 : S1x128x160000x5.Slices ![0, 0, 0, 1] S1x128x160000x1
  shapeCasts_S1x128x160000x1_S1x128x160000 : S1x128x160000x1.ShapeCasts S1x128x160000
  slices_S1x128x160000x5_S1x128x160000x1_0_0_0_3 : S1x128x160000x5.Slices ![0, 0, 0, 3] S1x128x160000x1
  slices_S1x128x160000x5_S1x128x160000x1_0_0_0_2 : S1x128x160000x5.Slices ![0, 0, 0, 2] S1x128x160000x1
  slices_S1x128x160000x5_S1x128x160000x1_0_0_0_4 : S1x128x160000x5.Slices ![0, 0, 0, 4] S1x128x160000x1
  slices_S1x128x160000x5_S1x128x160000x1_0_0_0_0 : S1x128x160000x5.Slices ![0, 0, 0, 0] S1x128x160000x1
  bcast_S1x128x160000_S1x128x160000x1_0_1_2 : S1x128x160000.BroadcastsInDim S1x128x160000x1 (![0, 1, 2] : Fin 3 → Fin S1x128x160000x1.rank)
  concatenates_S1x128x160000x1_S1x128x160000x1_S1x128x160000x1_S1x128x160000x1_S1x128x160000x1_S1x128x160000x5_d3 : Shape.Concatenates [S1x128x160000x1, S1x128x160000x1, S1x128x160000x1, S1x128x160000x1, S1x128x160000x1] S1x128x160000x5 3
  shapeCasts_S128x128x1x5_S128x128x5 : S128x128x1x5.ShapeCasts S128x128x5
  transposes_S128x1x160000_S1x128x160000_1_0_2 : S128x1x160000.Transposes [1, 0, 2] S1x128x160000
  bcast_S128_S1x128x1_1 : S128.BroadcastsInDim S1x128x1 (![1] : Fin 1 → Fin S1x128x1.rank)
  bcast_S1x128x1_S1x128x160000_0_1_2 : S1x128x1.BroadcastsInDim S1x128x160000 (![0, 1, 2] : Fin 3 → Fin S1x128x160000.rank)
  gather_S160001x128_S800000x1_S800000x128_1_0_n_n_0_1_1128_wf : GatherDims.WF S160001x128 S800000x1 S800000x128 [1] [0] [] [0] [] 1 ![1, 128]
  dot_S128x128x5_S1x128x160000x5_S128x1x160000_12_13_0_02_n_n_wf : DotDims.WF S128x128x5 S1x128x160000x5 S128x1x160000 [1, 2] [1, 3] [0] [0, 2] [] []

variable [Facts₀]

def gather_S160001x128_S800000x1_S800000x128_1_0_n_n_0_1_1128 : GatherDims S160001x128 S800000x1 S800000x128 where
  offsetDims := [1]
  collapsedSliceDims := [0]
  operandBatchingDims := []
  startIndicesBatchingDims := []
  startIndexMap := [0]
  indexVectorDim := 1
  sliceSizes := ![1, 128]
  wf := gather_S160001x128_S800000x1_S800000x128_1_0_n_n_0_1_1128_wf
def dot_S128x128x5_S1x128x160000x5_S128x1x160000_12_13_0_02_n_n : DotDims S128x128x5 S1x128x160000x5 S128x1x160000 where
  lhsContracting := [1, 2]
  rhsContracting := [1, 3]
  lhsNonContracting := [0]
  rhsNonContracting := [0, 2]
  lhsBatch := []
  rhsBatch := []
  wf := dot_S128x128x5_S1x128x160000x5_S128x1x160000_12_13_0_02_n_n_wf

class Facts : Prop extends Facts₀ where

variable [Facts]
-- ==== Proof.KSetup.lean ====
/-
  The program as the SparseCore launch theorem sees it: five vector-subcore gather calls (each on
  2 SparseCores × 16 vector subcores) followed by five TensorCore pipelines, on one device.  This module fixes
  the call table, the body table, the resource algebra (the handshakes' rounds, the pipelines' rounds, the
  local transfers' counters) and the embeddings everything else is stated over.
-/
import proofs.«210879_g80607946211848_cont_9to1_m_1212_13_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210879_g80607946211848_cont_9to1_m_1212_13_alg».proof.Proof.Gen.KernelIdeal
import proofs.«210879_g80607946211848_cont_9to1_m_1212_13_alg».proof.Proof.Gen.KernelIdeal.Launch
import proofs.«210879_g80607946211848_cont_9to1_m_1212_13_alg».proof.Proof.Gen.KernelIdeal.Points

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq (q : Fin 5) : (K (F := F)).nCore q = 2 := by fin_cases q <;> rfl
theorem nSub_eq (q : Fin 5) : (K (F := F)).nSub q = 16 := by fin_cases q <;> rfl
theorem kind_eq (q : Fin 5) : (K (F := F)).kind q = .scVector := by fin_cases q <;> rfl

/-! ## The resource algebra: the handshakes' rounds, the pipelines' rounds, the transfers' counters -/

abbrev UH : Type := URounds (GSem nD τ sig) ℕ
abbrev UP : Type := UR sig nD τ
abbrev UU : Type := UH × (UP × Counters)

/-- The handshakes' rounds library: the left factor. -/
abbrev EH : Emb UH (MT nD τ sig (HIx 5) (Elt F) ℕ UU ℕ) := embL
/-- The pipelines' rounds library: the middle factor. -/
def EP : Emb UP (MT nD τ sig (HIx 5) (Elt F) ℕ UU ℕ) :=
  (Emb.inl : Emb UP (UP × Counters)).trans (embR : Emb (UP × Counters) (MT nD τ sig (HIx 5) (Elt F) ℕ UU ℕ))

instance EP_landsIn : (EP : Emb UP (MT nD τ sig (HIx 5) (Elt F) ℕ UU ℕ)).LandsIn (upEmb : UEmb _ (MT nD τ sig (HIx 5) (Elt F) ℕ UU ℕ)) := by
  unfold EP; infer_instance

/-- The counters are found in the right factor by instance. -/
example : CountersIn UU := inferInstance

end Cert.KernelIdeal.KP

end
-- ==== Proof.TileRes0.lean ====
/-
  Call 0 of the gather kernel, seen from one vector subcore (a "tile").  Tile (c, s) of the 2 × 16 grid has number
  w = 2 s + c and serves the index chunks w, w + 32, w + 64, … below 250: for chunk n it fetches the 4 × 128 index
  block n, gathers for each of the four planes j the 128 rows of the table named there, and writes them to rows
  128 n … 128 n + 127 of plane j of the result.  So entry (j, r, k) of the result is entry (idx[r / 128, j, r % 128], k)
  of the table.  This module names the tile's thread, the result's windows as the kernel slices them, the gathered
  array as one function, and what a task is handed and hands back.
-/
import proofs.«210879_g80607946211848_cont_9to1_m_1212_13_alg».proof.Proof.KSetup
import Idealize.ShloMosaic.Lib.ValueIdx

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The gathered array, as one function (the same for every call: the shapes agree) -/

/-- Row id read from the index block: chunk `r / 128`, plane `j`, lane `r % 128`; reduced modulo the table's 160000 rows
    (the identity on ids in range). -/
def gRow (I : IVec S250x4x128 32) (j : Fin 4) (r : Fin 32000) : Fin 160000 :=
  ⟨(I (ix3 (⟨r.val / 128, by have := r.isLt; omega⟩ : Fin 250) j (⟨r.val % 128, Nat.mod_lt _ (by decide)⟩ : Fin 128))).toNat % 160000,
    Nat.mod_lt _ (by decide)⟩

/-- The result of a gather call: entry `(j, r, k)` is entry `(gRow I j r, k)` of the table. -/
def gath (X : FVec F S160000x128 .f32) (I : IVec S250x4x128 32) : FVec F S4x32000x128 .f32 :=
  fun i => X (ix2 (gRow I (i 0) (i 1)) (i 2))

/-! ## Call 0: the thread, the arrays, the result's windows -/

abbrev cV0 (L : grid0.Coords) : Fin τ.nSC := (L 0).castLE hcore0
abbrev jV0 (L : grid0.Coords) : Fin τ.nSub := (L 1).castLE hsub0
/-- The tile's thread. -/
abbrev thr0 (d : Dev nD) (L : grid0.Coords) : Thread nD τ := V d (cV0 L) (jV0 L)

def coordsV0 (c : Fin (grid0.bound 0)) (s : Fin (grid0.bound 1)) : grid0.Coords :=
  fun | 0 => c | 1 => s | ⟨_ + 2, h⟩ => absurd h (Nat.not_lt.2 (Nat.le_add_left _ _))

/-- The table, the index block and the result, as the TensorCore names them on device `d`. -/
abbrev xLoc (d : Dev nD) : Loc nD τ sig := (SparseCore.T d).loc main_v1
abbrev iLoc0 (d : Dev nD) : Loc nD τ sig := (SparseCore.T d).loc main_v8
abbrev oLoc0 (d : Dev nD) : Loc nD τ sig := (SparseCore.T d).loc main_v9

/-- Trip `t` of the tile's loop is active: its chunk number is below 250. -/
abbrev Act0 (L : grid0.Coords) (t : Fin k0_t1_loop.trips) : Prop := k0_cond1 L t = 1#1

/-- The four windows trip `t` writes: rows of its chunk in planes 0, 1, 2, 3, spelt as the kernel slices them. -/
abbrev oWin0_0 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off10 L t) S1x128x128.size (k0_off10_inb L t h)) (fun _ => rfl)).squeeze S128x128 squeezes_S1x128x128_S128x128
abbrev oWin0_1 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off11 L t) S1x128x128.size (k0_off11_inb L t h)) (fun _ => rfl)).squeeze S128x128 squeezes_S1x128x128_S128x128
abbrev oWin0_2 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off12 L t) S1x128x128.size (k0_off12_inb L t h)) (fun _ => rfl)).squeeze S128x128 squeezes_S1x128x128_S128x128
abbrev oWin0_3 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off13 L t) S1x128x128.size (k0_off13_inb L t h)) (fun _ => rfl)).squeeze S128x128 squeezes_S1x128x128_S128x128

/-- The elements of the result trip `t` of tile `L` writes, plane by plane. -/
abbrev oSet0 (L : grid0.Coords) (t : Fin k0_t1_loop.trips) (h : Act0 L t) : Fin 4 → Finset S4x32000x128.Idx
  | 0 => (oWin0_0 L t h).view.set
  | 1 => (oWin0_1 L t h).view.set
  | 2 => (oWin0_2 L t h).view.set
  | 3 => (oWin0_3 L t h).view.set

/-- The result's elements of trip `t`, all four planes, held at contents `f`: nothing for an idle trip. -/
def oTrip0 (d : Dev nD) (L : grid0.Coords) (f : Buf (Elt F) (oLoc0 d)) (t : Fin k0_t1_loop.trips) : sProp 𝕄 :=
  if h : Act0 L t then
    iprop((oLoc0 d ↦[oSet0 L t h 0]{fullShare} f) ∗ (oLoc0 d ↦[oSet0 L t h 1]{fullShare} f)
      ∗ (oLoc0 d ↦[oSet0 L t h 2]{fullShare} f) ∗ (oLoc0 d ↦[oSet0 L t h 3]{fullShare} f))
  else iprop(emp)

/-- The read share of the table and of the index block tile `L` is lent: the tile's token of its SparseCore's token. -/
abbrev qTile0 (L : grid0.Coords) : PosShare TreeShare :=
  shareTok (shareTok fullShare 2 (L 0)) 16 (L 1)

/-- What the go signal hands tile `L`: a read share of the table `X` and of the index block `I`, and its own windows of
    the result at the contents `G` the call found. -/
def tileGo0 (d : Dev nD) (X : Buf (Elt F) (xLoc d)) (I : Buf (Elt F) (iLoc0 d)) (G : Buf (Elt F) (oLoc0 d)) (L : grid0.Coords) : sProp 𝕄 :=
  iprop((xLoc d ↦{qTile0 L} X) ∗ (iLoc0 d ↦{qTile0 L} I) ∗ bigSep Finset.univ fun t : Fin k0_t1_loop.trips => oTrip0 d L G t)

/-- What its taskDone hands back: the shares, and the windows at the gathered array. -/
def tileTd0 (d : Dev nD) (X : Buf (Elt F) (xLoc d)) (I : Buf (Elt F) (iLoc0 d)) (L : grid0.Coords) : sProp 𝕄 :=
  iprop((xLoc d ↦{qTile0 L} X) ∗ (iLoc0 d ↦{qTile0 L} I)
    ∗ bigSep Finset.univ fun t : Fin k0_t1_loop.trips => oTrip0 d L (gath (F := F) X I) t)

end Cert.KernelIdeal.KP

end
-- ==== Proof.TileRes1.lean ====
/-
  Call 1 of the gather kernel, seen from one vector subcore: call 0's names over call 1's index block (main_v10)
  and result array (main_v11).  The table, the gathered array as one function and the tiles' coordinates are call 0's.
-/
import proofs.«210879_g80607946211848_cont_9to1_m_1212_13_alg».proof.Proof.TileRes0
import Idealize.ShloMosaic.Lib.ValueIdx

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 1: the thread, the arrays, the result's windows -/

abbrev cV1 (L : grid1.Coords) : Fin τ.nSC := (L 0).castLE hcore1
abbrev jV1 (L : grid1.Coords) : Fin τ.nSub := (L 1).castLE hsub1
/-- The tile's thread. -/
abbrev thr1 (d : Dev nD) (L : grid1.Coords) : Thread nD τ := V d (cV1 L) (jV1 L)

/-- The index block and the result, as the TensorCore names them on device `d`. -/
abbrev iLoc1 (d : Dev nD) : Loc nD τ sig := (SparseCore.T d).loc main_v10
abbrev oLoc1 (d : Dev nD) : Loc nD τ sig := (SparseCore.T d).loc main_v11

/-- Trip `t` of the tile's loop is active: its chunk number is below 250. -/
abbrev Act1 (L : grid1.Coords) (t : Fin k1_t1_loop.trips) : Prop := k1_cond1 L t = 1#1

/-- The four windows trip `t` writes: rows of its chunk in planes 0, 1, 2, 3, spelt as the kernel slices them. -/
abbrev oWin1_0 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off10 L t) S1x128x128.size (k1_off10_inb L t h)) (fun _ => rfl)).squeeze S128x128 squeezes_S1x128x128_S128x128
abbrev oWin1_1 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off11 L t) S1x128x128.size (k1_off11_inb L t h)) (fun _ => rfl)).squeeze S128x128 squeezes_S1x128x128_S128x128
abbrev oWin1_2 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off12 L t) S1x128x128.size (k1_off12_inb L t h)) (fun _ => rfl)).squeeze S128x128 squeezes_S1x128x128_S128x128
abbrev oWin1_3 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off13 L t) S1x128x128.size (k1_off13_inb L t h)) (fun _ => rfl)).squeeze S128x128 squeezes_S1x128x128_S128x128

/-- The elements of the result trip `t` of tile `L` writes, plane by plane. -/
abbrev oSet1 (L : grid1.Coords) (t : Fin k1_t1_loop.trips) (h : Act1 L t) : Fin 4 → Finset S4x32000x128.Idx
  | 0 => (oWin1_0 L t h).view.set
  | 1 => (oWin1_1 L t h).view.set
  | 2 => (oWin1_2 L t h).view.set
  | 3 => (oWin1_3 L t h).view.set

/-- The result's elements of trip `t`, all four planes, held at contents `f`: nothing for an idle trip. -/
def oTrip1 (d : Dev nD) (L : grid1.Coords) (f : Buf (Elt F) (oLoc1 d)) (t : Fin k1_t1_loop.trips) : sProp 𝕄 :=
  if h : Act1 L t then
    iprop((oLoc1 d ↦[oSet1 L t h 0]{fullShare} f) ∗ (oLoc1 d ↦[oSet1 L t h 1]{fullShare} f)
      ∗ (oLoc1 d ↦[oSet1 L t h 2]{fullShare} f) ∗ (oLoc1 d ↦[oSet1 L t h 3]{fullShare} f))
  else iprop(emp)

/-- The read share of the table and of the index block tile `L` is lent: the tile's token of its SparseCore's token. -/
abbrev qTile1 (L : grid1.Coords) : PosShare TreeShare :=
  shareTok (shareTok fullShare 2 (L 0)) 16 (L 1)

/-- What the go signal hands tile `L`: a read share of the table `X` and of the index block `I`, and its own windows of
    the result at the contents `G` the call found. -/
def tileGo1 (d : Dev nD) (X : Buf (Elt F) (xLoc d)) (I : Buf (Elt F) (iLoc1 d)) (G : Buf (Elt F) (oLoc1 d)) (L : grid1.Coords) : sProp 𝕄 :=
  iprop((xLoc d ↦{qTile1 L} X) ∗ (iLoc1 d ↦{qTile1 L} I) ∗ bigSep Finset.univ fun t : Fin k1_t1_loop.trips => oTrip1 d L G t)

/-- What its taskDone hands back: the shares, and the windows at the gathered array. -/
def tileTd1 (d : Dev nD) (X : Buf (Elt F) (xLoc d)) (I : Buf (Elt F) (iLoc1 d)) (L : grid1.Coords) : sProp 𝕄 :=
  iprop((xLoc d ↦{qTile1 L} X) ∗ (iLoc1 d ↦{qTile1 L} I)
    ∗ bigSep Finset.univ fun t : Fin k1_t1_loop.trips => oTrip1 d L (gath (F := F) X I) t)

end Cert.KernelIdeal.KP

end
-- ==== Proof.TileRes2.lean ====
/-
  Call 2 of the gather kernel, seen from one vector subcore: call 0's names over call 2's index block (main_v12)
  and result array (main_v13).  The table, the gathered array as one function and the tiles' coordinates are call 0's.
-/
import proofs.«210879_g80607946211848_cont_9to1_m_1212_13_alg».proof.Proof.TileRes0
import Idealize.ShloMosaic.Lib.ValueIdx

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 2: the thread, the arrays, the result's windows -/

abbrev cV2 (L : grid2.Coords) : Fin τ.nSC := (L 0).castLE hcore2
abbrev jV2 (L : grid2.Coords) : Fin τ.nSub := (L 1).castLE hsub2
/-- The tile's thread. -/
abbrev thr2 (d : Dev nD) (L : grid2.Coords) : Thread nD τ := V d (cV2 L) (jV2 L)

/-- The index block and the result, as the TensorCore names them on device `d`. -/
abbrev iLoc2 (d : Dev nD) : Loc nD τ sig := (SparseCore.T d).loc main_v12
abbrev oLoc2 (d : Dev nD) : Loc nD τ sig := (SparseCore.T d).loc main_v13

/-- Trip `t` of the tile's loop is active: its chunk number is below 250. -/
abbrev Act2 (L : grid2.Coords) (t : Fin k2_t1_loop.trips) : Prop := k2_cond1 L t = 1#1

/-- The four windows trip `t` writes: rows of its chunk in planes 0, 1, 2, 3, spelt as the kernel slices them. -/
abbrev oWin2_0 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off10 L t) S1x128x128.size (k2_off10_inb L t h)) (fun _ => rfl)).squeeze S128x128 squeezes_S1x128x128_S128x128
abbrev oWin2_1 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off11 L t) S1x128x128.size (k2_off11_inb L t h)) (fun _ => rfl)).squeeze S128x128 squeezes_S1x128x128_S128x128
abbrev oWin2_2 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off12 L t) S1x128x128.size (k2_off12_inb L t h)) (fun _ => rfl)).squeeze S128x128 squeezes_S1x128x128_S128x128
abbrev oWin2_3 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off13 L t) S1x128x128.size (k2_off13_inb L t h)) (fun _ => rfl)).squeeze S128x128 squeezes_S1x128x128_S128x128

/-- The elements of the result trip `t` of tile `L` writes, plane by plane. -/
abbrev oSet2 (L : grid2.Coords) (t : Fin k2_t1_loop.trips) (h : Act2 L t) : Fin 4 → Finset S4x32000x128.Idx
  | 0 => (oWin2_0 L t h).view.set
  | 1 => (oWin2_1 L t h).view.set
  | 2 => (oWin2_2 L t h).view.set
  | 3 => (oWin2_3 L t h).view.set

/-- The result's elements of trip `t`, all four planes, held at contents `f`: nothing for an idle trip. -/
def oTrip2 (d : Dev nD) (L : grid2.Coords) (f : Buf (Elt F) (oLoc2 d)) (t : Fin k2_t1_loop.trips) : sProp 𝕄 :=
  if h : Act2 L t then
    iprop((oLoc2 d ↦[oSet2 L t h 0]{fullShare} f) ∗ (oLoc2 d ↦[oSet2 L t h 1]{fullShare} f)
      ∗ (oLoc2 d ↦[oSet2 L t h 2]{fullShare} f) ∗ (oLoc2 d ↦[oSet2 L t h 3]{fullShare} f))
  else iprop(emp)

/-- The read share of the table and of the index block tile `L` is lent: the tile's token of its SparseCore's token. -/
abbrev qTile2 (L : grid2.Coords) : PosShare TreeShare :=
  shareTok (shareTok fullShare 2 (L 0)) 16 (L 1)

/-- What the go signal hands tile `L`: a read share of the table `X` and of the index block `I`, and its own windows of
    the result at the contents `G` the call found. -/
def tileGo2 (d : Dev nD) (X : Buf (Elt F) (xLoc d)) (I : Buf (Elt F) (iLoc2 d)) (G : Buf (Elt F) (oLoc2 d)) (L : grid2.Coords) : sProp 𝕄 :=
  iprop((xLoc d ↦{qTile2 L} X) ∗ (iLoc2 d ↦{qTile2 L} I) ∗ bigSep Finset.univ fun t : Fin k2_t1_loop.trips => oTrip2 d L G t)

/-- What its taskDone hands back: the shares, and the windows at the gathered array. -/
def tileTd2 (d : Dev nD) (X : Buf (Elt F) (xLoc d)) (I : Buf (Elt F) (iLoc2 d)) (L : grid2.Coords) : sProp 𝕄 :=
  iprop((xLoc d ↦{qTile2 L} X) ∗ (iLoc2 d ↦{qTile2 L} I)
    ∗ bigSep Finset.univ fun t : Fin k2_t1_loop.trips => oTrip2 d L (gath (F := F) X I) t)

end Cert.KernelIdeal.KP

end
-- ==== Proof.TileRes3.lean ====
/-
  Call 3 of the gather kernel, seen from one vector subcore: call 0's names over call 3's index block (main_v14)
  and result array (main_v15).  The table, the gathered array as one function and the tiles' coordinates are call 0's.
-/
import proofs.«210879_g80607946211848_cont_9to1_m_1212_13_alg».proof.Proof.TileRes0
import Idealize.ShloMosaic.Lib.ValueIdx

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 3: the thread, the arrays, the result's windows -/

abbrev cV3 (L : grid3.Coords) : Fin τ.nSC := (L 0).castLE hcore3
abbrev jV3 (L : grid3.Coords) : Fin τ.nSub := (L 1).castLE hsub3
/-- The tile's thread. -/
abbrev thr3 (d : Dev nD) (L : grid3.Coords) : Thread nD τ := V d (cV3 L) (jV3 L)

/-- The index block and the result, as the TensorCore names them on device `d`. -/
abbrev iLoc3 (d : Dev nD) : Loc nD τ sig := (SparseCore.T d).loc main_v14
abbrev oLoc3 (d : Dev nD) : Loc nD τ sig := (SparseCore.T d).loc main_v15

/-- Trip `t` of the tile's loop is active: its chunk number is below 250. -/
abbrev Act3 (L : grid3.Coords) (t : Fin k3_t1_loop.trips) : Prop := k3_cond1 L t = 1#1

/-- The four windows trip `t` writes: rows of its chunk in planes 0, 1, 2, 3, spelt as the kernel slices them. -/
abbrev oWin3_0 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off10 L t) S1x128x128.size (k3_off10_inb L t h)) (fun _ => rfl)).squeeze S128x128 squeezes_S1x128x128_S128x128
abbrev oWin3_1 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off11 L t) S1x128x128.size (k3_off11_inb L t h)) (fun _ => rfl)).squeeze S128x128 squeezes_S1x128x128_S128x128
abbrev oWin3_2 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off12 L t) S1x128x128.size (k3_off12_inb L t h)) (fun _ => rfl)).squeeze S128x128 squeezes_S1x128x128_S128x128
abbrev oWin3_3 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off13 L t) S1x128x128.size (k3_off13_inb L t h)) (fun _ => rfl)).squeeze S128x128 squeezes_S1x128x128_S128x128

/-- The elements of the result trip `t` of tile `L` writes, plane by plane. -/
abbrev oSet3 (L : grid3.Coords) (t : Fin k3_t1_loop.trips) (h : Act3 L t) : Fin 4 → Finset S4x32000x128.Idx
  | 0 => (oWin3_0 L t h).view.set
  | 1 => (oWin3_1 L t h).view.set
  | 2 => (oWin3_2 L t h).view.set
  | 3 => (oWin3_3 L t h).view.set

/-- The result's elements of trip `t`, all four planes, held at contents `f`: nothing for an idle trip. -/
def oTrip3 (d : Dev nD) (L : grid3.Coords) (f : Buf (Elt F) (oLoc3 d)) (t : Fin k3_t1_loop.trips) : sProp 𝕄 :=
  if h : Act3 L t then
    iprop((oLoc3 d ↦[oSet3 L t h 0]{fullShare} f) ∗ (oLoc3 d ↦[oSet3 L t h 1]{fullShare} f)
      ∗ (oLoc3 d ↦[oSet3 L t h 2]{fullShare} f) ∗ (oLoc3 d ↦[oSet3 L t h 3]{fullShare} f))
  else iprop(emp)

/-- The read share of the table and of the index block tile `L` is lent: the tile's token of its SparseCore's token. -/
abbrev qTile3 (L : grid3.Coords) : PosShare TreeShare :=
  shareTok (shareTok fullShare 2 (L 0)) 16 (L 1)

/-- What the go signal hands tile `L`: a read share of the table `X` and of the index block `I`, and its own windows of
    the result at the contents `G` the call found. -/
def tileGo3 (d : Dev nD) (X : Buf (Elt F) (xLoc d)) (I : Buf (Elt F) (iLoc3 d)) (G : Buf (Elt F) (oLoc3 d)) (L : grid3.Coords) : sProp 𝕄 :=
  iprop((xLoc d ↦{qTile3 L} X) ∗ (iLoc3 d ↦{qTile3 L} I) ∗ bigSep Finset.univ fun t : Fin k3_t1_loop.trips => oTrip3 d L G t)

/-- What its taskDone hands back: the shares, and the windows at the gathered array. -/
def tileTd3 (d : Dev nD) (X : Buf (Elt F) (xLoc d)) (I : Buf (Elt F) (iLoc3 d)) (L : grid3.Coords) : sProp 𝕄 :=
  iprop((xLoc d ↦{qTile3 L} X) ∗ (iLoc3 d ↦{qTile3 L} I)
    ∗ bigSep Finset.univ fun t : Fin k3_t1_loop.trips => oTrip3 d L (gath (F := F) X I) t)

end Cert.KernelIdeal.KP

end
-- ==== Proof.TileRes4.lean ====
/-
  Call 4 of the gather kernel, seen from one vector subcore: call 0's names over call 4's index block (main_v16)
  and result array (main_v17).  The table, the gathered array as one function and the tiles' coordinates are call 0's.
-/
import proofs.«210879_g80607946211848_cont_9to1_m_1212_13_alg».proof.Proof.TileRes0
import Idealize.ShloMosaic.Lib.ValueIdx

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 4: the thread, the arrays, the result's windows -/

abbrev cV4 (L : grid4.Coords) : Fin τ.nSC := (L 0).castLE hcore4
abbrev jV4 (L : grid4.Coords) : Fin τ.nSub := (L 1).castLE hsub4
/-- The tile's thread. -/
abbrev thr4 (d : Dev nD) (L : grid4.Coords) : Thread nD τ := V d (cV4 L) (jV4 L)

/-- The index block and the result, as the TensorCore names them on device `d`. -/
abbrev iLoc4 (d : Dev nD) : Loc nD τ sig := (SparseCore.T d).loc main_v16
abbrev oLoc4 (d : Dev nD) : Loc nD τ sig := (SparseCore.T d).loc main_v17

/-- Trip `t` of the tile's loop is active: its chunk number is below 250. -/
abbrev Act4 (L : grid4.Coords) (t : Fin k4_t1_loop.trips) : Prop := k4_cond1 L t = 1#1

/-- The four windows trip `t` writes: rows of its chunk in planes 0, 1, 2, 3, spelt as the kernel slices them. -/
abbrev oWin4_0 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off10 L t) S1x128x128.size (k4_off10_inb L t h)) (fun _ => rfl)).squeeze S128x128 squeezes_S1x128x128_S128x128
abbrev oWin4_1 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off11 L t) S1x128x128.size (k4_off11_inb L t h)) (fun _ => rfl)).squeeze S128x128 squeezes_S1x128x128_S128x128
abbrev oWin4_2 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off12 L t) S1x128x128.size (k4_off12_inb L t h)) (fun _ => rfl)).squeeze S128x128 squeezes_S1x128x128_S128x128
abbrev oWin4_3 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off13 L t) S1x128x128.size (k4_off13_inb L t h)) (fun _ => rfl)).squeeze S128x128 squeezes_S1x128x128_S128x128

/-- The elements of the result trip `t` of tile `L` writes, plane by plane. -/
abbrev oSet4 (L : grid4.Coords) (t : Fin k4_t1_loop.trips) (h : Act4 L t) : Fin 4 → Finset S4x32000x128.Idx
  | 0 => (oWin4_0 L t h).view.set
  | 1 => (oWin4_1 L t h).view.set
  | 2 => (oWin4_2 L t h).view.set
  | 3 => (oWin4_3 L t h).view.set

/-- The result's elements of trip `t`, all four planes, held at contents `f`: nothing for an idle trip. -/
def oTrip4 (d : Dev nD) (L : grid4.Coords) (f : Buf (Elt F) (oLoc4 d)) (t : Fin k4_t1_loop.trips) : sProp 𝕄 :=
  if h : Act4 L t then
    iprop((oLoc4 d ↦[oSet4 L t h 0]{fullShare} f) ∗ (oLoc4 d ↦[oSet4 L t h 1]{fullShare} f)
      ∗ (oLoc4 d ↦[oSet4 L t h 2]{fullShare} f) ∗ (oLoc4 d ↦[oSet4 L t h 3]{fullShare} f))
  else iprop(emp)

/-- The read share of the table and of the index block tile `L` is lent: the tile's token of its SparseCore's token. -/
abbrev qTile4 (L : grid4.Coords) : PosShare TreeShare :=
  shareTok (shareTok fullShare 2 (L 0)) 16 (L 1)

/-- What the go signal hands tile `L`: a read share of the table `X` and of the index block `I`, and its own windows of
    the result at the contents `G` the call found. -/
def tileGo4 (d : Dev nD) (X : Buf (Elt F) (xLoc d)) (I : Buf (Elt F) (iLoc4 d)) (G : Buf (Elt F) (oLoc4 d)) (L : grid4.Coords) : sProp 𝕄 :=
  iprop((xLoc d ↦{qTile4 L} X) ∗ (iLoc4 d ↦{qTile4 L} I) ∗ bigSep Finset.univ fun t : Fin k4_t1_loop.trips => oTrip4 d L G t)

/-- What its taskDone hands back: the shares, and the windows at the gathered array. -/
def tileTd4 (d : Dev nD) (X : Buf (Elt F) (xLoc d)) (I : Buf (Elt F) (iLoc4 d)) (L : grid4.Coords) : sProp 𝕄 :=
  iprop((xLoc d ↦{qTile4 L} X) ∗ (iLoc4 d ↦{qTile4 L} I)
    ∗ bigSep Finset.univ fun t : Fin k4_t1_loop.trips => oTrip4 d L (gath (F := F) X I) t)

end Cert.KernelIdeal.KP

end
-- ==== Proof.KPay.lean ====
/-
  What the launch's handshakes carry for the five gather calls.  Each call reads the table (main_v1, the transposed
  reshaped first argument) and its own block of 250 index chunks (a slice of the transposed reshaped second argument)
  and fills its own result array.  The TensorCore's start hands each SparseCore the go assertions of its sixteen tiles,
  the sequencer's go hands tile (c, s) its own, and the way back carries the tiles' results: so the split of a
  SparseCore's operands among its tiles is the identity.  The kernel's own transfers use the counters ghost state and
  need nothing of the launch.
-/
import proofs.«210879_g80607946211848_cont_9to1_m_1212_13_alg».proof.Proof.TileRes0
import proofs.«210879_g80607946211848_cont_9to1_m_1212_13_alg».proof.Proof.TileRes1
import proofs.«210879_g80607946211848_cont_9to1_m_1212_13_alg».proof.Proof.TileRes2
import proofs.«210879_g80607946211848_cont_9to1_m_1212_13_alg».proof.Proof.TileRes3
import proofs.«210879_g80607946211848_cont_9to1_m_1212_13_alg».proof.Proof.TileRes4

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The arrays the calls see, as terms of the launch memory -/

section Arrays

variable (m : (ℓ : Loc nD τ sig) → Buf (Elt F) ℓ)

/-- The first two arguments, as the TensorCore names them on device `d`. -/
abbrev a0Loc (d : Dev nD) : Loc nD τ sig := (SparseCore.T d).loc main_arg0
abbrev a1Loc (d : Dev nD) : Loc nD τ sig := (SparseCore.T d).loc main_arg1

/-- main_v0: the first argument at shape 128 × 160000. -/
def V0v (d : Dev nD) : FVec F S128x160000 .f32 :=
  shapeCast S128x160000 (m (a0Loc d)) shapeCasts_S1x128x160000_S128x160000
/-- The table main_v1: the transpose of main_v0, 160000 rows of 128. -/
def Xv (d : Dev nD) : Buf (Elt F) (xLoc d) :=
  transpose S160000x128 [1, 0] (V0v m d) transposes_S128x160000_S160000x128_1_0

/-- main_v2, main_v3: the second argument at shapes 160000 × 4 and 1250 × 128 × 4. -/
def V2v (d : Dev nD) : IVec S160000x4 32 := shapeCast S160000x4 (m (a1Loc d)) shapeCasts_S1x160000x4_S160000x4
def V3v (d : Dev nD) : IVec S1250x128x4 32 := shapeCast S1250x128x4 (V2v m d) shapeCasts_S160000x4_S1250x128x4
/-- main_v4: all 1250 index chunks, each 4 planes of 128 lanes. -/
def V4v (d : Dev nD) : IVec S1250x4x128 32 := transpose S1250x4x128 [0, 2, 1] (V3v m d) transposes_S1250x128x4_S1250x4x128_0_2_1

/-- The five index blocks main_v8, main_v10, main_v12, main_v14, main_v16: chunks 250 q … 250 q + 249. -/
def Iv0 (d : Dev nD) : Buf (Elt F) (iLoc0 d) := extractStridedSlice S250x4x128 ![0, 0, 0] (V4v m d) slices_S1250x4x128_S250x4x128_0_0_0
def Iv1 (d : Dev nD) : IVec S250x4x128 32 := extractStridedSlice S250x4x128 ![250, 0, 0] (V4v m d) slices_S1250x4x128_S250x4x128_250_0_0
def Iv2 (d : Dev nD) : IVec S250x4x128 32 := extractStridedSlice S250x4x128 ![500, 0, 0] (V4v m d) slices_S1250x4x128_S250x4x128_500_0_0
def Iv3 (d : Dev nD) : IVec S250x4x128 32 := extractStridedSlice S250x4x128 ![750, 0, 0] (V4v m d) slices_S1250x4x128_S250x4x128_750_0_0
def Iv4 (d : Dev nD) : IVec S250x4x128 32 := extractStridedSlice S250x4x128 ![1000, 0, 0] (V4v m d) slices_S1250x4x128_S250x4x128_1000_0_0

end Arrays

/-! ## The tiles of a call -/

theorem core_lt (q : Fin 5) (c : Fin ((K (F := F)).nCore q)) : c.val < grid0.bound 0 := by
  exact lt_of_lt_of_eq c.isLt (nCore_eq q)
theorem sub_lt (q : Fin 5) (i : Fin ((K (F := F)).nSub q)) : i.val < grid0.bound 1 := by
  exact lt_of_lt_of_eq i.isLt (nSub_eq q)

/-- Tile `i` of SparseCore `c` of call `q`'s grid, as grid coordinates (the five grids are the same 2 × 16). -/
abbrev tileL (q : Fin 5) (c : Fin ((K (F := F)).nCore q)) (i : Fin ((K (F := F)).nSub q)) : grid0.Coords :=
  coordsV0 ⟨c.val, core_lt q c⟩ ⟨i.val, sub_lt q i⟩

/-! ## What the handshakes carry -/

section Pay

variable (m : (ℓ : Loc nD τ sig) → Buf (Elt F) ℓ)

/-- What call `q`'s go hands the tile at coordinates `L`: every call finds its result array as the launch left it
    (nothing writes it before). -/
def goAt (q : Fin 5) (d : Dev nD) (L : grid0.Coords) : sProp 𝕄 :=
  match q with
  | 0 => tileGo0 d (Xv m d) (Iv0 m d) (m (oLoc0 d)) L
  | 1 => tileGo1 d (Xv m d) (Iv1 m d) (m (oLoc1 d)) L
  | 2 => tileGo2 d (Xv m d) (Iv2 m d) (m (oLoc2 d)) L
  | 3 => tileGo3 d (Xv m d) (Iv3 m d) (m (oLoc3 d)) L
  | 4 => tileGo4 d (Xv m d) (Iv4 m d) (m (oLoc4 d)) L
  | _ => iprop(emp)
/-- What the tile's taskDone hands back. -/
def tdAt (q : Fin 5) (d : Dev nD) (L : grid0.Coords) : sProp 𝕄 :=
  match q with
  | 0 => tileTd0 d (Xv m d) (Iv0 m d) L
  | 1 => tileTd1 d (Xv m d) (Iv1 m d) L
  | 2 => tileTd2 d (Xv m d) (Iv2 m d) L
  | 3 => tileTd3 d (Xv m d) (Iv3 m d) L
  | 4 => tileTd4 d (Xv m d) (Iv4 m d) L
  | _ => iprop(emp)

def P : (K (F := F)).Pay (nD := nD) (Val := Elt F) (Name := ℕ) (U := UU) where
  st := fun q d c => bigSep Finset.univ fun i : Fin ((K (F := F)).nSub q) => goAt m q d (tileL q c i)
  dn := fun q d c => bigSep Finset.univ fun i : Fin ((K (F := F)).nSub q) => tdAt m q d (tileL q c i)
  go := fun q d c i => goAt m q d (tileL q c i)
  td := fun q d c i => tdAt m q d (tileL q c i)
  x := fun _ _ => iprop(emp)

theorem P_st (q : Fin 5) (d : Dev nD) (c : Fin ((K (F := F)).nCore q)) :
    (P m).st q d c = bigSep Finset.univ fun i : Fin ((K (F := F)).nSub q) => (P m).go q d c i := rfl
theorem P_dn (q : Fin 5) (d : Dev nD) (c : Fin ((K (F := F)).nCore q)) :
    (P m).dn q d c = bigSep Finset.univ fun i : Fin ((K (F := F)).nSub q) => (P m).td q d c i := rfl
theorem P_go0 (d : Dev nD) (c : Fin ((K (F := F)).nCore 0)) (i : Fin ((K (F := F)).nSub 0)) :
    (P m).go 0 d c i = tileGo0 d (Xv m d) (Iv0 m d) (m (oLoc0 d)) (tileL 0 c i) := rfl
theorem P_td0 (d : Dev nD) (c : Fin ((K (F := F)).nCore 0)) (i : Fin ((K (F := F)).nSub 0)) :
    (P m).td 0 d c i = tileTd0 d (Xv m d) (Iv0 m d) (tileL 0 c i) := rfl
theorem P_go1 (d : Dev nD) (c : Fin ((K (F := F)).nCore 1)) (i : Fin ((K (F := F)).nSub 1)) :
    (P m).go 1 d c i = tileGo1 d (Xv m d) (Iv1 m d) (m (oLoc1 d)) (tileL 1 c i) := rfl
theorem P_td1 (d : Dev nD) (c : Fin ((K (F := F)).nCore 1)) (i : Fin ((K (F := F)).nSub 1)) :
    (P m).td 1 d c i = tileTd1 d (Xv m d) (Iv1 m d) (tileL 1 c i) := rfl
theorem P_go2 (d : Dev nD) (c : Fin ((K (F := F)).nCore 2)) (i : Fin ((K (F := F)).nSub 2)) :
    (P m).go 2 d c i = tileGo2 d (Xv m d) (Iv2 m d) (m (oLoc2 d)) (tileL 2 c i) := rfl
theorem P_td2 (d : Dev nD) (c : Fin ((K (F := F)).nCore 2)) (i : Fin ((K (F := F)).nSub 2)) :
    (P m).td 2 d c i = tileTd2 d (Xv m d) (Iv2 m d) (tileL 2 c i) := rfl
theorem P_go3 (d : Dev nD) (c : Fin ((K (F := F)).nCore 3)) (i : Fin ((K (F := F)).nSub 3)) :
    (P m).go 3 d c i = tileGo3 d (Xv m d) (Iv3 m d) (m (oLoc3 d)) (tileL 3 c i) := rfl
theorem P_td3 (d : Dev nD) (c : Fin ((K (F := F)).nCore 3)) (i : Fin ((K (F := F)).nSub 3)) :
    (P m).td 3 d c i = tileTd3 d (Xv m d) (Iv3 m d) (tileL 3 c i) := rfl
theorem P_go4 (d : Dev nD) (c : Fin ((K (F := F)).nCore 4)) (i : Fin ((K (F := F)).nSub 4)) :
    (P m).go 4 d c i = tileGo4 d (Xv m d) (Iv4 m d) (m (oLoc4 d)) (tileL 4 c i) := rfl
theorem P_td4 (d : Dev nD) (c : Fin ((K (F := F)).nCore 4)) (i : Fin ((K (F := F)).nSub 4)) :
    (P m).td 4 d c i = tileTd4 d (Xv m d) (Iv4 m d) (tileL 4 c i) := rfl
theorem P_x (q : Fin 5) (thr : Thread nD τ) : (P m).x q thr = iprop(emp) := rfl
theorem P_ox : (P m).ox = fun _ _ => 0 := rfl
theorem P_held : (P m).held = ∅ := rfl

instance oTrip0_storable (d : Dev nD) (L : grid0.Coords) (f : Buf (Elt F) (oLoc0 d)) (t : Fin k0_t1_loop.trips) :
    BI.Storable (upEmb : UEmb _ 𝕄) (oTrip0 d L f t) := by
  unfold oTrip0; split <;> infer_instance
instance tileGo0_storable (d : Dev nD) (X : Buf (Elt F) (xLoc d)) (I : Buf (Elt F) (iLoc0 d)) (G : Buf (Elt F) (oLoc0 d)) (L : grid0.Coords) :
    BI.Storable (upEmb : UEmb _ 𝕄) (tileGo0 d X I G L) := by
  unfold tileGo0; infer_instance
instance tileTd0_storable (d : Dev nD) (X : Buf (Elt F) (xLoc d)) (I : Buf (Elt F) (iLoc0 d)) (L : grid0.Coords) :
    BI.Storable (upEmb : UEmb _ 𝕄) (tileTd0 d X I L) := by
  unfold tileTd0; infer_instance
instance oTrip1_storable (d : Dev nD) (L : grid1.Coords) (f : Buf (Elt F) (oLoc1 d)) (t : Fin k1_t1_loop.trips) :
    BI.Storable (upEmb : UEmb _ 𝕄) (oTrip1 d L f t) := by
  unfold oTrip1; split <;> infer_instance
instance tileGo1_storable (d : Dev nD) (X : Buf (Elt F) (xLoc d)) (I : Buf (Elt F) (iLoc1 d)) (G : Buf (Elt F) (oLoc1 d)) (L : grid1.Coords) :
    BI.Storable (upEmb : UEmb _ 𝕄) (tileGo1 d X I G L) := by
  unfold tileGo1; infer_instance
instance tileTd1_storable (d : Dev nD) (X : Buf (Elt F) (xLoc d)) (I : Buf (Elt F) (iLoc1 d)) (L : grid1.Coords) :
    BI.Storable (upEmb : UEmb _ 𝕄) (tileTd1 d X I L) := by
  unfold tileTd1; infer_instance
instance oTrip2_storable (d : Dev nD) (L : grid2.Coords) (f : Buf (Elt F) (oLoc2 d)) (t : Fin k2_t1_loop.trips) :
    BI.Storable (upEmb : UEmb _ 𝕄) (oTrip2 d L f t) := by
  unfold oTrip2; split <;> infer_instance
instance tileGo2_storable (d : Dev nD) (X : Buf (Elt F) (xLoc d)) (I : Buf (Elt F) (iLoc2 d)) (G : Buf (Elt F) (oLoc2 d)) (L : grid2.Coords) :
    BI.Storable (upEmb : UEmb _ 𝕄) (tileGo2 d X I G L) := by
  unfold tileGo2; infer_instance
instance tileTd2_storable (d : Dev nD) (X : Buf (Elt F) (xLoc d)) (I : Buf (Elt F) (iLoc2 d)) (L : grid2.Coords) :
    BI.Storable (upEmb : UEmb _ 𝕄) (tileTd2 d X I L) := by
  unfold tileTd2; infer_instance
instance oTrip3_storable (d : Dev nD) (L : grid3.Coords) (f : Buf (Elt F) (oLoc3 d)) (t : Fin k3_t1_loop.trips) :
    BI.Storable (upEmb : UEmb _ 𝕄) (oTrip3 d L f t) := by
  unfold oTrip3; split <;> infer_instance
instance tileGo3_storable (d : Dev nD) (X : Buf (Elt F) (xLoc d)) (I : Buf (Elt F) (iLoc3 d)) (G : Buf (Elt F) (oLoc3 d)) (L : grid3.Coords) :
    BI.Storable (upEmb : UEmb _ 𝕄) (tileGo3 d X I G L) := by
  unfold tileGo3; infer_instance
instance tileTd3_storable (d : Dev nD) (X : Buf (Elt F) (xLoc d)) (I : Buf (Elt F) (iLoc3 d)) (L : grid3.Coords) :
    BI.Storable (upEmb : UEmb _ 𝕄) (tileTd3 d X I L) := by
  unfold tileTd3; infer_instance
instance oTrip4_storable (d : Dev nD) (L : grid4.Coords) (f : Buf (Elt F) (oLoc4 d)) (t : Fin k4_t1_loop.trips) :
    BI.Storable (upEmb : UEmb _ 𝕄) (oTrip4 d L f t) := by
  unfold oTrip4; split <;> infer_instance
instance tileGo4_storable (d : Dev nD) (X : Buf (Elt F) (xLoc d)) (I : Buf (Elt F) (iLoc4 d)) (G : Buf (Elt F) (oLoc4 d)) (L : grid4.Coords) :
    BI.Storable (upEmb : UEmb _ 𝕄) (tileGo4 d X I G L) := by
  unfold tileGo4; infer_instance
instance tileTd4_storable (d : Dev nD) (X : Buf (Elt F) (xLoc d)) (I : Buf (Elt F) (iLoc4 d)) (L : grid4.Coords) :
    BI.Storable (upEmb : UEmb _ 𝕄) (tileTd4 d X I L) := by
  unfold tileTd4; infer_instance
instance goAt_storable (q : Fin 5) (d : Dev nD) (L : grid0.Coords) : BI.Storable (upEmb : UEmb _ 𝕄) (goAt m q d L) := by
  unfold goAt; split <;> infer_instance
instance tdAt_storable (q : Fin 5) (d : Dev nD) (L : grid0.Coords) : BI.Storable (upEmb : UEmb _ 𝕄) (tdAt m q d L) := by
  unfold tdAt; split <;> infer_instance

instance P_storable : (P (F := F) m).IsStorable where
  st q d c := (inferInstance : BI.Storable (upEmb : UEmb _ 𝕄) (bigSep Finset.univ fun i : Fin ((K (F := F)).nSub q) => goAt m q d (tileL q c i)))
  dn q d c := (inferInstance : BI.Storable (upEmb : UEmb _ 𝕄) (bigSep Finset.univ fun i : Fin ((K (F := F)).nSub q) => tdAt m q d (tileL q c i)))
  go q d c i := (inferInstance : BI.Storable (upEmb : UEmb _ 𝕄) (goAt m q d (tileL q c i)))
  td q d c i := (inferInstance : BI.Storable (upEmb : UEmb _ 𝕄) (tdAt m q d (tileL q c i)))

/-- A SparseCore's operands ARE its tiles' operands, and its results theirs: the split is the identity, at every call. -/
theorem vecSplit (q : Fin 5) : (K (F := F)).VecSplit' (P m) q := by
  intro d c
  rw [P_st, P_dn]
  iintro H; imodintro
  isplitl [H]; · iexact H
  iintro H; iexact H

theorem vecSplit0 : (K (F := F)).VecSplit' (P m) 0 := vecSplit m 0

end Pay

/-! ## The tiles' obligations, from their bodies' theorems -/

section Obligation

variable [FloatOps F]

/-- The body table's arm for call 0 on a vector subcore, at the named coordinates. -/
theorem defs₀_vector0 (c : Fin τ.nSC) (s : Fin τ.nSub) :
    defs₀ (F := F) (.scVector c s) 0 ()
      = SparseCore.onTile hcore0 hsub0 (fun c s => cc0__sc_gather_body (coordsV0 c s)
          (Memref.whole main_v1_scv) (Memref.isWhole_whole _) (Memref.whole main_v8_scv) (Memref.isWhole_whole _) (Memref.whole main_v9_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scratch10) ⟨⟩ c s := rfl

/-- The body table's arm for call 1 on a vector subcore, at the named coordinates. -/
theorem defs₀_vector1 (c : Fin τ.nSC) (s : Fin τ.nSub) :
    defs₀ (F := F) (.scVector c s) 1 ()
      = SparseCore.onTile hcore1 hsub1 (fun c s => cc1__sc_gather_body (coordsV0 c s)
          (Memref.whole main_v1_scv) (Memref.isWhole_whole _) (Memref.whole main_v10_scv) (Memref.isWhole_whole _) (Memref.whole main_v11_scv) (Memref.isWhole_whole _)
          (Memref.whole cc1_scratch0) (Memref.isWhole_whole _) (Memref.whole cc1_scratch1) (Memref.isWhole_whole _)
          cc1_scratch2 cc1_scratch3 cc1_scratch4 cc1_scratch5 cc1_scratch6 cc1_scratch7 cc1_scratch8 cc1_scratch9 cc1_scratch10) ⟨⟩ c s := rfl

/-- The body table's arm for call 2 on a vector subcore, at the named coordinates. -/
theorem defs₀_vector2 (c : Fin τ.nSC) (s : Fin τ.nSub) :
    defs₀ (F := F) (.scVector c s) 2 ()
      = SparseCore.onTile hcore2 hsub2 (fun c s => cc2__sc_gather_body (coordsV0 c s)
          (Memref.whole main_v1_scv) (Memref.isWhole_whole _) (Memref.whole main_v12_scv) (Memref.isWhole_whole _) (Memref.whole main_v13_scv) (Memref.isWhole_whole _)
          (Memref.whole cc2_scratch0) (Memref.isWhole_whole _) (Memref.whole cc2_scratch1) (Memref.isWhole_whole _)
          cc2_scratch2 cc2_scratch3 cc2_scratch4 cc2_scratch5 cc2_scratch6 cc2_scratch7 cc2_scratch8 cc2_scratch9 cc2_scratch10) ⟨⟩ c s := rfl

/-- The body table's arm for call 3 on a vector subcore, at the named coordinates. -/
theorem defs₀_vector3 (c : Fin τ.nSC) (s : Fin τ.nSub) :
    defs₀ (F := F) (.scVector c s) 3 ()
      = SparseCore.onTile hcore3 hsub3 (fun c s => cc3__sc_gather_body (coordsV0 c s)
          (Memref.whole main_v1_scv) (Memref.isWhole_whole _) (Memref.whole main_v14_scv) (Memref.isWhole_whole _) (Memref.whole main_v15_scv) (Memref.isWhole_whole _)
          (Memref.whole cc3_scratch0) (Memref.isWhole_whole _) (Memref.whole cc3_scratch1) (Memref.isWhole_whole _)
          cc3_scratch2 cc3_scratch3 cc3_scratch4 cc3_scratch5 cc3_scratch6 cc3_scratch7 cc3_scratch8 cc3_scratch9 cc3_scratch10) ⟨⟩ c s := rfl

/-- The body table's arm for call 4 on a vector subcore, at the named coordinates. -/
theorem defs₀_vector4 (c : Fin τ.nSC) (s : Fin τ.nSub) :
    defs₀ (F := F) (.scVector c s) 4 ()
      = SparseCore.onTile hcore4 hsub4 (fun c s => cc4__sc_gather_body (coordsV0 c s)
          (Memref.whole main_v1_scv) (Memref.isWhole_whole _) (Memref.whole main_v16_scv) (Memref.isWhole_whole _) (Memref.whole main_v17_scv) (Memref.isWhole_whole _)
          (Memref.whole cc4_scratch0) (Memref.isWhole_whole _) (Memref.whole cc4_scratch1) (Memref.isWhole_whole _)
          cc4_scratch2 cc4_scratch3 cc4_scratch4 cc4_scratch5 cc4_scratch6 cc4_scratch7 cc4_scratch8 cc4_scratch9 cc4_scratch10) ⟨⟩ c s := rfl

omit [FloatOps F] in
/-- Waits recorded at no index are among the waits a task may record. -/
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the tile's body theorem for call 0 states: from the level facts, the tile's operands at a table `X`, an index
    block `I` of row ids in range and the result as found `G`, and the tile's scoped storage, the body runs to the
    tile's windows of the gathered array and the scoped storage back, having recorded waits at no index only. -/
abbrev TileBody0 : Prop :=
  ∀ (_ : (K (F := F)).Facts) (d : Dev nD) (L : grid0.Coords)
    (X : Buf (Elt F) (xLoc d)) (I : Buf (Elt F) (iLoc0 d)) (G : Buf (Elt F) (oLoc0 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo0 d X I G L
        ∗ scopedBufs (thr0 d L) ∗ scopedSems0 (thr0 d L) ∗ owes (thr0 d L) O W)
      ⊢ wp frame (wpE (defs₀ (F := F)) 𝒱₀ (thr0 d L) none) Set.univ
          (cc0__sc_gather_body L (Memref.whole main_v1_scv) (Memref.isWhole_whole _) (Memref.whole main_v8_scv) (Memref.isWhole_whole _) (Memref.whole main_v9_scv) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10)
          fun _ => iprop(tileTd0 d X I L ∗ scopedBufs (thr0 d L) ∗ scopedSems0 (thr0 d L)
            ∗ ∃ W', ⌜∀ p ∈ W', p ∈ W ∨ p.2 = none⌝ ∗ owes (thr0 d L) O W')

/-- What the tile's body theorem for call 1 states: from the level facts, the tile's operands at a table `X`, an index
    block `I` of row ids in range and the result as found `G`, and the tile's scoped storage, the body runs to the
    tile's windows of the gathered array and the scoped storage back, having recorded waits at no index only. -/
abbrev TileBody1 : Prop :=
  ∀ (_ : (K (F := F)).Facts) (d : Dev nD) (L : grid1.Coords)
    (X : Buf (Elt F) (xLoc d)) (I : Buf (Elt F) (iLoc1 d)) (G : Buf (Elt F) (oLoc1 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo1 d X I G L
        ∗ scopedBufs (thr1 d L) ∗ scopedSems0 (thr1 d L) ∗ owes (thr1 d L) O W)
      ⊢ wp frame (wpE (defs₀ (F := F)) 𝒱₀ (thr1 d L) none) Set.univ
          (cc1__sc_gather_body L (Memref.whole main_v1_scv) (Memref.isWhole_whole _) (Memref.whole main_v10_scv) (Memref.isWhole_whole _) (Memref.whole main_v11_scv) (Memref.isWhole_whole _)
            (Memref.whole cc1_scratch0) (Memref.isWhole_whole _) (Memref.whole cc1_scratch1) (Memref.isWhole_whole _)
            cc1_scratch2 cc1_scratch3 cc1_scratch4 cc1_scratch5 cc1_scratch6 cc1_scratch7 cc1_scratch8 cc1_scratch9 cc1_scratch10)
          fun _ => iprop(tileTd1 d X I L ∗ scopedBufs (thr1 d L) ∗ scopedSems0 (thr1 d L)
            ∗ ∃ W', ⌜∀ p ∈ W', p ∈ W ∨ p.2 = none⌝ ∗ owes (thr1 d L) O W')

/-- What the tile's body theorem for call 2 states: from the level facts, the tile's operands at a table `X`, an index
    block `I` of row ids in range and the result as found `G`, and the tile's scoped storage, the body runs to the
    tile's windows of the gathered array and the scoped storage back, having recorded waits at no index only. -/
abbrev TileBody2 : Prop :=
  ∀ (_ : (K (F := F)).Facts) (d : Dev nD) (L : grid2.Coords)
    (X : Buf (Elt F) (xLoc d)) (I : Buf (Elt F) (iLoc2 d)) (G : Buf (Elt F) (oLoc2 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo2 d X I G L
        ∗ scopedBufs (thr2 d L) ∗ scopedSems0 (thr2 d L) ∗ owes (thr2 d L) O W)
      ⊢ wp frame (wpE (defs₀ (F := F)) 𝒱₀ (thr2 d L) none) Set.univ
          (cc2__sc_gather_body L (Memref.whole main_v1_scv) (Memref.isWhole_whole _) (Memref.whole main_v12_scv) (Memref.isWhole_whole _) (Memref.whole main_v13_scv) (Memref.isWhole_whole _)
            (Memref.whole cc2_scratch0) (Memref.isWhole_whole _) (Memref.whole cc2_scratch1) (Memref.isWhole_whole _)
            cc2_scratch2 cc2_scratch3 cc2_scratch4 cc2_scratch5 cc2_scratch6 cc2_scratch7 cc2_scratch8 cc2_scratch9 cc2_scratch10)
          fun _ => iprop(tileTd2 d X I L ∗ scopedBufs (thr2 d L) ∗ scopedSems0 (thr2 d L)
            ∗ ∃ W', ⌜∀ p ∈ W', p ∈ W ∨ p.2 = none⌝ ∗ owes (thr2 d L) O W')

/-- What the tile's body theorem for call 3 states: from the level facts, the tile's operands at a table `X`, an index
    block `I` of row ids in range and the result as found `G`, and the tile's scoped storage, the body runs to the
    tile's windows of the gathered array and the scoped storage back, having recorded waits at no index only. -/
abbrev TileBody3 : Prop :=
  ∀ (_ : (K (F := F)).Facts) (d : Dev nD) (L : grid3.Coords)
    (X : Buf (Elt F) (xLoc d)) (I : Buf (Elt F) (iLoc3 d)) (G : Buf (Elt F) (oLoc3 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo3 d X I G L
        ∗ scopedBufs (thr3 d L) ∗ scopedSems0 (thr3 d L) ∗ owes (thr3 d L) O W)
      ⊢ wp frame (wpE (defs₀ (F := F)) 𝒱₀ (thr3 d L) none) Set.univ
          (cc3__sc_gather_body L (Memref.whole main_v1_scv) (Memref.isWhole_whole _) (Memref.whole main_v14_scv) (Memref.isWhole_whole _) (Memref.whole main_v15_scv) (Memref.isWhole_whole _)
            (Memref.whole cc3_scratch0) (Memref.isWhole_whole _) (Memref.whole cc3_scratch1) (Memref.isWhole_whole _)
            cc3_scratch2 cc3_scratch3 cc3_scratch4 cc3_scratch5 cc3_scratch6 cc3_scratch7 cc3_scratch8 cc3_scratch9 cc3_scratch10)
          fun _ => iprop(tileTd3 d X I L ∗ scopedBufs (thr3 d L) ∗ scopedSems0 (thr3 d L)
            ∗ ∃ W', ⌜∀ p ∈ W', p ∈ W ∨ p.2 = none⌝ ∗ owes (thr3 d L) O W')

/-- What the tile's body theorem for call 4 states: from the level facts, the tile's operands at a table `X`, an index
    block `I` of row ids in range and the result as found `G`, and the tile's scoped storage, the body runs to the
    tile's windows of the gathered array and the scoped storage back, having recorded waits at no index only. -/
abbrev TileBody4 : Prop :=
  ∀ (_ : (K (F := F)).Facts) (d : Dev nD) (L : grid4.Coords)
    (X : Buf (Elt F) (xLoc d)) (I : Buf (Elt F) (iLoc4 d)) (G : Buf (Elt F) (oLoc4 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo4 d X I G L
        ∗ scopedBufs (thr4 d L) ∗ scopedSems0 (thr4 d L) ∗ owes (thr4 d L) O W)
      ⊢ wp frame (wpE (defs₀ (F := F)) 𝒱₀ (thr4 d L) none) Set.univ
          (cc4__sc_gather_body L (Memref.whole main_v1_scv) (Memref.isWhole_whole _) (Memref.whole main_v16_scv) (Memref.isWhole_whole _) (Memref.whole main_v17_scv) (Memref.isWhole_whole _)
            (Memref.whole cc4_scratch0) (Memref.isWhole_whole _) (Memref.whole cc4_scratch1) (Memref.isWhole_whole _)
            cc4_scratch2 cc4_scratch3 cc4_scratch4 cc4_scratch5 cc4_scratch6 cc4_scratch7 cc4_scratch8 cc4_scratch9 cc4_scratch10)
          fun _ => iprop(tileTd4 d X I L ∗ scopedBufs (thr4 d L) ∗ scopedSems0 (thr4 d L)
            ∗ ∃ W', ⌜∀ p ∈ W', p ∈ W ∨ p.2 = none⌝ ∗ owes (thr4 d L) O W')

variable (m : (ℓ : Loc nD τ sig) → Buf (Elt F) ℓ)

/-- The launch theorem's obligation for the tiles of call 0: the body's theorem at the tile's coordinates, at the table
    and the index block the launch memory determines, every row id of the block in range. -/
theorem tileObl0 (h : TileBody0 (F := F)) (hF : (K (F := F)).Facts) (hin : ∀ (d : Dev nD) i, ((Iv0 m d) i).toNat < 160000) :
    (K (F := F)).TileObl (D (F := F)) 𝒱 (P m) v₀ 0 := by
  intro d c i O W hO _ _
  simp only [P_ox, add_zero]
  rw [P_go0, P_td0, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (h hF d (coordsV0 ⟨_, hc.1⟩ ⟨_, hc.2⟩) (Xv m d) (Iv0 m d) (m (oLoc0 d)) (hin d) O W hO).trans (wp_mono frame _ _ fun _ => obl_post)

/-- The launch theorem's obligation for the tiles of call 1: the body's theorem at the tile's coordinates, at the table
    and the index block the launch memory determines, every row id of the block in range. -/
theorem tileObl1 (h : TileBody1 (F := F)) (hF : (K (F := F)).Facts) (hin : ∀ (d : Dev nD) i, ((Iv1 m d) i).toNat < 160000) :
    (K (F := F)).TileObl (D (F := F)) 𝒱 (P m) v₀ 1 := by
  intro d c i O W hO _ _
  simp only [P_ox, add_zero]
  rw [P_go1, P_td1, P_x]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (h hF d (coordsV0 ⟨_, hc.1⟩ ⟨_, hc.2⟩) (Xv m d) (Iv1 m d) (m (oLoc1 d)) (hin d) O W hO).trans (wp_mono frame _ _ fun _ => obl_post)

/-- The launch theorem's obligation for the tiles of call 2: the body's theorem at the tile's coordinates, at the table
    and the index block the launch memory determines, every row id of the block in range. -/
theorem tileObl2 (h : TileBody2 (F := F)) (hF : (K (F := F)).Facts) (hin : ∀ (d : Dev nD) i, ((Iv2 m d) i).toNat < 160000) :
    (K (F := F)).TileObl (D (F := F)) 𝒱 (P m) v₀ 2 := by
  intro d c i O W hO _ _
  simp only [P_ox, add_zero]
  rw [P_go2, P_td2, P_x]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (h hF d (coordsV0 ⟨_, hc.1⟩ ⟨_, hc.2⟩) (Xv m d) (Iv2 m d) (m (oLoc2 d)) (hin d) O W hO).trans (wp_mono frame _ _ fun _ => obl_post)

/-- The launch theorem's obligation for the tiles of call 3: the body's theorem at the tile's coordinates, at the table
    and the index block the launch memory determines, every row id of the block in range. -/
theorem tileObl3 (h : TileBody3 (F := F)) (hF : (K (F := F)).Facts) (hin : ∀ (d : Dev nD) i, ((Iv3 m d) i).toNat < 160000) :
    (K (F := F)).TileObl (D (F := F)) 𝒱 (P m) v₀ 3 := by
  intro d c i O W hO _ _
  simp only [P_ox, add_zero]
  rw [P_go3, P_td3, P_x]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (h hF d (coordsV0 ⟨_, hc.1⟩ ⟨_, hc.2⟩) (Xv m d) (Iv3 m d) (m (oLoc3 d)) (hin d) O W hO).trans (wp_mono frame _ _ fun _ => obl_post)

/-- The launch theorem's obligation for the tiles of call 4: the body's theorem at the tile's coordinates, at the table
    and the index block the launch memory determines, every row id of the block in range. -/
theorem tileObl4 (h : TileBody4 (F := F)) (hF : (K (F := F)).Facts) (hin : ∀ (d : Dev nD) i, ((Iv4 m d) i).toNat < 160000) :
    (K (F := F)).TileObl (D (F := F)) 𝒱 (P m) v₀ 4 := by
  intro d c i O W hO _ _
  simp only [P_ox, add_zero]
  rw [P_go4, P_td4, P_x]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (h hF d (coordsV0 ⟨_, hc.1⟩ ⟨_, hc.2⟩) (Xv m d) (Iv4 m d) (m (oLoc4 d)) (hin d) O W hO).trans (wp_mono frame _ _ fun _ => obl_post)

end Obligation

end Cert.KernelIdeal.KP

end
-- ==== Proof.KLaunch.lean ====
/-
  The launch element of the ghost state.  The resource algebra has three factors: the rounds of the four handshake
  semaphores, the rounds of the five TensorCore pipelines' staging semaphores, and the counters of the local transfers.
  The launch element is the handshake cells' launch element, the pipelines' launch element over every staging cell and
  every transfer their loops issue, and the unit of the counters.  It splits into the handshakes' part, which the launch
  theorem takes, and, per device, the five pipelines' ghost state (each cell's launch state, its owner's position at
  round 0, round 0 reached, and the duty tokens), which @main keeps until it enters each pipeline's region.
-/
import proofs.«210879_g80607946211848_cont_9to1_m_1212_13_alg».proof.Proof.KSetup

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The launch element -/

/-- Every staging cell of the five pipelines, on every device. -/
abbrev pCells : Finset (GSem nD τ sig) := Pipeline.cells (nD := nD) cfgs cellOf_inj
/-- Every transfer the five pipelines' loops issue, as (cell, round, duty). -/
abbrev pToks : Finset (GSem nD τ sig × ℕ × Unit) := Pipeline.launchToks (nD := nD) cfgs cellOf_inj

/-- The launch element: the handshakes' cells and tokens, the pipelines' cells and tokens, no transfer counted. -/
def u₀ : UU := (initOf (K (F := F)).hsCells (K (F := F)).hsToks, (initOf pCells pToks, 1))

/-- The five pipelines' ghost state on device `d`, as the launch deals it. -/
def G (d : Dev nD) : sProp 𝕄 :=
  bigSep Finset.univ fun p : Fin 5 => iprop(Pipeline.cellsGhost cfgs (EP (F := F)) p d ∗ Pipeline.toksInit cfgs (EP (F := F)) p d)

/-- A launch element of the three factors splits into the handshakes' and the pipelines'; the counters' unit is dropped. -/
theorem ownU_split3 (a : UH) (b : UP) (c : Counters) :
    (ownU ((a, (b, c)) : UU) : sProp 𝕄) ⊢ iprop(BI.own ((EH (F := F)) a) ∗ BI.own ((EP (F := F)) b)) := by
  refine (ownU_pair a (b, c)).trans (sep_mono_right ?_)
  unfold EP
  exact (own_pair_emb (embR : Emb (UP × Counters) 𝕄) b c).trans sep_elim_left

/-- The launch element funds the handshakes' rounds and every device's pipelines' ghost state. -/
theorem hu₀_G : (ownU (u₀ (F := F)) : sProp 𝕄)
    ⊢ |={Set.univ}=> iprop(BI.own ((EH (F := F)) (initOf (K (F := F)).hsCells (K (F := F)).hsToks)) ∗ bigSep Finset.univ (G (F := F))) := by
  unfold u₀
  iintro Hu
  ihave H := (ownU_split3 _ _ _) $$ Hu
  icases H with ⟨HH, HP⟩
  imod (Pipeline.fund_ghost cfgs (EP (F := F)) cellOf_inj) $$ HP with ⟨Hg, Ht⟩
  imodintro
  isplitl [HH]; · iexact HH
  unfold G
  rw [show (bigSep Finset.univ fun d : Dev nD => bigSep Finset.univ fun p : Fin 5 =>
        iprop(Pipeline.cellsGhost cfgs (EP (F := F)) p d ∗ Pipeline.toksInit cfgs (EP (F := F)) p d))
      = iprop((bigSep Finset.univ fun d : Dev nD => bigSep Finset.univ fun p : Fin 5 => Pipeline.cellsGhost cfgs (EP (F := F)) p d)
        ∗ bigSep Finset.univ fun d : Dev nD => bigSep Finset.univ fun p : Fin 5 => (Pipeline.toksInit cfgs (EP (F := F)) p d : sProp 𝕄)) from by
    rw [← bigSep_sep']; exact bigSep_congr fun d _ => bigSep_sep' _ _ _]
  isplitl [Hg]; · iexact Hg
  iexact Ht

/-- The launch theorem's launch element, for any handshake payloads `P` whose kernels consume nothing of the ghost state
    at their calls. -/
theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own ((EH (F := F)) (initOf (K (F := F)).hsCells (K (F := F)).hsToks)) ∗ bigSep Finset.univ (G (F := F))
        ∗ bigSep Finset.univ fun thr : Thread nD τ => bigSep Finset.univ fun q : Fin 5 => P.x q thr) := by
  rw [show (bigSep Finset.univ fun thr : Thread nD τ => bigSep Finset.univ fun q : Fin 5 => P.x q thr) = (iprop(emp) : sProp 𝕄) from by
    rw [bigSep_congr fun thr _ => (bigSep_congr fun q _ => hx q thr).trans (bigSep_emp_const _), bigSep_emp_const]; rfl]
  iintro Hu
  imod hu₀_G $$ Hu with ⟨HH, HG⟩
  imodintro
  isplitl [HH]; · iexact HH
  isplitl [HG]; · iexact HG
  iempintro

end Cert.KernelIdeal.KP

end
-- ==== Proof.KHost.lean ====
/-
  Host operations of @main, one at a time, on the two arrays each touches.  A StableHLO operation with one operand
  `x` and one result `y` reads `x` whole, writes `y` whole and touches nothing else; holding the region boundary and
  the two arrays at contents `A` and `B`, it leaves `x` at `A` and `y` at the operation's value at `A`.
-/
import proofs.«210879_g80607946211848_cont_9to1_m_1212_13_alg».proof.Proof.KSetup

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## A valuation with two named entries -/

/-- The valuation `V₀` with `x'` at `A` and `y'` at `B`. -/
def upd2 (V₀ : Valuation τ sig (Elt F)) (x' y' : DevRef τ sig) (A : x'.ty.Contents (Elt F)) (B : y'.ty.Contents (Elt F)) :
    Valuation τ sig (Elt F) :=
  Function.update (Function.update V₀ x' A) y' B

theorem upd2_y (V₀ : Valuation τ sig (Elt F)) (x' y' : DevRef τ sig) (A : x'.ty.Contents (Elt F)) (B : y'.ty.Contents (Elt F)) :
    upd2 V₀ x' y' A B y' = B := Function.update_self _ _ _

theorem upd2_x (V₀ : Valuation τ sig (Elt F)) (x' y' : DevRef τ sig) (A : x'.ty.Contents (Elt F)) (B : y'.ty.Contents (Elt F))
    (h : x' ≠ y') : upd2 V₀ x' y' A B x' = A := by
  unfold upd2; rw [Function.update_of_ne h, Function.update_self]

/-! ## An operation on two arrays -/

section Pair

variable {Λ : Labels} {defs : Defs nD τ sig (Elt F) Λ} (𝒱 : Variants) (d : Dev nD)

set_option backward.isDefEq.respectTransparency.types false in
/-- An operation whose arrays are `x'` (read) and `y'` (written), from the two held at `A` and `B`: `x'` keeps `A` and
    `y'` takes the operation's value `C`. -/
theorem wp_hlo_pair (op : HloOp τ sig (Elt F)) (x' y' : DevRef τ sig) (hne : x' ≠ y')
    (hb : op.bufs = {x', y'}) (hw : op.writes = {y'}) (hf : op.fresh = ∅)
    (V₀ : Valuation τ sig (Elt F)) (A : x'.ty.Contents (Elt F)) (B : y'.ty.Contents (Elt F)) (C : y'.ty.Contents (Elt F))
    (hC : op.result (upd2 V₀ x' y' A B) y' = C)
    {α : Type} {k : ((b : op.writes) → b.1.ty.Contents (Elt F)) → Prog (TpuEff nD τ sig (Elt F) Λ .tc) α} {Q : α → sProp 𝕄} :
    iprop(boundary (SparseCore.T d) ∗ (((d, x') : Loc nD τ sig) ↦{fullShare} A) ∗ (((d, y') : Loc nD τ sig) ↦{fullShare} B))
      ⊢ iprop(((boundary (SparseCore.T d) ∗ (((d, x') : Loc nD τ sig) ↦{fullShare} A) ∗ (((d, y') : Loc nD τ sig) ↦{fullShare} C))
            -∗ wp frame (wpE defs 𝒱 (SparseCore.T d) none) Set.univ (k (op.fn fun b => upd2 V₀ x' y' A B b.1)) Q)
        -∗ wp frame (wpE defs 𝒱 (SparseCore.T d) none) Set.univ (hlo rfl op k) Q) := by
  have hx : x' ∉ ({y'} : Finset (DevRef τ sig)) := fun h => hne (Finset.mem_singleton.mp h)
  have hS : op.bufs ⊆ ({x', y'} : Finset (DevRef τ sig)) := hb ▸ Finset.Subset.refl _
  have e1 : (held (SparseCore.T d) ({x', y'} : Finset (DevRef τ sig)) (upd2 V₀ x' y' A B) : sProp 𝕄)
      = iprop((((d, x') : Loc nD τ sig) ↦{fullShare} A) ∗ (((d, y') : Loc nD τ sig) ↦{fullShare} B)) := by
    unfold held
    rw [SparseCore.bigSep_insert' hx, bigSep_singleton, upd2_x V₀ x' y' A B hne, upd2_y]
  have e2 : (held (SparseCore.T d) ({x', y'} : Finset (DevRef τ sig)) (op.result (upd2 V₀ x' y' A B)) : sProp 𝕄)
      = iprop((((d, x') : Loc nD τ sig) ↦{fullShare} A) ∗ (((d, y') : Loc nD τ sig) ↦{fullShare} C)) := by
    unfold held
    rw [SparseCore.bigSep_insert' hx, bigSep_singleton, hC, op.result_of_not_mem _ (by rw [hw]; exact hx), upd2_x V₀ x' y' A B hne]
  rw [← e1, ← e2]
  exact wp_hlo_within (defs := defs) 𝒱 (SparseCore.T d) none Set.univ (op := op) (k := k) (S := ({x', y'} : Finset (DevRef τ sig))) hS
    (V := upd2 V₀ x' y' A B) (Q := Q) hf

/-- `%y = f %x`. -/
theorem wp_unary_pt (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ (Proc.devRef .tc y : DevRef τ sig))
    (V₀ : Valuation τ sig (Elt F)) (A : Buf (Elt F) ((SparseCore.T d).loc x)) (B : Buf (Elt F) ((SparseCore.T d).loc y)) (C : Buf (Elt F) ((SparseCore.T d).loc y)) (hC : f A = C)
    {α : Type} {k : ((b : (StableHlo.unary (τ := τ) x y f hx hy).writes) → b.1.ty.Contents (Elt F)) → Prog (TpuEff nD τ sig (Elt F) Λ .tc) α}
    {Q : α → sProp 𝕄} :
    iprop(boundary (SparseCore.T d) ∗ ((SparseCore.T d).loc x ↦{fullShare} A) ∗ ((SparseCore.T d).loc y ↦{fullShare} B))
      ⊢ iprop(((boundary (SparseCore.T d) ∗ ((SparseCore.T d).loc x ↦{fullShare} A) ∗ ((SparseCore.T d).loc y ↦{fullShare} C))
            -∗ wp frame (wpE defs 𝒱 (SparseCore.T d) none) Set.univ (k ((StableHlo.unary (τ := τ) x y f hx hy).fn fun b => upd2 V₀ (Proc.devRef .tc x) (Proc.devRef .tc y) A B b.1)) Q)
        -∗ wp frame (wpE defs 𝒱 (SparseCore.T d) none) Set.univ (hlo rfl (StableHlo.unary (τ := τ) x y f hx hy) k) Q) :=
  wp_hlo_pair 𝒱 d (StableHlo.unary (τ := τ) x y f hx hy) (Proc.devRef .tc x) (Proc.devRef .tc y) hne rfl rfl rfl V₀ A B C
    (by rw [StableHlo.unary_result, upd2_x _ _ _ _ _ hne]; exact hC)

/-- `%y = stablehlo.reshape %x`. -/
theorem wp_reshape_pt (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ (Proc.devRef .tc y : DevRef τ sig))
    (V₀ : Valuation τ sig (Elt F)) (A : Buf (Elt F) ((SparseCore.T d).loc x)) (B : Buf (Elt F) ((SparseCore.T d).loc y)) (C : Buf (Elt F) ((SparseCore.T d).loc y))
    (hC : (fun i => he ▸ shapeCast y.ty.shape A hn i) = C)
    {α : Type} {k : ((b : (StableHlo.reshape (τ := τ) (Val := Elt F) x y he hn hx hy).writes) → b.1.ty.Contents (Elt F)) → Prog (TpuEff nD τ sig (Elt F) Λ .tc) α}
    {Q : α → sProp 𝕄} :
    iprop(boundary (SparseCore.T d) ∗ ((SparseCore.T d).loc x ↦{fullShare} A) ∗ ((SparseCore.T d).loc y ↦{fullShare} B))
      ⊢ iprop(((boundary (SparseCore.T d) ∗ ((SparseCore.T d).loc x ↦{fullShare} A) ∗ ((SparseCore.T d).loc y ↦{fullShare} C))
            -∗ wp frame (wpE defs 𝒱 (SparseCore.T d) none) Set.univ (k ((StableHlo.reshape (τ := τ) (Val := Elt F) x y he hn hx hy).fn fun b => upd2 V₀ (Proc.devRef .tc x) (Proc.devRef .tc y) A B b.1)) Q)
        -∗ wp frame (wpE defs 𝒱 (SparseCore.T d) none) Set.univ (hlo rfl (StableHlo.reshape (τ := τ) (Val := Elt F) x y he hn hx hy) k) Q) :=
  wp_hlo_pair 𝒱 d (StableHlo.reshape (τ := τ) (Val := Elt F) x y he hn hx hy) (Proc.devRef .tc x) (Proc.devRef .tc y) hne rfl rfl rfl V₀ A B C
    (by rw [StableHlo.reshape_result, upd2_x _ _ _ _ _ hne]; exact hC)

end Pair

end Cert.KernelIdeal.KP

end
-- ==== Proof.KMain.lean ====
/-
  @main on the TensorCore.  Nine host operations lay out the table (the transposed first argument), the 1250 index
  chunks (the transposed second argument), the weights and the bias; then, five times, a slice of 250 chunks and the
  gather call over it; then the five convolution regions, each writing its fifth of the columns of one array that is
  copied from region to region; last the result is broadcast to its four-dimensional shape.  Every array is named as a
  pure term of the launch memory.  The gather calls enter through how a call's three arrays split among its tiles and
  join again, the regions through what each region's own proof states; both are hypotheses here.
-/
import proofs.«210879_g80607946211848_cont_9to1_m_1212_13_alg».proof.Proof.KPay
import proofs.«210879_g80607946211848_cont_9to1_m_1212_13_alg».proof.Proof.KLaunch
import proofs.«210879_g80607946211848_cont_9to1_m_1212_13_alg».proof.Proof.KHost

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The weights and the bias, as terms of the launch memory -/

section Arrays

variable (m : (ℓ : Loc nD τ sig) → Buf (Elt F) ℓ)

abbrev a2Loc (d : Dev nD) : Loc nD τ sig := (SparseCore.T d).loc main_arg2
abbrev a3Loc (d : Dev nD) : Loc nD τ sig := (SparseCore.T d).loc main_arg3

/-- main_v5: the third argument at shape 128 × 128 × 5. -/
def W5v (d : Dev nD) : FVec F S128x128x5 .f32 := shapeCast S128x128x5 (m (a2Loc d)) shapeCasts_S128x128x1x5_S128x128x5
/-- main_v6: the five 128 × 128 weight matrices. -/
def Wtv (d : Dev nD) : FVec F S5x128x128 .f32 := transpose S5x128x128 [2, 0, 1] (W5v m d) transposes_S128x128x5_S5x128x128_2_0_1
/-- main_v7: the bias as a column. -/
def Bsv (d : Dev nD) : FVec F S128x1 .f32 := shapeCast S128x1 (m (a3Loc d)) shapeCasts_S128_S128x1

end Arrays

/-! ## @main's arrays, listed -/

theorem unscopedBufs_eq (d : Dev nD) (W : (b : Ref sig .tc) → Buf (Elt F) ((SparseCore.T d).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_v9 ↦{fullShare} W main_v9) ∗ ((SparseCore.T d).loc main_v10 ↦{fullShare} W main_v10) ∗ ((SparseCore.T d).loc main_v11 ↦{fullShare} W main_v11) ∗ ((SparseCore.T d).loc main_v12 ↦{fullShare} W main_v12) ∗ ((SparseCore.T d).loc main_v13 ↦{fullShare} W main_v13) ∗ ((SparseCore.T d).loc main_v14 ↦{fullShare} W main_v14) ∗ ((SparseCore.T d).loc main_v15 ↦{fullShare} W main_v15) ∗ ((SparseCore.T d).loc main_v16 ↦{fullShare} W main_v16) ∗ ((SparseCore.T d).loc main_v17 ↦{fullShare} W main_v17) ∗ ((SparseCore.T d).loc main_v18 ↦{fullShare} W main_v18) ∗ ((SparseCore.T d).loc main_v19 ↦{fullShare} W main_v19) ∗ ((SparseCore.T d).loc main_v20 ↦{fullShare} W main_v20) ∗ ((SparseCore.T d).loc main_v21 ↦{fullShare} W main_v21) ∗ ((SparseCore.T d).loc main_v22 ↦{fullShare} W main_v22) ∗ ((SparseCore.T d).loc main_v23 ↦{fullShare} W main_v23)) := by
  unfold unscopedBufs
  exact bigSep_eq_bigSepL_of_eq [main_arg0, main_arg1, main_arg2, main_arg3, main_v0, main_v1, main_v2, main_v3, main_v4, main_v5, main_v6, main_v7, main_v8, main_v9, main_v10, main_v11, main_v12, main_v13, main_v14, main_v15, main_v16, main_v17, main_v18, main_v19, main_v20, main_v21, main_v22, main_v23] (by decide) (by decide) _

/-! ## What @main asks of the gather calls and of the regions -/

section Specs

variable [FloatOps F] (m : (ℓ : Loc nD τ sig) → Buf (Elt F) ℓ)

/-- How each gather call's three arrays — the table, the call's index block, its result as the launch left it — split
    into what the call's start signals carry (and a remainder `R`), and how what comes back joins into the three arrays
    again, the result now the gathered array. -/
structure Calls where
  R : Fin 5 → Dev nD → sProp 𝕄
  split0 : ∀ d : Dev nD, iprop((xLoc d ↦{fullShare} Xv m d) ∗ ((SparseCore.T d).loc main_v8 ↦{fullShare} Iv0 m d) ∗ ((SparseCore.T d).loc main_v9 ↦{fullShare} m ((SparseCore.T d).loc main_v9)))
      ⊢ iprop(R 0 d ∗ bigSep Finset.univ fun c : Fin ((K (F := F)).nCore 0) => (P m).st 0 d c)
  join0 : ∀ d : Dev nD, iprop(R 0 d ∗ bigSep Finset.univ fun c : Fin ((K (F := F)).nCore 0) => (P m).dn 0 d c)
      ⊢ iprop((xLoc d ↦{fullShare} Xv m d) ∗ ((SparseCore.T d).loc main_v8 ↦{fullShare} Iv0 m d) ∗ ((SparseCore.T d).loc main_v9 ↦{fullShare} gath (F := F) (Xv m d) (Iv0 m d)))
  split1 : ∀ d : Dev nD, iprop((xLoc d ↦{fullShare} Xv m d) ∗ ((SparseCore.T d).loc main_v10 ↦{fullShare} Iv1 m d) ∗ ((SparseCore.T d).loc main_v11 ↦{fullShare} m ((SparseCore.T d).loc main_v11)))
      ⊢ iprop(R 1 d ∗ bigSep Finset.univ fun c : Fin ((K (F := F)).nCore 1) => (P m).st 1 d c)
  join1 : ∀ d : Dev nD, iprop(R 1 d ∗ bigSep Finset.univ fun c : Fin ((K (F := F)).nCore 1) => (P m).dn 1 d c)
      ⊢ iprop((xLoc d ↦{fullShare} Xv m d) ∗ ((SparseCore.T d).loc main_v10 ↦{fullShare} Iv1 m d) ∗ ((SparseCore.T d).loc main_v11 ↦{fullShare} gath (F := F) (Xv m d) (Iv1 m d)))
  split2 : ∀ d : Dev nD, iprop((xLoc d ↦{fullShare} Xv m d) ∗ ((SparseCore.T d).loc main_v12 ↦{fullShare} Iv2 m d) ∗ ((SparseCore.T d).loc main_v13 ↦{fullShare} m ((SparseCore.T d).loc main_v13)))
      ⊢ iprop(R 2 d ∗ bigSep Finset.univ fun c : Fin ((K (F := F)).nCore 2) => (P m).st 2 d c)
  join2 : ∀ d : Dev nD, iprop(R 2 d ∗ bigSep Finset.univ fun c : Fin ((K (F := F)).nCore 2) => (P m).dn 2 d c)
      ⊢ iprop((xLoc d ↦{fullShare} Xv m d) ∗ ((SparseCore.T d).loc main_v12 ↦{fullShare} Iv2 m d) ∗ ((SparseCore.T d).loc main_v13 ↦{fullShare} gath (F := F) (Xv m d) (Iv2 m d)))
  split3 : ∀ d : Dev nD, iprop((xLoc d ↦{fullShare} Xv m d) ∗ ((SparseCore.T d).loc main_v14 ↦{fullShare} Iv3 m d) ∗ ((SparseCore.T d).loc main_v15 ↦{fullShare} m ((SparseCore.T d).loc main_v15)))
      ⊢ iprop(R 3 d ∗ bigSep Finset.univ fun c : Fin ((K (F := F)).nCore 3) => (P m).st 3 d c)
  join3 : ∀ d : Dev nD, iprop(R 3 d ∗ bigSep Finset.univ fun c : Fin ((K (F := F)).nCore 3) => (P m).dn 3 d c)
      ⊢ iprop((xLoc d ↦{fullShare} Xv m d) ∗ ((SparseCore.T d).loc main_v14 ↦{fullShare} Iv3 m d) ∗ ((SparseCore.T d).loc main_v15 ↦{fullShare} gath (F := F) (Xv m d) (Iv3 m d)))
  split4 : ∀ d : Dev nD, iprop((xLoc d ↦{fullShare} Xv m d) ∗ ((SparseCore.T d).loc main_v16 ↦{fullShare} Iv4 m d) ∗ ((SparseCore.T d).loc main_v17 ↦{fullShare} m ((SparseCore.T d).loc main_v17)))
      ⊢ iprop(R 4 d ∗ bigSep Finset.univ fun c : Fin ((K (F := F)).nCore 4) => (P m).st 4 d c)
  join4 : ∀ d : Dev nD, iprop(R 4 d ∗ bigSep Finset.univ fun c : Fin ((K (F := F)).nCore 4) => (P m).dn 4 d c)
      ⊢ iprop((xLoc d ↦{fullShare} Xv m d) ∗ ((SparseCore.T d).loc main_v16 ↦{fullShare} Iv4 m d) ∗ ((SparseCore.T d).loc main_v17 ↦{fullShare} gath (F := F) (Xv m d) (Iv4 m d)))

/-- What each convolution region does, as @main uses it: from the handshake state after the last call, the region
    boundary, the region's pipeline's ghost state and its five arrays whole — the reshaped input, the call's gathered
    array, the weights, the bias, the output as found —, the region runs and gives everything back, the output at
    `Conv p d` of the five contents. -/
structure Regions (P : (K (F := F)).Pay (nD := nD) (Val := Elt F) (Name := ℕ) (U := UU)) where
  Conv : Fin 5 → Dev nD → FVec F S128x160000 .f32 → FVec F S4x32000x128 .f32 → FVec F S5x128x128 .f32 → FVec F S128x1 .f32
    → FVec F S128x160000 .f32 → FVec F S128x160000 .f32
  wp0 : ∀ (κ : GSem nD τ sig → ℕ) (d : Dev nD) (X0 : Buf (Elt F) ((SparseCore.T d).loc main_v0)) (Gq : Buf (Elt F) ((SparseCore.T d).loc main_v9))
      (Wt : Buf (Elt F) ((SparseCore.T d).loc main_v6)) (Bs : Buf (Elt F) ((SparseCore.T d).loc main_v7)) (A : Buf (Elt F) ((SparseCore.T d).loc main_v18))
      (Φ : PUnit → sProp 𝕄),
      iprop((K (F := F)).ctx EH P κ ∗ (K (F := F)).tcSt EH d 5 ∗ boundary (SparseCore.T d)
        ∗ Pipeline.cellsGhost cfgs (EP (F := F)) 0 d ∗ Pipeline.toksInit cfgs (EP (F := F)) 0 d
        ∗ ((SparseCore.T d).loc main_v0 ↦{fullShare} X0) ∗ ((SparseCore.T d).loc main_v9 ↦{fullShare} Gq) ∗ ((SparseCore.T d).loc main_v6 ↦{fullShare} Wt) ∗ ((SparseCore.T d).loc main_v7 ↦{fullShare} Bs) ∗ ((SparseCore.T d).loc main_v18 ↦{fullShare} A)
        ∗ (((K (F := F)).tcSt EH d 5 ∗ boundary (SparseCore.T d)
            ∗ ((SparseCore.T d).loc main_v0 ↦{fullShare} X0) ∗ ((SparseCore.T d).loc main_v9 ↦{fullShare} Gq) ∗ ((SparseCore.T d).loc main_v6 ↦{fullShare} Wt) ∗ ((SparseCore.T d).loc main_v7 ↦{fullShare} Bs) ∗ ((SparseCore.T d).loc main_v18 ↦{fullShare} Conv 0 d X0 Gq Wt Bs A)) -∗ Φ ⟨⟩))
      ⊢ wp frame (wpE ((K (F := F)).defs (D (F := F))) 𝒱 (SparseCore.T d) none) Set.univ
          (Prog.lift (.customCall (SparseCore.inner (Pipeline.entry 0)) ())) Φ
  wp1 : ∀ (κ : GSem nD τ sig → ℕ) (d : Dev nD) (X0 : Buf (Elt F) ((SparseCore.T d).loc main_v0)) (Gq : Buf (Elt F) ((SparseCore.T d).loc main_v11))
      (Wt : Buf (Elt F) ((SparseCore.T d).loc main_v6)) (Bs : Buf (Elt F) ((SparseCore.T d).loc main_v7)) (A : Buf (Elt F) ((SparseCore.T d).loc main_v19))
      (Φ : PUnit → sProp 𝕄),
      iprop((K (F := F)).ctx EH P κ ∗ (K (F := F)).tcSt EH d 5 ∗ boundary (SparseCore.T d)
        ∗ Pipeline.cellsGhost cfgs (EP (F := F)) 1 d ∗ Pipeline.toksInit cfgs (EP (F := F)) 1 d
        ∗ ((SparseCore.T d).loc main_v0 ↦{fullShare} X0) ∗ ((SparseCore.T d).loc main_v11 ↦{fullShare} Gq) ∗ ((SparseCore.T d).loc main_v6 ↦{fullShare} Wt) ∗ ((SparseCore.T d).loc main_v7 ↦{fullShare} Bs) ∗ ((SparseCore.T d).loc main_v19 ↦{fullShare} A)
        ∗ (((K (F := F)).tcSt EH d 5 ∗ boundary (SparseCore.T d)
            ∗ ((SparseCore.T d).loc main_v0 ↦{fullShare} X0) ∗ ((SparseCore.T d).loc main_v11 ↦{fullShare} Gq) ∗ ((SparseCore.T d).loc main_v6 ↦{fullShare} Wt) ∗ ((SparseCore.T d).loc main_v7 ↦{fullShare} Bs) ∗ ((SparseCore.T d).loc main_v19 ↦{fullShare} Conv 1 d X0 Gq Wt Bs A)) -∗ Φ ⟨⟩))
      ⊢ wp frame (wpE ((K (F := F)).defs (D (F := F))) 𝒱 (SparseCore.T d) none) Set.univ
          (Prog.lift (.customCall (SparseCore.inner (Pipeline.entry 1)) ())) Φ
  wp2 : ∀ (κ : GSem nD τ sig → ℕ) (d : Dev nD) (X0 : Buf (Elt F) ((SparseCore.T d).loc main_v0)) (Gq : Buf (Elt F) ((SparseCore.T d).loc main_v13))
      (Wt : Buf (Elt F) ((SparseCore.T d).loc main_v6)) (Bs : Buf (Elt F) ((SparseCore.T d).loc main_v7)) (A : Buf (Elt F) ((SparseCore.T d).loc main_v20))
      (Φ : PUnit → sProp 𝕄),
      iprop((K (F := F)).ctx EH P κ ∗ (K (F := F)).tcSt EH d 5 ∗ boundary (SparseCore.T d)
        ∗ Pipeline.cellsGhost cfgs (EP (F := F)) 2 d ∗ Pipeline.toksInit cfgs (EP (F := F)) 2 d
        ∗ ((SparseCore.T d).loc main_v0 ↦{fullShare} X0) ∗ ((SparseCore.T d).loc main_v13 ↦{fullShare} Gq) ∗ ((SparseCore.T d).loc main_v6 ↦{fullShare} Wt) ∗ ((SparseCore.T d).loc main_v7 ↦{fullShare} Bs) ∗ ((SparseCore.T d).loc main_v20 ↦{fullShare} A)
        ∗ (((K (F := F)).tcSt EH d 5 ∗ boundary (SparseCore.T d)
            ∗ ((SparseCore.T d).loc main_v0 ↦{fullShare} X0) ∗ ((SparseCore.T d).loc main_v13 ↦{fullShare} Gq) ∗ ((SparseCore.T d).loc main_v6 ↦{fullShare} Wt) ∗ ((SparseCore.T d).loc main_v7 ↦{fullShare} Bs) ∗ ((SparseCore.T d).loc main_v20 ↦{fullShare} Conv 2 d X0 Gq Wt Bs A)) -∗ Φ ⟨⟩))
      ⊢ wp frame (wpE ((K (F := F)).defs (D (F := F))) 𝒱 (SparseCore.T d) none) Set.univ
          (Prog.lift (.customCall (SparseCore.inner (Pipeline.entry 2)) ())) Φ
  wp3 : ∀ (κ : GSem nD τ sig → ℕ) (d : Dev nD) (X0 : Buf (Elt F) ((SparseCore.T d).loc main_v0)) (Gq : Buf (Elt F) ((SparseCore.T d).loc main_v15))
      (Wt : Buf (Elt F) ((SparseCore.T d).loc main_v6)) (Bs : Buf (Elt F) ((SparseCore.T d).loc main_v7)) (A : Buf (Elt F) ((SparseCore.T d).loc main_v21))
      (Φ : PUnit → sProp 𝕄),
      iprop((K (F := F)).ctx EH P κ ∗ (K (F := F)).tcSt EH d 5 ∗ boundary (SparseCore.T d)
        ∗ Pipeline.cellsGhost cfgs (EP (F := F)) 3 d ∗ Pipeline.toksInit cfgs (EP (F := F)) 3 d
        ∗ ((SparseCore.T d).loc main_v0 ↦{fullShare} X0) ∗ ((SparseCore.T d).loc main_v15 ↦{fullShare} Gq) ∗ ((SparseCore.T d).loc main_v6 ↦{fullShare} Wt) ∗ ((SparseCore.T d).loc main_v7 ↦{fullShare} Bs) ∗ ((SparseCore.T d).loc main_v21 ↦{fullShare} A)
        ∗ (((K (F := F)).tcSt EH d 5 ∗ boundary (SparseCore.T d)
            ∗ ((SparseCore.T d).loc main_v0 ↦{fullShare} X0) ∗ ((SparseCore.T d).loc main_v15 ↦{fullShare} Gq) ∗ ((SparseCore.T d).loc main_v6 ↦{fullShare} Wt) ∗ ((SparseCore.T d).loc main_v7 ↦{fullShare} Bs) ∗ ((SparseCore.T d).loc main_v21 ↦{fullShare} Conv 3 d X0 Gq Wt Bs A)) -∗ Φ ⟨⟩))
      ⊢ wp frame (wpE ((K (F := F)).defs (D (F := F))) 𝒱 (SparseCore.T d) none) Set.univ
          (Prog.lift (.customCall (SparseCore.inner (Pipeline.entry 3)) ())) Φ
  wp4 : ∀ (κ : GSem nD τ sig → ℕ) (d : Dev nD) (X0 : Buf (Elt F) ((SparseCore.T d).loc main_v0)) (Gq : Buf (Elt F) ((SparseCore.T d).loc main_v17))
      (Wt : Buf (Elt F) ((SparseCore.T d).loc main_v6)) (Bs : Buf (Elt F) ((SparseCore.T d).loc main_v7)) (A : Buf (Elt F) ((SparseCore.T d).loc main_v22))
      (Φ : PUnit → sProp 𝕄),
      iprop((K (F := F)).ctx EH P κ ∗ (K (F := F)).tcSt EH d 5 ∗ boundary (SparseCore.T d)
        ∗ Pipeline.cellsGhost cfgs (EP (F := F)) 4 d ∗ Pipeline.toksInit cfgs (EP (F := F)) 4 d
        ∗ ((SparseCore.T d).loc main_v0 ↦{fullShare} X0) ∗ ((SparseCore.T d).loc main_v17 ↦{fullShare} Gq) ∗ ((SparseCore.T d).loc main_v6 ↦{fullShare} Wt) ∗ ((SparseCore.T d).loc main_v7 ↦{fullShare} Bs) ∗ ((SparseCore.T d).loc main_v22 ↦{fullShare} A)
        ∗ (((K (F := F)).tcSt EH d 5 ∗ boundary (SparseCore.T d)
            ∗ ((SparseCore.T d).loc main_v0 ↦{fullShare} X0) ∗ ((SparseCore.T d).loc main_v17 ↦{fullShare} Gq) ∗ ((SparseCore.T d).loc main_v6 ↦{fullShare} Wt) ∗ ((SparseCore.T d).loc main_v7 ↦{fullShare} Bs) ∗ ((SparseCore.T d).loc main_v22 ↦{fullShare} Conv 4 d X0 Gq Wt Bs A)) -∗ Φ ⟨⟩))
      ⊢ wp frame (wpE ((K (F := F)).defs (D (F := F))) 𝒱 (SparseCore.T d) none) Set.univ
          (Prog.lift (.customCall (SparseCore.inner (Pipeline.entry 4)) ())) Φ

variable {m}

/-- The output array after region `p`. -/
def R0 (hr : Regions (P m)) (d : Dev nD) : FVec F S128x160000 .f32 :=
  hr.Conv 0 d (V0v m d) (gath (F := F) (Xv m d) (Iv0 m d)) (Wtv m d) (Bsv m d) (m ((SparseCore.T d).loc main_v18))
def R1 (hr : Regions (P m)) (d : Dev nD) : FVec F S128x160000 .f32 :=
  hr.Conv 1 d (V0v m d) (gath (F := F) (Xv m d) (Iv1 m d)) (Wtv m d) (Bsv m d) (R0 hr d)
def R2 (hr : Regions (P m)) (d : Dev nD) : FVec F S128x160000 .f32 :=
  hr.Conv 2 d (V0v m d) (gath (F := F) (Xv m d) (Iv2 m d)) (Wtv m d) (Bsv m d) (R1 hr d)
def R3 (hr : Regions (P m)) (d : Dev nD) : FVec F S128x160000 .f32 :=
  hr.Conv 3 d (V0v m d) (gath (F := F) (Xv m d) (Iv3 m d)) (Wtv m d) (Bsv m d) (R2 hr d)
def R4 (hr : Regions (P m)) (d : Dev nD) : FVec F S128x160000 .f32 :=
  hr.Conv 4 d (V0v m d) (gath (F := F) (Xv m d) (Iv4 m d)) (Wtv m d) (Bsv m d) (R3 hr d)
/-- The program's result main_v23. -/
def KOut (hr : Regions (P m)) (d : Dev nD) : FVec F S1x128x160000x1 .f32 :=
  broadcastInDim S1x128x160000x1 ![1, 2] bcast_S128x160000_S1x128x160000x1_1_2 (R4 hr d)

/-- What @main leaves the claim: the four arguments at their launch contents and the result. -/
def FIN (hr : Regions (P m)) (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v23 ↦{fullShare} KOut hr d))

/-! ## @main -/

/-- The launch memory as a valuation of device `d`'s arrays. -/
abbrev V0 (m : (ℓ : Loc nD τ sig) → Buf (Elt F) ℓ) (d : Dev nD) : Valuation τ sig (Elt F) := fun b => m (d, b)

variable (m) (ρ : Dev nD → PrngReg)

set_option maxHeartbeats 1600000 in
/-- @main on device `d`'s TensorCore, from what the launch deals it and the five pipelines' ghost state: the host
    operations, the five gather calls, the five regions with the copies between them, the broadcast; the arguments are
    kept and the result is `KOut`. -/
theorem hmain (hc : Calls m) (hr : Regions (P m)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN hr d) := by
  unfold SparseCore.Cfg.tcRes G
  rw [unscopedBufs_eq, bigSep_W5]
  simp only [main, wp_bind, wp_pure]
  iintro ⟨#Hctx, Hst, ⟨Hb, ⟨Ha0, Ha1, Ha2, Ha3, Hv0, Hv1, Hv2, Hv3, Hv4, Hv5, Hv6, Hv7, Hv8, Hv9, Hv10, Hv11, Hv12, Hv13, Hv14, Hv15, Hv16, Hv17, Hv18, Hv19, Hv20, Hv21, Hv22, Hv23⟩, -, -⟩, ⟨HgC0, HgT0⟩, ⟨HgC1, HgT1⟩, ⟨HgC2, HgT2⟩, ⟨HgC3, HgT3⟩, ⟨HgC4, HgT4⟩⟩
  -- main_v0 from main_arg0
  iapply (wp_reshape_pt 𝒱 d main_arg0 main_v0 rfl shapeCasts_S1x128x160000_S128x160000 _ _ (by decide) (V0 m d) (m ((SparseCore.T d).loc main_arg0)) (m ((SparseCore.T d).loc main_v0)) (V0v m d) (by rfl)) $$ [Hb Ha0 Hv0]
  · isplitl [Hb]; · iexact Hb
    isplitl [Ha0]; · iexact Ha0
    iexact Hv0
  iintro ⟨Hb, Ha0, Hv0⟩
  rw [wp_ret]; imodintro
  -- main_v1 from main_v0
  iapply (wp_unary_pt 𝒱 d main_v0 main_v1 ((transpose S160000x128 [1, 0] · transposes_S128x160000_S160000x128_1_0) : (⟨S128x160000, .f32⟩ : BufTy).Contents (Elt F) → (⟨S160000x128, .f32⟩ : BufTy).Contents (Elt F)) _ _ (by decide) (V0 m d) (V0v m d) (m ((SparseCore.T d).loc main_v1)) (Xv m d) (by rfl)) $$ [Hb Hv0 Hv1]
  · isplitl [Hb]; · iexact Hb
    isplitl [Hv0]; · iexact Hv0
    iexact Hv1
  iintro ⟨Hb, Hv0, Hv1⟩
  rw [wp_ret]; imodintro
  -- main_v2 from main_arg1
  iapply (wp_reshape_pt 𝒱 d main_arg1 main_v2 rfl shapeCasts_S1x160000x4_S160000x4 _ _ (by decide) (V0 m d) (m ((SparseCore.T d).loc main_arg1)) (m ((SparseCore.T d).loc main_v2)) (V2v m d) (by rfl)) $$ [Hb Ha1 Hv2]
  · isplitl [Hb]; · iexact Hb
    isplitl [Ha1]; · iexact Ha1
    iexact Hv2
  iintro ⟨Hb, Ha1, Hv2⟩
  rw [wp_ret]; imodintro
  -- main_v3 from main_v2
  iapply (wp_reshape_pt 𝒱 d main_v2 main_v3 rfl shapeCasts_S160000x4_S1250x128x4 _ _ (by decide) (V0 m d) (V2v m d) (m ((SparseCore.T d).loc main_v3)) (V3v m d) (by rfl)) $$ [Hb Hv2 Hv3]
  · isplitl [Hb]; · iexact Hb
    isplitl [Hv2]; · iexact Hv2
    iexact Hv3
  iintro ⟨Hb, Hv2, Hv3⟩
  rw [wp_ret]; imodintro
  -- main_v4 from main_v3
  iapply (wp_unary_pt 𝒱 d main_v3 main_v4 ((transpose S1250x4x128 [0, 2, 1] · transposes_S1250x128x4_S1250x4x128_0_2_1) : (⟨S1250x128x4, .i32⟩ : BufTy).Contents (Elt F) → (⟨S1250x4x128, .i32⟩ : BufTy).Contents (Elt F)) _ _ (by decide) (V0 m d) (V3v m d) (m ((SparseCore.T d).loc main_v4)) (V4v m d) (by rfl)) $$ [Hb Hv3 Hv4]
  · isplitl [Hb]; · iexact Hb
    isplitl [Hv3]; · iexact Hv3
    iexact Hv4
  iintro ⟨Hb, Hv3, Hv4⟩
  rw [wp_ret]; imodintro
  -- main_v5 from main_arg2
  iapply (wp_reshape_pt 𝒱 d main_arg2 main_v5 rfl shapeCasts_S128x128x1x5_S128x128x5 _ _ (by decide) (V0 m d) (m ((SparseCore.T d).loc main_arg2)) (m ((SparseCore.T d).loc main_v5)) (W5v m d) (by rfl)) $$ [Hb Ha2 Hv5]
  · isplitl [Hb]; · iexact Hb
    isplitl [Ha2]; · iexact Ha2
    iexact Hv5
  iintro ⟨Hb, Ha2, Hv5⟩
  rw [wp_ret]; imodintro
  -- main_v6 from main_v5
  iapply (wp_unary_pt 𝒱 d main_v5 main_v6 ((transpose S5x128x128 [2, 0, 1] · transposes_S128x128x5_S5x128x128_2_0_1) : (⟨S128x128x5, .f32⟩ : BufTy).Contents (Elt F) → (⟨S5x128x128, .f32⟩ : BufTy).Contents (Elt F)) _ _ (by decide) (V0 m d) (W5v m d) (m ((SparseCore.T d).loc main_v6)) (Wtv m d) (by rfl)) $$ [Hb Hv5 Hv6]
  · isplitl [Hb]; · iexact Hb
    isplitl [Hv5]; · iexact Hv5
    iexact Hv6
  iintro ⟨Hb, Hv5, Hv6⟩
  rw [wp_ret]; imodintro
  -- main_v7 from main_arg3
  iapply (wp_reshape_pt 𝒱 d main_arg3 main_v7 rfl shapeCasts_S128_S128x1 _ _ (by decide) (V0 m d) (m ((SparseCore.T d).loc main_arg3)) (m ((SparseCore.T d).loc main_v7)) (Bsv m d) (by rfl)) $$ [Hb Ha3 Hv7]
  · isplitl [Hb]; · iexact Hb
    isplitl [Ha3]; · iexact Ha3
    iexact Hv7
  iintro ⟨Hb, Ha3, Hv7⟩
  rw [wp_ret]; imodintro
  -- main_v8 from main_v4
  iapply (wp_unary_pt 𝒱 d main_v4 main_v8 ((extractStridedSlice S250x4x128 ![0, 0, 0] · slices_S1250x4x128_S250x4x128_0_0_0) : (⟨S1250x4x128, .i32⟩ : BufTy).Contents (Elt F) → (⟨S250x4x128, .i32⟩ : BufTy).Contents (Elt F)) _ _ (by decide) (V0 m d) (V4v m d) (m ((SparseCore.T d).loc main_v8)) (Iv0 m d) (by rfl)) $$ [Hb Hv4 Hv8]
  · isplitl [Hb]; · iexact Hb
    isplitl [Hv4]; · iexact Hv4
    iexact Hv8
  iintro ⟨Hb, Hv4, Hv8⟩
  rw [wp_ret]; imodintro
  -- gather call 0
  ihave Hs := (hc.split0 d) $$ [Hv1 Hv8 Hv9]
  · isplitl [Hv1]; · iexact Hv1
    isplitl [Hv8]; · iexact Hv8
    iexact Hv9
  icases Hs with ⟨HR, Hs⟩
  iapply ((K (F := F)).wp_run (D (F := F)) 𝒱 (EH := EH) (P := P m) κ d 0)
  isplitr; · iexact Hctx
  isplitl [Hst]; · iexact Hst
  isplitl [Hs]; · iexact Hs
  iintro ⟨Hst, Hdn⟩
  ihave Hj := (hc.join0 d) $$ [HR Hdn]
  · isplitl [HR]; · iexact HR
    iexact Hdn
  icases Hj with ⟨Hv1, Hv8, Hv9⟩
  -- main_v10 from main_v4
  iapply (wp_unary_pt 𝒱 d main_v4 main_v10 ((extractStridedSlice S250x4x128 ![250, 0, 0] · slices_S1250x4x128_S250x4x128_250_0_0) : (⟨S1250x4x128, .i32⟩ : BufTy).Contents (Elt F) → (⟨S250x4x128, .i32⟩ : BufTy).Contents (Elt F)) _ _ (by decide) (V0 m d) (V4v m d) (m ((SparseCore.T d).loc main_v10)) (Iv1 m d) (by rfl)) $$ [Hb Hv4 Hv10]
  · isplitl [Hb]; · iexact Hb
    isplitl [Hv4]; · iexact Hv4
    iexact Hv10
  iintro ⟨Hb, Hv4, Hv10⟩
  rw [wp_ret]; imodintro
  -- gather call 1
  ihave Hs := (hc.split1 d) $$ [Hv1 Hv10 Hv11]
  · isplitl [Hv1]; · iexact Hv1
    isplitl [Hv10]; · iexact Hv10
    iexact Hv11
  icases Hs with ⟨HR, Hs⟩
  iapply ((K (F := F)).wp_run (D (F := F)) 𝒱 (EH := EH) (P := P m) κ d 1)
  isplitr; · iexact Hctx
  isplitl [Hst]; · iexact Hst
  isplitl [Hs]; · iexact Hs
  iintro ⟨Hst, Hdn⟩
  ihave Hj := (hc.join1 d) $$ [HR Hdn]
  · isplitl [HR]; · iexact HR
    iexact Hdn
  icases Hj with ⟨Hv1, Hv10, Hv11⟩
  -- main_v12 from main_v4
  iapply (wp_unary_pt 𝒱 d main_v4 main_v12 ((extractStridedSlice S250x4x128 ![500, 0, 0] · slices_S1250x4x128_S250x4x128_500_0_0) : (⟨S1250x4x128, .i32⟩ : BufTy).Contents (Elt F) → (⟨S250x4x128, .i32⟩ : BufTy).Contents (Elt F)) _ _ (by decide) (V0 m d) (V4v m d) (m ((SparseCore.T d).loc main_v12)) (Iv2 m d) (by rfl)) $$ [Hb Hv4 Hv12]
  · isplitl [Hb]; · iexact Hb
    isplitl [Hv4]; · iexact Hv4
    iexact Hv12
  iintro ⟨Hb, Hv4, Hv12⟩
  rw [wp_ret]; imodintro
  -- gather call 2
  ihave Hs := (hc.split2 d) $$ [Hv1 Hv12 Hv13]
  · isplitl [Hv1]; · iexact Hv1
    isplitl [Hv12]; · iexact Hv12
    iexact Hv13
  icases Hs with ⟨HR, Hs⟩
  iapply ((K (F := F)).wp_run (D (F := F)) 𝒱 (EH := EH) (P := P m) κ d 2)
  isplitr; · iexact Hctx
  isplitl [Hst]; · iexact Hst
  isplitl [Hs]; · iexact Hs
  iintro ⟨Hst, Hdn⟩
  ihave Hj := (hc.join2 d) $$ [HR Hdn]
  · isplitl [HR]; · iexact HR
    iexact Hdn
  icases Hj with ⟨Hv1, Hv12, Hv13⟩
  -- main_v14 from main_v4
  iapply (wp_unary_pt 𝒱 d main_v4 main_v14 ((extractStridedSlice S250x4x128 ![750, 0, 0] · slices_S1250x4x128_S250x4x128_750_0_0) : (⟨S1250x4x128, .i32⟩ : BufTy).Contents (Elt F) → (⟨S250x4x128, .i32⟩ : BufTy).Contents (Elt F)) _ _ (by decide) (V0 m d) (V4v m d) (m ((SparseCore.T d).loc main_v14)) (Iv3 m d) (by rfl)) $$ [Hb Hv4 Hv14]
  · isplitl [Hb]; · iexact Hb
    isplitl [Hv4]; · iexact Hv4
    iexact Hv14
  iintro ⟨Hb, Hv4, Hv14⟩
  rw [wp_ret]; imodintro
  -- gather call 3
  ihave Hs := (hc.split3 d) $$ [Hv1 Hv14 Hv15]
  · isplitl [Hv1]; · iexact Hv1
    isplitl [Hv14]; · iexact Hv14
    iexact Hv15
  icases Hs with ⟨HR, Hs⟩
  iapply ((K (F := F)).wp_run (D (F := F)) 𝒱 (EH := EH) (P := P m) κ d 3)
  isplitr; · iexact Hctx
  isplitl [Hst]; · iexact Hst
  isplitl [Hs]; · iexact Hs
  iintro ⟨Hst, Hdn⟩
  ihave Hj := (hc.join3 d) $$ [HR Hdn]
  · isplitl [HR]; · iexact HR
    iexact Hdn
  icases Hj with ⟨Hv1, Hv14, Hv15⟩
  -- main_v16 from main_v4
  iapply (wp_unary_pt 𝒱 d main_v4 main_v16 ((extractStridedSlice S250x4x128 ![1000, 0, 0] · slices_S1250x4x128_S250x4x128_1000_0_0) : (⟨S1250x4x128, .i32⟩ : BufTy).Contents (Elt F) → (⟨S250x4x128, .i32⟩ : BufTy).Contents (Elt F)) _ _ (by decide) (V0 m d) (V4v m d) (m ((SparseCore.T d).loc main_v16)) (Iv4 m d) (by rfl)) $$ [Hb Hv4 Hv16]
  · isplitl [Hb]; · iexact Hb
    isplitl [Hv4]; · iexact Hv4
    iexact Hv16
  iintro ⟨Hb, Hv4, Hv16⟩
  rw [wp_ret]; imodintro
  -- gather call 4
  ihave Hs := (hc.split4 d) $$ [Hv1 Hv16 Hv17]
  · isplitl [Hv1]; · iexact Hv1
    isplitl [Hv16]; · iexact Hv16
    iexact Hv17
  icases Hs with ⟨HR, Hs⟩
  iapply ((K (F := F)).wp_run (D (F := F)) 𝒱 (EH := EH) (P := P m) κ d 4)
  isplitr; · iexact Hctx
  isplitl [Hst]; · iexact Hst
  isplitl [Hs]; · iexact Hs
  iintro ⟨Hst, Hdn⟩
  ihave Hj := (hc.join4 d) $$ [HR Hdn]
  · isplitl [HR]; · iexact HR
    iexact Hdn
  icases Hj with ⟨Hv1, Hv16, Hv17⟩
  -- region 0
  iapply (hr.wp0 κ d (V0v m d) (gath (F := F) (Xv m d) (Iv0 m d)) (Wtv m d) (Bsv m d) (m ((SparseCore.T d).loc main_v18)))
  isplitr; · iexact Hctx
  isplitl [Hst]; · iexact Hst
  isplitl [Hb]; · iexact Hb
  isplitl [HgC0]; · iexact HgC0
  isplitl [HgT0]; · iexact HgT0
  isplitl [Hv0]; · iexact Hv0
  isplitl [Hv9]; · iexact Hv9
  isplitl [Hv6]; · iexact Hv6
  isplitl [Hv7]; · iexact Hv7
  isplitl [Hv18]; · iexact Hv18
  iintro ⟨Hst, Hb, Hv0, Hv9, Hv6, Hv7, Hv18⟩
  -- main_v19 from main_v18
  iapply (wp_unary_pt 𝒱 d main_v18 main_v19 id _ _ (by decide) (V0 m d) (R0 hr d) (m ((SparseCore.T d).loc main_v19)) (R0 hr d) (by rfl)) $$ [Hb Hv18 Hv19]
  · isplitl [Hb]; · iexact Hb
    isplitl [Hv18]; · iexact Hv18
    iexact Hv19
  iintro ⟨Hb, Hv18, Hv19⟩
  rw [wp_ret]; imodintro
  -- region 1
  iapply (hr.wp1 κ d (V0v m d) (gath (F := F) (Xv m d) (Iv1 m d)) (Wtv m d) (Bsv m d) (R0 hr d))
  isplitr; · iexact Hctx
  isplitl [Hst]; · iexact Hst
  isplitl [Hb]; · iexact Hb
  isplitl [HgC1]; · iexact HgC1
  isplitl [HgT1]; · iexact HgT1
  isplitl [Hv0]; · iexact Hv0
  isplitl [Hv11]; · iexact Hv11
  isplitl [Hv6]; · iexact Hv6
  isplitl [Hv7]; · iexact Hv7
  isplitl [Hv19]; · iexact Hv19
  iintro ⟨Hst, Hb, Hv0, Hv11, Hv6, Hv7, Hv19⟩
  -- main_v20 from main_v19
  iapply (wp_unary_pt 𝒱 d main_v19 main_v20 id _ _ (by decide) (V0 m d) (R1 hr d) (m ((SparseCore.T d).loc main_v20)) (R1 hr d) (by rfl)) $$ [Hb Hv19 Hv20]
  · isplitl [Hb]; · iexact Hb
    isplitl [Hv19]; · iexact Hv19
    iexact Hv20
  iintro ⟨Hb, Hv19, Hv20⟩
  rw [wp_ret]; imodintro
  -- region 2
  iapply (hr.wp2 κ d (V0v m d) (gath (F := F) (Xv m d) (Iv2 m d)) (Wtv m d) (Bsv m d) (R1 hr d))
  isplitr; · iexact Hctx
  isplitl [Hst]; · iexact Hst
  isplitl [Hb]; · iexact Hb
  isplitl [HgC2]; · iexact HgC2
  isplitl [HgT2]; · iexact HgT2
  isplitl [Hv0]; · iexact Hv0
  isplitl [Hv13]; · iexact Hv13
  isplitl [Hv6]; · iexact Hv6
  isplitl [Hv7]; · iexact Hv7
  isplitl [Hv20]; · iexact Hv20
  iintro ⟨Hst, Hb, Hv0, Hv13, Hv6, Hv7, Hv20⟩
  -- main_v21 from main_v20
  iapply (wp_unary_pt 𝒱 d main_v20 main_v21 id _ _ (by decide) (V0 m d) (R2 hr d) (m ((SparseCore.T d).loc main_v21)) (R2 hr d) (by rfl)) $$ [Hb Hv20 Hv21]
  · isplitl [Hb]; · iexact Hb
    isplitl [Hv20]; · iexact Hv20
    iexact Hv21
  iintro ⟨Hb, Hv20, Hv21⟩
  rw [wp_ret]; imodintro
  -- region 3
  iapply (hr.wp3 κ d (V0v m d) (gath (F := F) (Xv m d) (Iv3 m d)) (Wtv m d) (Bsv m d) (R2 hr d))
  isplitr; · iexact Hctx
  isplitl [Hst]; · iexact Hst
  isplitl [Hb]; · iexact Hb
  isplitl [HgC3]; · iexact HgC3
  isplitl [HgT3]; · iexact HgT3
  isplitl [Hv0]; · iexact Hv0
  isplitl [Hv15]; · iexact Hv15
  isplitl [Hv6]; · iexact Hv6
  isplitl [Hv7]; · iexact Hv7
  isplitl [Hv21]; · iexact Hv21
  iintro ⟨Hst, Hb, Hv0, Hv15, Hv6, Hv7, Hv21⟩
  -- main_v22 from main_v21
  iapply (wp_unary_pt 𝒱 d main_v21 main_v22 id _ _ (by decide) (V0 m d) (R3 hr d) (m ((SparseCore.T d).loc main_v22)) (R3 hr d) (by rfl)) $$ [Hb Hv21 Hv22]
  · isplitl [Hb]; · iexact Hb
    isplitl [Hv21]; · iexact Hv21
    iexact Hv22
  iintro ⟨Hb, Hv21, Hv22⟩
  rw [wp_ret]; imodintro
  -- region 4
  iapply (hr.wp4 κ d (V0v m d) (gath (F := F) (Xv m d) (Iv4 m d)) (Wtv m d) (Bsv m d) (R3 hr d))
  isplitr; · iexact Hctx
  isplitl [Hst]; · iexact Hst
  isplitl [Hb]; · iexact Hb
  isplitl [HgC4]; · iexact HgC4
  isplitl [HgT4]; · iexact HgT4
  isplitl [Hv0]; · iexact Hv0
  isplitl [Hv17]; · iexact Hv17
  isplitl [Hv6]; · iexact Hv6
  isplitl [Hv7]; · iexact Hv7
  isplitl [Hv22]; · iexact Hv22
  iintro ⟨Hst, Hb, Hv0, Hv17, Hv6, Hv7, Hv22⟩
  -- main_v23 from main_v22
  iapply (wp_unary_pt 𝒱 d main_v22 main_v23 ((broadcastInDim S1x128x160000x1 ![1, 2] bcast_S128x160000_S1x128x160000x1_1_2) : (⟨S128x160000, .f32⟩ : BufTy).Contents (Elt F) → (⟨S1x128x160000x1, .f32⟩ : BufTy).Contents (Elt F)) _ _ (by decide) (V0 m d) (R4 hr d) (m ((SparseCore.T d).loc main_v23)) (KOut hr d) (by rfl)) $$ [Hb Hv22 Hv23]
  · isplitl [Hb]; · iexact Hb
    isplitl [Hv22]; · iexact Hv22
    iexact Hv23
  iintro ⟨Hb, Hv22, Hv23⟩
  rw [wp_ret]; imodintro
  imodintro
  isplitl [Hst]; · iexact Hst
  unfold FIN
  isplitl [Ha0]; · iexact Ha0
  isplitl [Ha1]; · iexact Ha1
  isplitl [Ha2]; · iexact Ha2
  isplitl [Ha3]; · iexact Ha3
  iexact Hv23

end Specs

end Cert.KernelIdeal.KP

end
-- ==== Proof.KRun.lean ====
/-
  The program's run.  What @main leaves on each device — the four arguments at their launch contents, the result at the
  composed term — is read off the final memory; the launch theorem then gives the run of all the threads from the tiles'
  obligations, the calls' splits, @main's proof and the launch element; and the frame is that run with the result
  forgotten.
-/
import proofs.«210879_g80607946211848_cont_9to1_m_1212_13_alg».proof.Defs
import proofs.«210879_g80607946211848_cont_9to1_m_1212_13_alg».proof.Proof.Gen.Pre_input_domain
import proofs.«210879_g80607946211848_cont_9to1_m_1212_13_alg».proof.Proof.KMain

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (m : (ℓ : Loc nD τ sig) → Buf (Elt F) ℓ) (ρ : Dev nD → PrngReg)

/-! ## The final memory -/

/-- What the final memory holds on device `d`: the result and the four arguments. -/
def fq (hr : Regions (P m)) (d : Dev nD) (s' : Phys nD τ sig (Elt F)) : Prop :=
  s'.mem.mem ((SparseCore.T d).loc main_v23) = KOut hr d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

theorem hfin (hr : Regions (P m)) (d : Dev nD) (s' : Phys nD τ sig (Elt F)) :
    iprop(FIN hr d ∗ SI s') ⊢ (⌜fq m hr d s'⌝ : sProp 𝕄) := by
  unfold FIN
  iintro ⟨⟨H0, H1, H2, H3, H23⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := (SparseCore.T d).loc main_v23) (I := Finset.univ) (q := fullShare) (f := KOut hr d)) $$ [HSI H23]
  · isplitl [HSI] <;> iassumption
  icases H with %h23
  ipureintro
  exact ⟨funext fun i => h23 i (Finset.mem_univ i), funext fun i => h0 i (Finset.mem_univ i), funext fun i => h1 i (Finset.mem_univ i),
    funext fun i => h2 i (Finset.mem_univ i), funext fun i => h3 i (Finset.mem_univ i)⟩

/-! ## The program's run -/

/-- On every device the result is the composed term and the arguments are unchanged. -/
def QC (hr : Regions (P m)) : PUnit × MemSt nD τ sig (Elt F) → Prop := fun r => ∀ c : Dev nD,
  r.2.mem ((SparseCore.T c).loc main_v23) = KOut hr c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)

/-- The run of all the threads, from the tiles' obligations for the five calls, how the calls' arrays split and join,
    and the five regions. -/
theorem run_main [∀ e, Nonempty (Elt F e)] (hc : Calls m) (hr : Regions (P m))
    (htile : ∀ q : Fin 5, (K (F := F)).TileObl (D (F := F)) 𝒱 (P m) v₀ q) :
    θ_run (Cert.KernelIdeal.defs (F := F)) (Cert.KernelIdeal.threads (F := F)) ⟨m, fun _ => 0, ρ⟩ (QC m hr) :=
  SparseCore.Cfg.θ_run_sc (K := K (F := F)) (D := D (F := F)) (𝒱 := 𝒱) (EH := EH) (P := P m) facts v₀
    (fun q hq => by have h := (kind_eq (F := F) q).symm.trans hq; cases h)
    (fun q _ => htile q)
    (fun q _ => SparseCore.Cfg.VecSplit.of_plain (vecSplit m q))
    m ρ main (G (F := F)) (FIN hr) (u₀ (F := F)) (sep_elim_left.trans (hu₀ (P m) (P_x m))) (hmain m ρ hc hr) (fq m hr) (hfin m hr) (QC m hr)
    (fun _ h => h)

end Cert.KernelIdeal.KP

namespace Cert.KernelIdeal.KP

open Cert.KernelIdeal Cert.KernelIdeal.Gen
open Idealize.ShloMosaic Idealize.SL.Sem
open Idealize.ShloMosaic.SparseCore.Cfg (HIx Pay)

/-- `Cert.frame_KernelIdeal` (Defs.lean): the run at the ideal instance with the result forgotten, given for every launch
    memory satisfying the precondition the calls' splits, the regions and the tiles' obligations. -/
theorem frame_ki
    (hc : ∀ m : (ℓ : Loc nD τ sig) → Buf (Elt Ideal) ℓ, Cert.Pre_KernelIdeal m → Calls (F := Ideal) m)
    (hr : ∀ m : (ℓ : Loc nD τ sig) → Buf (Elt Ideal) ℓ, Cert.Pre_KernelIdeal m → Regions (P (F := Ideal) m))
    (htile : ∀ m : (ℓ : Loc nD τ sig) → Buf (Elt Ideal) ℓ, Cert.Pre_KernelIdeal m →
      ∀ q : Fin 5, (K (F := Ideal)).TileObl (D (F := Ideal)) 𝒱 (P m) v₀ q) :
    Cert.frame_KernelIdeal := fun m ρ hpre =>
  (θ_run Cert.KernelIdeal.defs _ _).mono (fun _ h c => (h c).2)
    (run_main (F := Ideal) m ρ (hc m hpre) (hr m hpre) (htile m hpre))

end Cert.KernelIdeal.KP

end
-- ==== Proof.KSplit0.lean ====
/-
  Call 0 of the gather kernel, seen from the TensorCore: how the table, the index block and the result array split
  among the 2 × 16 tiles, and how the tiles' results join to the gathered array.  The table and the index block go out
  as read shares, one per SparseCore and of each one per tile.  The result array is PARTITIONED: tile (c, s) writes, at
  its trip t, the chunk n = 2 s + c + 32 t (when n < 250), that is rows 128 n … 128 n + 127 of each of the four planes;
  every row r of the result lies in exactly one chunk, n = r / 128, and n determines (c, s, t) = (n % 2, n % 32 / 2,
  n / 32).
-/
import proofs.«210879_g80607946211848_cont_9to1_m_1212_13_alg».proof.Proof.KPay

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips0 : k0_t1_loop.trips = 8 := by decide

/-- The chunk trip `t` of tile `L` serves. -/
def chunk0 (L : grid0.Coords) (t : Fin k0_t1_loop.trips) : ℕ := 2 * (L 1).val + (L 0).val + 32 * t.val

/-- A trip is active exactly when its chunk is one of the 250. -/
theorem act0_iff : ∀ (L : grid0.Coords) (t : Fin k0_t1_loop.trips), Act0 L t ↔ 2 * (L 1).val + (L 0).val + 32 * t.val < 250 := by
  decide +kernel

theorem coordsV0_zero (c : Fin (grid0.bound 0)) (s : Fin (grid0.bound 1)) : coordsV0 c s 0 = c := rfl
theorem coordsV0_one (c : Fin (grid0.bound 0)) (s : Fin (grid0.bound 1)) : coordsV0 c s 1 = s := rfl

/-- The elements of a 1 × 128 × 128 window of the result at offsets `(j, n, 0)`, squeezed: plane `j`, rows `n … n + 127`. -/
theorem mem_win0 (off : Fin S4x32000x128.rank → ℕ) (inb : ∀ a, off a + S1x128x128.size a ≤ S4x32000x128.size a) (j n : ℕ) (hoff : off = ![j, n, 0])
    (i : S4x32000x128.Idx) :
    i ∈ (((Memref.whole main_v9_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v9_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet0 (L : grid0.Coords) (t : Fin k0_t1_loop.trips) (h : Act0 L t) (j : Fin 4) (i : S4x32000x128.Idx) :
    i ∈ oSet0 L t h j ↔ (i 0).val = j.val ∧ (i 1).val / 128 = chunk0 L t := by
  unfold chunk0
  match j with
  | 0 => exact (mem_win0 _ _ 0 _ (k0_off10_eq L t) i).trans (by constructor <;> intro hh <;> omega)
  | 1 => exact (mem_win0 _ _ 1 _ (k0_off11_eq L t) i).trans (by constructor <;> intro hh <;> omega)
  | 2 => exact (mem_win0 _ _ 2 _ (k0_off12_eq L t) i).trans (by constructor <;> intro hh <;> omega)
  | 3 => exact (mem_win0 _ _ 3 _ (k0_off13_eq L t) i).trans (by constructor <;> intro hh <;> omega)

theorem oSet0_disjoint (L : grid0.Coords) (t : Fin k0_t1_loop.trips) (h : Act0 L t) :
    ∀ j ∈ (Finset.univ : Finset (Fin 4)), ∀ j' ∈ (Finset.univ : Finset (Fin 4)), j ≠ j' → Disjoint (oSet0 L t h j) (oSet0 L t h j') := by
  intro j _ j' _ hne
  refine Finset.disjoint_left.mpr fun i hi hi' => hne (Fin.ext ?_)
  rw [mem_oSet0] at hi hi'
  omega

/-- All the elements trip `t` of tile `L` writes: the four planes' rows of its chunk; none when the trip is idle. -/
def oSetT (L : grid0.Coords) (t : Fin k0_t1_loop.trips) : Finset S4x32000x128.Idx :=
  if h : Act0 L t then (Finset.univ : Finset (Fin 4)).biUnion (oSet0 L t h) else ∅

theorem mem_oSetT (L : grid0.Coords) (t : Fin k0_t1_loop.trips) (i : S4x32000x128.Idx) :
    i ∈ oSetT L t ↔ chunk0 L t < 250 ∧ (i 1).val / 128 = chunk0 L t := by
  have h0 : (i 0).val < 4 := (i 0).isLt
  unfold oSetT
  split
  · next h =>
    have hc : chunk0 L t < 250 := (act0_iff L t).mp h
    simp only [Finset.mem_biUnion, Finset.mem_univ, true_and, mem_oSet0, hc]
    exact ⟨fun ⟨_, _, e⟩ => e, fun e => ⟨⟨(i 0).val, h0⟩, rfl, e⟩⟩
  · next h =>
    have hc : ¬ chunk0 L t < 250 := fun hc => h ((act0_iff L t).mpr hc)
    simp only [Finset.notMem_empty, hc, false_and]

/-! ## The result array, tile by tile and trip by trip -/

/-- A trip's elements of the result, as one points-to. -/
theorem oTrip0_eq (d : Dev nD) (L : grid0.Coords) (f : Buf (Elt F) (oLoc0 d)) (t : Fin k0_t1_loop.trips) :
    oTrip0 (F := F) d L f t = (oLoc0 d ↦[oSetT L t]{fullShare} f : sProp 𝕄) := by
  unfold oTrip0 oSetT
  split
  · next h =>
    rw [pointsTo_biUnion Finset.univ (ℓ := oLoc0 d) (oSet0 L t h) (oSet0_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip : Type := Fin 2 × Fin 16 × Fin k0_t1_loop.trips
/-- What that trip of that tile writes. -/
def oSetX (x : TileTrip) : Finset S4x32000x128.Idx := oSetT (coordsV0 x.1 x.2.1) x.2.2

theorem chunk0_coords (c : Fin 2) (s : Fin 16) (t : Fin k0_t1_loop.trips) : chunk0 (coordsV0 c s) t = 2 * s.val + c.val + 32 * t.val := rfl

/-- The chunk number determines tile and trip: `n = 2 s + c + 32 t` with `c < 2`, `s < 16`. -/
theorem oSetX_disjoint : ∀ x ∈ (Finset.univ : Finset TileTrip), ∀ x' ∈ (Finset.univ : Finset TileTrip), x ≠ x' → Disjoint (oSetX x) (oSetX x') := by
  intro x _ x' _ hne
  refine Finset.disjoint_left.mpr fun i hi hi' => hne ?_
  obtain ⟨c, s, t⟩ := x
  obtain ⟨c', s', t'⟩ := x'
  rw [oSetX, mem_oSetT, chunk0_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX_cover : (Finset.univ : Finset TileTrip).biUnion oSetX = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips0]; omega⟩), Finset.mem_univ _, ?_⟩
  rw [oSetX, mem_oSetT, chunk0_coords]
  dsimp only
  omega

/-- The whole result array at `f` is every tile's every trip's elements at `f`. -/
theorem oPts_tiles (d : Dev nD) (f : Buf (Elt F) (oLoc0 d)) :
    (oLoc0 d ↦{fullShare} f : sProp 𝕄)
      = bigSep Finset.univ fun c : Fin 2 => bigSep Finset.univ fun s : Fin 16 => bigSep Finset.univ fun t : Fin k0_t1_loop.trips => oTrip0 d (coordsV0 c s) f t := by
  calc (oLoc0 d ↦{fullShare} f : sProp 𝕄)
      = (oLoc0 d ↦[(Finset.univ : Finset TileTrip).biUnion oSetX]{fullShare} f) := by rw [oSetX_cover]
    _ = bigSep Finset.univ fun x : TileTrip => (oLoc0 d ↦[oSetX x]{fullShare} f : sProp 𝕄) := pointsTo_biUnion _ _ oSetX_disjoint
    _ = bigSep Finset.univ fun c : Fin 2 => bigSep Finset.univ fun st : Fin 16 × Fin k0_t1_loop.trips => (oLoc0 d ↦[oSetX (c, st)]{fullShare} f : sProp 𝕄) :=
        bigSep_univ_prod _
    _ = bigSep Finset.univ fun c : Fin 2 => bigSep Finset.univ fun s : Fin 16 => bigSep Finset.univ fun t : Fin k0_t1_loop.trips =>
          (oLoc0 d ↦[oSetX (c, s, t)]{fullShare} f : sProp 𝕄) := bigSep_congr fun c _ => bigSep_univ_prod _
    _ = _ := bigSep_congr fun c _ => bigSep_congr fun s _ => bigSep_congr fun t _ => (oTrip0_eq d (coordsV0 c s) f t).symm

/-! ## The table and the index block: a read share per SparseCore, and of each one per tile -/

/-- An array held whole is: what remains after the two SparseCores' tokens, what remains of each of those after its
    sixteen tiles' tokens, and the 2 × 16 tiles' tokens. -/
theorem reads_tiles {ℓ : Loc nD τ sig} (f : Buf (Elt F) ℓ) :
    (ℓ ↦{fullShare} f : sProp 𝕄)
      = iprop((ℓ ↦{shareDrop fullShare 2} f)
          ∗ (bigSep Finset.univ fun c : Fin 2 => ℓ ↦{shareDrop (shareTok fullShare 2 c) 16} f)
          ∗ bigSep Finset.univ fun c : Fin 2 => bigSep Finset.univ fun s : Fin 16 => ℓ ↦{shareTok (shareTok fullShare 2 c) 16 s} f) := by
  have e2 : (ℓ ↦{fullShare} f : sProp 𝕄)
      = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have e16 : ∀ c : Fin 2, (ℓ ↦{shareTok fullShare 2 c} f : sProp 𝕄)
      = iprop((ℓ ↦{shareDrop (shareTok fullShare 2 c) 16} f) ∗ bigSep Finset.univ fun s : Fin 16 => ℓ ↦{shareTok (shareTok fullShare 2 c) 16 s} f) :=
    fun c => BI.equiv_iff.mp ⟨(pointsTo_toks (shareTok fullShare 2 c) 16).1, (pointsTo_toks (shareTok fullShare 2 c) 16).2⟩
  rw [e2, bigSep_congr (fun c _ => e16 c), bigSep_sep']

/-- What remains of the table's and the index block's shares while the tiles hold theirs. -/
def Rest0 (d : Dev nD) (X : Buf (Elt F) (xLoc d)) (I : Buf (Elt F) (iLoc0 d)) : sProp 𝕄 :=
  iprop(((xLoc d ↦{shareDrop fullShare 2} X) ∗ bigSep Finset.univ fun c : Fin 2 => xLoc d ↦{shareDrop (shareTok fullShare 2 c) 16} X)
    ∗ ((iLoc0 d ↦{shareDrop fullShare 2} I) ∗ bigSep Finset.univ fun c : Fin 2 => iLoc0 d ↦{shareDrop (shareTok fullShare 2 c) 16} I))

theorem qTile0_coords (c : Fin 2) (s : Fin 16) : qTile0 (coordsV0 c s) = shareTok (shareTok fullShare 2 c) 16 s := rfl

/-- All the tiles' operands: their shares of the table, of the index block, and their windows of the result. -/
theorem tileGo0_tiles (d : Dev nD) (X : Buf (Elt F) (xLoc d)) (I : Buf (Elt F) (iLoc0 d)) (G : Buf (Elt F) (oLoc0 d)) :
    (bigSep Finset.univ fun c : Fin 2 => bigSep Finset.univ fun s : Fin 16 => tileGo0 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc0 d ↦{shareTok (shareTok fullShare 2 c) 16 s} I)
          ∗ bigSep Finset.univ fun c : Fin 2 => bigSep Finset.univ fun s : Fin 16 => bigSep Finset.univ fun t : Fin k0_t1_loop.trips => oTrip0 d (coordsV0 c s) G t) := by
  unfold tileGo0
  simp only [qTile0_coords, bigSep_sep']

/-- All the tiles' results. -/
theorem tileTd0_tiles (d : Dev nD) (X : Buf (Elt F) (xLoc d)) (I : Buf (Elt F) (iLoc0 d)) :
    (bigSep Finset.univ fun c : Fin 2 => bigSep Finset.univ fun s : Fin 16 => tileTd0 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc0 d ↦{shareTok (shareTok fullShare 2 c) 16 s} I)
          ∗ bigSep Finset.univ fun c : Fin 2 => bigSep Finset.univ fun s : Fin 16 => bigSep Finset.univ fun t : Fin k0_t1_loop.trips =>
              oTrip0 d (coordsV0 c s) (gath (F := F) X I) t) := by
  unfold tileTd0
  simp only [qTile0_coords, bigSep_sep']

/-! ## The call's split and join -/

/-- The three arrays held whole split into the 2 × 16 tiles' operands and the remainder of the read shares. -/
theorem callSplit0 (d : Dev nD) (X : Buf (Elt F) (xLoc d)) (I : Buf (Elt F) (iLoc0 d)) (G : Buf (Elt F) (oLoc0 d)) :
    iprop((xLoc d ↦{fullShare} X) ∗ (iLoc0 d ↦{fullShare} I) ∗ (oLoc0 d ↦{fullShare} G))
      ⊢ (iprop(Rest0 d X I ∗ bigSep Finset.univ fun c : Fin 2 => bigSep Finset.univ fun s : Fin 16 => tileGo0 d X I G (coordsV0 c s)) : sProp 𝕄) := by
  rw [tileGo0_tiles, reads_tiles X, reads_tiles I, oPts_tiles d G]
  unfold Rest0
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin0 (d : Dev nD) (X : Buf (Elt F) (xLoc d)) (I : Buf (Elt F) (iLoc0 d)) :
    iprop(Rest0 d X I ∗ bigSep Finset.univ fun c : Fin 2 => bigSep Finset.univ fun s : Fin 16 => tileTd0 d X I (coordsV0 c s))
      ⊢ (iprop((xLoc d ↦{fullShare} X) ∗ (iLoc0 d ↦{fullShare} I) ∗ (oLoc0 d ↦{fullShare} gath (F := F) X I)) : sProp 𝕄) := by
  rw [tileTd0_tiles, reads_tiles X, reads_tiles I, oPts_tiles d (gath (F := F) X I)]
  unfold Rest0
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 0 carry: every tile's operands. -/
theorem st0_tiles (d : Dev nD) :
    (bigSep Finset.univ fun c : Fin ((K (F := F)).nCore 0) => (P m).st 0 d c)
      = bigSep Finset.univ fun c : Fin 2 => bigSep Finset.univ fun s : Fin 16 => tileGo0 d (Xv m d) (Iv0 m d) (m (oLoc0 d)) (coordsV0 c s) := by
  simp only [P_st, P_go0]
  exact bigSep_congr fun c _ => bigSep_congr fun s _ => rfl
/-- What the two done signals carry back: every tile's results. -/
theorem dn0_tiles (d : Dev nD) :
    (bigSep Finset.univ fun c : Fin ((K (F := F)).nCore 0) => (P m).dn 0 d c)
      = bigSep Finset.univ fun c : Fin 2 => bigSep Finset.univ fun s : Fin 16 => tileTd0 d (Xv m d) (Iv0 m d) (coordsV0 c s) := by
  simp only [P_dn, P_td0]
  exact bigSep_congr fun c _ => bigSep_congr fun s _ => rfl

/-- Before call 0: the table, the index block and the result array as the launch left it, held whole, are what the
    start signals carry and the remainder of the read shares. -/
theorem callSplit0_P (d : Dev nD) :
    iprop((xLoc d ↦{fullShare} Xv m d) ∗ (iLoc0 d ↦{fullShare} Iv0 m d) ∗ (oLoc0 d ↦{fullShare} m (oLoc0 d)))
      ⊢ (iprop(Rest0 d (Xv m d) (Iv0 m d) ∗ bigSep Finset.univ fun c : Fin ((K (F := F)).nCore 0) => (P m).st 0 d c) : sProp 𝕄) := by
  rw [st0_tiles]; exact callSplit0 d _ _ _
/-- After call 0: what the done signals carry back and the remainder are the table and the index block held whole, and
    the result array whole at the gathered array. -/
theorem callJoin0_P (d : Dev nD) :
    iprop(Rest0 d (Xv m d) (Iv0 m d) ∗ bigSep Finset.univ fun c : Fin ((K (F := F)).nCore 0) => (P m).dn 0 d c)
      ⊢ (iprop((xLoc d ↦{fullShare} Xv m d) ∗ (iLoc0 d ↦{fullShare} Iv0 m d) ∗ (oLoc0 d ↦{fullShare} gath (F := F) (Xv m d) (Iv0 m d))) : sProp 𝕄) := by
  rw [dn0_tiles]; exact callJoin0 d _ _

end AtLaunch

end Cert.KernelIdeal.KP

end
-- ==== Proof.KSplit1.lean ====
/-
  Call 1 of the gather kernel, seen from the TensorCore: call 0's split and join over call 1's index block (main_v10)
  and result array (main_v11); the same partition of the result by chunks, the same read shares.
-/
import proofs.«210879_g80607946211848_cont_9to1_m_1212_13_alg».proof.Proof.KSplit0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips1 : k1_t1_loop.trips = 8 := by decide

/-- The chunk trip `t` of tile `L` serves. -/
def chunk1 (L : grid1.Coords) (t : Fin k1_t1_loop.trips) : ℕ := 2 * (L 1).val + (L 0).val + 32 * t.val

/-- A trip is active exactly when its chunk is one of the 250. -/
theorem act1_iff : ∀ (L : grid1.Coords) (t : Fin k1_t1_loop.trips), Act1 L t ↔ 2 * (L 1).val + (L 0).val + 32 * t.val < 250 := by
  decide +kernel

/-- The elements of a 1 × 128 × 128 window of the result at offsets `(j, n, 0)`, squeezed: plane `j`, rows `n … n + 127`. -/
theorem mem_win1 (off : Fin S4x32000x128.rank → ℕ) (inb : ∀ a, off a + S1x128x128.size a ≤ S4x32000x128.size a) (j n : ℕ) (hoff : off = ![j, n, 0])
    (i : S4x32000x128.Idx) :
    i ∈ (((Memref.whole main_v11_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v11_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet1 (L : grid1.Coords) (t : Fin k1_t1_loop.trips) (h : Act1 L t) (j : Fin 4) (i : S4x32000x128.Idx) :
    i ∈ oSet1 L t h j ↔ (i 0).val = j.val ∧ (i 1).val / 128 = chunk1 L t := by
  unfold chunk1
  match j with
  | 0 => exact (mem_win1 _ _ 0 _ (k1_off10_eq L t) i).trans (by constructor <;> intro hh <;> omega)
  | 1 => exact (mem_win1 _ _ 1 _ (k1_off11_eq L t) i).trans (by constructor <;> intro hh <;> omega)
  | 2 => exact (mem_win1 _ _ 2 _ (k1_off12_eq L t) i).trans (by constructor <;> intro hh <;> omega)
  | 3 => exact (mem_win1 _ _ 3 _ (k1_off13_eq L t) i).trans (by constructor <;> intro hh <;> omega)

theorem oSet1_disjoint (L : grid1.Coords) (t : Fin k1_t1_loop.trips) (h : Act1 L t) :
    ∀ j ∈ (Finset.univ : Finset (Fin 4)), ∀ j' ∈ (Finset.univ : Finset (Fin 4)), j ≠ j' → Disjoint (oSet1 L t h j) (oSet1 L t h j') := by
  intro j _ j' _ hne
  refine Finset.disjoint_left.mpr fun i hi hi' => hne (Fin.ext ?_)
  rw [mem_oSet1] at hi hi'
  omega

/-- All the elements trip `t` of tile `L` writes: the four planes' rows of its chunk; none when the trip is idle. -/
def oSetT1 (L : grid1.Coords) (t : Fin k1_t1_loop.trips) : Finset S4x32000x128.Idx :=
  if h : Act1 L t then (Finset.univ : Finset (Fin 4)).biUnion (oSet1 L t h) else ∅

theorem mem_oSetT1 (L : grid1.Coords) (t : Fin k1_t1_loop.trips) (i : S4x32000x128.Idx) :
    i ∈ oSetT1 L t ↔ chunk1 L t < 250 ∧ (i 1).val / 128 = chunk1 L t := by
  have h0 : (i 0).val < 4 := (i 0).isLt
  unfold oSetT1
  split
  · next h =>
    have hc : chunk1 L t < 250 := (act1_iff L t).mp h
    simp only [Finset.mem_biUnion, Finset.mem_univ, true_and, mem_oSet1, hc]
    exact ⟨fun ⟨_, _, e⟩ => e, fun e => ⟨⟨(i 0).val, h0⟩, rfl, e⟩⟩
  · next h =>
    have hc : ¬ chunk1 L t < 250 := fun hc => h ((act1_iff L t).mpr hc)
    simp only [Finset.notMem_empty, hc, false_and]

/-! ## The result array, tile by tile and trip by trip -/

/-- A trip's elements of the result, as one points-to. -/
theorem oTrip1_eq (d : Dev nD) (L : grid1.Coords) (f : Buf (Elt F) (oLoc1 d)) (t : Fin k1_t1_loop.trips) :
    oTrip1 (F := F) d L f t = (oLoc1 d ↦[oSetT1 L t]{fullShare} f : sProp 𝕄) := by
  unfold oTrip1 oSetT1
  split
  · next h =>
    rw [pointsTo_biUnion Finset.univ (ℓ := oLoc1 d) (oSet1 L t h) (oSet1_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip1 : Type := Fin 2 × Fin 16 × Fin k1_t1_loop.trips
/-- What that trip of that tile writes. -/
def oSetX1 (x : TileTrip1) : Finset S4x32000x128.Idx := oSetT1 (coordsV0 x.1 x.2.1) x.2.2

theorem chunk1_coords (c : Fin 2) (s : Fin 16) (t : Fin k1_t1_loop.trips) : chunk1 (coordsV0 c s) t = 2 * s.val + c.val + 32 * t.val := rfl

/-- The chunk number determines tile and trip: `n = 2 s + c + 32 t` with `c < 2`, `s < 16`. -/
theorem oSetX1_disjoint : ∀ x ∈ (Finset.univ : Finset TileTrip1), ∀ x' ∈ (Finset.univ : Finset TileTrip1), x ≠ x' → Disjoint (oSetX1 x) (oSetX1 x') := by
  intro x _ x' _ hne
  refine Finset.disjoint_left.mpr fun i hi hi' => hne ?_
  obtain ⟨c, s, t⟩ := x
  obtain ⟨c', s', t'⟩ := x'
  rw [oSetX1, mem_oSetT1, chunk1_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX1_cover : (Finset.univ : Finset TileTrip1).biUnion oSetX1 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips1]; omega⟩), Finset.mem_univ _, ?_⟩
  rw [oSetX1, mem_oSetT1, chunk1_coords]
  dsimp only
  omega

/-- The whole result array at `f` is every tile's every trip's elements at `f`. -/
theorem oPts_tiles1 (d : Dev nD) (f : Buf (Elt F) (oLoc1 d)) :
    (oLoc1 d ↦{fullShare} f : sProp 𝕄)
      = bigSep Finset.univ fun c : Fin 2 => bigSep Finset.univ fun s : Fin 16 => bigSep Finset.univ fun t : Fin k1_t1_loop.trips => oTrip1 d (coordsV0 c s) f t := by
  calc (oLoc1 d ↦{fullShare} f : sProp 𝕄)
      = (oLoc1 d ↦[(Finset.univ : Finset TileTrip1).biUnion oSetX1]{fullShare} f) := by rw [oSetX1_cover]
    _ = bigSep Finset.univ fun x : TileTrip1 => (oLoc1 d ↦[oSetX1 x]{fullShare} f : sProp 𝕄) := pointsTo_biUnion _ _ oSetX1_disjoint
    _ = bigSep Finset.univ fun c : Fin 2 => bigSep Finset.univ fun st : Fin 16 × Fin k1_t1_loop.trips => (oLoc1 d ↦[oSetX1 (c, st)]{fullShare} f : sProp 𝕄) :=
        bigSep_univ_prod _
    _ = bigSep Finset.univ fun c : Fin 2 => bigSep Finset.univ fun s : Fin 16 => bigSep Finset.univ fun t : Fin k1_t1_loop.trips =>
          (oLoc1 d ↦[oSetX1 (c, s, t)]{fullShare} f : sProp 𝕄) := bigSep_congr fun c _ => bigSep_univ_prod _
    _ = _ := bigSep_congr fun c _ => bigSep_congr fun s _ => bigSep_congr fun t _ => (oTrip1_eq d (coordsV0 c s) f t).symm

/-! ## The table and the index block: a read share per SparseCore, and of each one per tile -/

/-- What remains of the table's and the index block's shares while the tiles hold theirs. -/
def Rest1 (d : Dev nD) (X : Buf (Elt F) (xLoc d)) (I : Buf (Elt F) (iLoc1 d)) : sProp 𝕄 :=
  iprop(((xLoc d ↦{shareDrop fullShare 2} X) ∗ bigSep Finset.univ fun c : Fin 2 => xLoc d ↦{shareDrop (shareTok fullShare 2 c) 16} X)
    ∗ ((iLoc1 d ↦{shareDrop fullShare 2} I) ∗ bigSep Finset.univ fun c : Fin 2 => iLoc1 d ↦{shareDrop (shareTok fullShare 2 c) 16} I))

theorem qTile1_coords (c : Fin 2) (s : Fin 16) : qTile1 (coordsV0 c s) = shareTok (shareTok fullShare 2 c) 16 s := rfl

/-- All the tiles' operands: their shares of the table, of the index block, and their windows of the result. -/
theorem tileGo1_tiles (d : Dev nD) (X : Buf (Elt F) (xLoc d)) (I : Buf (Elt F) (iLoc1 d)) (G : Buf (Elt F) (oLoc1 d)) :
    (bigSep Finset.univ fun c : Fin 2 => bigSep Finset.univ fun s : Fin 16 => tileGo1 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc1 d ↦{shareTok (shareTok fullShare 2 c) 16 s} I)
          ∗ bigSep Finset.univ fun c : Fin 2 => bigSep Finset.univ fun s : Fin 16 => bigSep Finset.univ fun t : Fin k1_t1_loop.trips => oTrip1 d (coordsV0 c s) G t) := by
  unfold tileGo1
  simp only [qTile1_coords, bigSep_sep']

/-- All the tiles' results. -/
theorem tileTd1_tiles (d : Dev nD) (X : Buf (Elt F) (xLoc d)) (I : Buf (Elt F) (iLoc1 d)) :
    (bigSep Finset.univ fun c : Fin 2 => bigSep Finset.univ fun s : Fin 16 => tileTd1 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc1 d ↦{shareTok (shareTok fullShare 2 c) 16 s} I)
          ∗ bigSep Finset.univ fun c : Fin 2 => bigSep Finset.univ fun s : Fin 16 => bigSep Finset.univ fun t : Fin k1_t1_loop.trips =>
              oTrip1 d (coordsV0 c s) (gath (F := F) X I) t) := by
  unfold tileTd1
  simp only [qTile1_coords, bigSep_sep']

/-! ## The call's split and join -/

/-- The three arrays held whole split into the 2 × 16 tiles' operands and the remainder of the read shares. -/
theorem callSplit1 (d : Dev nD) (X : Buf (Elt F) (xLoc d)) (I : Buf (Elt F) (iLoc1 d)) (G : Buf (Elt F) (oLoc1 d)) :
    iprop((xLoc d ↦{fullShare} X) ∗ (iLoc1 d ↦{fullShare} I) ∗ (oLoc1 d ↦{fullShare} G))
      ⊢ (iprop(Rest1 d X I ∗ bigSep Finset.univ fun c : Fin 2 => bigSep Finset.univ fun s : Fin 16 => tileGo1 d X I G (coordsV0 c s)) : sProp 𝕄) := by
  rw [tileGo1_tiles, reads_tiles X, reads_tiles I, oPts_tiles1 d G]
  unfold Rest1
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin1 (d : Dev nD) (X : Buf (Elt F) (xLoc d)) (I : Buf (Elt F) (iLoc1 d)) :
    iprop(Rest1 d X I ∗ bigSep Finset.univ fun c : Fin 2 => bigSep Finset.univ fun s : Fin 16 => tileTd1 d X I (coordsV0 c s))
      ⊢ (iprop((xLoc d ↦{fullShare} X) ∗ (iLoc1 d ↦{fullShare} I) ∗ (oLoc1 d ↦{fullShare} gath (F := F) X I)) : sProp 𝕄) := by
  rw [tileTd1_tiles, reads_tiles X, reads_tiles I, oPts_tiles1 d (gath (F := F) X I)]
  unfold Rest1
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 1 carry: every tile's operands. -/
theorem st1_tiles (d : Dev nD) :
    (bigSep Finset.univ fun c : Fin ((K (F := F)).nCore 1) => (P m).st 1 d c)
      = bigSep Finset.univ fun c : Fin 2 => bigSep Finset.univ fun s : Fin 16 => tileGo1 d (Xv m d) (Iv1 m d) (m (oLoc1 d)) (coordsV0 c s) := by
  simp only [P_st, P_go1]
  exact bigSep_congr fun c _ => bigSep_congr fun s _ => rfl
/-- What the two done signals carry back: every tile's results. -/
theorem dn1_tiles (d : Dev nD) :
    (bigSep Finset.univ fun c : Fin ((K (F := F)).nCore 1) => (P m).dn 1 d c)
      = bigSep Finset.univ fun c : Fin 2 => bigSep Finset.univ fun s : Fin 16 => tileTd1 d (Xv m d) (Iv1 m d) (coordsV0 c s) := by
  simp only [P_dn, P_td1]
  exact bigSep_congr fun c _ => bigSep_congr fun s _ => rfl

/-- Before call 1: the table, the index block and the result array as the launch left it, held whole, are what the
    start signals carry and the remainder of the read shares. -/
theorem callSplit1_P (d : Dev nD) :
    iprop((xLoc d ↦{fullShare} Xv m d) ∗ (iLoc1 d ↦{fullShare} Iv1 m d) ∗ (oLoc1 d ↦{fullShare} m (oLoc1 d)))
      ⊢ (iprop(Rest1 d (Xv m d) (Iv1 m d) ∗ bigSep Finset.univ fun c : Fin ((K (F := F)).nCore 1) => (P m).st 1 d c) : sProp 𝕄) := by
  rw [st1_tiles]; exact callSplit1 d _ _ _
/-- After call 1: what the done signals carry back and the remainder are the table and the index block held whole, and
    the result array whole at the gathered array. -/
theorem callJoin1_P (d : Dev nD) :
    iprop(Rest1 d (Xv m d) (Iv1 m d) ∗ bigSep Finset.univ fun c : Fin ((K (F := F)).nCore 1) => (P m).dn 1 d c)
      ⊢ (iprop((xLoc d ↦{fullShare} Xv m d) ∗ (iLoc1 d ↦{fullShare} Iv1 m d) ∗ (oLoc1 d ↦{fullShare} gath (F := F) (Xv m d) (Iv1 m d))) : sProp 𝕄) := by
  rw [dn1_tiles]; exact callJoin1 d _ _

end AtLaunch

end Cert.KernelIdeal.KP

end
-- ==== Proof.KSplit2.lean ====
/-
  Call 2 of the gather kernel, seen from the TensorCore: call 0's split and join over call 2's index block (main_v12)
  and result array (main_v13); the same partition of the result by chunks, the same read shares.
-/
import proofs.«210879_g80607946211848_cont_9to1_m_1212_13_alg».proof.Proof.KSplit0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips2 : k2_t1_loop.trips = 8 := by decide

/-- The chunk trip `t` of tile `L` serves. -/
def chunk2 (L : grid2.Coords) (t : Fin k2_t1_loop.trips) : ℕ := 2 * (L 1).val + (L 0).val + 32 * t.val

/-- A trip is active exactly when its chunk is one of the 250. -/
theorem act2_iff : ∀ (L : grid2.Coords) (t : Fin k2_t1_loop.trips), Act2 L t ↔ 2 * (L 1).val + (L 0).val + 32 * t.val < 250 := by
  decide +kernel

/-- The elements of a 1 × 128 × 128 window of the result at offsets `(j, n, 0)`, squeezed: plane `j`, rows `n … n + 127`. -/
theorem mem_win2 (off : Fin S4x32000x128.rank → ℕ) (inb : ∀ a, off a + S1x128x128.size a ≤ S4x32000x128.size a) (j n : ℕ) (hoff : off = ![j, n, 0])
    (i : S4x32000x128.Idx) :
    i ∈ (((Memref.whole main_v13_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v13_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet2 (L : grid2.Coords) (t : Fin k2_t1_loop.trips) (h : Act2 L t) (j : Fin 4) (i : S4x32000x128.Idx) :
    i ∈ oSet2 L t h j ↔ (i 0).val = j.val ∧ (i 1).val / 128 = chunk2 L t := by
  unfold chunk2
  match j with
  | 0 => exact (mem_win2 _ _ 0 _ (k2_off10_eq L t) i).trans (by constructor <;> intro hh <;> omega)
  | 1 => exact (mem_win2 _ _ 1 _ (k2_off11_eq L t) i).trans (by constructor <;> intro hh <;> omega)
  | 2 => exact (mem_win2 _ _ 2 _ (k2_off12_eq L t) i).trans (by constructor <;> intro hh <;> omega)
  | 3 => exact (mem_win2 _ _ 3 _ (k2_off13_eq L t) i).trans (by constructor <;> intro hh <;> omega)

theorem oSet2_disjoint (L : grid2.Coords) (t : Fin k2_t1_loop.trips) (h : Act2 L t) :
    ∀ j ∈ (Finset.univ : Finset (Fin 4)), ∀ j' ∈ (Finset.univ : Finset (Fin 4)), j ≠ j' → Disjoint (oSet2 L t h j) (oSet2 L t h j') := by
  intro j _ j' _ hne
  refine Finset.disjoint_left.mpr fun i hi hi' => hne (Fin.ext ?_)
  rw [mem_oSet2] at hi hi'
  omega

/-- All the elements trip `t` of tile `L` writes: the four planes' rows of its chunk; none when the trip is idle. -/
def oSetT2 (L : grid2.Coords) (t : Fin k2_t1_loop.trips) : Finset S4x32000x128.Idx :=
  if h : Act2 L t then (Finset.univ : Finset (Fin 4)).biUnion (oSet2 L t h) else ∅

theorem mem_oSetT2 (L : grid2.Coords) (t : Fin k2_t1_loop.trips) (i : S4x32000x128.Idx) :
    i ∈ oSetT2 L t ↔ chunk2 L t < 250 ∧ (i 1).val / 128 = chunk2 L t := by
  have h0 : (i 0).val < 4 := (i 0).isLt
  unfold oSetT2
  split
  · next h =>
    have hc : chunk2 L t < 250 := (act2_iff L t).mp h
    simp only [Finset.mem_biUnion, Finset.mem_univ, true_and, mem_oSet2, hc]
    exact ⟨fun ⟨_, _, e⟩ => e, fun e => ⟨⟨(i 0).val, h0⟩, rfl, e⟩⟩
  · next h =>
    have hc : ¬ chunk2 L t < 250 := fun hc => h ((act2_iff L t).mpr hc)
    simp only [Finset.notMem_empty, hc, false_and]

/-! ## The result array, tile by tile and trip by trip -/

/-- A trip's elements of the result, as one points-to. -/
theorem oTrip2_eq (d : Dev nD) (L : grid2.Coords) (f : Buf (Elt F) (oLoc2 d)) (t : Fin k2_t1_loop.trips) :
    oTrip2 (F := F) d L f t = (oLoc2 d ↦[oSetT2 L t]{fullShare} f : sProp 𝕄) := by
  unfold oTrip2 oSetT2
  split
  · next h =>
    rw [pointsTo_biUnion Finset.univ (ℓ := oLoc2 d) (oSet2 L t h) (oSet2_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip2 : Type := Fin 2 × Fin 16 × Fin k2_t1_loop.trips
/-- What that trip of that tile writes. -/
def oSetX2 (x : TileTrip2) : Finset S4x32000x128.Idx := oSetT2 (coordsV0 x.1 x.2.1) x.2.2

theorem chunk2_coords (c : Fin 2) (s : Fin 16) (t : Fin k2_t1_loop.trips) : chunk2 (coordsV0 c s) t = 2 * s.val + c.val + 32 * t.val := rfl

/-- The chunk number determines tile and trip: `n = 2 s + c + 32 t` with `c < 2`, `s < 16`. -/
theorem oSetX2_disjoint : ∀ x ∈ (Finset.univ : Finset TileTrip2), ∀ x' ∈ (Finset.univ : Finset TileTrip2), x ≠ x' → Disjoint (oSetX2 x) (oSetX2 x') := by
  intro x _ x' _ hne
  refine Finset.disjoint_left.mpr fun i hi hi' => hne ?_
  obtain ⟨c, s, t⟩ := x
  obtain ⟨c', s', t'⟩ := x'
  rw [oSetX2, mem_oSetT2, chunk2_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX2_cover : (Finset.univ : Finset TileTrip2).biUnion oSetX2 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips2]; omega⟩), Finset.mem_univ _, ?_⟩
  rw [oSetX2, mem_oSetT2, chunk2_coords]
  dsimp only
  omega

/-- The whole result array at `f` is every tile's every trip's elements at `f`. -/
theorem oPts_tiles2 (d : Dev nD) (f : Buf (Elt F) (oLoc2 d)) :
    (oLoc2 d ↦{fullShare} f : sProp 𝕄)
      = bigSep Finset.univ fun c : Fin 2 => bigSep Finset.univ fun s : Fin 16 => bigSep Finset.univ fun t : Fin k2_t1_loop.trips => oTrip2 d (coordsV0 c s) f t := by
  calc (oLoc2 d ↦{fullShare} f : sProp 𝕄)
      = (oLoc2 d ↦[(Finset.univ : Finset TileTrip2).biUnion oSetX2]{fullShare} f) := by rw [oSetX2_cover]
    _ = bigSep Finset.univ fun x : TileTrip2 => (oLoc2 d ↦[oSetX2 x]{fullShare} f : sProp 𝕄) := pointsTo_biUnion _ _ oSetX2_disjoint
    _ = bigSep Finset.univ fun c : Fin 2 => bigSep Finset.univ fun st : Fin 16 × Fin k2_t1_loop.trips => (oLoc2 d ↦[oSetX2 (c, st)]{fullShare} f : sProp 𝕄) :=
        bigSep_univ_prod _
    _ = bigSep Finset.univ fun c : Fin 2 => bigSep Finset.univ fun s : Fin 16 => bigSep Finset.univ fun t : Fin k2_t1_loop.trips =>
          (oLoc2 d ↦[oSetX2 (c, s, t)]{fullShare} f : sProp 𝕄) := bigSep_congr fun c _ => bigSep_univ_prod _
    _ = _ := bigSep_congr fun c _ => bigSep_congr fun s _ => bigSep_congr fun t _ => (oTrip2_eq d (coordsV0 c s) f t).symm

/-! ## The table and the index block: a read share per SparseCore, and of each one per tile -/

/-- What remains of the table's and the index block's shares while the tiles hold theirs. -/
def Rest2 (d : Dev nD) (X : Buf (Elt F) (xLoc d)) (I : Buf (Elt F) (iLoc2 d)) : sProp 𝕄 :=
  iprop(((xLoc d ↦{shareDrop fullShare 2} X) ∗ bigSep Finset.univ fun c : Fin 2 => xLoc d ↦{shareDrop (shareTok fullShare 2 c) 16} X)
    ∗ ((iLoc2 d ↦{shareDrop fullShare 2} I) ∗ bigSep Finset.univ fun c : Fin 2 => iLoc2 d ↦{shareDrop (shareTok fullShare 2 c) 16} I))

theorem qTile2_coords (c : Fin 2) (s : Fin 16) : qTile2 (coordsV0 c s) = shareTok (shareTok fullShare 2 c) 16 s := rfl

/-- All the tiles' operands: their shares of the table, of the index block, and their windows of the result. -/
theorem tileGo2_tiles (d : Dev nD) (X : Buf (Elt F) (xLoc d)) (I : Buf (Elt F) (iLoc2 d)) (G : Buf (Elt F) (oLoc2 d)) :
    (bigSep Finset.univ fun c : Fin 2 => bigSep Finset.univ fun s : Fin 16 => tileGo2 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc2 d ↦{shareTok (shareTok fullShare 2 c) 16 s} I)
          ∗ bigSep Finset.univ fun c : Fin 2 => bigSep Finset.univ fun s : Fin 16 => bigSep Finset.univ fun t : Fin k2_t1_loop.trips => oTrip2 d (coordsV0 c s) G t) := by
  unfold tileGo2
  simp only [qTile2_coords, bigSep_sep']

/-- All the tiles' results. -/
theorem tileTd2_tiles (d : Dev nD) (X : Buf (Elt F) (xLoc d)) (I : Buf (Elt F) (iLoc2 d)) :
    (bigSep Finset.univ fun c : Fin 2 => bigSep Finset.univ fun s : Fin 16 => tileTd2 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc2 d ↦{shareTok (shareTok fullShare 2 c) 16 s} I)
          ∗ bigSep Finset.univ fun c : Fin 2 => bigSep Finset.univ fun s : Fin 16 => bigSep Finset.univ fun t : Fin k2_t1_loop.trips =>
              oTrip2 d (coordsV0 c s) (gath (F := F) X I) t) := by
  unfold tileTd2
  simp only [qTile2_coords, bigSep_sep']

/-! ## The call's split and join -/

/-- The three arrays held whole split into the 2 × 16 tiles' operands and the remainder of the read shares. -/
theorem callSplit2 (d : Dev nD) (X : Buf (Elt F) (xLoc d)) (I : Buf (Elt F) (iLoc2 d)) (G : Buf (Elt F) (oLoc2 d)) :
    iprop((xLoc d ↦{fullShare} X) ∗ (iLoc2 d ↦{fullShare} I) ∗ (oLoc2 d ↦{fullShare} G))
      ⊢ (iprop(Rest2 d X I ∗ bigSep Finset.univ fun c : Fin 2 => bigSep Finset.univ fun s : Fin 16 => tileGo2 d X I G (coordsV0 c s)) : sProp 𝕄) := by
  rw [tileGo2_tiles, reads_tiles X, reads_tiles I, oPts_tiles2 d G]
  unfold Rest2
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin2 (d : Dev nD) (X : Buf (Elt F) (xLoc d)) (I : Buf (Elt F) (iLoc2 d)) :
    iprop(Rest2 d X I ∗ bigSep Finset.univ fun c : Fin 2 => bigSep Finset.univ fun s : Fin 16 => tileTd2 d X I (coordsV0 c s))
      ⊢ (iprop((xLoc d ↦{fullShare} X) ∗ (iLoc2 d ↦{fullShare} I) ∗ (oLoc2 d ↦{fullShare} gath (F := F) X I)) : sProp 𝕄) := by
  rw [tileTd2_tiles, reads_tiles X, reads_tiles I, oPts_tiles2 d (gath (F := F) X I)]
  unfold Rest2
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 2 carry: every tile's operands. -/
theorem st2_tiles (d : Dev nD) :
    (bigSep Finset.univ fun c : Fin ((K (F := F)).nCore 2) => (P m).st 2 d c)
      = bigSep Finset.univ fun c : Fin 2 => bigSep Finset.univ fun s : Fin 16 => tileGo2 d (Xv m d) (Iv2 m d) (m (oLoc2 d)) (coordsV0 c s) := by
  simp only [P_st, P_go2]
  exact bigSep_congr fun c _ => bigSep_congr fun s _ => rfl
/-- What the two done signals carry back: every tile's results. -/
theorem dn2_tiles (d : Dev nD) :
    (bigSep Finset.univ fun c : Fin ((K (F := F)).nCore 2) => (P m).dn 2 d c)
      = bigSep Finset.univ fun c : Fin 2 => bigSep Finset.univ fun s : Fin 16 => tileTd2 d (Xv m d) (Iv2 m d) (coordsV0 c s) := by
  simp only [P_dn, P_td2]
  exact bigSep_congr fun c _ => bigSep_congr fun s _ => rfl

/-- Before call 2: the table, the index block and the result array as the launch left it, held whole, are what the
    start signals carry and the remainder of the read shares. -/
theorem callSplit2_P (d : Dev nD) :
    iprop((xLoc d ↦{fullShare} Xv m d) ∗ (iLoc2 d ↦{fullShare} Iv2 m d) ∗ (oLoc2 d ↦{fullShare} m (oLoc2 d)))
      ⊢ (iprop(Rest2 d (Xv m d) (Iv2 m d) ∗ bigSep Finset.univ fun c : Fin ((K (F := F)).nCore 2) => (P m).st 2 d c) : sProp 𝕄) := by
  rw [st2_tiles]; exact callSplit2 d _ _ _
/-- After call 2: what the done signals carry back and the remainder are the table and the index block held whole, and
    the result array whole at the gathered array. -/
theorem callJoin2_P (d : Dev nD) :
    iprop(Rest2 d (Xv m d) (Iv2 m d) ∗ bigSep Finset.univ fun c : Fin ((K (F := F)).nCore 2) => (P m).dn 2 d c)
      ⊢ (iprop((xLoc d ↦{fullShare} Xv m d) ∗ (iLoc2 d ↦{fullShare} Iv2 m d) ∗ (oLoc2 d ↦{fullShare} gath (F := F) (Xv m d) (Iv2 m d))) : sProp 𝕄) := by
  rw [dn2_tiles]; exact callJoin2 d _ _

end AtLaunch

end Cert.KernelIdeal.KP

end
-- ==== Proof.KSplit3.lean ====
/-
  Call 3 of the gather kernel, seen from the TensorCore: call 0's split and join over call 3's index block (main_v14)
  and result array (main_v15); the same partition of the result by chunks, the same read shares.
-/
import proofs.«210879_g80607946211848_cont_9to1_m_1212_13_alg».proof.Proof.KSplit0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips3 : k3_t1_loop.trips = 8 := by decide

/-- The chunk trip `t` of tile `L` serves. -/
def chunk3 (L : grid3.Coords) (t : Fin k3_t1_loop.trips) : ℕ := 2 * (L 1).val + (L 0).val + 32 * t.val

/-- A trip is active exactly when its chunk is one of the 250. -/
theorem act3_iff : ∀ (L : grid3.Coords) (t : Fin k3_t1_loop.trips), Act3 L t ↔ 2 * (L 1).val + (L 0).val + 32 * t.val < 250 := by
  decide +kernel

/-- The elements of a 1 × 128 × 128 window of the result at offsets `(j, n, 0)`, squeezed: plane `j`, rows `n … n + 127`. -/
theorem mem_win3 (off : Fin S4x32000x128.rank → ℕ) (inb : ∀ a, off a + S1x128x128.size a ≤ S4x32000x128.size a) (j n : ℕ) (hoff : off = ![j, n, 0])
    (i : S4x32000x128.Idx) :
    i ∈ (((Memref.whole main_v15_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v15_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet3 (L : grid3.Coords) (t : Fin k3_t1_loop.trips) (h : Act3 L t) (j : Fin 4) (i : S4x32000x128.Idx) :
    i ∈ oSet3 L t h j ↔ (i 0).val = j.val ∧ (i 1).val / 128 = chunk3 L t := by
  unfold chunk3
  match j with
  | 0 => exact (mem_win3 _ _ 0 _ (k3_off10_eq L t) i).trans (by constructor <;> intro hh <;> omega)
  | 1 => exact (mem_win3 _ _ 1 _ (k3_off11_eq L t) i).trans (by constructor <;> intro hh <;> omega)
  | 2 => exact (mem_win3 _ _ 2 _ (k3_off12_eq L t) i).trans (by constructor <;> intro hh <;> omega)
  | 3 => exact (mem_win3 _ _ 3 _ (k3_off13_eq L t) i).trans (by constructor <;> intro hh <;> omega)

theorem oSet3_disjoint (L : grid3.Coords) (t : Fin k3_t1_loop.trips) (h : Act3 L t) :
    ∀ j ∈ (Finset.univ : Finset (Fin 4)), ∀ j' ∈ (Finset.univ : Finset (Fin 4)), j ≠ j' → Disjoint (oSet3 L t h j) (oSet3 L t h j') := by
  intro j _ j' _ hne
  refine Finset.disjoint_left.mpr fun i hi hi' => hne (Fin.ext ?_)
  rw [mem_oSet3] at hi hi'
  omega

/-- All the elements trip `t` of tile `L` writes: the four planes' rows of its chunk; none when the trip is idle. -/
def oSetT3 (L : grid3.Coords) (t : Fin k3_t1_loop.trips) : Finset S4x32000x128.Idx :=
  if h : Act3 L t then (Finset.univ : Finset (Fin 4)).biUnion (oSet3 L t h) else ∅

theorem mem_oSetT3 (L : grid3.Coords) (t : Fin k3_t1_loop.trips) (i : S4x32000x128.Idx) :
    i ∈ oSetT3 L t ↔ chunk3 L t < 250 ∧ (i 1).val / 128 = chunk3 L t := by
  have h0 : (i 0).val < 4 := (i 0).isLt
  unfold oSetT3
  split
  · next h =>
    have hc : chunk3 L t < 250 := (act3_iff L t).mp h
    simp only [Finset.mem_biUnion, Finset.mem_univ, true_and, mem_oSet3, hc]
    exact ⟨fun ⟨_, _, e⟩ => e, fun e => ⟨⟨(i 0).val, h0⟩, rfl, e⟩⟩
  · next h =>
    have hc : ¬ chunk3 L t < 250 := fun hc => h ((act3_iff L t).mpr hc)
    simp only [Finset.notMem_empty, hc, false_and]

/-! ## The result array, tile by tile and trip by trip -/

/-- A trip's elements of the result, as one points-to. -/
theorem oTrip3_eq (d : Dev nD) (L : grid3.Coords) (f : Buf (Elt F) (oLoc3 d)) (t : Fin k3_t1_loop.trips) :
    oTrip3 (F := F) d L f t = (oLoc3 d ↦[oSetT3 L t]{fullShare} f : sProp 𝕄) := by
  unfold oTrip3 oSetT3
  split
  · next h =>
    rw [pointsTo_biUnion Finset.univ (ℓ := oLoc3 d) (oSet3 L t h) (oSet3_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip3 : Type := Fin 2 × Fin 16 × Fin k3_t1_loop.trips
/-- What that trip of that tile writes. -/
def oSetX3 (x : TileTrip3) : Finset S4x32000x128.Idx := oSetT3 (coordsV0 x.1 x.2.1) x.2.2

theorem chunk3_coords (c : Fin 2) (s : Fin 16) (t : Fin k3_t1_loop.trips) : chunk3 (coordsV0 c s) t = 2 * s.val + c.val + 32 * t.val := rfl

/-- The chunk number determines tile and trip: `n = 2 s + c + 32 t` with `c < 2`, `s < 16`. -/
theorem oSetX3_disjoint : ∀ x ∈ (Finset.univ : Finset TileTrip3), ∀ x' ∈ (Finset.univ : Finset TileTrip3), x ≠ x' → Disjoint (oSetX3 x) (oSetX3 x') := by
  intro x _ x' _ hne
  refine Finset.disjoint_left.mpr fun i hi hi' => hne ?_
  obtain ⟨c, s, t⟩ := x
  obtain ⟨c', s', t'⟩ := x'
  rw [oSetX3, mem_oSetT3, chunk3_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX3_cover : (Finset.univ : Finset TileTrip3).biUnion oSetX3 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips3]; omega⟩), Finset.mem_univ _, ?_⟩
  rw [oSetX3, mem_oSetT3, chunk3_coords]
  dsimp only
  omega

/-- The whole result array at `f` is every tile's every trip's elements at `f`. -/
theorem oPts_tiles3 (d : Dev nD) (f : Buf (Elt F) (oLoc3 d)) :
    (oLoc3 d ↦{fullShare} f : sProp 𝕄)
      = bigSep Finset.univ fun c : Fin 2 => bigSep Finset.univ fun s : Fin 16 => bigSep Finset.univ fun t : Fin k3_t1_loop.trips => oTrip3 d (coordsV0 c s) f t := by
  calc (oLoc3 d ↦{fullShare} f : sProp 𝕄)
      = (oLoc3 d ↦[(Finset.univ : Finset TileTrip3).biUnion oSetX3]{fullShare} f) := by rw [oSetX3_cover]
    _ = bigSep Finset.univ fun x : TileTrip3 => (oLoc3 d ↦[oSetX3 x]{fullShare} f : sProp 𝕄) := pointsTo_biUnion _ _ oSetX3_disjoint
    _ = bigSep Finset.univ fun c : Fin 2 => bigSep Finset.univ fun st : Fin 16 × Fin k3_t1_loop.trips => (oLoc3 d ↦[oSetX3 (c, st)]{fullShare} f : sProp 𝕄) :=
        bigSep_univ_prod _
    _ = bigSep Finset.univ fun c : Fin 2 => bigSep Finset.univ fun s : Fin 16 => bigSep Finset.univ fun t : Fin k3_t1_loop.trips =>
          (oLoc3 d ↦[oSetX3 (c, s, t)]{fullShare} f : sProp 𝕄) := bigSep_congr fun c _ => bigSep_univ_prod _
    _ = _ := bigSep_congr fun c _ => bigSep_congr fun s _ => bigSep_congr fun t _ => (oTrip3_eq d (coordsV0 c s) f t).symm

/-! ## The table and the index block: a read share per SparseCore, and of each one per tile -/

/-- What remains of the table's and the index block's shares while the tiles hold theirs. -/
def Rest3 (d : Dev nD) (X : Buf (Elt F) (xLoc d)) (I : Buf (Elt F) (iLoc3 d)) : sProp 𝕄 :=
  iprop(((xLoc d ↦{shareDrop fullShare 2} X) ∗ bigSep Finset.univ fun c : Fin 2 => xLoc d ↦{shareDrop (shareTok fullShare 2 c) 16} X)
    ∗ ((iLoc3 d ↦{shareDrop fullShare 2} I) ∗ bigSep Finset.univ fun c : Fin 2 => iLoc3 d ↦{shareDrop (shareTok fullShare 2 c) 16} I))

theorem qTile3_coords (c : Fin 2) (s : Fin 16) : qTile3 (coordsV0 c s) = shareTok (shareTok fullShare 2 c) 16 s := rfl

/-- All the tiles' operands: their shares of the table, of the index block, and their windows of the result. -/
theorem tileGo3_tiles (d : Dev nD) (X : Buf (Elt F) (xLoc d)) (I : Buf (Elt F) (iLoc3 d)) (G : Buf (Elt F) (oLoc3 d)) :
    (bigSep Finset.univ fun c : Fin 2 => bigSep Finset.univ fun s : Fin 16 => tileGo3 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc3 d ↦{shareTok (shareTok fullShare 2 c) 16 s} I)
          ∗ bigSep Finset.univ fun c : Fin 2 => bigSep Finset.univ fun s : Fin 16 => bigSep Finset.univ fun t : Fin k3_t1_loop.trips => oTrip3 d (coordsV0 c s) G t) := by
  unfold tileGo3
  simp only [qTile3_coords, bigSep_sep']

/-- All the tiles' results. -/
theorem tileTd3_tiles (d : Dev nD) (X : Buf (Elt F) (xLoc d)) (I : Buf (Elt F) (iLoc3 d)) :
    (bigSep Finset.univ fun c : Fin 2 => bigSep Finset.univ fun s : Fin 16 => tileTd3 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc3 d ↦{shareTok (shareTok fullShare 2 c) 16 s} I)
          ∗ bigSep Finset.univ fun c : Fin 2 => bigSep Finset.univ fun s : Fin 16 => bigSep Finset.univ fun t : Fin k3_t1_loop.trips =>
              oTrip3 d (coordsV0 c s) (gath (F := F) X I) t) := by
  unfold tileTd3
  simp only [qTile3_coords, bigSep_sep']

/-! ## The call's split and join -/

/-- The three arrays held whole split into the 2 × 16 tiles' operands and the remainder of the read shares. -/
theorem callSplit3 (d : Dev nD) (X : Buf (Elt F) (xLoc d)) (I : Buf (Elt F) (iLoc3 d)) (G : Buf (Elt F) (oLoc3 d)) :
    iprop((xLoc d ↦{fullShare} X) ∗ (iLoc3 d ↦{fullShare} I) ∗ (oLoc3 d ↦{fullShare} G))
      ⊢ (iprop(Rest3 d X I ∗ bigSep Finset.univ fun c : Fin 2 => bigSep Finset.univ fun s : Fin 16 => tileGo3 d X I G (coordsV0 c s)) : sProp 𝕄) := by
  rw [tileGo3_tiles, reads_tiles X, reads_tiles I, oPts_tiles3 d G]
  unfold Rest3
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin3 (d : Dev nD) (X : Buf (Elt F) (xLoc d)) (I : Buf (Elt F) (iLoc3 d)) :
    iprop(Rest3 d X I ∗ bigSep Finset.univ fun c : Fin 2 => bigSep Finset.univ fun s : Fin 16 => tileTd3 d X I (coordsV0 c s))
      ⊢ (iprop((xLoc d ↦{fullShare} X) ∗ (iLoc3 d ↦{fullShare} I) ∗ (oLoc3 d ↦{fullShare} gath (F := F) X I)) : sProp 𝕄) := by
  rw [tileTd3_tiles, reads_tiles X, reads_tiles I, oPts_tiles3 d (gath (F := F) X I)]
  unfold Rest3
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 3 carry: every tile's operands. -/
theorem st3_tiles (d : Dev nD) :
    (bigSep Finset.univ fun c : Fin ((K (F := F)).nCore 3) => (P m).st 3 d c)
      = bigSep Finset.univ fun c : Fin 2 => bigSep Finset.univ fun s : Fin 16 => tileGo3 d (Xv m d) (Iv3 m d) (m (oLoc3 d)) (coordsV0 c s) := by
  simp only [P_st, P_go3]
  exact bigSep_congr fun c _ => bigSep_congr fun s _ => rfl
/-- What the two done signals carry back: every tile's results. -/
theorem dn3_tiles (d : Dev nD) :
    (bigSep Finset.univ fun c : Fin ((K (F := F)).nCore 3) => (P m).dn 3 d c)
      = bigSep Finset.univ fun c : Fin 2 => bigSep Finset.univ fun s : Fin 16 => tileTd3 d (Xv m d) (Iv3 m d) (coordsV0 c s) := by
  simp only [P_dn, P_td3]
  exact bigSep_congr fun c _ => bigSep_congr fun s _ => rfl

/-- Before call 3: the table, the index block and the result array as the launch left it, held whole, are what the
    start signals carry and the remainder of the read shares. -/
theorem callSplit3_P (d : Dev nD) :
    iprop((xLoc d ↦{fullShare} Xv m d) ∗ (iLoc3 d ↦{fullShare} Iv3 m d) ∗ (oLoc3 d ↦{fullShare} m (oLoc3 d)))
      ⊢ (iprop(Rest3 d (Xv m d) (Iv3 m d) ∗ bigSep Finset.univ fun c : Fin ((K (F := F)).nCore 3) => (P m).st 3 d c) : sProp 𝕄) := by
  rw [st3_tiles]; exact callSplit3 d _ _ _
/-- After call 3: what the done signals carry back and the remainder are the table and the index block held whole, and
    the result array whole at the gathered array. -/
theorem callJoin3_P (d : Dev nD) :
    iprop(Rest3 d (Xv m d) (Iv3 m d) ∗ bigSep Finset.univ fun c : Fin ((K (F := F)).nCore 3) => (P m).dn 3 d c)
      ⊢ (iprop((xLoc d ↦{fullShare} Xv m d) ∗ (iLoc3 d ↦{fullShare} Iv3 m d) ∗ (oLoc3 d ↦{fullShare} gath (F := F) (Xv m d) (Iv3 m d))) : sProp 𝕄) := by
  rw [dn3_tiles]; exact callJoin3 d _ _

end AtLaunch

end Cert.KernelIdeal.KP

end
-- ==== Proof.KSplit4.lean ====
/-
  Call 4 of the gather kernel, seen from the TensorCore: call 0's split and join over call 4's index block (main_v16)
  and result array (main_v17); the same partition of the result by chunks, the same read shares.
-/
import proofs.«210879_g80607946211848_cont_9to1_m_1212_13_alg».proof.Proof.KSplit0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips4 : k4_t1_loop.trips = 8 := by decide

/-- The chunk trip `t` of tile `L` serves. -/
def chunk4 (L : grid4.Coords) (t : Fin k4_t1_loop.trips) : ℕ := 2 * (L 1).val + (L 0).val + 32 * t.val

/-- A trip is active exactly when its chunk is one of the 250. -/
theorem act4_iff : ∀ (L : grid4.Coords) (t : Fin k4_t1_loop.trips), Act4 L t ↔ 2 * (L 1).val + (L 0).val + 32 * t.val < 250 := by
  decide +kernel

/-- The elements of a 1 × 128 × 128 window of the result at offsets `(j, n, 0)`, squeezed: plane `j`, rows `n … n + 127`. -/
theorem mem_win4 (off : Fin S4x32000x128.rank → ℕ) (inb : ∀ a, off a + S1x128x128.size a ≤ S4x32000x128.size a) (j n : ℕ) (hoff : off = ![j, n, 0])
    (i : S4x32000x128.Idx) :
    i ∈ (((Memref.whole main_v17_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v17_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet4 (L : grid4.Coords) (t : Fin k4_t1_loop.trips) (h : Act4 L t) (j : Fin 4) (i : S4x32000x128.Idx) :
    i ∈ oSet4 L t h j ↔ (i 0).val = j.val ∧ (i 1).val / 128 = chunk4 L t := by
  unfold chunk4
  match j with
  | 0 => exact (mem_win4 _ _ 0 _ (k4_off10_eq L t) i).trans (by constructor <;> intro hh <;> omega)
  | 1 => exact (mem_win4 _ _ 1 _ (k4_off11_eq L t) i).trans (by constructor <;> intro hh <;> omega)
  | 2 => exact (mem_win4 _ _ 2 _ (k4_off12_eq L t) i).trans (by constructor <;> intro hh <;> omega)
  | 3 => exact (mem_win4 _ _ 3 _ (k4_off13_eq L t) i).trans (by constructor <;> intro hh <;> omega)

theorem oSet4_disjoint (L : grid4.Coords) (t : Fin k4_t1_loop.trips) (h : Act4 L t) :
    ∀ j ∈ (Finset.univ : Finset (Fin 4)), ∀ j' ∈ (Finset.univ : Finset (Fin 4)), j ≠ j' → Disjoint (oSet4 L t h j) (oSet4 L t h j') := by
  intro j _ j' _ hne
  refine Finset.disjoint_left.mpr fun i hi hi' => hne (Fin.ext ?_)
  rw [mem_oSet4] at hi hi'
  omega

/-- All the elements trip `t` of tile `L` writes: the four planes' rows of its chunk; none when the trip is idle. -/
def oSetT4 (L : grid4.Coords) (t : Fin k4_t1_loop.trips) : Finset S4x32000x128.Idx :=
  if h : Act4 L t then (Finset.univ : Finset (Fin 4)).biUnion (oSet4 L t h) else ∅

theorem mem_oSetT4 (L : grid4.Coords) (t : Fin k4_t1_loop.trips) (i : S4x32000x128.Idx) :
    i ∈ oSetT4 L t ↔ chunk4 L t < 250 ∧ (i 1).val / 128 = chunk4 L t := by
  have h0 : (i 0).val < 4 := (i 0).isLt
  unfold oSetT4
  split
  · next h =>
    have hc : chunk4 L t < 250 := (act4_iff L t).mp h
    simp only [Finset.mem_biUnion, Finset.mem_univ, true_and, mem_oSet4, hc]
    exact ⟨fun ⟨_, _, e⟩ => e, fun e => ⟨⟨(i 0).val, h0⟩, rfl, e⟩⟩
  · next h =>
    have hc : ¬ chunk4 L t < 250 := fun hc => h ((act4_iff L t).mpr hc)
    simp only [Finset.notMem_empty, hc, false_and]

/-! ## The result array, tile by tile and trip by trip -/

/-- A trip's elements of the result, as one points-to. -/
theorem oTrip4_eq (d : Dev nD) (L : grid4.Coords) (f : Buf (Elt F) (oLoc4 d)) (t : Fin k4_t1_loop.trips) :
    oTrip4 (F := F) d L f t = (oLoc4 d ↦[oSetT4 L t]{fullShare} f : sProp 𝕄) := by
  unfold oTrip4 oSetT4
  split
  · next h =>
    rw [pointsTo_biUnion Finset.univ (ℓ := oLoc4 d) (oSet4 L t h) (oSet4_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip4 : Type := Fin 2 × Fin 16 × Fin k4_t1_loop.trips
/-- What that trip of that tile writes. -/
def oSetX4 (x : TileTrip4) : Finset S4x32000x128.Idx := oSetT4 (coordsV0 x.1 x.2.1) x.2.2

theorem chunk4_coords (c : Fin 2) (s : Fin 16) (t : Fin k4_t1_loop.trips) : chunk4 (coordsV0 c s) t = 2 * s.val + c.val + 32 * t.val := rfl

/-- The chunk number determines tile and trip: `n = 2 s + c + 32 t` with `c < 2`, `s < 16`. -/
theorem oSetX4_disjoint : ∀ x ∈ (Finset.univ : Finset TileTrip4), ∀ x' ∈ (Finset.univ : Finset TileTrip4), x ≠ x' → Disjoint (oSetX4 x) (oSetX4 x') := by
  intro x _ x' _ hne
  refine Finset.disjoint_left.mpr fun i hi hi' => hne ?_
  obtain ⟨c, s, t⟩ := x
  obtain ⟨c', s', t'⟩ := x'
  rw [oSetX4, mem_oSetT4, chunk4_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX4_cover : (Finset.univ : Finset TileTrip4).biUnion oSetX4 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips4]; omega⟩), Finset.mem_univ _, ?_⟩
  rw [oSetX4, mem_oSetT4, chunk4_coords]
  dsimp only
  omega

/-- The whole result array at `f` is every tile's every trip's elements at `f`. -/
theorem oPts_tiles4 (d : Dev nD) (f : Buf (Elt F) (oLoc4 d)) :
    (oLoc4 d ↦{fullShare} f : sProp 𝕄)
      = bigSep Finset.univ fun c : Fin 2 => bigSep Finset.univ fun s : Fin 16 => bigSep Finset.univ fun t : Fin k4_t1_loop.trips => oTrip4 d (coordsV0 c s) f t := by
  calc (oLoc4 d ↦{fullShare} f : sProp 𝕄)
      = (oLoc4 d ↦[(Finset.univ : Finset TileTrip4).biUnion oSetX4]{fullShare} f) := by rw [oSetX4_cover]
    _ = bigSep Finset.univ fun x : TileTrip4 => (oLoc4 d ↦[oSetX4 x]{fullShare} f : sProp 𝕄) := pointsTo_biUnion _ _ oSetX4_disjoint
    _ = bigSep Finset.univ fun c : Fin 2 => bigSep Finset.univ fun st : Fin 16 × Fin k4_t1_loop.trips => (oLoc4 d ↦[oSetX4 (c, st)]{fullShare} f : sProp 𝕄) :=
        bigSep_univ_prod _
    _ = bigSep Finset.univ fun c : Fin 2 => bigSep Finset.univ fun s : Fin 16 => bigSep Finset.univ fun t : Fin k4_t1_loop.trips =>
          (oLoc4 d ↦[oSetX4 (c, s, t)]{fullShare} f : sProp 𝕄) := bigSep_congr fun c _ => bigSep_univ_prod _
    _ = _ := bigSep_congr fun c _ => bigSep_congr fun s _ => bigSep_congr fun t _ => (oTrip4_eq d (coordsV0 c s) f t).symm

/-! ## The table and the index block: a read share per SparseCore, and of each one per tile -/

/-- What remains of the table's and the index block's shares while the tiles hold theirs. -/
def Rest4 (d : Dev nD) (X : Buf (Elt F) (xLoc d)) (I : Buf (Elt F) (iLoc4 d)) : sProp 𝕄 :=
  iprop(((xLoc d ↦{shareDrop fullShare 2} X) ∗ bigSep Finset.univ fun c : Fin 2 => xLoc d ↦{shareDrop (shareTok fullShare 2 c) 16} X)
    ∗ ((iLoc4 d ↦{shareDrop fullShare 2} I) ∗ bigSep Finset.univ fun c : Fin 2 => iLoc4 d ↦{shareDrop (shareTok fullShare 2 c) 16} I))

theorem qTile4_coords (c : Fin 2) (s : Fin 16) : qTile4 (coordsV0 c s) = shareTok (shareTok fullShare 2 c) 16 s := rfl

/-- All the tiles' operands: their shares of the table, of the index block, and their windows of the result. -/
theorem tileGo4_tiles (d : Dev nD) (X : Buf (Elt F) (xLoc d)) (I : Buf (Elt F) (iLoc4 d)) (G : Buf (Elt F) (oLoc4 d)) :
    (bigSep Finset.univ fun c : Fin 2 => bigSep Finset.univ fun s : Fin 16 => tileGo4 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc4 d ↦{shareTok (shareTok fullShare 2 c) 16 s} I)
          ∗ bigSep Finset.univ fun c : Fin 2 => bigSep Finset.univ fun s : Fin 16 => bigSep Finset.univ fun t : Fin k4_t1_loop.trips => oTrip4 d (coordsV0 c s) G t) := by
  unfold tileGo4
  simp only [qTile4_coords, bigSep_sep']

/-- All the tiles' results. -/
theorem tileTd4_tiles (d : Dev nD) (X : Buf (Elt F) (xLoc d)) (I : Buf (Elt F) (iLoc4 d)) :
    (bigSep Finset.univ fun c : Fin 2 => bigSep Finset.univ fun s : Fin 16 => tileTd4 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc4 d ↦{shareTok (shareTok fullShare 2 c) 16 s} I)
          ∗ bigSep Finset.univ fun c : Fin 2 => bigSep Finset.univ fun s : Fin 16 => bigSep Finset.univ fun t : Fin k4_t1_loop.trips =>
              oTrip4 d (coordsV0 c s) (gath (F := F) X I) t) := by
  unfold tileTd4
  simp only [qTile4_coords, bigSep_sep']

/-! ## The call's split and join -/

/-- The three arrays held whole split into the 2 × 16 tiles' operands and the remainder of the read shares. -/
theorem callSplit4 (d : Dev nD) (X : Buf (Elt F) (xLoc d)) (I : Buf (Elt F) (iLoc4 d)) (G : Buf (Elt F) (oLoc4 d)) :
    iprop((xLoc d ↦{fullShare} X) ∗ (iLoc4 d ↦{fullShare} I) ∗ (oLoc4 d ↦{fullShare} G))
      ⊢ (iprop(Rest4 d X I ∗ bigSep Finset.univ fun c : Fin 2 => bigSep Finset.univ fun s : Fin 16 => tileGo4 d X I G (coordsV0 c s)) : sProp 𝕄) := by
  rw [tileGo4_tiles, reads_tiles X, reads_tiles I, oPts_tiles4 d G]
  unfold Rest4
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin4 (d : Dev nD) (X : Buf (Elt F) (xLoc d)) (I : Buf (Elt F) (iLoc4 d)) :
    iprop(Rest4 d X I ∗ bigSep Finset.univ fun c : Fin 2 => bigSep Finset.univ fun s : Fin 16 => tileTd4 d X I (coordsV0 c s))
      ⊢ (iprop((xLoc d ↦{fullShare} X) ∗ (iLoc4 d ↦{fullShare} I) ∗ (oLoc4 d ↦{fullShare} gath (F := F) X I)) : sProp 𝕄) := by
  rw [tileTd4_tiles, reads_tiles X, reads_tiles I, oPts_tiles4 d (gath (F := F) X I)]
  unfold Rest4
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 4 carry: every tile's operands. -/
theorem st4_tiles (d : Dev nD) :
    (bigSep Finset.univ fun c : Fin ((K (F := F)).nCore 4) => (P m).st 4 d c)
      = bigSep Finset.univ fun c : Fin 2 => bigSep Finset.univ fun s : Fin 16 => tileGo4 d (Xv m d) (Iv4 m d) (m (oLoc4 d)) (coordsV0 c s) := by
  simp only [P_st, P_go4]
  exact bigSep_congr fun c _ => bigSep_congr fun s _ => rfl
/-- What the two done signals carry back: every tile's results. -/
theorem dn4_tiles (d : Dev nD) :
    (bigSep Finset.univ fun c : Fin ((K (F := F)).nCore 4) => (P m).dn 4 d c)
      = bigSep Finset.univ fun c : Fin 2 => bigSep Finset.univ fun s : Fin 16 => tileTd4 d (Xv m d) (Iv4 m d) (coordsV0 c s) := by
  simp only [P_dn, P_td4]
  exact bigSep_congr fun c _ => bigSep_congr fun s _ => rfl

/-- Before call 4: the table, the index block and the result array as the launch left it, held whole, are what the
    start signals carry and the remainder of the read shares. -/
theorem callSplit4_P (d : Dev nD) :
    iprop((xLoc d ↦{fullShare} Xv m d) ∗ (iLoc4 d ↦{fullShare} Iv4 m d) ∗ (oLoc4 d ↦{fullShare} m (oLoc4 d)))
      ⊢ (iprop(Rest4 d (Xv m d) (Iv4 m d) ∗ bigSep Finset.univ fun c : Fin ((K (F := F)).nCore 4) => (P m).st 4 d c) : sProp 𝕄) := by
  rw [st4_tiles]; exact callSplit4 d _ _ _
/-- After call 4: what the done signals carry back and the remainder are the table and the index block held whole, and
    the result array whole at the gathered array. -/
theorem callJoin4_P (d : Dev nD) :
    iprop(Rest4 d (Xv m d) (Iv4 m d) ∗ bigSep Finset.univ fun c : Fin ((K (F := F)).nCore 4) => (P m).dn 4 d c)
      ⊢ (iprop((xLoc d ↦{fullShare} Xv m d) ∗ (iLoc4 d ↦{fullShare} Iv4 m d) ∗ (oLoc4 d ↦{fullShare} gath (F := F) (Xv m d) (Iv4 m d))) : sProp 𝕄) := by
  rw [dn4_tiles]; exact callJoin4 d _ _

end AtLaunch

end Cert.KernelIdeal.KP

end
-- ==== Proof.PreRange.lean ====
/-
  The precondition opened: where the input-domain function is all ones, every neighbour id, read as a natural
  number, is below 160000. The function's last conjunct is the conjunction over all entries of
  `0 ≤ ge` and `ge ≤ 159999`, both signed; a 32-bit word that is nonnegative read signed is its natural value.
-/
import proofs.«210879_g80607946211848_cont_9to1_m_1212_13_alg».proof.Pre_input_domain
import proofs.«210879_g80607946211848_cont_9to1_m_1212_13_alg».proof.Proof.Gen.Pre_input_domain
import Idealize.ShloMosaic.Lib.ReduceAll
import Idealize.ShloMosaic.Lib.ValueIdx

namespace Cert.PreRange

open Idealize.ShloMosaic Cert.Pre_input_domain Cert.Pre_input_domain.Gen

variable {F : FTy → Type} [FloatOps F]

instance : Subsingleton S_.Idx := ⟨fun a b => funext fun d => d.elim0⟩

/-- A 32-bit word between 0 and 159999 read signed is below 160000 read as a natural number. -/
theorem toNat_lt_of_toInt (v : BitVec 32) (h0 : 0 ≤ v.toInt) (h1 : v.toInt ≤ 159999) : v.toNat < 160000 := by
  have hlt := v.isLt
  rw [BitVec.toInt_eq_toNat_cond] at h0 h1
  split_ifs at h0 h1 with hc
  · omega
  · omega

/-- Under the precondition every neighbour id is in `[0, 159999]` read signed. -/
theorem ge_bounds (x : FVec F S1x128x160000 .f32) (ge : IVec S1x160000x4 32) (w : FVec F S128x128x1x5 .f32)
    (b : FVec F S128 .f32) (h : Cert.Pre_input_domain.fn (F := F) x ge w b = fun _ => 1#1) (i : S1x160000x4.Idx) :
    0 ≤ (ge i).toInt ∧ (ge i).toInt ≤ 159999 := by
  have h0 := congrFun h ValueIdx.ix0
  dsimp only [Cert.Pre_input_domain.fn, Cert.Pre_input_domain.fn_part1] at h0
  have h1 := (IntOp.andi_eq_one.1 h0).2
  have h2 := Host.reduce_andi_all _ _ _ _ _ h1 i
  have h3 := IntOp.andi_eq_one.1 h2
  have hge := IntOp.cmpi_sge.1 h3.1
  have hle := IntOp.cmpi_sle.1 h3.2
  refine ⟨?_, ?_⟩
  · have : (0#32 : BitVec 32).toInt = 0 := by decide
    exact this ▸ hge
  · have : (159999#32 : BitVec 32).toInt = 159999 := by decide
    exact this ▸ hle

/-- Under the precondition every neighbour id, read as a natural number, is below 160000. -/
theorem ge_range (x : FVec F S1x128x160000 .f32) (ge : IVec S1x160000x4 32) (w : FVec F S128x128x1x5 .f32)
    (b : FVec F S128 .f32) (h : Cert.Pre_input_domain.fn (F := F) x ge w b = fun _ => 1#1) :
    ∀ i : S1x160000x4.Idx, (ge i).toNat < 160000 := fun i =>
  toNat_lt_of_toInt (ge i) (ge_bounds x ge w b h i).1 (ge_bounds x ge w b h i).2

end Cert.PreRange
-- ==== Proof.KPre.lean ====
/-
  The row ids the gather calls read are in range.  Each entry of an index block is an entry of the second argument
  (reshapes, a transpose and a slice only re-index), so a bound on every entry of the argument bounds every entry of
  every block; and the precondition function is all ones only where every entry of the second argument is below 160000.
-/
import proofs.«210879_g80607946211848_cont_9to1_m_1212_13_alg».proof.Proof.KPay
import proofs.«210879_g80607946211848_cont_9to1_m_1212_13_alg».proof.Proof.PreRange

noncomputable section

namespace Cert.KernelIdeal.KP

open Cert.KernelIdeal Cert.KernelIdeal.Gen

open Idealize.ShloMosaic
open Idealize.ShloMosaic.SparseCore (S V T)

variable {F : FTy → Type}

variable (m : (ℓ : Loc nD τ sig) → Buf (Elt F) ℓ)

/-- Every entry of the second argument on device `d`, read as a natural number, is a row of the table. -/
def ArgInRange (d : Dev nD) : Prop := ∀ j : S1x160000x4.Idx, (m (a1Loc d) j).toNat < 160000

/-! Every entry of an index block is an entry of the second argument. -/

theorem Iv0_in (d : Dev nD) (h : ArgInRange m d) : ∀ i, ((Iv0 m d) i).toNat < 160000 := fun _ => h _
theorem Iv1_in (d : Dev nD) (h : ArgInRange m d) : ∀ i, ((Iv1 m d) i).toNat < 160000 := fun _ => h _
theorem Iv2_in (d : Dev nD) (h : ArgInRange m d) : ∀ i, ((Iv2 m d) i).toNat < 160000 := fun _ => h _
theorem Iv3_in (d : Dev nD) (h : ArgInRange m d) : ∀ i, ((Iv3 m d) i).toNat < 160000 := fun _ => h _
theorem Iv4_in (d : Dev nD) (h : ArgInRange m d) : ∀ i, ((Iv4 m d) i).toNat < 160000 := fun _ => h _

/-! ## From the precondition -/

section FromPre

variable [FloatOps F] [Cert.Pre_input_domain.Facts]

/-- The precondition function, all ones on the launch memory's arguments of device `d`, bounds the second argument. -/
theorem argInRange_of_fn (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ArgInRange m d :=
  Cert.PreRange.ge_range _ _ _ _ h

theorem iv_range0 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv0 m d) i).toNat < 160000 := Iv0_in m d (argInRange_of_fn m d h)
theorem iv_range1 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv1 m d) i).toNat < 160000 := Iv1_in m d (argInRange_of_fn m d h)
theorem iv_range2 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv2 m d) i).toNat < 160000 := Iv2_in m d (argInRange_of_fn m d h)
theorem iv_range3 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv3 m d) i).toNat < 160000 := Iv3_in m d (argInRange_of_fn m d h)
theorem iv_range4 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv4 m d) i).toNat < 160000 := Iv4_in m d (argInRange_of_fn m d h)

/-- The same on every device at once, as the tiles' obligations take it: from the precondition on every device
    (the certificate's `Pre_` is exactly this family of equations, device by device). -/
theorem iv_range_all
    (h : ∀ d : Dev nD, Cert.Pre_input_domain.fn (F := F) (m ((d.tc : Thread nD τ).loc main_arg0)) (m ((d.tc : Thread nD τ).loc main_arg1))
        (m ((d.tc : Thread nD τ).loc main_arg2)) (m ((d.tc : Thread nD τ).loc main_arg3)) = fun _ => 1#1) :
    (∀ (d : Dev nD) i, ((Iv0 m d) i).toNat < 160000) ∧ (∀ (d : Dev nD) i, ((Iv1 m d) i).toNat < 160000)
      ∧ (∀ (d : Dev nD) i, ((Iv2 m d) i).toNat < 160000) ∧ (∀ (d : Dev nD) i, ((Iv3 m d) i).toNat < 160000)
      ∧ (∀ (d : Dev nD) i, ((Iv4 m d) i).toNat < 160000) :=
  ⟨fun d => iv_range0 m d (h d), fun d => iv_range1 m d (h d), fun d => iv_range2 m d (h d), fun d => iv_range3 m d (h d),
    fun d => iv_range4 m d (h d)⟩

end FromPre

end Cert.KernelIdeal.KP

end
-- ==== Proof.KAssemble.lean ====
/-
  The launch theorem's hypotheses put together: how each gather call's three arrays split among the tiles and join
  again, the tiles' obligations from their bodies' theorems and the index ranges the precondition gives, and with the
  five regions the program's run and its frame.
-/
import proofs.«210879_g80607946211848_cont_9to1_m_1212_13_alg».proof.Proof.KRun
import proofs.«210879_g80607946211848_cont_9to1_m_1212_13_alg».proof.Proof.KSplit0
import proofs.«210879_g80607946211848_cont_9to1_m_1212_13_alg».proof.Proof.KSplit1
import proofs.«210879_g80607946211848_cont_9to1_m_1212_13_alg».proof.Proof.KSplit2
import proofs.«210879_g80607946211848_cont_9to1_m_1212_13_alg».proof.Proof.KSplit3
import proofs.«210879_g80607946211848_cont_9to1_m_1212_13_alg».proof.Proof.KSplit4
import proofs.«210879_g80607946211848_cont_9to1_m_1212_13_alg».proof.Proof.KPre

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 5) (Elt F) ℕ UU ℕ

variable (m : (ℓ : Loc nD τ sig) → Buf (Elt F) ℓ) (ρ : Dev nD → PrngReg)

/-- What is left of the table's and of a call's index block's shares while the call's tiles hold theirs. -/
def restOf (q : Fin 5) (d : Dev nD) : sProp 𝕄 :=
  match q with
  | 0 => Rest0 d (Xv m d) (Iv0 m d)
  | 1 => Rest1 d (Xv m d) (Iv1 m d)
  | 2 => Rest2 d (Xv m d) (Iv2 m d)
  | 3 => Rest3 d (Xv m d) (Iv3 m d)
  | 4 => Rest4 d (Xv m d) (Iv4 m d)

/-- The five calls' splits and joins. -/
def callsOf : Calls m where
  R := restOf m
  split0 := callSplit0_P m
  join0 := callJoin0_P m
  split1 := callSplit1_P m
  join1 := callJoin1_P m
  split2 := callSplit2_P m
  join2 := callJoin2_P m
  split3 := callSplit3_P m
  join3 := callJoin3_P m
  split4 := callSplit4_P m
  join4 := callJoin4_P m

/-- The tiles' obligations for the five calls, from the bodies' theorems and the index blocks' ranges. -/
theorem tilesOf (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    ∀ q : Fin 5, (K (F := F)).TileObl (D (F := F)) 𝒱 (P m) v₀ q
  | 0 => tileObl0 m hb0 facts hin0
  | 1 => tileObl1 m hb1 facts hin1
  | 2 => tileObl2 m hb2 facts hin2
  | 3 => tileObl3 m hb3 facts hin3
  | 4 => tileObl4 m hb4 facts hin4

/-- The program's run: on every device the result is `KOut` and the arguments are unchanged. -/
theorem run_ki [∀ e, Nonempty (Elt F e)] (hr : Regions (P m))
    (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    θ_run (Cert.KernelIdeal.defs (F := F)) (Cert.KernelIdeal.threads (F := F)) ⟨m, fun _ => 0, ρ⟩ (QC m hr) :=
  run_main m ρ (callsOf m) hr (tilesOf m hb0 hb1 hb2 hb3 hb4 hin0 hin1 hin2 hin3 hin4)

end Cert.KernelIdeal.KP

namespace Cert.KernelIdeal.KP

open Cert.KernelIdeal Cert.KernelIdeal.Gen
open Idealize.ShloMosaic Idealize.SL.Sem
open Idealize.ShloMosaic.SparseCore.Cfg (HIx Pay)

/-- `Cert.frame_KernelIdeal` from the five regions and the five bodies' theorems. -/
theorem frame_KernelIdeal_of (hr : ∀ m : (ℓ : Loc nD τ sig) → Buf (Elt Ideal) ℓ, Regions (P (F := Ideal) m))
    (hb0 : TileBody0 (F := Ideal)) (hb1 : TileBody1 (F := Ideal)) (hb2 : TileBody2 (F := Ideal)) (hb3 : TileBody3 (F := Ideal)) (hb4 : TileBody4 (F := Ideal)) :
    Cert.frame_KernelIdeal :=
  frame_ki (fun m _ => callsOf m) (fun m _ => hr m) fun m hpre =>
    have h := iv_range_all (F := Ideal) m hpre
    tilesOf m hb0 hb1 hb2 hb3 hb4 h.1 h.2.1 h.2.2.1 h.2.2.2.1 h.2.2.2.2

end Cert.KernelIdeal.KP

end
-- ==== Proof.KConvBody.lean ====
/-
  The five TensorCore convolution bodies, each at a symbolic grid point: what the body leaves in the output window's
  staging buffer, as a pure function of the blocks it finds in the four input windows' buffers (the skeleton's
  payload terms), and the body's triple.
-/
import proofs.«210879_g80607946211848_cont_9to1_m_1212_13_alg».proof.Proof.KSetup
import proofs.«210879_g80607946211848_cont_9to1_m_1212_13_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 5) (Elt F) ℕ UU ℕ

/-! ## The rectangles the bodies load and store through -/

/-- The whole [128,3200] block (the x window's buffer, and the output window's). -/
abbrev rX : Rect S128x3200 := Rect.unit (s := S128x3200) ![0, 0] S128x3200.size inb_S128x3200_S128x3200_0_0
/-- Plane j of the [4,3200,128] gathered block. -/
abbrev rG0 : Rect S4x3200x128 := Rect.unit (s := S4x3200x128) ![0, 0, 0] S1x3200x128.size inb_S4x3200x128_S1x3200x128_0_0_0
abbrev rG1 : Rect S4x3200x128 := Rect.unit (s := S4x3200x128) ![1, 0, 0] S1x3200x128.size inb_S4x3200x128_S1x3200x128_1_0_0
abbrev rG2 : Rect S4x3200x128 := Rect.unit (s := S4x3200x128) ![2, 0, 0] S1x3200x128.size inb_S4x3200x128_S1x3200x128_2_0_0
abbrev rG3 : Rect S4x3200x128 := Rect.unit (s := S4x3200x128) ![3, 0, 0] S1x3200x128.size inb_S4x3200x128_S1x3200x128_3_0_0
/-- Plane k of the [5,128,128] weights. -/
abbrev rW0 : Rect S5x128x128 := Rect.unit (s := S5x128x128) ![0, 0, 0] S1x128x128.size inb_S5x128x128_S1x128x128_0_0_0
abbrev rW1 : Rect S5x128x128 := Rect.unit (s := S5x128x128) ![1, 0, 0] S1x128x128.size inb_S5x128x128_S1x128x128_1_0_0
abbrev rW2 : Rect S5x128x128 := Rect.unit (s := S5x128x128) ![2, 0, 0] S1x128x128.size inb_S5x128x128_S1x128x128_2_0_0
abbrev rW3 : Rect S5x128x128 := Rect.unit (s := S5x128x128) ![3, 0, 0] S1x128x128.size inb_S5x128x128_S1x128x128_3_0_0
abbrev rW4 : Rect S5x128x128 := Rect.unit (s := S5x128x128) ![4, 0, 0] S1x128x128.size inb_S5x128x128_S1x128x128_4_0_0
/-- The whole [128,1] bias. -/
abbrev rB : Rect S128x1 := Rect.unit (s := S128x1) ![0, 0] S128x1.size inb_S128x1_S128x1_0_0

/-- One store of the whole block covers the block. -/
theorem coverX (p0 : Vec F S128x3200 .f32) (y : S128x3200.Idx) :
    ∃ pc ∈ ([⟨rX, p0⟩] : List (View.Piece (Elt F) S128x3200 .f32)), y ∈ pc.1.set :=
  View.cover_of_tiled [⟨rX, p0⟩] S128x3200.size (by rfl) y

/-! ## Body 5 -/

/-- What body 5 leaves in the output window's buffer, from the blocks in the x, gather, weight and bias windows'
    buffers: its one store of the whole block, the payload the skeleton's. -/
def out5 (x0 : Vec F S128x3200 .f32) (x1 : Vec F S4x3200x128 .f32) (x2 : Vec F S5x128x128 .f32) (x3 : Vec F S128x1 .f32) : Vec F S128x3200 .f32 :=
  View.canon [⟨rX, k5_pay1 (k5_pay2 (View.ld x1 rG1)) (k5_pay3 (View.ld x1 rG3))
    (k5_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 5 on whole staging memrefs, the four inputs' at read contents and the output's at anything, runs to the
    continuation holding the inputs' as they were and the output's at `out5` of them. -/
theorem sound_kernel5 (c : Dev nD) (E : Set ℕ) (i : grid5.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .vmem S128x3200 .f32) (harg5 : arg5.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5 x0 x1 x2 x3)) -∗ K ⟨⟩))
      ⊢ wp frame (wpE (defs₀ (F := F)) Variants.none c none) E (cc5__tc_conv_body i arg1 harg1 arg2 harg2 arg3 harg3 arg4 harg4 arg5 harg5) K := by
  simp only [cc5__tc_conv_body_eq_skeleton]; unfold cc5__tc_conv_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 6 -/

/-- What body 6 leaves in the output window's buffer, from the blocks in the x, gather, weight and bias windows'
    buffers: its one store of the whole block, the payload the skeleton's. -/
def out6 (x0 : Vec F S128x3200 .f32) (x1 : Vec F S4x3200x128 .f32) (x2 : Vec F S5x128x128 .f32) (x3 : Vec F S128x1 .f32) : Vec F S128x3200 .f32 :=
  View.canon [⟨rX, k6_pay1 (k6_pay2 (View.ld x1 rG1)) (k6_pay3 (View.ld x1 rG3))
    (k6_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 6 on whole staging memrefs, the four inputs' at read contents and the output's at anything, runs to the
    continuation holding the inputs' as they were and the output's at `out6` of them. -/
theorem sound_kernel6 (c : Dev nD) (E : Set ℕ) (i : grid6.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out6 x0 x1 x2 x3)) -∗ K ⟨⟩))
      ⊢ wp frame (wpE (defs₀ (F := F)) Variants.none c none) E (cc6__tc_conv_body i arg1 harg1 arg2 harg2 arg3 harg3 arg4 harg4 arg5 harg5 arg6 harg6) K := by
  simp only [cc6__tc_conv_body_eq_skeleton]; unfold cc6__tc_conv_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 7 -/

/-- What body 7 leaves in the output window's buffer, from the blocks in the x, gather, weight and bias windows'
    buffers: its one store of the whole block, the payload the skeleton's. -/
def out7 (x0 : Vec F S128x3200 .f32) (x1 : Vec F S4x3200x128 .f32) (x2 : Vec F S5x128x128 .f32) (x3 : Vec F S128x1 .f32) : Vec F S128x3200 .f32 :=
  View.canon [⟨rX, k7_pay1 (k7_pay2 (View.ld x1 rG1)) (k7_pay3 (View.ld x1 rG3))
    (k7_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 7 on whole staging memrefs, the four inputs' at read contents and the output's at anything, runs to the
    continuation holding the inputs' as they were and the output's at `out7` of them. -/
theorem sound_kernel7 (c : Dev nD) (E : Set ℕ) (i : grid7.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out7 x0 x1 x2 x3)) -∗ K ⟨⟩))
      ⊢ wp frame (wpE (defs₀ (F := F)) Variants.none c none) E (cc7__tc_conv_body i arg1 harg1 arg2 harg2 arg3 harg3 arg4 harg4 arg5 harg5 arg6 harg6) K := by
  simp only [cc7__tc_conv_body_eq_skeleton]; unfold cc7__tc_conv_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 8 -/

/-- What body 8 leaves in the output window's buffer, from the blocks in the x, gather, weight and bias windows'
    buffers: its one store of the whole block, the payload the skeleton's. -/
def out8 (x0 : Vec F S128x3200 .f32) (x1 : Vec F S4x3200x128 .f32) (x2 : Vec F S5x128x128 .f32) (x3 : Vec F S128x1 .f32) : Vec F S128x3200 .f32 :=
  View.canon [⟨rX, k8_pay1 (k8_pay2 (View.ld x1 rG1)) (k8_pay3 (View.ld x1 rG3))
    (k8_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 8 on whole staging memrefs, the four inputs' at read contents and the output's at anything, runs to the
    continuation holding the inputs' as they were and the output's at `out8` of them. -/
theorem sound_kernel8 (c : Dev nD) (E : Set ℕ) (i : grid8.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out8 x0 x1 x2 x3)) -∗ K ⟨⟩))
      ⊢ wp frame (wpE (defs₀ (F := F)) Variants.none c none) E (cc8__tc_conv_body i arg1 harg1 arg2 harg2 arg3 harg3 arg4 harg4 arg5 harg5 arg6 harg6) K := by
  simp only [cc8__tc_conv_body_eq_skeleton]; unfold cc8__tc_conv_body_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 9 -/

/-- What body 9 leaves in the output window's buffer, from the blocks in the x, gather, weight and bias windows'
    buffers: its one store of the whole block, the payload the skeleton's. -/
def out9 (x0 : Vec F S128x3200 .f32) (x1 : Vec F S4x3200x128 .f32) (x2 : Vec F S5x128x128 .f32) (x3 : Vec F S128x1 .f32) : Vec F S128x3200 .f32 :=
  View.canon [⟨rX, k9_pay1 (k9_pay2 (View.ld x1 rG1)) (k9_pay3 (View.ld x1 rG3))
    (k9_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 9 on whole staging memrefs, the four inputs' at read contents and the output's at anything, runs to the
    continuation holding the inputs' as they were and the output's at `out9` of them. -/
theorem sound_kernel9 (c : Dev nD) (E : Set ℕ) (i : grid9.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out9 x0 x1 x2 x3)) -∗ K ⟨⟩))
      ⊢ wp frame (wpE (defs₀ (F := F)) Variants.none c none) E (cc9__tc_conv_body i arg1 harg1 arg2 harg2 arg3 harg3 arg4 harg4 arg5 harg5 arg6 harg6) K := by
  simp only [cc9__tc_conv_body_eq_skeleton]; unfold cc9__tc_conv_body_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

end Cert.KernelIdeal.KP

end
-- ==== Proof.KConvDat.lean ====
/-
  The proof data of the five TensorCore pipelines on a core, from the contents of the buffers as a pipeline's region finds
  them: after the body at a point each input window's buffer holds its block and the output window's the body's result of
  the input blocks; and the body obligation at a symbolic grid point.
-/
import proofs.«210879_g80607946211848_cont_9to1_m_1212_13_alg».proof.Proof.KConvBody

set_option maxRecDepth 16384

noncomputable section

namespace Cert.KernelIdeal.KP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-- The index the pipelines' own waits are recorded at: the kernels' band, below every call's. -/
abbrev ι₀ : HIx 5 := none

/-! ## Pipeline 0 (custom_call 5) -/

section Pipe5

variable (c : Dev nD) (V : (b : Ref sig .tc) → Buf (Elt F) ((c : Thread nD τ).loc b))

/-- Window `w`'s block at point `t`, read off its array as the region finds it. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- What the scoped buffers no window stages hold is not the body's concern: they ride through every point. -/
abbrev Φ5 : sProp 𝕄 := Pipeline.scopedRest (Ix := HIx 5) (Name := ℕ) (U := UU) (Lvl := ℕ) (Val := Elt F) spec5 c

/-- The proof data: the arrays as the region finds them; after the body at point `t` each input's buffer at its block,
    the output's at the body's result of the input blocks; the scoped rest untouched; nothing owed; full shares;
    the recorded waits within any bound `B` the thread's waits lay within before. -/
def dat5 (B : Set (SemLoc sig × HIx 5)) : Dat τ (Elt F) (HIx 5) ℕ UU ℕ cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => out5 (iblk5 c V 0 t) (iblk5 c V 1 t) (iblk5 c V 2 t) (iblk5 c V 3 t)
  Φ _ := Φ5 c
  q _ := fullShare
  owed _ := 0
  recorded _ := B

variable (B : Set (SemLoc sig × HIx 5))

theorem A5_eq (w : Fin cfg5.W) : (dat5 c V B).A w = V (Pipeline.arrRef spec5 w) := by dsimp only [dat5]
theorem after5_0 (t : Fin cfg5.N) : (dat5 c V B).after 0 t = iblk5 c V 0 t := by dsimp only [dat5]
theorem after5_1 (t : Fin cfg5.N) : (dat5 c V B).after 1 t = iblk5 c V 1 t := by dsimp only [dat5]
theorem after5_2 (t : Fin cfg5.N) : (dat5 c V B).after 2 t = iblk5 c V 2 t := by dsimp only [dat5]
theorem after5_3 (t : Fin cfg5.N) : (dat5 c V B).after 3 t = iblk5 c V 3 t := by dsimp only [dat5]
theorem after5_4 (t : Fin cfg5.N) : (dat5 c V B).after 4 t = out5 (iblk5 c V 0 t) (iblk5 c V 1 t) (iblk5 c V 2 t) (iblk5 c V 3 t) := by dsimp only [dat5]

/-- Each input's current staging buffer holds its block at every point, fetched there or not. -/
theorem before5_0 (t : Fin cfg5.N) (d) : (dat5 c V B).before 0 t d = iblk5 c V 0 t :=
  ((dat5 c V B).before_in_eq_fetched 0 rfl (fun _ => rfl) (fun _ _ _ => rfl) (fun t => by rw [after5_0]; unfold Dat.blockOf iblk5; rw [A5_eq]; try rfl) t d).trans
    (by unfold Dat.fetched Dat.blockOf iblk5; rw [A5_eq]; try rfl)
theorem before5_1 (t : Fin cfg5.N) (d) : (dat5 c V B).before 1 t d = iblk5 c V 1 t :=
  ((dat5 c V B).before_in_eq_fetched 1 rfl (fun _ => rfl) (fun _ _ _ => rfl) (fun t => by rw [after5_1]; unfold Dat.blockOf iblk5; rw [A5_eq]; try rfl) t d).trans
    (by unfold Dat.fetched Dat.blockOf iblk5; rw [A5_eq]; try rfl)
theorem before5_2 (t : Fin cfg5.N) (d) : (dat5 c V B).before 2 t d = iblk5 c V 2 t :=
  ((dat5 c V B).before_in_eq_fetched 2 rfl (fun _ => rfl) (fun _ _ _ => rfl) (fun t => by rw [after5_2]; unfold Dat.blockOf iblk5; rw [A5_eq]; try rfl) t d).trans
    (by unfold Dat.fetched Dat.blockOf iblk5; rw [A5_eq]; try rfl)
theorem before5_3 (t : Fin cfg5.N) (d) : (dat5 c V B).before 3 t d = iblk5 c V 3 t :=
  ((dat5 c V B).before_in_eq_fetched 3 rfl (fun _ => rfl) (fun _ _ _ => rfl) (fun t => by rw [after5_3]; unfold Dat.blockOf iblk5; rw [A5_eq]; try rfl) t d).trans
    (by unfold Dat.fetched Dat.blockOf iblk5; rw [A5_eq]; try rfl)

/-- What the body is called with at point `t`, the windows one by one, -/
def bodyPre5 (t : Fin cfg5.N) : sProp 𝕄 :=
  iprop((dat5 c V B).Φ t.castSucc ∗ (dat5 c V B).owesAt ι₀ t.castSucc
    ∗ (∃ d, owns (c : Thread nD τ) (st5_0 t) fullShare ((dat5 c V B).before 0 t d))
    ∗ (∃ d, owns (c : Thread nD τ) (st5_1 t) fullShare ((dat5 c V B).before 1 t d))
    ∗ (∃ d, owns (c : Thread nD τ) (st5_2 t) fullShare ((dat5 c V B).before 2 t d))
    ∗ (∃ d, owns (c : Thread nD τ) (st5_3 t) fullShare ((dat5 c V B).before 3 t d))
    ∗ (∃ d, owns (c : Thread nD τ) (st5_4 t) fullShare ((dat5 c V B).before 4 t d)))

/-- and what it returns. -/
def bodyPost5 (t : Fin cfg5.N) : sProp 𝕄 :=
  iprop((dat5 c V B).Φ t.succ ∗ (dat5 c V B).owesAt ι₀ t.succ
    ∗ owns (c : Thread nD τ) (st5_0 t) fullShare ((dat5 c V B).after 0 t)
    ∗ owns (c : Thread nD τ) (st5_1 t) fullShare ((dat5 c V B).after 1 t)
    ∗ owns (c : Thread nD τ) (st5_2 t) fullShare ((dat5 c V B).after 2 t)
    ∗ owns (c : Thread nD τ) (st5_3 t) fullShare ((dat5 c V B).after 3 t)
    ∗ owns (c : Thread nD τ) (st5_4 t) fullShare ((dat5 c V B).after 4 t))

/-- The body at any point: the inputs' memrefs hold their blocks, so the body's triple applies; the scoped rest and the
    thread's debts pass through unread. -/
theorem sound_body5 (t : Fin cfg5.N) :
    bodyPre5 c V B t ⊢ wp frame (wpE (defs₀ (F := F)) Variants.none c none) Set.univ (bodyAt5 t) (fun _ => bodyPost5 c V B t) := by
  unfold bodyPre5 bodyPost5 bodyAt5
  simp only [before5_0, before5_1, before5_2, before5_3]
  rw [show (dat5 c V B).Φ t.succ = (dat5 c V B).Φ t.castSucc from rfl,
    show (dat5 c V B).owesAt ι₀ t.succ = (dat5 c V B).owesAt ι₀ t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 c V 0 t) (iblk5 c V 1 t) (iblk5 c V 2 t) (iblk5 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation5 : BodyObligation (dat5 (F := F) c V B) (defs₀ (F := F)) Variants.none ι₀ Set.univ := fun t => by
  rw [bigSep_W5, bigSep_W5]
  exact sound_body5 c V B t

end Pipe5

/-! ## Pipeline 1 (custom_call 6) -/

section Pipe6

variable (c : Dev nD) (V : (b : Ref sig .tc) → Buf (Elt F) ((c : Thread nD τ).loc b))

/-- Window `w`'s block at point `t`, read off its array as the region finds it. -/
def iblk6 (w : Fin cfg6.W) (t : Fin cfg6.N) : ((cfg6.win w).xblock (cfg6.grid.coords t)).Idx → Elt F (cfg6.win w).elt :=
  ((cfg6.win w).blk t).view.read (Elt F) (V (Pipeline.arrRef spec6 w))

/-- What the scoped buffers no window stages hold is not the body's concern: they ride through every point. -/
abbrev Φ6 : sProp 𝕄 := Pipeline.scopedRest (Ix := HIx 5) (Name := ℕ) (U := UU) (Lvl := ℕ) (Val := Elt F) spec6 c

/-- The proof data: the arrays as the region finds them; after the body at point `t` each input's buffer at its block,
    the output's at the body's result of the input blocks; the scoped rest untouched; nothing owed; full shares;
    the recorded waits within any bound `B` the thread's waits lay within before. -/
def dat6 (B : Set (SemLoc sig × HIx 5)) : Dat τ (Elt F) (HIx 5) ℕ UU ℕ cfg6 c where
  A w := V (Pipeline.arrRef spec6 w)
  after w t := match w with
    | ⟨0, _⟩ => iblk6 c V 0 t
    | ⟨1, _⟩ => iblk6 c V 1 t
    | ⟨2, _⟩ => iblk6 c V 2 t
    | ⟨3, _⟩ => iblk6 c V 3 t
    | ⟨4, _⟩ => out6 (iblk6 c V 0 t) (iblk6 c V 1 t) (iblk6 c V 2 t) (iblk6 c V 3 t)
  Φ _ := Φ6 c
  q _ := fullShare
  owed _ := 0
  recorded _ := B

variable (B : Set (SemLoc sig × HIx 5))

theorem A6_eq (w : Fin cfg6.W) : (dat6 c V B).A w = V (Pipeline.arrRef spec6 w) := by dsimp only [dat6]
theorem after6_0 (t : Fin cfg6.N) : (dat6 c V B).after 0 t = iblk6 c V 0 t := by dsimp only [dat6]
theorem after6_1 (t : Fin cfg6.N) : (dat6 c V B).after 1 t = iblk6 c V 1 t := by dsimp only [dat6]
theorem after6_2 (t : Fin cfg6.N) : (dat6 c V B).after 2 t = iblk6 c V 2 t := by dsimp only [dat6]
theorem after6_3 (t : Fin cfg6.N) : (dat6 c V B).after 3 t = iblk6 c V 3 t := by dsimp only [dat6]
theorem after6_4 (t : Fin cfg6.N) : (dat6 c V B).after 4 t = out6 (iblk6 c V 0 t) (iblk6 c V 1 t) (iblk6 c V 2 t) (iblk6 c V 3 t) := by dsimp only [dat6]

/-- Each input's current staging buffer holds its block at every point, fetched there or not. -/
theorem before6_0 (t : Fin cfg6.N) (d) : (dat6 c V B).before 0 t d = iblk6 c V 0 t :=
  ((dat6 c V B).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (t : Fin cfg6.N) (d) : (dat6 c V B).before 1 t d = iblk6 c V 1 t :=
  ((dat6 c V B).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)
theorem before6_2 (t : Fin cfg6.N) (d) : (dat6 c V B).before 2 t d = iblk6 c V 2 t :=
  ((dat6 c V B).before_in_eq_fetched 2 rfl (fun _ => rfl) (fun _ _ _ => rfl) (fun t => by rw [after6_2]; unfold Dat.blockOf iblk6; rw [A6_eq]; try rfl) t d).trans
    (by unfold Dat.fetched Dat.blockOf iblk6; rw [A6_eq]; try rfl)
theorem before6_3 (t : Fin cfg6.N) (d) : (dat6 c V B).before 3 t d = iblk6 c V 3 t :=
  ((dat6 c V B).before_in_eq_fetched 3 rfl (fun _ => rfl) (fun _ _ _ => rfl) (fun t => by rw [after6_3]; unfold Dat.blockOf iblk6; rw [A6_eq]; try rfl) t d).trans
    (by unfold Dat.fetched Dat.blockOf iblk6; rw [A6_eq]; try rfl)

/-- What the body is called with at point `t`, the windows one by one, -/
def bodyPre6 (t : Fin cfg6.N) : sProp 𝕄 :=
  iprop((dat6 c V B).Φ t.castSucc ∗ (dat6 c V B).owesAt ι₀ t.castSucc
    ∗ (∃ d, owns (c : Thread nD τ) (st6_0 t) fullShare ((dat6 c V B).before 0 t d))
    ∗ (∃ d, owns (c : Thread nD τ) (st6_1 t) fullShare ((dat6 c V B).before 1 t d))
    ∗ (∃ d, owns (c : Thread nD τ) (st6_2 t) fullShare ((dat6 c V B).before 2 t d))
    ∗ (∃ d, owns (c : Thread nD τ) (st6_3 t) fullShare ((dat6 c V B).before 3 t d))
    ∗ (∃ d, owns (c : Thread nD τ) (st6_4 t) fullShare ((dat6 c V B).before 4 t d)))

/-- and what it returns. -/
def bodyPost6 (t : Fin cfg6.N) : sProp 𝕄 :=
  iprop((dat6 c V B).Φ t.succ ∗ (dat6 c V B).owesAt ι₀ t.succ
    ∗ owns (c : Thread nD τ) (st6_0 t) fullShare ((dat6 c V B).after 0 t)
    ∗ owns (c : Thread nD τ) (st6_1 t) fullShare ((dat6 c V B).after 1 t)
    ∗ owns (c : Thread nD τ) (st6_2 t) fullShare ((dat6 c V B).after 2 t)
    ∗ owns (c : Thread nD τ) (st6_3 t) fullShare ((dat6 c V B).after 3 t)
    ∗ owns (c : Thread nD τ) (st6_4 t) fullShare ((dat6 c V B).after 4 t))

/-- The body at any point: the inputs' memrefs hold their blocks, so the body's triple applies; the scoped rest and the
    thread's debts pass through unread. -/
theorem sound_body6 (t : Fin cfg6.N) :
    bodyPre6 c V B t ⊢ wp frame (wpE (defs₀ (F := F)) Variants.none c none) Set.univ (bodyAt6 t) (fun _ => bodyPost6 c V B t) := by
  unfold bodyPre6 bodyPost6 bodyAt6
  simp only [before6_0, before6_1, before6_2, before6_3]
  rw [show (dat6 c V B).Φ t.succ = (dat6 c V B).Φ t.castSucc from rfl,
    show (dat6 c V B).owesAt ι₀ t.succ = (dat6 c V B).owesAt ι₀ t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ _ _ (iblk6 c V 0 t) (iblk6 c V 1 t) (iblk6 c V 2 t) (iblk6 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation6 : BodyObligation (dat6 (F := F) c V B) (defs₀ (F := F)) Variants.none ι₀ Set.univ := fun t => by
  rw [bigSep_W6, bigSep_W6]
  exact sound_body6 c V B t

end Pipe6

/-! ## Pipeline 2 (custom_call 7) -/

section Pipe7

variable (c : Dev nD) (V : (b : Ref sig .tc) → Buf (Elt F) ((c : Thread nD τ).loc b))

/-- Window `w`'s block at point `t`, read off its array as the region finds it. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- What the scoped buffers no window stages hold is not the body's concern: they ride through every point. -/
abbrev Φ7 : sProp 𝕄 := Pipeline.scopedRest (Ix := HIx 5) (Name := ℕ) (U := UU) (Lvl := ℕ) (Val := Elt F) spec7 c

/-- The proof data: the arrays as the region finds them; after the body at point `t` each input's buffer at its block,
    the output's at the body's result of the input blocks; the scoped rest untouched; nothing owed; full shares;
    the recorded waits within any bound `B` the thread's waits lay within before. -/
def dat7 (B : Set (SemLoc sig × HIx 5)) : Dat τ (Elt F) (HIx 5) ℕ UU ℕ cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => out7 (iblk7 c V 0 t) (iblk7 c V 1 t) (iblk7 c V 2 t) (iblk7 c V 3 t)
  Φ _ := Φ7 c
  q _ := fullShare
  owed _ := 0
  recorded _ := B

variable (B : Set (SemLoc sig × HIx 5))

theorem A7_eq (w : Fin cfg7.W) : (dat7 c V B).A w = V (Pipeline.arrRef spec7 w) := by dsimp only [dat7]
theorem after7_0 (t : Fin cfg7.N) : (dat7 c V B).after 0 t = iblk7 c V 0 t := by dsimp only [dat7]
theorem after7_1 (t : Fin cfg7.N) : (dat7 c V B).after 1 t = iblk7 c V 1 t := by dsimp only [dat7]
theorem after7_2 (t : Fin cfg7.N) : (dat7 c V B).after 2 t = iblk7 c V 2 t := by dsimp only [dat7]
theorem after7_3 (t : Fin cfg7.N) : (dat7 c V B).after 3 t = iblk7 c V 3 t := by dsimp only [dat7]
theorem after7_4 (t : Fin cfg7.N) : (dat7 c V B).after 4 t = out7 (iblk7 c V 0 t) (iblk7 c V 1 t) (iblk7 c V 2 t) (iblk7 c V 3 t) := by dsimp only [dat7]

/-- Each input's current staging buffer holds its block at every point, fetched there or not. -/
theorem before7_0 (t : Fin cfg7.N) (d) : (dat7 c V B).before 0 t d = iblk7 c V 0 t :=
  ((dat7 c V B).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (t : Fin cfg7.N) (d) : (dat7 c V B).before 1 t d = iblk7 c V 1 t :=
  ((dat7 c V B).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (t : Fin cfg7.N) (d) : (dat7 c V B).before 2 t d = iblk7 c V 2 t :=
  ((dat7 c V B).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)
theorem before7_3 (t : Fin cfg7.N) (d) : (dat7 c V B).before 3 t d = iblk7 c V 3 t :=
  ((dat7 c V B).before_in_eq_fetched 3 rfl (fun _ => rfl) (fun _ _ _ => rfl) (fun t => by rw [after7_3]; unfold Dat.blockOf iblk7; rw [A7_eq]; try rfl) t d).trans
    (by unfold Dat.fetched Dat.blockOf iblk7; rw [A7_eq]; try rfl)

/-- What the body is called with at point `t`, the windows one by one, -/
def bodyPre7 (t : Fin cfg7.N) : sProp 𝕄 :=
  iprop((dat7 c V B).Φ t.castSucc ∗ (dat7 c V B).owesAt ι₀ t.castSucc
    ∗ (∃ d, owns (c : Thread nD τ) (st7_0 t) fullShare ((dat7 c V B).before 0 t d))
    ∗ (∃ d, owns (c : Thread nD τ) (st7_1 t) fullShare ((dat7 c V B).before 1 t d))
    ∗ (∃ d, owns (c : Thread nD τ) (st7_2 t) fullShare ((dat7 c V B).before 2 t d))
    ∗ (∃ d, owns (c : Thread nD τ) (st7_3 t) fullShare ((dat7 c V B).before 3 t d))
    ∗ (∃ d, owns (c : Thread nD τ) (st7_4 t) fullShare ((dat7 c V B).before 4 t d)))

/-- and what it returns. -/
def bodyPost7 (t : Fin cfg7.N) : sProp 𝕄 :=
  iprop((dat7 c V B).Φ t.succ ∗ (dat7 c V B).owesAt ι₀ t.succ
    ∗ owns (c : Thread nD τ) (st7_0 t) fullShare ((dat7 c V B).after 0 t)
    ∗ owns (c : Thread nD τ) (st7_1 t) fullShare ((dat7 c V B).after 1 t)
    ∗ owns (c : Thread nD τ) (st7_2 t) fullShare ((dat7 c V B).after 2 t)
    ∗ owns (c : Thread nD τ) (st7_3 t) fullShare ((dat7 c V B).after 3 t)
    ∗ owns (c : Thread nD τ) (st7_4 t) fullShare ((dat7 c V B).after 4 t))

/-- The body at any point: the inputs' memrefs hold their blocks, so the body's triple applies; the scoped rest and the
    thread's debts pass through unread. -/
theorem sound_body7 (t : Fin cfg7.N) :
    bodyPre7 c V B t ⊢ wp frame (wpE (defs₀ (F := F)) Variants.none c none) Set.univ (bodyAt7 t) (fun _ => bodyPost7 c V B t) := by
  unfold bodyPre7 bodyPost7 bodyAt7
  simp only [before7_0, before7_1, before7_2, before7_3]
  rw [show (dat7 c V B).Φ t.succ = (dat7 c V B).Φ t.castSucc from rfl,
    show (dat7 c V B).owesAt ι₀ t.succ = (dat7 c V B).owesAt ι₀ t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ _ _ (iblk7 c V 0 t) (iblk7 c V 1 t) (iblk7 c V 2 t) (iblk7 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation7 : BodyObligation (dat7 (F := F) c V B) (defs₀ (F := F)) Variants.none ι₀ Set.univ := fun t => by
  rw [bigSep_W7, bigSep_W7]
  exact sound_body7 c V B t

end Pipe7

/-! ## Pipeline 3 (custom_call 8) -/

section Pipe8

variable (c : Dev nD) (V : (b : Ref sig .tc) → Buf (Elt F) ((c : Thread nD τ).loc b))

/-- Window `w`'s block at point `t`, read off its array as the region finds it. -/
def iblk8 (w : Fin cfg8.W) (t : Fin cfg8.N) : ((cfg8.win w).xblock (cfg8.grid.coords t)).Idx → Elt F (cfg8.win w).elt :=
  ((cfg8.win w).blk t).view.read (Elt F) (V (Pipeline.arrRef spec8 w))

/-- What the scoped buffers no window stages hold is not the body's concern: they ride through every point. -/
abbrev Φ8 : sProp 𝕄 := Pipeline.scopedRest (Ix := HIx 5) (Name := ℕ) (U := UU) (Lvl := ℕ) (Val := Elt F) spec8 c

/-- The proof data: the arrays as the region finds them; after the body at point `t` each input's buffer at its block,
    the output's at the body's result of the input blocks; the scoped rest untouched; nothing owed; full shares;
    the recorded waits within any bound `B` the thread's waits lay within before. -/
def dat8 (B : Set (SemLoc sig × HIx 5)) : Dat τ (Elt F) (HIx 5) ℕ UU ℕ cfg8 c where
  A w := V (Pipeline.arrRef spec8 w)
  after w t := match w with
    | ⟨0, _⟩ => iblk8 c V 0 t
    | ⟨1, _⟩ => iblk8 c V 1 t
    | ⟨2, _⟩ => iblk8 c V 2 t
    | ⟨3, _⟩ => iblk8 c V 3 t
    | ⟨4, _⟩ => out8 (iblk8 c V 0 t) (iblk8 c V 1 t) (iblk8 c V 2 t) (iblk8 c V 3 t)
  Φ _ := Φ8 c
  q _ := fullShare
  owed _ := 0
  recorded _ := B

variable (B : Set (SemLoc sig × HIx 5))

theorem A8_eq (w : Fin cfg8.W) : (dat8 c V B).A w = V (Pipeline.arrRef spec8 w) := by dsimp only [dat8]
theorem after8_0 (t : Fin cfg8.N) : (dat8 c V B).after 0 t = iblk8 c V 0 t := by dsimp only [dat8]
theorem after8_1 (t : Fin cfg8.N) : (dat8 c V B).after 1 t = iblk8 c V 1 t := by dsimp only [dat8]
theorem after8_2 (t : Fin cfg8.N) : (dat8 c V B).after 2 t = iblk8 c V 2 t := by dsimp only [dat8]
theorem after8_3 (t : Fin cfg8.N) : (dat8 c V B).after 3 t = iblk8 c V 3 t := by dsimp only [dat8]
theorem after8_4 (t : Fin cfg8.N) : (dat8 c V B).after 4 t = out8 (iblk8 c V 0 t) (iblk8 c V 1 t) (iblk8 c V 2 t) (iblk8 c V 3 t) := by dsimp only [dat8]

/-- Each input's current staging buffer holds its block at every point, fetched there or not. -/
theorem before8_0 (t : Fin cfg8.N) (d) : (dat8 c V B).before 0 t d = iblk8 c V 0 t :=
  ((dat8 c V B).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (t : Fin cfg8.N) (d) : (dat8 c V B).before 1 t d = iblk8 c V 1 t :=
  ((dat8 c V B).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)
theorem before8_2 (t : Fin cfg8.N) (d) : (dat8 c V B).before 2 t d = iblk8 c V 2 t :=
  ((dat8 c V B).before_in_eq_fetched 2 rfl (fun _ => rfl) (fun _ _ _ => rfl) (fun t => by rw [after8_2]; unfold Dat.blockOf iblk8; rw [A8_eq]; try rfl) t d).trans
    (by unfold Dat.fetched Dat.blockOf iblk8; rw [A8_eq]; try rfl)
theorem before8_3 (t : Fin cfg8.N) (d) : (dat8 c V B).before 3 t d = iblk8 c V 3 t :=
  ((dat8 c V B).before_in_eq_fetched 3 rfl (fun _ => rfl) (fun _ _ _ => rfl) (fun t => by rw [after8_3]; unfold Dat.blockOf iblk8; rw [A8_eq]; try rfl) t d).trans
    (by unfold Dat.fetched Dat.blockOf iblk8; rw [A8_eq]; try rfl)

/-- What the body is called with at point `t`, the windows one by one, -/
def bodyPre8 (t : Fin cfg8.N) : sProp 𝕄 :=
  iprop((dat8 c V B).Φ t.castSucc ∗ (dat8 c V B).owesAt ι₀ t.castSucc
    ∗ (∃ d, owns (c : Thread nD τ) (st8_0 t) fullShare ((dat8 c V B).before 0 t d))
    ∗ (∃ d, owns (c : Thread nD τ) (st8_1 t) fullShare ((dat8 c V B).before 1 t d))
    ∗ (∃ d, owns (c : Thread nD τ) (st8_2 t) fullShare ((dat8 c V B).before 2 t d))
    ∗ (∃ d, owns (c : Thread nD τ) (st8_3 t) fullShare ((dat8 c V B).before 3 t d))
    ∗ (∃ d, owns (c : Thread nD τ) (st8_4 t) fullShare ((dat8 c V B).before 4 t d)))

/-- and what it returns. -/
def bodyPost8 (t : Fin cfg8.N) : sProp 𝕄 :=
  iprop((dat8 c V B).Φ t.succ ∗ (dat8 c V B).owesAt ι₀ t.succ
    ∗ owns (c : Thread nD τ) (st8_0 t) fullShare ((dat8 c V B).after 0 t)
    ∗ owns (c : Thread nD τ) (st8_1 t) fullShare ((dat8 c V B).after 1 t)
    ∗ owns (c : Thread nD τ) (st8_2 t) fullShare ((dat8 c V B).after 2 t)
    ∗ owns (c : Thread nD τ) (st8_3 t) fullShare ((dat8 c V B).after 3 t)
    ∗ owns (c : Thread nD τ) (st8_4 t) fullShare ((dat8 c V B).after 4 t))

/-- The body at any point: the inputs' memrefs hold their blocks, so the body's triple applies; the scoped rest and the
    thread's debts pass through unread. -/
theorem sound_body8 (t : Fin cfg8.N) :
    bodyPre8 c V B t ⊢ wp frame (wpE (defs₀ (F := F)) Variants.none c none) Set.univ (bodyAt8 t) (fun _ => bodyPost8 c V B t) := by
  unfold bodyPre8 bodyPost8 bodyAt8
  simp only [before8_0, before8_1, before8_2, before8_3]
  rw [show (dat8 c V B).Φ t.succ = (dat8 c V B).Φ t.castSucc from rfl,
    show (dat8 c V B).owesAt ι₀ t.succ = (dat8 c V B).owesAt ι₀ t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ _ _ (iblk8 c V 0 t) (iblk8 c V 1 t) (iblk8 c V 2 t) (iblk8 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation8 : BodyObligation (dat8 (F := F) c V B) (defs₀ (F := F)) Variants.none ι₀ Set.univ := fun t => by
  rw [bigSep_W8, bigSep_W8]
  exact sound_body8 c V B t

end Pipe8

/-! ## Pipeline 4 (custom_call 9) -/

section Pipe9

variable (c : Dev nD) (V : (b : Ref sig .tc) → Buf (Elt F) ((c : Thread nD τ).loc b))

/-- Window `w`'s block at point `t`, read off its array as the region finds it. -/
def iblk9 (w : Fin cfg9.W) (t : Fin cfg9.N) : ((cfg9.win w).xblock (cfg9.grid.coords t)).Idx → Elt F (cfg9.win w).elt :=
  ((cfg9.win w).blk t).view.read (Elt F) (V (Pipeline.arrRef spec9 w))

/-- What the scoped buffers no window stages hold is not the body's concern: they ride through every point. -/
abbrev Φ9 : sProp 𝕄 := Pipeline.scopedRest (Ix := HIx 5) (Name := ℕ) (U := UU) (Lvl := ℕ) (Val := Elt F) spec9 c

/-- The proof data: the arrays as the region finds them; after the body at point `t` each input's buffer at its block,
    the output's at the body's result of the input blocks; the scoped rest untouched; nothing owed; full shares;
    the recorded waits within any bound `B` the thread's waits lay within before. -/
def dat9 (B : Set (SemLoc sig × HIx 5)) : Dat τ (Elt F) (HIx 5) ℕ UU ℕ cfg9 c where
  A w := V (Pipeline.arrRef spec9 w)
  after w t := match w with
    | ⟨0, _⟩ => iblk9 c V 0 t
    | ⟨1, _⟩ => iblk9 c V 1 t
    | ⟨2, _⟩ => iblk9 c V 2 t
    | ⟨3, _⟩ => iblk9 c V 3 t
    | ⟨4, _⟩ => out9 (iblk9 c V 0 t) (iblk9 c V 1 t) (iblk9 c V 2 t) (iblk9 c V 3 t)
  Φ _ := Φ9 c
  q _ := fullShare
  owed _ := 0
  recorded _ := B

variable (B : Set (SemLoc sig × HIx 5))

theorem A9_eq (w : Fin cfg9.W) : (dat9 c V B).A w = V (Pipeline.arrRef spec9 w) := by dsimp only [dat9]
theorem after9_0 (t : Fin cfg9.N) : (dat9 c V B).after 0 t = iblk9 c V 0 t := by dsimp only [dat9]
theorem after9_1 (t : Fin cfg9.N) : (dat9 c V B).after 1 t = iblk9 c V 1 t := by dsimp only [dat9]
theorem after9_2 (t : Fin cfg9.N) : (dat9 c V B).after 2 t = iblk9 c V 2 t := by dsimp only [dat9]
theorem after9_3 (t : Fin cfg9.N) : (dat9 c V B).after 3 t = iblk9 c V 3 t := by dsimp only [dat9]
theorem after9_4 (t : Fin cfg9.N) : (dat9 c V B).after 4 t = out9 (iblk9 c V 0 t) (iblk9 c V 1 t) (iblk9 c V 2 t) (iblk9 c V 3 t) := by dsimp only [dat9]

/-- Each input's current staging buffer holds its block at every point, fetched there or not. -/
theorem before9_0 (t : Fin cfg9.N) (d) : (dat9 c V B).before 0 t d = iblk9 c V 0 t :=
  ((dat9 c V B).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (t : Fin cfg9.N) (d) : (dat9 c V B).before 1 t d = iblk9 c V 1 t :=
  ((dat9 c V B).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)
theorem before9_2 (t : Fin cfg9.N) (d) : (dat9 c V B).before 2 t d = iblk9 c V 2 t :=
  ((dat9 c V B).before_in_eq_fetched 2 rfl (fun _ => rfl) (fun _ _ _ => rfl) (fun t => by rw [after9_2]; unfold Dat.blockOf iblk9; rw [A9_eq]; try rfl) t d).trans
    (by unfold Dat.fetched Dat.blockOf iblk9; rw [A9_eq]; try rfl)
theorem before9_3 (t : Fin cfg9.N) (d) : (dat9 c V B).before 3 t d = iblk9 c V 3 t :=
  ((dat9 c V B).before_in_eq_fetched 3 rfl (fun _ => rfl) (fun _ _ _ => rfl) (fun t => by rw [after9_3]; unfold Dat.blockOf iblk9; rw [A9_eq]; try rfl) t d).trans
    (by unfold Dat.fetched Dat.blockOf iblk9; rw [A9_eq]; try rfl)

/-- What the body is called with at point `t`, the windows one by one, -/
def bodyPre9 (t : Fin cfg9.N) : sProp 𝕄 :=
  iprop((dat9 c V B).Φ t.castSucc ∗ (dat9 c V B).owesAt ι₀ t.castSucc
    ∗ (∃ d, owns (c : Thread nD τ) (st9_0 t) fullShare ((dat9 c V B).before 0 t d))
    ∗ (∃ d, owns (c : Thread nD τ) (st9_1 t) fullShare ((dat9 c V B).before 1 t d))
    ∗ (∃ d, owns (c : Thread nD τ) (st9_2 t) fullShare ((dat9 c V B).before 2 t d))
    ∗ (∃ d, owns (c : Thread nD τ) (st9_3 t) fullShare ((dat9 c V B).before 3 t d))
    ∗ (∃ d, owns (c : Thread nD τ) (st9_4 t) fullShare ((dat9 c V B).before 4 t d)))

/-- and what it returns. -/
def bodyPost9 (t : Fin cfg9.N) : sProp 𝕄 :=
  iprop((dat9 c V B).Φ t.succ ∗ (dat9 c V B).owesAt ι₀ t.succ
    ∗ owns (c : Thread nD τ) (st9_0 t) fullShare ((dat9 c V B).after 0 t)
    ∗ owns (c : Thread nD τ) (st9_1 t) fullShare ((dat9 c V B).after 1 t)
    ∗ owns (c : Thread nD τ) (st9_2 t) fullShare ((dat9 c V B).after 2 t)
    ∗ owns (c : Thread nD τ) (st9_3 t) fullShare ((dat9 c V B).after 3 t)
    ∗ owns (c : Thread nD τ) (st9_4 t) fullShare ((dat9 c V B).after 4 t))

/-- The body at any point: the inputs' memrefs hold their blocks, so the body's triple applies; the scoped rest and the
    thread's debts pass through unread. -/
theorem sound_body9 (t : Fin cfg9.N) :
    bodyPre9 c V B t ⊢ wp frame (wpE (defs₀ (F := F)) Variants.none c none) Set.univ (bodyAt9 t) (fun _ => bodyPost9 c V B t) := by
  unfold bodyPre9 bodyPost9 bodyAt9
  simp only [before9_0, before9_1, before9_2, before9_3]
  rw [show (dat9 c V B).Φ t.succ = (dat9 c V B).Φ t.castSucc from rfl,
    show (dat9 c V B).owesAt ι₀ t.succ = (dat9 c V B).owesAt ι₀ t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ _ _ (iblk9 c V 0 t) (iblk9 c V 1 t) (iblk9 c V 2 t) (iblk9 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation9 : BodyObligation (dat9 (F := F) c V B) (defs₀ (F := F)) Variants.none ι₀ Set.univ := fun t => by
  rw [bigSep_W9, bigSep_W9]
  exact sound_body9 c V B t

end Pipe9

end Cert.KernelIdeal.KP

end
-- ==== Proof.KRegion.lean ====
/-
  One TensorCore pipeline's region run from the TensorCore thread's state inside the SparseCore program's @main:
  the pipelines' proof data as a family, each region as the pipeline library's region record, and the region's
  weakest precondition under the extended body table.
-/
import proofs.«210879_g80607946211848_cont_9to1_m_1212_13_alg».proof.Proof.KConvDat

set_option maxRecDepth 16384

noncomputable section

namespace Cert.KernelIdeal.KP

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-- The prefetched tables' admissible contents: no pipeline has a table. -/
abbrev adm : (p : Fin 5) → (pcfgs (F := F) p).Adm := fun p => (cfgs p).toPCfg_adm

/-- The program's staging cells are pairwise distinct, at those tables. -/
theorem phinj : Function.Injective (cellOf (nD := nD) (τ := τ) (Pipeline.pin (pcfgs (F := F)) adm)) :=
  (launch5.toP (Val := Elt F)).cellOf_inj adm

section Family

variable (W : (c : Dev nD) → (b : Ref sig .tc) → Buf (Elt F) ((c : Thread nD τ).loc b)) (B : Dev nD → Set (SemLoc sig × HIx 5))

/-- The five pipelines' proof data over one valuation of the TensorCore's buffers (a region is run over the valuation
    it is entered at; of the other pipelines' data nothing is asked). -/
def pdats : (p : Fin 5) → (c : Dev nD) → Dat τ (Elt F) (HIx 5) ℕ UU ℕ (Pipeline.pin (pcfgs (F := F)) adm p) c
  | 0 => fun c => dat5 c (W c) (B c)
  | 1 => fun c => dat6 c (W c) (B c)
  | 2 => fun c => dat7 c (W c) (B c)
  | 3 => fun c => dat8 c (W c) (B c)
  | 4 => fun c => dat9 c (W c) (B c)

end Family

/-- A TensorCore buffer of core `c` held whole at contents `f`. -/
abbrev pt (c : Dev nD) (b : Ref sig .tc) (f : Buf (Elt F) ((c : Thread nD τ).loc b)) : sProp 𝕄 := ((c : Thread nD τ).loc b) ↦{fullShare} f

/-- Over no index there is nothing to hold. -/
theorem bigSep_Fin0 {M : Type} [URA M] (Φ : Fin 0 → sProp M) : bigSep Finset.univ Φ = (BI.emp : sProp M) :=
  bigSep_univ_eq_bigSepL [] (by decide) (by decide) Φ

/-! ## A valuation from five named contents -/

section Val

variable (d : Dev nD) (b0 b1 b2 b3 b4 : Ref sig .tc)
  (f0 : Buf (Elt F) ((d : Thread nD τ).loc b0)) (f1 : Buf (Elt F) ((d : Thread nD τ).loc b1)) (f2 : Buf (Elt F) ((d : Thread nD τ).loc b2))
  (f3 : Buf (Elt F) ((d : Thread nD τ).loc b3)) (f4 : Buf (Elt F) ((d : Thread nD τ).loc b4))

/-- The valuation of device `d`'s TensorCore buffers that holds `f0 … f4` at `b0 … b4` (contents not chosen elsewhere). -/
def valOf : (b : Ref sig .tc) → Buf (Elt F) ((d : Thread nD τ).loc b) := fun b =>
  if h0 : b = b0 then h0 ▸ f0 else if h1 : b = b1 then h1 ▸ f1 else if h2 : b = b2 then h2 ▸ f2
  else if h3 : b = b3 then h3 ▸ f3 else if h4 : b = b4 then h4 ▸ f4 else Classical.arbitrary _

theorem valOf_0 : valOf d b0 b1 b2 b3 b4 f0 f1 f2 f3 f4 b0 = f0 := by unfold valOf; rw [dif_pos rfl]
theorem valOf_1 (h10 : b1 ≠ b0) : valOf d b0 b1 b2 b3 b4 f0 f1 f2 f3 f4 b1 = f1 := by unfold valOf; rw [dif_neg h10, dif_pos rfl]
theorem valOf_2 (h20 : b2 ≠ b0) (h21 : b2 ≠ b1) : valOf d b0 b1 b2 b3 b4 f0 f1 f2 f3 f4 b2 = f2 := by
  unfold valOf; rw [dif_neg h20, dif_neg h21, dif_pos rfl]
theorem valOf_3 (h30 : b3 ≠ b0) (h31 : b3 ≠ b1) (h32 : b3 ≠ b2) : valOf d b0 b1 b2 b3 b4 f0 f1 f2 f3 f4 b3 = f3 := by
  unfold valOf; rw [dif_neg h30, dif_neg h31, dif_neg h32, dif_pos rfl]
theorem valOf_4 (h40 : b4 ≠ b0) (h41 : b4 ≠ b1) (h42 : b4 ≠ b2) (h43 : b4 ≠ b3) : valOf d b0 b1 b2 b3 b4 f0 f1 f2 f3 f4 b4 = f4 := by
  unfold valOf; rw [dif_neg h40, dif_neg h41, dif_neg h42, dif_neg h43, dif_pos rfl]

/-- A valuation of device `d`'s buffers as one of every device's (contents not chosen on another device). -/
def liftVal (v : (b : Ref sig .tc) → Buf (Elt F) ((d : Thread nD τ).loc b)) : (c : Dev nD) → (b : Ref sig .tc) → Buf (Elt F) ((c : Thread nD τ).loc b) :=
  fun c b => if h : c = d then h ▸ v b else Classical.arbitrary _

theorem liftVal_self (v : (b : Ref sig .tc) → Buf (Elt F) ((d : Thread nD τ).loc b)) : liftVal d v d = v := by
  funext b; unfold liftVal; rw [dif_pos rfl]

end Val

/-! ## The TensorCore's recorded waits after the last SparseCore call -/

/-- The (cell, index) pairs of device `d`'s TensorCore at or below the last call's band. -/
def wb (d : Dev nD) : Set (SemLoc sig × HIx 5) := {p | (K (F := F)).lev ((d.tc : Thread nD τ), p.1) p.2 ≤ 8 * 5}

/-! ## Pipeline 0 (custom_call 5): windows over main_v0, main_v9, main_v6, main_v7 and (written back) main_v18 -/

section Region5

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays5_eq (c : Dev nD) (Fa : (w : Fin cfg5.W) → Buf (Elt F) ((cfg5.win w).arr.view.loc (c.tc : Thread nD τ))) :
    ((dat5 c (W c) (B c)).arrays Fa : sProp 𝕄) = iprop(pt c main_v0 (Fa 0) ∗ pt c main_v9 (Fa 1) ∗ pt c main_v6 (Fa 2) ∗ pt c main_v7 (Fa 3) ∗ pt c main_v18 (Fa 4)) := by
  unfold Dat.arrays
  rw [show (bigSep Finset.univ fun w : Fin cfg5.W => ((cfg5.win w).arr.view.loc (c.tc : Thread nD τ) ↦[(cfg5.win w).arr.view.set]{(dat5 c (W c) (B c)).share w} Fa w : sProp 𝕄))
      = bigSep Finset.univ fun w : Fin 5 => (((c.tc : Thread nD τ).loc (Pipeline.arrRef spec5 w)) ↦{fullShare} Fa w : sProp 𝕄) from
    bigSep_congr fun w _ => by
      have hw : ((cfg5.win w).arr).IsWhole := launch5.arr_whole w
      rw [hw.set_eq_univ, (dat5 c (W c) (B c)).share_full (fun _ => rfl) w]]
  rw [bigSep_W5]

/-- No table is prefetched. -/
theorem prefHeld5 (c : Dev nD) (q) (pf) : (Pipeline.prefHeld (Ix := HIx 5) (Name := ℕ) (U := UU) (Lvl := ℕ) (Val := Elt F) (pcfgs (F := F) 0).pre c q pf : sProp 𝕄) = BI.emp :=
  bigSep_Fin0 _

set_option backward.isDefEq.respectTransparency.types false in
/-- The region of pipeline 0, entered with its five arrays whole at the valuation `W` and the thread owing nothing, its
    recorded waits within `B`; left with the written-back array at what the pipeline's write-backs make of it, the
    others as they were, the thread owing nothing, its recorded waits within `B` and the pipeline's own. -/
def reg5 : Pipeline.RegionSeg (pcfgs (F := F)) adm (pdats W B) ι₀ defs₀ 𝒱₀ (K (F := F)).L lv 0 where
  win := launch5.win.to₀
  block_pos := launch5.block_pos
  stage_whole := launch5.stage_whole
  K := PEmpty
  osem k := k.elim
  ho := Pipeline.OwnSemFacts.none _
  hbody c := (body_obligation5 c (W c) (B c)).loose
  hwaits := Pipeline.hwaits_of_owed_zero _ _ _ _ _ _ 0 fun _ _ => rfl
  pre c := iprop(pt c main_v0 (W c main_v0) ∗ pt c main_v9 (W c main_v9) ∗ pt c main_v6 (W c main_v6) ∗ pt c main_v7 (W c main_v7) ∗ pt c main_v18 (W c main_v18)
    ∗ Pipeline.owesWithin c (0 : CellTallies nD τ sig (HIx 5)) (B c))
  post c := iprop(pt c main_v0 (W c main_v0) ∗ pt c main_v9 (W c main_v9) ∗ pt c main_v6 (W c main_v6) ∗ pt c main_v7 (W c main_v7)
    ∗ pt c main_v18 ((dat5 c (W c) (B c)).arrAt 4 cfg5.N)
    ∗ Pipeline.owesWithin c (0 : CellTallies nD τ sig (HIx 5)) (B c ∪ cfg5.waitPairs ι₀))
  X _ := iprop(emp)
  Y _ := iprop(emp)
  Z _ := iprop(emp)
  hentry c := by
    show iprop(_ ∗ _ ∗ _) ⊢ |={Set.univ}=> iprop((dat5 c (W c) (B c)).arrays ((dat5 c (W c) (B c)).arrAt · 0) ∗ _ ∗ (dat5 c (W c) (B c)).owesAt ι₀ 0 ∗ iprop(emp) ∗ iprop(emp))
    rw [arrays5_eq, prefHeld5]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 0 c).Φ 0 = Φ5 c from rfl]
    iintro ⟨-, -, Hr⟩; iexact Hr
  hout c := by
    rw [Pipeline.ownSems0_none, show (pdats W B 0 c).Φ (Fin.last (Pipeline.pin (pcfgs (F := F)) adm 0).N) = Φ5 c from rfl]
    iintro H
    isplitr; · iempintro
    isplitr; · iempintro
    iexact H
  hexit c := by
    show iprop((dat5 c (W c) (B c)).arrays ((dat5 c (W c) (B c)).arrAt · cfg5.N) ∗ (dat5 c (W c) (B c)).owesAt ι₀ (Fin.last cfg5.N) ∗ _ ∗ _) ⊢ _
    rw [arrays5_eq, (dat5 c (W c) (B c)).arrAt_in 0 rfl _, (dat5 c (W c) (B c)).arrAt_in 1 rfl _, (dat5 c (W c) (B c)).arrAt_in 2 rfl _, (dat5 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg5_pre (c : Dev nD) : (reg5 W B lv).pre c
    = iprop(pt c main_v0 (W c main_v0) ∗ pt c main_v9 (W c main_v9) ∗ pt c main_v6 (W c main_v6) ∗ pt c main_v7 (W c main_v7) ∗ pt c main_v18 (W c main_v18)
      ∗ Pipeline.owesWithin c (0 : CellTallies nD τ sig (HIx 5)) (B c)) := rfl

theorem reg5_post (c : Dev nD) : (reg5 W B lv).post c
    = iprop(pt c main_v0 (W c main_v0) ∗ pt c main_v9 (W c main_v9) ∗ pt c main_v6 (W c main_v6) ∗ pt c main_v7 (W c main_v7)
      ∗ pt c main_v18 ((dat5 c (W c) (B c)).arrAt 4 cfg5.N)
      ∗ Pipeline.owesWithin c (0 : CellTallies nD τ sig (HIx 5)) (B c ∪ cfg5.waitPairs ι₀)) := rfl

end Region5

/-! ## Pipeline 1 (custom_call 6): windows over main_v0, main_v11, main_v6, main_v7 and (written back) main_v19 -/

section Region6

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays6_eq (c : Dev nD) (Fa : (w : Fin cfg6.W) → Buf (Elt F) ((cfg6.win w).arr.view.loc (c.tc : Thread nD τ))) :
    ((dat6 c (W c) (B c)).arrays Fa : sProp 𝕄) = iprop(pt c main_v0 (Fa 0) ∗ pt c main_v11 (Fa 1) ∗ pt c main_v6 (Fa 2) ∗ pt c main_v7 (Fa 3) ∗ pt c main_v19 (Fa 4)) := by
  unfold Dat.arrays
  rw [show (bigSep Finset.univ fun w : Fin cfg6.W => ((cfg6.win w).arr.view.loc (c.tc : Thread nD τ) ↦[(cfg6.win w).arr.view.set]{(dat6 c (W c) (B c)).share w} Fa w : sProp 𝕄))
      = bigSep Finset.univ fun w : Fin 5 => (((c.tc : Thread nD τ).loc (Pipeline.arrRef spec6 w)) ↦{fullShare} Fa w : sProp 𝕄) from
    bigSep_congr fun w _ => by
      have hw : ((cfg6.win w).arr).IsWhole := launch6.arr_whole w
      rw [hw.set_eq_univ, (dat6 c (W c) (B c)).share_full (fun _ => rfl) w]]
  rw [bigSep_W6]

/-- No table is prefetched. -/
theorem prefHeld6 (c : Dev nD) (q) (pf) : (Pipeline.prefHeld (Ix := HIx 5) (Name := ℕ) (U := UU) (Lvl := ℕ) (Val := Elt F) (pcfgs (F := F) 1).pre c q pf : sProp 𝕄) = BI.emp :=
  bigSep_Fin0 _

set_option backward.isDefEq.respectTransparency.types false in
/-- The region of pipeline 1, entered with its five arrays whole at the valuation `W` and the thread owing nothing, its
    recorded waits within `B`; left with the written-back array at what the pipeline's write-backs make of it, the
    others as they were, the thread owing nothing, its recorded waits within `B` and the pipeline's own. -/
def reg6 : Pipeline.RegionSeg (pcfgs (F := F)) adm (pdats W B) ι₀ defs₀ 𝒱₀ (K (F := F)).L lv 1 where
  win := launch6.win.to₀
  block_pos := launch6.block_pos
  stage_whole := launch6.stage_whole
  K := PEmpty
  osem k := k.elim
  ho := Pipeline.OwnSemFacts.none _
  hbody c := (body_obligation6 c (W c) (B c)).loose
  hwaits := Pipeline.hwaits_of_owed_zero _ _ _ _ _ _ 1 fun _ _ => rfl
  pre c := iprop(pt c main_v0 (W c main_v0) ∗ pt c main_v11 (W c main_v11) ∗ pt c main_v6 (W c main_v6) ∗ pt c main_v7 (W c main_v7) ∗ pt c main_v19 (W c main_v19)
    ∗ Pipeline.owesWithin c (0 : CellTallies nD τ sig (HIx 5)) (B c))
  post c := iprop(pt c main_v0 (W c main_v0) ∗ pt c main_v11 (W c main_v11) ∗ pt c main_v6 (W c main_v6) ∗ pt c main_v7 (W c main_v7)
    ∗ pt c main_v19 ((dat6 c (W c) (B c)).arrAt 4 cfg6.N)
    ∗ Pipeline.owesWithin c (0 : CellTallies nD τ sig (HIx 5)) (B c ∪ cfg6.waitPairs ι₀))
  X _ := iprop(emp)
  Y _ := iprop(emp)
  Z _ := iprop(emp)
  hentry c := by
    show iprop(_ ∗ _ ∗ _) ⊢ |={Set.univ}=> iprop((dat6 c (W c) (B c)).arrays ((dat6 c (W c) (B c)).arrAt · 0) ∗ _ ∗ (dat6 c (W c) (B c)).owesAt ι₀ 0 ∗ iprop(emp) ∗ iprop(emp))
    rw [arrays6_eq, prefHeld6]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 1 c).Φ 0 = Φ6 c from rfl]
    iintro ⟨-, -, Hr⟩; iexact Hr
  hout c := by
    rw [Pipeline.ownSems0_none, show (pdats W B 1 c).Φ (Fin.last (Pipeline.pin (pcfgs (F := F)) adm 1).N) = Φ6 c from rfl]
    iintro H
    isplitr; · iempintro
    isplitr; · iempintro
    iexact H
  hexit c := by
    show iprop((dat6 c (W c) (B c)).arrays ((dat6 c (W c) (B c)).arrAt · cfg6.N) ∗ (dat6 c (W c) (B c)).owesAt ι₀ (Fin.last cfg6.N) ∗ _ ∗ _) ⊢ _
    rw [arrays6_eq, (dat6 c (W c) (B c)).arrAt_in 0 rfl _, (dat6 c (W c) (B c)).arrAt_in 1 rfl _, (dat6 c (W c) (B c)).arrAt_in 2 rfl _, (dat6 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg6_pre (c : Dev nD) : (reg6 W B lv).pre c
    = iprop(pt c main_v0 (W c main_v0) ∗ pt c main_v11 (W c main_v11) ∗ pt c main_v6 (W c main_v6) ∗ pt c main_v7 (W c main_v7) ∗ pt c main_v19 (W c main_v19)
      ∗ Pipeline.owesWithin c (0 : CellTallies nD τ sig (HIx 5)) (B c)) := rfl

theorem reg6_post (c : Dev nD) : (reg6 W B lv).post c
    = iprop(pt c main_v0 (W c main_v0) ∗ pt c main_v11 (W c main_v11) ∗ pt c main_v6 (W c main_v6) ∗ pt c main_v7 (W c main_v7)
      ∗ pt c main_v19 ((dat6 c (W c) (B c)).arrAt 4 cfg6.N)
      ∗ Pipeline.owesWithin c (0 : CellTallies nD τ sig (HIx 5)) (B c ∪ cfg6.waitPairs ι₀)) := rfl

end Region6

/-! ## Pipeline 2 (custom_call 7): windows over main_v0, main_v13, main_v6, main_v7 and (written back) main_v20 -/

section Region7

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays7_eq (c : Dev nD) (Fa : (w : Fin cfg7.W) → Buf (Elt F) ((cfg7.win w).arr.view.loc (c.tc : Thread nD τ))) :
    ((dat7 c (W c) (B c)).arrays Fa : sProp 𝕄) = iprop(pt c main_v0 (Fa 0) ∗ pt c main_v13 (Fa 1) ∗ pt c main_v6 (Fa 2) ∗ pt c main_v7 (Fa 3) ∗ pt c main_v20 (Fa 4)) := by
  unfold Dat.arrays
  rw [show (bigSep Finset.univ fun w : Fin cfg7.W => ((cfg7.win w).arr.view.loc (c.tc : Thread nD τ) ↦[(cfg7.win w).arr.view.set]{(dat7 c (W c) (B c)).share w} Fa w : sProp 𝕄))
      = bigSep Finset.univ fun w : Fin 5 => (((c.tc : Thread nD τ).loc (Pipeline.arrRef spec7 w)) ↦{fullShare} Fa w : sProp 𝕄) from
    bigSep_congr fun w _ => by
      have hw : ((cfg7.win w).arr).IsWhole := launch7.arr_whole w
      rw [hw.set_eq_univ, (dat7 c (W c) (B c)).share_full (fun _ => rfl) w]]
  rw [bigSep_W7]

/-- No table is prefetched. -/
theorem prefHeld7 (c : Dev nD) (q) (pf) : (Pipeline.prefHeld (Ix := HIx 5) (Name := ℕ) (U := UU) (Lvl := ℕ) (Val := Elt F) (pcfgs (F := F) 2).pre c q pf : sProp 𝕄) = BI.emp :=
  bigSep_Fin0 _

set_option backward.isDefEq.respectTransparency.types false in
/-- The region of pipeline 2, entered with its five arrays whole at the valuation `W` and the thread owing nothing, its
    recorded waits within `B`; left with the written-back array at what the pipeline's write-backs make of it, the
    others as they were, the thread owing nothing, its recorded waits within `B` and the pipeline's own. -/
def reg7 : Pipeline.RegionSeg (pcfgs (F := F)) adm (pdats W B) ι₀ defs₀ 𝒱₀ (K (F := F)).L lv 2 where
  win := launch7.win.to₀
  block_pos := launch7.block_pos
  stage_whole := launch7.stage_whole
  K := PEmpty
  osem k := k.elim
  ho := Pipeline.OwnSemFacts.none _
  hbody c := (body_obligation7 c (W c) (B c)).loose
  hwaits := Pipeline.hwaits_of_owed_zero _ _ _ _ _ _ 2 fun _ _ => rfl
  pre c := iprop(pt c main_v0 (W c main_v0) ∗ pt c main_v13 (W c main_v13) ∗ pt c main_v6 (W c main_v6) ∗ pt c main_v7 (W c main_v7) ∗ pt c main_v20 (W c main_v20)
    ∗ Pipeline.owesWithin c (0 : CellTallies nD τ sig (HIx 5)) (B c))
  post c := iprop(pt c main_v0 (W c main_v0) ∗ pt c main_v13 (W c main_v13) ∗ pt c main_v6 (W c main_v6) ∗ pt c main_v7 (W c main_v7)
    ∗ pt c main_v20 ((dat7 c (W c) (B c)).arrAt 4 cfg7.N)
    ∗ Pipeline.owesWithin c (0 : CellTallies nD τ sig (HIx 5)) (B c ∪ cfg7.waitPairs ι₀))
  X _ := iprop(emp)
  Y _ := iprop(emp)
  Z _ := iprop(emp)
  hentry c := by
    show iprop(_ ∗ _ ∗ _) ⊢ |={Set.univ}=> iprop((dat7 c (W c) (B c)).arrays ((dat7 c (W c) (B c)).arrAt · 0) ∗ _ ∗ (dat7 c (W c) (B c)).owesAt ι₀ 0 ∗ iprop(emp) ∗ iprop(emp))
    rw [arrays7_eq, prefHeld7]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 2 c).Φ 0 = Φ7 c from rfl]
    iintro ⟨-, -, Hr⟩; iexact Hr
  hout c := by
    rw [Pipeline.ownSems0_none, show (pdats W B 2 c).Φ (Fin.last (Pipeline.pin (pcfgs (F := F)) adm 2).N) = Φ7 c from rfl]
    iintro H
    isplitr; · iempintro
    isplitr; · iempintro
    iexact H
  hexit c := by
    show iprop((dat7 c (W c) (B c)).arrays ((dat7 c (W c) (B c)).arrAt · cfg7.N) ∗ (dat7 c (W c) (B c)).owesAt ι₀ (Fin.last cfg7.N) ∗ _ ∗ _) ⊢ _
    rw [arrays7_eq, (dat7 c (W c) (B c)).arrAt_in 0 rfl _, (dat7 c (W c) (B c)).arrAt_in 1 rfl _, (dat7 c (W c) (B c)).arrAt_in 2 rfl _, (dat7 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg7_pre (c : Dev nD) : (reg7 W B lv).pre c
    = iprop(pt c main_v0 (W c main_v0) ∗ pt c main_v13 (W c main_v13) ∗ pt c main_v6 (W c main_v6) ∗ pt c main_v7 (W c main_v7) ∗ pt c main_v20 (W c main_v20)
      ∗ Pipeline.owesWithin c (0 : CellTallies nD τ sig (HIx 5)) (B c)) := rfl

theorem reg7_post (c : Dev nD) : (reg7 W B lv).post c
    = iprop(pt c main_v0 (W c main_v0) ∗ pt c main_v13 (W c main_v13) ∗ pt c main_v6 (W c main_v6) ∗ pt c main_v7 (W c main_v7)
      ∗ pt c main_v20 ((dat7 c (W c) (B c)).arrAt 4 cfg7.N)
      ∗ Pipeline.owesWithin c (0 : CellTallies nD τ sig (HIx 5)) (B c ∪ cfg7.waitPairs ι₀)) := rfl

end Region7

/-! ## Pipeline 3 (custom_call 8): windows over main_v0, main_v15, main_v6, main_v7 and (written back) main_v21 -/

section Region8

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays8_eq (c : Dev nD) (Fa : (w : Fin cfg8.W) → Buf (Elt F) ((cfg8.win w).arr.view.loc (c.tc : Thread nD τ))) :
    ((dat8 c (W c) (B c)).arrays Fa : sProp 𝕄) = iprop(pt c main_v0 (Fa 0) ∗ pt c main_v15 (Fa 1) ∗ pt c main_v6 (Fa 2) ∗ pt c main_v7 (Fa 3) ∗ pt c main_v21 (Fa 4)) := by
  unfold Dat.arrays
  rw [show (bigSep Finset.univ fun w : Fin cfg8.W => ((cfg8.win w).arr.view.loc (c.tc : Thread nD τ) ↦[(cfg8.win w).arr.view.set]{(dat8 c (W c) (B c)).share w} Fa w : sProp 𝕄))
      = bigSep Finset.univ fun w : Fin 5 => (((c.tc : Thread nD τ).loc (Pipeline.arrRef spec8 w)) ↦{fullShare} Fa w : sProp 𝕄) from
    bigSep_congr fun w _ => by
      have hw : ((cfg8.win w).arr).IsWhole := launch8.arr_whole w
      rw [hw.set_eq_univ, (dat8 c (W c) (B c)).share_full (fun _ => rfl) w]]
  rw [bigSep_W8]

/-- No table is prefetched. -/
theorem prefHeld8 (c : Dev nD) (q) (pf) : (Pipeline.prefHeld (Ix := HIx 5) (Name := ℕ) (U := UU) (Lvl := ℕ) (Val := Elt F) (pcfgs (F := F) 3).pre c q pf : sProp 𝕄) = BI.emp :=
  bigSep_Fin0 _

set_option backward.isDefEq.respectTransparency.types false in
/-- The region of pipeline 3, entered with its five arrays whole at the valuation `W` and the thread owing nothing, its
    recorded waits within `B`; left with the written-back array at what the pipeline's write-backs make of it, the
    others as they were, the thread owing nothing, its recorded waits within `B` and the pipeline's own. -/
def reg8 : Pipeline.RegionSeg (pcfgs (F := F)) adm (pdats W B) ι₀ defs₀ 𝒱₀ (K (F := F)).L lv 3 where
  win := launch8.win.to₀
  block_pos := launch8.block_pos
  stage_whole := launch8.stage_whole
  K := PEmpty
  osem k := k.elim
  ho := Pipeline.OwnSemFacts.none _
  hbody c := (body_obligation8 c (W c) (B c)).loose
  hwaits := Pipeline.hwaits_of_owed_zero _ _ _ _ _ _ 3 fun _ _ => rfl
  pre c := iprop(pt c main_v0 (W c main_v0) ∗ pt c main_v15 (W c main_v15) ∗ pt c main_v6 (W c main_v6) ∗ pt c main_v7 (W c main_v7) ∗ pt c main_v21 (W c main_v21)
    ∗ Pipeline.owesWithin c (0 : CellTallies nD τ sig (HIx 5)) (B c))
  post c := iprop(pt c main_v0 (W c main_v0) ∗ pt c main_v15 (W c main_v15) ∗ pt c main_v6 (W c main_v6) ∗ pt c main_v7 (W c main_v7)
    ∗ pt c main_v21 ((dat8 c (W c) (B c)).arrAt 4 cfg8.N)
    ∗ Pipeline.owesWithin c (0 : CellTallies nD τ sig (HIx 5)) (B c ∪ cfg8.waitPairs ι₀))
  X _ := iprop(emp)
  Y _ := iprop(emp)
  Z _ := iprop(emp)
  hentry c := by
    show iprop(_ ∗ _ ∗ _) ⊢ |={Set.univ}=> iprop((dat8 c (W c) (B c)).arrays ((dat8 c (W c) (B c)).arrAt · 0) ∗ _ ∗ (dat8 c (W c) (B c)).owesAt ι₀ 0 ∗ iprop(emp) ∗ iprop(emp))
    rw [arrays8_eq, prefHeld8]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 3 c).Φ 0 = Φ8 c from rfl]
    iintro ⟨-, -, Hr⟩; iexact Hr
  hout c := by
    rw [Pipeline.ownSems0_none, show (pdats W B 3 c).Φ (Fin.last (Pipeline.pin (pcfgs (F := F)) adm 3).N) = Φ8 c from rfl]
    iintro H
    isplitr; · iempintro
    isplitr; · iempintro
    iexact H
  hexit c := by
    show iprop((dat8 c (W c) (B c)).arrays ((dat8 c (W c) (B c)).arrAt · cfg8.N) ∗ (dat8 c (W c) (B c)).owesAt ι₀ (Fin.last cfg8.N) ∗ _ ∗ _) ⊢ _
    rw [arrays8_eq, (dat8 c (W c) (B c)).arrAt_in 0 rfl _, (dat8 c (W c) (B c)).arrAt_in 1 rfl _, (dat8 c (W c) (B c)).arrAt_in 2 rfl _, (dat8 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg8_pre (c : Dev nD) : (reg8 W B lv).pre c
    = iprop(pt c main_v0 (W c main_v0) ∗ pt c main_v15 (W c main_v15) ∗ pt c main_v6 (W c main_v6) ∗ pt c main_v7 (W c main_v7) ∗ pt c main_v21 (W c main_v21)
      ∗ Pipeline.owesWithin c (0 : CellTallies nD τ sig (HIx 5)) (B c)) := rfl

theorem reg8_post (c : Dev nD) : (reg8 W B lv).post c
    = iprop(pt c main_v0 (W c main_v0) ∗ pt c main_v15 (W c main_v15) ∗ pt c main_v6 (W c main_v6) ∗ pt c main_v7 (W c main_v7)
      ∗ pt c main_v21 ((dat8 c (W c) (B c)).arrAt 4 cfg8.N)
      ∗ Pipeline.owesWithin c (0 : CellTallies nD τ sig (HIx 5)) (B c ∪ cfg8.waitPairs ι₀)) := rfl

end Region8

/-! ## Pipeline 4 (custom_call 9): windows over main_v0, main_v17, main_v6, main_v7 and (written back) main_v22 -/

section Region9

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays9_eq (c : Dev nD) (Fa : (w : Fin cfg9.W) → Buf (Elt F) ((cfg9.win w).arr.view.loc (c.tc : Thread nD τ))) :
    ((dat9 c (W c) (B c)).arrays Fa : sProp 𝕄) = iprop(pt c main_v0 (Fa 0) ∗ pt c main_v17 (Fa 1) ∗ pt c main_v6 (Fa 2) ∗ pt c main_v7 (Fa 3) ∗ pt c main_v22 (Fa 4)) := by
  unfold Dat.arrays
  rw [show (bigSep Finset.univ fun w : Fin cfg9.W => ((cfg9.win w).arr.view.loc (c.tc : Thread nD τ) ↦[(cfg9.win w).arr.view.set]{(dat9 c (W c) (B c)).share w} Fa w : sProp 𝕄))
      = bigSep Finset.univ fun w : Fin 5 => (((c.tc : Thread nD τ).loc (Pipeline.arrRef spec9 w)) ↦{fullShare} Fa w : sProp 𝕄) from
    bigSep_congr fun w _ => by
      have hw : ((cfg9.win w).arr).IsWhole := launch9.arr_whole w
      rw [hw.set_eq_univ, (dat9 c (W c) (B c)).share_full (fun _ => rfl) w]]
  rw [bigSep_W9]

/-- No table is prefetched. -/
theorem prefHeld9 (c : Dev nD) (q) (pf) : (Pipeline.prefHeld (Ix := HIx 5) (Name := ℕ) (U := UU) (Lvl := ℕ) (Val := Elt F) (pcfgs (F := F) 4).pre c q pf : sProp 𝕄) = BI.emp :=
  bigSep_Fin0 _

set_option backward.isDefEq.respectTransparency.types false in
/-- The region of pipeline 4, entered with its five arrays whole at the valuation `W` and the thread owing nothing, its
    recorded waits within `B`; left with the written-back array at what the pipeline's write-backs make of it, the
    others as they were, the thread owing nothing, its recorded waits within `B` and the pipeline's own. -/
def reg9 : Pipeline.RegionSeg (pcfgs (F := F)) adm (pdats W B) ι₀ defs₀ 𝒱₀ (K (F := F)).L lv 4 where
  win := launch9.win.to₀
  block_pos := launch9.block_pos
  stage_whole := launch9.stage_whole
  K := PEmpty
  osem k := k.elim
  ho := Pipeline.OwnSemFacts.none _
  hbody c := (body_obligation9 c (W c) (B c)).loose
  hwaits := Pipeline.hwaits_of_owed_zero _ _ _ _ _ _ 4 fun _ _ => rfl
  pre c := iprop(pt c main_v0 (W c main_v0) ∗ pt c main_v17 (W c main_v17) ∗ pt c main_v6 (W c main_v6) ∗ pt c main_v7 (W c main_v7) ∗ pt c main_v22 (W c main_v22)
    ∗ Pipeline.owesWithin c (0 : CellTallies nD τ sig (HIx 5)) (B c))
  post c := iprop(pt c main_v0 (W c main_v0) ∗ pt c main_v17 (W c main_v17) ∗ pt c main_v6 (W c main_v6) ∗ pt c main_v7 (W c main_v7)
    ∗ pt c main_v22 ((dat9 c (W c) (B c)).arrAt 4 cfg9.N)
    ∗ Pipeline.owesWithin c (0 : CellTallies nD τ sig (HIx 5)) (B c ∪ cfg9.waitPairs ι₀))
  X _ := iprop(emp)
  Y _ := iprop(emp)
  Z _ := iprop(emp)
  hentry c := by
    show iprop(_ ∗ _ ∗ _) ⊢ |={Set.univ}=> iprop((dat9 c (W c) (B c)).arrays ((dat9 c (W c) (B c)).arrAt · 0) ∗ _ ∗ (dat9 c (W c) (B c)).owesAt ι₀ 0 ∗ iprop(emp) ∗ iprop(emp))
    rw [arrays9_eq, prefHeld9]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 4 c).Φ 0 = Φ9 c from rfl]
    iintro ⟨-, -, Hr⟩; iexact Hr
  hout c := by
    rw [Pipeline.ownSems0_none, show (pdats W B 4 c).Φ (Fin.last (Pipeline.pin (pcfgs (F := F)) adm 4).N) = Φ9 c from rfl]
    iintro H
    isplitr; · iempintro
    isplitr; · iempintro
    iexact H
  hexit c := by
    show iprop((dat9 c (W c) (B c)).arrays ((dat9 c (W c) (B c)).arrAt · cfg9.N) ∗ (dat9 c (W c) (B c)).owesAt ι₀ (Fin.last cfg9.N) ∗ _ ∗ _) ⊢ _
    rw [arrays9_eq, (dat9 c (W c) (B c)).arrAt_in 0 rfl _, (dat9 c (W c) (B c)).arrAt_in 1 rfl _, (dat9 c (W c) (B c)).arrAt_in 2 rfl _, (dat9 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg9_pre (c : Dev nD) : (reg9 W B lv).pre c
    = iprop(pt c main_v0 (W c main_v0) ∗ pt c main_v17 (W c main_v17) ∗ pt c main_v6 (W c main_v6) ∗ pt c main_v7 (W c main_v7) ∗ pt c main_v22 (W c main_v22)
      ∗ Pipeline.owesWithin c (0 : CellTallies nD τ sig (HIx 5)) (B c)) := rfl

theorem reg9_post (c : Dev nD) : (reg9 W B lv).post c
    = iprop(pt c main_v0 (W c main_v0) ∗ pt c main_v17 (W c main_v17) ∗ pt c main_v6 (W c main_v6) ∗ pt c main_v7 (W c main_v7)
      ∗ pt c main_v22 ((dat9 c (W c) (B c)).arrAt 4 cfg9.N)
      ∗ Pipeline.owesWithin c (0 : CellTallies nD τ sig (HIx 5)) (B c ∪ cfg9.waitPairs ι₀)) := rfl

end Region9

end Cert.KernelIdeal.KP

end
-- ==== Proof.KHreg.lean ====
/-
  The five TensorCore regions as the SparseCore program's @main meets them after its last SparseCore call: each region's
  weakest precondition under the extended body table, from the TensorCore's handshake state and the pipeline's five
  arrays at named contents to the same with the written-back array at the pipeline's result.
-/
import proofs.«210879_g80607946211848_cont_9to1_m_1212_13_alg».proof.Proof.KRegion

set_option maxRecDepth 16384

noncomputable section

namespace Cert.KernelIdeal.KP

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-! ## Region 0, from the TensorCore's state after the last SparseCore call -/

section Hreg5

/-- The valuation that holds pipeline 0's five arrays at the named contents. -/
abbrev val5 (d : Dev nD) (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18)) :
    (b : Ref sig .tc) → Buf (Elt F) ((d : Thread nD τ).loc b) :=
  valOf d main_v0 main_v9 main_v6 main_v7 main_v18 X0 Gq Wt Bs A

/-- What pipeline 0 leaves in its written-back array `main_v18`, from the contents of its five arrays at entry. -/
def Conv0 {d : Dev nD} (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18)) :
    Buf (Elt F) ((T d : Thread nD τ).loc main_v18) :=
  (dat5 d (val5 d X0 Gq Wt Bs A) (wb (F := F) d)).arrAt 4 cfg5.N

set_option backward.isDefEq.respectTransparency.types false in
set_option maxHeartbeats 800000 in
/-- Pipeline 0's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv0` of them. -/
theorem hreg0 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18))
    (Φ : PUnit → sProp 𝕄) :
    iprop((K (F := F)).ctx EH P κ ∗ (K (F := F)).tcSt EH d 5 ∗ boundary (T d : Thread nD τ)
        ∗ Pipeline.cellsGhost cfgs EP 0 d ∗ Pipeline.toksInit cfgs EP 0 d
        ∗ ((T d : Thread nD τ).loc main_v0 ↦{fullShare} X0) ∗ ((T d : Thread nD τ).loc main_v9 ↦{fullShare} Gq) ∗ ((T d : Thread nD τ).loc main_v6 ↦{fullShare} Wt)
        ∗ ((T d : Thread nD τ).loc main_v7 ↦{fullShare} Bs) ∗ ((T d : Thread nD τ).loc main_v18 ↦{fullShare} A)
        ∗ (iprop((K (F := F)).tcSt EH d 5 ∗ boundary (T d : Thread nD τ)
            ∗ ((T d : Thread nD τ).loc main_v0 ↦{fullShare} X0) ∗ ((T d : Thread nD τ).loc main_v9 ↦{fullShare} Gq) ∗ ((T d : Thread nD τ).loc main_v6 ↦{fullShare} Wt)
            ∗ ((T d : Thread nD τ).loc main_v7 ↦{fullShare} Bs) ∗ ((T d : Thread nD τ).loc main_v18 ↦{fullShare} Conv0 X0 Gq Wt Bs A)) -∗ Φ ⟨⟩))
      ⊢ wp frame (wpE ((K (F := F)).defs D) 𝒱 (T d) none) Set.univ (Prog.lift (.customCall (SparseCore.inner (Pipeline.entry 0)) ())) Φ := by
  have hv : liftVal d (val5 d X0 Gq Wt Bs A) d = val5 d X0 Gq Wt Bs A := liftVal_self d _
  have h0 : val5 d X0 Gq Wt Bs A main_v0 = X0 := valOf_0 ..
  have h1 : val5 d X0 Gq Wt Bs A main_v9 = Gq := valOf_1 _ _ _ _ _ _ _ _ _ _ _ (by decide)
  have h2 : val5 d X0 Gq Wt Bs A main_v6 = Wt := valOf_2 _ _ _ _ _ _ _ _ _ _ _ (by decide) (by decide)
  have h3 : val5 d X0 Gq Wt Bs A main_v7 = Bs := valOf_3 _ _ _ _ _ _ _ _ _ _ _ (by decide) (by decide) (by decide)
  have h4 : val5 d X0 Gq Wt Bs A main_v18 = A := valOf_4 _ _ _ _ _ _ _ _ _ _ _ (by decide) (by decide) (by decide) (by decide)
  have hreg := Pipeline.RegionSeg.wp (pcfgs (F := F)) adm (pdats (liftVal d (val5 d X0 Gq Wt Bs A)) (fun c => wb (F := F) c)) ι₀ phinj EP defs₀ 𝒱₀
      (K (F := F)).L (K (F := F)).lev (reg5 (liftVal d (val5 d X0 Gq Wt Bs A)) (fun c => wb (F := F) c) (K (F := F)).lev) d none (fun _ h => nomatch h) (fun _ => .ret ⟨⟩) Φ
  rw [reg5_pre, reg5_post] at hreg
  rw [hv, h0, h1, h2, h3, h4] at hreg
  have hlift : wp frame (wpE (D (F := F)) 𝒱 (T d) none) Set.univ (.op (.customCall (Pipeline.entry 0) ()) fun _ => .ret ⟨⟩) Φ
      ⊢ wp frame (wpE ((K (F := F)).defs D) 𝒱 (T d) none) Set.univ (SparseCore.liftProg (.op (.customCall (Pipeline.entry 0) ()) fun _ => .ret ⟨⟩)) Φ :=
    (K (F := F)).wp_liftProg D 𝒱 (T d) Set.univ none _ Φ
  rw [show (Prog.lift (.customCall (SparseCore.inner (Pipeline.entry 0)) ()) : Prog (TpuEff nD τ sig (Elt F) (SparseCore.Sig (ΛP (F := F)) 5) .tc) PUnit)
      = SparseCore.liftProg (Q := 5) (.op (.customCall (Pipeline.entry 0) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg5

/-! ## Region 1, from the TensorCore's state after the last SparseCore call -/

section Hreg6

/-- The valuation that holds pipeline 1's five arrays at the named contents. -/
abbrev val6 (d : Dev nD) (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19)) :
    (b : Ref sig .tc) → Buf (Elt F) ((d : Thread nD τ).loc b) :=
  valOf d main_v0 main_v11 main_v6 main_v7 main_v19 X0 Gq Wt Bs A

/-- What pipeline 1 leaves in its written-back array `main_v19`, from the contents of its five arrays at entry. -/
def Conv1 {d : Dev nD} (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19)) :
    Buf (Elt F) ((T d : Thread nD τ).loc main_v19) :=
  (dat6 d (val6 d X0 Gq Wt Bs A) (wb (F := F) d)).arrAt 4 cfg6.N

set_option backward.isDefEq.respectTransparency.types false in
set_option maxHeartbeats 800000 in
/-- Pipeline 1's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv1` of them. -/
theorem hreg1 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19))
    (Φ : PUnit → sProp 𝕄) :
    iprop((K (F := F)).ctx EH P κ ∗ (K (F := F)).tcSt EH d 5 ∗ boundary (T d : Thread nD τ)
        ∗ Pipeline.cellsGhost cfgs EP 1 d ∗ Pipeline.toksInit cfgs EP 1 d
        ∗ ((T d : Thread nD τ).loc main_v0 ↦{fullShare} X0) ∗ ((T d : Thread nD τ).loc main_v11 ↦{fullShare} Gq) ∗ ((T d : Thread nD τ).loc main_v6 ↦{fullShare} Wt)
        ∗ ((T d : Thread nD τ).loc main_v7 ↦{fullShare} Bs) ∗ ((T d : Thread nD τ).loc main_v19 ↦{fullShare} A)
        ∗ (iprop((K (F := F)).tcSt EH d 5 ∗ boundary (T d : Thread nD τ)
            ∗ ((T d : Thread nD τ).loc main_v0 ↦{fullShare} X0) ∗ ((T d : Thread nD τ).loc main_v11 ↦{fullShare} Gq) ∗ ((T d : Thread nD τ).loc main_v6 ↦{fullShare} Wt)
            ∗ ((T d : Thread nD τ).loc main_v7 ↦{fullShare} Bs) ∗ ((T d : Thread nD τ).loc main_v19 ↦{fullShare} Conv1 X0 Gq Wt Bs A)) -∗ Φ ⟨⟩))
      ⊢ wp frame (wpE ((K (F := F)).defs D) 𝒱 (T d) none) Set.univ (Prog.lift (.customCall (SparseCore.inner (Pipeline.entry 1)) ())) Φ := by
  have hv : liftVal d (val6 d X0 Gq Wt Bs A) d = val6 d X0 Gq Wt Bs A := liftVal_self d _
  have h0 : val6 d X0 Gq Wt Bs A main_v0 = X0 := valOf_0 ..
  have h1 : val6 d X0 Gq Wt Bs A main_v11 = Gq := valOf_1 _ _ _ _ _ _ _ _ _ _ _ (by decide)
  have h2 : val6 d X0 Gq Wt Bs A main_v6 = Wt := valOf_2 _ _ _ _ _ _ _ _ _ _ _ (by decide) (by decide)
  have h3 : val6 d X0 Gq Wt Bs A main_v7 = Bs := valOf_3 _ _ _ _ _ _ _ _ _ _ _ (by decide) (by decide) (by decide)
  have h4 : val6 d X0 Gq Wt Bs A main_v19 = A := valOf_4 _ _ _ _ _ _ _ _ _ _ _ (by decide) (by decide) (by decide) (by decide)
  have hreg := Pipeline.RegionSeg.wp (pcfgs (F := F)) adm (pdats (liftVal d (val6 d X0 Gq Wt Bs A)) (fun c => wb (F := F) c)) ι₀ phinj EP defs₀ 𝒱₀
      (K (F := F)).L (K (F := F)).lev (reg6 (liftVal d (val6 d X0 Gq Wt Bs A)) (fun c => wb (F := F) c) (K (F := F)).lev) d none (fun _ h => nomatch h) (fun _ => .ret ⟨⟩) Φ
  rw [reg6_pre, reg6_post] at hreg
  rw [hv, h0, h1, h2, h3, h4] at hreg
  have hlift : wp frame (wpE (D (F := F)) 𝒱 (T d) none) Set.univ (.op (.customCall (Pipeline.entry 1) ()) fun _ => .ret ⟨⟩) Φ
      ⊢ wp frame (wpE ((K (F := F)).defs D) 𝒱 (T d) none) Set.univ (SparseCore.liftProg (.op (.customCall (Pipeline.entry 1) ()) fun _ => .ret ⟨⟩)) Φ :=
    (K (F := F)).wp_liftProg D 𝒱 (T d) Set.univ none _ Φ
  rw [show (Prog.lift (.customCall (SparseCore.inner (Pipeline.entry 1)) ()) : Prog (TpuEff nD τ sig (Elt F) (SparseCore.Sig (ΛP (F := F)) 5) .tc) PUnit)
      = SparseCore.liftProg (Q := 5) (.op (.customCall (Pipeline.entry 1) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg6

/-! ## Region 2, from the TensorCore's state after the last SparseCore call -/

section Hreg7

/-- The valuation that holds pipeline 2's five arrays at the named contents. -/
abbrev val7 (d : Dev nD) (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20)) :
    (b : Ref sig .tc) → Buf (Elt F) ((d : Thread nD τ).loc b) :=
  valOf d main_v0 main_v13 main_v6 main_v7 main_v20 X0 Gq Wt Bs A

/-- What pipeline 2 leaves in its written-back array `main_v20`, from the contents of its five arrays at entry. -/
def Conv2 {d : Dev nD} (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20)) :
    Buf (Elt F) ((T d : Thread nD τ).loc main_v20) :=
  (dat7 d (val7 d X0 Gq Wt Bs A) (wb (F := F) d)).arrAt 4 cfg7.N

set_option backward.isDefEq.respectTransparency.types false in
set_option maxHeartbeats 800000 in
/-- Pipeline 2's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv2` of them. -/
theorem hreg2 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20))
    (Φ : PUnit → sProp 𝕄) :
    iprop((K (F := F)).ctx EH P κ ∗ (K (F := F)).tcSt EH d 5 ∗ boundary (T d : Thread nD τ)
        ∗ Pipeline.cellsGhost cfgs EP 2 d ∗ Pipeline.toksInit cfgs EP 2 d
        ∗ ((T d : Thread nD τ).loc main_v0 ↦{fullShare} X0) ∗ ((T d : Thread nD τ).loc main_v13 ↦{fullShare} Gq) ∗ ((T d : Thread nD τ).loc main_v6 ↦{fullShare} Wt)
        ∗ ((T d : Thread nD τ).loc main_v7 ↦{fullShare} Bs) ∗ ((T d : Thread nD τ).loc main_v20 ↦{fullShare} A)
        ∗ (iprop((K (F := F)).tcSt EH d 5 ∗ boundary (T d : Thread nD τ)
            ∗ ((T d : Thread nD τ).loc main_v0 ↦{fullShare} X0) ∗ ((T d : Thread nD τ).loc main_v13 ↦{fullShare} Gq) ∗ ((T d : Thread nD τ).loc main_v6 ↦{fullShare} Wt)
            ∗ ((T d : Thread nD τ).loc main_v7 ↦{fullShare} Bs) ∗ ((T d : Thread nD τ).loc main_v20 ↦{fullShare} Conv2 X0 Gq Wt Bs A)) -∗ Φ ⟨⟩))
      ⊢ wp frame (wpE ((K (F := F)).defs D) 𝒱 (T d) none) Set.univ (Prog.lift (.customCall (SparseCore.inner (Pipeline.entry 2)) ())) Φ := by
  have hv : liftVal d (val7 d X0 Gq Wt Bs A) d = val7 d X0 Gq Wt Bs A := liftVal_self d _
  have h0 : val7 d X0 Gq Wt Bs A main_v0 = X0 := valOf_0 ..
  have h1 : val7 d X0 Gq Wt Bs A main_v13 = Gq := valOf_1 _ _ _ _ _ _ _ _ _ _ _ (by decide)
  have h2 : val7 d X0 Gq Wt Bs A main_v6 = Wt := valOf_2 _ _ _ _ _ _ _ _ _ _ _ (by decide) (by decide)
  have h3 : val7 d X0 Gq Wt Bs A main_v7 = Bs := valOf_3 _ _ _ _ _ _ _ _ _ _ _ (by decide) (by decide) (by decide)
  have h4 : val7 d X0 Gq Wt Bs A main_v20 = A := valOf_4 _ _ _ _ _ _ _ _ _ _ _ (by decide) (by decide) (by decide) (by decide)
  have hreg := Pipeline.RegionSeg.wp (pcfgs (F := F)) adm (pdats (liftVal d (val7 d X0 Gq Wt Bs A)) (fun c => wb (F := F) c)) ι₀ phinj EP defs₀ 𝒱₀
      (K (F := F)).L (K (F := F)).lev (reg7 (liftVal d (val7 d X0 Gq Wt Bs A)) (fun c => wb (F := F) c) (K (F := F)).lev) d none (fun _ h => nomatch h) (fun _ => .ret ⟨⟩) Φ
  rw [reg7_pre, reg7_post] at hreg
  rw [hv, h0, h1, h2, h3, h4] at hreg
  have hlift : wp frame (wpE (D (F := F)) 𝒱 (T d) none) Set.univ (.op (.customCall (Pipeline.entry 2) ()) fun _ => .ret ⟨⟩) Φ
      ⊢ wp frame (wpE ((K (F := F)).defs D) 𝒱 (T d) none) Set.univ (SparseCore.liftProg (.op (.customCall (Pipeline.entry 2) ()) fun _ => .ret ⟨⟩)) Φ :=
    (K (F := F)).wp_liftProg D 𝒱 (T d) Set.univ none _ Φ
  rw [show (Prog.lift (.customCall (SparseCore.inner (Pipeline.entry 2)) ()) : Prog (TpuEff nD τ sig (Elt F) (SparseCore.Sig (ΛP (F := F)) 5) .tc) PUnit)
      = SparseCore.liftProg (Q := 5) (.op (.customCall (Pipeline.entry 2) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg7

/-! ## Region 3, from the TensorCore's state after the last SparseCore call -/

section Hreg8

/-- The valuation that holds pipeline 3's five arrays at the named contents. -/
abbrev val8 (d : Dev nD) (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21)) :
    (b : Ref sig .tc) → Buf (Elt F) ((d : Thread nD τ).loc b) :=
  valOf d main_v0 main_v15 main_v6 main_v7 main_v21 X0 Gq Wt Bs A

/-- What pipeline 3 leaves in its written-back array `main_v21`, from the contents of its five arrays at entry. -/
def Conv3 {d : Dev nD} (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21)) :
    Buf (Elt F) ((T d : Thread nD τ).loc main_v21) :=
  (dat8 d (val8 d X0 Gq Wt Bs A) (wb (F := F) d)).arrAt 4 cfg8.N

set_option backward.isDefEq.respectTransparency.types false in
set_option maxHeartbeats 800000 in
/-- Pipeline 3's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv3` of them. -/
theorem hreg3 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21))
    (Φ : PUnit → sProp 𝕄) :
    iprop((K (F := F)).ctx EH P κ ∗ (K (F := F)).tcSt EH d 5 ∗ boundary (T d : Thread nD τ)
        ∗ Pipeline.cellsGhost cfgs EP 3 d ∗ Pipeline.toksInit cfgs EP 3 d
        ∗ ((T d : Thread nD τ).loc main_v0 ↦{fullShare} X0) ∗ ((T d : Thread nD τ).loc main_v15 ↦{fullShare} Gq) ∗ ((T d : Thread nD τ).loc main_v6 ↦{fullShare} Wt)
        ∗ ((T d : Thread nD τ).loc main_v7 ↦{fullShare} Bs) ∗ ((T d : Thread nD τ).loc main_v21 ↦{fullShare} A)
        ∗ (iprop((K (F := F)).tcSt EH d 5 ∗ boundary (T d : Thread nD τ)
            ∗ ((T d : Thread nD τ).loc main_v0 ↦{fullShare} X0) ∗ ((T d : Thread nD τ).loc main_v15 ↦{fullShare} Gq) ∗ ((T d : Thread nD τ).loc main_v6 ↦{fullShare} Wt)
            ∗ ((T d : Thread nD τ).loc main_v7 ↦{fullShare} Bs) ∗ ((T d : Thread nD τ).loc main_v21 ↦{fullShare} Conv3 X0 Gq Wt Bs A)) -∗ Φ ⟨⟩))
      ⊢ wp frame (wpE ((K (F := F)).defs D) 𝒱 (T d) none) Set.univ (Prog.lift (.customCall (SparseCore.inner (Pipeline.entry 3)) ())) Φ := by
  have hv : liftVal d (val8 d X0 Gq Wt Bs A) d = val8 d X0 Gq Wt Bs A := liftVal_self d _
  have h0 : val8 d X0 Gq Wt Bs A main_v0 = X0 := valOf_0 ..
  have h1 : val8 d X0 Gq Wt Bs A main_v15 = Gq := valOf_1 _ _ _ _ _ _ _ _ _ _ _ (by decide)
  have h2 : val8 d X0 Gq Wt Bs A main_v6 = Wt := valOf_2 _ _ _ _ _ _ _ _ _ _ _ (by decide) (by decide)
  have h3 : val8 d X0 Gq Wt Bs A main_v7 = Bs := valOf_3 _ _ _ _ _ _ _ _ _ _ _ (by decide) (by decide) (by decide)
  have h4 : val8 d X0 Gq Wt Bs A main_v21 = A := valOf_4 _ _ _ _ _ _ _ _ _ _ _ (by decide) (by decide) (by decide) (by decide)
  have hreg := Pipeline.RegionSeg.wp (pcfgs (F := F)) adm (pdats (liftVal d (val8 d X0 Gq Wt Bs A)) (fun c => wb (F := F) c)) ι₀ phinj EP defs₀ 𝒱₀
      (K (F := F)).L (K (F := F)).lev (reg8 (liftVal d (val8 d X0 Gq Wt Bs A)) (fun c => wb (F := F) c) (K (F := F)).lev) d none (fun _ h => nomatch h) (fun _ => .ret ⟨⟩) Φ
  rw [reg8_pre, reg8_post] at hreg
  rw [hv, h0, h1, h2, h3, h4] at hreg
  have hlift : wp frame (wpE (D (F := F)) 𝒱 (T d) none) Set.univ (.op (.customCall (Pipeline.entry 3) ()) fun _ => .ret ⟨⟩) Φ
      ⊢ wp frame (wpE ((K (F := F)).defs D) 𝒱 (T d) none) Set.univ (SparseCore.liftProg (.op (.customCall (Pipeline.entry 3) ()) fun _ => .ret ⟨⟩)) Φ :=
    (K (F := F)).wp_liftProg D 𝒱 (T d) Set.univ none _ Φ
  rw [show (Prog.lift (.customCall (SparseCore.inner (Pipeline.entry 3)) ()) : Prog (TpuEff nD τ sig (Elt F) (SparseCore.Sig (ΛP (F := F)) 5) .tc) PUnit)
      = SparseCore.liftProg (Q := 5) (.op (.customCall (Pipeline.entry 3) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg8

/-! ## Region 4, from the TensorCore's state after the last SparseCore call -/

section Hreg9

/-- The valuation that holds pipeline 4's five arrays at the named contents. -/
abbrev val9 (d : Dev nD) (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22)) :
    (b : Ref sig .tc) → Buf (Elt F) ((d : Thread nD τ).loc b) :=
  valOf d main_v0 main_v17 main_v6 main_v7 main_v22 X0 Gq Wt Bs A

/-- What pipeline 4 leaves in its written-back array `main_v22`, from the contents of its five arrays at entry. -/
def Conv4 {d : Dev nD} (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22)) :
    Buf (Elt F) ((T d : Thread nD τ).loc main_v22) :=
  (dat9 d (val9 d X0 Gq Wt Bs A) (wb (F := F) d)).arrAt 4 cfg9.N

set_option backward.isDefEq.respectTransparency.types false in
set_option maxHeartbeats 800000 in
/-- Pipeline 4's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv4` of them. -/
theorem hreg4 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22))
    (Φ : PUnit → sProp 𝕄) :
    iprop((K (F := F)).ctx EH P κ ∗ (K (F := F)).tcSt EH d 5 ∗ boundary (T d : Thread nD τ)
        ∗ Pipeline.cellsGhost cfgs EP 4 d ∗ Pipeline.toksInit cfgs EP 4 d
        ∗ ((T d : Thread nD τ).loc main_v0 ↦{fullShare} X0) ∗ ((T d : Thread nD τ).loc main_v17 ↦{fullShare} Gq) ∗ ((T d : Thread nD τ).loc main_v6 ↦{fullShare} Wt)
        ∗ ((T d : Thread nD τ).loc main_v7 ↦{fullShare} Bs) ∗ ((T d : Thread nD τ).loc main_v22 ↦{fullShare} A)
        ∗ (iprop((K (F := F)).tcSt EH d 5 ∗ boundary (T d : Thread nD τ)
            ∗ ((T d : Thread nD τ).loc main_v0 ↦{fullShare} X0) ∗ ((T d : Thread nD τ).loc main_v17 ↦{fullShare} Gq) ∗ ((T d : Thread nD τ).loc main_v6 ↦{fullShare} Wt)
            ∗ ((T d : Thread nD τ).loc main_v7 ↦{fullShare} Bs) ∗ ((T d : Thread nD τ).loc main_v22 ↦{fullShare} Conv4 X0 Gq Wt Bs A)) -∗ Φ ⟨⟩))
      ⊢ wp frame (wpE ((K (F := F)).defs D) 𝒱 (T d) none) Set.univ (Prog.lift (.customCall (SparseCore.inner (Pipeline.entry 4)) ())) Φ := by
  have hv : liftVal d (val9 d X0 Gq Wt Bs A) d = val9 d X0 Gq Wt Bs A := liftVal_self d _
  have h0 : val9 d X0 Gq Wt Bs A main_v0 = X0 := valOf_0 ..
  have h1 : val9 d X0 Gq Wt Bs A main_v17 = Gq := valOf_1 _ _ _ _ _ _ _ _ _ _ _ (by decide)
  have h2 : val9 d X0 Gq Wt Bs A main_v6 = Wt := valOf_2 _ _ _ _ _ _ _ _ _ _ _ (by decide) (by decide)
  have h3 : val9 d X0 Gq Wt Bs A main_v7 = Bs := valOf_3 _ _ _ _ _ _ _ _ _ _ _ (by decide) (by decide) (by decide)
  have h4 : val9 d X0 Gq Wt Bs A main_v22 = A := valOf_4 _ _ _ _ _ _ _ _ _ _ _ (by decide) (by decide) (by decide) (by decide)
  have hreg := Pipeline.RegionSeg.wp (pcfgs (F := F)) adm (pdats (liftVal d (val9 d X0 Gq Wt Bs A)) (fun c => wb (F := F) c)) ι₀ phinj EP defs₀ 𝒱₀
      (K (F := F)).L (K (F := F)).lev (reg9 (liftVal d (val9 d X0 Gq Wt Bs A)) (fun c => wb (F := F) c) (K (F := F)).lev) d none (fun _ h => nomatch h) (fun _ => .ret ⟨⟩) Φ
  rw [reg9_pre, reg9_post] at hreg
  rw [hv, h0, h1, h2, h3, h4] at hreg
  have hlift : wp frame (wpE (D (F := F)) 𝒱 (T d) none) Set.univ (.op (.customCall (Pipeline.entry 4) ()) fun _ => .ret ⟨⟩) Φ
      ⊢ wp frame (wpE ((K (F := F)).defs D) 𝒱 (T d) none) Set.univ (SparseCore.liftProg (.op (.customCall (Pipeline.entry 4) ()) fun _ => .ret ⟨⟩)) Φ :=
    (K (F := F)).wp_liftProg D 𝒱 (T d) Set.univ none _ Φ
  rw [show (Prog.lift (.customCall (SparseCore.inner (Pipeline.entry 4)) ()) : Prog (TpuEff nD τ sig (Elt F) (SparseCore.Sig (ΛP (F := F)) 5) .tc) PUnit)
      = SparseCore.liftProg (Q := 5) (.op (.customCall (Pipeline.entry 4) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg9

end Cert.KernelIdeal.KP

end
-- ==== Proof.KFinal.lean ====
/-
  The five convolution regions as @main's proof takes them, and with them the program's run and frame from the five
  tile bodies' theorems alone.
-/
import proofs.«210879_g80607946211848_cont_9to1_m_1212_13_alg».proof.Proof.KAssemble
import proofs.«210879_g80607946211848_cont_9to1_m_1212_13_alg».proof.Proof.KHreg

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 5) (Elt F) ℕ UU ℕ

/-- What region `p` leaves in its output array on device `d`, from the contents of its five arrays at entry. -/
def convOf (p : Fin 5) (d : Dev nD) : FVec F S128x160000 .f32 → FVec F S4x32000x128 .f32 → FVec F S5x128x128 .f32 → FVec F S128x1 .f32
    → FVec F S128x160000 .f32 → FVec F S128x160000 .f32 :=
  match p with
  | 0 => Conv0 (F := F) (d := d)
  | 1 => Conv1 (F := F) (d := d)
  | 2 => Conv2 (F := F) (d := d)
  | 3 => Conv3 (F := F) (d := d)
  | 4 => Conv4 (F := F) (d := d)

/-- The five regions, for any handshake payloads. -/
def regionsOf (P : (K (F := F)).Pay (nD := nD) (Val := Elt F) (Name := ℕ) (U := UU)) : Regions P where
  Conv := convOf
  wp0 := hreg0 P
  wp1 := hreg1 P
  wp2 := hreg2 P
  wp3 := hreg3 P
  wp4 := hreg4 P

variable (m : (ℓ : Loc nD τ sig) → Buf (Elt F) ℓ) (ρ : Dev nD → PrngReg)

/-- The program's result on device `d`, as a term of the launch memory. -/
abbrev KOutOf (d : Dev nD) : FVec F S1x128x160000x1 .f32 := KOut (regionsOf (P m)) d

/-- The program's run from the five tile bodies' theorems and the index ranges. -/
theorem run_all [∀ e, Nonempty (Elt F e)]
    (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    θ_run (Cert.KernelIdeal.defs (F := F)) (Cert.KernelIdeal.threads (F := F)) ⟨m, fun _ => 0, ρ⟩ (QC m (regionsOf (P m))) :=
  run_ki m ρ (regionsOf (P m)) hb0 hb1 hb2 hb3 hb4 hin0 hin1 hin2 hin3 hin4

end Cert.KernelIdeal.KP

namespace Cert.KernelIdeal.KP

open Cert.KernelIdeal Cert.KernelIdeal.Gen
open Idealize.ShloMosaic Idealize.SL.Sem
open Idealize.ShloMosaic.SparseCore.Cfg (HIx Pay)

/-- `Cert.frame_KernelIdeal` from the five tile bodies' theorems. -/
theorem frame_KernelIdeal_all
    (hb0 : TileBody0 (F := Ideal)) (hb1 : TileBody1 (F := Ideal)) (hb2 : TileBody2 (F := Ideal)) (hb3 : TileBody3 (F := Ideal)) (hb4 : TileBody4 (F := Ideal)) :
    Cert.frame_KernelIdeal :=
  frame_KernelIdeal_of (fun m => regionsOf (P (F := Ideal) m)) hb0 hb1 hb2 hb3 hb4

end Cert.KernelIdeal.KP

end
-- ==== Proof.KSetupB.lean ====
/-
  The program as the SparseCore launch theorem sees it: five vector-subcore gather calls (each on
  2 SparseCores × 16 vector subcores) followed by five TensorCore pipelines, on one device.  This module fixes
  the call table, the body table, the resource algebra (the handshakes' rounds, the pipelines' rounds, the
  local transfers' counters) and the embeddings everything else is stated over.
-/
import proofs.«210879_g80607946211848_cont_9to1_m_1212_13_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210879_g80607946211848_cont_9to1_m_1212_13_alg».proof.Proof.Gen.Kernel
import proofs.«210879_g80607946211848_cont_9to1_m_1212_13_alg».proof.Proof.Gen.Kernel.Launch
import proofs.«210879_g80607946211848_cont_9to1_m_1212_13_alg».proof.Proof.Gen.Kernel.Points

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq (q : Fin 5) : (K (F := F)).nCore q = 2 := by fin_cases q <;> rfl
theorem nSub_eq (q : Fin 5) : (K (F := F)).nSub q = 16 := by fin_cases q <;> rfl
theorem kind_eq (q : Fin 5) : (K (F := F)).kind q = .scVector := by fin_cases q <;> rfl

/-! ## The resource algebra: the handshakes' rounds, the pipelines' rounds, the transfers' counters -/

abbrev UH : Type := URounds (GSem nD τ sig) ℕ
abbrev UP : Type := UR sig nD τ
abbrev UU : Type := UH × (UP × Counters)

/-- The handshakes' rounds library: the left factor. -/
abbrev EH : Emb UH (MT nD τ sig (HIx 5) (Elt F) ℕ UU ℕ) := embL
/-- The pipelines' rounds library: the middle factor. -/
def EP : Emb UP (MT nD τ sig (HIx 5) (Elt F) ℕ UU ℕ) :=
  (Emb.inl : Emb UP (UP × Counters)).trans (embR : Emb (UP × Counters) (MT nD τ sig (HIx 5) (Elt F) ℕ UU ℕ))

instance EP_landsIn : (EP : Emb UP (MT nD τ sig (HIx 5) (Elt F) ℕ UU ℕ)).LandsIn (upEmb : UEmb _ (MT nD τ sig (HIx 5) (Elt F) ℕ UU ℕ)) := by
  unfold EP; infer_instance

/-- The counters are found in the right factor by instance. -/
example : CountersIn UU := inferInstance

end Cert.Kernel.KP

end
-- ==== Proof.TileRes0B.lean ====
/-
  Call 0 of the gather kernel, seen from one vector subcore (a "tile").  Tile (c, s) of the 2 × 16 grid has number
  w = 2 s + c and serves the index chunks w, w + 32, w + 64, … below 250: for chunk n it fetches the 4 × 128 index
  block n, gathers for each of the four planes j the 128 rows of the table named there, and writes them to rows
  128 n … 128 n + 127 of plane j of the result.  So entry (j, r, k) of the result is entry (idx[r / 128, j, r % 128], k)
  of the table.  This module names the tile's thread, the result's windows as the kernel slices them, the gathered
  array as one function, and what a task is handed and hands back.
-/
import proofs.«210879_g80607946211848_cont_9to1_m_1212_13_alg».proof.Proof.KSetupB
import Idealize.ShloMosaic.Lib.ValueIdx

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The gathered array, as one function (the same for every call: the shapes agree) -/

/-- Row id read from the index block: chunk `r / 128`, plane `j`, lane `r % 128`; reduced modulo the table's 160000 rows
    (the identity on ids in range). -/
def gRow (I : IVec S250x4x128 32) (j : Fin 4) (r : Fin 32000) : Fin 160000 :=
  ⟨(I (ix3 (⟨r.val / 128, by have := r.isLt; omega⟩ : Fin 250) j (⟨r.val % 128, Nat.mod_lt _ (by decide)⟩ : Fin 128))).toNat % 160000,
    Nat.mod_lt _ (by decide)⟩

/-- The result of a gather call: entry `(j, r, k)` is entry `(gRow I j r, k)` of the table. -/
def gath (X : FVec F S160000x128 .f32) (I : IVec S250x4x128 32) : FVec F S4x32000x128 .f32 :=
  fun i => X (ix2 (gRow I (i 0) (i 1)) (i 2))

/-! ## Call 0: the thread, the arrays, the result's windows -/

abbrev cV0 (L : grid0.Coords) : Fin τ.nSC := (L 0).castLE hcore0
abbrev jV0 (L : grid0.Coords) : Fin τ.nSub := (L 1).castLE hsub0
/-- The tile's thread. -/
abbrev thr0 (d : Dev nD) (L : grid0.Coords) : Thread nD τ := V d (cV0 L) (jV0 L)

def coordsV0 (c : Fin (grid0.bound 0)) (s : Fin (grid0.bound 1)) : grid0.Coords :=
  fun | 0 => c | 1 => s | ⟨_ + 2, h⟩ => absurd h (Nat.not_lt.2 (Nat.le_add_left _ _))

/-- The table, the index block and the result, as the TensorCore names them on device `d`. -/
abbrev xLoc (d : Dev nD) : Loc nD τ sig := (SparseCore.T d).loc main_v1
abbrev iLoc0 (d : Dev nD) : Loc nD τ sig := (SparseCore.T d).loc main_v8
abbrev oLoc0 (d : Dev nD) : Loc nD τ sig := (SparseCore.T d).loc main_v9

/-- Trip `t` of the tile's loop is active: its chunk number is below 250. -/
abbrev Act0 (L : grid0.Coords) (t : Fin k0_t1_loop.trips) : Prop := k0_cond1 L t = 1#1

/-- The four windows trip `t` writes: rows of its chunk in planes 0, 1, 2, 3, spelt as the kernel slices them. -/
abbrev oWin0_0 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off10 L t) S1x128x128.size (k0_off10_inb L t h)) (fun _ => rfl)).squeeze S128x128 squeezes_S1x128x128_S128x128
abbrev oWin0_1 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off11 L t) S1x128x128.size (k0_off11_inb L t h)) (fun _ => rfl)).squeeze S128x128 squeezes_S1x128x128_S128x128
abbrev oWin0_2 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off12 L t) S1x128x128.size (k0_off12_inb L t h)) (fun _ => rfl)).squeeze S128x128 squeezes_S1x128x128_S128x128
abbrev oWin0_3 (L : grid0.Coords) (t : Fin k0_t1_loop.trips) (h : Act0 L t) : Memref sig .scVector .hbm S128x128 .f32 :=
  ((Memref.whole main_v9_scv : Memref sig .scVector .hbm S4x32000x128 .f32).slice (Rect.unit (s := S4x32000x128) (k0_off13 L t) S1x128x128.size (k0_off13_inb L t h)) (fun _ => rfl)).squeeze S128x128 squeezes_S1x128x128_S128x128

/-- The elements of the result trip `t` of tile `L` writes, plane by plane. -/
abbrev oSet0 (L : grid0.Coords) (t : Fin k0_t1_loop.trips) (h : Act0 L t) : Fin 4 → Finset S4x32000x128.Idx
  | 0 => (oWin0_0 L t h).view.set
  | 1 => (oWin0_1 L t h).view.set
  | 2 => (oWin0_2 L t h).view.set
  | 3 => (oWin0_3 L t h).view.set

/-- The result's elements of trip `t`, all four planes, held at contents `f`: nothing for an idle trip. -/
def oTrip0 (d : Dev nD) (L : grid0.Coords) (f : Buf (Elt F) (oLoc0 d)) (t : Fin k0_t1_loop.trips) : sProp 𝕄 :=
  if h : Act0 L t then
    iprop((oLoc0 d ↦[oSet0 L t h 0]{fullShare} f) ∗ (oLoc0 d ↦[oSet0 L t h 1]{fullShare} f)
      ∗ (oLoc0 d ↦[oSet0 L t h 2]{fullShare} f) ∗ (oLoc0 d ↦[oSet0 L t h 3]{fullShare} f))
  else iprop(emp)

/-- The read share of the table and of the index block tile `L` is lent: the tile's token of its SparseCore's token. -/
abbrev qTile0 (L : grid0.Coords) : PosShare TreeShare :=
  shareTok (shareTok fullShare 2 (L 0)) 16 (L 1)

/-- What the go signal hands tile `L`: a read share of the table `X` and of the index block `I`, and its own windows of
    the result at the contents `G` the call found. -/
def tileGo0 (d : Dev nD) (X : Buf (Elt F) (xLoc d)) (I : Buf (Elt F) (iLoc0 d)) (G : Buf (Elt F) (oLoc0 d)) (L : grid0.Coords) : sProp 𝕄 :=
  iprop((xLoc d ↦{qTile0 L} X) ∗ (iLoc0 d ↦{qTile0 L} I) ∗ bigSep Finset.univ fun t : Fin k0_t1_loop.trips => oTrip0 d L G t)

/-- What its taskDone hands back: the shares, and the windows at the gathered array. -/
def tileTd0 (d : Dev nD) (X : Buf (Elt F) (xLoc d)) (I : Buf (Elt F) (iLoc0 d)) (L : grid0.Coords) : sProp 𝕄 :=
  iprop((xLoc d ↦{qTile0 L} X) ∗ (iLoc0 d ↦{qTile0 L} I)
    ∗ bigSep Finset.univ fun t : Fin k0_t1_loop.trips => oTrip0 d L (gath (F := F) X I) t)

end Cert.Kernel.KP

end
-- ==== Proof.TileRes1B.lean ====
/-
  Call 1 of the gather kernel, seen from one vector subcore: call 0's names over call 1's index block (main_v10)
  and result array (main_v11).  The table, the gathered array as one function and the tiles' coordinates are call 0's.
-/
import proofs.«210879_g80607946211848_cont_9to1_m_1212_13_alg».proof.Proof.TileRes0B
import Idealize.ShloMosaic.Lib.ValueIdx

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 1: the thread, the arrays, the result's windows -/

abbrev cV1 (L : grid1.Coords) : Fin τ.nSC := (L 0).castLE hcore1
abbrev jV1 (L : grid1.Coords) : Fin τ.nSub := (L 1).castLE hsub1
/-- The tile's thread. -/
abbrev thr1 (d : Dev nD) (L : grid1.Coords) : Thread nD τ := V d (cV1 L) (jV1 L)

/-- The index block and the result, as the TensorCore names them on device `d`. -/
abbrev iLoc1 (d : Dev nD) : Loc nD τ sig := (SparseCore.T d).loc main_v10
abbrev oLoc1 (d : Dev nD) : Loc nD τ sig := (SparseCore.T d).loc main_v11

/-- Trip `t` of the tile's loop is active: its chunk number is below 250. -/
abbrev Act1 (L : grid1.Coords) (t : Fin k1_t1_loop.trips) : Prop := k1_cond1 L t = 1#1

/-- The four windows trip `t` writes: rows of its chunk in planes 0, 1, 2, 3, spelt as the kernel slices them. -/
abbrev oWin1_0 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off10 L t) S1x128x128.size (k1_off10_inb L t h)) (fun _ => rfl)).squeeze S128x128 squeezes_S1x128x128_S128x128
abbrev oWin1_1 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off11 L t) S1x128x128.size (k1_off11_inb L t h)) (fun _ => rfl)).squeeze S128x128 squeezes_S1x128x128_S128x128
abbrev oWin1_2 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off12 L t) S1x128x128.size (k1_off12_inb L t h)) (fun _ => rfl)).squeeze S128x128 squeezes_S1x128x128_S128x128
abbrev oWin1_3 (L : grid1.Coords) (t : Fin k1_t1_loop.trips) (h : Act1 L t) : Memref sig .scVector .hbm S128x128 .f32 :=
  ((Memref.whole main_v11_scv : Memref sig .scVector .hbm S4x32000x128 .f32).slice (Rect.unit (s := S4x32000x128) (k1_off13 L t) S1x128x128.size (k1_off13_inb L t h)) (fun _ => rfl)).squeeze S128x128 squeezes_S1x128x128_S128x128

/-- The elements of the result trip `t` of tile `L` writes, plane by plane. -/
abbrev oSet1 (L : grid1.Coords) (t : Fin k1_t1_loop.trips) (h : Act1 L t) : Fin 4 → Finset S4x32000x128.Idx
  | 0 => (oWin1_0 L t h).view.set
  | 1 => (oWin1_1 L t h).view.set
  | 2 => (oWin1_2 L t h).view.set
  | 3 => (oWin1_3 L t h).view.set

/-- The result's elements of trip `t`, all four planes, held at contents `f`: nothing for an idle trip. -/
def oTrip1 (d : Dev nD) (L : grid1.Coords) (f : Buf (Elt F) (oLoc1 d)) (t : Fin k1_t1_loop.trips) : sProp 𝕄 :=
  if h : Act1 L t then
    iprop((oLoc1 d ↦[oSet1 L t h 0]{fullShare} f) ∗ (oLoc1 d ↦[oSet1 L t h 1]{fullShare} f)
      ∗ (oLoc1 d ↦[oSet1 L t h 2]{fullShare} f) ∗ (oLoc1 d ↦[oSet1 L t h 3]{fullShare} f))
  else iprop(emp)

/-- The read share of the table and of the index block tile `L` is lent: the tile's token of its SparseCore's token. -/
abbrev qTile1 (L : grid1.Coords) : PosShare TreeShare :=
  shareTok (shareTok fullShare 2 (L 0)) 16 (L 1)

/-- What the go signal hands tile `L`: a read share of the table `X` and of the index block `I`, and its own windows of
    the result at the contents `G` the call found. -/
def tileGo1 (d : Dev nD) (X : Buf (Elt F) (xLoc d)) (I : Buf (Elt F) (iLoc1 d)) (G : Buf (Elt F) (oLoc1 d)) (L : grid1.Coords) : sProp 𝕄 :=
  iprop((xLoc d ↦{qTile1 L} X) ∗ (iLoc1 d ↦{qTile1 L} I) ∗ bigSep Finset.univ fun t : Fin k1_t1_loop.trips => oTrip1 d L G t)

/-- What its taskDone hands back: the shares, and the windows at the gathered array. -/
def tileTd1 (d : Dev nD) (X : Buf (Elt F) (xLoc d)) (I : Buf (Elt F) (iLoc1 d)) (L : grid1.Coords) : sProp 𝕄 :=
  iprop((xLoc d ↦{qTile1 L} X) ∗ (iLoc1 d ↦{qTile1 L} I)
    ∗ bigSep Finset.univ fun t : Fin k1_t1_loop.trips => oTrip1 d L (gath (F := F) X I) t)

end Cert.Kernel.KP

end
-- ==== Proof.TileRes2B.lean ====
/-
  Call 2 of the gather kernel, seen from one vector subcore: call 0's names over call 2's index block (main_v12)
  and result array (main_v13).  The table, the gathered array as one function and the tiles' coordinates are call 0's.
-/
import proofs.«210879_g80607946211848_cont_9to1_m_1212_13_alg».proof.Proof.TileRes0B
import Idealize.ShloMosaic.Lib.ValueIdx

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 2: the thread, the arrays, the result's windows -/

abbrev cV2 (L : grid2.Coords) : Fin τ.nSC := (L 0).castLE hcore2
abbrev jV2 (L : grid2.Coords) : Fin τ.nSub := (L 1).castLE hsub2
/-- The tile's thread. -/
abbrev thr2 (d : Dev nD) (L : grid2.Coords) : Thread nD τ := V d (cV2 L) (jV2 L)

/-- The index block and the result, as the TensorCore names them on device `d`. -/
abbrev iLoc2 (d : Dev nD) : Loc nD τ sig := (SparseCore.T d).loc main_v12
abbrev oLoc2 (d : Dev nD) : Loc nD τ sig := (SparseCore.T d).loc main_v13

/-- Trip `t` of the tile's loop is active: its chunk number is below 250. -/
abbrev Act2 (L : grid2.Coords) (t : Fin k2_t1_loop.trips) : Prop := k2_cond1 L t = 1#1

/-- The four windows trip `t` writes: rows of its chunk in planes 0, 1, 2, 3, spelt as the kernel slices them. -/
abbrev oWin2_0 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off10 L t) S1x128x128.size (k2_off10_inb L t h)) (fun _ => rfl)).squeeze S128x128 squeezes_S1x128x128_S128x128
abbrev oWin2_1 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off11 L t) S1x128x128.size (k2_off11_inb L t h)) (fun _ => rfl)).squeeze S128x128 squeezes_S1x128x128_S128x128
abbrev oWin2_2 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off12 L t) S1x128x128.size (k2_off12_inb L t h)) (fun _ => rfl)).squeeze S128x128 squeezes_S1x128x128_S128x128
abbrev oWin2_3 (L : grid2.Coords) (t : Fin k2_t1_loop.trips) (h : Act2 L t) : Memref sig .scVector .hbm S128x128 .f32 :=
  ((Memref.whole main_v13_scv : Memref sig .scVector .hbm S4x32000x128 .f32).slice (Rect.unit (s := S4x32000x128) (k2_off13 L t) S1x128x128.size (k2_off13_inb L t h)) (fun _ => rfl)).squeeze S128x128 squeezes_S1x128x128_S128x128

/-- The elements of the result trip `t` of tile `L` writes, plane by plane. -/
abbrev oSet2 (L : grid2.Coords) (t : Fin k2_t1_loop.trips) (h : Act2 L t) : Fin 4 → Finset S4x32000x128.Idx
  | 0 => (oWin2_0 L t h).view.set
  | 1 => (oWin2_1 L t h).view.set
  | 2 => (oWin2_2 L t h).view.set
  | 3 => (oWin2_3 L t h).view.set

/-- The result's elements of trip `t`, all four planes, held at contents `f`: nothing for an idle trip. -/
def oTrip2 (d : Dev nD) (L : grid2.Coords) (f : Buf (Elt F) (oLoc2 d)) (t : Fin k2_t1_loop.trips) : sProp 𝕄 :=
  if h : Act2 L t then
    iprop((oLoc2 d ↦[oSet2 L t h 0]{fullShare} f) ∗ (oLoc2 d ↦[oSet2 L t h 1]{fullShare} f)
      ∗ (oLoc2 d ↦[oSet2 L t h 2]{fullShare} f) ∗ (oLoc2 d ↦[oSet2 L t h 3]{fullShare} f))
  else iprop(emp)

/-- The read share of the table and of the index block tile `L` is lent: the tile's token of its SparseCore's token. -/
abbrev qTile2 (L : grid2.Coords) : PosShare TreeShare :=
  shareTok (shareTok fullShare 2 (L 0)) 16 (L 1)

/-- What the go signal hands tile `L`: a read share of the table `X` and of the index block `I`, and its own windows of
    the result at the contents `G` the call found. -/
def tileGo2 (d : Dev nD) (X : Buf (Elt F) (xLoc d)) (I : Buf (Elt F) (iLoc2 d)) (G : Buf (Elt F) (oLoc2 d)) (L : grid2.Coords) : sProp 𝕄 :=
  iprop((xLoc d ↦{qTile2 L} X) ∗ (iLoc2 d ↦{qTile2 L} I) ∗ bigSep Finset.univ fun t : Fin k2_t1_loop.trips => oTrip2 d L G t)

/-- What its taskDone hands back: the shares, and the windows at the gathered array. -/
def tileTd2 (d : Dev nD) (X : Buf (Elt F) (xLoc d)) (I : Buf (Elt F) (iLoc2 d)) (L : grid2.Coords) : sProp 𝕄 :=
  iprop((xLoc d ↦{qTile2 L} X) ∗ (iLoc2 d ↦{qTile2 L} I)
    ∗ bigSep Finset.univ fun t : Fin k2_t1_loop.trips => oTrip2 d L (gath (F := F) X I) t)

end Cert.Kernel.KP

end
-- ==== Proof.TileRes3B.lean ====
/-
  Call 3 of the gather kernel, seen from one vector subcore: call 0's names over call 3's index block (main_v14)
  and result array (main_v15).  The table, the gathered array as one function and the tiles' coordinates are call 0's.
-/
import proofs.«210879_g80607946211848_cont_9to1_m_1212_13_alg».proof.Proof.TileRes0B
import Idealize.ShloMosaic.Lib.ValueIdx

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 3: the thread, the arrays, the result's windows -/

abbrev cV3 (L : grid3.Coords) : Fin τ.nSC := (L 0).castLE hcore3
abbrev jV3 (L : grid3.Coords) : Fin τ.nSub := (L 1).castLE hsub3
/-- The tile's thread. -/
abbrev thr3 (d : Dev nD) (L : grid3.Coords) : Thread nD τ := V d (cV3 L) (jV3 L)

/-- The index block and the result, as the TensorCore names them on device `d`. -/
abbrev iLoc3 (d : Dev nD) : Loc nD τ sig := (SparseCore.T d).loc main_v14
abbrev oLoc3 (d : Dev nD) : Loc nD τ sig := (SparseCore.T d).loc main_v15

/-- Trip `t` of the tile's loop is active: its chunk number is below 250. -/
abbrev Act3 (L : grid3.Coords) (t : Fin k3_t1_loop.trips) : Prop := k3_cond1 L t = 1#1

/-- The four windows trip `t` writes: rows of its chunk in planes 0, 1, 2, 3, spelt as the kernel slices them. -/
abbrev oWin3_0 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off10 L t) S1x128x128.size (k3_off10_inb L t h)) (fun _ => rfl)).squeeze S128x128 squeezes_S1x128x128_S128x128
abbrev oWin3_1 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off11 L t) S1x128x128.size (k3_off11_inb L t h)) (fun _ => rfl)).squeeze S128x128 squeezes_S1x128x128_S128x128
abbrev oWin3_2 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off12 L t) S1x128x128.size (k3_off12_inb L t h)) (fun _ => rfl)).squeeze S128x128 squeezes_S1x128x128_S128x128
abbrev oWin3_3 (L : grid3.Coords) (t : Fin k3_t1_loop.trips) (h : Act3 L t) : Memref sig .scVector .hbm S128x128 .f32 :=
  ((Memref.whole main_v15_scv : Memref sig .scVector .hbm S4x32000x128 .f32).slice (Rect.unit (s := S4x32000x128) (k3_off13 L t) S1x128x128.size (k3_off13_inb L t h)) (fun _ => rfl)).squeeze S128x128 squeezes_S1x128x128_S128x128

/-- The elements of the result trip `t` of tile `L` writes, plane by plane. -/
abbrev oSet3 (L : grid3.Coords) (t : Fin k3_t1_loop.trips) (h : Act3 L t) : Fin 4 → Finset S4x32000x128.Idx
  | 0 => (oWin3_0 L t h).view.set
  | 1 => (oWin3_1 L t h).view.set
  | 2 => (oWin3_2 L t h).view.set
  | 3 => (oWin3_3 L t h).view.set

/-- The result's elements of trip `t`, all four planes, held at contents `f`: nothing for an idle trip. -/
def oTrip3 (d : Dev nD) (L : grid3.Coords) (f : Buf (Elt F) (oLoc3 d)) (t : Fin k3_t1_loop.trips) : sProp 𝕄 :=
  if h : Act3 L t then
    iprop((oLoc3 d ↦[oSet3 L t h 0]{fullShare} f) ∗ (oLoc3 d ↦[oSet3 L t h 1]{fullShare} f)
      ∗ (oLoc3 d ↦[oSet3 L t h 2]{fullShare} f) ∗ (oLoc3 d ↦[oSet3 L t h 3]{fullShare} f))
  else iprop(emp)

/-- The read share of the table and of the index block tile `L` is lent: the tile's token of its SparseCore's token. -/
abbrev qTile3 (L : grid3.Coords) : PosShare TreeShare :=
  shareTok (shareTok fullShare 2 (L 0)) 16 (L 1)

/-- What the go signal hands tile `L`: a read share of the table `X` and of the index block `I`, and its own windows of
    the result at the contents `G` the call found. -/
def tileGo3 (d : Dev nD) (X : Buf (Elt F) (xLoc d)) (I : Buf (Elt F) (iLoc3 d)) (G : Buf (Elt F) (oLoc3 d)) (L : grid3.Coords) : sProp 𝕄 :=
  iprop((xLoc d ↦{qTile3 L} X) ∗ (iLoc3 d ↦{qTile3 L} I) ∗ bigSep Finset.univ fun t : Fin k3_t1_loop.trips => oTrip3 d L G t)

/-- What its taskDone hands back: the shares, and the windows at the gathered array. -/
def tileTd3 (d : Dev nD) (X : Buf (Elt F) (xLoc d)) (I : Buf (Elt F) (iLoc3 d)) (L : grid3.Coords) : sProp 𝕄 :=
  iprop((xLoc d ↦{qTile3 L} X) ∗ (iLoc3 d ↦{qTile3 L} I)
    ∗ bigSep Finset.univ fun t : Fin k3_t1_loop.trips => oTrip3 d L (gath (F := F) X I) t)

end Cert.Kernel.KP

end
-- ==== Proof.TileRes4B.lean ====
/-
  Call 4 of the gather kernel, seen from one vector subcore: call 0's names over call 4's index block (main_v16)
  and result array (main_v17).  The table, the gathered array as one function and the tiles' coordinates are call 0's.
-/
import proofs.«210879_g80607946211848_cont_9to1_m_1212_13_alg».proof.Proof.TileRes0B
import Idealize.ShloMosaic.Lib.ValueIdx

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## Call 4: the thread, the arrays, the result's windows -/

abbrev cV4 (L : grid4.Coords) : Fin τ.nSC := (L 0).castLE hcore4
abbrev jV4 (L : grid4.Coords) : Fin τ.nSub := (L 1).castLE hsub4
/-- The tile's thread. -/
abbrev thr4 (d : Dev nD) (L : grid4.Coords) : Thread nD τ := V d (cV4 L) (jV4 L)

/-- The index block and the result, as the TensorCore names them on device `d`. -/
abbrev iLoc4 (d : Dev nD) : Loc nD τ sig := (SparseCore.T d).loc main_v16
abbrev oLoc4 (d : Dev nD) : Loc nD τ sig := (SparseCore.T d).loc main_v17

/-- Trip `t` of the tile's loop is active: its chunk number is below 250. -/
abbrev Act4 (L : grid4.Coords) (t : Fin k4_t1_loop.trips) : Prop := k4_cond1 L t = 1#1

/-- The four windows trip `t` writes: rows of its chunk in planes 0, 1, 2, 3, spelt as the kernel slices them. -/
abbrev oWin4_0 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off10 L t) S1x128x128.size (k4_off10_inb L t h)) (fun _ => rfl)).squeeze S128x128 squeezes_S1x128x128_S128x128
abbrev oWin4_1 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off11 L t) S1x128x128.size (k4_off11_inb L t h)) (fun _ => rfl)).squeeze S128x128 squeezes_S1x128x128_S128x128
abbrev oWin4_2 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off12 L t) S1x128x128.size (k4_off12_inb L t h)) (fun _ => rfl)).squeeze S128x128 squeezes_S1x128x128_S128x128
abbrev oWin4_3 (L : grid4.Coords) (t : Fin k4_t1_loop.trips) (h : Act4 L t) : Memref sig .scVector .hbm S128x128 .f32 :=
  ((Memref.whole main_v17_scv : Memref sig .scVector .hbm S4x32000x128 .f32).slice (Rect.unit (s := S4x32000x128) (k4_off13 L t) S1x128x128.size (k4_off13_inb L t h)) (fun _ => rfl)).squeeze S128x128 squeezes_S1x128x128_S128x128

/-- The elements of the result trip `t` of tile `L` writes, plane by plane. -/
abbrev oSet4 (L : grid4.Coords) (t : Fin k4_t1_loop.trips) (h : Act4 L t) : Fin 4 → Finset S4x32000x128.Idx
  | 0 => (oWin4_0 L t h).view.set
  | 1 => (oWin4_1 L t h).view.set
  | 2 => (oWin4_2 L t h).view.set
  | 3 => (oWin4_3 L t h).view.set

/-- The result's elements of trip `t`, all four planes, held at contents `f`: nothing for an idle trip. -/
def oTrip4 (d : Dev nD) (L : grid4.Coords) (f : Buf (Elt F) (oLoc4 d)) (t : Fin k4_t1_loop.trips) : sProp 𝕄 :=
  if h : Act4 L t then
    iprop((oLoc4 d ↦[oSet4 L t h 0]{fullShare} f) ∗ (oLoc4 d ↦[oSet4 L t h 1]{fullShare} f)
      ∗ (oLoc4 d ↦[oSet4 L t h 2]{fullShare} f) ∗ (oLoc4 d ↦[oSet4 L t h 3]{fullShare} f))
  else iprop(emp)

/-- The read share of the table and of the index block tile `L` is lent: the tile's token of its SparseCore's token. -/
abbrev qTile4 (L : grid4.Coords) : PosShare TreeShare :=
  shareTok (shareTok fullShare 2 (L 0)) 16 (L 1)

/-- What the go signal hands tile `L`: a read share of the table `X` and of the index block `I`, and its own windows of
    the result at the contents `G` the call found. -/
def tileGo4 (d : Dev nD) (X : Buf (Elt F) (xLoc d)) (I : Buf (Elt F) (iLoc4 d)) (G : Buf (Elt F) (oLoc4 d)) (L : grid4.Coords) : sProp 𝕄 :=
  iprop((xLoc d ↦{qTile4 L} X) ∗ (iLoc4 d ↦{qTile4 L} I) ∗ bigSep Finset.univ fun t : Fin k4_t1_loop.trips => oTrip4 d L G t)

/-- What its taskDone hands back: the shares, and the windows at the gathered array. -/
def tileTd4 (d : Dev nD) (X : Buf (Elt F) (xLoc d)) (I : Buf (Elt F) (iLoc4 d)) (L : grid4.Coords) : sProp 𝕄 :=
  iprop((xLoc d ↦{qTile4 L} X) ∗ (iLoc4 d ↦{qTile4 L} I)
    ∗ bigSep Finset.univ fun t : Fin k4_t1_loop.trips => oTrip4 d L (gath (F := F) X I) t)

end Cert.Kernel.KP

end
-- ==== Proof.KPayB.lean ====
/-
  What the launch's handshakes carry for the five gather calls.  Each call reads the table (main_v1, the transposed
  reshaped first argument) and its own block of 250 index chunks (a slice of the transposed reshaped second argument)
  and fills its own result array.  The TensorCore's start hands each SparseCore the go assertions of its sixteen tiles,
  the sequencer's go hands tile (c, s) its own, and the way back carries the tiles' results: so the split of a
  SparseCore's operands among its tiles is the identity.  The kernel's own transfers use the counters ghost state and
  need nothing of the launch.
-/
import proofs.«210879_g80607946211848_cont_9to1_m_1212_13_alg».proof.Proof.TileRes0B
import proofs.«210879_g80607946211848_cont_9to1_m_1212_13_alg».proof.Proof.TileRes1B
import proofs.«210879_g80607946211848_cont_9to1_m_1212_13_alg».proof.Proof.TileRes2B
import proofs.«210879_g80607946211848_cont_9to1_m_1212_13_alg».proof.Proof.TileRes3B
import proofs.«210879_g80607946211848_cont_9to1_m_1212_13_alg».proof.Proof.TileRes4B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.ShloMosaic.Transfers (shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The arrays the calls see, as terms of the launch memory -/

section Arrays

variable (m : (ℓ : Loc nD τ sig) → Buf (Elt F) ℓ)

/-- The first two arguments, as the TensorCore names them on device `d`. -/
abbrev a0Loc (d : Dev nD) : Loc nD τ sig := (SparseCore.T d).loc main_arg0
abbrev a1Loc (d : Dev nD) : Loc nD τ sig := (SparseCore.T d).loc main_arg1

/-- main_v0: the first argument at shape 128 × 160000. -/
def V0v (d : Dev nD) : FVec F S128x160000 .f32 :=
  shapeCast S128x160000 (m (a0Loc d)) shapeCasts_S1x128x160000_S128x160000
/-- The table main_v1: the transpose of main_v0, 160000 rows of 128. -/
def Xv (d : Dev nD) : Buf (Elt F) (xLoc d) :=
  transpose S160000x128 [1, 0] (V0v m d) transposes_S128x160000_S160000x128_1_0

/-- main_v2, main_v3: the second argument at shapes 160000 × 4 and 1250 × 128 × 4. -/
def V2v (d : Dev nD) : IVec S160000x4 32 := shapeCast S160000x4 (m (a1Loc d)) shapeCasts_S1x160000x4_S160000x4
def V3v (d : Dev nD) : IVec S1250x128x4 32 := shapeCast S1250x128x4 (V2v m d) shapeCasts_S160000x4_S1250x128x4
/-- main_v4: all 1250 index chunks, each 4 planes of 128 lanes. -/
def V4v (d : Dev nD) : IVec S1250x4x128 32 := transpose S1250x4x128 [0, 2, 1] (V3v m d) transposes_S1250x128x4_S1250x4x128_0_2_1

/-- The five index blocks main_v8, main_v10, main_v12, main_v14, main_v16: chunks 250 q … 250 q + 249. -/
def Iv0 (d : Dev nD) : Buf (Elt F) (iLoc0 d) := extractStridedSlice S250x4x128 ![0, 0, 0] (V4v m d) slices_S1250x4x128_S250x4x128_0_0_0
def Iv1 (d : Dev nD) : IVec S250x4x128 32 := extractStridedSlice S250x4x128 ![250, 0, 0] (V4v m d) slices_S1250x4x128_S250x4x128_250_0_0
def Iv2 (d : Dev nD) : IVec S250x4x128 32 := extractStridedSlice S250x4x128 ![500, 0, 0] (V4v m d) slices_S1250x4x128_S250x4x128_500_0_0
def Iv3 (d : Dev nD) : IVec S250x4x128 32 := extractStridedSlice S250x4x128 ![750, 0, 0] (V4v m d) slices_S1250x4x128_S250x4x128_750_0_0
def Iv4 (d : Dev nD) : IVec S250x4x128 32 := extractStridedSlice S250x4x128 ![1000, 0, 0] (V4v m d) slices_S1250x4x128_S250x4x128_1000_0_0

end Arrays

/-! ## The tiles of a call -/

theorem core_lt (q : Fin 5) (c : Fin ((K (F := F)).nCore q)) : c.val < grid0.bound 0 := by
  exact lt_of_lt_of_eq c.isLt (nCore_eq q)
theorem sub_lt (q : Fin 5) (i : Fin ((K (F := F)).nSub q)) : i.val < grid0.bound 1 := by
  exact lt_of_lt_of_eq i.isLt (nSub_eq q)

/-- Tile `i` of SparseCore `c` of call `q`'s grid, as grid coordinates (the five grids are the same 2 × 16). -/
abbrev tileL (q : Fin 5) (c : Fin ((K (F := F)).nCore q)) (i : Fin ((K (F := F)).nSub q)) : grid0.Coords :=
  coordsV0 ⟨c.val, core_lt q c⟩ ⟨i.val, sub_lt q i⟩

/-! ## What the handshakes carry -/

section Pay

variable (m : (ℓ : Loc nD τ sig) → Buf (Elt F) ℓ)

/-- What call `q`'s go hands the tile at coordinates `L`: every call finds its result array as the launch left it
    (nothing writes it before). -/
def goAt (q : Fin 5) (d : Dev nD) (L : grid0.Coords) : sProp 𝕄 :=
  match q with
  | 0 => tileGo0 d (Xv m d) (Iv0 m d) (m (oLoc0 d)) L
  | 1 => tileGo1 d (Xv m d) (Iv1 m d) (m (oLoc1 d)) L
  | 2 => tileGo2 d (Xv m d) (Iv2 m d) (m (oLoc2 d)) L
  | 3 => tileGo3 d (Xv m d) (Iv3 m d) (m (oLoc3 d)) L
  | 4 => tileGo4 d (Xv m d) (Iv4 m d) (m (oLoc4 d)) L
  | _ => iprop(emp)
/-- What the tile's taskDone hands back. -/
def tdAt (q : Fin 5) (d : Dev nD) (L : grid0.Coords) : sProp 𝕄 :=
  match q with
  | 0 => tileTd0 d (Xv m d) (Iv0 m d) L
  | 1 => tileTd1 d (Xv m d) (Iv1 m d) L
  | 2 => tileTd2 d (Xv m d) (Iv2 m d) L
  | 3 => tileTd3 d (Xv m d) (Iv3 m d) L
  | 4 => tileTd4 d (Xv m d) (Iv4 m d) L
  | _ => iprop(emp)

def P : (K (F := F)).Pay (nD := nD) (Val := Elt F) (Name := ℕ) (U := UU) where
  st := fun q d c => bigSep Finset.univ fun i : Fin ((K (F := F)).nSub q) => goAt m q d (tileL q c i)
  dn := fun q d c => bigSep Finset.univ fun i : Fin ((K (F := F)).nSub q) => tdAt m q d (tileL q c i)
  go := fun q d c i => goAt m q d (tileL q c i)
  td := fun q d c i => tdAt m q d (tileL q c i)
  x := fun _ _ => iprop(emp)

theorem P_st (q : Fin 5) (d : Dev nD) (c : Fin ((K (F := F)).nCore q)) :
    (P m).st q d c = bigSep Finset.univ fun i : Fin ((K (F := F)).nSub q) => (P m).go q d c i := rfl
theorem P_dn (q : Fin 5) (d : Dev nD) (c : Fin ((K (F := F)).nCore q)) :
    (P m).dn q d c = bigSep Finset.univ fun i : Fin ((K (F := F)).nSub q) => (P m).td q d c i := rfl
theorem P_go0 (d : Dev nD) (c : Fin ((K (F := F)).nCore 0)) (i : Fin ((K (F := F)).nSub 0)) :
    (P m).go 0 d c i = tileGo0 d (Xv m d) (Iv0 m d) (m (oLoc0 d)) (tileL 0 c i) := rfl
theorem P_td0 (d : Dev nD) (c : Fin ((K (F := F)).nCore 0)) (i : Fin ((K (F := F)).nSub 0)) :
    (P m).td 0 d c i = tileTd0 d (Xv m d) (Iv0 m d) (tileL 0 c i) := rfl
theorem P_go1 (d : Dev nD) (c : Fin ((K (F := F)).nCore 1)) (i : Fin ((K (F := F)).nSub 1)) :
    (P m).go 1 d c i = tileGo1 d (Xv m d) (Iv1 m d) (m (oLoc1 d)) (tileL 1 c i) := rfl
theorem P_td1 (d : Dev nD) (c : Fin ((K (F := F)).nCore 1)) (i : Fin ((K (F := F)).nSub 1)) :
    (P m).td 1 d c i = tileTd1 d (Xv m d) (Iv1 m d) (tileL 1 c i) := rfl
theorem P_go2 (d : Dev nD) (c : Fin ((K (F := F)).nCore 2)) (i : Fin ((K (F := F)).nSub 2)) :
    (P m).go 2 d c i = tileGo2 d (Xv m d) (Iv2 m d) (m (oLoc2 d)) (tileL 2 c i) := rfl
theorem P_td2 (d : Dev nD) (c : Fin ((K (F := F)).nCore 2)) (i : Fin ((K (F := F)).nSub 2)) :
    (P m).td 2 d c i = tileTd2 d (Xv m d) (Iv2 m d) (tileL 2 c i) := rfl
theorem P_go3 (d : Dev nD) (c : Fin ((K (F := F)).nCore 3)) (i : Fin ((K (F := F)).nSub 3)) :
    (P m).go 3 d c i = tileGo3 d (Xv m d) (Iv3 m d) (m (oLoc3 d)) (tileL 3 c i) := rfl
theorem P_td3 (d : Dev nD) (c : Fin ((K (F := F)).nCore 3)) (i : Fin ((K (F := F)).nSub 3)) :
    (P m).td 3 d c i = tileTd3 d (Xv m d) (Iv3 m d) (tileL 3 c i) := rfl
theorem P_go4 (d : Dev nD) (c : Fin ((K (F := F)).nCore 4)) (i : Fin ((K (F := F)).nSub 4)) :
    (P m).go 4 d c i = tileGo4 d (Xv m d) (Iv4 m d) (m (oLoc4 d)) (tileL 4 c i) := rfl
theorem P_td4 (d : Dev nD) (c : Fin ((K (F := F)).nCore 4)) (i : Fin ((K (F := F)).nSub 4)) :
    (P m).td 4 d c i = tileTd4 d (Xv m d) (Iv4 m d) (tileL 4 c i) := rfl
theorem P_x (q : Fin 5) (thr : Thread nD τ) : (P m).x q thr = iprop(emp) := rfl
theorem P_ox : (P m).ox = fun _ _ => 0 := rfl
theorem P_held : (P m).held = ∅ := rfl

instance oTrip0_storable (d : Dev nD) (L : grid0.Coords) (f : Buf (Elt F) (oLoc0 d)) (t : Fin k0_t1_loop.trips) :
    BI.Storable (upEmb : UEmb _ 𝕄) (oTrip0 d L f t) := by
  unfold oTrip0; split <;> infer_instance
instance tileGo0_storable (d : Dev nD) (X : Buf (Elt F) (xLoc d)) (I : Buf (Elt F) (iLoc0 d)) (G : Buf (Elt F) (oLoc0 d)) (L : grid0.Coords) :
    BI.Storable (upEmb : UEmb _ 𝕄) (tileGo0 d X I G L) := by
  unfold tileGo0; infer_instance
instance tileTd0_storable (d : Dev nD) (X : Buf (Elt F) (xLoc d)) (I : Buf (Elt F) (iLoc0 d)) (L : grid0.Coords) :
    BI.Storable (upEmb : UEmb _ 𝕄) (tileTd0 d X I L) := by
  unfold tileTd0; infer_instance
instance oTrip1_storable (d : Dev nD) (L : grid1.Coords) (f : Buf (Elt F) (oLoc1 d)) (t : Fin k1_t1_loop.trips) :
    BI.Storable (upEmb : UEmb _ 𝕄) (oTrip1 d L f t) := by
  unfold oTrip1; split <;> infer_instance
instance tileGo1_storable (d : Dev nD) (X : Buf (Elt F) (xLoc d)) (I : Buf (Elt F) (iLoc1 d)) (G : Buf (Elt F) (oLoc1 d)) (L : grid1.Coords) :
    BI.Storable (upEmb : UEmb _ 𝕄) (tileGo1 d X I G L) := by
  unfold tileGo1; infer_instance
instance tileTd1_storable (d : Dev nD) (X : Buf (Elt F) (xLoc d)) (I : Buf (Elt F) (iLoc1 d)) (L : grid1.Coords) :
    BI.Storable (upEmb : UEmb _ 𝕄) (tileTd1 d X I L) := by
  unfold tileTd1; infer_instance
instance oTrip2_storable (d : Dev nD) (L : grid2.Coords) (f : Buf (Elt F) (oLoc2 d)) (t : Fin k2_t1_loop.trips) :
    BI.Storable (upEmb : UEmb _ 𝕄) (oTrip2 d L f t) := by
  unfold oTrip2; split <;> infer_instance
instance tileGo2_storable (d : Dev nD) (X : Buf (Elt F) (xLoc d)) (I : Buf (Elt F) (iLoc2 d)) (G : Buf (Elt F) (oLoc2 d)) (L : grid2.Coords) :
    BI.Storable (upEmb : UEmb _ 𝕄) (tileGo2 d X I G L) := by
  unfold tileGo2; infer_instance
instance tileTd2_storable (d : Dev nD) (X : Buf (Elt F) (xLoc d)) (I : Buf (Elt F) (iLoc2 d)) (L : grid2.Coords) :
    BI.Storable (upEmb : UEmb _ 𝕄) (tileTd2 d X I L) := by
  unfold tileTd2; infer_instance
instance oTrip3_storable (d : Dev nD) (L : grid3.Coords) (f : Buf (Elt F) (oLoc3 d)) (t : Fin k3_t1_loop.trips) :
    BI.Storable (upEmb : UEmb _ 𝕄) (oTrip3 d L f t) := by
  unfold oTrip3; split <;> infer_instance
instance tileGo3_storable (d : Dev nD) (X : Buf (Elt F) (xLoc d)) (I : Buf (Elt F) (iLoc3 d)) (G : Buf (Elt F) (oLoc3 d)) (L : grid3.Coords) :
    BI.Storable (upEmb : UEmb _ 𝕄) (tileGo3 d X I G L) := by
  unfold tileGo3; infer_instance
instance tileTd3_storable (d : Dev nD) (X : Buf (Elt F) (xLoc d)) (I : Buf (Elt F) (iLoc3 d)) (L : grid3.Coords) :
    BI.Storable (upEmb : UEmb _ 𝕄) (tileTd3 d X I L) := by
  unfold tileTd3; infer_instance
instance oTrip4_storable (d : Dev nD) (L : grid4.Coords) (f : Buf (Elt F) (oLoc4 d)) (t : Fin k4_t1_loop.trips) :
    BI.Storable (upEmb : UEmb _ 𝕄) (oTrip4 d L f t) := by
  unfold oTrip4; split <;> infer_instance
instance tileGo4_storable (d : Dev nD) (X : Buf (Elt F) (xLoc d)) (I : Buf (Elt F) (iLoc4 d)) (G : Buf (Elt F) (oLoc4 d)) (L : grid4.Coords) :
    BI.Storable (upEmb : UEmb _ 𝕄) (tileGo4 d X I G L) := by
  unfold tileGo4; infer_instance
instance tileTd4_storable (d : Dev nD) (X : Buf (Elt F) (xLoc d)) (I : Buf (Elt F) (iLoc4 d)) (L : grid4.Coords) :
    BI.Storable (upEmb : UEmb _ 𝕄) (tileTd4 d X I L) := by
  unfold tileTd4; infer_instance
instance goAt_storable (q : Fin 5) (d : Dev nD) (L : grid0.Coords) : BI.Storable (upEmb : UEmb _ 𝕄) (goAt m q d L) := by
  unfold goAt; split <;> infer_instance
instance tdAt_storable (q : Fin 5) (d : Dev nD) (L : grid0.Coords) : BI.Storable (upEmb : UEmb _ 𝕄) (tdAt m q d L) := by
  unfold tdAt; split <;> infer_instance

instance P_storable : (P (F := F) m).IsStorable where
  st q d c := (inferInstance : BI.Storable (upEmb : UEmb _ 𝕄) (bigSep Finset.univ fun i : Fin ((K (F := F)).nSub q) => goAt m q d (tileL q c i)))
  dn q d c := (inferInstance : BI.Storable (upEmb : UEmb _ 𝕄) (bigSep Finset.univ fun i : Fin ((K (F := F)).nSub q) => tdAt m q d (tileL q c i)))
  go q d c i := (inferInstance : BI.Storable (upEmb : UEmb _ 𝕄) (goAt m q d (tileL q c i)))
  td q d c i := (inferInstance : BI.Storable (upEmb : UEmb _ 𝕄) (tdAt m q d (tileL q c i)))

/-- A SparseCore's operands ARE its tiles' operands, and its results theirs: the split is the identity, at every call. -/
theorem vecSplit (q : Fin 5) : (K (F := F)).VecSplit' (P m) q := by
  intro d c
  rw [P_st, P_dn]
  iintro H; imodintro
  isplitl [H]; · iexact H
  iintro H; iexact H

theorem vecSplit0 : (K (F := F)).VecSplit' (P m) 0 := vecSplit m 0

end Pay

/-! ## The tiles' obligations, from their bodies' theorems -/

section Obligation

variable [FloatOps F]

/-- The body table's arm for call 0 on a vector subcore, at the named coordinates. -/
theorem defs₀_vector0 (c : Fin τ.nSC) (s : Fin τ.nSub) :
    defs₀ (F := F) (.scVector c s) 0 ()
      = SparseCore.onTile hcore0 hsub0 (fun c s => cc0__sc_gather_body (coordsV0 c s)
          (Memref.whole main_v1_scv) (Memref.isWhole_whole _) (Memref.whole main_v8_scv) (Memref.isWhole_whole _) (Memref.whole main_v9_scv) (Memref.isWhole_whole _)
          (Memref.whole cc0_scratch0) (Memref.isWhole_whole _) (Memref.whole cc0_scratch1) (Memref.isWhole_whole _)
          cc0_scratch2 cc0_scratch3 cc0_scratch4 cc0_scratch5 cc0_scratch6 cc0_scratch7 cc0_scratch8 cc0_scratch9 cc0_scratch10) ⟨⟩ c s := rfl

/-- The body table's arm for call 1 on a vector subcore, at the named coordinates. -/
theorem defs₀_vector1 (c : Fin τ.nSC) (s : Fin τ.nSub) :
    defs₀ (F := F) (.scVector c s) 1 ()
      = SparseCore.onTile hcore1 hsub1 (fun c s => cc1__sc_gather_body (coordsV0 c s)
          (Memref.whole main_v1_scv) (Memref.isWhole_whole _) (Memref.whole main_v10_scv) (Memref.isWhole_whole _) (Memref.whole main_v11_scv) (Memref.isWhole_whole _)
          (Memref.whole cc1_scratch0) (Memref.isWhole_whole _) (Memref.whole cc1_scratch1) (Memref.isWhole_whole _)
          cc1_scratch2 cc1_scratch3 cc1_scratch4 cc1_scratch5 cc1_scratch6 cc1_scratch7 cc1_scratch8 cc1_scratch9 cc1_scratch10) ⟨⟩ c s := rfl

/-- The body table's arm for call 2 on a vector subcore, at the named coordinates. -/
theorem defs₀_vector2 (c : Fin τ.nSC) (s : Fin τ.nSub) :
    defs₀ (F := F) (.scVector c s) 2 ()
      = SparseCore.onTile hcore2 hsub2 (fun c s => cc2__sc_gather_body (coordsV0 c s)
          (Memref.whole main_v1_scv) (Memref.isWhole_whole _) (Memref.whole main_v12_scv) (Memref.isWhole_whole _) (Memref.whole main_v13_scv) (Memref.isWhole_whole _)
          (Memref.whole cc2_scratch0) (Memref.isWhole_whole _) (Memref.whole cc2_scratch1) (Memref.isWhole_whole _)
          cc2_scratch2 cc2_scratch3 cc2_scratch4 cc2_scratch5 cc2_scratch6 cc2_scratch7 cc2_scratch8 cc2_scratch9 cc2_scratch10) ⟨⟩ c s := rfl

/-- The body table's arm for call 3 on a vector subcore, at the named coordinates. -/
theorem defs₀_vector3 (c : Fin τ.nSC) (s : Fin τ.nSub) :
    defs₀ (F := F) (.scVector c s) 3 ()
      = SparseCore.onTile hcore3 hsub3 (fun c s => cc3__sc_gather_body (coordsV0 c s)
          (Memref.whole main_v1_scv) (Memref.isWhole_whole _) (Memref.whole main_v14_scv) (Memref.isWhole_whole _) (Memref.whole main_v15_scv) (Memref.isWhole_whole _)
          (Memref.whole cc3_scratch0) (Memref.isWhole_whole _) (Memref.whole cc3_scratch1) (Memref.isWhole_whole _)
          cc3_scratch2 cc3_scratch3 cc3_scratch4 cc3_scratch5 cc3_scratch6 cc3_scratch7 cc3_scratch8 cc3_scratch9 cc3_scratch10) ⟨⟩ c s := rfl

/-- The body table's arm for call 4 on a vector subcore, at the named coordinates. -/
theorem defs₀_vector4 (c : Fin τ.nSC) (s : Fin τ.nSub) :
    defs₀ (F := F) (.scVector c s) 4 ()
      = SparseCore.onTile hcore4 hsub4 (fun c s => cc4__sc_gather_body (coordsV0 c s)
          (Memref.whole main_v1_scv) (Memref.isWhole_whole _) (Memref.whole main_v16_scv) (Memref.isWhole_whole _) (Memref.whole main_v17_scv) (Memref.isWhole_whole _)
          (Memref.whole cc4_scratch0) (Memref.isWhole_whole _) (Memref.whole cc4_scratch1) (Memref.isWhole_whole _)
          cc4_scratch2 cc4_scratch3 cc4_scratch4 cc4_scratch5 cc4_scratch6 cc4_scratch7 cc4_scratch8 cc4_scratch9 cc4_scratch10) ⟨⟩ c s := rfl

omit [FloatOps F] in
/-- Waits recorded at no index are among the waits a task may record. -/
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the tile's body theorem for call 0 states: from the level facts, the tile's operands at a table `X`, an index
    block `I` of row ids in range and the result as found `G`, and the tile's scoped storage, the body runs to the
    tile's windows of the gathered array and the scoped storage back, having recorded waits at no index only. -/
abbrev TileBody0 : Prop :=
  ∀ (_ : (K (F := F)).Facts) (d : Dev nD) (L : grid0.Coords)
    (X : Buf (Elt F) (xLoc d)) (I : Buf (Elt F) (iLoc0 d)) (G : Buf (Elt F) (oLoc0 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo0 d X I G L
        ∗ scopedBufs (thr0 d L) ∗ scopedSems0 (thr0 d L) ∗ owes (thr0 d L) O W)
      ⊢ wp frame (wpE (defs₀ (F := F)) 𝒱₀ (thr0 d L) none) Set.univ
          (cc0__sc_gather_body L (Memref.whole main_v1_scv) (Memref.isWhole_whole _) (Memref.whole main_v8_scv) (Memref.isWhole_whole _) (Memref.whole main_v9_scv) (Memref.isWhole_whole _)
            (Memref.whole cc0_scratch0) (Memref.isWhole_whole _) (Memref.whole cc0_scratch1) (Memref.isWhole_whole _)
            cc0_scratch2 cc0_scratch3 cc0_scratch4 cc0_scratch5 cc0_scratch6 cc0_scratch7 cc0_scratch8 cc0_scratch9 cc0_scratch10)
          fun _ => iprop(tileTd0 d X I L ∗ scopedBufs (thr0 d L) ∗ scopedSems0 (thr0 d L)
            ∗ ∃ W', ⌜∀ p ∈ W', p ∈ W ∨ p.2 = none⌝ ∗ owes (thr0 d L) O W')

/-- What the tile's body theorem for call 1 states: from the level facts, the tile's operands at a table `X`, an index
    block `I` of row ids in range and the result as found `G`, and the tile's scoped storage, the body runs to the
    tile's windows of the gathered array and the scoped storage back, having recorded waits at no index only. -/
abbrev TileBody1 : Prop :=
  ∀ (_ : (K (F := F)).Facts) (d : Dev nD) (L : grid1.Coords)
    (X : Buf (Elt F) (xLoc d)) (I : Buf (Elt F) (iLoc1 d)) (G : Buf (Elt F) (oLoc1 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo1 d X I G L
        ∗ scopedBufs (thr1 d L) ∗ scopedSems0 (thr1 d L) ∗ owes (thr1 d L) O W)
      ⊢ wp frame (wpE (defs₀ (F := F)) 𝒱₀ (thr1 d L) none) Set.univ
          (cc1__sc_gather_body L (Memref.whole main_v1_scv) (Memref.isWhole_whole _) (Memref.whole main_v10_scv) (Memref.isWhole_whole _) (Memref.whole main_v11_scv) (Memref.isWhole_whole _)
            (Memref.whole cc1_scratch0) (Memref.isWhole_whole _) (Memref.whole cc1_scratch1) (Memref.isWhole_whole _)
            cc1_scratch2 cc1_scratch3 cc1_scratch4 cc1_scratch5 cc1_scratch6 cc1_scratch7 cc1_scratch8 cc1_scratch9 cc1_scratch10)
          fun _ => iprop(tileTd1 d X I L ∗ scopedBufs (thr1 d L) ∗ scopedSems0 (thr1 d L)
            ∗ ∃ W', ⌜∀ p ∈ W', p ∈ W ∨ p.2 = none⌝ ∗ owes (thr1 d L) O W')

/-- What the tile's body theorem for call 2 states: from the level facts, the tile's operands at a table `X`, an index
    block `I` of row ids in range and the result as found `G`, and the tile's scoped storage, the body runs to the
    tile's windows of the gathered array and the scoped storage back, having recorded waits at no index only. -/
abbrev TileBody2 : Prop :=
  ∀ (_ : (K (F := F)).Facts) (d : Dev nD) (L : grid2.Coords)
    (X : Buf (Elt F) (xLoc d)) (I : Buf (Elt F) (iLoc2 d)) (G : Buf (Elt F) (oLoc2 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo2 d X I G L
        ∗ scopedBufs (thr2 d L) ∗ scopedSems0 (thr2 d L) ∗ owes (thr2 d L) O W)
      ⊢ wp frame (wpE (defs₀ (F := F)) 𝒱₀ (thr2 d L) none) Set.univ
          (cc2__sc_gather_body L (Memref.whole main_v1_scv) (Memref.isWhole_whole _) (Memref.whole main_v12_scv) (Memref.isWhole_whole _) (Memref.whole main_v13_scv) (Memref.isWhole_whole _)
            (Memref.whole cc2_scratch0) (Memref.isWhole_whole _) (Memref.whole cc2_scratch1) (Memref.isWhole_whole _)
            cc2_scratch2 cc2_scratch3 cc2_scratch4 cc2_scratch5 cc2_scratch6 cc2_scratch7 cc2_scratch8 cc2_scratch9 cc2_scratch10)
          fun _ => iprop(tileTd2 d X I L ∗ scopedBufs (thr2 d L) ∗ scopedSems0 (thr2 d L)
            ∗ ∃ W', ⌜∀ p ∈ W', p ∈ W ∨ p.2 = none⌝ ∗ owes (thr2 d L) O W')

/-- What the tile's body theorem for call 3 states: from the level facts, the tile's operands at a table `X`, an index
    block `I` of row ids in range and the result as found `G`, and the tile's scoped storage, the body runs to the
    tile's windows of the gathered array and the scoped storage back, having recorded waits at no index only. -/
abbrev TileBody3 : Prop :=
  ∀ (_ : (K (F := F)).Facts) (d : Dev nD) (L : grid3.Coords)
    (X : Buf (Elt F) (xLoc d)) (I : Buf (Elt F) (iLoc3 d)) (G : Buf (Elt F) (oLoc3 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo3 d X I G L
        ∗ scopedBufs (thr3 d L) ∗ scopedSems0 (thr3 d L) ∗ owes (thr3 d L) O W)
      ⊢ wp frame (wpE (defs₀ (F := F)) 𝒱₀ (thr3 d L) none) Set.univ
          (cc3__sc_gather_body L (Memref.whole main_v1_scv) (Memref.isWhole_whole _) (Memref.whole main_v14_scv) (Memref.isWhole_whole _) (Memref.whole main_v15_scv) (Memref.isWhole_whole _)
            (Memref.whole cc3_scratch0) (Memref.isWhole_whole _) (Memref.whole cc3_scratch1) (Memref.isWhole_whole _)
            cc3_scratch2 cc3_scratch3 cc3_scratch4 cc3_scratch5 cc3_scratch6 cc3_scratch7 cc3_scratch8 cc3_scratch9 cc3_scratch10)
          fun _ => iprop(tileTd3 d X I L ∗ scopedBufs (thr3 d L) ∗ scopedSems0 (thr3 d L)
            ∗ ∃ W', ⌜∀ p ∈ W', p ∈ W ∨ p.2 = none⌝ ∗ owes (thr3 d L) O W')

/-- What the tile's body theorem for call 4 states: from the level facts, the tile's operands at a table `X`, an index
    block `I` of row ids in range and the result as found `G`, and the tile's scoped storage, the body runs to the
    tile's windows of the gathered array and the scoped storage back, having recorded waits at no index only. -/
abbrev TileBody4 : Prop :=
  ∀ (_ : (K (F := F)).Facts) (d : Dev nD) (L : grid4.Coords)
    (X : Buf (Elt F) (xLoc d)) (I : Buf (Elt F) (iLoc4 d)) (G : Buf (Elt F) (oLoc4 d)) (_ : ∀ i, (I i).toNat < 160000)
    (O : CellTallies nD τ sig (HIx 5)) (W : Waits sig (HIx 5)) (_ : ∀ g, O g none = 0),
    iprop((levAts (K (F := F)).L (K (F := F)).lev : sProp 𝕄) ∗ emp ∗ tileGo4 d X I G L
        ∗ scopedBufs (thr4 d L) ∗ scopedSems0 (thr4 d L) ∗ owes (thr4 d L) O W)
      ⊢ wp frame (wpE (defs₀ (F := F)) 𝒱₀ (thr4 d L) none) Set.univ
          (cc4__sc_gather_body L (Memref.whole main_v1_scv) (Memref.isWhole_whole _) (Memref.whole main_v16_scv) (Memref.isWhole_whole _) (Memref.whole main_v17_scv) (Memref.isWhole_whole _)
            (Memref.whole cc4_scratch0) (Memref.isWhole_whole _) (Memref.whole cc4_scratch1) (Memref.isWhole_whole _)
            cc4_scratch2 cc4_scratch3 cc4_scratch4 cc4_scratch5 cc4_scratch6 cc4_scratch7 cc4_scratch8 cc4_scratch9 cc4_scratch10)
          fun _ => iprop(tileTd4 d X I L ∗ scopedBufs (thr4 d L) ∗ scopedSems0 (thr4 d L)
            ∗ ∃ W', ⌜∀ p ∈ W', p ∈ W ∨ p.2 = none⌝ ∗ owes (thr4 d L) O W')

variable (m : (ℓ : Loc nD τ sig) → Buf (Elt F) ℓ)

/-- The launch theorem's obligation for the tiles of call 0: the body's theorem at the tile's coordinates, at the table
    and the index block the launch memory determines, every row id of the block in range. -/
theorem tileObl0 (h : TileBody0 (F := F)) (hF : (K (F := F)).Facts) (hin : ∀ (d : Dev nD) i, ((Iv0 m d) i).toNat < 160000) :
    (K (F := F)).TileObl (D (F := F)) 𝒱 (P m) v₀ 0 := by
  intro d c i O W hO _ _
  simp only [P_ox, add_zero]
  rw [P_go0, P_td0, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (h hF d (coordsV0 ⟨_, hc.1⟩ ⟨_, hc.2⟩) (Xv m d) (Iv0 m d) (m (oLoc0 d)) (hin d) O W hO).trans (wp_mono frame _ _ fun _ => obl_post)

/-- The launch theorem's obligation for the tiles of call 1: the body's theorem at the tile's coordinates, at the table
    and the index block the launch memory determines, every row id of the block in range. -/
theorem tileObl1 (h : TileBody1 (F := F)) (hF : (K (F := F)).Facts) (hin : ∀ (d : Dev nD) i, ((Iv1 m d) i).toNat < 160000) :
    (K (F := F)).TileObl (D (F := F)) 𝒱 (P m) v₀ 1 := by
  intro d c i O W hO _ _
  simp only [P_ox, add_zero]
  rw [P_go1, P_td1, P_x]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (h hF d (coordsV0 ⟨_, hc.1⟩ ⟨_, hc.2⟩) (Xv m d) (Iv1 m d) (m (oLoc1 d)) (hin d) O W hO).trans (wp_mono frame _ _ fun _ => obl_post)

/-- The launch theorem's obligation for the tiles of call 2: the body's theorem at the tile's coordinates, at the table
    and the index block the launch memory determines, every row id of the block in range. -/
theorem tileObl2 (h : TileBody2 (F := F)) (hF : (K (F := F)).Facts) (hin : ∀ (d : Dev nD) i, ((Iv2 m d) i).toNat < 160000) :
    (K (F := F)).TileObl (D (F := F)) 𝒱 (P m) v₀ 2 := by
  intro d c i O W hO _ _
  simp only [P_ox, add_zero]
  rw [P_go2, P_td2, P_x]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector2]; simp only [SparseCore.onTile, hc, and_self, ↓reduceDIte]
  exact (h hF d (coordsV0 ⟨_, hc.1⟩ ⟨_, hc.2⟩) (Xv m d) (Iv2 m d) (m (oLoc2 d)) (hin d) O W hO).trans (wp_mono frame _ _ fun _ => obl_post)

/-- The launch theorem's obligation for the tiles of call 3: the body's theorem at the tile's coordinates, at the table
    and the index block the launch memory determines, every row id of the block in range. -/
theorem tileObl3 (h : TileBody3 (F := F)) (hF : (K (F := F)).Facts) (hin : ∀ (d : Dev nD) i, ((Iv3 m d) i).toNat < 160000) :
    (K (F := F)).TileObl (D (F := F)) 𝒱 (P m) v₀ 3 := by
  intro d c i O W hO _ _
  simp only [P_ox, add_zero]
  rw [P_go3, P_td3, P_x]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector3]; simp only [SparseCore.onTile, hc, and_self, ↓reduceDIte]
  exact (h hF d (coordsV0 ⟨_, hc.1⟩ ⟨_, hc.2⟩) (Xv m d) (Iv3 m d) (m (oLoc3 d)) (hin d) O W hO).trans (wp_mono frame _ _ fun _ => obl_post)

/-- The launch theorem's obligation for the tiles of call 4: the body's theorem at the tile's coordinates, at the table
    and the index block the launch memory determines, every row id of the block in range. -/
theorem tileObl4 (h : TileBody4 (F := F)) (hF : (K (F := F)).Facts) (hin : ∀ (d : Dev nD) i, ((Iv4 m d) i).toNat < 160000) :
    (K (F := F)).TileObl (D (F := F)) 𝒱 (P m) v₀ 4 := by
  intro d c i O W hO _ _
  simp only [P_ox, add_zero]
  rw [P_go4, P_td4, P_x]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector4]; simp only [SparseCore.onTile, hc, and_self, ↓reduceDIte]
  exact (h hF d (coordsV0 ⟨_, hc.1⟩ ⟨_, hc.2⟩) (Xv m d) (Iv4 m d) (m (oLoc4 d)) (hin d) O W hO).trans (wp_mono frame _ _ fun _ => obl_post)

end Obligation

end Cert.Kernel.KP

end
-- ==== Proof.KLaunchB.lean ====
/-
  The launch element of the ghost state.  The resource algebra has three factors: the rounds of the four handshake
  semaphores, the rounds of the five TensorCore pipelines' staging semaphores, and the counters of the local transfers.
  The launch element is the handshake cells' launch element, the pipelines' launch element over every staging cell and
  every transfer their loops issue, and the unit of the counters.  It splits into the handshakes' part, which the launch
  theorem takes, and, per device, the five pipelines' ghost state (each cell's launch state, its owner's position at
  round 0, round 0 reached, and the duty tokens), which @main keeps until it enters each pipeline's region.
-/
import proofs.«210879_g80607946211848_cont_9to1_m_1212_13_alg».proof.Proof.KSetupB

noncomputable section

namespace Cert.Kernel.KP

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The launch element -/

/-- Every staging cell of the five pipelines, on every device. -/
abbrev pCells : Finset (GSem nD τ sig) := Pipeline.cells (nD := nD) cfgs cellOf_inj
/-- Every transfer the five pipelines' loops issue, as (cell, round, duty). -/
abbrev pToks : Finset (GSem nD τ sig × ℕ × Unit) := Pipeline.launchToks (nD := nD) cfgs cellOf_inj

/-- The launch element: the handshakes' cells and tokens, the pipelines' cells and tokens, no transfer counted. -/
def u₀ : UU := (initOf (K (F := F)).hsCells (K (F := F)).hsToks, (initOf pCells pToks, 1))

/-- The five pipelines' ghost state on device `d`, as the launch deals it. -/
def G (d : Dev nD) : sProp 𝕄 :=
  bigSep Finset.univ fun p : Fin 5 => iprop(Pipeline.cellsGhost cfgs (EP (F := F)) p d ∗ Pipeline.toksInit cfgs (EP (F := F)) p d)

/-- A launch element of the three factors splits into the handshakes' and the pipelines'; the counters' unit is dropped. -/
theorem ownU_split3 (a : UH) (b : UP) (c : Counters) :
    (ownU ((a, (b, c)) : UU) : sProp 𝕄) ⊢ iprop(BI.own ((EH (F := F)) a) ∗ BI.own ((EP (F := F)) b)) := by
  refine (ownU_pair a (b, c)).trans (sep_mono_right ?_)
  unfold EP
  exact (own_pair_emb (embR : Emb (UP × Counters) 𝕄) b c).trans sep_elim_left

/-- The launch element funds the handshakes' rounds and every device's pipelines' ghost state. -/
theorem hu₀_G : (ownU (u₀ (F := F)) : sProp 𝕄)
    ⊢ |={Set.univ}=> iprop(BI.own ((EH (F := F)) (initOf (K (F := F)).hsCells (K (F := F)).hsToks)) ∗ bigSep Finset.univ (G (F := F))) := by
  unfold u₀
  iintro Hu
  ihave H := (ownU_split3 _ _ _) $$ Hu
  icases H with ⟨HH, HP⟩
  imod (Pipeline.fund_ghost cfgs (EP (F := F)) cellOf_inj) $$ HP with ⟨Hg, Ht⟩
  imodintro
  isplitl [HH]; · iexact HH
  unfold G
  rw [show (bigSep Finset.univ fun d : Dev nD => bigSep Finset.univ fun p : Fin 5 =>
        iprop(Pipeline.cellsGhost cfgs (EP (F := F)) p d ∗ Pipeline.toksInit cfgs (EP (F := F)) p d))
      = iprop((bigSep Finset.univ fun d : Dev nD => bigSep Finset.univ fun p : Fin 5 => Pipeline.cellsGhost cfgs (EP (F := F)) p d)
        ∗ bigSep Finset.univ fun d : Dev nD => bigSep Finset.univ fun p : Fin 5 => (Pipeline.toksInit cfgs (EP (F := F)) p d : sProp 𝕄)) from by
    rw [← bigSep_sep']; exact bigSep_congr fun d _ => bigSep_sep' _ _ _]
  isplitl [Hg]; · iexact Hg
  iexact Ht

/-- The launch theorem's launch element, for any handshake payloads `P` whose kernels consume nothing of the ghost state
    at their calls. -/
theorem hu₀ (P : (K (F := F)).Pay (nD := nD) (Val := Elt F) (Name := ℕ) (U := UU)) (hx : ∀ q thr, P.x q thr = iprop(emp)) :
    (ownU (u₀ (F := F)) : sProp 𝕄)
    ⊢ |={Set.univ}=> iprop(BI.own ((EH (F := F)) (initOf (K (F := F)).hsCells (K (F := F)).hsToks)) ∗ bigSep Finset.univ (G (F := F))
        ∗ bigSep Finset.univ fun thr : Thread nD τ => bigSep Finset.univ fun q : Fin 5 => P.x q thr) := by
  rw [show (bigSep Finset.univ fun thr : Thread nD τ => bigSep Finset.univ fun q : Fin 5 => P.x q thr) = (iprop(emp) : sProp 𝕄) from by
    rw [bigSep_congr fun thr _ => (bigSep_congr fun q _ => hx q thr).trans (bigSep_emp_const _), bigSep_emp_const]; rfl]
  iintro Hu
  imod hu₀_G $$ Hu with ⟨HH, HG⟩
  imodintro
  isplitl [HH]; · iexact HH
  isplitl [HG]; · iexact HG
  iempintro

end Cert.Kernel.KP

end
-- ==== Proof.KHostB.lean ====
/-
  Host operations of @main, one at a time, on the two arrays each touches.  A StableHLO operation with one operand
  `x` and one result `y` reads `x` whole, writes `y` whole and touches nothing else; holding the region boundary and
  the two arrays at contents `A` and `B`, it leaves `x` at `A` and `y` at the operation's value at `A`.
-/
import proofs.«210879_g80607946211848_cont_9to1_m_1212_13_alg».proof.Proof.KSetupB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## A valuation with two named entries -/

/-- The valuation `V₀` with `x'` at `A` and `y'` at `B`. -/
def upd2 (V₀ : Valuation τ sig (Elt F)) (x' y' : DevRef τ sig) (A : x'.ty.Contents (Elt F)) (B : y'.ty.Contents (Elt F)) :
    Valuation τ sig (Elt F) :=
  Function.update (Function.update V₀ x' A) y' B

theorem upd2_y (V₀ : Valuation τ sig (Elt F)) (x' y' : DevRef τ sig) (A : x'.ty.Contents (Elt F)) (B : y'.ty.Contents (Elt F)) :
    upd2 V₀ x' y' A B y' = B := Function.update_self _ _ _

theorem upd2_x (V₀ : Valuation τ sig (Elt F)) (x' y' : DevRef τ sig) (A : x'.ty.Contents (Elt F)) (B : y'.ty.Contents (Elt F))
    (h : x' ≠ y') : upd2 V₀ x' y' A B x' = A := by
  unfold upd2; rw [Function.update_of_ne h, Function.update_self]

/-! ## An operation on two arrays -/

section Pair

variable {Λ : Labels} {defs : Defs nD τ sig (Elt F) Λ} (𝒱 : Variants) (d : Dev nD)

set_option backward.isDefEq.respectTransparency.types false in
/-- An operation whose arrays are `x'` (read) and `y'` (written), from the two held at `A` and `B`: `x'` keeps `A` and
    `y'` takes the operation's value `C`. -/
theorem wp_hlo_pair (op : HloOp τ sig (Elt F)) (x' y' : DevRef τ sig) (hne : x' ≠ y')
    (hb : op.bufs = {x', y'}) (hw : op.writes = {y'}) (hf : op.fresh = ∅)
    (V₀ : Valuation τ sig (Elt F)) (A : x'.ty.Contents (Elt F)) (B : y'.ty.Contents (Elt F)) (C : y'.ty.Contents (Elt F))
    (hC : op.result (upd2 V₀ x' y' A B) y' = C)
    {α : Type} {k : ((b : op.writes) → b.1.ty.Contents (Elt F)) → Prog (TpuEff nD τ sig (Elt F) Λ .tc) α} {Q : α → sProp 𝕄} :
    iprop(boundary (SparseCore.T d) ∗ (((d, x') : Loc nD τ sig) ↦{fullShare} A) ∗ (((d, y') : Loc nD τ sig) ↦{fullShare} B))
      ⊢ iprop(((boundary (SparseCore.T d) ∗ (((d, x') : Loc nD τ sig) ↦{fullShare} A) ∗ (((d, y') : Loc nD τ sig) ↦{fullShare} C))
            -∗ wp frame (wpE defs 𝒱 (SparseCore.T d) none) Set.univ (k (op.fn fun b => upd2 V₀ x' y' A B b.1)) Q)
        -∗ wp frame (wpE defs 𝒱 (SparseCore.T d) none) Set.univ (hlo rfl op k) Q) := by
  have hx : x' ∉ ({y'} : Finset (DevRef τ sig)) := fun h => hne (Finset.mem_singleton.mp h)
  have hS : op.bufs ⊆ ({x', y'} : Finset (DevRef τ sig)) := hb ▸ Finset.Subset.refl _
  have e1 : (held (SparseCore.T d) ({x', y'} : Finset (DevRef τ sig)) (upd2 V₀ x' y' A B) : sProp 𝕄)
      = iprop((((d, x') : Loc nD τ sig) ↦{fullShare} A) ∗ (((d, y') : Loc nD τ sig) ↦{fullShare} B)) := by
    unfold held
    rw [SparseCore.bigSep_insert' hx, bigSep_singleton, upd2_x V₀ x' y' A B hne, upd2_y]
  have e2 : (held (SparseCore.T d) ({x', y'} : Finset (DevRef τ sig)) (op.result (upd2 V₀ x' y' A B)) : sProp 𝕄)
      = iprop((((d, x') : Loc nD τ sig) ↦{fullShare} A) ∗ (((d, y') : Loc nD τ sig) ↦{fullShare} C)) := by
    unfold held
    rw [SparseCore.bigSep_insert' hx, bigSep_singleton, hC, op.result_of_not_mem _ (by rw [hw]; exact hx), upd2_x V₀ x' y' A B hne]
  rw [← e1, ← e2]
  exact wp_hlo_within (defs := defs) 𝒱 (SparseCore.T d) none Set.univ (op := op) (k := k) (S := ({x', y'} : Finset (DevRef τ sig))) hS
    (V := upd2 V₀ x' y' A B) (Q := Q) hf

/-- `%y = f %x`. -/
theorem wp_unary_pt (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ (Proc.devRef .tc y : DevRef τ sig))
    (V₀ : Valuation τ sig (Elt F)) (A : Buf (Elt F) ((SparseCore.T d).loc x)) (B : Buf (Elt F) ((SparseCore.T d).loc y)) (C : Buf (Elt F) ((SparseCore.T d).loc y)) (hC : f A = C)
    {α : Type} {k : ((b : (StableHlo.unary (τ := τ) x y f hx hy).writes) → b.1.ty.Contents (Elt F)) → Prog (TpuEff nD τ sig (Elt F) Λ .tc) α}
    {Q : α → sProp 𝕄} :
    iprop(boundary (SparseCore.T d) ∗ ((SparseCore.T d).loc x ↦{fullShare} A) ∗ ((SparseCore.T d).loc y ↦{fullShare} B))
      ⊢ iprop(((boundary (SparseCore.T d) ∗ ((SparseCore.T d).loc x ↦{fullShare} A) ∗ ((SparseCore.T d).loc y ↦{fullShare} C))
            -∗ wp frame (wpE defs 𝒱 (SparseCore.T d) none) Set.univ (k ((StableHlo.unary (τ := τ) x y f hx hy).fn fun b => upd2 V₀ (Proc.devRef .tc x) (Proc.devRef .tc y) A B b.1)) Q)
        -∗ wp frame (wpE defs 𝒱 (SparseCore.T d) none) Set.univ (hlo rfl (StableHlo.unary (τ := τ) x y f hx hy) k) Q) :=
  wp_hlo_pair 𝒱 d (StableHlo.unary (τ := τ) x y f hx hy) (Proc.devRef .tc x) (Proc.devRef .tc y) hne rfl rfl rfl V₀ A B C
    (by rw [StableHlo.unary_result, upd2_x _ _ _ _ _ hne]; exact hC)

/-- `%y = stablehlo.reshape %x`. -/
theorem wp_reshape_pt (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ (Proc.devRef .tc y : DevRef τ sig))
    (V₀ : Valuation τ sig (Elt F)) (A : Buf (Elt F) ((SparseCore.T d).loc x)) (B : Buf (Elt F) ((SparseCore.T d).loc y)) (C : Buf (Elt F) ((SparseCore.T d).loc y))
    (hC : (fun i => he ▸ shapeCast y.ty.shape A hn i) = C)
    {α : Type} {k : ((b : (StableHlo.reshape (τ := τ) (Val := Elt F) x y he hn hx hy).writes) → b.1.ty.Contents (Elt F)) → Prog (TpuEff nD τ sig (Elt F) Λ .tc) α}
    {Q : α → sProp 𝕄} :
    iprop(boundary (SparseCore.T d) ∗ ((SparseCore.T d).loc x ↦{fullShare} A) ∗ ((SparseCore.T d).loc y ↦{fullShare} B))
      ⊢ iprop(((boundary (SparseCore.T d) ∗ ((SparseCore.T d).loc x ↦{fullShare} A) ∗ ((SparseCore.T d).loc y ↦{fullShare} C))
            -∗ wp frame (wpE defs 𝒱 (SparseCore.T d) none) Set.univ (k ((StableHlo.reshape (τ := τ) (Val := Elt F) x y he hn hx hy).fn fun b => upd2 V₀ (Proc.devRef .tc x) (Proc.devRef .tc y) A B b.1)) Q)
        -∗ wp frame (wpE defs 𝒱 (SparseCore.T d) none) Set.univ (hlo rfl (StableHlo.reshape (τ := τ) (Val := Elt F) x y he hn hx hy) k) Q) :=
  wp_hlo_pair 𝒱 d (StableHlo.reshape (τ := τ) (Val := Elt F) x y he hn hx hy) (Proc.devRef .tc x) (Proc.devRef .tc y) hne rfl rfl rfl V₀ A B C
    (by rw [StableHlo.reshape_result, upd2_x _ _ _ _ _ hne]; exact hC)

end Pair

end Cert.Kernel.KP

end
-- ==== Proof.KMainB.lean ====
/-
  @main on the TensorCore.  Nine host operations lay out the table (the transposed first argument), the 1250 index
  chunks (the transposed second argument), the weights and the bias; then, five times, a slice of 250 chunks and the
  gather call over it; then the five convolution regions, each writing its fifth of the columns of one array that is
  copied from region to region; last the result is broadcast to its four-dimensional shape.  Every array is named as a
  pure term of the launch memory.  The gather calls enter through how a call's three arrays split among its tiles and
  join again, the regions through what each region's own proof states; both are hypotheses here.
-/
import proofs.«210879_g80607946211848_cont_9to1_m_1212_13_alg».proof.Proof.KPayB
import proofs.«210879_g80607946211848_cont_9to1_m_1212_13_alg».proof.Proof.KLaunchB
import proofs.«210879_g80607946211848_cont_9to1_m_1212_13_alg».proof.Proof.KHostB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 5) (Elt F) ℕ UU ℕ

/-! ## The weights and the bias, as terms of the launch memory -/

section Arrays

variable (m : (ℓ : Loc nD τ sig) → Buf (Elt F) ℓ)

abbrev a2Loc (d : Dev nD) : Loc nD τ sig := (SparseCore.T d).loc main_arg2
abbrev a3Loc (d : Dev nD) : Loc nD τ sig := (SparseCore.T d).loc main_arg3

/-- main_v5: the third argument at shape 128 × 128 × 5. -/
def W5v (d : Dev nD) : FVec F S128x128x5 .f32 := shapeCast S128x128x5 (m (a2Loc d)) shapeCasts_S128x128x1x5_S128x128x5
/-- main_v6: the five 128 × 128 weight matrices. -/
def Wtv (d : Dev nD) : FVec F S5x128x128 .f32 := transpose S5x128x128 [2, 0, 1] (W5v m d) transposes_S128x128x5_S5x128x128_2_0_1
/-- main_v7: the bias as a column. -/
def Bsv (d : Dev nD) : FVec F S128x1 .f32 := shapeCast S128x1 (m (a3Loc d)) shapeCasts_S128_S128x1

end Arrays

/-! ## @main's arrays, listed -/

theorem unscopedBufs_eq (d : Dev nD) (W : (b : Ref sig .tc) → Buf (Elt F) ((SparseCore.T d).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_v9 ↦{fullShare} W main_v9) ∗ ((SparseCore.T d).loc main_v10 ↦{fullShare} W main_v10) ∗ ((SparseCore.T d).loc main_v11 ↦{fullShare} W main_v11) ∗ ((SparseCore.T d).loc main_v12 ↦{fullShare} W main_v12) ∗ ((SparseCore.T d).loc main_v13 ↦{fullShare} W main_v13) ∗ ((SparseCore.T d).loc main_v14 ↦{fullShare} W main_v14) ∗ ((SparseCore.T d).loc main_v15 ↦{fullShare} W main_v15) ∗ ((SparseCore.T d).loc main_v16 ↦{fullShare} W main_v16) ∗ ((SparseCore.T d).loc main_v17 ↦{fullShare} W main_v17) ∗ ((SparseCore.T d).loc main_v18 ↦{fullShare} W main_v18) ∗ ((SparseCore.T d).loc main_v19 ↦{fullShare} W main_v19) ∗ ((SparseCore.T d).loc main_v20 ↦{fullShare} W main_v20) ∗ ((SparseCore.T d).loc main_v21 ↦{fullShare} W main_v21) ∗ ((SparseCore.T d).loc main_v22 ↦{fullShare} W main_v22) ∗ ((SparseCore.T d).loc main_v23 ↦{fullShare} W main_v23)) := by
  unfold unscopedBufs
  exact bigSep_eq_bigSepL_of_eq [main_arg0, main_arg1, main_arg2, main_arg3, main_v0, main_v1, main_v2, main_v3, main_v4, main_v5, main_v6, main_v7, main_v8, main_v9, main_v10, main_v11, main_v12, main_v13, main_v14, main_v15, main_v16, main_v17, main_v18, main_v19, main_v20, main_v21, main_v22, main_v23] (by decide) (by decide) _

/-! ## What @main asks of the gather calls and of the regions -/

section Specs

variable [FloatOps F] (m : (ℓ : Loc nD τ sig) → Buf (Elt F) ℓ)

/-- How each gather call's three arrays — the table, the call's index block, its result as the launch left it — split
    into what the call's start signals carry (and a remainder `R`), and how what comes back joins into the three arrays
    again, the result now the gathered array. -/
structure Calls where
  R : Fin 5 → Dev nD → sProp 𝕄
  split0 : ∀ d : Dev nD, iprop((xLoc d ↦{fullShare} Xv m d) ∗ ((SparseCore.T d).loc main_v8 ↦{fullShare} Iv0 m d) ∗ ((SparseCore.T d).loc main_v9 ↦{fullShare} m ((SparseCore.T d).loc main_v9)))
      ⊢ iprop(R 0 d ∗ bigSep Finset.univ fun c : Fin ((K (F := F)).nCore 0) => (P m).st 0 d c)
  join0 : ∀ d : Dev nD, iprop(R 0 d ∗ bigSep Finset.univ fun c : Fin ((K (F := F)).nCore 0) => (P m).dn 0 d c)
      ⊢ iprop((xLoc d ↦{fullShare} Xv m d) ∗ ((SparseCore.T d).loc main_v8 ↦{fullShare} Iv0 m d) ∗ ((SparseCore.T d).loc main_v9 ↦{fullShare} gath (F := F) (Xv m d) (Iv0 m d)))
  split1 : ∀ d : Dev nD, iprop((xLoc d ↦{fullShare} Xv m d) ∗ ((SparseCore.T d).loc main_v10 ↦{fullShare} Iv1 m d) ∗ ((SparseCore.T d).loc main_v11 ↦{fullShare} m ((SparseCore.T d).loc main_v11)))
      ⊢ iprop(R 1 d ∗ bigSep Finset.univ fun c : Fin ((K (F := F)).nCore 1) => (P m).st 1 d c)
  join1 : ∀ d : Dev nD, iprop(R 1 d ∗ bigSep Finset.univ fun c : Fin ((K (F := F)).nCore 1) => (P m).dn 1 d c)
      ⊢ iprop((xLoc d ↦{fullShare} Xv m d) ∗ ((SparseCore.T d).loc main_v10 ↦{fullShare} Iv1 m d) ∗ ((SparseCore.T d).loc main_v11 ↦{fullShare} gath (F := F) (Xv m d) (Iv1 m d)))
  split2 : ∀ d : Dev nD, iprop((xLoc d ↦{fullShare} Xv m d) ∗ ((SparseCore.T d).loc main_v12 ↦{fullShare} Iv2 m d) ∗ ((SparseCore.T d).loc main_v13 ↦{fullShare} m ((SparseCore.T d).loc main_v13)))
      ⊢ iprop(R 2 d ∗ bigSep Finset.univ fun c : Fin ((K (F := F)).nCore 2) => (P m).st 2 d c)
  join2 : ∀ d : Dev nD, iprop(R 2 d ∗ bigSep Finset.univ fun c : Fin ((K (F := F)).nCore 2) => (P m).dn 2 d c)
      ⊢ iprop((xLoc d ↦{fullShare} Xv m d) ∗ ((SparseCore.T d).loc main_v12 ↦{fullShare} Iv2 m d) ∗ ((SparseCore.T d).loc main_v13 ↦{fullShare} gath (F := F) (Xv m d) (Iv2 m d)))
  split3 : ∀ d : Dev nD, iprop((xLoc d ↦{fullShare} Xv m d) ∗ ((SparseCore.T d).loc main_v14 ↦{fullShare} Iv3 m d) ∗ ((SparseCore.T d).loc main_v15 ↦{fullShare} m ((SparseCore.T d).loc main_v15)))
      ⊢ iprop(R 3 d ∗ bigSep Finset.univ fun c : Fin ((K (F := F)).nCore 3) => (P m).st 3 d c)
  join3 : ∀ d : Dev nD, iprop(R 3 d ∗ bigSep Finset.univ fun c : Fin ((K (F := F)).nCore 3) => (P m).dn 3 d c)
      ⊢ iprop((xLoc d ↦{fullShare} Xv m d) ∗ ((SparseCore.T d).loc main_v14 ↦{fullShare} Iv3 m d) ∗ ((SparseCore.T d).loc main_v15 ↦{fullShare} gath (F := F) (Xv m d) (Iv3 m d)))
  split4 : ∀ d : Dev nD, iprop((xLoc d ↦{fullShare} Xv m d) ∗ ((SparseCore.T d).loc main_v16 ↦{fullShare} Iv4 m d) ∗ ((SparseCore.T d).loc main_v17 ↦{fullShare} m ((SparseCore.T d).loc main_v17)))
      ⊢ iprop(R 4 d ∗ bigSep Finset.univ fun c : Fin ((K (F := F)).nCore 4) => (P m).st 4 d c)
  join4 : ∀ d : Dev nD, iprop(R 4 d ∗ bigSep Finset.univ fun c : Fin ((K (F := F)).nCore 4) => (P m).dn 4 d c)
      ⊢ iprop((xLoc d ↦{fullShare} Xv m d) ∗ ((SparseCore.T d).loc main_v16 ↦{fullShare} Iv4 m d) ∗ ((SparseCore.T d).loc main_v17 ↦{fullShare} gath (F := F) (Xv m d) (Iv4 m d)))

/-- What each convolution region does, as @main uses it: from the handshake state after the last call, the region
    boundary, the region's pipeline's ghost state and its five arrays whole — the reshaped input, the call's gathered
    array, the weights, the bias, the output as found —, the region runs and gives everything back, the output at
    `Conv p d` of the five contents. -/
structure Regions (P : (K (F := F)).Pay (nD := nD) (Val := Elt F) (Name := ℕ) (U := UU)) where
  Conv : Fin 5 → Dev nD → FVec F S128x160000 .f32 → FVec F S4x32000x128 .f32 → FVec F S5x128x128 .f32 → FVec F S128x1 .f32
    → FVec F S128x160000 .f32 → FVec F S128x160000 .f32
  wp0 : ∀ (κ : GSem nD τ sig → ℕ) (d : Dev nD) (X0 : Buf (Elt F) ((SparseCore.T d).loc main_v0)) (Gq : Buf (Elt F) ((SparseCore.T d).loc main_v9))
      (Wt : Buf (Elt F) ((SparseCore.T d).loc main_v6)) (Bs : Buf (Elt F) ((SparseCore.T d).loc main_v7)) (A : Buf (Elt F) ((SparseCore.T d).loc main_v18))
      (Φ : PUnit → sProp 𝕄),
      iprop((K (F := F)).ctx EH P κ ∗ (K (F := F)).tcSt EH d 5 ∗ boundary (SparseCore.T d)
        ∗ Pipeline.cellsGhost cfgs (EP (F := F)) 0 d ∗ Pipeline.toksInit cfgs (EP (F := F)) 0 d
        ∗ ((SparseCore.T d).loc main_v0 ↦{fullShare} X0) ∗ ((SparseCore.T d).loc main_v9 ↦{fullShare} Gq) ∗ ((SparseCore.T d).loc main_v6 ↦{fullShare} Wt) ∗ ((SparseCore.T d).loc main_v7 ↦{fullShare} Bs) ∗ ((SparseCore.T d).loc main_v18 ↦{fullShare} A)
        ∗ (((K (F := F)).tcSt EH d 5 ∗ boundary (SparseCore.T d)
            ∗ ((SparseCore.T d).loc main_v0 ↦{fullShare} X0) ∗ ((SparseCore.T d).loc main_v9 ↦{fullShare} Gq) ∗ ((SparseCore.T d).loc main_v6 ↦{fullShare} Wt) ∗ ((SparseCore.T d).loc main_v7 ↦{fullShare} Bs) ∗ ((SparseCore.T d).loc main_v18 ↦{fullShare} Conv 0 d X0 Gq Wt Bs A)) -∗ Φ ⟨⟩))
      ⊢ wp frame (wpE ((K (F := F)).defs (D (F := F))) 𝒱 (SparseCore.T d) none) Set.univ
          (Prog.lift (.customCall (SparseCore.inner (Pipeline.entry 0)) ())) Φ
  wp1 : ∀ (κ : GSem nD τ sig → ℕ) (d : Dev nD) (X0 : Buf (Elt F) ((SparseCore.T d).loc main_v0)) (Gq : Buf (Elt F) ((SparseCore.T d).loc main_v11))
      (Wt : Buf (Elt F) ((SparseCore.T d).loc main_v6)) (Bs : Buf (Elt F) ((SparseCore.T d).loc main_v7)) (A : Buf (Elt F) ((SparseCore.T d).loc main_v19))
      (Φ : PUnit → sProp 𝕄),
      iprop((K (F := F)).ctx EH P κ ∗ (K (F := F)).tcSt EH d 5 ∗ boundary (SparseCore.T d)
        ∗ Pipeline.cellsGhost cfgs (EP (F := F)) 1 d ∗ Pipeline.toksInit cfgs (EP (F := F)) 1 d
        ∗ ((SparseCore.T d).loc main_v0 ↦{fullShare} X0) ∗ ((SparseCore.T d).loc main_v11 ↦{fullShare} Gq) ∗ ((SparseCore.T d).loc main_v6 ↦{fullShare} Wt) ∗ ((SparseCore.T d).loc main_v7 ↦{fullShare} Bs) ∗ ((SparseCore.T d).loc main_v19 ↦{fullShare} A)
        ∗ (((K (F := F)).tcSt EH d 5 ∗ boundary (SparseCore.T d)
            ∗ ((SparseCore.T d).loc main_v0 ↦{fullShare} X0) ∗ ((SparseCore.T d).loc main_v11 ↦{fullShare} Gq) ∗ ((SparseCore.T d).loc main_v6 ↦{fullShare} Wt) ∗ ((SparseCore.T d).loc main_v7 ↦{fullShare} Bs) ∗ ((SparseCore.T d).loc main_v19 ↦{fullShare} Conv 1 d X0 Gq Wt Bs A)) -∗ Φ ⟨⟩))
      ⊢ wp frame (wpE ((K (F := F)).defs (D (F := F))) 𝒱 (SparseCore.T d) none) Set.univ
          (Prog.lift (.customCall (SparseCore.inner (Pipeline.entry 1)) ())) Φ
  wp2 : ∀ (κ : GSem nD τ sig → ℕ) (d : Dev nD) (X0 : Buf (Elt F) ((SparseCore.T d).loc main_v0)) (Gq : Buf (Elt F) ((SparseCore.T d).loc main_v13))
      (Wt : Buf (Elt F) ((SparseCore.T d).loc main_v6)) (Bs : Buf (Elt F) ((SparseCore.T d).loc main_v7)) (A : Buf (Elt F) ((SparseCore.T d).loc main_v20))
      (Φ : PUnit → sProp 𝕄),
      iprop((K (F := F)).ctx EH P κ ∗ (K (F := F)).tcSt EH d 5 ∗ boundary (SparseCore.T d)
        ∗ Pipeline.cellsGhost cfgs (EP (F := F)) 2 d ∗ Pipeline.toksInit cfgs (EP (F := F)) 2 d
        ∗ ((SparseCore.T d).loc main_v0 ↦{fullShare} X0) ∗ ((SparseCore.T d).loc main_v13 ↦{fullShare} Gq) ∗ ((SparseCore.T d).loc main_v6 ↦{fullShare} Wt) ∗ ((SparseCore.T d).loc main_v7 ↦{fullShare} Bs) ∗ ((SparseCore.T d).loc main_v20 ↦{fullShare} A)
        ∗ (((K (F := F)).tcSt EH d 5 ∗ boundary (SparseCore.T d)
            ∗ ((SparseCore.T d).loc main_v0 ↦{fullShare} X0) ∗ ((SparseCore.T d).loc main_v13 ↦{fullShare} Gq) ∗ ((SparseCore.T d).loc main_v6 ↦{fullShare} Wt) ∗ ((SparseCore.T d).loc main_v7 ↦{fullShare} Bs) ∗ ((SparseCore.T d).loc main_v20 ↦{fullShare} Conv 2 d X0 Gq Wt Bs A)) -∗ Φ ⟨⟩))
      ⊢ wp frame (wpE ((K (F := F)).defs (D (F := F))) 𝒱 (SparseCore.T d) none) Set.univ
          (Prog.lift (.customCall (SparseCore.inner (Pipeline.entry 2)) ())) Φ
  wp3 : ∀ (κ : GSem nD τ sig → ℕ) (d : Dev nD) (X0 : Buf (Elt F) ((SparseCore.T d).loc main_v0)) (Gq : Buf (Elt F) ((SparseCore.T d).loc main_v15))
      (Wt : Buf (Elt F) ((SparseCore.T d).loc main_v6)) (Bs : Buf (Elt F) ((SparseCore.T d).loc main_v7)) (A : Buf (Elt F) ((SparseCore.T d).loc main_v21))
      (Φ : PUnit → sProp 𝕄),
      iprop((K (F := F)).ctx EH P κ ∗ (K (F := F)).tcSt EH d 5 ∗ boundary (SparseCore.T d)
        ∗ Pipeline.cellsGhost cfgs (EP (F := F)) 3 d ∗ Pipeline.toksInit cfgs (EP (F := F)) 3 d
        ∗ ((SparseCore.T d).loc main_v0 ↦{fullShare} X0) ∗ ((SparseCore.T d).loc main_v15 ↦{fullShare} Gq) ∗ ((SparseCore.T d).loc main_v6 ↦{fullShare} Wt) ∗ ((SparseCore.T d).loc main_v7 ↦{fullShare} Bs) ∗ ((SparseCore.T d).loc main_v21 ↦{fullShare} A)
        ∗ (((K (F := F)).tcSt EH d 5 ∗ boundary (SparseCore.T d)
            ∗ ((SparseCore.T d).loc main_v0 ↦{fullShare} X0) ∗ ((SparseCore.T d).loc main_v15 ↦{fullShare} Gq) ∗ ((SparseCore.T d).loc main_v6 ↦{fullShare} Wt) ∗ ((SparseCore.T d).loc main_v7 ↦{fullShare} Bs) ∗ ((SparseCore.T d).loc main_v21 ↦{fullShare} Conv 3 d X0 Gq Wt Bs A)) -∗ Φ ⟨⟩))
      ⊢ wp frame (wpE ((K (F := F)).defs (D (F := F))) 𝒱 (SparseCore.T d) none) Set.univ
          (Prog.lift (.customCall (SparseCore.inner (Pipeline.entry 3)) ())) Φ
  wp4 : ∀ (κ : GSem nD τ sig → ℕ) (d : Dev nD) (X0 : Buf (Elt F) ((SparseCore.T d).loc main_v0)) (Gq : Buf (Elt F) ((SparseCore.T d).loc main_v17))
      (Wt : Buf (Elt F) ((SparseCore.T d).loc main_v6)) (Bs : Buf (Elt F) ((SparseCore.T d).loc main_v7)) (A : Buf (Elt F) ((SparseCore.T d).loc main_v22))
      (Φ : PUnit → sProp 𝕄),
      iprop((K (F := F)).ctx EH P κ ∗ (K (F := F)).tcSt EH d 5 ∗ boundary (SparseCore.T d)
        ∗ Pipeline.cellsGhost cfgs (EP (F := F)) 4 d ∗ Pipeline.toksInit cfgs (EP (F := F)) 4 d
        ∗ ((SparseCore.T d).loc main_v0 ↦{fullShare} X0) ∗ ((SparseCore.T d).loc main_v17 ↦{fullShare} Gq) ∗ ((SparseCore.T d).loc main_v6 ↦{fullShare} Wt) ∗ ((SparseCore.T d).loc main_v7 ↦{fullShare} Bs) ∗ ((SparseCore.T d).loc main_v22 ↦{fullShare} A)
        ∗ (((K (F := F)).tcSt EH d 5 ∗ boundary (SparseCore.T d)
            ∗ ((SparseCore.T d).loc main_v0 ↦{fullShare} X0) ∗ ((SparseCore.T d).loc main_v17 ↦{fullShare} Gq) ∗ ((SparseCore.T d).loc main_v6 ↦{fullShare} Wt) ∗ ((SparseCore.T d).loc main_v7 ↦{fullShare} Bs) ∗ ((SparseCore.T d).loc main_v22 ↦{fullShare} Conv 4 d X0 Gq Wt Bs A)) -∗ Φ ⟨⟩))
      ⊢ wp frame (wpE ((K (F := F)).defs (D (F := F))) 𝒱 (SparseCore.T d) none) Set.univ
          (Prog.lift (.customCall (SparseCore.inner (Pipeline.entry 4)) ())) Φ

variable {m}

/-- The output array after region `p`. -/
def R0 (hr : Regions (P m)) (d : Dev nD) : FVec F S128x160000 .f32 :=
  hr.Conv 0 d (V0v m d) (gath (F := F) (Xv m d) (Iv0 m d)) (Wtv m d) (Bsv m d) (m ((SparseCore.T d).loc main_v18))
def R1 (hr : Regions (P m)) (d : Dev nD) : FVec F S128x160000 .f32 :=
  hr.Conv 1 d (V0v m d) (gath (F := F) (Xv m d) (Iv1 m d)) (Wtv m d) (Bsv m d) (R0 hr d)
def R2 (hr : Regions (P m)) (d : Dev nD) : FVec F S128x160000 .f32 :=
  hr.Conv 2 d (V0v m d) (gath (F := F) (Xv m d) (Iv2 m d)) (Wtv m d) (Bsv m d) (R1 hr d)
def R3 (hr : Regions (P m)) (d : Dev nD) : FVec F S128x160000 .f32 :=
  hr.Conv 3 d (V0v m d) (gath (F := F) (Xv m d) (Iv3 m d)) (Wtv m d) (Bsv m d) (R2 hr d)
def R4 (hr : Regions (P m)) (d : Dev nD) : FVec F S128x160000 .f32 :=
  hr.Conv 4 d (V0v m d) (gath (F := F) (Xv m d) (Iv4 m d)) (Wtv m d) (Bsv m d) (R3 hr d)
/-- The program's result main_v23. -/
def KOut (hr : Regions (P m)) (d : Dev nD) : FVec F S1x128x160000x1 .f32 :=
  broadcastInDim S1x128x160000x1 ![1, 2] bcast_S128x160000_S1x128x160000x1_1_2 (R4 hr d)

/-- What @main leaves the claim: the four arguments at their launch contents and the result. -/
def FIN (hr : Regions (P m)) (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v23 ↦{fullShare} KOut hr d))

/-! ## @main -/

/-- The launch memory as a valuation of device `d`'s arrays. -/
abbrev V0 (m : (ℓ : Loc nD τ sig) → Buf (Elt F) ℓ) (d : Dev nD) : Valuation τ sig (Elt F) := fun b => m (d, b)

variable (m) (ρ : Dev nD → PrngReg)

set_option maxHeartbeats 1600000 in
/-- @main on device `d`'s TensorCore, from what the launch deals it and the five pipelines' ghost state: the host
    operations, the five gather calls, the five regions with the copies between them, the broadcast; the arguments are
    kept and the result is `KOut`. -/
theorem hmain (hc : Calls m) (hr : Regions (P m)) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 5 ∗ FIN hr d) := by
  unfold SparseCore.Cfg.tcRes G
  rw [unscopedBufs_eq, bigSep_W5]
  simp only [main, wp_bind, wp_pure]
  iintro ⟨#Hctx, Hst, ⟨Hb, ⟨Ha0, Ha1, Ha2, Ha3, Hv0, Hv1, Hv2, Hv3, Hv4, Hv5, Hv6, Hv7, Hv8, Hv9, Hv10, Hv11, Hv12, Hv13, Hv14, Hv15, Hv16, Hv17, Hv18, Hv19, Hv20, Hv21, Hv22, Hv23⟩, -, -⟩, ⟨HgC0, HgT0⟩, ⟨HgC1, HgT1⟩, ⟨HgC2, HgT2⟩, ⟨HgC3, HgT3⟩, ⟨HgC4, HgT4⟩⟩
  -- main_v0 from main_arg0
  iapply (wp_reshape_pt 𝒱 d main_arg0 main_v0 rfl shapeCasts_S1x128x160000_S128x160000 _ _ (by decide) (V0 m d) (m ((SparseCore.T d).loc main_arg0)) (m ((SparseCore.T d).loc main_v0)) (V0v m d) (by rfl)) $$ [Hb Ha0 Hv0]
  · isplitl [Hb]; · iexact Hb
    isplitl [Ha0]; · iexact Ha0
    iexact Hv0
  iintro ⟨Hb, Ha0, Hv0⟩
  rw [wp_ret]; imodintro
  -- main_v1 from main_v0
  iapply (wp_unary_pt 𝒱 d main_v0 main_v1 ((transpose S160000x128 [1, 0] · transposes_S128x160000_S160000x128_1_0) : (⟨S128x160000, .f32⟩ : BufTy).Contents (Elt F) → (⟨S160000x128, .f32⟩ : BufTy).Contents (Elt F)) _ _ (by decide) (V0 m d) (V0v m d) (m ((SparseCore.T d).loc main_v1)) (Xv m d) (by rfl)) $$ [Hb Hv0 Hv1]
  · isplitl [Hb]; · iexact Hb
    isplitl [Hv0]; · iexact Hv0
    iexact Hv1
  iintro ⟨Hb, Hv0, Hv1⟩
  rw [wp_ret]; imodintro
  -- main_v2 from main_arg1
  iapply (wp_reshape_pt 𝒱 d main_arg1 main_v2 rfl shapeCasts_S1x160000x4_S160000x4 _ _ (by decide) (V0 m d) (m ((SparseCore.T d).loc main_arg1)) (m ((SparseCore.T d).loc main_v2)) (V2v m d) (by rfl)) $$ [Hb Ha1 Hv2]
  · isplitl [Hb]; · iexact Hb
    isplitl [Ha1]; · iexact Ha1
    iexact Hv2
  iintro ⟨Hb, Ha1, Hv2⟩
  rw [wp_ret]; imodintro
  -- main_v3 from main_v2
  iapply (wp_reshape_pt 𝒱 d main_v2 main_v3 rfl shapeCasts_S160000x4_S1250x128x4 _ _ (by decide) (V0 m d) (V2v m d) (m ((SparseCore.T d).loc main_v3)) (V3v m d) (by rfl)) $$ [Hb Hv2 Hv3]
  · isplitl [Hb]; · iexact Hb
    isplitl [Hv2]; · iexact Hv2
    iexact Hv3
  iintro ⟨Hb, Hv2, Hv3⟩
  rw [wp_ret]; imodintro
  -- main_v4 from main_v3
  iapply (wp_unary_pt 𝒱 d main_v3 main_v4 ((transpose S1250x4x128 [0, 2, 1] · transposes_S1250x128x4_S1250x4x128_0_2_1) : (⟨S1250x128x4, .i32⟩ : BufTy).Contents (Elt F) → (⟨S1250x4x128, .i32⟩ : BufTy).Contents (Elt F)) _ _ (by decide) (V0 m d) (V3v m d) (m ((SparseCore.T d).loc main_v4)) (V4v m d) (by rfl)) $$ [Hb Hv3 Hv4]
  · isplitl [Hb]; · iexact Hb
    isplitl [Hv3]; · iexact Hv3
    iexact Hv4
  iintro ⟨Hb, Hv3, Hv4⟩
  rw [wp_ret]; imodintro
  -- main_v5 from main_arg2
  iapply (wp_reshape_pt 𝒱 d main_arg2 main_v5 rfl shapeCasts_S128x128x1x5_S128x128x5 _ _ (by decide) (V0 m d) (m ((SparseCore.T d).loc main_arg2)) (m ((SparseCore.T d).loc main_v5)) (W5v m d) (by rfl)) $$ [Hb Ha2 Hv5]
  · isplitl [Hb]; · iexact Hb
    isplitl [Ha2]; · iexact Ha2
    iexact Hv5
  iintro ⟨Hb, Ha2, Hv5⟩
  rw [wp_ret]; imodintro
  -- main_v6 from main_v5
  iapply (wp_unary_pt 𝒱 d main_v5 main_v6 ((transpose S5x128x128 [2, 0, 1] · transposes_S128x128x5_S5x128x128_2_0_1) : (⟨S128x128x5, .f32⟩ : BufTy).Contents (Elt F) → (⟨S5x128x128, .f32⟩ : BufTy).Contents (Elt F)) _ _ (by decide) (V0 m d) (W5v m d) (m ((SparseCore.T d).loc main_v6)) (Wtv m d) (by rfl)) $$ [Hb Hv5 Hv6]
  · isplitl [Hb]; · iexact Hb
    isplitl [Hv5]; · iexact Hv5
    iexact Hv6
  iintro ⟨Hb, Hv5, Hv6⟩
  rw [wp_ret]; imodintro
  -- main_v7 from main_arg3
  iapply (wp_reshape_pt 𝒱 d main_arg3 main_v7 rfl shapeCasts_S128_S128x1 _ _ (by decide) (V0 m d) (m ((SparseCore.T d).loc main_arg3)) (m ((SparseCore.T d).loc main_v7)) (Bsv m d) (by rfl)) $$ [Hb Ha3 Hv7]
  · isplitl [Hb]; · iexact Hb
    isplitl [Ha3]; · iexact Ha3
    iexact Hv7
  iintro ⟨Hb, Ha3, Hv7⟩
  rw [wp_ret]; imodintro
  -- main_v8 from main_v4
  iapply (wp_unary_pt 𝒱 d main_v4 main_v8 ((extractStridedSlice S250x4x128 ![0, 0, 0] · slices_S1250x4x128_S250x4x128_0_0_0) : (⟨S1250x4x128, .i32⟩ : BufTy).Contents (Elt F) → (⟨S250x4x128, .i32⟩ : BufTy).Contents (Elt F)) _ _ (by decide) (V0 m d) (V4v m d) (m ((SparseCore.T d).loc main_v8)) (Iv0 m d) (by rfl)) $$ [Hb Hv4 Hv8]
  · isplitl [Hb]; · iexact Hb
    isplitl [Hv4]; · iexact Hv4
    iexact Hv8
  iintro ⟨Hb, Hv4, Hv8⟩
  rw [wp_ret]; imodintro
  -- gather call 0
  ihave Hs := (hc.split0 d) $$ [Hv1 Hv8 Hv9]
  · isplitl [Hv1]; · iexact Hv1
    isplitl [Hv8]; · iexact Hv8
    iexact Hv9
  icases Hs with ⟨HR, Hs⟩
  iapply ((K (F := F)).wp_run (D (F := F)) 𝒱 (EH := EH) (P := P m) κ d 0)
  isplitr; · iexact Hctx
  isplitl [Hst]; · iexact Hst
  isplitl [Hs]; · iexact Hs
  iintro ⟨Hst, Hdn⟩
  ihave Hj := (hc.join0 d) $$ [HR Hdn]
  · isplitl [HR]; · iexact HR
    iexact Hdn
  icases Hj with ⟨Hv1, Hv8, Hv9⟩
  -- main_v10 from main_v4
  iapply (wp_unary_pt 𝒱 d main_v4 main_v10 ((extractStridedSlice S250x4x128 ![250, 0, 0] · slices_S1250x4x128_S250x4x128_250_0_0) : (⟨S1250x4x128, .i32⟩ : BufTy).Contents (Elt F) → (⟨S250x4x128, .i32⟩ : BufTy).Contents (Elt F)) _ _ (by decide) (V0 m d) (V4v m d) (m ((SparseCore.T d).loc main_v10)) (Iv1 m d) (by rfl)) $$ [Hb Hv4 Hv10]
  · isplitl [Hb]; · iexact Hb
    isplitl [Hv4]; · iexact Hv4
    iexact Hv10
  iintro ⟨Hb, Hv4, Hv10⟩
  rw [wp_ret]; imodintro
  -- gather call 1
  ihave Hs := (hc.split1 d) $$ [Hv1 Hv10 Hv11]
  · isplitl [Hv1]; · iexact Hv1
    isplitl [Hv10]; · iexact Hv10
    iexact Hv11
  icases Hs with ⟨HR, Hs⟩
  iapply ((K (F := F)).wp_run (D (F := F)) 𝒱 (EH := EH) (P := P m) κ d 1)
  isplitr; · iexact Hctx
  isplitl [Hst]; · iexact Hst
  isplitl [Hs]; · iexact Hs
  iintro ⟨Hst, Hdn⟩
  ihave Hj := (hc.join1 d) $$ [HR Hdn]
  · isplitl [HR]; · iexact HR
    iexact Hdn
  icases Hj with ⟨Hv1, Hv10, Hv11⟩
  -- main_v12 from main_v4
  iapply (wp_unary_pt 𝒱 d main_v4 main_v12 ((extractStridedSlice S250x4x128 ![500, 0, 0] · slices_S1250x4x128_S250x4x128_500_0_0) : (⟨S1250x4x128, .i32⟩ : BufTy).Contents (Elt F) → (⟨S250x4x128, .i32⟩ : BufTy).Contents (Elt F)) _ _ (by decide) (V0 m d) (V4v m d) (m ((SparseCore.T d).loc main_v12)) (Iv2 m d) (by rfl)) $$ [Hb Hv4 Hv12]
  · isplitl [Hb]; · iexact Hb
    isplitl [Hv4]; · iexact Hv4
    iexact Hv12
  iintro ⟨Hb, Hv4, Hv12⟩
  rw [wp_ret]; imodintro
  -- gather call 2
  ihave Hs := (hc.split2 d) $$ [Hv1 Hv12 Hv13]
  · isplitl [Hv1]; · iexact Hv1
    isplitl [Hv12]; · iexact Hv12
    iexact Hv13
  icases Hs with ⟨HR, Hs⟩
  iapply ((K (F := F)).wp_run (D (F := F)) 𝒱 (EH := EH) (P := P m) κ d 2)
  isplitr; · iexact Hctx
  isplitl [Hst]; · iexact Hst
  isplitl [Hs]; · iexact Hs
  iintro ⟨Hst, Hdn⟩
  ihave Hj := (hc.join2 d) $$ [HR Hdn]
  · isplitl [HR]; · iexact HR
    iexact Hdn
  icases Hj with ⟨Hv1, Hv12, Hv13⟩
  -- main_v14 from main_v4
  iapply (wp_unary_pt 𝒱 d main_v4 main_v14 ((extractStridedSlice S250x4x128 ![750, 0, 0] · slices_S1250x4x128_S250x4x128_750_0_0) : (⟨S1250x4x128, .i32⟩ : BufTy).Contents (Elt F) → (⟨S250x4x128, .i32⟩ : BufTy).Contents (Elt F)) _ _ (by decide) (V0 m d) (V4v m d) (m ((SparseCore.T d).loc main_v14)) (Iv3 m d) (by rfl)) $$ [Hb Hv4 Hv14]
  · isplitl [Hb]; · iexact Hb
    isplitl [Hv4]; · iexact Hv4
    iexact Hv14
  iintro ⟨Hb, Hv4, Hv14⟩
  rw [wp_ret]; imodintro
  -- gather call 3
  ihave Hs := (hc.split3 d) $$ [Hv1 Hv14 Hv15]
  · isplitl [Hv1]; · iexact Hv1
    isplitl [Hv14]; · iexact Hv14
    iexact Hv15
  icases Hs with ⟨HR, Hs⟩
  iapply ((K (F := F)).wp_run (D (F := F)) 𝒱 (EH := EH) (P := P m) κ d 3)
  isplitr; · iexact Hctx
  isplitl [Hst]; · iexact Hst
  isplitl [Hs]; · iexact Hs
  iintro ⟨Hst, Hdn⟩
  ihave Hj := (hc.join3 d) $$ [HR Hdn]
  · isplitl [HR]; · iexact HR
    iexact Hdn
  icases Hj with ⟨Hv1, Hv14, Hv15⟩
  -- main_v16 from main_v4
  iapply (wp_unary_pt 𝒱 d main_v4 main_v16 ((extractStridedSlice S250x4x128 ![1000, 0, 0] · slices_S1250x4x128_S250x4x128_1000_0_0) : (⟨S1250x4x128, .i32⟩ : BufTy).Contents (Elt F) → (⟨S250x4x128, .i32⟩ : BufTy).Contents (Elt F)) _ _ (by decide) (V0 m d) (V4v m d) (m ((SparseCore.T d).loc main_v16)) (Iv4 m d) (by rfl)) $$ [Hb Hv4 Hv16]
  · isplitl [Hb]; · iexact Hb
    isplitl [Hv4]; · iexact Hv4
    iexact Hv16
  iintro ⟨Hb, Hv4, Hv16⟩
  rw [wp_ret]; imodintro
  -- gather call 4
  ihave Hs := (hc.split4 d) $$ [Hv1 Hv16 Hv17]
  · isplitl [Hv1]; · iexact Hv1
    isplitl [Hv16]; · iexact Hv16
    iexact Hv17
  icases Hs with ⟨HR, Hs⟩
  iapply ((K (F := F)).wp_run (D (F := F)) 𝒱 (EH := EH) (P := P m) κ d 4)
  isplitr; · iexact Hctx
  isplitl [Hst]; · iexact Hst
  isplitl [Hs]; · iexact Hs
  iintro ⟨Hst, Hdn⟩
  ihave Hj := (hc.join4 d) $$ [HR Hdn]
  · isplitl [HR]; · iexact HR
    iexact Hdn
  icases Hj with ⟨Hv1, Hv16, Hv17⟩
  -- region 0
  iapply (hr.wp0 κ d (V0v m d) (gath (F := F) (Xv m d) (Iv0 m d)) (Wtv m d) (Bsv m d) (m ((SparseCore.T d).loc main_v18)))
  isplitr; · iexact Hctx
  isplitl [Hst]; · iexact Hst
  isplitl [Hb]; · iexact Hb
  isplitl [HgC0]; · iexact HgC0
  isplitl [HgT0]; · iexact HgT0
  isplitl [Hv0]; · iexact Hv0
  isplitl [Hv9]; · iexact Hv9
  isplitl [Hv6]; · iexact Hv6
  isplitl [Hv7]; · iexact Hv7
  isplitl [Hv18]; · iexact Hv18
  iintro ⟨Hst, Hb, Hv0, Hv9, Hv6, Hv7, Hv18⟩
  -- main_v19 from main_v18
  iapply (wp_unary_pt 𝒱 d main_v18 main_v19 id _ _ (by decide) (V0 m d) (R0 hr d) (m ((SparseCore.T d).loc main_v19)) (R0 hr d) (by rfl)) $$ [Hb Hv18 Hv19]
  · isplitl [Hb]; · iexact Hb
    isplitl [Hv18]; · iexact Hv18
    iexact Hv19
  iintro ⟨Hb, Hv18, Hv19⟩
  rw [wp_ret]; imodintro
  -- region 1
  iapply (hr.wp1 κ d (V0v m d) (gath (F := F) (Xv m d) (Iv1 m d)) (Wtv m d) (Bsv m d) (R0 hr d))
  isplitr; · iexact Hctx
  isplitl [Hst]; · iexact Hst
  isplitl [Hb]; · iexact Hb
  isplitl [HgC1]; · iexact HgC1
  isplitl [HgT1]; · iexact HgT1
  isplitl [Hv0]; · iexact Hv0
  isplitl [Hv11]; · iexact Hv11
  isplitl [Hv6]; · iexact Hv6
  isplitl [Hv7]; · iexact Hv7
  isplitl [Hv19]; · iexact Hv19
  iintro ⟨Hst, Hb, Hv0, Hv11, Hv6, Hv7, Hv19⟩
  -- main_v20 from main_v19
  iapply (wp_unary_pt 𝒱 d main_v19 main_v20 id _ _ (by decide) (V0 m d) (R1 hr d) (m ((SparseCore.T d).loc main_v20)) (R1 hr d) (by rfl)) $$ [Hb Hv19 Hv20]
  · isplitl [Hb]; · iexact Hb
    isplitl [Hv19]; · iexact Hv19
    iexact Hv20
  iintro ⟨Hb, Hv19, Hv20⟩
  rw [wp_ret]; imodintro
  -- region 2
  iapply (hr.wp2 κ d (V0v m d) (gath (F := F) (Xv m d) (Iv2 m d)) (Wtv m d) (Bsv m d) (R1 hr d))
  isplitr; · iexact Hctx
  isplitl [Hst]; · iexact Hst
  isplitl [Hb]; · iexact Hb
  isplitl [HgC2]; · iexact HgC2
  isplitl [HgT2]; · iexact HgT2
  isplitl [Hv0]; · iexact Hv0
  isplitl [Hv13]; · iexact Hv13
  isplitl [Hv6]; · iexact Hv6
  isplitl [Hv7]; · iexact Hv7
  isplitl [Hv20]; · iexact Hv20
  iintro ⟨Hst, Hb, Hv0, Hv13, Hv6, Hv7, Hv20⟩
  -- main_v21 from main_v20
  iapply (wp_unary_pt 𝒱 d main_v20 main_v21 id _ _ (by decide) (V0 m d) (R2 hr d) (m ((SparseCore.T d).loc main_v21)) (R2 hr d) (by rfl)) $$ [Hb Hv20 Hv21]
  · isplitl [Hb]; · iexact Hb
    isplitl [Hv20]; · iexact Hv20
    iexact Hv21
  iintro ⟨Hb, Hv20, Hv21⟩
  rw [wp_ret]; imodintro
  -- region 3
  iapply (hr.wp3 κ d (V0v m d) (gath (F := F) (Xv m d) (Iv3 m d)) (Wtv m d) (Bsv m d) (R2 hr d))
  isplitr; · iexact Hctx
  isplitl [Hst]; · iexact Hst
  isplitl [Hb]; · iexact Hb
  isplitl [HgC3]; · iexact HgC3
  isplitl [HgT3]; · iexact HgT3
  isplitl [Hv0]; · iexact Hv0
  isplitl [Hv15]; · iexact Hv15
  isplitl [Hv6]; · iexact Hv6
  isplitl [Hv7]; · iexact Hv7
  isplitl [Hv21]; · iexact Hv21
  iintro ⟨Hst, Hb, Hv0, Hv15, Hv6, Hv7, Hv21⟩
  -- main_v22 from main_v21
  iapply (wp_unary_pt 𝒱 d main_v21 main_v22 id _ _ (by decide) (V0 m d) (R3 hr d) (m ((SparseCore.T d).loc main_v22)) (R3 hr d) (by rfl)) $$ [Hb Hv21 Hv22]
  · isplitl [Hb]; · iexact Hb
    isplitl [Hv21]; · iexact Hv21
    iexact Hv22
  iintro ⟨Hb, Hv21, Hv22⟩
  rw [wp_ret]; imodintro
  -- region 4
  iapply (hr.wp4 κ d (V0v m d) (gath (F := F) (Xv m d) (Iv4 m d)) (Wtv m d) (Bsv m d) (R3 hr d))
  isplitr; · iexact Hctx
  isplitl [Hst]; · iexact Hst
  isplitl [Hb]; · iexact Hb
  isplitl [HgC4]; · iexact HgC4
  isplitl [HgT4]; · iexact HgT4
  isplitl [Hv0]; · iexact Hv0
  isplitl [Hv17]; · iexact Hv17
  isplitl [Hv6]; · iexact Hv6
  isplitl [Hv7]; · iexact Hv7
  isplitl [Hv22]; · iexact Hv22
  iintro ⟨Hst, Hb, Hv0, Hv17, Hv6, Hv7, Hv22⟩
  -- main_v23 from main_v22
  iapply (wp_unary_pt 𝒱 d main_v22 main_v23 ((broadcastInDim S1x128x160000x1 ![1, 2] bcast_S128x160000_S1x128x160000x1_1_2) : (⟨S128x160000, .f32⟩ : BufTy).Contents (Elt F) → (⟨S1x128x160000x1, .f32⟩ : BufTy).Contents (Elt F)) _ _ (by decide) (V0 m d) (R4 hr d) (m ((SparseCore.T d).loc main_v23)) (KOut hr d) (by rfl)) $$ [Hb Hv22 Hv23]
  · isplitl [Hb]; · iexact Hb
    isplitl [Hv22]; · iexact Hv22
    iexact Hv23
  iintro ⟨Hb, Hv22, Hv23⟩
  rw [wp_ret]; imodintro
  imodintro
  isplitl [Hst]; · iexact Hst
  unfold FIN
  isplitl [Ha0]; · iexact Ha0
  isplitl [Ha1]; · iexact Ha1
  isplitl [Ha2]; · iexact Ha2
  isplitl [Ha3]; · iexact Ha3
  iexact Hv23

end Specs

end Cert.Kernel.KP

end
-- ==== Proof.KRunB.lean ====
/-
  The program's run.  What @main leaves on each device — the four arguments at their launch contents, the result at the
  composed term — is read off the final memory; the launch theorem then gives the run of all the threads from the tiles'
  obligations, the calls' splits, @main's proof and the launch element; and the frame is that run with the result
  forgotten.
-/
import proofs.«210879_g80607946211848_cont_9to1_m_1212_13_alg».proof.Defs
import proofs.«210879_g80607946211848_cont_9to1_m_1212_13_alg».proof.Proof.Gen.Pre_input_domain
import proofs.«210879_g80607946211848_cont_9to1_m_1212_13_alg».proof.Proof.KMainB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 5) (Elt F) ℕ UU ℕ

variable (m : (ℓ : Loc nD τ sig) → Buf (Elt F) ℓ) (ρ : Dev nD → PrngReg)

/-! ## The final memory -/

/-- What the final memory holds on device `d`: the result and the four arguments. -/
def fq (hr : Regions (P m)) (d : Dev nD) (s' : Phys nD τ sig (Elt F)) : Prop :=
  s'.mem.mem ((SparseCore.T d).loc main_v23) = KOut hr d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

theorem hfin (hr : Regions (P m)) (d : Dev nD) (s' : Phys nD τ sig (Elt F)) :
    iprop(FIN hr d ∗ SI s') ⊢ (⌜fq m hr d s'⌝ : sProp 𝕄) := by
  unfold FIN
  iintro ⟨⟨H0, H1, H2, H3, H23⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := (SparseCore.T d).loc main_v23) (I := Finset.univ) (q := fullShare) (f := KOut hr d)) $$ [HSI H23]
  · isplitl [HSI] <;> iassumption
  icases H with %h23
  ipureintro
  exact ⟨funext fun i => h23 i (Finset.mem_univ i), funext fun i => h0 i (Finset.mem_univ i), funext fun i => h1 i (Finset.mem_univ i),
    funext fun i => h2 i (Finset.mem_univ i), funext fun i => h3 i (Finset.mem_univ i)⟩

/-! ## The program's run -/

/-- On every device the result is the composed term and the arguments are unchanged. -/
def QC (hr : Regions (P m)) : PUnit × MemSt nD τ sig (Elt F) → Prop := fun r => ∀ c : Dev nD,
  r.2.mem ((SparseCore.T c).loc main_v23) = KOut hr c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)

/-- The run of all the threads, from the tiles' obligations for the five calls, how the calls' arrays split and join,
    and the five regions. -/
theorem run_main [∀ e, Nonempty (Elt F e)] (hc : Calls m) (hr : Regions (P m))
    (htile : ∀ q : Fin 5, (K (F := F)).TileObl (D (F := F)) 𝒱 (P m) v₀ q) :
    θ_run (Cert.Kernel.defs (F := F)) (Cert.Kernel.threads (F := F)) ⟨m, fun _ => 0, ρ⟩ (QC m hr) :=
  SparseCore.Cfg.θ_run_sc (K := K (F := F)) (D := D (F := F)) (𝒱 := 𝒱) (EH := EH) (P := P m) facts v₀
    (fun q hq => by have h := (kind_eq (F := F) q).symm.trans hq; cases h)
    (fun q _ => htile q)
    (fun q _ => SparseCore.Cfg.VecSplit.of_plain (vecSplit m q))
    m ρ main (G (F := F)) (FIN hr) (u₀ (F := F)) (sep_elim_left.trans (hu₀ (P m) (P_x m))) (hmain m ρ hc hr) (fq m hr) (hfin m hr) (QC m hr)
    (fun _ h => h)

end Cert.Kernel.KP

namespace Cert.Kernel.KP

open Cert.Kernel Cert.Kernel.Gen
open Idealize.ShloMosaic Idealize.SL.Sem
open Idealize.ShloMosaic.SparseCore.Cfg (HIx Pay)

/-- `Cert.frame_Kernel` (Defs.lean): the run at the ideal instance with the result forgotten, given for every launch
    memory satisfying the precondition the calls' splits, the regions and the tiles' obligations. -/
theorem frame_ki
    (hc : ∀ m : (ℓ : Loc nD τ sig) → Buf (Elt Bits) ℓ, Cert.Pre_Kernel m → Calls (F := Bits) m)
    (hr : ∀ m : (ℓ : Loc nD τ sig) → Buf (Elt Bits) ℓ, Cert.Pre_Kernel m → Regions (P (F := Bits) m))
    (htile : ∀ m : (ℓ : Loc nD τ sig) → Buf (Elt Bits) ℓ, Cert.Pre_Kernel m →
      ∀ q : Fin 5, (K (F := Bits)).TileObl (D (F := Bits)) 𝒱 (P m) v₀ q) :
    Cert.frame_Kernel := fun m ρ hpre =>
  (θ_run Cert.Kernel.defs _ _).mono (fun _ h c => (h c).2)
    (run_main (F := Bits) m ρ (hc m hpre) (hr m hpre) (htile m hpre))

end Cert.Kernel.KP

end
-- ==== Proof.KSplit0B.lean ====
/-
  Call 0 of the gather kernel, seen from the TensorCore: how the table, the index block and the result array split
  among the 2 × 16 tiles, and how the tiles' results join to the gathered array.  The table and the index block go out
  as read shares, one per SparseCore and of each one per tile.  The result array is PARTITIONED: tile (c, s) writes, at
  its trip t, the chunk n = 2 s + c + 32 t (when n < 250), that is rows 128 n … 128 n + 127 of each of the four planes;
  every row r of the result lies in exactly one chunk, n = r / 128, and n determines (c, s, t) = (n % 2, n % 32 / 2,
  n / 32).
-/
import proofs.«210879_g80607946211848_cont_9to1_m_1212_13_alg».proof.Proof.KPayB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips0 : k0_t1_loop.trips = 8 := by decide

/-- The chunk trip `t` of tile `L` serves. -/
def chunk0 (L : grid0.Coords) (t : Fin k0_t1_loop.trips) : ℕ := 2 * (L 1).val + (L 0).val + 32 * t.val

/-- A trip is active exactly when its chunk is one of the 250. -/
theorem act0_iff : ∀ (L : grid0.Coords) (t : Fin k0_t1_loop.trips), Act0 L t ↔ 2 * (L 1).val + (L 0).val + 32 * t.val < 250 := by
  decide +kernel

theorem coordsV0_zero (c : Fin (grid0.bound 0)) (s : Fin (grid0.bound 1)) : coordsV0 c s 0 = c := rfl
theorem coordsV0_one (c : Fin (grid0.bound 0)) (s : Fin (grid0.bound 1)) : coordsV0 c s 1 = s := rfl

/-- The elements of a 1 × 128 × 128 window of the result at offsets `(j, n, 0)`, squeezed: plane `j`, rows `n … n + 127`. -/
theorem mem_win0 (off : Fin S4x32000x128.rank → ℕ) (inb : ∀ a, off a + S1x128x128.size a ≤ S4x32000x128.size a) (j n : ℕ) (hoff : off = ![j, n, 0])
    (i : S4x32000x128.Idx) :
    i ∈ (((Memref.whole main_v9_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v9_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet0 (L : grid0.Coords) (t : Fin k0_t1_loop.trips) (h : Act0 L t) (j : Fin 4) (i : S4x32000x128.Idx) :
    i ∈ oSet0 L t h j ↔ (i 0).val = j.val ∧ (i 1).val / 128 = chunk0 L t := by
  unfold chunk0
  match j with
  | 0 => exact (mem_win0 _ _ 0 _ (k0_off10_eq L t) i).trans (by constructor <;> intro hh <;> omega)
  | 1 => exact (mem_win0 _ _ 1 _ (k0_off11_eq L t) i).trans (by constructor <;> intro hh <;> omega)
  | 2 => exact (mem_win0 _ _ 2 _ (k0_off12_eq L t) i).trans (by constructor <;> intro hh <;> omega)
  | 3 => exact (mem_win0 _ _ 3 _ (k0_off13_eq L t) i).trans (by constructor <;> intro hh <;> omega)

theorem oSet0_disjoint (L : grid0.Coords) (t : Fin k0_t1_loop.trips) (h : Act0 L t) :
    ∀ j ∈ (Finset.univ : Finset (Fin 4)), ∀ j' ∈ (Finset.univ : Finset (Fin 4)), j ≠ j' → Disjoint (oSet0 L t h j) (oSet0 L t h j') := by
  intro j _ j' _ hne
  refine Finset.disjoint_left.mpr fun i hi hi' => hne (Fin.ext ?_)
  rw [mem_oSet0] at hi hi'
  omega

/-- All the elements trip `t` of tile `L` writes: the four planes' rows of its chunk; none when the trip is idle. -/
def oSetT (L : grid0.Coords) (t : Fin k0_t1_loop.trips) : Finset S4x32000x128.Idx :=
  if h : Act0 L t then (Finset.univ : Finset (Fin 4)).biUnion (oSet0 L t h) else ∅

theorem mem_oSetT (L : grid0.Coords) (t : Fin k0_t1_loop.trips) (i : S4x32000x128.Idx) :
    i ∈ oSetT L t ↔ chunk0 L t < 250 ∧ (i 1).val / 128 = chunk0 L t := by
  have h0 : (i 0).val < 4 := (i 0).isLt
  unfold oSetT
  split
  · next h =>
    have hc : chunk0 L t < 250 := (act0_iff L t).mp h
    simp only [Finset.mem_biUnion, Finset.mem_univ, true_and, mem_oSet0, hc]
    exact ⟨fun ⟨_, _, e⟩ => e, fun e => ⟨⟨(i 0).val, h0⟩, rfl, e⟩⟩
  · next h =>
    have hc : ¬ chunk0 L t < 250 := fun hc => h ((act0_iff L t).mpr hc)
    simp only [Finset.notMem_empty, hc, false_and]

/-! ## The result array, tile by tile and trip by trip -/

/-- A trip's elements of the result, as one points-to. -/
theorem oTrip0_eq (d : Dev nD) (L : grid0.Coords) (f : Buf (Elt F) (oLoc0 d)) (t : Fin k0_t1_loop.trips) :
    oTrip0 (F := F) d L f t = (oLoc0 d ↦[oSetT L t]{fullShare} f : sProp 𝕄) := by
  unfold oTrip0 oSetT
  split
  · next h =>
    rw [pointsTo_biUnion Finset.univ (ℓ := oLoc0 d) (oSet0 L t h) (oSet0_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip : Type := Fin 2 × Fin 16 × Fin k0_t1_loop.trips
/-- What that trip of that tile writes. -/
def oSetX (x : TileTrip) : Finset S4x32000x128.Idx := oSetT (coordsV0 x.1 x.2.1) x.2.2

theorem chunk0_coords (c : Fin 2) (s : Fin 16) (t : Fin k0_t1_loop.trips) : chunk0 (coordsV0 c s) t = 2 * s.val + c.val + 32 * t.val := rfl

/-- The chunk number determines tile and trip: `n = 2 s + c + 32 t` with `c < 2`, `s < 16`. -/
theorem oSetX_disjoint : ∀ x ∈ (Finset.univ : Finset TileTrip), ∀ x' ∈ (Finset.univ : Finset TileTrip), x ≠ x' → Disjoint (oSetX x) (oSetX x') := by
  intro x _ x' _ hne
  refine Finset.disjoint_left.mpr fun i hi hi' => hne ?_
  obtain ⟨c, s, t⟩ := x
  obtain ⟨c', s', t'⟩ := x'
  rw [oSetX, mem_oSetT, chunk0_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX_cover : (Finset.univ : Finset TileTrip).biUnion oSetX = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips0]; omega⟩), Finset.mem_univ _, ?_⟩
  rw [oSetX, mem_oSetT, chunk0_coords]
  dsimp only
  omega

/-- The whole result array at `f` is every tile's every trip's elements at `f`. -/
theorem oPts_tiles (d : Dev nD) (f : Buf (Elt F) (oLoc0 d)) :
    (oLoc0 d ↦{fullShare} f : sProp 𝕄)
      = bigSep Finset.univ fun c : Fin 2 => bigSep Finset.univ fun s : Fin 16 => bigSep Finset.univ fun t : Fin k0_t1_loop.trips => oTrip0 d (coordsV0 c s) f t := by
  calc (oLoc0 d ↦{fullShare} f : sProp 𝕄)
      = (oLoc0 d ↦[(Finset.univ : Finset TileTrip).biUnion oSetX]{fullShare} f) := by rw [oSetX_cover]
    _ = bigSep Finset.univ fun x : TileTrip => (oLoc0 d ↦[oSetX x]{fullShare} f : sProp 𝕄) := pointsTo_biUnion _ _ oSetX_disjoint
    _ = bigSep Finset.univ fun c : Fin 2 => bigSep Finset.univ fun st : Fin 16 × Fin k0_t1_loop.trips => (oLoc0 d ↦[oSetX (c, st)]{fullShare} f : sProp 𝕄) :=
        bigSep_univ_prod _
    _ = bigSep Finset.univ fun c : Fin 2 => bigSep Finset.univ fun s : Fin 16 => bigSep Finset.univ fun t : Fin k0_t1_loop.trips =>
          (oLoc0 d ↦[oSetX (c, s, t)]{fullShare} f : sProp 𝕄) := bigSep_congr fun c _ => bigSep_univ_prod _
    _ = _ := bigSep_congr fun c _ => bigSep_congr fun s _ => bigSep_congr fun t _ => (oTrip0_eq d (coordsV0 c s) f t).symm

/-! ## The table and the index block: a read share per SparseCore, and of each one per tile -/

/-- An array held whole is: what remains after the two SparseCores' tokens, what remains of each of those after its
    sixteen tiles' tokens, and the 2 × 16 tiles' tokens. -/
theorem reads_tiles {ℓ : Loc nD τ sig} (f : Buf (Elt F) ℓ) :
    (ℓ ↦{fullShare} f : sProp 𝕄)
      = iprop((ℓ ↦{shareDrop fullShare 2} f)
          ∗ (bigSep Finset.univ fun c : Fin 2 => ℓ ↦{shareDrop (shareTok fullShare 2 c) 16} f)
          ∗ bigSep Finset.univ fun c : Fin 2 => bigSep Finset.univ fun s : Fin 16 => ℓ ↦{shareTok (shareTok fullShare 2 c) 16 s} f) := by
  have e2 : (ℓ ↦{fullShare} f : sProp 𝕄)
      = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have e16 : ∀ c : Fin 2, (ℓ ↦{shareTok fullShare 2 c} f : sProp 𝕄)
      = iprop((ℓ ↦{shareDrop (shareTok fullShare 2 c) 16} f) ∗ bigSep Finset.univ fun s : Fin 16 => ℓ ↦{shareTok (shareTok fullShare 2 c) 16 s} f) :=
    fun c => BI.equiv_iff.mp ⟨(pointsTo_toks (shareTok fullShare 2 c) 16).1, (pointsTo_toks (shareTok fullShare 2 c) 16).2⟩
  rw [e2, bigSep_congr (fun c _ => e16 c), bigSep_sep']

/-- What remains of the table's and the index block's shares while the tiles hold theirs. -/
def Rest0 (d : Dev nD) (X : Buf (Elt F) (xLoc d)) (I : Buf (Elt F) (iLoc0 d)) : sProp 𝕄 :=
  iprop(((xLoc d ↦{shareDrop fullShare 2} X) ∗ bigSep Finset.univ fun c : Fin 2 => xLoc d ↦{shareDrop (shareTok fullShare 2 c) 16} X)
    ∗ ((iLoc0 d ↦{shareDrop fullShare 2} I) ∗ bigSep Finset.univ fun c : Fin 2 => iLoc0 d ↦{shareDrop (shareTok fullShare 2 c) 16} I))

theorem qTile0_coords (c : Fin 2) (s : Fin 16) : qTile0 (coordsV0 c s) = shareTok (shareTok fullShare 2 c) 16 s := rfl

/-- All the tiles' operands: their shares of the table, of the index block, and their windows of the result. -/
theorem tileGo0_tiles (d : Dev nD) (X : Buf (Elt F) (xLoc d)) (I : Buf (Elt F) (iLoc0 d)) (G : Buf (Elt F) (oLoc0 d)) :
    (bigSep Finset.univ fun c : Fin 2 => bigSep Finset.univ fun s : Fin 16 => tileGo0 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc0 d ↦{shareTok (shareTok fullShare 2 c) 16 s} I)
          ∗ bigSep Finset.univ fun c : Fin 2 => bigSep Finset.univ fun s : Fin 16 => bigSep Finset.univ fun t : Fin k0_t1_loop.trips => oTrip0 d (coordsV0 c s) G t) := by
  unfold tileGo0
  simp only [qTile0_coords, bigSep_sep']

/-- All the tiles' results. -/
theorem tileTd0_tiles (d : Dev nD) (X : Buf (Elt F) (xLoc d)) (I : Buf (Elt F) (iLoc0 d)) :
    (bigSep Finset.univ fun c : Fin 2 => bigSep Finset.univ fun s : Fin 16 => tileTd0 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc0 d ↦{shareTok (shareTok fullShare 2 c) 16 s} I)
          ∗ bigSep Finset.univ fun c : Fin 2 => bigSep Finset.univ fun s : Fin 16 => bigSep Finset.univ fun t : Fin k0_t1_loop.trips =>
              oTrip0 d (coordsV0 c s) (gath (F := F) X I) t) := by
  unfold tileTd0
  simp only [qTile0_coords, bigSep_sep']

/-! ## The call's split and join -/

/-- The three arrays held whole split into the 2 × 16 tiles' operands and the remainder of the read shares. -/
theorem callSplit0 (d : Dev nD) (X : Buf (Elt F) (xLoc d)) (I : Buf (Elt F) (iLoc0 d)) (G : Buf (Elt F) (oLoc0 d)) :
    iprop((xLoc d ↦{fullShare} X) ∗ (iLoc0 d ↦{fullShare} I) ∗ (oLoc0 d ↦{fullShare} G))
      ⊢ (iprop(Rest0 d X I ∗ bigSep Finset.univ fun c : Fin 2 => bigSep Finset.univ fun s : Fin 16 => tileGo0 d X I G (coordsV0 c s)) : sProp 𝕄) := by
  rw [tileGo0_tiles, reads_tiles X, reads_tiles I, oPts_tiles d G]
  unfold Rest0
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin0 (d : Dev nD) (X : Buf (Elt F) (xLoc d)) (I : Buf (Elt F) (iLoc0 d)) :
    iprop(Rest0 d X I ∗ bigSep Finset.univ fun c : Fin 2 => bigSep Finset.univ fun s : Fin 16 => tileTd0 d X I (coordsV0 c s))
      ⊢ (iprop((xLoc d ↦{fullShare} X) ∗ (iLoc0 d ↦{fullShare} I) ∗ (oLoc0 d ↦{fullShare} gath (F := F) X I)) : sProp 𝕄) := by
  rw [tileTd0_tiles, reads_tiles X, reads_tiles I, oPts_tiles d (gath (F := F) X I)]
  unfold Rest0
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 0 carry: every tile's operands. -/
theorem st0_tiles (d : Dev nD) :
    (bigSep Finset.univ fun c : Fin ((K (F := F)).nCore 0) => (P m).st 0 d c)
      = bigSep Finset.univ fun c : Fin 2 => bigSep Finset.univ fun s : Fin 16 => tileGo0 d (Xv m d) (Iv0 m d) (m (oLoc0 d)) (coordsV0 c s) := by
  simp only [P_st, P_go0]
  exact bigSep_congr fun c _ => bigSep_congr fun s _ => rfl
/-- What the two done signals carry back: every tile's results. -/
theorem dn0_tiles (d : Dev nD) :
    (bigSep Finset.univ fun c : Fin ((K (F := F)).nCore 0) => (P m).dn 0 d c)
      = bigSep Finset.univ fun c : Fin 2 => bigSep Finset.univ fun s : Fin 16 => tileTd0 d (Xv m d) (Iv0 m d) (coordsV0 c s) := by
  simp only [P_dn, P_td0]
  exact bigSep_congr fun c _ => bigSep_congr fun s _ => rfl

/-- Before call 0: the table, the index block and the result array as the launch left it, held whole, are what the
    start signals carry and the remainder of the read shares. -/
theorem callSplit0_P (d : Dev nD) :
    iprop((xLoc d ↦{fullShare} Xv m d) ∗ (iLoc0 d ↦{fullShare} Iv0 m d) ∗ (oLoc0 d ↦{fullShare} m (oLoc0 d)))
      ⊢ (iprop(Rest0 d (Xv m d) (Iv0 m d) ∗ bigSep Finset.univ fun c : Fin ((K (F := F)).nCore 0) => (P m).st 0 d c) : sProp 𝕄) := by
  rw [st0_tiles]; exact callSplit0 d _ _ _
/-- After call 0: what the done signals carry back and the remainder are the table and the index block held whole, and
    the result array whole at the gathered array. -/
theorem callJoin0_P (d : Dev nD) :
    iprop(Rest0 d (Xv m d) (Iv0 m d) ∗ bigSep Finset.univ fun c : Fin ((K (F := F)).nCore 0) => (P m).dn 0 d c)
      ⊢ (iprop((xLoc d ↦{fullShare} Xv m d) ∗ (iLoc0 d ↦{fullShare} Iv0 m d) ∗ (oLoc0 d ↦{fullShare} gath (F := F) (Xv m d) (Iv0 m d))) : sProp 𝕄) := by
  rw [dn0_tiles]; exact callJoin0 d _ _

end AtLaunch

end Cert.Kernel.KP

end
-- ==== Proof.KSplit1B.lean ====
/-
  Call 1 of the gather kernel, seen from the TensorCore: call 0's split and join over call 1's index block (main_v10)
  and result array (main_v11); the same partition of the result by chunks, the same read shares.
-/
import proofs.«210879_g80607946211848_cont_9to1_m_1212_13_alg».proof.Proof.KSplit0B

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips1 : k1_t1_loop.trips = 8 := by decide

/-- The chunk trip `t` of tile `L` serves. -/
def chunk1 (L : grid1.Coords) (t : Fin k1_t1_loop.trips) : ℕ := 2 * (L 1).val + (L 0).val + 32 * t.val

/-- A trip is active exactly when its chunk is one of the 250. -/
theorem act1_iff : ∀ (L : grid1.Coords) (t : Fin k1_t1_loop.trips), Act1 L t ↔ 2 * (L 1).val + (L 0).val + 32 * t.val < 250 := by
  decide +kernel

/-- The elements of a 1 × 128 × 128 window of the result at offsets `(j, n, 0)`, squeezed: plane `j`, rows `n … n + 127`. -/
theorem mem_win1 (off : Fin S4x32000x128.rank → ℕ) (inb : ∀ a, off a + S1x128x128.size a ≤ S4x32000x128.size a) (j n : ℕ) (hoff : off = ![j, n, 0])
    (i : S4x32000x128.Idx) :
    i ∈ (((Memref.whole main_v11_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v11_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet1 (L : grid1.Coords) (t : Fin k1_t1_loop.trips) (h : Act1 L t) (j : Fin 4) (i : S4x32000x128.Idx) :
    i ∈ oSet1 L t h j ↔ (i 0).val = j.val ∧ (i 1).val / 128 = chunk1 L t := by
  unfold chunk1
  match j with
  | 0 => exact (mem_win1 _ _ 0 _ (k1_off10_eq L t) i).trans (by constructor <;> intro hh <;> omega)
  | 1 => exact (mem_win1 _ _ 1 _ (k1_off11_eq L t) i).trans (by constructor <;> intro hh <;> omega)
  | 2 => exact (mem_win1 _ _ 2 _ (k1_off12_eq L t) i).trans (by constructor <;> intro hh <;> omega)
  | 3 => exact (mem_win1 _ _ 3 _ (k1_off13_eq L t) i).trans (by constructor <;> intro hh <;> omega)

theorem oSet1_disjoint (L : grid1.Coords) (t : Fin k1_t1_loop.trips) (h : Act1 L t) :
    ∀ j ∈ (Finset.univ : Finset (Fin 4)), ∀ j' ∈ (Finset.univ : Finset (Fin 4)), j ≠ j' → Disjoint (oSet1 L t h j) (oSet1 L t h j') := by
  intro j _ j' _ hne
  refine Finset.disjoint_left.mpr fun i hi hi' => hne (Fin.ext ?_)
  rw [mem_oSet1] at hi hi'
  omega

/-- All the elements trip `t` of tile `L` writes: the four planes' rows of its chunk; none when the trip is idle. -/
def oSetT1 (L : grid1.Coords) (t : Fin k1_t1_loop.trips) : Finset S4x32000x128.Idx :=
  if h : Act1 L t then (Finset.univ : Finset (Fin 4)).biUnion (oSet1 L t h) else ∅

theorem mem_oSetT1 (L : grid1.Coords) (t : Fin k1_t1_loop.trips) (i : S4x32000x128.Idx) :
    i ∈ oSetT1 L t ↔ chunk1 L t < 250 ∧ (i 1).val / 128 = chunk1 L t := by
  have h0 : (i 0).val < 4 := (i 0).isLt
  unfold oSetT1
  split
  · next h =>
    have hc : chunk1 L t < 250 := (act1_iff L t).mp h
    simp only [Finset.mem_biUnion, Finset.mem_univ, true_and, mem_oSet1, hc]
    exact ⟨fun ⟨_, _, e⟩ => e, fun e => ⟨⟨(i 0).val, h0⟩, rfl, e⟩⟩
  · next h =>
    have hc : ¬ chunk1 L t < 250 := fun hc => h ((act1_iff L t).mpr hc)
    simp only [Finset.notMem_empty, hc, false_and]

/-! ## The result array, tile by tile and trip by trip -/

/-- A trip's elements of the result, as one points-to. -/
theorem oTrip1_eq (d : Dev nD) (L : grid1.Coords) (f : Buf (Elt F) (oLoc1 d)) (t : Fin k1_t1_loop.trips) :
    oTrip1 (F := F) d L f t = (oLoc1 d ↦[oSetT1 L t]{fullShare} f : sProp 𝕄) := by
  unfold oTrip1 oSetT1
  split
  · next h =>
    rw [pointsTo_biUnion Finset.univ (ℓ := oLoc1 d) (oSet1 L t h) (oSet1_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip1 : Type := Fin 2 × Fin 16 × Fin k1_t1_loop.trips
/-- What that trip of that tile writes. -/
def oSetX1 (x : TileTrip1) : Finset S4x32000x128.Idx := oSetT1 (coordsV0 x.1 x.2.1) x.2.2

theorem chunk1_coords (c : Fin 2) (s : Fin 16) (t : Fin k1_t1_loop.trips) : chunk1 (coordsV0 c s) t = 2 * s.val + c.val + 32 * t.val := rfl

/-- The chunk number determines tile and trip: `n = 2 s + c + 32 t` with `c < 2`, `s < 16`. -/
theorem oSetX1_disjoint : ∀ x ∈ (Finset.univ : Finset TileTrip1), ∀ x' ∈ (Finset.univ : Finset TileTrip1), x ≠ x' → Disjoint (oSetX1 x) (oSetX1 x') := by
  intro x _ x' _ hne
  refine Finset.disjoint_left.mpr fun i hi hi' => hne ?_
  obtain ⟨c, s, t⟩ := x
  obtain ⟨c', s', t'⟩ := x'
  rw [oSetX1, mem_oSetT1, chunk1_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX1_cover : (Finset.univ : Finset TileTrip1).biUnion oSetX1 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips1]; omega⟩), Finset.mem_univ _, ?_⟩
  rw [oSetX1, mem_oSetT1, chunk1_coords]
  dsimp only
  omega

/-- The whole result array at `f` is every tile's every trip's elements at `f`. -/
theorem oPts_tiles1 (d : Dev nD) (f : Buf (Elt F) (oLoc1 d)) :
    (oLoc1 d ↦{fullShare} f : sProp 𝕄)
      = bigSep Finset.univ fun c : Fin 2 => bigSep Finset.univ fun s : Fin 16 => bigSep Finset.univ fun t : Fin k1_t1_loop.trips => oTrip1 d (coordsV0 c s) f t := by
  calc (oLoc1 d ↦{fullShare} f : sProp 𝕄)
      = (oLoc1 d ↦[(Finset.univ : Finset TileTrip1).biUnion oSetX1]{fullShare} f) := by rw [oSetX1_cover]
    _ = bigSep Finset.univ fun x : TileTrip1 => (oLoc1 d ↦[oSetX1 x]{fullShare} f : sProp 𝕄) := pointsTo_biUnion _ _ oSetX1_disjoint
    _ = bigSep Finset.univ fun c : Fin 2 => bigSep Finset.univ fun st : Fin 16 × Fin k1_t1_loop.trips => (oLoc1 d ↦[oSetX1 (c, st)]{fullShare} f : sProp 𝕄) :=
        bigSep_univ_prod _
    _ = bigSep Finset.univ fun c : Fin 2 => bigSep Finset.univ fun s : Fin 16 => bigSep Finset.univ fun t : Fin k1_t1_loop.trips =>
          (oLoc1 d ↦[oSetX1 (c, s, t)]{fullShare} f : sProp 𝕄) := bigSep_congr fun c _ => bigSep_univ_prod _
    _ = _ := bigSep_congr fun c _ => bigSep_congr fun s _ => bigSep_congr fun t _ => (oTrip1_eq d (coordsV0 c s) f t).symm

/-! ## The table and the index block: a read share per SparseCore, and of each one per tile -/

/-- What remains of the table's and the index block's shares while the tiles hold theirs. -/
def Rest1 (d : Dev nD) (X : Buf (Elt F) (xLoc d)) (I : Buf (Elt F) (iLoc1 d)) : sProp 𝕄 :=
  iprop(((xLoc d ↦{shareDrop fullShare 2} X) ∗ bigSep Finset.univ fun c : Fin 2 => xLoc d ↦{shareDrop (shareTok fullShare 2 c) 16} X)
    ∗ ((iLoc1 d ↦{shareDrop fullShare 2} I) ∗ bigSep Finset.univ fun c : Fin 2 => iLoc1 d ↦{shareDrop (shareTok fullShare 2 c) 16} I))

theorem qTile1_coords (c : Fin 2) (s : Fin 16) : qTile1 (coordsV0 c s) = shareTok (shareTok fullShare 2 c) 16 s := rfl

/-- All the tiles' operands: their shares of the table, of the index block, and their windows of the result. -/
theorem tileGo1_tiles (d : Dev nD) (X : Buf (Elt F) (xLoc d)) (I : Buf (Elt F) (iLoc1 d)) (G : Buf (Elt F) (oLoc1 d)) :
    (bigSep Finset.univ fun c : Fin 2 => bigSep Finset.univ fun s : Fin 16 => tileGo1 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc1 d ↦{shareTok (shareTok fullShare 2 c) 16 s} I)
          ∗ bigSep Finset.univ fun c : Fin 2 => bigSep Finset.univ fun s : Fin 16 => bigSep Finset.univ fun t : Fin k1_t1_loop.trips => oTrip1 d (coordsV0 c s) G t) := by
  unfold tileGo1
  simp only [qTile1_coords, bigSep_sep']

/-- All the tiles' results. -/
theorem tileTd1_tiles (d : Dev nD) (X : Buf (Elt F) (xLoc d)) (I : Buf (Elt F) (iLoc1 d)) :
    (bigSep Finset.univ fun c : Fin 2 => bigSep Finset.univ fun s : Fin 16 => tileTd1 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc1 d ↦{shareTok (shareTok fullShare 2 c) 16 s} I)
          ∗ bigSep Finset.univ fun c : Fin 2 => bigSep Finset.univ fun s : Fin 16 => bigSep Finset.univ fun t : Fin k1_t1_loop.trips =>
              oTrip1 d (coordsV0 c s) (gath (F := F) X I) t) := by
  unfold tileTd1
  simp only [qTile1_coords, bigSep_sep']

/-! ## The call's split and join -/

/-- The three arrays held whole split into the 2 × 16 tiles' operands and the remainder of the read shares. -/
theorem callSplit1 (d : Dev nD) (X : Buf (Elt F) (xLoc d)) (I : Buf (Elt F) (iLoc1 d)) (G : Buf (Elt F) (oLoc1 d)) :
    iprop((xLoc d ↦{fullShare} X) ∗ (iLoc1 d ↦{fullShare} I) ∗ (oLoc1 d ↦{fullShare} G))
      ⊢ (iprop(Rest1 d X I ∗ bigSep Finset.univ fun c : Fin 2 => bigSep Finset.univ fun s : Fin 16 => tileGo1 d X I G (coordsV0 c s)) : sProp 𝕄) := by
  rw [tileGo1_tiles, reads_tiles X, reads_tiles I, oPts_tiles1 d G]
  unfold Rest1
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin1 (d : Dev nD) (X : Buf (Elt F) (xLoc d)) (I : Buf (Elt F) (iLoc1 d)) :
    iprop(Rest1 d X I ∗ bigSep Finset.univ fun c : Fin 2 => bigSep Finset.univ fun s : Fin 16 => tileTd1 d X I (coordsV0 c s))
      ⊢ (iprop((xLoc d ↦{fullShare} X) ∗ (iLoc1 d ↦{fullShare} I) ∗ (oLoc1 d ↦{fullShare} gath (F := F) X I)) : sProp 𝕄) := by
  rw [tileTd1_tiles, reads_tiles X, reads_tiles I, oPts_tiles1 d (gath (F := F) X I)]
  unfold Rest1
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 1 carry: every tile's operands. -/
theorem st1_tiles (d : Dev nD) :
    (bigSep Finset.univ fun c : Fin ((K (F := F)).nCore 1) => (P m).st 1 d c)
      = bigSep Finset.univ fun c : Fin 2 => bigSep Finset.univ fun s : Fin 16 => tileGo1 d (Xv m d) (Iv1 m d) (m (oLoc1 d)) (coordsV0 c s) := by
  simp only [P_st, P_go1]
  exact bigSep_congr fun c _ => bigSep_congr fun s _ => rfl
/-- What the two done signals carry back: every tile's results. -/
theorem dn1_tiles (d : Dev nD) :
    (bigSep Finset.univ fun c : Fin ((K (F := F)).nCore 1) => (P m).dn 1 d c)
      = bigSep Finset.univ fun c : Fin 2 => bigSep Finset.univ fun s : Fin 16 => tileTd1 d (Xv m d) (Iv1 m d) (coordsV0 c s) := by
  simp only [P_dn, P_td1]
  exact bigSep_congr fun c _ => bigSep_congr fun s _ => rfl

/-- Before call 1: the table, the index block and the result array as the launch left it, held whole, are what the
    start signals carry and the remainder of the read shares. -/
theorem callSplit1_P (d : Dev nD) :
    iprop((xLoc d ↦{fullShare} Xv m d) ∗ (iLoc1 d ↦{fullShare} Iv1 m d) ∗ (oLoc1 d ↦{fullShare} m (oLoc1 d)))
      ⊢ (iprop(Rest1 d (Xv m d) (Iv1 m d) ∗ bigSep Finset.univ fun c : Fin ((K (F := F)).nCore 1) => (P m).st 1 d c) : sProp 𝕄) := by
  rw [st1_tiles]; exact callSplit1 d _ _ _
/-- After call 1: what the done signals carry back and the remainder are the table and the index block held whole, and
    the result array whole at the gathered array. -/
theorem callJoin1_P (d : Dev nD) :
    iprop(Rest1 d (Xv m d) (Iv1 m d) ∗ bigSep Finset.univ fun c : Fin ((K (F := F)).nCore 1) => (P m).dn 1 d c)
      ⊢ (iprop((xLoc d ↦{fullShare} Xv m d) ∗ (iLoc1 d ↦{fullShare} Iv1 m d) ∗ (oLoc1 d ↦{fullShare} gath (F := F) (Xv m d) (Iv1 m d))) : sProp 𝕄) := by
  rw [dn1_tiles]; exact callJoin1 d _ _

end AtLaunch

end Cert.Kernel.KP

end
-- ==== Proof.KSplit2B.lean ====
/-
  Call 2 of the gather kernel, seen from the TensorCore: call 0's split and join over call 2's index block (main_v12)
  and result array (main_v13); the same partition of the result by chunks, the same read shares.
-/
import proofs.«210879_g80607946211848_cont_9to1_m_1212_13_alg».proof.Proof.KSplit0B

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips2 : k2_t1_loop.trips = 8 := by decide

/-- The chunk trip `t` of tile `L` serves. -/
def chunk2 (L : grid2.Coords) (t : Fin k2_t1_loop.trips) : ℕ := 2 * (L 1).val + (L 0).val + 32 * t.val

/-- A trip is active exactly when its chunk is one of the 250. -/
theorem act2_iff : ∀ (L : grid2.Coords) (t : Fin k2_t1_loop.trips), Act2 L t ↔ 2 * (L 1).val + (L 0).val + 32 * t.val < 250 := by
  decide +kernel

/-- The elements of a 1 × 128 × 128 window of the result at offsets `(j, n, 0)`, squeezed: plane `j`, rows `n … n + 127`. -/
theorem mem_win2 (off : Fin S4x32000x128.rank → ℕ) (inb : ∀ a, off a + S1x128x128.size a ≤ S4x32000x128.size a) (j n : ℕ) (hoff : off = ![j, n, 0])
    (i : S4x32000x128.Idx) :
    i ∈ (((Memref.whole main_v13_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v13_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet2 (L : grid2.Coords) (t : Fin k2_t1_loop.trips) (h : Act2 L t) (j : Fin 4) (i : S4x32000x128.Idx) :
    i ∈ oSet2 L t h j ↔ (i 0).val = j.val ∧ (i 1).val / 128 = chunk2 L t := by
  unfold chunk2
  match j with
  | 0 => exact (mem_win2 _ _ 0 _ (k2_off10_eq L t) i).trans (by constructor <;> intro hh <;> omega)
  | 1 => exact (mem_win2 _ _ 1 _ (k2_off11_eq L t) i).trans (by constructor <;> intro hh <;> omega)
  | 2 => exact (mem_win2 _ _ 2 _ (k2_off12_eq L t) i).trans (by constructor <;> intro hh <;> omega)
  | 3 => exact (mem_win2 _ _ 3 _ (k2_off13_eq L t) i).trans (by constructor <;> intro hh <;> omega)

theorem oSet2_disjoint (L : grid2.Coords) (t : Fin k2_t1_loop.trips) (h : Act2 L t) :
    ∀ j ∈ (Finset.univ : Finset (Fin 4)), ∀ j' ∈ (Finset.univ : Finset (Fin 4)), j ≠ j' → Disjoint (oSet2 L t h j) (oSet2 L t h j') := by
  intro j _ j' _ hne
  refine Finset.disjoint_left.mpr fun i hi hi' => hne (Fin.ext ?_)
  rw [mem_oSet2] at hi hi'
  omega

/-- All the elements trip `t` of tile `L` writes: the four planes' rows of its chunk; none when the trip is idle. -/
def oSetT2 (L : grid2.Coords) (t : Fin k2_t1_loop.trips) : Finset S4x32000x128.Idx :=
  if h : Act2 L t then (Finset.univ : Finset (Fin 4)).biUnion (oSet2 L t h) else ∅

theorem mem_oSetT2 (L : grid2.Coords) (t : Fin k2_t1_loop.trips) (i : S4x32000x128.Idx) :
    i ∈ oSetT2 L t ↔ chunk2 L t < 250 ∧ (i 1).val / 128 = chunk2 L t := by
  have h0 : (i 0).val < 4 := (i 0).isLt
  unfold oSetT2
  split
  · next h =>
    have hc : chunk2 L t < 250 := (act2_iff L t).mp h
    simp only [Finset.mem_biUnion, Finset.mem_univ, true_and, mem_oSet2, hc]
    exact ⟨fun ⟨_, _, e⟩ => e, fun e => ⟨⟨(i 0).val, h0⟩, rfl, e⟩⟩
  · next h =>
    have hc : ¬ chunk2 L t < 250 := fun hc => h ((act2_iff L t).mpr hc)
    simp only [Finset.notMem_empty, hc, false_and]

/-! ## The result array, tile by tile and trip by trip -/

/-- A trip's elements of the result, as one points-to. -/
theorem oTrip2_eq (d : Dev nD) (L : grid2.Coords) (f : Buf (Elt F) (oLoc2 d)) (t : Fin k2_t1_loop.trips) :
    oTrip2 (F := F) d L f t = (oLoc2 d ↦[oSetT2 L t]{fullShare} f : sProp 𝕄) := by
  unfold oTrip2 oSetT2
  split
  · next h =>
    rw [pointsTo_biUnion Finset.univ (ℓ := oLoc2 d) (oSet2 L t h) (oSet2_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip2 : Type := Fin 2 × Fin 16 × Fin k2_t1_loop.trips
/-- What that trip of that tile writes. -/
def oSetX2 (x : TileTrip2) : Finset S4x32000x128.Idx := oSetT2 (coordsV0 x.1 x.2.1) x.2.2

theorem chunk2_coords (c : Fin 2) (s : Fin 16) (t : Fin k2_t1_loop.trips) : chunk2 (coordsV0 c s) t = 2 * s.val + c.val + 32 * t.val := rfl

/-- The chunk number determines tile and trip: `n = 2 s + c + 32 t` with `c < 2`, `s < 16`. -/
theorem oSetX2_disjoint : ∀ x ∈ (Finset.univ : Finset TileTrip2), ∀ x' ∈ (Finset.univ : Finset TileTrip2), x ≠ x' → Disjoint (oSetX2 x) (oSetX2 x') := by
  intro x _ x' _ hne
  refine Finset.disjoint_left.mpr fun i hi hi' => hne ?_
  obtain ⟨c, s, t⟩ := x
  obtain ⟨c', s', t'⟩ := x'
  rw [oSetX2, mem_oSetT2, chunk2_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX2_cover : (Finset.univ : Finset TileTrip2).biUnion oSetX2 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips2]; omega⟩), Finset.mem_univ _, ?_⟩
  rw [oSetX2, mem_oSetT2, chunk2_coords]
  dsimp only
  omega

/-- The whole result array at `f` is every tile's every trip's elements at `f`. -/
theorem oPts_tiles2 (d : Dev nD) (f : Buf (Elt F) (oLoc2 d)) :
    (oLoc2 d ↦{fullShare} f : sProp 𝕄)
      = bigSep Finset.univ fun c : Fin 2 => bigSep Finset.univ fun s : Fin 16 => bigSep Finset.univ fun t : Fin k2_t1_loop.trips => oTrip2 d (coordsV0 c s) f t := by
  calc (oLoc2 d ↦{fullShare} f : sProp 𝕄)
      = (oLoc2 d ↦[(Finset.univ : Finset TileTrip2).biUnion oSetX2]{fullShare} f) := by rw [oSetX2_cover]
    _ = bigSep Finset.univ fun x : TileTrip2 => (oLoc2 d ↦[oSetX2 x]{fullShare} f : sProp 𝕄) := pointsTo_biUnion _ _ oSetX2_disjoint
    _ = bigSep Finset.univ fun c : Fin 2 => bigSep Finset.univ fun st : Fin 16 × Fin k2_t1_loop.trips => (oLoc2 d ↦[oSetX2 (c, st)]{fullShare} f : sProp 𝕄) :=
        bigSep_univ_prod _
    _ = bigSep Finset.univ fun c : Fin 2 => bigSep Finset.univ fun s : Fin 16 => bigSep Finset.univ fun t : Fin k2_t1_loop.trips =>
          (oLoc2 d ↦[oSetX2 (c, s, t)]{fullShare} f : sProp 𝕄) := bigSep_congr fun c _ => bigSep_univ_prod _
    _ = _ := bigSep_congr fun c _ => bigSep_congr fun s _ => bigSep_congr fun t _ => (oTrip2_eq d (coordsV0 c s) f t).symm

/-! ## The table and the index block: a read share per SparseCore, and of each one per tile -/

/-- What remains of the table's and the index block's shares while the tiles hold theirs. -/
def Rest2 (d : Dev nD) (X : Buf (Elt F) (xLoc d)) (I : Buf (Elt F) (iLoc2 d)) : sProp 𝕄 :=
  iprop(((xLoc d ↦{shareDrop fullShare 2} X) ∗ bigSep Finset.univ fun c : Fin 2 => xLoc d ↦{shareDrop (shareTok fullShare 2 c) 16} X)
    ∗ ((iLoc2 d ↦{shareDrop fullShare 2} I) ∗ bigSep Finset.univ fun c : Fin 2 => iLoc2 d ↦{shareDrop (shareTok fullShare 2 c) 16} I))

theorem qTile2_coords (c : Fin 2) (s : Fin 16) : qTile2 (coordsV0 c s) = shareTok (shareTok fullShare 2 c) 16 s := rfl

/-- All the tiles' operands: their shares of the table, of the index block, and their windows of the result. -/
theorem tileGo2_tiles (d : Dev nD) (X : Buf (Elt F) (xLoc d)) (I : Buf (Elt F) (iLoc2 d)) (G : Buf (Elt F) (oLoc2 d)) :
    (bigSep Finset.univ fun c : Fin 2 => bigSep Finset.univ fun s : Fin 16 => tileGo2 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc2 d ↦{shareTok (shareTok fullShare 2 c) 16 s} I)
          ∗ bigSep Finset.univ fun c : Fin 2 => bigSep Finset.univ fun s : Fin 16 => bigSep Finset.univ fun t : Fin k2_t1_loop.trips => oTrip2 d (coordsV0 c s) G t) := by
  unfold tileGo2
  simp only [qTile2_coords, bigSep_sep']

/-- All the tiles' results. -/
theorem tileTd2_tiles (d : Dev nD) (X : Buf (Elt F) (xLoc d)) (I : Buf (Elt F) (iLoc2 d)) :
    (bigSep Finset.univ fun c : Fin 2 => bigSep Finset.univ fun s : Fin 16 => tileTd2 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc2 d ↦{shareTok (shareTok fullShare 2 c) 16 s} I)
          ∗ bigSep Finset.univ fun c : Fin 2 => bigSep Finset.univ fun s : Fin 16 => bigSep Finset.univ fun t : Fin k2_t1_loop.trips =>
              oTrip2 d (coordsV0 c s) (gath (F := F) X I) t) := by
  unfold tileTd2
  simp only [qTile2_coords, bigSep_sep']

/-! ## The call's split and join -/

/-- The three arrays held whole split into the 2 × 16 tiles' operands and the remainder of the read shares. -/
theorem callSplit2 (d : Dev nD) (X : Buf (Elt F) (xLoc d)) (I : Buf (Elt F) (iLoc2 d)) (G : Buf (Elt F) (oLoc2 d)) :
    iprop((xLoc d ↦{fullShare} X) ∗ (iLoc2 d ↦{fullShare} I) ∗ (oLoc2 d ↦{fullShare} G))
      ⊢ (iprop(Rest2 d X I ∗ bigSep Finset.univ fun c : Fin 2 => bigSep Finset.univ fun s : Fin 16 => tileGo2 d X I G (coordsV0 c s)) : sProp 𝕄) := by
  rw [tileGo2_tiles, reads_tiles X, reads_tiles I, oPts_tiles2 d G]
  unfold Rest2
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin2 (d : Dev nD) (X : Buf (Elt F) (xLoc d)) (I : Buf (Elt F) (iLoc2 d)) :
    iprop(Rest2 d X I ∗ bigSep Finset.univ fun c : Fin 2 => bigSep Finset.univ fun s : Fin 16 => tileTd2 d X I (coordsV0 c s))
      ⊢ (iprop((xLoc d ↦{fullShare} X) ∗ (iLoc2 d ↦{fullShare} I) ∗ (oLoc2 d ↦{fullShare} gath (F := F) X I)) : sProp 𝕄) := by
  rw [tileTd2_tiles, reads_tiles X, reads_tiles I, oPts_tiles2 d (gath (F := F) X I)]
  unfold Rest2
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 2 carry: every tile's operands. -/
theorem st2_tiles (d : Dev nD) :
    (bigSep Finset.univ fun c : Fin ((K (F := F)).nCore 2) => (P m).st 2 d c)
      = bigSep Finset.univ fun c : Fin 2 => bigSep Finset.univ fun s : Fin 16 => tileGo2 d (Xv m d) (Iv2 m d) (m (oLoc2 d)) (coordsV0 c s) := by
  simp only [P_st, P_go2]
  exact bigSep_congr fun c _ => bigSep_congr fun s _ => rfl
/-- What the two done signals carry back: every tile's results. -/
theorem dn2_tiles (d : Dev nD) :
    (bigSep Finset.univ fun c : Fin ((K (F := F)).nCore 2) => (P m).dn 2 d c)
      = bigSep Finset.univ fun c : Fin 2 => bigSep Finset.univ fun s : Fin 16 => tileTd2 d (Xv m d) (Iv2 m d) (coordsV0 c s) := by
  simp only [P_dn, P_td2]
  exact bigSep_congr fun c _ => bigSep_congr fun s _ => rfl

/-- Before call 2: the table, the index block and the result array as the launch left it, held whole, are what the
    start signals carry and the remainder of the read shares. -/
theorem callSplit2_P (d : Dev nD) :
    iprop((xLoc d ↦{fullShare} Xv m d) ∗ (iLoc2 d ↦{fullShare} Iv2 m d) ∗ (oLoc2 d ↦{fullShare} m (oLoc2 d)))
      ⊢ (iprop(Rest2 d (Xv m d) (Iv2 m d) ∗ bigSep Finset.univ fun c : Fin ((K (F := F)).nCore 2) => (P m).st 2 d c) : sProp 𝕄) := by
  rw [st2_tiles]; exact callSplit2 d _ _ _
/-- After call 2: what the done signals carry back and the remainder are the table and the index block held whole, and
    the result array whole at the gathered array. -/
theorem callJoin2_P (d : Dev nD) :
    iprop(Rest2 d (Xv m d) (Iv2 m d) ∗ bigSep Finset.univ fun c : Fin ((K (F := F)).nCore 2) => (P m).dn 2 d c)
      ⊢ (iprop((xLoc d ↦{fullShare} Xv m d) ∗ (iLoc2 d ↦{fullShare} Iv2 m d) ∗ (oLoc2 d ↦{fullShare} gath (F := F) (Xv m d) (Iv2 m d))) : sProp 𝕄) := by
  rw [dn2_tiles]; exact callJoin2 d _ _

end AtLaunch

end Cert.Kernel.KP

end
-- ==== Proof.KSplit3B.lean ====
/-
  Call 3 of the gather kernel, seen from the TensorCore: call 0's split and join over call 3's index block (main_v14)
  and result array (main_v15); the same partition of the result by chunks, the same read shares.
-/
import proofs.«210879_g80607946211848_cont_9to1_m_1212_13_alg».proof.Proof.KSplit0B

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips3 : k3_t1_loop.trips = 8 := by decide

/-- The chunk trip `t` of tile `L` serves. -/
def chunk3 (L : grid3.Coords) (t : Fin k3_t1_loop.trips) : ℕ := 2 * (L 1).val + (L 0).val + 32 * t.val

/-- A trip is active exactly when its chunk is one of the 250. -/
theorem act3_iff : ∀ (L : grid3.Coords) (t : Fin k3_t1_loop.trips), Act3 L t ↔ 2 * (L 1).val + (L 0).val + 32 * t.val < 250 := by
  decide +kernel

/-- The elements of a 1 × 128 × 128 window of the result at offsets `(j, n, 0)`, squeezed: plane `j`, rows `n … n + 127`. -/
theorem mem_win3 (off : Fin S4x32000x128.rank → ℕ) (inb : ∀ a, off a + S1x128x128.size a ≤ S4x32000x128.size a) (j n : ℕ) (hoff : off = ![j, n, 0])
    (i : S4x32000x128.Idx) :
    i ∈ (((Memref.whole main_v15_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v15_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet3 (L : grid3.Coords) (t : Fin k3_t1_loop.trips) (h : Act3 L t) (j : Fin 4) (i : S4x32000x128.Idx) :
    i ∈ oSet3 L t h j ↔ (i 0).val = j.val ∧ (i 1).val / 128 = chunk3 L t := by
  unfold chunk3
  match j with
  | 0 => exact (mem_win3 _ _ 0 _ (k3_off10_eq L t) i).trans (by constructor <;> intro hh <;> omega)
  | 1 => exact (mem_win3 _ _ 1 _ (k3_off11_eq L t) i).trans (by constructor <;> intro hh <;> omega)
  | 2 => exact (mem_win3 _ _ 2 _ (k3_off12_eq L t) i).trans (by constructor <;> intro hh <;> omega)
  | 3 => exact (mem_win3 _ _ 3 _ (k3_off13_eq L t) i).trans (by constructor <;> intro hh <;> omega)

theorem oSet3_disjoint (L : grid3.Coords) (t : Fin k3_t1_loop.trips) (h : Act3 L t) :
    ∀ j ∈ (Finset.univ : Finset (Fin 4)), ∀ j' ∈ (Finset.univ : Finset (Fin 4)), j ≠ j' → Disjoint (oSet3 L t h j) (oSet3 L t h j') := by
  intro j _ j' _ hne
  refine Finset.disjoint_left.mpr fun i hi hi' => hne (Fin.ext ?_)
  rw [mem_oSet3] at hi hi'
  omega

/-- All the elements trip `t` of tile `L` writes: the four planes' rows of its chunk; none when the trip is idle. -/
def oSetT3 (L : grid3.Coords) (t : Fin k3_t1_loop.trips) : Finset S4x32000x128.Idx :=
  if h : Act3 L t then (Finset.univ : Finset (Fin 4)).biUnion (oSet3 L t h) else ∅

theorem mem_oSetT3 (L : grid3.Coords) (t : Fin k3_t1_loop.trips) (i : S4x32000x128.Idx) :
    i ∈ oSetT3 L t ↔ chunk3 L t < 250 ∧ (i 1).val / 128 = chunk3 L t := by
  have h0 : (i 0).val < 4 := (i 0).isLt
  unfold oSetT3
  split
  · next h =>
    have hc : chunk3 L t < 250 := (act3_iff L t).mp h
    simp only [Finset.mem_biUnion, Finset.mem_univ, true_and, mem_oSet3, hc]
    exact ⟨fun ⟨_, _, e⟩ => e, fun e => ⟨⟨(i 0).val, h0⟩, rfl, e⟩⟩
  · next h =>
    have hc : ¬ chunk3 L t < 250 := fun hc => h ((act3_iff L t).mpr hc)
    simp only [Finset.notMem_empty, hc, false_and]

/-! ## The result array, tile by tile and trip by trip -/

/-- A trip's elements of the result, as one points-to. -/
theorem oTrip3_eq (d : Dev nD) (L : grid3.Coords) (f : Buf (Elt F) (oLoc3 d)) (t : Fin k3_t1_loop.trips) :
    oTrip3 (F := F) d L f t = (oLoc3 d ↦[oSetT3 L t]{fullShare} f : sProp 𝕄) := by
  unfold oTrip3 oSetT3
  split
  · next h =>
    rw [pointsTo_biUnion Finset.univ (ℓ := oLoc3 d) (oSet3 L t h) (oSet3_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip3 : Type := Fin 2 × Fin 16 × Fin k3_t1_loop.trips
/-- What that trip of that tile writes. -/
def oSetX3 (x : TileTrip3) : Finset S4x32000x128.Idx := oSetT3 (coordsV0 x.1 x.2.1) x.2.2

theorem chunk3_coords (c : Fin 2) (s : Fin 16) (t : Fin k3_t1_loop.trips) : chunk3 (coordsV0 c s) t = 2 * s.val + c.val + 32 * t.val := rfl

/-- The chunk number determines tile and trip: `n = 2 s + c + 32 t` with `c < 2`, `s < 16`. -/
theorem oSetX3_disjoint : ∀ x ∈ (Finset.univ : Finset TileTrip3), ∀ x' ∈ (Finset.univ : Finset TileTrip3), x ≠ x' → Disjoint (oSetX3 x) (oSetX3 x') := by
  intro x _ x' _ hne
  refine Finset.disjoint_left.mpr fun i hi hi' => hne ?_
  obtain ⟨c, s, t⟩ := x
  obtain ⟨c', s', t'⟩ := x'
  rw [oSetX3, mem_oSetT3, chunk3_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX3_cover : (Finset.univ : Finset TileTrip3).biUnion oSetX3 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips3]; omega⟩), Finset.mem_univ _, ?_⟩
  rw [oSetX3, mem_oSetT3, chunk3_coords]
  dsimp only
  omega

/-- The whole result array at `f` is every tile's every trip's elements at `f`. -/
theorem oPts_tiles3 (d : Dev nD) (f : Buf (Elt F) (oLoc3 d)) :
    (oLoc3 d ↦{fullShare} f : sProp 𝕄)
      = bigSep Finset.univ fun c : Fin 2 => bigSep Finset.univ fun s : Fin 16 => bigSep Finset.univ fun t : Fin k3_t1_loop.trips => oTrip3 d (coordsV0 c s) f t := by
  calc (oLoc3 d ↦{fullShare} f : sProp 𝕄)
      = (oLoc3 d ↦[(Finset.univ : Finset TileTrip3).biUnion oSetX3]{fullShare} f) := by rw [oSetX3_cover]
    _ = bigSep Finset.univ fun x : TileTrip3 => (oLoc3 d ↦[oSetX3 x]{fullShare} f : sProp 𝕄) := pointsTo_biUnion _ _ oSetX3_disjoint
    _ = bigSep Finset.univ fun c : Fin 2 => bigSep Finset.univ fun st : Fin 16 × Fin k3_t1_loop.trips => (oLoc3 d ↦[oSetX3 (c, st)]{fullShare} f : sProp 𝕄) :=
        bigSep_univ_prod _
    _ = bigSep Finset.univ fun c : Fin 2 => bigSep Finset.univ fun s : Fin 16 => bigSep Finset.univ fun t : Fin k3_t1_loop.trips =>
          (oLoc3 d ↦[oSetX3 (c, s, t)]{fullShare} f : sProp 𝕄) := bigSep_congr fun c _ => bigSep_univ_prod _
    _ = _ := bigSep_congr fun c _ => bigSep_congr fun s _ => bigSep_congr fun t _ => (oTrip3_eq d (coordsV0 c s) f t).symm

/-! ## The table and the index block: a read share per SparseCore, and of each one per tile -/

/-- What remains of the table's and the index block's shares while the tiles hold theirs. -/
def Rest3 (d : Dev nD) (X : Buf (Elt F) (xLoc d)) (I : Buf (Elt F) (iLoc3 d)) : sProp 𝕄 :=
  iprop(((xLoc d ↦{shareDrop fullShare 2} X) ∗ bigSep Finset.univ fun c : Fin 2 => xLoc d ↦{shareDrop (shareTok fullShare 2 c) 16} X)
    ∗ ((iLoc3 d ↦{shareDrop fullShare 2} I) ∗ bigSep Finset.univ fun c : Fin 2 => iLoc3 d ↦{shareDrop (shareTok fullShare 2 c) 16} I))

theorem qTile3_coords (c : Fin 2) (s : Fin 16) : qTile3 (coordsV0 c s) = shareTok (shareTok fullShare 2 c) 16 s := rfl

/-- All the tiles' operands: their shares of the table, of the index block, and their windows of the result. -/
theorem tileGo3_tiles (d : Dev nD) (X : Buf (Elt F) (xLoc d)) (I : Buf (Elt F) (iLoc3 d)) (G : Buf (Elt F) (oLoc3 d)) :
    (bigSep Finset.univ fun c : Fin 2 => bigSep Finset.univ fun s : Fin 16 => tileGo3 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc3 d ↦{shareTok (shareTok fullShare 2 c) 16 s} I)
          ∗ bigSep Finset.univ fun c : Fin 2 => bigSep Finset.univ fun s : Fin 16 => bigSep Finset.univ fun t : Fin k3_t1_loop.trips => oTrip3 d (coordsV0 c s) G t) := by
  unfold tileGo3
  simp only [qTile3_coords, bigSep_sep']

/-- All the tiles' results. -/
theorem tileTd3_tiles (d : Dev nD) (X : Buf (Elt F) (xLoc d)) (I : Buf (Elt F) (iLoc3 d)) :
    (bigSep Finset.univ fun c : Fin 2 => bigSep Finset.univ fun s : Fin 16 => tileTd3 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc3 d ↦{shareTok (shareTok fullShare 2 c) 16 s} I)
          ∗ bigSep Finset.univ fun c : Fin 2 => bigSep Finset.univ fun s : Fin 16 => bigSep Finset.univ fun t : Fin k3_t1_loop.trips =>
              oTrip3 d (coordsV0 c s) (gath (F := F) X I) t) := by
  unfold tileTd3
  simp only [qTile3_coords, bigSep_sep']

/-! ## The call's split and join -/

/-- The three arrays held whole split into the 2 × 16 tiles' operands and the remainder of the read shares. -/
theorem callSplit3 (d : Dev nD) (X : Buf (Elt F) (xLoc d)) (I : Buf (Elt F) (iLoc3 d)) (G : Buf (Elt F) (oLoc3 d)) :
    iprop((xLoc d ↦{fullShare} X) ∗ (iLoc3 d ↦{fullShare} I) ∗ (oLoc3 d ↦{fullShare} G))
      ⊢ (iprop(Rest3 d X I ∗ bigSep Finset.univ fun c : Fin 2 => bigSep Finset.univ fun s : Fin 16 => tileGo3 d X I G (coordsV0 c s)) : sProp 𝕄) := by
  rw [tileGo3_tiles, reads_tiles X, reads_tiles I, oPts_tiles3 d G]
  unfold Rest3
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin3 (d : Dev nD) (X : Buf (Elt F) (xLoc d)) (I : Buf (Elt F) (iLoc3 d)) :
    iprop(Rest3 d X I ∗ bigSep Finset.univ fun c : Fin 2 => bigSep Finset.univ fun s : Fin 16 => tileTd3 d X I (coordsV0 c s))
      ⊢ (iprop((xLoc d ↦{fullShare} X) ∗ (iLoc3 d ↦{fullShare} I) ∗ (oLoc3 d ↦{fullShare} gath (F := F) X I)) : sProp 𝕄) := by
  rw [tileTd3_tiles, reads_tiles X, reads_tiles I, oPts_tiles3 d (gath (F := F) X I)]
  unfold Rest3
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 3 carry: every tile's operands. -/
theorem st3_tiles (d : Dev nD) :
    (bigSep Finset.univ fun c : Fin ((K (F := F)).nCore 3) => (P m).st 3 d c)
      = bigSep Finset.univ fun c : Fin 2 => bigSep Finset.univ fun s : Fin 16 => tileGo3 d (Xv m d) (Iv3 m d) (m (oLoc3 d)) (coordsV0 c s) := by
  simp only [P_st, P_go3]
  exact bigSep_congr fun c _ => bigSep_congr fun s _ => rfl
/-- What the two done signals carry back: every tile's results. -/
theorem dn3_tiles (d : Dev nD) :
    (bigSep Finset.univ fun c : Fin ((K (F := F)).nCore 3) => (P m).dn 3 d c)
      = bigSep Finset.univ fun c : Fin 2 => bigSep Finset.univ fun s : Fin 16 => tileTd3 d (Xv m d) (Iv3 m d) (coordsV0 c s) := by
  simp only [P_dn, P_td3]
  exact bigSep_congr fun c _ => bigSep_congr fun s _ => rfl

/-- Before call 3: the table, the index block and the result array as the launch left it, held whole, are what the
    start signals carry and the remainder of the read shares. -/
theorem callSplit3_P (d : Dev nD) :
    iprop((xLoc d ↦{fullShare} Xv m d) ∗ (iLoc3 d ↦{fullShare} Iv3 m d) ∗ (oLoc3 d ↦{fullShare} m (oLoc3 d)))
      ⊢ (iprop(Rest3 d (Xv m d) (Iv3 m d) ∗ bigSep Finset.univ fun c : Fin ((K (F := F)).nCore 3) => (P m).st 3 d c) : sProp 𝕄) := by
  rw [st3_tiles]; exact callSplit3 d _ _ _
/-- After call 3: what the done signals carry back and the remainder are the table and the index block held whole, and
    the result array whole at the gathered array. -/
theorem callJoin3_P (d : Dev nD) :
    iprop(Rest3 d (Xv m d) (Iv3 m d) ∗ bigSep Finset.univ fun c : Fin ((K (F := F)).nCore 3) => (P m).dn 3 d c)
      ⊢ (iprop((xLoc d ↦{fullShare} Xv m d) ∗ (iLoc3 d ↦{fullShare} Iv3 m d) ∗ (oLoc3 d ↦{fullShare} gath (F := F) (Xv m d) (Iv3 m d))) : sProp 𝕄) := by
  rw [dn3_tiles]; exact callJoin3 d _ _

end AtLaunch

end Cert.Kernel.KP

end
-- ==== Proof.KSplit4B.lean ====
/-
  Call 4 of the gather kernel, seen from the TensorCore: call 0's split and join over call 4's index block (main_v16)
  and result array (main_v17); the same partition of the result by chunks, the same read shares.
-/
import proofs.«210879_g80607946211848_cont_9to1_m_1212_13_alg».proof.Proof.KSplit0B

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

/-! ## The chunk a trip serves, and the rows of its windows -/

theorem trips4 : k4_t1_loop.trips = 8 := by decide

/-- The chunk trip `t` of tile `L` serves. -/
def chunk4 (L : grid4.Coords) (t : Fin k4_t1_loop.trips) : ℕ := 2 * (L 1).val + (L 0).val + 32 * t.val

/-- A trip is active exactly when its chunk is one of the 250. -/
theorem act4_iff : ∀ (L : grid4.Coords) (t : Fin k4_t1_loop.trips), Act4 L t ↔ 2 * (L 1).val + (L 0).val + 32 * t.val < 250 := by
  decide +kernel

/-- The elements of a 1 × 128 × 128 window of the result at offsets `(j, n, 0)`, squeezed: plane `j`, rows `n … n + 127`. -/
theorem mem_win4 (off : Fin S4x32000x128.rank → ℕ) (inb : ∀ a, off a + S1x128x128.size a ≤ S4x32000x128.size a) (j n : ℕ) (hoff : off = ![j, n, 0])
    (i : S4x32000x128.Idx) :
    i ∈ (((Memref.whole main_v17_scv : Memref sig .scVector .hbm S4x32000x128 .f32).slice (Rect.unit (s := S4x32000x128) off S1x128x128.size inb) (fun _ => rfl)).squeeze S128x128 squeezes_S1x128x128_S128x128).view.set
      ↔ (i 0).val = j ∧ n ≤ (i 1).val ∧ (i 1).val < n + 128 := by
  have h2 : (i 2).val < 128 := (i 2).isLt
  show i ∈ (((View.whole (main_v17_scv : Ref sig .scVector)).slice (Rect.unit (s := S4x32000x128) off S1x128x128.size inb)).reshape S128x128 squeezes_S1x128x128_S128x128.numel_eq).set ↔ _
  rw [View.set_reshape, View.set_slice_whole, Rect.mem_set_unit]
  subst hoff
  constructor
  · intro hh
    have a0 : j ≤ (i 0).val ∧ (i 0).val < j + 1 := hh 0
    have a1 : n ≤ (i 1).val ∧ (i 1).val < n + 128 := hh 1
    omega
  · rintro ⟨e0, e1, e2⟩ a
    match a with
    | 0 => exact (show j ≤ (i 0).val ∧ (i 0).val < j + 1 from by omega)
    | 1 => exact (show n ≤ (i 1).val ∧ (i 1).val < n + 128 from by omega)
    | 2 => exact (show 0 ≤ (i 2).val ∧ (i 2).val < 0 + 128 from by omega)

/-- Window `j` of an active trip: plane `j`, the rows of the trip's chunk. -/
theorem mem_oSet4 (L : grid4.Coords) (t : Fin k4_t1_loop.trips) (h : Act4 L t) (j : Fin 4) (i : S4x32000x128.Idx) :
    i ∈ oSet4 L t h j ↔ (i 0).val = j.val ∧ (i 1).val / 128 = chunk4 L t := by
  unfold chunk4
  match j with
  | 0 => exact (mem_win4 _ _ 0 _ (k4_off10_eq L t) i).trans (by constructor <;> intro hh <;> omega)
  | 1 => exact (mem_win4 _ _ 1 _ (k4_off11_eq L t) i).trans (by constructor <;> intro hh <;> omega)
  | 2 => exact (mem_win4 _ _ 2 _ (k4_off12_eq L t) i).trans (by constructor <;> intro hh <;> omega)
  | 3 => exact (mem_win4 _ _ 3 _ (k4_off13_eq L t) i).trans (by constructor <;> intro hh <;> omega)

theorem oSet4_disjoint (L : grid4.Coords) (t : Fin k4_t1_loop.trips) (h : Act4 L t) :
    ∀ j ∈ (Finset.univ : Finset (Fin 4)), ∀ j' ∈ (Finset.univ : Finset (Fin 4)), j ≠ j' → Disjoint (oSet4 L t h j) (oSet4 L t h j') := by
  intro j _ j' _ hne
  refine Finset.disjoint_left.mpr fun i hi hi' => hne (Fin.ext ?_)
  rw [mem_oSet4] at hi hi'
  omega

/-- All the elements trip `t` of tile `L` writes: the four planes' rows of its chunk; none when the trip is idle. -/
def oSetT4 (L : grid4.Coords) (t : Fin k4_t1_loop.trips) : Finset S4x32000x128.Idx :=
  if h : Act4 L t then (Finset.univ : Finset (Fin 4)).biUnion (oSet4 L t h) else ∅

theorem mem_oSetT4 (L : grid4.Coords) (t : Fin k4_t1_loop.trips) (i : S4x32000x128.Idx) :
    i ∈ oSetT4 L t ↔ chunk4 L t < 250 ∧ (i 1).val / 128 = chunk4 L t := by
  have h0 : (i 0).val < 4 := (i 0).isLt
  unfold oSetT4
  split
  · next h =>
    have hc : chunk4 L t < 250 := (act4_iff L t).mp h
    simp only [Finset.mem_biUnion, Finset.mem_univ, true_and, mem_oSet4, hc]
    exact ⟨fun ⟨_, _, e⟩ => e, fun e => ⟨⟨(i 0).val, h0⟩, rfl, e⟩⟩
  · next h =>
    have hc : ¬ chunk4 L t < 250 := fun hc => h ((act4_iff L t).mpr hc)
    simp only [Finset.notMem_empty, hc, false_and]

/-! ## The result array, tile by tile and trip by trip -/

/-- A trip's elements of the result, as one points-to. -/
theorem oTrip4_eq (d : Dev nD) (L : grid4.Coords) (f : Buf (Elt F) (oLoc4 d)) (t : Fin k4_t1_loop.trips) :
    oTrip4 (F := F) d L f t = (oLoc4 d ↦[oSetT4 L t]{fullShare} f : sProp 𝕄) := by
  unfold oTrip4 oSetT4
  split
  · next h =>
    rw [pointsTo_biUnion Finset.univ (ℓ := oLoc4 d) (oSet4 L t h) (oSet4_disjoint L t h),
      show (Finset.univ : Finset (Fin 4)) = {0, 1, 2, 3} from by decide,
      bigSep_insert (by decide), bigSep_insert (by decide), bigSep_insert (by decide), bigSep_singleton]
    rfl
  · rw [pointsTo_empty]

/-- A tile and one of its trips. -/
abbrev TileTrip4 : Type := Fin 2 × Fin 16 × Fin k4_t1_loop.trips
/-- What that trip of that tile writes. -/
def oSetX4 (x : TileTrip4) : Finset S4x32000x128.Idx := oSetT4 (coordsV0 x.1 x.2.1) x.2.2

theorem chunk4_coords (c : Fin 2) (s : Fin 16) (t : Fin k4_t1_loop.trips) : chunk4 (coordsV0 c s) t = 2 * s.val + c.val + 32 * t.val := rfl

/-- The chunk number determines tile and trip: `n = 2 s + c + 32 t` with `c < 2`, `s < 16`. -/
theorem oSetX4_disjoint : ∀ x ∈ (Finset.univ : Finset TileTrip4), ∀ x' ∈ (Finset.univ : Finset TileTrip4), x ≠ x' → Disjoint (oSetX4 x) (oSetX4 x') := by
  intro x _ x' _ hne
  refine Finset.disjoint_left.mpr fun i hi hi' => hne ?_
  obtain ⟨c, s, t⟩ := x
  obtain ⟨c', s', t'⟩ := x'
  rw [oSetX4, mem_oSetT4, chunk4_coords] at hi hi'
  have := c.isLt; have := c'.isLt; have := s.isLt; have := s'.isLt
  exact Prod.ext (Fin.ext (by dsimp only at hi hi' ⊢; omega)) (Prod.ext (Fin.ext (by dsimp only at hi hi' ⊢; omega)) (Fin.ext (by dsimp only at hi hi' ⊢; omega)))

/-- Every row lies in a chunk below 250, and every such chunk is some tile's at some trip. -/
theorem oSetX4_cover : (Finset.univ : Finset TileTrip4).biUnion oSetX4 = Finset.univ := by
  refine Finset.eq_univ_iff_forall.mpr fun i => Finset.mem_biUnion.mpr ?_
  have h1 : (i 1).val < 32000 := (i 1).isLt
  refine ⟨(⟨(i 1).val / 128 % 2, by omega⟩, ⟨(i 1).val / 128 % 32 / 2, by omega⟩, ⟨(i 1).val / 128 / 32, by rw [trips4]; omega⟩), Finset.mem_univ _, ?_⟩
  rw [oSetX4, mem_oSetT4, chunk4_coords]
  dsimp only
  omega

/-- The whole result array at `f` is every tile's every trip's elements at `f`. -/
theorem oPts_tiles4 (d : Dev nD) (f : Buf (Elt F) (oLoc4 d)) :
    (oLoc4 d ↦{fullShare} f : sProp 𝕄)
      = bigSep Finset.univ fun c : Fin 2 => bigSep Finset.univ fun s : Fin 16 => bigSep Finset.univ fun t : Fin k4_t1_loop.trips => oTrip4 d (coordsV0 c s) f t := by
  calc (oLoc4 d ↦{fullShare} f : sProp 𝕄)
      = (oLoc4 d ↦[(Finset.univ : Finset TileTrip4).biUnion oSetX4]{fullShare} f) := by rw [oSetX4_cover]
    _ = bigSep Finset.univ fun x : TileTrip4 => (oLoc4 d ↦[oSetX4 x]{fullShare} f : sProp 𝕄) := pointsTo_biUnion _ _ oSetX4_disjoint
    _ = bigSep Finset.univ fun c : Fin 2 => bigSep Finset.univ fun st : Fin 16 × Fin k4_t1_loop.trips => (oLoc4 d ↦[oSetX4 (c, st)]{fullShare} f : sProp 𝕄) :=
        bigSep_univ_prod _
    _ = bigSep Finset.univ fun c : Fin 2 => bigSep Finset.univ fun s : Fin 16 => bigSep Finset.univ fun t : Fin k4_t1_loop.trips =>
          (oLoc4 d ↦[oSetX4 (c, s, t)]{fullShare} f : sProp 𝕄) := bigSep_congr fun c _ => bigSep_univ_prod _
    _ = _ := bigSep_congr fun c _ => bigSep_congr fun s _ => bigSep_congr fun t _ => (oTrip4_eq d (coordsV0 c s) f t).symm

/-! ## The table and the index block: a read share per SparseCore, and of each one per tile -/

/-- What remains of the table's and the index block's shares while the tiles hold theirs. -/
def Rest4 (d : Dev nD) (X : Buf (Elt F) (xLoc d)) (I : Buf (Elt F) (iLoc4 d)) : sProp 𝕄 :=
  iprop(((xLoc d ↦{shareDrop fullShare 2} X) ∗ bigSep Finset.univ fun c : Fin 2 => xLoc d ↦{shareDrop (shareTok fullShare 2 c) 16} X)
    ∗ ((iLoc4 d ↦{shareDrop fullShare 2} I) ∗ bigSep Finset.univ fun c : Fin 2 => iLoc4 d ↦{shareDrop (shareTok fullShare 2 c) 16} I))

theorem qTile4_coords (c : Fin 2) (s : Fin 16) : qTile4 (coordsV0 c s) = shareTok (shareTok fullShare 2 c) 16 s := rfl

/-- All the tiles' operands: their shares of the table, of the index block, and their windows of the result. -/
theorem tileGo4_tiles (d : Dev nD) (X : Buf (Elt F) (xLoc d)) (I : Buf (Elt F) (iLoc4 d)) (G : Buf (Elt F) (oLoc4 d)) :
    (bigSep Finset.univ fun c : Fin 2 => bigSep Finset.univ fun s : Fin 16 => tileGo4 d X I G (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc4 d ↦{shareTok (shareTok fullShare 2 c) 16 s} I)
          ∗ bigSep Finset.univ fun c : Fin 2 => bigSep Finset.univ fun s : Fin 16 => bigSep Finset.univ fun t : Fin k4_t1_loop.trips => oTrip4 d (coordsV0 c s) G t) := by
  unfold tileGo4
  simp only [qTile4_coords, bigSep_sep']

/-- All the tiles' results. -/
theorem tileTd4_tiles (d : Dev nD) (X : Buf (Elt F) (xLoc d)) (I : Buf (Elt F) (iLoc4 d)) :
    (bigSep Finset.univ fun c : Fin 2 => bigSep Finset.univ fun s : Fin 16 => tileTd4 d X I (coordsV0 c s))
      = iprop((bigSep Finset.univ fun c : Fin 2 => bigSep Finset.univ fun s : Fin 16 => xLoc d ↦{shareTok (shareTok fullShare 2 c) 16 s} X)
          ∗ (bigSep Finset.univ fun c : Fin 2 => bigSep Finset.univ fun s : Fin 16 => iLoc4 d ↦{shareTok (shareTok fullShare 2 c) 16 s} I)
          ∗ bigSep Finset.univ fun c : Fin 2 => bigSep Finset.univ fun s : Fin 16 => bigSep Finset.univ fun t : Fin k4_t1_loop.trips =>
              oTrip4 d (coordsV0 c s) (gath (F := F) X I) t) := by
  unfold tileTd4
  simp only [qTile4_coords, bigSep_sep']

/-! ## The call's split and join -/

/-- The three arrays held whole split into the 2 × 16 tiles' operands and the remainder of the read shares. -/
theorem callSplit4 (d : Dev nD) (X : Buf (Elt F) (xLoc d)) (I : Buf (Elt F) (iLoc4 d)) (G : Buf (Elt F) (oLoc4 d)) :
    iprop((xLoc d ↦{fullShare} X) ∗ (iLoc4 d ↦{fullShare} I) ∗ (oLoc4 d ↦{fullShare} G))
      ⊢ (iprop(Rest4 d X I ∗ bigSep Finset.univ fun c : Fin 2 => bigSep Finset.univ fun s : Fin 16 => tileGo4 d X I G (coordsV0 c s)) : sProp 𝕄) := by
  rw [tileGo4_tiles, reads_tiles X, reads_tiles I, oPts_tiles4 d G]
  unfold Rest4
  iintro ⟨⟨Hx, Hxc, Hxt⟩, ⟨Hi, Hic, Hit⟩, Ho⟩
  isplitl [Hx Hxc Hi Hic]
  · isplitl [Hx Hxc]
    · isplitl [Hx] <;> iassumption
    · isplitl [Hi] <;> iassumption
  isplitl [Hxt]; · iexact Hxt
  isplitl [Hit]; · iexact Hit
  iexact Ho

/-- The tiles' results and the remainder join to the table and the index block held whole again, and the result array
    whole at the gathered array. -/
theorem callJoin4 (d : Dev nD) (X : Buf (Elt F) (xLoc d)) (I : Buf (Elt F) (iLoc4 d)) :
    iprop(Rest4 d X I ∗ bigSep Finset.univ fun c : Fin 2 => bigSep Finset.univ fun s : Fin 16 => tileTd4 d X I (coordsV0 c s))
      ⊢ (iprop((xLoc d ↦{fullShare} X) ∗ (iLoc4 d ↦{fullShare} I) ∗ (oLoc4 d ↦{fullShare} gath (F := F) X I)) : sProp 𝕄) := by
  rw [tileTd4_tiles, reads_tiles X, reads_tiles I, oPts_tiles4 d (gath (F := F) X I)]
  unfold Rest4
  iintro ⟨⟨⟨Hx, Hxc⟩, ⟨Hi, Hic⟩⟩, Hxt, Hit, Ho⟩
  isplitl [Hx Hxc Hxt]
  · isplitl [Hx]; · iexact Hx
    isplitl [Hxc] <;> iassumption
  isplitl [Hi Hic Hit]
  · isplitl [Hi]; · iexact Hi
    isplitl [Hic] <;> iassumption
  iexact Ho

/-! ## The same, in the words of the handshakes' record -/

section AtLaunch

variable (m : (ℓ : Loc nD τ sig) → Buf (Elt F) ℓ)

/-- What the TensorCore's two start signals of call 4 carry: every tile's operands. -/
theorem st4_tiles (d : Dev nD) :
    (bigSep Finset.univ fun c : Fin ((K (F := F)).nCore 4) => (P m).st 4 d c)
      = bigSep Finset.univ fun c : Fin 2 => bigSep Finset.univ fun s : Fin 16 => tileGo4 d (Xv m d) (Iv4 m d) (m (oLoc4 d)) (coordsV0 c s) := by
  simp only [P_st, P_go4]
  exact bigSep_congr fun c _ => bigSep_congr fun s _ => rfl
/-- What the two done signals carry back: every tile's results. -/
theorem dn4_tiles (d : Dev nD) :
    (bigSep Finset.univ fun c : Fin ((K (F := F)).nCore 4) => (P m).dn 4 d c)
      = bigSep Finset.univ fun c : Fin 2 => bigSep Finset.univ fun s : Fin 16 => tileTd4 d (Xv m d) (Iv4 m d) (coordsV0 c s) := by
  simp only [P_dn, P_td4]
  exact bigSep_congr fun c _ => bigSep_congr fun s _ => rfl

/-- Before call 4: the table, the index block and the result array as the launch left it, held whole, are what the
    start signals carry and the remainder of the read shares. -/
theorem callSplit4_P (d : Dev nD) :
    iprop((xLoc d ↦{fullShare} Xv m d) ∗ (iLoc4 d ↦{fullShare} Iv4 m d) ∗ (oLoc4 d ↦{fullShare} m (oLoc4 d)))
      ⊢ (iprop(Rest4 d (Xv m d) (Iv4 m d) ∗ bigSep Finset.univ fun c : Fin ((K (F := F)).nCore 4) => (P m).st 4 d c) : sProp 𝕄) := by
  rw [st4_tiles]; exact callSplit4 d _ _ _
/-- After call 4: what the done signals carry back and the remainder are the table and the index block held whole, and
    the result array whole at the gathered array. -/
theorem callJoin4_P (d : Dev nD) :
    iprop(Rest4 d (Xv m d) (Iv4 m d) ∗ bigSep Finset.univ fun c : Fin ((K (F := F)).nCore 4) => (P m).dn 4 d c)
      ⊢ (iprop((xLoc d ↦{fullShare} Xv m d) ∗ (iLoc4 d ↦{fullShare} Iv4 m d) ∗ (oLoc4 d ↦{fullShare} gath (F := F) (Xv m d) (Iv4 m d))) : sProp 𝕄) := by
  rw [dn4_tiles]; exact callJoin4 d _ _

end AtLaunch

end Cert.Kernel.KP

end
-- ==== Proof.KPreB.lean ====
/-
  The row ids the gather calls read are in range.  Each entry of an index block is an entry of the second argument
  (reshapes, a transpose and a slice only re-index), so a bound on every entry of the argument bounds every entry of
  every block; and the precondition function is all ones only where every entry of the second argument is below 160000.
-/
import proofs.«210879_g80607946211848_cont_9to1_m_1212_13_alg».proof.Proof.KPayB
import proofs.«210879_g80607946211848_cont_9to1_m_1212_13_alg».proof.Proof.PreRange

noncomputable section

namespace Cert.Kernel.KP

open Cert.Kernel Cert.Kernel.Gen

open Idealize.ShloMosaic
open Idealize.ShloMosaic.SparseCore (S V T)

variable {F : FTy → Type}

variable (m : (ℓ : Loc nD τ sig) → Buf (Elt F) ℓ)

/-- Every entry of the second argument on device `d`, read as a natural number, is a row of the table. -/
def ArgInRange (d : Dev nD) : Prop := ∀ j : S1x160000x4.Idx, (m (a1Loc d) j).toNat < 160000

/-! Every entry of an index block is an entry of the second argument. -/

theorem Iv0_in (d : Dev nD) (h : ArgInRange m d) : ∀ i, ((Iv0 m d) i).toNat < 160000 := fun _ => h _
theorem Iv1_in (d : Dev nD) (h : ArgInRange m d) : ∀ i, ((Iv1 m d) i).toNat < 160000 := fun _ => h _
theorem Iv2_in (d : Dev nD) (h : ArgInRange m d) : ∀ i, ((Iv2 m d) i).toNat < 160000 := fun _ => h _
theorem Iv3_in (d : Dev nD) (h : ArgInRange m d) : ∀ i, ((Iv3 m d) i).toNat < 160000 := fun _ => h _
theorem Iv4_in (d : Dev nD) (h : ArgInRange m d) : ∀ i, ((Iv4 m d) i).toNat < 160000 := fun _ => h _

/-! ## From the precondition -/

section FromPre

variable [FloatOps F] [Cert.Pre_input_domain.Facts]

/-- The precondition function, all ones on the launch memory's arguments of device `d`, bounds the second argument. -/
theorem argInRange_of_fn (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ArgInRange m d :=
  Cert.PreRange.ge_range _ _ _ _ h

theorem iv_range0 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv0 m d) i).toNat < 160000 := Iv0_in m d (argInRange_of_fn m d h)
theorem iv_range1 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv1 m d) i).toNat < 160000 := Iv1_in m d (argInRange_of_fn m d h)
theorem iv_range2 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv2 m d) i).toNat < 160000 := Iv2_in m d (argInRange_of_fn m d h)
theorem iv_range3 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv3 m d) i).toNat < 160000 := Iv3_in m d (argInRange_of_fn m d h)
theorem iv_range4 (d : Dev nD)
    (h : Cert.Pre_input_domain.fn (F := F) (m ((SparseCore.T d).loc main_arg0)) (m ((SparseCore.T d).loc main_arg1))
        (m ((SparseCore.T d).loc main_arg2)) (m ((SparseCore.T d).loc main_arg3)) = fun _ => 1#1) :
    ∀ i, ((Iv4 m d) i).toNat < 160000 := Iv4_in m d (argInRange_of_fn m d h)

/-- The same on every device at once, as the tiles' obligations take it: from the precondition on every device
    (the certificate's `Pre_` is exactly this family of equations, device by device). -/
theorem iv_range_all
    (h : ∀ d : Dev nD, Cert.Pre_input_domain.fn (F := F) (m ((d.tc : Thread nD τ).loc main_arg0)) (m ((d.tc : Thread nD τ).loc main_arg1))
        (m ((d.tc : Thread nD τ).loc main_arg2)) (m ((d.tc : Thread nD τ).loc main_arg3)) = fun _ => 1#1) :
    (∀ (d : Dev nD) i, ((Iv0 m d) i).toNat < 160000) ∧ (∀ (d : Dev nD) i, ((Iv1 m d) i).toNat < 160000)
      ∧ (∀ (d : Dev nD) i, ((Iv2 m d) i).toNat < 160000) ∧ (∀ (d : Dev nD) i, ((Iv3 m d) i).toNat < 160000)
      ∧ (∀ (d : Dev nD) i, ((Iv4 m d) i).toNat < 160000) :=
  ⟨fun d => iv_range0 m d (h d), fun d => iv_range1 m d (h d), fun d => iv_range2 m d (h d), fun d => iv_range3 m d (h d),
    fun d => iv_range4 m d (h d)⟩

end FromPre

end Cert.Kernel.KP

end
-- ==== Proof.KAssembleB.lean ====
/-
  The launch theorem's hypotheses put together: how each gather call's three arrays split among the tiles and join
  again, the tiles' obligations from their bodies' theorems and the index ranges the precondition gives, and with the
  five regions the program's run and its frame.
-/
import proofs.«210879_g80607946211848_cont_9to1_m_1212_13_alg».proof.Proof.KRunB
import proofs.«210879_g80607946211848_cont_9to1_m_1212_13_alg».proof.Proof.KSplit0B
import proofs.«210879_g80607946211848_cont_9to1_m_1212_13_alg».proof.Proof.KSplit1B
import proofs.«210879_g80607946211848_cont_9to1_m_1212_13_alg».proof.Proof.KSplit2B
import proofs.«210879_g80607946211848_cont_9to1_m_1212_13_alg».proof.Proof.KSplit3B
import proofs.«210879_g80607946211848_cont_9to1_m_1212_13_alg».proof.Proof.KSplit4B
import proofs.«210879_g80607946211848_cont_9to1_m_1212_13_alg».proof.Proof.KPreB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 5) (Elt F) ℕ UU ℕ

variable (m : (ℓ : Loc nD τ sig) → Buf (Elt F) ℓ) (ρ : Dev nD → PrngReg)

/-- What is left of the table's and of a call's index block's shares while the call's tiles hold theirs. -/
def restOf (q : Fin 5) (d : Dev nD) : sProp 𝕄 :=
  match q with
  | 0 => Rest0 d (Xv m d) (Iv0 m d)
  | 1 => Rest1 d (Xv m d) (Iv1 m d)
  | 2 => Rest2 d (Xv m d) (Iv2 m d)
  | 3 => Rest3 d (Xv m d) (Iv3 m d)
  | 4 => Rest4 d (Xv m d) (Iv4 m d)

/-- The five calls' splits and joins. -/
def callsOf : Calls m where
  R := restOf m
  split0 := callSplit0_P m
  join0 := callJoin0_P m
  split1 := callSplit1_P m
  join1 := callJoin1_P m
  split2 := callSplit2_P m
  join2 := callJoin2_P m
  split3 := callSplit3_P m
  join3 := callJoin3_P m
  split4 := callSplit4_P m
  join4 := callJoin4_P m

/-- The tiles' obligations for the five calls, from the bodies' theorems and the index blocks' ranges. -/
theorem tilesOf (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    ∀ q : Fin 5, (K (F := F)).TileObl (D (F := F)) 𝒱 (P m) v₀ q
  | 0 => tileObl0 m hb0 facts hin0
  | 1 => tileObl1 m hb1 facts hin1
  | 2 => tileObl2 m hb2 facts hin2
  | 3 => tileObl3 m hb3 facts hin3
  | 4 => tileObl4 m hb4 facts hin4

/-- The program's run: on every device the result is `KOut` and the arguments are unchanged. -/
theorem run_ki [∀ e, Nonempty (Elt F e)] (hr : Regions (P m))
    (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    θ_run (Cert.Kernel.defs (F := F)) (Cert.Kernel.threads (F := F)) ⟨m, fun _ => 0, ρ⟩ (QC m hr) :=
  run_main m ρ (callsOf m) hr (tilesOf m hb0 hb1 hb2 hb3 hb4 hin0 hin1 hin2 hin3 hin4)

end Cert.Kernel.KP

namespace Cert.Kernel.KP

open Cert.Kernel Cert.Kernel.Gen
open Idealize.ShloMosaic Idealize.SL.Sem
open Idealize.ShloMosaic.SparseCore.Cfg (HIx Pay)

/-- `Cert.frame_Kernel` from the five regions and the five bodies' theorems. -/
theorem frame_Kernel_of (hr : ∀ m : (ℓ : Loc nD τ sig) → Buf (Elt Bits) ℓ, Regions (P (F := Bits) m))
    (hb0 : TileBody0 (F := Bits)) (hb1 : TileBody1 (F := Bits)) (hb2 : TileBody2 (F := Bits)) (hb3 : TileBody3 (F := Bits)) (hb4 : TileBody4 (F := Bits)) :
    Cert.frame_Kernel :=
  frame_ki (fun m _ => callsOf m) (fun m _ => hr m) fun m hpre =>
    have h := iv_range_all (F := Bits) m hpre
    tilesOf m hb0 hb1 hb2 hb3 hb4 h.1 h.2.1 h.2.2.1 h.2.2.2.1 h.2.2.2.2

end Cert.Kernel.KP

end
-- ==== Proof.KConvBodyB.lean ====
/-
  The five TensorCore convolution bodies, each at a symbolic grid point: what the body leaves in the output window's
  staging buffer, as a pure function of the blocks it finds in the four input windows' buffers (the skeleton's
  payload terms), and the body's triple.
-/
import proofs.«210879_g80607946211848_cont_9to1_m_1212_13_alg».proof.Proof.KSetupB
import proofs.«210879_g80607946211848_cont_9to1_m_1212_13_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.KP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 5) (Elt F) ℕ UU ℕ

/-! ## The rectangles the bodies load and store through -/

/-- The whole [128,3200] block (the x window's buffer, and the output window's). -/
abbrev rX : Rect S128x3200 := Rect.unit (s := S128x3200) ![0, 0] S128x3200.size inb_S128x3200_S128x3200_0_0
/-- Plane j of the [4,3200,128] gathered block. -/
abbrev rG0 : Rect S4x3200x128 := Rect.unit (s := S4x3200x128) ![0, 0, 0] S1x3200x128.size inb_S4x3200x128_S1x3200x128_0_0_0
abbrev rG1 : Rect S4x3200x128 := Rect.unit (s := S4x3200x128) ![1, 0, 0] S1x3200x128.size inb_S4x3200x128_S1x3200x128_1_0_0
abbrev rG2 : Rect S4x3200x128 := Rect.unit (s := S4x3200x128) ![2, 0, 0] S1x3200x128.size inb_S4x3200x128_S1x3200x128_2_0_0
abbrev rG3 : Rect S4x3200x128 := Rect.unit (s := S4x3200x128) ![3, 0, 0] S1x3200x128.size inb_S4x3200x128_S1x3200x128_3_0_0
/-- Plane k of the [5,128,128] weights. -/
abbrev rW0 : Rect S5x128x128 := Rect.unit (s := S5x128x128) ![0, 0, 0] S1x128x128.size inb_S5x128x128_S1x128x128_0_0_0
abbrev rW1 : Rect S5x128x128 := Rect.unit (s := S5x128x128) ![1, 0, 0] S1x128x128.size inb_S5x128x128_S1x128x128_1_0_0
abbrev rW2 : Rect S5x128x128 := Rect.unit (s := S5x128x128) ![2, 0, 0] S1x128x128.size inb_S5x128x128_S1x128x128_2_0_0
abbrev rW3 : Rect S5x128x128 := Rect.unit (s := S5x128x128) ![3, 0, 0] S1x128x128.size inb_S5x128x128_S1x128x128_3_0_0
abbrev rW4 : Rect S5x128x128 := Rect.unit (s := S5x128x128) ![4, 0, 0] S1x128x128.size inb_S5x128x128_S1x128x128_4_0_0
/-- The whole [128,1] bias. -/
abbrev rB : Rect S128x1 := Rect.unit (s := S128x1) ![0, 0] S128x1.size inb_S128x1_S128x1_0_0

/-- One store of the whole block covers the block. -/
theorem coverX (p0 : Vec F S128x3200 .f32) (y : S128x3200.Idx) :
    ∃ pc ∈ ([⟨rX, p0⟩] : List (View.Piece (Elt F) S128x3200 .f32)), y ∈ pc.1.set :=
  View.cover_of_tiled [⟨rX, p0⟩] S128x3200.size (by rfl) y

/-! ## Body 5 -/

/-- What body 5 leaves in the output window's buffer, from the blocks in the x, gather, weight and bias windows'
    buffers: its one store of the whole block, the payload the skeleton's. -/
def out5 (x0 : Vec F S128x3200 .f32) (x1 : Vec F S4x3200x128 .f32) (x2 : Vec F S5x128x128 .f32) (x3 : Vec F S128x1 .f32) : Vec F S128x3200 .f32 :=
  View.canon [⟨rX, k5_pay1 (k5_pay2 (View.ld x1 rG1)) (k5_pay3 (View.ld x1 rG3))
    (k5_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 5 on whole staging memrefs, the four inputs' at read contents and the output's at anything, runs to the
    continuation holding the inputs' as they were and the output's at `out5` of them. -/
theorem sound_kernel5 (c : Dev nD) (E : Set ℕ) (i : grid5.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .vmem S128x3200 .f32) (harg5 : arg5.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5 x0 x1 x2 x3)) -∗ K ⟨⟩))
      ⊢ wp frame (wpE (defs₀ (F := F)) Variants.none c none) E (cc5__tc_conv_body i arg1 harg1 arg2 harg2 arg3 harg3 arg4 harg4 arg5 harg5) K := by
  simp only [cc5__tc_conv_body_eq_skeleton]; unfold cc5__tc_conv_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 6 -/

/-- What body 6 leaves in the output window's buffer, from the blocks in the x, gather, weight and bias windows'
    buffers: its one store of the whole block, the payload the skeleton's. -/
def out6 (x0 : Vec F S128x3200 .f32) (x1 : Vec F S4x3200x128 .f32) (x2 : Vec F S5x128x128 .f32) (x3 : Vec F S128x1 .f32) : Vec F S128x3200 .f32 :=
  View.canon [⟨rX, k6_pay1 (k6_pay2 (View.ld x1 rG1)) (k6_pay3 (View.ld x1 rG3))
    (k6_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 6 on whole staging memrefs, the four inputs' at read contents and the output's at anything, runs to the
    continuation holding the inputs' as they were and the output's at `out6` of them. -/
theorem sound_kernel6 (c : Dev nD) (E : Set ℕ) (i : grid6.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out6 x0 x1 x2 x3)) -∗ K ⟨⟩))
      ⊢ wp frame (wpE (defs₀ (F := F)) Variants.none c none) E (cc6__tc_conv_body i arg1 harg1 arg2 harg2 arg3 harg3 arg4 harg4 arg5 harg5 arg6 harg6) K := by
  simp only [cc6__tc_conv_body_eq_skeleton]; unfold cc6__tc_conv_body_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 7 -/

/-- What body 7 leaves in the output window's buffer, from the blocks in the x, gather, weight and bias windows'
    buffers: its one store of the whole block, the payload the skeleton's. -/
def out7 (x0 : Vec F S128x3200 .f32) (x1 : Vec F S4x3200x128 .f32) (x2 : Vec F S5x128x128 .f32) (x3 : Vec F S128x1 .f32) : Vec F S128x3200 .f32 :=
  View.canon [⟨rX, k7_pay1 (k7_pay2 (View.ld x1 rG1)) (k7_pay3 (View.ld x1 rG3))
    (k7_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 7 on whole staging memrefs, the four inputs' at read contents and the output's at anything, runs to the
    continuation holding the inputs' as they were and the output's at `out7` of them. -/
theorem sound_kernel7 (c : Dev nD) (E : Set ℕ) (i : grid7.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out7 x0 x1 x2 x3)) -∗ K ⟨⟩))
      ⊢ wp frame (wpE (defs₀ (F := F)) Variants.none c none) E (cc7__tc_conv_body i arg1 harg1 arg2 harg2 arg3 harg3 arg4 harg4 arg5 harg5 arg6 harg6) K := by
  simp only [cc7__tc_conv_body_eq_skeleton]; unfold cc7__tc_conv_body_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 8 -/

/-- What body 8 leaves in the output window's buffer, from the blocks in the x, gather, weight and bias windows'
    buffers: its one store of the whole block, the payload the skeleton's. -/
def out8 (x0 : Vec F S128x3200 .f32) (x1 : Vec F S4x3200x128 .f32) (x2 : Vec F S5x128x128 .f32) (x3 : Vec F S128x1 .f32) : Vec F S128x3200 .f32 :=
  View.canon [⟨rX, k8_pay1 (k8_pay2 (View.ld x1 rG1)) (k8_pay3 (View.ld x1 rG3))
    (k8_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 8 on whole staging memrefs, the four inputs' at read contents and the output's at anything, runs to the
    continuation holding the inputs' as they were and the output's at `out8` of them. -/
theorem sound_kernel8 (c : Dev nD) (E : Set ℕ) (i : grid8.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out8 x0 x1 x2 x3)) -∗ K ⟨⟩))
      ⊢ wp frame (wpE (defs₀ (F := F)) Variants.none c none) E (cc8__tc_conv_body i arg1 harg1 arg2 harg2 arg3 harg3 arg4 harg4 arg5 harg5 arg6 harg6) K := by
  simp only [cc8__tc_conv_body_eq_skeleton]; unfold cc8__tc_conv_body_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

/-! ## Body 9 -/

/-- What body 9 leaves in the output window's buffer, from the blocks in the x, gather, weight and bias windows'
    buffers: its one store of the whole block, the payload the skeleton's. -/
def out9 (x0 : Vec F S128x3200 .f32) (x1 : Vec F S4x3200x128 .f32) (x2 : Vec F S5x128x128 .f32) (x3 : Vec F S128x1 .f32) : Vec F S128x3200 .f32 :=
  View.canon [⟨rX, k9_pay1 (k9_pay2 (View.ld x1 rG1)) (k9_pay3 (View.ld x1 rG3))
    (k9_pay4 (View.ld x1 rG0) (View.ld x1 rG1) (View.ld x1 rG2) (View.ld x1 rG3) (View.ld x2 rW0) (View.ld x0 rX) (View.ld x2 rW1) (View.ld x2 rW2) (View.ld x2 rW3))
    (View.ld x2 rW4) (View.ld x3 rB)⟩]

set_option maxHeartbeats 4000000 in
/-- Body 9 on whole staging memrefs, the four inputs' at read contents and the output's at anything, runs to the
    continuation holding the inputs' as they were and the output's at `out9` of them. -/
theorem sound_kernel9 (c : Dev nD) (E : Set ℕ) (i : grid9.Coords) (arg1 : Memref sig .tc .vmem S128x3200 .f32) (harg1 : arg1.IsWhole) (arg2 : Memref sig .tc .vmem S4x3200x128 .f32) (harg2 : arg2.IsWhole) (arg3 : Memref sig .tc .vmem S5x128x128 .f32) (harg3 : arg3.IsWhole) (arg4 : Memref sig .tc .vmem S128x1 .f32) (harg4 : arg4.IsWhole) (arg5 : Memref sig .tc .hbm S128x160000 .f32) (harg5 : arg5.IsWhole) (arg6 : Memref sig .tc .vmem S128x3200 .f32) (harg6 : arg6.IsWhole)
    (x0 : Vec F S128x3200 .f32) (x1 : Vec F S4x3200x128 .f32) (x2 : Vec F S5x128x128 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg6 fullShare (out9 x0 x1 x2 x3)) -∗ K ⟨⟩))
      ⊢ wp frame (wpE (defs₀ (F := F)) Variants.none c none) E (cc9__tc_conv_body i arg1 harg1 arg2 harg2 arg3 harg3 arg4 harg4 arg5 harg5 arg6 harg6) K := by
  simp only [cc9__tc_conv_body_eq_skeleton]; unfold cc9__tc_conv_body_skel
  simp only [k9_part1_eq_skeleton]; unfold k9_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverX _)

end Cert.Kernel.KP

end
-- ==== Proof.KConvDatB.lean ====
/-
  The proof data of the five TensorCore pipelines on a core, from the contents of the buffers as a pipeline's region finds
  them: after the body at a point each input window's buffer holds its block and the output window's the body's result of
  the input blocks; and the body obligation at a symbolic grid point.
-/
import proofs.«210879_g80607946211848_cont_9to1_m_1212_13_alg».proof.Proof.KConvBodyB

set_option maxRecDepth 16384

noncomputable section

namespace Cert.Kernel.KP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-- The index the pipelines' own waits are recorded at: the kernels' band, below every call's. -/
abbrev ι₀ : HIx 5 := none

/-! ## Pipeline 0 (custom_call 5) -/

section Pipe5

variable (c : Dev nD) (V : (b : Ref sig .tc) → Buf (Elt F) ((c : Thread nD τ).loc b))

/-- Window `w`'s block at point `t`, read off its array as the region finds it. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- What the scoped buffers no window stages hold is not the body's concern: they ride through every point. -/
abbrev Φ5 : sProp 𝕄 := Pipeline.scopedRest (Ix := HIx 5) (Name := ℕ) (U := UU) (Lvl := ℕ) (Val := Elt F) spec5 c

/-- The proof data: the arrays as the region finds them; after the body at point `t` each input's buffer at its block,
    the output's at the body's result of the input blocks; the scoped rest untouched; nothing owed; full shares;
    the recorded waits within any bound `B` the thread's waits lay within before. -/
def dat5 (B : Set (SemLoc sig × HIx 5)) : Dat τ (Elt F) (HIx 5) ℕ UU ℕ cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => out5 (iblk5 c V 0 t) (iblk5 c V 1 t) (iblk5 c V 2 t) (iblk5 c V 3 t)
  Φ _ := Φ5 c
  q _ := fullShare
  owed _ := 0
  recorded _ := B

variable (B : Set (SemLoc sig × HIx 5))

theorem A5_eq (w : Fin cfg5.W) : (dat5 c V B).A w = V (Pipeline.arrRef spec5 w) := by dsimp only [dat5]
theorem after5_0 (t : Fin cfg5.N) : (dat5 c V B).after 0 t = iblk5 c V 0 t := by dsimp only [dat5]
theorem after5_1 (t : Fin cfg5.N) : (dat5 c V B).after 1 t = iblk5 c V 1 t := by dsimp only [dat5]
theorem after5_2 (t : Fin cfg5.N) : (dat5 c V B).after 2 t = iblk5 c V 2 t := by dsimp only [dat5]
theorem after5_3 (t : Fin cfg5.N) : (dat5 c V B).after 3 t = iblk5 c V 3 t := by dsimp only [dat5]
theorem after5_4 (t : Fin cfg5.N) : (dat5 c V B).after 4 t = out5 (iblk5 c V 0 t) (iblk5 c V 1 t) (iblk5 c V 2 t) (iblk5 c V 3 t) := by dsimp only [dat5]

/-- Each input's current staging buffer holds its block at every point, fetched there or not. -/
theorem before5_0 (t : Fin cfg5.N) (d) : (dat5 c V B).before 0 t d = iblk5 c V 0 t :=
  ((dat5 c V B).before_in_eq_fetched 0 rfl (fun _ => rfl) (fun _ _ _ => rfl) (fun t => by rw [after5_0]; unfold Dat.blockOf iblk5; rw [A5_eq]; try rfl) t d).trans
    (by unfold Dat.fetched Dat.blockOf iblk5; rw [A5_eq]; try rfl)
theorem before5_1 (t : Fin cfg5.N) (d) : (dat5 c V B).before 1 t d = iblk5 c V 1 t :=
  ((dat5 c V B).before_in_eq_fetched 1 rfl (fun _ => rfl) (fun _ _ _ => rfl) (fun t => by rw [after5_1]; unfold Dat.blockOf iblk5; rw [A5_eq]; try rfl) t d).trans
    (by unfold Dat.fetched Dat.blockOf iblk5; rw [A5_eq]; try rfl)
theorem before5_2 (t : Fin cfg5.N) (d) : (dat5 c V B).before 2 t d = iblk5 c V 2 t :=
  ((dat5 c V B).before_in_eq_fetched 2 rfl (fun _ => rfl) (fun _ _ _ => rfl) (fun t => by rw [after5_2]; unfold Dat.blockOf iblk5; rw [A5_eq]; try rfl) t d).trans
    (by unfold Dat.fetched Dat.blockOf iblk5; rw [A5_eq]; try rfl)
theorem before5_3 (t : Fin cfg5.N) (d) : (dat5 c V B).before 3 t d = iblk5 c V 3 t :=
  ((dat5 c V B).before_in_eq_fetched 3 rfl (fun _ => rfl) (fun _ _ _ => rfl) (fun t => by rw [after5_3]; unfold Dat.blockOf iblk5; rw [A5_eq]; try rfl) t d).trans
    (by unfold Dat.fetched Dat.blockOf iblk5; rw [A5_eq]; try rfl)

/-- What the body is called with at point `t`, the windows one by one, -/
def bodyPre5 (t : Fin cfg5.N) : sProp 𝕄 :=
  iprop((dat5 c V B).Φ t.castSucc ∗ (dat5 c V B).owesAt ι₀ t.castSucc
    ∗ (∃ d, owns (c : Thread nD τ) (st5_0 t) fullShare ((dat5 c V B).before 0 t d))
    ∗ (∃ d, owns (c : Thread nD τ) (st5_1 t) fullShare ((dat5 c V B).before 1 t d))
    ∗ (∃ d, owns (c : Thread nD τ) (st5_2 t) fullShare ((dat5 c V B).before 2 t d))
    ∗ (∃ d, owns (c : Thread nD τ) (st5_3 t) fullShare ((dat5 c V B).before 3 t d))
    ∗ (∃ d, owns (c : Thread nD τ) (st5_4 t) fullShare ((dat5 c V B).before 4 t d)))

/-- and what it returns. -/
def bodyPost5 (t : Fin cfg5.N) : sProp 𝕄 :=
  iprop((dat5 c V B).Φ t.succ ∗ (dat5 c V B).owesAt ι₀ t.succ
    ∗ owns (c : Thread nD τ) (st5_0 t) fullShare ((dat5 c V B).after 0 t)
    ∗ owns (c : Thread nD τ) (st5_1 t) fullShare ((dat5 c V B).after 1 t)
    ∗ owns (c : Thread nD τ) (st5_2 t) fullShare ((dat5 c V B).after 2 t)
    ∗ owns (c : Thread nD τ) (st5_3 t) fullShare ((dat5 c V B).after 3 t)
    ∗ owns (c : Thread nD τ) (st5_4 t) fullShare ((dat5 c V B).after 4 t))

/-- The body at any point: the inputs' memrefs hold their blocks, so the body's triple applies; the scoped rest and the
    thread's debts pass through unread. -/
theorem sound_body5 (t : Fin cfg5.N) :
    bodyPre5 c V B t ⊢ wp frame (wpE (defs₀ (F := F)) Variants.none c none) Set.univ (bodyAt5 t) (fun _ => bodyPost5 c V B t) := by
  unfold bodyPre5 bodyPost5 bodyAt5
  simp only [before5_0, before5_1, before5_2, before5_3]
  rw [show (dat5 c V B).Φ t.succ = (dat5 c V B).Φ t.castSucc from rfl,
    show (dat5 c V B).owesAt ι₀ t.succ = (dat5 c V B).owesAt ι₀ t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 c V 0 t) (iblk5 c V 1 t) (iblk5 c V 2 t) (iblk5 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation5 : BodyObligation (dat5 (F := F) c V B) (defs₀ (F := F)) Variants.none ι₀ Set.univ := fun t => by
  rw [bigSep_W5, bigSep_W5]
  exact sound_body5 c V B t

end Pipe5

/-! ## Pipeline 1 (custom_call 6) -/

section Pipe6

variable (c : Dev nD) (V : (b : Ref sig .tc) → Buf (Elt F) ((c : Thread nD τ).loc b))

/-- Window `w`'s block at point `t`, read off its array as the region finds it. -/
def iblk6 (w : Fin cfg6.W) (t : Fin cfg6.N) : ((cfg6.win w).xblock (cfg6.grid.coords t)).Idx → Elt F (cfg6.win w).elt :=
  ((cfg6.win w).blk t).view.read (Elt F) (V (Pipeline.arrRef spec6 w))

/-- What the scoped buffers no window stages hold is not the body's concern: they ride through every point. -/
abbrev Φ6 : sProp 𝕄 := Pipeline.scopedRest (Ix := HIx 5) (Name := ℕ) (U := UU) (Lvl := ℕ) (Val := Elt F) spec6 c

/-- The proof data: the arrays as the region finds them; after the body at point `t` each input's buffer at its block,
    the output's at the body's result of the input blocks; the scoped rest untouched; nothing owed; full shares;
    the recorded waits within any bound `B` the thread's waits lay within before. -/
def dat6 (B : Set (SemLoc sig × HIx 5)) : Dat τ (Elt F) (HIx 5) ℕ UU ℕ cfg6 c where
  A w := V (Pipeline.arrRef spec6 w)
  after w t := match w with
    | ⟨0, _⟩ => iblk6 c V 0 t
    | ⟨1, _⟩ => iblk6 c V 1 t
    | ⟨2, _⟩ => iblk6 c V 2 t
    | ⟨3, _⟩ => iblk6 c V 3 t
    | ⟨4, _⟩ => out6 (iblk6 c V 0 t) (iblk6 c V 1 t) (iblk6 c V 2 t) (iblk6 c V 3 t)
  Φ _ := Φ6 c
  q _ := fullShare
  owed _ := 0
  recorded _ := B

variable (B : Set (SemLoc sig × HIx 5))

theorem A6_eq (w : Fin cfg6.W) : (dat6 c V B).A w = V (Pipeline.arrRef spec6 w) := by dsimp only [dat6]
theorem after6_0 (t : Fin cfg6.N) : (dat6 c V B).after 0 t = iblk6 c V 0 t := by dsimp only [dat6]
theorem after6_1 (t : Fin cfg6.N) : (dat6 c V B).after 1 t = iblk6 c V 1 t := by dsimp only [dat6]
theorem after6_2 (t : Fin cfg6.N) : (dat6 c V B).after 2 t = iblk6 c V 2 t := by dsimp only [dat6]
theorem after6_3 (t : Fin cfg6.N) : (dat6 c V B).after 3 t = iblk6 c V 3 t := by dsimp only [dat6]
theorem after6_4 (t : Fin cfg6.N) : (dat6 c V B).after 4 t = out6 (iblk6 c V 0 t) (iblk6 c V 1 t) (iblk6 c V 2 t) (iblk6 c V 3 t) := by dsimp only [dat6]

/-- Each input's current staging buffer holds its block at every point, fetched there or not. -/
theorem before6_0 (t : Fin cfg6.N) (d) : (dat6 c V B).before 0 t d = iblk6 c V 0 t :=
  ((dat6 c V B).before_in_eq_fetched 0 rfl (fun _ => rfl) (fun _ _ _ => rfl) (fun t => by rw [after6_0]; unfold Dat.blockOf iblk6; rw [A6_eq]; try rfl) t d).trans
    (by unfold Dat.fetched Dat.blockOf iblk6; rw [A6_eq]; try rfl)
theorem before6_1 (t : Fin cfg6.N) (d) : (dat6 c V B).before 1 t d = iblk6 c V 1 t :=
  ((dat6 c V B).before_in_eq_fetched 1 rfl (fun _ => rfl) (fun _ _ _ => rfl) (fun t => by rw [after6_1]; unfold Dat.blockOf iblk6; rw [A6_eq]; try rfl) t d).trans
    (by unfold Dat.fetched Dat.blockOf iblk6; rw [A6_eq]; try rfl)
theorem before6_2 (t : Fin cfg6.N) (d) : (dat6 c V B).before 2 t d = iblk6 c V 2 t :=
  ((dat6 c V B).before_in_eq_fetched 2 rfl (fun _ => rfl) (fun _ _ _ => rfl) (fun t => by rw [after6_2]; unfold Dat.blockOf iblk6; rw [A6_eq]; try rfl) t d).trans
    (by unfold Dat.fetched Dat.blockOf iblk6; rw [A6_eq]; try rfl)
theorem before6_3 (t : Fin cfg6.N) (d) : (dat6 c V B).before 3 t d = iblk6 c V 3 t :=
  ((dat6 c V B).before_in_eq_fetched 3 rfl (fun _ => rfl) (fun _ _ _ => rfl) (fun t => by rw [after6_3]; unfold Dat.blockOf iblk6; rw [A6_eq]; try rfl) t d).trans
    (by unfold Dat.fetched Dat.blockOf iblk6; rw [A6_eq]; try rfl)

/-- What the body is called with at point `t`, the windows one by one, -/
def bodyPre6 (t : Fin cfg6.N) : sProp 𝕄 :=
  iprop((dat6 c V B).Φ t.castSucc ∗ (dat6 c V B).owesAt ι₀ t.castSucc
    ∗ (∃ d, owns (c : Thread nD τ) (st6_0 t) fullShare ((dat6 c V B).before 0 t d))
    ∗ (∃ d, owns (c : Thread nD τ) (st6_1 t) fullShare ((dat6 c V B).before 1 t d))
    ∗ (∃ d, owns (c : Thread nD τ) (st6_2 t) fullShare ((dat6 c V B).before 2 t d))
    ∗ (∃ d, owns (c : Thread nD τ) (st6_3 t) fullShare ((dat6 c V B).before 3 t d))
    ∗ (∃ d, owns (c : Thread nD τ) (st6_4 t) fullShare ((dat6 c V B).before 4 t d)))

/-- and what it returns. -/
def bodyPost6 (t : Fin cfg6.N) : sProp 𝕄 :=
  iprop((dat6 c V B).Φ t.succ ∗ (dat6 c V B).owesAt ι₀ t.succ
    ∗ owns (c : Thread nD τ) (st6_0 t) fullShare ((dat6 c V B).after 0 t)
    ∗ owns (c : Thread nD τ) (st6_1 t) fullShare ((dat6 c V B).after 1 t)
    ∗ owns (c : Thread nD τ) (st6_2 t) fullShare ((dat6 c V B).after 2 t)
    ∗ owns (c : Thread nD τ) (st6_3 t) fullShare ((dat6 c V B).after 3 t)
    ∗ owns (c : Thread nD τ) (st6_4 t) fullShare ((dat6 c V B).after 4 t))

/-- The body at any point: the inputs' memrefs hold their blocks, so the body's triple applies; the scoped rest and the
    thread's debts pass through unread. -/
theorem sound_body6 (t : Fin cfg6.N) :
    bodyPre6 c V B t ⊢ wp frame (wpE (defs₀ (F := F)) Variants.none c none) Set.univ (bodyAt6 t) (fun _ => bodyPost6 c V B t) := by
  unfold bodyPre6 bodyPost6 bodyAt6
  simp only [before6_0, before6_1, before6_2, before6_3]
  rw [show (dat6 c V B).Φ t.succ = (dat6 c V B).Φ t.castSucc from rfl,
    show (dat6 c V B).owesAt ι₀ t.succ = (dat6 c V B).owesAt ι₀ t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ _ _ (iblk6 c V 0 t) (iblk6 c V 1 t) (iblk6 c V 2 t) (iblk6 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation6 : BodyObligation (dat6 (F := F) c V B) (defs₀ (F := F)) Variants.none ι₀ Set.univ := fun t => by
  rw [bigSep_W6, bigSep_W6]
  exact sound_body6 c V B t

end Pipe6

/-! ## Pipeline 2 (custom_call 7) -/

section Pipe7

variable (c : Dev nD) (V : (b : Ref sig .tc) → Buf (Elt F) ((c : Thread nD τ).loc b))

/-- Window `w`'s block at point `t`, read off its array as the region finds it. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- What the scoped buffers no window stages hold is not the body's concern: they ride through every point. -/
abbrev Φ7 : sProp 𝕄 := Pipeline.scopedRest (Ix := HIx 5) (Name := ℕ) (U := UU) (Lvl := ℕ) (Val := Elt F) spec7 c

/-- The proof data: the arrays as the region finds them; after the body at point `t` each input's buffer at its block,
    the output's at the body's result of the input blocks; the scoped rest untouched; nothing owed; full shares;
    the recorded waits within any bound `B` the thread's waits lay within before. -/
def dat7 (B : Set (SemLoc sig × HIx 5)) : Dat τ (Elt F) (HIx 5) ℕ UU ℕ cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => out7 (iblk7 c V 0 t) (iblk7 c V 1 t) (iblk7 c V 2 t) (iblk7 c V 3 t)
  Φ _ := Φ7 c
  q _ := fullShare
  owed _ := 0
  recorded _ := B

variable (B : Set (SemLoc sig × HIx 5))

theorem A7_eq (w : Fin cfg7.W) : (dat7 c V B).A w = V (Pipeline.arrRef spec7 w) := by dsimp only [dat7]
theorem after7_0 (t : Fin cfg7.N) : (dat7 c V B).after 0 t = iblk7 c V 0 t := by dsimp only [dat7]
theorem after7_1 (t : Fin cfg7.N) : (dat7 c V B).after 1 t = iblk7 c V 1 t := by dsimp only [dat7]
theorem after7_2 (t : Fin cfg7.N) : (dat7 c V B).after 2 t = iblk7 c V 2 t := by dsimp only [dat7]
theorem after7_3 (t : Fin cfg7.N) : (dat7 c V B).after 3 t = iblk7 c V 3 t := by dsimp only [dat7]
theorem after7_4 (t : Fin cfg7.N) : (dat7 c V B).after 4 t = out7 (iblk7 c V 0 t) (iblk7 c V 1 t) (iblk7 c V 2 t) (iblk7 c V 3 t) := by dsimp only [dat7]

/-- Each input's current staging buffer holds its block at every point, fetched there or not. -/
theorem before7_0 (t : Fin cfg7.N) (d) : (dat7 c V B).before 0 t d = iblk7 c V 0 t :=
  ((dat7 c V B).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (t : Fin cfg7.N) (d) : (dat7 c V B).before 1 t d = iblk7 c V 1 t :=
  ((dat7 c V B).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (t : Fin cfg7.N) (d) : (dat7 c V B).before 2 t d = iblk7 c V 2 t :=
  ((dat7 c V B).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)
theorem before7_3 (t : Fin cfg7.N) (d) : (dat7 c V B).before 3 t d = iblk7 c V 3 t :=
  ((dat7 c V B).before_in_eq_fetched 3 rfl (fun _ => rfl) (fun _ _ _ => rfl) (fun t => by rw [after7_3]; unfold Dat.blockOf iblk7; rw [A7_eq]; try rfl) t d).trans
    (by unfold Dat.fetched Dat.blockOf iblk7; rw [A7_eq]; try rfl)

/-- What the body is called with at point `t`, the windows one by one, -/
def bodyPre7 (t : Fin cfg7.N) : sProp 𝕄 :=
  iprop((dat7 c V B).Φ t.castSucc ∗ (dat7 c V B).owesAt ι₀ t.castSucc
    ∗ (∃ d, owns (c : Thread nD τ) (st7_0 t) fullShare ((dat7 c V B).before 0 t d))
    ∗ (∃ d, owns (c : Thread nD τ) (st7_1 t) fullShare ((dat7 c V B).before 1 t d))
    ∗ (∃ d, owns (c : Thread nD τ) (st7_2 t) fullShare ((dat7 c V B).before 2 t d))
    ∗ (∃ d, owns (c : Thread nD τ) (st7_3 t) fullShare ((dat7 c V B).before 3 t d))
    ∗ (∃ d, owns (c : Thread nD τ) (st7_4 t) fullShare ((dat7 c V B).before 4 t d)))

/-- and what it returns. -/
def bodyPost7 (t : Fin cfg7.N) : sProp 𝕄 :=
  iprop((dat7 c V B).Φ t.succ ∗ (dat7 c V B).owesAt ι₀ t.succ
    ∗ owns (c : Thread nD τ) (st7_0 t) fullShare ((dat7 c V B).after 0 t)
    ∗ owns (c : Thread nD τ) (st7_1 t) fullShare ((dat7 c V B).after 1 t)
    ∗ owns (c : Thread nD τ) (st7_2 t) fullShare ((dat7 c V B).after 2 t)
    ∗ owns (c : Thread nD τ) (st7_3 t) fullShare ((dat7 c V B).after 3 t)
    ∗ owns (c : Thread nD τ) (st7_4 t) fullShare ((dat7 c V B).after 4 t))

/-- The body at any point: the inputs' memrefs hold their blocks, so the body's triple applies; the scoped rest and the
    thread's debts pass through unread. -/
theorem sound_body7 (t : Fin cfg7.N) :
    bodyPre7 c V B t ⊢ wp frame (wpE (defs₀ (F := F)) Variants.none c none) Set.univ (bodyAt7 t) (fun _ => bodyPost7 c V B t) := by
  unfold bodyPre7 bodyPost7 bodyAt7
  simp only [before7_0, before7_1, before7_2, before7_3]
  rw [show (dat7 c V B).Φ t.succ = (dat7 c V B).Φ t.castSucc from rfl,
    show (dat7 c V B).owesAt ι₀ t.succ = (dat7 c V B).owesAt ι₀ t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ _ _ (iblk7 c V 0 t) (iblk7 c V 1 t) (iblk7 c V 2 t) (iblk7 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation7 : BodyObligation (dat7 (F := F) c V B) (defs₀ (F := F)) Variants.none ι₀ Set.univ := fun t => by
  rw [bigSep_W7, bigSep_W7]
  exact sound_body7 c V B t

end Pipe7

/-! ## Pipeline 3 (custom_call 8) -/

section Pipe8

variable (c : Dev nD) (V : (b : Ref sig .tc) → Buf (Elt F) ((c : Thread nD τ).loc b))

/-- Window `w`'s block at point `t`, read off its array as the region finds it. -/
def iblk8 (w : Fin cfg8.W) (t : Fin cfg8.N) : ((cfg8.win w).xblock (cfg8.grid.coords t)).Idx → Elt F (cfg8.win w).elt :=
  ((cfg8.win w).blk t).view.read (Elt F) (V (Pipeline.arrRef spec8 w))

/-- What the scoped buffers no window stages hold is not the body's concern: they ride through every point. -/
abbrev Φ8 : sProp 𝕄 := Pipeline.scopedRest (Ix := HIx 5) (Name := ℕ) (U := UU) (Lvl := ℕ) (Val := Elt F) spec8 c

/-- The proof data: the arrays as the region finds them; after the body at point `t` each input's buffer at its block,
    the output's at the body's result of the input blocks; the scoped rest untouched; nothing owed; full shares;
    the recorded waits within any bound `B` the thread's waits lay within before. -/
def dat8 (B : Set (SemLoc sig × HIx 5)) : Dat τ (Elt F) (HIx 5) ℕ UU ℕ cfg8 c where
  A w := V (Pipeline.arrRef spec8 w)
  after w t := match w with
    | ⟨0, _⟩ => iblk8 c V 0 t
    | ⟨1, _⟩ => iblk8 c V 1 t
    | ⟨2, _⟩ => iblk8 c V 2 t
    | ⟨3, _⟩ => iblk8 c V 3 t
    | ⟨4, _⟩ => out8 (iblk8 c V 0 t) (iblk8 c V 1 t) (iblk8 c V 2 t) (iblk8 c V 3 t)
  Φ _ := Φ8 c
  q _ := fullShare
  owed _ := 0
  recorded _ := B

variable (B : Set (SemLoc sig × HIx 5))

theorem A8_eq (w : Fin cfg8.W) : (dat8 c V B).A w = V (Pipeline.arrRef spec8 w) := by dsimp only [dat8]
theorem after8_0 (t : Fin cfg8.N) : (dat8 c V B).after 0 t = iblk8 c V 0 t := by dsimp only [dat8]
theorem after8_1 (t : Fin cfg8.N) : (dat8 c V B).after 1 t = iblk8 c V 1 t := by dsimp only [dat8]
theorem after8_2 (t : Fin cfg8.N) : (dat8 c V B).after 2 t = iblk8 c V 2 t := by dsimp only [dat8]
theorem after8_3 (t : Fin cfg8.N) : (dat8 c V B).after 3 t = iblk8 c V 3 t := by dsimp only [dat8]
theorem after8_4 (t : Fin cfg8.N) : (dat8 c V B).after 4 t = out8 (iblk8 c V 0 t) (iblk8 c V 1 t) (iblk8 c V 2 t) (iblk8 c V 3 t) := by dsimp only [dat8]

/-- Each input's current staging buffer holds its block at every point, fetched there or not. -/
theorem before8_0 (t : Fin cfg8.N) (d) : (dat8 c V B).before 0 t d = iblk8 c V 0 t :=
  ((dat8 c V B).before_in_eq_fetched 0 rfl (fun _ => rfl) (fun _ _ _ => rfl) (fun t => by rw [after8_0]; unfold Dat.blockOf iblk8; rw [A8_eq]; try rfl) t d).trans
    (by unfold Dat.fetched Dat.blockOf iblk8; rw [A8_eq]; try rfl)
theorem before8_1 (t : Fin cfg8.N) (d) : (dat8 c V B).before 1 t d = iblk8 c V 1 t :=
  ((dat8 c V B).before_in_eq_fetched 1 rfl (fun _ => rfl) (fun _ _ _ => rfl) (fun t => by rw [after8_1]; unfold Dat.blockOf iblk8; rw [A8_eq]; try rfl) t d).trans
    (by unfold Dat.fetched Dat.blockOf iblk8; rw [A8_eq]; try rfl)
theorem before8_2 (t : Fin cfg8.N) (d) : (dat8 c V B).before 2 t d = iblk8 c V 2 t :=
  ((dat8 c V B).before_in_eq_fetched 2 rfl (fun _ => rfl) (fun _ _ _ => rfl) (fun t => by rw [after8_2]; unfold Dat.blockOf iblk8; rw [A8_eq]; try rfl) t d).trans
    (by unfold Dat.fetched Dat.blockOf iblk8; rw [A8_eq]; try rfl)
theorem before8_3 (t : Fin cfg8.N) (d) : (dat8 c V B).before 3 t d = iblk8 c V 3 t :=
  ((dat8 c V B).before_in_eq_fetched 3 rfl (fun _ => rfl) (fun _ _ _ => rfl) (fun t => by rw [after8_3]; unfold Dat.blockOf iblk8; rw [A8_eq]; try rfl) t d).trans
    (by unfold Dat.fetched Dat.blockOf iblk8; rw [A8_eq]; try rfl)

/-- What the body is called with at point `t`, the windows one by one, -/
def bodyPre8 (t : Fin cfg8.N) : sProp 𝕄 :=
  iprop((dat8 c V B).Φ t.castSucc ∗ (dat8 c V B).owesAt ι₀ t.castSucc
    ∗ (∃ d, owns (c : Thread nD τ) (st8_0 t) fullShare ((dat8 c V B).before 0 t d))
    ∗ (∃ d, owns (c : Thread nD τ) (st8_1 t) fullShare ((dat8 c V B).before 1 t d))
    ∗ (∃ d, owns (c : Thread nD τ) (st8_2 t) fullShare ((dat8 c V B).before 2 t d))
    ∗ (∃ d, owns (c : Thread nD τ) (st8_3 t) fullShare ((dat8 c V B).before 3 t d))
    ∗ (∃ d, owns (c : Thread nD τ) (st8_4 t) fullShare ((dat8 c V B).before 4 t d)))

/-- and what it returns. -/
def bodyPost8 (t : Fin cfg8.N) : sProp 𝕄 :=
  iprop((dat8 c V B).Φ t.succ ∗ (dat8 c V B).owesAt ι₀ t.succ
    ∗ owns (c : Thread nD τ) (st8_0 t) fullShare ((dat8 c V B).after 0 t)
    ∗ owns (c : Thread nD τ) (st8_1 t) fullShare ((dat8 c V B).after 1 t)
    ∗ owns (c : Thread nD τ) (st8_2 t) fullShare ((dat8 c V B).after 2 t)
    ∗ owns (c : Thread nD τ) (st8_3 t) fullShare ((dat8 c V B).after 3 t)
    ∗ owns (c : Thread nD τ) (st8_4 t) fullShare ((dat8 c V B).after 4 t))

/-- The body at any point: the inputs' memrefs hold their blocks, so the body's triple applies; the scoped rest and the
    thread's debts pass through unread. -/
theorem sound_body8 (t : Fin cfg8.N) :
    bodyPre8 c V B t ⊢ wp frame (wpE (defs₀ (F := F)) Variants.none c none) Set.univ (bodyAt8 t) (fun _ => bodyPost8 c V B t) := by
  unfold bodyPre8 bodyPost8 bodyAt8
  simp only [before8_0, before8_1, before8_2, before8_3]
  rw [show (dat8 c V B).Φ t.succ = (dat8 c V B).Φ t.castSucc from rfl,
    show (dat8 c V B).owesAt ι₀ t.succ = (dat8 c V B).owesAt ι₀ t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ _ _ (iblk8 c V 0 t) (iblk8 c V 1 t) (iblk8 c V 2 t) (iblk8 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation8 : BodyObligation (dat8 (F := F) c V B) (defs₀ (F := F)) Variants.none ι₀ Set.univ := fun t => by
  rw [bigSep_W8, bigSep_W8]
  exact sound_body8 c V B t

end Pipe8

/-! ## Pipeline 4 (custom_call 9) -/

section Pipe9

variable (c : Dev nD) (V : (b : Ref sig .tc) → Buf (Elt F) ((c : Thread nD τ).loc b))

/-- Window `w`'s block at point `t`, read off its array as the region finds it. -/
def iblk9 (w : Fin cfg9.W) (t : Fin cfg9.N) : ((cfg9.win w).xblock (cfg9.grid.coords t)).Idx → Elt F (cfg9.win w).elt :=
  ((cfg9.win w).blk t).view.read (Elt F) (V (Pipeline.arrRef spec9 w))

/-- What the scoped buffers no window stages hold is not the body's concern: they ride through every point. -/
abbrev Φ9 : sProp 𝕄 := Pipeline.scopedRest (Ix := HIx 5) (Name := ℕ) (U := UU) (Lvl := ℕ) (Val := Elt F) spec9 c

/-- The proof data: the arrays as the region finds them; after the body at point `t` each input's buffer at its block,
    the output's at the body's result of the input blocks; the scoped rest untouched; nothing owed; full shares;
    the recorded waits within any bound `B` the thread's waits lay within before. -/
def dat9 (B : Set (SemLoc sig × HIx 5)) : Dat τ (Elt F) (HIx 5) ℕ UU ℕ cfg9 c where
  A w := V (Pipeline.arrRef spec9 w)
  after w t := match w with
    | ⟨0, _⟩ => iblk9 c V 0 t
    | ⟨1, _⟩ => iblk9 c V 1 t
    | ⟨2, _⟩ => iblk9 c V 2 t
    | ⟨3, _⟩ => iblk9 c V 3 t
    | ⟨4, _⟩ => out9 (iblk9 c V 0 t) (iblk9 c V 1 t) (iblk9 c V 2 t) (iblk9 c V 3 t)
  Φ _ := Φ9 c
  q _ := fullShare
  owed _ := 0
  recorded _ := B

variable (B : Set (SemLoc sig × HIx 5))

theorem A9_eq (w : Fin cfg9.W) : (dat9 c V B).A w = V (Pipeline.arrRef spec9 w) := by dsimp only [dat9]
theorem after9_0 (t : Fin cfg9.N) : (dat9 c V B).after 0 t = iblk9 c V 0 t := by dsimp only [dat9]
theorem after9_1 (t : Fin cfg9.N) : (dat9 c V B).after 1 t = iblk9 c V 1 t := by dsimp only [dat9]
theorem after9_2 (t : Fin cfg9.N) : (dat9 c V B).after 2 t = iblk9 c V 2 t := by dsimp only [dat9]
theorem after9_3 (t : Fin cfg9.N) : (dat9 c V B).after 3 t = iblk9 c V 3 t := by dsimp only [dat9]
theorem after9_4 (t : Fin cfg9.N) : (dat9 c V B).after 4 t = out9 (iblk9 c V 0 t) (iblk9 c V 1 t) (iblk9 c V 2 t) (iblk9 c V 3 t) := by dsimp only [dat9]

/-- Each input's current staging buffer holds its block at every point, fetched there or not. -/
theorem before9_0 (t : Fin cfg9.N) (d) : (dat9 c V B).before 0 t d = iblk9 c V 0 t :=
  ((dat9 c V B).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (t : Fin cfg9.N) (d) : (dat9 c V B).before 1 t d = iblk9 c V 1 t :=
  ((dat9 c V B).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)
theorem before9_2 (t : Fin cfg9.N) (d) : (dat9 c V B).before 2 t d = iblk9 c V 2 t :=
  ((dat9 c V B).before_in_eq_fetched 2 rfl (fun _ => rfl) (fun _ _ _ => rfl) (fun t => by rw [after9_2]; unfold Dat.blockOf iblk9; rw [A9_eq]; try rfl) t d).trans
    (by unfold Dat.fetched Dat.blockOf iblk9; rw [A9_eq]; try rfl)
theorem before9_3 (t : Fin cfg9.N) (d) : (dat9 c V B).before 3 t d = iblk9 c V 3 t :=
  ((dat9 c V B).before_in_eq_fetched 3 rfl (fun _ => rfl) (fun _ _ _ => rfl) (fun t => by rw [after9_3]; unfold Dat.blockOf iblk9; rw [A9_eq]; try rfl) t d).trans
    (by unfold Dat.fetched Dat.blockOf iblk9; rw [A9_eq]; try rfl)

/-- What the body is called with at point `t`, the windows one by one, -/
def bodyPre9 (t : Fin cfg9.N) : sProp 𝕄 :=
  iprop((dat9 c V B).Φ t.castSucc ∗ (dat9 c V B).owesAt ι₀ t.castSucc
    ∗ (∃ d, owns (c : Thread nD τ) (st9_0 t) fullShare ((dat9 c V B).before 0 t d))
    ∗ (∃ d, owns (c : Thread nD τ) (st9_1 t) fullShare ((dat9 c V B).before 1 t d))
    ∗ (∃ d, owns (c : Thread nD τ) (st9_2 t) fullShare ((dat9 c V B).before 2 t d))
    ∗ (∃ d, owns (c : Thread nD τ) (st9_3 t) fullShare ((dat9 c V B).before 3 t d))
    ∗ (∃ d, owns (c : Thread nD τ) (st9_4 t) fullShare ((dat9 c V B).before 4 t d)))

/-- and what it returns. -/
def bodyPost9 (t : Fin cfg9.N) : sProp 𝕄 :=
  iprop((dat9 c V B).Φ t.succ ∗ (dat9 c V B).owesAt ι₀ t.succ
    ∗ owns (c : Thread nD τ) (st9_0 t) fullShare ((dat9 c V B).after 0 t)
    ∗ owns (c : Thread nD τ) (st9_1 t) fullShare ((dat9 c V B).after 1 t)
    ∗ owns (c : Thread nD τ) (st9_2 t) fullShare ((dat9 c V B).after 2 t)
    ∗ owns (c : Thread nD τ) (st9_3 t) fullShare ((dat9 c V B).after 3 t)
    ∗ owns (c : Thread nD τ) (st9_4 t) fullShare ((dat9 c V B).after 4 t))

/-- The body at any point: the inputs' memrefs hold their blocks, so the body's triple applies; the scoped rest and the
    thread's debts pass through unread. -/
theorem sound_body9 (t : Fin cfg9.N) :
    bodyPre9 c V B t ⊢ wp frame (wpE (defs₀ (F := F)) Variants.none c none) Set.univ (bodyAt9 t) (fun _ => bodyPost9 c V B t) := by
  unfold bodyPre9 bodyPost9 bodyAt9
  simp only [before9_0, before9_1, before9_2, before9_3]
  rw [show (dat9 c V B).Φ t.succ = (dat9 c V B).Φ t.castSucc from rfl,
    show (dat9 c V B).owesAt ι₀ t.succ = (dat9 c V B).owesAt ι₀ t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ _ _ (iblk9 c V 0 t) (iblk9 c V 1 t) (iblk9 c V 2 t) (iblk9 c V 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation9 : BodyObligation (dat9 (F := F) c V B) (defs₀ (F := F)) Variants.none ι₀ Set.univ := fun t => by
  rw [bigSep_W9, bigSep_W9]
  exact sound_body9 c V B t

end Pipe9

end Cert.Kernel.KP

end
-- ==== Proof.KRegionB.lean ====
/-
  One TensorCore pipeline's region run from the TensorCore thread's state inside the SparseCore program's @main:
  the pipelines' proof data as a family, each region as the pipeline library's region record, and the region's
  weakest precondition under the extended body table.
-/
import proofs.«210879_g80607946211848_cont_9to1_m_1212_13_alg».proof.Proof.KConvDatB

set_option maxRecDepth 16384

noncomputable section

namespace Cert.Kernel.KP

open Cert.Kernel Cert.Kernel.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-- The prefetched tables' admissible contents: no pipeline has a table. -/
abbrev adm : (p : Fin 5) → (pcfgs (F := F) p).Adm := fun p => (cfgs p).toPCfg_adm

/-- The program's staging cells are pairwise distinct, at those tables. -/
theorem phinj : Function.Injective (cellOf (nD := nD) (τ := τ) (Pipeline.pin (pcfgs (F := F)) adm)) :=
  (launch5.toP (Val := Elt F)).cellOf_inj adm

section Family

variable (W : (c : Dev nD) → (b : Ref sig .tc) → Buf (Elt F) ((c : Thread nD τ).loc b)) (B : Dev nD → Set (SemLoc sig × HIx 5))

/-- The five pipelines' proof data over one valuation of the TensorCore's buffers (a region is run over the valuation
    it is entered at; of the other pipelines' data nothing is asked). -/
def pdats : (p : Fin 5) → (c : Dev nD) → Dat τ (Elt F) (HIx 5) ℕ UU ℕ (Pipeline.pin (pcfgs (F := F)) adm p) c
  | 0 => fun c => dat5 c (W c) (B c)
  | 1 => fun c => dat6 c (W c) (B c)
  | 2 => fun c => dat7 c (W c) (B c)
  | 3 => fun c => dat8 c (W c) (B c)
  | 4 => fun c => dat9 c (W c) (B c)

end Family

/-- A TensorCore buffer of core `c` held whole at contents `f`. -/
abbrev pt (c : Dev nD) (b : Ref sig .tc) (f : Buf (Elt F) ((c : Thread nD τ).loc b)) : sProp 𝕄 := ((c : Thread nD τ).loc b) ↦{fullShare} f

/-- Over no index there is nothing to hold. -/
theorem bigSep_Fin0 {M : Type} [URA M] (Φ : Fin 0 → sProp M) : bigSep Finset.univ Φ = (BI.emp : sProp M) :=
  bigSep_univ_eq_bigSepL [] (by decide) (by decide) Φ

/-! ## A valuation from five named contents -/

section Val

variable (d : Dev nD) (b0 b1 b2 b3 b4 : Ref sig .tc)
  (f0 : Buf (Elt F) ((d : Thread nD τ).loc b0)) (f1 : Buf (Elt F) ((d : Thread nD τ).loc b1)) (f2 : Buf (Elt F) ((d : Thread nD τ).loc b2))
  (f3 : Buf (Elt F) ((d : Thread nD τ).loc b3)) (f4 : Buf (Elt F) ((d : Thread nD τ).loc b4))

/-- The valuation of device `d`'s TensorCore buffers that holds `f0 … f4` at `b0 … b4` (contents not chosen elsewhere). -/
def valOf : (b : Ref sig .tc) → Buf (Elt F) ((d : Thread nD τ).loc b) := fun b =>
  if h0 : b = b0 then h0 ▸ f0 else if h1 : b = b1 then h1 ▸ f1 else if h2 : b = b2 then h2 ▸ f2
  else if h3 : b = b3 then h3 ▸ f3 else if h4 : b = b4 then h4 ▸ f4 else Classical.arbitrary _

theorem valOf_0 : valOf d b0 b1 b2 b3 b4 f0 f1 f2 f3 f4 b0 = f0 := by unfold valOf; rw [dif_pos rfl]
theorem valOf_1 (h10 : b1 ≠ b0) : valOf d b0 b1 b2 b3 b4 f0 f1 f2 f3 f4 b1 = f1 := by unfold valOf; rw [dif_neg h10, dif_pos rfl]
theorem valOf_2 (h20 : b2 ≠ b0) (h21 : b2 ≠ b1) : valOf d b0 b1 b2 b3 b4 f0 f1 f2 f3 f4 b2 = f2 := by
  unfold valOf; rw [dif_neg h20, dif_neg h21, dif_pos rfl]
theorem valOf_3 (h30 : b3 ≠ b0) (h31 : b3 ≠ b1) (h32 : b3 ≠ b2) : valOf d b0 b1 b2 b3 b4 f0 f1 f2 f3 f4 b3 = f3 := by
  unfold valOf; rw [dif_neg h30, dif_neg h31, dif_neg h32, dif_pos rfl]
theorem valOf_4 (h40 : b4 ≠ b0) (h41 : b4 ≠ b1) (h42 : b4 ≠ b2) (h43 : b4 ≠ b3) : valOf d b0 b1 b2 b3 b4 f0 f1 f2 f3 f4 b4 = f4 := by
  unfold valOf; rw [dif_neg h40, dif_neg h41, dif_neg h42, dif_neg h43, dif_pos rfl]

/-- A valuation of device `d`'s buffers as one of every device's (contents not chosen on another device). -/
def liftVal (v : (b : Ref sig .tc) → Buf (Elt F) ((d : Thread nD τ).loc b)) : (c : Dev nD) → (b : Ref sig .tc) → Buf (Elt F) ((c : Thread nD τ).loc b) :=
  fun c b => if h : c = d then h ▸ v b else Classical.arbitrary _

theorem liftVal_self (v : (b : Ref sig .tc) → Buf (Elt F) ((d : Thread nD τ).loc b)) : liftVal d v d = v := by
  funext b; unfold liftVal; rw [dif_pos rfl]

end Val

/-! ## The TensorCore's recorded waits after the last SparseCore call -/

/-- The (cell, index) pairs of device `d`'s TensorCore at or below the last call's band. -/
def wb (d : Dev nD) : Set (SemLoc sig × HIx 5) := {p | (K (F := F)).lev ((d.tc : Thread nD τ), p.1) p.2 ≤ 8 * 5}

/-! ## Pipeline 0 (custom_call 5): windows over main_v0, main_v9, main_v6, main_v7 and (written back) main_v18 -/

section Region5

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays5_eq (c : Dev nD) (Fa : (w : Fin cfg5.W) → Buf (Elt F) ((cfg5.win w).arr.view.loc (c.tc : Thread nD τ))) :
    ((dat5 c (W c) (B c)).arrays Fa : sProp 𝕄) = iprop(pt c main_v0 (Fa 0) ∗ pt c main_v9 (Fa 1) ∗ pt c main_v6 (Fa 2) ∗ pt c main_v7 (Fa 3) ∗ pt c main_v18 (Fa 4)) := by
  unfold Dat.arrays
  rw [show (bigSep Finset.univ fun w : Fin cfg5.W => ((cfg5.win w).arr.view.loc (c.tc : Thread nD τ) ↦[(cfg5.win w).arr.view.set]{(dat5 c (W c) (B c)).share w} Fa w : sProp 𝕄))
      = bigSep Finset.univ fun w : Fin 5 => (((c.tc : Thread nD τ).loc (Pipeline.arrRef spec5 w)) ↦{fullShare} Fa w : sProp 𝕄) from
    bigSep_congr fun w _ => by
      have hw : ((cfg5.win w).arr).IsWhole := launch5.arr_whole w
      rw [hw.set_eq_univ, (dat5 c (W c) (B c)).share_full (fun _ => rfl) w]]
  rw [bigSep_W5]

/-- No table is prefetched. -/
theorem prefHeld5 (c : Dev nD) (q) (pf) : (Pipeline.prefHeld (Ix := HIx 5) (Name := ℕ) (U := UU) (Lvl := ℕ) (Val := Elt F) (pcfgs (F := F) 0).pre c q pf : sProp 𝕄) = BI.emp :=
  bigSep_Fin0 _

set_option backward.isDefEq.respectTransparency.types false in
/-- The region of pipeline 0, entered with its five arrays whole at the valuation `W` and the thread owing nothing, its
    recorded waits within `B`; left with the written-back array at what the pipeline's write-backs make of it, the
    others as they were, the thread owing nothing, its recorded waits within `B` and the pipeline's own. -/
def reg5 : Pipeline.RegionSeg (pcfgs (F := F)) adm (pdats W B) ι₀ defs₀ 𝒱₀ (K (F := F)).L lv 0 where
  win := launch5.win.to₀
  block_pos := launch5.block_pos
  stage_whole := launch5.stage_whole
  K := PEmpty
  osem k := k.elim
  ho := Pipeline.OwnSemFacts.none _
  hbody c := (body_obligation5 c (W c) (B c)).loose
  hwaits := Pipeline.hwaits_of_owed_zero _ _ _ _ _ _ 0 fun _ _ => rfl
  pre c := iprop(pt c main_v0 (W c main_v0) ∗ pt c main_v9 (W c main_v9) ∗ pt c main_v6 (W c main_v6) ∗ pt c main_v7 (W c main_v7) ∗ pt c main_v18 (W c main_v18)
    ∗ Pipeline.owesWithin c (0 : CellTallies nD τ sig (HIx 5)) (B c))
  post c := iprop(pt c main_v0 (W c main_v0) ∗ pt c main_v9 (W c main_v9) ∗ pt c main_v6 (W c main_v6) ∗ pt c main_v7 (W c main_v7)
    ∗ pt c main_v18 ((dat5 c (W c) (B c)).arrAt 4 cfg5.N)
    ∗ Pipeline.owesWithin c (0 : CellTallies nD τ sig (HIx 5)) (B c ∪ cfg5.waitPairs ι₀))
  X _ := iprop(emp)
  Y _ := iprop(emp)
  Z _ := iprop(emp)
  hentry c := by
    show iprop(_ ∗ _ ∗ _) ⊢ |={Set.univ}=> iprop((dat5 c (W c) (B c)).arrays ((dat5 c (W c) (B c)).arrAt · 0) ∗ _ ∗ (dat5 c (W c) (B c)).owesAt ι₀ 0 ∗ iprop(emp) ∗ iprop(emp))
    rw [arrays5_eq, prefHeld5]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 0 c).Φ 0 = Φ5 c from rfl]
    iintro ⟨-, -, Hr⟩; iexact Hr
  hout c := by
    rw [Pipeline.ownSems0_none, show (pdats W B 0 c).Φ (Fin.last (Pipeline.pin (pcfgs (F := F)) adm 0).N) = Φ5 c from rfl]
    iintro H
    isplitr; · iempintro
    isplitr; · iempintro
    iexact H
  hexit c := by
    show iprop((dat5 c (W c) (B c)).arrays ((dat5 c (W c) (B c)).arrAt · cfg5.N) ∗ (dat5 c (W c) (B c)).owesAt ι₀ (Fin.last cfg5.N) ∗ _ ∗ _) ⊢ _
    rw [arrays5_eq, (dat5 c (W c) (B c)).arrAt_in 0 rfl _, (dat5 c (W c) (B c)).arrAt_in 1 rfl _, (dat5 c (W c) (B c)).arrAt_in 2 rfl _, (dat5 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg5_pre (c : Dev nD) : (reg5 W B lv).pre c
    = iprop(pt c main_v0 (W c main_v0) ∗ pt c main_v9 (W c main_v9) ∗ pt c main_v6 (W c main_v6) ∗ pt c main_v7 (W c main_v7) ∗ pt c main_v18 (W c main_v18)
      ∗ Pipeline.owesWithin c (0 : CellTallies nD τ sig (HIx 5)) (B c)) := rfl

theorem reg5_post (c : Dev nD) : (reg5 W B lv).post c
    = iprop(pt c main_v0 (W c main_v0) ∗ pt c main_v9 (W c main_v9) ∗ pt c main_v6 (W c main_v6) ∗ pt c main_v7 (W c main_v7)
      ∗ pt c main_v18 ((dat5 c (W c) (B c)).arrAt 4 cfg5.N)
      ∗ Pipeline.owesWithin c (0 : CellTallies nD τ sig (HIx 5)) (B c ∪ cfg5.waitPairs ι₀)) := rfl

end Region5

/-! ## Pipeline 1 (custom_call 6): windows over main_v0, main_v11, main_v6, main_v7 and (written back) main_v19 -/

section Region6

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays6_eq (c : Dev nD) (Fa : (w : Fin cfg6.W) → Buf (Elt F) ((cfg6.win w).arr.view.loc (c.tc : Thread nD τ))) :
    ((dat6 c (W c) (B c)).arrays Fa : sProp 𝕄) = iprop(pt c main_v0 (Fa 0) ∗ pt c main_v11 (Fa 1) ∗ pt c main_v6 (Fa 2) ∗ pt c main_v7 (Fa 3) ∗ pt c main_v19 (Fa 4)) := by
  unfold Dat.arrays
  rw [show (bigSep Finset.univ fun w : Fin cfg6.W => ((cfg6.win w).arr.view.loc (c.tc : Thread nD τ) ↦[(cfg6.win w).arr.view.set]{(dat6 c (W c) (B c)).share w} Fa w : sProp 𝕄))
      = bigSep Finset.univ fun w : Fin 5 => (((c.tc : Thread nD τ).loc (Pipeline.arrRef spec6 w)) ↦{fullShare} Fa w : sProp 𝕄) from
    bigSep_congr fun w _ => by
      have hw : ((cfg6.win w).arr).IsWhole := launch6.arr_whole w
      rw [hw.set_eq_univ, (dat6 c (W c) (B c)).share_full (fun _ => rfl) w]]
  rw [bigSep_W6]

/-- No table is prefetched. -/
theorem prefHeld6 (c : Dev nD) (q) (pf) : (Pipeline.prefHeld (Ix := HIx 5) (Name := ℕ) (U := UU) (Lvl := ℕ) (Val := Elt F) (pcfgs (F := F) 1).pre c q pf : sProp 𝕄) = BI.emp :=
  bigSep_Fin0 _

set_option backward.isDefEq.respectTransparency.types false in
/-- The region of pipeline 1, entered with its five arrays whole at the valuation `W` and the thread owing nothing, its
    recorded waits within `B`; left with the written-back array at what the pipeline's write-backs make of it, the
    others as they were, the thread owing nothing, its recorded waits within `B` and the pipeline's own. -/
def reg6 : Pipeline.RegionSeg (pcfgs (F := F)) adm (pdats W B) ι₀ defs₀ 𝒱₀ (K (F := F)).L lv 1 where
  win := launch6.win.to₀
  block_pos := launch6.block_pos
  stage_whole := launch6.stage_whole
  K := PEmpty
  osem k := k.elim
  ho := Pipeline.OwnSemFacts.none _
  hbody c := (body_obligation6 c (W c) (B c)).loose
  hwaits := Pipeline.hwaits_of_owed_zero _ _ _ _ _ _ 1 fun _ _ => rfl
  pre c := iprop(pt c main_v0 (W c main_v0) ∗ pt c main_v11 (W c main_v11) ∗ pt c main_v6 (W c main_v6) ∗ pt c main_v7 (W c main_v7) ∗ pt c main_v19 (W c main_v19)
    ∗ Pipeline.owesWithin c (0 : CellTallies nD τ sig (HIx 5)) (B c))
  post c := iprop(pt c main_v0 (W c main_v0) ∗ pt c main_v11 (W c main_v11) ∗ pt c main_v6 (W c main_v6) ∗ pt c main_v7 (W c main_v7)
    ∗ pt c main_v19 ((dat6 c (W c) (B c)).arrAt 4 cfg6.N)
    ∗ Pipeline.owesWithin c (0 : CellTallies nD τ sig (HIx 5)) (B c ∪ cfg6.waitPairs ι₀))
  X _ := iprop(emp)
  Y _ := iprop(emp)
  Z _ := iprop(emp)
  hentry c := by
    show iprop(_ ∗ _ ∗ _) ⊢ |={Set.univ}=> iprop((dat6 c (W c) (B c)).arrays ((dat6 c (W c) (B c)).arrAt · 0) ∗ _ ∗ (dat6 c (W c) (B c)).owesAt ι₀ 0 ∗ iprop(emp) ∗ iprop(emp))
    rw [arrays6_eq, prefHeld6]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 1 c).Φ 0 = Φ6 c from rfl]
    iintro ⟨-, -, Hr⟩; iexact Hr
  hout c := by
    rw [Pipeline.ownSems0_none, show (pdats W B 1 c).Φ (Fin.last (Pipeline.pin (pcfgs (F := F)) adm 1).N) = Φ6 c from rfl]
    iintro H
    isplitr; · iempintro
    isplitr; · iempintro
    iexact H
  hexit c := by
    show iprop((dat6 c (W c) (B c)).arrays ((dat6 c (W c) (B c)).arrAt · cfg6.N) ∗ (dat6 c (W c) (B c)).owesAt ι₀ (Fin.last cfg6.N) ∗ _ ∗ _) ⊢ _
    rw [arrays6_eq, (dat6 c (W c) (B c)).arrAt_in 0 rfl _, (dat6 c (W c) (B c)).arrAt_in 1 rfl _, (dat6 c (W c) (B c)).arrAt_in 2 rfl _, (dat6 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg6_pre (c : Dev nD) : (reg6 W B lv).pre c
    = iprop(pt c main_v0 (W c main_v0) ∗ pt c main_v11 (W c main_v11) ∗ pt c main_v6 (W c main_v6) ∗ pt c main_v7 (W c main_v7) ∗ pt c main_v19 (W c main_v19)
      ∗ Pipeline.owesWithin c (0 : CellTallies nD τ sig (HIx 5)) (B c)) := rfl

theorem reg6_post (c : Dev nD) : (reg6 W B lv).post c
    = iprop(pt c main_v0 (W c main_v0) ∗ pt c main_v11 (W c main_v11) ∗ pt c main_v6 (W c main_v6) ∗ pt c main_v7 (W c main_v7)
      ∗ pt c main_v19 ((dat6 c (W c) (B c)).arrAt 4 cfg6.N)
      ∗ Pipeline.owesWithin c (0 : CellTallies nD τ sig (HIx 5)) (B c ∪ cfg6.waitPairs ι₀)) := rfl

end Region6

/-! ## Pipeline 2 (custom_call 7): windows over main_v0, main_v13, main_v6, main_v7 and (written back) main_v20 -/

section Region7

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays7_eq (c : Dev nD) (Fa : (w : Fin cfg7.W) → Buf (Elt F) ((cfg7.win w).arr.view.loc (c.tc : Thread nD τ))) :
    ((dat7 c (W c) (B c)).arrays Fa : sProp 𝕄) = iprop(pt c main_v0 (Fa 0) ∗ pt c main_v13 (Fa 1) ∗ pt c main_v6 (Fa 2) ∗ pt c main_v7 (Fa 3) ∗ pt c main_v20 (Fa 4)) := by
  unfold Dat.arrays
  rw [show (bigSep Finset.univ fun w : Fin cfg7.W => ((cfg7.win w).arr.view.loc (c.tc : Thread nD τ) ↦[(cfg7.win w).arr.view.set]{(dat7 c (W c) (B c)).share w} Fa w : sProp 𝕄))
      = bigSep Finset.univ fun w : Fin 5 => (((c.tc : Thread nD τ).loc (Pipeline.arrRef spec7 w)) ↦{fullShare} Fa w : sProp 𝕄) from
    bigSep_congr fun w _ => by
      have hw : ((cfg7.win w).arr).IsWhole := launch7.arr_whole w
      rw [hw.set_eq_univ, (dat7 c (W c) (B c)).share_full (fun _ => rfl) w]]
  rw [bigSep_W7]

/-- No table is prefetched. -/
theorem prefHeld7 (c : Dev nD) (q) (pf) : (Pipeline.prefHeld (Ix := HIx 5) (Name := ℕ) (U := UU) (Lvl := ℕ) (Val := Elt F) (pcfgs (F := F) 2).pre c q pf : sProp 𝕄) = BI.emp :=
  bigSep_Fin0 _

set_option backward.isDefEq.respectTransparency.types false in
/-- The region of pipeline 2, entered with its five arrays whole at the valuation `W` and the thread owing nothing, its
    recorded waits within `B`; left with the written-back array at what the pipeline's write-backs make of it, the
    others as they were, the thread owing nothing, its recorded waits within `B` and the pipeline's own. -/
def reg7 : Pipeline.RegionSeg (pcfgs (F := F)) adm (pdats W B) ι₀ defs₀ 𝒱₀ (K (F := F)).L lv 2 where
  win := launch7.win.to₀
  block_pos := launch7.block_pos
  stage_whole := launch7.stage_whole
  K := PEmpty
  osem k := k.elim
  ho := Pipeline.OwnSemFacts.none _
  hbody c := (body_obligation7 c (W c) (B c)).loose
  hwaits := Pipeline.hwaits_of_owed_zero _ _ _ _ _ _ 2 fun _ _ => rfl
  pre c := iprop(pt c main_v0 (W c main_v0) ∗ pt c main_v13 (W c main_v13) ∗ pt c main_v6 (W c main_v6) ∗ pt c main_v7 (W c main_v7) ∗ pt c main_v20 (W c main_v20)
    ∗ Pipeline.owesWithin c (0 : CellTallies nD τ sig (HIx 5)) (B c))
  post c := iprop(pt c main_v0 (W c main_v0) ∗ pt c main_v13 (W c main_v13) ∗ pt c main_v6 (W c main_v6) ∗ pt c main_v7 (W c main_v7)
    ∗ pt c main_v20 ((dat7 c (W c) (B c)).arrAt 4 cfg7.N)
    ∗ Pipeline.owesWithin c (0 : CellTallies nD τ sig (HIx 5)) (B c ∪ cfg7.waitPairs ι₀))
  X _ := iprop(emp)
  Y _ := iprop(emp)
  Z _ := iprop(emp)
  hentry c := by
    show iprop(_ ∗ _ ∗ _) ⊢ |={Set.univ}=> iprop((dat7 c (W c) (B c)).arrays ((dat7 c (W c) (B c)).arrAt · 0) ∗ _ ∗ (dat7 c (W c) (B c)).owesAt ι₀ 0 ∗ iprop(emp) ∗ iprop(emp))
    rw [arrays7_eq, prefHeld7]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 2 c).Φ 0 = Φ7 c from rfl]
    iintro ⟨-, -, Hr⟩; iexact Hr
  hout c := by
    rw [Pipeline.ownSems0_none, show (pdats W B 2 c).Φ (Fin.last (Pipeline.pin (pcfgs (F := F)) adm 2).N) = Φ7 c from rfl]
    iintro H
    isplitr; · iempintro
    isplitr; · iempintro
    iexact H
  hexit c := by
    show iprop((dat7 c (W c) (B c)).arrays ((dat7 c (W c) (B c)).arrAt · cfg7.N) ∗ (dat7 c (W c) (B c)).owesAt ι₀ (Fin.last cfg7.N) ∗ _ ∗ _) ⊢ _
    rw [arrays7_eq, (dat7 c (W c) (B c)).arrAt_in 0 rfl _, (dat7 c (W c) (B c)).arrAt_in 1 rfl _, (dat7 c (W c) (B c)).arrAt_in 2 rfl _, (dat7 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg7_pre (c : Dev nD) : (reg7 W B lv).pre c
    = iprop(pt c main_v0 (W c main_v0) ∗ pt c main_v13 (W c main_v13) ∗ pt c main_v6 (W c main_v6) ∗ pt c main_v7 (W c main_v7) ∗ pt c main_v20 (W c main_v20)
      ∗ Pipeline.owesWithin c (0 : CellTallies nD τ sig (HIx 5)) (B c)) := rfl

theorem reg7_post (c : Dev nD) : (reg7 W B lv).post c
    = iprop(pt c main_v0 (W c main_v0) ∗ pt c main_v13 (W c main_v13) ∗ pt c main_v6 (W c main_v6) ∗ pt c main_v7 (W c main_v7)
      ∗ pt c main_v20 ((dat7 c (W c) (B c)).arrAt 4 cfg7.N)
      ∗ Pipeline.owesWithin c (0 : CellTallies nD τ sig (HIx 5)) (B c ∪ cfg7.waitPairs ι₀)) := rfl

end Region7

/-! ## Pipeline 3 (custom_call 8): windows over main_v0, main_v15, main_v6, main_v7 and (written back) main_v21 -/

section Region8

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays8_eq (c : Dev nD) (Fa : (w : Fin cfg8.W) → Buf (Elt F) ((cfg8.win w).arr.view.loc (c.tc : Thread nD τ))) :
    ((dat8 c (W c) (B c)).arrays Fa : sProp 𝕄) = iprop(pt c main_v0 (Fa 0) ∗ pt c main_v15 (Fa 1) ∗ pt c main_v6 (Fa 2) ∗ pt c main_v7 (Fa 3) ∗ pt c main_v21 (Fa 4)) := by
  unfold Dat.arrays
  rw [show (bigSep Finset.univ fun w : Fin cfg8.W => ((cfg8.win w).arr.view.loc (c.tc : Thread nD τ) ↦[(cfg8.win w).arr.view.set]{(dat8 c (W c) (B c)).share w} Fa w : sProp 𝕄))
      = bigSep Finset.univ fun w : Fin 5 => (((c.tc : Thread nD τ).loc (Pipeline.arrRef spec8 w)) ↦{fullShare} Fa w : sProp 𝕄) from
    bigSep_congr fun w _ => by
      have hw : ((cfg8.win w).arr).IsWhole := launch8.arr_whole w
      rw [hw.set_eq_univ, (dat8 c (W c) (B c)).share_full (fun _ => rfl) w]]
  rw [bigSep_W8]

/-- No table is prefetched. -/
theorem prefHeld8 (c : Dev nD) (q) (pf) : (Pipeline.prefHeld (Ix := HIx 5) (Name := ℕ) (U := UU) (Lvl := ℕ) (Val := Elt F) (pcfgs (F := F) 3).pre c q pf : sProp 𝕄) = BI.emp :=
  bigSep_Fin0 _

set_option backward.isDefEq.respectTransparency.types false in
/-- The region of pipeline 3, entered with its five arrays whole at the valuation `W` and the thread owing nothing, its
    recorded waits within `B`; left with the written-back array at what the pipeline's write-backs make of it, the
    others as they were, the thread owing nothing, its recorded waits within `B` and the pipeline's own. -/
def reg8 : Pipeline.RegionSeg (pcfgs (F := F)) adm (pdats W B) ι₀ defs₀ 𝒱₀ (K (F := F)).L lv 3 where
  win := launch8.win.to₀
  block_pos := launch8.block_pos
  stage_whole := launch8.stage_whole
  K := PEmpty
  osem k := k.elim
  ho := Pipeline.OwnSemFacts.none _
  hbody c := (body_obligation8 c (W c) (B c)).loose
  hwaits := Pipeline.hwaits_of_owed_zero _ _ _ _ _ _ 3 fun _ _ => rfl
  pre c := iprop(pt c main_v0 (W c main_v0) ∗ pt c main_v15 (W c main_v15) ∗ pt c main_v6 (W c main_v6) ∗ pt c main_v7 (W c main_v7) ∗ pt c main_v21 (W c main_v21)
    ∗ Pipeline.owesWithin c (0 : CellTallies nD τ sig (HIx 5)) (B c))
  post c := iprop(pt c main_v0 (W c main_v0) ∗ pt c main_v15 (W c main_v15) ∗ pt c main_v6 (W c main_v6) ∗ pt c main_v7 (W c main_v7)
    ∗ pt c main_v21 ((dat8 c (W c) (B c)).arrAt 4 cfg8.N)
    ∗ Pipeline.owesWithin c (0 : CellTallies nD τ sig (HIx 5)) (B c ∪ cfg8.waitPairs ι₀))
  X _ := iprop(emp)
  Y _ := iprop(emp)
  Z _ := iprop(emp)
  hentry c := by
    show iprop(_ ∗ _ ∗ _) ⊢ |={Set.univ}=> iprop((dat8 c (W c) (B c)).arrays ((dat8 c (W c) (B c)).arrAt · 0) ∗ _ ∗ (dat8 c (W c) (B c)).owesAt ι₀ 0 ∗ iprop(emp) ∗ iprop(emp))
    rw [arrays8_eq, prefHeld8]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 3 c).Φ 0 = Φ8 c from rfl]
    iintro ⟨-, -, Hr⟩; iexact Hr
  hout c := by
    rw [Pipeline.ownSems0_none, show (pdats W B 3 c).Φ (Fin.last (Pipeline.pin (pcfgs (F := F)) adm 3).N) = Φ8 c from rfl]
    iintro H
    isplitr; · iempintro
    isplitr; · iempintro
    iexact H
  hexit c := by
    show iprop((dat8 c (W c) (B c)).arrays ((dat8 c (W c) (B c)).arrAt · cfg8.N) ∗ (dat8 c (W c) (B c)).owesAt ι₀ (Fin.last cfg8.N) ∗ _ ∗ _) ⊢ _
    rw [arrays8_eq, (dat8 c (W c) (B c)).arrAt_in 0 rfl _, (dat8 c (W c) (B c)).arrAt_in 1 rfl _, (dat8 c (W c) (B c)).arrAt_in 2 rfl _, (dat8 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg8_pre (c : Dev nD) : (reg8 W B lv).pre c
    = iprop(pt c main_v0 (W c main_v0) ∗ pt c main_v15 (W c main_v15) ∗ pt c main_v6 (W c main_v6) ∗ pt c main_v7 (W c main_v7) ∗ pt c main_v21 (W c main_v21)
      ∗ Pipeline.owesWithin c (0 : CellTallies nD τ sig (HIx 5)) (B c)) := rfl

theorem reg8_post (c : Dev nD) : (reg8 W B lv).post c
    = iprop(pt c main_v0 (W c main_v0) ∗ pt c main_v15 (W c main_v15) ∗ pt c main_v6 (W c main_v6) ∗ pt c main_v7 (W c main_v7)
      ∗ pt c main_v21 ((dat8 c (W c) (B c)).arrAt 4 cfg8.N)
      ∗ Pipeline.owesWithin c (0 : CellTallies nD τ sig (HIx 5)) (B c ∪ cfg8.waitPairs ι₀)) := rfl

end Region8

/-! ## Pipeline 4 (custom_call 9): windows over main_v0, main_v17, main_v6, main_v7 and (written back) main_v22 -/

section Region9

variable (W : (c : Dev nD) → (b : Ref sig .tc) → Buf (Elt F) ((c : Thread nD τ).loc b)) (B : Dev nD → Set (SemLoc sig × HIx 5))
  (lv : GSem nD τ sig → HIx 5 → ℕ)

/-- The pipeline's arrays, whole at the full share, one by one. -/
theorem arrays9_eq (c : Dev nD) (Fa : (w : Fin cfg9.W) → Buf (Elt F) ((cfg9.win w).arr.view.loc (c.tc : Thread nD τ))) :
    ((dat9 c (W c) (B c)).arrays Fa : sProp 𝕄) = iprop(pt c main_v0 (Fa 0) ∗ pt c main_v17 (Fa 1) ∗ pt c main_v6 (Fa 2) ∗ pt c main_v7 (Fa 3) ∗ pt c main_v22 (Fa 4)) := by
  unfold Dat.arrays
  rw [show (bigSep Finset.univ fun w : Fin cfg9.W => ((cfg9.win w).arr.view.loc (c.tc : Thread nD τ) ↦[(cfg9.win w).arr.view.set]{(dat9 c (W c) (B c)).share w} Fa w : sProp 𝕄))
      = bigSep Finset.univ fun w : Fin 5 => (((c.tc : Thread nD τ).loc (Pipeline.arrRef spec9 w)) ↦{fullShare} Fa w : sProp 𝕄) from
    bigSep_congr fun w _ => by
      have hw : ((cfg9.win w).arr).IsWhole := launch9.arr_whole w
      rw [hw.set_eq_univ, (dat9 c (W c) (B c)).share_full (fun _ => rfl) w]]
  rw [bigSep_W9]

/-- No table is prefetched. -/
theorem prefHeld9 (c : Dev nD) (q) (pf) : (Pipeline.prefHeld (Ix := HIx 5) (Name := ℕ) (U := UU) (Lvl := ℕ) (Val := Elt F) (pcfgs (F := F) 4).pre c q pf : sProp 𝕄) = BI.emp :=
  bigSep_Fin0 _

set_option backward.isDefEq.respectTransparency.types false in
/-- The region of pipeline 4, entered with its five arrays whole at the valuation `W` and the thread owing nothing, its
    recorded waits within `B`; left with the written-back array at what the pipeline's write-backs make of it, the
    others as they were, the thread owing nothing, its recorded waits within `B` and the pipeline's own. -/
def reg9 : Pipeline.RegionSeg (pcfgs (F := F)) adm (pdats W B) ι₀ defs₀ 𝒱₀ (K (F := F)).L lv 4 where
  win := launch9.win.to₀
  block_pos := launch9.block_pos
  stage_whole := launch9.stage_whole
  K := PEmpty
  osem k := k.elim
  ho := Pipeline.OwnSemFacts.none _
  hbody c := (body_obligation9 c (W c) (B c)).loose
  hwaits := Pipeline.hwaits_of_owed_zero _ _ _ _ _ _ 4 fun _ _ => rfl
  pre c := iprop(pt c main_v0 (W c main_v0) ∗ pt c main_v17 (W c main_v17) ∗ pt c main_v6 (W c main_v6) ∗ pt c main_v7 (W c main_v7) ∗ pt c main_v22 (W c main_v22)
    ∗ Pipeline.owesWithin c (0 : CellTallies nD τ sig (HIx 5)) (B c))
  post c := iprop(pt c main_v0 (W c main_v0) ∗ pt c main_v17 (W c main_v17) ∗ pt c main_v6 (W c main_v6) ∗ pt c main_v7 (W c main_v7)
    ∗ pt c main_v22 ((dat9 c (W c) (B c)).arrAt 4 cfg9.N)
    ∗ Pipeline.owesWithin c (0 : CellTallies nD τ sig (HIx 5)) (B c ∪ cfg9.waitPairs ι₀))
  X _ := iprop(emp)
  Y _ := iprop(emp)
  Z _ := iprop(emp)
  hentry c := by
    show iprop(_ ∗ _ ∗ _) ⊢ |={Set.univ}=> iprop((dat9 c (W c) (B c)).arrays ((dat9 c (W c) (B c)).arrAt · 0) ∗ _ ∗ (dat9 c (W c) (B c)).owesAt ι₀ 0 ∗ iprop(emp) ∗ iprop(emp))
    rw [arrays9_eq, prefHeld9]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · iapply (Pipeline.owesWithin_mono c _ (Set.subset_union_left)); iexact HO
    isplitr <;> iempintro
  hin c := by
    rw [show (pdats W B 4 c).Φ 0 = Φ9 c from rfl]
    iintro ⟨-, -, Hr⟩; iexact Hr
  hout c := by
    rw [Pipeline.ownSems0_none, show (pdats W B 4 c).Φ (Fin.last (Pipeline.pin (pcfgs (F := F)) adm 4).N) = Φ9 c from rfl]
    iintro H
    isplitr; · iempintro
    isplitr; · iempintro
    iexact H
  hexit c := by
    show iprop((dat9 c (W c) (B c)).arrays ((dat9 c (W c) (B c)).arrAt · cfg9.N) ∗ (dat9 c (W c) (B c)).owesAt ι₀ (Fin.last cfg9.N) ∗ _ ∗ _) ⊢ _
    rw [arrays9_eq, (dat9 c (W c) (B c)).arrAt_in 0 rfl _, (dat9 c (W c) (B c)).arrAt_in 1 rfl _, (dat9 c (W c) (B c)).arrAt_in 2 rfl _, (dat9 c (W c) (B c)).arrAt_in 3 rfl _]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

theorem reg9_pre (c : Dev nD) : (reg9 W B lv).pre c
    = iprop(pt c main_v0 (W c main_v0) ∗ pt c main_v17 (W c main_v17) ∗ pt c main_v6 (W c main_v6) ∗ pt c main_v7 (W c main_v7) ∗ pt c main_v22 (W c main_v22)
      ∗ Pipeline.owesWithin c (0 : CellTallies nD τ sig (HIx 5)) (B c)) := rfl

theorem reg9_post (c : Dev nD) : (reg9 W B lv).post c
    = iprop(pt c main_v0 (W c main_v0) ∗ pt c main_v17 (W c main_v17) ∗ pt c main_v6 (W c main_v6) ∗ pt c main_v7 (W c main_v7)
      ∗ pt c main_v22 ((dat9 c (W c) (B c)).arrAt 4 cfg9.N)
      ∗ Pipeline.owesWithin c (0 : CellTallies nD τ sig (HIx 5)) (B c ∪ cfg9.waitPairs ι₀)) := rfl

end Region9

end Cert.Kernel.KP

end
-- ==== Proof.KHregB.lean ====
/-
  The five TensorCore regions as the SparseCore program's @main meets them after its last SparseCore call: each region's
  weakest precondition under the extended body table, from the TensorCore's handshake state and the pipeline's five
  arrays at named contents to the same with the written-back array at the pipeline's result.
-/
import proofs.«210879_g80607946211848_cont_9to1_m_1212_13_alg».proof.Proof.KRegionB

set_option maxRecDepth 16384

noncomputable section

namespace Cert.Kernel.KP

open Cert.Kernel Cert.Kernel.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 5) (Elt F) ℕ UU ℕ

/-! ## Region 0, from the TensorCore's state after the last SparseCore call -/

section Hreg5

/-- The valuation that holds pipeline 0's five arrays at the named contents. -/
abbrev val5 (d : Dev nD) (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18)) :
    (b : Ref sig .tc) → Buf (Elt F) ((d : Thread nD τ).loc b) :=
  valOf d main_v0 main_v9 main_v6 main_v7 main_v18 X0 Gq Wt Bs A

/-- What pipeline 0 leaves in its written-back array `main_v18`, from the contents of its five arrays at entry. -/
def Conv0 {d : Dev nD} (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18)) :
    Buf (Elt F) ((T d : Thread nD τ).loc main_v18) :=
  (dat5 d (val5 d X0 Gq Wt Bs A) (wb (F := F) d)).arrAt 4 cfg5.N

set_option backward.isDefEq.respectTransparency.types false in
set_option maxHeartbeats 800000 in
/-- Pipeline 0's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv0` of them. -/
theorem hreg0 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v9))
    (Wt : Buf (Elt F) ((T d : Thread nD τ).loc main_v6)) (Bs : Buf (Elt F) ((T d : Thread nD τ).loc main_v7)) (A : Buf (Elt F) ((T d : Thread nD τ).loc main_v18))
    (Φ : PUnit → sProp 𝕄) :
    iprop((K (F := F)).ctx EH P κ ∗ (K (F := F)).tcSt EH d 5 ∗ boundary (T d : Thread nD τ)
        ∗ Pipeline.cellsGhost cfgs EP 0 d ∗ Pipeline.toksInit cfgs EP 0 d
        ∗ ((T d : Thread nD τ).loc main_v0 ↦{fullShare} X0) ∗ ((T d : Thread nD τ).loc main_v9 ↦{fullShare} Gq) ∗ ((T d : Thread nD τ).loc main_v6 ↦{fullShare} Wt)
        ∗ ((T d : Thread nD τ).loc main_v7 ↦{fullShare} Bs) ∗ ((T d : Thread nD τ).loc main_v18 ↦{fullShare} A)
        ∗ (iprop((K (F := F)).tcSt EH d 5 ∗ boundary (T d : Thread nD τ)
            ∗ ((T d : Thread nD τ).loc main_v0 ↦{fullShare} X0) ∗ ((T d : Thread nD τ).loc main_v9 ↦{fullShare} Gq) ∗ ((T d : Thread nD τ).loc main_v6 ↦{fullShare} Wt)
            ∗ ((T d : Thread nD τ).loc main_v7 ↦{fullShare} Bs) ∗ ((T d : Thread nD τ).loc main_v18 ↦{fullShare} Conv0 X0 Gq Wt Bs A)) -∗ Φ ⟨⟩))
      ⊢ wp frame (wpE ((K (F := F)).defs D) 𝒱 (T d) none) Set.univ (Prog.lift (.customCall (SparseCore.inner (Pipeline.entry 0)) ())) Φ := by
  have hv : liftVal d (val5 d X0 Gq Wt Bs A) d = val5 d X0 Gq Wt Bs A := liftVal_self d _
  have h0 : val5 d X0 Gq Wt Bs A main_v0 = X0 := valOf_0 ..
  have h1 : val5 d X0 Gq Wt Bs A main_v9 = Gq := valOf_1 _ _ _ _ _ _ _ _ _ _ _ (by decide)
  have h2 : val5 d X0 Gq Wt Bs A main_v6 = Wt := valOf_2 _ _ _ _ _ _ _ _ _ _ _ (by decide) (by decide)
  have h3 : val5 d X0 Gq Wt Bs A main_v7 = Bs := valOf_3 _ _ _ _ _ _ _ _ _ _ _ (by decide) (by decide) (by decide)
  have h4 : val5 d X0 Gq Wt Bs A main_v18 = A := valOf_4 _ _ _ _ _ _ _ _ _ _ _ (by decide) (by decide) (by decide) (by decide)
  have hreg := Pipeline.RegionSeg.wp (pcfgs (F := F)) adm (pdats (liftVal d (val5 d X0 Gq Wt Bs A)) (fun c => wb (F := F) c)) ι₀ phinj EP defs₀ 𝒱₀
      (K (F := F)).L (K (F := F)).lev (reg5 (liftVal d (val5 d X0 Gq Wt Bs A)) (fun c => wb (F := F) c) (K (F := F)).lev) d none (fun _ h => nomatch h) (fun _ => .ret ⟨⟩) Φ
  rw [reg5_pre, reg5_post] at hreg
  rw [hv, h0, h1, h2, h3, h4] at hreg
  have hlift : wp frame (wpE (D (F := F)) 𝒱 (T d) none) Set.univ (.op (.customCall (Pipeline.entry 0) ()) fun _ => .ret ⟨⟩) Φ
      ⊢ wp frame (wpE ((K (F := F)).defs D) 𝒱 (T d) none) Set.univ (SparseCore.liftProg (.op (.customCall (Pipeline.entry 0) ()) fun _ => .ret ⟨⟩)) Φ :=
    (K (F := F)).wp_liftProg D 𝒱 (T d) Set.univ none _ Φ
  rw [show (Prog.lift (.customCall (SparseCore.inner (Pipeline.entry 0)) ()) : Prog (TpuEff nD τ sig (Elt F) (SparseCore.Sig (ΛP (F := F)) 5) .tc) PUnit)
      = SparseCore.liftProg (Q := 5) (.op (.customCall (Pipeline.entry 0) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg5

/-! ## Region 1, from the TensorCore's state after the last SparseCore call -/

section Hreg6

/-- The valuation that holds pipeline 1's five arrays at the named contents. -/
abbrev val6 (d : Dev nD) (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19)) :
    (b : Ref sig .tc) → Buf (Elt F) ((d : Thread nD τ).loc b) :=
  valOf d main_v0 main_v11 main_v6 main_v7 main_v19 X0 Gq Wt Bs A

/-- What pipeline 1 leaves in its written-back array `main_v19`, from the contents of its five arrays at entry. -/
def Conv1 {d : Dev nD} (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19)) :
    Buf (Elt F) ((T d : Thread nD τ).loc main_v19) :=
  (dat6 d (val6 d X0 Gq Wt Bs A) (wb (F := F) d)).arrAt 4 cfg6.N

set_option backward.isDefEq.respectTransparency.types false in
set_option maxHeartbeats 800000 in
/-- Pipeline 1's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv1` of them. -/
theorem hreg1 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v11))
    (Wt : Buf (Elt F) ((T d : Thread nD τ).loc main_v6)) (Bs : Buf (Elt F) ((T d : Thread nD τ).loc main_v7)) (A : Buf (Elt F) ((T d : Thread nD τ).loc main_v19))
    (Φ : PUnit → sProp 𝕄) :
    iprop((K (F := F)).ctx EH P κ ∗ (K (F := F)).tcSt EH d 5 ∗ boundary (T d : Thread nD τ)
        ∗ Pipeline.cellsGhost cfgs EP 1 d ∗ Pipeline.toksInit cfgs EP 1 d
        ∗ ((T d : Thread nD τ).loc main_v0 ↦{fullShare} X0) ∗ ((T d : Thread nD τ).loc main_v11 ↦{fullShare} Gq) ∗ ((T d : Thread nD τ).loc main_v6 ↦{fullShare} Wt)
        ∗ ((T d : Thread nD τ).loc main_v7 ↦{fullShare} Bs) ∗ ((T d : Thread nD τ).loc main_v19 ↦{fullShare} A)
        ∗ (iprop((K (F := F)).tcSt EH d 5 ∗ boundary (T d : Thread nD τ)
            ∗ ((T d : Thread nD τ).loc main_v0 ↦{fullShare} X0) ∗ ((T d : Thread nD τ).loc main_v11 ↦{fullShare} Gq) ∗ ((T d : Thread nD τ).loc main_v6 ↦{fullShare} Wt)
            ∗ ((T d : Thread nD τ).loc main_v7 ↦{fullShare} Bs) ∗ ((T d : Thread nD τ).loc main_v19 ↦{fullShare} Conv1 X0 Gq Wt Bs A)) -∗ Φ ⟨⟩))
      ⊢ wp frame (wpE ((K (F := F)).defs D) 𝒱 (T d) none) Set.univ (Prog.lift (.customCall (SparseCore.inner (Pipeline.entry 1)) ())) Φ := by
  have hv : liftVal d (val6 d X0 Gq Wt Bs A) d = val6 d X0 Gq Wt Bs A := liftVal_self d _
  have h0 : val6 d X0 Gq Wt Bs A main_v0 = X0 := valOf_0 ..
  have h1 : val6 d X0 Gq Wt Bs A main_v11 = Gq := valOf_1 _ _ _ _ _ _ _ _ _ _ _ (by decide)
  have h2 : val6 d X0 Gq Wt Bs A main_v6 = Wt := valOf_2 _ _ _ _ _ _ _ _ _ _ _ (by decide) (by decide)
  have h3 : val6 d X0 Gq Wt Bs A main_v7 = Bs := valOf_3 _ _ _ _ _ _ _ _ _ _ _ (by decide) (by decide) (by decide)
  have h4 : val6 d X0 Gq Wt Bs A main_v19 = A := valOf_4 _ _ _ _ _ _ _ _ _ _ _ (by decide) (by decide) (by decide) (by decide)
  have hreg := Pipeline.RegionSeg.wp (pcfgs (F := F)) adm (pdats (liftVal d (val6 d X0 Gq Wt Bs A)) (fun c => wb (F := F) c)) ι₀ phinj EP defs₀ 𝒱₀
      (K (F := F)).L (K (F := F)).lev (reg6 (liftVal d (val6 d X0 Gq Wt Bs A)) (fun c => wb (F := F) c) (K (F := F)).lev) d none (fun _ h => nomatch h) (fun _ => .ret ⟨⟩) Φ
  rw [reg6_pre, reg6_post] at hreg
  rw [hv, h0, h1, h2, h3, h4] at hreg
  have hlift : wp frame (wpE (D (F := F)) 𝒱 (T d) none) Set.univ (.op (.customCall (Pipeline.entry 1) ()) fun _ => .ret ⟨⟩) Φ
      ⊢ wp frame (wpE ((K (F := F)).defs D) 𝒱 (T d) none) Set.univ (SparseCore.liftProg (.op (.customCall (Pipeline.entry 1) ()) fun _ => .ret ⟨⟩)) Φ :=
    (K (F := F)).wp_liftProg D 𝒱 (T d) Set.univ none _ Φ
  rw [show (Prog.lift (.customCall (SparseCore.inner (Pipeline.entry 1)) ()) : Prog (TpuEff nD τ sig (Elt F) (SparseCore.Sig (ΛP (F := F)) 5) .tc) PUnit)
      = SparseCore.liftProg (Q := 5) (.op (.customCall (Pipeline.entry 1) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg6

/-! ## Region 2, from the TensorCore's state after the last SparseCore call -/

section Hreg7

/-- The valuation that holds pipeline 2's five arrays at the named contents. -/
abbrev val7 (d : Dev nD) (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20)) :
    (b : Ref sig .tc) → Buf (Elt F) ((d : Thread nD τ).loc b) :=
  valOf d main_v0 main_v13 main_v6 main_v7 main_v20 X0 Gq Wt Bs A

/-- What pipeline 2 leaves in its written-back array `main_v20`, from the contents of its five arrays at entry. -/
def Conv2 {d : Dev nD} (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20)) :
    Buf (Elt F) ((T d : Thread nD τ).loc main_v20) :=
  (dat7 d (val7 d X0 Gq Wt Bs A) (wb (F := F) d)).arrAt 4 cfg7.N

set_option backward.isDefEq.respectTransparency.types false in
set_option maxHeartbeats 800000 in
/-- Pipeline 2's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv2` of them. -/
theorem hreg2 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v13))
    (Wt : Buf (Elt F) ((T d : Thread nD τ).loc main_v6)) (Bs : Buf (Elt F) ((T d : Thread nD τ).loc main_v7)) (A : Buf (Elt F) ((T d : Thread nD τ).loc main_v20))
    (Φ : PUnit → sProp 𝕄) :
    iprop((K (F := F)).ctx EH P κ ∗ (K (F := F)).tcSt EH d 5 ∗ boundary (T d : Thread nD τ)
        ∗ Pipeline.cellsGhost cfgs EP 2 d ∗ Pipeline.toksInit cfgs EP 2 d
        ∗ ((T d : Thread nD τ).loc main_v0 ↦{fullShare} X0) ∗ ((T d : Thread nD τ).loc main_v13 ↦{fullShare} Gq) ∗ ((T d : Thread nD τ).loc main_v6 ↦{fullShare} Wt)
        ∗ ((T d : Thread nD τ).loc main_v7 ↦{fullShare} Bs) ∗ ((T d : Thread nD τ).loc main_v20 ↦{fullShare} A)
        ∗ (iprop((K (F := F)).tcSt EH d 5 ∗ boundary (T d : Thread nD τ)
            ∗ ((T d : Thread nD τ).loc main_v0 ↦{fullShare} X0) ∗ ((T d : Thread nD τ).loc main_v13 ↦{fullShare} Gq) ∗ ((T d : Thread nD τ).loc main_v6 ↦{fullShare} Wt)
            ∗ ((T d : Thread nD τ).loc main_v7 ↦{fullShare} Bs) ∗ ((T d : Thread nD τ).loc main_v20 ↦{fullShare} Conv2 X0 Gq Wt Bs A)) -∗ Φ ⟨⟩))
      ⊢ wp frame (wpE ((K (F := F)).defs D) 𝒱 (T d) none) Set.univ (Prog.lift (.customCall (SparseCore.inner (Pipeline.entry 2)) ())) Φ := by
  have hv : liftVal d (val7 d X0 Gq Wt Bs A) d = val7 d X0 Gq Wt Bs A := liftVal_self d _
  have h0 : val7 d X0 Gq Wt Bs A main_v0 = X0 := valOf_0 ..
  have h1 : val7 d X0 Gq Wt Bs A main_v13 = Gq := valOf_1 _ _ _ _ _ _ _ _ _ _ _ (by decide)
  have h2 : val7 d X0 Gq Wt Bs A main_v6 = Wt := valOf_2 _ _ _ _ _ _ _ _ _ _ _ (by decide) (by decide)
  have h3 : val7 d X0 Gq Wt Bs A main_v7 = Bs := valOf_3 _ _ _ _ _ _ _ _ _ _ _ (by decide) (by decide) (by decide)
  have h4 : val7 d X0 Gq Wt Bs A main_v20 = A := valOf_4 _ _ _ _ _ _ _ _ _ _ _ (by decide) (by decide) (by decide) (by decide)
  have hreg := Pipeline.RegionSeg.wp (pcfgs (F := F)) adm (pdats (liftVal d (val7 d X0 Gq Wt Bs A)) (fun c => wb (F := F) c)) ι₀ phinj EP defs₀ 𝒱₀
      (K (F := F)).L (K (F := F)).lev (reg7 (liftVal d (val7 d X0 Gq Wt Bs A)) (fun c => wb (F := F) c) (K (F := F)).lev) d none (fun _ h => nomatch h) (fun _ => .ret ⟨⟩) Φ
  rw [reg7_pre, reg7_post] at hreg
  rw [hv, h0, h1, h2, h3, h4] at hreg
  have hlift : wp frame (wpE (D (F := F)) 𝒱 (T d) none) Set.univ (.op (.customCall (Pipeline.entry 2) ()) fun _ => .ret ⟨⟩) Φ
      ⊢ wp frame (wpE ((K (F := F)).defs D) 𝒱 (T d) none) Set.univ (SparseCore.liftProg (.op (.customCall (Pipeline.entry 2) ()) fun _ => .ret ⟨⟩)) Φ :=
    (K (F := F)).wp_liftProg D 𝒱 (T d) Set.univ none _ Φ
  rw [show (Prog.lift (.customCall (SparseCore.inner (Pipeline.entry 2)) ()) : Prog (TpuEff nD τ sig (Elt F) (SparseCore.Sig (ΛP (F := F)) 5) .tc) PUnit)
      = SparseCore.liftProg (Q := 5) (.op (.customCall (Pipeline.entry 2) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg7

/-! ## Region 3, from the TensorCore's state after the last SparseCore call -/

section Hreg8

/-- The valuation that holds pipeline 3's five arrays at the named contents. -/
abbrev val8 (d : Dev nD) (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21)) :
    (b : Ref sig .tc) → Buf (Elt F) ((d : Thread nD τ).loc b) :=
  valOf d main_v0 main_v15 main_v6 main_v7 main_v21 X0 Gq Wt Bs A

/-- What pipeline 3 leaves in its written-back array `main_v21`, from the contents of its five arrays at entry. -/
def Conv3 {d : Dev nD} (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21)) :
    Buf (Elt F) ((T d : Thread nD τ).loc main_v21) :=
  (dat8 d (val8 d X0 Gq Wt Bs A) (wb (F := F) d)).arrAt 4 cfg8.N

set_option backward.isDefEq.respectTransparency.types false in
set_option maxHeartbeats 800000 in
/-- Pipeline 3's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv3` of them. -/
theorem hreg3 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v15))
    (Wt : Buf (Elt F) ((T d : Thread nD τ).loc main_v6)) (Bs : Buf (Elt F) ((T d : Thread nD τ).loc main_v7)) (A : Buf (Elt F) ((T d : Thread nD τ).loc main_v21))
    (Φ : PUnit → sProp 𝕄) :
    iprop((K (F := F)).ctx EH P κ ∗ (K (F := F)).tcSt EH d 5 ∗ boundary (T d : Thread nD τ)
        ∗ Pipeline.cellsGhost cfgs EP 3 d ∗ Pipeline.toksInit cfgs EP 3 d
        ∗ ((T d : Thread nD τ).loc main_v0 ↦{fullShare} X0) ∗ ((T d : Thread nD τ).loc main_v15 ↦{fullShare} Gq) ∗ ((T d : Thread nD τ).loc main_v6 ↦{fullShare} Wt)
        ∗ ((T d : Thread nD τ).loc main_v7 ↦{fullShare} Bs) ∗ ((T d : Thread nD τ).loc main_v21 ↦{fullShare} A)
        ∗ (iprop((K (F := F)).tcSt EH d 5 ∗ boundary (T d : Thread nD τ)
            ∗ ((T d : Thread nD τ).loc main_v0 ↦{fullShare} X0) ∗ ((T d : Thread nD τ).loc main_v15 ↦{fullShare} Gq) ∗ ((T d : Thread nD τ).loc main_v6 ↦{fullShare} Wt)
            ∗ ((T d : Thread nD τ).loc main_v7 ↦{fullShare} Bs) ∗ ((T d : Thread nD τ).loc main_v21 ↦{fullShare} Conv3 X0 Gq Wt Bs A)) -∗ Φ ⟨⟩))
      ⊢ wp frame (wpE ((K (F := F)).defs D) 𝒱 (T d) none) Set.univ (Prog.lift (.customCall (SparseCore.inner (Pipeline.entry 3)) ())) Φ := by
  have hv : liftVal d (val8 d X0 Gq Wt Bs A) d = val8 d X0 Gq Wt Bs A := liftVal_self d _
  have h0 : val8 d X0 Gq Wt Bs A main_v0 = X0 := valOf_0 ..
  have h1 : val8 d X0 Gq Wt Bs A main_v15 = Gq := valOf_1 _ _ _ _ _ _ _ _ _ _ _ (by decide)
  have h2 : val8 d X0 Gq Wt Bs A main_v6 = Wt := valOf_2 _ _ _ _ _ _ _ _ _ _ _ (by decide) (by decide)
  have h3 : val8 d X0 Gq Wt Bs A main_v7 = Bs := valOf_3 _ _ _ _ _ _ _ _ _ _ _ (by decide) (by decide) (by decide)
  have h4 : val8 d X0 Gq Wt Bs A main_v21 = A := valOf_4 _ _ _ _ _ _ _ _ _ _ _ (by decide) (by decide) (by decide) (by decide)
  have hreg := Pipeline.RegionSeg.wp (pcfgs (F := F)) adm (pdats (liftVal d (val8 d X0 Gq Wt Bs A)) (fun c => wb (F := F) c)) ι₀ phinj EP defs₀ 𝒱₀
      (K (F := F)).L (K (F := F)).lev (reg8 (liftVal d (val8 d X0 Gq Wt Bs A)) (fun c => wb (F := F) c) (K (F := F)).lev) d none (fun _ h => nomatch h) (fun _ => .ret ⟨⟩) Φ
  rw [reg8_pre, reg8_post] at hreg
  rw [hv, h0, h1, h2, h3, h4] at hreg
  have hlift : wp frame (wpE (D (F := F)) 𝒱 (T d) none) Set.univ (.op (.customCall (Pipeline.entry 3) ()) fun _ => .ret ⟨⟩) Φ
      ⊢ wp frame (wpE ((K (F := F)).defs D) 𝒱 (T d) none) Set.univ (SparseCore.liftProg (.op (.customCall (Pipeline.entry 3) ()) fun _ => .ret ⟨⟩)) Φ :=
    (K (F := F)).wp_liftProg D 𝒱 (T d) Set.univ none _ Φ
  rw [show (Prog.lift (.customCall (SparseCore.inner (Pipeline.entry 3)) ()) : Prog (TpuEff nD τ sig (Elt F) (SparseCore.Sig (ΛP (F := F)) 5) .tc) PUnit)
      = SparseCore.liftProg (Q := 5) (.op (.customCall (Pipeline.entry 3) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg8

/-! ## Region 4, from the TensorCore's state after the last SparseCore call -/

section Hreg9

/-- The valuation that holds pipeline 4's five arrays at the named contents. -/
abbrev val9 (d : Dev nD) (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22)) :
    (b : Ref sig .tc) → Buf (Elt F) ((d : Thread nD τ).loc b) :=
  valOf d main_v0 main_v17 main_v6 main_v7 main_v22 X0 Gq Wt Bs A

/-- What pipeline 4 leaves in its written-back array `main_v22`, from the contents of its five arrays at entry. -/
def Conv4 {d : Dev nD} (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22)) :
    Buf (Elt F) ((T d : Thread nD τ).loc main_v22) :=
  (dat9 d (val9 d X0 Gq Wt Bs A) (wb (F := F) d)).arrAt 4 cfg9.N

set_option backward.isDefEq.respectTransparency.types false in
set_option maxHeartbeats 800000 in
/-- Pipeline 4's region inside @main of the SparseCore program, after the last SparseCore call: from the handshakes'
    invariants and level facts, the TensorCore's handshake state, its region-boundary holdings, the pipeline's staging
    cells' ghost state and duty tokens, and the pipeline's five arrays whole at named contents, the region runs to the
    same with the written-back array at `Conv4` of them. -/
theorem hreg4 (P : (K (F := F)).Pay (nD := nD) (Val := Elt F) (Name := ℕ) (U := UU)) (κ : GSem nD τ sig → ℕ) (d : Dev nD)
    (X0 : Buf (Elt F) ((T d : Thread nD τ).loc main_v0)) (Gq : Buf (Elt F) ((T d : Thread nD τ).loc main_v17))
    (Wt : Buf (Elt F) ((T d : Thread nD τ).loc main_v6)) (Bs : Buf (Elt F) ((T d : Thread nD τ).loc main_v7)) (A : Buf (Elt F) ((T d : Thread nD τ).loc main_v22))
    (Φ : PUnit → sProp 𝕄) :
    iprop((K (F := F)).ctx EH P κ ∗ (K (F := F)).tcSt EH d 5 ∗ boundary (T d : Thread nD τ)
        ∗ Pipeline.cellsGhost cfgs EP 4 d ∗ Pipeline.toksInit cfgs EP 4 d
        ∗ ((T d : Thread nD τ).loc main_v0 ↦{fullShare} X0) ∗ ((T d : Thread nD τ).loc main_v17 ↦{fullShare} Gq) ∗ ((T d : Thread nD τ).loc main_v6 ↦{fullShare} Wt)
        ∗ ((T d : Thread nD τ).loc main_v7 ↦{fullShare} Bs) ∗ ((T d : Thread nD τ).loc main_v22 ↦{fullShare} A)
        ∗ (iprop((K (F := F)).tcSt EH d 5 ∗ boundary (T d : Thread nD τ)
            ∗ ((T d : Thread nD τ).loc main_v0 ↦{fullShare} X0) ∗ ((T d : Thread nD τ).loc main_v17 ↦{fullShare} Gq) ∗ ((T d : Thread nD τ).loc main_v6 ↦{fullShare} Wt)
            ∗ ((T d : Thread nD τ).loc main_v7 ↦{fullShare} Bs) ∗ ((T d : Thread nD τ).loc main_v22 ↦{fullShare} Conv4 X0 Gq Wt Bs A)) -∗ Φ ⟨⟩))
      ⊢ wp frame (wpE ((K (F := F)).defs D) 𝒱 (T d) none) Set.univ (Prog.lift (.customCall (SparseCore.inner (Pipeline.entry 4)) ())) Φ := by
  have hv : liftVal d (val9 d X0 Gq Wt Bs A) d = val9 d X0 Gq Wt Bs A := liftVal_self d _
  have h0 : val9 d X0 Gq Wt Bs A main_v0 = X0 := valOf_0 ..
  have h1 : val9 d X0 Gq Wt Bs A main_v17 = Gq := valOf_1 _ _ _ _ _ _ _ _ _ _ _ (by decide)
  have h2 : val9 d X0 Gq Wt Bs A main_v6 = Wt := valOf_2 _ _ _ _ _ _ _ _ _ _ _ (by decide) (by decide)
  have h3 : val9 d X0 Gq Wt Bs A main_v7 = Bs := valOf_3 _ _ _ _ _ _ _ _ _ _ _ (by decide) (by decide) (by decide)
  have h4 : val9 d X0 Gq Wt Bs A main_v22 = A := valOf_4 _ _ _ _ _ _ _ _ _ _ _ (by decide) (by decide) (by decide) (by decide)
  have hreg := Pipeline.RegionSeg.wp (pcfgs (F := F)) adm (pdats (liftVal d (val9 d X0 Gq Wt Bs A)) (fun c => wb (F := F) c)) ι₀ phinj EP defs₀ 𝒱₀
      (K (F := F)).L (K (F := F)).lev (reg9 (liftVal d (val9 d X0 Gq Wt Bs A)) (fun c => wb (F := F) c) (K (F := F)).lev) d none (fun _ h => nomatch h) (fun _ => .ret ⟨⟩) Φ
  rw [reg9_pre, reg9_post] at hreg
  rw [hv, h0, h1, h2, h3, h4] at hreg
  have hlift : wp frame (wpE (D (F := F)) 𝒱 (T d) none) Set.univ (.op (.customCall (Pipeline.entry 4) ()) fun _ => .ret ⟨⟩) Φ
      ⊢ wp frame (wpE ((K (F := F)).defs D) 𝒱 (T d) none) Set.univ (SparseCore.liftProg (.op (.customCall (Pipeline.entry 4) ()) fun _ => .ret ⟨⟩)) Φ :=
    (K (F := F)).wp_liftProg D 𝒱 (T d) Set.univ none _ Φ
  rw [show (Prog.lift (.customCall (SparseCore.inner (Pipeline.entry 4)) ()) : Prog (TpuEff nD τ sig (Elt F) (SparseCore.Sig (ΛP (F := F)) 5) .tc) PUnit)
      = SparseCore.liftProg (Q := 5) (.op (.customCall (Pipeline.entry 4) ()) fun _ => .ret ⟨⟩) from rfl]
  refine BIBase.Entails.trans ?_ (hreg.trans hlift)
  unfold SparseCore.Cfg.tcSt
  rw [(K (F := F)).Otc_end d (le_refl 5)]
  iintro ⟨#Hctx, ⟨⟨%W, %hW, HO⟩, Htail⟩, Hbd, Hg, Ht, H0, H1, H2, H3, H4, Hk⟩
  ihave #Hl := (SparseCore.Cfg.ctx_levAts κ) $$ Hctx
  isplitl [Hk Htail]
  · iintro ⟨Hbd, H0, H1, H2, H3, H4, ⟨%W', %hW', HO⟩⟩
    rw [wp_ret]
    imodintro
    iapply Hk
    isplitl [HO Htail]
    · isplitl [HO]
      · iexists W'; isplitr
        · ipureintro
          intro pr hpr
          rcases hW' (Finset.mem_coe.mpr hpr) with h | ⟨w, s, rfl⟩
          · exact h
          · exact Nat.zero_le _
        iexact HO
      iexact Htail
    isplitl [Hbd]; · iexact Hbd
    isplitl [H0]; · iexact H0
    isplitl [H1]; · iexact H1
    isplitl [H2]; · iexact H2
    isplitl [H3]; · iexact H3
    iexact H4
  isplitl [Hbd]; · iexact Hbd
  isplitl [H0 H1 H2 H3 H4 HO]
  · isplitl [H0]; · iexact H0
    isplitl [H1]; · iexact H1
    isplitl [H2]; · iexact H2
    isplitl [H3]; · iexact H3
    isplitl [H4]; · iexact H4
    iexists W; isplitr
    · ipureintro; exact fun pr hpr => hW pr (Finset.mem_coe.mp hpr)
    iexact HO
  isplitr; · iexact Hl
  isplitl [Hg]; · iexact Hg
  iexact Ht

end Hreg9

end Cert.Kernel.KP

end
-- ==== Proof.KFinalB.lean ====
/-
  The five convolution regions as @main's proof takes them, and with them the program's run and frame from the five
  tile bodies' theorems alone.
-/
import proofs.«210879_g80607946211848_cont_9to1_m_1212_13_alg».proof.Proof.KAssembleB
import proofs.«210879_g80607946211848_cont_9to1_m_1212_13_alg».proof.Proof.KHregB

noncomputable section

namespace Cert.Kernel.KP

open Cert.Kernel Cert.Kernel.Gen

open Idealize.ShloMosaic
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 5) (Elt F) ℕ UU ℕ

/-- What region `p` leaves in its output array on device `d`, from the contents of its five arrays at entry. -/
def convOf (p : Fin 5) (d : Dev nD) : FVec F S128x160000 .f32 → FVec F S4x32000x128 .f32 → FVec F S5x128x128 .f32 → FVec F S128x1 .f32
    → FVec F S128x160000 .f32 → FVec F S128x160000 .f32 :=
  match p with
  | 0 => Conv0 (F := F) (d := d)
  | 1 => Conv1 (F := F) (d := d)
  | 2 => Conv2 (F := F) (d := d)
  | 3 => Conv3 (F := F) (d := d)
  | 4 => Conv4 (F := F) (d := d)

/-- The five regions, for any handshake payloads. -/
def regionsOf (P : (K (F := F)).Pay (nD := nD) (Val := Elt F) (Name := ℕ) (U := UU)) : Regions P where
  Conv := convOf
  wp0 := hreg0 P
  wp1 := hreg1 P
  wp2 := hreg2 P
  wp3 := hreg3 P
  wp4 := hreg4 P

variable (m : (ℓ : Loc nD τ sig) → Buf (Elt F) ℓ) (ρ : Dev nD → PrngReg)

/-- The program's result on device `d`, as a term of the launch memory. -/
abbrev KOutOf (d : Dev nD) : FVec F S1x128x160000x1 .f32 := KOut (regionsOf (P m)) d

/-- The program's run from the five tile bodies' theorems and the index ranges. -/
theorem run_all [∀ e, Nonempty (Elt F e)]
    (hb0 : TileBody0 (F := F)) (hb1 : TileBody1 (F := F)) (hb2 : TileBody2 (F := F)) (hb3 : TileBody3 (F := F)) (hb4 : TileBody4 (F := F))
    (hin0 : ∀ (d : Dev nD) i, ((Iv0 m d) i).toNat < 160000) (hin1 : ∀ (d : Dev nD) i, ((Iv1 m d) i).toNat < 160000)
    (hin2 : ∀ (d : Dev nD) i, ((Iv2 m d) i).toNat < 160000) (hin3 : ∀ (d : Dev nD) i, ((Iv3 m d) i).toNat < 160000)
    (hin4 : ∀ (d : Dev nD) i, ((Iv4 m d) i).toNat < 160000) :
    θ_run (Cert.Kernel.defs (F := F)) (Cert.Kernel.threads (F := F)) ⟨m, fun _ => 0, ρ⟩ (QC m (regionsOf (P m))) :=
  run_ki m ρ (regionsOf (P m)) hb0 hb1 hb2 hb3 hb4 hin0 hin1 hin2 hin3 hin4

end Cert.Kernel.KP

namespace Cert.Kernel.KP

open Cert.Kernel Cert.Kernel.Gen
open Idealize.ShloMosaic Idealize.SL.Sem
open Idealize.ShloMosaic.SparseCore.Cfg (HIx Pay)

/-- `Cert.frame_Kernel` from the five tile bodies' theorems. -/
theorem frame_Kernel_all
    (hb0 : TileBody0 (F := Bits)) (hb1 : TileBody1 (F := Bits)) (hb2 : TileBody2 (F := Bits)) (hb3 : TileBody3 (F := Bits)) (hb4 : TileBody4 (F := Bits)) :
    Cert.frame_Kernel :=
  frame_Kernel_of (fun m => regionsOf (P (F := Bits) m)) hb0 hb1 hb2 hb3 hb4

end Cert.Kernel.KP

end
-- ==== Proof.TileBody0a.lean ====
/-
  Groundwork for the body of call 0's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes0
import proofs.«210879_g80607946211848_cont_9to1_m_1212_13_alg».proof.Proof.Gen.KernelIdeal.Skeleton

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

/-! ## The loop's conditions, in closed form -/

/-- The tile's number. -/
abbrev wid0 (L : grid0.Coords) : ℕ := 2 * (L 1).val + (L 0).val

theorem tb0_trips : k0_t1_loop.trips = 8 := by decide

theorem tb0_act_iff : ∀ (L : grid0.Coords) (t : Fin k0_t1_loop.trips), k0_cond1 L t = 1#1 ↔ wid0 L + 32 * t.val < 250 := by decide +kernel
theorem tb0_pre_iff : ∀ (L : grid0.Coords) (t : Fin k0_t1_loop.trips), k0_cond2 L t = 1#1 ↔ wid0 L + 32 * t.val + 32 < 250 := by decide +kernel

/-! ## The memrefs, as the loop slices them -/

/-- Index chunk of trip `t` (the copy's source the trip waits for). -/
abbrev iCh0 (L : grid0.Coords) (t : Fin k0_t1_loop.trips) (h : Act0 L t) : Memref sig .scVector .hbm S4x128 .i32 :=
  ((iW).slice (Rect.unit (s := S250x4x128) (k0_off3 L t) S1x4x128.size (k0_off3_inb L t h)) (fun _ => rfl)).squeeze S4x128 squeezes_S1x4x128_S4x128
/-- The slot of the index scratch trip `t` reads its indices from: slot `t % 2`. -/
abbrev sSl0 (L : grid0.Coords) (t : Fin k0_t1_loop.trips) (h : Act0 L t) : Memref sig .scVector .vmem S4x128 .i32 :=
  ((sI).slice (Rect.unit (s := S2x4x128) (k0_off2 t) S1x4x128.size (k0_off2_inb L t h)) (fun _ => rfl)).squeeze S4x128 squeezes_S1x4x128_S4x128
/-- Plane `j` of the row scratch. -/
abbrev rPl0_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl0_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl0_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl0_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD0 (d : Dev nD) (L : grid0.Coords) (n : DmaSems sig S_) : GSem nD τ sig := (thr0 d L, SemLoc.dma n.sem)

end Cert.KernelIdeal.KP

end
-- ==== Proof.TileBody0b.lean ====
/-
  The loop of call 0's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody0a

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The number of the tile's active trips: its chunks `w, w + 32, …` below 250. -/
abbrev nAct0 (L : grid0.Coords) : ℕ := (250 - wid0 L + 31) / 32
/-- The active trips among the first `k`. -/
abbrev cnt0 (L : grid0.Coords) (k : ℕ) : ℕ := min k (nAct0 L)

/-- The index scratch showing, in both slots, the words of trip `t`'s chunk (chunk number reduced modulo 250: the
    identity for an active trip). -/
def slotImg0 (t : ℕ) : Buf (Elt F) ((thr0 d L).loc cc0_scratch0) :=
  fun i => I (ix3 (⟨(wid0 L + 32 * t) % 250, Nat.mod_lt _ (by decide)⟩ : Fin 250) (i 1) (i 2))

/-- Contents `S` of the index scratch show, on the slot trip `t` reads, the words of the trip's chunk. -/
def SlotAgrees0 (t : Fin k0_t1_loop.trips) (h : Act0 L t) (S : Buf (Elt F) ((thr0 d L).loc cc0_scratch0)) : Prop :=
  ∀ i ∈ (sSl0 L t h).view.set, S i = slotImg0 d L I t.val i

/-- What the index fetch for trip `t` delivers: the slot at contents `S`, and the chunk's share back. -/
def idxDeliv0 (t : Fin k0_t1_loop.trips) (h : Act0 L t) (S : Buf (Elt F) ((thr0 d L).loc cc0_scratch0)) : sProp 𝕄 :=
  iprop(((sI).view.loc (thr0 d L) ↦[(sSl0 L t h).view.set]{fullShare} S)
    ∗ ((iW).view.loc (thr0 d L) ↦[(iCh0 L t h).view.set]{q} I))

/-- The index side before trip `k`: while the trip is active its chunk's fetch is in flight (the chunk and its slot
    lent); afterwards the semaphore rests at zero and block and scratch are whole. -/
def idxPart0 (k : ℕ) : sProp 𝕄 :=
  if hk : k < k0_t1_loop.trips then
    if hA : Act0 L ⟨k, hk⟩ then
      iprop(∃ S, ⌜SlotAgrees0 d L I ⟨k, hk⟩ hA S⌝
        ∗ Transfers.Flight countersEmb (thr0 d L) (SemLoc.dma cc0_scratch10.sem) (default : HIx 5) 16384 (idxDeliv0 d L q I ⟨k, hk⟩ hA S)
        ∗ ((iW).view.loc (thr0 d L) ↦[Finset.univ \ (iCh0 L ⟨k, hk⟩ hA).view.set]{q} I)
        ∗ ((sI).view.loc (thr0 d L) ↦[Finset.univ \ (sSl0 L ⟨k, hk⟩ hA).view.set]{fullShare} S))
    else iprop(semVal (cellD0 d L cc0_scratch10) 0 ∗ ((iW).view.loc (thr0 d L) ↦{q} I) ∗ ∃ s, (sI).view.loc (thr0 d L) ↦{fullShare} s)
  else iprop(semVal (cellD0 d L cc0_scratch10) 0 ∗ ((iW).view.loc (thr0 d L) ↦{q} I) ∗ ∃ s, (sI).view.loc (thr0 d L) ↦{fullShare} s)

/-- What the write-out of plane `j` of trip `t` delivers: the window at the gathered array, and the plane back. -/
def wDeliv0 (t : Fin k0_t1_loop.trips) (h : Act0 L t) (j : Fin 4) (Dsrc : sProp 𝕄) : sProp 𝕄 :=
  iprop(((oW).view.loc (thr0 d L) ↦[oSet0 L t h j]{fullShare} gath (F := F) X I) ∗ Dsrc)

/-- The four windows of trip `t` at contents `f`, each spelt through its own memref. -/
def oWins0 (t : Fin k0_t1_loop.trips) (h : Act0 L t) (f : Buf (Elt F) (oLoc0 d)) : sProp 𝕄 :=
  iprop(((oWin0_0 L t h).view.loc (thr0 d L) ↦[(oWin0_0 L t h).view.set]{fullShare} f)
    ∗ ((oWin0_1 L t h).view.loc (thr0 d L) ↦[(oWin0_1 L t h).view.set]{fullShare} f)
    ∗ ((oWin0_2 L t h).view.loc (thr0 d L) ↦[(oWin0_2 L t h).view.set]{fullShare} f)
    ∗ ((oWin0_3 L t h).view.loc (thr0 d L) ↦[(oWin0_3 L t h).view.set]{fullShare} f))

omit [FloatOps F] in
/-- An active trip's share of the result is its four windows. -/
theorem oTrip0_act (t : Fin k0_t1_loop.trips) (h : Act0 L t) (f : Buf (Elt F) (oLoc0 d)) :
    oTrip0 d L f t = oWins0 d L t h f := by
  unfold oTrip0 oWins0; rw [dif_pos h]

omit [FloatOps F] in
/-- An idle trip has none. -/
theorem oTrip0_idle (t : Fin k0_t1_loop.trips) (h : ¬ Act0 L t) (f : Buf (Elt F) (oLoc0 d)) :
    oTrip0 d L f t = (iprop(emp) : sProp 𝕄) := by
  unfold oTrip0; rw [dif_neg h]

/-- Plane `j` of the row scratch at contents `r`. -/
abbrev pl0_0 (r : Buf (Elt F) ((thr0 d L).loc cc0_scratch1)) : sProp 𝕄 := (rPl0_0).view.loc (thr0 d L) ↦[(rPl0_0).view.set]{fullShare} r
abbrev pl0_1 (r : Buf (Elt F) ((thr0 d L).loc cc0_scratch1)) : sProp 𝕄 := (rPl0_1).view.loc (thr0 d L) ↦[(rPl0_1).view.set]{fullShare} r
abbrev pl0_2 (r : Buf (Elt F) ((thr0 d L).loc cc0_scratch1)) : sProp 𝕄 := (rPl0_2).view.loc (thr0 d L) ↦[(rPl0_2).view.set]{fullShare} r
abbrev pl0_3 (r : Buf (Elt F) ((thr0 d L).loc cc0_scratch1)) : sProp 𝕄 := (rPl0_3).view.loc (thr0 d L) ↦[(rPl0_3).view.set]{fullShare} r

/-- The row scratch and the write-out semaphores after `n` active trips: none done, the planes and the semaphores
    rest; else the last trip's four write-outs are in flight. -/
def rowsPart0 (n : ℕ) : sProp 𝕄 :=
  if hn : 0 < n then
    if hk : n - 1 < k0_t1_loop.trips then
      if hA : Act0 L ⟨n - 1, hk⟩ then
        iprop(∃ r0 r1 r2 r3, Transfers.Flight countersEmb (thr0 d L) (SemLoc.dma cc0_scratch6.sem) (default : HIx 5) 524288 (wDeliv0 d L X I ⟨n - 1, hk⟩ hA 0 (pl0_0 d L r0))
          ∗ Transfers.Flight countersEmb (thr0 d L) (SemLoc.dma cc0_scratch7.sem) (default : HIx 5) 524288 (wDeliv0 d L X I ⟨n - 1, hk⟩ hA 1 (pl0_1 d L r1))
          ∗ Transfers.Flight countersEmb (thr0 d L) (SemLoc.dma cc0_scratch8.sem) (default : HIx 5) 524288 (wDeliv0 d L X I ⟨n - 1, hk⟩ hA 2 (pl0_2 d L r2))
          ∗ Transfers.Flight countersEmb (thr0 d L) (SemLoc.dma cc0_scratch9.sem) (default : HIx 5) 524288 (wDeliv0 d L X I ⟨n - 1, hk⟩ hA 3 (pl0_3 d L r3)))
      else iprop(False)
    else iprop(False)
  else
    iprop((semVal (cellD0 d L cc0_scratch6) 0 ∗ ∃ r, pl0_0 d L r) ∗ (semVal (cellD0 d L cc0_scratch7) 0 ∗ ∃ r, pl0_1 d L r)
      ∗ (semVal (cellD0 d L cc0_scratch8) 0 ∗ ∃ r, pl0_2 d L r) ∗ (semVal (cellD0 d L cc0_scratch9) 0 ∗ ∃ r, pl0_3 d L r))

/-- The result's windows after `n` active trips: the trips before the last at the gathered array, the last one's
    in flight, the later ones as found. -/
def outPart0 (n : ℕ) : sProp 𝕄 :=
  bigSep Finset.univ fun t : Fin k0_t1_loop.trips =>
    if t.val + 1 < n then oTrip0 d L (gath (F := F) X I) t else if t.val + 1 = n then iprop(emp) else oTrip0 d L G t

/-- The loop's invariant before trip `k`. -/
def inv0 (O : CellTallies nD τ sig (HIx 5)) (W : Waits sig (HIx 5)) (k : ℕ) (_ : PUnit) : sProp 𝕄 :=
  iprop(Transfers.MayWaits (thr0 d L) (none : HIx 5) O
    ∗ (((xW).view.loc (thr0 d L) ↦{Transfers.shareDrop q 4} X) ∗ ((xW).view.loc (thr0 d L) ↦{Transfers.shareTok q 4 0} X) ∗ ((xW).view.loc (thr0 d L) ↦{Transfers.shareTok q 4 1} X)
        ∗ ((xW).view.loc (thr0 d L) ↦{Transfers.shareTok q 4 2} X) ∗ ((xW).view.loc (thr0 d L) ↦{Transfers.shareTok q 4 3} X))
    ∗ idxPart0 d L q I k
    ∗ (semVal (cellD0 d L cc0_scratch2) 0 ∗ semVal (cellD0 d L cc0_scratch3) 0 ∗ semVal (cellD0 d L cc0_scratch4) 0 ∗ semVal (cellD0 d L cc0_scratch5) 0)
    ∗ rowsPart0 d L X I (cnt0 L k)
    ∗ outPart0 d L X I G (cnt0 L k)
    ∗ ∃ W', ⌜∀ p ∈ W', p ∈ W ∨ p.2 = none⌝ ∗ owes (thr0 d L) O W')

/-! ## Geometry of the index scratch: the two slots, the four index lists -/

omit [FloatOps F] in
/-- The slot a prefetch writes (slot `1 - k % 2`) and the slot the trip reads (slot `k % 2`) are disjoint. -/
theorem slots_disj0 (k : Fin k0_t1_loop.trips) (hA : Act0 L k) (h2 : k0_cond2 L k = 1#1) :
    Disjoint (((sI).slice (Rect.unit (s := S2x4x128) (k0_off4 k) S1x4x128.size (k0_off4_inb L k hA h2)) (fun _ => rfl)).squeeze S4x128 squeezes_S1x4x128_S4x128).view.set
      (sSl0 L k hA).view.set := by
  show Disjoint ((((sI).view.slice (Rect.unit (s := S2x4x128) (k0_off4 k) S1x4x128.size (k0_off4_inb L k hA h2))).reshape S4x128 squeezes_S1x4x128_S4x128.numel_eq).set)
    ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  refine Rect.unit_disjoint 0 ?_
  rw [k0_off4_eq, k0_off2_eq]
  simp
  omega
omit [FloatOps F] in
theorem list6_disj0 (k : Fin k0_t1_loop.trips) (hA : Act0 L k) (h2 : k0_cond2 L k = 1#1) :
    Disjoint (((sI).slice (Rect.unit (s := S2x4x128) (k0_off6 k) S1x1x128.size (k0_off6_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off6 k) S1x1x128.size (k0_off6_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off6_eq]
  simp
  omega

omit [FloatOps F] in
/-- Index list `0` of the trip lies in the trip's slot. -/
theorem list6_sub0 (k : Fin k0_t1_loop.trips) (hA : Act0 L k) :
    (((sI).slice (Rect.unit (s := S2x4x128) (k0_off6 k) S1x1x128.size (k0_off6_inb L k hA)) (fun _ => rfl)).squeeze S128 squeezes_S1x1x128_S128).view.set
      ⊆ (sSl0 L k hA).view.set := by
  show ((((sI).view.slice (Rect.unit (s := S2x4x128) (k0_off6 k) S1x1x128.size (k0_off6_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off6 k) S1x1x128.size (k0_off6_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list6_disj0 L k hA h2) hi) hm)]
  exact hS i (list6_sub0 L k hA hi)

/-- So the words of index list `0` name rows of the table. -/
theorem list6_inr0 (k : Fin k0_t1_loop.trips) (hA : Act0 L k) (S' : Buf (Elt F) ((thr0 d L).loc cc0_scratch0))
    (hS' : ∀ i ∈ (((sI).slice (Rect.unit (s := S2x4x128) (k0_off6 k) S1x1x128.size (k0_off6_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off6 k) S1x1x128.size (k0_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj0 (k : Fin k0_t1_loop.trips) (hA : Act0 L k) (h2 : k0_cond2 L k = 1#1) :
    Disjoint (((sI).slice (Rect.unit (s := S2x4x128) (k0_off7 k) S1x1x128.size (k0_off7_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off7 k) S1x1x128.size (k0_off7_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off7_eq]
  simp
  omega

omit [FloatOps F] in
/-- Index list `1` of the trip lies in the trip's slot. -/
theorem list7_sub0 (k : Fin k0_t1_loop.trips) (hA : Act0 L k) :
    (((sI).slice (Rect.unit (s := S2x4x128) (k0_off7 k) S1x1x128.size (k0_off7_inb L k hA)) (fun _ => rfl)).squeeze S128 squeezes_S1x1x128_S128).view.set
      ⊆ (sSl0 L k hA).view.set := by
  show ((((sI).view.slice (Rect.unit (s := S2x4x128) (k0_off7 k) S1x1x128.size (k0_off7_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off7 k) S1x1x128.size (k0_off7_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list7_disj0 L k hA h2) hi) hm)]
  exact hS i (list7_sub0 L k hA hi)

/-- So the words of index list `1` name rows of the table. -/
theorem list7_inr0 (k : Fin k0_t1_loop.trips) (hA : Act0 L k) (S' : Buf (Elt F) ((thr0 d L).loc cc0_scratch0))
    (hS' : ∀ i ∈ (((sI).slice (Rect.unit (s := S2x4x128) (k0_off7 k) S1x1x128.size (k0_off7_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off7 k) S1x1x128.size (k0_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj0 (k : Fin k0_t1_loop.trips) (hA : Act0 L k) (h2 : k0_cond2 L k = 1#1) :
    Disjoint (((sI).slice (Rect.unit (s := S2x4x128) (k0_off8 k) S1x1x128.size (k0_off8_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off8 k) S1x1x128.size (k0_off8_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off8_eq]
  simp
  omega

omit [FloatOps F] in
/-- Index list `2` of the trip lies in the trip's slot. -/
theorem list8_sub0 (k : Fin k0_t1_loop.trips) (hA : Act0 L k) :
    (((sI).slice (Rect.unit (s := S2x4x128) (k0_off8 k) S1x1x128.size (k0_off8_inb L k hA)) (fun _ => rfl)).squeeze S128 squeezes_S1x1x128_S128).view.set
      ⊆ (sSl0 L k hA).view.set := by
  show ((((sI).view.slice (Rect.unit (s := S2x4x128) (k0_off8 k) S1x1x128.size (k0_off8_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off8 k) S1x1x128.size (k0_off8_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list8_disj0 L k hA h2) hi) hm)]
  exact hS i (list8_sub0 L k hA hi)

/-- So the words of index list `2` name rows of the table. -/
theorem list8_inr0 (k : Fin k0_t1_loop.trips) (hA : Act0 L k) (S' : Buf (Elt F) ((thr0 d L).loc cc0_scratch0))
    (hS' : ∀ i ∈ (((sI).slice (Rect.unit (s := S2x4x128) (k0_off8 k) S1x1x128.size (k0_off8_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off8 k) S1x1x128.size (k0_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj0 (k : Fin k0_t1_loop.trips) (hA : Act0 L k) (h2 : k0_cond2 L k = 1#1) :
    Disjoint (((sI).slice (Rect.unit (s := S2x4x128) (k0_off9 k) S1x1x128.size (k0_off9_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off9 k) S1x1x128.size (k0_off9_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off9_eq]
  simp
  omega

omit [FloatOps F] in
/-- Index list `3` of the trip lies in the trip's slot. -/
theorem list9_sub0 (k : Fin k0_t1_loop.trips) (hA : Act0 L k) :
    (((sI).slice (Rect.unit (s := S2x4x128) (k0_off9 k) S1x1x128.size (k0_off9_inb L k hA)) (fun _ => rfl)).squeeze S128 squeezes_S1x1x128_S128).view.set
      ⊆ (sSl0 L k hA).view.set := by
  show ((((sI).view.slice (Rect.unit (s := S2x4x128) (k0_off9 k) S1x1x128.size (k0_off9_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off9 k) S1x1x128.size (k0_off9_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list9_disj0 L k hA h2) hi) hm)]
  exact hS i (list9_sub0 L k hA hi)

/-- So the words of index list `3` name rows of the table. -/
theorem list9_inr0 (k : Fin k0_t1_loop.trips) (hA : Act0 L k) (S' : Buf (Elt F) ((thr0 d L).loc cc0_scratch0))
    (hS' : ∀ i ∈ (((sI).slice (Rect.unit (s := S2x4x128) (k0_off9 k) S1x1x128.size (k0_off9_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off9 k) S1x1x128.size (k0_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond0 : ∀ k : Fin k0_t1_loop.trips, 1 ≤ k.val →
    Scalar.cmpi CmpIPredicate.ne (Scalar.extui (Scalar.cmpi CmpIPredicate.sge (Scf.iv 0#32 1#32 k) 1#32)) 0#32 = 1#1 := by decide

end Cert.KernelIdeal.KP

end
-- ==== Proof.TileVal0.lean ====
/-
  The values the task's transfers carry, call 0.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody0b
import Idealize.ShloMosaic.Lib.ValueLayout

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable (d : Dev nD) (L : grid0.Coords)

/-! ## The slot and the chunk a trip prefetches are the next trip's; the first fetch's are trip 0's -/

/-- A 1 × 4 × 128 window of the index scratch, squeezed: its elements are its rectangle's. -/
theorem set_slot0 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc0_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk0 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v8_scv : Ref sig .scVector)).slice (Rect.unit (s := S250x4x128) off S1x4x128.size inb)).reshape S4x128 squeezes_S1x4x128_S4x128.numel_eq).set = _
  rw [View.set_reshape, View.set_slice_whole]

/-- Unit rectangles of one size at equal offsets have the same elements. -/
theorem unit_set_congr {s : Shape} {off off' size : Fin s.rank → ℕ} {inb inb'} (h : off = off') :
    (Rect.unit (s := s) off size inb).set = (Rect.unit (s := s) off' size inb').set := by
  subst h; rfl

theorem slot_next_set0 (k k' : Fin k0_t1_loop.trips) (hk : k'.val = k.val + 1) (hA : Act0 L k) (hA' : Act0 L k') (h2 : k0_cond2 L k = 1#1) :
    (sSl0 L k' hA').view.set
      = (((sI).slice (Rect.unit (s := S2x4x128) (k0_off4 k) S1x4x128.size (k0_off4_inb L k hA h2)) (fun _ => rfl)).squeeze S4x128 squeezes_S1x4x128_S4x128).view.set := by
  rw [set_slot0, set_slot0]
  refine unit_set_congr ?_
  have e : (k.val + 1) % 2 = 1 - k.val % 2 := by omega
  rw [k0_off2_eq, k0_off4_eq, hk, e]

theorem chunk_next_set0 (k k' : Fin k0_t1_loop.trips) (hk : k'.val = k.val + 1) (hA : Act0 L k) (hA' : Act0 L k') (h2 : k0_cond2 L k = 1#1) :
    (iCh0 L k' hA').view.set
      = (((iW).slice (Rect.unit (s := S250x4x128) (k0_off5 L k) S1x4x128.size (k0_off5_inb L k hA h2)) (fun _ => rfl)).squeeze S4x128 squeezes_S1x4x128_S4x128).view.set := by
  rw [set_chunk0, set_chunk0]
  refine unit_set_congr ?_
  have e : 2 * (L 1).val + (L 0).val + 32 * (k.val + 1) = 2 * (L 1).val + (L 0).val + 32 * k.val + 32 := by omega
  rw [k0_off3_eq, k0_off5_eq, hk, e]

theorem slot_first_set0 (h0 : 0 < k0_t1_loop.trips) (hA0 : Act0 L ⟨0, h0⟩) :
    (sSl0 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot0, set_slot0]
  refine unit_set_congr ?_
  rw [k0_off2_eq]
  rfl

theorem chunk_first_set0 (h0 : 0 < k0_t1_loop.trips) (hA0 : Act0 L ⟨0, h0⟩) :
    (iCh0 L ⟨0, h0⟩ hA0).view.set
      = (((iW).slice (Rect.unit (s := S250x4x128) (k0_off1 L) S1x4x128.size (k0_off1_inb L)) (fun _ => rfl)).squeeze S4x128 squeezes_S1x4x128_S4x128).view.set := by
  rw [set_chunk0, set_chunk0]
  refine unit_set_congr ?_
  rw [k0_off3_eq, k0_off1_eq]
  rfl

/-! ## What an index fetch lands: the chunk's words, in the slot -/

/-- A squeeze of a 1 × 4 × 128 index puts the unit axis back in front. -/
theorem sq_4x128 (y : S4x128.Idx) :
    Shape.reshapeEquiv squeezes_S1x4x128_S4x128.numel_eq y = ix3 (⟨0, Nat.one_pos⟩ : Fin 1) (y 0) (y 1) := by
  exact (congrArg _ (eq_ix2 y)).trans (reshapeEquiv_ix2_1ab (a := 4) (b := 128) squeezes_S1x4x128_S4x128.numel_eq (y 0) (y 1))

/-- Where element `y` of a squeezed 1 × 4 × 128 window of the index scratch at offsets `off` lies. -/
theorem emb_slot0 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk0 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc0 d))

/-- A fetch of chunk `n` (below 250) into slot `p` leaves, on that slot, the words the slot image of a trip whose chunk
    is `n` shows. -/
theorem fetch_agrees0 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid0 L + 32 * t) % 250 = n)
    (S : Buf (Elt F) ((thr0 d L).loc cc0_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg0 d L I t i := by
  intro i hi
  obtain ⟨y, -, rfl⟩ := Finset.mem_map.mp hi
  rw [View.write_emb_of_mem _ _ (Finset.mem_univ y)]
  unfold slotImg0
  show I ((((iW).slice (Rect.unit (s := S250x4x128) offC S1x4x128.size inbC) (fun _ => rfl)).squeeze S4x128 squeezes_S1x4x128_S4x128).view.emb y) = I _
  congr 1
  funext a
  apply Fin.ext
  have c0 := emb_chunk0 offC inbC y 0
  have c1 := emb_chunk0 offC inbC y 1
  have c2 := emb_chunk0 offC inbC y 2
  have s1 := emb_slot0 offS inbS y 1
  have s2 := emb_slot0 offS inbS y 2
  subst hS hC
  match a with
  | 0 => exact c0.trans (show n + 0 = (wid0 L + 32 * t) % 250 from by omega)
  | 1 => exact c1.trans s1.symm
  | 2 => exact c2.trans s2.symm

/-- The prefetched slot shows the NEXT trip's chunk. -/
theorem slot_agree_next0 (k k' : Fin k0_t1_loop.trips) (hk : k'.val = k.val + 1) (hA : Act0 L k) (hA' : Act0 L k') (h2 : k0_cond2 L k = 1#1)
    (S : Buf (Elt F) ((thr0 d L).loc cc0_scratch0)) :
    SlotAgrees0 d L I k' hA' (View.write (Elt F) (((sI).slice (Rect.unit (s := S2x4x128) (k0_off4 k) S1x4x128.size (k0_off4_inb L k hA h2)) (fun _ => rfl)).squeeze S4x128 squeezes_S1x4x128_S4x128).view S
      (ReadAs.same.apply (View.read (Elt F) (((iW).slice (Rect.unit (s := S250x4x128) (k0_off5 L k) S1x4x128.size (k0_off5_inb L k hA h2)) (fun _ => rfl)).squeeze S4x128 squeezes_S1x4x128_S4x128).view I)) Finset.univ) := by
  intro i hi
  rw [slot_next_set0 L k k' hk hA hA' h2] at hi
  have hlt : wid0 L + 32 * k'.val < 250 := (tb0_act_iff L k').mp hA'
  exact fetch_agrees0 d L I (k0_off4 k) (k0_off4_inb L k hA h2) (k0_off5 L k) (k0_off5_inb L k hA h2) (1 - k.val % 2) (wid0 L + 32 * k.val + 32) k'.val (k0_off4_eq k) (k0_off5_eq L k)
    (by rw [hk] at hlt ⊢; omega) S i hi

/-- The first fetch's slot shows trip 0's chunk. -/
theorem slot_agree_first0 (h0 : 0 < k0_t1_loop.trips) (hA0 : Act0 L ⟨0, h0⟩) (S : Buf (Elt F) ((thr0 d L).loc cc0_scratch0)) :
    SlotAgrees0 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k0_off1 L) S1x4x128.size (k0_off1_inb L)) (fun _ => rfl)).squeeze S4x128 squeezes_S1x4x128_S4x128).view I)) Finset.univ) := by
  intro i hi
  rw [slot_first_set0 L h0 hA0] at hi
  have hlt : wid0 L + 32 * (⟨0, h0⟩ : Fin k0_t1_loop.trips).val < 250 := (tb0_act_iff L ⟨0, h0⟩).mp hA0
  exact fetch_agrees0 d L I ![0, 0, 0] inb_S2x4x128_S1x4x128_0_0_0 (k0_off1 L) (k0_off1_inb L) 0 (wid0 L) 0 rfl (k0_off1_eq L) (by simp only [] at hlt; omega) S i hi

/-! ## What a write-out carries: the gathered array on its window -/

/-- A squeeze of a 1 × 128 × 128 index puts the unit axis back in front. -/
theorem sq_128x128 (y : S128x128.Idx) :
    Shape.reshapeEquiv squeezes_S1x128x128_S128x128.numel_eq y = ix3 (⟨0, Nat.one_pos⟩ : Fin 1) (y 0) (y 1) :=
  (congrArg _ (eq_ix2 y)).trans (reshapeEquiv_ix2_1ab (a := 128) (b := 128) squeezes_S1x128x128_S128x128.numel_eq (y 0) (y 1))

/-- A squeeze of a 1 × 1 × 128 index puts the two unit axes back in front. -/
theorem sq_128 (x : S128.Idx) :
    Shape.reshapeEquiv squeezes_S1x1x128_S128.numel_eq x
      = ix3 (⟨0, Nat.one_pos⟩ : Fin 1) (⟨0, Nat.one_pos⟩ : Fin 1) (⟨(x 0).val, (x 0).isLt⟩ : Fin 128) :=
  Shape.reshapeEquiv_eq_of_rowMajor squeezes_S1x1x128_S128.numel_eq (by
    have h3 := Shape.rowMajor_val_three (d := ![1, 1, 128]) (ix3 (⟨0, Nat.one_pos⟩ : Fin 1) (⟨0, Nat.one_pos⟩ : Fin 1) (⟨(x 0).val, (x 0).isLt⟩ : Fin 128))
    have h1 := Shape.rowMajor_val_one (d := ![128]) x
    refine h3.trans (Eq.trans ?_ h1.symm)
    show ((0 * 1 + 0) * 128 + (x 0).val) = (x 0).val
    simp only [Nat.zero_mul, Nat.zero_add])

/-- Entry `k` of a rank-one list in row-major order is its entry `k`. -/
theorem rowMajor_symm_128 (k : Fin S128.numel) : (S128.rowMajor.symm k) 0 = ⟨k.val, k.isLt⟩ := by
  apply Fin.ext
  have h := Shape.rowMajor_val_one (d := ![128]) (S128.rowMajor.symm k)
  rw [Equiv.apply_symm_apply] at h
  exact h.symm

/-- Where element `y` of a squeezed 1 × 128 × 128 window of the result at offsets `off` lies. -/
theorem emb_win0 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list0 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The table sliced whole places every index at itself. -/
theorem emb_x0 (z : S160000x128.Idx) :
    ((xW).slice (Rect.unit (s := S160000x128) ![0, 0] S160000x128.size inb_S160000x128_S160000x128_0_0) (fun _ => rfl)).view.emb z = z := by
  show (Rect.unit (s := S160000x128) ![0, 0] S160000x128.size inb_S160000x128_S160000x128_0_0).emb z = z
  funext a
  apply Fin.ext
  rw [Rect.emb_apply]
  match a with
  | 0 => show 0 + 1 * (z 0).val = (z 0).val; omega
  | 1 => show 0 + 1 * (z 1).val = (z 1).val; omega

/-- The general form: a window of the result at offsets `(j, 128 n, 0)`, written with what a plane of the row scratch
    reads after a gather of the table's rows named by the index list at offsets `(p, j, 0)` of the index scratch, holds
    the gathered array — when the scratch shows there the words of chunk `n`. -/
theorem win_val_gen0 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid0 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc0 d)) (S' : Buf (Elt F) ((thr0 d L).loc cc0_scratch0))
    (hS' : ∀ i ∈ (((sI).slice (Rect.unit (s := S2x4x128) offL S1x1x128.size inbL) (fun _ => rfl)).squeeze S128 squeezes_S1x1x128_S128).view.set, S' i = slotImg0 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win0 offW inbW y 0
  have w1 := emb_win0 offW inbW y 1
  have w2 := emb_win0 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg0
    congr 2
    have l1 := emb_list0 ![p, j.val, 0] inbL (S128.rowMajor.symm (Fin.cast hnum.symm (y gathers_S160000x128_S128x128.axis'))) 1
    have l2 := emb_list0 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val0_0 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off6 k) S1x1x128.size (k0_off6_inb L k hA)) (fun _ => rfl)).squeeze S128 squeezes_S1x1x128_S128).view.set, S' i = slotImg0 d L I k.val i)
    (hin : ∀ x : S128.Idx, (View.read (Elt F) (((sI).slice (Rect.unit (s := S2x4x128) (k0_off6 k) S1x1x128.size (k0_off6_inb L k hA)) (fun _ => rfl)).squeeze S128 squeezes_S1x1x128_S128).view S' x).toNat < 160000)
    (hI : ∀ i, (I i).toNat < 160000) :
    ∀ i ∈ (oWin0_0 L k hA).view.set,
      (oWin0_0 L k hA).view.writes (Elt F) G [⟨Rect.whole S128x128, ReadAs.same.apply (View.read (Elt F) (rPl0_0).view ((rPl0_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off6 k) S1x1x128.size (k0_off6_inb L k hA)) (fun _ => rfl)).squeeze S128 squeezes_S1x1x128_S128).view S') (by decide) hin)⟩]))⟩] i
        = gath (F := F) X I i :=
  win_val_gen0 d L I X (k0_off10 L k) (k0_off10_inb L k hA) (k0_off6 k) (k0_off6_inb L k hA) 0 (k.val % 2) (wid0 L + 32 * k.val)
    (256 * (L 1).val + 128 * (L 0).val + 4096 * k.val) k.val (k0_off10_eq L k)
    (show 256 * (L 1).val + 128 * (L 0).val + 4096 * k.val = 128 * (2 * (L 1).val + (L 0).val + 32 * k.val) by omega)
    (k0_off6_eq k) (Nat.mod_eq_of_lt ((tb0_act_iff L k).mp hA)) (rPl0_0).view r (by decide) G S' hS' hin hI

/-- Plane 1 of a trip: its window of the result, written with the plane of the row scratch after the gather of the rows
    its index list names, holds the gathered array. -/
theorem win_val0_1 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off7 k) S1x1x128.size (k0_off7_inb L k hA)) (fun _ => rfl)).squeeze S128 squeezes_S1x1x128_S128).view.set, S' i = slotImg0 d L I k.val i)
    (hin : ∀ x : S128.Idx, (View.read (Elt F) (((sI).slice (Rect.unit (s := S2x4x128) (k0_off7 k) S1x1x128.size (k0_off7_inb L k hA)) (fun _ => rfl)).squeeze S128 squeezes_S1x1x128_S128).view S' x).toNat < 160000)
    (hI : ∀ i, (I i).toNat < 160000) :
    ∀ i ∈ (oWin0_1 L k hA).view.set,
      (oWin0_1 L k hA).view.writes (Elt F) G [⟨Rect.whole S128x128, ReadAs.same.apply (View.read (Elt F) (rPl0_1).view ((rPl0_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off7 k) S1x1x128.size (k0_off7_inb L k hA)) (fun _ => rfl)).squeeze S128 squeezes_S1x1x128_S128).view S') (by decide) hin)⟩]))⟩] i
        = gath (F := F) X I i :=
  win_val_gen0 d L I X (k0_off11 L k) (k0_off11_inb L k hA) (k0_off7 k) (k0_off7_inb L k hA) 1 (k.val % 2) (wid0 L + 32 * k.val)
    (256 * (L 1).val + 128 * (L 0).val + 4096 * k.val) k.val (k0_off11_eq L k)
    (show 256 * (L 1).val + 128 * (L 0).val + 4096 * k.val = 128 * (2 * (L 1).val + (L 0).val + 32 * k.val) by omega)
    (k0_off7_eq k) (Nat.mod_eq_of_lt ((tb0_act_iff L k).mp hA)) (rPl0_1).view r (by decide) G S' hS' hin hI

/-- Plane 2 of a trip: its window of the result, written with the plane of the row scratch after the gather of the rows
    its index list names, holds the gathered array. -/
theorem win_val0_2 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off8 k) S1x1x128.size (k0_off8_inb L k hA)) (fun _ => rfl)).squeeze S128 squeezes_S1x1x128_S128).view.set, S' i = slotImg0 d L I k.val i)
    (hin : ∀ x : S128.Idx, (View.read (Elt F) (((sI).slice (Rect.unit (s := S2x4x128) (k0_off8 k) S1x1x128.size (k0_off8_inb L k hA)) (fun _ => rfl)).squeeze S128 squeezes_S1x1x128_S128).view S' x).toNat < 160000)
    (hI : ∀ i, (I i).toNat < 160000) :
    ∀ i ∈ (oWin0_2 L k hA).view.set,
      (oWin0_2 L k hA).view.writes (Elt F) G [⟨Rect.whole S128x128, ReadAs.same.apply (View.read (Elt F) (rPl0_2).view ((rPl0_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off8 k) S1x1x128.size (k0_off8_inb L k hA)) (fun _ => rfl)).squeeze S128 squeezes_S1x1x128_S128).view S') (by decide) hin)⟩]))⟩] i
        = gath (F := F) X I i :=
  win_val_gen0 d L I X (k0_off12 L k) (k0_off12_inb L k hA) (k0_off8 k) (k0_off8_inb L k hA) 2 (k.val % 2) (wid0 L + 32 * k.val)
    (256 * (L 1).val + 128 * (L 0).val + 4096 * k.val) k.val (k0_off12_eq L k)
    (show 256 * (L 1).val + 128 * (L 0).val + 4096 * k.val = 128 * (2 * (L 1).val + (L 0).val + 32 * k.val) by omega)
    (k0_off8_eq k) (Nat.mod_eq_of_lt ((tb0_act_iff L k).mp hA)) (rPl0_2).view r (by decide) G S' hS' hin hI

/-- Plane 3 of a trip: its window of the result, written with the plane of the row scratch after the gather of the rows
    its index list names, holds the gathered array. -/
theorem win_val0_3 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off9 k) S1x1x128.size (k0_off9_inb L k hA)) (fun _ => rfl)).squeeze S128 squeezes_S1x1x128_S128).view.set, S' i = slotImg0 d L I k.val i)
    (hin : ∀ x : S128.Idx, (View.read (Elt F) (((sI).slice (Rect.unit (s := S2x4x128) (k0_off9 k) S1x1x128.size (k0_off9_inb L k hA)) (fun _ => rfl)).squeeze S128 squeezes_S1x1x128_S128).view S' x).toNat < 160000)
    (hI : ∀ i, (I i).toNat < 160000) :
    ∀ i ∈ (oWin0_3 L k hA).view.set,
      (oWin0_3 L k hA).view.writes (Elt F) G [⟨Rect.whole S128x128, ReadAs.same.apply (View.read (Elt F) (rPl0_3).view ((rPl0_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off9 k) S1x1x128.size (k0_off9_inb L k hA)) (fun _ => rfl)).squeeze S128 squeezes_S1x1x128_S128).view S') (by decide) hin)⟩]))⟩] i
        = gath (F := F) X I i :=
  win_val_gen0 d L I X (k0_off13 L k) (k0_off13_inb L k hA) (k0_off9 k) (k0_off9_inb L k hA) 3 (k.val % 2) (wid0 L + 32 * k.val)
    (256 * (L 1).val + 128 * (L 0).val + 4096 * k.val) k.val (k0_off13_eq L k)
    (show 256 * (L 1).val + 128 * (L 0).val + 4096 * k.val = 128 * (2 * (L 1).val + (L 0).val + 32 * k.val) by omega)
    (k0_off9_eq k) (Nat.mod_eq_of_lt ((tb0_act_iff L k).mp hA)) (rPl0_3).view r (by decide) G S' hS' hin hI

end Cert.KernelIdeal.KP

end
-- ==== Proof.TileTrip0.lean ====
/-
  One trip of the loop of call 0's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The table's share as the remainder and one read token per gather semaphore. -/
def xPart0 : sProp 𝕄 :=
  iprop(((xW).view.loc (thr0 d L) ↦{Transfers.shareDrop q 4} X) ∗ ((xW).view.loc (thr0 d L) ↦{Transfers.shareTok q 4 0} X) ∗ ((xW).view.loc (thr0 d L) ↦{Transfers.shareTok q 4 1} X)
    ∗ ((xW).view.loc (thr0 d L) ↦{Transfers.shareTok q 4 2} X) ∗ ((xW).view.loc (thr0 d L) ↦{Transfers.shareTok q 4 3} X))
/-- The gather semaphores at rest. -/
def gsems0 : sProp 𝕄 :=
  iprop(semVal (cellD0 d L cc0_scratch2) 0 ∗ semVal (cellD0 d L cc0_scratch3) 0 ∗ semVal (cellD0 d L cc0_scratch4) 0 ∗ semVal (cellD0 d L cc0_scratch5) 0)
/-- The index fetch of an active trip `t` in flight. -/
def idxFly0 (t : Fin k0_t1_loop.trips) (h : Act0 L t) : sProp 𝕄 :=
  iprop(∃ S, ⌜SlotAgrees0 d L I t h S⌝
    ∗ Transfers.Flight countersEmb (thr0 d L) (SemLoc.dma cc0_scratch10.sem) (default : HIx 5) 16384 (idxDeliv0 d L q I t h S)
    ∗ ((iW).view.loc (thr0 d L) ↦[Finset.univ \ (iCh0 L t h).view.set]{q} I)
    ∗ ((sI).view.loc (thr0 d L) ↦[Finset.univ \ (sSl0 L t h).view.set]{fullShare} S))
/-- The four write-outs of an active trip `t` in flight. -/
def rowsFly0 (t : Fin k0_t1_loop.trips) (h : Act0 L t) : sProp 𝕄 :=
  iprop(∃ r0 r1 r2 r3, Transfers.Flight countersEmb (thr0 d L) (SemLoc.dma cc0_scratch6.sem) (default : HIx 5) 524288 (wDeliv0 d L X I t h 0 (pl0_0 d L r0))
    ∗ Transfers.Flight countersEmb (thr0 d L) (SemLoc.dma cc0_scratch7.sem) (default : HIx 5) 524288 (wDeliv0 d L X I t h 1 (pl0_1 d L r1))
    ∗ Transfers.Flight countersEmb (thr0 d L) (SemLoc.dma cc0_scratch8.sem) (default : HIx 5) 524288 (wDeliv0 d L X I t h 2 (pl0_2 d L r2))
    ∗ Transfers.Flight countersEmb (thr0 d L) (SemLoc.dma cc0_scratch9.sem) (default : HIx 5) 524288 (wDeliv0 d L X I t h 3 (pl0_3 d L r3)))
omit [FloatOps F] in
/-- One more wait recorded at index `none` keeps the recorded waits within `W` and index `none`. -/
theorem none_ins0 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart0 (O : CellTallies nD τ sig (HIx 5)) (W : Waits sig (HIx 5)) : sProp 𝕄 :=
  iprop(∃ W', ⌜∀ p ∈ W', p ∈ W ∨ p.2 = none⌝ ∗ owes (thr0 d L) O W')

/-- The index side at rest: the semaphore at zero, block and scratch whole. -/
def idxIdle0 : sProp 𝕄 :=
  iprop(semVal (cellD0 d L cc0_scratch10) 0 ∗ ((iW).view.loc (thr0 d L) ↦{q} I) ∗ ∃ S, (sI).view.loc (thr0 d L) ↦{fullShare} S)
/-- The row scratch and the write-out semaphores at rest. -/
def rowsIdle0 : sProp 𝕄 :=
  iprop((semVal (cellD0 d L cc0_scratch6) 0 ∗ ∃ r, pl0_0 d L r) ∗ (semVal (cellD0 d L cc0_scratch7) 0 ∗ ∃ r, pl0_1 d L r)
    ∗ (semVal (cellD0 d L cc0_scratch8) 0 ∗ ∃ r, pl0_2 d L r) ∗ (semVal (cellD0 d L cc0_scratch9) 0 ∗ ∃ r, pl0_3 d L r))

/-- On the first trip the loop's test `i ≥ 1` fails (in the words the body computes it with). -/
theorem lt1_cond0 : ∀ k : Fin k0_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA0 (O : CellTallies nD τ sig (HIx 5)) (W : Waits sig (HIx 5))
    (k tp k' : Fin k0_t1_loop.trips) (hp : tp.val + 1 = k.val) (hk' : k'.val = k.val + 1) (hA : Act0 L k) (hAp : Act0 L tp) (hA' : Act0 L k')
    (h2 : k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsFly0 d L X I tp hAp ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxFly0 d L q I k' hA' ∗ gsems0 d L ∗ rowsFly0 d L X I k hA
            ∗ oWins0 d L tp hAp (gath (F := F) X I) ∗ owesPart0 d L O W ∗ R) := by
  unfold xPart0 idxFly0 gsems0 rowsFly0 oWins0 owesPart0
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have hdisj := slots_disj0 L k hA h2
  have hd6 := list6_disj0 L k hA h2
  have hd7 := list7_disj0 L k hA h2
  have hd8 := list8_disj0 L k hA h2
  have hd9 := list9_disj0 L k hA h2
  have hk1 : 1 ≤ k.val := by omega
  have k0_h3 := ge1_cond0 k hk1
  sl_unfold [k0_t1_body]
  sl_exec
  have hin6 := list6_inr0 d L I k hA (tripA0.sl.HsI_w0 d L I k hA h2 S) (list6_agree0 d L I k hA h2 S hS _) hI
  have hin7 := list7_inr0 d L I k hA (tripA0.sl.HsI_w0 d L I k hA h2 S) (list7_agree0 d L I k hA h2 S hS _) hI
  have hin8 := list8_inr0 d L I k hA (tripA0.sl.HsI_w0 d L I k hA h2 S) (list8_agree0 d L I k hA h2 S hS _) hI
  have hin9 := list9_inr0 d L I k hA (tripA0.sl.HsI_w0 d L I k hA h2 S) (list9_agree0 d L I k hA h2 S hS _) hI
  sl_exec
  have hw0 : (((oWin0_0 L k hA).view.loc (thr0 d L) ↦[(oWin0_0 L k hA).view.set]{fullShare}
      ((oWin0_0 L k hA).view.writes (Elt F) G [⟨Rect.whole S128x128, tripA0.sl.dma0_1 d L X I k hA h2 S r0 hin6⟩])) : sProp 𝕄)
      = ((oW).view.loc (thr0 d L) ↦[oSet0 L k hA 0]{fullShare} gath (F := F) X I) :=
    pointsTo_congr (win_val0_0 d L I X k hA G r0 _ (list6_agree0 d L I k hA h2 S hS _) hin6 hI)
  have hw1 : (((oWin0_1 L k hA).view.loc (thr0 d L) ↦[(oWin0_1 L k hA).view.set]{fullShare}
      ((oWin0_1 L k hA).view.writes (Elt F) G [⟨Rect.whole S128x128, tripA0.sl.dma0_2 d L X I k hA h2 S r1 hin7⟩])) : sProp 𝕄)
      = ((oW).view.loc (thr0 d L) ↦[oSet0 L k hA 1]{fullShare} gath (F := F) X I) :=
    pointsTo_congr (win_val0_1 d L I X k hA G r1 _ (list7_agree0 d L I k hA h2 S hS _) hin7 hI)
  have hw2 : (((oWin0_2 L k hA).view.loc (thr0 d L) ↦[(oWin0_2 L k hA).view.set]{fullShare}
      ((oWin0_2 L k hA).view.writes (Elt F) G [⟨Rect.whole S128x128, tripA0.sl.dma0_3 d L X I k hA h2 S r2 hin8⟩])) : sProp 𝕄)
      = ((oW).view.loc (thr0 d L) ↦[oSet0 L k hA 2]{fullShare} gath (F := F) X I) :=
    pointsTo_congr (win_val0_2 d L I X k hA G r2 _ (list8_agree0 d L I k hA h2 S hS _) hin8 hI)
  have hw3 : (((oWin0_3 L k hA).view.loc (thr0 d L) ↦[(oWin0_3 L k hA).view.set]{fullShare}
      ((oWin0_3 L k hA).view.writes (Elt F) G [⟨Rect.whole S128x128, tripA0.sl.dma0_4 d L X I k hA h2 S r3 hin9⟩])) : sProp 𝕄)
      = ((oW).view.loc (thr0 d L) ↦[oSet0 L k hA 3]{fullShare} gath (F := F) X I) :=
    pointsTo_congr (win_val0_3 d L I X k hA G r3 _ (list9_agree0 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA0.sl.HsI_w0 d L I k hA h2 S)
    isplitr
    · ipureintro; exact slot_agree_next0 d L I k k' hk' hA hA' h2 S
    rw [slot_next_set0 L k k' hk' hA hA' h2, chunk_next_set0 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr0 d L) (sep_mono_left (Entails.of_eq hw0))) $$ Hf0
    isplitl [Hf1]
    · iapply (Transfers.Flight_mono countersEmb (thr0 d L) (sep_mono_left (Entails.of_eq hw1))) $$ Hf1
    isplitl [Hf2]
    · iapply (Transfers.Flight_mono countersEmb (thr0 d L) (sep_mono_left (Entails.of_eq hw2))) $$ Hf2
    · iapply (Transfers.Flight_mono countersEmb (thr0 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins0 (none_ins0 (none_ins0 (none_ins0 (none_ins0 (none_ins0 (none_ins0 (none_ins0 (none_ins0 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB0 (O : CellTallies nD τ sig (HIx 5)) (W : Waits sig (HIx 5))
    (k tp : Fin k0_t1_loop.trips) (hp : tp.val + 1 = k.val) (hA : Act0 L k) (hAp : Act0 L tp)
    (hn2 : ¬ k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsFly0 d L X I tp hAp ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxIdle0 d L q I ∗ gsems0 d L ∗ rowsFly0 d L X I k hA
            ∗ oWins0 d L tp hAp (gath (F := F) X I) ∗ owesPart0 d L O W ∗ R) := by
  unfold xPart0 idxFly0 idxIdle0 gsems0 rowsFly0 oWins0 owesPart0
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have k0_h2 : ¬ k0_cond2 L k = 1#1 := hn2
  have hk1 : 1 ≤ k.val := by omega
  have k0_h3 := ge1_cond0 k hk1
  have hin6 := list6_inr0 d L I k hA S (fun i hi => hS i (list6_sub0 L k hA hi)) hI
  have hin7 := list7_inr0 d L I k hA S (fun i hi => hS i (list7_sub0 L k hA hi)) hI
  have hin8 := list8_inr0 d L I k hA S (fun i hi => hS i (list8_sub0 L k hA hi)) hI
  have hin9 := list9_inr0 d L I k hA S (fun i hi => hS i (list9_sub0 L k hA hi)) hI
  sl_unfold [k0_t1_body]
  sl_exec
  have hw0 : (((oWin0_0 L k hA).view.loc (thr0 d L) ↦[(oWin0_0 L k hA).view.set]{fullShare}
      ((oWin0_0 L k hA).view.writes (Elt F) G [⟨Rect.whole S128x128, tripB0.sl.dma0 d L X k hA S r0 hin6⟩])) : sProp 𝕄)
      = ((oW).view.loc (thr0 d L) ↦[oSet0 L k hA 0]{fullShare} gath (F := F) X I) :=
    pointsTo_congr (win_val0_0 d L I X k hA G r0 S (fun i hi => hS i (list6_sub0 L k hA hi)) hin6 hI)
  have hw1 : (((oWin0_1 L k hA).view.loc (thr0 d L) ↦[(oWin0_1 L k hA).view.set]{fullShare}
      ((oWin0_1 L k hA).view.writes (Elt F) G [⟨Rect.whole S128x128, tripB0.sl.dma0_1 d L X k hA S r1 hin7⟩])) : sProp 𝕄)
      = ((oW).view.loc (thr0 d L) ↦[oSet0 L k hA 1]{fullShare} gath (F := F) X I) :=
    pointsTo_congr (win_val0_1 d L I X k hA G r1 S (fun i hi => hS i (list7_sub0 L k hA hi)) hin7 hI)
  have hw2 : (((oWin0_2 L k hA).view.loc (thr0 d L) ↦[(oWin0_2 L k hA).view.set]{fullShare}
      ((oWin0_2 L k hA).view.writes (Elt F) G [⟨Rect.whole S128x128, tripB0.sl.dma0_2 d L X k hA S r2 hin8⟩])) : sProp 𝕄)
      = ((oW).view.loc (thr0 d L) ↦[oSet0 L k hA 2]{fullShare} gath (F := F) X I) :=
    pointsTo_congr (win_val0_2 d L I X k hA G r2 S (fun i hi => hS i (list8_sub0 L k hA hi)) hin8 hI)
  have hw3 : (((oWin0_3 L k hA).view.loc (thr0 d L) ↦[(oWin0_3 L k hA).view.set]{fullShare}
      ((oWin0_3 L k hA).view.writes (Elt F) G [⟨Rect.whole S128x128, tripB0.sl.dma0_3 d L X k hA S r3 hin9⟩])) : sProp 𝕄)
      = ((oW).view.loc (thr0 d L) ↦[oSet0 L k hA 3]{fullShare} gath (F := F) X I) :=
    pointsTo_congr (win_val0_3 d L I X k hA G r3 S (fun i hi => hS i (list9_sub0 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr0 d L) (sep_mono_left (Entails.of_eq hw0))) $$ Hf0
    isplitl [Hf1]
    · iapply (Transfers.Flight_mono countersEmb (thr0 d L) (sep_mono_left (Entails.of_eq hw1))) $$ Hf1
    isplitl [Hf2]
    · iapply (Transfers.Flight_mono countersEmb (thr0 d L) (sep_mono_left (Entails.of_eq hw2))) $$ Hf2
    · iapply (Transfers.Flight_mono countersEmb (thr0 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins0 (none_ins0 (none_ins0 (none_ins0 (none_ins0 (none_ins0 (none_ins0 (none_ins0 (none_ins0 (hW')))))))))

set_option maxHeartbeats 1000000 in
set_option sl_exec.dmaWindow true in
/-- The first trip: from its index fetch in flight and the row scratch at rest to the index fetch of trip 1 and its own
    four write-outs in flight. -/
theorem tripC0 (O : CellTallies nD τ sig (HIx 5)) (W : Waits sig (HIx 5))
    (k k' : Fin k0_t1_loop.trips) (hk0 : k.val = 0) (hk' : k'.val = k.val + 1) (hA : Act0 L k) (hA' : Act0 L k')
    (h2 : k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsIdle0 d L ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxFly0 d L q I k' hA' ∗ gsems0 d L ∗ rowsFly0 d L X I k hA ∗ owesPart0 d L O W ∗ R) := by
  unfold xPart0 idxFly0 gsems0 rowsIdle0 rowsFly0 oWins0 owesPart0
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have k0_h3 := lt1_cond0 k hk0
  have hdisj := slots_disj0 L k hA h2
  have hd6 := list6_disj0 L k hA h2
  have hd7 := list7_disj0 L k hA h2
  have hd8 := list8_disj0 L k hA h2
  have hd9 := list9_disj0 L k hA h2
  sl_unfold [k0_t1_body]
  sl_exec
  have hin6 := list6_inr0 d L I k hA (tripC0.sl.HsI_w0 d L I k hA h2 S) (list6_agree0 d L I k hA h2 S hS _) hI
  have hin7 := list7_inr0 d L I k hA (tripC0.sl.HsI_w0 d L I k hA h2 S) (list7_agree0 d L I k hA h2 S hS _) hI
  have hin8 := list8_inr0 d L I k hA (tripC0.sl.HsI_w0 d L I k hA h2 S) (list8_agree0 d L I k hA h2 S hS _) hI
  have hin9 := list9_inr0 d L I k hA (tripC0.sl.HsI_w0 d L I k hA h2 S) (list9_agree0 d L I k hA h2 S hS _) hI
  sl_exec
  have hw0 : (((oWin0_0 L k hA).view.loc (thr0 d L) ↦[(oWin0_0 L k hA).view.set]{fullShare}
      ((oWin0_0 L k hA).view.writes (Elt F) G [⟨Rect.whole S128x128, tripC0.sl.dma0_1 d L X I k hA h2 S r0 hin6⟩])) : sProp 𝕄)
      = ((oW).view.loc (thr0 d L) ↦[oSet0 L k hA 0]{fullShare} gath (F := F) X I) :=
    pointsTo_congr (win_val0_0 d L I X k hA G r0 _ (list6_agree0 d L I k hA h2 S hS _) hin6 hI)
  have hw1 : (((oWin0_1 L k hA).view.loc (thr0 d L) ↦[(oWin0_1 L k hA).view.set]{fullShare}
      ((oWin0_1 L k hA).view.writes (Elt F) G [⟨Rect.whole S128x128, tripC0.sl.dma0_2 d L X I k hA h2 S r1 hin7⟩])) : sProp 𝕄)
      = ((oW).view.loc (thr0 d L) ↦[oSet0 L k hA 1]{fullShare} gath (F := F) X I) :=
    pointsTo_congr (win_val0_1 d L I X k hA G r1 _ (list7_agree0 d L I k hA h2 S hS _) hin7 hI)
  have hw2 : (((oWin0_2 L k hA).view.loc (thr0 d L) ↦[(oWin0_2 L k hA).view.set]{fullShare}
      ((oWin0_2 L k hA).view.writes (Elt F) G [⟨Rect.whole S128x128, tripC0.sl.dma0_3 d L X I k hA h2 S r2 hin8⟩])) : sProp 𝕄)
      = ((oW).view.loc (thr0 d L) ↦[oSet0 L k hA 2]{fullShare} gath (F := F) X I) :=
    pointsTo_congr (win_val0_2 d L I X k hA G r2 _ (list8_agree0 d L I k hA h2 S hS _) hin8 hI)
  have hw3 : (((oWin0_3 L k hA).view.loc (thr0 d L) ↦[(oWin0_3 L k hA).view.set]{fullShare}
      ((oWin0_3 L k hA).view.writes (Elt F) G [⟨Rect.whole S128x128, tripC0.sl.dma0_4 d L X I k hA h2 S r3 hin9⟩])) : sProp 𝕄)
      = ((oW).view.loc (thr0 d L) ↦[oSet0 L k hA 3]{fullShare} gath (F := F) X I) :=
    pointsTo_congr (win_val0_3 d L I X k hA G r3 _ (list9_agree0 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC0.sl.HsI_w0 d L I k hA h2 S)
    isplitr
    · ipureintro; exact slot_agree_next0 d L I k k' hk' hA hA' h2 S
    rw [slot_next_set0 L k k' hk' hA hA' h2, chunk_next_set0 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr0 d L) (sep_mono_left (Entails.of_eq hw0))) $$ Hw0
    isplitl [Hw1]
    · iapply (Transfers.Flight_mono countersEmb (thr0 d L) (sep_mono_left (Entails.of_eq hw1))) $$ Hw1
    isplitl [Hw2]
    · iapply (Transfers.Flight_mono countersEmb (thr0 d L) (sep_mono_left (Entails.of_eq hw2))) $$ Hw2
    · iapply (Transfers.Flight_mono countersEmb (thr0 d L) (sep_mono_left (Entails.of_eq hw3))) $$ Hw3
  isplitr [HR]
  rotate_left
  · iexact HR
  iexists _
  isplitr
  rotate_left
  · iexact HO
  · ipureintro
    exact none_ins0 (none_ins0 (none_ins0 (none_ins0 (none_ins0 (hW')))))

/-- An idle trip (its chunk number is 250 or more) does nothing. -/
theorem tripI0 (k : Fin k0_t1_loop.trips) (hnA : ¬ Act0 L k) (R : sProp 𝕄) :
    R ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => R := by
  iintro HR
  have k0_h1 : ¬ k0_cond1 L k = 1#1 := hnA
  sl_unfold [k0_t1_body]
  sl_exec
  sl_step
  iexact HR

end Cert.KernelIdeal.KP

end
-- ==== Proof.TileOut0.lean ====
/-
  The result's windows through the loop of call 0's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody0b

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable (d : Dev nD) (L : grid0.Coords)

/-! ## Which trips are active -/

theorem wid_lt0 : wid0 L < 32 := by
  have h0 : (L 0).val < 2 := (L 0).isLt
  have h1 : (L 1).val < 16 := (L 1).isLt
  show 2 * (L 1).val + (L 0).val < 32
  omega

theorem act_iff_lt0 (t : Fin k0_t1_loop.trips) : Act0 L t ↔ t.val < nAct0 L := by
  have hw := wid_lt0 L
  refine (tb0_act_iff L t).trans ?_
  show wid0 L + 32 * t.val < 250 ↔ t.val < (250 - wid0 L + 31) / 32
  omega

theorem nAct_bounds0 : 7 ≤ nAct0 L ∧ nAct0 L ≤ 8 := by
  have hw := wid_lt0 L
  show 7 ≤ (250 - wid0 L + 31) / 32 ∧ (250 - wid0 L + 31) / 32 ≤ 8
  omega

theorem pre_iff_lt0 (k : Fin k0_t1_loop.trips) : k0_cond2 L k = 1#1 ↔ k.val + 1 < nAct0 L := by
  have hw := wid_lt0 L
  refine (tb0_pre_iff L k).trans ?_
  show wid0 L + 32 * k.val + 32 < 250 ↔ k.val + 1 < (250 - wid0 L + 31) / 32
  omega

theorem cnt_act0 (k : Fin k0_t1_loop.trips) (hA : Act0 L k) : cnt0 L k.val = k.val ∧ cnt0 L (k.val + 1) = k.val + 1 := by
  have h := (act_iff_lt0 L k).mp hA
  show min k.val (nAct0 L) = k.val ∧ min (k.val + 1) (nAct0 L) = k.val + 1
  omega

theorem cnt_idle0 (k : Fin k0_t1_loop.trips) (hnA : ¬ Act0 L k) : cnt0 L k.val = nAct0 L ∧ cnt0 L (k.val + 1) = nAct0 L := by
  have h : ¬ k.val < nAct0 L := fun h => hnA ((act_iff_lt0 L k).mpr h)
  show min k.val (nAct0 L) = nAct0 L ∧ min (k.val + 1) (nAct0 L) = nAct0 L
  omega

theorem cnt_end0 : cnt0 L k0_t1_loop.trips = nAct0 L := by
  have h := (nAct_bounds0 L).2
  show min k0_t1_loop.trips (nAct0 L) = nAct0 L
  rw [tb0_trips]
  omega

/-! ## The windows' family -/

variable (X : Buf (Elt F) (xLoc d)) (I : Buf (Elt F) (iLoc0 d)) (G : Buf (Elt F) (oLoc0 d))

/-- Trip `t`'s windows after `n` active trips: at the gathered array, in flight, or as found. -/
def outPhi0 (n : ℕ) (t : Fin k0_t1_loop.trips) : sProp 𝕄 :=
  if t.val + 1 < n then oTrip0 d L (gath (F := F) X I) t else if t.val + 1 = n then iprop(emp) else oTrip0 d L G t

theorem outPart0_eq (n : ℕ) : outPart0 d L X I G n = bigSep Finset.univ (outPhi0 d L X I G n) := rfl

theorem outPhi0_done {n : ℕ} {t : Fin k0_t1_loop.trips} (h : t.val + 1 < n) : outPhi0 d L X I G n t = oTrip0 d L (gath (F := F) X I) t := by
  unfold outPhi0; rw [if_pos h]
theorem outPhi0_flight {n : ℕ} {t : Fin k0_t1_loop.trips} (h : t.val + 1 = n) : outPhi0 d L X I G n t = (iprop(emp) : sProp 𝕄) := by
  unfold outPhi0; rw [if_neg (by omega), if_pos h]
theorem outPhi0_found {n : ℕ} {t : Fin k0_t1_loop.trips} (h : n < t.val + 1) : outPhi0 d L X I G n t = oTrip0 d L G t := by
  unfold outPhi0; rw [if_neg (by omega), if_neg (by omega)]

/-- Before any trip every window is as found. -/
theorem out_init0 : (bigSep Finset.univ fun t : Fin k0_t1_loop.trips => oTrip0 d L G t) = outPart0 d L X I G 0 := by
  rw [outPart0_eq]
  exact bigSep_congr fun t _ => (outPhi0_found d L X I G (Nat.succ_pos _)).symm

/-- Entering trip `k` (the trip before it, `tp`, in flight): its own windows come out, as found. -/
theorem out_take0 (k tp : Fin k0_t1_loop.trips) (hp : tp.val + 1 = k.val) (hA : Act0 L k) :
    outPart0 d L X I G k.val ⊢ iprop(oWins0 d L k hA G ∗ bigSep ((Finset.univ.erase k).erase tp) (outPhi0 d L X I G k.val)) := by
  have hne : tp ≠ k := fun e => by rw [e] at hp; omega
  rw [outPart0_eq, SparseCore.bigSep_erase' (Finset.mem_univ k),
    SparseCore.bigSep_erase' (Finset.mem_erase.mpr ⟨hne, Finset.mem_univ tp⟩),
    outPhi0_found d L X I G (Nat.lt_succ_self _), outPhi0_flight d L X I G hp, oTrip0_act d L k hA]
  iintro ⟨Hw, -, Hr⟩
  isplitl [Hw] <;> iassumption

/-- Leaving trip `k`: the previous trip's windows go back, at the gathered array; trip `k`'s are now the ones in flight. -/
theorem out_put0 (k tp : Fin k0_t1_loop.trips) (hp : tp.val + 1 = k.val) (hAp : Act0 L tp) :
    iprop(oWins0 d L tp hAp (gath (F := F) X I) ∗ bigSep ((Finset.univ.erase k).erase tp) (outPhi0 d L X I G k.val))
      ⊢ outPart0 d L X I G (k.val + 1) := by
  have hne : tp ≠ k := fun e => by rw [e] at hp; omega
  rw [outPart0_eq, SparseCore.bigSep_erase' (Finset.mem_univ k),
    SparseCore.bigSep_erase' (Finset.mem_erase.mpr ⟨hne, Finset.mem_univ tp⟩),
    outPhi0_flight d L X I G rfl, outPhi0_done d L X I G (show tp.val + 1 < k.val + 1 by omega), oTrip0_act d L tp hAp,
    show bigSep ((Finset.univ.erase k).erase tp) (outPhi0 d L X I G (k.val + 1)) = bigSep ((Finset.univ.erase k).erase tp) (outPhi0 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi0
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first0 (h0 : 0 < k0_t1_loop.trips) (hA : Act0 L ⟨0, h0⟩) :
    outPart0 d L X I G 0 ⊢ iprop(oWins0 d L ⟨0, h0⟩ hA G ∗ bigSep (Finset.univ.erase ⟨0, h0⟩) (outPhi0 d L X I G 0)) := by
  rw [outPart0_eq, SparseCore.bigSep_erase' (Finset.mem_univ (⟨0, h0⟩ : Fin k0_t1_loop.trips)),
    outPhi0_found d L X I G (Nat.succ_pos _), oTrip0_act d L ⟨0, h0⟩ hA]

/-- Leaving it: nothing goes back yet. -/
theorem out_put_first0 (h0 : 0 < k0_t1_loop.trips) :
    bigSep (Finset.univ.erase (⟨0, h0⟩ : Fin k0_t1_loop.trips)) (outPhi0 d L X I G 0) ⊢ outPart0 d L X I G 1 := by
  rw [outPart0_eq, SparseCore.bigSep_erase' (Finset.mem_univ (⟨0, h0⟩ : Fin k0_t1_loop.trips)),
    outPhi0_flight d L X I G (show (⟨0, h0⟩ : Fin k0_t1_loop.trips).val + 1 = 1 from rfl),
    show bigSep (Finset.univ.erase (⟨0, h0⟩ : Fin k0_t1_loop.trips)) (outPhi0 d L X I G 1) = bigSep (Finset.univ.erase (⟨0, h0⟩ : Fin k0_t1_loop.trips)) (outPhi0 d L X I G 0) from
      bigSep_congr fun t ht => by
        have h1 : t ≠ ⟨0, h0⟩ := (Finset.mem_erase.mp ht).1
        have h1' : t.val ≠ 0 := fun e => h1 (Fin.ext e)
        rw [outPhi0_found d L X I G (show 1 < t.val + 1 by omega), outPhi0_found d L X I G (Nat.succ_pos _)]]
  iintro Hr
  isplitr; · iempintro
  iexact Hr

/-- After the last active trip `tl`, with its windows back: every trip's windows hold the gathered array (the idle
    trips have none). -/
theorem out_final0 (tl : Fin k0_t1_loop.trips) (hAl : Act0 L tl) (hidle : ∀ t : Fin k0_t1_loop.trips, tl.val < t.val → ¬ Act0 L t) :
    iprop(outPart0 d L X I G (tl.val + 1) ∗ oWins0 d L tl hAl (gath (F := F) X I))
      ⊢ bigSep Finset.univ fun t : Fin k0_t1_loop.trips => oTrip0 d L (gath (F := F) X I) t := by
  rw [outPart0_eq, SparseCore.bigSep_erase' (Finset.mem_univ tl) (Φ := outPhi0 d L X I G (tl.val + 1)),
    SparseCore.bigSep_erase' (Finset.mem_univ tl) (Φ := fun t : Fin k0_t1_loop.trips => oTrip0 d L (gath (F := F) X I) t),
    outPhi0_flight d L X I G rfl, oTrip0_act d L tl hAl,
    show bigSep (Finset.univ.erase tl) (outPhi0 d L X I G (tl.val + 1)) = bigSep (Finset.univ.erase tl) (fun t : Fin k0_t1_loop.trips => oTrip0 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi0_done d L X I G (by omega)
        · have hi := hidle t (by omega)
          rw [outPhi0_found d L X I G (show tl.val + 1 < t.val + 1 by omega), oTrip0_idle d L t hi, oTrip0_idle d L t hi]]
  iintro ⟨⟨-, Hr⟩, Hw⟩
  isplitl [Hw] <;> iassumption

end Cert.KernelIdeal.KP

end
-- ==== Proof.TileScoped0.lean ====
/-
  The scoped storage of one vector subcore as call 0's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody0b

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable (d : Dev nD) (L : grid0.Coords)

/-! ## The task's nine semaphores among the subcore's own -/

/-- The nine DMA semaphores of the task, as semaphore locations. -/
def semS0 : List (SemLoc sig) := [SemLoc.dma cc0_scratch2.sem, SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem]

theorem semS0_nodup : (semS0).Nodup := by decide
theorem semS0_scoped : ∀ s ∈ semS0, (s : SemLoc sig).isScoped .scVector = true := by decide

/-- The same as cells of the tile's thread. -/
def semL0 : List (GSem nD τ sig) := semS0.map fun s => (thr0 d L, s)

theorem semL0_nodup : (semL0 d L).Nodup :=
  semS0_nodup.map fun _ _ h => (Prod.mk.inj h).2

theorem semL0_sub : (semL0 d L).toFinset ⊆ ownCells (thr0 d L) := by
  intro g hg
  rw [List.mem_toFinset, semL0, List.mem_map] at hg
  obtain ⟨s, hs, rfl⟩ := hg
  exact mem_ownCells.mpr ⟨rfl, semS0_scoped s hs⟩

/-- The subcore's own semaphores that the task does not use, each at zero. -/
def RestSems0 : sProp 𝕄 := bigSep (ownCells (thr0 d L) \ (semL0 d L).toFinset) fun g => semVal g 0

/-- The subcore's own semaphores at zero are the task's nine at zero and the rest. -/
theorem ownSems0_V0 :
    (ownSems0 (thr0 d L) : sProp 𝕄)
      = iprop(semVal (cellD0 d L cc0_scratch2) 0 ∗ semVal (cellD0 d L cc0_scratch3) 0 ∗ semVal (cellD0 d L cc0_scratch4) 0 ∗ semVal (cellD0 d L cc0_scratch5) 0 ∗ semVal (cellD0 d L cc0_scratch6) 0 ∗ semVal (cellD0 d L cc0_scratch7) 0 ∗ semVal (cellD0 d L cc0_scratch8) 0 ∗ semVal (cellD0 d L cc0_scratch9) 0 ∗ semVal (cellD0 d L cc0_scratch10) 0 ∗ RestSems0 d L) := by
  unfold SparseCore.Cfg.ownSems0 RestSems0
  rw [SparseCore.bigSep_sdiff_split' (semL0_sub d L), bigSep_eq_bigSepL (semL0 d L) (semL0_nodup d L)]
  unfold semL0 semS0
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs0 : sProp 𝕄 :=
  bigSep (((ownRefs (τ := τ) (.scVector (cV0 L) (jV0 L))).erase ((Proc.scVector (cV0 L) (jV0 L)).devRef cc0_scratch0)).erase
      ((Proc.scVector (cV0 L) (jV0 L)).devRef cc0_scratch1))
    fun b => iprop(∃ f, ((d, b) : Loc nD τ sig) ↦{fullShare} f)

/-- The subcore's own buffers are the index scratch, the row scratch, each at some contents, and the rest. -/
theorem ownBufs_V0 :
    (ownBufs (thr0 d L) : sProp 𝕄)
      = iprop((∃ f, (thr0 d L).loc cc0_scratch0 ↦{fullShare} f) ∗ (∃ f, (thr0 d L).loc cc0_scratch1 ↦{fullShare} f) ∗ RestBufs0 d L) := by
  unfold SparseCore.Cfg.ownBufs RestBufs0
  refine (SparseCore.bigSep_erase' (SparseCore.Cfg.mem_ownRefs_of_owner (p := Proc.scVector (cV0 L) (jV0 L))
    (b := (Proc.scVector (cV0 L) (jV0 L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV0 L) (jV0 L)) (b := (Proc.scVector (cV0 L) (jV0 L)).devRef cc0_scratch1) rfl⟩)]

/-! ## The whole arrays under the subcore's names -/

theorem pts_sI0 (f : Buf (Elt F) ((thr0 d L).loc cc0_scratch0)) :
    ((sI).view.loc (thr0 d L) ↦{fullShare} f : sProp 𝕄) = (thr0 d L).loc cc0_scratch0 ↦{fullShare} f := rfl
theorem pts_sR0 (f : Buf (Elt F) ((thr0 d L).loc cc0_scratch1)) :
    ((sR).view.loc (thr0 d L) ↦{fullShare} f : sProp 𝕄) = (thr0 d L).loc cc0_scratch1 ↦{fullShare} f := rfl
theorem pts_x0 (q : PosShare TreeShare) (f : Buf (Elt F) (xLoc d)) :
    ((xW).view.loc (thr0 d L) ↦{q} f : sProp 𝕄) = xLoc d ↦{q} f := rfl
theorem pts_i0 (q : PosShare TreeShare) (f : Buf (Elt F) (iLoc0 d)) :
    ((iW).view.loc (thr0 d L) ↦{q} f : sProp 𝕄) = iLoc0 d ↦{q} f := rfl
theorem pts_o0 (K : Finset S4x32000x128.Idx) (q : PosShare TreeShare) (f : Buf (Elt F) (oLoc0 d)) :
    ((oW).view.loc (thr0 d L) ↦[K]{q} f : sProp 𝕄) = oLoc0 d ↦[K]{q} f := rfl

/-! ## The row scratch is its four planes -/

theorem pl_inb0 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet0 (j : Fin 4) : Finset S4x128x128.Idx := (Rect.unit (s := S4x128x128) ![j.val, 0, 0] S1x128x128.size (pl_inb0 j)).set

theorem set_rPl0_0 : (rPl0_0).view.set = plSet0 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc0_scratch1 : Ref sig .scVector) _).trans rfl
theorem set_rPl0_1 : (rPl0_1).view.set = plSet0 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc0_scratch1 : Ref sig .scVector) _).trans rfl
theorem set_rPl0_2 : (rPl0_2).view.set = plSet0 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc0_scratch1 : Ref sig .scVector) _).trans rfl
theorem set_rPl0_3 : (rPl0_3).view.set = plSet0 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc0_scratch1 : Ref sig .scVector) _).trans rfl

/-- Different planes are disjoint: they differ in the first coordinate. -/
theorem pl_disjoint0 : ∀ i ∈ (Finset.univ : Finset (Fin 4)), ∀ j ∈ (Finset.univ : Finset (Fin 4)), i ≠ j → Disjoint (plSet0 i) (plSet0 j) := by
  intro i _ j _ h
  have hv := Fin.val_ne_of_ne h
  refine Rect.unit_disjoint 0 ?_
  simp
  omega

/-- The four planes cover the scratch. -/
theorem pl_cover0 : (Finset.univ : Finset (Fin 4)).biUnion plSet0 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet0
  rw [Rect.mem_set_unit]
  intro a
  fin_cases a <;> simp at h0 h1 h2 ⊢ <;> omega

/-- Holding the row scratch whole at `r` is holding its four planes at `r`. -/
theorem sR_planes0 (r : Buf (Elt F) ((thr0 d L).loc cc0_scratch1)) :
    ((thr0 d L).loc cc0_scratch1 ↦{fullShare} r : sProp 𝕄) = iprop(pl0_0 d L r ∗ pl0_1 d L r ∗ pl0_2 d L r ∗ pl0_3 d L r) := by
  have e : ((thr0 d L).loc cc0_scratch1 ↦{fullShare} r : sProp 𝕄)
      = bigSep Finset.univ fun j : Fin 4 => ((thr0 d L).loc cc0_scratch1 ↦[plSet0 j]{fullShare} r : sProp 𝕄) := by
    rw [← pointsTo_biUnion Finset.univ (ℓ := (thr0 d L).loc cc0_scratch1) plSet0 pl_disjoint0, pl_cover0]; try rfl
  rw [e, bigSep_univ_eq_bigSepL [(0 : Fin 4), 1, 2, 3] (by decide) (by decide)]
  unfold pl0_0 pl0_1 pl0_2 pl0_3
  rw [set_rPl0_0, set_rPl0_1, set_rPl0_2, set_rPl0_3]
  rfl

/-- Four planes at four contents join into the row scratch whole at some contents. -/
theorem sR_join0 (r0 r1 r2 r3 : Buf (Elt F) ((thr0 d L).loc cc0_scratch1)) :
    iprop(pl0_0 d L r0 ∗ pl0_1 d L r1 ∗ pl0_2 d L r2 ∗ pl0_3 d L r3)
      ⊢ (iprop(∃ r, (thr0 d L).loc cc0_scratch1 ↦{fullShare} r) : sProp 𝕄) := by
  have e : (bigSep Finset.univ fun j : Fin 4 => ((thr0 d L).loc cc0_scratch1 ↦[plSet0 j]{fullShare} (![r0, r1, r2, r3] : Fin 4 → Buf (Elt F) ((thr0 d L).loc cc0_scratch1)) j : sProp 𝕄))
      = iprop(pl0_0 d L r0 ∗ pl0_1 d L r1 ∗ pl0_2 d L r2 ∗ pl0_3 d L r3) := by
    rw [bigSep_univ_eq_bigSepL [(0 : Fin 4), 1, 2, 3] (by decide) (by decide)]
    unfold pl0_0 pl0_1 pl0_2 pl0_3
    rw [set_rPl0_0, set_rPl0_1, set_rPl0_2, set_rPl0_3]
    rfl
  rw [← e]
  iintro H
  ihave H' := (pointsTo_biUnion_join Finset.univ plSet0 (![r0, r1, r2, r3] : Fin 4 → Buf (Elt F) ((thr0 d L).loc cc0_scratch1)) r0 pl_disjoint0) $$ H
  icases H' with ⟨%g, -, Hg⟩
  rw [pl_cover0]
  iexists g; iexact Hg

/-! ## A read share of the table as a remainder and four tokens -/

theorem x_toks0 (q : PosShare TreeShare) (X : Buf (Elt F) (xLoc d)) :
    ((xW).view.loc (thr0 d L) ↦{q} X : sProp 𝕄)
      ⊣⊢ iprop(((xW).view.loc (thr0 d L) ↦{Transfers.shareDrop q 4} X) ∗ ((xW).view.loc (thr0 d L) ↦{Transfers.shareTok q 4 0} X)
          ∗ ((xW).view.loc (thr0 d L) ↦{Transfers.shareTok q 4 1} X) ∗ ((xW).view.loc (thr0 d L) ↦{Transfers.shareTok q 4 2} X)
          ∗ ((xW).view.loc (thr0 d L) ↦{Transfers.shareTok q 4 3} X)) := by
  have e : (iprop(((xW).view.loc (thr0 d L) ↦{Transfers.shareTok q 4 0} X)
          ∗ ((xW).view.loc (thr0 d L) ↦{Transfers.shareTok q 4 1} X) ∗ ((xW).view.loc (thr0 d L) ↦{Transfers.shareTok q 4 2} X)
          ∗ ((xW).view.loc (thr0 d L) ↦{Transfers.shareTok q 4 3} X)) : sProp 𝕄)
      = bigSep Finset.univ fun i : Fin 4 => ((xW).view.loc (thr0 d L) ↦{Transfers.shareTok q 4 i} X : sProp 𝕄) :=
    (bigSep_univ_eq_bigSepL [(0 : Fin 4), 1, 2, 3] (by decide) (by decide)
      (fun i : Fin 4 => ((xW).view.loc (thr0 d L) ↦{Transfers.shareTok q 4 i} X : sProp 𝕄))).symm
  rw [e]
  exact Transfers.pointsTo_toks q 4

end Cert.KernelIdeal.KP

end
-- ==== Proof.TileLoop0.lean ====
/-
  The body of call 0's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip0
import proofs.«210879_g80607946211848_cont_9to1_m_1212_13_alg».proof.Proof.TileOut0
import proofs.«210879_g80607946211848_cont_9to1_m_1212_13_alg».proof.Proof.TileScoped0

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v8_scv : Memref Cert.KernelIdeal.sig Kind.scVector Space.hbm Cert.KernelIdeal.S250x4x128 EltTy.i32)
local notation "oW" => (Memref.whole Cert.KernelIdeal.main_v9_scv : Memref Cert.KernelIdeal.sig Kind.scVector Space.hbm Cert.KernelIdeal.S4x32000x128 EltTy.f32)
local notation "sI" => (Memref.whole Cert.KernelIdeal.cc0_scratch0 : Memref Cert.KernelIdeal.sig Kind.scVector Space.vmem Cert.KernelIdeal.S2x4x128 EltTy.i32)
local notation "sR" => (Memref.whole Cert.KernelIdeal.cc0_scratch1 : Memref Cert.KernelIdeal.sig Kind.scVector Space.vmem Cert.KernelIdeal.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The row scratch and the write-out semaphores after `n` active trips. -/
def rowsAt0 : ℕ → sProp 𝕄
  | 0 => rowsIdle0 d L
  | m + 1 => if hm : m < k0_t1_loop.trips then (if hA : Act0 L ⟨m, hm⟩ then rowsFly0 d L X I ⟨m, hm⟩ hA else iprop(False)) else iprop(False)

/-- The index side before trip `k`. -/
def idxAt0 (k : ℕ) : sProp 𝕄 :=
  if hk : k < k0_t1_loop.trips then (if hA : Act0 L ⟨k, hk⟩ then idxFly0 d L q I ⟨k, hk⟩ hA else idxIdle0 d L q I) else idxIdle0 d L q I

/-- The loop's invariant before trip `k`. -/
def invL0 (O : CellTallies nD τ sig (HIx 5)) (W : Waits sig (HIx 5)) (k : ℕ) (_ : PUnit) : sProp 𝕄 :=
  iprop(Transfers.MayWaits (thr0 d L) (none : HIx 5) O ∗ xPart0 d L q X ∗ idxAt0 d L q I k ∗ gsems0 d L
    ∗ rowsAt0 d L X I (cnt0 L k) ∗ outPart0 d L X I G (cnt0 L k) ∗ owesPart0 d L O W)

omit [FloatOps F] in
theorem idxAt0_act (k : Fin k0_t1_loop.trips) (hA : Act0 L k) : idxAt0 d L q I k.val = idxFly0 d L q I k hA := by
  unfold idxAt0; rw [dif_pos k.isLt, dif_pos hA]
omit [FloatOps F] in
theorem idxAt0_idle (k : Fin k0_t1_loop.trips) (hnA : ¬ Act0 L k) : idxAt0 d L q I k.val = idxIdle0 d L q I := by
  unfold idxAt0; rw [dif_pos k.isLt, dif_neg hnA]
omit [FloatOps F] in
theorem idxAt0_end (k : ℕ) (hk : ¬ k < k0_t1_loop.trips) : idxAt0 d L q I k = idxIdle0 d L q I := by
  unfold idxAt0; rw [dif_neg hk]
omit [FloatOps F] in
theorem rowsAt0_succ (t : Fin k0_t1_loop.trips) (hA : Act0 L t) : rowsAt0 d L X I (t.val + 1) = rowsFly0 d L X I t hA := by
  show (if hm : t.val < k0_t1_loop.trips then (if hA : Act0 L ⟨t.val, hm⟩ then rowsFly0 d L X I ⟨t.val, hm⟩ hA else iprop(False)) else iprop(False)) = _
  rw [dif_pos t.isLt, dif_pos hA]

omit [FloatOps F] in
theorem out_take_first0' (k : Fin k0_t1_loop.trips) (hk0 : k.val = 0) (hA : Act0 L k) :
    outPart0 d L X I G k.val ⊢ iprop(oWins0 d L k hA G ∗ bigSep (Finset.univ.erase k) (outPhi0 d L X I G k.val)) := by
  obtain ⟨kv, hkv⟩ := k
  simp only at hk0
  subst hk0
  exact out_take_first0 d L X I G hkv hA

omit [FloatOps F] in
theorem out_put_first0' (k : Fin k0_t1_loop.trips) (hk0 : k.val = 0) :
    bigSep (Finset.univ.erase k) (outPhi0 d L X I G k.val) ⊢ outPart0 d L X I G (k.val + 1) := by
  obtain ⟨kv, hkv⟩ := k
  simp only at hk0
  subst hk0
  exact out_put_first0 d L X I G hkv

set_option maxHeartbeats 1000000 in
set_option sl_exec.dmaWindow true in
theorem tile_body0 (hF : (K (F := F)).Facts) (d : Dev nD) (L : grid0.Coords)
    (X : Buf (Elt F) (xLoc d)) (I : Buf (Elt F) (iLoc0 d)) (G : Buf (Elt F) (oLoc0 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo0 d X I G L
        ∗ scopedBufs (thr0 d L) ∗ scopedSems0 (thr0 d L) ∗ owes (thr0 d L) O W)
      ⊢ wp frame (wpE (defs₀ (F := F)) 𝒱₀ (thr0 d L) none) Set.univ
          (cc0__sc_gather_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10)
          fun _ => iprop(tileTd0 d X I L ∗ scopedBufs (thr0 d L) ∗ scopedSems0 (thr0 d L)
            ∗ ∃ W', ⌜∀ p ∈ W', p ∈ W ∨ p.2 = none⌝ ∗ owes (thr0 d L) O W') := by
  rw [(K (F := F)).scopedBufs_V hF d (cV0 L) (jV0 L), SparseCore.Cfg.scopedSems0_V (Val := Elt F) d (cV0 L) (jV0 L),
    ownSems0_V0, ownBufs_V0]
  unfold tileGo0 tileTd0
  rw [out_init0 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr0 d L) hO) $$ Hlv
  ihave Hx' := (Entails.of_eq (pts_x0 d L (qTile0 L) X).symm) $$ Hx
  ihave Hxt := (x_toks0 d L (qTile0 L) X).1 $$ Hx'
  icases Hxt with ⟨Hxr, Hx0, Hx1, Hx2, Hx3⟩
  ihave Hi' := (Entails.of_eq (pts_i0 d L (qTile0 L) I).symm) $$ Hi
  ihave HsI' := (Entails.of_eq (pts_sI0 d L s0).symm) $$ HsI
  ihave Hpl := (Entails.of_eq (sR_planes0 d L r)) $$ HsR
  icases Hpl with ⟨Hr0, Hr1, Hr2, Hr3⟩
  sl_unfold [cc0__sc_gather_body]
  sl_exec (disch := exact View.amount_pos _ _ (show 0 < S4x128.numel by decide))
  sl_for (invL0 d L (qTile0 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k0_t1_loop.trips = 8 := tb0_trips
    obtain ⟨hn7, hn8⟩ := nAct_bounds0 L
    by_cases hA : Act0 L k
    · obtain ⟨hc, hc'⟩ := cnt_act0 L k hA
      have hkA := (act_iff_lt0 L k).mp hA
      unfold invL0
      rw [hc, hc', idxAt0_act d L (qTile0 L) I k hA, rowsAt0_succ d L X I k hA]
      by_cases h2 : k0_cond2 L k = 1#1
      · have hlt := (pre_iff_lt0 L k).mp h2
        have hk1 : k.val + 1 < k0_t1_loop.trips := by omega
        have hA' : Act0 L ⟨k.val + 1, hk1⟩ := (act_iff_lt0 L ⟨k.val + 1, hk1⟩).mpr hlt
        rw [idxAt0_act d L (qTile0 L) I ⟨k.val + 1, hk1⟩ hA']
        rcases Nat.eq_zero_or_pos k.val with hk0 | hkp
        · -- the first trip
          have hrows0 : rowsAt0 d L X I k.val = rowsIdle0 d L := by rw [hk0]; rfl
          rw [hrows0]
          have hT := tripC0 d L (qTile0 L) X I G O W k ⟨k.val + 1, hk1⟩ hk0 rfl hA hA' h2 hin
            iprop(Transfers.MayWaits (thr0 d L) (none : HIx 5) O ∗ bigSep (Finset.univ.erase k) (outPhi0 d L X I G k.val))
          have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first0' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first0' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k0_t1_loop.trips := by omega
          have hp : (⟨k.val - 1, htp⟩ : Fin k0_t1_loop.trips).val + 1 = k.val := by simp only; omega
          have hAp : Act0 L ⟨k.val - 1, htp⟩ := (act_iff_lt0 L ⟨k.val - 1, htp⟩).mpr (by simp only; omega)
          have hrows : rowsAt0 d L X I k.val = rowsFly0 d L X I ⟨k.val - 1, htp⟩ hAp := by
            have h := rowsAt0_succ d L X I ⟨k.val - 1, htp⟩ hAp
            rwa [hp] at h
          rw [hrows]
          have hT := tripA0 d L (qTile0 L) X I G O W k ⟨k.val - 1, htp⟩ ⟨k.val + 1, hk1⟩ hp rfl hA hAp hA' h2 hin
            iprop(Transfers.MayWaits (thr0 d L) (none : HIx 5) O ∗ bigSep ((Finset.univ.erase k).erase ⟨k.val - 1, htp⟩) (outPhi0 d L X I G k.val))
          have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take0 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put0 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct0 L := fun h => h2 ((pre_iff_lt0 L k).mpr h)
        have hidx' : idxAt0 d L (qTile0 L) I (k.val + 1) = idxIdle0 d L (qTile0 L) I := by
          unfold idxAt0
          split_ifs with h1 h3
          · exact absurd ((act_iff_lt0 L ⟨k.val + 1, h1⟩).mp h3) hnlt
          · rfl
          · rfl
        rw [hidx']
        have htp : k.val - 1 < k0_t1_loop.trips := by omega
        have hp : (⟨k.val - 1, htp⟩ : Fin k0_t1_loop.trips).val + 1 = k.val := by simp only; omega
        have hAp : Act0 L ⟨k.val - 1, htp⟩ := (act_iff_lt0 L ⟨k.val - 1, htp⟩).mpr (by simp only; omega)
        have hrows : rowsAt0 d L X I k.val = rowsFly0 d L X I ⟨k.val - 1, htp⟩ hAp := by
          have h := rowsAt0_succ d L X I ⟨k.val - 1, htp⟩ hAp
          rwa [hp] at h
        rw [hrows]
        have hT := tripB0 d L (qTile0 L) X I G O W k ⟨k.val - 1, htp⟩ hp hA hAp h2 hin
          iprop(Transfers.MayWaits (thr0 d L) (none : HIx 5) O ∗ bigSep ((Finset.univ.erase k).erase ⟨k.val - 1, htp⟩) (outPhi0 d L X I G k.val))
        have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take0 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put0 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle0 L k hA
      have hge : nAct0 L ≤ k.val := Nat.not_lt.mp (fun h => hA ((act_iff_lt0 L k).mpr h))
      have hidx' : idxAt0 d L (qTile0 L) I (k.val + 1) = idxIdle0 d L (qTile0 L) I := by
        unfold idxAt0
        split_ifs with h1 h3
        · exact absurd ((act_iff_lt0 L ⟨k.val + 1, h1⟩).mp h3) (by simp only; omega)
        · rfl
        · rfl
      unfold invL0
      rw [hc, hc', idxAt0_idle d L (qTile0 L) I k hA, hidx']
      have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
          (Scalar.addi (Scalar.muli (BitVec.ofNat 32 (L 1).val) 2#32) (BitVec.ofNat 32 (L 0).val)) k () := rfl
      rw [hprog]
      exact tripI0 d L k hA _
  · -- the invariant before the first trip
    have h0 : 0 < k0_t1_loop.trips := by rw [tb0_trips]; omega
    have hA0 : Act0 L ⟨0, h0⟩ := (act_iff_lt0 L ⟨0, h0⟩).mpr (by have := (nAct_bounds0 L).1; simp only; omega)
    unfold invL0
    rw [show cnt0 L 0 = 0 from Nat.zero_min _, idxAt0_act d L (qTile0 L) I ⟨0, h0⟩ hA0, show rowsAt0 d L X I 0 = rowsIdle0 d L from rfl]
    unfold xPart0 idxFly0 gsems0 rowsIdle0 owesPart0 idxDeliv0
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first0 d L I h0 hA0 s0
      rw [slot_first_set0 L h0 hA0, chunk_first_set0 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds0 L
  have htr : k0_t1_loop.trips = 8 := tb0_trips
  obtain ⟨m, hm⟩ : ∃ m, nAct0 L = m + 1 := ⟨nAct0 L - 1, by omega⟩
  have hmlt : m < k0_t1_loop.trips := by omega
  have hAm : Act0 L ⟨m, hmlt⟩ := (act_iff_lt0 L ⟨m, hmlt⟩).mpr (by simp only; omega)
  have hidle : ∀ t : Fin k0_t1_loop.trips, (⟨m, hmlt⟩ : Fin k0_t1_loop.trips).val < t.val → ¬ Act0 L t :=
    fun t ht h => by have := (act_iff_lt0 L t).mp h; simp only at ht; omega
  unfold invL0
  rw [cnt_end0 L, idxAt0_end d L (qTile0 L) I _ (lt_irrefl _), hm, rowsAt0_succ d L X I ⟨m, hmlt⟩ hAm]
  unfold xPart0 idxIdle0 gsems0 rowsFly0 owesPart0
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv0 pl0_0 pl0_1 pl0_2 pl0_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x0 d L (qTile0 L) X))
      iapply (x_toks0 d L (qTile0 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i0 d L (qTile0 L) I)) $$ Hi
    iapply (out_final0 d L X I G ⟨m, hmlt⟩ hAm hidle)
    isplitl [Hout]; · iexact Hout
    unfold oWins0
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI0 d L S)) $$ HsI
    isplitl [Hf0_src Hf1_src Hf2_src Hf3_src]
    · iapply (sR_join0 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins0 (none_ins0 (none_ins0 (none_ins0 hW')))

end Cert.KernelIdeal.KP

end
-- ==== Proof.TileBody0aB.lean ====
/-
  Groundwork for the body of call 0's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes0B
import proofs.«210879_g80607946211848_cont_9to1_m_1212_13_alg».proof.Proof.Gen.Kernel.Skeleton

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

/-! ## The loop's conditions, in closed form -/

/-- The tile's number. -/
abbrev wid0 (L : grid0.Coords) : ℕ := 2 * (L 1).val + (L 0).val

theorem tb0_trips : k0_t1_loop.trips = 8 := by decide

theorem tb0_act_iff : ∀ (L : grid0.Coords) (t : Fin k0_t1_loop.trips), k0_cond1 L t = 1#1 ↔ wid0 L + 32 * t.val < 250 := by decide +kernel
theorem tb0_pre_iff : ∀ (L : grid0.Coords) (t : Fin k0_t1_loop.trips), k0_cond2 L t = 1#1 ↔ wid0 L + 32 * t.val + 32 < 250 := by decide +kernel

/-! ## The memrefs, as the loop slices them -/

/-- Index chunk of trip `t` (the copy's source the trip waits for). -/
abbrev iCh0 (L : grid0.Coords) (t : Fin k0_t1_loop.trips) (h : Act0 L t) : Memref sig .scVector .hbm S4x128 .i32 :=
  ((iW).slice (Rect.unit (s := S250x4x128) (k0_off3 L t) S1x4x128.size (k0_off3_inb L t h)) (fun _ => rfl)).squeeze S4x128 squeezes_S1x4x128_S4x128
/-- The slot of the index scratch trip `t` reads its indices from: slot `t % 2`. -/
abbrev sSl0 (L : grid0.Coords) (t : Fin k0_t1_loop.trips) (h : Act0 L t) : Memref sig .scVector .vmem S4x128 .i32 :=
  ((sI).slice (Rect.unit (s := S2x4x128) (k0_off2 t) S1x4x128.size (k0_off2_inb L t h)) (fun _ => rfl)).squeeze S4x128 squeezes_S1x4x128_S4x128
/-- Plane `j` of the row scratch. -/
abbrev rPl0_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl0_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl0_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl0_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD0 (d : Dev nD) (L : grid0.Coords) (n : DmaSems sig S_) : GSem nD τ sig := (thr0 d L, SemLoc.dma n.sem)

end Cert.Kernel.KP

end
-- ==== Proof.TileBody0bB.lean ====
/-
  The loop of call 0's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody0aB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The number of the tile's active trips: its chunks `w, w + 32, …` below 250. -/
abbrev nAct0 (L : grid0.Coords) : ℕ := (250 - wid0 L + 31) / 32
/-- The active trips among the first `k`. -/
abbrev cnt0 (L : grid0.Coords) (k : ℕ) : ℕ := min k (nAct0 L)

/-- The index scratch showing, in both slots, the words of trip `t`'s chunk (chunk number reduced modulo 250: the
    identity for an active trip). -/
def slotImg0 (t : ℕ) : Buf (Elt F) ((thr0 d L).loc cc0_scratch0) :=
  fun i => I (ix3 (⟨(wid0 L + 32 * t) % 250, Nat.mod_lt _ (by decide)⟩ : Fin 250) (i 1) (i 2))

/-- Contents `S` of the index scratch show, on the slot trip `t` reads, the words of the trip's chunk. -/
def SlotAgrees0 (t : Fin k0_t1_loop.trips) (h : Act0 L t) (S : Buf (Elt F) ((thr0 d L).loc cc0_scratch0)) : Prop :=
  ∀ i ∈ (sSl0 L t h).view.set, S i = slotImg0 d L I t.val i

/-- What the index fetch for trip `t` delivers: the slot at contents `S`, and the chunk's share back. -/
def idxDeliv0 (t : Fin k0_t1_loop.trips) (h : Act0 L t) (S : Buf (Elt F) ((thr0 d L).loc cc0_scratch0)) : sProp 𝕄 :=
  iprop(((sI).view.loc (thr0 d L) ↦[(sSl0 L t h).view.set]{fullShare} S)
    ∗ ((iW).view.loc (thr0 d L) ↦[(iCh0 L t h).view.set]{q} I))

/-- The index side before trip `k`: while the trip is active its chunk's fetch is in flight (the chunk and its slot
    lent); afterwards the semaphore rests at zero and block and scratch are whole. -/
def idxPart0 (k : ℕ) : sProp 𝕄 :=
  if hk : k < k0_t1_loop.trips then
    if hA : Act0 L ⟨k, hk⟩ then
      iprop(∃ S, ⌜SlotAgrees0 d L I ⟨k, hk⟩ hA S⌝
        ∗ Transfers.Flight countersEmb (thr0 d L) (SemLoc.dma cc0_scratch10.sem) (default : HIx 5) 16384 (idxDeliv0 d L q I ⟨k, hk⟩ hA S)
        ∗ ((iW).view.loc (thr0 d L) ↦[Finset.univ \ (iCh0 L ⟨k, hk⟩ hA).view.set]{q} I)
        ∗ ((sI).view.loc (thr0 d L) ↦[Finset.univ \ (sSl0 L ⟨k, hk⟩ hA).view.set]{fullShare} S))
    else iprop(semVal (cellD0 d L cc0_scratch10) 0 ∗ ((iW).view.loc (thr0 d L) ↦{q} I) ∗ ∃ s, (sI).view.loc (thr0 d L) ↦{fullShare} s)
  else iprop(semVal (cellD0 d L cc0_scratch10) 0 ∗ ((iW).view.loc (thr0 d L) ↦{q} I) ∗ ∃ s, (sI).view.loc (thr0 d L) ↦{fullShare} s)

/-- What the write-out of plane `j` of trip `t` delivers: the window at the gathered array, and the plane back. -/
def wDeliv0 (t : Fin k0_t1_loop.trips) (h : Act0 L t) (j : Fin 4) (Dsrc : sProp 𝕄) : sProp 𝕄 :=
  iprop(((oW).view.loc (thr0 d L) ↦[oSet0 L t h j]{fullShare} gath (F := F) X I) ∗ Dsrc)

/-- The four windows of trip `t` at contents `f`, each spelt through its own memref. -/
def oWins0 (t : Fin k0_t1_loop.trips) (h : Act0 L t) (f : Buf (Elt F) (oLoc0 d)) : sProp 𝕄 :=
  iprop(((oWin0_0 L t h).view.loc (thr0 d L) ↦[(oWin0_0 L t h).view.set]{fullShare} f)
    ∗ ((oWin0_1 L t h).view.loc (thr0 d L) ↦[(oWin0_1 L t h).view.set]{fullShare} f)
    ∗ ((oWin0_2 L t h).view.loc (thr0 d L) ↦[(oWin0_2 L t h).view.set]{fullShare} f)
    ∗ ((oWin0_3 L t h).view.loc (thr0 d L) ↦[(oWin0_3 L t h).view.set]{fullShare} f))

omit [FloatOps F] in
/-- An active trip's share of the result is its four windows. -/
theorem oTrip0_act (t : Fin k0_t1_loop.trips) (h : Act0 L t) (f : Buf (Elt F) (oLoc0 d)) :
    oTrip0 d L f t = oWins0 d L t h f := by
  unfold oTrip0 oWins0; rw [dif_pos h]

omit [FloatOps F] in
/-- An idle trip has none. -/
theorem oTrip0_idle (t : Fin k0_t1_loop.trips) (h : ¬ Act0 L t) (f : Buf (Elt F) (oLoc0 d)) :
    oTrip0 d L f t = (iprop(emp) : sProp 𝕄) := by
  unfold oTrip0; rw [dif_neg h]

/-- Plane `j` of the row scratch at contents `r`. -/
abbrev pl0_0 (r : Buf (Elt F) ((thr0 d L).loc cc0_scratch1)) : sProp 𝕄 := (rPl0_0).view.loc (thr0 d L) ↦[(rPl0_0).view.set]{fullShare} r
abbrev pl0_1 (r : Buf (Elt F) ((thr0 d L).loc cc0_scratch1)) : sProp 𝕄 := (rPl0_1).view.loc (thr0 d L) ↦[(rPl0_1).view.set]{fullShare} r
abbrev pl0_2 (r : Buf (Elt F) ((thr0 d L).loc cc0_scratch1)) : sProp 𝕄 := (rPl0_2).view.loc (thr0 d L) ↦[(rPl0_2).view.set]{fullShare} r
abbrev pl0_3 (r : Buf (Elt F) ((thr0 d L).loc cc0_scratch1)) : sProp 𝕄 := (rPl0_3).view.loc (thr0 d L) ↦[(rPl0_3).view.set]{fullShare} r

/-- The row scratch and the write-out semaphores after `n` active trips: none done, the planes and the semaphores
    rest; else the last trip's four write-outs are in flight. -/
def rowsPart0 (n : ℕ) : sProp 𝕄 :=
  if hn : 0 < n then
    if hk : n - 1 < k0_t1_loop.trips then
      if hA : Act0 L ⟨n - 1, hk⟩ then
        iprop(∃ r0 r1 r2 r3, Transfers.Flight countersEmb (thr0 d L) (SemLoc.dma cc0_scratch6.sem) (default : HIx 5) 524288 (wDeliv0 d L X I ⟨n - 1, hk⟩ hA 0 (pl0_0 d L r0))
          ∗ Transfers.Flight countersEmb (thr0 d L) (SemLoc.dma cc0_scratch7.sem) (default : HIx 5) 524288 (wDeliv0 d L X I ⟨n - 1, hk⟩ hA 1 (pl0_1 d L r1))
          ∗ Transfers.Flight countersEmb (thr0 d L) (SemLoc.dma cc0_scratch8.sem) (default : HIx 5) 524288 (wDeliv0 d L X I ⟨n - 1, hk⟩ hA 2 (pl0_2 d L r2))
          ∗ Transfers.Flight countersEmb (thr0 d L) (SemLoc.dma cc0_scratch9.sem) (default : HIx 5) 524288 (wDeliv0 d L X I ⟨n - 1, hk⟩ hA 3 (pl0_3 d L r3)))
      else iprop(False)
    else iprop(False)
  else
    iprop((semVal (cellD0 d L cc0_scratch6) 0 ∗ ∃ r, pl0_0 d L r) ∗ (semVal (cellD0 d L cc0_scratch7) 0 ∗ ∃ r, pl0_1 d L r)
      ∗ (semVal (cellD0 d L cc0_scratch8) 0 ∗ ∃ r, pl0_2 d L r) ∗ (semVal (cellD0 d L cc0_scratch9) 0 ∗ ∃ r, pl0_3 d L r))

/-- The result's windows after `n` active trips: the trips before the last at the gathered array, the last one's
    in flight, the later ones as found. -/
def outPart0 (n : ℕ) : sProp 𝕄 :=
  bigSep Finset.univ fun t : Fin k0_t1_loop.trips =>
    if t.val + 1 < n then oTrip0 d L (gath (F := F) X I) t else if t.val + 1 = n then iprop(emp) else oTrip0 d L G t

/-- The loop's invariant before trip `k`. -/
def inv0 (O : CellTallies nD τ sig (HIx 5)) (W : Waits sig (HIx 5)) (k : ℕ) (_ : PUnit) : sProp 𝕄 :=
  iprop(Transfers.MayWaits (thr0 d L) (none : HIx 5) O
    ∗ (((xW).view.loc (thr0 d L) ↦{Transfers.shareDrop q 4} X) ∗ ((xW).view.loc (thr0 d L) ↦{Transfers.shareTok q 4 0} X) ∗ ((xW).view.loc (thr0 d L) ↦{Transfers.shareTok q 4 1} X)
        ∗ ((xW).view.loc (thr0 d L) ↦{Transfers.shareTok q 4 2} X) ∗ ((xW).view.loc (thr0 d L) ↦{Transfers.shareTok q 4 3} X))
    ∗ idxPart0 d L q I k
    ∗ (semVal (cellD0 d L cc0_scratch2) 0 ∗ semVal (cellD0 d L cc0_scratch3) 0 ∗ semVal (cellD0 d L cc0_scratch4) 0 ∗ semVal (cellD0 d L cc0_scratch5) 0)
    ∗ rowsPart0 d L X I (cnt0 L k)
    ∗ outPart0 d L X I G (cnt0 L k)
    ∗ ∃ W', ⌜∀ p ∈ W', p ∈ W ∨ p.2 = none⌝ ∗ owes (thr0 d L) O W')

/-! ## Geometry of the index scratch: the two slots, the four index lists -/

omit [FloatOps F] in
/-- The slot a prefetch writes (slot `1 - k % 2`) and the slot the trip reads (slot `k % 2`) are disjoint. -/
theorem slots_disj0 (k : Fin k0_t1_loop.trips) (hA : Act0 L k) (h2 : k0_cond2 L k = 1#1) :
    Disjoint (((sI).slice (Rect.unit (s := S2x4x128) (k0_off4 k) S1x4x128.size (k0_off4_inb L k hA h2)) (fun _ => rfl)).squeeze S4x128 squeezes_S1x4x128_S4x128).view.set
      (sSl0 L k hA).view.set := by
  show Disjoint ((((sI).view.slice (Rect.unit (s := S2x4x128) (k0_off4 k) S1x4x128.size (k0_off4_inb L k hA h2))).reshape S4x128 squeezes_S1x4x128_S4x128.numel_eq).set)
    ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  refine Rect.unit_disjoint 0 ?_
  rw [k0_off4_eq, k0_off2_eq]
  simp
  omega
omit [FloatOps F] in
theorem list6_disj0 (k : Fin k0_t1_loop.trips) (hA : Act0 L k) (h2 : k0_cond2 L k = 1#1) :
    Disjoint (((sI).slice (Rect.unit (s := S2x4x128) (k0_off6 k) S1x1x128.size (k0_off6_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off6 k) S1x1x128.size (k0_off6_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off6_eq]
  simp
  omega

omit [FloatOps F] in
/-- Index list `0` of the trip lies in the trip's slot. -/
theorem list6_sub0 (k : Fin k0_t1_loop.trips) (hA : Act0 L k) :
    (((sI).slice (Rect.unit (s := S2x4x128) (k0_off6 k) S1x1x128.size (k0_off6_inb L k hA)) (fun _ => rfl)).squeeze S128 squeezes_S1x1x128_S128).view.set
      ⊆ (sSl0 L k hA).view.set := by
  show ((((sI).view.slice (Rect.unit (s := S2x4x128) (k0_off6 k) S1x1x128.size (k0_off6_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off6 k) S1x1x128.size (k0_off6_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list6_disj0 L k hA h2) hi) hm)]
  exact hS i (list6_sub0 L k hA hi)

/-- So the words of index list `0` name rows of the table. -/
theorem list6_inr0 (k : Fin k0_t1_loop.trips) (hA : Act0 L k) (S' : Buf (Elt F) ((thr0 d L).loc cc0_scratch0))
    (hS' : ∀ i ∈ (((sI).slice (Rect.unit (s := S2x4x128) (k0_off6 k) S1x1x128.size (k0_off6_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off6 k) S1x1x128.size (k0_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj0 (k : Fin k0_t1_loop.trips) (hA : Act0 L k) (h2 : k0_cond2 L k = 1#1) :
    Disjoint (((sI).slice (Rect.unit (s := S2x4x128) (k0_off7 k) S1x1x128.size (k0_off7_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off7 k) S1x1x128.size (k0_off7_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off7_eq]
  simp
  omega

omit [FloatOps F] in
/-- Index list `1` of the trip lies in the trip's slot. -/
theorem list7_sub0 (k : Fin k0_t1_loop.trips) (hA : Act0 L k) :
    (((sI).slice (Rect.unit (s := S2x4x128) (k0_off7 k) S1x1x128.size (k0_off7_inb L k hA)) (fun _ => rfl)).squeeze S128 squeezes_S1x1x128_S128).view.set
      ⊆ (sSl0 L k hA).view.set := by
  show ((((sI).view.slice (Rect.unit (s := S2x4x128) (k0_off7 k) S1x1x128.size (k0_off7_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off7 k) S1x1x128.size (k0_off7_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list7_disj0 L k hA h2) hi) hm)]
  exact hS i (list7_sub0 L k hA hi)

/-- So the words of index list `1` name rows of the table. -/
theorem list7_inr0 (k : Fin k0_t1_loop.trips) (hA : Act0 L k) (S' : Buf (Elt F) ((thr0 d L).loc cc0_scratch0))
    (hS' : ∀ i ∈ (((sI).slice (Rect.unit (s := S2x4x128) (k0_off7 k) S1x1x128.size (k0_off7_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off7 k) S1x1x128.size (k0_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj0 (k : Fin k0_t1_loop.trips) (hA : Act0 L k) (h2 : k0_cond2 L k = 1#1) :
    Disjoint (((sI).slice (Rect.unit (s := S2x4x128) (k0_off8 k) S1x1x128.size (k0_off8_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off8 k) S1x1x128.size (k0_off8_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off8_eq]
  simp
  omega

omit [FloatOps F] in
/-- Index list `2` of the trip lies in the trip's slot. -/
theorem list8_sub0 (k : Fin k0_t1_loop.trips) (hA : Act0 L k) :
    (((sI).slice (Rect.unit (s := S2x4x128) (k0_off8 k) S1x1x128.size (k0_off8_inb L k hA)) (fun _ => rfl)).squeeze S128 squeezes_S1x1x128_S128).view.set
      ⊆ (sSl0 L k hA).view.set := by
  show ((((sI).view.slice (Rect.unit (s := S2x4x128) (k0_off8 k) S1x1x128.size (k0_off8_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off8 k) S1x1x128.size (k0_off8_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list8_disj0 L k hA h2) hi) hm)]
  exact hS i (list8_sub0 L k hA hi)

/-- So the words of index list `2` name rows of the table. -/
theorem list8_inr0 (k : Fin k0_t1_loop.trips) (hA : Act0 L k) (S' : Buf (Elt F) ((thr0 d L).loc cc0_scratch0))
    (hS' : ∀ i ∈ (((sI).slice (Rect.unit (s := S2x4x128) (k0_off8 k) S1x1x128.size (k0_off8_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off8 k) S1x1x128.size (k0_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj0 (k : Fin k0_t1_loop.trips) (hA : Act0 L k) (h2 : k0_cond2 L k = 1#1) :
    Disjoint (((sI).slice (Rect.unit (s := S2x4x128) (k0_off9 k) S1x1x128.size (k0_off9_inb L k hA)) (fun _ => rfl)).squeeze S128 squeezes_S1x1x128_S128).view.set
      (((sI).slice (Rect.unit (s := S2x4x128) (k0_off4 k) S1x4x128.size (k0_off4_inb L k hA h2)) (fun _ => rfl)).squeeze S4x128 squeezes_S1x4x128_S4x128).view.set := by
  show Disjoint ((((sI).view.slice (Rect.unit (s := S2x4x128) (k0_off9 k) S1x1x128.size (k0_off9_inb L k hA))).reshape S128 squeezes_S1x1x128_S128.numel_eq).set)
    ((((sI).view.slice (Rect.unit (s := S2x4x128) (k0_off4 k) S1x4x128.size (k0_off4_inb L k hA h2))).reshape S4x128 squeezes_S1x4x128_S4x128.numel_eq).set)
  rw [View.set_reshape, View.set_reshape, Memref.view_whole, View.set_slice_whole, View.set_slice_whole]
  refine Rect.unit_disjoint 0 ?_
  rw [k0_off4_eq, k0_off9_eq]
  simp
  omega

omit [FloatOps F] in
/-- Index list `3` of the trip lies in the trip's slot. -/
theorem list9_sub0 (k : Fin k0_t1_loop.trips) (hA : Act0 L k) :
    (((sI).slice (Rect.unit (s := S2x4x128) (k0_off9 k) S1x1x128.size (k0_off9_inb L k hA)) (fun _ => rfl)).squeeze S128 squeezes_S1x1x128_S128).view.set
      ⊆ (sSl0 L k hA).view.set := by
  show ((((sI).view.slice (Rect.unit (s := S2x4x128) (k0_off9 k) S1x1x128.size (k0_off9_inb L k hA))).reshape S128 squeezes_S1x1x128_S128.numel_eq).set)
    ⊆ ((((sI).view.slice (Rect.unit (s := S2x4x128) (k0_off2 k) S1x4x128.size (k0_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k0_off2_eq]; rw [k0_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree0 (k : Fin k0_t1_loop.trips) (hA : Act0 L k) (h2 : k0_cond2 L k = 1#1)
    (S : Buf (Elt F) ((thr0 d L).loc cc0_scratch0)) (hS : SlotAgrees0 d L I k hA S) (w : S4x128.Idx → Elt F .i32) :
    ∀ i ∈ (((sI).slice (Rect.unit (s := S2x4x128) (k0_off9 k) S1x1x128.size (k0_off9_inb L k hA)) (fun _ => rfl)).squeeze S128 squeezes_S1x1x128_S128).view.set,
      (((sI).slice (Rect.unit (s := S2x4x128) (k0_off4 k) S1x4x128.size (k0_off4_inb L k hA h2)) (fun _ => rfl)).squeeze S4x128 squeezes_S1x4x128_S4x128).view.write (Elt F) S w Finset.univ i
        = slotImg0 d L I k.val i := by
  intro i hi
  rw [View.write_of_not_mem _ _ _ (by
    rw [View.setOn_univ]
    exact fun hm => (Finset.disjoint_left.mp (list9_disj0 L k hA h2) hi) hm)]
  exact hS i (list9_sub0 L k hA hi)

/-- So the words of index list `3` name rows of the table. -/
theorem list9_inr0 (k : Fin k0_t1_loop.trips) (hA : Act0 L k) (S' : Buf (Elt F) ((thr0 d L).loc cc0_scratch0))
    (hS' : ∀ i ∈ (((sI).slice (Rect.unit (s := S2x4x128) (k0_off9 k) S1x1x128.size (k0_off9_inb L k hA)) (fun _ => rfl)).squeeze S128 squeezes_S1x1x128_S128).view.set, S' i = slotImg0 d L I k.val i)
    (hI : ∀ i, (I i).toNat < 160000) :
    ∀ x : S128.Idx, (View.read (Elt F) (((sI).slice (Rect.unit (s := S2x4x128) (k0_off9 k) S1x1x128.size (k0_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond0 : ∀ k : Fin k0_t1_loop.trips, 1 ≤ k.val →
    Scalar.cmpi CmpIPredicate.ne (Scalar.extui (Scalar.cmpi CmpIPredicate.sge (Scf.iv 0#32 1#32 k) 1#32)) 0#32 = 1#1 := by decide

end Cert.Kernel.KP

end
-- ==== Proof.TileVal0B.lean ====
/-
  The values the task's transfers carry, call 0.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody0bB
import Idealize.ShloMosaic.Lib.ValueLayout

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable (d : Dev nD) (L : grid0.Coords)

/-! ## The slot and the chunk a trip prefetches are the next trip's; the first fetch's are trip 0's -/

/-- A 1 × 4 × 128 window of the index scratch, squeezed: its elements are its rectangle's. -/
theorem set_slot0 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc0_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk0 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v8_scv : Ref sig .scVector)).slice (Rect.unit (s := S250x4x128) off S1x4x128.size inb)).reshape S4x128 squeezes_S1x4x128_S4x128.numel_eq).set = _
  rw [View.set_reshape, View.set_slice_whole]

/-- Unit rectangles of one size at equal offsets have the same elements. -/
theorem unit_set_congr {s : Shape} {off off' size : Fin s.rank → ℕ} {inb inb'} (h : off = off') :
    (Rect.unit (s := s) off size inb).set = (Rect.unit (s := s) off' size inb').set := by
  subst h; rfl

theorem slot_next_set0 (k k' : Fin k0_t1_loop.trips) (hk : k'.val = k.val + 1) (hA : Act0 L k) (hA' : Act0 L k') (h2 : k0_cond2 L k = 1#1) :
    (sSl0 L k' hA').view.set
      = (((sI).slice (Rect.unit (s := S2x4x128) (k0_off4 k) S1x4x128.size (k0_off4_inb L k hA h2)) (fun _ => rfl)).squeeze S4x128 squeezes_S1x4x128_S4x128).view.set := by
  rw [set_slot0, set_slot0]
  refine unit_set_congr ?_
  have e : (k.val + 1) % 2 = 1 - k.val % 2 := by omega
  rw [k0_off2_eq, k0_off4_eq, hk, e]

theorem chunk_next_set0 (k k' : Fin k0_t1_loop.trips) (hk : k'.val = k.val + 1) (hA : Act0 L k) (hA' : Act0 L k') (h2 : k0_cond2 L k = 1#1) :
    (iCh0 L k' hA').view.set
      = (((iW).slice (Rect.unit (s := S250x4x128) (k0_off5 L k) S1x4x128.size (k0_off5_inb L k hA h2)) (fun _ => rfl)).squeeze S4x128 squeezes_S1x4x128_S4x128).view.set := by
  rw [set_chunk0, set_chunk0]
  refine unit_set_congr ?_
  have e : 2 * (L 1).val + (L 0).val + 32 * (k.val + 1) = 2 * (L 1).val + (L 0).val + 32 * k.val + 32 := by omega
  rw [k0_off3_eq, k0_off5_eq, hk, e]

theorem slot_first_set0 (h0 : 0 < k0_t1_loop.trips) (hA0 : Act0 L ⟨0, h0⟩) :
    (sSl0 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot0, set_slot0]
  refine unit_set_congr ?_
  rw [k0_off2_eq]
  rfl

theorem chunk_first_set0 (h0 : 0 < k0_t1_loop.trips) (hA0 : Act0 L ⟨0, h0⟩) :
    (iCh0 L ⟨0, h0⟩ hA0).view.set
      = (((iW).slice (Rect.unit (s := S250x4x128) (k0_off1 L) S1x4x128.size (k0_off1_inb L)) (fun _ => rfl)).squeeze S4x128 squeezes_S1x4x128_S4x128).view.set := by
  rw [set_chunk0, set_chunk0]
  refine unit_set_congr ?_
  rw [k0_off3_eq, k0_off1_eq]
  rfl

/-! ## What an index fetch lands: the chunk's words, in the slot -/

/-- A squeeze of a 1 × 4 × 128 index puts the unit axis back in front. -/
theorem sq_4x128 (y : S4x128.Idx) :
    Shape.reshapeEquiv squeezes_S1x4x128_S4x128.numel_eq y = ix3 (⟨0, Nat.one_pos⟩ : Fin 1) (y 0) (y 1) := by
  exact (congrArg _ (eq_ix2 y)).trans (reshapeEquiv_ix2_1ab (a := 4) (b := 128) squeezes_S1x4x128_S4x128.numel_eq (y 0) (y 1))

/-- Where element `y` of a squeezed 1 × 4 × 128 window of the index scratch at offsets `off` lies. -/
theorem emb_slot0 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk0 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc0 d))

/-- A fetch of chunk `n` (below 250) into slot `p` leaves, on that slot, the words the slot image of a trip whose chunk
    is `n` shows. -/
theorem fetch_agrees0 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid0 L + 32 * t) % 250 = n)
    (S : Buf (Elt F) ((thr0 d L).loc cc0_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg0 d L I t i := by
  intro i hi
  obtain ⟨y, -, rfl⟩ := Finset.mem_map.mp hi
  rw [View.write_emb_of_mem _ _ (Finset.mem_univ y)]
  unfold slotImg0
  show I ((((iW).slice (Rect.unit (s := S250x4x128) offC S1x4x128.size inbC) (fun _ => rfl)).squeeze S4x128 squeezes_S1x4x128_S4x128).view.emb y) = I _
  congr 1
  funext a
  apply Fin.ext
  have c0 := emb_chunk0 offC inbC y 0
  have c1 := emb_chunk0 offC inbC y 1
  have c2 := emb_chunk0 offC inbC y 2
  have s1 := emb_slot0 offS inbS y 1
  have s2 := emb_slot0 offS inbS y 2
  subst hS hC
  match a with
  | 0 => exact c0.trans (show n + 0 = (wid0 L + 32 * t) % 250 from by omega)
  | 1 => exact c1.trans s1.symm
  | 2 => exact c2.trans s2.symm

/-- The prefetched slot shows the NEXT trip's chunk. -/
theorem slot_agree_next0 (k k' : Fin k0_t1_loop.trips) (hk : k'.val = k.val + 1) (hA : Act0 L k) (hA' : Act0 L k') (h2 : k0_cond2 L k = 1#1)
    (S : Buf (Elt F) ((thr0 d L).loc cc0_scratch0)) :
    SlotAgrees0 d L I k' hA' (View.write (Elt F) (((sI).slice (Rect.unit (s := S2x4x128) (k0_off4 k) S1x4x128.size (k0_off4_inb L k hA h2)) (fun _ => rfl)).squeeze S4x128 squeezes_S1x4x128_S4x128).view S
      (ReadAs.same.apply (View.read (Elt F) (((iW).slice (Rect.unit (s := S250x4x128) (k0_off5 L k) S1x4x128.size (k0_off5_inb L k hA h2)) (fun _ => rfl)).squeeze S4x128 squeezes_S1x4x128_S4x128).view I)) Finset.univ) := by
  intro i hi
  rw [slot_next_set0 L k k' hk hA hA' h2] at hi
  have hlt : wid0 L + 32 * k'.val < 250 := (tb0_act_iff L k').mp hA'
  exact fetch_agrees0 d L I (k0_off4 k) (k0_off4_inb L k hA h2) (k0_off5 L k) (k0_off5_inb L k hA h2) (1 - k.val % 2) (wid0 L + 32 * k.val + 32) k'.val (k0_off4_eq k) (k0_off5_eq L k)
    (by rw [hk] at hlt ⊢; omega) S i hi

/-- The first fetch's slot shows trip 0's chunk. -/
theorem slot_agree_first0 (h0 : 0 < k0_t1_loop.trips) (hA0 : Act0 L ⟨0, h0⟩) (S : Buf (Elt F) ((thr0 d L).loc cc0_scratch0)) :
    SlotAgrees0 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k0_off1 L) S1x4x128.size (k0_off1_inb L)) (fun _ => rfl)).squeeze S4x128 squeezes_S1x4x128_S4x128).view I)) Finset.univ) := by
  intro i hi
  rw [slot_first_set0 L h0 hA0] at hi
  have hlt : wid0 L + 32 * (⟨0, h0⟩ : Fin k0_t1_loop.trips).val < 250 := (tb0_act_iff L ⟨0, h0⟩).mp hA0
  exact fetch_agrees0 d L I ![0, 0, 0] inb_S2x4x128_S1x4x128_0_0_0 (k0_off1 L) (k0_off1_inb L) 0 (wid0 L) 0 rfl (k0_off1_eq L) (by simp only [] at hlt; omega) S i hi

/-! ## What a write-out carries: the gathered array on its window -/

/-- A squeeze of a 1 × 128 × 128 index puts the unit axis back in front. -/
theorem sq_128x128 (y : S128x128.Idx) :
    Shape.reshapeEquiv squeezes_S1x128x128_S128x128.numel_eq y = ix3 (⟨0, Nat.one_pos⟩ : Fin 1) (y 0) (y 1) :=
  (congrArg _ (eq_ix2 y)).trans (reshapeEquiv_ix2_1ab (a := 128) (b := 128) squeezes_S1x128x128_S128x128.numel_eq (y 0) (y 1))

/-- A squeeze of a 1 × 1 × 128 index puts the two unit axes back in front. -/
theorem sq_128 (x : S128.Idx) :
    Shape.reshapeEquiv squeezes_S1x1x128_S128.numel_eq x
      = ix3 (⟨0, Nat.one_pos⟩ : Fin 1) (⟨0, Nat.one_pos⟩ : Fin 1) (⟨(x 0).val, (x 0).isLt⟩ : Fin 128) :=
  Shape.reshapeEquiv_eq_of_rowMajor squeezes_S1x1x128_S128.numel_eq (by
    have h3 := Shape.rowMajor_val_three (d := ![1, 1, 128]) (ix3 (⟨0, Nat.one_pos⟩ : Fin 1) (⟨0, Nat.one_pos⟩ : Fin 1) (⟨(x 0).val, (x 0).isLt⟩ : Fin 128))
    have h1 := Shape.rowMajor_val_one (d := ![128]) x
    refine h3.trans (Eq.trans ?_ h1.symm)
    show ((0 * 1 + 0) * 128 + (x 0).val) = (x 0).val
    simp only [Nat.zero_mul, Nat.zero_add])

/-- Entry `k` of a rank-one list in row-major order is its entry `k`. -/
theorem rowMajor_symm_128 (k : Fin S128.numel) : (S128.rowMajor.symm k) 0 = ⟨k.val, k.isLt⟩ := by
  apply Fin.ext
  have h := Shape.rowMajor_val_one (d := ![128]) (S128.rowMajor.symm k)
  rw [Equiv.apply_symm_apply] at h
  exact h.symm

/-- Where element `y` of a squeezed 1 × 128 × 128 window of the result at offsets `off` lies. -/
theorem emb_win0 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list0 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The table sliced whole places every index at itself. -/
theorem emb_x0 (z : S160000x128.Idx) :
    ((xW).slice (Rect.unit (s := S160000x128) ![0, 0] S160000x128.size inb_S160000x128_S160000x128_0_0) (fun _ => rfl)).view.emb z = z := by
  show (Rect.unit (s := S160000x128) ![0, 0] S160000x128.size inb_S160000x128_S160000x128_0_0).emb z = z
  funext a
  apply Fin.ext
  rw [Rect.emb_apply]
  match a with
  | 0 => show 0 + 1 * (z 0).val = (z 0).val; omega
  | 1 => show 0 + 1 * (z 1).val = (z 1).val; omega

/-- The general form: a window of the result at offsets `(j, 128 n, 0)`, written with what a plane of the row scratch
    reads after a gather of the table's rows named by the index list at offsets `(p, j, 0)` of the index scratch, holds
    the gathered array — when the scratch shows there the words of chunk `n`. -/
theorem win_val_gen0 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid0 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc0 d)) (S' : Buf (Elt F) ((thr0 d L).loc cc0_scratch0))
    (hS' : ∀ i ∈ (((sI).slice (Rect.unit (s := S2x4x128) offL S1x1x128.size inbL) (fun _ => rfl)).squeeze S128 squeezes_S1x1x128_S128).view.set, S' i = slotImg0 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win0 offW inbW y 0
  have w1 := emb_win0 offW inbW y 1
  have w2 := emb_win0 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg0
    congr 2
    have l1 := emb_list0 ![p, j.val, 0] inbL (S128.rowMajor.symm (Fin.cast hnum.symm (y gathers_S160000x128_S128x128.axis'))) 1
    have l2 := emb_list0 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val0_0 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off6 k) S1x1x128.size (k0_off6_inb L k hA)) (fun _ => rfl)).squeeze S128 squeezes_S1x1x128_S128).view.set, S' i = slotImg0 d L I k.val i)
    (hin : ∀ x : S128.Idx, (View.read (Elt F) (((sI).slice (Rect.unit (s := S2x4x128) (k0_off6 k) S1x1x128.size (k0_off6_inb L k hA)) (fun _ => rfl)).squeeze S128 squeezes_S1x1x128_S128).view S' x).toNat < 160000)
    (hI : ∀ i, (I i).toNat < 160000) :
    ∀ i ∈ (oWin0_0 L k hA).view.set,
      (oWin0_0 L k hA).view.writes (Elt F) G [⟨Rect.whole S128x128, ReadAs.same.apply (View.read (Elt F) (rPl0_0).view ((rPl0_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off6 k) S1x1x128.size (k0_off6_inb L k hA)) (fun _ => rfl)).squeeze S128 squeezes_S1x1x128_S128).view S') (by decide) hin)⟩]))⟩] i
        = gath (F := F) X I i :=
  win_val_gen0 d L I X (k0_off10 L k) (k0_off10_inb L k hA) (k0_off6 k) (k0_off6_inb L k hA) 0 (k.val % 2) (wid0 L + 32 * k.val)
    (256 * (L 1).val + 128 * (L 0).val + 4096 * k.val) k.val (k0_off10_eq L k)
    (show 256 * (L 1).val + 128 * (L 0).val + 4096 * k.val = 128 * (2 * (L 1).val + (L 0).val + 32 * k.val) by omega)
    (k0_off6_eq k) (Nat.mod_eq_of_lt ((tb0_act_iff L k).mp hA)) (rPl0_0).view r (by decide) G S' hS' hin hI

/-- Plane 1 of a trip: its window of the result, written with the plane of the row scratch after the gather of the rows
    its index list names, holds the gathered array. -/
theorem win_val0_1 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off7 k) S1x1x128.size (k0_off7_inb L k hA)) (fun _ => rfl)).squeeze S128 squeezes_S1x1x128_S128).view.set, S' i = slotImg0 d L I k.val i)
    (hin : ∀ x : S128.Idx, (View.read (Elt F) (((sI).slice (Rect.unit (s := S2x4x128) (k0_off7 k) S1x1x128.size (k0_off7_inb L k hA)) (fun _ => rfl)).squeeze S128 squeezes_S1x1x128_S128).view S' x).toNat < 160000)
    (hI : ∀ i, (I i).toNat < 160000) :
    ∀ i ∈ (oWin0_1 L k hA).view.set,
      (oWin0_1 L k hA).view.writes (Elt F) G [⟨Rect.whole S128x128, ReadAs.same.apply (View.read (Elt F) (rPl0_1).view ((rPl0_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off7 k) S1x1x128.size (k0_off7_inb L k hA)) (fun _ => rfl)).squeeze S128 squeezes_S1x1x128_S128).view S') (by decide) hin)⟩]))⟩] i
        = gath (F := F) X I i :=
  win_val_gen0 d L I X (k0_off11 L k) (k0_off11_inb L k hA) (k0_off7 k) (k0_off7_inb L k hA) 1 (k.val % 2) (wid0 L + 32 * k.val)
    (256 * (L 1).val + 128 * (L 0).val + 4096 * k.val) k.val (k0_off11_eq L k)
    (show 256 * (L 1).val + 128 * (L 0).val + 4096 * k.val = 128 * (2 * (L 1).val + (L 0).val + 32 * k.val) by omega)
    (k0_off7_eq k) (Nat.mod_eq_of_lt ((tb0_act_iff L k).mp hA)) (rPl0_1).view r (by decide) G S' hS' hin hI

/-- Plane 2 of a trip: its window of the result, written with the plane of the row scratch after the gather of the rows
    its index list names, holds the gathered array. -/
theorem win_val0_2 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off8 k) S1x1x128.size (k0_off8_inb L k hA)) (fun _ => rfl)).squeeze S128 squeezes_S1x1x128_S128).view.set, S' i = slotImg0 d L I k.val i)
    (hin : ∀ x : S128.Idx, (View.read (Elt F) (((sI).slice (Rect.unit (s := S2x4x128) (k0_off8 k) S1x1x128.size (k0_off8_inb L k hA)) (fun _ => rfl)).squeeze S128 squeezes_S1x1x128_S128).view S' x).toNat < 160000)
    (hI : ∀ i, (I i).toNat < 160000) :
    ∀ i ∈ (oWin0_2 L k hA).view.set,
      (oWin0_2 L k hA).view.writes (Elt F) G [⟨Rect.whole S128x128, ReadAs.same.apply (View.read (Elt F) (rPl0_2).view ((rPl0_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off8 k) S1x1x128.size (k0_off8_inb L k hA)) (fun _ => rfl)).squeeze S128 squeezes_S1x1x128_S128).view S') (by decide) hin)⟩]))⟩] i
        = gath (F := F) X I i :=
  win_val_gen0 d L I X (k0_off12 L k) (k0_off12_inb L k hA) (k0_off8 k) (k0_off8_inb L k hA) 2 (k.val % 2) (wid0 L + 32 * k.val)
    (256 * (L 1).val + 128 * (L 0).val + 4096 * k.val) k.val (k0_off12_eq L k)
    (show 256 * (L 1).val + 128 * (L 0).val + 4096 * k.val = 128 * (2 * (L 1).val + (L 0).val + 32 * k.val) by omega)
    (k0_off8_eq k) (Nat.mod_eq_of_lt ((tb0_act_iff L k).mp hA)) (rPl0_2).view r (by decide) G S' hS' hin hI

/-- Plane 3 of a trip: its window of the result, written with the plane of the row scratch after the gather of the rows
    its index list names, holds the gathered array. -/
theorem win_val0_3 (k : Fin k0_t1_loop.trips) (hA : Act0 L k) (G : Buf (Elt F) (oLoc0 d)) (r : Buf (Elt F) ((thr0 d L).loc cc0_scratch1)) (S' : Buf (Elt F) ((thr0 d L).loc cc0_scratch0))
    (hS' : ∀ i ∈ (((sI).slice (Rect.unit (s := S2x4x128) (k0_off9 k) S1x1x128.size (k0_off9_inb L k hA)) (fun _ => rfl)).squeeze S128 squeezes_S1x1x128_S128).view.set, S' i = slotImg0 d L I k.val i)
    (hin : ∀ x : S128.Idx, (View.read (Elt F) (((sI).slice (Rect.unit (s := S2x4x128) (k0_off9 k) S1x1x128.size (k0_off9_inb L k hA)) (fun _ => rfl)).squeeze S128 squeezes_S1x1x128_S128).view S' x).toNat < 160000)
    (hI : ∀ i, (I i).toNat < 160000) :
    ∀ i ∈ (oWin0_3 L k hA).view.set,
      (oWin0_3 L k hA).view.writes (Elt F) G [⟨Rect.whole S128x128, ReadAs.same.apply (View.read (Elt F) (rPl0_3).view ((rPl0_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k0_off9 k) S1x1x128.size (k0_off9_inb L k hA)) (fun _ => rfl)).squeeze S128 squeezes_S1x1x128_S128).view S') (by decide) hin)⟩]))⟩] i
        = gath (F := F) X I i :=
  win_val_gen0 d L I X (k0_off13 L k) (k0_off13_inb L k hA) (k0_off9 k) (k0_off9_inb L k hA) 3 (k.val % 2) (wid0 L + 32 * k.val)
    (256 * (L 1).val + 128 * (L 0).val + 4096 * k.val) k.val (k0_off13_eq L k)
    (show 256 * (L 1).val + 128 * (L 0).val + 4096 * k.val = 128 * (2 * (L 1).val + (L 0).val + 32 * k.val) by omega)
    (k0_off9_eq k) (Nat.mod_eq_of_lt ((tb0_act_iff L k).mp hA)) (rPl0_3).view r (by decide) G S' hS' hin hI

end Cert.Kernel.KP

end
-- ==== Proof.TileTrip0B.lean ====
/-
  One trip of the loop of call 0's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal0B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The table's share as the remainder and one read token per gather semaphore. -/
def xPart0 : sProp 𝕄 :=
  iprop(((xW).view.loc (thr0 d L) ↦{Transfers.shareDrop q 4} X) ∗ ((xW).view.loc (thr0 d L) ↦{Transfers.shareTok q 4 0} X) ∗ ((xW).view.loc (thr0 d L) ↦{Transfers.shareTok q 4 1} X)
    ∗ ((xW).view.loc (thr0 d L) ↦{Transfers.shareTok q 4 2} X) ∗ ((xW).view.loc (thr0 d L) ↦{Transfers.shareTok q 4 3} X))
/-- The gather semaphores at rest. -/
def gsems0 : sProp 𝕄 :=
  iprop(semVal (cellD0 d L cc0_scratch2) 0 ∗ semVal (cellD0 d L cc0_scratch3) 0 ∗ semVal (cellD0 d L cc0_scratch4) 0 ∗ semVal (cellD0 d L cc0_scratch5) 0)
/-- The index fetch of an active trip `t` in flight. -/
def idxFly0 (t : Fin k0_t1_loop.trips) (h : Act0 L t) : sProp 𝕄 :=
  iprop(∃ S, ⌜SlotAgrees0 d L I t h S⌝
    ∗ Transfers.Flight countersEmb (thr0 d L) (SemLoc.dma cc0_scratch10.sem) (default : HIx 5) 16384 (idxDeliv0 d L q I t h S)
    ∗ ((iW).view.loc (thr0 d L) ↦[Finset.univ \ (iCh0 L t h).view.set]{q} I)
    ∗ ((sI).view.loc (thr0 d L) ↦[Finset.univ \ (sSl0 L t h).view.set]{fullShare} S))
/-- The four write-outs of an active trip `t` in flight. -/
def rowsFly0 (t : Fin k0_t1_loop.trips) (h : Act0 L t) : sProp 𝕄 :=
  iprop(∃ r0 r1 r2 r3, Transfers.Flight countersEmb (thr0 d L) (SemLoc.dma cc0_scratch6.sem) (default : HIx 5) 524288 (wDeliv0 d L X I t h 0 (pl0_0 d L r0))
    ∗ Transfers.Flight countersEmb (thr0 d L) (SemLoc.dma cc0_scratch7.sem) (default : HIx 5) 524288 (wDeliv0 d L X I t h 1 (pl0_1 d L r1))
    ∗ Transfers.Flight countersEmb (thr0 d L) (SemLoc.dma cc0_scratch8.sem) (default : HIx 5) 524288 (wDeliv0 d L X I t h 2 (pl0_2 d L r2))
    ∗ Transfers.Flight countersEmb (thr0 d L) (SemLoc.dma cc0_scratch9.sem) (default : HIx 5) 524288 (wDeliv0 d L X I t h 3 (pl0_3 d L r3)))
omit [FloatOps F] in
/-- One more wait recorded at index `none` keeps the recorded waits within `W` and index `none`. -/
theorem none_ins0 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart0 (O : CellTallies nD τ sig (HIx 5)) (W : Waits sig (HIx 5)) : sProp 𝕄 :=
  iprop(∃ W', ⌜∀ p ∈ W', p ∈ W ∨ p.2 = none⌝ ∗ owes (thr0 d L) O W')

/-- The index side at rest: the semaphore at zero, block and scratch whole. -/
def idxIdle0 : sProp 𝕄 :=
  iprop(semVal (cellD0 d L cc0_scratch10) 0 ∗ ((iW).view.loc (thr0 d L) ↦{q} I) ∗ ∃ S, (sI).view.loc (thr0 d L) ↦{fullShare} S)
/-- The row scratch and the write-out semaphores at rest. -/
def rowsIdle0 : sProp 𝕄 :=
  iprop((semVal (cellD0 d L cc0_scratch6) 0 ∗ ∃ r, pl0_0 d L r) ∗ (semVal (cellD0 d L cc0_scratch7) 0 ∗ ∃ r, pl0_1 d L r)
    ∗ (semVal (cellD0 d L cc0_scratch8) 0 ∗ ∃ r, pl0_2 d L r) ∗ (semVal (cellD0 d L cc0_scratch9) 0 ∗ ∃ r, pl0_3 d L r))

/-- On the first trip the loop's test `i ≥ 1` fails (in the words the body computes it with). -/
theorem lt1_cond0 : ∀ k : Fin k0_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA0 (O : CellTallies nD τ sig (HIx 5)) (W : Waits sig (HIx 5))
    (k tp k' : Fin k0_t1_loop.trips) (hp : tp.val + 1 = k.val) (hk' : k'.val = k.val + 1) (hA : Act0 L k) (hAp : Act0 L tp) (hA' : Act0 L k')
    (h2 : k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsFly0 d L X I tp hAp ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxFly0 d L q I k' hA' ∗ gsems0 d L ∗ rowsFly0 d L X I k hA
            ∗ oWins0 d L tp hAp (gath (F := F) X I) ∗ owesPart0 d L O W ∗ R) := by
  unfold xPart0 idxFly0 gsems0 rowsFly0 oWins0 owesPart0
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have hdisj := slots_disj0 L k hA h2
  have hd6 := list6_disj0 L k hA h2
  have hd7 := list7_disj0 L k hA h2
  have hd8 := list8_disj0 L k hA h2
  have hd9 := list9_disj0 L k hA h2
  have hk1 : 1 ≤ k.val := by omega
  have k0_h3 := ge1_cond0 k hk1
  sl_unfold [k0_t1_body]
  sl_exec
  have hin6 := list6_inr0 d L I k hA (tripA0.sl.HsI_w0 d L I k hA h2 S) (list6_agree0 d L I k hA h2 S hS _) hI
  have hin7 := list7_inr0 d L I k hA (tripA0.sl.HsI_w0 d L I k hA h2 S) (list7_agree0 d L I k hA h2 S hS _) hI
  have hin8 := list8_inr0 d L I k hA (tripA0.sl.HsI_w0 d L I k hA h2 S) (list8_agree0 d L I k hA h2 S hS _) hI
  have hin9 := list9_inr0 d L I k hA (tripA0.sl.HsI_w0 d L I k hA h2 S) (list9_agree0 d L I k hA h2 S hS _) hI
  sl_exec
  have hw0 : (((oWin0_0 L k hA).view.loc (thr0 d L) ↦[(oWin0_0 L k hA).view.set]{fullShare}
      ((oWin0_0 L k hA).view.writes (Elt F) G [⟨Rect.whole S128x128, tripA0.sl.dma0_1 d L X I k hA h2 S r0 hin6⟩])) : sProp 𝕄)
      = ((oW).view.loc (thr0 d L) ↦[oSet0 L k hA 0]{fullShare} gath (F := F) X I) :=
    pointsTo_congr (win_val0_0 d L I X k hA G r0 _ (list6_agree0 d L I k hA h2 S hS _) hin6 hI)
  have hw1 : (((oWin0_1 L k hA).view.loc (thr0 d L) ↦[(oWin0_1 L k hA).view.set]{fullShare}
      ((oWin0_1 L k hA).view.writes (Elt F) G [⟨Rect.whole S128x128, tripA0.sl.dma0_2 d L X I k hA h2 S r1 hin7⟩])) : sProp 𝕄)
      = ((oW).view.loc (thr0 d L) ↦[oSet0 L k hA 1]{fullShare} gath (F := F) X I) :=
    pointsTo_congr (win_val0_1 d L I X k hA G r1 _ (list7_agree0 d L I k hA h2 S hS _) hin7 hI)
  have hw2 : (((oWin0_2 L k hA).view.loc (thr0 d L) ↦[(oWin0_2 L k hA).view.set]{fullShare}
      ((oWin0_2 L k hA).view.writes (Elt F) G [⟨Rect.whole S128x128, tripA0.sl.dma0_3 d L X I k hA h2 S r2 hin8⟩])) : sProp 𝕄)
      = ((oW).view.loc (thr0 d L) ↦[oSet0 L k hA 2]{fullShare} gath (F := F) X I) :=
    pointsTo_congr (win_val0_2 d L I X k hA G r2 _ (list8_agree0 d L I k hA h2 S hS _) hin8 hI)
  have hw3 : (((oWin0_3 L k hA).view.loc (thr0 d L) ↦[(oWin0_3 L k hA).view.set]{fullShare}
      ((oWin0_3 L k hA).view.writes (Elt F) G [⟨Rect.whole S128x128, tripA0.sl.dma0_4 d L X I k hA h2 S r3 hin9⟩])) : sProp 𝕄)
      = ((oW).view.loc (thr0 d L) ↦[oSet0 L k hA 3]{fullShare} gath (F := F) X I) :=
    pointsTo_congr (win_val0_3 d L I X k hA G r3 _ (list9_agree0 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA0.sl.HsI_w0 d L I k hA h2 S)
    isplitr
    · ipureintro; exact slot_agree_next0 d L I k k' hk' hA hA' h2 S
    rw [slot_next_set0 L k k' hk' hA hA' h2, chunk_next_set0 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr0 d L) (sep_mono_left (Entails.of_eq hw0))) $$ Hf0
    isplitl [Hf1]
    · iapply (Transfers.Flight_mono countersEmb (thr0 d L) (sep_mono_left (Entails.of_eq hw1))) $$ Hf1
    isplitl [Hf2]
    · iapply (Transfers.Flight_mono countersEmb (thr0 d L) (sep_mono_left (Entails.of_eq hw2))) $$ Hf2
    · iapply (Transfers.Flight_mono countersEmb (thr0 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins0 (none_ins0 (none_ins0 (none_ins0 (none_ins0 (none_ins0 (none_ins0 (none_ins0 (none_ins0 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB0 (O : CellTallies nD τ sig (HIx 5)) (W : Waits sig (HIx 5))
    (k tp : Fin k0_t1_loop.trips) (hp : tp.val + 1 = k.val) (hA : Act0 L k) (hAp : Act0 L tp)
    (hn2 : ¬ k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsFly0 d L X I tp hAp ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxIdle0 d L q I ∗ gsems0 d L ∗ rowsFly0 d L X I k hA
            ∗ oWins0 d L tp hAp (gath (F := F) X I) ∗ owesPart0 d L O W ∗ R) := by
  unfold xPart0 idxFly0 idxIdle0 gsems0 rowsFly0 oWins0 owesPart0
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have k0_h2 : ¬ k0_cond2 L k = 1#1 := hn2
  have hk1 : 1 ≤ k.val := by omega
  have k0_h3 := ge1_cond0 k hk1
  have hin6 := list6_inr0 d L I k hA S (fun i hi => hS i (list6_sub0 L k hA hi)) hI
  have hin7 := list7_inr0 d L I k hA S (fun i hi => hS i (list7_sub0 L k hA hi)) hI
  have hin8 := list8_inr0 d L I k hA S (fun i hi => hS i (list8_sub0 L k hA hi)) hI
  have hin9 := list9_inr0 d L I k hA S (fun i hi => hS i (list9_sub0 L k hA hi)) hI
  sl_unfold [k0_t1_body]
  sl_exec
  have hw0 : (((oWin0_0 L k hA).view.loc (thr0 d L) ↦[(oWin0_0 L k hA).view.set]{fullShare}
      ((oWin0_0 L k hA).view.writes (Elt F) G [⟨Rect.whole S128x128, tripB0.sl.dma0 d L X k hA S r0 hin6⟩])) : sProp 𝕄)
      = ((oW).view.loc (thr0 d L) ↦[oSet0 L k hA 0]{fullShare} gath (F := F) X I) :=
    pointsTo_congr (win_val0_0 d L I X k hA G r0 S (fun i hi => hS i (list6_sub0 L k hA hi)) hin6 hI)
  have hw1 : (((oWin0_1 L k hA).view.loc (thr0 d L) ↦[(oWin0_1 L k hA).view.set]{fullShare}
      ((oWin0_1 L k hA).view.writes (Elt F) G [⟨Rect.whole S128x128, tripB0.sl.dma0_1 d L X k hA S r1 hin7⟩])) : sProp 𝕄)
      = ((oW).view.loc (thr0 d L) ↦[oSet0 L k hA 1]{fullShare} gath (F := F) X I) :=
    pointsTo_congr (win_val0_1 d L I X k hA G r1 S (fun i hi => hS i (list7_sub0 L k hA hi)) hin7 hI)
  have hw2 : (((oWin0_2 L k hA).view.loc (thr0 d L) ↦[(oWin0_2 L k hA).view.set]{fullShare}
      ((oWin0_2 L k hA).view.writes (Elt F) G [⟨Rect.whole S128x128, tripB0.sl.dma0_2 d L X k hA S r2 hin8⟩])) : sProp 𝕄)
      = ((oW).view.loc (thr0 d L) ↦[oSet0 L k hA 2]{fullShare} gath (F := F) X I) :=
    pointsTo_congr (win_val0_2 d L I X k hA G r2 S (fun i hi => hS i (list8_sub0 L k hA hi)) hin8 hI)
  have hw3 : (((oWin0_3 L k hA).view.loc (thr0 d L) ↦[(oWin0_3 L k hA).view.set]{fullShare}
      ((oWin0_3 L k hA).view.writes (Elt F) G [⟨Rect.whole S128x128, tripB0.sl.dma0_3 d L X k hA S r3 hin9⟩])) : sProp 𝕄)
      = ((oW).view.loc (thr0 d L) ↦[oSet0 L k hA 3]{fullShare} gath (F := F) X I) :=
    pointsTo_congr (win_val0_3 d L I X k hA G r3 S (fun i hi => hS i (list9_sub0 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr0 d L) (sep_mono_left (Entails.of_eq hw0))) $$ Hf0
    isplitl [Hf1]
    · iapply (Transfers.Flight_mono countersEmb (thr0 d L) (sep_mono_left (Entails.of_eq hw1))) $$ Hf1
    isplitl [Hf2]
    · iapply (Transfers.Flight_mono countersEmb (thr0 d L) (sep_mono_left (Entails.of_eq hw2))) $$ Hf2
    · iapply (Transfers.Flight_mono countersEmb (thr0 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins0 (none_ins0 (none_ins0 (none_ins0 (none_ins0 (none_ins0 (none_ins0 (none_ins0 (none_ins0 (hW')))))))))

set_option maxHeartbeats 1000000 in
set_option sl_exec.dmaWindow true in
/-- The first trip: from its index fetch in flight and the row scratch at rest to the index fetch of trip 1 and its own
    four write-outs in flight. -/
theorem tripC0 (O : CellTallies nD τ sig (HIx 5)) (W : Waits sig (HIx 5))
    (k k' : Fin k0_t1_loop.trips) (hk0 : k.val = 0) (hk' : k'.val = k.val + 1) (hA : Act0 L k) (hA' : Act0 L k')
    (h2 : k0_cond2 L k = 1#1) (hI : ∀ i, (I i).toNat < 160000) (R : sProp 𝕄) :
    iprop((Transfers.MayWaits (thr0 d L) (none : HIx 5) O : sProp 𝕄) ∗ xPart0 d L q X ∗ idxFly0 d L q I k hA ∗ gsems0 d L
        ∗ rowsIdle0 d L ∗ oWins0 d L k hA G ∗ owesPart0 d L O W ∗ R)
      ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => iprop(xPart0 d L q X ∗ idxFly0 d L q I k' hA' ∗ gsems0 d L ∗ rowsFly0 d L X I k hA ∗ owesPart0 d L O W ∗ R) := by
  unfold xPart0 idxFly0 gsems0 rowsIdle0 rowsFly0 oWins0 owesPart0
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv0 wDeliv0 pl0_0 pl0_1 pl0_2 pl0_3
  have k0_h1 : k0_cond1 L k = 1#1 := hA
  have k0_h3 := lt1_cond0 k hk0
  have hdisj := slots_disj0 L k hA h2
  have hd6 := list6_disj0 L k hA h2
  have hd7 := list7_disj0 L k hA h2
  have hd8 := list8_disj0 L k hA h2
  have hd9 := list9_disj0 L k hA h2
  sl_unfold [k0_t1_body]
  sl_exec
  have hin6 := list6_inr0 d L I k hA (tripC0.sl.HsI_w0 d L I k hA h2 S) (list6_agree0 d L I k hA h2 S hS _) hI
  have hin7 := list7_inr0 d L I k hA (tripC0.sl.HsI_w0 d L I k hA h2 S) (list7_agree0 d L I k hA h2 S hS _) hI
  have hin8 := list8_inr0 d L I k hA (tripC0.sl.HsI_w0 d L I k hA h2 S) (list8_agree0 d L I k hA h2 S hS _) hI
  have hin9 := list9_inr0 d L I k hA (tripC0.sl.HsI_w0 d L I k hA h2 S) (list9_agree0 d L I k hA h2 S hS _) hI
  sl_exec
  have hw0 : (((oWin0_0 L k hA).view.loc (thr0 d L) ↦[(oWin0_0 L k hA).view.set]{fullShare}
      ((oWin0_0 L k hA).view.writes (Elt F) G [⟨Rect.whole S128x128, tripC0.sl.dma0_1 d L X I k hA h2 S r0 hin6⟩])) : sProp 𝕄)
      = ((oW).view.loc (thr0 d L) ↦[oSet0 L k hA 0]{fullShare} gath (F := F) X I) :=
    pointsTo_congr (win_val0_0 d L I X k hA G r0 _ (list6_agree0 d L I k hA h2 S hS _) hin6 hI)
  have hw1 : (((oWin0_1 L k hA).view.loc (thr0 d L) ↦[(oWin0_1 L k hA).view.set]{fullShare}
      ((oWin0_1 L k hA).view.writes (Elt F) G [⟨Rect.whole S128x128, tripC0.sl.dma0_2 d L X I k hA h2 S r1 hin7⟩])) : sProp 𝕄)
      = ((oW).view.loc (thr0 d L) ↦[oSet0 L k hA 1]{fullShare} gath (F := F) X I) :=
    pointsTo_congr (win_val0_1 d L I X k hA G r1 _ (list7_agree0 d L I k hA h2 S hS _) hin7 hI)
  have hw2 : (((oWin0_2 L k hA).view.loc (thr0 d L) ↦[(oWin0_2 L k hA).view.set]{fullShare}
      ((oWin0_2 L k hA).view.writes (Elt F) G [⟨Rect.whole S128x128, tripC0.sl.dma0_3 d L X I k hA h2 S r2 hin8⟩])) : sProp 𝕄)
      = ((oW).view.loc (thr0 d L) ↦[oSet0 L k hA 2]{fullShare} gath (F := F) X I) :=
    pointsTo_congr (win_val0_2 d L I X k hA G r2 _ (list8_agree0 d L I k hA h2 S hS _) hin8 hI)
  have hw3 : (((oWin0_3 L k hA).view.loc (thr0 d L) ↦[(oWin0_3 L k hA).view.set]{fullShare}
      ((oWin0_3 L k hA).view.writes (Elt F) G [⟨Rect.whole S128x128, tripC0.sl.dma0_4 d L X I k hA h2 S r3 hin9⟩])) : sProp 𝕄)
      = ((oW).view.loc (thr0 d L) ↦[oSet0 L k hA 3]{fullShare} gath (F := F) X I) :=
    pointsTo_congr (win_val0_3 d L I X k hA G r3 _ (list9_agree0 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC0.sl.HsI_w0 d L I k hA h2 S)
    isplitr
    · ipureintro; exact slot_agree_next0 d L I k k' hk' hA hA' h2 S
    rw [slot_next_set0 L k k' hk' hA hA' h2, chunk_next_set0 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr0 d L) (sep_mono_left (Entails.of_eq hw0))) $$ Hw0
    isplitl [Hw1]
    · iapply (Transfers.Flight_mono countersEmb (thr0 d L) (sep_mono_left (Entails.of_eq hw1))) $$ Hw1
    isplitl [Hw2]
    · iapply (Transfers.Flight_mono countersEmb (thr0 d L) (sep_mono_left (Entails.of_eq hw2))) $$ Hw2
    · iapply (Transfers.Flight_mono countersEmb (thr0 d L) (sep_mono_left (Entails.of_eq hw3))) $$ Hw3
  isplitr [HR]
  rotate_left
  · iexact HR
  iexists _
  isplitr
  rotate_left
  · iexact HO
  · ipureintro
    exact none_ins0 (none_ins0 (none_ins0 (none_ins0 (none_ins0 (hW')))))

/-- An idle trip (its chunk number is 250 or more) does nothing. -/
theorem tripI0 (k : Fin k0_t1_loop.trips) (hnA : ¬ Act0 L k) (R : sProp 𝕄) :
    R ⊢ wp frame (wpE (defs₀ (F := F)) 𝒱₀ (thr0 d L) none) Set.univ
          (k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k ())
          fun _ => R := by
  iintro HR
  have k0_h1 : ¬ k0_cond1 L k = 1#1 := hnA
  sl_unfold [k0_t1_body]
  sl_exec
  sl_step
  iexact HR

end Cert.Kernel.KP

end
-- ==== Proof.TileOut0B.lean ====
/-
  The result's windows through the loop of call 0's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody0bB

noncomputable section

namespace Cert.Kernel.KP

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable (d : Dev nD) (L : grid0.Coords)

/-! ## Which trips are active -/

theorem wid_lt0 : wid0 L < 32 := by
  have h0 : (L 0).val < 2 := (L 0).isLt
  have h1 : (L 1).val < 16 := (L 1).isLt
  show 2 * (L 1).val + (L 0).val < 32
  omega

theorem act_iff_lt0 (t : Fin k0_t1_loop.trips) : Act0 L t ↔ t.val < nAct0 L := by
  have hw := wid_lt0 L
  refine (tb0_act_iff L t).trans ?_
  show wid0 L + 32 * t.val < 250 ↔ t.val < (250 - wid0 L + 31) / 32
  omega

theorem nAct_bounds0 : 7 ≤ nAct0 L ∧ nAct0 L ≤ 8 := by
  have hw := wid_lt0 L
  show 7 ≤ (250 - wid0 L + 31) / 32 ∧ (250 - wid0 L + 31) / 32 ≤ 8
  omega

theorem pre_iff_lt0 (k : Fin k0_t1_loop.trips) : k0_cond2 L k = 1#1 ↔ k.val + 1 < nAct0 L := by
  have hw := wid_lt0 L
  refine (tb0_pre_iff L k).trans ?_
  show wid0 L + 32 * k.val + 32 < 250 ↔ k.val + 1 < (250 - wid0 L + 31) / 32
  omega

theorem cnt_act0 (k : Fin k0_t1_loop.trips) (hA : Act0 L k) : cnt0 L k.val = k.val ∧ cnt0 L (k.val + 1) = k.val + 1 := by
  have h := (act_iff_lt0 L k).mp hA
  show min k.val (nAct0 L) = k.val ∧ min (k.val + 1) (nAct0 L) = k.val + 1
  omega

theorem cnt_idle0 (k : Fin k0_t1_loop.trips) (hnA : ¬ Act0 L k) : cnt0 L k.val = nAct0 L ∧ cnt0 L (k.val + 1) = nAct0 L := by
  have h : ¬ k.val < nAct0 L := fun h => hnA ((act_iff_lt0 L k).mpr h)
  show min k.val (nAct0 L) = nAct0 L ∧ min (k.val + 1) (nAct0 L) = nAct0 L
  omega

theorem cnt_end0 : cnt0 L k0_t1_loop.trips = nAct0 L := by
  have h := (nAct_bounds0 L).2
  show min k0_t1_loop.trips (nAct0 L) = nAct0 L
  rw [tb0_trips]
  omega

/-! ## The windows' family -/

variable (X : Buf (Elt F) (xLoc d)) (I : Buf (Elt F) (iLoc0 d)) (G : Buf (Elt F) (oLoc0 d))

/-- Trip `t`'s windows after `n` active trips: at the gathered array, in flight, or as found. -/
def outPhi0 (n : ℕ) (t : Fin k0_t1_loop.trips) : sProp 𝕄 :=
  if t.val + 1 < n then oTrip0 d L (gath (F := F) X I) t else if t.val + 1 = n then iprop(emp) else oTrip0 d L G t

theorem outPart0_eq (n : ℕ) : outPart0 d L X I G n = bigSep Finset.univ (outPhi0 d L X I G n) := rfl

theorem outPhi0_done {n : ℕ} {t : Fin k0_t1_loop.trips} (h : t.val + 1 < n) : outPhi0 d L X I G n t = oTrip0 d L (gath (F := F) X I) t := by
  unfold outPhi0; rw [if_pos h]
theorem outPhi0_flight {n : ℕ} {t : Fin k0_t1_loop.trips} (h : t.val + 1 = n) : outPhi0 d L X I G n t = (iprop(emp) : sProp 𝕄) := by
  unfold outPhi0; rw [if_neg (by omega), if_pos h]
theorem outPhi0_found {n : ℕ} {t : Fin k0_t1_loop.trips} (h : n < t.val + 1) : outPhi0 d L X I G n t = oTrip0 d L G t := by
  unfold outPhi0; rw [if_neg (by omega), if_neg (by omega)]

/-- Before any trip every window is as found. -/
theorem out_init0 : (bigSep Finset.univ fun t : Fin k0_t1_loop.trips => oTrip0 d L G t) = outPart0 d L X I G 0 := by
  rw [outPart0_eq]
  exact bigSep_congr fun t _ => (outPhi0_found d L X I G (Nat.succ_pos _)).symm

/-- Entering trip `k` (the trip before it, `tp`, in flight): its own windows come out, as found. -/
theorem out_take0 (k tp : Fin k0_t1_loop.trips) (hp : tp.val + 1 = k.val) (hA : Act0 L k) :
    outPart0 d L X I G k.val ⊢ iprop(oWins0 d L k hA G ∗ bigSep ((Finset.univ.erase k).erase tp) (outPhi0 d L X I G k.val)) := by
  have hne : tp ≠ k := fun e => by rw [e] at hp; omega
  rw [outPart0_eq, SparseCore.bigSep_erase' (Finset.mem_univ k),
    SparseCore.bigSep_erase' (Finset.mem_erase.mpr ⟨hne, Finset.mem_univ tp⟩),
    outPhi0_found d L X I G (Nat.lt_succ_self _), outPhi0_flight d L X I G hp, oTrip0_act d L k hA]
  iintro ⟨Hw, -, Hr⟩
  isplitl [Hw] <;> iassumption

/-- Leaving trip `k`: the previous trip's windows go back, at the gathered array; trip `k`'s are now the ones in flight. -/
theorem out_put0 (k tp : Fin k0_t1_loop.trips) (hp : tp.val + 1 = k.val) (hAp : Act0 L tp) :
    iprop(oWins0 d L tp hAp (gath (F := F) X I) ∗ bigSep ((Finset.univ.erase k).erase tp) (outPhi0 d L X I G k.val))
      ⊢ outPart0 d L X I G (k.val + 1) := by
  have hne : tp ≠ k := fun e => by rw [e] at hp; omega
  rw [outPart0_eq, SparseCore.bigSep_erase' (Finset.mem_univ k),
    SparseCore.bigSep_erase' (Finset.mem_erase.mpr ⟨hne, Finset.mem_univ tp⟩),
    outPhi0_flight d L X I G rfl, outPhi0_done d L X I G (show tp.val + 1 < k.val + 1 by omega), oTrip0_act d L tp hAp,
    show bigSep ((Finset.univ.erase k).erase tp) (outPhi0 d L X I G (k.val + 1)) = bigSep ((Finset.univ.erase k).erase tp) (outPhi0 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi0
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first0 (h0 : 0 < k0_t1_loop.trips) (hA : Act0 L ⟨0, h0⟩) :
    outPart0 d L X I G 0 ⊢ iprop(oWins0 d L ⟨0, h0⟩ hA G ∗ bigSep (Finset.univ.erase ⟨0, h0⟩) (outPhi0 d L X I G 0)) := by
  rw [outPart0_eq, SparseCore.bigSep_erase' (Finset.mem_univ (⟨0, h0⟩ : Fin k0_t1_loop.trips)),
    outPhi0_found d L X I G (Nat.succ_pos _), oTrip0_act d L ⟨0, h0⟩ hA]

/-- Leaving it: nothing goes back yet. -/
theorem out_put_first0 (h0 : 0 < k0_t1_loop.trips) :
    bigSep (Finset.univ.erase (⟨0, h0⟩ : Fin k0_t1_loop.trips)) (outPhi0 d L X I G 0) ⊢ outPart0 d L X I G 1 := by
  rw [outPart0_eq, SparseCore.bigSep_erase' (Finset.mem_univ (⟨0, h0⟩ : Fin k0_t1_loop.trips)),
    outPhi0_flight d L X I G (show (⟨0, h0⟩ : Fin k0_t1_loop.trips).val + 1 = 1 from rfl),
    show bigSep (Finset.univ.erase (⟨0, h0⟩ : Fin k0_t1_loop.trips)) (outPhi0 d L X I G 1) = bigSep (Finset.univ.erase (⟨0, h0⟩ : Fin k0_t1_loop.trips)) (outPhi0 d L X I G 0) from
      bigSep_congr fun t ht => by
        have h1 : t ≠ ⟨0, h0⟩ := (Finset.mem_erase.mp ht).1
        have h1' : t.val ≠ 0 := fun e => h1 (Fin.ext e)
        rw [outPhi0_found d L X I G (show 1 < t.val + 1 by omega), outPhi0_found d L X I G (Nat.succ_pos _)]]
  iintro Hr
  isplitr; · iempintro
  iexact Hr

/-- After the last active trip `tl`, with its windows back: every trip's windows hold the gathered array (the idle
    trips have none). -/
theorem out_final0 (tl : Fin k0_t1_loop.trips) (hAl : Act0 L tl) (hidle : ∀ t : Fin k0_t1_loop.trips, tl.val < t.val → ¬ Act0 L t) :
    iprop(outPart0 d L X I G (tl.val + 1) ∗ oWins0 d L tl hAl (gath (F := F) X I))
      ⊢ bigSep Finset.univ fun t : Fin k0_t1_loop.trips => oTrip0 d L (gath (F := F) X I) t := by
  rw [outPart0_eq, SparseCore.bigSep_erase' (Finset.mem_univ tl) (Φ := outPhi0 d L X I G (tl.val + 1)),
    SparseCore.bigSep_erase' (Finset.mem_univ tl) (Φ := fun t : Fin k0_t1_loop.trips => oTrip0 d L (gath (F := F) X I) t),
    outPhi0_flight d L X I G rfl, oTrip0_act d L tl hAl,
    show bigSep (Finset.univ.erase tl) (outPhi0 d L X I G (tl.val + 1)) = bigSep (Finset.univ.erase tl) (fun t : Fin k0_t1_loop.trips => oTrip0 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi0_done d L X I G (by omega)
        · have hi := hidle t (by omega)
          rw [outPhi0_found d L X I G (show tl.val + 1 < t.val + 1 by omega), oTrip0_idle d L t hi, oTrip0_idle d L t hi]]
  iintro ⟨⟨-, Hr⟩, Hw⟩
  isplitl [Hw] <;> iassumption

end Cert.Kernel.KP

end
-- ==== Proof.TileScoped0B.lean ====
/-
  The scoped storage of one vector subcore as call 0's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody0bB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable (d : Dev nD) (L : grid0.Coords)

/-! ## The task's nine semaphores among the subcore's own -/

/-- The nine DMA semaphores of the task, as semaphore locations. -/
def semS0 : List (SemLoc sig) := [SemLoc.dma cc0_scratch2.sem, SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem]

theorem semS0_nodup : (semS0).Nodup := by decide
theorem semS0_scoped : ∀ s ∈ semS0, (s : SemLoc sig).isScoped .scVector = true := by decide

/-- The same as cells of the tile's thread. -/
def semL0 : List (GSem nD τ sig) := semS0.map fun s => (thr0 d L, s)

theorem semL0_nodup : (semL0 d L).Nodup :=
  semS0_nodup.map fun _ _ h => (Prod.mk.inj h).2

theorem semL0_sub : (semL0 d L).toFinset ⊆ ownCells (thr0 d L) := by
  intro g hg
  rw [List.mem_toFinset, semL0, List.mem_map] at hg
  obtain ⟨s, hs, rfl⟩ := hg
  exact mem_ownCells.mpr ⟨rfl, semS0_scoped s hs⟩

/-- The subcore's own semaphores that the task does not use, each at zero. -/
def RestSems0 : sProp 𝕄 := bigSep (ownCells (thr0 d L) \ (semL0 d L).toFinset) fun g => semVal g 0

/-- The subcore's own semaphores at zero are the task's nine at zero and the rest. -/
theorem ownSems0_V0 :
    (ownSems0 (thr0 d L) : sProp 𝕄)
      = iprop(semVal (cellD0 d L cc0_scratch2) 0 ∗ semVal (cellD0 d L cc0_scratch3) 0 ∗ semVal (cellD0 d L cc0_scratch4) 0 ∗ semVal (cellD0 d L cc0_scratch5) 0 ∗ semVal (cellD0 d L cc0_scratch6) 0 ∗ semVal (cellD0 d L cc0_scratch7) 0 ∗ semVal (cellD0 d L cc0_scratch8) 0 ∗ semVal (cellD0 d L cc0_scratch9) 0 ∗ semVal (cellD0 d L cc0_scratch10) 0 ∗ RestSems0 d L) := by
  unfold SparseCore.Cfg.ownSems0 RestSems0
  rw [SparseCore.bigSep_sdiff_split' (semL0_sub d L), bigSep_eq_bigSepL (semL0 d L) (semL0_nodup d L)]
  unfold semL0 semS0
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs0 : sProp 𝕄 :=
  bigSep (((ownRefs (τ := τ) (.scVector (cV0 L) (jV0 L))).erase ((Proc.scVector (cV0 L) (jV0 L)).devRef cc0_scratch0)).erase
      ((Proc.scVector (cV0 L) (jV0 L)).devRef cc0_scratch1))
    fun b => iprop(∃ f, ((d, b) : Loc nD τ sig) ↦{fullShare} f)

/-- The subcore's own buffers are the index scratch, the row scratch, each at some contents, and the rest. -/
theorem ownBufs_V0 :
    (ownBufs (thr0 d L) : sProp 𝕄)
      = iprop((∃ f, (thr0 d L).loc cc0_scratch0 ↦{fullShare} f) ∗ (∃ f, (thr0 d L).loc cc0_scratch1 ↦{fullShare} f) ∗ RestBufs0 d L) := by
  unfold SparseCore.Cfg.ownBufs RestBufs0
  refine (SparseCore.bigSep_erase' (SparseCore.Cfg.mem_ownRefs_of_owner (p := Proc.scVector (cV0 L) (jV0 L))
    (b := (Proc.scVector (cV0 L) (jV0 L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV0 L) (jV0 L)) (b := (Proc.scVector (cV0 L) (jV0 L)).devRef cc0_scratch1) rfl⟩)]

/-! ## The whole arrays under the subcore's names -/

theorem pts_sI0 (f : Buf (Elt F) ((thr0 d L).loc cc0_scratch0)) :
    ((sI).view.loc (thr0 d L) ↦{fullShare} f : sProp 𝕄) = (thr0 d L).loc cc0_scratch0 ↦{fullShare} f := rfl
theorem pts_sR0 (f : Buf (Elt F) ((thr0 d L).loc cc0_scratch1)) :
    ((sR).view.loc (thr0 d L) ↦{fullShare} f : sProp 𝕄) = (thr0 d L).loc cc0_scratch1 ↦{fullShare} f := rfl
theorem pts_x0 (q : PosShare TreeShare) (f : Buf (Elt F) (xLoc d)) :
    ((xW).view.loc (thr0 d L) ↦{q} f : sProp 𝕄) = xLoc d ↦{q} f := rfl
theorem pts_i0 (q : PosShare TreeShare) (f : Buf (Elt F) (iLoc0 d)) :
    ((iW).view.loc (thr0 d L) ↦{q} f : sProp 𝕄) = iLoc0 d ↦{q} f := rfl
theorem pts_o0 (K : Finset S4x32000x128.Idx) (q : PosShare TreeShare) (f : Buf (Elt F) (oLoc0 d)) :
    ((oW).view.loc (thr0 d L) ↦[K]{q} f : sProp 𝕄) = oLoc0 d ↦[K]{q} f := rfl

/-! ## The row scratch is its four planes -/

theorem pl_inb0 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet0 (j : Fin 4) : Finset S4x128x128.Idx := (Rect.unit (s := S4x128x128) ![j.val, 0, 0] S1x128x128.size (pl_inb0 j)).set

theorem set_rPl0_0 : (rPl0_0).view.set = plSet0 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc0_scratch1 : Ref sig .scVector) _).trans rfl
theorem set_rPl0_1 : (rPl0_1).view.set = plSet0 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc0_scratch1 : Ref sig .scVector) _).trans rfl
theorem set_rPl0_2 : (rPl0_2).view.set = plSet0 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc0_scratch1 : Ref sig .scVector) _).trans rfl
theorem set_rPl0_3 : (rPl0_3).view.set = plSet0 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc0_scratch1 : Ref sig .scVector) _).trans rfl

/-- Different planes are disjoint: they differ in the first coordinate. -/
theorem pl_disjoint0 : ∀ i ∈ (Finset.univ : Finset (Fin 4)), ∀ j ∈ (Finset.univ : Finset (Fin 4)), i ≠ j → Disjoint (plSet0 i) (plSet0 j) := by
  intro i _ j _ h
  have hv := Fin.val_ne_of_ne h
  refine Rect.unit_disjoint 0 ?_
  simp
  omega

/-- The four planes cover the scratch. -/
theorem pl_cover0 : (Finset.univ : Finset (Fin 4)).biUnion plSet0 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet0
  rw [Rect.mem_set_unit]
  intro a
  fin_cases a <;> simp at h0 h1 h2 ⊢ <;> omega

/-- Holding the row scratch whole at `r` is holding its four planes at `r`. -/
theorem sR_planes0 (r : Buf (Elt F) ((thr0 d L).loc cc0_scratch1)) :
    ((thr0 d L).loc cc0_scratch1 ↦{fullShare} r : sProp 𝕄) = iprop(pl0_0 d L r ∗ pl0_1 d L r ∗ pl0_2 d L r ∗ pl0_3 d L r) := by
  have e : ((thr0 d L).loc cc0_scratch1 ↦{fullShare} r : sProp 𝕄)
      = bigSep Finset.univ fun j : Fin 4 => ((thr0 d L).loc cc0_scratch1 ↦[plSet0 j]{fullShare} r : sProp 𝕄) := by
    rw [← pointsTo_biUnion Finset.univ (ℓ := (thr0 d L).loc cc0_scratch1) plSet0 pl_disjoint0, pl_cover0]; try rfl
  rw [e, bigSep_univ_eq_bigSepL [(0 : Fin 4), 1, 2, 3] (by decide) (by decide)]
  unfold pl0_0 pl0_1 pl0_2 pl0_3
  rw [set_rPl0_0, set_rPl0_1, set_rPl0_2, set_rPl0_3]
  rfl

/-- Four planes at four contents join into the row scratch whole at some contents. -/
theorem sR_join0 (r0 r1 r2 r3 : Buf (Elt F) ((thr0 d L).loc cc0_scratch1)) :
    iprop(pl0_0 d L r0 ∗ pl0_1 d L r1 ∗ pl0_2 d L r2 ∗ pl0_3 d L r3)
      ⊢ (iprop(∃ r, (thr0 d L).loc cc0_scratch1 ↦{fullShare} r) : sProp 𝕄) := by
  have e : (bigSep Finset.univ fun j : Fin 4 => ((thr0 d L).loc cc0_scratch1 ↦[plSet0 j]{fullShare} (![r0, r1, r2, r3] : Fin 4 → Buf (Elt F) ((thr0 d L).loc cc0_scratch1)) j : sProp 𝕄))
      = iprop(pl0_0 d L r0 ∗ pl0_1 d L r1 ∗ pl0_2 d L r2 ∗ pl0_3 d L r3) := by
    rw [bigSep_univ_eq_bigSepL [(0 : Fin 4), 1, 2, 3] (by decide) (by decide)]
    unfold pl0_0 pl0_1 pl0_2 pl0_3
    rw [set_rPl0_0, set_rPl0_1, set_rPl0_2, set_rPl0_3]
    rfl
  rw [← e]
  iintro H
  ihave H' := (pointsTo_biUnion_join Finset.univ plSet0 (![r0, r1, r2, r3] : Fin 4 → Buf (Elt F) ((thr0 d L).loc cc0_scratch1)) r0 pl_disjoint0) $$ H
  icases H' with ⟨%g, -, Hg⟩
  rw [pl_cover0]
  iexists g; iexact Hg

/-! ## A read share of the table as a remainder and four tokens -/

theorem x_toks0 (q : PosShare TreeShare) (X : Buf (Elt F) (xLoc d)) :
    ((xW).view.loc (thr0 d L) ↦{q} X : sProp 𝕄)
      ⊣⊢ iprop(((xW).view.loc (thr0 d L) ↦{Transfers.shareDrop q 4} X) ∗ ((xW).view.loc (thr0 d L) ↦{Transfers.shareTok q 4 0} X)
          ∗ ((xW).view.loc (thr0 d L) ↦{Transfers.shareTok q 4 1} X) ∗ ((xW).view.loc (thr0 d L) ↦{Transfers.shareTok q 4 2} X)
          ∗ ((xW).view.loc (thr0 d L) ↦{Transfers.shareTok q 4 3} X)) := by
  have e : (iprop(((xW).view.loc (thr0 d L) ↦{Transfers.shareTok q 4 0} X)
          ∗ ((xW).view.loc (thr0 d L) ↦{Transfers.shareTok q 4 1} X) ∗ ((xW).view.loc (thr0 d L) ↦{Transfers.shareTok q 4 2} X)
          ∗ ((xW).view.loc (thr0 d L) ↦{Transfers.shareTok q 4 3} X)) : sProp 𝕄)
      = bigSep Finset.univ fun i : Fin 4 => ((xW).view.loc (thr0 d L) ↦{Transfers.shareTok q 4 i} X : sProp 𝕄) :=
    (bigSep_univ_eq_bigSepL [(0 : Fin 4), 1, 2, 3] (by decide) (by decide)
      (fun i : Fin 4 => ((xW).view.loc (thr0 d L) ↦{Transfers.shareTok q 4 i} X : sProp 𝕄))).symm
  rw [e]
  exact Transfers.pointsTo_toks q 4

end Cert.Kernel.KP

end
-- ==== Proof.TileLoop0B.lean ====
/-
  The body of call 0's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip0B
import proofs.«210879_g80607946211848_cont_9to1_m_1212_13_alg».proof.Proof.TileOut0B
import proofs.«210879_g80607946211848_cont_9to1_m_1212_13_alg».proof.Proof.TileScoped0B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v8_scv : Memref Cert.Kernel.sig Kind.scVector Space.hbm Cert.Kernel.S250x4x128 EltTy.i32)
local notation "oW" => (Memref.whole Cert.Kernel.main_v9_scv : Memref Cert.Kernel.sig Kind.scVector Space.hbm Cert.Kernel.S4x32000x128 EltTy.f32)
local notation "sI" => (Memref.whole Cert.Kernel.cc0_scratch0 : Memref Cert.Kernel.sig Kind.scVector Space.vmem Cert.Kernel.S2x4x128 EltTy.i32)
local notation "sR" => (Memref.whole Cert.Kernel.cc0_scratch1 : Memref Cert.Kernel.sig Kind.scVector Space.vmem Cert.Kernel.S4x128x128 EltTy.f32)

variable [FloatOps F] (d : Dev nD) (L : grid0.Coords) (q : PosShare TreeShare)
  (X : Buf (Elt F) (xLoc d)) (I : Buf (Elt F) (iLoc0 d)) (G : Buf (Elt F) (oLoc0 d))

/-- The row scratch and the write-out semaphores after `n` active trips. -/
def rowsAt0 : ℕ → sProp 𝕄
  | 0 => rowsIdle0 d L
  | m + 1 => if hm : m < k0_t1_loop.trips then (if hA : Act0 L ⟨m, hm⟩ then rowsFly0 d L X I ⟨m, hm⟩ hA else iprop(False)) else iprop(False)

/-- The index side before trip `k`. -/
def idxAt0 (k : ℕ) : sProp 𝕄 :=
  if hk : k < k0_t1_loop.trips then (if hA : Act0 L ⟨k, hk⟩ then idxFly0 d L q I ⟨k, hk⟩ hA else idxIdle0 d L q I) else idxIdle0 d L q I

/-- The loop's invariant before trip `k`. -/
def invL0 (O : CellTallies nD τ sig (HIx 5)) (W : Waits sig (HIx 5)) (k : ℕ) (_ : PUnit) : sProp 𝕄 :=
  iprop(Transfers.MayWaits (thr0 d L) (none : HIx 5) O ∗ xPart0 d L q X ∗ idxAt0 d L q I k ∗ gsems0 d L
    ∗ rowsAt0 d L X I (cnt0 L k) ∗ outPart0 d L X I G (cnt0 L k) ∗ owesPart0 d L O W)

omit [FloatOps F] in
theorem idxAt0_act (k : Fin k0_t1_loop.trips) (hA : Act0 L k) : idxAt0 d L q I k.val = idxFly0 d L q I k hA := by
  unfold idxAt0; rw [dif_pos k.isLt, dif_pos hA]
omit [FloatOps F] in
theorem idxAt0_idle (k : Fin k0_t1_loop.trips) (hnA : ¬ Act0 L k) : idxAt0 d L q I k.val = idxIdle0 d L q I := by
  unfold idxAt0; rw [dif_pos k.isLt, dif_neg hnA]
omit [FloatOps F] in
theorem idxAt0_end (k : ℕ) (hk : ¬ k < k0_t1_loop.trips) : idxAt0 d L q I k = idxIdle0 d L q I := by
  unfold idxAt0; rw [dif_neg hk]
omit [FloatOps F] in
theorem rowsAt0_succ (t : Fin k0_t1_loop.trips) (hA : Act0 L t) : rowsAt0 d L X I (t.val + 1) = rowsFly0 d L X I t hA := by
  show (if hm : t.val < k0_t1_loop.trips then (if hA : Act0 L ⟨t.val, hm⟩ then rowsFly0 d L X I ⟨t.val, hm⟩ hA else iprop(False)) else iprop(False)) = _
  rw [dif_pos t.isLt, dif_pos hA]

omit [FloatOps F] in
theorem out_take_first0' (k : Fin k0_t1_loop.trips) (hk0 : k.val = 0) (hA : Act0 L k) :
    outPart0 d L X I G k.val ⊢ iprop(oWins0 d L k hA G ∗ bigSep (Finset.univ.erase k) (outPhi0 d L X I G k.val)) := by
  obtain ⟨kv, hkv⟩ := k
  simp only at hk0
  subst hk0
  exact out_take_first0 d L X I G hkv hA

omit [FloatOps F] in
theorem out_put_first0' (k : Fin k0_t1_loop.trips) (hk0 : k.val = 0) :
    bigSep (Finset.univ.erase k) (outPhi0 d L X I G k.val) ⊢ outPart0 d L X I G (k.val + 1) := by
  obtain ⟨kv, hkv⟩ := k
  simp only at hk0
  subst hk0
  exact out_put_first0 d L X I G hkv

set_option maxHeartbeats 4000000 in
set_option sl_exec.dmaWindow true in
theorem tile_body0 (hF : (K (F := F)).Facts) (d : Dev nD) (L : grid0.Coords)
    (X : Buf (Elt F) (xLoc d)) (I : Buf (Elt F) (iLoc0 d)) (G : Buf (Elt F) (oLoc0 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo0 d X I G L
        ∗ scopedBufs (thr0 d L) ∗ scopedSems0 (thr0 d L) ∗ owes (thr0 d L) O W)
      ⊢ wp frame (wpE (defs₀ (F := F)) 𝒱₀ (thr0 d L) none) Set.univ
          (cc0__sc_gather_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10)
          fun _ => iprop(tileTd0 d X I L ∗ scopedBufs (thr0 d L) ∗ scopedSems0 (thr0 d L)
            ∗ ∃ W', ⌜∀ p ∈ W', p ∈ W ∨ p.2 = none⌝ ∗ owes (thr0 d L) O W') := by
  rw [(K (F := F)).scopedBufs_V hF d (cV0 L) (jV0 L), SparseCore.Cfg.scopedSems0_V (Val := Elt F) d (cV0 L) (jV0 L),
    ownSems0_V0, ownBufs_V0]
  unfold tileGo0 tileTd0
  rw [out_init0 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr0 d L) hO) $$ Hlv
  ihave Hx' := (Entails.of_eq (pts_x0 d L (qTile0 L) X).symm) $$ Hx
  ihave Hxt := (x_toks0 d L (qTile0 L) X).1 $$ Hx'
  icases Hxt with ⟨Hxr, Hx0, Hx1, Hx2, Hx3⟩
  ihave Hi' := (Entails.of_eq (pts_i0 d L (qTile0 L) I).symm) $$ Hi
  ihave HsI' := (Entails.of_eq (pts_sI0 d L s0).symm) $$ HsI
  ihave Hpl := (Entails.of_eq (sR_planes0 d L r)) $$ HsR
  icases Hpl with ⟨Hr0, Hr1, Hr2, Hr3⟩
  sl_unfold [cc0__sc_gather_body]
  sl_exec (disch := exact View.amount_pos _ _ (show 0 < S4x128.numel by decide))
  sl_for (invL0 d L (qTile0 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k0_t1_loop.trips = 8 := tb0_trips
    obtain ⟨hn7, hn8⟩ := nAct_bounds0 L
    by_cases hA : Act0 L k
    · obtain ⟨hc, hc'⟩ := cnt_act0 L k hA
      have hkA := (act_iff_lt0 L k).mp hA
      unfold invL0
      rw [hc, hc', idxAt0_act d L (qTile0 L) I k hA, rowsAt0_succ d L X I k hA]
      by_cases h2 : k0_cond2 L k = 1#1
      · have hlt := (pre_iff_lt0 L k).mp h2
        have hk1 : k.val + 1 < k0_t1_loop.trips := by omega
        have hA' : Act0 L ⟨k.val + 1, hk1⟩ := (act_iff_lt0 L ⟨k.val + 1, hk1⟩).mpr hlt
        rw [idxAt0_act d L (qTile0 L) I ⟨k.val + 1, hk1⟩ hA']
        rcases Nat.eq_zero_or_pos k.val with hk0 | hkp
        · -- the first trip
          have hrows0 : rowsAt0 d L X I k.val = rowsIdle0 d L := by rw [hk0]; rfl
          rw [hrows0]
          have hT := tripC0 d L (qTile0 L) X I G O W k ⟨k.val + 1, hk1⟩ hk0 rfl hA hA' h2 hin
            iprop(Transfers.MayWaits (thr0 d L) (none : HIx 5) O ∗ bigSep (Finset.univ.erase k) (outPhi0 d L X I G k.val))
          have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first0' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first0' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k0_t1_loop.trips := by omega
          have hp : (⟨k.val - 1, htp⟩ : Fin k0_t1_loop.trips).val + 1 = k.val := by simp only; omega
          have hAp : Act0 L ⟨k.val - 1, htp⟩ := (act_iff_lt0 L ⟨k.val - 1, htp⟩).mpr (by simp only; omega)
          have hrows : rowsAt0 d L X I k.val = rowsFly0 d L X I ⟨k.val - 1, htp⟩ hAp := by
            have h := rowsAt0_succ d L X I ⟨k.val - 1, htp⟩ hAp
            rwa [hp] at h
          rw [hrows]
          have hT := tripA0 d L (qTile0 L) X I G O W k ⟨k.val - 1, htp⟩ ⟨k.val + 1, hk1⟩ hp rfl hA hAp hA' h2 hin
            iprop(Transfers.MayWaits (thr0 d L) (none : HIx 5) O ∗ bigSep ((Finset.univ.erase k).erase ⟨k.val - 1, htp⟩) (outPhi0 d L X I G k.val))
          have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take0 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put0 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct0 L := fun h => h2 ((pre_iff_lt0 L k).mpr h)
        have hidx' : idxAt0 d L (qTile0 L) I (k.val + 1) = idxIdle0 d L (qTile0 L) I := by
          unfold idxAt0
          split_ifs with h1 h3
          · exact absurd ((act_iff_lt0 L ⟨k.val + 1, h1⟩).mp h3) hnlt
          · rfl
          · rfl
        rw [hidx']
        have htp : k.val - 1 < k0_t1_loop.trips := by omega
        have hp : (⟨k.val - 1, htp⟩ : Fin k0_t1_loop.trips).val + 1 = k.val := by simp only; omega
        have hAp : Act0 L ⟨k.val - 1, htp⟩ := (act_iff_lt0 L ⟨k.val - 1, htp⟩).mpr (by simp only; omega)
        have hrows : rowsAt0 d L X I k.val = rowsFly0 d L X I ⟨k.val - 1, htp⟩ hAp := by
          have h := rowsAt0_succ d L X I ⟨k.val - 1, htp⟩ hAp
          rwa [hp] at h
        rw [hrows]
        have hT := tripB0 d L (qTile0 L) X I G O W k ⟨k.val - 1, htp⟩ hp hA hAp h2 hin
          iprop(Transfers.MayWaits (thr0 d L) (none : HIx 5) O ∗ bigSep ((Finset.univ.erase k).erase ⟨k.val - 1, htp⟩) (outPhi0 d L X I G k.val))
        have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take0 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put0 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle0 L k hA
      have hge : nAct0 L ≤ k.val := Nat.not_lt.mp (fun h => hA ((act_iff_lt0 L k).mpr h))
      have hidx' : idxAt0 d L (qTile0 L) I (k.val + 1) = idxIdle0 d L (qTile0 L) I := by
        unfold idxAt0
        split_ifs with h1 h3
        · exact absurd ((act_iff_lt0 L ⟨k.val + 1, h1⟩).mp h3) (by simp only; omega)
        · rfl
        · rfl
      unfold invL0
      rw [hc, hc', idxAt0_idle d L (qTile0 L) I k hA, hidx']
      have hprog : tile_body0.sl.prog.body_1 (F := F) L k acc = k0_t1_body L xW (Memref.isWhole_whole _) iW (Memref.isWhole_whole _) oW (Memref.isWhole_whole _)
            sI (Memref.isWhole_whole _) sR (Memref.isWhole_whole _) cc0_scratch2 cc0_scratch3 cc0_scratch4 cc0_scratch5 cc0_scratch6 cc0_scratch7 cc0_scratch8 cc0_scratch9 cc0_scratch10
          (Scalar.addi (Scalar.muli (BitVec.ofNat 32 (L 1).val) 2#32) (BitVec.ofNat 32 (L 0).val)) k () := rfl
      rw [hprog]
      exact tripI0 d L k hA _
  · -- the invariant before the first trip
    have h0 : 0 < k0_t1_loop.trips := by rw [tb0_trips]; omega
    have hA0 : Act0 L ⟨0, h0⟩ := (act_iff_lt0 L ⟨0, h0⟩).mpr (by have := (nAct_bounds0 L).1; simp only; omega)
    unfold invL0
    rw [show cnt0 L 0 = 0 from Nat.zero_min _, idxAt0_act d L (qTile0 L) I ⟨0, h0⟩ hA0, show rowsAt0 d L X I 0 = rowsIdle0 d L from rfl]
    unfold xPart0 idxFly0 gsems0 rowsIdle0 owesPart0 idxDeliv0
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first0 d L I h0 hA0 s0
      rw [slot_first_set0 L h0 hA0, chunk_first_set0 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds0 L
  have htr : k0_t1_loop.trips = 8 := tb0_trips
  obtain ⟨m, hm⟩ : ∃ m, nAct0 L = m + 1 := ⟨nAct0 L - 1, by omega⟩
  have hmlt : m < k0_t1_loop.trips := by omega
  have hAm : Act0 L ⟨m, hmlt⟩ := (act_iff_lt0 L ⟨m, hmlt⟩).mpr (by simp only; omega)
  have hidle : ∀ t : Fin k0_t1_loop.trips, (⟨m, hmlt⟩ : Fin k0_t1_loop.trips).val < t.val → ¬ Act0 L t :=
    fun t ht h => by have := (act_iff_lt0 L t).mp h; simp only at ht; omega
  unfold invL0
  rw [cnt_end0 L, idxAt0_end d L (qTile0 L) I _ (lt_irrefl _), hm, rowsAt0_succ d L X I ⟨m, hmlt⟩ hAm]
  unfold xPart0 idxIdle0 gsems0 rowsFly0 owesPart0
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv0 pl0_0 pl0_1 pl0_2 pl0_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x0 d L (qTile0 L) X))
      iapply (x_toks0 d L (qTile0 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i0 d L (qTile0 L) I)) $$ Hi
    iapply (out_final0 d L X I G ⟨m, hmlt⟩ hAm hidle)
    isplitl [Hout]; · iexact Hout
    unfold oWins0
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI0 d L S)) $$ HsI
    isplitl [Hf0_src Hf1_src Hf2_src Hf3_src]
    · iapply (sR_join0 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins0 (none_ins0 (none_ins0 (none_ins0 hW')))

end Cert.Kernel.KP

end
-- ==== Proof.TileBody1a.lean ====
/-
  Groundwork for the body of call 1's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes1
import proofs.«210879_g80607946211848_cont_9to1_m_1212_13_alg».proof.Proof.Gen.KernelIdeal.Skeleton

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

/-! ## The loop's conditions, in closed form -/

/-- The tile's number. -/
abbrev wid1 (L : grid1.Coords) : ℕ := 2 * (L 1).val + (L 0).val

theorem tb1_trips : k1_t1_loop.trips = 8 := by decide

theorem tb1_act_iff : ∀ (L : grid1.Coords) (t : Fin k1_t1_loop.trips), k1_cond1 L t = 1#1 ↔ wid1 L + 32 * t.val < 250 := by decide +kernel
theorem tb1_pre_iff : ∀ (L : grid1.Coords) (t : Fin k1_t1_loop.trips), k1_cond2 L t = 1#1 ↔ wid1 L + 32 * t.val + 32 < 250 := by decide +kernel

/-! ## The memrefs, as the loop slices them -/

/-- Index chunk of trip `t` (the copy's source the trip waits for). -/
abbrev iCh1 (L : grid1.Coords) (t : Fin k1_t1_loop.trips) (h : Act1 L t) : Memref sig .scVector .hbm S4x128 .i32 :=
  ((iW).slice (Rect.unit (s := S250x4x128) (k1_off3 L t) S1x4x128.size (k1_off3_inb L t h)) (fun _ => rfl)).squeeze S4x128 squeezes_S1x4x128_S4x128
/-- The slot of the index scratch trip `t` reads its indices from: slot `t % 2`. -/
abbrev sSl1 (L : grid1.Coords) (t : Fin k1_t1_loop.trips) (h : Act1 L t) : Memref sig .scVector .vmem S4x128 .i32 :=
  ((sI).slice (Rect.unit (s := S2x4x128) (k1_off2 t) S1x4x128.size (k1_off2_inb L t h)) (fun _ => rfl)).squeeze S4x128 squeezes_S1x4x128_S4x128
/-- Plane `j` of the row scratch. -/
abbrev rPl1_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl1_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl1_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl1_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD1 (d : Dev nD) (L : grid1.Coords) (n : DmaSems sig S_) : GSem nD τ sig := (thr1 d L, SemLoc.dma n.sem)

end Cert.KernelIdeal.KP

end
-- ==== Proof.TileBody1b.lean ====
/-
  The loop of call 1's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody1a

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The number of the tile's active trips: its chunks `w, w + 32, …` below 250. -/
abbrev nAct1 (L : grid1.Coords) : ℕ := (250 - wid1 L + 31) / 32
/-- The active trips among the first `k`. -/
abbrev cnt1 (L : grid1.Coords) (k : ℕ) : ℕ := min k (nAct1 L)

/-- The index scratch showing, in both slots, the words of trip `t`'s chunk (chunk number reduced modulo 250: the
    identity for an active trip). -/
def slotImg1 (t : ℕ) : Buf (Elt F) ((thr1 d L).loc cc1_scratch0) :=
  fun i => I (ix3 (⟨(wid1 L + 32 * t) % 250, Nat.mod_lt _ (by decide)⟩ : Fin 250) (i 1) (i 2))

/-- Contents `S` of the index scratch show, on the slot trip `t` reads, the words of the trip's chunk. -/
def SlotAgrees1 (t : Fin k1_t1_loop.trips) (h : Act1 L t) (S : Buf (Elt F) ((thr1 d L).loc cc1_scratch0)) : Prop :=
  ∀ i ∈ (sSl1 L t h).view.set, S i = slotImg1 d L I t.val i

/-- What the index fetch for trip `t` delivers: the slot at contents `S`, and the chunk's share back. -/
def idxDeliv1 (t : Fin k1_t1_loop.trips) (h : Act1 L t) (S : Buf (Elt F) ((thr1 d L).loc cc1_scratch0)) : sProp 𝕄 :=
  iprop(((sI).view.loc (thr1 d L) ↦[(sSl1 L t h).view.set]{fullShare} S)
    ∗ ((iW).view.loc (thr1 d L) ↦[(iCh1 L t h).view.set]{q} I))

/-- The index side before trip `k`: while the trip is active its chunk's fetch is in flight (the chunk and its slot
    lent); afterwards the semaphore rests at zero and block and scratch are whole. -/
def idxPart1 (k : ℕ) : sProp 𝕄 :=
  if hk : k < k1_t1_loop.trips then
    if hA : Act1 L ⟨k, hk⟩ then
      iprop(∃ S, ⌜SlotAgrees1 d L I ⟨k, hk⟩ hA S⌝
        ∗ Transfers.Flight countersEmb (thr1 d L) (SemLoc.dma cc1_scratch10.sem) (default : HIx 5) 16384 (idxDeliv1 d L q I ⟨k, hk⟩ hA S)
        ∗ ((iW).view.loc (thr1 d L) ↦[Finset.univ \ (iCh1 L ⟨k, hk⟩ hA).view.set]{q} I)
        ∗ ((sI).view.loc (thr1 d L) ↦[Finset.univ \ (sSl1 L ⟨k, hk⟩ hA).view.set]{fullShare} S))
    else iprop(semVal (cellD1 d L cc1_scratch10) 0 ∗ ((iW).view.loc (thr1 d L) ↦{q} I) ∗ ∃ s, (sI).view.loc (thr1 d L) ↦{fullShare} s)
  else iprop(semVal (cellD1 d L cc1_scratch10) 0 ∗ ((iW).view.loc (thr1 d L) ↦{q} I) ∗ ∃ s, (sI).view.loc (thr1 d L) ↦{fullShare} s)

/-- What the write-out of plane `j` of trip `t` delivers: the window at the gathered array, and the plane back. -/
def wDeliv1 (t : Fin k1_t1_loop.trips) (h : Act1 L t) (j : Fin 4) (Dsrc : sProp 𝕄) : sProp 𝕄 :=
  iprop(((oW).view.loc (thr1 d L) ↦[oSet1 L t h j]{fullShare} gath (F := F) X I) ∗ Dsrc)

/-- The four windows of trip `t` at contents `f`, each spelt through its own memref. -/
def oWins1 (t : Fin k1_t1_loop.trips) (h : Act1 L t) (f : Buf (Elt F) (oLoc1 d)) : sProp 𝕄 :=
  iprop(((oWin1_0 L t h).view.loc (thr1 d L) ↦[(oWin1_0 L t h).view.set]{fullShare} f)
    ∗ ((oWin1_1 L t h).view.loc (thr1 d L) ↦[(oWin1_1 L t h).view.set]{fullShare} f)
    ∗ ((oWin1_2 L t h).view.loc (thr1 d L) ↦[(oWin1_2 L t h).view.set]{fullShare} f)
    ∗ ((oWin1_3 L t h).view.loc (thr1 d L) ↦[(oWin1_3 L t h).view.set]{fullShare} f))

omit [FloatOps F] in
/-- An active trip's share of the result is its four windows. -/
theorem oTrip1_act (t : Fin k1_t1_loop.trips) (h : Act1 L t) (f : Buf (Elt F) (oLoc1 d)) :
    oTrip1 d L f t = oWins1 d L t h f := by
  unfold oTrip1 oWins1; rw [dif_pos h]

omit [FloatOps F] in
/-- An idle trip has none. -/
theorem oTrip1_idle (t : Fin k1_t1_loop.trips) (h : ¬ Act1 L t) (f : Buf (Elt F) (oLoc1 d)) :
    oTrip1 d L f t = (iprop(emp) : sProp 𝕄) := by
  unfold oTrip1; rw [dif_neg h]

/-- Plane `j` of the row scratch at contents `r`. -/
abbrev pl1_0 (r : Buf (Elt F) ((thr1 d L).loc cc1_scratch1)) : sProp 𝕄 := (rPl1_0).view.loc (thr1 d L) ↦[(rPl1_0).view.set]{fullShare} r
abbrev pl1_1 (r : Buf (Elt F) ((thr1 d L).loc cc1_scratch1)) : sProp 𝕄 := (rPl1_1).view.loc (thr1 d L) ↦[(rPl1_1).view.set]{fullShare} r
abbrev pl1_2 (r : Buf (Elt F) ((thr1 d L).loc cc1_scratch1)) : sProp 𝕄 := (rPl1_2).view.loc (thr1 d L) ↦[(rPl1_2).view.set]{fullShare} r
abbrev pl1_3 (r : Buf (Elt F) ((thr1 d L).loc cc1_scratch1)) : sProp 𝕄 := (rPl1_3).view.loc (thr1 d L) ↦[(rPl1_3).view.set]{fullShare} r

/-- The row scratch and the write-out semaphores after `n` active trips: none done, the planes and the semaphores
    rest; else the last trip's four write-outs are in flight. -/
def rowsPart1 (n : ℕ) : sProp 𝕄 :=
  if hn : 0 < n then
    if hk : n - 1 < k1_t1_loop.trips then
      if hA : Act1 L ⟨n - 1, hk⟩ then
        iprop(∃ r0 r1 r2 r3, Transfers.Flight countersEmb (thr1 d L) (SemLoc.dma cc1_scratch6.sem) (default : HIx 5) 524288 (wDeliv1 d L X I ⟨n - 1, hk⟩ hA 0 (pl1_0 d L r0))
          ∗ Transfers.Flight countersEmb (thr1 d L) (SemLoc.dma cc1_scratch7.sem) (default : HIx 5) 524288 (wDeliv1 d L X I ⟨n - 1, hk⟩ hA 1 (pl1_1 d L r1))
          ∗ Transfers.Flight countersEmb (thr1 d L) (SemLoc.dma cc1_scratch8.sem) (default : HIx 5) 524288 (wDeliv1 d L X I ⟨n - 1, hk⟩ hA 2 (pl1_2 d L r2))
          ∗ Transfers.Flight countersEmb (thr1 d L) (SemLoc.dma cc1_scratch9.sem) (default : HIx 5) 524288 (wDeliv1 d L X I ⟨n - 1, hk⟩ hA 3 (pl1_3 d L r3)))
      else iprop(False)
    else iprop(False)
  else
    iprop((semVal (cellD1 d L cc1_scratch6) 0 ∗ ∃ r, pl1_0 d L r) ∗ (semVal (cellD1 d L cc1_scratch7) 0 ∗ ∃ r, pl1_1 d L r)
      ∗ (semVal (cellD1 d L cc1_scratch8) 0 ∗ ∃ r, pl1_2 d L r) ∗ (semVal (cellD1 d L cc1_scratch9) 0 ∗ ∃ r, pl1_3 d L r))

/-- The result's windows after `n` active trips: the trips before the last at the gathered array, the last one's
    in flight, the later ones as found. -/
def outPart1 (n : ℕ) : sProp 𝕄 :=
  bigSep Finset.univ fun t : Fin k1_t1_loop.trips =>
    if t.val + 1 < n then oTrip1 d L (gath (F := F) X I) t else if t.val + 1 = n then iprop(emp) else oTrip1 d L G t

/-- The loop's invariant before trip `k`. -/
def inv1 (O : CellTallies nD τ sig (HIx 5)) (W : Waits sig (HIx 5)) (k : ℕ) (_ : PUnit) : sProp 𝕄 :=
  iprop(Transfers.MayWaits (thr1 d L) (none : HIx 5) O
    ∗ (((xW).view.loc (thr1 d L) ↦{Transfers.shareDrop q 4} X) ∗ ((xW).view.loc (thr1 d L) ↦{Transfers.shareTok q 4 0} X) ∗ ((xW).view.loc (thr1 d L) ↦{Transfers.shareTok q 4 1} X)
        ∗ ((xW).view.loc (thr1 d L) ↦{Transfers.shareTok q 4 2} X) ∗ ((xW).view.loc (thr1 d L) ↦{Transfers.shareTok q 4 3} X))
    ∗ idxPart1 d L q I k
    ∗ (semVal (cellD1 d L cc1_scratch2) 0 ∗ semVal (cellD1 d L cc1_scratch3) 0 ∗ semVal (cellD1 d L cc1_scratch4) 0 ∗ semVal (cellD1 d L cc1_scratch5) 0)
    ∗ rowsPart1 d L X I (cnt1 L k)
    ∗ outPart1 d L X I G (cnt1 L k)
    ∗ ∃ W', ⌜∀ p ∈ W', p ∈ W ∨ p.2 = none⌝ ∗ owes (thr1 d L) O W')

/-! ## Geometry of the index scratch: the two slots, the four index lists -/

omit [FloatOps F] in
/-- The slot a prefetch writes (slot `1 - k % 2`) and the slot the trip reads (slot `k % 2`) are disjoint. -/
theorem slots_disj1 (k : Fin k1_t1_loop.trips) (hA : Act1 L k) (h2 : k1_cond2 L k = 1#1) :
    Disjoint (((sI).slice (Rect.unit (s := S2x4x128) (k1_off4 k) S1x4x128.size (k1_off4_inb L k hA h2)) (fun _ => rfl)).squeeze S4x128 squeezes_S1x4x128_S4x128).view.set
      (sSl1 L k hA).view.set := by
  show Disjoint ((((sI).view.slice (Rect.unit (s := S2x4x128) (k1_off4 k) S1x4x128.size (k1_off4_inb L k hA h2))).reshape S4x128 squeezes_S1x4x128_S4x128.numel_eq).set)
    ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  refine Rect.unit_disjoint 0 ?_
  rw [k1_off4_eq, k1_off2_eq]
  simp
  omega
omit [FloatOps F] in
theorem list6_disj1 (k : Fin k1_t1_loop.trips) (hA : Act1 L k) (h2 : k1_cond2 L k = 1#1) :
    Disjoint (((sI).slice (Rect.unit (s := S2x4x128) (k1_off6 k) S1x1x128.size (k1_off6_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off6 k) S1x1x128.size (k1_off6_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off6_eq]
  simp
  omega

omit [FloatOps F] in
/-- Index list `0` of the trip lies in the trip's slot. -/
theorem list6_sub1 (k : Fin k1_t1_loop.trips) (hA : Act1 L k) :
    (((sI).slice (Rect.unit (s := S2x4x128) (k1_off6 k) S1x1x128.size (k1_off6_inb L k hA)) (fun _ => rfl)).squeeze S128 squeezes_S1x1x128_S128).view.set
      ⊆ (sSl1 L k hA).view.set := by
  show ((((sI).view.slice (Rect.unit (s := S2x4x128) (k1_off6 k) S1x1x128.size (k1_off6_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off6 k) S1x1x128.size (k1_off6_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list6_disj1 L k hA h2) hi) hm)]
  exact hS i (list6_sub1 L k hA hi)

/-- So the words of index list `0` name rows of the table. -/
theorem list6_inr1 (k : Fin k1_t1_loop.trips) (hA : Act1 L k) (S' : Buf (Elt F) ((thr1 d L).loc cc1_scratch0))
    (hS' : ∀ i ∈ (((sI).slice (Rect.unit (s := S2x4x128) (k1_off6 k) S1x1x128.size (k1_off6_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off6 k) S1x1x128.size (k1_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj1 (k : Fin k1_t1_loop.trips) (hA : Act1 L k) (h2 : k1_cond2 L k = 1#1) :
    Disjoint (((sI).slice (Rect.unit (s := S2x4x128) (k1_off7 k) S1x1x128.size (k1_off7_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off7 k) S1x1x128.size (k1_off7_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off7_eq]
  simp
  omega

omit [FloatOps F] in
/-- Index list `1` of the trip lies in the trip's slot. -/
theorem list7_sub1 (k : Fin k1_t1_loop.trips) (hA : Act1 L k) :
    (((sI).slice (Rect.unit (s := S2x4x128) (k1_off7 k) S1x1x128.size (k1_off7_inb L k hA)) (fun _ => rfl)).squeeze S128 squeezes_S1x1x128_S128).view.set
      ⊆ (sSl1 L k hA).view.set := by
  show ((((sI).view.slice (Rect.unit (s := S2x4x128) (k1_off7 k) S1x1x128.size (k1_off7_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off7 k) S1x1x128.size (k1_off7_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list7_disj1 L k hA h2) hi) hm)]
  exact hS i (list7_sub1 L k hA hi)

/-- So the words of index list `1` name rows of the table. -/
theorem list7_inr1 (k : Fin k1_t1_loop.trips) (hA : Act1 L k) (S' : Buf (Elt F) ((thr1 d L).loc cc1_scratch0))
    (hS' : ∀ i ∈ (((sI).slice (Rect.unit (s := S2x4x128) (k1_off7 k) S1x1x128.size (k1_off7_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off7 k) S1x1x128.size (k1_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj1 (k : Fin k1_t1_loop.trips) (hA : Act1 L k) (h2 : k1_cond2 L k = 1#1) :
    Disjoint (((sI).slice (Rect.unit (s := S2x4x128) (k1_off8 k) S1x1x128.size (k1_off8_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off8 k) S1x1x128.size (k1_off8_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off8_eq]
  simp
  omega

omit [FloatOps F] in
/-- Index list `2` of the trip lies in the trip's slot. -/
theorem list8_sub1 (k : Fin k1_t1_loop.trips) (hA : Act1 L k) :
    (((sI).slice (Rect.unit (s := S2x4x128) (k1_off8 k) S1x1x128.size (k1_off8_inb L k hA)) (fun _ => rfl)).squeeze S128 squeezes_S1x1x128_S128).view.set
      ⊆ (sSl1 L k hA).view.set := by
  show ((((sI).view.slice (Rect.unit (s := S2x4x128) (k1_off8 k) S1x1x128.size (k1_off8_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off8 k) S1x1x128.size (k1_off8_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list8_disj1 L k hA h2) hi) hm)]
  exact hS i (list8_sub1 L k hA hi)

/-- So the words of index list `2` name rows of the table. -/
theorem list8_inr1 (k : Fin k1_t1_loop.trips) (hA : Act1 L k) (S' : Buf (Elt F) ((thr1 d L).loc cc1_scratch0))
    (hS' : ∀ i ∈ (((sI).slice (Rect.unit (s := S2x4x128) (k1_off8 k) S1x1x128.size (k1_off8_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off8 k) S1x1x128.size (k1_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj1 (k : Fin k1_t1_loop.trips) (hA : Act1 L k) (h2 : k1_cond2 L k = 1#1) :
    Disjoint (((sI).slice (Rect.unit (s := S2x4x128) (k1_off9 k) S1x1x128.size (k1_off9_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off9 k) S1x1x128.size (k1_off9_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off9_eq]
  simp
  omega

omit [FloatOps F] in
/-- Index list `3` of the trip lies in the trip's slot. -/
theorem list9_sub1 (k : Fin k1_t1_loop.trips) (hA : Act1 L k) :
    (((sI).slice (Rect.unit (s := S2x4x128) (k1_off9 k) S1x1x128.size (k1_off9_inb L k hA)) (fun _ => rfl)).squeeze S128 squeezes_S1x1x128_S128).view.set
      ⊆ (sSl1 L k hA).view.set := by
  show ((((sI).view.slice (Rect.unit (s := S2x4x128) (k1_off9 k) S1x1x128.size (k1_off9_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off9 k) S1x1x128.size (k1_off9_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list9_disj1 L k hA h2) hi) hm)]
  exact hS i (list9_sub1 L k hA hi)

/-- So the words of index list `3` name rows of the table. -/
theorem list9_inr1 (k : Fin k1_t1_loop.trips) (hA : Act1 L k) (S' : Buf (Elt F) ((thr1 d L).loc cc1_scratch0))
    (hS' : ∀ i ∈ (((sI).slice (Rect.unit (s := S2x4x128) (k1_off9 k) S1x1x128.size (k1_off9_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off9 k) S1x1x128.size (k1_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond1 : ∀ k : Fin k1_t1_loop.trips, 1 ≤ k.val →
    Scalar.cmpi CmpIPredicate.ne (Scalar.extui (Scalar.cmpi CmpIPredicate.sge (Scf.iv 0#32 1#32 k) 1#32)) 0#32 = 1#1 := by decide

end Cert.KernelIdeal.KP

end
-- ==== Proof.TileVal1.lean ====
/-
  The values the task's transfers carry, call 1.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody1b
import proofs.«210879_g80607946211848_cont_9to1_m_1212_13_alg».proof.Proof.TileVal0

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable (d : Dev nD) (L : grid1.Coords)

/-! ## The slot and the chunk a trip prefetches are the next trip's; the first fetch's are trip 0's -/

/-- A 1 × 4 × 128 window of the index scratch, squeezed: its elements are its rectangle's. -/
theorem set_slot1 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc1_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk1 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v10_scv : Ref sig .scVector)).slice (Rect.unit (s := S250x4x128) off S1x4x128.size inb)).reshape S4x128 squeezes_S1x4x128_S4x128.numel_eq).set = _
  rw [View.set_reshape, View.set_slice_whole]

theorem slot_next_set1 (k k' : Fin k1_t1_loop.trips) (hk : k'.val = k.val + 1) (hA : Act1 L k) (hA' : Act1 L k') (h2 : k1_cond2 L k = 1#1) :
    (sSl1 L k' hA').view.set
      = (((sI).slice (Rect.unit (s := S2x4x128) (k1_off4 k) S1x4x128.size (k1_off4_inb L k hA h2)) (fun _ => rfl)).squeeze S4x128 squeezes_S1x4x128_S4x128).view.set := by
  rw [set_slot1, set_slot1]
  refine unit_set_congr ?_
  have e : (k.val + 1) % 2 = 1 - k.val % 2 := by omega
  rw [k1_off2_eq, k1_off4_eq, hk, e]

theorem chunk_next_set1 (k k' : Fin k1_t1_loop.trips) (hk : k'.val = k.val + 1) (hA : Act1 L k) (hA' : Act1 L k') (h2 : k1_cond2 L k = 1#1) :
    (iCh1 L k' hA').view.set
      = (((iW).slice (Rect.unit (s := S250x4x128) (k1_off5 L k) S1x4x128.size (k1_off5_inb L k hA h2)) (fun _ => rfl)).squeeze S4x128 squeezes_S1x4x128_S4x128).view.set := by
  rw [set_chunk1, set_chunk1]
  refine unit_set_congr ?_
  have e : 2 * (L 1).val + (L 0).val + 32 * (k.val + 1) = 2 * (L 1).val + (L 0).val + 32 * k.val + 32 := by omega
  rw [k1_off3_eq, k1_off5_eq, hk, e]

theorem slot_first_set1 (h0 : 0 < k1_t1_loop.trips) (hA0 : Act1 L ⟨0, h0⟩) :
    (sSl1 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot1, set_slot1]
  refine unit_set_congr ?_
  rw [k1_off2_eq]
  rfl

theorem chunk_first_set1 (h0 : 0 < k1_t1_loop.trips) (hA0 : Act1 L ⟨0, h0⟩) :
    (iCh1 L ⟨0, h0⟩ hA0).view.set
      = (((iW).slice (Rect.unit (s := S250x4x128) (k1_off1 L) S1x4x128.size (k1_off1_inb L)) (fun _ => rfl)).squeeze S4x128 squeezes_S1x4x128_S4x128).view.set := by
  rw [set_chunk1, set_chunk1]
  refine unit_set_congr ?_
  rw [k1_off3_eq, k1_off1_eq]
  rfl

/-! ## What an index fetch lands: the chunk's words, in the slot -/

/-- Where element `y` of a squeezed 1 × 4 × 128 window of the index scratch at offsets `off` lies. -/
theorem emb_slot1 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk1 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc1 d))

/-- A fetch of chunk `n` (below 250) into slot `p` leaves, on that slot, the words the slot image of a trip whose chunk
    is `n` shows. -/
theorem fetch_agrees1 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid1 L + 32 * t) % 250 = n)
    (S : Buf (Elt F) ((thr1 d L).loc cc1_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg1 d L I t i := by
  intro i hi
  obtain ⟨y, -, rfl⟩ := Finset.mem_map.mp hi
  rw [View.write_emb_of_mem _ _ (Finset.mem_univ y)]
  unfold slotImg1
  show I ((((iW).slice (Rect.unit (s := S250x4x128) offC S1x4x128.size inbC) (fun _ => rfl)).squeeze S4x128 squeezes_S1x4x128_S4x128).view.emb y) = I _
  congr 1
  funext a
  apply Fin.ext
  have c0 := emb_chunk1 offC inbC y 0
  have c1 := emb_chunk1 offC inbC y 1
  have c2 := emb_chunk1 offC inbC y 2
  have s1 := emb_slot1 offS inbS y 1
  have s2 := emb_slot1 offS inbS y 2
  subst hS hC
  match a with
  | 0 => exact c0.trans (show n + 0 = (wid1 L + 32 * t) % 250 from by omega)
  | 1 => exact c1.trans s1.symm
  | 2 => exact c2.trans s2.symm

/-- The prefetched slot shows the NEXT trip's chunk. -/
theorem slot_agree_next1 (k k' : Fin k1_t1_loop.trips) (hk : k'.val = k.val + 1) (hA : Act1 L k) (hA' : Act1 L k') (h2 : k1_cond2 L k = 1#1)
    (S : Buf (Elt F) ((thr1 d L).loc cc1_scratch0)) :
    SlotAgrees1 d L I k' hA' (View.write (Elt F) (((sI).slice (Rect.unit (s := S2x4x128) (k1_off4 k) S1x4x128.size (k1_off4_inb L k hA h2)) (fun _ => rfl)).squeeze S4x128 squeezes_S1x4x128_S4x128).view S
      (ReadAs.same.apply (View.read (Elt F) (((iW).slice (Rect.unit (s := S250x4x128) (k1_off5 L k) S1x4x128.size (k1_off5_inb L k hA h2)) (fun _ => rfl)).squeeze S4x128 squeezes_S1x4x128_S4x128).view I)) Finset.univ) := by
  intro i hi
  rw [slot_next_set1 L k k' hk hA hA' h2] at hi
  have hlt : wid1 L + 32 * k'.val < 250 := (tb1_act_iff L k').mp hA'
  exact fetch_agrees1 d L I (k1_off4 k) (k1_off4_inb L k hA h2) (k1_off5 L k) (k1_off5_inb L k hA h2) (1 - k.val % 2) (wid1 L + 32 * k.val + 32) k'.val (k1_off4_eq k) (k1_off5_eq L k)
    (by rw [hk] at hlt ⊢; omega) S i hi

/-- The first fetch's slot shows trip 0's chunk. -/
theorem slot_agree_first1 (h0 : 0 < k1_t1_loop.trips) (hA0 : Act1 L ⟨0, h0⟩) (S : Buf (Elt F) ((thr1 d L).loc cc1_scratch0)) :
    SlotAgrees1 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k1_off1 L) S1x4x128.size (k1_off1_inb L)) (fun _ => rfl)).squeeze S4x128 squeezes_S1x4x128_S4x128).view I)) Finset.univ) := by
  intro i hi
  rw [slot_first_set1 L h0 hA0] at hi
  have hlt : wid1 L + 32 * (⟨0, h0⟩ : Fin k1_t1_loop.trips).val < 250 := (tb1_act_iff L ⟨0, h0⟩).mp hA0
  exact fetch_agrees1 d L I ![0, 0, 0] inb_S2x4x128_S1x4x128_0_0_0 (k1_off1 L) (k1_off1_inb L) 0 (wid1 L) 0 rfl (k1_off1_eq L) (by simp only [] at hlt; omega) S i hi

/-! ## What a write-out carries: the gathered array on its window -/

/-- Where element `y` of a squeezed 1 × 128 × 128 window of the result at offsets `off` lies. -/
theorem emb_win1 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list1 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen1 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid1 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc1 d)) (S' : Buf (Elt F) ((thr1 d L).loc cc1_scratch0))
    (hS' : ∀ i ∈ (((sI).slice (Rect.unit (s := S2x4x128) offL S1x1x128.size inbL) (fun _ => rfl)).squeeze S128 squeezes_S1x1x128_S128).view.set, S' i = slotImg1 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win1 offW inbW y 0
  have w1 := emb_win1 offW inbW y 1
  have w2 := emb_win1 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg1
    congr 2
    have l1 := emb_list1 ![p, j.val, 0] inbL (S128.rowMajor.symm (Fin.cast hnum.symm (y gathers_S160000x128_S128x128.axis'))) 1
    have l2 := emb_list1 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val1_0 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off6 k) S1x1x128.size (k1_off6_inb L k hA)) (fun _ => rfl)).squeeze S128 squeezes_S1x1x128_S128).view.set, S' i = slotImg1 d L I k.val i)
    (hin : ∀ x : S128.Idx, (View.read (Elt F) (((sI).slice (Rect.unit (s := S2x4x128) (k1_off6 k) S1x1x128.size (k1_off6_inb L k hA)) (fun _ => rfl)).squeeze S128 squeezes_S1x1x128_S128).view S' x).toNat < 160000)
    (hI : ∀ i, (I i).toNat < 160000) :
    ∀ i ∈ (oWin1_0 L k hA).view.set,
      (oWin1_0 L k hA).view.writes (Elt F) G [⟨Rect.whole S128x128, ReadAs.same.apply (View.read (Elt F) (rPl1_0).view ((rPl1_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off6 k) S1x1x128.size (k1_off6_inb L k hA)) (fun _ => rfl)).squeeze S128 squeezes_S1x1x128_S128).view S') (by decide) hin)⟩]))⟩] i
        = gath (F := F) X I i :=
  win_val_gen1 d L I X (k1_off10 L k) (k1_off10_inb L k hA) (k1_off6 k) (k1_off6_inb L k hA) 0 (k.val % 2) (wid1 L + 32 * k.val)
    (256 * (L 1).val + 128 * (L 0).val + 4096 * k.val) k.val (k1_off10_eq L k)
    (show 256 * (L 1).val + 128 * (L 0).val + 4096 * k.val = 128 * (2 * (L 1).val + (L 0).val + 32 * k.val) by omega)
    (k1_off6_eq k) (Nat.mod_eq_of_lt ((tb1_act_iff L k).mp hA)) (rPl1_0).view r (by decide) G S' hS' hin hI

/-- Plane 1 of a trip: its window of the result, written with the plane of the row scratch after the gather of the rows
    its index list names, holds the gathered array. -/
theorem win_val1_1 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off7 k) S1x1x128.size (k1_off7_inb L k hA)) (fun _ => rfl)).squeeze S128 squeezes_S1x1x128_S128).view.set, S' i = slotImg1 d L I k.val i)
    (hin : ∀ x : S128.Idx, (View.read (Elt F) (((sI).slice (Rect.unit (s := S2x4x128) (k1_off7 k) S1x1x128.size (k1_off7_inb L k hA)) (fun _ => rfl)).squeeze S128 squeezes_S1x1x128_S128).view S' x).toNat < 160000)
    (hI : ∀ i, (I i).toNat < 160000) :
    ∀ i ∈ (oWin1_1 L k hA).view.set,
      (oWin1_1 L k hA).view.writes (Elt F) G [⟨Rect.whole S128x128, ReadAs.same.apply (View.read (Elt F) (rPl1_1).view ((rPl1_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off7 k) S1x1x128.size (k1_off7_inb L k hA)) (fun _ => rfl)).squeeze S128 squeezes_S1x1x128_S128).view S') (by decide) hin)⟩]))⟩] i
        = gath (F := F) X I i :=
  win_val_gen1 d L I X (k1_off11 L k) (k1_off11_inb L k hA) (k1_off7 k) (k1_off7_inb L k hA) 1 (k.val % 2) (wid1 L + 32 * k.val)
    (256 * (L 1).val + 128 * (L 0).val + 4096 * k.val) k.val (k1_off11_eq L k)
    (show 256 * (L 1).val + 128 * (L 0).val + 4096 * k.val = 128 * (2 * (L 1).val + (L 0).val + 32 * k.val) by omega)
    (k1_off7_eq k) (Nat.mod_eq_of_lt ((tb1_act_iff L k).mp hA)) (rPl1_1).view r (by decide) G S' hS' hin hI

/-- Plane 2 of a trip: its window of the result, written with the plane of the row scratch after the gather of the rows
    its index list names, holds the gathered array. -/
theorem win_val1_2 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off8 k) S1x1x128.size (k1_off8_inb L k hA)) (fun _ => rfl)).squeeze S128 squeezes_S1x1x128_S128).view.set, S' i = slotImg1 d L I k.val i)
    (hin : ∀ x : S128.Idx, (View.read (Elt F) (((sI).slice (Rect.unit (s := S2x4x128) (k1_off8 k) S1x1x128.size (k1_off8_inb L k hA)) (fun _ => rfl)).squeeze S128 squeezes_S1x1x128_S128).view S' x).toNat < 160000)
    (hI : ∀ i, (I i).toNat < 160000) :
    ∀ i ∈ (oWin1_2 L k hA).view.set,
      (oWin1_2 L k hA).view.writes (Elt F) G [⟨Rect.whole S128x128, ReadAs.same.apply (View.read (Elt F) (rPl1_2).view ((rPl1_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off8 k) S1x1x128.size (k1_off8_inb L k hA)) (fun _ => rfl)).squeeze S128 squeezes_S1x1x128_S128).view S') (by decide) hin)⟩]))⟩] i
        = gath (F := F) X I i :=
  win_val_gen1 d L I X (k1_off12 L k) (k1_off12_inb L k hA) (k1_off8 k) (k1_off8_inb L k hA) 2 (k.val % 2) (wid1 L + 32 * k.val)
    (256 * (L 1).val + 128 * (L 0).val + 4096 * k.val) k.val (k1_off12_eq L k)
    (show 256 * (L 1).val + 128 * (L 0).val + 4096 * k.val = 128 * (2 * (L 1).val + (L 0).val + 32 * k.val) by omega)
    (k1_off8_eq k) (Nat.mod_eq_of_lt ((tb1_act_iff L k).mp hA)) (rPl1_2).view r (by decide) G S' hS' hin hI

/-- Plane 3 of a trip: its window of the result, written with the plane of the row scratch after the gather of the rows
    its index list names, holds the gathered array. -/
theorem win_val1_3 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off9 k) S1x1x128.size (k1_off9_inb L k hA)) (fun _ => rfl)).squeeze S128 squeezes_S1x1x128_S128).view.set, S' i = slotImg1 d L I k.val i)
    (hin : ∀ x : S128.Idx, (View.read (Elt F) (((sI).slice (Rect.unit (s := S2x4x128) (k1_off9 k) S1x1x128.size (k1_off9_inb L k hA)) (fun _ => rfl)).squeeze S128 squeezes_S1x1x128_S128).view S' x).toNat < 160000)
    (hI : ∀ i, (I i).toNat < 160000) :
    ∀ i ∈ (oWin1_3 L k hA).view.set,
      (oWin1_3 L k hA).view.writes (Elt F) G [⟨Rect.whole S128x128, ReadAs.same.apply (View.read (Elt F) (rPl1_3).view ((rPl1_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off9 k) S1x1x128.size (k1_off9_inb L k hA)) (fun _ => rfl)).squeeze S128 squeezes_S1x1x128_S128).view S') (by decide) hin)⟩]))⟩] i
        = gath (F := F) X I i :=
  win_val_gen1 d L I X (k1_off13 L k) (k1_off13_inb L k hA) (k1_off9 k) (k1_off9_inb L k hA) 3 (k.val % 2) (wid1 L + 32 * k.val)
    (256 * (L 1).val + 128 * (L 0).val + 4096 * k.val) k.val (k1_off13_eq L k)
    (show 256 * (L 1).val + 128 * (L 0).val + 4096 * k.val = 128 * (2 * (L 1).val + (L 0).val + 32 * k.val) by omega)
    (k1_off9_eq k) (Nat.mod_eq_of_lt ((tb1_act_iff L k).mp hA)) (rPl1_3).view r (by decide) G S' hS' hin hI

end Cert.KernelIdeal.KP

end
-- ==== Proof.TileTrip1.lean ====
/-
  One trip of the loop of call 1's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal1

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The table's share as the remainder and one read token per gather semaphore. -/
def xPart1 : sProp 𝕄 :=
  iprop(((xW).view.loc (thr1 d L) ↦{Transfers.shareDrop q 4} X) ∗ ((xW).view.loc (thr1 d L) ↦{Transfers.shareTok q 4 0} X) ∗ ((xW).view.loc (thr1 d L) ↦{Transfers.shareTok q 4 1} X)
    ∗ ((xW).view.loc (thr1 d L) ↦{Transfers.shareTok q 4 2} X) ∗ ((xW).view.loc (thr1 d L) ↦{Transfers.shareTok q 4 3} X))
/-- The gather semaphores at rest. -/
def gsems1 : sProp 𝕄 :=
  iprop(semVal (cellD1 d L cc1_scratch2) 0 ∗ semVal (cellD1 d L cc1_scratch3) 0 ∗ semVal (cellD1 d L cc1_scratch4) 0 ∗ semVal (cellD1 d L cc1_scratch5) 0)
/-- The index fetch of an active trip `t` in flight. -/
def idxFly1 (t : Fin k1_t1_loop.trips) (h : Act1 L t) : sProp 𝕄 :=
  iprop(∃ S, ⌜SlotAgrees1 d L I t h S⌝
    ∗ Transfers.Flight countersEmb (thr1 d L) (SemLoc.dma cc1_scratch10.sem) (default : HIx 5) 16384 (idxDeliv1 d L q I t h S)
    ∗ ((iW).view.loc (thr1 d L) ↦[Finset.univ \ (iCh1 L t h).view.set]{q} I)
    ∗ ((sI).view.loc (thr1 d L) ↦[Finset.univ \ (sSl1 L t h).view.set]{fullShare} S))
/-- The four write-outs of an active trip `t` in flight. -/
def rowsFly1 (t : Fin k1_t1_loop.trips) (h : Act1 L t) : sProp 𝕄 :=
  iprop(∃ r0 r1 r2 r3, Transfers.Flight countersEmb (thr1 d L) (SemLoc.dma cc1_scratch6.sem) (default : HIx 5) 524288 (wDeliv1 d L X I t h 0 (pl1_0 d L r0))
    ∗ Transfers.Flight countersEmb (thr1 d L) (SemLoc.dma cc1_scratch7.sem) (default : HIx 5) 524288 (wDeliv1 d L X I t h 1 (pl1_1 d L r1))
    ∗ Transfers.Flight countersEmb (thr1 d L) (SemLoc.dma cc1_scratch8.sem) (default : HIx 5) 524288 (wDeliv1 d L X I t h 2 (pl1_2 d L r2))
    ∗ Transfers.Flight countersEmb (thr1 d L) (SemLoc.dma cc1_scratch9.sem) (default : HIx 5) 524288 (wDeliv1 d L X I t h 3 (pl1_3 d L r3)))
omit [FloatOps F] in
/-- One more wait recorded at index `none` keeps the recorded waits within `W` and index `none`. -/
theorem none_ins1 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart1 (O : CellTallies nD τ sig (HIx 5)) (W : Waits sig (HIx 5)) : sProp 𝕄 :=
  iprop(∃ W', ⌜∀ p ∈ W', p ∈ W ∨ p.2 = none⌝ ∗ owes (thr1 d L) O W')

/-- The index side at rest: the semaphore at zero, block and scratch whole. -/
def idxIdle1 : sProp 𝕄 :=
  iprop(semVal (cellD1 d L cc1_scratch10) 0 ∗ ((iW).view.loc (thr1 d L) ↦{q} I) ∗ ∃ S, (sI).view.loc (thr1 d L) ↦{fullShare} S)
/-- The row scratch and the write-out semaphores at rest. -/
def rowsIdle1 : sProp 𝕄 :=
  iprop((semVal (cellD1 d L cc1_scratch6) 0 ∗ ∃ r, pl1_0 d L r) ∗ (semVal (cellD1 d L cc1_scratch7) 0 ∗ ∃ r, pl1_1 d L r)
    ∗ (semVal (cellD1 d L cc1_scratch8) 0 ∗ ∃ r, pl1_2 d L r) ∗ (semVal (cellD1 d L cc1_scratch9) 0 ∗ ∃ r, pl1_3 d L r))

/-- On the first trip the loop's test `i ≥ 1` fails (in the words the body computes it with). -/
theorem lt1_cond1 : ∀ k : Fin k1_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA1 (O : CellTallies nD τ sig (HIx 5)) (W : Waits sig (HIx 5))
    (k tp k' : Fin k1_t1_loop.trips) (hp : tp.val + 1 = k.val) (hk' : k'.val = k.val + 1) (hA : Act1 L k) (hAp : Act1 L tp) (hA' : Act1 L k')
    (h2 : k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsFly1 d L X I tp hAp ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxFly1 d L q I k' hA' ∗ gsems1 d L ∗ rowsFly1 d L X I k hA
            ∗ oWins1 d L tp hAp (gath (F := F) X I) ∗ owesPart1 d L O W ∗ R) := by
  unfold xPart1 idxFly1 gsems1 rowsFly1 oWins1 owesPart1
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have hdisj := slots_disj1 L k hA h2
  have hd6 := list6_disj1 L k hA h2
  have hd7 := list7_disj1 L k hA h2
  have hd8 := list8_disj1 L k hA h2
  have hd9 := list9_disj1 L k hA h2
  have hk1 : 1 ≤ k.val := by omega
  have k1_h3 := ge1_cond1 k hk1
  sl_unfold [k1_t1_body]
  sl_exec
  have hin6 := list6_inr1 d L I k hA (tripA1.sl.HsI_w0 d L I k hA h2 S) (list6_agree1 d L I k hA h2 S hS _) hI
  have hin7 := list7_inr1 d L I k hA (tripA1.sl.HsI_w0 d L I k hA h2 S) (list7_agree1 d L I k hA h2 S hS _) hI
  have hin8 := list8_inr1 d L I k hA (tripA1.sl.HsI_w0 d L I k hA h2 S) (list8_agree1 d L I k hA h2 S hS _) hI
  have hin9 := list9_inr1 d L I k hA (tripA1.sl.HsI_w0 d L I k hA h2 S) (list9_agree1 d L I k hA h2 S hS _) hI
  sl_exec
  have hw0 : (((oWin1_0 L k hA).view.loc (thr1 d L) ↦[(oWin1_0 L k hA).view.set]{fullShare}
      ((oWin1_0 L k hA).view.writes (Elt F) G [⟨Rect.whole S128x128, tripA1.sl.dma0_1 d L X I k hA h2 S r0 hin6⟩])) : sProp 𝕄)
      = ((oW).view.loc (thr1 d L) ↦[oSet1 L k hA 0]{fullShare} gath (F := F) X I) :=
    pointsTo_congr (win_val1_0 d L I X k hA G r0 _ (list6_agree1 d L I k hA h2 S hS _) hin6 hI)
  have hw1 : (((oWin1_1 L k hA).view.loc (thr1 d L) ↦[(oWin1_1 L k hA).view.set]{fullShare}
      ((oWin1_1 L k hA).view.writes (Elt F) G [⟨Rect.whole S128x128, tripA1.sl.dma0_2 d L X I k hA h2 S r1 hin7⟩])) : sProp 𝕄)
      = ((oW).view.loc (thr1 d L) ↦[oSet1 L k hA 1]{fullShare} gath (F := F) X I) :=
    pointsTo_congr (win_val1_1 d L I X k hA G r1 _ (list7_agree1 d L I k hA h2 S hS _) hin7 hI)
  have hw2 : (((oWin1_2 L k hA).view.loc (thr1 d L) ↦[(oWin1_2 L k hA).view.set]{fullShare}
      ((oWin1_2 L k hA).view.writes (Elt F) G [⟨Rect.whole S128x128, tripA1.sl.dma0_3 d L X I k hA h2 S r2 hin8⟩])) : sProp 𝕄)
      = ((oW).view.loc (thr1 d L) ↦[oSet1 L k hA 2]{fullShare} gath (F := F) X I) :=
    pointsTo_congr (win_val1_2 d L I X k hA G r2 _ (list8_agree1 d L I k hA h2 S hS _) hin8 hI)
  have hw3 : (((oWin1_3 L k hA).view.loc (thr1 d L) ↦[(oWin1_3 L k hA).view.set]{fullShare}
      ((oWin1_3 L k hA).view.writes (Elt F) G [⟨Rect.whole S128x128, tripA1.sl.dma0_4 d L X I k hA h2 S r3 hin9⟩])) : sProp 𝕄)
      = ((oW).view.loc (thr1 d L) ↦[oSet1 L k hA 3]{fullShare} gath (F := F) X I) :=
    pointsTo_congr (win_val1_3 d L I X k hA G r3 _ (list9_agree1 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA1.sl.HsI_w0 d L I k hA h2 S)
    isplitr
    · ipureintro; exact slot_agree_next1 d L I k k' hk' hA hA' h2 S
    rw [slot_next_set1 L k k' hk' hA hA' h2, chunk_next_set1 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr1 d L) (sep_mono_left (Entails.of_eq hw0))) $$ Hf0
    isplitl [Hf1]
    · iapply (Transfers.Flight_mono countersEmb (thr1 d L) (sep_mono_left (Entails.of_eq hw1))) $$ Hf1
    isplitl [Hf2]
    · iapply (Transfers.Flight_mono countersEmb (thr1 d L) (sep_mono_left (Entails.of_eq hw2))) $$ Hf2
    · iapply (Transfers.Flight_mono countersEmb (thr1 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins1 (none_ins1 (none_ins1 (none_ins1 (none_ins1 (none_ins1 (none_ins1 (none_ins1 (none_ins1 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB1 (O : CellTallies nD τ sig (HIx 5)) (W : Waits sig (HIx 5))
    (k tp : Fin k1_t1_loop.trips) (hp : tp.val + 1 = k.val) (hA : Act1 L k) (hAp : Act1 L tp)
    (hn2 : ¬ k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsFly1 d L X I tp hAp ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxIdle1 d L q I ∗ gsems1 d L ∗ rowsFly1 d L X I k hA
            ∗ oWins1 d L tp hAp (gath (F := F) X I) ∗ owesPart1 d L O W ∗ R) := by
  unfold xPart1 idxFly1 idxIdle1 gsems1 rowsFly1 oWins1 owesPart1
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have k1_h2 : ¬ k1_cond2 L k = 1#1 := hn2
  have hk1 : 1 ≤ k.val := by omega
  have k1_h3 := ge1_cond1 k hk1
  have hin6 := list6_inr1 d L I k hA S (fun i hi => hS i (list6_sub1 L k hA hi)) hI
  have hin7 := list7_inr1 d L I k hA S (fun i hi => hS i (list7_sub1 L k hA hi)) hI
  have hin8 := list8_inr1 d L I k hA S (fun i hi => hS i (list8_sub1 L k hA hi)) hI
  have hin9 := list9_inr1 d L I k hA S (fun i hi => hS i (list9_sub1 L k hA hi)) hI
  sl_unfold [k1_t1_body]
  sl_exec
  have hw0 : (((oWin1_0 L k hA).view.loc (thr1 d L) ↦[(oWin1_0 L k hA).view.set]{fullShare}
      ((oWin1_0 L k hA).view.writes (Elt F) G [⟨Rect.whole S128x128, tripB1.sl.dma0 d L X k hA S r0 hin6⟩])) : sProp 𝕄)
      = ((oW).view.loc (thr1 d L) ↦[oSet1 L k hA 0]{fullShare} gath (F := F) X I) :=
    pointsTo_congr (win_val1_0 d L I X k hA G r0 S (fun i hi => hS i (list6_sub1 L k hA hi)) hin6 hI)
  have hw1 : (((oWin1_1 L k hA).view.loc (thr1 d L) ↦[(oWin1_1 L k hA).view.set]{fullShare}
      ((oWin1_1 L k hA).view.writes (Elt F) G [⟨Rect.whole S128x128, tripB1.sl.dma0_1 d L X k hA S r1 hin7⟩])) : sProp 𝕄)
      = ((oW).view.loc (thr1 d L) ↦[oSet1 L k hA 1]{fullShare} gath (F := F) X I) :=
    pointsTo_congr (win_val1_1 d L I X k hA G r1 S (fun i hi => hS i (list7_sub1 L k hA hi)) hin7 hI)
  have hw2 : (((oWin1_2 L k hA).view.loc (thr1 d L) ↦[(oWin1_2 L k hA).view.set]{fullShare}
      ((oWin1_2 L k hA).view.writes (Elt F) G [⟨Rect.whole S128x128, tripB1.sl.dma0_2 d L X k hA S r2 hin8⟩])) : sProp 𝕄)
      = ((oW).view.loc (thr1 d L) ↦[oSet1 L k hA 2]{fullShare} gath (F := F) X I) :=
    pointsTo_congr (win_val1_2 d L I X k hA G r2 S (fun i hi => hS i (list8_sub1 L k hA hi)) hin8 hI)
  have hw3 : (((oWin1_3 L k hA).view.loc (thr1 d L) ↦[(oWin1_3 L k hA).view.set]{fullShare}
      ((oWin1_3 L k hA).view.writes (Elt F) G [⟨Rect.whole S128x128, tripB1.sl.dma0_3 d L X k hA S r3 hin9⟩])) : sProp 𝕄)
      = ((oW).view.loc (thr1 d L) ↦[oSet1 L k hA 3]{fullShare} gath (F := F) X I) :=
    pointsTo_congr (win_val1_3 d L I X k hA G r3 S (fun i hi => hS i (list9_sub1 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr1 d L) (sep_mono_left (Entails.of_eq hw0))) $$ Hf0
    isplitl [Hf1]
    · iapply (Transfers.Flight_mono countersEmb (thr1 d L) (sep_mono_left (Entails.of_eq hw1))) $$ Hf1
    isplitl [Hf2]
    · iapply (Transfers.Flight_mono countersEmb (thr1 d L) (sep_mono_left (Entails.of_eq hw2))) $$ Hf2
    · iapply (Transfers.Flight_mono countersEmb (thr1 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins1 (none_ins1 (none_ins1 (none_ins1 (none_ins1 (none_ins1 (none_ins1 (none_ins1 (none_ins1 (hW')))))))))

set_option maxHeartbeats 1000000 in
set_option sl_exec.dmaWindow true in
/-- The first trip: from its index fetch in flight and the row scratch at rest to the index fetch of trip 1 and its own
    four write-outs in flight. -/
theorem tripC1 (O : CellTallies nD τ sig (HIx 5)) (W : Waits sig (HIx 5))
    (k k' : Fin k1_t1_loop.trips) (hk0 : k.val = 0) (hk' : k'.val = k.val + 1) (hA : Act1 L k) (hA' : Act1 L k')
    (h2 : k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsIdle1 d L ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxFly1 d L q I k' hA' ∗ gsems1 d L ∗ rowsFly1 d L X I k hA ∗ owesPart1 d L O W ∗ R) := by
  unfold xPart1 idxFly1 gsems1 rowsIdle1 rowsFly1 oWins1 owesPart1
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have k1_h3 := lt1_cond1 k hk0
  have hdisj := slots_disj1 L k hA h2
  have hd6 := list6_disj1 L k hA h2
  have hd7 := list7_disj1 L k hA h2
  have hd8 := list8_disj1 L k hA h2
  have hd9 := list9_disj1 L k hA h2
  sl_unfold [k1_t1_body]
  sl_exec
  have hin6 := list6_inr1 d L I k hA (tripC1.sl.HsI_w0 d L I k hA h2 S) (list6_agree1 d L I k hA h2 S hS _) hI
  have hin7 := list7_inr1 d L I k hA (tripC1.sl.HsI_w0 d L I k hA h2 S) (list7_agree1 d L I k hA h2 S hS _) hI
  have hin8 := list8_inr1 d L I k hA (tripC1.sl.HsI_w0 d L I k hA h2 S) (list8_agree1 d L I k hA h2 S hS _) hI
  have hin9 := list9_inr1 d L I k hA (tripC1.sl.HsI_w0 d L I k hA h2 S) (list9_agree1 d L I k hA h2 S hS _) hI
  sl_exec
  have hw0 : (((oWin1_0 L k hA).view.loc (thr1 d L) ↦[(oWin1_0 L k hA).view.set]{fullShare}
      ((oWin1_0 L k hA).view.writes (Elt F) G [⟨Rect.whole S128x128, tripC1.sl.dma0_1 d L X I k hA h2 S r0 hin6⟩])) : sProp 𝕄)
      = ((oW).view.loc (thr1 d L) ↦[oSet1 L k hA 0]{fullShare} gath (F := F) X I) :=
    pointsTo_congr (win_val1_0 d L I X k hA G r0 _ (list6_agree1 d L I k hA h2 S hS _) hin6 hI)
  have hw1 : (((oWin1_1 L k hA).view.loc (thr1 d L) ↦[(oWin1_1 L k hA).view.set]{fullShare}
      ((oWin1_1 L k hA).view.writes (Elt F) G [⟨Rect.whole S128x128, tripC1.sl.dma0_2 d L X I k hA h2 S r1 hin7⟩])) : sProp 𝕄)
      = ((oW).view.loc (thr1 d L) ↦[oSet1 L k hA 1]{fullShare} gath (F := F) X I) :=
    pointsTo_congr (win_val1_1 d L I X k hA G r1 _ (list7_agree1 d L I k hA h2 S hS _) hin7 hI)
  have hw2 : (((oWin1_2 L k hA).view.loc (thr1 d L) ↦[(oWin1_2 L k hA).view.set]{fullShare}
      ((oWin1_2 L k hA).view.writes (Elt F) G [⟨Rect.whole S128x128, tripC1.sl.dma0_3 d L X I k hA h2 S r2 hin8⟩])) : sProp 𝕄)
      = ((oW).view.loc (thr1 d L) ↦[oSet1 L k hA 2]{fullShare} gath (F := F) X I) :=
    pointsTo_congr (win_val1_2 d L I X k hA G r2 _ (list8_agree1 d L I k hA h2 S hS _) hin8 hI)
  have hw3 : (((oWin1_3 L k hA).view.loc (thr1 d L) ↦[(oWin1_3 L k hA).view.set]{fullShare}
      ((oWin1_3 L k hA).view.writes (Elt F) G [⟨Rect.whole S128x128, tripC1.sl.dma0_4 d L X I k hA h2 S r3 hin9⟩])) : sProp 𝕄)
      = ((oW).view.loc (thr1 d L) ↦[oSet1 L k hA 3]{fullShare} gath (F := F) X I) :=
    pointsTo_congr (win_val1_3 d L I X k hA G r3 _ (list9_agree1 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC1.sl.HsI_w0 d L I k hA h2 S)
    isplitr
    · ipureintro; exact slot_agree_next1 d L I k k' hk' hA hA' h2 S
    rw [slot_next_set1 L k k' hk' hA hA' h2, chunk_next_set1 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr1 d L) (sep_mono_left (Entails.of_eq hw0))) $$ Hw0
    isplitl [Hw1]
    · iapply (Transfers.Flight_mono countersEmb (thr1 d L) (sep_mono_left (Entails.of_eq hw1))) $$ Hw1
    isplitl [Hw2]
    · iapply (Transfers.Flight_mono countersEmb (thr1 d L) (sep_mono_left (Entails.of_eq hw2))) $$ Hw2
    · iapply (Transfers.Flight_mono countersEmb (thr1 d L) (sep_mono_left (Entails.of_eq hw3))) $$ Hw3
  isplitr [HR]
  rotate_left
  · iexact HR
  iexists _
  isplitr
  rotate_left
  · iexact HO
  · ipureintro
    exact none_ins1 (none_ins1 (none_ins1 (none_ins1 (none_ins1 (hW')))))

/-- An idle trip (its chunk number is 250 or more) does nothing. -/
theorem tripI1 (k : Fin k1_t1_loop.trips) (hnA : ¬ Act1 L k) (R : sProp 𝕄) :
    R ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => R := by
  iintro HR
  have k1_h1 : ¬ k1_cond1 L k = 1#1 := hnA
  sl_unfold [k1_t1_body]
  sl_exec
  sl_step
  iexact HR

end Cert.KernelIdeal.KP

end
-- ==== Proof.TileOut1.lean ====
/-
  The result's windows through the loop of call 1's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody1b

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable (d : Dev nD) (L : grid1.Coords)

/-! ## Which trips are active -/

theorem wid_lt1 : wid1 L < 32 := by
  have h0 : (L 0).val < 2 := (L 0).isLt
  have h1 : (L 1).val < 16 := (L 1).isLt
  show 2 * (L 1).val + (L 0).val < 32
  omega

theorem act_iff_lt1 (t : Fin k1_t1_loop.trips) : Act1 L t ↔ t.val < nAct1 L := by
  have hw := wid_lt1 L
  refine (tb1_act_iff L t).trans ?_
  show wid1 L + 32 * t.val < 250 ↔ t.val < (250 - wid1 L + 31) / 32
  omega

theorem nAct_bounds1 : 7 ≤ nAct1 L ∧ nAct1 L ≤ 8 := by
  have hw := wid_lt1 L
  show 7 ≤ (250 - wid1 L + 31) / 32 ∧ (250 - wid1 L + 31) / 32 ≤ 8
  omega

theorem pre_iff_lt1 (k : Fin k1_t1_loop.trips) : k1_cond2 L k = 1#1 ↔ k.val + 1 < nAct1 L := by
  have hw := wid_lt1 L
  refine (tb1_pre_iff L k).trans ?_
  show wid1 L + 32 * k.val + 32 < 250 ↔ k.val + 1 < (250 - wid1 L + 31) / 32
  omega

theorem cnt_act1 (k : Fin k1_t1_loop.trips) (hA : Act1 L k) : cnt1 L k.val = k.val ∧ cnt1 L (k.val + 1) = k.val + 1 := by
  have h := (act_iff_lt1 L k).mp hA
  show min k.val (nAct1 L) = k.val ∧ min (k.val + 1) (nAct1 L) = k.val + 1
  omega

theorem cnt_idle1 (k : Fin k1_t1_loop.trips) (hnA : ¬ Act1 L k) : cnt1 L k.val = nAct1 L ∧ cnt1 L (k.val + 1) = nAct1 L := by
  have h : ¬ k.val < nAct1 L := fun h => hnA ((act_iff_lt1 L k).mpr h)
  show min k.val (nAct1 L) = nAct1 L ∧ min (k.val + 1) (nAct1 L) = nAct1 L
  omega

theorem cnt_end1 : cnt1 L k1_t1_loop.trips = nAct1 L := by
  have h := (nAct_bounds1 L).2
  show min k1_t1_loop.trips (nAct1 L) = nAct1 L
  rw [tb1_trips]
  omega

/-! ## The windows' family -/

variable (X : Buf (Elt F) (xLoc d)) (I : Buf (Elt F) (iLoc1 d)) (G : Buf (Elt F) (oLoc1 d))

/-- Trip `t`'s windows after `n` active trips: at the gathered array, in flight, or as found. -/
def outPhi1 (n : ℕ) (t : Fin k1_t1_loop.trips) : sProp 𝕄 :=
  if t.val + 1 < n then oTrip1 d L (gath (F := F) X I) t else if t.val + 1 = n then iprop(emp) else oTrip1 d L G t

theorem outPart1_eq (n : ℕ) : outPart1 d L X I G n = bigSep Finset.univ (outPhi1 d L X I G n) := rfl

theorem outPhi1_done {n : ℕ} {t : Fin k1_t1_loop.trips} (h : t.val + 1 < n) : outPhi1 d L X I G n t = oTrip1 d L (gath (F := F) X I) t := by
  unfold outPhi1; rw [if_pos h]
theorem outPhi1_flight {n : ℕ} {t : Fin k1_t1_loop.trips} (h : t.val + 1 = n) : outPhi1 d L X I G n t = (iprop(emp) : sProp 𝕄) := by
  unfold outPhi1; rw [if_neg (by omega), if_pos h]
theorem outPhi1_found {n : ℕ} {t : Fin k1_t1_loop.trips} (h : n < t.val + 1) : outPhi1 d L X I G n t = oTrip1 d L G t := by
  unfold outPhi1; rw [if_neg (by omega), if_neg (by omega)]

/-- Before any trip every window is as found. -/
theorem out_init1 : (bigSep Finset.univ fun t : Fin k1_t1_loop.trips => oTrip1 d L G t) = outPart1 d L X I G 0 := by
  rw [outPart1_eq]
  exact bigSep_congr fun t _ => (outPhi1_found d L X I G (Nat.succ_pos _)).symm

/-- Entering trip `k` (the trip before it, `tp`, in flight): its own windows come out, as found. -/
theorem out_take1 (k tp : Fin k1_t1_loop.trips) (hp : tp.val + 1 = k.val) (hA : Act1 L k) :
    outPart1 d L X I G k.val ⊢ iprop(oWins1 d L k hA G ∗ bigSep ((Finset.univ.erase k).erase tp) (outPhi1 d L X I G k.val)) := by
  have hne : tp ≠ k := fun e => by rw [e] at hp; omega
  rw [outPart1_eq, SparseCore.bigSep_erase' (Finset.mem_univ k),
    SparseCore.bigSep_erase' (Finset.mem_erase.mpr ⟨hne, Finset.mem_univ tp⟩),
    outPhi1_found d L X I G (Nat.lt_succ_self _), outPhi1_flight d L X I G hp, oTrip1_act d L k hA]
  iintro ⟨Hw, -, Hr⟩
  isplitl [Hw] <;> iassumption

/-- Leaving trip `k`: the previous trip's windows go back, at the gathered array; trip `k`'s are now the ones in flight. -/
theorem out_put1 (k tp : Fin k1_t1_loop.trips) (hp : tp.val + 1 = k.val) (hAp : Act1 L tp) :
    iprop(oWins1 d L tp hAp (gath (F := F) X I) ∗ bigSep ((Finset.univ.erase k).erase tp) (outPhi1 d L X I G k.val))
      ⊢ outPart1 d L X I G (k.val + 1) := by
  have hne : tp ≠ k := fun e => by rw [e] at hp; omega
  rw [outPart1_eq, SparseCore.bigSep_erase' (Finset.mem_univ k),
    SparseCore.bigSep_erase' (Finset.mem_erase.mpr ⟨hne, Finset.mem_univ tp⟩),
    outPhi1_flight d L X I G rfl, outPhi1_done d L X I G (show tp.val + 1 < k.val + 1 by omega), oTrip1_act d L tp hAp,
    show bigSep ((Finset.univ.erase k).erase tp) (outPhi1 d L X I G (k.val + 1)) = bigSep ((Finset.univ.erase k).erase tp) (outPhi1 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi1
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first1 (h0 : 0 < k1_t1_loop.trips) (hA : Act1 L ⟨0, h0⟩) :
    outPart1 d L X I G 0 ⊢ iprop(oWins1 d L ⟨0, h0⟩ hA G ∗ bigSep (Finset.univ.erase ⟨0, h0⟩) (outPhi1 d L X I G 0)) := by
  rw [outPart1_eq, SparseCore.bigSep_erase' (Finset.mem_univ (⟨0, h0⟩ : Fin k1_t1_loop.trips)),
    outPhi1_found d L X I G (Nat.succ_pos _), oTrip1_act d L ⟨0, h0⟩ hA]

/-- Leaving it: nothing goes back yet. -/
theorem out_put_first1 (h0 : 0 < k1_t1_loop.trips) :
    bigSep (Finset.univ.erase (⟨0, h0⟩ : Fin k1_t1_loop.trips)) (outPhi1 d L X I G 0) ⊢ outPart1 d L X I G 1 := by
  rw [outPart1_eq, SparseCore.bigSep_erase' (Finset.mem_univ (⟨0, h0⟩ : Fin k1_t1_loop.trips)),
    outPhi1_flight d L X I G (show (⟨0, h0⟩ : Fin k1_t1_loop.trips).val + 1 = 1 from rfl),
    show bigSep (Finset.univ.erase (⟨0, h0⟩ : Fin k1_t1_loop.trips)) (outPhi1 d L X I G 1) = bigSep (Finset.univ.erase (⟨0, h0⟩ : Fin k1_t1_loop.trips)) (outPhi1 d L X I G 0) from
      bigSep_congr fun t ht => by
        have h1 : t ≠ ⟨0, h0⟩ := (Finset.mem_erase.mp ht).1
        have h1' : t.val ≠ 0 := fun e => h1 (Fin.ext e)
        rw [outPhi1_found d L X I G (show 1 < t.val + 1 by omega), outPhi1_found d L X I G (Nat.succ_pos _)]]
  iintro Hr
  isplitr; · iempintro
  iexact Hr

/-- After the last active trip `tl`, with its windows back: every trip's windows hold the gathered array (the idle
    trips have none). -/
theorem out_final1 (tl : Fin k1_t1_loop.trips) (hAl : Act1 L tl) (hidle : ∀ t : Fin k1_t1_loop.trips, tl.val < t.val → ¬ Act1 L t) :
    iprop(outPart1 d L X I G (tl.val + 1) ∗ oWins1 d L tl hAl (gath (F := F) X I))
      ⊢ bigSep Finset.univ fun t : Fin k1_t1_loop.trips => oTrip1 d L (gath (F := F) X I) t := by
  rw [outPart1_eq, SparseCore.bigSep_erase' (Finset.mem_univ tl) (Φ := outPhi1 d L X I G (tl.val + 1)),
    SparseCore.bigSep_erase' (Finset.mem_univ tl) (Φ := fun t : Fin k1_t1_loop.trips => oTrip1 d L (gath (F := F) X I) t),
    outPhi1_flight d L X I G rfl, oTrip1_act d L tl hAl,
    show bigSep (Finset.univ.erase tl) (outPhi1 d L X I G (tl.val + 1)) = bigSep (Finset.univ.erase tl) (fun t : Fin k1_t1_loop.trips => oTrip1 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi1_done d L X I G (by omega)
        · have hi := hidle t (by omega)
          rw [outPhi1_found d L X I G (show tl.val + 1 < t.val + 1 by omega), oTrip1_idle d L t hi, oTrip1_idle d L t hi]]
  iintro ⟨⟨-, Hr⟩, Hw⟩
  isplitl [Hw] <;> iassumption

end Cert.KernelIdeal.KP

end
-- ==== Proof.TileScoped1.lean ====
/-
  The scoped storage of one vector subcore as call 1's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody1b

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable (d : Dev nD) (L : grid1.Coords)

/-! ## The task's nine semaphores among the subcore's own -/

/-- The nine DMA semaphores of the task, as semaphore locations. -/
def semS1 : List (SemLoc sig) := [SemLoc.dma cc1_scratch2.sem, SemLoc.dma cc1_scratch3.sem, SemLoc.dma cc1_scratch4.sem, SemLoc.dma cc1_scratch5.sem, SemLoc.dma cc1_scratch6.sem, SemLoc.dma cc1_scratch7.sem, SemLoc.dma cc1_scratch8.sem, SemLoc.dma cc1_scratch9.sem, SemLoc.dma cc1_scratch10.sem]

theorem semS1_nodup : (semS1).Nodup := by decide
theorem semS1_scoped : ∀ s ∈ semS1, (s : SemLoc sig).isScoped .scVector = true := by decide

/-- The same as cells of the tile's thread. -/
def semL1 : List (GSem nD τ sig) := semS1.map fun s => (thr1 d L, s)

theorem semL1_nodup : (semL1 d L).Nodup :=
  semS1_nodup.map fun _ _ h => (Prod.mk.inj h).2

theorem semL1_sub : (semL1 d L).toFinset ⊆ ownCells (thr1 d L) := by
  intro g hg
  rw [List.mem_toFinset, semL1, List.mem_map] at hg
  obtain ⟨s, hs, rfl⟩ := hg
  exact mem_ownCells.mpr ⟨rfl, semS1_scoped s hs⟩

/-- The subcore's own semaphores that the task does not use, each at zero. -/
def RestSems1 : sProp 𝕄 := bigSep (ownCells (thr1 d L) \ (semL1 d L).toFinset) fun g => semVal g 0

/-- The subcore's own semaphores at zero are the task's nine at zero and the rest. -/
theorem ownSems0_V1 :
    (ownSems0 (thr1 d L) : sProp 𝕄)
      = iprop(semVal (cellD1 d L cc1_scratch2) 0 ∗ semVal (cellD1 d L cc1_scratch3) 0 ∗ semVal (cellD1 d L cc1_scratch4) 0 ∗ semVal (cellD1 d L cc1_scratch5) 0 ∗ semVal (cellD1 d L cc1_scratch6) 0 ∗ semVal (cellD1 d L cc1_scratch7) 0 ∗ semVal (cellD1 d L cc1_scratch8) 0 ∗ semVal (cellD1 d L cc1_scratch9) 0 ∗ semVal (cellD1 d L cc1_scratch10) 0 ∗ RestSems1 d L) := by
  unfold SparseCore.Cfg.ownSems0 RestSems1
  rw [SparseCore.bigSep_sdiff_split' (semL1_sub d L), bigSep_eq_bigSepL (semL1 d L) (semL1_nodup d L)]
  unfold semL1 semS1
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs1 : sProp 𝕄 :=
  bigSep (((ownRefs (τ := τ) (.scVector (cV1 L) (jV1 L))).erase ((Proc.scVector (cV1 L) (jV1 L)).devRef cc1_scratch0)).erase
      ((Proc.scVector (cV1 L) (jV1 L)).devRef cc1_scratch1))
    fun b => iprop(∃ f, ((d, b) : Loc nD τ sig) ↦{fullShare} f)

/-- The subcore's own buffers are the index scratch, the row scratch, each at some contents, and the rest. -/
theorem ownBufs_V1 :
    (ownBufs (thr1 d L) : sProp 𝕄)
      = iprop((∃ f, (thr1 d L).loc cc1_scratch0 ↦{fullShare} f) ∗ (∃ f, (thr1 d L).loc cc1_scratch1 ↦{fullShare} f) ∗ RestBufs1 d L) := by
  unfold SparseCore.Cfg.ownBufs RestBufs1
  refine (SparseCore.bigSep_erase' (SparseCore.Cfg.mem_ownRefs_of_owner (p := Proc.scVector (cV1 L) (jV1 L))
    (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV1 L) (jV1 L)) (b := (Proc.scVector (cV1 L) (jV1 L)).devRef cc1_scratch1) rfl⟩)]

/-! ## The whole arrays under the subcore's names -/

theorem pts_sI1 (f : Buf (Elt F) ((thr1 d L).loc cc1_scratch0)) :
    ((sI).view.loc (thr1 d L) ↦{fullShare} f : sProp 𝕄) = (thr1 d L).loc cc1_scratch0 ↦{fullShare} f := rfl
theorem pts_sR1 (f : Buf (Elt F) ((thr1 d L).loc cc1_scratch1)) :
    ((sR).view.loc (thr1 d L) ↦{fullShare} f : sProp 𝕄) = (thr1 d L).loc cc1_scratch1 ↦{fullShare} f := rfl
theorem pts_x1 (q : PosShare TreeShare) (f : Buf (Elt F) (xLoc d)) :
    ((xW).view.loc (thr1 d L) ↦{q} f : sProp 𝕄) = xLoc d ↦{q} f := rfl
theorem pts_i1 (q : PosShare TreeShare) (f : Buf (Elt F) (iLoc1 d)) :
    ((iW).view.loc (thr1 d L) ↦{q} f : sProp 𝕄) = iLoc1 d ↦{q} f := rfl
theorem pts_o1 (K : Finset S4x32000x128.Idx) (q : PosShare TreeShare) (f : Buf (Elt F) (oLoc1 d)) :
    ((oW).view.loc (thr1 d L) ↦[K]{q} f : sProp 𝕄) = oLoc1 d ↦[K]{q} f := rfl

/-! ## The row scratch is its four planes -/

theorem pl_inb1 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet1 (j : Fin 4) : Finset S4x128x128.Idx := (Rect.unit (s := S4x128x128) ![j.val, 0, 0] S1x128x128.size (pl_inb1 j)).set

theorem set_rPl1_0 : (rPl1_0).view.set = plSet1 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc1_scratch1 : Ref sig .scVector) _).trans rfl
theorem set_rPl1_1 : (rPl1_1).view.set = plSet1 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc1_scratch1 : Ref sig .scVector) _).trans rfl
theorem set_rPl1_2 : (rPl1_2).view.set = plSet1 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc1_scratch1 : Ref sig .scVector) _).trans rfl
theorem set_rPl1_3 : (rPl1_3).view.set = plSet1 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc1_scratch1 : Ref sig .scVector) _).trans rfl

/-- Different planes are disjoint: they differ in the first coordinate. -/
theorem pl_disjoint1 : ∀ i ∈ (Finset.univ : Finset (Fin 4)), ∀ j ∈ (Finset.univ : Finset (Fin 4)), i ≠ j → Disjoint (plSet1 i) (plSet1 j) := by
  intro i _ j _ h
  have hv := Fin.val_ne_of_ne h
  refine Rect.unit_disjoint 0 ?_
  simp
  omega

/-- The four planes cover the scratch. -/
theorem pl_cover1 : (Finset.univ : Finset (Fin 4)).biUnion plSet1 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet1
  rw [Rect.mem_set_unit]
  intro a
  fin_cases a <;> simp at h0 h1 h2 ⊢ <;> omega

/-- Holding the row scratch whole at `r` is holding its four planes at `r`. -/
theorem sR_planes1 (r : Buf (Elt F) ((thr1 d L).loc cc1_scratch1)) :
    ((thr1 d L).loc cc1_scratch1 ↦{fullShare} r : sProp 𝕄) = iprop(pl1_0 d L r ∗ pl1_1 d L r ∗ pl1_2 d L r ∗ pl1_3 d L r) := by
  have e : ((thr1 d L).loc cc1_scratch1 ↦{fullShare} r : sProp 𝕄)
      = bigSep Finset.univ fun j : Fin 4 => ((thr1 d L).loc cc1_scratch1 ↦[plSet1 j]{fullShare} r : sProp 𝕄) := by
    rw [← pointsTo_biUnion Finset.univ (ℓ := (thr1 d L).loc cc1_scratch1) plSet1 pl_disjoint1, pl_cover1]; try rfl
  rw [e, bigSep_univ_eq_bigSepL [(0 : Fin 4), 1, 2, 3] (by decide) (by decide)]
  unfold pl1_0 pl1_1 pl1_2 pl1_3
  rw [set_rPl1_0, set_rPl1_1, set_rPl1_2, set_rPl1_3]
  rfl

/-- Four planes at four contents join into the row scratch whole at some contents. -/
theorem sR_join1 (r0 r1 r2 r3 : Buf (Elt F) ((thr1 d L).loc cc1_scratch1)) :
    iprop(pl1_0 d L r0 ∗ pl1_1 d L r1 ∗ pl1_2 d L r2 ∗ pl1_3 d L r3)
      ⊢ (iprop(∃ r, (thr1 d L).loc cc1_scratch1 ↦{fullShare} r) : sProp 𝕄) := by
  have e : (bigSep Finset.univ fun j : Fin 4 => ((thr1 d L).loc cc1_scratch1 ↦[plSet1 j]{fullShare} (![r0, r1, r2, r3] : Fin 4 → Buf (Elt F) ((thr1 d L).loc cc1_scratch1)) j : sProp 𝕄))
      = iprop(pl1_0 d L r0 ∗ pl1_1 d L r1 ∗ pl1_2 d L r2 ∗ pl1_3 d L r3) := by
    rw [bigSep_univ_eq_bigSepL [(0 : Fin 4), 1, 2, 3] (by decide) (by decide)]
    unfold pl1_0 pl1_1 pl1_2 pl1_3
    rw [set_rPl1_0, set_rPl1_1, set_rPl1_2, set_rPl1_3]
    rfl
  rw [← e]
  iintro H
  ihave H' := (pointsTo_biUnion_join Finset.univ plSet1 (![r0, r1, r2, r3] : Fin 4 → Buf (Elt F) ((thr1 d L).loc cc1_scratch1)) r0 pl_disjoint1) $$ H
  icases H' with ⟨%g, -, Hg⟩
  rw [pl_cover1]
  iexists g; iexact Hg

/-! ## A read share of the table as a remainder and four tokens -/

theorem x_toks1 (q : PosShare TreeShare) (X : Buf (Elt F) (xLoc d)) :
    ((xW).view.loc (thr1 d L) ↦{q} X : sProp 𝕄)
      ⊣⊢ iprop(((xW).view.loc (thr1 d L) ↦{Transfers.shareDrop q 4} X) ∗ ((xW).view.loc (thr1 d L) ↦{Transfers.shareTok q 4 0} X)
          ∗ ((xW).view.loc (thr1 d L) ↦{Transfers.shareTok q 4 1} X) ∗ ((xW).view.loc (thr1 d L) ↦{Transfers.shareTok q 4 2} X)
          ∗ ((xW).view.loc (thr1 d L) ↦{Transfers.shareTok q 4 3} X)) := by
  have e : (iprop(((xW).view.loc (thr1 d L) ↦{Transfers.shareTok q 4 0} X)
          ∗ ((xW).view.loc (thr1 d L) ↦{Transfers.shareTok q 4 1} X) ∗ ((xW).view.loc (thr1 d L) ↦{Transfers.shareTok q 4 2} X)
          ∗ ((xW).view.loc (thr1 d L) ↦{Transfers.shareTok q 4 3} X)) : sProp 𝕄)
      = bigSep Finset.univ fun i : Fin 4 => ((xW).view.loc (thr1 d L) ↦{Transfers.shareTok q 4 i} X : sProp 𝕄) :=
    (bigSep_univ_eq_bigSepL [(0 : Fin 4), 1, 2, 3] (by decide) (by decide)
      (fun i : Fin 4 => ((xW).view.loc (thr1 d L) ↦{Transfers.shareTok q 4 i} X : sProp 𝕄))).symm
  rw [e]
  exact Transfers.pointsTo_toks q 4

end Cert.KernelIdeal.KP

end
-- ==== Proof.TileLoop1.lean ====
/-
  The body of call 1's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip1
import proofs.«210879_g80607946211848_cont_9to1_m_1212_13_alg».proof.Proof.TileOut1
import proofs.«210879_g80607946211848_cont_9to1_m_1212_13_alg».proof.Proof.TileScoped1

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v10_scv : Memref Cert.KernelIdeal.sig Kind.scVector Space.hbm Cert.KernelIdeal.S250x4x128 EltTy.i32)
local notation "oW" => (Memref.whole Cert.KernelIdeal.main_v11_scv : Memref Cert.KernelIdeal.sig Kind.scVector Space.hbm Cert.KernelIdeal.S4x32000x128 EltTy.f32)
local notation "sI" => (Memref.whole Cert.KernelIdeal.cc1_scratch0 : Memref Cert.KernelIdeal.sig Kind.scVector Space.vmem Cert.KernelIdeal.S2x4x128 EltTy.i32)
local notation "sR" => (Memref.whole Cert.KernelIdeal.cc1_scratch1 : Memref Cert.KernelIdeal.sig Kind.scVector Space.vmem Cert.KernelIdeal.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The row scratch and the write-out semaphores after `n` active trips. -/
def rowsAt1 : ℕ → sProp 𝕄
  | 0 => rowsIdle1 d L
  | m + 1 => if hm : m < k1_t1_loop.trips then (if hA : Act1 L ⟨m, hm⟩ then rowsFly1 d L X I ⟨m, hm⟩ hA else iprop(False)) else iprop(False)

/-- The index side before trip `k`. -/
def idxAt1 (k : ℕ) : sProp 𝕄 :=
  if hk : k < k1_t1_loop.trips then (if hA : Act1 L ⟨k, hk⟩ then idxFly1 d L q I ⟨k, hk⟩ hA else idxIdle1 d L q I) else idxIdle1 d L q I

/-- The loop's invariant before trip `k`. -/
def invL1 (O : CellTallies nD τ sig (HIx 5)) (W : Waits sig (HIx 5)) (k : ℕ) (_ : PUnit) : sProp 𝕄 :=
  iprop(Transfers.MayWaits (thr1 d L) (none : HIx 5) O ∗ xPart1 d L q X ∗ idxAt1 d L q I k ∗ gsems1 d L
    ∗ rowsAt1 d L X I (cnt1 L k) ∗ outPart1 d L X I G (cnt1 L k) ∗ owesPart1 d L O W)

omit [FloatOps F] in
theorem idxAt1_act (k : Fin k1_t1_loop.trips) (hA : Act1 L k) : idxAt1 d L q I k.val = idxFly1 d L q I k hA := by
  unfold idxAt1; rw [dif_pos k.isLt, dif_pos hA]
omit [FloatOps F] in
theorem idxAt1_idle (k : Fin k1_t1_loop.trips) (hnA : ¬ Act1 L k) : idxAt1 d L q I k.val = idxIdle1 d L q I := by
  unfold idxAt1; rw [dif_pos k.isLt, dif_neg hnA]
omit [FloatOps F] in
theorem idxAt1_end (k : ℕ) (hk : ¬ k < k1_t1_loop.trips) : idxAt1 d L q I k = idxIdle1 d L q I := by
  unfold idxAt1; rw [dif_neg hk]
omit [FloatOps F] in
theorem rowsAt1_succ (t : Fin k1_t1_loop.trips) (hA : Act1 L t) : rowsAt1 d L X I (t.val + 1) = rowsFly1 d L X I t hA := by
  show (if hm : t.val < k1_t1_loop.trips then (if hA : Act1 L ⟨t.val, hm⟩ then rowsFly1 d L X I ⟨t.val, hm⟩ hA else iprop(False)) else iprop(False)) = _
  rw [dif_pos t.isLt, dif_pos hA]

omit [FloatOps F] in
theorem out_take_first1' (k : Fin k1_t1_loop.trips) (hk0 : k.val = 0) (hA : Act1 L k) :
    outPart1 d L X I G k.val ⊢ iprop(oWins1 d L k hA G ∗ bigSep (Finset.univ.erase k) (outPhi1 d L X I G k.val)) := by
  obtain ⟨kv, hkv⟩ := k
  simp only at hk0
  subst hk0
  exact out_take_first1 d L X I G hkv hA

omit [FloatOps F] in
theorem out_put_first1' (k : Fin k1_t1_loop.trips) (hk0 : k.val = 0) :
    bigSep (Finset.univ.erase k) (outPhi1 d L X I G k.val) ⊢ outPart1 d L X I G (k.val + 1) := by
  obtain ⟨kv, hkv⟩ := k
  simp only at hk0
  subst hk0
  exact out_put_first1 d L X I G hkv

set_option maxHeartbeats 4000000 in
set_option sl_exec.dmaWindow true in
theorem tile_body1 (hF : (K (F := F)).Facts) (d : Dev nD) (L : grid1.Coords)
    (X : Buf (Elt F) (xLoc d)) (I : Buf (Elt F) (iLoc1 d)) (G : Buf (Elt F) (oLoc1 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo1 d X I G L
        ∗ scopedBufs (thr1 d L) ∗ scopedSems0 (thr1 d L) ∗ owes (thr1 d L) O W)
      ⊢ wp frame (wpE (defs₀ (F := F)) 𝒱₀ (thr1 d L) none) Set.univ
          (cc1__sc_gather_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10)
          fun _ => iprop(tileTd1 d X I L ∗ scopedBufs (thr1 d L) ∗ scopedSems0 (thr1 d L)
            ∗ ∃ W', ⌜∀ p ∈ W', p ∈ W ∨ p.2 = none⌝ ∗ owes (thr1 d L) O W') := by
  rw [(K (F := F)).scopedBufs_V hF d (cV1 L) (jV1 L), SparseCore.Cfg.scopedSems0_V (Val := Elt F) d (cV1 L) (jV1 L),
    ownSems0_V1, ownBufs_V1]
  unfold tileGo1 tileTd1
  rw [out_init1 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr1 d L) hO) $$ Hlv
  ihave Hx' := (Entails.of_eq (pts_x1 d L (qTile1 L) X).symm) $$ Hx
  ihave Hxt := (x_toks1 d L (qTile1 L) X).1 $$ Hx'
  icases Hxt with ⟨Hxr, Hx0, Hx1, Hx2, Hx3⟩
  ihave Hi' := (Entails.of_eq (pts_i1 d L (qTile1 L) I).symm) $$ Hi
  ihave HsI' := (Entails.of_eq (pts_sI1 d L s0).symm) $$ HsI
  ihave Hpl := (Entails.of_eq (sR_planes1 d L r)) $$ HsR
  icases Hpl with ⟨Hr0, Hr1, Hr2, Hr3⟩
  sl_unfold [cc1__sc_gather_body]
  sl_exec (disch := exact View.amount_pos _ _ (show 0 < S4x128.numel by decide))
  sl_for (invL1 d L (qTile1 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k1_t1_loop.trips = 8 := tb1_trips
    obtain ⟨hn7, hn8⟩ := nAct_bounds1 L
    by_cases hA : Act1 L k
    · obtain ⟨hc, hc'⟩ := cnt_act1 L k hA
      have hkA := (act_iff_lt1 L k).mp hA
      unfold invL1
      rw [hc, hc', idxAt1_act d L (qTile1 L) I k hA, rowsAt1_succ d L X I k hA]
      by_cases h2 : k1_cond2 L k = 1#1
      · have hlt := (pre_iff_lt1 L k).mp h2
        have hk1 : k.val + 1 < k1_t1_loop.trips := by omega
        have hA' : Act1 L ⟨k.val + 1, hk1⟩ := (act_iff_lt1 L ⟨k.val + 1, hk1⟩).mpr hlt
        rw [idxAt1_act d L (qTile1 L) I ⟨k.val + 1, hk1⟩ hA']
        rcases Nat.eq_zero_or_pos k.val with hk0 | hkp
        · -- the first trip
          have hrows0 : rowsAt1 d L X I k.val = rowsIdle1 d L := by rw [hk0]; rfl
          rw [hrows0]
          have hT := tripC1 d L (qTile1 L) X I G O W k ⟨k.val + 1, hk1⟩ hk0 rfl hA hA' h2 hin
            iprop(Transfers.MayWaits (thr1 d L) (none : HIx 5) O ∗ bigSep (Finset.univ.erase k) (outPhi1 d L X I G k.val))
          have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first1' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first1' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k1_t1_loop.trips := by omega
          have hp : (⟨k.val - 1, htp⟩ : Fin k1_t1_loop.trips).val + 1 = k.val := by simp only; omega
          have hAp : Act1 L ⟨k.val - 1, htp⟩ := (act_iff_lt1 L ⟨k.val - 1, htp⟩).mpr (by simp only; omega)
          have hrows : rowsAt1 d L X I k.val = rowsFly1 d L X I ⟨k.val - 1, htp⟩ hAp := by
            have h := rowsAt1_succ d L X I ⟨k.val - 1, htp⟩ hAp
            rwa [hp] at h
          rw [hrows]
          have hT := tripA1 d L (qTile1 L) X I G O W k ⟨k.val - 1, htp⟩ ⟨k.val + 1, hk1⟩ hp rfl hA hAp hA' h2 hin
            iprop(Transfers.MayWaits (thr1 d L) (none : HIx 5) O ∗ bigSep ((Finset.univ.erase k).erase ⟨k.val - 1, htp⟩) (outPhi1 d L X I G k.val))
          have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take1 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put1 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct1 L := fun h => h2 ((pre_iff_lt1 L k).mpr h)
        have hidx' : idxAt1 d L (qTile1 L) I (k.val + 1) = idxIdle1 d L (qTile1 L) I := by
          unfold idxAt1
          split_ifs with h1 h3
          · exact absurd ((act_iff_lt1 L ⟨k.val + 1, h1⟩).mp h3) hnlt
          · rfl
          · rfl
        rw [hidx']
        have htp : k.val - 1 < k1_t1_loop.trips := by omega
        have hp : (⟨k.val - 1, htp⟩ : Fin k1_t1_loop.trips).val + 1 = k.val := by simp only; omega
        have hAp : Act1 L ⟨k.val - 1, htp⟩ := (act_iff_lt1 L ⟨k.val - 1, htp⟩).mpr (by simp only; omega)
        have hrows : rowsAt1 d L X I k.val = rowsFly1 d L X I ⟨k.val - 1, htp⟩ hAp := by
          have h := rowsAt1_succ d L X I ⟨k.val - 1, htp⟩ hAp
          rwa [hp] at h
        rw [hrows]
        have hT := tripB1 d L (qTile1 L) X I G O W k ⟨k.val - 1, htp⟩ hp hA hAp h2 hin
          iprop(Transfers.MayWaits (thr1 d L) (none : HIx 5) O ∗ bigSep ((Finset.univ.erase k).erase ⟨k.val - 1, htp⟩) (outPhi1 d L X I G k.val))
        have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take1 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put1 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle1 L k hA
      have hge : nAct1 L ≤ k.val := Nat.not_lt.mp (fun h => hA ((act_iff_lt1 L k).mpr h))
      have hidx' : idxAt1 d L (qTile1 L) I (k.val + 1) = idxIdle1 d L (qTile1 L) I := by
        unfold idxAt1
        split_ifs with h1 h3
        · exact absurd ((act_iff_lt1 L ⟨k.val + 1, h1⟩).mp h3) (by simp only; omega)
        · rfl
        · rfl
      unfold invL1
      rw [hc, hc', idxAt1_idle d L (qTile1 L) I k hA, hidx']
      have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
          (Scalar.addi (Scalar.muli (BitVec.ofNat 32 (L 1).val) 2#32) (BitVec.ofNat 32 (L 0).val)) k () := rfl
      rw [hprog]
      exact tripI1 d L k hA _
  · -- the invariant before the first trip
    have h0 : 0 < k1_t1_loop.trips := by rw [tb1_trips]; omega
    have hA0 : Act1 L ⟨0, h0⟩ := (act_iff_lt1 L ⟨0, h0⟩).mpr (by have := (nAct_bounds1 L).1; simp only; omega)
    unfold invL1
    rw [show cnt1 L 0 = 0 from Nat.zero_min _, idxAt1_act d L (qTile1 L) I ⟨0, h0⟩ hA0, show rowsAt1 d L X I 0 = rowsIdle1 d L from rfl]
    unfold xPart1 idxFly1 gsems1 rowsIdle1 owesPart1 idxDeliv1
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first1 d L I h0 hA0 s0
      rw [slot_first_set1 L h0 hA0, chunk_first_set1 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds1 L
  have htr : k1_t1_loop.trips = 8 := tb1_trips
  obtain ⟨m, hm⟩ : ∃ m, nAct1 L = m + 1 := ⟨nAct1 L - 1, by omega⟩
  have hmlt : m < k1_t1_loop.trips := by omega
  have hAm : Act1 L ⟨m, hmlt⟩ := (act_iff_lt1 L ⟨m, hmlt⟩).mpr (by simp only; omega)
  have hidle : ∀ t : Fin k1_t1_loop.trips, (⟨m, hmlt⟩ : Fin k1_t1_loop.trips).val < t.val → ¬ Act1 L t :=
    fun t ht h => by have := (act_iff_lt1 L t).mp h; simp only at ht; omega
  unfold invL1
  rw [cnt_end1 L, idxAt1_end d L (qTile1 L) I _ (lt_irrefl _), hm, rowsAt1_succ d L X I ⟨m, hmlt⟩ hAm]
  unfold xPart1 idxIdle1 gsems1 rowsFly1 owesPart1
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv1 pl1_0 pl1_1 pl1_2 pl1_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x1 d L (qTile1 L) X))
      iapply (x_toks1 d L (qTile1 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i1 d L (qTile1 L) I)) $$ Hi
    iapply (out_final1 d L X I G ⟨m, hmlt⟩ hAm hidle)
    isplitl [Hout]; · iexact Hout
    unfold oWins1
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI1 d L S)) $$ HsI
    isplitl [Hf0_src Hf1_src Hf2_src Hf3_src]
    · iapply (sR_join1 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins1 (none_ins1 (none_ins1 (none_ins1 hW')))

end Cert.KernelIdeal.KP

end
-- ==== Proof.TileBody1aB.lean ====
/-
  Groundwork for the body of call 1's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes1B
import proofs.«210879_g80607946211848_cont_9to1_m_1212_13_alg».proof.Proof.Gen.Kernel.Skeleton

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

/-! ## The loop's conditions, in closed form -/

/-- The tile's number. -/
abbrev wid1 (L : grid1.Coords) : ℕ := 2 * (L 1).val + (L 0).val

theorem tb1_trips : k1_t1_loop.trips = 8 := by decide

theorem tb1_act_iff : ∀ (L : grid1.Coords) (t : Fin k1_t1_loop.trips), k1_cond1 L t = 1#1 ↔ wid1 L + 32 * t.val < 250 := by decide +kernel
theorem tb1_pre_iff : ∀ (L : grid1.Coords) (t : Fin k1_t1_loop.trips), k1_cond2 L t = 1#1 ↔ wid1 L + 32 * t.val + 32 < 250 := by decide +kernel

/-! ## The memrefs, as the loop slices them -/

/-- Index chunk of trip `t` (the copy's source the trip waits for). -/
abbrev iCh1 (L : grid1.Coords) (t : Fin k1_t1_loop.trips) (h : Act1 L t) : Memref sig .scVector .hbm S4x128 .i32 :=
  ((iW).slice (Rect.unit (s := S250x4x128) (k1_off3 L t) S1x4x128.size (k1_off3_inb L t h)) (fun _ => rfl)).squeeze S4x128 squeezes_S1x4x128_S4x128
/-- The slot of the index scratch trip `t` reads its indices from: slot `t % 2`. -/
abbrev sSl1 (L : grid1.Coords) (t : Fin k1_t1_loop.trips) (h : Act1 L t) : Memref sig .scVector .vmem S4x128 .i32 :=
  ((sI).slice (Rect.unit (s := S2x4x128) (k1_off2 t) S1x4x128.size (k1_off2_inb L t h)) (fun _ => rfl)).squeeze S4x128 squeezes_S1x4x128_S4x128
/-- Plane `j` of the row scratch. -/
abbrev rPl1_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl1_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl1_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl1_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD1 (d : Dev nD) (L : grid1.Coords) (n : DmaSems sig S_) : GSem nD τ sig := (thr1 d L, SemLoc.dma n.sem)

end Cert.Kernel.KP

end
-- ==== Proof.TileBody1bB.lean ====
/-
  The loop of call 1's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody1aB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The number of the tile's active trips: its chunks `w, w + 32, …` below 250. -/
abbrev nAct1 (L : grid1.Coords) : ℕ := (250 - wid1 L + 31) / 32
/-- The active trips among the first `k`. -/
abbrev cnt1 (L : grid1.Coords) (k : ℕ) : ℕ := min k (nAct1 L)

/-- The index scratch showing, in both slots, the words of trip `t`'s chunk (chunk number reduced modulo 250: the
    identity for an active trip). -/
def slotImg1 (t : ℕ) : Buf (Elt F) ((thr1 d L).loc cc1_scratch0) :=
  fun i => I (ix3 (⟨(wid1 L + 32 * t) % 250, Nat.mod_lt _ (by decide)⟩ : Fin 250) (i 1) (i 2))

/-- Contents `S` of the index scratch show, on the slot trip `t` reads, the words of the trip's chunk. -/
def SlotAgrees1 (t : Fin k1_t1_loop.trips) (h : Act1 L t) (S : Buf (Elt F) ((thr1 d L).loc cc1_scratch0)) : Prop :=
  ∀ i ∈ (sSl1 L t h).view.set, S i = slotImg1 d L I t.val i

/-- What the index fetch for trip `t` delivers: the slot at contents `S`, and the chunk's share back. -/
def idxDeliv1 (t : Fin k1_t1_loop.trips) (h : Act1 L t) (S : Buf (Elt F) ((thr1 d L).loc cc1_scratch0)) : sProp 𝕄 :=
  iprop(((sI).view.loc (thr1 d L) ↦[(sSl1 L t h).view.set]{fullShare} S)
    ∗ ((iW).view.loc (thr1 d L) ↦[(iCh1 L t h).view.set]{q} I))

/-- The index side before trip `k`: while the trip is active its chunk's fetch is in flight (the chunk and its slot
    lent); afterwards the semaphore rests at zero and block and scratch are whole. -/
def idxPart1 (k : ℕ) : sProp 𝕄 :=
  if hk : k < k1_t1_loop.trips then
    if hA : Act1 L ⟨k, hk⟩ then
      iprop(∃ S, ⌜SlotAgrees1 d L I ⟨k, hk⟩ hA S⌝
        ∗ Transfers.Flight countersEmb (thr1 d L) (SemLoc.dma cc1_scratch10.sem) (default : HIx 5) 16384 (idxDeliv1 d L q I ⟨k, hk⟩ hA S)
        ∗ ((iW).view.loc (thr1 d L) ↦[Finset.univ \ (iCh1 L ⟨k, hk⟩ hA).view.set]{q} I)
        ∗ ((sI).view.loc (thr1 d L) ↦[Finset.univ \ (sSl1 L ⟨k, hk⟩ hA).view.set]{fullShare} S))
    else iprop(semVal (cellD1 d L cc1_scratch10) 0 ∗ ((iW).view.loc (thr1 d L) ↦{q} I) ∗ ∃ s, (sI).view.loc (thr1 d L) ↦{fullShare} s)
  else iprop(semVal (cellD1 d L cc1_scratch10) 0 ∗ ((iW).view.loc (thr1 d L) ↦{q} I) ∗ ∃ s, (sI).view.loc (thr1 d L) ↦{fullShare} s)

/-- What the write-out of plane `j` of trip `t` delivers: the window at the gathered array, and the plane back. -/
def wDeliv1 (t : Fin k1_t1_loop.trips) (h : Act1 L t) (j : Fin 4) (Dsrc : sProp 𝕄) : sProp 𝕄 :=
  iprop(((oW).view.loc (thr1 d L) ↦[oSet1 L t h j]{fullShare} gath (F := F) X I) ∗ Dsrc)

/-- The four windows of trip `t` at contents `f`, each spelt through its own memref. -/
def oWins1 (t : Fin k1_t1_loop.trips) (h : Act1 L t) (f : Buf (Elt F) (oLoc1 d)) : sProp 𝕄 :=
  iprop(((oWin1_0 L t h).view.loc (thr1 d L) ↦[(oWin1_0 L t h).view.set]{fullShare} f)
    ∗ ((oWin1_1 L t h).view.loc (thr1 d L) ↦[(oWin1_1 L t h).view.set]{fullShare} f)
    ∗ ((oWin1_2 L t h).view.loc (thr1 d L) ↦[(oWin1_2 L t h).view.set]{fullShare} f)
    ∗ ((oWin1_3 L t h).view.loc (thr1 d L) ↦[(oWin1_3 L t h).view.set]{fullShare} f))

omit [FloatOps F] in
/-- An active trip's share of the result is its four windows. -/
theorem oTrip1_act (t : Fin k1_t1_loop.trips) (h : Act1 L t) (f : Buf (Elt F) (oLoc1 d)) :
    oTrip1 d L f t = oWins1 d L t h f := by
  unfold oTrip1 oWins1; rw [dif_pos h]

omit [FloatOps F] in
/-- An idle trip has none. -/
theorem oTrip1_idle (t : Fin k1_t1_loop.trips) (h : ¬ Act1 L t) (f : Buf (Elt F) (oLoc1 d)) :
    oTrip1 d L f t = (iprop(emp) : sProp 𝕄) := by
  unfold oTrip1; rw [dif_neg h]

/-- Plane `j` of the row scratch at contents `r`. -/
abbrev pl1_0 (r : Buf (Elt F) ((thr1 d L).loc cc1_scratch1)) : sProp 𝕄 := (rPl1_0).view.loc (thr1 d L) ↦[(rPl1_0).view.set]{fullShare} r
abbrev pl1_1 (r : Buf (Elt F) ((thr1 d L).loc cc1_scratch1)) : sProp 𝕄 := (rPl1_1).view.loc (thr1 d L) ↦[(rPl1_1).view.set]{fullShare} r
abbrev pl1_2 (r : Buf (Elt F) ((thr1 d L).loc cc1_scratch1)) : sProp 𝕄 := (rPl1_2).view.loc (thr1 d L) ↦[(rPl1_2).view.set]{fullShare} r
abbrev pl1_3 (r : Buf (Elt F) ((thr1 d L).loc cc1_scratch1)) : sProp 𝕄 := (rPl1_3).view.loc (thr1 d L) ↦[(rPl1_3).view.set]{fullShare} r

/-- The row scratch and the write-out semaphores after `n` active trips: none done, the planes and the semaphores
    rest; else the last trip's four write-outs are in flight. -/
def rowsPart1 (n : ℕ) : sProp 𝕄 :=
  if hn : 0 < n then
    if hk : n - 1 < k1_t1_loop.trips then
      if hA : Act1 L ⟨n - 1, hk⟩ then
        iprop(∃ r0 r1 r2 r3, Transfers.Flight countersEmb (thr1 d L) (SemLoc.dma cc1_scratch6.sem) (default : HIx 5) 524288 (wDeliv1 d L X I ⟨n - 1, hk⟩ hA 0 (pl1_0 d L r0))
          ∗ Transfers.Flight countersEmb (thr1 d L) (SemLoc.dma cc1_scratch7.sem) (default : HIx 5) 524288 (wDeliv1 d L X I ⟨n - 1, hk⟩ hA 1 (pl1_1 d L r1))
          ∗ Transfers.Flight countersEmb (thr1 d L) (SemLoc.dma cc1_scratch8.sem) (default : HIx 5) 524288 (wDeliv1 d L X I ⟨n - 1, hk⟩ hA 2 (pl1_2 d L r2))
          ∗ Transfers.Flight countersEmb (thr1 d L) (SemLoc.dma cc1_scratch9.sem) (default : HIx 5) 524288 (wDeliv1 d L X I ⟨n - 1, hk⟩ hA 3 (pl1_3 d L r3)))
      else iprop(False)
    else iprop(False)
  else
    iprop((semVal (cellD1 d L cc1_scratch6) 0 ∗ ∃ r, pl1_0 d L r) ∗ (semVal (cellD1 d L cc1_scratch7) 0 ∗ ∃ r, pl1_1 d L r)
      ∗ (semVal (cellD1 d L cc1_scratch8) 0 ∗ ∃ r, pl1_2 d L r) ∗ (semVal (cellD1 d L cc1_scratch9) 0 ∗ ∃ r, pl1_3 d L r))

/-- The result's windows after `n` active trips: the trips before the last at the gathered array, the last one's
    in flight, the later ones as found. -/
def outPart1 (n : ℕ) : sProp 𝕄 :=
  bigSep Finset.univ fun t : Fin k1_t1_loop.trips =>
    if t.val + 1 < n then oTrip1 d L (gath (F := F) X I) t else if t.val + 1 = n then iprop(emp) else oTrip1 d L G t

/-- The loop's invariant before trip `k`. -/
def inv1 (O : CellTallies nD τ sig (HIx 5)) (W : Waits sig (HIx 5)) (k : ℕ) (_ : PUnit) : sProp 𝕄 :=
  iprop(Transfers.MayWaits (thr1 d L) (none : HIx 5) O
    ∗ (((xW).view.loc (thr1 d L) ↦{Transfers.shareDrop q 4} X) ∗ ((xW).view.loc (thr1 d L) ↦{Transfers.shareTok q 4 0} X) ∗ ((xW).view.loc (thr1 d L) ↦{Transfers.shareTok q 4 1} X)
        ∗ ((xW).view.loc (thr1 d L) ↦{Transfers.shareTok q 4 2} X) ∗ ((xW).view.loc (thr1 d L) ↦{Transfers.shareTok q 4 3} X))
    ∗ idxPart1 d L q I k
    ∗ (semVal (cellD1 d L cc1_scratch2) 0 ∗ semVal (cellD1 d L cc1_scratch3) 0 ∗ semVal (cellD1 d L cc1_scratch4) 0 ∗ semVal (cellD1 d L cc1_scratch5) 0)
    ∗ rowsPart1 d L X I (cnt1 L k)
    ∗ outPart1 d L X I G (cnt1 L k)
    ∗ ∃ W', ⌜∀ p ∈ W', p ∈ W ∨ p.2 = none⌝ ∗ owes (thr1 d L) O W')

/-! ## Geometry of the index scratch: the two slots, the four index lists -/

omit [FloatOps F] in
/-- The slot a prefetch writes (slot `1 - k % 2`) and the slot the trip reads (slot `k % 2`) are disjoint. -/
theorem slots_disj1 (k : Fin k1_t1_loop.trips) (hA : Act1 L k) (h2 : k1_cond2 L k = 1#1) :
    Disjoint (((sI).slice (Rect.unit (s := S2x4x128) (k1_off4 k) S1x4x128.size (k1_off4_inb L k hA h2)) (fun _ => rfl)).squeeze S4x128 squeezes_S1x4x128_S4x128).view.set
      (sSl1 L k hA).view.set := by
  show Disjoint ((((sI).view.slice (Rect.unit (s := S2x4x128) (k1_off4 k) S1x4x128.size (k1_off4_inb L k hA h2))).reshape S4x128 squeezes_S1x4x128_S4x128.numel_eq).set)
    ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  refine Rect.unit_disjoint 0 ?_
  rw [k1_off4_eq, k1_off2_eq]
  simp
  omega
omit [FloatOps F] in
theorem list6_disj1 (k : Fin k1_t1_loop.trips) (hA : Act1 L k) (h2 : k1_cond2 L k = 1#1) :
    Disjoint (((sI).slice (Rect.unit (s := S2x4x128) (k1_off6 k) S1x1x128.size (k1_off6_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off6 k) S1x1x128.size (k1_off6_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off6_eq]
  simp
  omega

omit [FloatOps F] in
/-- Index list `0` of the trip lies in the trip's slot. -/
theorem list6_sub1 (k : Fin k1_t1_loop.trips) (hA : Act1 L k) :
    (((sI).slice (Rect.unit (s := S2x4x128) (k1_off6 k) S1x1x128.size (k1_off6_inb L k hA)) (fun _ => rfl)).squeeze S128 squeezes_S1x1x128_S128).view.set
      ⊆ (sSl1 L k hA).view.set := by
  show ((((sI).view.slice (Rect.unit (s := S2x4x128) (k1_off6 k) S1x1x128.size (k1_off6_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off6 k) S1x1x128.size (k1_off6_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list6_disj1 L k hA h2) hi) hm)]
  exact hS i (list6_sub1 L k hA hi)

/-- So the words of index list `0` name rows of the table. -/
theorem list6_inr1 (k : Fin k1_t1_loop.trips) (hA : Act1 L k) (S' : Buf (Elt F) ((thr1 d L).loc cc1_scratch0))
    (hS' : ∀ i ∈ (((sI).slice (Rect.unit (s := S2x4x128) (k1_off6 k) S1x1x128.size (k1_off6_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off6 k) S1x1x128.size (k1_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj1 (k : Fin k1_t1_loop.trips) (hA : Act1 L k) (h2 : k1_cond2 L k = 1#1) :
    Disjoint (((sI).slice (Rect.unit (s := S2x4x128) (k1_off7 k) S1x1x128.size (k1_off7_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off7 k) S1x1x128.size (k1_off7_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off7_eq]
  simp
  omega

omit [FloatOps F] in
/-- Index list `1` of the trip lies in the trip's slot. -/
theorem list7_sub1 (k : Fin k1_t1_loop.trips) (hA : Act1 L k) :
    (((sI).slice (Rect.unit (s := S2x4x128) (k1_off7 k) S1x1x128.size (k1_off7_inb L k hA)) (fun _ => rfl)).squeeze S128 squeezes_S1x1x128_S128).view.set
      ⊆ (sSl1 L k hA).view.set := by
  show ((((sI).view.slice (Rect.unit (s := S2x4x128) (k1_off7 k) S1x1x128.size (k1_off7_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off7 k) S1x1x128.size (k1_off7_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list7_disj1 L k hA h2) hi) hm)]
  exact hS i (list7_sub1 L k hA hi)

/-- So the words of index list `1` name rows of the table. -/
theorem list7_inr1 (k : Fin k1_t1_loop.trips) (hA : Act1 L k) (S' : Buf (Elt F) ((thr1 d L).loc cc1_scratch0))
    (hS' : ∀ i ∈ (((sI).slice (Rect.unit (s := S2x4x128) (k1_off7 k) S1x1x128.size (k1_off7_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off7 k) S1x1x128.size (k1_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj1 (k : Fin k1_t1_loop.trips) (hA : Act1 L k) (h2 : k1_cond2 L k = 1#1) :
    Disjoint (((sI).slice (Rect.unit (s := S2x4x128) (k1_off8 k) S1x1x128.size (k1_off8_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off8 k) S1x1x128.size (k1_off8_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off8_eq]
  simp
  omega

omit [FloatOps F] in
/-- Index list `2` of the trip lies in the trip's slot. -/
theorem list8_sub1 (k : Fin k1_t1_loop.trips) (hA : Act1 L k) :
    (((sI).slice (Rect.unit (s := S2x4x128) (k1_off8 k) S1x1x128.size (k1_off8_inb L k hA)) (fun _ => rfl)).squeeze S128 squeezes_S1x1x128_S128).view.set
      ⊆ (sSl1 L k hA).view.set := by
  show ((((sI).view.slice (Rect.unit (s := S2x4x128) (k1_off8 k) S1x1x128.size (k1_off8_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off8 k) S1x1x128.size (k1_off8_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list8_disj1 L k hA h2) hi) hm)]
  exact hS i (list8_sub1 L k hA hi)

/-- So the words of index list `2` name rows of the table. -/
theorem list8_inr1 (k : Fin k1_t1_loop.trips) (hA : Act1 L k) (S' : Buf (Elt F) ((thr1 d L).loc cc1_scratch0))
    (hS' : ∀ i ∈ (((sI).slice (Rect.unit (s := S2x4x128) (k1_off8 k) S1x1x128.size (k1_off8_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off8 k) S1x1x128.size (k1_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj1 (k : Fin k1_t1_loop.trips) (hA : Act1 L k) (h2 : k1_cond2 L k = 1#1) :
    Disjoint (((sI).slice (Rect.unit (s := S2x4x128) (k1_off9 k) S1x1x128.size (k1_off9_inb L k hA)) (fun _ => rfl)).squeeze S128 squeezes_S1x1x128_S128).view.set
      (((sI).slice (Rect.unit (s := S2x4x128) (k1_off4 k) S1x4x128.size (k1_off4_inb L k hA h2)) (fun _ => rfl)).squeeze S4x128 squeezes_S1x4x128_S4x128).view.set := by
  show Disjoint ((((sI).view.slice (Rect.unit (s := S2x4x128) (k1_off9 k) S1x1x128.size (k1_off9_inb L k hA))).reshape S128 squeezes_S1x1x128_S128.numel_eq).set)
    ((((sI).view.slice (Rect.unit (s := S2x4x128) (k1_off4 k) S1x4x128.size (k1_off4_inb L k hA h2))).reshape S4x128 squeezes_S1x4x128_S4x128.numel_eq).set)
  rw [View.set_reshape, View.set_reshape, Memref.view_whole, View.set_slice_whole, View.set_slice_whole]
  refine Rect.unit_disjoint 0 ?_
  rw [k1_off4_eq, k1_off9_eq]
  simp
  omega

omit [FloatOps F] in
/-- Index list `3` of the trip lies in the trip's slot. -/
theorem list9_sub1 (k : Fin k1_t1_loop.trips) (hA : Act1 L k) :
    (((sI).slice (Rect.unit (s := S2x4x128) (k1_off9 k) S1x1x128.size (k1_off9_inb L k hA)) (fun _ => rfl)).squeeze S128 squeezes_S1x1x128_S128).view.set
      ⊆ (sSl1 L k hA).view.set := by
  show ((((sI).view.slice (Rect.unit (s := S2x4x128) (k1_off9 k) S1x1x128.size (k1_off9_inb L k hA))).reshape S128 squeezes_S1x1x128_S128.numel_eq).set)
    ⊆ ((((sI).view.slice (Rect.unit (s := S2x4x128) (k1_off2 k) S1x4x128.size (k1_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k1_off2_eq]; rw [k1_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree1 (k : Fin k1_t1_loop.trips) (hA : Act1 L k) (h2 : k1_cond2 L k = 1#1)
    (S : Buf (Elt F) ((thr1 d L).loc cc1_scratch0)) (hS : SlotAgrees1 d L I k hA S) (w : S4x128.Idx → Elt F .i32) :
    ∀ i ∈ (((sI).slice (Rect.unit (s := S2x4x128) (k1_off9 k) S1x1x128.size (k1_off9_inb L k hA)) (fun _ => rfl)).squeeze S128 squeezes_S1x1x128_S128).view.set,
      (((sI).slice (Rect.unit (s := S2x4x128) (k1_off4 k) S1x4x128.size (k1_off4_inb L k hA h2)) (fun _ => rfl)).squeeze S4x128 squeezes_S1x4x128_S4x128).view.write (Elt F) S w Finset.univ i
        = slotImg1 d L I k.val i := by
  intro i hi
  rw [View.write_of_not_mem _ _ _ (by
    rw [View.setOn_univ]
    exact fun hm => (Finset.disjoint_left.mp (list9_disj1 L k hA h2) hi) hm)]
  exact hS i (list9_sub1 L k hA hi)

/-- So the words of index list `3` name rows of the table. -/
theorem list9_inr1 (k : Fin k1_t1_loop.trips) (hA : Act1 L k) (S' : Buf (Elt F) ((thr1 d L).loc cc1_scratch0))
    (hS' : ∀ i ∈ (((sI).slice (Rect.unit (s := S2x4x128) (k1_off9 k) S1x1x128.size (k1_off9_inb L k hA)) (fun _ => rfl)).squeeze S128 squeezes_S1x1x128_S128).view.set, S' i = slotImg1 d L I k.val i)
    (hI : ∀ i, (I i).toNat < 160000) :
    ∀ x : S128.Idx, (View.read (Elt F) (((sI).slice (Rect.unit (s := S2x4x128) (k1_off9 k) S1x1x128.size (k1_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond1 : ∀ k : Fin k1_t1_loop.trips, 1 ≤ k.val →
    Scalar.cmpi CmpIPredicate.ne (Scalar.extui (Scalar.cmpi CmpIPredicate.sge (Scf.iv 0#32 1#32 k) 1#32)) 0#32 = 1#1 := by decide

end Cert.Kernel.KP

end
-- ==== Proof.TileVal1B.lean ====
/-
  The values the task's transfers carry, call 1.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody1bB
import proofs.«210879_g80607946211848_cont_9to1_m_1212_13_alg».proof.Proof.TileVal0B

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable (d : Dev nD) (L : grid1.Coords)

/-! ## The slot and the chunk a trip prefetches are the next trip's; the first fetch's are trip 0's -/

/-- A 1 × 4 × 128 window of the index scratch, squeezed: its elements are its rectangle's. -/
theorem set_slot1 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc1_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk1 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v10_scv : Ref sig .scVector)).slice (Rect.unit (s := S250x4x128) off S1x4x128.size inb)).reshape S4x128 squeezes_S1x4x128_S4x128.numel_eq).set = _
  rw [View.set_reshape, View.set_slice_whole]

theorem slot_next_set1 (k k' : Fin k1_t1_loop.trips) (hk : k'.val = k.val + 1) (hA : Act1 L k) (hA' : Act1 L k') (h2 : k1_cond2 L k = 1#1) :
    (sSl1 L k' hA').view.set
      = (((sI).slice (Rect.unit (s := S2x4x128) (k1_off4 k) S1x4x128.size (k1_off4_inb L k hA h2)) (fun _ => rfl)).squeeze S4x128 squeezes_S1x4x128_S4x128).view.set := by
  rw [set_slot1, set_slot1]
  refine unit_set_congr ?_
  have e : (k.val + 1) % 2 = 1 - k.val % 2 := by omega
  rw [k1_off2_eq, k1_off4_eq, hk, e]

theorem chunk_next_set1 (k k' : Fin k1_t1_loop.trips) (hk : k'.val = k.val + 1) (hA : Act1 L k) (hA' : Act1 L k') (h2 : k1_cond2 L k = 1#1) :
    (iCh1 L k' hA').view.set
      = (((iW).slice (Rect.unit (s := S250x4x128) (k1_off5 L k) S1x4x128.size (k1_off5_inb L k hA h2)) (fun _ => rfl)).squeeze S4x128 squeezes_S1x4x128_S4x128).view.set := by
  rw [set_chunk1, set_chunk1]
  refine unit_set_congr ?_
  have e : 2 * (L 1).val + (L 0).val + 32 * (k.val + 1) = 2 * (L 1).val + (L 0).val + 32 * k.val + 32 := by omega
  rw [k1_off3_eq, k1_off5_eq, hk, e]

theorem slot_first_set1 (h0 : 0 < k1_t1_loop.trips) (hA0 : Act1 L ⟨0, h0⟩) :
    (sSl1 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot1, set_slot1]
  refine unit_set_congr ?_
  rw [k1_off2_eq]
  rfl

theorem chunk_first_set1 (h0 : 0 < k1_t1_loop.trips) (hA0 : Act1 L ⟨0, h0⟩) :
    (iCh1 L ⟨0, h0⟩ hA0).view.set
      = (((iW).slice (Rect.unit (s := S250x4x128) (k1_off1 L) S1x4x128.size (k1_off1_inb L)) (fun _ => rfl)).squeeze S4x128 squeezes_S1x4x128_S4x128).view.set := by
  rw [set_chunk1, set_chunk1]
  refine unit_set_congr ?_
  rw [k1_off3_eq, k1_off1_eq]
  rfl

/-! ## What an index fetch lands: the chunk's words, in the slot -/

/-- Where element `y` of a squeezed 1 × 4 × 128 window of the index scratch at offsets `off` lies. -/
theorem emb_slot1 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk1 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc1 d))

/-- A fetch of chunk `n` (below 250) into slot `p` leaves, on that slot, the words the slot image of a trip whose chunk
    is `n` shows. -/
theorem fetch_agrees1 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid1 L + 32 * t) % 250 = n)
    (S : Buf (Elt F) ((thr1 d L).loc cc1_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg1 d L I t i := by
  intro i hi
  obtain ⟨y, -, rfl⟩ := Finset.mem_map.mp hi
  rw [View.write_emb_of_mem _ _ (Finset.mem_univ y)]
  unfold slotImg1
  show I ((((iW).slice (Rect.unit (s := S250x4x128) offC S1x4x128.size inbC) (fun _ => rfl)).squeeze S4x128 squeezes_S1x4x128_S4x128).view.emb y) = I _
  congr 1
  funext a
  apply Fin.ext
  have c0 := emb_chunk1 offC inbC y 0
  have c1 := emb_chunk1 offC inbC y 1
  have c2 := emb_chunk1 offC inbC y 2
  have s1 := emb_slot1 offS inbS y 1
  have s2 := emb_slot1 offS inbS y 2
  subst hS hC
  match a with
  | 0 => exact c0.trans (show n + 0 = (wid1 L + 32 * t) % 250 from by omega)
  | 1 => exact c1.trans s1.symm
  | 2 => exact c2.trans s2.symm

/-- The prefetched slot shows the NEXT trip's chunk. -/
theorem slot_agree_next1 (k k' : Fin k1_t1_loop.trips) (hk : k'.val = k.val + 1) (hA : Act1 L k) (hA' : Act1 L k') (h2 : k1_cond2 L k = 1#1)
    (S : Buf (Elt F) ((thr1 d L).loc cc1_scratch0)) :
    SlotAgrees1 d L I k' hA' (View.write (Elt F) (((sI).slice (Rect.unit (s := S2x4x128) (k1_off4 k) S1x4x128.size (k1_off4_inb L k hA h2)) (fun _ => rfl)).squeeze S4x128 squeezes_S1x4x128_S4x128).view S
      (ReadAs.same.apply (View.read (Elt F) (((iW).slice (Rect.unit (s := S250x4x128) (k1_off5 L k) S1x4x128.size (k1_off5_inb L k hA h2)) (fun _ => rfl)).squeeze S4x128 squeezes_S1x4x128_S4x128).view I)) Finset.univ) := by
  intro i hi
  rw [slot_next_set1 L k k' hk hA hA' h2] at hi
  have hlt : wid1 L + 32 * k'.val < 250 := (tb1_act_iff L k').mp hA'
  exact fetch_agrees1 d L I (k1_off4 k) (k1_off4_inb L k hA h2) (k1_off5 L k) (k1_off5_inb L k hA h2) (1 - k.val % 2) (wid1 L + 32 * k.val + 32) k'.val (k1_off4_eq k) (k1_off5_eq L k)
    (by rw [hk] at hlt ⊢; omega) S i hi

/-- The first fetch's slot shows trip 0's chunk. -/
theorem slot_agree_first1 (h0 : 0 < k1_t1_loop.trips) (hA0 : Act1 L ⟨0, h0⟩) (S : Buf (Elt F) ((thr1 d L).loc cc1_scratch0)) :
    SlotAgrees1 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k1_off1 L) S1x4x128.size (k1_off1_inb L)) (fun _ => rfl)).squeeze S4x128 squeezes_S1x4x128_S4x128).view I)) Finset.univ) := by
  intro i hi
  rw [slot_first_set1 L h0 hA0] at hi
  have hlt : wid1 L + 32 * (⟨0, h0⟩ : Fin k1_t1_loop.trips).val < 250 := (tb1_act_iff L ⟨0, h0⟩).mp hA0
  exact fetch_agrees1 d L I ![0, 0, 0] inb_S2x4x128_S1x4x128_0_0_0 (k1_off1 L) (k1_off1_inb L) 0 (wid1 L) 0 rfl (k1_off1_eq L) (by simp only [] at hlt; omega) S i hi

/-! ## What a write-out carries: the gathered array on its window -/

/-- Where element `y` of a squeezed 1 × 128 × 128 window of the result at offsets `off` lies. -/
theorem emb_win1 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list1 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen1 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid1 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc1 d)) (S' : Buf (Elt F) ((thr1 d L).loc cc1_scratch0))
    (hS' : ∀ i ∈ (((sI).slice (Rect.unit (s := S2x4x128) offL S1x1x128.size inbL) (fun _ => rfl)).squeeze S128 squeezes_S1x1x128_S128).view.set, S' i = slotImg1 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win1 offW inbW y 0
  have w1 := emb_win1 offW inbW y 1
  have w2 := emb_win1 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg1
    congr 2
    have l1 := emb_list1 ![p, j.val, 0] inbL (S128.rowMajor.symm (Fin.cast hnum.symm (y gathers_S160000x128_S128x128.axis'))) 1
    have l2 := emb_list1 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val1_0 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off6 k) S1x1x128.size (k1_off6_inb L k hA)) (fun _ => rfl)).squeeze S128 squeezes_S1x1x128_S128).view.set, S' i = slotImg1 d L I k.val i)
    (hin : ∀ x : S128.Idx, (View.read (Elt F) (((sI).slice (Rect.unit (s := S2x4x128) (k1_off6 k) S1x1x128.size (k1_off6_inb L k hA)) (fun _ => rfl)).squeeze S128 squeezes_S1x1x128_S128).view S' x).toNat < 160000)
    (hI : ∀ i, (I i).toNat < 160000) :
    ∀ i ∈ (oWin1_0 L k hA).view.set,
      (oWin1_0 L k hA).view.writes (Elt F) G [⟨Rect.whole S128x128, ReadAs.same.apply (View.read (Elt F) (rPl1_0).view ((rPl1_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off6 k) S1x1x128.size (k1_off6_inb L k hA)) (fun _ => rfl)).squeeze S128 squeezes_S1x1x128_S128).view S') (by decide) hin)⟩]))⟩] i
        = gath (F := F) X I i :=
  win_val_gen1 d L I X (k1_off10 L k) (k1_off10_inb L k hA) (k1_off6 k) (k1_off6_inb L k hA) 0 (k.val % 2) (wid1 L + 32 * k.val)
    (256 * (L 1).val + 128 * (L 0).val + 4096 * k.val) k.val (k1_off10_eq L k)
    (show 256 * (L 1).val + 128 * (L 0).val + 4096 * k.val = 128 * (2 * (L 1).val + (L 0).val + 32 * k.val) by omega)
    (k1_off6_eq k) (Nat.mod_eq_of_lt ((tb1_act_iff L k).mp hA)) (rPl1_0).view r (by decide) G S' hS' hin hI

/-- Plane 1 of a trip: its window of the result, written with the plane of the row scratch after the gather of the rows
    its index list names, holds the gathered array. -/
theorem win_val1_1 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off7 k) S1x1x128.size (k1_off7_inb L k hA)) (fun _ => rfl)).squeeze S128 squeezes_S1x1x128_S128).view.set, S' i = slotImg1 d L I k.val i)
    (hin : ∀ x : S128.Idx, (View.read (Elt F) (((sI).slice (Rect.unit (s := S2x4x128) (k1_off7 k) S1x1x128.size (k1_off7_inb L k hA)) (fun _ => rfl)).squeeze S128 squeezes_S1x1x128_S128).view S' x).toNat < 160000)
    (hI : ∀ i, (I i).toNat < 160000) :
    ∀ i ∈ (oWin1_1 L k hA).view.set,
      (oWin1_1 L k hA).view.writes (Elt F) G [⟨Rect.whole S128x128, ReadAs.same.apply (View.read (Elt F) (rPl1_1).view ((rPl1_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off7 k) S1x1x128.size (k1_off7_inb L k hA)) (fun _ => rfl)).squeeze S128 squeezes_S1x1x128_S128).view S') (by decide) hin)⟩]))⟩] i
        = gath (F := F) X I i :=
  win_val_gen1 d L I X (k1_off11 L k) (k1_off11_inb L k hA) (k1_off7 k) (k1_off7_inb L k hA) 1 (k.val % 2) (wid1 L + 32 * k.val)
    (256 * (L 1).val + 128 * (L 0).val + 4096 * k.val) k.val (k1_off11_eq L k)
    (show 256 * (L 1).val + 128 * (L 0).val + 4096 * k.val = 128 * (2 * (L 1).val + (L 0).val + 32 * k.val) by omega)
    (k1_off7_eq k) (Nat.mod_eq_of_lt ((tb1_act_iff L k).mp hA)) (rPl1_1).view r (by decide) G S' hS' hin hI

/-- Plane 2 of a trip: its window of the result, written with the plane of the row scratch after the gather of the rows
    its index list names, holds the gathered array. -/
theorem win_val1_2 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off8 k) S1x1x128.size (k1_off8_inb L k hA)) (fun _ => rfl)).squeeze S128 squeezes_S1x1x128_S128).view.set, S' i = slotImg1 d L I k.val i)
    (hin : ∀ x : S128.Idx, (View.read (Elt F) (((sI).slice (Rect.unit (s := S2x4x128) (k1_off8 k) S1x1x128.size (k1_off8_inb L k hA)) (fun _ => rfl)).squeeze S128 squeezes_S1x1x128_S128).view S' x).toNat < 160000)
    (hI : ∀ i, (I i).toNat < 160000) :
    ∀ i ∈ (oWin1_2 L k hA).view.set,
      (oWin1_2 L k hA).view.writes (Elt F) G [⟨Rect.whole S128x128, ReadAs.same.apply (View.read (Elt F) (rPl1_2).view ((rPl1_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off8 k) S1x1x128.size (k1_off8_inb L k hA)) (fun _ => rfl)).squeeze S128 squeezes_S1x1x128_S128).view S') (by decide) hin)⟩]))⟩] i
        = gath (F := F) X I i :=
  win_val_gen1 d L I X (k1_off12 L k) (k1_off12_inb L k hA) (k1_off8 k) (k1_off8_inb L k hA) 2 (k.val % 2) (wid1 L + 32 * k.val)
    (256 * (L 1).val + 128 * (L 0).val + 4096 * k.val) k.val (k1_off12_eq L k)
    (show 256 * (L 1).val + 128 * (L 0).val + 4096 * k.val = 128 * (2 * (L 1).val + (L 0).val + 32 * k.val) by omega)
    (k1_off8_eq k) (Nat.mod_eq_of_lt ((tb1_act_iff L k).mp hA)) (rPl1_2).view r (by decide) G S' hS' hin hI

/-- Plane 3 of a trip: its window of the result, written with the plane of the row scratch after the gather of the rows
    its index list names, holds the gathered array. -/
theorem win_val1_3 (k : Fin k1_t1_loop.trips) (hA : Act1 L k) (G : Buf (Elt F) (oLoc1 d)) (r : Buf (Elt F) ((thr1 d L).loc cc1_scratch1)) (S' : Buf (Elt F) ((thr1 d L).loc cc1_scratch0))
    (hS' : ∀ i ∈ (((sI).slice (Rect.unit (s := S2x4x128) (k1_off9 k) S1x1x128.size (k1_off9_inb L k hA)) (fun _ => rfl)).squeeze S128 squeezes_S1x1x128_S128).view.set, S' i = slotImg1 d L I k.val i)
    (hin : ∀ x : S128.Idx, (View.read (Elt F) (((sI).slice (Rect.unit (s := S2x4x128) (k1_off9 k) S1x1x128.size (k1_off9_inb L k hA)) (fun _ => rfl)).squeeze S128 squeezes_S1x1x128_S128).view S' x).toNat < 160000)
    (hI : ∀ i, (I i).toNat < 160000) :
    ∀ i ∈ (oWin1_3 L k hA).view.set,
      (oWin1_3 L k hA).view.writes (Elt F) G [⟨Rect.whole S128x128, ReadAs.same.apply (View.read (Elt F) (rPl1_3).view ((rPl1_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k1_off9 k) S1x1x128.size (k1_off9_inb L k hA)) (fun _ => rfl)).squeeze S128 squeezes_S1x1x128_S128).view S') (by decide) hin)⟩]))⟩] i
        = gath (F := F) X I i :=
  win_val_gen1 d L I X (k1_off13 L k) (k1_off13_inb L k hA) (k1_off9 k) (k1_off9_inb L k hA) 3 (k.val % 2) (wid1 L + 32 * k.val)
    (256 * (L 1).val + 128 * (L 0).val + 4096 * k.val) k.val (k1_off13_eq L k)
    (show 256 * (L 1).val + 128 * (L 0).val + 4096 * k.val = 128 * (2 * (L 1).val + (L 0).val + 32 * k.val) by omega)
    (k1_off9_eq k) (Nat.mod_eq_of_lt ((tb1_act_iff L k).mp hA)) (rPl1_3).view r (by decide) G S' hS' hin hI

end Cert.Kernel.KP

end
-- ==== Proof.TileTrip1B.lean ====
/-
  One trip of the loop of call 1's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal1B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The table's share as the remainder and one read token per gather semaphore. -/
def xPart1 : sProp 𝕄 :=
  iprop(((xW).view.loc (thr1 d L) ↦{Transfers.shareDrop q 4} X) ∗ ((xW).view.loc (thr1 d L) ↦{Transfers.shareTok q 4 0} X) ∗ ((xW).view.loc (thr1 d L) ↦{Transfers.shareTok q 4 1} X)
    ∗ ((xW).view.loc (thr1 d L) ↦{Transfers.shareTok q 4 2} X) ∗ ((xW).view.loc (thr1 d L) ↦{Transfers.shareTok q 4 3} X))
/-- The gather semaphores at rest. -/
def gsems1 : sProp 𝕄 :=
  iprop(semVal (cellD1 d L cc1_scratch2) 0 ∗ semVal (cellD1 d L cc1_scratch3) 0 ∗ semVal (cellD1 d L cc1_scratch4) 0 ∗ semVal (cellD1 d L cc1_scratch5) 0)
/-- The index fetch of an active trip `t` in flight. -/
def idxFly1 (t : Fin k1_t1_loop.trips) (h : Act1 L t) : sProp 𝕄 :=
  iprop(∃ S, ⌜SlotAgrees1 d L I t h S⌝
    ∗ Transfers.Flight countersEmb (thr1 d L) (SemLoc.dma cc1_scratch10.sem) (default : HIx 5) 16384 (idxDeliv1 d L q I t h S)
    ∗ ((iW).view.loc (thr1 d L) ↦[Finset.univ \ (iCh1 L t h).view.set]{q} I)
    ∗ ((sI).view.loc (thr1 d L) ↦[Finset.univ \ (sSl1 L t h).view.set]{fullShare} S))
/-- The four write-outs of an active trip `t` in flight. -/
def rowsFly1 (t : Fin k1_t1_loop.trips) (h : Act1 L t) : sProp 𝕄 :=
  iprop(∃ r0 r1 r2 r3, Transfers.Flight countersEmb (thr1 d L) (SemLoc.dma cc1_scratch6.sem) (default : HIx 5) 524288 (wDeliv1 d L X I t h 0 (pl1_0 d L r0))
    ∗ Transfers.Flight countersEmb (thr1 d L) (SemLoc.dma cc1_scratch7.sem) (default : HIx 5) 524288 (wDeliv1 d L X I t h 1 (pl1_1 d L r1))
    ∗ Transfers.Flight countersEmb (thr1 d L) (SemLoc.dma cc1_scratch8.sem) (default : HIx 5) 524288 (wDeliv1 d L X I t h 2 (pl1_2 d L r2))
    ∗ Transfers.Flight countersEmb (thr1 d L) (SemLoc.dma cc1_scratch9.sem) (default : HIx 5) 524288 (wDeliv1 d L X I t h 3 (pl1_3 d L r3)))
omit [FloatOps F] in
/-- One more wait recorded at index `none` keeps the recorded waits within `W` and index `none`. -/
theorem none_ins1 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart1 (O : CellTallies nD τ sig (HIx 5)) (W : Waits sig (HIx 5)) : sProp 𝕄 :=
  iprop(∃ W', ⌜∀ p ∈ W', p ∈ W ∨ p.2 = none⌝ ∗ owes (thr1 d L) O W')

/-- The index side at rest: the semaphore at zero, block and scratch whole. -/
def idxIdle1 : sProp 𝕄 :=
  iprop(semVal (cellD1 d L cc1_scratch10) 0 ∗ ((iW).view.loc (thr1 d L) ↦{q} I) ∗ ∃ S, (sI).view.loc (thr1 d L) ↦{fullShare} S)
/-- The row scratch and the write-out semaphores at rest. -/
def rowsIdle1 : sProp 𝕄 :=
  iprop((semVal (cellD1 d L cc1_scratch6) 0 ∗ ∃ r, pl1_0 d L r) ∗ (semVal (cellD1 d L cc1_scratch7) 0 ∗ ∃ r, pl1_1 d L r)
    ∗ (semVal (cellD1 d L cc1_scratch8) 0 ∗ ∃ r, pl1_2 d L r) ∗ (semVal (cellD1 d L cc1_scratch9) 0 ∗ ∃ r, pl1_3 d L r))

/-- On the first trip the loop's test `i ≥ 1` fails (in the words the body computes it with). -/
theorem lt1_cond1 : ∀ k : Fin k1_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA1 (O : CellTallies nD τ sig (HIx 5)) (W : Waits sig (HIx 5))
    (k tp k' : Fin k1_t1_loop.trips) (hp : tp.val + 1 = k.val) (hk' : k'.val = k.val + 1) (hA : Act1 L k) (hAp : Act1 L tp) (hA' : Act1 L k')
    (h2 : k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsFly1 d L X I tp hAp ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxFly1 d L q I k' hA' ∗ gsems1 d L ∗ rowsFly1 d L X I k hA
            ∗ oWins1 d L tp hAp (gath (F := F) X I) ∗ owesPart1 d L O W ∗ R) := by
  unfold xPart1 idxFly1 gsems1 rowsFly1 oWins1 owesPart1
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have hdisj := slots_disj1 L k hA h2
  have hd6 := list6_disj1 L k hA h2
  have hd7 := list7_disj1 L k hA h2
  have hd8 := list8_disj1 L k hA h2
  have hd9 := list9_disj1 L k hA h2
  have hk1 : 1 ≤ k.val := by omega
  have k1_h3 := ge1_cond1 k hk1
  sl_unfold [k1_t1_body]
  sl_exec
  have hin6 := list6_inr1 d L I k hA (tripA1.sl.HsI_w0 d L I k hA h2 S) (list6_agree1 d L I k hA h2 S hS _) hI
  have hin7 := list7_inr1 d L I k hA (tripA1.sl.HsI_w0 d L I k hA h2 S) (list7_agree1 d L I k hA h2 S hS _) hI
  have hin8 := list8_inr1 d L I k hA (tripA1.sl.HsI_w0 d L I k hA h2 S) (list8_agree1 d L I k hA h2 S hS _) hI
  have hin9 := list9_inr1 d L I k hA (tripA1.sl.HsI_w0 d L I k hA h2 S) (list9_agree1 d L I k hA h2 S hS _) hI
  sl_exec
  have hw0 : (((oWin1_0 L k hA).view.loc (thr1 d L) ↦[(oWin1_0 L k hA).view.set]{fullShare}
      ((oWin1_0 L k hA).view.writes (Elt F) G [⟨Rect.whole S128x128, tripA1.sl.dma0_1 d L X I k hA h2 S r0 hin6⟩])) : sProp 𝕄)
      = ((oW).view.loc (thr1 d L) ↦[oSet1 L k hA 0]{fullShare} gath (F := F) X I) :=
    pointsTo_congr (win_val1_0 d L I X k hA G r0 _ (list6_agree1 d L I k hA h2 S hS _) hin6 hI)
  have hw1 : (((oWin1_1 L k hA).view.loc (thr1 d L) ↦[(oWin1_1 L k hA).view.set]{fullShare}
      ((oWin1_1 L k hA).view.writes (Elt F) G [⟨Rect.whole S128x128, tripA1.sl.dma0_2 d L X I k hA h2 S r1 hin7⟩])) : sProp 𝕄)
      = ((oW).view.loc (thr1 d L) ↦[oSet1 L k hA 1]{fullShare} gath (F := F) X I) :=
    pointsTo_congr (win_val1_1 d L I X k hA G r1 _ (list7_agree1 d L I k hA h2 S hS _) hin7 hI)
  have hw2 : (((oWin1_2 L k hA).view.loc (thr1 d L) ↦[(oWin1_2 L k hA).view.set]{fullShare}
      ((oWin1_2 L k hA).view.writes (Elt F) G [⟨Rect.whole S128x128, tripA1.sl.dma0_3 d L X I k hA h2 S r2 hin8⟩])) : sProp 𝕄)
      = ((oW).view.loc (thr1 d L) ↦[oSet1 L k hA 2]{fullShare} gath (F := F) X I) :=
    pointsTo_congr (win_val1_2 d L I X k hA G r2 _ (list8_agree1 d L I k hA h2 S hS _) hin8 hI)
  have hw3 : (((oWin1_3 L k hA).view.loc (thr1 d L) ↦[(oWin1_3 L k hA).view.set]{fullShare}
      ((oWin1_3 L k hA).view.writes (Elt F) G [⟨Rect.whole S128x128, tripA1.sl.dma0_4 d L X I k hA h2 S r3 hin9⟩])) : sProp 𝕄)
      = ((oW).view.loc (thr1 d L) ↦[oSet1 L k hA 3]{fullShare} gath (F := F) X I) :=
    pointsTo_congr (win_val1_3 d L I X k hA G r3 _ (list9_agree1 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA1.sl.HsI_w0 d L I k hA h2 S)
    isplitr
    · ipureintro; exact slot_agree_next1 d L I k k' hk' hA hA' h2 S
    rw [slot_next_set1 L k k' hk' hA hA' h2, chunk_next_set1 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr1 d L) (sep_mono_left (Entails.of_eq hw0))) $$ Hf0
    isplitl [Hf1]
    · iapply (Transfers.Flight_mono countersEmb (thr1 d L) (sep_mono_left (Entails.of_eq hw1))) $$ Hf1
    isplitl [Hf2]
    · iapply (Transfers.Flight_mono countersEmb (thr1 d L) (sep_mono_left (Entails.of_eq hw2))) $$ Hf2
    · iapply (Transfers.Flight_mono countersEmb (thr1 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins1 (none_ins1 (none_ins1 (none_ins1 (none_ins1 (none_ins1 (none_ins1 (none_ins1 (none_ins1 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB1 (O : CellTallies nD τ sig (HIx 5)) (W : Waits sig (HIx 5))
    (k tp : Fin k1_t1_loop.trips) (hp : tp.val + 1 = k.val) (hA : Act1 L k) (hAp : Act1 L tp)
    (hn2 : ¬ k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsFly1 d L X I tp hAp ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxIdle1 d L q I ∗ gsems1 d L ∗ rowsFly1 d L X I k hA
            ∗ oWins1 d L tp hAp (gath (F := F) X I) ∗ owesPart1 d L O W ∗ R) := by
  unfold xPart1 idxFly1 idxIdle1 gsems1 rowsFly1 oWins1 owesPart1
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have k1_h2 : ¬ k1_cond2 L k = 1#1 := hn2
  have hk1 : 1 ≤ k.val := by omega
  have k1_h3 := ge1_cond1 k hk1
  have hin6 := list6_inr1 d L I k hA S (fun i hi => hS i (list6_sub1 L k hA hi)) hI
  have hin7 := list7_inr1 d L I k hA S (fun i hi => hS i (list7_sub1 L k hA hi)) hI
  have hin8 := list8_inr1 d L I k hA S (fun i hi => hS i (list8_sub1 L k hA hi)) hI
  have hin9 := list9_inr1 d L I k hA S (fun i hi => hS i (list9_sub1 L k hA hi)) hI
  sl_unfold [k1_t1_body]
  sl_exec
  have hw0 : (((oWin1_0 L k hA).view.loc (thr1 d L) ↦[(oWin1_0 L k hA).view.set]{fullShare}
      ((oWin1_0 L k hA).view.writes (Elt F) G [⟨Rect.whole S128x128, tripB1.sl.dma0 d L X k hA S r0 hin6⟩])) : sProp 𝕄)
      = ((oW).view.loc (thr1 d L) ↦[oSet1 L k hA 0]{fullShare} gath (F := F) X I) :=
    pointsTo_congr (win_val1_0 d L I X k hA G r0 S (fun i hi => hS i (list6_sub1 L k hA hi)) hin6 hI)
  have hw1 : (((oWin1_1 L k hA).view.loc (thr1 d L) ↦[(oWin1_1 L k hA).view.set]{fullShare}
      ((oWin1_1 L k hA).view.writes (Elt F) G [⟨Rect.whole S128x128, tripB1.sl.dma0_1 d L X k hA S r1 hin7⟩])) : sProp 𝕄)
      = ((oW).view.loc (thr1 d L) ↦[oSet1 L k hA 1]{fullShare} gath (F := F) X I) :=
    pointsTo_congr (win_val1_1 d L I X k hA G r1 S (fun i hi => hS i (list7_sub1 L k hA hi)) hin7 hI)
  have hw2 : (((oWin1_2 L k hA).view.loc (thr1 d L) ↦[(oWin1_2 L k hA).view.set]{fullShare}
      ((oWin1_2 L k hA).view.writes (Elt F) G [⟨Rect.whole S128x128, tripB1.sl.dma0_2 d L X k hA S r2 hin8⟩])) : sProp 𝕄)
      = ((oW).view.loc (thr1 d L) ↦[oSet1 L k hA 2]{fullShare} gath (F := F) X I) :=
    pointsTo_congr (win_val1_2 d L I X k hA G r2 S (fun i hi => hS i (list8_sub1 L k hA hi)) hin8 hI)
  have hw3 : (((oWin1_3 L k hA).view.loc (thr1 d L) ↦[(oWin1_3 L k hA).view.set]{fullShare}
      ((oWin1_3 L k hA).view.writes (Elt F) G [⟨Rect.whole S128x128, tripB1.sl.dma0_3 d L X k hA S r3 hin9⟩])) : sProp 𝕄)
      = ((oW).view.loc (thr1 d L) ↦[oSet1 L k hA 3]{fullShare} gath (F := F) X I) :=
    pointsTo_congr (win_val1_3 d L I X k hA G r3 S (fun i hi => hS i (list9_sub1 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr1 d L) (sep_mono_left (Entails.of_eq hw0))) $$ Hf0
    isplitl [Hf1]
    · iapply (Transfers.Flight_mono countersEmb (thr1 d L) (sep_mono_left (Entails.of_eq hw1))) $$ Hf1
    isplitl [Hf2]
    · iapply (Transfers.Flight_mono countersEmb (thr1 d L) (sep_mono_left (Entails.of_eq hw2))) $$ Hf2
    · iapply (Transfers.Flight_mono countersEmb (thr1 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins1 (none_ins1 (none_ins1 (none_ins1 (none_ins1 (none_ins1 (none_ins1 (none_ins1 (none_ins1 (hW')))))))))

set_option maxHeartbeats 1000000 in
set_option sl_exec.dmaWindow true in
/-- The first trip: from its index fetch in flight and the row scratch at rest to the index fetch of trip 1 and its own
    four write-outs in flight. -/
theorem tripC1 (O : CellTallies nD τ sig (HIx 5)) (W : Waits sig (HIx 5))
    (k k' : Fin k1_t1_loop.trips) (hk0 : k.val = 0) (hk' : k'.val = k.val + 1) (hA : Act1 L k) (hA' : Act1 L k')
    (h2 : k1_cond2 L k = 1#1) (hI : ∀ i, (I i).toNat < 160000) (R : sProp 𝕄) :
    iprop((Transfers.MayWaits (thr1 d L) (none : HIx 5) O : sProp 𝕄) ∗ xPart1 d L q X ∗ idxFly1 d L q I k hA ∗ gsems1 d L
        ∗ rowsIdle1 d L ∗ oWins1 d L k hA G ∗ owesPart1 d L O W ∗ R)
      ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => iprop(xPart1 d L q X ∗ idxFly1 d L q I k' hA' ∗ gsems1 d L ∗ rowsFly1 d L X I k hA ∗ owesPart1 d L O W ∗ R) := by
  unfold xPart1 idxFly1 gsems1 rowsIdle1 rowsFly1 oWins1 owesPart1
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv1 wDeliv1 pl1_0 pl1_1 pl1_2 pl1_3
  have k1_h1 : k1_cond1 L k = 1#1 := hA
  have k1_h3 := lt1_cond1 k hk0
  have hdisj := slots_disj1 L k hA h2
  have hd6 := list6_disj1 L k hA h2
  have hd7 := list7_disj1 L k hA h2
  have hd8 := list8_disj1 L k hA h2
  have hd9 := list9_disj1 L k hA h2
  sl_unfold [k1_t1_body]
  sl_exec
  have hin6 := list6_inr1 d L I k hA (tripC1.sl.HsI_w0 d L I k hA h2 S) (list6_agree1 d L I k hA h2 S hS _) hI
  have hin7 := list7_inr1 d L I k hA (tripC1.sl.HsI_w0 d L I k hA h2 S) (list7_agree1 d L I k hA h2 S hS _) hI
  have hin8 := list8_inr1 d L I k hA (tripC1.sl.HsI_w0 d L I k hA h2 S) (list8_agree1 d L I k hA h2 S hS _) hI
  have hin9 := list9_inr1 d L I k hA (tripC1.sl.HsI_w0 d L I k hA h2 S) (list9_agree1 d L I k hA h2 S hS _) hI
  sl_exec
  have hw0 : (((oWin1_0 L k hA).view.loc (thr1 d L) ↦[(oWin1_0 L k hA).view.set]{fullShare}
      ((oWin1_0 L k hA).view.writes (Elt F) G [⟨Rect.whole S128x128, tripC1.sl.dma0_1 d L X I k hA h2 S r0 hin6⟩])) : sProp 𝕄)
      = ((oW).view.loc (thr1 d L) ↦[oSet1 L k hA 0]{fullShare} gath (F := F) X I) :=
    pointsTo_congr (win_val1_0 d L I X k hA G r0 _ (list6_agree1 d L I k hA h2 S hS _) hin6 hI)
  have hw1 : (((oWin1_1 L k hA).view.loc (thr1 d L) ↦[(oWin1_1 L k hA).view.set]{fullShare}
      ((oWin1_1 L k hA).view.writes (Elt F) G [⟨Rect.whole S128x128, tripC1.sl.dma0_2 d L X I k hA h2 S r1 hin7⟩])) : sProp 𝕄)
      = ((oW).view.loc (thr1 d L) ↦[oSet1 L k hA 1]{fullShare} gath (F := F) X I) :=
    pointsTo_congr (win_val1_1 d L I X k hA G r1 _ (list7_agree1 d L I k hA h2 S hS _) hin7 hI)
  have hw2 : (((oWin1_2 L k hA).view.loc (thr1 d L) ↦[(oWin1_2 L k hA).view.set]{fullShare}
      ((oWin1_2 L k hA).view.writes (Elt F) G [⟨Rect.whole S128x128, tripC1.sl.dma0_3 d L X I k hA h2 S r2 hin8⟩])) : sProp 𝕄)
      = ((oW).view.loc (thr1 d L) ↦[oSet1 L k hA 2]{fullShare} gath (F := F) X I) :=
    pointsTo_congr (win_val1_2 d L I X k hA G r2 _ (list8_agree1 d L I k hA h2 S hS _) hin8 hI)
  have hw3 : (((oWin1_3 L k hA).view.loc (thr1 d L) ↦[(oWin1_3 L k hA).view.set]{fullShare}
      ((oWin1_3 L k hA).view.writes (Elt F) G [⟨Rect.whole S128x128, tripC1.sl.dma0_4 d L X I k hA h2 S r3 hin9⟩])) : sProp 𝕄)
      = ((oW).view.loc (thr1 d L) ↦[oSet1 L k hA 3]{fullShare} gath (F := F) X I) :=
    pointsTo_congr (win_val1_3 d L I X k hA G r3 _ (list9_agree1 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC1.sl.HsI_w0 d L I k hA h2 S)
    isplitr
    · ipureintro; exact slot_agree_next1 d L I k k' hk' hA hA' h2 S
    rw [slot_next_set1 L k k' hk' hA hA' h2, chunk_next_set1 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr1 d L) (sep_mono_left (Entails.of_eq hw0))) $$ Hw0
    isplitl [Hw1]
    · iapply (Transfers.Flight_mono countersEmb (thr1 d L) (sep_mono_left (Entails.of_eq hw1))) $$ Hw1
    isplitl [Hw2]
    · iapply (Transfers.Flight_mono countersEmb (thr1 d L) (sep_mono_left (Entails.of_eq hw2))) $$ Hw2
    · iapply (Transfers.Flight_mono countersEmb (thr1 d L) (sep_mono_left (Entails.of_eq hw3))) $$ Hw3
  isplitr [HR]
  rotate_left
  · iexact HR
  iexists _
  isplitr
  rotate_left
  · iexact HO
  · ipureintro
    exact none_ins1 (none_ins1 (none_ins1 (none_ins1 (none_ins1 (hW')))))

/-- An idle trip (its chunk number is 250 or more) does nothing. -/
theorem tripI1 (k : Fin k1_t1_loop.trips) (hnA : ¬ Act1 L k) (R : sProp 𝕄) :
    R ⊢ wp frame (wpE (defs₀ (F := F)) 𝒱₀ (thr1 d L) none) Set.univ
          (k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k ())
          fun _ => R := by
  iintro HR
  have k1_h1 : ¬ k1_cond1 L k = 1#1 := hnA
  sl_unfold [k1_t1_body]
  sl_exec
  sl_step
  iexact HR

end Cert.Kernel.KP

end
-- ==== Proof.TileOut1B.lean ====
/-
  The result's windows through the loop of call 1's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody1bB

noncomputable section

namespace Cert.Kernel.KP

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable (d : Dev nD) (L : grid1.Coords)

/-! ## Which trips are active -/

theorem wid_lt1 : wid1 L < 32 := by
  have h0 : (L 0).val < 2 := (L 0).isLt
  have h1 : (L 1).val < 16 := (L 1).isLt
  show 2 * (L 1).val + (L 0).val < 32
  omega

theorem act_iff_lt1 (t : Fin k1_t1_loop.trips) : Act1 L t ↔ t.val < nAct1 L := by
  have hw := wid_lt1 L
  refine (tb1_act_iff L t).trans ?_
  show wid1 L + 32 * t.val < 250 ↔ t.val < (250 - wid1 L + 31) / 32
  omega

theorem nAct_bounds1 : 7 ≤ nAct1 L ∧ nAct1 L ≤ 8 := by
  have hw := wid_lt1 L
  show 7 ≤ (250 - wid1 L + 31) / 32 ∧ (250 - wid1 L + 31) / 32 ≤ 8
  omega

theorem pre_iff_lt1 (k : Fin k1_t1_loop.trips) : k1_cond2 L k = 1#1 ↔ k.val + 1 < nAct1 L := by
  have hw := wid_lt1 L
  refine (tb1_pre_iff L k).trans ?_
  show wid1 L + 32 * k.val + 32 < 250 ↔ k.val + 1 < (250 - wid1 L + 31) / 32
  omega

theorem cnt_act1 (k : Fin k1_t1_loop.trips) (hA : Act1 L k) : cnt1 L k.val = k.val ∧ cnt1 L (k.val + 1) = k.val + 1 := by
  have h := (act_iff_lt1 L k).mp hA
  show min k.val (nAct1 L) = k.val ∧ min (k.val + 1) (nAct1 L) = k.val + 1
  omega

theorem cnt_idle1 (k : Fin k1_t1_loop.trips) (hnA : ¬ Act1 L k) : cnt1 L k.val = nAct1 L ∧ cnt1 L (k.val + 1) = nAct1 L := by
  have h : ¬ k.val < nAct1 L := fun h => hnA ((act_iff_lt1 L k).mpr h)
  show min k.val (nAct1 L) = nAct1 L ∧ min (k.val + 1) (nAct1 L) = nAct1 L
  omega

theorem cnt_end1 : cnt1 L k1_t1_loop.trips = nAct1 L := by
  have h := (nAct_bounds1 L).2
  show min k1_t1_loop.trips (nAct1 L) = nAct1 L
  rw [tb1_trips]
  omega

/-! ## The windows' family -/

variable (X : Buf (Elt F) (xLoc d)) (I : Buf (Elt F) (iLoc1 d)) (G : Buf (Elt F) (oLoc1 d))

/-- Trip `t`'s windows after `n` active trips: at the gathered array, in flight, or as found. -/
def outPhi1 (n : ℕ) (t : Fin k1_t1_loop.trips) : sProp 𝕄 :=
  if t.val + 1 < n then oTrip1 d L (gath (F := F) X I) t else if t.val + 1 = n then iprop(emp) else oTrip1 d L G t

theorem outPart1_eq (n : ℕ) : outPart1 d L X I G n = bigSep Finset.univ (outPhi1 d L X I G n) := rfl

theorem outPhi1_done {n : ℕ} {t : Fin k1_t1_loop.trips} (h : t.val + 1 < n) : outPhi1 d L X I G n t = oTrip1 d L (gath (F := F) X I) t := by
  unfold outPhi1; rw [if_pos h]
theorem outPhi1_flight {n : ℕ} {t : Fin k1_t1_loop.trips} (h : t.val + 1 = n) : outPhi1 d L X I G n t = (iprop(emp) : sProp 𝕄) := by
  unfold outPhi1; rw [if_neg (by omega), if_pos h]
theorem outPhi1_found {n : ℕ} {t : Fin k1_t1_loop.trips} (h : n < t.val + 1) : outPhi1 d L X I G n t = oTrip1 d L G t := by
  unfold outPhi1; rw [if_neg (by omega), if_neg (by omega)]

/-- Before any trip every window is as found. -/
theorem out_init1 : (bigSep Finset.univ fun t : Fin k1_t1_loop.trips => oTrip1 d L G t) = outPart1 d L X I G 0 := by
  rw [outPart1_eq]
  exact bigSep_congr fun t _ => (outPhi1_found d L X I G (Nat.succ_pos _)).symm

/-- Entering trip `k` (the trip before it, `tp`, in flight): its own windows come out, as found. -/
theorem out_take1 (k tp : Fin k1_t1_loop.trips) (hp : tp.val + 1 = k.val) (hA : Act1 L k) :
    outPart1 d L X I G k.val ⊢ iprop(oWins1 d L k hA G ∗ bigSep ((Finset.univ.erase k).erase tp) (outPhi1 d L X I G k.val)) := by
  have hne : tp ≠ k := fun e => by rw [e] at hp; omega
  rw [outPart1_eq, SparseCore.bigSep_erase' (Finset.mem_univ k),
    SparseCore.bigSep_erase' (Finset.mem_erase.mpr ⟨hne, Finset.mem_univ tp⟩),
    outPhi1_found d L X I G (Nat.lt_succ_self _), outPhi1_flight d L X I G hp, oTrip1_act d L k hA]
  iintro ⟨Hw, -, Hr⟩
  isplitl [Hw] <;> iassumption

/-- Leaving trip `k`: the previous trip's windows go back, at the gathered array; trip `k`'s are now the ones in flight. -/
theorem out_put1 (k tp : Fin k1_t1_loop.trips) (hp : tp.val + 1 = k.val) (hAp : Act1 L tp) :
    iprop(oWins1 d L tp hAp (gath (F := F) X I) ∗ bigSep ((Finset.univ.erase k).erase tp) (outPhi1 d L X I G k.val))
      ⊢ outPart1 d L X I G (k.val + 1) := by
  have hne : tp ≠ k := fun e => by rw [e] at hp; omega
  rw [outPart1_eq, SparseCore.bigSep_erase' (Finset.mem_univ k),
    SparseCore.bigSep_erase' (Finset.mem_erase.mpr ⟨hne, Finset.mem_univ tp⟩),
    outPhi1_flight d L X I G rfl, outPhi1_done d L X I G (show tp.val + 1 < k.val + 1 by omega), oTrip1_act d L tp hAp,
    show bigSep ((Finset.univ.erase k).erase tp) (outPhi1 d L X I G (k.val + 1)) = bigSep ((Finset.univ.erase k).erase tp) (outPhi1 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi1
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first1 (h0 : 0 < k1_t1_loop.trips) (hA : Act1 L ⟨0, h0⟩) :
    outPart1 d L X I G 0 ⊢ iprop(oWins1 d L ⟨0, h0⟩ hA G ∗ bigSep (Finset.univ.erase ⟨0, h0⟩) (outPhi1 d L X I G 0)) := by
  rw [outPart1_eq, SparseCore.bigSep_erase' (Finset.mem_univ (⟨0, h0⟩ : Fin k1_t1_loop.trips)),
    outPhi1_found d L X I G (Nat.succ_pos _), oTrip1_act d L ⟨0, h0⟩ hA]

/-- Leaving it: nothing goes back yet. -/
theorem out_put_first1 (h0 : 0 < k1_t1_loop.trips) :
    bigSep (Finset.univ.erase (⟨0, h0⟩ : Fin k1_t1_loop.trips)) (outPhi1 d L X I G 0) ⊢ outPart1 d L X I G 1 := by
  rw [outPart1_eq, SparseCore.bigSep_erase' (Finset.mem_univ (⟨0, h0⟩ : Fin k1_t1_loop.trips)),
    outPhi1_flight d L X I G (show (⟨0, h0⟩ : Fin k1_t1_loop.trips).val + 1 = 1 from rfl),
    show bigSep (Finset.univ.erase (⟨0, h0⟩ : Fin k1_t1_loop.trips)) (outPhi1 d L X I G 1) = bigSep (Finset.univ.erase (⟨0, h0⟩ : Fin k1_t1_loop.trips)) (outPhi1 d L X I G 0) from
      bigSep_congr fun t ht => by
        have h1 : t ≠ ⟨0, h0⟩ := (Finset.mem_erase.mp ht).1
        have h1' : t.val ≠ 0 := fun e => h1 (Fin.ext e)
        rw [outPhi1_found d L X I G (show 1 < t.val + 1 by omega), outPhi1_found d L X I G (Nat.succ_pos _)]]
  iintro Hr
  isplitr; · iempintro
  iexact Hr

/-- After the last active trip `tl`, with its windows back: every trip's windows hold the gathered array (the idle
    trips have none). -/
theorem out_final1 (tl : Fin k1_t1_loop.trips) (hAl : Act1 L tl) (hidle : ∀ t : Fin k1_t1_loop.trips, tl.val < t.val → ¬ Act1 L t) :
    iprop(outPart1 d L X I G (tl.val + 1) ∗ oWins1 d L tl hAl (gath (F := F) X I))
      ⊢ bigSep Finset.univ fun t : Fin k1_t1_loop.trips => oTrip1 d L (gath (F := F) X I) t := by
  rw [outPart1_eq, SparseCore.bigSep_erase' (Finset.mem_univ tl) (Φ := outPhi1 d L X I G (tl.val + 1)),
    SparseCore.bigSep_erase' (Finset.mem_univ tl) (Φ := fun t : Fin k1_t1_loop.trips => oTrip1 d L (gath (F := F) X I) t),
    outPhi1_flight d L X I G rfl, oTrip1_act d L tl hAl,
    show bigSep (Finset.univ.erase tl) (outPhi1 d L X I G (tl.val + 1)) = bigSep (Finset.univ.erase tl) (fun t : Fin k1_t1_loop.trips => oTrip1 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi1_done d L X I G (by omega)
        · have hi := hidle t (by omega)
          rw [outPhi1_found d L X I G (show tl.val + 1 < t.val + 1 by omega), oTrip1_idle d L t hi, oTrip1_idle d L t hi]]
  iintro ⟨⟨-, Hr⟩, Hw⟩
  isplitl [Hw] <;> iassumption

end Cert.Kernel.KP

end
-- ==== Proof.TileScoped1B.lean ====
/-
  The scoped storage of one vector subcore as call 1's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody1bB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable (d : Dev nD) (L : grid1.Coords)

/-! ## The task's nine semaphores among the subcore's own -/

/-- The nine DMA semaphores of the task, as semaphore locations. -/
def semS1 : List (SemLoc sig) := [SemLoc.dma cc1_scratch2.sem, SemLoc.dma cc1_scratch3.sem, SemLoc.dma cc1_scratch4.sem, SemLoc.dma cc1_scratch5.sem, SemLoc.dma cc1_scratch6.sem, SemLoc.dma cc1_scratch7.sem, SemLoc.dma cc1_scratch8.sem, SemLoc.dma cc1_scratch9.sem, SemLoc.dma cc1_scratch10.sem]

theorem semS1_nodup : (semS1).Nodup := by decide
theorem semS1_scoped : ∀ s ∈ semS1, (s : SemLoc sig).isScoped .scVector = true := by decide

/-- The same as cells of the tile's thread. -/
def semL1 : List (GSem nD τ sig) := semS1.map fun s => (thr1 d L, s)

theorem semL1_nodup : (semL1 d L).Nodup :=
  semS1_nodup.map fun _ _ h => (Prod.mk.inj h).2

theorem semL1_sub : (semL1 d L).toFinset ⊆ ownCells (thr1 d L) := by
  intro g hg
  rw [List.mem_toFinset, semL1, List.mem_map] at hg
  obtain ⟨s, hs, rfl⟩ := hg
  exact mem_ownCells.mpr ⟨rfl, semS1_scoped s hs⟩

/-- The subcore's own semaphores that the task does not use, each at zero. -/
def RestSems1 : sProp 𝕄 := bigSep (ownCells (thr1 d L) \ (semL1 d L).toFinset) fun g => semVal g 0

/-- The subcore's own semaphores at zero are the task's nine at zero and the rest. -/
theorem ownSems0_V1 :
    (ownSems0 (thr1 d L) : sProp 𝕄)
      = iprop(semVal (cellD1 d L cc1_scratch2) 0 ∗ semVal (cellD1 d L cc1_scratch3) 0 ∗ semVal (cellD1 d L cc1_scratch4) 0 ∗ semVal (cellD1 d L cc1_scratch5) 0 ∗ semVal (cellD1 d L cc1_scratch6) 0 ∗ semVal (cellD1 d L cc1_scratch7) 0 ∗ semVal (cellD1 d L cc1_scratch8) 0 ∗ semVal (cellD1 d L cc1_scratch9) 0 ∗ semVal (cellD1 d L cc1_scratch10) 0 ∗ RestSems1 d L) := by
  unfold SparseCore.Cfg.ownSems0 RestSems1
  rw [SparseCore.bigSep_sdiff_split' (semL1_sub d L), bigSep_eq_bigSepL (semL1 d L) (semL1_nodup d L)]
  unfold semL1 semS1
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs1 : sProp 𝕄 :=
  bigSep (((ownRefs (τ := τ) (.scVector (cV1 L) (jV1 L))).erase ((Proc.scVector (cV1 L) (jV1 L)).devRef cc1_scratch0)).erase
      ((Proc.scVector (cV1 L) (jV1 L)).devRef cc1_scratch1))
    fun b => iprop(∃ f, ((d, b) : Loc nD τ sig) ↦{fullShare} f)

/-- The subcore's own buffers are the index scratch, the row scratch, each at some contents, and the rest. -/
theorem ownBufs_V1 :
    (ownBufs (thr1 d L) : sProp 𝕄)
      = iprop((∃ f, (thr1 d L).loc cc1_scratch0 ↦{fullShare} f) ∗ (∃ f, (thr1 d L).loc cc1_scratch1 ↦{fullShare} f) ∗ RestBufs1 d L) := by
  unfold SparseCore.Cfg.ownBufs RestBufs1
  refine (SparseCore.bigSep_erase' (SparseCore.Cfg.mem_ownRefs_of_owner (p := Proc.scVector (cV1 L) (jV1 L))
    (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV1 L) (jV1 L)) (b := (Proc.scVector (cV1 L) (jV1 L)).devRef cc1_scratch1) rfl⟩)]

/-! ## The whole arrays under the subcore's names -/

theorem pts_sI1 (f : Buf (Elt F) ((thr1 d L).loc cc1_scratch0)) :
    ((sI).view.loc (thr1 d L) ↦{fullShare} f : sProp 𝕄) = (thr1 d L).loc cc1_scratch0 ↦{fullShare} f := rfl
theorem pts_sR1 (f : Buf (Elt F) ((thr1 d L).loc cc1_scratch1)) :
    ((sR).view.loc (thr1 d L) ↦{fullShare} f : sProp 𝕄) = (thr1 d L).loc cc1_scratch1 ↦{fullShare} f := rfl
theorem pts_x1 (q : PosShare TreeShare) (f : Buf (Elt F) (xLoc d)) :
    ((xW).view.loc (thr1 d L) ↦{q} f : sProp 𝕄) = xLoc d ↦{q} f := rfl
theorem pts_i1 (q : PosShare TreeShare) (f : Buf (Elt F) (iLoc1 d)) :
    ((iW).view.loc (thr1 d L) ↦{q} f : sProp 𝕄) = iLoc1 d ↦{q} f := rfl
theorem pts_o1 (K : Finset S4x32000x128.Idx) (q : PosShare TreeShare) (f : Buf (Elt F) (oLoc1 d)) :
    ((oW).view.loc (thr1 d L) ↦[K]{q} f : sProp 𝕄) = oLoc1 d ↦[K]{q} f := rfl

/-! ## The row scratch is its four planes -/

theorem pl_inb1 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet1 (j : Fin 4) : Finset S4x128x128.Idx := (Rect.unit (s := S4x128x128) ![j.val, 0, 0] S1x128x128.size (pl_inb1 j)).set

theorem set_rPl1_0 : (rPl1_0).view.set = plSet1 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc1_scratch1 : Ref sig .scVector) _).trans rfl
theorem set_rPl1_1 : (rPl1_1).view.set = plSet1 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc1_scratch1 : Ref sig .scVector) _).trans rfl
theorem set_rPl1_2 : (rPl1_2).view.set = plSet1 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc1_scratch1 : Ref sig .scVector) _).trans rfl
theorem set_rPl1_3 : (rPl1_3).view.set = plSet1 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc1_scratch1 : Ref sig .scVector) _).trans rfl

/-- Different planes are disjoint: they differ in the first coordinate. -/
theorem pl_disjoint1 : ∀ i ∈ (Finset.univ : Finset (Fin 4)), ∀ j ∈ (Finset.univ : Finset (Fin 4)), i ≠ j → Disjoint (plSet1 i) (plSet1 j) := by
  intro i _ j _ h
  have hv := Fin.val_ne_of_ne h
  refine Rect.unit_disjoint 0 ?_
  simp
  omega

/-- The four planes cover the scratch. -/
theorem pl_cover1 : (Finset.univ : Finset (Fin 4)).biUnion plSet1 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet1
  rw [Rect.mem_set_unit]
  intro a
  fin_cases a <;> simp at h0 h1 h2 ⊢ <;> omega

/-- Holding the row scratch whole at `r` is holding its four planes at `r`. -/
theorem sR_planes1 (r : Buf (Elt F) ((thr1 d L).loc cc1_scratch1)) :
    ((thr1 d L).loc cc1_scratch1 ↦{fullShare} r : sProp 𝕄) = iprop(pl1_0 d L r ∗ pl1_1 d L r ∗ pl1_2 d L r ∗ pl1_3 d L r) := by
  have e : ((thr1 d L).loc cc1_scratch1 ↦{fullShare} r : sProp 𝕄)
      = bigSep Finset.univ fun j : Fin 4 => ((thr1 d L).loc cc1_scratch1 ↦[plSet1 j]{fullShare} r : sProp 𝕄) := by
    rw [← pointsTo_biUnion Finset.univ (ℓ := (thr1 d L).loc cc1_scratch1) plSet1 pl_disjoint1, pl_cover1]; try rfl
  rw [e, bigSep_univ_eq_bigSepL [(0 : Fin 4), 1, 2, 3] (by decide) (by decide)]
  unfold pl1_0 pl1_1 pl1_2 pl1_3
  rw [set_rPl1_0, set_rPl1_1, set_rPl1_2, set_rPl1_3]
  rfl

/-- Four planes at four contents join into the row scratch whole at some contents. -/
theorem sR_join1 (r0 r1 r2 r3 : Buf (Elt F) ((thr1 d L).loc cc1_scratch1)) :
    iprop(pl1_0 d L r0 ∗ pl1_1 d L r1 ∗ pl1_2 d L r2 ∗ pl1_3 d L r3)
      ⊢ (iprop(∃ r, (thr1 d L).loc cc1_scratch1 ↦{fullShare} r) : sProp 𝕄) := by
  have e : (bigSep Finset.univ fun j : Fin 4 => ((thr1 d L).loc cc1_scratch1 ↦[plSet1 j]{fullShare} (![r0, r1, r2, r3] : Fin 4 → Buf (Elt F) ((thr1 d L).loc cc1_scratch1)) j : sProp 𝕄))
      = iprop(pl1_0 d L r0 ∗ pl1_1 d L r1 ∗ pl1_2 d L r2 ∗ pl1_3 d L r3) := by
    rw [bigSep_univ_eq_bigSepL [(0 : Fin 4), 1, 2, 3] (by decide) (by decide)]
    unfold pl1_0 pl1_1 pl1_2 pl1_3
    rw [set_rPl1_0, set_rPl1_1, set_rPl1_2, set_rPl1_3]
    rfl
  rw [← e]
  iintro H
  ihave H' := (pointsTo_biUnion_join Finset.univ plSet1 (![r0, r1, r2, r3] : Fin 4 → Buf (Elt F) ((thr1 d L).loc cc1_scratch1)) r0 pl_disjoint1) $$ H
  icases H' with ⟨%g, -, Hg⟩
  rw [pl_cover1]
  iexists g; iexact Hg

/-! ## A read share of the table as a remainder and four tokens -/

theorem x_toks1 (q : PosShare TreeShare) (X : Buf (Elt F) (xLoc d)) :
    ((xW).view.loc (thr1 d L) ↦{q} X : sProp 𝕄)
      ⊣⊢ iprop(((xW).view.loc (thr1 d L) ↦{Transfers.shareDrop q 4} X) ∗ ((xW).view.loc (thr1 d L) ↦{Transfers.shareTok q 4 0} X)
          ∗ ((xW).view.loc (thr1 d L) ↦{Transfers.shareTok q 4 1} X) ∗ ((xW).view.loc (thr1 d L) ↦{Transfers.shareTok q 4 2} X)
          ∗ ((xW).view.loc (thr1 d L) ↦{Transfers.shareTok q 4 3} X)) := by
  have e : (iprop(((xW).view.loc (thr1 d L) ↦{Transfers.shareTok q 4 0} X)
          ∗ ((xW).view.loc (thr1 d L) ↦{Transfers.shareTok q 4 1} X) ∗ ((xW).view.loc (thr1 d L) ↦{Transfers.shareTok q 4 2} X)
          ∗ ((xW).view.loc (thr1 d L) ↦{Transfers.shareTok q 4 3} X)) : sProp 𝕄)
      = bigSep Finset.univ fun i : Fin 4 => ((xW).view.loc (thr1 d L) ↦{Transfers.shareTok q 4 i} X : sProp 𝕄) :=
    (bigSep_univ_eq_bigSepL [(0 : Fin 4), 1, 2, 3] (by decide) (by decide)
      (fun i : Fin 4 => ((xW).view.loc (thr1 d L) ↦{Transfers.shareTok q 4 i} X : sProp 𝕄))).symm
  rw [e]
  exact Transfers.pointsTo_toks q 4

end Cert.Kernel.KP

end
-- ==== Proof.TileLoop1B.lean ====
/-
  The body of call 1's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip1B
import proofs.«210879_g80607946211848_cont_9to1_m_1212_13_alg».proof.Proof.TileOut1B
import proofs.«210879_g80607946211848_cont_9to1_m_1212_13_alg».proof.Proof.TileScoped1B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v10_scv : Memref Cert.Kernel.sig Kind.scVector Space.hbm Cert.Kernel.S250x4x128 EltTy.i32)
local notation "oW" => (Memref.whole Cert.Kernel.main_v11_scv : Memref Cert.Kernel.sig Kind.scVector Space.hbm Cert.Kernel.S4x32000x128 EltTy.f32)
local notation "sI" => (Memref.whole Cert.Kernel.cc1_scratch0 : Memref Cert.Kernel.sig Kind.scVector Space.vmem Cert.Kernel.S2x4x128 EltTy.i32)
local notation "sR" => (Memref.whole Cert.Kernel.cc1_scratch1 : Memref Cert.Kernel.sig Kind.scVector Space.vmem Cert.Kernel.S4x128x128 EltTy.f32)

variable [FloatOps F] (d : Dev nD) (L : grid1.Coords) (q : PosShare TreeShare)
  (X : Buf (Elt F) (xLoc d)) (I : Buf (Elt F) (iLoc1 d)) (G : Buf (Elt F) (oLoc1 d))

/-- The row scratch and the write-out semaphores after `n` active trips. -/
def rowsAt1 : ℕ → sProp 𝕄
  | 0 => rowsIdle1 d L
  | m + 1 => if hm : m < k1_t1_loop.trips then (if hA : Act1 L ⟨m, hm⟩ then rowsFly1 d L X I ⟨m, hm⟩ hA else iprop(False)) else iprop(False)

/-- The index side before trip `k`. -/
def idxAt1 (k : ℕ) : sProp 𝕄 :=
  if hk : k < k1_t1_loop.trips then (if hA : Act1 L ⟨k, hk⟩ then idxFly1 d L q I ⟨k, hk⟩ hA else idxIdle1 d L q I) else idxIdle1 d L q I

/-- The loop's invariant before trip `k`. -/
def invL1 (O : CellTallies nD τ sig (HIx 5)) (W : Waits sig (HIx 5)) (k : ℕ) (_ : PUnit) : sProp 𝕄 :=
  iprop(Transfers.MayWaits (thr1 d L) (none : HIx 5) O ∗ xPart1 d L q X ∗ idxAt1 d L q I k ∗ gsems1 d L
    ∗ rowsAt1 d L X I (cnt1 L k) ∗ outPart1 d L X I G (cnt1 L k) ∗ owesPart1 d L O W)

omit [FloatOps F] in
theorem idxAt1_act (k : Fin k1_t1_loop.trips) (hA : Act1 L k) : idxAt1 d L q I k.val = idxFly1 d L q I k hA := by
  unfold idxAt1; rw [dif_pos k.isLt, dif_pos hA]
omit [FloatOps F] in
theorem idxAt1_idle (k : Fin k1_t1_loop.trips) (hnA : ¬ Act1 L k) : idxAt1 d L q I k.val = idxIdle1 d L q I := by
  unfold idxAt1; rw [dif_pos k.isLt, dif_neg hnA]
omit [FloatOps F] in
theorem idxAt1_end (k : ℕ) (hk : ¬ k < k1_t1_loop.trips) : idxAt1 d L q I k = idxIdle1 d L q I := by
  unfold idxAt1; rw [dif_neg hk]
omit [FloatOps F] in
theorem rowsAt1_succ (t : Fin k1_t1_loop.trips) (hA : Act1 L t) : rowsAt1 d L X I (t.val + 1) = rowsFly1 d L X I t hA := by
  show (if hm : t.val < k1_t1_loop.trips then (if hA : Act1 L ⟨t.val, hm⟩ then rowsFly1 d L X I ⟨t.val, hm⟩ hA else iprop(False)) else iprop(False)) = _
  rw [dif_pos t.isLt, dif_pos hA]

omit [FloatOps F] in
theorem out_take_first1' (k : Fin k1_t1_loop.trips) (hk0 : k.val = 0) (hA : Act1 L k) :
    outPart1 d L X I G k.val ⊢ iprop(oWins1 d L k hA G ∗ bigSep (Finset.univ.erase k) (outPhi1 d L X I G k.val)) := by
  obtain ⟨kv, hkv⟩ := k
  simp only at hk0
  subst hk0
  exact out_take_first1 d L X I G hkv hA

omit [FloatOps F] in
theorem out_put_first1' (k : Fin k1_t1_loop.trips) (hk0 : k.val = 0) :
    bigSep (Finset.univ.erase k) (outPhi1 d L X I G k.val) ⊢ outPart1 d L X I G (k.val + 1) := by
  obtain ⟨kv, hkv⟩ := k
  simp only at hk0
  subst hk0
  exact out_put_first1 d L X I G hkv

set_option maxHeartbeats 4000000 in
set_option sl_exec.dmaWindow true in
theorem tile_body1 (hF : (K (F := F)).Facts) (d : Dev nD) (L : grid1.Coords)
    (X : Buf (Elt F) (xLoc d)) (I : Buf (Elt F) (iLoc1 d)) (G : Buf (Elt F) (oLoc1 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo1 d X I G L
        ∗ scopedBufs (thr1 d L) ∗ scopedSems0 (thr1 d L) ∗ owes (thr1 d L) O W)
      ⊢ wp frame (wpE (defs₀ (F := F)) 𝒱₀ (thr1 d L) none) Set.univ
          (cc1__sc_gather_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10)
          fun _ => iprop(tileTd1 d X I L ∗ scopedBufs (thr1 d L) ∗ scopedSems0 (thr1 d L)
            ∗ ∃ W', ⌜∀ p ∈ W', p ∈ W ∨ p.2 = none⌝ ∗ owes (thr1 d L) O W') := by
  rw [(K (F := F)).scopedBufs_V hF d (cV1 L) (jV1 L), SparseCore.Cfg.scopedSems0_V (Val := Elt F) d (cV1 L) (jV1 L),
    ownSems0_V1, ownBufs_V1]
  unfold tileGo1 tileTd1
  rw [out_init1 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr1 d L) hO) $$ Hlv
  ihave Hx' := (Entails.of_eq (pts_x1 d L (qTile1 L) X).symm) $$ Hx
  ihave Hxt := (x_toks1 d L (qTile1 L) X).1 $$ Hx'
  icases Hxt with ⟨Hxr, Hx0, Hx1, Hx2, Hx3⟩
  ihave Hi' := (Entails.of_eq (pts_i1 d L (qTile1 L) I).symm) $$ Hi
  ihave HsI' := (Entails.of_eq (pts_sI1 d L s0).symm) $$ HsI
  ihave Hpl := (Entails.of_eq (sR_planes1 d L r)) $$ HsR
  icases Hpl with ⟨Hr0, Hr1, Hr2, Hr3⟩
  sl_unfold [cc1__sc_gather_body]
  sl_exec (disch := exact View.amount_pos _ _ (show 0 < S4x128.numel by decide))
  sl_for (invL1 d L (qTile1 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k1_t1_loop.trips = 8 := tb1_trips
    obtain ⟨hn7, hn8⟩ := nAct_bounds1 L
    by_cases hA : Act1 L k
    · obtain ⟨hc, hc'⟩ := cnt_act1 L k hA
      have hkA := (act_iff_lt1 L k).mp hA
      unfold invL1
      rw [hc, hc', idxAt1_act d L (qTile1 L) I k hA, rowsAt1_succ d L X I k hA]
      by_cases h2 : k1_cond2 L k = 1#1
      · have hlt := (pre_iff_lt1 L k).mp h2
        have hk1 : k.val + 1 < k1_t1_loop.trips := by omega
        have hA' : Act1 L ⟨k.val + 1, hk1⟩ := (act_iff_lt1 L ⟨k.val + 1, hk1⟩).mpr hlt
        rw [idxAt1_act d L (qTile1 L) I ⟨k.val + 1, hk1⟩ hA']
        rcases Nat.eq_zero_or_pos k.val with hk0 | hkp
        · -- the first trip
          have hrows0 : rowsAt1 d L X I k.val = rowsIdle1 d L := by rw [hk0]; rfl
          rw [hrows0]
          have hT := tripC1 d L (qTile1 L) X I G O W k ⟨k.val + 1, hk1⟩ hk0 rfl hA hA' h2 hin
            iprop(Transfers.MayWaits (thr1 d L) (none : HIx 5) O ∗ bigSep (Finset.univ.erase k) (outPhi1 d L X I G k.val))
          have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first1' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first1' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k1_t1_loop.trips := by omega
          have hp : (⟨k.val - 1, htp⟩ : Fin k1_t1_loop.trips).val + 1 = k.val := by simp only; omega
          have hAp : Act1 L ⟨k.val - 1, htp⟩ := (act_iff_lt1 L ⟨k.val - 1, htp⟩).mpr (by simp only; omega)
          have hrows : rowsAt1 d L X I k.val = rowsFly1 d L X I ⟨k.val - 1, htp⟩ hAp := by
            have h := rowsAt1_succ d L X I ⟨k.val - 1, htp⟩ hAp
            rwa [hp] at h
          rw [hrows]
          have hT := tripA1 d L (qTile1 L) X I G O W k ⟨k.val - 1, htp⟩ ⟨k.val + 1, hk1⟩ hp rfl hA hAp hA' h2 hin
            iprop(Transfers.MayWaits (thr1 d L) (none : HIx 5) O ∗ bigSep ((Finset.univ.erase k).erase ⟨k.val - 1, htp⟩) (outPhi1 d L X I G k.val))
          have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take1 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put1 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct1 L := fun h => h2 ((pre_iff_lt1 L k).mpr h)
        have hidx' : idxAt1 d L (qTile1 L) I (k.val + 1) = idxIdle1 d L (qTile1 L) I := by
          unfold idxAt1
          split_ifs with h1 h3
          · exact absurd ((act_iff_lt1 L ⟨k.val + 1, h1⟩).mp h3) hnlt
          · rfl
          · rfl
        rw [hidx']
        have htp : k.val - 1 < k1_t1_loop.trips := by omega
        have hp : (⟨k.val - 1, htp⟩ : Fin k1_t1_loop.trips).val + 1 = k.val := by simp only; omega
        have hAp : Act1 L ⟨k.val - 1, htp⟩ := (act_iff_lt1 L ⟨k.val - 1, htp⟩).mpr (by simp only; omega)
        have hrows : rowsAt1 d L X I k.val = rowsFly1 d L X I ⟨k.val - 1, htp⟩ hAp := by
          have h := rowsAt1_succ d L X I ⟨k.val - 1, htp⟩ hAp
          rwa [hp] at h
        rw [hrows]
        have hT := tripB1 d L (qTile1 L) X I G O W k ⟨k.val - 1, htp⟩ hp hA hAp h2 hin
          iprop(Transfers.MayWaits (thr1 d L) (none : HIx 5) O ∗ bigSep ((Finset.univ.erase k).erase ⟨k.val - 1, htp⟩) (outPhi1 d L X I G k.val))
        have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take1 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put1 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle1 L k hA
      have hge : nAct1 L ≤ k.val := Nat.not_lt.mp (fun h => hA ((act_iff_lt1 L k).mpr h))
      have hidx' : idxAt1 d L (qTile1 L) I (k.val + 1) = idxIdle1 d L (qTile1 L) I := by
        unfold idxAt1
        split_ifs with h1 h3
        · exact absurd ((act_iff_lt1 L ⟨k.val + 1, h1⟩).mp h3) (by simp only; omega)
        · rfl
        · rfl
      unfold invL1
      rw [hc, hc', idxAt1_idle d L (qTile1 L) I k hA, hidx']
      have hprog : tile_body1.sl.prog.body_1 (F := F) L k acc = k1_t1_body L xW (Memref.isWhole_whole _) iW (Memref.isWhole_whole _) oW (Memref.isWhole_whole _)
            sI (Memref.isWhole_whole _) sR (Memref.isWhole_whole _) cc1_scratch2 cc1_scratch3 cc1_scratch4 cc1_scratch5 cc1_scratch6 cc1_scratch7 cc1_scratch8 cc1_scratch9 cc1_scratch10
          (Scalar.addi (Scalar.muli (BitVec.ofNat 32 (L 1).val) 2#32) (BitVec.ofNat 32 (L 0).val)) k () := rfl
      rw [hprog]
      exact tripI1 d L k hA _
  · -- the invariant before the first trip
    have h0 : 0 < k1_t1_loop.trips := by rw [tb1_trips]; omega
    have hA0 : Act1 L ⟨0, h0⟩ := (act_iff_lt1 L ⟨0, h0⟩).mpr (by have := (nAct_bounds1 L).1; simp only; omega)
    unfold invL1
    rw [show cnt1 L 0 = 0 from Nat.zero_min _, idxAt1_act d L (qTile1 L) I ⟨0, h0⟩ hA0, show rowsAt1 d L X I 0 = rowsIdle1 d L from rfl]
    unfold xPart1 idxFly1 gsems1 rowsIdle1 owesPart1 idxDeliv1
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first1 d L I h0 hA0 s0
      rw [slot_first_set1 L h0 hA0, chunk_first_set1 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds1 L
  have htr : k1_t1_loop.trips = 8 := tb1_trips
  obtain ⟨m, hm⟩ : ∃ m, nAct1 L = m + 1 := ⟨nAct1 L - 1, by omega⟩
  have hmlt : m < k1_t1_loop.trips := by omega
  have hAm : Act1 L ⟨m, hmlt⟩ := (act_iff_lt1 L ⟨m, hmlt⟩).mpr (by simp only; omega)
  have hidle : ∀ t : Fin k1_t1_loop.trips, (⟨m, hmlt⟩ : Fin k1_t1_loop.trips).val < t.val → ¬ Act1 L t :=
    fun t ht h => by have := (act_iff_lt1 L t).mp h; simp only at ht; omega
  unfold invL1
  rw [cnt_end1 L, idxAt1_end d L (qTile1 L) I _ (lt_irrefl _), hm, rowsAt1_succ d L X I ⟨m, hmlt⟩ hAm]
  unfold xPart1 idxIdle1 gsems1 rowsFly1 owesPart1
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv1 pl1_0 pl1_1 pl1_2 pl1_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x1 d L (qTile1 L) X))
      iapply (x_toks1 d L (qTile1 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i1 d L (qTile1 L) I)) $$ Hi
    iapply (out_final1 d L X I G ⟨m, hmlt⟩ hAm hidle)
    isplitl [Hout]; · iexact Hout
    unfold oWins1
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI1 d L S)) $$ HsI
    isplitl [Hf0_src Hf1_src Hf2_src Hf3_src]
    · iapply (sR_join1 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins1 (none_ins1 (none_ins1 (none_ins1 hW')))

end Cert.Kernel.KP

end
-- ==== Proof.TileBody2a.lean ====
/-
  Groundwork for the body of call 2's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes2
import proofs.«210879_g80607946211848_cont_9to1_m_1212_13_alg».proof.Proof.Gen.KernelIdeal.Skeleton

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

/-! ## The loop's conditions, in closed form -/

/-- The tile's number. -/
abbrev wid2 (L : grid2.Coords) : ℕ := 2 * (L 1).val + (L 0).val

theorem tb2_trips : k2_t1_loop.trips = 8 := by decide

theorem tb2_act_iff : ∀ (L : grid2.Coords) (t : Fin k2_t1_loop.trips), k2_cond1 L t = 1#1 ↔ wid2 L + 32 * t.val < 250 := by decide +kernel
theorem tb2_pre_iff : ∀ (L : grid2.Coords) (t : Fin k2_t1_loop.trips), k2_cond2 L t = 1#1 ↔ wid2 L + 32 * t.val + 32 < 250 := by decide +kernel

/-! ## The memrefs, as the loop slices them -/

/-- Index chunk of trip `t` (the copy's source the trip waits for). -/
abbrev iCh2 (L : grid2.Coords) (t : Fin k2_t1_loop.trips) (h : Act2 L t) : Memref sig .scVector .hbm S4x128 .i32 :=
  ((iW).slice (Rect.unit (s := S250x4x128) (k2_off3 L t) S1x4x128.size (k2_off3_inb L t h)) (fun _ => rfl)).squeeze S4x128 squeezes_S1x4x128_S4x128
/-- The slot of the index scratch trip `t` reads its indices from: slot `t % 2`. -/
abbrev sSl2 (L : grid2.Coords) (t : Fin k2_t1_loop.trips) (h : Act2 L t) : Memref sig .scVector .vmem S4x128 .i32 :=
  ((sI).slice (Rect.unit (s := S2x4x128) (k2_off2 t) S1x4x128.size (k2_off2_inb L t h)) (fun _ => rfl)).squeeze S4x128 squeezes_S1x4x128_S4x128
/-- Plane `j` of the row scratch. -/
abbrev rPl2_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl2_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl2_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl2_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD2 (d : Dev nD) (L : grid2.Coords) (n : DmaSems sig S_) : GSem nD τ sig := (thr2 d L, SemLoc.dma n.sem)

end Cert.KernelIdeal.KP

end
-- ==== Proof.TileBody2b.lean ====
/-
  The loop of call 2's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody2a

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The number of the tile's active trips: its chunks `w, w + 32, …` below 250. -/
abbrev nAct2 (L : grid2.Coords) : ℕ := (250 - wid2 L + 31) / 32
/-- The active trips among the first `k`. -/
abbrev cnt2 (L : grid2.Coords) (k : ℕ) : ℕ := min k (nAct2 L)

/-- The index scratch showing, in both slots, the words of trip `t`'s chunk (chunk number reduced modulo 250: the
    identity for an active trip). -/
def slotImg2 (t : ℕ) : Buf (Elt F) ((thr2 d L).loc cc2_scratch0) :=
  fun i => I (ix3 (⟨(wid2 L + 32 * t) % 250, Nat.mod_lt _ (by decide)⟩ : Fin 250) (i 1) (i 2))

/-- Contents `S` of the index scratch show, on the slot trip `t` reads, the words of the trip's chunk. -/
def SlotAgrees2 (t : Fin k2_t1_loop.trips) (h : Act2 L t) (S : Buf (Elt F) ((thr2 d L).loc cc2_scratch0)) : Prop :=
  ∀ i ∈ (sSl2 L t h).view.set, S i = slotImg2 d L I t.val i

/-- What the index fetch for trip `t` delivers: the slot at contents `S`, and the chunk's share back. -/
def idxDeliv2 (t : Fin k2_t1_loop.trips) (h : Act2 L t) (S : Buf (Elt F) ((thr2 d L).loc cc2_scratch0)) : sProp 𝕄 :=
  iprop(((sI).view.loc (thr2 d L) ↦[(sSl2 L t h).view.set]{fullShare} S)
    ∗ ((iW).view.loc (thr2 d L) ↦[(iCh2 L t h).view.set]{q} I))

/-- The index side before trip `k`: while the trip is active its chunk's fetch is in flight (the chunk and its slot
    lent); afterwards the semaphore rests at zero and block and scratch are whole. -/
def idxPart2 (k : ℕ) : sProp 𝕄 :=
  if hk : k < k2_t1_loop.trips then
    if hA : Act2 L ⟨k, hk⟩ then
      iprop(∃ S, ⌜SlotAgrees2 d L I ⟨k, hk⟩ hA S⌝
        ∗ Transfers.Flight countersEmb (thr2 d L) (SemLoc.dma cc2_scratch10.sem) (default : HIx 5) 16384 (idxDeliv2 d L q I ⟨k, hk⟩ hA S)
        ∗ ((iW).view.loc (thr2 d L) ↦[Finset.univ \ (iCh2 L ⟨k, hk⟩ hA).view.set]{q} I)
        ∗ ((sI).view.loc (thr2 d L) ↦[Finset.univ \ (sSl2 L ⟨k, hk⟩ hA).view.set]{fullShare} S))
    else iprop(semVal (cellD2 d L cc2_scratch10) 0 ∗ ((iW).view.loc (thr2 d L) ↦{q} I) ∗ ∃ s, (sI).view.loc (thr2 d L) ↦{fullShare} s)
  else iprop(semVal (cellD2 d L cc2_scratch10) 0 ∗ ((iW).view.loc (thr2 d L) ↦{q} I) ∗ ∃ s, (sI).view.loc (thr2 d L) ↦{fullShare} s)

/-- What the write-out of plane `j` of trip `t` delivers: the window at the gathered array, and the plane back. -/
def wDeliv2 (t : Fin k2_t1_loop.trips) (h : Act2 L t) (j : Fin 4) (Dsrc : sProp 𝕄) : sProp 𝕄 :=
  iprop(((oW).view.loc (thr2 d L) ↦[oSet2 L t h j]{fullShare} gath (F := F) X I) ∗ Dsrc)

/-- The four windows of trip `t` at contents `f`, each spelt through its own memref. -/
def oWins2 (t : Fin k2_t1_loop.trips) (h : Act2 L t) (f : Buf (Elt F) (oLoc2 d)) : sProp 𝕄 :=
  iprop(((oWin2_0 L t h).view.loc (thr2 d L) ↦[(oWin2_0 L t h).view.set]{fullShare} f)
    ∗ ((oWin2_1 L t h).view.loc (thr2 d L) ↦[(oWin2_1 L t h).view.set]{fullShare} f)
    ∗ ((oWin2_2 L t h).view.loc (thr2 d L) ↦[(oWin2_2 L t h).view.set]{fullShare} f)
    ∗ ((oWin2_3 L t h).view.loc (thr2 d L) ↦[(oWin2_3 L t h).view.set]{fullShare} f))

omit [FloatOps F] in
/-- An active trip's share of the result is its four windows. -/
theorem oTrip2_act (t : Fin k2_t1_loop.trips) (h : Act2 L t) (f : Buf (Elt F) (oLoc2 d)) :
    oTrip2 d L f t = oWins2 d L t h f := by
  unfold oTrip2 oWins2; rw [dif_pos h]

omit [FloatOps F] in
/-- An idle trip has none. -/
theorem oTrip2_idle (t : Fin k2_t1_loop.trips) (h : ¬ Act2 L t) (f : Buf (Elt F) (oLoc2 d)) :
    oTrip2 d L f t = (iprop(emp) : sProp 𝕄) := by
  unfold oTrip2; rw [dif_neg h]

/-- Plane `j` of the row scratch at contents `r`. -/
abbrev pl2_0 (r : Buf (Elt F) ((thr2 d L).loc cc2_scratch1)) : sProp 𝕄 := (rPl2_0).view.loc (thr2 d L) ↦[(rPl2_0).view.set]{fullShare} r
abbrev pl2_1 (r : Buf (Elt F) ((thr2 d L).loc cc2_scratch1)) : sProp 𝕄 := (rPl2_1).view.loc (thr2 d L) ↦[(rPl2_1).view.set]{fullShare} r
abbrev pl2_2 (r : Buf (Elt F) ((thr2 d L).loc cc2_scratch1)) : sProp 𝕄 := (rPl2_2).view.loc (thr2 d L) ↦[(rPl2_2).view.set]{fullShare} r
abbrev pl2_3 (r : Buf (Elt F) ((thr2 d L).loc cc2_scratch1)) : sProp 𝕄 := (rPl2_3).view.loc (thr2 d L) ↦[(rPl2_3).view.set]{fullShare} r

/-- The row scratch and the write-out semaphores after `n` active trips: none done, the planes and the semaphores
    rest; else the last trip's four write-outs are in flight. -/
def rowsPart2 (n : ℕ) : sProp 𝕄 :=
  if hn : 0 < n then
    if hk : n - 1 < k2_t1_loop.trips then
      if hA : Act2 L ⟨n - 1, hk⟩ then
        iprop(∃ r0 r1 r2 r3, Transfers.Flight countersEmb (thr2 d L) (SemLoc.dma cc2_scratch6.sem) (default : HIx 5) 524288 (wDeliv2 d L X I ⟨n - 1, hk⟩ hA 0 (pl2_0 d L r0))
          ∗ Transfers.Flight countersEmb (thr2 d L) (SemLoc.dma cc2_scratch7.sem) (default : HIx 5) 524288 (wDeliv2 d L X I ⟨n - 1, hk⟩ hA 1 (pl2_1 d L r1))
          ∗ Transfers.Flight countersEmb (thr2 d L) (SemLoc.dma cc2_scratch8.sem) (default : HIx 5) 524288 (wDeliv2 d L X I ⟨n - 1, hk⟩ hA 2 (pl2_2 d L r2))
          ∗ Transfers.Flight countersEmb (thr2 d L) (SemLoc.dma cc2_scratch9.sem) (default : HIx 5) 524288 (wDeliv2 d L X I ⟨n - 1, hk⟩ hA 3 (pl2_3 d L r3)))
      else iprop(False)
    else iprop(False)
  else
    iprop((semVal (cellD2 d L cc2_scratch6) 0 ∗ ∃ r, pl2_0 d L r) ∗ (semVal (cellD2 d L cc2_scratch7) 0 ∗ ∃ r, pl2_1 d L r)
      ∗ (semVal (cellD2 d L cc2_scratch8) 0 ∗ ∃ r, pl2_2 d L r) ∗ (semVal (cellD2 d L cc2_scratch9) 0 ∗ ∃ r, pl2_3 d L r))

/-- The result's windows after `n` active trips: the trips before the last at the gathered array, the last one's
    in flight, the later ones as found. -/
def outPart2 (n : ℕ) : sProp 𝕄 :=
  bigSep Finset.univ fun t : Fin k2_t1_loop.trips =>
    if t.val + 1 < n then oTrip2 d L (gath (F := F) X I) t else if t.val + 1 = n then iprop(emp) else oTrip2 d L G t

/-- The loop's invariant before trip `k`. -/
def inv2 (O : CellTallies nD τ sig (HIx 5)) (W : Waits sig (HIx 5)) (k : ℕ) (_ : PUnit) : sProp 𝕄 :=
  iprop(Transfers.MayWaits (thr2 d L) (none : HIx 5) O
    ∗ (((xW).view.loc (thr2 d L) ↦{Transfers.shareDrop q 4} X) ∗ ((xW).view.loc (thr2 d L) ↦{Transfers.shareTok q 4 0} X) ∗ ((xW).view.loc (thr2 d L) ↦{Transfers.shareTok q 4 1} X)
        ∗ ((xW).view.loc (thr2 d L) ↦{Transfers.shareTok q 4 2} X) ∗ ((xW).view.loc (thr2 d L) ↦{Transfers.shareTok q 4 3} X))
    ∗ idxPart2 d L q I k
    ∗ (semVal (cellD2 d L cc2_scratch2) 0 ∗ semVal (cellD2 d L cc2_scratch3) 0 ∗ semVal (cellD2 d L cc2_scratch4) 0 ∗ semVal (cellD2 d L cc2_scratch5) 0)
    ∗ rowsPart2 d L X I (cnt2 L k)
    ∗ outPart2 d L X I G (cnt2 L k)
    ∗ ∃ W', ⌜∀ p ∈ W', p ∈ W ∨ p.2 = none⌝ ∗ owes (thr2 d L) O W')

/-! ## Geometry of the index scratch: the two slots, the four index lists -/

omit [FloatOps F] in
/-- The slot a prefetch writes (slot `1 - k % 2`) and the slot the trip reads (slot `k % 2`) are disjoint. -/
theorem slots_disj2 (k : Fin k2_t1_loop.trips) (hA : Act2 L k) (h2 : k2_cond2 L k = 1#1) :
    Disjoint (((sI).slice (Rect.unit (s := S2x4x128) (k2_off4 k) S1x4x128.size (k2_off4_inb L k hA h2)) (fun _ => rfl)).squeeze S4x128 squeezes_S1x4x128_S4x128).view.set
      (sSl2 L k hA).view.set := by
  show Disjoint ((((sI).view.slice (Rect.unit (s := S2x4x128) (k2_off4 k) S1x4x128.size (k2_off4_inb L k hA h2))).reshape S4x128 squeezes_S1x4x128_S4x128.numel_eq).set)
    ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  refine Rect.unit_disjoint 0 ?_
  rw [k2_off4_eq, k2_off2_eq]
  simp
  omega
omit [FloatOps F] in
theorem list6_disj2 (k : Fin k2_t1_loop.trips) (hA : Act2 L k) (h2 : k2_cond2 L k = 1#1) :
    Disjoint (((sI).slice (Rect.unit (s := S2x4x128) (k2_off6 k) S1x1x128.size (k2_off6_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off6 k) S1x1x128.size (k2_off6_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off6_eq]
  simp
  omega

omit [FloatOps F] in
/-- Index list `0` of the trip lies in the trip's slot. -/
theorem list6_sub2 (k : Fin k2_t1_loop.trips) (hA : Act2 L k) :
    (((sI).slice (Rect.unit (s := S2x4x128) (k2_off6 k) S1x1x128.size (k2_off6_inb L k hA)) (fun _ => rfl)).squeeze S128 squeezes_S1x1x128_S128).view.set
      ⊆ (sSl2 L k hA).view.set := by
  show ((((sI).view.slice (Rect.unit (s := S2x4x128) (k2_off6 k) S1x1x128.size (k2_off6_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off6 k) S1x1x128.size (k2_off6_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list6_disj2 L k hA h2) hi) hm)]
  exact hS i (list6_sub2 L k hA hi)

/-- So the words of index list `0` name rows of the table. -/
theorem list6_inr2 (k : Fin k2_t1_loop.trips) (hA : Act2 L k) (S' : Buf (Elt F) ((thr2 d L).loc cc2_scratch0))
    (hS' : ∀ i ∈ (((sI).slice (Rect.unit (s := S2x4x128) (k2_off6 k) S1x1x128.size (k2_off6_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off6 k) S1x1x128.size (k2_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj2 (k : Fin k2_t1_loop.trips) (hA : Act2 L k) (h2 : k2_cond2 L k = 1#1) :
    Disjoint (((sI).slice (Rect.unit (s := S2x4x128) (k2_off7 k) S1x1x128.size (k2_off7_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off7 k) S1x1x128.size (k2_off7_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off7_eq]
  simp
  omega

omit [FloatOps F] in
/-- Index list `1` of the trip lies in the trip's slot. -/
theorem list7_sub2 (k : Fin k2_t1_loop.trips) (hA : Act2 L k) :
    (((sI).slice (Rect.unit (s := S2x4x128) (k2_off7 k) S1x1x128.size (k2_off7_inb L k hA)) (fun _ => rfl)).squeeze S128 squeezes_S1x1x128_S128).view.set
      ⊆ (sSl2 L k hA).view.set := by
  show ((((sI).view.slice (Rect.unit (s := S2x4x128) (k2_off7 k) S1x1x128.size (k2_off7_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off7 k) S1x1x128.size (k2_off7_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list7_disj2 L k hA h2) hi) hm)]
  exact hS i (list7_sub2 L k hA hi)

/-- So the words of index list `1` name rows of the table. -/
theorem list7_inr2 (k : Fin k2_t1_loop.trips) (hA : Act2 L k) (S' : Buf (Elt F) ((thr2 d L).loc cc2_scratch0))
    (hS' : ∀ i ∈ (((sI).slice (Rect.unit (s := S2x4x128) (k2_off7 k) S1x1x128.size (k2_off7_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off7 k) S1x1x128.size (k2_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj2 (k : Fin k2_t1_loop.trips) (hA : Act2 L k) (h2 : k2_cond2 L k = 1#1) :
    Disjoint (((sI).slice (Rect.unit (s := S2x4x128) (k2_off8 k) S1x1x128.size (k2_off8_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off8 k) S1x1x128.size (k2_off8_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off8_eq]
  simp
  omega

omit [FloatOps F] in
/-- Index list `2` of the trip lies in the trip's slot. -/
theorem list8_sub2 (k : Fin k2_t1_loop.trips) (hA : Act2 L k) :
    (((sI).slice (Rect.unit (s := S2x4x128) (k2_off8 k) S1x1x128.size (k2_off8_inb L k hA)) (fun _ => rfl)).squeeze S128 squeezes_S1x1x128_S128).view.set
      ⊆ (sSl2 L k hA).view.set := by
  show ((((sI).view.slice (Rect.unit (s := S2x4x128) (k2_off8 k) S1x1x128.size (k2_off8_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off8 k) S1x1x128.size (k2_off8_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list8_disj2 L k hA h2) hi) hm)]
  exact hS i (list8_sub2 L k hA hi)

/-- So the words of index list `2` name rows of the table. -/
theorem list8_inr2 (k : Fin k2_t1_loop.trips) (hA : Act2 L k) (S' : Buf (Elt F) ((thr2 d L).loc cc2_scratch0))
    (hS' : ∀ i ∈ (((sI).slice (Rect.unit (s := S2x4x128) (k2_off8 k) S1x1x128.size (k2_off8_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off8 k) S1x1x128.size (k2_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj2 (k : Fin k2_t1_loop.trips) (hA : Act2 L k) (h2 : k2_cond2 L k = 1#1) :
    Disjoint (((sI).slice (Rect.unit (s := S2x4x128) (k2_off9 k) S1x1x128.size (k2_off9_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off9 k) S1x1x128.size (k2_off9_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off9_eq]
  simp
  omega

omit [FloatOps F] in
/-- Index list `3` of the trip lies in the trip's slot. -/
theorem list9_sub2 (k : Fin k2_t1_loop.trips) (hA : Act2 L k) :
    (((sI).slice (Rect.unit (s := S2x4x128) (k2_off9 k) S1x1x128.size (k2_off9_inb L k hA)) (fun _ => rfl)).squeeze S128 squeezes_S1x1x128_S128).view.set
      ⊆ (sSl2 L k hA).view.set := by
  show ((((sI).view.slice (Rect.unit (s := S2x4x128) (k2_off9 k) S1x1x128.size (k2_off9_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off9 k) S1x1x128.size (k2_off9_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list9_disj2 L k hA h2) hi) hm)]
  exact hS i (list9_sub2 L k hA hi)

/-- So the words of index list `3` name rows of the table. -/
theorem list9_inr2 (k : Fin k2_t1_loop.trips) (hA : Act2 L k) (S' : Buf (Elt F) ((thr2 d L).loc cc2_scratch0))
    (hS' : ∀ i ∈ (((sI).slice (Rect.unit (s := S2x4x128) (k2_off9 k) S1x1x128.size (k2_off9_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off9 k) S1x1x128.size (k2_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond2 : ∀ k : Fin k2_t1_loop.trips, 1 ≤ k.val →
    Scalar.cmpi CmpIPredicate.ne (Scalar.extui (Scalar.cmpi CmpIPredicate.sge (Scf.iv 0#32 1#32 k) 1#32)) 0#32 = 1#1 := by decide

end Cert.KernelIdeal.KP

end
-- ==== Proof.TileVal2.lean ====
/-
  The values the task's transfers carry, call 2.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody2b
import proofs.«210879_g80607946211848_cont_9to1_m_1212_13_alg».proof.Proof.TileVal0

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable (d : Dev nD) (L : grid2.Coords)

/-! ## The slot and the chunk a trip prefetches are the next trip's; the first fetch's are trip 0's -/

/-- A 1 × 4 × 128 window of the index scratch, squeezed: its elements are its rectangle's. -/
theorem set_slot2 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc2_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk2 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v12_scv : Ref sig .scVector)).slice (Rect.unit (s := S250x4x128) off S1x4x128.size inb)).reshape S4x128 squeezes_S1x4x128_S4x128.numel_eq).set = _
  rw [View.set_reshape, View.set_slice_whole]

theorem slot_next_set2 (k k' : Fin k2_t1_loop.trips) (hk : k'.val = k.val + 1) (hA : Act2 L k) (hA' : Act2 L k') (h2 : k2_cond2 L k = 1#1) :
    (sSl2 L k' hA').view.set
      = (((sI).slice (Rect.unit (s := S2x4x128) (k2_off4 k) S1x4x128.size (k2_off4_inb L k hA h2)) (fun _ => rfl)).squeeze S4x128 squeezes_S1x4x128_S4x128).view.set := by
  rw [set_slot2, set_slot2]
  refine unit_set_congr ?_
  have e : (k.val + 1) % 2 = 1 - k.val % 2 := by omega
  rw [k2_off2_eq, k2_off4_eq, hk, e]

theorem chunk_next_set2 (k k' : Fin k2_t1_loop.trips) (hk : k'.val = k.val + 1) (hA : Act2 L k) (hA' : Act2 L k') (h2 : k2_cond2 L k = 1#1) :
    (iCh2 L k' hA').view.set
      = (((iW).slice (Rect.unit (s := S250x4x128) (k2_off5 L k) S1x4x128.size (k2_off5_inb L k hA h2)) (fun _ => rfl)).squeeze S4x128 squeezes_S1x4x128_S4x128).view.set := by
  rw [set_chunk2, set_chunk2]
  refine unit_set_congr ?_
  have e : 2 * (L 1).val + (L 0).val + 32 * (k.val + 1) = 2 * (L 1).val + (L 0).val + 32 * k.val + 32 := by omega
  rw [k2_off3_eq, k2_off5_eq, hk, e]

theorem slot_first_set2 (h0 : 0 < k2_t1_loop.trips) (hA0 : Act2 L ⟨0, h0⟩) :
    (sSl2 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot2, set_slot2]
  refine unit_set_congr ?_
  rw [k2_off2_eq]
  rfl

theorem chunk_first_set2 (h0 : 0 < k2_t1_loop.trips) (hA0 : Act2 L ⟨0, h0⟩) :
    (iCh2 L ⟨0, h0⟩ hA0).view.set
      = (((iW).slice (Rect.unit (s := S250x4x128) (k2_off1 L) S1x4x128.size (k2_off1_inb L)) (fun _ => rfl)).squeeze S4x128 squeezes_S1x4x128_S4x128).view.set := by
  rw [set_chunk2, set_chunk2]
  refine unit_set_congr ?_
  rw [k2_off3_eq, k2_off1_eq]
  rfl

/-! ## What an index fetch lands: the chunk's words, in the slot -/

/-- Where element `y` of a squeezed 1 × 4 × 128 window of the index scratch at offsets `off` lies. -/
theorem emb_slot2 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk2 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc2 d))

/-- A fetch of chunk `n` (below 250) into slot `p` leaves, on that slot, the words the slot image of a trip whose chunk
    is `n` shows. -/
theorem fetch_agrees2 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid2 L + 32 * t) % 250 = n)
    (S : Buf (Elt F) ((thr2 d L).loc cc2_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg2 d L I t i := by
  intro i hi
  obtain ⟨y, -, rfl⟩ := Finset.mem_map.mp hi
  rw [View.write_emb_of_mem _ _ (Finset.mem_univ y)]
  unfold slotImg2
  show I ((((iW).slice (Rect.unit (s := S250x4x128) offC S1x4x128.size inbC) (fun _ => rfl)).squeeze S4x128 squeezes_S1x4x128_S4x128).view.emb y) = I _
  congr 1
  funext a
  apply Fin.ext
  have c0 := emb_chunk2 offC inbC y 0
  have c1 := emb_chunk2 offC inbC y 1
  have c2 := emb_chunk2 offC inbC y 2
  have s1 := emb_slot2 offS inbS y 1
  have s2 := emb_slot2 offS inbS y 2
  subst hS hC
  match a with
  | 0 => exact c0.trans (show n + 0 = (wid2 L + 32 * t) % 250 from by omega)
  | 1 => exact c1.trans s1.symm
  | 2 => exact c2.trans s2.symm

/-- The prefetched slot shows the NEXT trip's chunk. -/
theorem slot_agree_next2 (k k' : Fin k2_t1_loop.trips) (hk : k'.val = k.val + 1) (hA : Act2 L k) (hA' : Act2 L k') (h2 : k2_cond2 L k = 1#1)
    (S : Buf (Elt F) ((thr2 d L).loc cc2_scratch0)) :
    SlotAgrees2 d L I k' hA' (View.write (Elt F) (((sI).slice (Rect.unit (s := S2x4x128) (k2_off4 k) S1x4x128.size (k2_off4_inb L k hA h2)) (fun _ => rfl)).squeeze S4x128 squeezes_S1x4x128_S4x128).view S
      (ReadAs.same.apply (View.read (Elt F) (((iW).slice (Rect.unit (s := S250x4x128) (k2_off5 L k) S1x4x128.size (k2_off5_inb L k hA h2)) (fun _ => rfl)).squeeze S4x128 squeezes_S1x4x128_S4x128).view I)) Finset.univ) := by
  intro i hi
  rw [slot_next_set2 L k k' hk hA hA' h2] at hi
  have hlt : wid2 L + 32 * k'.val < 250 := (tb2_act_iff L k').mp hA'
  exact fetch_agrees2 d L I (k2_off4 k) (k2_off4_inb L k hA h2) (k2_off5 L k) (k2_off5_inb L k hA h2) (1 - k.val % 2) (wid2 L + 32 * k.val + 32) k'.val (k2_off4_eq k) (k2_off5_eq L k)
    (by rw [hk] at hlt ⊢; omega) S i hi

/-- The first fetch's slot shows trip 0's chunk. -/
theorem slot_agree_first2 (h0 : 0 < k2_t1_loop.trips) (hA0 : Act2 L ⟨0, h0⟩) (S : Buf (Elt F) ((thr2 d L).loc cc2_scratch0)) :
    SlotAgrees2 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k2_off1 L) S1x4x128.size (k2_off1_inb L)) (fun _ => rfl)).squeeze S4x128 squeezes_S1x4x128_S4x128).view I)) Finset.univ) := by
  intro i hi
  rw [slot_first_set2 L h0 hA0] at hi
  have hlt : wid2 L + 32 * (⟨0, h0⟩ : Fin k2_t1_loop.trips).val < 250 := (tb2_act_iff L ⟨0, h0⟩).mp hA0
  exact fetch_agrees2 d L I ![0, 0, 0] inb_S2x4x128_S1x4x128_0_0_0 (k2_off1 L) (k2_off1_inb L) 0 (wid2 L) 0 rfl (k2_off1_eq L) (by simp only [] at hlt; omega) S i hi

/-! ## What a write-out carries: the gathered array on its window -/

/-- Where element `y` of a squeezed 1 × 128 × 128 window of the result at offsets `off` lies. -/
theorem emb_win2 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list2 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen2 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid2 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc2 d)) (S' : Buf (Elt F) ((thr2 d L).loc cc2_scratch0))
    (hS' : ∀ i ∈ (((sI).slice (Rect.unit (s := S2x4x128) offL S1x1x128.size inbL) (fun _ => rfl)).squeeze S128 squeezes_S1x1x128_S128).view.set, S' i = slotImg2 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win2 offW inbW y 0
  have w1 := emb_win2 offW inbW y 1
  have w2 := emb_win2 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg2
    congr 2
    have l1 := emb_list2 ![p, j.val, 0] inbL (S128.rowMajor.symm (Fin.cast hnum.symm (y gathers_S160000x128_S128x128.axis'))) 1
    have l2 := emb_list2 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val2_0 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off6 k) S1x1x128.size (k2_off6_inb L k hA)) (fun _ => rfl)).squeeze S128 squeezes_S1x1x128_S128).view.set, S' i = slotImg2 d L I k.val i)
    (hin : ∀ x : S128.Idx, (View.read (Elt F) (((sI).slice (Rect.unit (s := S2x4x128) (k2_off6 k) S1x1x128.size (k2_off6_inb L k hA)) (fun _ => rfl)).squeeze S128 squeezes_S1x1x128_S128).view S' x).toNat < 160000)
    (hI : ∀ i, (I i).toNat < 160000) :
    ∀ i ∈ (oWin2_0 L k hA).view.set,
      (oWin2_0 L k hA).view.writes (Elt F) G [⟨Rect.whole S128x128, ReadAs.same.apply (View.read (Elt F) (rPl2_0).view ((rPl2_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off6 k) S1x1x128.size (k2_off6_inb L k hA)) (fun _ => rfl)).squeeze S128 squeezes_S1x1x128_S128).view S') (by decide) hin)⟩]))⟩] i
        = gath (F := F) X I i :=
  win_val_gen2 d L I X (k2_off10 L k) (k2_off10_inb L k hA) (k2_off6 k) (k2_off6_inb L k hA) 0 (k.val % 2) (wid2 L + 32 * k.val)
    (256 * (L 1).val + 128 * (L 0).val + 4096 * k.val) k.val (k2_off10_eq L k)
    (show 256 * (L 1).val + 128 * (L 0).val + 4096 * k.val = 128 * (2 * (L 1).val + (L 0).val + 32 * k.val) by omega)
    (k2_off6_eq k) (Nat.mod_eq_of_lt ((tb2_act_iff L k).mp hA)) (rPl2_0).view r (by decide) G S' hS' hin hI

/-- Plane 1 of a trip: its window of the result, written with the plane of the row scratch after the gather of the rows
    its index list names, holds the gathered array. -/
theorem win_val2_1 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off7 k) S1x1x128.size (k2_off7_inb L k hA)) (fun _ => rfl)).squeeze S128 squeezes_S1x1x128_S128).view.set, S' i = slotImg2 d L I k.val i)
    (hin : ∀ x : S128.Idx, (View.read (Elt F) (((sI).slice (Rect.unit (s := S2x4x128) (k2_off7 k) S1x1x128.size (k2_off7_inb L k hA)) (fun _ => rfl)).squeeze S128 squeezes_S1x1x128_S128).view S' x).toNat < 160000)
    (hI : ∀ i, (I i).toNat < 160000) :
    ∀ i ∈ (oWin2_1 L k hA).view.set,
      (oWin2_1 L k hA).view.writes (Elt F) G [⟨Rect.whole S128x128, ReadAs.same.apply (View.read (Elt F) (rPl2_1).view ((rPl2_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off7 k) S1x1x128.size (k2_off7_inb L k hA)) (fun _ => rfl)).squeeze S128 squeezes_S1x1x128_S128).view S') (by decide) hin)⟩]))⟩] i
        = gath (F := F) X I i :=
  win_val_gen2 d L I X (k2_off11 L k) (k2_off11_inb L k hA) (k2_off7 k) (k2_off7_inb L k hA) 1 (k.val % 2) (wid2 L + 32 * k.val)
    (256 * (L 1).val + 128 * (L 0).val + 4096 * k.val) k.val (k2_off11_eq L k)
    (show 256 * (L 1).val + 128 * (L 0).val + 4096 * k.val = 128 * (2 * (L 1).val + (L 0).val + 32 * k.val) by omega)
    (k2_off7_eq k) (Nat.mod_eq_of_lt ((tb2_act_iff L k).mp hA)) (rPl2_1).view r (by decide) G S' hS' hin hI

/-- Plane 2 of a trip: its window of the result, written with the plane of the row scratch after the gather of the rows
    its index list names, holds the gathered array. -/
theorem win_val2_2 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off8 k) S1x1x128.size (k2_off8_inb L k hA)) (fun _ => rfl)).squeeze S128 squeezes_S1x1x128_S128).view.set, S' i = slotImg2 d L I k.val i)
    (hin : ∀ x : S128.Idx, (View.read (Elt F) (((sI).slice (Rect.unit (s := S2x4x128) (k2_off8 k) S1x1x128.size (k2_off8_inb L k hA)) (fun _ => rfl)).squeeze S128 squeezes_S1x1x128_S128).view S' x).toNat < 160000)
    (hI : ∀ i, (I i).toNat < 160000) :
    ∀ i ∈ (oWin2_2 L k hA).view.set,
      (oWin2_2 L k hA).view.writes (Elt F) G [⟨Rect.whole S128x128, ReadAs.same.apply (View.read (Elt F) (rPl2_2).view ((rPl2_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off8 k) S1x1x128.size (k2_off8_inb L k hA)) (fun _ => rfl)).squeeze S128 squeezes_S1x1x128_S128).view S') (by decide) hin)⟩]))⟩] i
        = gath (F := F) X I i :=
  win_val_gen2 d L I X (k2_off12 L k) (k2_off12_inb L k hA) (k2_off8 k) (k2_off8_inb L k hA) 2 (k.val % 2) (wid2 L + 32 * k.val)
    (256 * (L 1).val + 128 * (L 0).val + 4096 * k.val) k.val (k2_off12_eq L k)
    (show 256 * (L 1).val + 128 * (L 0).val + 4096 * k.val = 128 * (2 * (L 1).val + (L 0).val + 32 * k.val) by omega)
    (k2_off8_eq k) (Nat.mod_eq_of_lt ((tb2_act_iff L k).mp hA)) (rPl2_2).view r (by decide) G S' hS' hin hI

/-- Plane 3 of a trip: its window of the result, written with the plane of the row scratch after the gather of the rows
    its index list names, holds the gathered array. -/
theorem win_val2_3 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off9 k) S1x1x128.size (k2_off9_inb L k hA)) (fun _ => rfl)).squeeze S128 squeezes_S1x1x128_S128).view.set, S' i = slotImg2 d L I k.val i)
    (hin : ∀ x : S128.Idx, (View.read (Elt F) (((sI).slice (Rect.unit (s := S2x4x128) (k2_off9 k) S1x1x128.size (k2_off9_inb L k hA)) (fun _ => rfl)).squeeze S128 squeezes_S1x1x128_S128).view S' x).toNat < 160000)
    (hI : ∀ i, (I i).toNat < 160000) :
    ∀ i ∈ (oWin2_3 L k hA).view.set,
      (oWin2_3 L k hA).view.writes (Elt F) G [⟨Rect.whole S128x128, ReadAs.same.apply (View.read (Elt F) (rPl2_3).view ((rPl2_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off9 k) S1x1x128.size (k2_off9_inb L k hA)) (fun _ => rfl)).squeeze S128 squeezes_S1x1x128_S128).view S') (by decide) hin)⟩]))⟩] i
        = gath (F := F) X I i :=
  win_val_gen2 d L I X (k2_off13 L k) (k2_off13_inb L k hA) (k2_off9 k) (k2_off9_inb L k hA) 3 (k.val % 2) (wid2 L + 32 * k.val)
    (256 * (L 1).val + 128 * (L 0).val + 4096 * k.val) k.val (k2_off13_eq L k)
    (show 256 * (L 1).val + 128 * (L 0).val + 4096 * k.val = 128 * (2 * (L 1).val + (L 0).val + 32 * k.val) by omega)
    (k2_off9_eq k) (Nat.mod_eq_of_lt ((tb2_act_iff L k).mp hA)) (rPl2_3).view r (by decide) G S' hS' hin hI

end Cert.KernelIdeal.KP

end
-- ==== Proof.TileTrip2.lean ====
/-
  One trip of the loop of call 2's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal2

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The table's share as the remainder and one read token per gather semaphore. -/
def xPart2 : sProp 𝕄 :=
  iprop(((xW).view.loc (thr2 d L) ↦{Transfers.shareDrop q 4} X) ∗ ((xW).view.loc (thr2 d L) ↦{Transfers.shareTok q 4 0} X) ∗ ((xW).view.loc (thr2 d L) ↦{Transfers.shareTok q 4 1} X)
    ∗ ((xW).view.loc (thr2 d L) ↦{Transfers.shareTok q 4 2} X) ∗ ((xW).view.loc (thr2 d L) ↦{Transfers.shareTok q 4 3} X))
/-- The gather semaphores at rest. -/
def gsems2 : sProp 𝕄 :=
  iprop(semVal (cellD2 d L cc2_scratch2) 0 ∗ semVal (cellD2 d L cc2_scratch3) 0 ∗ semVal (cellD2 d L cc2_scratch4) 0 ∗ semVal (cellD2 d L cc2_scratch5) 0)
/-- The index fetch of an active trip `t` in flight. -/
def idxFly2 (t : Fin k2_t1_loop.trips) (h : Act2 L t) : sProp 𝕄 :=
  iprop(∃ S, ⌜SlotAgrees2 d L I t h S⌝
    ∗ Transfers.Flight countersEmb (thr2 d L) (SemLoc.dma cc2_scratch10.sem) (default : HIx 5) 16384 (idxDeliv2 d L q I t h S)
    ∗ ((iW).view.loc (thr2 d L) ↦[Finset.univ \ (iCh2 L t h).view.set]{q} I)
    ∗ ((sI).view.loc (thr2 d L) ↦[Finset.univ \ (sSl2 L t h).view.set]{fullShare} S))
/-- The four write-outs of an active trip `t` in flight. -/
def rowsFly2 (t : Fin k2_t1_loop.trips) (h : Act2 L t) : sProp 𝕄 :=
  iprop(∃ r0 r1 r2 r3, Transfers.Flight countersEmb (thr2 d L) (SemLoc.dma cc2_scratch6.sem) (default : HIx 5) 524288 (wDeliv2 d L X I t h 0 (pl2_0 d L r0))
    ∗ Transfers.Flight countersEmb (thr2 d L) (SemLoc.dma cc2_scratch7.sem) (default : HIx 5) 524288 (wDeliv2 d L X I t h 1 (pl2_1 d L r1))
    ∗ Transfers.Flight countersEmb (thr2 d L) (SemLoc.dma cc2_scratch8.sem) (default : HIx 5) 524288 (wDeliv2 d L X I t h 2 (pl2_2 d L r2))
    ∗ Transfers.Flight countersEmb (thr2 d L) (SemLoc.dma cc2_scratch9.sem) (default : HIx 5) 524288 (wDeliv2 d L X I t h 3 (pl2_3 d L r3)))
omit [FloatOps F] in
/-- One more wait recorded at index `none` keeps the recorded waits within `W` and index `none`. -/
theorem none_ins2 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart2 (O : CellTallies nD τ sig (HIx 5)) (W : Waits sig (HIx 5)) : sProp 𝕄 :=
  iprop(∃ W', ⌜∀ p ∈ W', p ∈ W ∨ p.2 = none⌝ ∗ owes (thr2 d L) O W')

/-- The index side at rest: the semaphore at zero, block and scratch whole. -/
def idxIdle2 : sProp 𝕄 :=
  iprop(semVal (cellD2 d L cc2_scratch10) 0 ∗ ((iW).view.loc (thr2 d L) ↦{q} I) ∗ ∃ S, (sI).view.loc (thr2 d L) ↦{fullShare} S)
/-- The row scratch and the write-out semaphores at rest. -/
def rowsIdle2 : sProp 𝕄 :=
  iprop((semVal (cellD2 d L cc2_scratch6) 0 ∗ ∃ r, pl2_0 d L r) ∗ (semVal (cellD2 d L cc2_scratch7) 0 ∗ ∃ r, pl2_1 d L r)
    ∗ (semVal (cellD2 d L cc2_scratch8) 0 ∗ ∃ r, pl2_2 d L r) ∗ (semVal (cellD2 d L cc2_scratch9) 0 ∗ ∃ r, pl2_3 d L r))

/-- On the first trip the loop's test `i ≥ 1` fails (in the words the body computes it with). -/
theorem lt1_cond2 : ∀ k : Fin k2_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA2 (O : CellTallies nD τ sig (HIx 5)) (W : Waits sig (HIx 5))
    (k tp k' : Fin k2_t1_loop.trips) (hp : tp.val + 1 = k.val) (hk' : k'.val = k.val + 1) (hA : Act2 L k) (hAp : Act2 L tp) (hA' : Act2 L k')
    (h2 : k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsFly2 d L X I tp hAp ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxFly2 d L q I k' hA' ∗ gsems2 d L ∗ rowsFly2 d L X I k hA
            ∗ oWins2 d L tp hAp (gath (F := F) X I) ∗ owesPart2 d L O W ∗ R) := by
  unfold xPart2 idxFly2 gsems2 rowsFly2 oWins2 owesPart2
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have hdisj := slots_disj2 L k hA h2
  have hd6 := list6_disj2 L k hA h2
  have hd7 := list7_disj2 L k hA h2
  have hd8 := list8_disj2 L k hA h2
  have hd9 := list9_disj2 L k hA h2
  have hk1 : 1 ≤ k.val := by omega
  have k2_h3 := ge1_cond2 k hk1
  sl_unfold [k2_t1_body]
  sl_exec
  have hin6 := list6_inr2 d L I k hA (tripA2.sl.HsI_w0 d L I k hA h2 S) (list6_agree2 d L I k hA h2 S hS _) hI
  have hin7 := list7_inr2 d L I k hA (tripA2.sl.HsI_w0 d L I k hA h2 S) (list7_agree2 d L I k hA h2 S hS _) hI
  have hin8 := list8_inr2 d L I k hA (tripA2.sl.HsI_w0 d L I k hA h2 S) (list8_agree2 d L I k hA h2 S hS _) hI
  have hin9 := list9_inr2 d L I k hA (tripA2.sl.HsI_w0 d L I k hA h2 S) (list9_agree2 d L I k hA h2 S hS _) hI
  sl_exec
  have hw0 : (((oWin2_0 L k hA).view.loc (thr2 d L) ↦[(oWin2_0 L k hA).view.set]{fullShare}
      ((oWin2_0 L k hA).view.writes (Elt F) G [⟨Rect.whole S128x128, tripA2.sl.dma0_1 d L X I k hA h2 S r0 hin6⟩])) : sProp 𝕄)
      = ((oW).view.loc (thr2 d L) ↦[oSet2 L k hA 0]{fullShare} gath (F := F) X I) :=
    pointsTo_congr (win_val2_0 d L I X k hA G r0 _ (list6_agree2 d L I k hA h2 S hS _) hin6 hI)
  have hw1 : (((oWin2_1 L k hA).view.loc (thr2 d L) ↦[(oWin2_1 L k hA).view.set]{fullShare}
      ((oWin2_1 L k hA).view.writes (Elt F) G [⟨Rect.whole S128x128, tripA2.sl.dma0_2 d L X I k hA h2 S r1 hin7⟩])) : sProp 𝕄)
      = ((oW).view.loc (thr2 d L) ↦[oSet2 L k hA 1]{fullShare} gath (F := F) X I) :=
    pointsTo_congr (win_val2_1 d L I X k hA G r1 _ (list7_agree2 d L I k hA h2 S hS _) hin7 hI)
  have hw2 : (((oWin2_2 L k hA).view.loc (thr2 d L) ↦[(oWin2_2 L k hA).view.set]{fullShare}
      ((oWin2_2 L k hA).view.writes (Elt F) G [⟨Rect.whole S128x128, tripA2.sl.dma0_3 d L X I k hA h2 S r2 hin8⟩])) : sProp 𝕄)
      = ((oW).view.loc (thr2 d L) ↦[oSet2 L k hA 2]{fullShare} gath (F := F) X I) :=
    pointsTo_congr (win_val2_2 d L I X k hA G r2 _ (list8_agree2 d L I k hA h2 S hS _) hin8 hI)
  have hw3 : (((oWin2_3 L k hA).view.loc (thr2 d L) ↦[(oWin2_3 L k hA).view.set]{fullShare}
      ((oWin2_3 L k hA).view.writes (Elt F) G [⟨Rect.whole S128x128, tripA2.sl.dma0_4 d L X I k hA h2 S r3 hin9⟩])) : sProp 𝕄)
      = ((oW).view.loc (thr2 d L) ↦[oSet2 L k hA 3]{fullShare} gath (F := F) X I) :=
    pointsTo_congr (win_val2_3 d L I X k hA G r3 _ (list9_agree2 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA2.sl.HsI_w0 d L I k hA h2 S)
    isplitr
    · ipureintro; exact slot_agree_next2 d L I k k' hk' hA hA' h2 S
    rw [slot_next_set2 L k k' hk' hA hA' h2, chunk_next_set2 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr2 d L) (sep_mono_left (Entails.of_eq hw0))) $$ Hf0
    isplitl [Hf1]
    · iapply (Transfers.Flight_mono countersEmb (thr2 d L) (sep_mono_left (Entails.of_eq hw1))) $$ Hf1
    isplitl [Hf2]
    · iapply (Transfers.Flight_mono countersEmb (thr2 d L) (sep_mono_left (Entails.of_eq hw2))) $$ Hf2
    · iapply (Transfers.Flight_mono countersEmb (thr2 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins2 (none_ins2 (none_ins2 (none_ins2 (none_ins2 (none_ins2 (none_ins2 (none_ins2 (none_ins2 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB2 (O : CellTallies nD τ sig (HIx 5)) (W : Waits sig (HIx 5))
    (k tp : Fin k2_t1_loop.trips) (hp : tp.val + 1 = k.val) (hA : Act2 L k) (hAp : Act2 L tp)
    (hn2 : ¬ k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsFly2 d L X I tp hAp ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxIdle2 d L q I ∗ gsems2 d L ∗ rowsFly2 d L X I k hA
            ∗ oWins2 d L tp hAp (gath (F := F) X I) ∗ owesPart2 d L O W ∗ R) := by
  unfold xPart2 idxFly2 idxIdle2 gsems2 rowsFly2 oWins2 owesPart2
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have k2_h2 : ¬ k2_cond2 L k = 1#1 := hn2
  have hk1 : 1 ≤ k.val := by omega
  have k2_h3 := ge1_cond2 k hk1
  have hin6 := list6_inr2 d L I k hA S (fun i hi => hS i (list6_sub2 L k hA hi)) hI
  have hin7 := list7_inr2 d L I k hA S (fun i hi => hS i (list7_sub2 L k hA hi)) hI
  have hin8 := list8_inr2 d L I k hA S (fun i hi => hS i (list8_sub2 L k hA hi)) hI
  have hin9 := list9_inr2 d L I k hA S (fun i hi => hS i (list9_sub2 L k hA hi)) hI
  sl_unfold [k2_t1_body]
  sl_exec
  have hw0 : (((oWin2_0 L k hA).view.loc (thr2 d L) ↦[(oWin2_0 L k hA).view.set]{fullShare}
      ((oWin2_0 L k hA).view.writes (Elt F) G [⟨Rect.whole S128x128, tripB2.sl.dma0 d L X k hA S r0 hin6⟩])) : sProp 𝕄)
      = ((oW).view.loc (thr2 d L) ↦[oSet2 L k hA 0]{fullShare} gath (F := F) X I) :=
    pointsTo_congr (win_val2_0 d L I X k hA G r0 S (fun i hi => hS i (list6_sub2 L k hA hi)) hin6 hI)
  have hw1 : (((oWin2_1 L k hA).view.loc (thr2 d L) ↦[(oWin2_1 L k hA).view.set]{fullShare}
      ((oWin2_1 L k hA).view.writes (Elt F) G [⟨Rect.whole S128x128, tripB2.sl.dma0_1 d L X k hA S r1 hin7⟩])) : sProp 𝕄)
      = ((oW).view.loc (thr2 d L) ↦[oSet2 L k hA 1]{fullShare} gath (F := F) X I) :=
    pointsTo_congr (win_val2_1 d L I X k hA G r1 S (fun i hi => hS i (list7_sub2 L k hA hi)) hin7 hI)
  have hw2 : (((oWin2_2 L k hA).view.loc (thr2 d L) ↦[(oWin2_2 L k hA).view.set]{fullShare}
      ((oWin2_2 L k hA).view.writes (Elt F) G [⟨Rect.whole S128x128, tripB2.sl.dma0_2 d L X k hA S r2 hin8⟩])) : sProp 𝕄)
      = ((oW).view.loc (thr2 d L) ↦[oSet2 L k hA 2]{fullShare} gath (F := F) X I) :=
    pointsTo_congr (win_val2_2 d L I X k hA G r2 S (fun i hi => hS i (list8_sub2 L k hA hi)) hin8 hI)
  have hw3 : (((oWin2_3 L k hA).view.loc (thr2 d L) ↦[(oWin2_3 L k hA).view.set]{fullShare}
      ((oWin2_3 L k hA).view.writes (Elt F) G [⟨Rect.whole S128x128, tripB2.sl.dma0_3 d L X k hA S r3 hin9⟩])) : sProp 𝕄)
      = ((oW).view.loc (thr2 d L) ↦[oSet2 L k hA 3]{fullShare} gath (F := F) X I) :=
    pointsTo_congr (win_val2_3 d L I X k hA G r3 S (fun i hi => hS i (list9_sub2 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr2 d L) (sep_mono_left (Entails.of_eq hw0))) $$ Hf0
    isplitl [Hf1]
    · iapply (Transfers.Flight_mono countersEmb (thr2 d L) (sep_mono_left (Entails.of_eq hw1))) $$ Hf1
    isplitl [Hf2]
    · iapply (Transfers.Flight_mono countersEmb (thr2 d L) (sep_mono_left (Entails.of_eq hw2))) $$ Hf2
    · iapply (Transfers.Flight_mono countersEmb (thr2 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins2 (none_ins2 (none_ins2 (none_ins2 (none_ins2 (none_ins2 (none_ins2 (none_ins2 (none_ins2 (hW')))))))))

set_option maxHeartbeats 1000000 in
set_option sl_exec.dmaWindow true in
/-- The first trip: from its index fetch in flight and the row scratch at rest to the index fetch of trip 1 and its own
    four write-outs in flight. -/
theorem tripC2 (O : CellTallies nD τ sig (HIx 5)) (W : Waits sig (HIx 5))
    (k k' : Fin k2_t1_loop.trips) (hk0 : k.val = 0) (hk' : k'.val = k.val + 1) (hA : Act2 L k) (hA' : Act2 L k')
    (h2 : k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsIdle2 d L ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxFly2 d L q I k' hA' ∗ gsems2 d L ∗ rowsFly2 d L X I k hA ∗ owesPart2 d L O W ∗ R) := by
  unfold xPart2 idxFly2 gsems2 rowsIdle2 rowsFly2 oWins2 owesPart2
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have k2_h3 := lt1_cond2 k hk0
  have hdisj := slots_disj2 L k hA h2
  have hd6 := list6_disj2 L k hA h2
  have hd7 := list7_disj2 L k hA h2
  have hd8 := list8_disj2 L k hA h2
  have hd9 := list9_disj2 L k hA h2
  sl_unfold [k2_t1_body]
  sl_exec
  have hin6 := list6_inr2 d L I k hA (tripC2.sl.HsI_w0 d L I k hA h2 S) (list6_agree2 d L I k hA h2 S hS _) hI
  have hin7 := list7_inr2 d L I k hA (tripC2.sl.HsI_w0 d L I k hA h2 S) (list7_agree2 d L I k hA h2 S hS _) hI
  have hin8 := list8_inr2 d L I k hA (tripC2.sl.HsI_w0 d L I k hA h2 S) (list8_agree2 d L I k hA h2 S hS _) hI
  have hin9 := list9_inr2 d L I k hA (tripC2.sl.HsI_w0 d L I k hA h2 S) (list9_agree2 d L I k hA h2 S hS _) hI
  sl_exec
  have hw0 : (((oWin2_0 L k hA).view.loc (thr2 d L) ↦[(oWin2_0 L k hA).view.set]{fullShare}
      ((oWin2_0 L k hA).view.writes (Elt F) G [⟨Rect.whole S128x128, tripC2.sl.dma0_1 d L X I k hA h2 S r0 hin6⟩])) : sProp 𝕄)
      = ((oW).view.loc (thr2 d L) ↦[oSet2 L k hA 0]{fullShare} gath (F := F) X I) :=
    pointsTo_congr (win_val2_0 d L I X k hA G r0 _ (list6_agree2 d L I k hA h2 S hS _) hin6 hI)
  have hw1 : (((oWin2_1 L k hA).view.loc (thr2 d L) ↦[(oWin2_1 L k hA).view.set]{fullShare}
      ((oWin2_1 L k hA).view.writes (Elt F) G [⟨Rect.whole S128x128, tripC2.sl.dma0_2 d L X I k hA h2 S r1 hin7⟩])) : sProp 𝕄)
      = ((oW).view.loc (thr2 d L) ↦[oSet2 L k hA 1]{fullShare} gath (F := F) X I) :=
    pointsTo_congr (win_val2_1 d L I X k hA G r1 _ (list7_agree2 d L I k hA h2 S hS _) hin7 hI)
  have hw2 : (((oWin2_2 L k hA).view.loc (thr2 d L) ↦[(oWin2_2 L k hA).view.set]{fullShare}
      ((oWin2_2 L k hA).view.writes (Elt F) G [⟨Rect.whole S128x128, tripC2.sl.dma0_3 d L X I k hA h2 S r2 hin8⟩])) : sProp 𝕄)
      = ((oW).view.loc (thr2 d L) ↦[oSet2 L k hA 2]{fullShare} gath (F := F) X I) :=
    pointsTo_congr (win_val2_2 d L I X k hA G r2 _ (list8_agree2 d L I k hA h2 S hS _) hin8 hI)
  have hw3 : (((oWin2_3 L k hA).view.loc (thr2 d L) ↦[(oWin2_3 L k hA).view.set]{fullShare}
      ((oWin2_3 L k hA).view.writes (Elt F) G [⟨Rect.whole S128x128, tripC2.sl.dma0_4 d L X I k hA h2 S r3 hin9⟩])) : sProp 𝕄)
      = ((oW).view.loc (thr2 d L) ↦[oSet2 L k hA 3]{fullShare} gath (F := F) X I) :=
    pointsTo_congr (win_val2_3 d L I X k hA G r3 _ (list9_agree2 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC2.sl.HsI_w0 d L I k hA h2 S)
    isplitr
    · ipureintro; exact slot_agree_next2 d L I k k' hk' hA hA' h2 S
    rw [slot_next_set2 L k k' hk' hA hA' h2, chunk_next_set2 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr2 d L) (sep_mono_left (Entails.of_eq hw0))) $$ Hw0
    isplitl [Hw1]
    · iapply (Transfers.Flight_mono countersEmb (thr2 d L) (sep_mono_left (Entails.of_eq hw1))) $$ Hw1
    isplitl [Hw2]
    · iapply (Transfers.Flight_mono countersEmb (thr2 d L) (sep_mono_left (Entails.of_eq hw2))) $$ Hw2
    · iapply (Transfers.Flight_mono countersEmb (thr2 d L) (sep_mono_left (Entails.of_eq hw3))) $$ Hw3
  isplitr [HR]
  rotate_left
  · iexact HR
  iexists _
  isplitr
  rotate_left
  · iexact HO
  · ipureintro
    exact none_ins2 (none_ins2 (none_ins2 (none_ins2 (none_ins2 (hW')))))

/-- An idle trip (its chunk number is 250 or more) does nothing. -/
theorem tripI2 (k : Fin k2_t1_loop.trips) (hnA : ¬ Act2 L k) (R : sProp 𝕄) :
    R ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => R := by
  iintro HR
  have k2_h1 : ¬ k2_cond1 L k = 1#1 := hnA
  sl_unfold [k2_t1_body]
  sl_exec
  sl_step
  iexact HR

end Cert.KernelIdeal.KP

end
-- ==== Proof.TileOut2.lean ====
/-
  The result's windows through the loop of call 2's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody2b

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable (d : Dev nD) (L : grid2.Coords)

/-! ## Which trips are active -/

theorem wid_lt2 : wid2 L < 32 := by
  have h0 : (L 0).val < 2 := (L 0).isLt
  have h1 : (L 1).val < 16 := (L 1).isLt
  show 2 * (L 1).val + (L 0).val < 32
  omega

theorem act_iff_lt2 (t : Fin k2_t1_loop.trips) : Act2 L t ↔ t.val < nAct2 L := by
  have hw := wid_lt2 L
  refine (tb2_act_iff L t).trans ?_
  show wid2 L + 32 * t.val < 250 ↔ t.val < (250 - wid2 L + 31) / 32
  omega

theorem nAct_bounds2 : 7 ≤ nAct2 L ∧ nAct2 L ≤ 8 := by
  have hw := wid_lt2 L
  show 7 ≤ (250 - wid2 L + 31) / 32 ∧ (250 - wid2 L + 31) / 32 ≤ 8
  omega

theorem pre_iff_lt2 (k : Fin k2_t1_loop.trips) : k2_cond2 L k = 1#1 ↔ k.val + 1 < nAct2 L := by
  have hw := wid_lt2 L
  refine (tb2_pre_iff L k).trans ?_
  show wid2 L + 32 * k.val + 32 < 250 ↔ k.val + 1 < (250 - wid2 L + 31) / 32
  omega

theorem cnt_act2 (k : Fin k2_t1_loop.trips) (hA : Act2 L k) : cnt2 L k.val = k.val ∧ cnt2 L (k.val + 1) = k.val + 1 := by
  have h := (act_iff_lt2 L k).mp hA
  show min k.val (nAct2 L) = k.val ∧ min (k.val + 1) (nAct2 L) = k.val + 1
  omega

theorem cnt_idle2 (k : Fin k2_t1_loop.trips) (hnA : ¬ Act2 L k) : cnt2 L k.val = nAct2 L ∧ cnt2 L (k.val + 1) = nAct2 L := by
  have h : ¬ k.val < nAct2 L := fun h => hnA ((act_iff_lt2 L k).mpr h)
  show min k.val (nAct2 L) = nAct2 L ∧ min (k.val + 1) (nAct2 L) = nAct2 L
  omega

theorem cnt_end2 : cnt2 L k2_t1_loop.trips = nAct2 L := by
  have h := (nAct_bounds2 L).2
  show min k2_t1_loop.trips (nAct2 L) = nAct2 L
  rw [tb2_trips]
  omega

/-! ## The windows' family -/

variable (X : Buf (Elt F) (xLoc d)) (I : Buf (Elt F) (iLoc2 d)) (G : Buf (Elt F) (oLoc2 d))

/-- Trip `t`'s windows after `n` active trips: at the gathered array, in flight, or as found. -/
def outPhi2 (n : ℕ) (t : Fin k2_t1_loop.trips) : sProp 𝕄 :=
  if t.val + 1 < n then oTrip2 d L (gath (F := F) X I) t else if t.val + 1 = n then iprop(emp) else oTrip2 d L G t

theorem outPart2_eq (n : ℕ) : outPart2 d L X I G n = bigSep Finset.univ (outPhi2 d L X I G n) := rfl

theorem outPhi2_done {n : ℕ} {t : Fin k2_t1_loop.trips} (h : t.val + 1 < n) : outPhi2 d L X I G n t = oTrip2 d L (gath (F := F) X I) t := by
  unfold outPhi2; rw [if_pos h]
theorem outPhi2_flight {n : ℕ} {t : Fin k2_t1_loop.trips} (h : t.val + 1 = n) : outPhi2 d L X I G n t = (iprop(emp) : sProp 𝕄) := by
  unfold outPhi2; rw [if_neg (by omega), if_pos h]
theorem outPhi2_found {n : ℕ} {t : Fin k2_t1_loop.trips} (h : n < t.val + 1) : outPhi2 d L X I G n t = oTrip2 d L G t := by
  unfold outPhi2; rw [if_neg (by omega), if_neg (by omega)]

/-- Before any trip every window is as found. -/
theorem out_init2 : (bigSep Finset.univ fun t : Fin k2_t1_loop.trips => oTrip2 d L G t) = outPart2 d L X I G 0 := by
  rw [outPart2_eq]
  exact bigSep_congr fun t _ => (outPhi2_found d L X I G (Nat.succ_pos _)).symm

/-- Entering trip `k` (the trip before it, `tp`, in flight): its own windows come out, as found. -/
theorem out_take2 (k tp : Fin k2_t1_loop.trips) (hp : tp.val + 1 = k.val) (hA : Act2 L k) :
    outPart2 d L X I G k.val ⊢ iprop(oWins2 d L k hA G ∗ bigSep ((Finset.univ.erase k).erase tp) (outPhi2 d L X I G k.val)) := by
  have hne : tp ≠ k := fun e => by rw [e] at hp; omega
  rw [outPart2_eq, SparseCore.bigSep_erase' (Finset.mem_univ k),
    SparseCore.bigSep_erase' (Finset.mem_erase.mpr ⟨hne, Finset.mem_univ tp⟩),
    outPhi2_found d L X I G (Nat.lt_succ_self _), outPhi2_flight d L X I G hp, oTrip2_act d L k hA]
  iintro ⟨Hw, -, Hr⟩
  isplitl [Hw] <;> iassumption

/-- Leaving trip `k`: the previous trip's windows go back, at the gathered array; trip `k`'s are now the ones in flight. -/
theorem out_put2 (k tp : Fin k2_t1_loop.trips) (hp : tp.val + 1 = k.val) (hAp : Act2 L tp) :
    iprop(oWins2 d L tp hAp (gath (F := F) X I) ∗ bigSep ((Finset.univ.erase k).erase tp) (outPhi2 d L X I G k.val))
      ⊢ outPart2 d L X I G (k.val + 1) := by
  have hne : tp ≠ k := fun e => by rw [e] at hp; omega
  rw [outPart2_eq, SparseCore.bigSep_erase' (Finset.mem_univ k),
    SparseCore.bigSep_erase' (Finset.mem_erase.mpr ⟨hne, Finset.mem_univ tp⟩),
    outPhi2_flight d L X I G rfl, outPhi2_done d L X I G (show tp.val + 1 < k.val + 1 by omega), oTrip2_act d L tp hAp,
    show bigSep ((Finset.univ.erase k).erase tp) (outPhi2 d L X I G (k.val + 1)) = bigSep ((Finset.univ.erase k).erase tp) (outPhi2 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi2
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first2 (h0 : 0 < k2_t1_loop.trips) (hA : Act2 L ⟨0, h0⟩) :
    outPart2 d L X I G 0 ⊢ iprop(oWins2 d L ⟨0, h0⟩ hA G ∗ bigSep (Finset.univ.erase ⟨0, h0⟩) (outPhi2 d L X I G 0)) := by
  rw [outPart2_eq, SparseCore.bigSep_erase' (Finset.mem_univ (⟨0, h0⟩ : Fin k2_t1_loop.trips)),
    outPhi2_found d L X I G (Nat.succ_pos _), oTrip2_act d L ⟨0, h0⟩ hA]

/-- Leaving it: nothing goes back yet. -/
theorem out_put_first2 (h0 : 0 < k2_t1_loop.trips) :
    bigSep (Finset.univ.erase (⟨0, h0⟩ : Fin k2_t1_loop.trips)) (outPhi2 d L X I G 0) ⊢ outPart2 d L X I G 1 := by
  rw [outPart2_eq, SparseCore.bigSep_erase' (Finset.mem_univ (⟨0, h0⟩ : Fin k2_t1_loop.trips)),
    outPhi2_flight d L X I G (show (⟨0, h0⟩ : Fin k2_t1_loop.trips).val + 1 = 1 from rfl),
    show bigSep (Finset.univ.erase (⟨0, h0⟩ : Fin k2_t1_loop.trips)) (outPhi2 d L X I G 1) = bigSep (Finset.univ.erase (⟨0, h0⟩ : Fin k2_t1_loop.trips)) (outPhi2 d L X I G 0) from
      bigSep_congr fun t ht => by
        have h1 : t ≠ ⟨0, h0⟩ := (Finset.mem_erase.mp ht).1
        have h1' : t.val ≠ 0 := fun e => h1 (Fin.ext e)
        rw [outPhi2_found d L X I G (show 1 < t.val + 1 by omega), outPhi2_found d L X I G (Nat.succ_pos _)]]
  iintro Hr
  isplitr; · iempintro
  iexact Hr

/-- After the last active trip `tl`, with its windows back: every trip's windows hold the gathered array (the idle
    trips have none). -/
theorem out_final2 (tl : Fin k2_t1_loop.trips) (hAl : Act2 L tl) (hidle : ∀ t : Fin k2_t1_loop.trips, tl.val < t.val → ¬ Act2 L t) :
    iprop(outPart2 d L X I G (tl.val + 1) ∗ oWins2 d L tl hAl (gath (F := F) X I))
      ⊢ bigSep Finset.univ fun t : Fin k2_t1_loop.trips => oTrip2 d L (gath (F := F) X I) t := by
  rw [outPart2_eq, SparseCore.bigSep_erase' (Finset.mem_univ tl) (Φ := outPhi2 d L X I G (tl.val + 1)),
    SparseCore.bigSep_erase' (Finset.mem_univ tl) (Φ := fun t : Fin k2_t1_loop.trips => oTrip2 d L (gath (F := F) X I) t),
    outPhi2_flight d L X I G rfl, oTrip2_act d L tl hAl,
    show bigSep (Finset.univ.erase tl) (outPhi2 d L X I G (tl.val + 1)) = bigSep (Finset.univ.erase tl) (fun t : Fin k2_t1_loop.trips => oTrip2 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi2_done d L X I G (by omega)
        · have hi := hidle t (by omega)
          rw [outPhi2_found d L X I G (show tl.val + 1 < t.val + 1 by omega), oTrip2_idle d L t hi, oTrip2_idle d L t hi]]
  iintro ⟨⟨-, Hr⟩, Hw⟩
  isplitl [Hw] <;> iassumption

end Cert.KernelIdeal.KP

end
-- ==== Proof.TileScoped2.lean ====
/-
  The scoped storage of one vector subcore as call 2's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody2b

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable (d : Dev nD) (L : grid2.Coords)

/-! ## The task's nine semaphores among the subcore's own -/

/-- The nine DMA semaphores of the task, as semaphore locations. -/
def semS2 : List (SemLoc sig) := [SemLoc.dma cc2_scratch2.sem, SemLoc.dma cc2_scratch3.sem, SemLoc.dma cc2_scratch4.sem, SemLoc.dma cc2_scratch5.sem, SemLoc.dma cc2_scratch6.sem, SemLoc.dma cc2_scratch7.sem, SemLoc.dma cc2_scratch8.sem, SemLoc.dma cc2_scratch9.sem, SemLoc.dma cc2_scratch10.sem]

theorem semS2_nodup : (semS2).Nodup := by decide
theorem semS2_scoped : ∀ s ∈ semS2, (s : SemLoc sig).isScoped .scVector = true := by decide

/-- The same as cells of the tile's thread. -/
def semL2 : List (GSem nD τ sig) := semS2.map fun s => (thr2 d L, s)

theorem semL2_nodup : (semL2 d L).Nodup :=
  semS2_nodup.map fun _ _ h => (Prod.mk.inj h).2

theorem semL2_sub : (semL2 d L).toFinset ⊆ ownCells (thr2 d L) := by
  intro g hg
  rw [List.mem_toFinset, semL2, List.mem_map] at hg
  obtain ⟨s, hs, rfl⟩ := hg
  exact mem_ownCells.mpr ⟨rfl, semS2_scoped s hs⟩

/-- The subcore's own semaphores that the task does not use, each at zero. -/
def RestSems2 : sProp 𝕄 := bigSep (ownCells (thr2 d L) \ (semL2 d L).toFinset) fun g => semVal g 0

/-- The subcore's own semaphores at zero are the task's nine at zero and the rest. -/
theorem ownSems0_V2 :
    (ownSems0 (thr2 d L) : sProp 𝕄)
      = iprop(semVal (cellD2 d L cc2_scratch2) 0 ∗ semVal (cellD2 d L cc2_scratch3) 0 ∗ semVal (cellD2 d L cc2_scratch4) 0 ∗ semVal (cellD2 d L cc2_scratch5) 0 ∗ semVal (cellD2 d L cc2_scratch6) 0 ∗ semVal (cellD2 d L cc2_scratch7) 0 ∗ semVal (cellD2 d L cc2_scratch8) 0 ∗ semVal (cellD2 d L cc2_scratch9) 0 ∗ semVal (cellD2 d L cc2_scratch10) 0 ∗ RestSems2 d L) := by
  unfold SparseCore.Cfg.ownSems0 RestSems2
  rw [SparseCore.bigSep_sdiff_split' (semL2_sub d L), bigSep_eq_bigSepL (semL2 d L) (semL2_nodup d L)]
  unfold semL2 semS2
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs2 : sProp 𝕄 :=
  bigSep (((ownRefs (τ := τ) (.scVector (cV2 L) (jV2 L))).erase ((Proc.scVector (cV2 L) (jV2 L)).devRef cc2_scratch0)).erase
      ((Proc.scVector (cV2 L) (jV2 L)).devRef cc2_scratch1))
    fun b => iprop(∃ f, ((d, b) : Loc nD τ sig) ↦{fullShare} f)

/-- The subcore's own buffers are the index scratch, the row scratch, each at some contents, and the rest. -/
theorem ownBufs_V2 :
    (ownBufs (thr2 d L) : sProp 𝕄)
      = iprop((∃ f, (thr2 d L).loc cc2_scratch0 ↦{fullShare} f) ∗ (∃ f, (thr2 d L).loc cc2_scratch1 ↦{fullShare} f) ∗ RestBufs2 d L) := by
  unfold SparseCore.Cfg.ownBufs RestBufs2
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩)]

/-! ## The whole arrays under the subcore's names -/

theorem pts_sI2 (f : Buf (Elt F) ((thr2 d L).loc cc2_scratch0)) :
    ((sI).view.loc (thr2 d L) ↦{fullShare} f : sProp 𝕄) = (thr2 d L).loc cc2_scratch0 ↦{fullShare} f := rfl
theorem pts_sR2 (f : Buf (Elt F) ((thr2 d L).loc cc2_scratch1)) :
    ((sR).view.loc (thr2 d L) ↦{fullShare} f : sProp 𝕄) = (thr2 d L).loc cc2_scratch1 ↦{fullShare} f := rfl
theorem pts_x2 (q : PosShare TreeShare) (f : Buf (Elt F) (xLoc d)) :
    ((xW).view.loc (thr2 d L) ↦{q} f : sProp 𝕄) = xLoc d ↦{q} f := rfl
theorem pts_i2 (q : PosShare TreeShare) (f : Buf (Elt F) (iLoc2 d)) :
    ((iW).view.loc (thr2 d L) ↦{q} f : sProp 𝕄) = iLoc2 d ↦{q} f := rfl
theorem pts_o2 (K : Finset S4x32000x128.Idx) (q : PosShare TreeShare) (f : Buf (Elt F) (oLoc2 d)) :
    ((oW).view.loc (thr2 d L) ↦[K]{q} f : sProp 𝕄) = oLoc2 d ↦[K]{q} f := rfl

/-! ## The row scratch is its four planes -/

theorem pl_inb2 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet2 (j : Fin 4) : Finset S4x128x128.Idx := (Rect.unit (s := S4x128x128) ![j.val, 0, 0] S1x128x128.size (pl_inb2 j)).set

theorem set_rPl2_0 : (rPl2_0).view.set = plSet2 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc2_scratch1 : Ref sig .scVector) _).trans rfl
theorem set_rPl2_1 : (rPl2_1).view.set = plSet2 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc2_scratch1 : Ref sig .scVector) _).trans rfl
theorem set_rPl2_2 : (rPl2_2).view.set = plSet2 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc2_scratch1 : Ref sig .scVector) _).trans rfl
theorem set_rPl2_3 : (rPl2_3).view.set = plSet2 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc2_scratch1 : Ref sig .scVector) _).trans rfl

/-- Different planes are disjoint: they differ in the first coordinate. -/
theorem pl_disjoint2 : ∀ i ∈ (Finset.univ : Finset (Fin 4)), ∀ j ∈ (Finset.univ : Finset (Fin 4)), i ≠ j → Disjoint (plSet2 i) (plSet2 j) := by
  intro i _ j _ h
  have hv := Fin.val_ne_of_ne h
  refine Rect.unit_disjoint 0 ?_
  simp
  omega

/-- The four planes cover the scratch. -/
theorem pl_cover2 : (Finset.univ : Finset (Fin 4)).biUnion plSet2 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet2
  rw [Rect.mem_set_unit]
  intro a
  fin_cases a <;> simp at h0 h1 h2 ⊢ <;> omega

/-- Holding the row scratch whole at `r` is holding its four planes at `r`. -/
theorem sR_planes2 (r : Buf (Elt F) ((thr2 d L).loc cc2_scratch1)) :
    ((thr2 d L).loc cc2_scratch1 ↦{fullShare} r : sProp 𝕄) = iprop(pl2_0 d L r ∗ pl2_1 d L r ∗ pl2_2 d L r ∗ pl2_3 d L r) := by
  have e : ((thr2 d L).loc cc2_scratch1 ↦{fullShare} r : sProp 𝕄)
      = bigSep Finset.univ fun j : Fin 4 => ((thr2 d L).loc cc2_scratch1 ↦[plSet2 j]{fullShare} r : sProp 𝕄) := by
    rw [← pointsTo_biUnion Finset.univ (ℓ := (thr2 d L).loc cc2_scratch1) plSet2 pl_disjoint2, pl_cover2]; try rfl
  rw [e, bigSep_univ_eq_bigSepL [(0 : Fin 4), 1, 2, 3] (by decide) (by decide)]
  unfold pl2_0 pl2_1 pl2_2 pl2_3
  rw [set_rPl2_0, set_rPl2_1, set_rPl2_2, set_rPl2_3]
  rfl

/-- Four planes at four contents join into the row scratch whole at some contents. -/
theorem sR_join2 (r0 r1 r2 r3 : Buf (Elt F) ((thr2 d L).loc cc2_scratch1)) :
    iprop(pl2_0 d L r0 ∗ pl2_1 d L r1 ∗ pl2_2 d L r2 ∗ pl2_3 d L r3)
      ⊢ (iprop(∃ r, (thr2 d L).loc cc2_scratch1 ↦{fullShare} r) : sProp 𝕄) := by
  have e : (bigSep Finset.univ fun j : Fin 4 => ((thr2 d L).loc cc2_scratch1 ↦[plSet2 j]{fullShare} (![r0, r1, r2, r3] : Fin 4 → Buf (Elt F) ((thr2 d L).loc cc2_scratch1)) j : sProp 𝕄))
      = iprop(pl2_0 d L r0 ∗ pl2_1 d L r1 ∗ pl2_2 d L r2 ∗ pl2_3 d L r3) := by
    rw [bigSep_univ_eq_bigSepL [(0 : Fin 4), 1, 2, 3] (by decide) (by decide)]
    unfold pl2_0 pl2_1 pl2_2 pl2_3
    rw [set_rPl2_0, set_rPl2_1, set_rPl2_2, set_rPl2_3]
    rfl
  rw [← e]
  iintro H
  ihave H' := (pointsTo_biUnion_join Finset.univ plSet2 (![r0, r1, r2, r3] : Fin 4 → Buf (Elt F) ((thr2 d L).loc cc2_scratch1)) r0 pl_disjoint2) $$ H
  icases H' with ⟨%g, -, Hg⟩
  rw [pl_cover2]
  iexists g; iexact Hg

/-! ## A read share of the table as a remainder and four tokens -/

theorem x_toks2 (q : PosShare TreeShare) (X : Buf (Elt F) (xLoc d)) :
    ((xW).view.loc (thr2 d L) ↦{q} X : sProp 𝕄)
      ⊣⊢ iprop(((xW).view.loc (thr2 d L) ↦{Transfers.shareDrop q 4} X) ∗ ((xW).view.loc (thr2 d L) ↦{Transfers.shareTok q 4 0} X)
          ∗ ((xW).view.loc (thr2 d L) ↦{Transfers.shareTok q 4 1} X) ∗ ((xW).view.loc (thr2 d L) ↦{Transfers.shareTok q 4 2} X)
          ∗ ((xW).view.loc (thr2 d L) ↦{Transfers.shareTok q 4 3} X)) := by
  have e : (iprop(((xW).view.loc (thr2 d L) ↦{Transfers.shareTok q 4 0} X)
          ∗ ((xW).view.loc (thr2 d L) ↦{Transfers.shareTok q 4 1} X) ∗ ((xW).view.loc (thr2 d L) ↦{Transfers.shareTok q 4 2} X)
          ∗ ((xW).view.loc (thr2 d L) ↦{Transfers.shareTok q 4 3} X)) : sProp 𝕄)
      = bigSep Finset.univ fun i : Fin 4 => ((xW).view.loc (thr2 d L) ↦{Transfers.shareTok q 4 i} X : sProp 𝕄) :=
    (bigSep_univ_eq_bigSepL [(0 : Fin 4), 1, 2, 3] (by decide) (by decide)
      (fun i : Fin 4 => ((xW).view.loc (thr2 d L) ↦{Transfers.shareTok q 4 i} X : sProp 𝕄))).symm
  rw [e]
  exact Transfers.pointsTo_toks q 4

end Cert.KernelIdeal.KP

end
-- ==== Proof.TileLoop2.lean ====
/-
  The body of call 2's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip2
import proofs.«210879_g80607946211848_cont_9to1_m_1212_13_alg».proof.Proof.TileOut2
import proofs.«210879_g80607946211848_cont_9to1_m_1212_13_alg».proof.Proof.TileScoped2

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v12_scv : Memref Cert.KernelIdeal.sig Kind.scVector Space.hbm Cert.KernelIdeal.S250x4x128 EltTy.i32)
local notation "oW" => (Memref.whole Cert.KernelIdeal.main_v13_scv : Memref Cert.KernelIdeal.sig Kind.scVector Space.hbm Cert.KernelIdeal.S4x32000x128 EltTy.f32)
local notation "sI" => (Memref.whole Cert.KernelIdeal.cc2_scratch0 : Memref Cert.KernelIdeal.sig Kind.scVector Space.vmem Cert.KernelIdeal.S2x4x128 EltTy.i32)
local notation "sR" => (Memref.whole Cert.KernelIdeal.cc2_scratch1 : Memref Cert.KernelIdeal.sig Kind.scVector Space.vmem Cert.KernelIdeal.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The row scratch and the write-out semaphores after `n` active trips. -/
def rowsAt2 : ℕ → sProp 𝕄
  | 0 => rowsIdle2 d L
  | m + 1 => if hm : m < k2_t1_loop.trips then (if hA : Act2 L ⟨m, hm⟩ then rowsFly2 d L X I ⟨m, hm⟩ hA else iprop(False)) else iprop(False)

/-- The index side before trip `k`. -/
def idxAt2 (k : ℕ) : sProp 𝕄 :=
  if hk : k < k2_t1_loop.trips then (if hA : Act2 L ⟨k, hk⟩ then idxFly2 d L q I ⟨k, hk⟩ hA else idxIdle2 d L q I) else idxIdle2 d L q I

/-- The loop's invariant before trip `k`. -/
def invL2 (O : CellTallies nD τ sig (HIx 5)) (W : Waits sig (HIx 5)) (k : ℕ) (_ : PUnit) : sProp 𝕄 :=
  iprop(Transfers.MayWaits (thr2 d L) (none : HIx 5) O ∗ xPart2 d L q X ∗ idxAt2 d L q I k ∗ gsems2 d L
    ∗ rowsAt2 d L X I (cnt2 L k) ∗ outPart2 d L X I G (cnt2 L k) ∗ owesPart2 d L O W)

omit [FloatOps F] in
theorem idxAt2_act (k : Fin k2_t1_loop.trips) (hA : Act2 L k) : idxAt2 d L q I k.val = idxFly2 d L q I k hA := by
  unfold idxAt2; rw [dif_pos k.isLt, dif_pos hA]
omit [FloatOps F] in
theorem idxAt2_idle (k : Fin k2_t1_loop.trips) (hnA : ¬ Act2 L k) : idxAt2 d L q I k.val = idxIdle2 d L q I := by
  unfold idxAt2; rw [dif_pos k.isLt, dif_neg hnA]
omit [FloatOps F] in
theorem idxAt2_end (k : ℕ) (hk : ¬ k < k2_t1_loop.trips) : idxAt2 d L q I k = idxIdle2 d L q I := by
  unfold idxAt2; rw [dif_neg hk]
omit [FloatOps F] in
theorem rowsAt2_succ (t : Fin k2_t1_loop.trips) (hA : Act2 L t) : rowsAt2 d L X I (t.val + 1) = rowsFly2 d L X I t hA := by
  show (if hm : t.val < k2_t1_loop.trips then (if hA : Act2 L ⟨t.val, hm⟩ then rowsFly2 d L X I ⟨t.val, hm⟩ hA else iprop(False)) else iprop(False)) = _
  rw [dif_pos t.isLt, dif_pos hA]

omit [FloatOps F] in
theorem out_take_first2' (k : Fin k2_t1_loop.trips) (hk0 : k.val = 0) (hA : Act2 L k) :
    outPart2 d L X I G k.val ⊢ iprop(oWins2 d L k hA G ∗ bigSep (Finset.univ.erase k) (outPhi2 d L X I G k.val)) := by
  obtain ⟨kv, hkv⟩ := k
  simp only at hk0
  subst hk0
  exact out_take_first2 d L X I G hkv hA

omit [FloatOps F] in
theorem out_put_first2' (k : Fin k2_t1_loop.trips) (hk0 : k.val = 0) :
    bigSep (Finset.univ.erase k) (outPhi2 d L X I G k.val) ⊢ outPart2 d L X I G (k.val + 1) := by
  obtain ⟨kv, hkv⟩ := k
  simp only at hk0
  subst hk0
  exact out_put_first2 d L X I G hkv

set_option maxHeartbeats 4000000 in
set_option sl_exec.dmaWindow true in
theorem tile_body2 (hF : (K (F := F)).Facts) (d : Dev nD) (L : grid2.Coords)
    (X : Buf (Elt F) (xLoc d)) (I : Buf (Elt F) (iLoc2 d)) (G : Buf (Elt F) (oLoc2 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo2 d X I G L
        ∗ scopedBufs (thr2 d L) ∗ scopedSems0 (thr2 d L) ∗ owes (thr2 d L) O W)
      ⊢ wp frame (wpE (defs₀ (F := F)) 𝒱₀ (thr2 d L) none) Set.univ
          (cc2__sc_gather_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10)
          fun _ => iprop(tileTd2 d X I L ∗ scopedBufs (thr2 d L) ∗ scopedSems0 (thr2 d L)
            ∗ ∃ W', ⌜∀ p ∈ W', p ∈ W ∨ p.2 = none⌝ ∗ owes (thr2 d L) O W') := by
  rw [(K (F := F)).scopedBufs_V hF d (cV2 L) (jV2 L), SparseCore.Cfg.scopedSems0_V (Val := Elt F) d (cV2 L) (jV2 L),
    ownSems0_V2, ownBufs_V2]
  unfold tileGo2 tileTd2
  rw [out_init2 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr2 d L) hO) $$ Hlv
  ihave Hx' := (Entails.of_eq (pts_x2 d L (qTile2 L) X).symm) $$ Hx
  ihave Hxt := (x_toks2 d L (qTile2 L) X).1 $$ Hx'
  icases Hxt with ⟨Hxr, Hx0, Hx1, Hx2, Hx3⟩
  ihave Hi' := (Entails.of_eq (pts_i2 d L (qTile2 L) I).symm) $$ Hi
  ihave HsI' := (Entails.of_eq (pts_sI2 d L s0).symm) $$ HsI
  ihave Hpl := (Entails.of_eq (sR_planes2 d L r)) $$ HsR
  icases Hpl with ⟨Hr0, Hr1, Hr2, Hr3⟩
  sl_unfold [cc2__sc_gather_body]
  sl_exec (disch := exact View.amount_pos _ _ (show 0 < S4x128.numel by decide))
  sl_for (invL2 d L (qTile2 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k2_t1_loop.trips = 8 := tb2_trips
    obtain ⟨hn7, hn8⟩ := nAct_bounds2 L
    by_cases hA : Act2 L k
    · obtain ⟨hc, hc'⟩ := cnt_act2 L k hA
      have hkA := (act_iff_lt2 L k).mp hA
      unfold invL2
      rw [hc, hc', idxAt2_act d L (qTile2 L) I k hA, rowsAt2_succ d L X I k hA]
      by_cases h2 : k2_cond2 L k = 1#1
      · have hlt := (pre_iff_lt2 L k).mp h2
        have hk1 : k.val + 1 < k2_t1_loop.trips := by omega
        have hA' : Act2 L ⟨k.val + 1, hk1⟩ := (act_iff_lt2 L ⟨k.val + 1, hk1⟩).mpr hlt
        rw [idxAt2_act d L (qTile2 L) I ⟨k.val + 1, hk1⟩ hA']
        rcases Nat.eq_zero_or_pos k.val with hk0 | hkp
        · -- the first trip
          have hrows0 : rowsAt2 d L X I k.val = rowsIdle2 d L := by rw [hk0]; rfl
          rw [hrows0]
          have hT := tripC2 d L (qTile2 L) X I G O W k ⟨k.val + 1, hk1⟩ hk0 rfl hA hA' h2 hin
            iprop(Transfers.MayWaits (thr2 d L) (none : HIx 5) O ∗ bigSep (Finset.univ.erase k) (outPhi2 d L X I G k.val))
          have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first2' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first2' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k2_t1_loop.trips := by omega
          have hp : (⟨k.val - 1, htp⟩ : Fin k2_t1_loop.trips).val + 1 = k.val := by simp only; omega
          have hAp : Act2 L ⟨k.val - 1, htp⟩ := (act_iff_lt2 L ⟨k.val - 1, htp⟩).mpr (by simp only; omega)
          have hrows : rowsAt2 d L X I k.val = rowsFly2 d L X I ⟨k.val - 1, htp⟩ hAp := by
            have h := rowsAt2_succ d L X I ⟨k.val - 1, htp⟩ hAp
            rwa [hp] at h
          rw [hrows]
          have hT := tripA2 d L (qTile2 L) X I G O W k ⟨k.val - 1, htp⟩ ⟨k.val + 1, hk1⟩ hp rfl hA hAp hA' h2 hin
            iprop(Transfers.MayWaits (thr2 d L) (none : HIx 5) O ∗ bigSep ((Finset.univ.erase k).erase ⟨k.val - 1, htp⟩) (outPhi2 d L X I G k.val))
          have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take2 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put2 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct2 L := fun h => h2 ((pre_iff_lt2 L k).mpr h)
        have hidx' : idxAt2 d L (qTile2 L) I (k.val + 1) = idxIdle2 d L (qTile2 L) I := by
          unfold idxAt2
          split_ifs with h1 h3
          · exact absurd ((act_iff_lt2 L ⟨k.val + 1, h1⟩).mp h3) hnlt
          · rfl
          · rfl
        rw [hidx']
        have htp : k.val - 1 < k2_t1_loop.trips := by omega
        have hp : (⟨k.val - 1, htp⟩ : Fin k2_t1_loop.trips).val + 1 = k.val := by simp only; omega
        have hAp : Act2 L ⟨k.val - 1, htp⟩ := (act_iff_lt2 L ⟨k.val - 1, htp⟩).mpr (by simp only; omega)
        have hrows : rowsAt2 d L X I k.val = rowsFly2 d L X I ⟨k.val - 1, htp⟩ hAp := by
          have h := rowsAt2_succ d L X I ⟨k.val - 1, htp⟩ hAp
          rwa [hp] at h
        rw [hrows]
        have hT := tripB2 d L (qTile2 L) X I G O W k ⟨k.val - 1, htp⟩ hp hA hAp h2 hin
          iprop(Transfers.MayWaits (thr2 d L) (none : HIx 5) O ∗ bigSep ((Finset.univ.erase k).erase ⟨k.val - 1, htp⟩) (outPhi2 d L X I G k.val))
        have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take2 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put2 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle2 L k hA
      have hge : nAct2 L ≤ k.val := Nat.not_lt.mp (fun h => hA ((act_iff_lt2 L k).mpr h))
      have hidx' : idxAt2 d L (qTile2 L) I (k.val + 1) = idxIdle2 d L (qTile2 L) I := by
        unfold idxAt2
        split_ifs with h1 h3
        · exact absurd ((act_iff_lt2 L ⟨k.val + 1, h1⟩).mp h3) (by simp only; omega)
        · rfl
        · rfl
      unfold invL2
      rw [hc, hc', idxAt2_idle d L (qTile2 L) I k hA, hidx']
      have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
          (Scalar.addi (Scalar.muli (BitVec.ofNat 32 (L 1).val) 2#32) (BitVec.ofNat 32 (L 0).val)) k () := rfl
      rw [hprog]
      exact tripI2 d L k hA _
  · -- the invariant before the first trip
    have h0 : 0 < k2_t1_loop.trips := by rw [tb2_trips]; omega
    have hA0 : Act2 L ⟨0, h0⟩ := (act_iff_lt2 L ⟨0, h0⟩).mpr (by have := (nAct_bounds2 L).1; simp only; omega)
    unfold invL2
    rw [show cnt2 L 0 = 0 from Nat.zero_min _, idxAt2_act d L (qTile2 L) I ⟨0, h0⟩ hA0, show rowsAt2 d L X I 0 = rowsIdle2 d L from rfl]
    unfold xPart2 idxFly2 gsems2 rowsIdle2 owesPart2 idxDeliv2
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first2 d L I h0 hA0 s0
      rw [slot_first_set2 L h0 hA0, chunk_first_set2 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds2 L
  have htr : k2_t1_loop.trips = 8 := tb2_trips
  obtain ⟨m, hm⟩ : ∃ m, nAct2 L = m + 1 := ⟨nAct2 L - 1, by omega⟩
  have hmlt : m < k2_t1_loop.trips := by omega
  have hAm : Act2 L ⟨m, hmlt⟩ := (act_iff_lt2 L ⟨m, hmlt⟩).mpr (by simp only; omega)
  have hidle : ∀ t : Fin k2_t1_loop.trips, (⟨m, hmlt⟩ : Fin k2_t1_loop.trips).val < t.val → ¬ Act2 L t :=
    fun t ht h => by have := (act_iff_lt2 L t).mp h; simp only at ht; omega
  unfold invL2
  rw [cnt_end2 L, idxAt2_end d L (qTile2 L) I _ (lt_irrefl _), hm, rowsAt2_succ d L X I ⟨m, hmlt⟩ hAm]
  unfold xPart2 idxIdle2 gsems2 rowsFly2 owesPart2
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv2 pl2_0 pl2_1 pl2_2 pl2_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x2 d L (qTile2 L) X))
      iapply (x_toks2 d L (qTile2 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i2 d L (qTile2 L) I)) $$ Hi
    iapply (out_final2 d L X I G ⟨m, hmlt⟩ hAm hidle)
    isplitl [Hout]; · iexact Hout
    unfold oWins2
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI2 d L S)) $$ HsI
    isplitl [Hf0_src Hf1_src Hf2_src Hf3_src]
    · iapply (sR_join2 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins2 (none_ins2 (none_ins2 (none_ins2 hW')))

end Cert.KernelIdeal.KP

end
-- ==== Proof.TileBody2aB.lean ====
/-
  Groundwork for the body of call 2's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes2B
import proofs.«210879_g80607946211848_cont_9to1_m_1212_13_alg».proof.Proof.Gen.Kernel.Skeleton

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

/-! ## The loop's conditions, in closed form -/

/-- The tile's number. -/
abbrev wid2 (L : grid2.Coords) : ℕ := 2 * (L 1).val + (L 0).val

theorem tb2_trips : k2_t1_loop.trips = 8 := by decide

theorem tb2_act_iff : ∀ (L : grid2.Coords) (t : Fin k2_t1_loop.trips), k2_cond1 L t = 1#1 ↔ wid2 L + 32 * t.val < 250 := by decide +kernel
theorem tb2_pre_iff : ∀ (L : grid2.Coords) (t : Fin k2_t1_loop.trips), k2_cond2 L t = 1#1 ↔ wid2 L + 32 * t.val + 32 < 250 := by decide +kernel

/-! ## The memrefs, as the loop slices them -/

/-- Index chunk of trip `t` (the copy's source the trip waits for). -/
abbrev iCh2 (L : grid2.Coords) (t : Fin k2_t1_loop.trips) (h : Act2 L t) : Memref sig .scVector .hbm S4x128 .i32 :=
  ((iW).slice (Rect.unit (s := S250x4x128) (k2_off3 L t) S1x4x128.size (k2_off3_inb L t h)) (fun _ => rfl)).squeeze S4x128 squeezes_S1x4x128_S4x128
/-- The slot of the index scratch trip `t` reads its indices from: slot `t % 2`. -/
abbrev sSl2 (L : grid2.Coords) (t : Fin k2_t1_loop.trips) (h : Act2 L t) : Memref sig .scVector .vmem S4x128 .i32 :=
  ((sI).slice (Rect.unit (s := S2x4x128) (k2_off2 t) S1x4x128.size (k2_off2_inb L t h)) (fun _ => rfl)).squeeze S4x128 squeezes_S1x4x128_S4x128
/-- Plane `j` of the row scratch. -/
abbrev rPl2_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl2_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl2_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl2_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD2 (d : Dev nD) (L : grid2.Coords) (n : DmaSems sig S_) : GSem nD τ sig := (thr2 d L, SemLoc.dma n.sem)

end Cert.Kernel.KP

end
-- ==== Proof.TileBody2bB.lean ====
/-
  The loop of call 2's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody2aB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The number of the tile's active trips: its chunks `w, w + 32, …` below 250. -/
abbrev nAct2 (L : grid2.Coords) : ℕ := (250 - wid2 L + 31) / 32
/-- The active trips among the first `k`. -/
abbrev cnt2 (L : grid2.Coords) (k : ℕ) : ℕ := min k (nAct2 L)

/-- The index scratch showing, in both slots, the words of trip `t`'s chunk (chunk number reduced modulo 250: the
    identity for an active trip). -/
def slotImg2 (t : ℕ) : Buf (Elt F) ((thr2 d L).loc cc2_scratch0) :=
  fun i => I (ix3 (⟨(wid2 L + 32 * t) % 250, Nat.mod_lt _ (by decide)⟩ : Fin 250) (i 1) (i 2))

/-- Contents `S` of the index scratch show, on the slot trip `t` reads, the words of the trip's chunk. -/
def SlotAgrees2 (t : Fin k2_t1_loop.trips) (h : Act2 L t) (S : Buf (Elt F) ((thr2 d L).loc cc2_scratch0)) : Prop :=
  ∀ i ∈ (sSl2 L t h).view.set, S i = slotImg2 d L I t.val i

/-- What the index fetch for trip `t` delivers: the slot at contents `S`, and the chunk's share back. -/
def idxDeliv2 (t : Fin k2_t1_loop.trips) (h : Act2 L t) (S : Buf (Elt F) ((thr2 d L).loc cc2_scratch0)) : sProp 𝕄 :=
  iprop(((sI).view.loc (thr2 d L) ↦[(sSl2 L t h).view.set]{fullShare} S)
    ∗ ((iW).view.loc (thr2 d L) ↦[(iCh2 L t h).view.set]{q} I))

/-- The index side before trip `k`: while the trip is active its chunk's fetch is in flight (the chunk and its slot
    lent); afterwards the semaphore rests at zero and block and scratch are whole. -/
def idxPart2 (k : ℕ) : sProp 𝕄 :=
  if hk : k < k2_t1_loop.trips then
    if hA : Act2 L ⟨k, hk⟩ then
      iprop(∃ S, ⌜SlotAgrees2 d L I ⟨k, hk⟩ hA S⌝
        ∗ Transfers.Flight countersEmb (thr2 d L) (SemLoc.dma cc2_scratch10.sem) (default : HIx 5) 16384 (idxDeliv2 d L q I ⟨k, hk⟩ hA S)
        ∗ ((iW).view.loc (thr2 d L) ↦[Finset.univ \ (iCh2 L ⟨k, hk⟩ hA).view.set]{q} I)
        ∗ ((sI).view.loc (thr2 d L) ↦[Finset.univ \ (sSl2 L ⟨k, hk⟩ hA).view.set]{fullShare} S))
    else iprop(semVal (cellD2 d L cc2_scratch10) 0 ∗ ((iW).view.loc (thr2 d L) ↦{q} I) ∗ ∃ s, (sI).view.loc (thr2 d L) ↦{fullShare} s)
  else iprop(semVal (cellD2 d L cc2_scratch10) 0 ∗ ((iW).view.loc (thr2 d L) ↦{q} I) ∗ ∃ s, (sI).view.loc (thr2 d L) ↦{fullShare} s)

/-- What the write-out of plane `j` of trip `t` delivers: the window at the gathered array, and the plane back. -/
def wDeliv2 (t : Fin k2_t1_loop.trips) (h : Act2 L t) (j : Fin 4) (Dsrc : sProp 𝕄) : sProp 𝕄 :=
  iprop(((oW).view.loc (thr2 d L) ↦[oSet2 L t h j]{fullShare} gath (F := F) X I) ∗ Dsrc)

/-- The four windows of trip `t` at contents `f`, each spelt through its own memref. -/
def oWins2 (t : Fin k2_t1_loop.trips) (h : Act2 L t) (f : Buf (Elt F) (oLoc2 d)) : sProp 𝕄 :=
  iprop(((oWin2_0 L t h).view.loc (thr2 d L) ↦[(oWin2_0 L t h).view.set]{fullShare} f)
    ∗ ((oWin2_1 L t h).view.loc (thr2 d L) ↦[(oWin2_1 L t h).view.set]{fullShare} f)
    ∗ ((oWin2_2 L t h).view.loc (thr2 d L) ↦[(oWin2_2 L t h).view.set]{fullShare} f)
    ∗ ((oWin2_3 L t h).view.loc (thr2 d L) ↦[(oWin2_3 L t h).view.set]{fullShare} f))

omit [FloatOps F] in
/-- An active trip's share of the result is its four windows. -/
theorem oTrip2_act (t : Fin k2_t1_loop.trips) (h : Act2 L t) (f : Buf (Elt F) (oLoc2 d)) :
    oTrip2 d L f t = oWins2 d L t h f := by
  unfold oTrip2 oWins2; rw [dif_pos h]

omit [FloatOps F] in
/-- An idle trip has none. -/
theorem oTrip2_idle (t : Fin k2_t1_loop.trips) (h : ¬ Act2 L t) (f : Buf (Elt F) (oLoc2 d)) :
    oTrip2 d L f t = (iprop(emp) : sProp 𝕄) := by
  unfold oTrip2; rw [dif_neg h]

/-- Plane `j` of the row scratch at contents `r`. -/
abbrev pl2_0 (r : Buf (Elt F) ((thr2 d L).loc cc2_scratch1)) : sProp 𝕄 := (rPl2_0).view.loc (thr2 d L) ↦[(rPl2_0).view.set]{fullShare} r
abbrev pl2_1 (r : Buf (Elt F) ((thr2 d L).loc cc2_scratch1)) : sProp 𝕄 := (rPl2_1).view.loc (thr2 d L) ↦[(rPl2_1).view.set]{fullShare} r
abbrev pl2_2 (r : Buf (Elt F) ((thr2 d L).loc cc2_scratch1)) : sProp 𝕄 := (rPl2_2).view.loc (thr2 d L) ↦[(rPl2_2).view.set]{fullShare} r
abbrev pl2_3 (r : Buf (Elt F) ((thr2 d L).loc cc2_scratch1)) : sProp 𝕄 := (rPl2_3).view.loc (thr2 d L) ↦[(rPl2_3).view.set]{fullShare} r

/-- The row scratch and the write-out semaphores after `n` active trips: none done, the planes and the semaphores
    rest; else the last trip's four write-outs are in flight. -/
def rowsPart2 (n : ℕ) : sProp 𝕄 :=
  if hn : 0 < n then
    if hk : n - 1 < k2_t1_loop.trips then
      if hA : Act2 L ⟨n - 1, hk⟩ then
        iprop(∃ r0 r1 r2 r3, Transfers.Flight countersEmb (thr2 d L) (SemLoc.dma cc2_scratch6.sem) (default : HIx 5) 524288 (wDeliv2 d L X I ⟨n - 1, hk⟩ hA 0 (pl2_0 d L r0))
          ∗ Transfers.Flight countersEmb (thr2 d L) (SemLoc.dma cc2_scratch7.sem) (default : HIx 5) 524288 (wDeliv2 d L X I ⟨n - 1, hk⟩ hA 1 (pl2_1 d L r1))
          ∗ Transfers.Flight countersEmb (thr2 d L) (SemLoc.dma cc2_scratch8.sem) (default : HIx 5) 524288 (wDeliv2 d L X I ⟨n - 1, hk⟩ hA 2 (pl2_2 d L r2))
          ∗ Transfers.Flight countersEmb (thr2 d L) (SemLoc.dma cc2_scratch9.sem) (default : HIx 5) 524288 (wDeliv2 d L X I ⟨n - 1, hk⟩ hA 3 (pl2_3 d L r3)))
      else iprop(False)
    else iprop(False)
  else
    iprop((semVal (cellD2 d L cc2_scratch6) 0 ∗ ∃ r, pl2_0 d L r) ∗ (semVal (cellD2 d L cc2_scratch7) 0 ∗ ∃ r, pl2_1 d L r)
      ∗ (semVal (cellD2 d L cc2_scratch8) 0 ∗ ∃ r, pl2_2 d L r) ∗ (semVal (cellD2 d L cc2_scratch9) 0 ∗ ∃ r, pl2_3 d L r))

/-- The result's windows after `n` active trips: the trips before the last at the gathered array, the last one's
    in flight, the later ones as found. -/
def outPart2 (n : ℕ) : sProp 𝕄 :=
  bigSep Finset.univ fun t : Fin k2_t1_loop.trips =>
    if t.val + 1 < n then oTrip2 d L (gath (F := F) X I) t else if t.val + 1 = n then iprop(emp) else oTrip2 d L G t

/-- The loop's invariant before trip `k`. -/
def inv2 (O : CellTallies nD τ sig (HIx 5)) (W : Waits sig (HIx 5)) (k : ℕ) (_ : PUnit) : sProp 𝕄 :=
  iprop(Transfers.MayWaits (thr2 d L) (none : HIx 5) O
    ∗ (((xW).view.loc (thr2 d L) ↦{Transfers.shareDrop q 4} X) ∗ ((xW).view.loc (thr2 d L) ↦{Transfers.shareTok q 4 0} X) ∗ ((xW).view.loc (thr2 d L) ↦{Transfers.shareTok q 4 1} X)
        ∗ ((xW).view.loc (thr2 d L) ↦{Transfers.shareTok q 4 2} X) ∗ ((xW).view.loc (thr2 d L) ↦{Transfers.shareTok q 4 3} X))
    ∗ idxPart2 d L q I k
    ∗ (semVal (cellD2 d L cc2_scratch2) 0 ∗ semVal (cellD2 d L cc2_scratch3) 0 ∗ semVal (cellD2 d L cc2_scratch4) 0 ∗ semVal (cellD2 d L cc2_scratch5) 0)
    ∗ rowsPart2 d L X I (cnt2 L k)
    ∗ outPart2 d L X I G (cnt2 L k)
    ∗ ∃ W', ⌜∀ p ∈ W', p ∈ W ∨ p.2 = none⌝ ∗ owes (thr2 d L) O W')

/-! ## Geometry of the index scratch: the two slots, the four index lists -/

omit [FloatOps F] in
/-- The slot a prefetch writes (slot `1 - k % 2`) and the slot the trip reads (slot `k % 2`) are disjoint. -/
theorem slots_disj2 (k : Fin k2_t1_loop.trips) (hA : Act2 L k) (h2 : k2_cond2 L k = 1#1) :
    Disjoint (((sI).slice (Rect.unit (s := S2x4x128) (k2_off4 k) S1x4x128.size (k2_off4_inb L k hA h2)) (fun _ => rfl)).squeeze S4x128 squeezes_S1x4x128_S4x128).view.set
      (sSl2 L k hA).view.set := by
  show Disjoint ((((sI).view.slice (Rect.unit (s := S2x4x128) (k2_off4 k) S1x4x128.size (k2_off4_inb L k hA h2))).reshape S4x128 squeezes_S1x4x128_S4x128.numel_eq).set)
    ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  refine Rect.unit_disjoint 0 ?_
  rw [k2_off4_eq, k2_off2_eq]
  simp
  omega
omit [FloatOps F] in
theorem list6_disj2 (k : Fin k2_t1_loop.trips) (hA : Act2 L k) (h2 : k2_cond2 L k = 1#1) :
    Disjoint (((sI).slice (Rect.unit (s := S2x4x128) (k2_off6 k) S1x1x128.size (k2_off6_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off6 k) S1x1x128.size (k2_off6_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off6_eq]
  simp
  omega

omit [FloatOps F] in
/-- Index list `0` of the trip lies in the trip's slot. -/
theorem list6_sub2 (k : Fin k2_t1_loop.trips) (hA : Act2 L k) :
    (((sI).slice (Rect.unit (s := S2x4x128) (k2_off6 k) S1x1x128.size (k2_off6_inb L k hA)) (fun _ => rfl)).squeeze S128 squeezes_S1x1x128_S128).view.set
      ⊆ (sSl2 L k hA).view.set := by
  show ((((sI).view.slice (Rect.unit (s := S2x4x128) (k2_off6 k) S1x1x128.size (k2_off6_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off6 k) S1x1x128.size (k2_off6_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list6_disj2 L k hA h2) hi) hm)]
  exact hS i (list6_sub2 L k hA hi)

/-- So the words of index list `0` name rows of the table. -/
theorem list6_inr2 (k : Fin k2_t1_loop.trips) (hA : Act2 L k) (S' : Buf (Elt F) ((thr2 d L).loc cc2_scratch0))
    (hS' : ∀ i ∈ (((sI).slice (Rect.unit (s := S2x4x128) (k2_off6 k) S1x1x128.size (k2_off6_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off6 k) S1x1x128.size (k2_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj2 (k : Fin k2_t1_loop.trips) (hA : Act2 L k) (h2 : k2_cond2 L k = 1#1) :
    Disjoint (((sI).slice (Rect.unit (s := S2x4x128) (k2_off7 k) S1x1x128.size (k2_off7_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off7 k) S1x1x128.size (k2_off7_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off7_eq]
  simp
  omega

omit [FloatOps F] in
/-- Index list `1` of the trip lies in the trip's slot. -/
theorem list7_sub2 (k : Fin k2_t1_loop.trips) (hA : Act2 L k) :
    (((sI).slice (Rect.unit (s := S2x4x128) (k2_off7 k) S1x1x128.size (k2_off7_inb L k hA)) (fun _ => rfl)).squeeze S128 squeezes_S1x1x128_S128).view.set
      ⊆ (sSl2 L k hA).view.set := by
  show ((((sI).view.slice (Rect.unit (s := S2x4x128) (k2_off7 k) S1x1x128.size (k2_off7_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off7 k) S1x1x128.size (k2_off7_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list7_disj2 L k hA h2) hi) hm)]
  exact hS i (list7_sub2 L k hA hi)

/-- So the words of index list `1` name rows of the table. -/
theorem list7_inr2 (k : Fin k2_t1_loop.trips) (hA : Act2 L k) (S' : Buf (Elt F) ((thr2 d L).loc cc2_scratch0))
    (hS' : ∀ i ∈ (((sI).slice (Rect.unit (s := S2x4x128) (k2_off7 k) S1x1x128.size (k2_off7_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off7 k) S1x1x128.size (k2_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj2 (k : Fin k2_t1_loop.trips) (hA : Act2 L k) (h2 : k2_cond2 L k = 1#1) :
    Disjoint (((sI).slice (Rect.unit (s := S2x4x128) (k2_off8 k) S1x1x128.size (k2_off8_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off8 k) S1x1x128.size (k2_off8_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off8_eq]
  simp
  omega

omit [FloatOps F] in
/-- Index list `2` of the trip lies in the trip's slot. -/
theorem list8_sub2 (k : Fin k2_t1_loop.trips) (hA : Act2 L k) :
    (((sI).slice (Rect.unit (s := S2x4x128) (k2_off8 k) S1x1x128.size (k2_off8_inb L k hA)) (fun _ => rfl)).squeeze S128 squeezes_S1x1x128_S128).view.set
      ⊆ (sSl2 L k hA).view.set := by
  show ((((sI).view.slice (Rect.unit (s := S2x4x128) (k2_off8 k) S1x1x128.size (k2_off8_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off8 k) S1x1x128.size (k2_off8_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list8_disj2 L k hA h2) hi) hm)]
  exact hS i (list8_sub2 L k hA hi)

/-- So the words of index list `2` name rows of the table. -/
theorem list8_inr2 (k : Fin k2_t1_loop.trips) (hA : Act2 L k) (S' : Buf (Elt F) ((thr2 d L).loc cc2_scratch0))
    (hS' : ∀ i ∈ (((sI).slice (Rect.unit (s := S2x4x128) (k2_off8 k) S1x1x128.size (k2_off8_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off8 k) S1x1x128.size (k2_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj2 (k : Fin k2_t1_loop.trips) (hA : Act2 L k) (h2 : k2_cond2 L k = 1#1) :
    Disjoint (((sI).slice (Rect.unit (s := S2x4x128) (k2_off9 k) S1x1x128.size (k2_off9_inb L k hA)) (fun _ => rfl)).squeeze S128 squeezes_S1x1x128_S128).view.set
      (((sI).slice (Rect.unit (s := S2x4x128) (k2_off4 k) S1x4x128.size (k2_off4_inb L k hA h2)) (fun _ => rfl)).squeeze S4x128 squeezes_S1x4x128_S4x128).view.set := by
  show Disjoint ((((sI).view.slice (Rect.unit (s := S2x4x128) (k2_off9 k) S1x1x128.size (k2_off9_inb L k hA))).reshape S128 squeezes_S1x1x128_S128.numel_eq).set)
    ((((sI).view.slice (Rect.unit (s := S2x4x128) (k2_off4 k) S1x4x128.size (k2_off4_inb L k hA h2))).reshape S4x128 squeezes_S1x4x128_S4x128.numel_eq).set)
  rw [View.set_reshape, View.set_reshape, Memref.view_whole, View.set_slice_whole, View.set_slice_whole]
  refine Rect.unit_disjoint 0 ?_
  rw [k2_off4_eq, k2_off9_eq]
  simp
  omega

omit [FloatOps F] in
/-- Index list `3` of the trip lies in the trip's slot. -/
theorem list9_sub2 (k : Fin k2_t1_loop.trips) (hA : Act2 L k) :
    (((sI).slice (Rect.unit (s := S2x4x128) (k2_off9 k) S1x1x128.size (k2_off9_inb L k hA)) (fun _ => rfl)).squeeze S128 squeezes_S1x1x128_S128).view.set
      ⊆ (sSl2 L k hA).view.set := by
  show ((((sI).view.slice (Rect.unit (s := S2x4x128) (k2_off9 k) S1x1x128.size (k2_off9_inb L k hA))).reshape S128 squeezes_S1x1x128_S128.numel_eq).set)
    ⊆ ((((sI).view.slice (Rect.unit (s := S2x4x128) (k2_off2 k) S1x4x128.size (k2_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k2_off2_eq]; rw [k2_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree2 (k : Fin k2_t1_loop.trips) (hA : Act2 L k) (h2 : k2_cond2 L k = 1#1)
    (S : Buf (Elt F) ((thr2 d L).loc cc2_scratch0)) (hS : SlotAgrees2 d L I k hA S) (w : S4x128.Idx → Elt F .i32) :
    ∀ i ∈ (((sI).slice (Rect.unit (s := S2x4x128) (k2_off9 k) S1x1x128.size (k2_off9_inb L k hA)) (fun _ => rfl)).squeeze S128 squeezes_S1x1x128_S128).view.set,
      (((sI).slice (Rect.unit (s := S2x4x128) (k2_off4 k) S1x4x128.size (k2_off4_inb L k hA h2)) (fun _ => rfl)).squeeze S4x128 squeezes_S1x4x128_S4x128).view.write (Elt F) S w Finset.univ i
        = slotImg2 d L I k.val i := by
  intro i hi
  rw [View.write_of_not_mem _ _ _ (by
    rw [View.setOn_univ]
    exact fun hm => (Finset.disjoint_left.mp (list9_disj2 L k hA h2) hi) hm)]
  exact hS i (list9_sub2 L k hA hi)

/-- So the words of index list `3` name rows of the table. -/
theorem list9_inr2 (k : Fin k2_t1_loop.trips) (hA : Act2 L k) (S' : Buf (Elt F) ((thr2 d L).loc cc2_scratch0))
    (hS' : ∀ i ∈ (((sI).slice (Rect.unit (s := S2x4x128) (k2_off9 k) S1x1x128.size (k2_off9_inb L k hA)) (fun _ => rfl)).squeeze S128 squeezes_S1x1x128_S128).view.set, S' i = slotImg2 d L I k.val i)
    (hI : ∀ i, (I i).toNat < 160000) :
    ∀ x : S128.Idx, (View.read (Elt F) (((sI).slice (Rect.unit (s := S2x4x128) (k2_off9 k) S1x1x128.size (k2_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond2 : ∀ k : Fin k2_t1_loop.trips, 1 ≤ k.val →
    Scalar.cmpi CmpIPredicate.ne (Scalar.extui (Scalar.cmpi CmpIPredicate.sge (Scf.iv 0#32 1#32 k) 1#32)) 0#32 = 1#1 := by decide

end Cert.Kernel.KP

end
-- ==== Proof.TileVal2B.lean ====
/-
  The values the task's transfers carry, call 2.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody2bB
import proofs.«210879_g80607946211848_cont_9to1_m_1212_13_alg».proof.Proof.TileVal0B

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable (d : Dev nD) (L : grid2.Coords)

/-! ## The slot and the chunk a trip prefetches are the next trip's; the first fetch's are trip 0's -/

/-- A 1 × 4 × 128 window of the index scratch, squeezed: its elements are its rectangle's. -/
theorem set_slot2 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc2_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk2 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v12_scv : Ref sig .scVector)).slice (Rect.unit (s := S250x4x128) off S1x4x128.size inb)).reshape S4x128 squeezes_S1x4x128_S4x128.numel_eq).set = _
  rw [View.set_reshape, View.set_slice_whole]

theorem slot_next_set2 (k k' : Fin k2_t1_loop.trips) (hk : k'.val = k.val + 1) (hA : Act2 L k) (hA' : Act2 L k') (h2 : k2_cond2 L k = 1#1) :
    (sSl2 L k' hA').view.set
      = (((sI).slice (Rect.unit (s := S2x4x128) (k2_off4 k) S1x4x128.size (k2_off4_inb L k hA h2)) (fun _ => rfl)).squeeze S4x128 squeezes_S1x4x128_S4x128).view.set := by
  rw [set_slot2, set_slot2]
  refine unit_set_congr ?_
  have e : (k.val + 1) % 2 = 1 - k.val % 2 := by omega
  rw [k2_off2_eq, k2_off4_eq, hk, e]

theorem chunk_next_set2 (k k' : Fin k2_t1_loop.trips) (hk : k'.val = k.val + 1) (hA : Act2 L k) (hA' : Act2 L k') (h2 : k2_cond2 L k = 1#1) :
    (iCh2 L k' hA').view.set
      = (((iW).slice (Rect.unit (s := S250x4x128) (k2_off5 L k) S1x4x128.size (k2_off5_inb L k hA h2)) (fun _ => rfl)).squeeze S4x128 squeezes_S1x4x128_S4x128).view.set := by
  rw [set_chunk2, set_chunk2]
  refine unit_set_congr ?_
  have e : 2 * (L 1).val + (L 0).val + 32 * (k.val + 1) = 2 * (L 1).val + (L 0).val + 32 * k.val + 32 := by omega
  rw [k2_off3_eq, k2_off5_eq, hk, e]

theorem slot_first_set2 (h0 : 0 < k2_t1_loop.trips) (hA0 : Act2 L ⟨0, h0⟩) :
    (sSl2 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot2, set_slot2]
  refine unit_set_congr ?_
  rw [k2_off2_eq]
  rfl

theorem chunk_first_set2 (h0 : 0 < k2_t1_loop.trips) (hA0 : Act2 L ⟨0, h0⟩) :
    (iCh2 L ⟨0, h0⟩ hA0).view.set
      = (((iW).slice (Rect.unit (s := S250x4x128) (k2_off1 L) S1x4x128.size (k2_off1_inb L)) (fun _ => rfl)).squeeze S4x128 squeezes_S1x4x128_S4x128).view.set := by
  rw [set_chunk2, set_chunk2]
  refine unit_set_congr ?_
  rw [k2_off3_eq, k2_off1_eq]
  rfl

/-! ## What an index fetch lands: the chunk's words, in the slot -/

/-- Where element `y` of a squeezed 1 × 4 × 128 window of the index scratch at offsets `off` lies. -/
theorem emb_slot2 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk2 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc2 d))

/-- A fetch of chunk `n` (below 250) into slot `p` leaves, on that slot, the words the slot image of a trip whose chunk
    is `n` shows. -/
theorem fetch_agrees2 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid2 L + 32 * t) % 250 = n)
    (S : Buf (Elt F) ((thr2 d L).loc cc2_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg2 d L I t i := by
  intro i hi
  obtain ⟨y, -, rfl⟩ := Finset.mem_map.mp hi
  rw [View.write_emb_of_mem _ _ (Finset.mem_univ y)]
  unfold slotImg2
  show I ((((iW).slice (Rect.unit (s := S250x4x128) offC S1x4x128.size inbC) (fun _ => rfl)).squeeze S4x128 squeezes_S1x4x128_S4x128).view.emb y) = I _
  congr 1
  funext a
  apply Fin.ext
  have c0 := emb_chunk2 offC inbC y 0
  have c1 := emb_chunk2 offC inbC y 1
  have c2 := emb_chunk2 offC inbC y 2
  have s1 := emb_slot2 offS inbS y 1
  have s2 := emb_slot2 offS inbS y 2
  subst hS hC
  match a with
  | 0 => exact c0.trans (show n + 0 = (wid2 L + 32 * t) % 250 from by omega)
  | 1 => exact c1.trans s1.symm
  | 2 => exact c2.trans s2.symm

/-- The prefetched slot shows the NEXT trip's chunk. -/
theorem slot_agree_next2 (k k' : Fin k2_t1_loop.trips) (hk : k'.val = k.val + 1) (hA : Act2 L k) (hA' : Act2 L k') (h2 : k2_cond2 L k = 1#1)
    (S : Buf (Elt F) ((thr2 d L).loc cc2_scratch0)) :
    SlotAgrees2 d L I k' hA' (View.write (Elt F) (((sI).slice (Rect.unit (s := S2x4x128) (k2_off4 k) S1x4x128.size (k2_off4_inb L k hA h2)) (fun _ => rfl)).squeeze S4x128 squeezes_S1x4x128_S4x128).view S
      (ReadAs.same.apply (View.read (Elt F) (((iW).slice (Rect.unit (s := S250x4x128) (k2_off5 L k) S1x4x128.size (k2_off5_inb L k hA h2)) (fun _ => rfl)).squeeze S4x128 squeezes_S1x4x128_S4x128).view I)) Finset.univ) := by
  intro i hi
  rw [slot_next_set2 L k k' hk hA hA' h2] at hi
  have hlt : wid2 L + 32 * k'.val < 250 := (tb2_act_iff L k').mp hA'
  exact fetch_agrees2 d L I (k2_off4 k) (k2_off4_inb L k hA h2) (k2_off5 L k) (k2_off5_inb L k hA h2) (1 - k.val % 2) (wid2 L + 32 * k.val + 32) k'.val (k2_off4_eq k) (k2_off5_eq L k)
    (by rw [hk] at hlt ⊢; omega) S i hi

/-- The first fetch's slot shows trip 0's chunk. -/
theorem slot_agree_first2 (h0 : 0 < k2_t1_loop.trips) (hA0 : Act2 L ⟨0, h0⟩) (S : Buf (Elt F) ((thr2 d L).loc cc2_scratch0)) :
    SlotAgrees2 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k2_off1 L) S1x4x128.size (k2_off1_inb L)) (fun _ => rfl)).squeeze S4x128 squeezes_S1x4x128_S4x128).view I)) Finset.univ) := by
  intro i hi
  rw [slot_first_set2 L h0 hA0] at hi
  have hlt : wid2 L + 32 * (⟨0, h0⟩ : Fin k2_t1_loop.trips).val < 250 := (tb2_act_iff L ⟨0, h0⟩).mp hA0
  exact fetch_agrees2 d L I ![0, 0, 0] inb_S2x4x128_S1x4x128_0_0_0 (k2_off1 L) (k2_off1_inb L) 0 (wid2 L) 0 rfl (k2_off1_eq L) (by simp only [] at hlt; omega) S i hi

/-! ## What a write-out carries: the gathered array on its window -/

/-- Where element `y` of a squeezed 1 × 128 × 128 window of the result at offsets `off` lies. -/
theorem emb_win2 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list2 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen2 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid2 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc2 d)) (S' : Buf (Elt F) ((thr2 d L).loc cc2_scratch0))
    (hS' : ∀ i ∈ (((sI).slice (Rect.unit (s := S2x4x128) offL S1x1x128.size inbL) (fun _ => rfl)).squeeze S128 squeezes_S1x1x128_S128).view.set, S' i = slotImg2 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win2 offW inbW y 0
  have w1 := emb_win2 offW inbW y 1
  have w2 := emb_win2 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg2
    congr 2
    have l1 := emb_list2 ![p, j.val, 0] inbL (S128.rowMajor.symm (Fin.cast hnum.symm (y gathers_S160000x128_S128x128.axis'))) 1
    have l2 := emb_list2 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val2_0 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off6 k) S1x1x128.size (k2_off6_inb L k hA)) (fun _ => rfl)).squeeze S128 squeezes_S1x1x128_S128).view.set, S' i = slotImg2 d L I k.val i)
    (hin : ∀ x : S128.Idx, (View.read (Elt F) (((sI).slice (Rect.unit (s := S2x4x128) (k2_off6 k) S1x1x128.size (k2_off6_inb L k hA)) (fun _ => rfl)).squeeze S128 squeezes_S1x1x128_S128).view S' x).toNat < 160000)
    (hI : ∀ i, (I i).toNat < 160000) :
    ∀ i ∈ (oWin2_0 L k hA).view.set,
      (oWin2_0 L k hA).view.writes (Elt F) G [⟨Rect.whole S128x128, ReadAs.same.apply (View.read (Elt F) (rPl2_0).view ((rPl2_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off6 k) S1x1x128.size (k2_off6_inb L k hA)) (fun _ => rfl)).squeeze S128 squeezes_S1x1x128_S128).view S') (by decide) hin)⟩]))⟩] i
        = gath (F := F) X I i :=
  win_val_gen2 d L I X (k2_off10 L k) (k2_off10_inb L k hA) (k2_off6 k) (k2_off6_inb L k hA) 0 (k.val % 2) (wid2 L + 32 * k.val)
    (256 * (L 1).val + 128 * (L 0).val + 4096 * k.val) k.val (k2_off10_eq L k)
    (show 256 * (L 1).val + 128 * (L 0).val + 4096 * k.val = 128 * (2 * (L 1).val + (L 0).val + 32 * k.val) by omega)
    (k2_off6_eq k) (Nat.mod_eq_of_lt ((tb2_act_iff L k).mp hA)) (rPl2_0).view r (by decide) G S' hS' hin hI

/-- Plane 1 of a trip: its window of the result, written with the plane of the row scratch after the gather of the rows
    its index list names, holds the gathered array. -/
theorem win_val2_1 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off7 k) S1x1x128.size (k2_off7_inb L k hA)) (fun _ => rfl)).squeeze S128 squeezes_S1x1x128_S128).view.set, S' i = slotImg2 d L I k.val i)
    (hin : ∀ x : S128.Idx, (View.read (Elt F) (((sI).slice (Rect.unit (s := S2x4x128) (k2_off7 k) S1x1x128.size (k2_off7_inb L k hA)) (fun _ => rfl)).squeeze S128 squeezes_S1x1x128_S128).view S' x).toNat < 160000)
    (hI : ∀ i, (I i).toNat < 160000) :
    ∀ i ∈ (oWin2_1 L k hA).view.set,
      (oWin2_1 L k hA).view.writes (Elt F) G [⟨Rect.whole S128x128, ReadAs.same.apply (View.read (Elt F) (rPl2_1).view ((rPl2_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off7 k) S1x1x128.size (k2_off7_inb L k hA)) (fun _ => rfl)).squeeze S128 squeezes_S1x1x128_S128).view S') (by decide) hin)⟩]))⟩] i
        = gath (F := F) X I i :=
  win_val_gen2 d L I X (k2_off11 L k) (k2_off11_inb L k hA) (k2_off7 k) (k2_off7_inb L k hA) 1 (k.val % 2) (wid2 L + 32 * k.val)
    (256 * (L 1).val + 128 * (L 0).val + 4096 * k.val) k.val (k2_off11_eq L k)
    (show 256 * (L 1).val + 128 * (L 0).val + 4096 * k.val = 128 * (2 * (L 1).val + (L 0).val + 32 * k.val) by omega)
    (k2_off7_eq k) (Nat.mod_eq_of_lt ((tb2_act_iff L k).mp hA)) (rPl2_1).view r (by decide) G S' hS' hin hI

/-- Plane 2 of a trip: its window of the result, written with the plane of the row scratch after the gather of the rows
    its index list names, holds the gathered array. -/
theorem win_val2_2 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off8 k) S1x1x128.size (k2_off8_inb L k hA)) (fun _ => rfl)).squeeze S128 squeezes_S1x1x128_S128).view.set, S' i = slotImg2 d L I k.val i)
    (hin : ∀ x : S128.Idx, (View.read (Elt F) (((sI).slice (Rect.unit (s := S2x4x128) (k2_off8 k) S1x1x128.size (k2_off8_inb L k hA)) (fun _ => rfl)).squeeze S128 squeezes_S1x1x128_S128).view S' x).toNat < 160000)
    (hI : ∀ i, (I i).toNat < 160000) :
    ∀ i ∈ (oWin2_2 L k hA).view.set,
      (oWin2_2 L k hA).view.writes (Elt F) G [⟨Rect.whole S128x128, ReadAs.same.apply (View.read (Elt F) (rPl2_2).view ((rPl2_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off8 k) S1x1x128.size (k2_off8_inb L k hA)) (fun _ => rfl)).squeeze S128 squeezes_S1x1x128_S128).view S') (by decide) hin)⟩]))⟩] i
        = gath (F := F) X I i :=
  win_val_gen2 d L I X (k2_off12 L k) (k2_off12_inb L k hA) (k2_off8 k) (k2_off8_inb L k hA) 2 (k.val % 2) (wid2 L + 32 * k.val)
    (256 * (L 1).val + 128 * (L 0).val + 4096 * k.val) k.val (k2_off12_eq L k)
    (show 256 * (L 1).val + 128 * (L 0).val + 4096 * k.val = 128 * (2 * (L 1).val + (L 0).val + 32 * k.val) by omega)
    (k2_off8_eq k) (Nat.mod_eq_of_lt ((tb2_act_iff L k).mp hA)) (rPl2_2).view r (by decide) G S' hS' hin hI

/-- Plane 3 of a trip: its window of the result, written with the plane of the row scratch after the gather of the rows
    its index list names, holds the gathered array. -/
theorem win_val2_3 (k : Fin k2_t1_loop.trips) (hA : Act2 L k) (G : Buf (Elt F) (oLoc2 d)) (r : Buf (Elt F) ((thr2 d L).loc cc2_scratch1)) (S' : Buf (Elt F) ((thr2 d L).loc cc2_scratch0))
    (hS' : ∀ i ∈ (((sI).slice (Rect.unit (s := S2x4x128) (k2_off9 k) S1x1x128.size (k2_off9_inb L k hA)) (fun _ => rfl)).squeeze S128 squeezes_S1x1x128_S128).view.set, S' i = slotImg2 d L I k.val i)
    (hin : ∀ x : S128.Idx, (View.read (Elt F) (((sI).slice (Rect.unit (s := S2x4x128) (k2_off9 k) S1x1x128.size (k2_off9_inb L k hA)) (fun _ => rfl)).squeeze S128 squeezes_S1x1x128_S128).view S' x).toNat < 160000)
    (hI : ∀ i, (I i).toNat < 160000) :
    ∀ i ∈ (oWin2_3 L k hA).view.set,
      (oWin2_3 L k hA).view.writes (Elt F) G [⟨Rect.whole S128x128, ReadAs.same.apply (View.read (Elt F) (rPl2_3).view ((rPl2_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k2_off9 k) S1x1x128.size (k2_off9_inb L k hA)) (fun _ => rfl)).squeeze S128 squeezes_S1x1x128_S128).view S') (by decide) hin)⟩]))⟩] i
        = gath (F := F) X I i :=
  win_val_gen2 d L I X (k2_off13 L k) (k2_off13_inb L k hA) (k2_off9 k) (k2_off9_inb L k hA) 3 (k.val % 2) (wid2 L + 32 * k.val)
    (256 * (L 1).val + 128 * (L 0).val + 4096 * k.val) k.val (k2_off13_eq L k)
    (show 256 * (L 1).val + 128 * (L 0).val + 4096 * k.val = 128 * (2 * (L 1).val + (L 0).val + 32 * k.val) by omega)
    (k2_off9_eq k) (Nat.mod_eq_of_lt ((tb2_act_iff L k).mp hA)) (rPl2_3).view r (by decide) G S' hS' hin hI

end Cert.Kernel.KP

end
-- ==== Proof.TileTrip2B.lean ====
/-
  One trip of the loop of call 2's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal2B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The table's share as the remainder and one read token per gather semaphore. -/
def xPart2 : sProp 𝕄 :=
  iprop(((xW).view.loc (thr2 d L) ↦{Transfers.shareDrop q 4} X) ∗ ((xW).view.loc (thr2 d L) ↦{Transfers.shareTok q 4 0} X) ∗ ((xW).view.loc (thr2 d L) ↦{Transfers.shareTok q 4 1} X)
    ∗ ((xW).view.loc (thr2 d L) ↦{Transfers.shareTok q 4 2} X) ∗ ((xW).view.loc (thr2 d L) ↦{Transfers.shareTok q 4 3} X))
/-- The gather semaphores at rest. -/
def gsems2 : sProp 𝕄 :=
  iprop(semVal (cellD2 d L cc2_scratch2) 0 ∗ semVal (cellD2 d L cc2_scratch3) 0 ∗ semVal (cellD2 d L cc2_scratch4) 0 ∗ semVal (cellD2 d L cc2_scratch5) 0)
/-- The index fetch of an active trip `t` in flight. -/
def idxFly2 (t : Fin k2_t1_loop.trips) (h : Act2 L t) : sProp 𝕄 :=
  iprop(∃ S, ⌜SlotAgrees2 d L I t h S⌝
    ∗ Transfers.Flight countersEmb (thr2 d L) (SemLoc.dma cc2_scratch10.sem) (default : HIx 5) 16384 (idxDeliv2 d L q I t h S)
    ∗ ((iW).view.loc (thr2 d L) ↦[Finset.univ \ (iCh2 L t h).view.set]{q} I)
    ∗ ((sI).view.loc (thr2 d L) ↦[Finset.univ \ (sSl2 L t h).view.set]{fullShare} S))
/-- The four write-outs of an active trip `t` in flight. -/
def rowsFly2 (t : Fin k2_t1_loop.trips) (h : Act2 L t) : sProp 𝕄 :=
  iprop(∃ r0 r1 r2 r3, Transfers.Flight countersEmb (thr2 d L) (SemLoc.dma cc2_scratch6.sem) (default : HIx 5) 524288 (wDeliv2 d L X I t h 0 (pl2_0 d L r0))
    ∗ Transfers.Flight countersEmb (thr2 d L) (SemLoc.dma cc2_scratch7.sem) (default : HIx 5) 524288 (wDeliv2 d L X I t h 1 (pl2_1 d L r1))
    ∗ Transfers.Flight countersEmb (thr2 d L) (SemLoc.dma cc2_scratch8.sem) (default : HIx 5) 524288 (wDeliv2 d L X I t h 2 (pl2_2 d L r2))
    ∗ Transfers.Flight countersEmb (thr2 d L) (SemLoc.dma cc2_scratch9.sem) (default : HIx 5) 524288 (wDeliv2 d L X I t h 3 (pl2_3 d L r3)))
omit [FloatOps F] in
/-- One more wait recorded at index `none` keeps the recorded waits within `W` and index `none`. -/
theorem none_ins2 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart2 (O : CellTallies nD τ sig (HIx 5)) (W : Waits sig (HIx 5)) : sProp 𝕄 :=
  iprop(∃ W', ⌜∀ p ∈ W', p ∈ W ∨ p.2 = none⌝ ∗ owes (thr2 d L) O W')

/-- The index side at rest: the semaphore at zero, block and scratch whole. -/
def idxIdle2 : sProp 𝕄 :=
  iprop(semVal (cellD2 d L cc2_scratch10) 0 ∗ ((iW).view.loc (thr2 d L) ↦{q} I) ∗ ∃ S, (sI).view.loc (thr2 d L) ↦{fullShare} S)
/-- The row scratch and the write-out semaphores at rest. -/
def rowsIdle2 : sProp 𝕄 :=
  iprop((semVal (cellD2 d L cc2_scratch6) 0 ∗ ∃ r, pl2_0 d L r) ∗ (semVal (cellD2 d L cc2_scratch7) 0 ∗ ∃ r, pl2_1 d L r)
    ∗ (semVal (cellD2 d L cc2_scratch8) 0 ∗ ∃ r, pl2_2 d L r) ∗ (semVal (cellD2 d L cc2_scratch9) 0 ∗ ∃ r, pl2_3 d L r))

/-- On the first trip the loop's test `i ≥ 1` fails (in the words the body computes it with). -/
theorem lt1_cond2 : ∀ k : Fin k2_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA2 (O : CellTallies nD τ sig (HIx 5)) (W : Waits sig (HIx 5))
    (k tp k' : Fin k2_t1_loop.trips) (hp : tp.val + 1 = k.val) (hk' : k'.val = k.val + 1) (hA : Act2 L k) (hAp : Act2 L tp) (hA' : Act2 L k')
    (h2 : k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsFly2 d L X I tp hAp ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxFly2 d L q I k' hA' ∗ gsems2 d L ∗ rowsFly2 d L X I k hA
            ∗ oWins2 d L tp hAp (gath (F := F) X I) ∗ owesPart2 d L O W ∗ R) := by
  unfold xPart2 idxFly2 gsems2 rowsFly2 oWins2 owesPart2
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have hdisj := slots_disj2 L k hA h2
  have hd6 := list6_disj2 L k hA h2
  have hd7 := list7_disj2 L k hA h2
  have hd8 := list8_disj2 L k hA h2
  have hd9 := list9_disj2 L k hA h2
  have hk1 : 1 ≤ k.val := by omega
  have k2_h3 := ge1_cond2 k hk1
  sl_unfold [k2_t1_body]
  sl_exec
  have hin6 := list6_inr2 d L I k hA (tripA2.sl.HsI_w0 d L I k hA h2 S) (list6_agree2 d L I k hA h2 S hS _) hI
  have hin7 := list7_inr2 d L I k hA (tripA2.sl.HsI_w0 d L I k hA h2 S) (list7_agree2 d L I k hA h2 S hS _) hI
  have hin8 := list8_inr2 d L I k hA (tripA2.sl.HsI_w0 d L I k hA h2 S) (list8_agree2 d L I k hA h2 S hS _) hI
  have hin9 := list9_inr2 d L I k hA (tripA2.sl.HsI_w0 d L I k hA h2 S) (list9_agree2 d L I k hA h2 S hS _) hI
  sl_exec
  have hw0 : (((oWin2_0 L k hA).view.loc (thr2 d L) ↦[(oWin2_0 L k hA).view.set]{fullShare}
      ((oWin2_0 L k hA).view.writes (Elt F) G [⟨Rect.whole S128x128, tripA2.sl.dma0_1 d L X I k hA h2 S r0 hin6⟩])) : sProp 𝕄)
      = ((oW).view.loc (thr2 d L) ↦[oSet2 L k hA 0]{fullShare} gath (F := F) X I) :=
    pointsTo_congr (win_val2_0 d L I X k hA G r0 _ (list6_agree2 d L I k hA h2 S hS _) hin6 hI)
  have hw1 : (((oWin2_1 L k hA).view.loc (thr2 d L) ↦[(oWin2_1 L k hA).view.set]{fullShare}
      ((oWin2_1 L k hA).view.writes (Elt F) G [⟨Rect.whole S128x128, tripA2.sl.dma0_2 d L X I k hA h2 S r1 hin7⟩])) : sProp 𝕄)
      = ((oW).view.loc (thr2 d L) ↦[oSet2 L k hA 1]{fullShare} gath (F := F) X I) :=
    pointsTo_congr (win_val2_1 d L I X k hA G r1 _ (list7_agree2 d L I k hA h2 S hS _) hin7 hI)
  have hw2 : (((oWin2_2 L k hA).view.loc (thr2 d L) ↦[(oWin2_2 L k hA).view.set]{fullShare}
      ((oWin2_2 L k hA).view.writes (Elt F) G [⟨Rect.whole S128x128, tripA2.sl.dma0_3 d L X I k hA h2 S r2 hin8⟩])) : sProp 𝕄)
      = ((oW).view.loc (thr2 d L) ↦[oSet2 L k hA 2]{fullShare} gath (F := F) X I) :=
    pointsTo_congr (win_val2_2 d L I X k hA G r2 _ (list8_agree2 d L I k hA h2 S hS _) hin8 hI)
  have hw3 : (((oWin2_3 L k hA).view.loc (thr2 d L) ↦[(oWin2_3 L k hA).view.set]{fullShare}
      ((oWin2_3 L k hA).view.writes (Elt F) G [⟨Rect.whole S128x128, tripA2.sl.dma0_4 d L X I k hA h2 S r3 hin9⟩])) : sProp 𝕄)
      = ((oW).view.loc (thr2 d L) ↦[oSet2 L k hA 3]{fullShare} gath (F := F) X I) :=
    pointsTo_congr (win_val2_3 d L I X k hA G r3 _ (list9_agree2 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA2.sl.HsI_w0 d L I k hA h2 S)
    isplitr
    · ipureintro; exact slot_agree_next2 d L I k k' hk' hA hA' h2 S
    rw [slot_next_set2 L k k' hk' hA hA' h2, chunk_next_set2 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr2 d L) (sep_mono_left (Entails.of_eq hw0))) $$ Hf0
    isplitl [Hf1]
    · iapply (Transfers.Flight_mono countersEmb (thr2 d L) (sep_mono_left (Entails.of_eq hw1))) $$ Hf1
    isplitl [Hf2]
    · iapply (Transfers.Flight_mono countersEmb (thr2 d L) (sep_mono_left (Entails.of_eq hw2))) $$ Hf2
    · iapply (Transfers.Flight_mono countersEmb (thr2 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins2 (none_ins2 (none_ins2 (none_ins2 (none_ins2 (none_ins2 (none_ins2 (none_ins2 (none_ins2 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB2 (O : CellTallies nD τ sig (HIx 5)) (W : Waits sig (HIx 5))
    (k tp : Fin k2_t1_loop.trips) (hp : tp.val + 1 = k.val) (hA : Act2 L k) (hAp : Act2 L tp)
    (hn2 : ¬ k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsFly2 d L X I tp hAp ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxIdle2 d L q I ∗ gsems2 d L ∗ rowsFly2 d L X I k hA
            ∗ oWins2 d L tp hAp (gath (F := F) X I) ∗ owesPart2 d L O W ∗ R) := by
  unfold xPart2 idxFly2 idxIdle2 gsems2 rowsFly2 oWins2 owesPart2
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have k2_h2 : ¬ k2_cond2 L k = 1#1 := hn2
  have hk1 : 1 ≤ k.val := by omega
  have k2_h3 := ge1_cond2 k hk1
  have hin6 := list6_inr2 d L I k hA S (fun i hi => hS i (list6_sub2 L k hA hi)) hI
  have hin7 := list7_inr2 d L I k hA S (fun i hi => hS i (list7_sub2 L k hA hi)) hI
  have hin8 := list8_inr2 d L I k hA S (fun i hi => hS i (list8_sub2 L k hA hi)) hI
  have hin9 := list9_inr2 d L I k hA S (fun i hi => hS i (list9_sub2 L k hA hi)) hI
  sl_unfold [k2_t1_body]
  sl_exec
  have hw0 : (((oWin2_0 L k hA).view.loc (thr2 d L) ↦[(oWin2_0 L k hA).view.set]{fullShare}
      ((oWin2_0 L k hA).view.writes (Elt F) G [⟨Rect.whole S128x128, tripB2.sl.dma0 d L X k hA S r0 hin6⟩])) : sProp 𝕄)
      = ((oW).view.loc (thr2 d L) ↦[oSet2 L k hA 0]{fullShare} gath (F := F) X I) :=
    pointsTo_congr (win_val2_0 d L I X k hA G r0 S (fun i hi => hS i (list6_sub2 L k hA hi)) hin6 hI)
  have hw1 : (((oWin2_1 L k hA).view.loc (thr2 d L) ↦[(oWin2_1 L k hA).view.set]{fullShare}
      ((oWin2_1 L k hA).view.writes (Elt F) G [⟨Rect.whole S128x128, tripB2.sl.dma0_1 d L X k hA S r1 hin7⟩])) : sProp 𝕄)
      = ((oW).view.loc (thr2 d L) ↦[oSet2 L k hA 1]{fullShare} gath (F := F) X I) :=
    pointsTo_congr (win_val2_1 d L I X k hA G r1 S (fun i hi => hS i (list7_sub2 L k hA hi)) hin7 hI)
  have hw2 : (((oWin2_2 L k hA).view.loc (thr2 d L) ↦[(oWin2_2 L k hA).view.set]{fullShare}
      ((oWin2_2 L k hA).view.writes (Elt F) G [⟨Rect.whole S128x128, tripB2.sl.dma0_2 d L X k hA S r2 hin8⟩])) : sProp 𝕄)
      = ((oW).view.loc (thr2 d L) ↦[oSet2 L k hA 2]{fullShare} gath (F := F) X I) :=
    pointsTo_congr (win_val2_2 d L I X k hA G r2 S (fun i hi => hS i (list8_sub2 L k hA hi)) hin8 hI)
  have hw3 : (((oWin2_3 L k hA).view.loc (thr2 d L) ↦[(oWin2_3 L k hA).view.set]{fullShare}
      ((oWin2_3 L k hA).view.writes (Elt F) G [⟨Rect.whole S128x128, tripB2.sl.dma0_3 d L X k hA S r3 hin9⟩])) : sProp 𝕄)
      = ((oW).view.loc (thr2 d L) ↦[oSet2 L k hA 3]{fullShare} gath (F := F) X I) :=
    pointsTo_congr (win_val2_3 d L I X k hA G r3 S (fun i hi => hS i (list9_sub2 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr2 d L) (sep_mono_left (Entails.of_eq hw0))) $$ Hf0
    isplitl [Hf1]
    · iapply (Transfers.Flight_mono countersEmb (thr2 d L) (sep_mono_left (Entails.of_eq hw1))) $$ Hf1
    isplitl [Hf2]
    · iapply (Transfers.Flight_mono countersEmb (thr2 d L) (sep_mono_left (Entails.of_eq hw2))) $$ Hf2
    · iapply (Transfers.Flight_mono countersEmb (thr2 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins2 (none_ins2 (none_ins2 (none_ins2 (none_ins2 (none_ins2 (none_ins2 (none_ins2 (none_ins2 (hW')))))))))

set_option maxHeartbeats 1000000 in
set_option sl_exec.dmaWindow true in
/-- The first trip: from its index fetch in flight and the row scratch at rest to the index fetch of trip 1 and its own
    four write-outs in flight. -/
theorem tripC2 (O : CellTallies nD τ sig (HIx 5)) (W : Waits sig (HIx 5))
    (k k' : Fin k2_t1_loop.trips) (hk0 : k.val = 0) (hk' : k'.val = k.val + 1) (hA : Act2 L k) (hA' : Act2 L k')
    (h2 : k2_cond2 L k = 1#1) (hI : ∀ i, (I i).toNat < 160000) (R : sProp 𝕄) :
    iprop((Transfers.MayWaits (thr2 d L) (none : HIx 5) O : sProp 𝕄) ∗ xPart2 d L q X ∗ idxFly2 d L q I k hA ∗ gsems2 d L
        ∗ rowsIdle2 d L ∗ oWins2 d L k hA G ∗ owesPart2 d L O W ∗ R)
      ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => iprop(xPart2 d L q X ∗ idxFly2 d L q I k' hA' ∗ gsems2 d L ∗ rowsFly2 d L X I k hA ∗ owesPart2 d L O W ∗ R) := by
  unfold xPart2 idxFly2 gsems2 rowsIdle2 rowsFly2 oWins2 owesPart2
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv2 wDeliv2 pl2_0 pl2_1 pl2_2 pl2_3
  have k2_h1 : k2_cond1 L k = 1#1 := hA
  have k2_h3 := lt1_cond2 k hk0
  have hdisj := slots_disj2 L k hA h2
  have hd6 := list6_disj2 L k hA h2
  have hd7 := list7_disj2 L k hA h2
  have hd8 := list8_disj2 L k hA h2
  have hd9 := list9_disj2 L k hA h2
  sl_unfold [k2_t1_body]
  sl_exec
  have hin6 := list6_inr2 d L I k hA (tripC2.sl.HsI_w0 d L I k hA h2 S) (list6_agree2 d L I k hA h2 S hS _) hI
  have hin7 := list7_inr2 d L I k hA (tripC2.sl.HsI_w0 d L I k hA h2 S) (list7_agree2 d L I k hA h2 S hS _) hI
  have hin8 := list8_inr2 d L I k hA (tripC2.sl.HsI_w0 d L I k hA h2 S) (list8_agree2 d L I k hA h2 S hS _) hI
  have hin9 := list9_inr2 d L I k hA (tripC2.sl.HsI_w0 d L I k hA h2 S) (list9_agree2 d L I k hA h2 S hS _) hI
  sl_exec
  have hw0 : (((oWin2_0 L k hA).view.loc (thr2 d L) ↦[(oWin2_0 L k hA).view.set]{fullShare}
      ((oWin2_0 L k hA).view.writes (Elt F) G [⟨Rect.whole S128x128, tripC2.sl.dma0_1 d L X I k hA h2 S r0 hin6⟩])) : sProp 𝕄)
      = ((oW).view.loc (thr2 d L) ↦[oSet2 L k hA 0]{fullShare} gath (F := F) X I) :=
    pointsTo_congr (win_val2_0 d L I X k hA G r0 _ (list6_agree2 d L I k hA h2 S hS _) hin6 hI)
  have hw1 : (((oWin2_1 L k hA).view.loc (thr2 d L) ↦[(oWin2_1 L k hA).view.set]{fullShare}
      ((oWin2_1 L k hA).view.writes (Elt F) G [⟨Rect.whole S128x128, tripC2.sl.dma0_2 d L X I k hA h2 S r1 hin7⟩])) : sProp 𝕄)
      = ((oW).view.loc (thr2 d L) ↦[oSet2 L k hA 1]{fullShare} gath (F := F) X I) :=
    pointsTo_congr (win_val2_1 d L I X k hA G r1 _ (list7_agree2 d L I k hA h2 S hS _) hin7 hI)
  have hw2 : (((oWin2_2 L k hA).view.loc (thr2 d L) ↦[(oWin2_2 L k hA).view.set]{fullShare}
      ((oWin2_2 L k hA).view.writes (Elt F) G [⟨Rect.whole S128x128, tripC2.sl.dma0_3 d L X I k hA h2 S r2 hin8⟩])) : sProp 𝕄)
      = ((oW).view.loc (thr2 d L) ↦[oSet2 L k hA 2]{fullShare} gath (F := F) X I) :=
    pointsTo_congr (win_val2_2 d L I X k hA G r2 _ (list8_agree2 d L I k hA h2 S hS _) hin8 hI)
  have hw3 : (((oWin2_3 L k hA).view.loc (thr2 d L) ↦[(oWin2_3 L k hA).view.set]{fullShare}
      ((oWin2_3 L k hA).view.writes (Elt F) G [⟨Rect.whole S128x128, tripC2.sl.dma0_4 d L X I k hA h2 S r3 hin9⟩])) : sProp 𝕄)
      = ((oW).view.loc (thr2 d L) ↦[oSet2 L k hA 3]{fullShare} gath (F := F) X I) :=
    pointsTo_congr (win_val2_3 d L I X k hA G r3 _ (list9_agree2 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC2.sl.HsI_w0 d L I k hA h2 S)
    isplitr
    · ipureintro; exact slot_agree_next2 d L I k k' hk' hA hA' h2 S
    rw [slot_next_set2 L k k' hk' hA hA' h2, chunk_next_set2 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr2 d L) (sep_mono_left (Entails.of_eq hw0))) $$ Hw0
    isplitl [Hw1]
    · iapply (Transfers.Flight_mono countersEmb (thr2 d L) (sep_mono_left (Entails.of_eq hw1))) $$ Hw1
    isplitl [Hw2]
    · iapply (Transfers.Flight_mono countersEmb (thr2 d L) (sep_mono_left (Entails.of_eq hw2))) $$ Hw2
    · iapply (Transfers.Flight_mono countersEmb (thr2 d L) (sep_mono_left (Entails.of_eq hw3))) $$ Hw3
  isplitr [HR]
  rotate_left
  · iexact HR
  iexists _
  isplitr
  rotate_left
  · iexact HO
  · ipureintro
    exact none_ins2 (none_ins2 (none_ins2 (none_ins2 (none_ins2 (hW')))))

/-- An idle trip (its chunk number is 250 or more) does nothing. -/
theorem tripI2 (k : Fin k2_t1_loop.trips) (hnA : ¬ Act2 L k) (R : sProp 𝕄) :
    R ⊢ wp frame (wpE (defs₀ (F := F)) 𝒱₀ (thr2 d L) none) Set.univ
          (k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k ())
          fun _ => R := by
  iintro HR
  have k2_h1 : ¬ k2_cond1 L k = 1#1 := hnA
  sl_unfold [k2_t1_body]
  sl_exec
  sl_step
  iexact HR

end Cert.Kernel.KP

end
-- ==== Proof.TileOut2B.lean ====
/-
  The result's windows through the loop of call 2's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody2bB

noncomputable section

namespace Cert.Kernel.KP

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable (d : Dev nD) (L : grid2.Coords)

/-! ## Which trips are active -/

theorem wid_lt2 : wid2 L < 32 := by
  have h0 : (L 0).val < 2 := (L 0).isLt
  have h1 : (L 1).val < 16 := (L 1).isLt
  show 2 * (L 1).val + (L 0).val < 32
  omega

theorem act_iff_lt2 (t : Fin k2_t1_loop.trips) : Act2 L t ↔ t.val < nAct2 L := by
  have hw := wid_lt2 L
  refine (tb2_act_iff L t).trans ?_
  show wid2 L + 32 * t.val < 250 ↔ t.val < (250 - wid2 L + 31) / 32
  omega

theorem nAct_bounds2 : 7 ≤ nAct2 L ∧ nAct2 L ≤ 8 := by
  have hw := wid_lt2 L
  show 7 ≤ (250 - wid2 L + 31) / 32 ∧ (250 - wid2 L + 31) / 32 ≤ 8
  omega

theorem pre_iff_lt2 (k : Fin k2_t1_loop.trips) : k2_cond2 L k = 1#1 ↔ k.val + 1 < nAct2 L := by
  have hw := wid_lt2 L
  refine (tb2_pre_iff L k).trans ?_
  show wid2 L + 32 * k.val + 32 < 250 ↔ k.val + 1 < (250 - wid2 L + 31) / 32
  omega

theorem cnt_act2 (k : Fin k2_t1_loop.trips) (hA : Act2 L k) : cnt2 L k.val = k.val ∧ cnt2 L (k.val + 1) = k.val + 1 := by
  have h := (act_iff_lt2 L k).mp hA
  show min k.val (nAct2 L) = k.val ∧ min (k.val + 1) (nAct2 L) = k.val + 1
  omega

theorem cnt_idle2 (k : Fin k2_t1_loop.trips) (hnA : ¬ Act2 L k) : cnt2 L k.val = nAct2 L ∧ cnt2 L (k.val + 1) = nAct2 L := by
  have h : ¬ k.val < nAct2 L := fun h => hnA ((act_iff_lt2 L k).mpr h)
  show min k.val (nAct2 L) = nAct2 L ∧ min (k.val + 1) (nAct2 L) = nAct2 L
  omega

theorem cnt_end2 : cnt2 L k2_t1_loop.trips = nAct2 L := by
  have h := (nAct_bounds2 L).2
  show min k2_t1_loop.trips (nAct2 L) = nAct2 L
  rw [tb2_trips]
  omega

/-! ## The windows' family -/

variable (X : Buf (Elt F) (xLoc d)) (I : Buf (Elt F) (iLoc2 d)) (G : Buf (Elt F) (oLoc2 d))

/-- Trip `t`'s windows after `n` active trips: at the gathered array, in flight, or as found. -/
def outPhi2 (n : ℕ) (t : Fin k2_t1_loop.trips) : sProp 𝕄 :=
  if t.val + 1 < n then oTrip2 d L (gath (F := F) X I) t else if t.val + 1 = n then iprop(emp) else oTrip2 d L G t

theorem outPart2_eq (n : ℕ) : outPart2 d L X I G n = bigSep Finset.univ (outPhi2 d L X I G n) := rfl

theorem outPhi2_done {n : ℕ} {t : Fin k2_t1_loop.trips} (h : t.val + 1 < n) : outPhi2 d L X I G n t = oTrip2 d L (gath (F := F) X I) t := by
  unfold outPhi2; rw [if_pos h]
theorem outPhi2_flight {n : ℕ} {t : Fin k2_t1_loop.trips} (h : t.val + 1 = n) : outPhi2 d L X I G n t = (iprop(emp) : sProp 𝕄) := by
  unfold outPhi2; rw [if_neg (by omega), if_pos h]
theorem outPhi2_found {n : ℕ} {t : Fin k2_t1_loop.trips} (h : n < t.val + 1) : outPhi2 d L X I G n t = oTrip2 d L G t := by
  unfold outPhi2; rw [if_neg (by omega), if_neg (by omega)]

/-- Before any trip every window is as found. -/
theorem out_init2 : (bigSep Finset.univ fun t : Fin k2_t1_loop.trips => oTrip2 d L G t) = outPart2 d L X I G 0 := by
  rw [outPart2_eq]
  exact bigSep_congr fun t _ => (outPhi2_found d L X I G (Nat.succ_pos _)).symm

/-- Entering trip `k` (the trip before it, `tp`, in flight): its own windows come out, as found. -/
theorem out_take2 (k tp : Fin k2_t1_loop.trips) (hp : tp.val + 1 = k.val) (hA : Act2 L k) :
    outPart2 d L X I G k.val ⊢ iprop(oWins2 d L k hA G ∗ bigSep ((Finset.univ.erase k).erase tp) (outPhi2 d L X I G k.val)) := by
  have hne : tp ≠ k := fun e => by rw [e] at hp; omega
  rw [outPart2_eq, SparseCore.bigSep_erase' (Finset.mem_univ k),
    SparseCore.bigSep_erase' (Finset.mem_erase.mpr ⟨hne, Finset.mem_univ tp⟩),
    outPhi2_found d L X I G (Nat.lt_succ_self _), outPhi2_flight d L X I G hp, oTrip2_act d L k hA]
  iintro ⟨Hw, -, Hr⟩
  isplitl [Hw] <;> iassumption

/-- Leaving trip `k`: the previous trip's windows go back, at the gathered array; trip `k`'s are now the ones in flight. -/
theorem out_put2 (k tp : Fin k2_t1_loop.trips) (hp : tp.val + 1 = k.val) (hAp : Act2 L tp) :
    iprop(oWins2 d L tp hAp (gath (F := F) X I) ∗ bigSep ((Finset.univ.erase k).erase tp) (outPhi2 d L X I G k.val))
      ⊢ outPart2 d L X I G (k.val + 1) := by
  have hne : tp ≠ k := fun e => by rw [e] at hp; omega
  rw [outPart2_eq, SparseCore.bigSep_erase' (Finset.mem_univ k),
    SparseCore.bigSep_erase' (Finset.mem_erase.mpr ⟨hne, Finset.mem_univ tp⟩),
    outPhi2_flight d L X I G rfl, outPhi2_done d L X I G (show tp.val + 1 < k.val + 1 by omega), oTrip2_act d L tp hAp,
    show bigSep ((Finset.univ.erase k).erase tp) (outPhi2 d L X I G (k.val + 1)) = bigSep ((Finset.univ.erase k).erase tp) (outPhi2 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi2
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first2 (h0 : 0 < k2_t1_loop.trips) (hA : Act2 L ⟨0, h0⟩) :
    outPart2 d L X I G 0 ⊢ iprop(oWins2 d L ⟨0, h0⟩ hA G ∗ bigSep (Finset.univ.erase ⟨0, h0⟩) (outPhi2 d L X I G 0)) := by
  rw [outPart2_eq, SparseCore.bigSep_erase' (Finset.mem_univ (⟨0, h0⟩ : Fin k2_t1_loop.trips)),
    outPhi2_found d L X I G (Nat.succ_pos _), oTrip2_act d L ⟨0, h0⟩ hA]

/-- Leaving it: nothing goes back yet. -/
theorem out_put_first2 (h0 : 0 < k2_t1_loop.trips) :
    bigSep (Finset.univ.erase (⟨0, h0⟩ : Fin k2_t1_loop.trips)) (outPhi2 d L X I G 0) ⊢ outPart2 d L X I G 1 := by
  rw [outPart2_eq, SparseCore.bigSep_erase' (Finset.mem_univ (⟨0, h0⟩ : Fin k2_t1_loop.trips)),
    outPhi2_flight d L X I G (show (⟨0, h0⟩ : Fin k2_t1_loop.trips).val + 1 = 1 from rfl),
    show bigSep (Finset.univ.erase (⟨0, h0⟩ : Fin k2_t1_loop.trips)) (outPhi2 d L X I G 1) = bigSep (Finset.univ.erase (⟨0, h0⟩ : Fin k2_t1_loop.trips)) (outPhi2 d L X I G 0) from
      bigSep_congr fun t ht => by
        have h1 : t ≠ ⟨0, h0⟩ := (Finset.mem_erase.mp ht).1
        have h1' : t.val ≠ 0 := fun e => h1 (Fin.ext e)
        rw [outPhi2_found d L X I G (show 1 < t.val + 1 by omega), outPhi2_found d L X I G (Nat.succ_pos _)]]
  iintro Hr
  isplitr; · iempintro
  iexact Hr

/-- After the last active trip `tl`, with its windows back: every trip's windows hold the gathered array (the idle
    trips have none). -/
theorem out_final2 (tl : Fin k2_t1_loop.trips) (hAl : Act2 L tl) (hidle : ∀ t : Fin k2_t1_loop.trips, tl.val < t.val → ¬ Act2 L t) :
    iprop(outPart2 d L X I G (tl.val + 1) ∗ oWins2 d L tl hAl (gath (F := F) X I))
      ⊢ bigSep Finset.univ fun t : Fin k2_t1_loop.trips => oTrip2 d L (gath (F := F) X I) t := by
  rw [outPart2_eq, SparseCore.bigSep_erase' (Finset.mem_univ tl) (Φ := outPhi2 d L X I G (tl.val + 1)),
    SparseCore.bigSep_erase' (Finset.mem_univ tl) (Φ := fun t : Fin k2_t1_loop.trips => oTrip2 d L (gath (F := F) X I) t),
    outPhi2_flight d L X I G rfl, oTrip2_act d L tl hAl,
    show bigSep (Finset.univ.erase tl) (outPhi2 d L X I G (tl.val + 1)) = bigSep (Finset.univ.erase tl) (fun t : Fin k2_t1_loop.trips => oTrip2 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi2_done d L X I G (by omega)
        · have hi := hidle t (by omega)
          rw [outPhi2_found d L X I G (show tl.val + 1 < t.val + 1 by omega), oTrip2_idle d L t hi, oTrip2_idle d L t hi]]
  iintro ⟨⟨-, Hr⟩, Hw⟩
  isplitl [Hw] <;> iassumption

end Cert.Kernel.KP

end
-- ==== Proof.TileScoped2B.lean ====
/-
  The scoped storage of one vector subcore as call 2's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody2bB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable (d : Dev nD) (L : grid2.Coords)

/-! ## The task's nine semaphores among the subcore's own -/

/-- The nine DMA semaphores of the task, as semaphore locations. -/
def semS2 : List (SemLoc sig) := [SemLoc.dma cc2_scratch2.sem, SemLoc.dma cc2_scratch3.sem, SemLoc.dma cc2_scratch4.sem, SemLoc.dma cc2_scratch5.sem, SemLoc.dma cc2_scratch6.sem, SemLoc.dma cc2_scratch7.sem, SemLoc.dma cc2_scratch8.sem, SemLoc.dma cc2_scratch9.sem, SemLoc.dma cc2_scratch10.sem]

theorem semS2_nodup : (semS2).Nodup := by decide
theorem semS2_scoped : ∀ s ∈ semS2, (s : SemLoc sig).isScoped .scVector = true := by decide

/-- The same as cells of the tile's thread. -/
def semL2 : List (GSem nD τ sig) := semS2.map fun s => (thr2 d L, s)

theorem semL2_nodup : (semL2 d L).Nodup :=
  semS2_nodup.map fun _ _ h => (Prod.mk.inj h).2

theorem semL2_sub : (semL2 d L).toFinset ⊆ ownCells (thr2 d L) := by
  intro g hg
  rw [List.mem_toFinset, semL2, List.mem_map] at hg
  obtain ⟨s, hs, rfl⟩ := hg
  exact mem_ownCells.mpr ⟨rfl, semS2_scoped s hs⟩

/-- The subcore's own semaphores that the task does not use, each at zero. -/
def RestSems2 : sProp 𝕄 := bigSep (ownCells (thr2 d L) \ (semL2 d L).toFinset) fun g => semVal g 0

/-- The subcore's own semaphores at zero are the task's nine at zero and the rest. -/
theorem ownSems0_V2 :
    (ownSems0 (thr2 d L) : sProp 𝕄)
      = iprop(semVal (cellD2 d L cc2_scratch2) 0 ∗ semVal (cellD2 d L cc2_scratch3) 0 ∗ semVal (cellD2 d L cc2_scratch4) 0 ∗ semVal (cellD2 d L cc2_scratch5) 0 ∗ semVal (cellD2 d L cc2_scratch6) 0 ∗ semVal (cellD2 d L cc2_scratch7) 0 ∗ semVal (cellD2 d L cc2_scratch8) 0 ∗ semVal (cellD2 d L cc2_scratch9) 0 ∗ semVal (cellD2 d L cc2_scratch10) 0 ∗ RestSems2 d L) := by
  unfold SparseCore.Cfg.ownSems0 RestSems2
  rw [SparseCore.bigSep_sdiff_split' (semL2_sub d L), bigSep_eq_bigSepL (semL2 d L) (semL2_nodup d L)]
  unfold semL2 semS2
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs2 : sProp 𝕄 :=
  bigSep (((ownRefs (τ := τ) (.scVector (cV2 L) (jV2 L))).erase ((Proc.scVector (cV2 L) (jV2 L)).devRef cc2_scratch0)).erase
      ((Proc.scVector (cV2 L) (jV2 L)).devRef cc2_scratch1))
    fun b => iprop(∃ f, ((d, b) : Loc nD τ sig) ↦{fullShare} f)

/-- The subcore's own buffers are the index scratch, the row scratch, each at some contents, and the rest. -/
theorem ownBufs_V2 :
    (ownBufs (thr2 d L) : sProp 𝕄)
      = iprop((∃ f, (thr2 d L).loc cc2_scratch0 ↦{fullShare} f) ∗ (∃ f, (thr2 d L).loc cc2_scratch1 ↦{fullShare} f) ∗ RestBufs2 d L) := by
  unfold SparseCore.Cfg.ownBufs RestBufs2
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩)]

/-! ## The whole arrays under the subcore's names -/

theorem pts_sI2 (f : Buf (Elt F) ((thr2 d L).loc cc2_scratch0)) :
    ((sI).view.loc (thr2 d L) ↦{fullShare} f : sProp 𝕄) = (thr2 d L).loc cc2_scratch0 ↦{fullShare} f := rfl
theorem pts_sR2 (f : Buf (Elt F) ((thr2 d L).loc cc2_scratch1)) :
    ((sR).view.loc (thr2 d L) ↦{fullShare} f : sProp 𝕄) = (thr2 d L).loc cc2_scratch1 ↦{fullShare} f := rfl
theorem pts_x2 (q : PosShare TreeShare) (f : Buf (Elt F) (xLoc d)) :
    ((xW).view.loc (thr2 d L) ↦{q} f : sProp 𝕄) = xLoc d ↦{q} f := rfl
theorem pts_i2 (q : PosShare TreeShare) (f : Buf (Elt F) (iLoc2 d)) :
    ((iW).view.loc (thr2 d L) ↦{q} f : sProp 𝕄) = iLoc2 d ↦{q} f := rfl
theorem pts_o2 (K : Finset S4x32000x128.Idx) (q : PosShare TreeShare) (f : Buf (Elt F) (oLoc2 d)) :
    ((oW).view.loc (thr2 d L) ↦[K]{q} f : sProp 𝕄) = oLoc2 d ↦[K]{q} f := rfl

/-! ## The row scratch is its four planes -/

theorem pl_inb2 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet2 (j : Fin 4) : Finset S4x128x128.Idx := (Rect.unit (s := S4x128x128) ![j.val, 0, 0] S1x128x128.size (pl_inb2 j)).set

theorem set_rPl2_0 : (rPl2_0).view.set = plSet2 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc2_scratch1 : Ref sig .scVector) _).trans rfl
theorem set_rPl2_1 : (rPl2_1).view.set = plSet2 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc2_scratch1 : Ref sig .scVector) _).trans rfl
theorem set_rPl2_2 : (rPl2_2).view.set = plSet2 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc2_scratch1 : Ref sig .scVector) _).trans rfl
theorem set_rPl2_3 : (rPl2_3).view.set = plSet2 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc2_scratch1 : Ref sig .scVector) _).trans rfl

/-- Different planes are disjoint: they differ in the first coordinate. -/
theorem pl_disjoint2 : ∀ i ∈ (Finset.univ : Finset (Fin 4)), ∀ j ∈ (Finset.univ : Finset (Fin 4)), i ≠ j → Disjoint (plSet2 i) (plSet2 j) := by
  intro i _ j _ h
  have hv := Fin.val_ne_of_ne h
  refine Rect.unit_disjoint 0 ?_
  simp
  omega

/-- The four planes cover the scratch. -/
theorem pl_cover2 : (Finset.univ : Finset (Fin 4)).biUnion plSet2 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet2
  rw [Rect.mem_set_unit]
  intro a
  fin_cases a <;> simp at h0 h1 h2 ⊢ <;> omega

/-- Holding the row scratch whole at `r` is holding its four planes at `r`. -/
theorem sR_planes2 (r : Buf (Elt F) ((thr2 d L).loc cc2_scratch1)) :
    ((thr2 d L).loc cc2_scratch1 ↦{fullShare} r : sProp 𝕄) = iprop(pl2_0 d L r ∗ pl2_1 d L r ∗ pl2_2 d L r ∗ pl2_3 d L r) := by
  have e : ((thr2 d L).loc cc2_scratch1 ↦{fullShare} r : sProp 𝕄)
      = bigSep Finset.univ fun j : Fin 4 => ((thr2 d L).loc cc2_scratch1 ↦[plSet2 j]{fullShare} r : sProp 𝕄) := by
    rw [← pointsTo_biUnion Finset.univ (ℓ := (thr2 d L).loc cc2_scratch1) plSet2 pl_disjoint2, pl_cover2]; try rfl
  rw [e, bigSep_univ_eq_bigSepL [(0 : Fin 4), 1, 2, 3] (by decide) (by decide)]
  unfold pl2_0 pl2_1 pl2_2 pl2_3
  rw [set_rPl2_0, set_rPl2_1, set_rPl2_2, set_rPl2_3]
  rfl

/-- Four planes at four contents join into the row scratch whole at some contents. -/
theorem sR_join2 (r0 r1 r2 r3 : Buf (Elt F) ((thr2 d L).loc cc2_scratch1)) :
    iprop(pl2_0 d L r0 ∗ pl2_1 d L r1 ∗ pl2_2 d L r2 ∗ pl2_3 d L r3)
      ⊢ (iprop(∃ r, (thr2 d L).loc cc2_scratch1 ↦{fullShare} r) : sProp 𝕄) := by
  have e : (bigSep Finset.univ fun j : Fin 4 => ((thr2 d L).loc cc2_scratch1 ↦[plSet2 j]{fullShare} (![r0, r1, r2, r3] : Fin 4 → Buf (Elt F) ((thr2 d L).loc cc2_scratch1)) j : sProp 𝕄))
      = iprop(pl2_0 d L r0 ∗ pl2_1 d L r1 ∗ pl2_2 d L r2 ∗ pl2_3 d L r3) := by
    rw [bigSep_univ_eq_bigSepL [(0 : Fin 4), 1, 2, 3] (by decide) (by decide)]
    unfold pl2_0 pl2_1 pl2_2 pl2_3
    rw [set_rPl2_0, set_rPl2_1, set_rPl2_2, set_rPl2_3]
    rfl
  rw [← e]
  iintro H
  ihave H' := (pointsTo_biUnion_join Finset.univ plSet2 (![r0, r1, r2, r3] : Fin 4 → Buf (Elt F) ((thr2 d L).loc cc2_scratch1)) r0 pl_disjoint2) $$ H
  icases H' with ⟨%g, -, Hg⟩
  rw [pl_cover2]
  iexists g; iexact Hg

/-! ## A read share of the table as a remainder and four tokens -/

theorem x_toks2 (q : PosShare TreeShare) (X : Buf (Elt F) (xLoc d)) :
    ((xW).view.loc (thr2 d L) ↦{q} X : sProp 𝕄)
      ⊣⊢ iprop(((xW).view.loc (thr2 d L) ↦{Transfers.shareDrop q 4} X) ∗ ((xW).view.loc (thr2 d L) ↦{Transfers.shareTok q 4 0} X)
          ∗ ((xW).view.loc (thr2 d L) ↦{Transfers.shareTok q 4 1} X) ∗ ((xW).view.loc (thr2 d L) ↦{Transfers.shareTok q 4 2} X)
          ∗ ((xW).view.loc (thr2 d L) ↦{Transfers.shareTok q 4 3} X)) := by
  have e : (iprop(((xW).view.loc (thr2 d L) ↦{Transfers.shareTok q 4 0} X)
          ∗ ((xW).view.loc (thr2 d L) ↦{Transfers.shareTok q 4 1} X) ∗ ((xW).view.loc (thr2 d L) ↦{Transfers.shareTok q 4 2} X)
          ∗ ((xW).view.loc (thr2 d L) ↦{Transfers.shareTok q 4 3} X)) : sProp 𝕄)
      = bigSep Finset.univ fun i : Fin 4 => ((xW).view.loc (thr2 d L) ↦{Transfers.shareTok q 4 i} X : sProp 𝕄) :=
    (bigSep_univ_eq_bigSepL [(0 : Fin 4), 1, 2, 3] (by decide) (by decide)
      (fun i : Fin 4 => ((xW).view.loc (thr2 d L) ↦{Transfers.shareTok q 4 i} X : sProp 𝕄))).symm
  rw [e]
  exact Transfers.pointsTo_toks q 4

end Cert.Kernel.KP

end
-- ==== Proof.TileLoop2B.lean ====
/-
  The body of call 2's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip2B
import proofs.«210879_g80607946211848_cont_9to1_m_1212_13_alg».proof.Proof.TileOut2B
import proofs.«210879_g80607946211848_cont_9to1_m_1212_13_alg».proof.Proof.TileScoped2B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v12_scv : Memref Cert.Kernel.sig Kind.scVector Space.hbm Cert.Kernel.S250x4x128 EltTy.i32)
local notation "oW" => (Memref.whole Cert.Kernel.main_v13_scv : Memref Cert.Kernel.sig Kind.scVector Space.hbm Cert.Kernel.S4x32000x128 EltTy.f32)
local notation "sI" => (Memref.whole Cert.Kernel.cc2_scratch0 : Memref Cert.Kernel.sig Kind.scVector Space.vmem Cert.Kernel.S2x4x128 EltTy.i32)
local notation "sR" => (Memref.whole Cert.Kernel.cc2_scratch1 : Memref Cert.Kernel.sig Kind.scVector Space.vmem Cert.Kernel.S4x128x128 EltTy.f32)

variable [FloatOps F] (d : Dev nD) (L : grid2.Coords) (q : PosShare TreeShare)
  (X : Buf (Elt F) (xLoc d)) (I : Buf (Elt F) (iLoc2 d)) (G : Buf (Elt F) (oLoc2 d))

/-- The row scratch and the write-out semaphores after `n` active trips. -/
def rowsAt2 : ℕ → sProp 𝕄
  | 0 => rowsIdle2 d L
  | m + 1 => if hm : m < k2_t1_loop.trips then (if hA : Act2 L ⟨m, hm⟩ then rowsFly2 d L X I ⟨m, hm⟩ hA else iprop(False)) else iprop(False)

/-- The index side before trip `k`. -/
def idxAt2 (k : ℕ) : sProp 𝕄 :=
  if hk : k < k2_t1_loop.trips then (if hA : Act2 L ⟨k, hk⟩ then idxFly2 d L q I ⟨k, hk⟩ hA else idxIdle2 d L q I) else idxIdle2 d L q I

/-- The loop's invariant before trip `k`. -/
def invL2 (O : CellTallies nD τ sig (HIx 5)) (W : Waits sig (HIx 5)) (k : ℕ) (_ : PUnit) : sProp 𝕄 :=
  iprop(Transfers.MayWaits (thr2 d L) (none : HIx 5) O ∗ xPart2 d L q X ∗ idxAt2 d L q I k ∗ gsems2 d L
    ∗ rowsAt2 d L X I (cnt2 L k) ∗ outPart2 d L X I G (cnt2 L k) ∗ owesPart2 d L O W)

omit [FloatOps F] in
theorem idxAt2_act (k : Fin k2_t1_loop.trips) (hA : Act2 L k) : idxAt2 d L q I k.val = idxFly2 d L q I k hA := by
  unfold idxAt2; rw [dif_pos k.isLt, dif_pos hA]
omit [FloatOps F] in
theorem idxAt2_idle (k : Fin k2_t1_loop.trips) (hnA : ¬ Act2 L k) : idxAt2 d L q I k.val = idxIdle2 d L q I := by
  unfold idxAt2; rw [dif_pos k.isLt, dif_neg hnA]
omit [FloatOps F] in
theorem idxAt2_end (k : ℕ) (hk : ¬ k < k2_t1_loop.trips) : idxAt2 d L q I k = idxIdle2 d L q I := by
  unfold idxAt2; rw [dif_neg hk]
omit [FloatOps F] in
theorem rowsAt2_succ (t : Fin k2_t1_loop.trips) (hA : Act2 L t) : rowsAt2 d L X I (t.val + 1) = rowsFly2 d L X I t hA := by
  show (if hm : t.val < k2_t1_loop.trips then (if hA : Act2 L ⟨t.val, hm⟩ then rowsFly2 d L X I ⟨t.val, hm⟩ hA else iprop(False)) else iprop(False)) = _
  rw [dif_pos t.isLt, dif_pos hA]

omit [FloatOps F] in
theorem out_take_first2' (k : Fin k2_t1_loop.trips) (hk0 : k.val = 0) (hA : Act2 L k) :
    outPart2 d L X I G k.val ⊢ iprop(oWins2 d L k hA G ∗ bigSep (Finset.univ.erase k) (outPhi2 d L X I G k.val)) := by
  obtain ⟨kv, hkv⟩ := k
  simp only at hk0
  subst hk0
  exact out_take_first2 d L X I G hkv hA

omit [FloatOps F] in
theorem out_put_first2' (k : Fin k2_t1_loop.trips) (hk0 : k.val = 0) :
    bigSep (Finset.univ.erase k) (outPhi2 d L X I G k.val) ⊢ outPart2 d L X I G (k.val + 1) := by
  obtain ⟨kv, hkv⟩ := k
  simp only at hk0
  subst hk0
  exact out_put_first2 d L X I G hkv

set_option maxHeartbeats 4000000 in
set_option sl_exec.dmaWindow true in
theorem tile_body2 (hF : (K (F := F)).Facts) (d : Dev nD) (L : grid2.Coords)
    (X : Buf (Elt F) (xLoc d)) (I : Buf (Elt F) (iLoc2 d)) (G : Buf (Elt F) (oLoc2 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo2 d X I G L
        ∗ scopedBufs (thr2 d L) ∗ scopedSems0 (thr2 d L) ∗ owes (thr2 d L) O W)
      ⊢ wp frame (wpE (defs₀ (F := F)) 𝒱₀ (thr2 d L) none) Set.univ
          (cc2__sc_gather_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10)
          fun _ => iprop(tileTd2 d X I L ∗ scopedBufs (thr2 d L) ∗ scopedSems0 (thr2 d L)
            ∗ ∃ W', ⌜∀ p ∈ W', p ∈ W ∨ p.2 = none⌝ ∗ owes (thr2 d L) O W') := by
  rw [(K (F := F)).scopedBufs_V hF d (cV2 L) (jV2 L), SparseCore.Cfg.scopedSems0_V (Val := Elt F) d (cV2 L) (jV2 L),
    ownSems0_V2, ownBufs_V2]
  unfold tileGo2 tileTd2
  rw [out_init2 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr2 d L) hO) $$ Hlv
  ihave Hx' := (Entails.of_eq (pts_x2 d L (qTile2 L) X).symm) $$ Hx
  ihave Hxt := (x_toks2 d L (qTile2 L) X).1 $$ Hx'
  icases Hxt with ⟨Hxr, Hx0, Hx1, Hx2, Hx3⟩
  ihave Hi' := (Entails.of_eq (pts_i2 d L (qTile2 L) I).symm) $$ Hi
  ihave HsI' := (Entails.of_eq (pts_sI2 d L s0).symm) $$ HsI
  ihave Hpl := (Entails.of_eq (sR_planes2 d L r)) $$ HsR
  icases Hpl with ⟨Hr0, Hr1, Hr2, Hr3⟩
  sl_unfold [cc2__sc_gather_body]
  sl_exec (disch := exact View.amount_pos _ _ (show 0 < S4x128.numel by decide))
  sl_for (invL2 d L (qTile2 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k2_t1_loop.trips = 8 := tb2_trips
    obtain ⟨hn7, hn8⟩ := nAct_bounds2 L
    by_cases hA : Act2 L k
    · obtain ⟨hc, hc'⟩ := cnt_act2 L k hA
      have hkA := (act_iff_lt2 L k).mp hA
      unfold invL2
      rw [hc, hc', idxAt2_act d L (qTile2 L) I k hA, rowsAt2_succ d L X I k hA]
      by_cases h2 : k2_cond2 L k = 1#1
      · have hlt := (pre_iff_lt2 L k).mp h2
        have hk1 : k.val + 1 < k2_t1_loop.trips := by omega
        have hA' : Act2 L ⟨k.val + 1, hk1⟩ := (act_iff_lt2 L ⟨k.val + 1, hk1⟩).mpr hlt
        rw [idxAt2_act d L (qTile2 L) I ⟨k.val + 1, hk1⟩ hA']
        rcases Nat.eq_zero_or_pos k.val with hk0 | hkp
        · -- the first trip
          have hrows0 : rowsAt2 d L X I k.val = rowsIdle2 d L := by rw [hk0]; rfl
          rw [hrows0]
          have hT := tripC2 d L (qTile2 L) X I G O W k ⟨k.val + 1, hk1⟩ hk0 rfl hA hA' h2 hin
            iprop(Transfers.MayWaits (thr2 d L) (none : HIx 5) O ∗ bigSep (Finset.univ.erase k) (outPhi2 d L X I G k.val))
          have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first2' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first2' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k2_t1_loop.trips := by omega
          have hp : (⟨k.val - 1, htp⟩ : Fin k2_t1_loop.trips).val + 1 = k.val := by simp only; omega
          have hAp : Act2 L ⟨k.val - 1, htp⟩ := (act_iff_lt2 L ⟨k.val - 1, htp⟩).mpr (by simp only; omega)
          have hrows : rowsAt2 d L X I k.val = rowsFly2 d L X I ⟨k.val - 1, htp⟩ hAp := by
            have h := rowsAt2_succ d L X I ⟨k.val - 1, htp⟩ hAp
            rwa [hp] at h
          rw [hrows]
          have hT := tripA2 d L (qTile2 L) X I G O W k ⟨k.val - 1, htp⟩ ⟨k.val + 1, hk1⟩ hp rfl hA hAp hA' h2 hin
            iprop(Transfers.MayWaits (thr2 d L) (none : HIx 5) O ∗ bigSep ((Finset.univ.erase k).erase ⟨k.val - 1, htp⟩) (outPhi2 d L X I G k.val))
          have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take2 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put2 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct2 L := fun h => h2 ((pre_iff_lt2 L k).mpr h)
        have hidx' : idxAt2 d L (qTile2 L) I (k.val + 1) = idxIdle2 d L (qTile2 L) I := by
          unfold idxAt2
          split_ifs with h1 h3
          · exact absurd ((act_iff_lt2 L ⟨k.val + 1, h1⟩).mp h3) hnlt
          · rfl
          · rfl
        rw [hidx']
        have htp : k.val - 1 < k2_t1_loop.trips := by omega
        have hp : (⟨k.val - 1, htp⟩ : Fin k2_t1_loop.trips).val + 1 = k.val := by simp only; omega
        have hAp : Act2 L ⟨k.val - 1, htp⟩ := (act_iff_lt2 L ⟨k.val - 1, htp⟩).mpr (by simp only; omega)
        have hrows : rowsAt2 d L X I k.val = rowsFly2 d L X I ⟨k.val - 1, htp⟩ hAp := by
          have h := rowsAt2_succ d L X I ⟨k.val - 1, htp⟩ hAp
          rwa [hp] at h
        rw [hrows]
        have hT := tripB2 d L (qTile2 L) X I G O W k ⟨k.val - 1, htp⟩ hp hA hAp h2 hin
          iprop(Transfers.MayWaits (thr2 d L) (none : HIx 5) O ∗ bigSep ((Finset.univ.erase k).erase ⟨k.val - 1, htp⟩) (outPhi2 d L X I G k.val))
        have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take2 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put2 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle2 L k hA
      have hge : nAct2 L ≤ k.val := Nat.not_lt.mp (fun h => hA ((act_iff_lt2 L k).mpr h))
      have hidx' : idxAt2 d L (qTile2 L) I (k.val + 1) = idxIdle2 d L (qTile2 L) I := by
        unfold idxAt2
        split_ifs with h1 h3
        · exact absurd ((act_iff_lt2 L ⟨k.val + 1, h1⟩).mp h3) (by simp only; omega)
        · rfl
        · rfl
      unfold invL2
      rw [hc, hc', idxAt2_idle d L (qTile2 L) I k hA, hidx']
      have hprog : tile_body2.sl.prog.body_1 (F := F) L k acc = k2_t1_body L xW (Memref.isWhole_whole _) iW (Memref.isWhole_whole _) oW (Memref.isWhole_whole _)
            sI (Memref.isWhole_whole _) sR (Memref.isWhole_whole _) cc2_scratch2 cc2_scratch3 cc2_scratch4 cc2_scratch5 cc2_scratch6 cc2_scratch7 cc2_scratch8 cc2_scratch9 cc2_scratch10
          (Scalar.addi (Scalar.muli (BitVec.ofNat 32 (L 1).val) 2#32) (BitVec.ofNat 32 (L 0).val)) k () := rfl
      rw [hprog]
      exact tripI2 d L k hA _
  · -- the invariant before the first trip
    have h0 : 0 < k2_t1_loop.trips := by rw [tb2_trips]; omega
    have hA0 : Act2 L ⟨0, h0⟩ := (act_iff_lt2 L ⟨0, h0⟩).mpr (by have := (nAct_bounds2 L).1; simp only; omega)
    unfold invL2
    rw [show cnt2 L 0 = 0 from Nat.zero_min _, idxAt2_act d L (qTile2 L) I ⟨0, h0⟩ hA0, show rowsAt2 d L X I 0 = rowsIdle2 d L from rfl]
    unfold xPart2 idxFly2 gsems2 rowsIdle2 owesPart2 idxDeliv2
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first2 d L I h0 hA0 s0
      rw [slot_first_set2 L h0 hA0, chunk_first_set2 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds2 L
  have htr : k2_t1_loop.trips = 8 := tb2_trips
  obtain ⟨m, hm⟩ : ∃ m, nAct2 L = m + 1 := ⟨nAct2 L - 1, by omega⟩
  have hmlt : m < k2_t1_loop.trips := by omega
  have hAm : Act2 L ⟨m, hmlt⟩ := (act_iff_lt2 L ⟨m, hmlt⟩).mpr (by simp only; omega)
  have hidle : ∀ t : Fin k2_t1_loop.trips, (⟨m, hmlt⟩ : Fin k2_t1_loop.trips).val < t.val → ¬ Act2 L t :=
    fun t ht h => by have := (act_iff_lt2 L t).mp h; simp only at ht; omega
  unfold invL2
  rw [cnt_end2 L, idxAt2_end d L (qTile2 L) I _ (lt_irrefl _), hm, rowsAt2_succ d L X I ⟨m, hmlt⟩ hAm]
  unfold xPart2 idxIdle2 gsems2 rowsFly2 owesPart2
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv2 pl2_0 pl2_1 pl2_2 pl2_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x2 d L (qTile2 L) X))
      iapply (x_toks2 d L (qTile2 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i2 d L (qTile2 L) I)) $$ Hi
    iapply (out_final2 d L X I G ⟨m, hmlt⟩ hAm hidle)
    isplitl [Hout]; · iexact Hout
    unfold oWins2
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI2 d L S)) $$ HsI
    isplitl [Hf0_src Hf1_src Hf2_src Hf3_src]
    · iapply (sR_join2 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins2 (none_ins2 (none_ins2 (none_ins2 hW')))

end Cert.Kernel.KP

end
-- ==== Proof.TileBody3a.lean ====
/-
  Groundwork for the body of call 3's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes3
import proofs.«210879_g80607946211848_cont_9to1_m_1212_13_alg».proof.Proof.Gen.KernelIdeal.Skeleton

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

/-! ## The loop's conditions, in closed form -/

/-- The tile's number. -/
abbrev wid3 (L : grid3.Coords) : ℕ := 2 * (L 1).val + (L 0).val

theorem tb3_trips : k3_t1_loop.trips = 8 := by decide

theorem tb3_act_iff : ∀ (L : grid3.Coords) (t : Fin k3_t1_loop.trips), k3_cond1 L t = 1#1 ↔ wid3 L + 32 * t.val < 250 := by decide +kernel
theorem tb3_pre_iff : ∀ (L : grid3.Coords) (t : Fin k3_t1_loop.trips), k3_cond2 L t = 1#1 ↔ wid3 L + 32 * t.val + 32 < 250 := by decide +kernel

/-! ## The memrefs, as the loop slices them -/

/-- Index chunk of trip `t` (the copy's source the trip waits for). -/
abbrev iCh3 (L : grid3.Coords) (t : Fin k3_t1_loop.trips) (h : Act3 L t) : Memref sig .scVector .hbm S4x128 .i32 :=
  ((iW).slice (Rect.unit (s := S250x4x128) (k3_off3 L t) S1x4x128.size (k3_off3_inb L t h)) (fun _ => rfl)).squeeze S4x128 squeezes_S1x4x128_S4x128
/-- The slot of the index scratch trip `t` reads its indices from: slot `t % 2`. -/
abbrev sSl3 (L : grid3.Coords) (t : Fin k3_t1_loop.trips) (h : Act3 L t) : Memref sig .scVector .vmem S4x128 .i32 :=
  ((sI).slice (Rect.unit (s := S2x4x128) (k3_off2 t) S1x4x128.size (k3_off2_inb L t h)) (fun _ => rfl)).squeeze S4x128 squeezes_S1x4x128_S4x128
/-- Plane `j` of the row scratch. -/
abbrev rPl3_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl3_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl3_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl3_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD3 (d : Dev nD) (L : grid3.Coords) (n : DmaSems sig S_) : GSem nD τ sig := (thr3 d L, SemLoc.dma n.sem)

end Cert.KernelIdeal.KP

end
-- ==== Proof.TileBody3b.lean ====
/-
  The loop of call 3's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody3a

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The number of the tile's active trips: its chunks `w, w + 32, …` below 250. -/
abbrev nAct3 (L : grid3.Coords) : ℕ := (250 - wid3 L + 31) / 32
/-- The active trips among the first `k`. -/
abbrev cnt3 (L : grid3.Coords) (k : ℕ) : ℕ := min k (nAct3 L)

/-- The index scratch showing, in both slots, the words of trip `t`'s chunk (chunk number reduced modulo 250: the
    identity for an active trip). -/
def slotImg3 (t : ℕ) : Buf (Elt F) ((thr3 d L).loc cc3_scratch0) :=
  fun i => I (ix3 (⟨(wid3 L + 32 * t) % 250, Nat.mod_lt _ (by decide)⟩ : Fin 250) (i 1) (i 2))

/-- Contents `S` of the index scratch show, on the slot trip `t` reads, the words of the trip's chunk. -/
def SlotAgrees3 (t : Fin k3_t1_loop.trips) (h : Act3 L t) (S : Buf (Elt F) ((thr3 d L).loc cc3_scratch0)) : Prop :=
  ∀ i ∈ (sSl3 L t h).view.set, S i = slotImg3 d L I t.val i

/-- What the index fetch for trip `t` delivers: the slot at contents `S`, and the chunk's share back. -/
def idxDeliv3 (t : Fin k3_t1_loop.trips) (h : Act3 L t) (S : Buf (Elt F) ((thr3 d L).loc cc3_scratch0)) : sProp 𝕄 :=
  iprop(((sI).view.loc (thr3 d L) ↦[(sSl3 L t h).view.set]{fullShare} S)
    ∗ ((iW).view.loc (thr3 d L) ↦[(iCh3 L t h).view.set]{q} I))

/-- The index side before trip `k`: while the trip is active its chunk's fetch is in flight (the chunk and its slot
    lent); afterwards the semaphore rests at zero and block and scratch are whole. -/
def idxPart3 (k : ℕ) : sProp 𝕄 :=
  if hk : k < k3_t1_loop.trips then
    if hA : Act3 L ⟨k, hk⟩ then
      iprop(∃ S, ⌜SlotAgrees3 d L I ⟨k, hk⟩ hA S⌝
        ∗ Transfers.Flight countersEmb (thr3 d L) (SemLoc.dma cc3_scratch10.sem) (default : HIx 5) 16384 (idxDeliv3 d L q I ⟨k, hk⟩ hA S)
        ∗ ((iW).view.loc (thr3 d L) ↦[Finset.univ \ (iCh3 L ⟨k, hk⟩ hA).view.set]{q} I)
        ∗ ((sI).view.loc (thr3 d L) ↦[Finset.univ \ (sSl3 L ⟨k, hk⟩ hA).view.set]{fullShare} S))
    else iprop(semVal (cellD3 d L cc3_scratch10) 0 ∗ ((iW).view.loc (thr3 d L) ↦{q} I) ∗ ∃ s, (sI).view.loc (thr3 d L) ↦{fullShare} s)
  else iprop(semVal (cellD3 d L cc3_scratch10) 0 ∗ ((iW).view.loc (thr3 d L) ↦{q} I) ∗ ∃ s, (sI).view.loc (thr3 d L) ↦{fullShare} s)

/-- What the write-out of plane `j` of trip `t` delivers: the window at the gathered array, and the plane back. -/
def wDeliv3 (t : Fin k3_t1_loop.trips) (h : Act3 L t) (j : Fin 4) (Dsrc : sProp 𝕄) : sProp 𝕄 :=
  iprop(((oW).view.loc (thr3 d L) ↦[oSet3 L t h j]{fullShare} gath (F := F) X I) ∗ Dsrc)

/-- The four windows of trip `t` at contents `f`, each spelt through its own memref. -/
def oWins3 (t : Fin k3_t1_loop.trips) (h : Act3 L t) (f : Buf (Elt F) (oLoc3 d)) : sProp 𝕄 :=
  iprop(((oWin3_0 L t h).view.loc (thr3 d L) ↦[(oWin3_0 L t h).view.set]{fullShare} f)
    ∗ ((oWin3_1 L t h).view.loc (thr3 d L) ↦[(oWin3_1 L t h).view.set]{fullShare} f)
    ∗ ((oWin3_2 L t h).view.loc (thr3 d L) ↦[(oWin3_2 L t h).view.set]{fullShare} f)
    ∗ ((oWin3_3 L t h).view.loc (thr3 d L) ↦[(oWin3_3 L t h).view.set]{fullShare} f))

omit [FloatOps F] in
/-- An active trip's share of the result is its four windows. -/
theorem oTrip3_act (t : Fin k3_t1_loop.trips) (h : Act3 L t) (f : Buf (Elt F) (oLoc3 d)) :
    oTrip3 d L f t = oWins3 d L t h f := by
  unfold oTrip3 oWins3; rw [dif_pos h]

omit [FloatOps F] in
/-- An idle trip has none. -/
theorem oTrip3_idle (t : Fin k3_t1_loop.trips) (h : ¬ Act3 L t) (f : Buf (Elt F) (oLoc3 d)) :
    oTrip3 d L f t = (iprop(emp) : sProp 𝕄) := by
  unfold oTrip3; rw [dif_neg h]

/-- Plane `j` of the row scratch at contents `r`. -/
abbrev pl3_0 (r : Buf (Elt F) ((thr3 d L).loc cc3_scratch1)) : sProp 𝕄 := (rPl3_0).view.loc (thr3 d L) ↦[(rPl3_0).view.set]{fullShare} r
abbrev pl3_1 (r : Buf (Elt F) ((thr3 d L).loc cc3_scratch1)) : sProp 𝕄 := (rPl3_1).view.loc (thr3 d L) ↦[(rPl3_1).view.set]{fullShare} r
abbrev pl3_2 (r : Buf (Elt F) ((thr3 d L).loc cc3_scratch1)) : sProp 𝕄 := (rPl3_2).view.loc (thr3 d L) ↦[(rPl3_2).view.set]{fullShare} r
abbrev pl3_3 (r : Buf (Elt F) ((thr3 d L).loc cc3_scratch1)) : sProp 𝕄 := (rPl3_3).view.loc (thr3 d L) ↦[(rPl3_3).view.set]{fullShare} r

/-- The row scratch and the write-out semaphores after `n` active trips: none done, the planes and the semaphores
    rest; else the last trip's four write-outs are in flight. -/
def rowsPart3 (n : ℕ) : sProp 𝕄 :=
  if hn : 0 < n then
    if hk : n - 1 < k3_t1_loop.trips then
      if hA : Act3 L ⟨n - 1, hk⟩ then
        iprop(∃ r0 r1 r2 r3, Transfers.Flight countersEmb (thr3 d L) (SemLoc.dma cc3_scratch6.sem) (default : HIx 5) 524288 (wDeliv3 d L X I ⟨n - 1, hk⟩ hA 0 (pl3_0 d L r0))
          ∗ Transfers.Flight countersEmb (thr3 d L) (SemLoc.dma cc3_scratch7.sem) (default : HIx 5) 524288 (wDeliv3 d L X I ⟨n - 1, hk⟩ hA 1 (pl3_1 d L r1))
          ∗ Transfers.Flight countersEmb (thr3 d L) (SemLoc.dma cc3_scratch8.sem) (default : HIx 5) 524288 (wDeliv3 d L X I ⟨n - 1, hk⟩ hA 2 (pl3_2 d L r2))
          ∗ Transfers.Flight countersEmb (thr3 d L) (SemLoc.dma cc3_scratch9.sem) (default : HIx 5) 524288 (wDeliv3 d L X I ⟨n - 1, hk⟩ hA 3 (pl3_3 d L r3)))
      else iprop(False)
    else iprop(False)
  else
    iprop((semVal (cellD3 d L cc3_scratch6) 0 ∗ ∃ r, pl3_0 d L r) ∗ (semVal (cellD3 d L cc3_scratch7) 0 ∗ ∃ r, pl3_1 d L r)
      ∗ (semVal (cellD3 d L cc3_scratch8) 0 ∗ ∃ r, pl3_2 d L r) ∗ (semVal (cellD3 d L cc3_scratch9) 0 ∗ ∃ r, pl3_3 d L r))

/-- The result's windows after `n` active trips: the trips before the last at the gathered array, the last one's
    in flight, the later ones as found. -/
def outPart3 (n : ℕ) : sProp 𝕄 :=
  bigSep Finset.univ fun t : Fin k3_t1_loop.trips =>
    if t.val + 1 < n then oTrip3 d L (gath (F := F) X I) t else if t.val + 1 = n then iprop(emp) else oTrip3 d L G t

/-- The loop's invariant before trip `k`. -/
def inv3 (O : CellTallies nD τ sig (HIx 5)) (W : Waits sig (HIx 5)) (k : ℕ) (_ : PUnit) : sProp 𝕄 :=
  iprop(Transfers.MayWaits (thr3 d L) (none : HIx 5) O
    ∗ (((xW).view.loc (thr3 d L) ↦{Transfers.shareDrop q 4} X) ∗ ((xW).view.loc (thr3 d L) ↦{Transfers.shareTok q 4 0} X) ∗ ((xW).view.loc (thr3 d L) ↦{Transfers.shareTok q 4 1} X)
        ∗ ((xW).view.loc (thr3 d L) ↦{Transfers.shareTok q 4 2} X) ∗ ((xW).view.loc (thr3 d L) ↦{Transfers.shareTok q 4 3} X))
    ∗ idxPart3 d L q I k
    ∗ (semVal (cellD3 d L cc3_scratch2) 0 ∗ semVal (cellD3 d L cc3_scratch3) 0 ∗ semVal (cellD3 d L cc3_scratch4) 0 ∗ semVal (cellD3 d L cc3_scratch5) 0)
    ∗ rowsPart3 d L X I (cnt3 L k)
    ∗ outPart3 d L X I G (cnt3 L k)
    ∗ ∃ W', ⌜∀ p ∈ W', p ∈ W ∨ p.2 = none⌝ ∗ owes (thr3 d L) O W')

/-! ## Geometry of the index scratch: the two slots, the four index lists -/

omit [FloatOps F] in
/-- The slot a prefetch writes (slot `1 - k % 2`) and the slot the trip reads (slot `k % 2`) are disjoint. -/
theorem slots_disj3 (k : Fin k3_t1_loop.trips) (hA : Act3 L k) (h2 : k3_cond2 L k = 1#1) :
    Disjoint (((sI).slice (Rect.unit (s := S2x4x128) (k3_off4 k) S1x4x128.size (k3_off4_inb L k hA h2)) (fun _ => rfl)).squeeze S4x128 squeezes_S1x4x128_S4x128).view.set
      (sSl3 L k hA).view.set := by
  show Disjoint ((((sI).view.slice (Rect.unit (s := S2x4x128) (k3_off4 k) S1x4x128.size (k3_off4_inb L k hA h2))).reshape S4x128 squeezes_S1x4x128_S4x128.numel_eq).set)
    ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  refine Rect.unit_disjoint 0 ?_
  rw [k3_off4_eq, k3_off2_eq]
  simp
  omega
omit [FloatOps F] in
theorem list6_disj3 (k : Fin k3_t1_loop.trips) (hA : Act3 L k) (h2 : k3_cond2 L k = 1#1) :
    Disjoint (((sI).slice (Rect.unit (s := S2x4x128) (k3_off6 k) S1x1x128.size (k3_off6_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off6 k) S1x1x128.size (k3_off6_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off6_eq]
  simp
  omega

omit [FloatOps F] in
/-- Index list `0` of the trip lies in the trip's slot. -/
theorem list6_sub3 (k : Fin k3_t1_loop.trips) (hA : Act3 L k) :
    (((sI).slice (Rect.unit (s := S2x4x128) (k3_off6 k) S1x1x128.size (k3_off6_inb L k hA)) (fun _ => rfl)).squeeze S128 squeezes_S1x1x128_S128).view.set
      ⊆ (sSl3 L k hA).view.set := by
  show ((((sI).view.slice (Rect.unit (s := S2x4x128) (k3_off6 k) S1x1x128.size (k3_off6_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off6 k) S1x1x128.size (k3_off6_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list6_disj3 L k hA h2) hi) hm)]
  exact hS i (list6_sub3 L k hA hi)

/-- So the words of index list `0` name rows of the table. -/
theorem list6_inr3 (k : Fin k3_t1_loop.trips) (hA : Act3 L k) (S' : Buf (Elt F) ((thr3 d L).loc cc3_scratch0))
    (hS' : ∀ i ∈ (((sI).slice (Rect.unit (s := S2x4x128) (k3_off6 k) S1x1x128.size (k3_off6_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off6 k) S1x1x128.size (k3_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj3 (k : Fin k3_t1_loop.trips) (hA : Act3 L k) (h2 : k3_cond2 L k = 1#1) :
    Disjoint (((sI).slice (Rect.unit (s := S2x4x128) (k3_off7 k) S1x1x128.size (k3_off7_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off7 k) S1x1x128.size (k3_off7_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off7_eq]
  simp
  omega

omit [FloatOps F] in
/-- Index list `1` of the trip lies in the trip's slot. -/
theorem list7_sub3 (k : Fin k3_t1_loop.trips) (hA : Act3 L k) :
    (((sI).slice (Rect.unit (s := S2x4x128) (k3_off7 k) S1x1x128.size (k3_off7_inb L k hA)) (fun _ => rfl)).squeeze S128 squeezes_S1x1x128_S128).view.set
      ⊆ (sSl3 L k hA).view.set := by
  show ((((sI).view.slice (Rect.unit (s := S2x4x128) (k3_off7 k) S1x1x128.size (k3_off7_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off7 k) S1x1x128.size (k3_off7_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list7_disj3 L k hA h2) hi) hm)]
  exact hS i (list7_sub3 L k hA hi)

/-- So the words of index list `1` name rows of the table. -/
theorem list7_inr3 (k : Fin k3_t1_loop.trips) (hA : Act3 L k) (S' : Buf (Elt F) ((thr3 d L).loc cc3_scratch0))
    (hS' : ∀ i ∈ (((sI).slice (Rect.unit (s := S2x4x128) (k3_off7 k) S1x1x128.size (k3_off7_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off7 k) S1x1x128.size (k3_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj3 (k : Fin k3_t1_loop.trips) (hA : Act3 L k) (h2 : k3_cond2 L k = 1#1) :
    Disjoint (((sI).slice (Rect.unit (s := S2x4x128) (k3_off8 k) S1x1x128.size (k3_off8_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off8 k) S1x1x128.size (k3_off8_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off8_eq]
  simp
  omega

omit [FloatOps F] in
/-- Index list `2` of the trip lies in the trip's slot. -/
theorem list8_sub3 (k : Fin k3_t1_loop.trips) (hA : Act3 L k) :
    (((sI).slice (Rect.unit (s := S2x4x128) (k3_off8 k) S1x1x128.size (k3_off8_inb L k hA)) (fun _ => rfl)).squeeze S128 squeezes_S1x1x128_S128).view.set
      ⊆ (sSl3 L k hA).view.set := by
  show ((((sI).view.slice (Rect.unit (s := S2x4x128) (k3_off8 k) S1x1x128.size (k3_off8_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off8 k) S1x1x128.size (k3_off8_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list8_disj3 L k hA h2) hi) hm)]
  exact hS i (list8_sub3 L k hA hi)

/-- So the words of index list `2` name rows of the table. -/
theorem list8_inr3 (k : Fin k3_t1_loop.trips) (hA : Act3 L k) (S' : Buf (Elt F) ((thr3 d L).loc cc3_scratch0))
    (hS' : ∀ i ∈ (((sI).slice (Rect.unit (s := S2x4x128) (k3_off8 k) S1x1x128.size (k3_off8_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off8 k) S1x1x128.size (k3_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj3 (k : Fin k3_t1_loop.trips) (hA : Act3 L k) (h2 : k3_cond2 L k = 1#1) :
    Disjoint (((sI).slice (Rect.unit (s := S2x4x128) (k3_off9 k) S1x1x128.size (k3_off9_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off9 k) S1x1x128.size (k3_off9_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off9_eq]
  simp
  omega

omit [FloatOps F] in
/-- Index list `3` of the trip lies in the trip's slot. -/
theorem list9_sub3 (k : Fin k3_t1_loop.trips) (hA : Act3 L k) :
    (((sI).slice (Rect.unit (s := S2x4x128) (k3_off9 k) S1x1x128.size (k3_off9_inb L k hA)) (fun _ => rfl)).squeeze S128 squeezes_S1x1x128_S128).view.set
      ⊆ (sSl3 L k hA).view.set := by
  show ((((sI).view.slice (Rect.unit (s := S2x4x128) (k3_off9 k) S1x1x128.size (k3_off9_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off9 k) S1x1x128.size (k3_off9_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list9_disj3 L k hA h2) hi) hm)]
  exact hS i (list9_sub3 L k hA hi)

/-- So the words of index list `3` name rows of the table. -/
theorem list9_inr3 (k : Fin k3_t1_loop.trips) (hA : Act3 L k) (S' : Buf (Elt F) ((thr3 d L).loc cc3_scratch0))
    (hS' : ∀ i ∈ (((sI).slice (Rect.unit (s := S2x4x128) (k3_off9 k) S1x1x128.size (k3_off9_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off9 k) S1x1x128.size (k3_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond3 : ∀ k : Fin k3_t1_loop.trips, 1 ≤ k.val →
    Scalar.cmpi CmpIPredicate.ne (Scalar.extui (Scalar.cmpi CmpIPredicate.sge (Scf.iv 0#32 1#32 k) 1#32)) 0#32 = 1#1 := by decide

end Cert.KernelIdeal.KP

end
-- ==== Proof.TileVal3.lean ====
/-
  The values the task's transfers carry, call 3.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody3b
import proofs.«210879_g80607946211848_cont_9to1_m_1212_13_alg».proof.Proof.TileVal0

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable (d : Dev nD) (L : grid3.Coords)

/-! ## The slot and the chunk a trip prefetches are the next trip's; the first fetch's are trip 0's -/

/-- A 1 × 4 × 128 window of the index scratch, squeezed: its elements are its rectangle's. -/
theorem set_slot3 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc3_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk3 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v14_scv : Ref sig .scVector)).slice (Rect.unit (s := S250x4x128) off S1x4x128.size inb)).reshape S4x128 squeezes_S1x4x128_S4x128.numel_eq).set = _
  rw [View.set_reshape, View.set_slice_whole]

theorem slot_next_set3 (k k' : Fin k3_t1_loop.trips) (hk : k'.val = k.val + 1) (hA : Act3 L k) (hA' : Act3 L k') (h2 : k3_cond2 L k = 1#1) :
    (sSl3 L k' hA').view.set
      = (((sI).slice (Rect.unit (s := S2x4x128) (k3_off4 k) S1x4x128.size (k3_off4_inb L k hA h2)) (fun _ => rfl)).squeeze S4x128 squeezes_S1x4x128_S4x128).view.set := by
  rw [set_slot3, set_slot3]
  refine unit_set_congr ?_
  have e : (k.val + 1) % 2 = 1 - k.val % 2 := by omega
  rw [k3_off2_eq, k3_off4_eq, hk, e]

theorem chunk_next_set3 (k k' : Fin k3_t1_loop.trips) (hk : k'.val = k.val + 1) (hA : Act3 L k) (hA' : Act3 L k') (h2 : k3_cond2 L k = 1#1) :
    (iCh3 L k' hA').view.set
      = (((iW).slice (Rect.unit (s := S250x4x128) (k3_off5 L k) S1x4x128.size (k3_off5_inb L k hA h2)) (fun _ => rfl)).squeeze S4x128 squeezes_S1x4x128_S4x128).view.set := by
  rw [set_chunk3, set_chunk3]
  refine unit_set_congr ?_
  have e : 2 * (L 1).val + (L 0).val + 32 * (k.val + 1) = 2 * (L 1).val + (L 0).val + 32 * k.val + 32 := by omega
  rw [k3_off3_eq, k3_off5_eq, hk, e]

theorem slot_first_set3 (h0 : 0 < k3_t1_loop.trips) (hA0 : Act3 L ⟨0, h0⟩) :
    (sSl3 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot3, set_slot3]
  refine unit_set_congr ?_
  rw [k3_off2_eq]
  rfl

theorem chunk_first_set3 (h0 : 0 < k3_t1_loop.trips) (hA0 : Act3 L ⟨0, h0⟩) :
    (iCh3 L ⟨0, h0⟩ hA0).view.set
      = (((iW).slice (Rect.unit (s := S250x4x128) (k3_off1 L) S1x4x128.size (k3_off1_inb L)) (fun _ => rfl)).squeeze S4x128 squeezes_S1x4x128_S4x128).view.set := by
  rw [set_chunk3, set_chunk3]
  refine unit_set_congr ?_
  rw [k3_off3_eq, k3_off1_eq]
  rfl

/-! ## What an index fetch lands: the chunk's words, in the slot -/

/-- Where element `y` of a squeezed 1 × 4 × 128 window of the index scratch at offsets `off` lies. -/
theorem emb_slot3 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk3 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc3 d))

/-- A fetch of chunk `n` (below 250) into slot `p` leaves, on that slot, the words the slot image of a trip whose chunk
    is `n` shows. -/
theorem fetch_agrees3 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid3 L + 32 * t) % 250 = n)
    (S : Buf (Elt F) ((thr3 d L).loc cc3_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg3 d L I t i := by
  intro i hi
  obtain ⟨y, -, rfl⟩ := Finset.mem_map.mp hi
  rw [View.write_emb_of_mem _ _ (Finset.mem_univ y)]
  unfold slotImg3
  show I ((((iW).slice (Rect.unit (s := S250x4x128) offC S1x4x128.size inbC) (fun _ => rfl)).squeeze S4x128 squeezes_S1x4x128_S4x128).view.emb y) = I _
  congr 1
  funext a
  apply Fin.ext
  have c0 := emb_chunk3 offC inbC y 0
  have c1 := emb_chunk3 offC inbC y 1
  have c2 := emb_chunk3 offC inbC y 2
  have s1 := emb_slot3 offS inbS y 1
  have s2 := emb_slot3 offS inbS y 2
  subst hS hC
  match a with
  | 0 => exact c0.trans (show n + 0 = (wid3 L + 32 * t) % 250 from by omega)
  | 1 => exact c1.trans s1.symm
  | 2 => exact c2.trans s2.symm

/-- The prefetched slot shows the NEXT trip's chunk. -/
theorem slot_agree_next3 (k k' : Fin k3_t1_loop.trips) (hk : k'.val = k.val + 1) (hA : Act3 L k) (hA' : Act3 L k') (h2 : k3_cond2 L k = 1#1)
    (S : Buf (Elt F) ((thr3 d L).loc cc3_scratch0)) :
    SlotAgrees3 d L I k' hA' (View.write (Elt F) (((sI).slice (Rect.unit (s := S2x4x128) (k3_off4 k) S1x4x128.size (k3_off4_inb L k hA h2)) (fun _ => rfl)).squeeze S4x128 squeezes_S1x4x128_S4x128).view S
      (ReadAs.same.apply (View.read (Elt F) (((iW).slice (Rect.unit (s := S250x4x128) (k3_off5 L k) S1x4x128.size (k3_off5_inb L k hA h2)) (fun _ => rfl)).squeeze S4x128 squeezes_S1x4x128_S4x128).view I)) Finset.univ) := by
  intro i hi
  rw [slot_next_set3 L k k' hk hA hA' h2] at hi
  have hlt : wid3 L + 32 * k'.val < 250 := (tb3_act_iff L k').mp hA'
  exact fetch_agrees3 d L I (k3_off4 k) (k3_off4_inb L k hA h2) (k3_off5 L k) (k3_off5_inb L k hA h2) (1 - k.val % 2) (wid3 L + 32 * k.val + 32) k'.val (k3_off4_eq k) (k3_off5_eq L k)
    (by rw [hk] at hlt ⊢; omega) S i hi

/-- The first fetch's slot shows trip 0's chunk. -/
theorem slot_agree_first3 (h0 : 0 < k3_t1_loop.trips) (hA0 : Act3 L ⟨0, h0⟩) (S : Buf (Elt F) ((thr3 d L).loc cc3_scratch0)) :
    SlotAgrees3 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k3_off1 L) S1x4x128.size (k3_off1_inb L)) (fun _ => rfl)).squeeze S4x128 squeezes_S1x4x128_S4x128).view I)) Finset.univ) := by
  intro i hi
  rw [slot_first_set3 L h0 hA0] at hi
  have hlt : wid3 L + 32 * (⟨0, h0⟩ : Fin k3_t1_loop.trips).val < 250 := (tb3_act_iff L ⟨0, h0⟩).mp hA0
  exact fetch_agrees3 d L I ![0, 0, 0] inb_S2x4x128_S1x4x128_0_0_0 (k3_off1 L) (k3_off1_inb L) 0 (wid3 L) 0 rfl (k3_off1_eq L) (by simp only [] at hlt; omega) S i hi

/-! ## What a write-out carries: the gathered array on its window -/

/-- Where element `y` of a squeezed 1 × 128 × 128 window of the result at offsets `off` lies. -/
theorem emb_win3 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list3 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen3 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid3 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc3 d)) (S' : Buf (Elt F) ((thr3 d L).loc cc3_scratch0))
    (hS' : ∀ i ∈ (((sI).slice (Rect.unit (s := S2x4x128) offL S1x1x128.size inbL) (fun _ => rfl)).squeeze S128 squeezes_S1x1x128_S128).view.set, S' i = slotImg3 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win3 offW inbW y 0
  have w1 := emb_win3 offW inbW y 1
  have w2 := emb_win3 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg3
    congr 2
    have l1 := emb_list3 ![p, j.val, 0] inbL (S128.rowMajor.symm (Fin.cast hnum.symm (y gathers_S160000x128_S128x128.axis'))) 1
    have l2 := emb_list3 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val3_0 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off6 k) S1x1x128.size (k3_off6_inb L k hA)) (fun _ => rfl)).squeeze S128 squeezes_S1x1x128_S128).view.set, S' i = slotImg3 d L I k.val i)
    (hin : ∀ x : S128.Idx, (View.read (Elt F) (((sI).slice (Rect.unit (s := S2x4x128) (k3_off6 k) S1x1x128.size (k3_off6_inb L k hA)) (fun _ => rfl)).squeeze S128 squeezes_S1x1x128_S128).view S' x).toNat < 160000)
    (hI : ∀ i, (I i).toNat < 160000) :
    ∀ i ∈ (oWin3_0 L k hA).view.set,
      (oWin3_0 L k hA).view.writes (Elt F) G [⟨Rect.whole S128x128, ReadAs.same.apply (View.read (Elt F) (rPl3_0).view ((rPl3_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off6 k) S1x1x128.size (k3_off6_inb L k hA)) (fun _ => rfl)).squeeze S128 squeezes_S1x1x128_S128).view S') (by decide) hin)⟩]))⟩] i
        = gath (F := F) X I i :=
  win_val_gen3 d L I X (k3_off10 L k) (k3_off10_inb L k hA) (k3_off6 k) (k3_off6_inb L k hA) 0 (k.val % 2) (wid3 L + 32 * k.val)
    (256 * (L 1).val + 128 * (L 0).val + 4096 * k.val) k.val (k3_off10_eq L k)
    (show 256 * (L 1).val + 128 * (L 0).val + 4096 * k.val = 128 * (2 * (L 1).val + (L 0).val + 32 * k.val) by omega)
    (k3_off6_eq k) (Nat.mod_eq_of_lt ((tb3_act_iff L k).mp hA)) (rPl3_0).view r (by decide) G S' hS' hin hI

/-- Plane 1 of a trip: its window of the result, written with the plane of the row scratch after the gather of the rows
    its index list names, holds the gathered array. -/
theorem win_val3_1 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off7 k) S1x1x128.size (k3_off7_inb L k hA)) (fun _ => rfl)).squeeze S128 squeezes_S1x1x128_S128).view.set, S' i = slotImg3 d L I k.val i)
    (hin : ∀ x : S128.Idx, (View.read (Elt F) (((sI).slice (Rect.unit (s := S2x4x128) (k3_off7 k) S1x1x128.size (k3_off7_inb L k hA)) (fun _ => rfl)).squeeze S128 squeezes_S1x1x128_S128).view S' x).toNat < 160000)
    (hI : ∀ i, (I i).toNat < 160000) :
    ∀ i ∈ (oWin3_1 L k hA).view.set,
      (oWin3_1 L k hA).view.writes (Elt F) G [⟨Rect.whole S128x128, ReadAs.same.apply (View.read (Elt F) (rPl3_1).view ((rPl3_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off7 k) S1x1x128.size (k3_off7_inb L k hA)) (fun _ => rfl)).squeeze S128 squeezes_S1x1x128_S128).view S') (by decide) hin)⟩]))⟩] i
        = gath (F := F) X I i :=
  win_val_gen3 d L I X (k3_off11 L k) (k3_off11_inb L k hA) (k3_off7 k) (k3_off7_inb L k hA) 1 (k.val % 2) (wid3 L + 32 * k.val)
    (256 * (L 1).val + 128 * (L 0).val + 4096 * k.val) k.val (k3_off11_eq L k)
    (show 256 * (L 1).val + 128 * (L 0).val + 4096 * k.val = 128 * (2 * (L 1).val + (L 0).val + 32 * k.val) by omega)
    (k3_off7_eq k) (Nat.mod_eq_of_lt ((tb3_act_iff L k).mp hA)) (rPl3_1).view r (by decide) G S' hS' hin hI

/-- Plane 2 of a trip: its window of the result, written with the plane of the row scratch after the gather of the rows
    its index list names, holds the gathered array. -/
theorem win_val3_2 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off8 k) S1x1x128.size (k3_off8_inb L k hA)) (fun _ => rfl)).squeeze S128 squeezes_S1x1x128_S128).view.set, S' i = slotImg3 d L I k.val i)
    (hin : ∀ x : S128.Idx, (View.read (Elt F) (((sI).slice (Rect.unit (s := S2x4x128) (k3_off8 k) S1x1x128.size (k3_off8_inb L k hA)) (fun _ => rfl)).squeeze S128 squeezes_S1x1x128_S128).view S' x).toNat < 160000)
    (hI : ∀ i, (I i).toNat < 160000) :
    ∀ i ∈ (oWin3_2 L k hA).view.set,
      (oWin3_2 L k hA).view.writes (Elt F) G [⟨Rect.whole S128x128, ReadAs.same.apply (View.read (Elt F) (rPl3_2).view ((rPl3_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off8 k) S1x1x128.size (k3_off8_inb L k hA)) (fun _ => rfl)).squeeze S128 squeezes_S1x1x128_S128).view S') (by decide) hin)⟩]))⟩] i
        = gath (F := F) X I i :=
  win_val_gen3 d L I X (k3_off12 L k) (k3_off12_inb L k hA) (k3_off8 k) (k3_off8_inb L k hA) 2 (k.val % 2) (wid3 L + 32 * k.val)
    (256 * (L 1).val + 128 * (L 0).val + 4096 * k.val) k.val (k3_off12_eq L k)
    (show 256 * (L 1).val + 128 * (L 0).val + 4096 * k.val = 128 * (2 * (L 1).val + (L 0).val + 32 * k.val) by omega)
    (k3_off8_eq k) (Nat.mod_eq_of_lt ((tb3_act_iff L k).mp hA)) (rPl3_2).view r (by decide) G S' hS' hin hI

/-- Plane 3 of a trip: its window of the result, written with the plane of the row scratch after the gather of the rows
    its index list names, holds the gathered array. -/
theorem win_val3_3 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off9 k) S1x1x128.size (k3_off9_inb L k hA)) (fun _ => rfl)).squeeze S128 squeezes_S1x1x128_S128).view.set, S' i = slotImg3 d L I k.val i)
    (hin : ∀ x : S128.Idx, (View.read (Elt F) (((sI).slice (Rect.unit (s := S2x4x128) (k3_off9 k) S1x1x128.size (k3_off9_inb L k hA)) (fun _ => rfl)).squeeze S128 squeezes_S1x1x128_S128).view S' x).toNat < 160000)
    (hI : ∀ i, (I i).toNat < 160000) :
    ∀ i ∈ (oWin3_3 L k hA).view.set,
      (oWin3_3 L k hA).view.writes (Elt F) G [⟨Rect.whole S128x128, ReadAs.same.apply (View.read (Elt F) (rPl3_3).view ((rPl3_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off9 k) S1x1x128.size (k3_off9_inb L k hA)) (fun _ => rfl)).squeeze S128 squeezes_S1x1x128_S128).view S') (by decide) hin)⟩]))⟩] i
        = gath (F := F) X I i :=
  win_val_gen3 d L I X (k3_off13 L k) (k3_off13_inb L k hA) (k3_off9 k) (k3_off9_inb L k hA) 3 (k.val % 2) (wid3 L + 32 * k.val)
    (256 * (L 1).val + 128 * (L 0).val + 4096 * k.val) k.val (k3_off13_eq L k)
    (show 256 * (L 1).val + 128 * (L 0).val + 4096 * k.val = 128 * (2 * (L 1).val + (L 0).val + 32 * k.val) by omega)
    (k3_off9_eq k) (Nat.mod_eq_of_lt ((tb3_act_iff L k).mp hA)) (rPl3_3).view r (by decide) G S' hS' hin hI

end Cert.KernelIdeal.KP

end
-- ==== Proof.TileTrip3.lean ====
/-
  One trip of the loop of call 3's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal3

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The table's share as the remainder and one read token per gather semaphore. -/
def xPart3 : sProp 𝕄 :=
  iprop(((xW).view.loc (thr3 d L) ↦{Transfers.shareDrop q 4} X) ∗ ((xW).view.loc (thr3 d L) ↦{Transfers.shareTok q 4 0} X) ∗ ((xW).view.loc (thr3 d L) ↦{Transfers.shareTok q 4 1} X)
    ∗ ((xW).view.loc (thr3 d L) ↦{Transfers.shareTok q 4 2} X) ∗ ((xW).view.loc (thr3 d L) ↦{Transfers.shareTok q 4 3} X))
/-- The gather semaphores at rest. -/
def gsems3 : sProp 𝕄 :=
  iprop(semVal (cellD3 d L cc3_scratch2) 0 ∗ semVal (cellD3 d L cc3_scratch3) 0 ∗ semVal (cellD3 d L cc3_scratch4) 0 ∗ semVal (cellD3 d L cc3_scratch5) 0)
/-- The index fetch of an active trip `t` in flight. -/
def idxFly3 (t : Fin k3_t1_loop.trips) (h : Act3 L t) : sProp 𝕄 :=
  iprop(∃ S, ⌜SlotAgrees3 d L I t h S⌝
    ∗ Transfers.Flight countersEmb (thr3 d L) (SemLoc.dma cc3_scratch10.sem) (default : HIx 5) 16384 (idxDeliv3 d L q I t h S)
    ∗ ((iW).view.loc (thr3 d L) ↦[Finset.univ \ (iCh3 L t h).view.set]{q} I)
    ∗ ((sI).view.loc (thr3 d L) ↦[Finset.univ \ (sSl3 L t h).view.set]{fullShare} S))
/-- The four write-outs of an active trip `t` in flight. -/
def rowsFly3 (t : Fin k3_t1_loop.trips) (h : Act3 L t) : sProp 𝕄 :=
  iprop(∃ r0 r1 r2 r3, Transfers.Flight countersEmb (thr3 d L) (SemLoc.dma cc3_scratch6.sem) (default : HIx 5) 524288 (wDeliv3 d L X I t h 0 (pl3_0 d L r0))
    ∗ Transfers.Flight countersEmb (thr3 d L) (SemLoc.dma cc3_scratch7.sem) (default : HIx 5) 524288 (wDeliv3 d L X I t h 1 (pl3_1 d L r1))
    ∗ Transfers.Flight countersEmb (thr3 d L) (SemLoc.dma cc3_scratch8.sem) (default : HIx 5) 524288 (wDeliv3 d L X I t h 2 (pl3_2 d L r2))
    ∗ Transfers.Flight countersEmb (thr3 d L) (SemLoc.dma cc3_scratch9.sem) (default : HIx 5) 524288 (wDeliv3 d L X I t h 3 (pl3_3 d L r3)))
omit [FloatOps F] in
/-- One more wait recorded at index `none` keeps the recorded waits within `W` and index `none`. -/
theorem none_ins3 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart3 (O : CellTallies nD τ sig (HIx 5)) (W : Waits sig (HIx 5)) : sProp 𝕄 :=
  iprop(∃ W', ⌜∀ p ∈ W', p ∈ W ∨ p.2 = none⌝ ∗ owes (thr3 d L) O W')

/-- The index side at rest: the semaphore at zero, block and scratch whole. -/
def idxIdle3 : sProp 𝕄 :=
  iprop(semVal (cellD3 d L cc3_scratch10) 0 ∗ ((iW).view.loc (thr3 d L) ↦{q} I) ∗ ∃ S, (sI).view.loc (thr3 d L) ↦{fullShare} S)
/-- The row scratch and the write-out semaphores at rest. -/
def rowsIdle3 : sProp 𝕄 :=
  iprop((semVal (cellD3 d L cc3_scratch6) 0 ∗ ∃ r, pl3_0 d L r) ∗ (semVal (cellD3 d L cc3_scratch7) 0 ∗ ∃ r, pl3_1 d L r)
    ∗ (semVal (cellD3 d L cc3_scratch8) 0 ∗ ∃ r, pl3_2 d L r) ∗ (semVal (cellD3 d L cc3_scratch9) 0 ∗ ∃ r, pl3_3 d L r))

/-- On the first trip the loop's test `i ≥ 1` fails (in the words the body computes it with). -/
theorem lt1_cond3 : ∀ k : Fin k3_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA3 (O : CellTallies nD τ sig (HIx 5)) (W : Waits sig (HIx 5))
    (k tp k' : Fin k3_t1_loop.trips) (hp : tp.val + 1 = k.val) (hk' : k'.val = k.val + 1) (hA : Act3 L k) (hAp : Act3 L tp) (hA' : Act3 L k')
    (h2 : k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsFly3 d L X I tp hAp ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxFly3 d L q I k' hA' ∗ gsems3 d L ∗ rowsFly3 d L X I k hA
            ∗ oWins3 d L tp hAp (gath (F := F) X I) ∗ owesPart3 d L O W ∗ R) := by
  unfold xPart3 idxFly3 gsems3 rowsFly3 oWins3 owesPart3
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have hdisj := slots_disj3 L k hA h2
  have hd6 := list6_disj3 L k hA h2
  have hd7 := list7_disj3 L k hA h2
  have hd8 := list8_disj3 L k hA h2
  have hd9 := list9_disj3 L k hA h2
  have hk1 : 1 ≤ k.val := by omega
  have k3_h3 := ge1_cond3 k hk1
  sl_unfold [k3_t1_body]
  sl_exec
  have hin6 := list6_inr3 d L I k hA (tripA3.sl.HsI_w0 d L I k hA h2 S) (list6_agree3 d L I k hA h2 S hS _) hI
  have hin7 := list7_inr3 d L I k hA (tripA3.sl.HsI_w0 d L I k hA h2 S) (list7_agree3 d L I k hA h2 S hS _) hI
  have hin8 := list8_inr3 d L I k hA (tripA3.sl.HsI_w0 d L I k hA h2 S) (list8_agree3 d L I k hA h2 S hS _) hI
  have hin9 := list9_inr3 d L I k hA (tripA3.sl.HsI_w0 d L I k hA h2 S) (list9_agree3 d L I k hA h2 S hS _) hI
  sl_exec
  have hw0 : (((oWin3_0 L k hA).view.loc (thr3 d L) ↦[(oWin3_0 L k hA).view.set]{fullShare}
      ((oWin3_0 L k hA).view.writes (Elt F) G [⟨Rect.whole S128x128, tripA3.sl.dma0_1 d L X I k hA h2 S r0 hin6⟩])) : sProp 𝕄)
      = ((oW).view.loc (thr3 d L) ↦[oSet3 L k hA 0]{fullShare} gath (F := F) X I) :=
    pointsTo_congr (win_val3_0 d L I X k hA G r0 _ (list6_agree3 d L I k hA h2 S hS _) hin6 hI)
  have hw1 : (((oWin3_1 L k hA).view.loc (thr3 d L) ↦[(oWin3_1 L k hA).view.set]{fullShare}
      ((oWin3_1 L k hA).view.writes (Elt F) G [⟨Rect.whole S128x128, tripA3.sl.dma0_2 d L X I k hA h2 S r1 hin7⟩])) : sProp 𝕄)
      = ((oW).view.loc (thr3 d L) ↦[oSet3 L k hA 1]{fullShare} gath (F := F) X I) :=
    pointsTo_congr (win_val3_1 d L I X k hA G r1 _ (list7_agree3 d L I k hA h2 S hS _) hin7 hI)
  have hw2 : (((oWin3_2 L k hA).view.loc (thr3 d L) ↦[(oWin3_2 L k hA).view.set]{fullShare}
      ((oWin3_2 L k hA).view.writes (Elt F) G [⟨Rect.whole S128x128, tripA3.sl.dma0_3 d L X I k hA h2 S r2 hin8⟩])) : sProp 𝕄)
      = ((oW).view.loc (thr3 d L) ↦[oSet3 L k hA 2]{fullShare} gath (F := F) X I) :=
    pointsTo_congr (win_val3_2 d L I X k hA G r2 _ (list8_agree3 d L I k hA h2 S hS _) hin8 hI)
  have hw3 : (((oWin3_3 L k hA).view.loc (thr3 d L) ↦[(oWin3_3 L k hA).view.set]{fullShare}
      ((oWin3_3 L k hA).view.writes (Elt F) G [⟨Rect.whole S128x128, tripA3.sl.dma0_4 d L X I k hA h2 S r3 hin9⟩])) : sProp 𝕄)
      = ((oW).view.loc (thr3 d L) ↦[oSet3 L k hA 3]{fullShare} gath (F := F) X I) :=
    pointsTo_congr (win_val3_3 d L I X k hA G r3 _ (list9_agree3 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA3.sl.HsI_w0 d L I k hA h2 S)
    isplitr
    · ipureintro; exact slot_agree_next3 d L I k k' hk' hA hA' h2 S
    rw [slot_next_set3 L k k' hk' hA hA' h2, chunk_next_set3 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr3 d L) (sep_mono_left (Entails.of_eq hw0))) $$ Hf0
    isplitl [Hf1]
    · iapply (Transfers.Flight_mono countersEmb (thr3 d L) (sep_mono_left (Entails.of_eq hw1))) $$ Hf1
    isplitl [Hf2]
    · iapply (Transfers.Flight_mono countersEmb (thr3 d L) (sep_mono_left (Entails.of_eq hw2))) $$ Hf2
    · iapply (Transfers.Flight_mono countersEmb (thr3 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins3 (none_ins3 (none_ins3 (none_ins3 (none_ins3 (none_ins3 (none_ins3 (none_ins3 (none_ins3 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB3 (O : CellTallies nD τ sig (HIx 5)) (W : Waits sig (HIx 5))
    (k tp : Fin k3_t1_loop.trips) (hp : tp.val + 1 = k.val) (hA : Act3 L k) (hAp : Act3 L tp)
    (hn2 : ¬ k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsFly3 d L X I tp hAp ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxIdle3 d L q I ∗ gsems3 d L ∗ rowsFly3 d L X I k hA
            ∗ oWins3 d L tp hAp (gath (F := F) X I) ∗ owesPart3 d L O W ∗ R) := by
  unfold xPart3 idxFly3 idxIdle3 gsems3 rowsFly3 oWins3 owesPart3
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have k3_h2 : ¬ k3_cond2 L k = 1#1 := hn2
  have hk1 : 1 ≤ k.val := by omega
  have k3_h3 := ge1_cond3 k hk1
  have hin6 := list6_inr3 d L I k hA S (fun i hi => hS i (list6_sub3 L k hA hi)) hI
  have hin7 := list7_inr3 d L I k hA S (fun i hi => hS i (list7_sub3 L k hA hi)) hI
  have hin8 := list8_inr3 d L I k hA S (fun i hi => hS i (list8_sub3 L k hA hi)) hI
  have hin9 := list9_inr3 d L I k hA S (fun i hi => hS i (list9_sub3 L k hA hi)) hI
  sl_unfold [k3_t1_body]
  sl_exec
  have hw0 : (((oWin3_0 L k hA).view.loc (thr3 d L) ↦[(oWin3_0 L k hA).view.set]{fullShare}
      ((oWin3_0 L k hA).view.writes (Elt F) G [⟨Rect.whole S128x128, tripB3.sl.dma0 d L X k hA S r0 hin6⟩])) : sProp 𝕄)
      = ((oW).view.loc (thr3 d L) ↦[oSet3 L k hA 0]{fullShare} gath (F := F) X I) :=
    pointsTo_congr (win_val3_0 d L I X k hA G r0 S (fun i hi => hS i (list6_sub3 L k hA hi)) hin6 hI)
  have hw1 : (((oWin3_1 L k hA).view.loc (thr3 d L) ↦[(oWin3_1 L k hA).view.set]{fullShare}
      ((oWin3_1 L k hA).view.writes (Elt F) G [⟨Rect.whole S128x128, tripB3.sl.dma0_1 d L X k hA S r1 hin7⟩])) : sProp 𝕄)
      = ((oW).view.loc (thr3 d L) ↦[oSet3 L k hA 1]{fullShare} gath (F := F) X I) :=
    pointsTo_congr (win_val3_1 d L I X k hA G r1 S (fun i hi => hS i (list7_sub3 L k hA hi)) hin7 hI)
  have hw2 : (((oWin3_2 L k hA).view.loc (thr3 d L) ↦[(oWin3_2 L k hA).view.set]{fullShare}
      ((oWin3_2 L k hA).view.writes (Elt F) G [⟨Rect.whole S128x128, tripB3.sl.dma0_2 d L X k hA S r2 hin8⟩])) : sProp 𝕄)
      = ((oW).view.loc (thr3 d L) ↦[oSet3 L k hA 2]{fullShare} gath (F := F) X I) :=
    pointsTo_congr (win_val3_2 d L I X k hA G r2 S (fun i hi => hS i (list8_sub3 L k hA hi)) hin8 hI)
  have hw3 : (((oWin3_3 L k hA).view.loc (thr3 d L) ↦[(oWin3_3 L k hA).view.set]{fullShare}
      ((oWin3_3 L k hA).view.writes (Elt F) G [⟨Rect.whole S128x128, tripB3.sl.dma0_3 d L X k hA S r3 hin9⟩])) : sProp 𝕄)
      = ((oW).view.loc (thr3 d L) ↦[oSet3 L k hA 3]{fullShare} gath (F := F) X I) :=
    pointsTo_congr (win_val3_3 d L I X k hA G r3 S (fun i hi => hS i (list9_sub3 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr3 d L) (sep_mono_left (Entails.of_eq hw0))) $$ Hf0
    isplitl [Hf1]
    · iapply (Transfers.Flight_mono countersEmb (thr3 d L) (sep_mono_left (Entails.of_eq hw1))) $$ Hf1
    isplitl [Hf2]
    · iapply (Transfers.Flight_mono countersEmb (thr3 d L) (sep_mono_left (Entails.of_eq hw2))) $$ Hf2
    · iapply (Transfers.Flight_mono countersEmb (thr3 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins3 (none_ins3 (none_ins3 (none_ins3 (none_ins3 (none_ins3 (none_ins3 (none_ins3 (none_ins3 (hW')))))))))

set_option maxHeartbeats 1000000 in
set_option sl_exec.dmaWindow true in
/-- The first trip: from its index fetch in flight and the row scratch at rest to the index fetch of trip 1 and its own
    four write-outs in flight. -/
theorem tripC3 (O : CellTallies nD τ sig (HIx 5)) (W : Waits sig (HIx 5))
    (k k' : Fin k3_t1_loop.trips) (hk0 : k.val = 0) (hk' : k'.val = k.val + 1) (hA : Act3 L k) (hA' : Act3 L k')
    (h2 : k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsIdle3 d L ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxFly3 d L q I k' hA' ∗ gsems3 d L ∗ rowsFly3 d L X I k hA ∗ owesPart3 d L O W ∗ R) := by
  unfold xPart3 idxFly3 gsems3 rowsIdle3 rowsFly3 oWins3 owesPart3
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have k3_h3 := lt1_cond3 k hk0
  have hdisj := slots_disj3 L k hA h2
  have hd6 := list6_disj3 L k hA h2
  have hd7 := list7_disj3 L k hA h2
  have hd8 := list8_disj3 L k hA h2
  have hd9 := list9_disj3 L k hA h2
  sl_unfold [k3_t1_body]
  sl_exec
  have hin6 := list6_inr3 d L I k hA (tripC3.sl.HsI_w0 d L I k hA h2 S) (list6_agree3 d L I k hA h2 S hS _) hI
  have hin7 := list7_inr3 d L I k hA (tripC3.sl.HsI_w0 d L I k hA h2 S) (list7_agree3 d L I k hA h2 S hS _) hI
  have hin8 := list8_inr3 d L I k hA (tripC3.sl.HsI_w0 d L I k hA h2 S) (list8_agree3 d L I k hA h2 S hS _) hI
  have hin9 := list9_inr3 d L I k hA (tripC3.sl.HsI_w0 d L I k hA h2 S) (list9_agree3 d L I k hA h2 S hS _) hI
  sl_exec
  have hw0 : (((oWin3_0 L k hA).view.loc (thr3 d L) ↦[(oWin3_0 L k hA).view.set]{fullShare}
      ((oWin3_0 L k hA).view.writes (Elt F) G [⟨Rect.whole S128x128, tripC3.sl.dma0_1 d L X I k hA h2 S r0 hin6⟩])) : sProp 𝕄)
      = ((oW).view.loc (thr3 d L) ↦[oSet3 L k hA 0]{fullShare} gath (F := F) X I) :=
    pointsTo_congr (win_val3_0 d L I X k hA G r0 _ (list6_agree3 d L I k hA h2 S hS _) hin6 hI)
  have hw1 : (((oWin3_1 L k hA).view.loc (thr3 d L) ↦[(oWin3_1 L k hA).view.set]{fullShare}
      ((oWin3_1 L k hA).view.writes (Elt F) G [⟨Rect.whole S128x128, tripC3.sl.dma0_2 d L X I k hA h2 S r1 hin7⟩])) : sProp 𝕄)
      = ((oW).view.loc (thr3 d L) ↦[oSet3 L k hA 1]{fullShare} gath (F := F) X I) :=
    pointsTo_congr (win_val3_1 d L I X k hA G r1 _ (list7_agree3 d L I k hA h2 S hS _) hin7 hI)
  have hw2 : (((oWin3_2 L k hA).view.loc (thr3 d L) ↦[(oWin3_2 L k hA).view.set]{fullShare}
      ((oWin3_2 L k hA).view.writes (Elt F) G [⟨Rect.whole S128x128, tripC3.sl.dma0_3 d L X I k hA h2 S r2 hin8⟩])) : sProp 𝕄)
      = ((oW).view.loc (thr3 d L) ↦[oSet3 L k hA 2]{fullShare} gath (F := F) X I) :=
    pointsTo_congr (win_val3_2 d L I X k hA G r2 _ (list8_agree3 d L I k hA h2 S hS _) hin8 hI)
  have hw3 : (((oWin3_3 L k hA).view.loc (thr3 d L) ↦[(oWin3_3 L k hA).view.set]{fullShare}
      ((oWin3_3 L k hA).view.writes (Elt F) G [⟨Rect.whole S128x128, tripC3.sl.dma0_4 d L X I k hA h2 S r3 hin9⟩])) : sProp 𝕄)
      = ((oW).view.loc (thr3 d L) ↦[oSet3 L k hA 3]{fullShare} gath (F := F) X I) :=
    pointsTo_congr (win_val3_3 d L I X k hA G r3 _ (list9_agree3 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC3.sl.HsI_w0 d L I k hA h2 S)
    isplitr
    · ipureintro; exact slot_agree_next3 d L I k k' hk' hA hA' h2 S
    rw [slot_next_set3 L k k' hk' hA hA' h2, chunk_next_set3 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr3 d L) (sep_mono_left (Entails.of_eq hw0))) $$ Hw0
    isplitl [Hw1]
    · iapply (Transfers.Flight_mono countersEmb (thr3 d L) (sep_mono_left (Entails.of_eq hw1))) $$ Hw1
    isplitl [Hw2]
    · iapply (Transfers.Flight_mono countersEmb (thr3 d L) (sep_mono_left (Entails.of_eq hw2))) $$ Hw2
    · iapply (Transfers.Flight_mono countersEmb (thr3 d L) (sep_mono_left (Entails.of_eq hw3))) $$ Hw3
  isplitr [HR]
  rotate_left
  · iexact HR
  iexists _
  isplitr
  rotate_left
  · iexact HO
  · ipureintro
    exact none_ins3 (none_ins3 (none_ins3 (none_ins3 (none_ins3 (hW')))))

/-- An idle trip (its chunk number is 250 or more) does nothing. -/
theorem tripI3 (k : Fin k3_t1_loop.trips) (hnA : ¬ Act3 L k) (R : sProp 𝕄) :
    R ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => R := by
  iintro HR
  have k3_h1 : ¬ k3_cond1 L k = 1#1 := hnA
  sl_unfold [k3_t1_body]
  sl_exec
  sl_step
  iexact HR

end Cert.KernelIdeal.KP

end
-- ==== Proof.TileOut3.lean ====
/-
  The result's windows through the loop of call 3's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody3b

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable (d : Dev nD) (L : grid3.Coords)

/-! ## Which trips are active -/

theorem wid_lt3 : wid3 L < 32 := by
  have h0 : (L 0).val < 2 := (L 0).isLt
  have h1 : (L 1).val < 16 := (L 1).isLt
  show 2 * (L 1).val + (L 0).val < 32
  omega

theorem act_iff_lt3 (t : Fin k3_t1_loop.trips) : Act3 L t ↔ t.val < nAct3 L := by
  have hw := wid_lt3 L
  refine (tb3_act_iff L t).trans ?_
  show wid3 L + 32 * t.val < 250 ↔ t.val < (250 - wid3 L + 31) / 32
  omega

theorem nAct_bounds3 : 7 ≤ nAct3 L ∧ nAct3 L ≤ 8 := by
  have hw := wid_lt3 L
  show 7 ≤ (250 - wid3 L + 31) / 32 ∧ (250 - wid3 L + 31) / 32 ≤ 8
  omega

theorem pre_iff_lt3 (k : Fin k3_t1_loop.trips) : k3_cond2 L k = 1#1 ↔ k.val + 1 < nAct3 L := by
  have hw := wid_lt3 L
  refine (tb3_pre_iff L k).trans ?_
  show wid3 L + 32 * k.val + 32 < 250 ↔ k.val + 1 < (250 - wid3 L + 31) / 32
  omega

theorem cnt_act3 (k : Fin k3_t1_loop.trips) (hA : Act3 L k) : cnt3 L k.val = k.val ∧ cnt3 L (k.val + 1) = k.val + 1 := by
  have h := (act_iff_lt3 L k).mp hA
  show min k.val (nAct3 L) = k.val ∧ min (k.val + 1) (nAct3 L) = k.val + 1
  omega

theorem cnt_idle3 (k : Fin k3_t1_loop.trips) (hnA : ¬ Act3 L k) : cnt3 L k.val = nAct3 L ∧ cnt3 L (k.val + 1) = nAct3 L := by
  have h : ¬ k.val < nAct3 L := fun h => hnA ((act_iff_lt3 L k).mpr h)
  show min k.val (nAct3 L) = nAct3 L ∧ min (k.val + 1) (nAct3 L) = nAct3 L
  omega

theorem cnt_end3 : cnt3 L k3_t1_loop.trips = nAct3 L := by
  have h := (nAct_bounds3 L).2
  show min k3_t1_loop.trips (nAct3 L) = nAct3 L
  rw [tb3_trips]
  omega

/-! ## The windows' family -/

variable (X : Buf (Elt F) (xLoc d)) (I : Buf (Elt F) (iLoc3 d)) (G : Buf (Elt F) (oLoc3 d))

/-- Trip `t`'s windows after `n` active trips: at the gathered array, in flight, or as found. -/
def outPhi3 (n : ℕ) (t : Fin k3_t1_loop.trips) : sProp 𝕄 :=
  if t.val + 1 < n then oTrip3 d L (gath (F := F) X I) t else if t.val + 1 = n then iprop(emp) else oTrip3 d L G t

theorem outPart3_eq (n : ℕ) : outPart3 d L X I G n = bigSep Finset.univ (outPhi3 d L X I G n) := rfl

theorem outPhi3_done {n : ℕ} {t : Fin k3_t1_loop.trips} (h : t.val + 1 < n) : outPhi3 d L X I G n t = oTrip3 d L (gath (F := F) X I) t := by
  unfold outPhi3; rw [if_pos h]
theorem outPhi3_flight {n : ℕ} {t : Fin k3_t1_loop.trips} (h : t.val + 1 = n) : outPhi3 d L X I G n t = (iprop(emp) : sProp 𝕄) := by
  unfold outPhi3; rw [if_neg (by omega), if_pos h]
theorem outPhi3_found {n : ℕ} {t : Fin k3_t1_loop.trips} (h : n < t.val + 1) : outPhi3 d L X I G n t = oTrip3 d L G t := by
  unfold outPhi3; rw [if_neg (by omega), if_neg (by omega)]

/-- Before any trip every window is as found. -/
theorem out_init3 : (bigSep Finset.univ fun t : Fin k3_t1_loop.trips => oTrip3 d L G t) = outPart3 d L X I G 0 := by
  rw [outPart3_eq]
  exact bigSep_congr fun t _ => (outPhi3_found d L X I G (Nat.succ_pos _)).symm

/-- Entering trip `k` (the trip before it, `tp`, in flight): its own windows come out, as found. -/
theorem out_take3 (k tp : Fin k3_t1_loop.trips) (hp : tp.val + 1 = k.val) (hA : Act3 L k) :
    outPart3 d L X I G k.val ⊢ iprop(oWins3 d L k hA G ∗ bigSep ((Finset.univ.erase k).erase tp) (outPhi3 d L X I G k.val)) := by
  have hne : tp ≠ k := fun e => by rw [e] at hp; omega
  rw [outPart3_eq, SparseCore.bigSep_erase' (Finset.mem_univ k),
    SparseCore.bigSep_erase' (Finset.mem_erase.mpr ⟨hne, Finset.mem_univ tp⟩),
    outPhi3_found d L X I G (Nat.lt_succ_self _), outPhi3_flight d L X I G hp, oTrip3_act d L k hA]
  iintro ⟨Hw, -, Hr⟩
  isplitl [Hw] <;> iassumption

/-- Leaving trip `k`: the previous trip's windows go back, at the gathered array; trip `k`'s are now the ones in flight. -/
theorem out_put3 (k tp : Fin k3_t1_loop.trips) (hp : tp.val + 1 = k.val) (hAp : Act3 L tp) :
    iprop(oWins3 d L tp hAp (gath (F := F) X I) ∗ bigSep ((Finset.univ.erase k).erase tp) (outPhi3 d L X I G k.val))
      ⊢ outPart3 d L X I G (k.val + 1) := by
  have hne : tp ≠ k := fun e => by rw [e] at hp; omega
  rw [outPart3_eq, SparseCore.bigSep_erase' (Finset.mem_univ k),
    SparseCore.bigSep_erase' (Finset.mem_erase.mpr ⟨hne, Finset.mem_univ tp⟩),
    outPhi3_flight d L X I G rfl, outPhi3_done d L X I G (show tp.val + 1 < k.val + 1 by omega), oTrip3_act d L tp hAp,
    show bigSep ((Finset.univ.erase k).erase tp) (outPhi3 d L X I G (k.val + 1)) = bigSep ((Finset.univ.erase k).erase tp) (outPhi3 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi3
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first3 (h0 : 0 < k3_t1_loop.trips) (hA : Act3 L ⟨0, h0⟩) :
    outPart3 d L X I G 0 ⊢ iprop(oWins3 d L ⟨0, h0⟩ hA G ∗ bigSep (Finset.univ.erase ⟨0, h0⟩) (outPhi3 d L X I G 0)) := by
  rw [outPart3_eq, SparseCore.bigSep_erase' (Finset.mem_univ (⟨0, h0⟩ : Fin k3_t1_loop.trips)),
    outPhi3_found d L X I G (Nat.succ_pos _), oTrip3_act d L ⟨0, h0⟩ hA]

/-- Leaving it: nothing goes back yet. -/
theorem out_put_first3 (h0 : 0 < k3_t1_loop.trips) :
    bigSep (Finset.univ.erase (⟨0, h0⟩ : Fin k3_t1_loop.trips)) (outPhi3 d L X I G 0) ⊢ outPart3 d L X I G 1 := by
  rw [outPart3_eq, SparseCore.bigSep_erase' (Finset.mem_univ (⟨0, h0⟩ : Fin k3_t1_loop.trips)),
    outPhi3_flight d L X I G (show (⟨0, h0⟩ : Fin k3_t1_loop.trips).val + 1 = 1 from rfl),
    show bigSep (Finset.univ.erase (⟨0, h0⟩ : Fin k3_t1_loop.trips)) (outPhi3 d L X I G 1) = bigSep (Finset.univ.erase (⟨0, h0⟩ : Fin k3_t1_loop.trips)) (outPhi3 d L X I G 0) from
      bigSep_congr fun t ht => by
        have h1 : t ≠ ⟨0, h0⟩ := (Finset.mem_erase.mp ht).1
        have h1' : t.val ≠ 0 := fun e => h1 (Fin.ext e)
        rw [outPhi3_found d L X I G (show 1 < t.val + 1 by omega), outPhi3_found d L X I G (Nat.succ_pos _)]]
  iintro Hr
  isplitr; · iempintro
  iexact Hr

/-- After the last active trip `tl`, with its windows back: every trip's windows hold the gathered array (the idle
    trips have none). -/
theorem out_final3 (tl : Fin k3_t1_loop.trips) (hAl : Act3 L tl) (hidle : ∀ t : Fin k3_t1_loop.trips, tl.val < t.val → ¬ Act3 L t) :
    iprop(outPart3 d L X I G (tl.val + 1) ∗ oWins3 d L tl hAl (gath (F := F) X I))
      ⊢ bigSep Finset.univ fun t : Fin k3_t1_loop.trips => oTrip3 d L (gath (F := F) X I) t := by
  rw [outPart3_eq, SparseCore.bigSep_erase' (Finset.mem_univ tl) (Φ := outPhi3 d L X I G (tl.val + 1)),
    SparseCore.bigSep_erase' (Finset.mem_univ tl) (Φ := fun t : Fin k3_t1_loop.trips => oTrip3 d L (gath (F := F) X I) t),
    outPhi3_flight d L X I G rfl, oTrip3_act d L tl hAl,
    show bigSep (Finset.univ.erase tl) (outPhi3 d L X I G (tl.val + 1)) = bigSep (Finset.univ.erase tl) (fun t : Fin k3_t1_loop.trips => oTrip3 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi3_done d L X I G (by omega)
        · have hi := hidle t (by omega)
          rw [outPhi3_found d L X I G (show tl.val + 1 < t.val + 1 by omega), oTrip3_idle d L t hi, oTrip3_idle d L t hi]]
  iintro ⟨⟨-, Hr⟩, Hw⟩
  isplitl [Hw] <;> iassumption

end Cert.KernelIdeal.KP

end
-- ==== Proof.TileScoped3.lean ====
/-
  The scoped storage of one vector subcore as call 3's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody3b

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable (d : Dev nD) (L : grid3.Coords)

/-! ## The task's nine semaphores among the subcore's own -/

/-- The nine DMA semaphores of the task, as semaphore locations. -/
def semS3 : List (SemLoc sig) := [SemLoc.dma cc3_scratch2.sem, SemLoc.dma cc3_scratch3.sem, SemLoc.dma cc3_scratch4.sem, SemLoc.dma cc3_scratch5.sem, SemLoc.dma cc3_scratch6.sem, SemLoc.dma cc3_scratch7.sem, SemLoc.dma cc3_scratch8.sem, SemLoc.dma cc3_scratch9.sem, SemLoc.dma cc3_scratch10.sem]

theorem semS3_nodup : (semS3).Nodup := by decide
theorem semS3_scoped : ∀ s ∈ semS3, (s : SemLoc sig).isScoped .scVector = true := by decide

/-- The same as cells of the tile's thread. -/
def semL3 : List (GSem nD τ sig) := semS3.map fun s => (thr3 d L, s)

theorem semL3_nodup : (semL3 d L).Nodup :=
  semS3_nodup.map fun _ _ h => (Prod.mk.inj h).2

theorem semL3_sub : (semL3 d L).toFinset ⊆ ownCells (thr3 d L) := by
  intro g hg
  rw [List.mem_toFinset, semL3, List.mem_map] at hg
  obtain ⟨s, hs, rfl⟩ := hg
  exact mem_ownCells.mpr ⟨rfl, semS3_scoped s hs⟩

/-- The subcore's own semaphores that the task does not use, each at zero. -/
def RestSems3 : sProp 𝕄 := bigSep (ownCells (thr3 d L) \ (semL3 d L).toFinset) fun g => semVal g 0

/-- The subcore's own semaphores at zero are the task's nine at zero and the rest. -/
theorem ownSems0_V3 :
    (ownSems0 (thr3 d L) : sProp 𝕄)
      = iprop(semVal (cellD3 d L cc3_scratch2) 0 ∗ semVal (cellD3 d L cc3_scratch3) 0 ∗ semVal (cellD3 d L cc3_scratch4) 0 ∗ semVal (cellD3 d L cc3_scratch5) 0 ∗ semVal (cellD3 d L cc3_scratch6) 0 ∗ semVal (cellD3 d L cc3_scratch7) 0 ∗ semVal (cellD3 d L cc3_scratch8) 0 ∗ semVal (cellD3 d L cc3_scratch9) 0 ∗ semVal (cellD3 d L cc3_scratch10) 0 ∗ RestSems3 d L) := by
  unfold SparseCore.Cfg.ownSems0 RestSems3
  rw [SparseCore.bigSep_sdiff_split' (semL3_sub d L), bigSep_eq_bigSepL (semL3 d L) (semL3_nodup d L)]
  unfold semL3 semS3
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs3 : sProp 𝕄 :=
  bigSep (((ownRefs (τ := τ) (.scVector (cV3 L) (jV3 L))).erase ((Proc.scVector (cV3 L) (jV3 L)).devRef cc3_scratch0)).erase
      ((Proc.scVector (cV3 L) (jV3 L)).devRef cc3_scratch1))
    fun b => iprop(∃ f, ((d, b) : Loc nD τ sig) ↦{fullShare} f)

/-- The subcore's own buffers are the index scratch, the row scratch, each at some contents, and the rest. -/
theorem ownBufs_V3 :
    (ownBufs (thr3 d L) : sProp 𝕄)
      = iprop((∃ f, (thr3 d L).loc cc3_scratch0 ↦{fullShare} f) ∗ (∃ f, (thr3 d L).loc cc3_scratch1 ↦{fullShare} f) ∗ RestBufs3 d L) := by
  unfold SparseCore.Cfg.ownBufs RestBufs3
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩)]

/-! ## The whole arrays under the subcore's names -/

theorem pts_sI3 (f : Buf (Elt F) ((thr3 d L).loc cc3_scratch0)) :
    ((sI).view.loc (thr3 d L) ↦{fullShare} f : sProp 𝕄) = (thr3 d L).loc cc3_scratch0 ↦{fullShare} f := rfl
theorem pts_sR3 (f : Buf (Elt F) ((thr3 d L).loc cc3_scratch1)) :
    ((sR).view.loc (thr3 d L) ↦{fullShare} f : sProp 𝕄) = (thr3 d L).loc cc3_scratch1 ↦{fullShare} f := rfl
theorem pts_x3 (q : PosShare TreeShare) (f : Buf (Elt F) (xLoc d)) :
    ((xW).view.loc (thr3 d L) ↦{q} f : sProp 𝕄) = xLoc d ↦{q} f := rfl
theorem pts_i3 (q : PosShare TreeShare) (f : Buf (Elt F) (iLoc3 d)) :
    ((iW).view.loc (thr3 d L) ↦{q} f : sProp 𝕄) = iLoc3 d ↦{q} f := rfl
theorem pts_o3 (K : Finset S4x32000x128.Idx) (q : PosShare TreeShare) (f : Buf (Elt F) (oLoc3 d)) :
    ((oW).view.loc (thr3 d L) ↦[K]{q} f : sProp 𝕄) = oLoc3 d ↦[K]{q} f := rfl

/-! ## The row scratch is its four planes -/

theorem pl_inb3 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet3 (j : Fin 4) : Finset S4x128x128.Idx := (Rect.unit (s := S4x128x128) ![j.val, 0, 0] S1x128x128.size (pl_inb3 j)).set

theorem set_rPl3_0 : (rPl3_0).view.set = plSet3 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc3_scratch1 : Ref sig .scVector) _).trans rfl
theorem set_rPl3_1 : (rPl3_1).view.set = plSet3 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc3_scratch1 : Ref sig .scVector) _).trans rfl
theorem set_rPl3_2 : (rPl3_2).view.set = plSet3 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc3_scratch1 : Ref sig .scVector) _).trans rfl
theorem set_rPl3_3 : (rPl3_3).view.set = plSet3 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc3_scratch1 : Ref sig .scVector) _).trans rfl

/-- Different planes are disjoint: they differ in the first coordinate. -/
theorem pl_disjoint3 : ∀ i ∈ (Finset.univ : Finset (Fin 4)), ∀ j ∈ (Finset.univ : Finset (Fin 4)), i ≠ j → Disjoint (plSet3 i) (plSet3 j) := by
  intro i _ j _ h
  have hv := Fin.val_ne_of_ne h
  refine Rect.unit_disjoint 0 ?_
  simp
  omega

/-- The four planes cover the scratch. -/
theorem pl_cover3 : (Finset.univ : Finset (Fin 4)).biUnion plSet3 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet3
  rw [Rect.mem_set_unit]
  intro a
  fin_cases a <;> simp at h0 h1 h2 ⊢ <;> omega

/-- Holding the row scratch whole at `r` is holding its four planes at `r`. -/
theorem sR_planes3 (r : Buf (Elt F) ((thr3 d L).loc cc3_scratch1)) :
    ((thr3 d L).loc cc3_scratch1 ↦{fullShare} r : sProp 𝕄) = iprop(pl3_0 d L r ∗ pl3_1 d L r ∗ pl3_2 d L r ∗ pl3_3 d L r) := by
  have e : ((thr3 d L).loc cc3_scratch1 ↦{fullShare} r : sProp 𝕄)
      = bigSep Finset.univ fun j : Fin 4 => ((thr3 d L).loc cc3_scratch1 ↦[plSet3 j]{fullShare} r : sProp 𝕄) := by
    rw [← pointsTo_biUnion Finset.univ (ℓ := (thr3 d L).loc cc3_scratch1) plSet3 pl_disjoint3, pl_cover3]; try rfl
  rw [e, bigSep_univ_eq_bigSepL [(0 : Fin 4), 1, 2, 3] (by decide) (by decide)]
  unfold pl3_0 pl3_1 pl3_2 pl3_3
  rw [set_rPl3_0, set_rPl3_1, set_rPl3_2, set_rPl3_3]
  rfl

/-- Four planes at four contents join into the row scratch whole at some contents. -/
theorem sR_join3 (r0 r1 r2 r3 : Buf (Elt F) ((thr3 d L).loc cc3_scratch1)) :
    iprop(pl3_0 d L r0 ∗ pl3_1 d L r1 ∗ pl3_2 d L r2 ∗ pl3_3 d L r3)
      ⊢ (iprop(∃ r, (thr3 d L).loc cc3_scratch1 ↦{fullShare} r) : sProp 𝕄) := by
  have e : (bigSep Finset.univ fun j : Fin 4 => ((thr3 d L).loc cc3_scratch1 ↦[plSet3 j]{fullShare} (![r0, r1, r2, r3] : Fin 4 → Buf (Elt F) ((thr3 d L).loc cc3_scratch1)) j : sProp 𝕄))
      = iprop(pl3_0 d L r0 ∗ pl3_1 d L r1 ∗ pl3_2 d L r2 ∗ pl3_3 d L r3) := by
    rw [bigSep_univ_eq_bigSepL [(0 : Fin 4), 1, 2, 3] (by decide) (by decide)]
    unfold pl3_0 pl3_1 pl3_2 pl3_3
    rw [set_rPl3_0, set_rPl3_1, set_rPl3_2, set_rPl3_3]
    rfl
  rw [← e]
  iintro H
  ihave H' := (pointsTo_biUnion_join Finset.univ plSet3 (![r0, r1, r2, r3] : Fin 4 → Buf (Elt F) ((thr3 d L).loc cc3_scratch1)) r0 pl_disjoint3) $$ H
  icases H' with ⟨%g, -, Hg⟩
  rw [pl_cover3]
  iexists g; iexact Hg

/-! ## A read share of the table as a remainder and four tokens -/

theorem x_toks3 (q : PosShare TreeShare) (X : Buf (Elt F) (xLoc d)) :
    ((xW).view.loc (thr3 d L) ↦{q} X : sProp 𝕄)
      ⊣⊢ iprop(((xW).view.loc (thr3 d L) ↦{Transfers.shareDrop q 4} X) ∗ ((xW).view.loc (thr3 d L) ↦{Transfers.shareTok q 4 0} X)
          ∗ ((xW).view.loc (thr3 d L) ↦{Transfers.shareTok q 4 1} X) ∗ ((xW).view.loc (thr3 d L) ↦{Transfers.shareTok q 4 2} X)
          ∗ ((xW).view.loc (thr3 d L) ↦{Transfers.shareTok q 4 3} X)) := by
  have e : (iprop(((xW).view.loc (thr3 d L) ↦{Transfers.shareTok q 4 0} X)
          ∗ ((xW).view.loc (thr3 d L) ↦{Transfers.shareTok q 4 1} X) ∗ ((xW).view.loc (thr3 d L) ↦{Transfers.shareTok q 4 2} X)
          ∗ ((xW).view.loc (thr3 d L) ↦{Transfers.shareTok q 4 3} X)) : sProp 𝕄)
      = bigSep Finset.univ fun i : Fin 4 => ((xW).view.loc (thr3 d L) ↦{Transfers.shareTok q 4 i} X : sProp 𝕄) :=
    (bigSep_univ_eq_bigSepL [(0 : Fin 4), 1, 2, 3] (by decide) (by decide)
      (fun i : Fin 4 => ((xW).view.loc (thr3 d L) ↦{Transfers.shareTok q 4 i} X : sProp 𝕄))).symm
  rw [e]
  exact Transfers.pointsTo_toks q 4

end Cert.KernelIdeal.KP

end
-- ==== Proof.TileLoop3.lean ====
/-
  The body of call 3's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip3
import proofs.«210879_g80607946211848_cont_9to1_m_1212_13_alg».proof.Proof.TileOut3
import proofs.«210879_g80607946211848_cont_9to1_m_1212_13_alg».proof.Proof.TileScoped3

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v14_scv : Memref Cert.KernelIdeal.sig Kind.scVector Space.hbm Cert.KernelIdeal.S250x4x128 EltTy.i32)
local notation "oW" => (Memref.whole Cert.KernelIdeal.main_v15_scv : Memref Cert.KernelIdeal.sig Kind.scVector Space.hbm Cert.KernelIdeal.S4x32000x128 EltTy.f32)
local notation "sI" => (Memref.whole Cert.KernelIdeal.cc3_scratch0 : Memref Cert.KernelIdeal.sig Kind.scVector Space.vmem Cert.KernelIdeal.S2x4x128 EltTy.i32)
local notation "sR" => (Memref.whole Cert.KernelIdeal.cc3_scratch1 : Memref Cert.KernelIdeal.sig Kind.scVector Space.vmem Cert.KernelIdeal.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The row scratch and the write-out semaphores after `n` active trips. -/
def rowsAt3 : ℕ → sProp 𝕄
  | 0 => rowsIdle3 d L
  | m + 1 => if hm : m < k3_t1_loop.trips then (if hA : Act3 L ⟨m, hm⟩ then rowsFly3 d L X I ⟨m, hm⟩ hA else iprop(False)) else iprop(False)

/-- The index side before trip `k`. -/
def idxAt3 (k : ℕ) : sProp 𝕄 :=
  if hk : k < k3_t1_loop.trips then (if hA : Act3 L ⟨k, hk⟩ then idxFly3 d L q I ⟨k, hk⟩ hA else idxIdle3 d L q I) else idxIdle3 d L q I

/-- The loop's invariant before trip `k`. -/
def invL3 (O : CellTallies nD τ sig (HIx 5)) (W : Waits sig (HIx 5)) (k : ℕ) (_ : PUnit) : sProp 𝕄 :=
  iprop(Transfers.MayWaits (thr3 d L) (none : HIx 5) O ∗ xPart3 d L q X ∗ idxAt3 d L q I k ∗ gsems3 d L
    ∗ rowsAt3 d L X I (cnt3 L k) ∗ outPart3 d L X I G (cnt3 L k) ∗ owesPart3 d L O W)

omit [FloatOps F] in
theorem idxAt3_act (k : Fin k3_t1_loop.trips) (hA : Act3 L k) : idxAt3 d L q I k.val = idxFly3 d L q I k hA := by
  unfold idxAt3; rw [dif_pos k.isLt, dif_pos hA]
omit [FloatOps F] in
theorem idxAt3_idle (k : Fin k3_t1_loop.trips) (hnA : ¬ Act3 L k) : idxAt3 d L q I k.val = idxIdle3 d L q I := by
  unfold idxAt3; rw [dif_pos k.isLt, dif_neg hnA]
omit [FloatOps F] in
theorem idxAt3_end (k : ℕ) (hk : ¬ k < k3_t1_loop.trips) : idxAt3 d L q I k = idxIdle3 d L q I := by
  unfold idxAt3; rw [dif_neg hk]
omit [FloatOps F] in
theorem rowsAt3_succ (t : Fin k3_t1_loop.trips) (hA : Act3 L t) : rowsAt3 d L X I (t.val + 1) = rowsFly3 d L X I t hA := by
  show (if hm : t.val < k3_t1_loop.trips then (if hA : Act3 L ⟨t.val, hm⟩ then rowsFly3 d L X I ⟨t.val, hm⟩ hA else iprop(False)) else iprop(False)) = _
  rw [dif_pos t.isLt, dif_pos hA]

omit [FloatOps F] in
theorem out_take_first3' (k : Fin k3_t1_loop.trips) (hk0 : k.val = 0) (hA : Act3 L k) :
    outPart3 d L X I G k.val ⊢ iprop(oWins3 d L k hA G ∗ bigSep (Finset.univ.erase k) (outPhi3 d L X I G k.val)) := by
  obtain ⟨kv, hkv⟩ := k
  simp only at hk0
  subst hk0
  exact out_take_first3 d L X I G hkv hA

omit [FloatOps F] in
theorem out_put_first3' (k : Fin k3_t1_loop.trips) (hk0 : k.val = 0) :
    bigSep (Finset.univ.erase k) (outPhi3 d L X I G k.val) ⊢ outPart3 d L X I G (k.val + 1) := by
  obtain ⟨kv, hkv⟩ := k
  simp only at hk0
  subst hk0
  exact out_put_first3 d L X I G hkv

set_option maxHeartbeats 4000000 in
set_option sl_exec.dmaWindow true in
theorem tile_body3 (hF : (K (F := F)).Facts) (d : Dev nD) (L : grid3.Coords)
    (X : Buf (Elt F) (xLoc d)) (I : Buf (Elt F) (iLoc3 d)) (G : Buf (Elt F) (oLoc3 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo3 d X I G L
        ∗ scopedBufs (thr3 d L) ∗ scopedSems0 (thr3 d L) ∗ owes (thr3 d L) O W)
      ⊢ wp frame (wpE (defs₀ (F := F)) 𝒱₀ (thr3 d L) none) Set.univ
          (cc3__sc_gather_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10)
          fun _ => iprop(tileTd3 d X I L ∗ scopedBufs (thr3 d L) ∗ scopedSems0 (thr3 d L)
            ∗ ∃ W', ⌜∀ p ∈ W', p ∈ W ∨ p.2 = none⌝ ∗ owes (thr3 d L) O W') := by
  rw [(K (F := F)).scopedBufs_V hF d (cV3 L) (jV3 L), SparseCore.Cfg.scopedSems0_V (Val := Elt F) d (cV3 L) (jV3 L),
    ownSems0_V3, ownBufs_V3]
  unfold tileGo3 tileTd3
  rw [out_init3 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr3 d L) hO) $$ Hlv
  ihave Hx' := (Entails.of_eq (pts_x3 d L (qTile3 L) X).symm) $$ Hx
  ihave Hxt := (x_toks3 d L (qTile3 L) X).1 $$ Hx'
  icases Hxt with ⟨Hxr, Hx0, Hx1, Hx2, Hx3⟩
  ihave Hi' := (Entails.of_eq (pts_i3 d L (qTile3 L) I).symm) $$ Hi
  ihave HsI' := (Entails.of_eq (pts_sI3 d L s0).symm) $$ HsI
  ihave Hpl := (Entails.of_eq (sR_planes3 d L r)) $$ HsR
  icases Hpl with ⟨Hr0, Hr1, Hr2, Hr3⟩
  sl_unfold [cc3__sc_gather_body]
  sl_exec (disch := exact View.amount_pos _ _ (show 0 < S4x128.numel by decide))
  sl_for (invL3 d L (qTile3 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k3_t1_loop.trips = 8 := tb3_trips
    obtain ⟨hn7, hn8⟩ := nAct_bounds3 L
    by_cases hA : Act3 L k
    · obtain ⟨hc, hc'⟩ := cnt_act3 L k hA
      have hkA := (act_iff_lt3 L k).mp hA
      unfold invL3
      rw [hc, hc', idxAt3_act d L (qTile3 L) I k hA, rowsAt3_succ d L X I k hA]
      by_cases h2 : k3_cond2 L k = 1#1
      · have hlt := (pre_iff_lt3 L k).mp h2
        have hk1 : k.val + 1 < k3_t1_loop.trips := by omega
        have hA' : Act3 L ⟨k.val + 1, hk1⟩ := (act_iff_lt3 L ⟨k.val + 1, hk1⟩).mpr hlt
        rw [idxAt3_act d L (qTile3 L) I ⟨k.val + 1, hk1⟩ hA']
        rcases Nat.eq_zero_or_pos k.val with hk0 | hkp
        · -- the first trip
          have hrows0 : rowsAt3 d L X I k.val = rowsIdle3 d L := by rw [hk0]; rfl
          rw [hrows0]
          have hT := tripC3 d L (qTile3 L) X I G O W k ⟨k.val + 1, hk1⟩ hk0 rfl hA hA' h2 hin
            iprop(Transfers.MayWaits (thr3 d L) (none : HIx 5) O ∗ bigSep (Finset.univ.erase k) (outPhi3 d L X I G k.val))
          have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first3' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first3' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k3_t1_loop.trips := by omega
          have hp : (⟨k.val - 1, htp⟩ : Fin k3_t1_loop.trips).val + 1 = k.val := by simp only; omega
          have hAp : Act3 L ⟨k.val - 1, htp⟩ := (act_iff_lt3 L ⟨k.val - 1, htp⟩).mpr (by simp only; omega)
          have hrows : rowsAt3 d L X I k.val = rowsFly3 d L X I ⟨k.val - 1, htp⟩ hAp := by
            have h := rowsAt3_succ d L X I ⟨k.val - 1, htp⟩ hAp
            rwa [hp] at h
          rw [hrows]
          have hT := tripA3 d L (qTile3 L) X I G O W k ⟨k.val - 1, htp⟩ ⟨k.val + 1, hk1⟩ hp rfl hA hAp hA' h2 hin
            iprop(Transfers.MayWaits (thr3 d L) (none : HIx 5) O ∗ bigSep ((Finset.univ.erase k).erase ⟨k.val - 1, htp⟩) (outPhi3 d L X I G k.val))
          have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take3 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put3 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct3 L := fun h => h2 ((pre_iff_lt3 L k).mpr h)
        have hidx' : idxAt3 d L (qTile3 L) I (k.val + 1) = idxIdle3 d L (qTile3 L) I := by
          unfold idxAt3
          split_ifs with h1 h3
          · exact absurd ((act_iff_lt3 L ⟨k.val + 1, h1⟩).mp h3) hnlt
          · rfl
          · rfl
        rw [hidx']
        have htp : k.val - 1 < k3_t1_loop.trips := by omega
        have hp : (⟨k.val - 1, htp⟩ : Fin k3_t1_loop.trips).val + 1 = k.val := by simp only; omega
        have hAp : Act3 L ⟨k.val - 1, htp⟩ := (act_iff_lt3 L ⟨k.val - 1, htp⟩).mpr (by simp only; omega)
        have hrows : rowsAt3 d L X I k.val = rowsFly3 d L X I ⟨k.val - 1, htp⟩ hAp := by
          have h := rowsAt3_succ d L X I ⟨k.val - 1, htp⟩ hAp
          rwa [hp] at h
        rw [hrows]
        have hT := tripB3 d L (qTile3 L) X I G O W k ⟨k.val - 1, htp⟩ hp hA hAp h2 hin
          iprop(Transfers.MayWaits (thr3 d L) (none : HIx 5) O ∗ bigSep ((Finset.univ.erase k).erase ⟨k.val - 1, htp⟩) (outPhi3 d L X I G k.val))
        have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take3 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put3 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle3 L k hA
      have hge : nAct3 L ≤ k.val := Nat.not_lt.mp (fun h => hA ((act_iff_lt3 L k).mpr h))
      have hidx' : idxAt3 d L (qTile3 L) I (k.val + 1) = idxIdle3 d L (qTile3 L) I := by
        unfold idxAt3
        split_ifs with h1 h3
        · exact absurd ((act_iff_lt3 L ⟨k.val + 1, h1⟩).mp h3) (by simp only; omega)
        · rfl
        · rfl
      unfold invL3
      rw [hc, hc', idxAt3_idle d L (qTile3 L) I k hA, hidx']
      have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
          (Scalar.addi (Scalar.muli (BitVec.ofNat 32 (L 1).val) 2#32) (BitVec.ofNat 32 (L 0).val)) k () := rfl
      rw [hprog]
      exact tripI3 d L k hA _
  · -- the invariant before the first trip
    have h0 : 0 < k3_t1_loop.trips := by rw [tb3_trips]; omega
    have hA0 : Act3 L ⟨0, h0⟩ := (act_iff_lt3 L ⟨0, h0⟩).mpr (by have := (nAct_bounds3 L).1; simp only; omega)
    unfold invL3
    rw [show cnt3 L 0 = 0 from Nat.zero_min _, idxAt3_act d L (qTile3 L) I ⟨0, h0⟩ hA0, show rowsAt3 d L X I 0 = rowsIdle3 d L from rfl]
    unfold xPart3 idxFly3 gsems3 rowsIdle3 owesPart3 idxDeliv3
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first3 d L I h0 hA0 s0
      rw [slot_first_set3 L h0 hA0, chunk_first_set3 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds3 L
  have htr : k3_t1_loop.trips = 8 := tb3_trips
  obtain ⟨m, hm⟩ : ∃ m, nAct3 L = m + 1 := ⟨nAct3 L - 1, by omega⟩
  have hmlt : m < k3_t1_loop.trips := by omega
  have hAm : Act3 L ⟨m, hmlt⟩ := (act_iff_lt3 L ⟨m, hmlt⟩).mpr (by simp only; omega)
  have hidle : ∀ t : Fin k3_t1_loop.trips, (⟨m, hmlt⟩ : Fin k3_t1_loop.trips).val < t.val → ¬ Act3 L t :=
    fun t ht h => by have := (act_iff_lt3 L t).mp h; simp only at ht; omega
  unfold invL3
  rw [cnt_end3 L, idxAt3_end d L (qTile3 L) I _ (lt_irrefl _), hm, rowsAt3_succ d L X I ⟨m, hmlt⟩ hAm]
  unfold xPart3 idxIdle3 gsems3 rowsFly3 owesPart3
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv3 pl3_0 pl3_1 pl3_2 pl3_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x3 d L (qTile3 L) X))
      iapply (x_toks3 d L (qTile3 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i3 d L (qTile3 L) I)) $$ Hi
    iapply (out_final3 d L X I G ⟨m, hmlt⟩ hAm hidle)
    isplitl [Hout]; · iexact Hout
    unfold oWins3
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI3 d L S)) $$ HsI
    isplitl [Hf0_src Hf1_src Hf2_src Hf3_src]
    · iapply (sR_join3 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins3 (none_ins3 (none_ins3 (none_ins3 hW')))

end Cert.KernelIdeal.KP

end
-- ==== Proof.TileBody3aB.lean ====
/-
  Groundwork for the body of call 3's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes3B
import proofs.«210879_g80607946211848_cont_9to1_m_1212_13_alg».proof.Proof.Gen.Kernel.Skeleton

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

/-! ## The loop's conditions, in closed form -/

/-- The tile's number. -/
abbrev wid3 (L : grid3.Coords) : ℕ := 2 * (L 1).val + (L 0).val

theorem tb3_trips : k3_t1_loop.trips = 8 := by decide

theorem tb3_act_iff : ∀ (L : grid3.Coords) (t : Fin k3_t1_loop.trips), k3_cond1 L t = 1#1 ↔ wid3 L + 32 * t.val < 250 := by decide +kernel
theorem tb3_pre_iff : ∀ (L : grid3.Coords) (t : Fin k3_t1_loop.trips), k3_cond2 L t = 1#1 ↔ wid3 L + 32 * t.val + 32 < 250 := by decide +kernel

/-! ## The memrefs, as the loop slices them -/

/-- Index chunk of trip `t` (the copy's source the trip waits for). -/
abbrev iCh3 (L : grid3.Coords) (t : Fin k3_t1_loop.trips) (h : Act3 L t) : Memref sig .scVector .hbm S4x128 .i32 :=
  ((iW).slice (Rect.unit (s := S250x4x128) (k3_off3 L t) S1x4x128.size (k3_off3_inb L t h)) (fun _ => rfl)).squeeze S4x128 squeezes_S1x4x128_S4x128
/-- The slot of the index scratch trip `t` reads its indices from: slot `t % 2`. -/
abbrev sSl3 (L : grid3.Coords) (t : Fin k3_t1_loop.trips) (h : Act3 L t) : Memref sig .scVector .vmem S4x128 .i32 :=
  ((sI).slice (Rect.unit (s := S2x4x128) (k3_off2 t) S1x4x128.size (k3_off2_inb L t h)) (fun _ => rfl)).squeeze S4x128 squeezes_S1x4x128_S4x128
/-- Plane `j` of the row scratch. -/
abbrev rPl3_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl3_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl3_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl3_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD3 (d : Dev nD) (L : grid3.Coords) (n : DmaSems sig S_) : GSem nD τ sig := (thr3 d L, SemLoc.dma n.sem)

end Cert.Kernel.KP

end
-- ==== Proof.TileBody3bB.lean ====
/-
  The loop of call 3's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody3aB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The number of the tile's active trips: its chunks `w, w + 32, …` below 250. -/
abbrev nAct3 (L : grid3.Coords) : ℕ := (250 - wid3 L + 31) / 32
/-- The active trips among the first `k`. -/
abbrev cnt3 (L : grid3.Coords) (k : ℕ) : ℕ := min k (nAct3 L)

/-- The index scratch showing, in both slots, the words of trip `t`'s chunk (chunk number reduced modulo 250: the
    identity for an active trip). -/
def slotImg3 (t : ℕ) : Buf (Elt F) ((thr3 d L).loc cc3_scratch0) :=
  fun i => I (ix3 (⟨(wid3 L + 32 * t) % 250, Nat.mod_lt _ (by decide)⟩ : Fin 250) (i 1) (i 2))

/-- Contents `S` of the index scratch show, on the slot trip `t` reads, the words of the trip's chunk. -/
def SlotAgrees3 (t : Fin k3_t1_loop.trips) (h : Act3 L t) (S : Buf (Elt F) ((thr3 d L).loc cc3_scratch0)) : Prop :=
  ∀ i ∈ (sSl3 L t h).view.set, S i = slotImg3 d L I t.val i

/-- What the index fetch for trip `t` delivers: the slot at contents `S`, and the chunk's share back. -/
def idxDeliv3 (t : Fin k3_t1_loop.trips) (h : Act3 L t) (S : Buf (Elt F) ((thr3 d L).loc cc3_scratch0)) : sProp 𝕄 :=
  iprop(((sI).view.loc (thr3 d L) ↦[(sSl3 L t h).view.set]{fullShare} S)
    ∗ ((iW).view.loc (thr3 d L) ↦[(iCh3 L t h).view.set]{q} I))

/-- The index side before trip `k`: while the trip is active its chunk's fetch is in flight (the chunk and its slot
    lent); afterwards the semaphore rests at zero and block and scratch are whole. -/
def idxPart3 (k : ℕ) : sProp 𝕄 :=
  if hk : k < k3_t1_loop.trips then
    if hA : Act3 L ⟨k, hk⟩ then
      iprop(∃ S, ⌜SlotAgrees3 d L I ⟨k, hk⟩ hA S⌝
        ∗ Transfers.Flight countersEmb (thr3 d L) (SemLoc.dma cc3_scratch10.sem) (default : HIx 5) 16384 (idxDeliv3 d L q I ⟨k, hk⟩ hA S)
        ∗ ((iW).view.loc (thr3 d L) ↦[Finset.univ \ (iCh3 L ⟨k, hk⟩ hA).view.set]{q} I)
        ∗ ((sI).view.loc (thr3 d L) ↦[Finset.univ \ (sSl3 L ⟨k, hk⟩ hA).view.set]{fullShare} S))
    else iprop(semVal (cellD3 d L cc3_scratch10) 0 ∗ ((iW).view.loc (thr3 d L) ↦{q} I) ∗ ∃ s, (sI).view.loc (thr3 d L) ↦{fullShare} s)
  else iprop(semVal (cellD3 d L cc3_scratch10) 0 ∗ ((iW).view.loc (thr3 d L) ↦{q} I) ∗ ∃ s, (sI).view.loc (thr3 d L) ↦{fullShare} s)

/-- What the write-out of plane `j` of trip `t` delivers: the window at the gathered array, and the plane back. -/
def wDeliv3 (t : Fin k3_t1_loop.trips) (h : Act3 L t) (j : Fin 4) (Dsrc : sProp 𝕄) : sProp 𝕄 :=
  iprop(((oW).view.loc (thr3 d L) ↦[oSet3 L t h j]{fullShare} gath (F := F) X I) ∗ Dsrc)

/-- The four windows of trip `t` at contents `f`, each spelt through its own memref. -/
def oWins3 (t : Fin k3_t1_loop.trips) (h : Act3 L t) (f : Buf (Elt F) (oLoc3 d)) : sProp 𝕄 :=
  iprop(((oWin3_0 L t h).view.loc (thr3 d L) ↦[(oWin3_0 L t h).view.set]{fullShare} f)
    ∗ ((oWin3_1 L t h).view.loc (thr3 d L) ↦[(oWin3_1 L t h).view.set]{fullShare} f)
    ∗ ((oWin3_2 L t h).view.loc (thr3 d L) ↦[(oWin3_2 L t h).view.set]{fullShare} f)
    ∗ ((oWin3_3 L t h).view.loc (thr3 d L) ↦[(oWin3_3 L t h).view.set]{fullShare} f))

omit [FloatOps F] in
/-- An active trip's share of the result is its four windows. -/
theorem oTrip3_act (t : Fin k3_t1_loop.trips) (h : Act3 L t) (f : Buf (Elt F) (oLoc3 d)) :
    oTrip3 d L f t = oWins3 d L t h f := by
  unfold oTrip3 oWins3; rw [dif_pos h]

omit [FloatOps F] in
/-- An idle trip has none. -/
theorem oTrip3_idle (t : Fin k3_t1_loop.trips) (h : ¬ Act3 L t) (f : Buf (Elt F) (oLoc3 d)) :
    oTrip3 d L f t = (iprop(emp) : sProp 𝕄) := by
  unfold oTrip3; rw [dif_neg h]

/-- Plane `j` of the row scratch at contents `r`. -/
abbrev pl3_0 (r : Buf (Elt F) ((thr3 d L).loc cc3_scratch1)) : sProp 𝕄 := (rPl3_0).view.loc (thr3 d L) ↦[(rPl3_0).view.set]{fullShare} r
abbrev pl3_1 (r : Buf (Elt F) ((thr3 d L).loc cc3_scratch1)) : sProp 𝕄 := (rPl3_1).view.loc (thr3 d L) ↦[(rPl3_1).view.set]{fullShare} r
abbrev pl3_2 (r : Buf (Elt F) ((thr3 d L).loc cc3_scratch1)) : sProp 𝕄 := (rPl3_2).view.loc (thr3 d L) ↦[(rPl3_2).view.set]{fullShare} r
abbrev pl3_3 (r : Buf (Elt F) ((thr3 d L).loc cc3_scratch1)) : sProp 𝕄 := (rPl3_3).view.loc (thr3 d L) ↦[(rPl3_3).view.set]{fullShare} r

/-- The row scratch and the write-out semaphores after `n` active trips: none done, the planes and the semaphores
    rest; else the last trip's four write-outs are in flight. -/
def rowsPart3 (n : ℕ) : sProp 𝕄 :=
  if hn : 0 < n then
    if hk : n - 1 < k3_t1_loop.trips then
      if hA : Act3 L ⟨n - 1, hk⟩ then
        iprop(∃ r0 r1 r2 r3, Transfers.Flight countersEmb (thr3 d L) (SemLoc.dma cc3_scratch6.sem) (default : HIx 5) 524288 (wDeliv3 d L X I ⟨n - 1, hk⟩ hA 0 (pl3_0 d L r0))
          ∗ Transfers.Flight countersEmb (thr3 d L) (SemLoc.dma cc3_scratch7.sem) (default : HIx 5) 524288 (wDeliv3 d L X I ⟨n - 1, hk⟩ hA 1 (pl3_1 d L r1))
          ∗ Transfers.Flight countersEmb (thr3 d L) (SemLoc.dma cc3_scratch8.sem) (default : HIx 5) 524288 (wDeliv3 d L X I ⟨n - 1, hk⟩ hA 2 (pl3_2 d L r2))
          ∗ Transfers.Flight countersEmb (thr3 d L) (SemLoc.dma cc3_scratch9.sem) (default : HIx 5) 524288 (wDeliv3 d L X I ⟨n - 1, hk⟩ hA 3 (pl3_3 d L r3)))
      else iprop(False)
    else iprop(False)
  else
    iprop((semVal (cellD3 d L cc3_scratch6) 0 ∗ ∃ r, pl3_0 d L r) ∗ (semVal (cellD3 d L cc3_scratch7) 0 ∗ ∃ r, pl3_1 d L r)
      ∗ (semVal (cellD3 d L cc3_scratch8) 0 ∗ ∃ r, pl3_2 d L r) ∗ (semVal (cellD3 d L cc3_scratch9) 0 ∗ ∃ r, pl3_3 d L r))

/-- The result's windows after `n` active trips: the trips before the last at the gathered array, the last one's
    in flight, the later ones as found. -/
def outPart3 (n : ℕ) : sProp 𝕄 :=
  bigSep Finset.univ fun t : Fin k3_t1_loop.trips =>
    if t.val + 1 < n then oTrip3 d L (gath (F := F) X I) t else if t.val + 1 = n then iprop(emp) else oTrip3 d L G t

/-- The loop's invariant before trip `k`. -/
def inv3 (O : CellTallies nD τ sig (HIx 5)) (W : Waits sig (HIx 5)) (k : ℕ) (_ : PUnit) : sProp 𝕄 :=
  iprop(Transfers.MayWaits (thr3 d L) (none : HIx 5) O
    ∗ (((xW).view.loc (thr3 d L) ↦{Transfers.shareDrop q 4} X) ∗ ((xW).view.loc (thr3 d L) ↦{Transfers.shareTok q 4 0} X) ∗ ((xW).view.loc (thr3 d L) ↦{Transfers.shareTok q 4 1} X)
        ∗ ((xW).view.loc (thr3 d L) ↦{Transfers.shareTok q 4 2} X) ∗ ((xW).view.loc (thr3 d L) ↦{Transfers.shareTok q 4 3} X))
    ∗ idxPart3 d L q I k
    ∗ (semVal (cellD3 d L cc3_scratch2) 0 ∗ semVal (cellD3 d L cc3_scratch3) 0 ∗ semVal (cellD3 d L cc3_scratch4) 0 ∗ semVal (cellD3 d L cc3_scratch5) 0)
    ∗ rowsPart3 d L X I (cnt3 L k)
    ∗ outPart3 d L X I G (cnt3 L k)
    ∗ ∃ W', ⌜∀ p ∈ W', p ∈ W ∨ p.2 = none⌝ ∗ owes (thr3 d L) O W')

/-! ## Geometry of the index scratch: the two slots, the four index lists -/

omit [FloatOps F] in
/-- The slot a prefetch writes (slot `1 - k % 2`) and the slot the trip reads (slot `k % 2`) are disjoint. -/
theorem slots_disj3 (k : Fin k3_t1_loop.trips) (hA : Act3 L k) (h2 : k3_cond2 L k = 1#1) :
    Disjoint (((sI).slice (Rect.unit (s := S2x4x128) (k3_off4 k) S1x4x128.size (k3_off4_inb L k hA h2)) (fun _ => rfl)).squeeze S4x128 squeezes_S1x4x128_S4x128).view.set
      (sSl3 L k hA).view.set := by
  show Disjoint ((((sI).view.slice (Rect.unit (s := S2x4x128) (k3_off4 k) S1x4x128.size (k3_off4_inb L k hA h2))).reshape S4x128 squeezes_S1x4x128_S4x128.numel_eq).set)
    ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  refine Rect.unit_disjoint 0 ?_
  rw [k3_off4_eq, k3_off2_eq]
  simp
  omega
omit [FloatOps F] in
theorem list6_disj3 (k : Fin k3_t1_loop.trips) (hA : Act3 L k) (h2 : k3_cond2 L k = 1#1) :
    Disjoint (((sI).slice (Rect.unit (s := S2x4x128) (k3_off6 k) S1x1x128.size (k3_off6_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off6 k) S1x1x128.size (k3_off6_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off6_eq]
  simp
  omega

omit [FloatOps F] in
/-- Index list `0` of the trip lies in the trip's slot. -/
theorem list6_sub3 (k : Fin k3_t1_loop.trips) (hA : Act3 L k) :
    (((sI).slice (Rect.unit (s := S2x4x128) (k3_off6 k) S1x1x128.size (k3_off6_inb L k hA)) (fun _ => rfl)).squeeze S128 squeezes_S1x1x128_S128).view.set
      ⊆ (sSl3 L k hA).view.set := by
  show ((((sI).view.slice (Rect.unit (s := S2x4x128) (k3_off6 k) S1x1x128.size (k3_off6_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off6 k) S1x1x128.size (k3_off6_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list6_disj3 L k hA h2) hi) hm)]
  exact hS i (list6_sub3 L k hA hi)

/-- So the words of index list `0` name rows of the table. -/
theorem list6_inr3 (k : Fin k3_t1_loop.trips) (hA : Act3 L k) (S' : Buf (Elt F) ((thr3 d L).loc cc3_scratch0))
    (hS' : ∀ i ∈ (((sI).slice (Rect.unit (s := S2x4x128) (k3_off6 k) S1x1x128.size (k3_off6_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off6 k) S1x1x128.size (k3_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj3 (k : Fin k3_t1_loop.trips) (hA : Act3 L k) (h2 : k3_cond2 L k = 1#1) :
    Disjoint (((sI).slice (Rect.unit (s := S2x4x128) (k3_off7 k) S1x1x128.size (k3_off7_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off7 k) S1x1x128.size (k3_off7_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off7_eq]
  simp
  omega

omit [FloatOps F] in
/-- Index list `1` of the trip lies in the trip's slot. -/
theorem list7_sub3 (k : Fin k3_t1_loop.trips) (hA : Act3 L k) :
    (((sI).slice (Rect.unit (s := S2x4x128) (k3_off7 k) S1x1x128.size (k3_off7_inb L k hA)) (fun _ => rfl)).squeeze S128 squeezes_S1x1x128_S128).view.set
      ⊆ (sSl3 L k hA).view.set := by
  show ((((sI).view.slice (Rect.unit (s := S2x4x128) (k3_off7 k) S1x1x128.size (k3_off7_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off7 k) S1x1x128.size (k3_off7_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list7_disj3 L k hA h2) hi) hm)]
  exact hS i (list7_sub3 L k hA hi)

/-- So the words of index list `1` name rows of the table. -/
theorem list7_inr3 (k : Fin k3_t1_loop.trips) (hA : Act3 L k) (S' : Buf (Elt F) ((thr3 d L).loc cc3_scratch0))
    (hS' : ∀ i ∈ (((sI).slice (Rect.unit (s := S2x4x128) (k3_off7 k) S1x1x128.size (k3_off7_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off7 k) S1x1x128.size (k3_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj3 (k : Fin k3_t1_loop.trips) (hA : Act3 L k) (h2 : k3_cond2 L k = 1#1) :
    Disjoint (((sI).slice (Rect.unit (s := S2x4x128) (k3_off8 k) S1x1x128.size (k3_off8_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off8 k) S1x1x128.size (k3_off8_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off8_eq]
  simp
  omega

omit [FloatOps F] in
/-- Index list `2` of the trip lies in the trip's slot. -/
theorem list8_sub3 (k : Fin k3_t1_loop.trips) (hA : Act3 L k) :
    (((sI).slice (Rect.unit (s := S2x4x128) (k3_off8 k) S1x1x128.size (k3_off8_inb L k hA)) (fun _ => rfl)).squeeze S128 squeezes_S1x1x128_S128).view.set
      ⊆ (sSl3 L k hA).view.set := by
  show ((((sI).view.slice (Rect.unit (s := S2x4x128) (k3_off8 k) S1x1x128.size (k3_off8_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off8 k) S1x1x128.size (k3_off8_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list8_disj3 L k hA h2) hi) hm)]
  exact hS i (list8_sub3 L k hA hi)

/-- So the words of index list `2` name rows of the table. -/
theorem list8_inr3 (k : Fin k3_t1_loop.trips) (hA : Act3 L k) (S' : Buf (Elt F) ((thr3 d L).loc cc3_scratch0))
    (hS' : ∀ i ∈ (((sI).slice (Rect.unit (s := S2x4x128) (k3_off8 k) S1x1x128.size (k3_off8_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off8 k) S1x1x128.size (k3_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj3 (k : Fin k3_t1_loop.trips) (hA : Act3 L k) (h2 : k3_cond2 L k = 1#1) :
    Disjoint (((sI).slice (Rect.unit (s := S2x4x128) (k3_off9 k) S1x1x128.size (k3_off9_inb L k hA)) (fun _ => rfl)).squeeze S128 squeezes_S1x1x128_S128).view.set
      (((sI).slice (Rect.unit (s := S2x4x128) (k3_off4 k) S1x4x128.size (k3_off4_inb L k hA h2)) (fun _ => rfl)).squeeze S4x128 squeezes_S1x4x128_S4x128).view.set := by
  show Disjoint ((((sI).view.slice (Rect.unit (s := S2x4x128) (k3_off9 k) S1x1x128.size (k3_off9_inb L k hA))).reshape S128 squeezes_S1x1x128_S128.numel_eq).set)
    ((((sI).view.slice (Rect.unit (s := S2x4x128) (k3_off4 k) S1x4x128.size (k3_off4_inb L k hA h2))).reshape S4x128 squeezes_S1x4x128_S4x128.numel_eq).set)
  rw [View.set_reshape, View.set_reshape, Memref.view_whole, View.set_slice_whole, View.set_slice_whole]
  refine Rect.unit_disjoint 0 ?_
  rw [k3_off4_eq, k3_off9_eq]
  simp
  omega

omit [FloatOps F] in
/-- Index list `3` of the trip lies in the trip's slot. -/
theorem list9_sub3 (k : Fin k3_t1_loop.trips) (hA : Act3 L k) :
    (((sI).slice (Rect.unit (s := S2x4x128) (k3_off9 k) S1x1x128.size (k3_off9_inb L k hA)) (fun _ => rfl)).squeeze S128 squeezes_S1x1x128_S128).view.set
      ⊆ (sSl3 L k hA).view.set := by
  show ((((sI).view.slice (Rect.unit (s := S2x4x128) (k3_off9 k) S1x1x128.size (k3_off9_inb L k hA))).reshape S128 squeezes_S1x1x128_S128.numel_eq).set)
    ⊆ ((((sI).view.slice (Rect.unit (s := S2x4x128) (k3_off2 k) S1x4x128.size (k3_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k3_off2_eq]; rw [k3_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree3 (k : Fin k3_t1_loop.trips) (hA : Act3 L k) (h2 : k3_cond2 L k = 1#1)
    (S : Buf (Elt F) ((thr3 d L).loc cc3_scratch0)) (hS : SlotAgrees3 d L I k hA S) (w : S4x128.Idx → Elt F .i32) :
    ∀ i ∈ (((sI).slice (Rect.unit (s := S2x4x128) (k3_off9 k) S1x1x128.size (k3_off9_inb L k hA)) (fun _ => rfl)).squeeze S128 squeezes_S1x1x128_S128).view.set,
      (((sI).slice (Rect.unit (s := S2x4x128) (k3_off4 k) S1x4x128.size (k3_off4_inb L k hA h2)) (fun _ => rfl)).squeeze S4x128 squeezes_S1x4x128_S4x128).view.write (Elt F) S w Finset.univ i
        = slotImg3 d L I k.val i := by
  intro i hi
  rw [View.write_of_not_mem _ _ _ (by
    rw [View.setOn_univ]
    exact fun hm => (Finset.disjoint_left.mp (list9_disj3 L k hA h2) hi) hm)]
  exact hS i (list9_sub3 L k hA hi)

/-- So the words of index list `3` name rows of the table. -/
theorem list9_inr3 (k : Fin k3_t1_loop.trips) (hA : Act3 L k) (S' : Buf (Elt F) ((thr3 d L).loc cc3_scratch0))
    (hS' : ∀ i ∈ (((sI).slice (Rect.unit (s := S2x4x128) (k3_off9 k) S1x1x128.size (k3_off9_inb L k hA)) (fun _ => rfl)).squeeze S128 squeezes_S1x1x128_S128).view.set, S' i = slotImg3 d L I k.val i)
    (hI : ∀ i, (I i).toNat < 160000) :
    ∀ x : S128.Idx, (View.read (Elt F) (((sI).slice (Rect.unit (s := S2x4x128) (k3_off9 k) S1x1x128.size (k3_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond3 : ∀ k : Fin k3_t1_loop.trips, 1 ≤ k.val →
    Scalar.cmpi CmpIPredicate.ne (Scalar.extui (Scalar.cmpi CmpIPredicate.sge (Scf.iv 0#32 1#32 k) 1#32)) 0#32 = 1#1 := by decide

end Cert.Kernel.KP

end
-- ==== Proof.TileVal3B.lean ====
/-
  The values the task's transfers carry, call 3.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody3bB
import proofs.«210879_g80607946211848_cont_9to1_m_1212_13_alg».proof.Proof.TileVal0B

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable (d : Dev nD) (L : grid3.Coords)

/-! ## The slot and the chunk a trip prefetches are the next trip's; the first fetch's are trip 0's -/

/-- A 1 × 4 × 128 window of the index scratch, squeezed: its elements are its rectangle's. -/
theorem set_slot3 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc3_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk3 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v14_scv : Ref sig .scVector)).slice (Rect.unit (s := S250x4x128) off S1x4x128.size inb)).reshape S4x128 squeezes_S1x4x128_S4x128.numel_eq).set = _
  rw [View.set_reshape, View.set_slice_whole]

theorem slot_next_set3 (k k' : Fin k3_t1_loop.trips) (hk : k'.val = k.val + 1) (hA : Act3 L k) (hA' : Act3 L k') (h2 : k3_cond2 L k = 1#1) :
    (sSl3 L k' hA').view.set
      = (((sI).slice (Rect.unit (s := S2x4x128) (k3_off4 k) S1x4x128.size (k3_off4_inb L k hA h2)) (fun _ => rfl)).squeeze S4x128 squeezes_S1x4x128_S4x128).view.set := by
  rw [set_slot3, set_slot3]
  refine unit_set_congr ?_
  have e : (k.val + 1) % 2 = 1 - k.val % 2 := by omega
  rw [k3_off2_eq, k3_off4_eq, hk, e]

theorem chunk_next_set3 (k k' : Fin k3_t1_loop.trips) (hk : k'.val = k.val + 1) (hA : Act3 L k) (hA' : Act3 L k') (h2 : k3_cond2 L k = 1#1) :
    (iCh3 L k' hA').view.set
      = (((iW).slice (Rect.unit (s := S250x4x128) (k3_off5 L k) S1x4x128.size (k3_off5_inb L k hA h2)) (fun _ => rfl)).squeeze S4x128 squeezes_S1x4x128_S4x128).view.set := by
  rw [set_chunk3, set_chunk3]
  refine unit_set_congr ?_
  have e : 2 * (L 1).val + (L 0).val + 32 * (k.val + 1) = 2 * (L 1).val + (L 0).val + 32 * k.val + 32 := by omega
  rw [k3_off3_eq, k3_off5_eq, hk, e]

theorem slot_first_set3 (h0 : 0 < k3_t1_loop.trips) (hA0 : Act3 L ⟨0, h0⟩) :
    (sSl3 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot3, set_slot3]
  refine unit_set_congr ?_
  rw [k3_off2_eq]
  rfl

theorem chunk_first_set3 (h0 : 0 < k3_t1_loop.trips) (hA0 : Act3 L ⟨0, h0⟩) :
    (iCh3 L ⟨0, h0⟩ hA0).view.set
      = (((iW).slice (Rect.unit (s := S250x4x128) (k3_off1 L) S1x4x128.size (k3_off1_inb L)) (fun _ => rfl)).squeeze S4x128 squeezes_S1x4x128_S4x128).view.set := by
  rw [set_chunk3, set_chunk3]
  refine unit_set_congr ?_
  rw [k3_off3_eq, k3_off1_eq]
  rfl

/-! ## What an index fetch lands: the chunk's words, in the slot -/

/-- Where element `y` of a squeezed 1 × 4 × 128 window of the index scratch at offsets `off` lies. -/
theorem emb_slot3 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk3 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc3 d))

/-- A fetch of chunk `n` (below 250) into slot `p` leaves, on that slot, the words the slot image of a trip whose chunk
    is `n` shows. -/
theorem fetch_agrees3 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid3 L + 32 * t) % 250 = n)
    (S : Buf (Elt F) ((thr3 d L).loc cc3_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg3 d L I t i := by
  intro i hi
  obtain ⟨y, -, rfl⟩ := Finset.mem_map.mp hi
  rw [View.write_emb_of_mem _ _ (Finset.mem_univ y)]
  unfold slotImg3
  show I ((((iW).slice (Rect.unit (s := S250x4x128) offC S1x4x128.size inbC) (fun _ => rfl)).squeeze S4x128 squeezes_S1x4x128_S4x128).view.emb y) = I _
  congr 1
  funext a
  apply Fin.ext
  have c0 := emb_chunk3 offC inbC y 0
  have c1 := emb_chunk3 offC inbC y 1
  have c2 := emb_chunk3 offC inbC y 2
  have s1 := emb_slot3 offS inbS y 1
  have s2 := emb_slot3 offS inbS y 2
  subst hS hC
  match a with
  | 0 => exact c0.trans (show n + 0 = (wid3 L + 32 * t) % 250 from by omega)
  | 1 => exact c1.trans s1.symm
  | 2 => exact c2.trans s2.symm

/-- The prefetched slot shows the NEXT trip's chunk. -/
theorem slot_agree_next3 (k k' : Fin k3_t1_loop.trips) (hk : k'.val = k.val + 1) (hA : Act3 L k) (hA' : Act3 L k') (h2 : k3_cond2 L k = 1#1)
    (S : Buf (Elt F) ((thr3 d L).loc cc3_scratch0)) :
    SlotAgrees3 d L I k' hA' (View.write (Elt F) (((sI).slice (Rect.unit (s := S2x4x128) (k3_off4 k) S1x4x128.size (k3_off4_inb L k hA h2)) (fun _ => rfl)).squeeze S4x128 squeezes_S1x4x128_S4x128).view S
      (ReadAs.same.apply (View.read (Elt F) (((iW).slice (Rect.unit (s := S250x4x128) (k3_off5 L k) S1x4x128.size (k3_off5_inb L k hA h2)) (fun _ => rfl)).squeeze S4x128 squeezes_S1x4x128_S4x128).view I)) Finset.univ) := by
  intro i hi
  rw [slot_next_set3 L k k' hk hA hA' h2] at hi
  have hlt : wid3 L + 32 * k'.val < 250 := (tb3_act_iff L k').mp hA'
  exact fetch_agrees3 d L I (k3_off4 k) (k3_off4_inb L k hA h2) (k3_off5 L k) (k3_off5_inb L k hA h2) (1 - k.val % 2) (wid3 L + 32 * k.val + 32) k'.val (k3_off4_eq k) (k3_off5_eq L k)
    (by rw [hk] at hlt ⊢; omega) S i hi

/-- The first fetch's slot shows trip 0's chunk. -/
theorem slot_agree_first3 (h0 : 0 < k3_t1_loop.trips) (hA0 : Act3 L ⟨0, h0⟩) (S : Buf (Elt F) ((thr3 d L).loc cc3_scratch0)) :
    SlotAgrees3 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k3_off1 L) S1x4x128.size (k3_off1_inb L)) (fun _ => rfl)).squeeze S4x128 squeezes_S1x4x128_S4x128).view I)) Finset.univ) := by
  intro i hi
  rw [slot_first_set3 L h0 hA0] at hi
  have hlt : wid3 L + 32 * (⟨0, h0⟩ : Fin k3_t1_loop.trips).val < 250 := (tb3_act_iff L ⟨0, h0⟩).mp hA0
  exact fetch_agrees3 d L I ![0, 0, 0] inb_S2x4x128_S1x4x128_0_0_0 (k3_off1 L) (k3_off1_inb L) 0 (wid3 L) 0 rfl (k3_off1_eq L) (by simp only [] at hlt; omega) S i hi

/-! ## What a write-out carries: the gathered array on its window -/

/-- Where element `y` of a squeezed 1 × 128 × 128 window of the result at offsets `off` lies. -/
theorem emb_win3 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list3 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen3 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid3 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc3 d)) (S' : Buf (Elt F) ((thr3 d L).loc cc3_scratch0))
    (hS' : ∀ i ∈ (((sI).slice (Rect.unit (s := S2x4x128) offL S1x1x128.size inbL) (fun _ => rfl)).squeeze S128 squeezes_S1x1x128_S128).view.set, S' i = slotImg3 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win3 offW inbW y 0
  have w1 := emb_win3 offW inbW y 1
  have w2 := emb_win3 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg3
    congr 2
    have l1 := emb_list3 ![p, j.val, 0] inbL (S128.rowMajor.symm (Fin.cast hnum.symm (y gathers_S160000x128_S128x128.axis'))) 1
    have l2 := emb_list3 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val3_0 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off6 k) S1x1x128.size (k3_off6_inb L k hA)) (fun _ => rfl)).squeeze S128 squeezes_S1x1x128_S128).view.set, S' i = slotImg3 d L I k.val i)
    (hin : ∀ x : S128.Idx, (View.read (Elt F) (((sI).slice (Rect.unit (s := S2x4x128) (k3_off6 k) S1x1x128.size (k3_off6_inb L k hA)) (fun _ => rfl)).squeeze S128 squeezes_S1x1x128_S128).view S' x).toNat < 160000)
    (hI : ∀ i, (I i).toNat < 160000) :
    ∀ i ∈ (oWin3_0 L k hA).view.set,
      (oWin3_0 L k hA).view.writes (Elt F) G [⟨Rect.whole S128x128, ReadAs.same.apply (View.read (Elt F) (rPl3_0).view ((rPl3_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off6 k) S1x1x128.size (k3_off6_inb L k hA)) (fun _ => rfl)).squeeze S128 squeezes_S1x1x128_S128).view S') (by decide) hin)⟩]))⟩] i
        = gath (F := F) X I i :=
  win_val_gen3 d L I X (k3_off10 L k) (k3_off10_inb L k hA) (k3_off6 k) (k3_off6_inb L k hA) 0 (k.val % 2) (wid3 L + 32 * k.val)
    (256 * (L 1).val + 128 * (L 0).val + 4096 * k.val) k.val (k3_off10_eq L k)
    (show 256 * (L 1).val + 128 * (L 0).val + 4096 * k.val = 128 * (2 * (L 1).val + (L 0).val + 32 * k.val) by omega)
    (k3_off6_eq k) (Nat.mod_eq_of_lt ((tb3_act_iff L k).mp hA)) (rPl3_0).view r (by decide) G S' hS' hin hI

/-- Plane 1 of a trip: its window of the result, written with the plane of the row scratch after the gather of the rows
    its index list names, holds the gathered array. -/
theorem win_val3_1 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off7 k) S1x1x128.size (k3_off7_inb L k hA)) (fun _ => rfl)).squeeze S128 squeezes_S1x1x128_S128).view.set, S' i = slotImg3 d L I k.val i)
    (hin : ∀ x : S128.Idx, (View.read (Elt F) (((sI).slice (Rect.unit (s := S2x4x128) (k3_off7 k) S1x1x128.size (k3_off7_inb L k hA)) (fun _ => rfl)).squeeze S128 squeezes_S1x1x128_S128).view S' x).toNat < 160000)
    (hI : ∀ i, (I i).toNat < 160000) :
    ∀ i ∈ (oWin3_1 L k hA).view.set,
      (oWin3_1 L k hA).view.writes (Elt F) G [⟨Rect.whole S128x128, ReadAs.same.apply (View.read (Elt F) (rPl3_1).view ((rPl3_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off7 k) S1x1x128.size (k3_off7_inb L k hA)) (fun _ => rfl)).squeeze S128 squeezes_S1x1x128_S128).view S') (by decide) hin)⟩]))⟩] i
        = gath (F := F) X I i :=
  win_val_gen3 d L I X (k3_off11 L k) (k3_off11_inb L k hA) (k3_off7 k) (k3_off7_inb L k hA) 1 (k.val % 2) (wid3 L + 32 * k.val)
    (256 * (L 1).val + 128 * (L 0).val + 4096 * k.val) k.val (k3_off11_eq L k)
    (show 256 * (L 1).val + 128 * (L 0).val + 4096 * k.val = 128 * (2 * (L 1).val + (L 0).val + 32 * k.val) by omega)
    (k3_off7_eq k) (Nat.mod_eq_of_lt ((tb3_act_iff L k).mp hA)) (rPl3_1).view r (by decide) G S' hS' hin hI

/-- Plane 2 of a trip: its window of the result, written with the plane of the row scratch after the gather of the rows
    its index list names, holds the gathered array. -/
theorem win_val3_2 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off8 k) S1x1x128.size (k3_off8_inb L k hA)) (fun _ => rfl)).squeeze S128 squeezes_S1x1x128_S128).view.set, S' i = slotImg3 d L I k.val i)
    (hin : ∀ x : S128.Idx, (View.read (Elt F) (((sI).slice (Rect.unit (s := S2x4x128) (k3_off8 k) S1x1x128.size (k3_off8_inb L k hA)) (fun _ => rfl)).squeeze S128 squeezes_S1x1x128_S128).view S' x).toNat < 160000)
    (hI : ∀ i, (I i).toNat < 160000) :
    ∀ i ∈ (oWin3_2 L k hA).view.set,
      (oWin3_2 L k hA).view.writes (Elt F) G [⟨Rect.whole S128x128, ReadAs.same.apply (View.read (Elt F) (rPl3_2).view ((rPl3_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off8 k) S1x1x128.size (k3_off8_inb L k hA)) (fun _ => rfl)).squeeze S128 squeezes_S1x1x128_S128).view S') (by decide) hin)⟩]))⟩] i
        = gath (F := F) X I i :=
  win_val_gen3 d L I X (k3_off12 L k) (k3_off12_inb L k hA) (k3_off8 k) (k3_off8_inb L k hA) 2 (k.val % 2) (wid3 L + 32 * k.val)
    (256 * (L 1).val + 128 * (L 0).val + 4096 * k.val) k.val (k3_off12_eq L k)
    (show 256 * (L 1).val + 128 * (L 0).val + 4096 * k.val = 128 * (2 * (L 1).val + (L 0).val + 32 * k.val) by omega)
    (k3_off8_eq k) (Nat.mod_eq_of_lt ((tb3_act_iff L k).mp hA)) (rPl3_2).view r (by decide) G S' hS' hin hI

/-- Plane 3 of a trip: its window of the result, written with the plane of the row scratch after the gather of the rows
    its index list names, holds the gathered array. -/
theorem win_val3_3 (k : Fin k3_t1_loop.trips) (hA : Act3 L k) (G : Buf (Elt F) (oLoc3 d)) (r : Buf (Elt F) ((thr3 d L).loc cc3_scratch1)) (S' : Buf (Elt F) ((thr3 d L).loc cc3_scratch0))
    (hS' : ∀ i ∈ (((sI).slice (Rect.unit (s := S2x4x128) (k3_off9 k) S1x1x128.size (k3_off9_inb L k hA)) (fun _ => rfl)).squeeze S128 squeezes_S1x1x128_S128).view.set, S' i = slotImg3 d L I k.val i)
    (hin : ∀ x : S128.Idx, (View.read (Elt F) (((sI).slice (Rect.unit (s := S2x4x128) (k3_off9 k) S1x1x128.size (k3_off9_inb L k hA)) (fun _ => rfl)).squeeze S128 squeezes_S1x1x128_S128).view S' x).toNat < 160000)
    (hI : ∀ i, (I i).toNat < 160000) :
    ∀ i ∈ (oWin3_3 L k hA).view.set,
      (oWin3_3 L k hA).view.writes (Elt F) G [⟨Rect.whole S128x128, ReadAs.same.apply (View.read (Elt F) (rPl3_3).view ((rPl3_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k3_off9 k) S1x1x128.size (k3_off9_inb L k hA)) (fun _ => rfl)).squeeze S128 squeezes_S1x1x128_S128).view S') (by decide) hin)⟩]))⟩] i
        = gath (F := F) X I i :=
  win_val_gen3 d L I X (k3_off13 L k) (k3_off13_inb L k hA) (k3_off9 k) (k3_off9_inb L k hA) 3 (k.val % 2) (wid3 L + 32 * k.val)
    (256 * (L 1).val + 128 * (L 0).val + 4096 * k.val) k.val (k3_off13_eq L k)
    (show 256 * (L 1).val + 128 * (L 0).val + 4096 * k.val = 128 * (2 * (L 1).val + (L 0).val + 32 * k.val) by omega)
    (k3_off9_eq k) (Nat.mod_eq_of_lt ((tb3_act_iff L k).mp hA)) (rPl3_3).view r (by decide) G S' hS' hin hI

end Cert.Kernel.KP

end
-- ==== Proof.TileTrip3B.lean ====
/-
  One trip of the loop of call 3's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal3B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The table's share as the remainder and one read token per gather semaphore. -/
def xPart3 : sProp 𝕄 :=
  iprop(((xW).view.loc (thr3 d L) ↦{Transfers.shareDrop q 4} X) ∗ ((xW).view.loc (thr3 d L) ↦{Transfers.shareTok q 4 0} X) ∗ ((xW).view.loc (thr3 d L) ↦{Transfers.shareTok q 4 1} X)
    ∗ ((xW).view.loc (thr3 d L) ↦{Transfers.shareTok q 4 2} X) ∗ ((xW).view.loc (thr3 d L) ↦{Transfers.shareTok q 4 3} X))
/-- The gather semaphores at rest. -/
def gsems3 : sProp 𝕄 :=
  iprop(semVal (cellD3 d L cc3_scratch2) 0 ∗ semVal (cellD3 d L cc3_scratch3) 0 ∗ semVal (cellD3 d L cc3_scratch4) 0 ∗ semVal (cellD3 d L cc3_scratch5) 0)
/-- The index fetch of an active trip `t` in flight. -/
def idxFly3 (t : Fin k3_t1_loop.trips) (h : Act3 L t) : sProp 𝕄 :=
  iprop(∃ S, ⌜SlotAgrees3 d L I t h S⌝
    ∗ Transfers.Flight countersEmb (thr3 d L) (SemLoc.dma cc3_scratch10.sem) (default : HIx 5) 16384 (idxDeliv3 d L q I t h S)
    ∗ ((iW).view.loc (thr3 d L) ↦[Finset.univ \ (iCh3 L t h).view.set]{q} I)
    ∗ ((sI).view.loc (thr3 d L) ↦[Finset.univ \ (sSl3 L t h).view.set]{fullShare} S))
/-- The four write-outs of an active trip `t` in flight. -/
def rowsFly3 (t : Fin k3_t1_loop.trips) (h : Act3 L t) : sProp 𝕄 :=
  iprop(∃ r0 r1 r2 r3, Transfers.Flight countersEmb (thr3 d L) (SemLoc.dma cc3_scratch6.sem) (default : HIx 5) 524288 (wDeliv3 d L X I t h 0 (pl3_0 d L r0))
    ∗ Transfers.Flight countersEmb (thr3 d L) (SemLoc.dma cc3_scratch7.sem) (default : HIx 5) 524288 (wDeliv3 d L X I t h 1 (pl3_1 d L r1))
    ∗ Transfers.Flight countersEmb (thr3 d L) (SemLoc.dma cc3_scratch8.sem) (default : HIx 5) 524288 (wDeliv3 d L X I t h 2 (pl3_2 d L r2))
    ∗ Transfers.Flight countersEmb (thr3 d L) (SemLoc.dma cc3_scratch9.sem) (default : HIx 5) 524288 (wDeliv3 d L X I t h 3 (pl3_3 d L r3)))
omit [FloatOps F] in
/-- One more wait recorded at index `none` keeps the recorded waits within `W` and index `none`. -/
theorem none_ins3 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart3 (O : CellTallies nD τ sig (HIx 5)) (W : Waits sig (HIx 5)) : sProp 𝕄 :=
  iprop(∃ W', ⌜∀ p ∈ W', p ∈ W ∨ p.2 = none⌝ ∗ owes (thr3 d L) O W')

/-- The index side at rest: the semaphore at zero, block and scratch whole. -/
def idxIdle3 : sProp 𝕄 :=
  iprop(semVal (cellD3 d L cc3_scratch10) 0 ∗ ((iW).view.loc (thr3 d L) ↦{q} I) ∗ ∃ S, (sI).view.loc (thr3 d L) ↦{fullShare} S)
/-- The row scratch and the write-out semaphores at rest. -/
def rowsIdle3 : sProp 𝕄 :=
  iprop((semVal (cellD3 d L cc3_scratch6) 0 ∗ ∃ r, pl3_0 d L r) ∗ (semVal (cellD3 d L cc3_scratch7) 0 ∗ ∃ r, pl3_1 d L r)
    ∗ (semVal (cellD3 d L cc3_scratch8) 0 ∗ ∃ r, pl3_2 d L r) ∗ (semVal (cellD3 d L cc3_scratch9) 0 ∗ ∃ r, pl3_3 d L r))

/-- On the first trip the loop's test `i ≥ 1` fails (in the words the body computes it with). -/
theorem lt1_cond3 : ∀ k : Fin k3_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA3 (O : CellTallies nD τ sig (HIx 5)) (W : Waits sig (HIx 5))
    (k tp k' : Fin k3_t1_loop.trips) (hp : tp.val + 1 = k.val) (hk' : k'.val = k.val + 1) (hA : Act3 L k) (hAp : Act3 L tp) (hA' : Act3 L k')
    (h2 : k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsFly3 d L X I tp hAp ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxFly3 d L q I k' hA' ∗ gsems3 d L ∗ rowsFly3 d L X I k hA
            ∗ oWins3 d L tp hAp (gath (F := F) X I) ∗ owesPart3 d L O W ∗ R) := by
  unfold xPart3 idxFly3 gsems3 rowsFly3 oWins3 owesPart3
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have hdisj := slots_disj3 L k hA h2
  have hd6 := list6_disj3 L k hA h2
  have hd7 := list7_disj3 L k hA h2
  have hd8 := list8_disj3 L k hA h2
  have hd9 := list9_disj3 L k hA h2
  have hk1 : 1 ≤ k.val := by omega
  have k3_h3 := ge1_cond3 k hk1
  sl_unfold [k3_t1_body]
  sl_exec
  have hin6 := list6_inr3 d L I k hA (tripA3.sl.HsI_w0 d L I k hA h2 S) (list6_agree3 d L I k hA h2 S hS _) hI
  have hin7 := list7_inr3 d L I k hA (tripA3.sl.HsI_w0 d L I k hA h2 S) (list7_agree3 d L I k hA h2 S hS _) hI
  have hin8 := list8_inr3 d L I k hA (tripA3.sl.HsI_w0 d L I k hA h2 S) (list8_agree3 d L I k hA h2 S hS _) hI
  have hin9 := list9_inr3 d L I k hA (tripA3.sl.HsI_w0 d L I k hA h2 S) (list9_agree3 d L I k hA h2 S hS _) hI
  sl_exec
  have hw0 : (((oWin3_0 L k hA).view.loc (thr3 d L) ↦[(oWin3_0 L k hA).view.set]{fullShare}
      ((oWin3_0 L k hA).view.writes (Elt F) G [⟨Rect.whole S128x128, tripA3.sl.dma0_1 d L X I k hA h2 S r0 hin6⟩])) : sProp 𝕄)
      = ((oW).view.loc (thr3 d L) ↦[oSet3 L k hA 0]{fullShare} gath (F := F) X I) :=
    pointsTo_congr (win_val3_0 d L I X k hA G r0 _ (list6_agree3 d L I k hA h2 S hS _) hin6 hI)
  have hw1 : (((oWin3_1 L k hA).view.loc (thr3 d L) ↦[(oWin3_1 L k hA).view.set]{fullShare}
      ((oWin3_1 L k hA).view.writes (Elt F) G [⟨Rect.whole S128x128, tripA3.sl.dma0_2 d L X I k hA h2 S r1 hin7⟩])) : sProp 𝕄)
      = ((oW).view.loc (thr3 d L) ↦[oSet3 L k hA 1]{fullShare} gath (F := F) X I) :=
    pointsTo_congr (win_val3_1 d L I X k hA G r1 _ (list7_agree3 d L I k hA h2 S hS _) hin7 hI)
  have hw2 : (((oWin3_2 L k hA).view.loc (thr3 d L) ↦[(oWin3_2 L k hA).view.set]{fullShare}
      ((oWin3_2 L k hA).view.writes (Elt F) G [⟨Rect.whole S128x128, tripA3.sl.dma0_3 d L X I k hA h2 S r2 hin8⟩])) : sProp 𝕄)
      = ((oW).view.loc (thr3 d L) ↦[oSet3 L k hA 2]{fullShare} gath (F := F) X I) :=
    pointsTo_congr (win_val3_2 d L I X k hA G r2 _ (list8_agree3 d L I k hA h2 S hS _) hin8 hI)
  have hw3 : (((oWin3_3 L k hA).view.loc (thr3 d L) ↦[(oWin3_3 L k hA).view.set]{fullShare}
      ((oWin3_3 L k hA).view.writes (Elt F) G [⟨Rect.whole S128x128, tripA3.sl.dma0_4 d L X I k hA h2 S r3 hin9⟩])) : sProp 𝕄)
      = ((oW).view.loc (thr3 d L) ↦[oSet3 L k hA 3]{fullShare} gath (F := F) X I) :=
    pointsTo_congr (win_val3_3 d L I X k hA G r3 _ (list9_agree3 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA3.sl.HsI_w0 d L I k hA h2 S)
    isplitr
    · ipureintro; exact slot_agree_next3 d L I k k' hk' hA hA' h2 S
    rw [slot_next_set3 L k k' hk' hA hA' h2, chunk_next_set3 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr3 d L) (sep_mono_left (Entails.of_eq hw0))) $$ Hf0
    isplitl [Hf1]
    · iapply (Transfers.Flight_mono countersEmb (thr3 d L) (sep_mono_left (Entails.of_eq hw1))) $$ Hf1
    isplitl [Hf2]
    · iapply (Transfers.Flight_mono countersEmb (thr3 d L) (sep_mono_left (Entails.of_eq hw2))) $$ Hf2
    · iapply (Transfers.Flight_mono countersEmb (thr3 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins3 (none_ins3 (none_ins3 (none_ins3 (none_ins3 (none_ins3 (none_ins3 (none_ins3 (none_ins3 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB3 (O : CellTallies nD τ sig (HIx 5)) (W : Waits sig (HIx 5))
    (k tp : Fin k3_t1_loop.trips) (hp : tp.val + 1 = k.val) (hA : Act3 L k) (hAp : Act3 L tp)
    (hn2 : ¬ k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsFly3 d L X I tp hAp ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxIdle3 d L q I ∗ gsems3 d L ∗ rowsFly3 d L X I k hA
            ∗ oWins3 d L tp hAp (gath (F := F) X I) ∗ owesPart3 d L O W ∗ R) := by
  unfold xPart3 idxFly3 idxIdle3 gsems3 rowsFly3 oWins3 owesPart3
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have k3_h2 : ¬ k3_cond2 L k = 1#1 := hn2
  have hk1 : 1 ≤ k.val := by omega
  have k3_h3 := ge1_cond3 k hk1
  have hin6 := list6_inr3 d L I k hA S (fun i hi => hS i (list6_sub3 L k hA hi)) hI
  have hin7 := list7_inr3 d L I k hA S (fun i hi => hS i (list7_sub3 L k hA hi)) hI
  have hin8 := list8_inr3 d L I k hA S (fun i hi => hS i (list8_sub3 L k hA hi)) hI
  have hin9 := list9_inr3 d L I k hA S (fun i hi => hS i (list9_sub3 L k hA hi)) hI
  sl_unfold [k3_t1_body]
  sl_exec
  have hw0 : (((oWin3_0 L k hA).view.loc (thr3 d L) ↦[(oWin3_0 L k hA).view.set]{fullShare}
      ((oWin3_0 L k hA).view.writes (Elt F) G [⟨Rect.whole S128x128, tripB3.sl.dma0 d L X k hA S r0 hin6⟩])) : sProp 𝕄)
      = ((oW).view.loc (thr3 d L) ↦[oSet3 L k hA 0]{fullShare} gath (F := F) X I) :=
    pointsTo_congr (win_val3_0 d L I X k hA G r0 S (fun i hi => hS i (list6_sub3 L k hA hi)) hin6 hI)
  have hw1 : (((oWin3_1 L k hA).view.loc (thr3 d L) ↦[(oWin3_1 L k hA).view.set]{fullShare}
      ((oWin3_1 L k hA).view.writes (Elt F) G [⟨Rect.whole S128x128, tripB3.sl.dma0_1 d L X k hA S r1 hin7⟩])) : sProp 𝕄)
      = ((oW).view.loc (thr3 d L) ↦[oSet3 L k hA 1]{fullShare} gath (F := F) X I) :=
    pointsTo_congr (win_val3_1 d L I X k hA G r1 S (fun i hi => hS i (list7_sub3 L k hA hi)) hin7 hI)
  have hw2 : (((oWin3_2 L k hA).view.loc (thr3 d L) ↦[(oWin3_2 L k hA).view.set]{fullShare}
      ((oWin3_2 L k hA).view.writes (Elt F) G [⟨Rect.whole S128x128, tripB3.sl.dma0_2 d L X k hA S r2 hin8⟩])) : sProp 𝕄)
      = ((oW).view.loc (thr3 d L) ↦[oSet3 L k hA 2]{fullShare} gath (F := F) X I) :=
    pointsTo_congr (win_val3_2 d L I X k hA G r2 S (fun i hi => hS i (list8_sub3 L k hA hi)) hin8 hI)
  have hw3 : (((oWin3_3 L k hA).view.loc (thr3 d L) ↦[(oWin3_3 L k hA).view.set]{fullShare}
      ((oWin3_3 L k hA).view.writes (Elt F) G [⟨Rect.whole S128x128, tripB3.sl.dma0_3 d L X k hA S r3 hin9⟩])) : sProp 𝕄)
      = ((oW).view.loc (thr3 d L) ↦[oSet3 L k hA 3]{fullShare} gath (F := F) X I) :=
    pointsTo_congr (win_val3_3 d L I X k hA G r3 S (fun i hi => hS i (list9_sub3 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr3 d L) (sep_mono_left (Entails.of_eq hw0))) $$ Hf0
    isplitl [Hf1]
    · iapply (Transfers.Flight_mono countersEmb (thr3 d L) (sep_mono_left (Entails.of_eq hw1))) $$ Hf1
    isplitl [Hf2]
    · iapply (Transfers.Flight_mono countersEmb (thr3 d L) (sep_mono_left (Entails.of_eq hw2))) $$ Hf2
    · iapply (Transfers.Flight_mono countersEmb (thr3 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins3 (none_ins3 (none_ins3 (none_ins3 (none_ins3 (none_ins3 (none_ins3 (none_ins3 (none_ins3 (hW')))))))))

set_option maxHeartbeats 1000000 in
set_option sl_exec.dmaWindow true in
/-- The first trip: from its index fetch in flight and the row scratch at rest to the index fetch of trip 1 and its own
    four write-outs in flight. -/
theorem tripC3 (O : CellTallies nD τ sig (HIx 5)) (W : Waits sig (HIx 5))
    (k k' : Fin k3_t1_loop.trips) (hk0 : k.val = 0) (hk' : k'.val = k.val + 1) (hA : Act3 L k) (hA' : Act3 L k')
    (h2 : k3_cond2 L k = 1#1) (hI : ∀ i, (I i).toNat < 160000) (R : sProp 𝕄) :
    iprop((Transfers.MayWaits (thr3 d L) (none : HIx 5) O : sProp 𝕄) ∗ xPart3 d L q X ∗ idxFly3 d L q I k hA ∗ gsems3 d L
        ∗ rowsIdle3 d L ∗ oWins3 d L k hA G ∗ owesPart3 d L O W ∗ R)
      ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => iprop(xPart3 d L q X ∗ idxFly3 d L q I k' hA' ∗ gsems3 d L ∗ rowsFly3 d L X I k hA ∗ owesPart3 d L O W ∗ R) := by
  unfold xPart3 idxFly3 gsems3 rowsIdle3 rowsFly3 oWins3 owesPart3
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv3 wDeliv3 pl3_0 pl3_1 pl3_2 pl3_3
  have k3_h1 : k3_cond1 L k = 1#1 := hA
  have k3_h3 := lt1_cond3 k hk0
  have hdisj := slots_disj3 L k hA h2
  have hd6 := list6_disj3 L k hA h2
  have hd7 := list7_disj3 L k hA h2
  have hd8 := list8_disj3 L k hA h2
  have hd9 := list9_disj3 L k hA h2
  sl_unfold [k3_t1_body]
  sl_exec
  have hin6 := list6_inr3 d L I k hA (tripC3.sl.HsI_w0 d L I k hA h2 S) (list6_agree3 d L I k hA h2 S hS _) hI
  have hin7 := list7_inr3 d L I k hA (tripC3.sl.HsI_w0 d L I k hA h2 S) (list7_agree3 d L I k hA h2 S hS _) hI
  have hin8 := list8_inr3 d L I k hA (tripC3.sl.HsI_w0 d L I k hA h2 S) (list8_agree3 d L I k hA h2 S hS _) hI
  have hin9 := list9_inr3 d L I k hA (tripC3.sl.HsI_w0 d L I k hA h2 S) (list9_agree3 d L I k hA h2 S hS _) hI
  sl_exec
  have hw0 : (((oWin3_0 L k hA).view.loc (thr3 d L) ↦[(oWin3_0 L k hA).view.set]{fullShare}
      ((oWin3_0 L k hA).view.writes (Elt F) G [⟨Rect.whole S128x128, tripC3.sl.dma0_1 d L X I k hA h2 S r0 hin6⟩])) : sProp 𝕄)
      = ((oW).view.loc (thr3 d L) ↦[oSet3 L k hA 0]{fullShare} gath (F := F) X I) :=
    pointsTo_congr (win_val3_0 d L I X k hA G r0 _ (list6_agree3 d L I k hA h2 S hS _) hin6 hI)
  have hw1 : (((oWin3_1 L k hA).view.loc (thr3 d L) ↦[(oWin3_1 L k hA).view.set]{fullShare}
      ((oWin3_1 L k hA).view.writes (Elt F) G [⟨Rect.whole S128x128, tripC3.sl.dma0_2 d L X I k hA h2 S r1 hin7⟩])) : sProp 𝕄)
      = ((oW).view.loc (thr3 d L) ↦[oSet3 L k hA 1]{fullShare} gath (F := F) X I) :=
    pointsTo_congr (win_val3_1 d L I X k hA G r1 _ (list7_agree3 d L I k hA h2 S hS _) hin7 hI)
  have hw2 : (((oWin3_2 L k hA).view.loc (thr3 d L) ↦[(oWin3_2 L k hA).view.set]{fullShare}
      ((oWin3_2 L k hA).view.writes (Elt F) G [⟨Rect.whole S128x128, tripC3.sl.dma0_3 d L X I k hA h2 S r2 hin8⟩])) : sProp 𝕄)
      = ((oW).view.loc (thr3 d L) ↦[oSet3 L k hA 2]{fullShare} gath (F := F) X I) :=
    pointsTo_congr (win_val3_2 d L I X k hA G r2 _ (list8_agree3 d L I k hA h2 S hS _) hin8 hI)
  have hw3 : (((oWin3_3 L k hA).view.loc (thr3 d L) ↦[(oWin3_3 L k hA).view.set]{fullShare}
      ((oWin3_3 L k hA).view.writes (Elt F) G [⟨Rect.whole S128x128, tripC3.sl.dma0_4 d L X I k hA h2 S r3 hin9⟩])) : sProp 𝕄)
      = ((oW).view.loc (thr3 d L) ↦[oSet3 L k hA 3]{fullShare} gath (F := F) X I) :=
    pointsTo_congr (win_val3_3 d L I X k hA G r3 _ (list9_agree3 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC3.sl.HsI_w0 d L I k hA h2 S)
    isplitr
    · ipureintro; exact slot_agree_next3 d L I k k' hk' hA hA' h2 S
    rw [slot_next_set3 L k k' hk' hA hA' h2, chunk_next_set3 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr3 d L) (sep_mono_left (Entails.of_eq hw0))) $$ Hw0
    isplitl [Hw1]
    · iapply (Transfers.Flight_mono countersEmb (thr3 d L) (sep_mono_left (Entails.of_eq hw1))) $$ Hw1
    isplitl [Hw2]
    · iapply (Transfers.Flight_mono countersEmb (thr3 d L) (sep_mono_left (Entails.of_eq hw2))) $$ Hw2
    · iapply (Transfers.Flight_mono countersEmb (thr3 d L) (sep_mono_left (Entails.of_eq hw3))) $$ Hw3
  isplitr [HR]
  rotate_left
  · iexact HR
  iexists _
  isplitr
  rotate_left
  · iexact HO
  · ipureintro
    exact none_ins3 (none_ins3 (none_ins3 (none_ins3 (none_ins3 (hW')))))

/-- An idle trip (its chunk number is 250 or more) does nothing. -/
theorem tripI3 (k : Fin k3_t1_loop.trips) (hnA : ¬ Act3 L k) (R : sProp 𝕄) :
    R ⊢ wp frame (wpE (defs₀ (F := F)) 𝒱₀ (thr3 d L) none) Set.univ
          (k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k ())
          fun _ => R := by
  iintro HR
  have k3_h1 : ¬ k3_cond1 L k = 1#1 := hnA
  sl_unfold [k3_t1_body]
  sl_exec
  sl_step
  iexact HR

end Cert.Kernel.KP

end
-- ==== Proof.TileOut3B.lean ====
/-
  The result's windows through the loop of call 3's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody3bB

noncomputable section

namespace Cert.Kernel.KP

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable (d : Dev nD) (L : grid3.Coords)

/-! ## Which trips are active -/

theorem wid_lt3 : wid3 L < 32 := by
  have h0 : (L 0).val < 2 := (L 0).isLt
  have h1 : (L 1).val < 16 := (L 1).isLt
  show 2 * (L 1).val + (L 0).val < 32
  omega

theorem act_iff_lt3 (t : Fin k3_t1_loop.trips) : Act3 L t ↔ t.val < nAct3 L := by
  have hw := wid_lt3 L
  refine (tb3_act_iff L t).trans ?_
  show wid3 L + 32 * t.val < 250 ↔ t.val < (250 - wid3 L + 31) / 32
  omega

theorem nAct_bounds3 : 7 ≤ nAct3 L ∧ nAct3 L ≤ 8 := by
  have hw := wid_lt3 L
  show 7 ≤ (250 - wid3 L + 31) / 32 ∧ (250 - wid3 L + 31) / 32 ≤ 8
  omega

theorem pre_iff_lt3 (k : Fin k3_t1_loop.trips) : k3_cond2 L k = 1#1 ↔ k.val + 1 < nAct3 L := by
  have hw := wid_lt3 L
  refine (tb3_pre_iff L k).trans ?_
  show wid3 L + 32 * k.val + 32 < 250 ↔ k.val + 1 < (250 - wid3 L + 31) / 32
  omega

theorem cnt_act3 (k : Fin k3_t1_loop.trips) (hA : Act3 L k) : cnt3 L k.val = k.val ∧ cnt3 L (k.val + 1) = k.val + 1 := by
  have h := (act_iff_lt3 L k).mp hA
  show min k.val (nAct3 L) = k.val ∧ min (k.val + 1) (nAct3 L) = k.val + 1
  omega

theorem cnt_idle3 (k : Fin k3_t1_loop.trips) (hnA : ¬ Act3 L k) : cnt3 L k.val = nAct3 L ∧ cnt3 L (k.val + 1) = nAct3 L := by
  have h : ¬ k.val < nAct3 L := fun h => hnA ((act_iff_lt3 L k).mpr h)
  show min k.val (nAct3 L) = nAct3 L ∧ min (k.val + 1) (nAct3 L) = nAct3 L
  omega

theorem cnt_end3 : cnt3 L k3_t1_loop.trips = nAct3 L := by
  have h := (nAct_bounds3 L).2
  show min k3_t1_loop.trips (nAct3 L) = nAct3 L
  rw [tb3_trips]
  omega

/-! ## The windows' family -/

variable (X : Buf (Elt F) (xLoc d)) (I : Buf (Elt F) (iLoc3 d)) (G : Buf (Elt F) (oLoc3 d))

/-- Trip `t`'s windows after `n` active trips: at the gathered array, in flight, or as found. -/
def outPhi3 (n : ℕ) (t : Fin k3_t1_loop.trips) : sProp 𝕄 :=
  if t.val + 1 < n then oTrip3 d L (gath (F := F) X I) t else if t.val + 1 = n then iprop(emp) else oTrip3 d L G t

theorem outPart3_eq (n : ℕ) : outPart3 d L X I G n = bigSep Finset.univ (outPhi3 d L X I G n) := rfl

theorem outPhi3_done {n : ℕ} {t : Fin k3_t1_loop.trips} (h : t.val + 1 < n) : outPhi3 d L X I G n t = oTrip3 d L (gath (F := F) X I) t := by
  unfold outPhi3; rw [if_pos h]
theorem outPhi3_flight {n : ℕ} {t : Fin k3_t1_loop.trips} (h : t.val + 1 = n) : outPhi3 d L X I G n t = (iprop(emp) : sProp 𝕄) := by
  unfold outPhi3; rw [if_neg (by omega), if_pos h]
theorem outPhi3_found {n : ℕ} {t : Fin k3_t1_loop.trips} (h : n < t.val + 1) : outPhi3 d L X I G n t = oTrip3 d L G t := by
  unfold outPhi3; rw [if_neg (by omega), if_neg (by omega)]

/-- Before any trip every window is as found. -/
theorem out_init3 : (bigSep Finset.univ fun t : Fin k3_t1_loop.trips => oTrip3 d L G t) = outPart3 d L X I G 0 := by
  rw [outPart3_eq]
  exact bigSep_congr fun t _ => (outPhi3_found d L X I G (Nat.succ_pos _)).symm

/-- Entering trip `k` (the trip before it, `tp`, in flight): its own windows come out, as found. -/
theorem out_take3 (k tp : Fin k3_t1_loop.trips) (hp : tp.val + 1 = k.val) (hA : Act3 L k) :
    outPart3 d L X I G k.val ⊢ iprop(oWins3 d L k hA G ∗ bigSep ((Finset.univ.erase k).erase tp) (outPhi3 d L X I G k.val)) := by
  have hne : tp ≠ k := fun e => by rw [e] at hp; omega
  rw [outPart3_eq, SparseCore.bigSep_erase' (Finset.mem_univ k),
    SparseCore.bigSep_erase' (Finset.mem_erase.mpr ⟨hne, Finset.mem_univ tp⟩),
    outPhi3_found d L X I G (Nat.lt_succ_self _), outPhi3_flight d L X I G hp, oTrip3_act d L k hA]
  iintro ⟨Hw, -, Hr⟩
  isplitl [Hw] <;> iassumption

/-- Leaving trip `k`: the previous trip's windows go back, at the gathered array; trip `k`'s are now the ones in flight. -/
theorem out_put3 (k tp : Fin k3_t1_loop.trips) (hp : tp.val + 1 = k.val) (hAp : Act3 L tp) :
    iprop(oWins3 d L tp hAp (gath (F := F) X I) ∗ bigSep ((Finset.univ.erase k).erase tp) (outPhi3 d L X I G k.val))
      ⊢ outPart3 d L X I G (k.val + 1) := by
  have hne : tp ≠ k := fun e => by rw [e] at hp; omega
  rw [outPart3_eq, SparseCore.bigSep_erase' (Finset.mem_univ k),
    SparseCore.bigSep_erase' (Finset.mem_erase.mpr ⟨hne, Finset.mem_univ tp⟩),
    outPhi3_flight d L X I G rfl, outPhi3_done d L X I G (show tp.val + 1 < k.val + 1 by omega), oTrip3_act d L tp hAp,
    show bigSep ((Finset.univ.erase k).erase tp) (outPhi3 d L X I G (k.val + 1)) = bigSep ((Finset.univ.erase k).erase tp) (outPhi3 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi3
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first3 (h0 : 0 < k3_t1_loop.trips) (hA : Act3 L ⟨0, h0⟩) :
    outPart3 d L X I G 0 ⊢ iprop(oWins3 d L ⟨0, h0⟩ hA G ∗ bigSep (Finset.univ.erase ⟨0, h0⟩) (outPhi3 d L X I G 0)) := by
  rw [outPart3_eq, SparseCore.bigSep_erase' (Finset.mem_univ (⟨0, h0⟩ : Fin k3_t1_loop.trips)),
    outPhi3_found d L X I G (Nat.succ_pos _), oTrip3_act d L ⟨0, h0⟩ hA]

/-- Leaving it: nothing goes back yet. -/
theorem out_put_first3 (h0 : 0 < k3_t1_loop.trips) :
    bigSep (Finset.univ.erase (⟨0, h0⟩ : Fin k3_t1_loop.trips)) (outPhi3 d L X I G 0) ⊢ outPart3 d L X I G 1 := by
  rw [outPart3_eq, SparseCore.bigSep_erase' (Finset.mem_univ (⟨0, h0⟩ : Fin k3_t1_loop.trips)),
    outPhi3_flight d L X I G (show (⟨0, h0⟩ : Fin k3_t1_loop.trips).val + 1 = 1 from rfl),
    show bigSep (Finset.univ.erase (⟨0, h0⟩ : Fin k3_t1_loop.trips)) (outPhi3 d L X I G 1) = bigSep (Finset.univ.erase (⟨0, h0⟩ : Fin k3_t1_loop.trips)) (outPhi3 d L X I G 0) from
      bigSep_congr fun t ht => by
        have h1 : t ≠ ⟨0, h0⟩ := (Finset.mem_erase.mp ht).1
        have h1' : t.val ≠ 0 := fun e => h1 (Fin.ext e)
        rw [outPhi3_found d L X I G (show 1 < t.val + 1 by omega), outPhi3_found d L X I G (Nat.succ_pos _)]]
  iintro Hr
  isplitr; · iempintro
  iexact Hr

/-- After the last active trip `tl`, with its windows back: every trip's windows hold the gathered array (the idle
    trips have none). -/
theorem out_final3 (tl : Fin k3_t1_loop.trips) (hAl : Act3 L tl) (hidle : ∀ t : Fin k3_t1_loop.trips, tl.val < t.val → ¬ Act3 L t) :
    iprop(outPart3 d L X I G (tl.val + 1) ∗ oWins3 d L tl hAl (gath (F := F) X I))
      ⊢ bigSep Finset.univ fun t : Fin k3_t1_loop.trips => oTrip3 d L (gath (F := F) X I) t := by
  rw [outPart3_eq, SparseCore.bigSep_erase' (Finset.mem_univ tl) (Φ := outPhi3 d L X I G (tl.val + 1)),
    SparseCore.bigSep_erase' (Finset.mem_univ tl) (Φ := fun t : Fin k3_t1_loop.trips => oTrip3 d L (gath (F := F) X I) t),
    outPhi3_flight d L X I G rfl, oTrip3_act d L tl hAl,
    show bigSep (Finset.univ.erase tl) (outPhi3 d L X I G (tl.val + 1)) = bigSep (Finset.univ.erase tl) (fun t : Fin k3_t1_loop.trips => oTrip3 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi3_done d L X I G (by omega)
        · have hi := hidle t (by omega)
          rw [outPhi3_found d L X I G (show tl.val + 1 < t.val + 1 by omega), oTrip3_idle d L t hi, oTrip3_idle d L t hi]]
  iintro ⟨⟨-, Hr⟩, Hw⟩
  isplitl [Hw] <;> iassumption

end Cert.Kernel.KP

end
-- ==== Proof.TileScoped3B.lean ====
/-
  The scoped storage of one vector subcore as call 3's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody3bB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable (d : Dev nD) (L : grid3.Coords)

/-! ## The task's nine semaphores among the subcore's own -/

/-- The nine DMA semaphores of the task, as semaphore locations. -/
def semS3 : List (SemLoc sig) := [SemLoc.dma cc3_scratch2.sem, SemLoc.dma cc3_scratch3.sem, SemLoc.dma cc3_scratch4.sem, SemLoc.dma cc3_scratch5.sem, SemLoc.dma cc3_scratch6.sem, SemLoc.dma cc3_scratch7.sem, SemLoc.dma cc3_scratch8.sem, SemLoc.dma cc3_scratch9.sem, SemLoc.dma cc3_scratch10.sem]

theorem semS3_nodup : (semS3).Nodup := by decide
theorem semS3_scoped : ∀ s ∈ semS3, (s : SemLoc sig).isScoped .scVector = true := by decide

/-- The same as cells of the tile's thread. -/
def semL3 : List (GSem nD τ sig) := semS3.map fun s => (thr3 d L, s)

theorem semL3_nodup : (semL3 d L).Nodup :=
  semS3_nodup.map fun _ _ h => (Prod.mk.inj h).2

theorem semL3_sub : (semL3 d L).toFinset ⊆ ownCells (thr3 d L) := by
  intro g hg
  rw [List.mem_toFinset, semL3, List.mem_map] at hg
  obtain ⟨s, hs, rfl⟩ := hg
  exact mem_ownCells.mpr ⟨rfl, semS3_scoped s hs⟩

/-- The subcore's own semaphores that the task does not use, each at zero. -/
def RestSems3 : sProp 𝕄 := bigSep (ownCells (thr3 d L) \ (semL3 d L).toFinset) fun g => semVal g 0

/-- The subcore's own semaphores at zero are the task's nine at zero and the rest. -/
theorem ownSems0_V3 :
    (ownSems0 (thr3 d L) : sProp 𝕄)
      = iprop(semVal (cellD3 d L cc3_scratch2) 0 ∗ semVal (cellD3 d L cc3_scratch3) 0 ∗ semVal (cellD3 d L cc3_scratch4) 0 ∗ semVal (cellD3 d L cc3_scratch5) 0 ∗ semVal (cellD3 d L cc3_scratch6) 0 ∗ semVal (cellD3 d L cc3_scratch7) 0 ∗ semVal (cellD3 d L cc3_scratch8) 0 ∗ semVal (cellD3 d L cc3_scratch9) 0 ∗ semVal (cellD3 d L cc3_scratch10) 0 ∗ RestSems3 d L) := by
  unfold SparseCore.Cfg.ownSems0 RestSems3
  rw [SparseCore.bigSep_sdiff_split' (semL3_sub d L), bigSep_eq_bigSepL (semL3 d L) (semL3_nodup d L)]
  unfold semL3 semS3
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs3 : sProp 𝕄 :=
  bigSep (((ownRefs (τ := τ) (.scVector (cV3 L) (jV3 L))).erase ((Proc.scVector (cV3 L) (jV3 L)).devRef cc3_scratch0)).erase
      ((Proc.scVector (cV3 L) (jV3 L)).devRef cc3_scratch1))
    fun b => iprop(∃ f, ((d, b) : Loc nD τ sig) ↦{fullShare} f)

/-- The subcore's own buffers are the index scratch, the row scratch, each at some contents, and the rest. -/
theorem ownBufs_V3 :
    (ownBufs (thr3 d L) : sProp 𝕄)
      = iprop((∃ f, (thr3 d L).loc cc3_scratch0 ↦{fullShare} f) ∗ (∃ f, (thr3 d L).loc cc3_scratch1 ↦{fullShare} f) ∗ RestBufs3 d L) := by
  unfold SparseCore.Cfg.ownBufs RestBufs3
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩)]

/-! ## The whole arrays under the subcore's names -/

theorem pts_sI3 (f : Buf (Elt F) ((thr3 d L).loc cc3_scratch0)) :
    ((sI).view.loc (thr3 d L) ↦{fullShare} f : sProp 𝕄) = (thr3 d L).loc cc3_scratch0 ↦{fullShare} f := rfl
theorem pts_sR3 (f : Buf (Elt F) ((thr3 d L).loc cc3_scratch1)) :
    ((sR).view.loc (thr3 d L) ↦{fullShare} f : sProp 𝕄) = (thr3 d L).loc cc3_scratch1 ↦{fullShare} f := rfl
theorem pts_x3 (q : PosShare TreeShare) (f : Buf (Elt F) (xLoc d)) :
    ((xW).view.loc (thr3 d L) ↦{q} f : sProp 𝕄) = xLoc d ↦{q} f := rfl
theorem pts_i3 (q : PosShare TreeShare) (f : Buf (Elt F) (iLoc3 d)) :
    ((iW).view.loc (thr3 d L) ↦{q} f : sProp 𝕄) = iLoc3 d ↦{q} f := rfl
theorem pts_o3 (K : Finset S4x32000x128.Idx) (q : PosShare TreeShare) (f : Buf (Elt F) (oLoc3 d)) :
    ((oW).view.loc (thr3 d L) ↦[K]{q} f : sProp 𝕄) = oLoc3 d ↦[K]{q} f := rfl

/-! ## The row scratch is its four planes -/

theorem pl_inb3 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet3 (j : Fin 4) : Finset S4x128x128.Idx := (Rect.unit (s := S4x128x128) ![j.val, 0, 0] S1x128x128.size (pl_inb3 j)).set

theorem set_rPl3_0 : (rPl3_0).view.set = plSet3 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc3_scratch1 : Ref sig .scVector) _).trans rfl
theorem set_rPl3_1 : (rPl3_1).view.set = plSet3 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc3_scratch1 : Ref sig .scVector) _).trans rfl
theorem set_rPl3_2 : (rPl3_2).view.set = plSet3 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc3_scratch1 : Ref sig .scVector) _).trans rfl
theorem set_rPl3_3 : (rPl3_3).view.set = plSet3 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc3_scratch1 : Ref sig .scVector) _).trans rfl

/-- Different planes are disjoint: they differ in the first coordinate. -/
theorem pl_disjoint3 : ∀ i ∈ (Finset.univ : Finset (Fin 4)), ∀ j ∈ (Finset.univ : Finset (Fin 4)), i ≠ j → Disjoint (plSet3 i) (plSet3 j) := by
  intro i _ j _ h
  have hv := Fin.val_ne_of_ne h
  refine Rect.unit_disjoint 0 ?_
  simp
  omega

/-- The four planes cover the scratch. -/
theorem pl_cover3 : (Finset.univ : Finset (Fin 4)).biUnion plSet3 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet3
  rw [Rect.mem_set_unit]
  intro a
  fin_cases a <;> simp at h0 h1 h2 ⊢ <;> omega

/-- Holding the row scratch whole at `r` is holding its four planes at `r`. -/
theorem sR_planes3 (r : Buf (Elt F) ((thr3 d L).loc cc3_scratch1)) :
    ((thr3 d L).loc cc3_scratch1 ↦{fullShare} r : sProp 𝕄) = iprop(pl3_0 d L r ∗ pl3_1 d L r ∗ pl3_2 d L r ∗ pl3_3 d L r) := by
  have e : ((thr3 d L).loc cc3_scratch1 ↦{fullShare} r : sProp 𝕄)
      = bigSep Finset.univ fun j : Fin 4 => ((thr3 d L).loc cc3_scratch1 ↦[plSet3 j]{fullShare} r : sProp 𝕄) := by
    rw [← pointsTo_biUnion Finset.univ (ℓ := (thr3 d L).loc cc3_scratch1) plSet3 pl_disjoint3, pl_cover3]; try rfl
  rw [e, bigSep_univ_eq_bigSepL [(0 : Fin 4), 1, 2, 3] (by decide) (by decide)]
  unfold pl3_0 pl3_1 pl3_2 pl3_3
  rw [set_rPl3_0, set_rPl3_1, set_rPl3_2, set_rPl3_3]
  rfl

/-- Four planes at four contents join into the row scratch whole at some contents. -/
theorem sR_join3 (r0 r1 r2 r3 : Buf (Elt F) ((thr3 d L).loc cc3_scratch1)) :
    iprop(pl3_0 d L r0 ∗ pl3_1 d L r1 ∗ pl3_2 d L r2 ∗ pl3_3 d L r3)
      ⊢ (iprop(∃ r, (thr3 d L).loc cc3_scratch1 ↦{fullShare} r) : sProp 𝕄) := by
  have e : (bigSep Finset.univ fun j : Fin 4 => ((thr3 d L).loc cc3_scratch1 ↦[plSet3 j]{fullShare} (![r0, r1, r2, r3] : Fin 4 → Buf (Elt F) ((thr3 d L).loc cc3_scratch1)) j : sProp 𝕄))
      = iprop(pl3_0 d L r0 ∗ pl3_1 d L r1 ∗ pl3_2 d L r2 ∗ pl3_3 d L r3) := by
    rw [bigSep_univ_eq_bigSepL [(0 : Fin 4), 1, 2, 3] (by decide) (by decide)]
    unfold pl3_0 pl3_1 pl3_2 pl3_3
    rw [set_rPl3_0, set_rPl3_1, set_rPl3_2, set_rPl3_3]
    rfl
  rw [← e]
  iintro H
  ihave H' := (pointsTo_biUnion_join Finset.univ plSet3 (![r0, r1, r2, r3] : Fin 4 → Buf (Elt F) ((thr3 d L).loc cc3_scratch1)) r0 pl_disjoint3) $$ H
  icases H' with ⟨%g, -, Hg⟩
  rw [pl_cover3]
  iexists g; iexact Hg

/-! ## A read share of the table as a remainder and four tokens -/

theorem x_toks3 (q : PosShare TreeShare) (X : Buf (Elt F) (xLoc d)) :
    ((xW).view.loc (thr3 d L) ↦{q} X : sProp 𝕄)
      ⊣⊢ iprop(((xW).view.loc (thr3 d L) ↦{Transfers.shareDrop q 4} X) ∗ ((xW).view.loc (thr3 d L) ↦{Transfers.shareTok q 4 0} X)
          ∗ ((xW).view.loc (thr3 d L) ↦{Transfers.shareTok q 4 1} X) ∗ ((xW).view.loc (thr3 d L) ↦{Transfers.shareTok q 4 2} X)
          ∗ ((xW).view.loc (thr3 d L) ↦{Transfers.shareTok q 4 3} X)) := by
  have e : (iprop(((xW).view.loc (thr3 d L) ↦{Transfers.shareTok q 4 0} X)
          ∗ ((xW).view.loc (thr3 d L) ↦{Transfers.shareTok q 4 1} X) ∗ ((xW).view.loc (thr3 d L) ↦{Transfers.shareTok q 4 2} X)
          ∗ ((xW).view.loc (thr3 d L) ↦{Transfers.shareTok q 4 3} X)) : sProp 𝕄)
      = bigSep Finset.univ fun i : Fin 4 => ((xW).view.loc (thr3 d L) ↦{Transfers.shareTok q 4 i} X : sProp 𝕄) :=
    (bigSep_univ_eq_bigSepL [(0 : Fin 4), 1, 2, 3] (by decide) (by decide)
      (fun i : Fin 4 => ((xW).view.loc (thr3 d L) ↦{Transfers.shareTok q 4 i} X : sProp 𝕄))).symm
  rw [e]
  exact Transfers.pointsTo_toks q 4

end Cert.Kernel.KP

end
-- ==== Proof.TileLoop3B.lean ====
/-
  The body of call 3's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip3B
import proofs.«210879_g80607946211848_cont_9to1_m_1212_13_alg».proof.Proof.TileOut3B
import proofs.«210879_g80607946211848_cont_9to1_m_1212_13_alg».proof.Proof.TileScoped3B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v14_scv : Memref Cert.Kernel.sig Kind.scVector Space.hbm Cert.Kernel.S250x4x128 EltTy.i32)
local notation "oW" => (Memref.whole Cert.Kernel.main_v15_scv : Memref Cert.Kernel.sig Kind.scVector Space.hbm Cert.Kernel.S4x32000x128 EltTy.f32)
local notation "sI" => (Memref.whole Cert.Kernel.cc3_scratch0 : Memref Cert.Kernel.sig Kind.scVector Space.vmem Cert.Kernel.S2x4x128 EltTy.i32)
local notation "sR" => (Memref.whole Cert.Kernel.cc3_scratch1 : Memref Cert.Kernel.sig Kind.scVector Space.vmem Cert.Kernel.S4x128x128 EltTy.f32)

variable [FloatOps F] (d : Dev nD) (L : grid3.Coords) (q : PosShare TreeShare)
  (X : Buf (Elt F) (xLoc d)) (I : Buf (Elt F) (iLoc3 d)) (G : Buf (Elt F) (oLoc3 d))

/-- The row scratch and the write-out semaphores after `n` active trips. -/
def rowsAt3 : ℕ → sProp 𝕄
  | 0 => rowsIdle3 d L
  | m + 1 => if hm : m < k3_t1_loop.trips then (if hA : Act3 L ⟨m, hm⟩ then rowsFly3 d L X I ⟨m, hm⟩ hA else iprop(False)) else iprop(False)

/-- The index side before trip `k`. -/
def idxAt3 (k : ℕ) : sProp 𝕄 :=
  if hk : k < k3_t1_loop.trips then (if hA : Act3 L ⟨k, hk⟩ then idxFly3 d L q I ⟨k, hk⟩ hA else idxIdle3 d L q I) else idxIdle3 d L q I

/-- The loop's invariant before trip `k`. -/
def invL3 (O : CellTallies nD τ sig (HIx 5)) (W : Waits sig (HIx 5)) (k : ℕ) (_ : PUnit) : sProp 𝕄 :=
  iprop(Transfers.MayWaits (thr3 d L) (none : HIx 5) O ∗ xPart3 d L q X ∗ idxAt3 d L q I k ∗ gsems3 d L
    ∗ rowsAt3 d L X I (cnt3 L k) ∗ outPart3 d L X I G (cnt3 L k) ∗ owesPart3 d L O W)

omit [FloatOps F] in
theorem idxAt3_act (k : Fin k3_t1_loop.trips) (hA : Act3 L k) : idxAt3 d L q I k.val = idxFly3 d L q I k hA := by
  unfold idxAt3; rw [dif_pos k.isLt, dif_pos hA]
omit [FloatOps F] in
theorem idxAt3_idle (k : Fin k3_t1_loop.trips) (hnA : ¬ Act3 L k) : idxAt3 d L q I k.val = idxIdle3 d L q I := by
  unfold idxAt3; rw [dif_pos k.isLt, dif_neg hnA]
omit [FloatOps F] in
theorem idxAt3_end (k : ℕ) (hk : ¬ k < k3_t1_loop.trips) : idxAt3 d L q I k = idxIdle3 d L q I := by
  unfold idxAt3; rw [dif_neg hk]
omit [FloatOps F] in
theorem rowsAt3_succ (t : Fin k3_t1_loop.trips) (hA : Act3 L t) : rowsAt3 d L X I (t.val + 1) = rowsFly3 d L X I t hA := by
  show (if hm : t.val < k3_t1_loop.trips then (if hA : Act3 L ⟨t.val, hm⟩ then rowsFly3 d L X I ⟨t.val, hm⟩ hA else iprop(False)) else iprop(False)) = _
  rw [dif_pos t.isLt, dif_pos hA]

omit [FloatOps F] in
theorem out_take_first3' (k : Fin k3_t1_loop.trips) (hk0 : k.val = 0) (hA : Act3 L k) :
    outPart3 d L X I G k.val ⊢ iprop(oWins3 d L k hA G ∗ bigSep (Finset.univ.erase k) (outPhi3 d L X I G k.val)) := by
  obtain ⟨kv, hkv⟩ := k
  simp only at hk0
  subst hk0
  exact out_take_first3 d L X I G hkv hA

omit [FloatOps F] in
theorem out_put_first3' (k : Fin k3_t1_loop.trips) (hk0 : k.val = 0) :
    bigSep (Finset.univ.erase k) (outPhi3 d L X I G k.val) ⊢ outPart3 d L X I G (k.val + 1) := by
  obtain ⟨kv, hkv⟩ := k
  simp only at hk0
  subst hk0
  exact out_put_first3 d L X I G hkv

set_option maxHeartbeats 4000000 in
set_option sl_exec.dmaWindow true in
theorem tile_body3 (hF : (K (F := F)).Facts) (d : Dev nD) (L : grid3.Coords)
    (X : Buf (Elt F) (xLoc d)) (I : Buf (Elt F) (iLoc3 d)) (G : Buf (Elt F) (oLoc3 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo3 d X I G L
        ∗ scopedBufs (thr3 d L) ∗ scopedSems0 (thr3 d L) ∗ owes (thr3 d L) O W)
      ⊢ wp frame (wpE (defs₀ (F := F)) 𝒱₀ (thr3 d L) none) Set.univ
          (cc3__sc_gather_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10)
          fun _ => iprop(tileTd3 d X I L ∗ scopedBufs (thr3 d L) ∗ scopedSems0 (thr3 d L)
            ∗ ∃ W', ⌜∀ p ∈ W', p ∈ W ∨ p.2 = none⌝ ∗ owes (thr3 d L) O W') := by
  rw [(K (F := F)).scopedBufs_V hF d (cV3 L) (jV3 L), SparseCore.Cfg.scopedSems0_V (Val := Elt F) d (cV3 L) (jV3 L),
    ownSems0_V3, ownBufs_V3]
  unfold tileGo3 tileTd3
  rw [out_init3 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr3 d L) hO) $$ Hlv
  ihave Hx' := (Entails.of_eq (pts_x3 d L (qTile3 L) X).symm) $$ Hx
  ihave Hxt := (x_toks3 d L (qTile3 L) X).1 $$ Hx'
  icases Hxt with ⟨Hxr, Hx0, Hx1, Hx2, Hx3⟩
  ihave Hi' := (Entails.of_eq (pts_i3 d L (qTile3 L) I).symm) $$ Hi
  ihave HsI' := (Entails.of_eq (pts_sI3 d L s0).symm) $$ HsI
  ihave Hpl := (Entails.of_eq (sR_planes3 d L r)) $$ HsR
  icases Hpl with ⟨Hr0, Hr1, Hr2, Hr3⟩
  sl_unfold [cc3__sc_gather_body]
  sl_exec (disch := exact View.amount_pos _ _ (show 0 < S4x128.numel by decide))
  sl_for (invL3 d L (qTile3 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k3_t1_loop.trips = 8 := tb3_trips
    obtain ⟨hn7, hn8⟩ := nAct_bounds3 L
    by_cases hA : Act3 L k
    · obtain ⟨hc, hc'⟩ := cnt_act3 L k hA
      have hkA := (act_iff_lt3 L k).mp hA
      unfold invL3
      rw [hc, hc', idxAt3_act d L (qTile3 L) I k hA, rowsAt3_succ d L X I k hA]
      by_cases h2 : k3_cond2 L k = 1#1
      · have hlt := (pre_iff_lt3 L k).mp h2
        have hk1 : k.val + 1 < k3_t1_loop.trips := by omega
        have hA' : Act3 L ⟨k.val + 1, hk1⟩ := (act_iff_lt3 L ⟨k.val + 1, hk1⟩).mpr hlt
        rw [idxAt3_act d L (qTile3 L) I ⟨k.val + 1, hk1⟩ hA']
        rcases Nat.eq_zero_or_pos k.val with hk0 | hkp
        · -- the first trip
          have hrows0 : rowsAt3 d L X I k.val = rowsIdle3 d L := by rw [hk0]; rfl
          rw [hrows0]
          have hT := tripC3 d L (qTile3 L) X I G O W k ⟨k.val + 1, hk1⟩ hk0 rfl hA hA' h2 hin
            iprop(Transfers.MayWaits (thr3 d L) (none : HIx 5) O ∗ bigSep (Finset.univ.erase k) (outPhi3 d L X I G k.val))
          have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first3' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first3' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k3_t1_loop.trips := by omega
          have hp : (⟨k.val - 1, htp⟩ : Fin k3_t1_loop.trips).val + 1 = k.val := by simp only; omega
          have hAp : Act3 L ⟨k.val - 1, htp⟩ := (act_iff_lt3 L ⟨k.val - 1, htp⟩).mpr (by simp only; omega)
          have hrows : rowsAt3 d L X I k.val = rowsFly3 d L X I ⟨k.val - 1, htp⟩ hAp := by
            have h := rowsAt3_succ d L X I ⟨k.val - 1, htp⟩ hAp
            rwa [hp] at h
          rw [hrows]
          have hT := tripA3 d L (qTile3 L) X I G O W k ⟨k.val - 1, htp⟩ ⟨k.val + 1, hk1⟩ hp rfl hA hAp hA' h2 hin
            iprop(Transfers.MayWaits (thr3 d L) (none : HIx 5) O ∗ bigSep ((Finset.univ.erase k).erase ⟨k.val - 1, htp⟩) (outPhi3 d L X I G k.val))
          have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take3 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put3 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct3 L := fun h => h2 ((pre_iff_lt3 L k).mpr h)
        have hidx' : idxAt3 d L (qTile3 L) I (k.val + 1) = idxIdle3 d L (qTile3 L) I := by
          unfold idxAt3
          split_ifs with h1 h3
          · exact absurd ((act_iff_lt3 L ⟨k.val + 1, h1⟩).mp h3) hnlt
          · rfl
          · rfl
        rw [hidx']
        have htp : k.val - 1 < k3_t1_loop.trips := by omega
        have hp : (⟨k.val - 1, htp⟩ : Fin k3_t1_loop.trips).val + 1 = k.val := by simp only; omega
        have hAp : Act3 L ⟨k.val - 1, htp⟩ := (act_iff_lt3 L ⟨k.val - 1, htp⟩).mpr (by simp only; omega)
        have hrows : rowsAt3 d L X I k.val = rowsFly3 d L X I ⟨k.val - 1, htp⟩ hAp := by
          have h := rowsAt3_succ d L X I ⟨k.val - 1, htp⟩ hAp
          rwa [hp] at h
        rw [hrows]
        have hT := tripB3 d L (qTile3 L) X I G O W k ⟨k.val - 1, htp⟩ hp hA hAp h2 hin
          iprop(Transfers.MayWaits (thr3 d L) (none : HIx 5) O ∗ bigSep ((Finset.univ.erase k).erase ⟨k.val - 1, htp⟩) (outPhi3 d L X I G k.val))
        have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take3 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put3 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle3 L k hA
      have hge : nAct3 L ≤ k.val := Nat.not_lt.mp (fun h => hA ((act_iff_lt3 L k).mpr h))
      have hidx' : idxAt3 d L (qTile3 L) I (k.val + 1) = idxIdle3 d L (qTile3 L) I := by
        unfold idxAt3
        split_ifs with h1 h3
        · exact absurd ((act_iff_lt3 L ⟨k.val + 1, h1⟩).mp h3) (by simp only; omega)
        · rfl
        · rfl
      unfold invL3
      rw [hc, hc', idxAt3_idle d L (qTile3 L) I k hA, hidx']
      have hprog : tile_body3.sl.prog.body_1 (F := F) L k acc = k3_t1_body L xW (Memref.isWhole_whole _) iW (Memref.isWhole_whole _) oW (Memref.isWhole_whole _)
            sI (Memref.isWhole_whole _) sR (Memref.isWhole_whole _) cc3_scratch2 cc3_scratch3 cc3_scratch4 cc3_scratch5 cc3_scratch6 cc3_scratch7 cc3_scratch8 cc3_scratch9 cc3_scratch10
          (Scalar.addi (Scalar.muli (BitVec.ofNat 32 (L 1).val) 2#32) (BitVec.ofNat 32 (L 0).val)) k () := rfl
      rw [hprog]
      exact tripI3 d L k hA _
  · -- the invariant before the first trip
    have h0 : 0 < k3_t1_loop.trips := by rw [tb3_trips]; omega
    have hA0 : Act3 L ⟨0, h0⟩ := (act_iff_lt3 L ⟨0, h0⟩).mpr (by have := (nAct_bounds3 L).1; simp only; omega)
    unfold invL3
    rw [show cnt3 L 0 = 0 from Nat.zero_min _, idxAt3_act d L (qTile3 L) I ⟨0, h0⟩ hA0, show rowsAt3 d L X I 0 = rowsIdle3 d L from rfl]
    unfold xPart3 idxFly3 gsems3 rowsIdle3 owesPart3 idxDeliv3
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first3 d L I h0 hA0 s0
      rw [slot_first_set3 L h0 hA0, chunk_first_set3 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds3 L
  have htr : k3_t1_loop.trips = 8 := tb3_trips
  obtain ⟨m, hm⟩ : ∃ m, nAct3 L = m + 1 := ⟨nAct3 L - 1, by omega⟩
  have hmlt : m < k3_t1_loop.trips := by omega
  have hAm : Act3 L ⟨m, hmlt⟩ := (act_iff_lt3 L ⟨m, hmlt⟩).mpr (by simp only; omega)
  have hidle : ∀ t : Fin k3_t1_loop.trips, (⟨m, hmlt⟩ : Fin k3_t1_loop.trips).val < t.val → ¬ Act3 L t :=
    fun t ht h => by have := (act_iff_lt3 L t).mp h; simp only at ht; omega
  unfold invL3
  rw [cnt_end3 L, idxAt3_end d L (qTile3 L) I _ (lt_irrefl _), hm, rowsAt3_succ d L X I ⟨m, hmlt⟩ hAm]
  unfold xPart3 idxIdle3 gsems3 rowsFly3 owesPart3
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv3 pl3_0 pl3_1 pl3_2 pl3_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x3 d L (qTile3 L) X))
      iapply (x_toks3 d L (qTile3 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i3 d L (qTile3 L) I)) $$ Hi
    iapply (out_final3 d L X I G ⟨m, hmlt⟩ hAm hidle)
    isplitl [Hout]; · iexact Hout
    unfold oWins3
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI3 d L S)) $$ HsI
    isplitl [Hf0_src Hf1_src Hf2_src Hf3_src]
    · iapply (sR_join3 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins3 (none_ins3 (none_ins3 (none_ins3 hW')))

end Cert.Kernel.KP

end
-- ==== Proof.TileBody4a.lean ====
/-
  Groundwork for the body of call 4's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes4
import proofs.«210879_g80607946211848_cont_9to1_m_1212_13_alg».proof.Proof.Gen.KernelIdeal.Skeleton

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

/-! ## The loop's conditions, in closed form -/

/-- The tile's number. -/
abbrev wid4 (L : grid4.Coords) : ℕ := 2 * (L 1).val + (L 0).val

theorem tb4_trips : k4_t1_loop.trips = 8 := by decide

theorem tb4_act_iff : ∀ (L : grid4.Coords) (t : Fin k4_t1_loop.trips), k4_cond1 L t = 1#1 ↔ wid4 L + 32 * t.val < 250 := by decide +kernel
theorem tb4_pre_iff : ∀ (L : grid4.Coords) (t : Fin k4_t1_loop.trips), k4_cond2 L t = 1#1 ↔ wid4 L + 32 * t.val + 32 < 250 := by decide +kernel

/-! ## The memrefs, as the loop slices them -/

/-- Index chunk of trip `t` (the copy's source the trip waits for). -/
abbrev iCh4 (L : grid4.Coords) (t : Fin k4_t1_loop.trips) (h : Act4 L t) : Memref sig .scVector .hbm S4x128 .i32 :=
  ((iW).slice (Rect.unit (s := S250x4x128) (k4_off3 L t) S1x4x128.size (k4_off3_inb L t h)) (fun _ => rfl)).squeeze S4x128 squeezes_S1x4x128_S4x128
/-- The slot of the index scratch trip `t` reads its indices from: slot `t % 2`. -/
abbrev sSl4 (L : grid4.Coords) (t : Fin k4_t1_loop.trips) (h : Act4 L t) : Memref sig .scVector .vmem S4x128 .i32 :=
  ((sI).slice (Rect.unit (s := S2x4x128) (k4_off2 t) S1x4x128.size (k4_off2_inb L t h)) (fun _ => rfl)).squeeze S4x128 squeezes_S1x4x128_S4x128
/-- Plane `j` of the row scratch. -/
abbrev rPl4_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl4_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl4_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl4_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD4 (d : Dev nD) (L : grid4.Coords) (n : DmaSems sig S_) : GSem nD τ sig := (thr4 d L, SemLoc.dma n.sem)

end Cert.KernelIdeal.KP

end
-- ==== Proof.TileBody4b.lean ====
/-
  The loop of call 4's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody4a

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The number of the tile's active trips: its chunks `w, w + 32, …` below 250. -/
abbrev nAct4 (L : grid4.Coords) : ℕ := (250 - wid4 L + 31) / 32
/-- The active trips among the first `k`. -/
abbrev cnt4 (L : grid4.Coords) (k : ℕ) : ℕ := min k (nAct4 L)

/-- The index scratch showing, in both slots, the words of trip `t`'s chunk (chunk number reduced modulo 250: the
    identity for an active trip). -/
def slotImg4 (t : ℕ) : Buf (Elt F) ((thr4 d L).loc cc4_scratch0) :=
  fun i => I (ix3 (⟨(wid4 L + 32 * t) % 250, Nat.mod_lt _ (by decide)⟩ : Fin 250) (i 1) (i 2))

/-- Contents `S` of the index scratch show, on the slot trip `t` reads, the words of the trip's chunk. -/
def SlotAgrees4 (t : Fin k4_t1_loop.trips) (h : Act4 L t) (S : Buf (Elt F) ((thr4 d L).loc cc4_scratch0)) : Prop :=
  ∀ i ∈ (sSl4 L t h).view.set, S i = slotImg4 d L I t.val i

/-- What the index fetch for trip `t` delivers: the slot at contents `S`, and the chunk's share back. -/
def idxDeliv4 (t : Fin k4_t1_loop.trips) (h : Act4 L t) (S : Buf (Elt F) ((thr4 d L).loc cc4_scratch0)) : sProp 𝕄 :=
  iprop(((sI).view.loc (thr4 d L) ↦[(sSl4 L t h).view.set]{fullShare} S)
    ∗ ((iW).view.loc (thr4 d L) ↦[(iCh4 L t h).view.set]{q} I))

/-- The index side before trip `k`: while the trip is active its chunk's fetch is in flight (the chunk and its slot
    lent); afterwards the semaphore rests at zero and block and scratch are whole. -/
def idxPart4 (k : ℕ) : sProp 𝕄 :=
  if hk : k < k4_t1_loop.trips then
    if hA : Act4 L ⟨k, hk⟩ then
      iprop(∃ S, ⌜SlotAgrees4 d L I ⟨k, hk⟩ hA S⌝
        ∗ Transfers.Flight countersEmb (thr4 d L) (SemLoc.dma cc4_scratch10.sem) (default : HIx 5) 16384 (idxDeliv4 d L q I ⟨k, hk⟩ hA S)
        ∗ ((iW).view.loc (thr4 d L) ↦[Finset.univ \ (iCh4 L ⟨k, hk⟩ hA).view.set]{q} I)
        ∗ ((sI).view.loc (thr4 d L) ↦[Finset.univ \ (sSl4 L ⟨k, hk⟩ hA).view.set]{fullShare} S))
    else iprop(semVal (cellD4 d L cc4_scratch10) 0 ∗ ((iW).view.loc (thr4 d L) ↦{q} I) ∗ ∃ s, (sI).view.loc (thr4 d L) ↦{fullShare} s)
  else iprop(semVal (cellD4 d L cc4_scratch10) 0 ∗ ((iW).view.loc (thr4 d L) ↦{q} I) ∗ ∃ s, (sI).view.loc (thr4 d L) ↦{fullShare} s)

/-- What the write-out of plane `j` of trip `t` delivers: the window at the gathered array, and the plane back. -/
def wDeliv4 (t : Fin k4_t1_loop.trips) (h : Act4 L t) (j : Fin 4) (Dsrc : sProp 𝕄) : sProp 𝕄 :=
  iprop(((oW).view.loc (thr4 d L) ↦[oSet4 L t h j]{fullShare} gath (F := F) X I) ∗ Dsrc)

/-- The four windows of trip `t` at contents `f`, each spelt through its own memref. -/
def oWins4 (t : Fin k4_t1_loop.trips) (h : Act4 L t) (f : Buf (Elt F) (oLoc4 d)) : sProp 𝕄 :=
  iprop(((oWin4_0 L t h).view.loc (thr4 d L) ↦[(oWin4_0 L t h).view.set]{fullShare} f)
    ∗ ((oWin4_1 L t h).view.loc (thr4 d L) ↦[(oWin4_1 L t h).view.set]{fullShare} f)
    ∗ ((oWin4_2 L t h).view.loc (thr4 d L) ↦[(oWin4_2 L t h).view.set]{fullShare} f)
    ∗ ((oWin4_3 L t h).view.loc (thr4 d L) ↦[(oWin4_3 L t h).view.set]{fullShare} f))

omit [FloatOps F] in
/-- An active trip's share of the result is its four windows. -/
theorem oTrip4_act (t : Fin k4_t1_loop.trips) (h : Act4 L t) (f : Buf (Elt F) (oLoc4 d)) :
    oTrip4 d L f t = oWins4 d L t h f := by
  unfold oTrip4 oWins4; rw [dif_pos h]

omit [FloatOps F] in
/-- An idle trip has none. -/
theorem oTrip4_idle (t : Fin k4_t1_loop.trips) (h : ¬ Act4 L t) (f : Buf (Elt F) (oLoc4 d)) :
    oTrip4 d L f t = (iprop(emp) : sProp 𝕄) := by
  unfold oTrip4; rw [dif_neg h]

/-- Plane `j` of the row scratch at contents `r`. -/
abbrev pl4_0 (r : Buf (Elt F) ((thr4 d L).loc cc4_scratch1)) : sProp 𝕄 := (rPl4_0).view.loc (thr4 d L) ↦[(rPl4_0).view.set]{fullShare} r
abbrev pl4_1 (r : Buf (Elt F) ((thr4 d L).loc cc4_scratch1)) : sProp 𝕄 := (rPl4_1).view.loc (thr4 d L) ↦[(rPl4_1).view.set]{fullShare} r
abbrev pl4_2 (r : Buf (Elt F) ((thr4 d L).loc cc4_scratch1)) : sProp 𝕄 := (rPl4_2).view.loc (thr4 d L) ↦[(rPl4_2).view.set]{fullShare} r
abbrev pl4_3 (r : Buf (Elt F) ((thr4 d L).loc cc4_scratch1)) : sProp 𝕄 := (rPl4_3).view.loc (thr4 d L) ↦[(rPl4_3).view.set]{fullShare} r

/-- The row scratch and the write-out semaphores after `n` active trips: none done, the planes and the semaphores
    rest; else the last trip's four write-outs are in flight. -/
def rowsPart4 (n : ℕ) : sProp 𝕄 :=
  if hn : 0 < n then
    if hk : n - 1 < k4_t1_loop.trips then
      if hA : Act4 L ⟨n - 1, hk⟩ then
        iprop(∃ r0 r1 r2 r3, Transfers.Flight countersEmb (thr4 d L) (SemLoc.dma cc4_scratch6.sem) (default : HIx 5) 524288 (wDeliv4 d L X I ⟨n - 1, hk⟩ hA 0 (pl4_0 d L r0))
          ∗ Transfers.Flight countersEmb (thr4 d L) (SemLoc.dma cc4_scratch7.sem) (default : HIx 5) 524288 (wDeliv4 d L X I ⟨n - 1, hk⟩ hA 1 (pl4_1 d L r1))
          ∗ Transfers.Flight countersEmb (thr4 d L) (SemLoc.dma cc4_scratch8.sem) (default : HIx 5) 524288 (wDeliv4 d L X I ⟨n - 1, hk⟩ hA 2 (pl4_2 d L r2))
          ∗ Transfers.Flight countersEmb (thr4 d L) (SemLoc.dma cc4_scratch9.sem) (default : HIx 5) 524288 (wDeliv4 d L X I ⟨n - 1, hk⟩ hA 3 (pl4_3 d L r3)))
      else iprop(False)
    else iprop(False)
  else
    iprop((semVal (cellD4 d L cc4_scratch6) 0 ∗ ∃ r, pl4_0 d L r) ∗ (semVal (cellD4 d L cc4_scratch7) 0 ∗ ∃ r, pl4_1 d L r)
      ∗ (semVal (cellD4 d L cc4_scratch8) 0 ∗ ∃ r, pl4_2 d L r) ∗ (semVal (cellD4 d L cc4_scratch9) 0 ∗ ∃ r, pl4_3 d L r))

/-- The result's windows after `n` active trips: the trips before the last at the gathered array, the last one's
    in flight, the later ones as found. -/
def outPart4 (n : ℕ) : sProp 𝕄 :=
  bigSep Finset.univ fun t : Fin k4_t1_loop.trips =>
    if t.val + 1 < n then oTrip4 d L (gath (F := F) X I) t else if t.val + 1 = n then iprop(emp) else oTrip4 d L G t

/-- The loop's invariant before trip `k`. -/
def inv4 (O : CellTallies nD τ sig (HIx 5)) (W : Waits sig (HIx 5)) (k : ℕ) (_ : PUnit) : sProp 𝕄 :=
  iprop(Transfers.MayWaits (thr4 d L) (none : HIx 5) O
    ∗ (((xW).view.loc (thr4 d L) ↦{Transfers.shareDrop q 4} X) ∗ ((xW).view.loc (thr4 d L) ↦{Transfers.shareTok q 4 0} X) ∗ ((xW).view.loc (thr4 d L) ↦{Transfers.shareTok q 4 1} X)
        ∗ ((xW).view.loc (thr4 d L) ↦{Transfers.shareTok q 4 2} X) ∗ ((xW).view.loc (thr4 d L) ↦{Transfers.shareTok q 4 3} X))
    ∗ idxPart4 d L q I k
    ∗ (semVal (cellD4 d L cc4_scratch2) 0 ∗ semVal (cellD4 d L cc4_scratch3) 0 ∗ semVal (cellD4 d L cc4_scratch4) 0 ∗ semVal (cellD4 d L cc4_scratch5) 0)
    ∗ rowsPart4 d L X I (cnt4 L k)
    ∗ outPart4 d L X I G (cnt4 L k)
    ∗ ∃ W', ⌜∀ p ∈ W', p ∈ W ∨ p.2 = none⌝ ∗ owes (thr4 d L) O W')

/-! ## Geometry of the index scratch: the two slots, the four index lists -/

omit [FloatOps F] in
/-- The slot a prefetch writes (slot `1 - k % 2`) and the slot the trip reads (slot `k % 2`) are disjoint. -/
theorem slots_disj4 (k : Fin k4_t1_loop.trips) (hA : Act4 L k) (h2 : k4_cond2 L k = 1#1) :
    Disjoint (((sI).slice (Rect.unit (s := S2x4x128) (k4_off4 k) S1x4x128.size (k4_off4_inb L k hA h2)) (fun _ => rfl)).squeeze S4x128 squeezes_S1x4x128_S4x128).view.set
      (sSl4 L k hA).view.set := by
  show Disjoint ((((sI).view.slice (Rect.unit (s := S2x4x128) (k4_off4 k) S1x4x128.size (k4_off4_inb L k hA h2))).reshape S4x128 squeezes_S1x4x128_S4x128.numel_eq).set)
    ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  refine Rect.unit_disjoint 0 ?_
  rw [k4_off4_eq, k4_off2_eq]
  simp
  omega
omit [FloatOps F] in
theorem list6_disj4 (k : Fin k4_t1_loop.trips) (hA : Act4 L k) (h2 : k4_cond2 L k = 1#1) :
    Disjoint (((sI).slice (Rect.unit (s := S2x4x128) (k4_off6 k) S1x1x128.size (k4_off6_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off6 k) S1x1x128.size (k4_off6_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off6_eq]
  simp
  omega

omit [FloatOps F] in
/-- Index list `0` of the trip lies in the trip's slot. -/
theorem list6_sub4 (k : Fin k4_t1_loop.trips) (hA : Act4 L k) :
    (((sI).slice (Rect.unit (s := S2x4x128) (k4_off6 k) S1x1x128.size (k4_off6_inb L k hA)) (fun _ => rfl)).squeeze S128 squeezes_S1x1x128_S128).view.set
      ⊆ (sSl4 L k hA).view.set := by
  show ((((sI).view.slice (Rect.unit (s := S2x4x128) (k4_off6 k) S1x1x128.size (k4_off6_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off6 k) S1x1x128.size (k4_off6_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list6_disj4 L k hA h2) hi) hm)]
  exact hS i (list6_sub4 L k hA hi)

/-- So the words of index list `0` name rows of the table. -/
theorem list6_inr4 (k : Fin k4_t1_loop.trips) (hA : Act4 L k) (S' : Buf (Elt F) ((thr4 d L).loc cc4_scratch0))
    (hS' : ∀ i ∈ (((sI).slice (Rect.unit (s := S2x4x128) (k4_off6 k) S1x1x128.size (k4_off6_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off6 k) S1x1x128.size (k4_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj4 (k : Fin k4_t1_loop.trips) (hA : Act4 L k) (h2 : k4_cond2 L k = 1#1) :
    Disjoint (((sI).slice (Rect.unit (s := S2x4x128) (k4_off7 k) S1x1x128.size (k4_off7_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off7 k) S1x1x128.size (k4_off7_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off7_eq]
  simp
  omega

omit [FloatOps F] in
/-- Index list `1` of the trip lies in the trip's slot. -/
theorem list7_sub4 (k : Fin k4_t1_loop.trips) (hA : Act4 L k) :
    (((sI).slice (Rect.unit (s := S2x4x128) (k4_off7 k) S1x1x128.size (k4_off7_inb L k hA)) (fun _ => rfl)).squeeze S128 squeezes_S1x1x128_S128).view.set
      ⊆ (sSl4 L k hA).view.set := by
  show ((((sI).view.slice (Rect.unit (s := S2x4x128) (k4_off7 k) S1x1x128.size (k4_off7_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off7 k) S1x1x128.size (k4_off7_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list7_disj4 L k hA h2) hi) hm)]
  exact hS i (list7_sub4 L k hA hi)

/-- So the words of index list `1` name rows of the table. -/
theorem list7_inr4 (k : Fin k4_t1_loop.trips) (hA : Act4 L k) (S' : Buf (Elt F) ((thr4 d L).loc cc4_scratch0))
    (hS' : ∀ i ∈ (((sI).slice (Rect.unit (s := S2x4x128) (k4_off7 k) S1x1x128.size (k4_off7_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off7 k) S1x1x128.size (k4_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj4 (k : Fin k4_t1_loop.trips) (hA : Act4 L k) (h2 : k4_cond2 L k = 1#1) :
    Disjoint (((sI).slice (Rect.unit (s := S2x4x128) (k4_off8 k) S1x1x128.size (k4_off8_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off8 k) S1x1x128.size (k4_off8_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off8_eq]
  simp
  omega

omit [FloatOps F] in
/-- Index list `2` of the trip lies in the trip's slot. -/
theorem list8_sub4 (k : Fin k4_t1_loop.trips) (hA : Act4 L k) :
    (((sI).slice (Rect.unit (s := S2x4x128) (k4_off8 k) S1x1x128.size (k4_off8_inb L k hA)) (fun _ => rfl)).squeeze S128 squeezes_S1x1x128_S128).view.set
      ⊆ (sSl4 L k hA).view.set := by
  show ((((sI).view.slice (Rect.unit (s := S2x4x128) (k4_off8 k) S1x1x128.size (k4_off8_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off8 k) S1x1x128.size (k4_off8_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list8_disj4 L k hA h2) hi) hm)]
  exact hS i (list8_sub4 L k hA hi)

/-- So the words of index list `2` name rows of the table. -/
theorem list8_inr4 (k : Fin k4_t1_loop.trips) (hA : Act4 L k) (S' : Buf (Elt F) ((thr4 d L).loc cc4_scratch0))
    (hS' : ∀ i ∈ (((sI).slice (Rect.unit (s := S2x4x128) (k4_off8 k) S1x1x128.size (k4_off8_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off8 k) S1x1x128.size (k4_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj4 (k : Fin k4_t1_loop.trips) (hA : Act4 L k) (h2 : k4_cond2 L k = 1#1) :
    Disjoint (((sI).slice (Rect.unit (s := S2x4x128) (k4_off9 k) S1x1x128.size (k4_off9_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off9 k) S1x1x128.size (k4_off9_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off9_eq]
  simp
  omega

omit [FloatOps F] in
/-- Index list `3` of the trip lies in the trip's slot. -/
theorem list9_sub4 (k : Fin k4_t1_loop.trips) (hA : Act4 L k) :
    (((sI).slice (Rect.unit (s := S2x4x128) (k4_off9 k) S1x1x128.size (k4_off9_inb L k hA)) (fun _ => rfl)).squeeze S128 squeezes_S1x1x128_S128).view.set
      ⊆ (sSl4 L k hA).view.set := by
  show ((((sI).view.slice (Rect.unit (s := S2x4x128) (k4_off9 k) S1x1x128.size (k4_off9_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off9 k) S1x1x128.size (k4_off9_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list9_disj4 L k hA h2) hi) hm)]
  exact hS i (list9_sub4 L k hA hi)

/-- So the words of index list `3` name rows of the table. -/
theorem list9_inr4 (k : Fin k4_t1_loop.trips) (hA : Act4 L k) (S' : Buf (Elt F) ((thr4 d L).loc cc4_scratch0))
    (hS' : ∀ i ∈ (((sI).slice (Rect.unit (s := S2x4x128) (k4_off9 k) S1x1x128.size (k4_off9_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off9 k) S1x1x128.size (k4_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond4 : ∀ k : Fin k4_t1_loop.trips, 1 ≤ k.val →
    Scalar.cmpi CmpIPredicate.ne (Scalar.extui (Scalar.cmpi CmpIPredicate.sge (Scf.iv 0#32 1#32 k) 1#32)) 0#32 = 1#1 := by decide

end Cert.KernelIdeal.KP

end
-- ==== Proof.TileVal4.lean ====
/-
  The values the task's transfers carry, call 4.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody4b
import proofs.«210879_g80607946211848_cont_9to1_m_1212_13_alg».proof.Proof.TileVal0

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable (d : Dev nD) (L : grid4.Coords)

/-! ## The slot and the chunk a trip prefetches are the next trip's; the first fetch's are trip 0's -/

/-- A 1 × 4 × 128 window of the index scratch, squeezed: its elements are its rectangle's. -/
theorem set_slot4 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc4_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk4 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v16_scv : Ref sig .scVector)).slice (Rect.unit (s := S250x4x128) off S1x4x128.size inb)).reshape S4x128 squeezes_S1x4x128_S4x128.numel_eq).set = _
  rw [View.set_reshape, View.set_slice_whole]

theorem slot_next_set4 (k k' : Fin k4_t1_loop.trips) (hk : k'.val = k.val + 1) (hA : Act4 L k) (hA' : Act4 L k') (h2 : k4_cond2 L k = 1#1) :
    (sSl4 L k' hA').view.set
      = (((sI).slice (Rect.unit (s := S2x4x128) (k4_off4 k) S1x4x128.size (k4_off4_inb L k hA h2)) (fun _ => rfl)).squeeze S4x128 squeezes_S1x4x128_S4x128).view.set := by
  rw [set_slot4, set_slot4]
  refine unit_set_congr ?_
  have e : (k.val + 1) % 2 = 1 - k.val % 2 := by omega
  rw [k4_off2_eq, k4_off4_eq, hk, e]

theorem chunk_next_set4 (k k' : Fin k4_t1_loop.trips) (hk : k'.val = k.val + 1) (hA : Act4 L k) (hA' : Act4 L k') (h2 : k4_cond2 L k = 1#1) :
    (iCh4 L k' hA').view.set
      = (((iW).slice (Rect.unit (s := S250x4x128) (k4_off5 L k) S1x4x128.size (k4_off5_inb L k hA h2)) (fun _ => rfl)).squeeze S4x128 squeezes_S1x4x128_S4x128).view.set := by
  rw [set_chunk4, set_chunk4]
  refine unit_set_congr ?_
  have e : 2 * (L 1).val + (L 0).val + 32 * (k.val + 1) = 2 * (L 1).val + (L 0).val + 32 * k.val + 32 := by omega
  rw [k4_off3_eq, k4_off5_eq, hk, e]

theorem slot_first_set4 (h0 : 0 < k4_t1_loop.trips) (hA0 : Act4 L ⟨0, h0⟩) :
    (sSl4 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot4, set_slot4]
  refine unit_set_congr ?_
  rw [k4_off2_eq]
  rfl

theorem chunk_first_set4 (h0 : 0 < k4_t1_loop.trips) (hA0 : Act4 L ⟨0, h0⟩) :
    (iCh4 L ⟨0, h0⟩ hA0).view.set
      = (((iW).slice (Rect.unit (s := S250x4x128) (k4_off1 L) S1x4x128.size (k4_off1_inb L)) (fun _ => rfl)).squeeze S4x128 squeezes_S1x4x128_S4x128).view.set := by
  rw [set_chunk4, set_chunk4]
  refine unit_set_congr ?_
  rw [k4_off3_eq, k4_off1_eq]
  rfl

/-! ## What an index fetch lands: the chunk's words, in the slot -/

/-- Where element `y` of a squeezed 1 × 4 × 128 window of the index scratch at offsets `off` lies. -/
theorem emb_slot4 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk4 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc4 d))

/-- A fetch of chunk `n` (below 250) into slot `p` leaves, on that slot, the words the slot image of a trip whose chunk
    is `n` shows. -/
theorem fetch_agrees4 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid4 L + 32 * t) % 250 = n)
    (S : Buf (Elt F) ((thr4 d L).loc cc4_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg4 d L I t i := by
  intro i hi
  obtain ⟨y, -, rfl⟩ := Finset.mem_map.mp hi
  rw [View.write_emb_of_mem _ _ (Finset.mem_univ y)]
  unfold slotImg4
  show I ((((iW).slice (Rect.unit (s := S250x4x128) offC S1x4x128.size inbC) (fun _ => rfl)).squeeze S4x128 squeezes_S1x4x128_S4x128).view.emb y) = I _
  congr 1
  funext a
  apply Fin.ext
  have c0 := emb_chunk4 offC inbC y 0
  have c1 := emb_chunk4 offC inbC y 1
  have c2 := emb_chunk4 offC inbC y 2
  have s1 := emb_slot4 offS inbS y 1
  have s2 := emb_slot4 offS inbS y 2
  subst hS hC
  match a with
  | 0 => exact c0.trans (show n + 0 = (wid4 L + 32 * t) % 250 from by omega)
  | 1 => exact c1.trans s1.symm
  | 2 => exact c2.trans s2.symm

/-- The prefetched slot shows the NEXT trip's chunk. -/
theorem slot_agree_next4 (k k' : Fin k4_t1_loop.trips) (hk : k'.val = k.val + 1) (hA : Act4 L k) (hA' : Act4 L k') (h2 : k4_cond2 L k = 1#1)
    (S : Buf (Elt F) ((thr4 d L).loc cc4_scratch0)) :
    SlotAgrees4 d L I k' hA' (View.write (Elt F) (((sI).slice (Rect.unit (s := S2x4x128) (k4_off4 k) S1x4x128.size (k4_off4_inb L k hA h2)) (fun _ => rfl)).squeeze S4x128 squeezes_S1x4x128_S4x128).view S
      (ReadAs.same.apply (View.read (Elt F) (((iW).slice (Rect.unit (s := S250x4x128) (k4_off5 L k) S1x4x128.size (k4_off5_inb L k hA h2)) (fun _ => rfl)).squeeze S4x128 squeezes_S1x4x128_S4x128).view I)) Finset.univ) := by
  intro i hi
  rw [slot_next_set4 L k k' hk hA hA' h2] at hi
  have hlt : wid4 L + 32 * k'.val < 250 := (tb4_act_iff L k').mp hA'
  exact fetch_agrees4 d L I (k4_off4 k) (k4_off4_inb L k hA h2) (k4_off5 L k) (k4_off5_inb L k hA h2) (1 - k.val % 2) (wid4 L + 32 * k.val + 32) k'.val (k4_off4_eq k) (k4_off5_eq L k)
    (by rw [hk] at hlt ⊢; omega) S i hi

/-- The first fetch's slot shows trip 0's chunk. -/
theorem slot_agree_first4 (h0 : 0 < k4_t1_loop.trips) (hA0 : Act4 L ⟨0, h0⟩) (S : Buf (Elt F) ((thr4 d L).loc cc4_scratch0)) :
    SlotAgrees4 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k4_off1 L) S1x4x128.size (k4_off1_inb L)) (fun _ => rfl)).squeeze S4x128 squeezes_S1x4x128_S4x128).view I)) Finset.univ) := by
  intro i hi
  rw [slot_first_set4 L h0 hA0] at hi
  have hlt : wid4 L + 32 * (⟨0, h0⟩ : Fin k4_t1_loop.trips).val < 250 := (tb4_act_iff L ⟨0, h0⟩).mp hA0
  exact fetch_agrees4 d L I ![0, 0, 0] inb_S2x4x128_S1x4x128_0_0_0 (k4_off1 L) (k4_off1_inb L) 0 (wid4 L) 0 rfl (k4_off1_eq L) (by simp only [] at hlt; omega) S i hi

/-! ## What a write-out carries: the gathered array on its window -/

/-- Where element `y` of a squeezed 1 × 128 × 128 window of the result at offsets `off` lies. -/
theorem emb_win4 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list4 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen4 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid4 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc4 d)) (S' : Buf (Elt F) ((thr4 d L).loc cc4_scratch0))
    (hS' : ∀ i ∈ (((sI).slice (Rect.unit (s := S2x4x128) offL S1x1x128.size inbL) (fun _ => rfl)).squeeze S128 squeezes_S1x1x128_S128).view.set, S' i = slotImg4 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win4 offW inbW y 0
  have w1 := emb_win4 offW inbW y 1
  have w2 := emb_win4 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg4
    congr 2
    have l1 := emb_list4 ![p, j.val, 0] inbL (S128.rowMajor.symm (Fin.cast hnum.symm (y gathers_S160000x128_S128x128.axis'))) 1
    have l2 := emb_list4 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val4_0 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off6 k) S1x1x128.size (k4_off6_inb L k hA)) (fun _ => rfl)).squeeze S128 squeezes_S1x1x128_S128).view.set, S' i = slotImg4 d L I k.val i)
    (hin : ∀ x : S128.Idx, (View.read (Elt F) (((sI).slice (Rect.unit (s := S2x4x128) (k4_off6 k) S1x1x128.size (k4_off6_inb L k hA)) (fun _ => rfl)).squeeze S128 squeezes_S1x1x128_S128).view S' x).toNat < 160000)
    (hI : ∀ i, (I i).toNat < 160000) :
    ∀ i ∈ (oWin4_0 L k hA).view.set,
      (oWin4_0 L k hA).view.writes (Elt F) G [⟨Rect.whole S128x128, ReadAs.same.apply (View.read (Elt F) (rPl4_0).view ((rPl4_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off6 k) S1x1x128.size (k4_off6_inb L k hA)) (fun _ => rfl)).squeeze S128 squeezes_S1x1x128_S128).view S') (by decide) hin)⟩]))⟩] i
        = gath (F := F) X I i :=
  win_val_gen4 d L I X (k4_off10 L k) (k4_off10_inb L k hA) (k4_off6 k) (k4_off6_inb L k hA) 0 (k.val % 2) (wid4 L + 32 * k.val)
    (256 * (L 1).val + 128 * (L 0).val + 4096 * k.val) k.val (k4_off10_eq L k)
    (show 256 * (L 1).val + 128 * (L 0).val + 4096 * k.val = 128 * (2 * (L 1).val + (L 0).val + 32 * k.val) by omega)
    (k4_off6_eq k) (Nat.mod_eq_of_lt ((tb4_act_iff L k).mp hA)) (rPl4_0).view r (by decide) G S' hS' hin hI

/-- Plane 1 of a trip: its window of the result, written with the plane of the row scratch after the gather of the rows
    its index list names, holds the gathered array. -/
theorem win_val4_1 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off7 k) S1x1x128.size (k4_off7_inb L k hA)) (fun _ => rfl)).squeeze S128 squeezes_S1x1x128_S128).view.set, S' i = slotImg4 d L I k.val i)
    (hin : ∀ x : S128.Idx, (View.read (Elt F) (((sI).slice (Rect.unit (s := S2x4x128) (k4_off7 k) S1x1x128.size (k4_off7_inb L k hA)) (fun _ => rfl)).squeeze S128 squeezes_S1x1x128_S128).view S' x).toNat < 160000)
    (hI : ∀ i, (I i).toNat < 160000) :
    ∀ i ∈ (oWin4_1 L k hA).view.set,
      (oWin4_1 L k hA).view.writes (Elt F) G [⟨Rect.whole S128x128, ReadAs.same.apply (View.read (Elt F) (rPl4_1).view ((rPl4_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off7 k) S1x1x128.size (k4_off7_inb L k hA)) (fun _ => rfl)).squeeze S128 squeezes_S1x1x128_S128).view S') (by decide) hin)⟩]))⟩] i
        = gath (F := F) X I i :=
  win_val_gen4 d L I X (k4_off11 L k) (k4_off11_inb L k hA) (k4_off7 k) (k4_off7_inb L k hA) 1 (k.val % 2) (wid4 L + 32 * k.val)
    (256 * (L 1).val + 128 * (L 0).val + 4096 * k.val) k.val (k4_off11_eq L k)
    (show 256 * (L 1).val + 128 * (L 0).val + 4096 * k.val = 128 * (2 * (L 1).val + (L 0).val + 32 * k.val) by omega)
    (k4_off7_eq k) (Nat.mod_eq_of_lt ((tb4_act_iff L k).mp hA)) (rPl4_1).view r (by decide) G S' hS' hin hI

/-- Plane 2 of a trip: its window of the result, written with the plane of the row scratch after the gather of the rows
    its index list names, holds the gathered array. -/
theorem win_val4_2 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off8 k) S1x1x128.size (k4_off8_inb L k hA)) (fun _ => rfl)).squeeze S128 squeezes_S1x1x128_S128).view.set, S' i = slotImg4 d L I k.val i)
    (hin : ∀ x : S128.Idx, (View.read (Elt F) (((sI).slice (Rect.unit (s := S2x4x128) (k4_off8 k) S1x1x128.size (k4_off8_inb L k hA)) (fun _ => rfl)).squeeze S128 squeezes_S1x1x128_S128).view S' x).toNat < 160000)
    (hI : ∀ i, (I i).toNat < 160000) :
    ∀ i ∈ (oWin4_2 L k hA).view.set,
      (oWin4_2 L k hA).view.writes (Elt F) G [⟨Rect.whole S128x128, ReadAs.same.apply (View.read (Elt F) (rPl4_2).view ((rPl4_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off8 k) S1x1x128.size (k4_off8_inb L k hA)) (fun _ => rfl)).squeeze S128 squeezes_S1x1x128_S128).view S') (by decide) hin)⟩]))⟩] i
        = gath (F := F) X I i :=
  win_val_gen4 d L I X (k4_off12 L k) (k4_off12_inb L k hA) (k4_off8 k) (k4_off8_inb L k hA) 2 (k.val % 2) (wid4 L + 32 * k.val)
    (256 * (L 1).val + 128 * (L 0).val + 4096 * k.val) k.val (k4_off12_eq L k)
    (show 256 * (L 1).val + 128 * (L 0).val + 4096 * k.val = 128 * (2 * (L 1).val + (L 0).val + 32 * k.val) by omega)
    (k4_off8_eq k) (Nat.mod_eq_of_lt ((tb4_act_iff L k).mp hA)) (rPl4_2).view r (by decide) G S' hS' hin hI

/-- Plane 3 of a trip: its window of the result, written with the plane of the row scratch after the gather of the rows
    its index list names, holds the gathered array. -/
theorem win_val4_3 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off9 k) S1x1x128.size (k4_off9_inb L k hA)) (fun _ => rfl)).squeeze S128 squeezes_S1x1x128_S128).view.set, S' i = slotImg4 d L I k.val i)
    (hin : ∀ x : S128.Idx, (View.read (Elt F) (((sI).slice (Rect.unit (s := S2x4x128) (k4_off9 k) S1x1x128.size (k4_off9_inb L k hA)) (fun _ => rfl)).squeeze S128 squeezes_S1x1x128_S128).view S' x).toNat < 160000)
    (hI : ∀ i, (I i).toNat < 160000) :
    ∀ i ∈ (oWin4_3 L k hA).view.set,
      (oWin4_3 L k hA).view.writes (Elt F) G [⟨Rect.whole S128x128, ReadAs.same.apply (View.read (Elt F) (rPl4_3).view ((rPl4_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off9 k) S1x1x128.size (k4_off9_inb L k hA)) (fun _ => rfl)).squeeze S128 squeezes_S1x1x128_S128).view S') (by decide) hin)⟩]))⟩] i
        = gath (F := F) X I i :=
  win_val_gen4 d L I X (k4_off13 L k) (k4_off13_inb L k hA) (k4_off9 k) (k4_off9_inb L k hA) 3 (k.val % 2) (wid4 L + 32 * k.val)
    (256 * (L 1).val + 128 * (L 0).val + 4096 * k.val) k.val (k4_off13_eq L k)
    (show 256 * (L 1).val + 128 * (L 0).val + 4096 * k.val = 128 * (2 * (L 1).val + (L 0).val + 32 * k.val) by omega)
    (k4_off9_eq k) (Nat.mod_eq_of_lt ((tb4_act_iff L k).mp hA)) (rPl4_3).view r (by decide) G S' hS' hin hI

end Cert.KernelIdeal.KP

end
-- ==== Proof.TileTrip4.lean ====
/-
  One trip of the loop of call 4's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal4

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The table's share as the remainder and one read token per gather semaphore. -/
def xPart4 : sProp 𝕄 :=
  iprop(((xW).view.loc (thr4 d L) ↦{Transfers.shareDrop q 4} X) ∗ ((xW).view.loc (thr4 d L) ↦{Transfers.shareTok q 4 0} X) ∗ ((xW).view.loc (thr4 d L) ↦{Transfers.shareTok q 4 1} X)
    ∗ ((xW).view.loc (thr4 d L) ↦{Transfers.shareTok q 4 2} X) ∗ ((xW).view.loc (thr4 d L) ↦{Transfers.shareTok q 4 3} X))
/-- The gather semaphores at rest. -/
def gsems4 : sProp 𝕄 :=
  iprop(semVal (cellD4 d L cc4_scratch2) 0 ∗ semVal (cellD4 d L cc4_scratch3) 0 ∗ semVal (cellD4 d L cc4_scratch4) 0 ∗ semVal (cellD4 d L cc4_scratch5) 0)
/-- The index fetch of an active trip `t` in flight. -/
def idxFly4 (t : Fin k4_t1_loop.trips) (h : Act4 L t) : sProp 𝕄 :=
  iprop(∃ S, ⌜SlotAgrees4 d L I t h S⌝
    ∗ Transfers.Flight countersEmb (thr4 d L) (SemLoc.dma cc4_scratch10.sem) (default : HIx 5) 16384 (idxDeliv4 d L q I t h S)
    ∗ ((iW).view.loc (thr4 d L) ↦[Finset.univ \ (iCh4 L t h).view.set]{q} I)
    ∗ ((sI).view.loc (thr4 d L) ↦[Finset.univ \ (sSl4 L t h).view.set]{fullShare} S))
/-- The four write-outs of an active trip `t` in flight. -/
def rowsFly4 (t : Fin k4_t1_loop.trips) (h : Act4 L t) : sProp 𝕄 :=
  iprop(∃ r0 r1 r2 r3, Transfers.Flight countersEmb (thr4 d L) (SemLoc.dma cc4_scratch6.sem) (default : HIx 5) 524288 (wDeliv4 d L X I t h 0 (pl4_0 d L r0))
    ∗ Transfers.Flight countersEmb (thr4 d L) (SemLoc.dma cc4_scratch7.sem) (default : HIx 5) 524288 (wDeliv4 d L X I t h 1 (pl4_1 d L r1))
    ∗ Transfers.Flight countersEmb (thr4 d L) (SemLoc.dma cc4_scratch8.sem) (default : HIx 5) 524288 (wDeliv4 d L X I t h 2 (pl4_2 d L r2))
    ∗ Transfers.Flight countersEmb (thr4 d L) (SemLoc.dma cc4_scratch9.sem) (default : HIx 5) 524288 (wDeliv4 d L X I t h 3 (pl4_3 d L r3)))
omit [FloatOps F] in
/-- One more wait recorded at index `none` keeps the recorded waits within `W` and index `none`. -/
theorem none_ins4 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart4 (O : CellTallies nD τ sig (HIx 5)) (W : Waits sig (HIx 5)) : sProp 𝕄 :=
  iprop(∃ W', ⌜∀ p ∈ W', p ∈ W ∨ p.2 = none⌝ ∗ owes (thr4 d L) O W')

/-- The index side at rest: the semaphore at zero, block and scratch whole. -/
def idxIdle4 : sProp 𝕄 :=
  iprop(semVal (cellD4 d L cc4_scratch10) 0 ∗ ((iW).view.loc (thr4 d L) ↦{q} I) ∗ ∃ S, (sI).view.loc (thr4 d L) ↦{fullShare} S)
/-- The row scratch and the write-out semaphores at rest. -/
def rowsIdle4 : sProp 𝕄 :=
  iprop((semVal (cellD4 d L cc4_scratch6) 0 ∗ ∃ r, pl4_0 d L r) ∗ (semVal (cellD4 d L cc4_scratch7) 0 ∗ ∃ r, pl4_1 d L r)
    ∗ (semVal (cellD4 d L cc4_scratch8) 0 ∗ ∃ r, pl4_2 d L r) ∗ (semVal (cellD4 d L cc4_scratch9) 0 ∗ ∃ r, pl4_3 d L r))

/-- On the first trip the loop's test `i ≥ 1` fails (in the words the body computes it with). -/
theorem lt1_cond4 : ∀ k : Fin k4_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA4 (O : CellTallies nD τ sig (HIx 5)) (W : Waits sig (HIx 5))
    (k tp k' : Fin k4_t1_loop.trips) (hp : tp.val + 1 = k.val) (hk' : k'.val = k.val + 1) (hA : Act4 L k) (hAp : Act4 L tp) (hA' : Act4 L k')
    (h2 : k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsFly4 d L X I tp hAp ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxFly4 d L q I k' hA' ∗ gsems4 d L ∗ rowsFly4 d L X I k hA
            ∗ oWins4 d L tp hAp (gath (F := F) X I) ∗ owesPart4 d L O W ∗ R) := by
  unfold xPart4 idxFly4 gsems4 rowsFly4 oWins4 owesPart4
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have hdisj := slots_disj4 L k hA h2
  have hd6 := list6_disj4 L k hA h2
  have hd7 := list7_disj4 L k hA h2
  have hd8 := list8_disj4 L k hA h2
  have hd9 := list9_disj4 L k hA h2
  have hk1 : 1 ≤ k.val := by omega
  have k4_h3 := ge1_cond4 k hk1
  sl_unfold [k4_t1_body]
  sl_exec
  have hin6 := list6_inr4 d L I k hA (tripA4.sl.HsI_w0 d L I k hA h2 S) (list6_agree4 d L I k hA h2 S hS _) hI
  have hin7 := list7_inr4 d L I k hA (tripA4.sl.HsI_w0 d L I k hA h2 S) (list7_agree4 d L I k hA h2 S hS _) hI
  have hin8 := list8_inr4 d L I k hA (tripA4.sl.HsI_w0 d L I k hA h2 S) (list8_agree4 d L I k hA h2 S hS _) hI
  have hin9 := list9_inr4 d L I k hA (tripA4.sl.HsI_w0 d L I k hA h2 S) (list9_agree4 d L I k hA h2 S hS _) hI
  sl_exec
  have hw0 : (((oWin4_0 L k hA).view.loc (thr4 d L) ↦[(oWin4_0 L k hA).view.set]{fullShare}
      ((oWin4_0 L k hA).view.writes (Elt F) G [⟨Rect.whole S128x128, tripA4.sl.dma0_1 d L X I k hA h2 S r0 hin6⟩])) : sProp 𝕄)
      = ((oW).view.loc (thr4 d L) ↦[oSet4 L k hA 0]{fullShare} gath (F := F) X I) :=
    pointsTo_congr (win_val4_0 d L I X k hA G r0 _ (list6_agree4 d L I k hA h2 S hS _) hin6 hI)
  have hw1 : (((oWin4_1 L k hA).view.loc (thr4 d L) ↦[(oWin4_1 L k hA).view.set]{fullShare}
      ((oWin4_1 L k hA).view.writes (Elt F) G [⟨Rect.whole S128x128, tripA4.sl.dma0_2 d L X I k hA h2 S r1 hin7⟩])) : sProp 𝕄)
      = ((oW).view.loc (thr4 d L) ↦[oSet4 L k hA 1]{fullShare} gath (F := F) X I) :=
    pointsTo_congr (win_val4_1 d L I X k hA G r1 _ (list7_agree4 d L I k hA h2 S hS _) hin7 hI)
  have hw2 : (((oWin4_2 L k hA).view.loc (thr4 d L) ↦[(oWin4_2 L k hA).view.set]{fullShare}
      ((oWin4_2 L k hA).view.writes (Elt F) G [⟨Rect.whole S128x128, tripA4.sl.dma0_3 d L X I k hA h2 S r2 hin8⟩])) : sProp 𝕄)
      = ((oW).view.loc (thr4 d L) ↦[oSet4 L k hA 2]{fullShare} gath (F := F) X I) :=
    pointsTo_congr (win_val4_2 d L I X k hA G r2 _ (list8_agree4 d L I k hA h2 S hS _) hin8 hI)
  have hw3 : (((oWin4_3 L k hA).view.loc (thr4 d L) ↦[(oWin4_3 L k hA).view.set]{fullShare}
      ((oWin4_3 L k hA).view.writes (Elt F) G [⟨Rect.whole S128x128, tripA4.sl.dma0_4 d L X I k hA h2 S r3 hin9⟩])) : sProp 𝕄)
      = ((oW).view.loc (thr4 d L) ↦[oSet4 L k hA 3]{fullShare} gath (F := F) X I) :=
    pointsTo_congr (win_val4_3 d L I X k hA G r3 _ (list9_agree4 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA4.sl.HsI_w0 d L I k hA h2 S)
    isplitr
    · ipureintro; exact slot_agree_next4 d L I k k' hk' hA hA' h2 S
    rw [slot_next_set4 L k k' hk' hA hA' h2, chunk_next_set4 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr4 d L) (sep_mono_left (Entails.of_eq hw0))) $$ Hf0
    isplitl [Hf1]
    · iapply (Transfers.Flight_mono countersEmb (thr4 d L) (sep_mono_left (Entails.of_eq hw1))) $$ Hf1
    isplitl [Hf2]
    · iapply (Transfers.Flight_mono countersEmb (thr4 d L) (sep_mono_left (Entails.of_eq hw2))) $$ Hf2
    · iapply (Transfers.Flight_mono countersEmb (thr4 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins4 (none_ins4 (none_ins4 (none_ins4 (none_ins4 (none_ins4 (none_ins4 (none_ins4 (none_ins4 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB4 (O : CellTallies nD τ sig (HIx 5)) (W : Waits sig (HIx 5))
    (k tp : Fin k4_t1_loop.trips) (hp : tp.val + 1 = k.val) (hA : Act4 L k) (hAp : Act4 L tp)
    (hn2 : ¬ k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsFly4 d L X I tp hAp ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxIdle4 d L q I ∗ gsems4 d L ∗ rowsFly4 d L X I k hA
            ∗ oWins4 d L tp hAp (gath (F := F) X I) ∗ owesPart4 d L O W ∗ R) := by
  unfold xPart4 idxFly4 idxIdle4 gsems4 rowsFly4 oWins4 owesPart4
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have k4_h2 : ¬ k4_cond2 L k = 1#1 := hn2
  have hk1 : 1 ≤ k.val := by omega
  have k4_h3 := ge1_cond4 k hk1
  have hin6 := list6_inr4 d L I k hA S (fun i hi => hS i (list6_sub4 L k hA hi)) hI
  have hin7 := list7_inr4 d L I k hA S (fun i hi => hS i (list7_sub4 L k hA hi)) hI
  have hin8 := list8_inr4 d L I k hA S (fun i hi => hS i (list8_sub4 L k hA hi)) hI
  have hin9 := list9_inr4 d L I k hA S (fun i hi => hS i (list9_sub4 L k hA hi)) hI
  sl_unfold [k4_t1_body]
  sl_exec
  have hw0 : (((oWin4_0 L k hA).view.loc (thr4 d L) ↦[(oWin4_0 L k hA).view.set]{fullShare}
      ((oWin4_0 L k hA).view.writes (Elt F) G [⟨Rect.whole S128x128, tripB4.sl.dma0 d L X k hA S r0 hin6⟩])) : sProp 𝕄)
      = ((oW).view.loc (thr4 d L) ↦[oSet4 L k hA 0]{fullShare} gath (F := F) X I) :=
    pointsTo_congr (win_val4_0 d L I X k hA G r0 S (fun i hi => hS i (list6_sub4 L k hA hi)) hin6 hI)
  have hw1 : (((oWin4_1 L k hA).view.loc (thr4 d L) ↦[(oWin4_1 L k hA).view.set]{fullShare}
      ((oWin4_1 L k hA).view.writes (Elt F) G [⟨Rect.whole S128x128, tripB4.sl.dma0_1 d L X k hA S r1 hin7⟩])) : sProp 𝕄)
      = ((oW).view.loc (thr4 d L) ↦[oSet4 L k hA 1]{fullShare} gath (F := F) X I) :=
    pointsTo_congr (win_val4_1 d L I X k hA G r1 S (fun i hi => hS i (list7_sub4 L k hA hi)) hin7 hI)
  have hw2 : (((oWin4_2 L k hA).view.loc (thr4 d L) ↦[(oWin4_2 L k hA).view.set]{fullShare}
      ((oWin4_2 L k hA).view.writes (Elt F) G [⟨Rect.whole S128x128, tripB4.sl.dma0_2 d L X k hA S r2 hin8⟩])) : sProp 𝕄)
      = ((oW).view.loc (thr4 d L) ↦[oSet4 L k hA 2]{fullShare} gath (F := F) X I) :=
    pointsTo_congr (win_val4_2 d L I X k hA G r2 S (fun i hi => hS i (list8_sub4 L k hA hi)) hin8 hI)
  have hw3 : (((oWin4_3 L k hA).view.loc (thr4 d L) ↦[(oWin4_3 L k hA).view.set]{fullShare}
      ((oWin4_3 L k hA).view.writes (Elt F) G [⟨Rect.whole S128x128, tripB4.sl.dma0_3 d L X k hA S r3 hin9⟩])) : sProp 𝕄)
      = ((oW).view.loc (thr4 d L) ↦[oSet4 L k hA 3]{fullShare} gath (F := F) X I) :=
    pointsTo_congr (win_val4_3 d L I X k hA G r3 S (fun i hi => hS i (list9_sub4 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr4 d L) (sep_mono_left (Entails.of_eq hw0))) $$ Hf0
    isplitl [Hf1]
    · iapply (Transfers.Flight_mono countersEmb (thr4 d L) (sep_mono_left (Entails.of_eq hw1))) $$ Hf1
    isplitl [Hf2]
    · iapply (Transfers.Flight_mono countersEmb (thr4 d L) (sep_mono_left (Entails.of_eq hw2))) $$ Hf2
    · iapply (Transfers.Flight_mono countersEmb (thr4 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins4 (none_ins4 (none_ins4 (none_ins4 (none_ins4 (none_ins4 (none_ins4 (none_ins4 (none_ins4 (hW')))))))))

set_option maxHeartbeats 1000000 in
set_option sl_exec.dmaWindow true in
/-- The first trip: from its index fetch in flight and the row scratch at rest to the index fetch of trip 1 and its own
    four write-outs in flight. -/
theorem tripC4 (O : CellTallies nD τ sig (HIx 5)) (W : Waits sig (HIx 5))
    (k k' : Fin k4_t1_loop.trips) (hk0 : k.val = 0) (hk' : k'.val = k.val + 1) (hA : Act4 L k) (hA' : Act4 L k')
    (h2 : k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsIdle4 d L ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxFly4 d L q I k' hA' ∗ gsems4 d L ∗ rowsFly4 d L X I k hA ∗ owesPart4 d L O W ∗ R) := by
  unfold xPart4 idxFly4 gsems4 rowsIdle4 rowsFly4 oWins4 owesPart4
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have k4_h3 := lt1_cond4 k hk0
  have hdisj := slots_disj4 L k hA h2
  have hd6 := list6_disj4 L k hA h2
  have hd7 := list7_disj4 L k hA h2
  have hd8 := list8_disj4 L k hA h2
  have hd9 := list9_disj4 L k hA h2
  sl_unfold [k4_t1_body]
  sl_exec
  have hin6 := list6_inr4 d L I k hA (tripC4.sl.HsI_w0 d L I k hA h2 S) (list6_agree4 d L I k hA h2 S hS _) hI
  have hin7 := list7_inr4 d L I k hA (tripC4.sl.HsI_w0 d L I k hA h2 S) (list7_agree4 d L I k hA h2 S hS _) hI
  have hin8 := list8_inr4 d L I k hA (tripC4.sl.HsI_w0 d L I k hA h2 S) (list8_agree4 d L I k hA h2 S hS _) hI
  have hin9 := list9_inr4 d L I k hA (tripC4.sl.HsI_w0 d L I k hA h2 S) (list9_agree4 d L I k hA h2 S hS _) hI
  sl_exec
  have hw0 : (((oWin4_0 L k hA).view.loc (thr4 d L) ↦[(oWin4_0 L k hA).view.set]{fullShare}
      ((oWin4_0 L k hA).view.writes (Elt F) G [⟨Rect.whole S128x128, tripC4.sl.dma0_1 d L X I k hA h2 S r0 hin6⟩])) : sProp 𝕄)
      = ((oW).view.loc (thr4 d L) ↦[oSet4 L k hA 0]{fullShare} gath (F := F) X I) :=
    pointsTo_congr (win_val4_0 d L I X k hA G r0 _ (list6_agree4 d L I k hA h2 S hS _) hin6 hI)
  have hw1 : (((oWin4_1 L k hA).view.loc (thr4 d L) ↦[(oWin4_1 L k hA).view.set]{fullShare}
      ((oWin4_1 L k hA).view.writes (Elt F) G [⟨Rect.whole S128x128, tripC4.sl.dma0_2 d L X I k hA h2 S r1 hin7⟩])) : sProp 𝕄)
      = ((oW).view.loc (thr4 d L) ↦[oSet4 L k hA 1]{fullShare} gath (F := F) X I) :=
    pointsTo_congr (win_val4_1 d L I X k hA G r1 _ (list7_agree4 d L I k hA h2 S hS _) hin7 hI)
  have hw2 : (((oWin4_2 L k hA).view.loc (thr4 d L) ↦[(oWin4_2 L k hA).view.set]{fullShare}
      ((oWin4_2 L k hA).view.writes (Elt F) G [⟨Rect.whole S128x128, tripC4.sl.dma0_3 d L X I k hA h2 S r2 hin8⟩])) : sProp 𝕄)
      = ((oW).view.loc (thr4 d L) ↦[oSet4 L k hA 2]{fullShare} gath (F := F) X I) :=
    pointsTo_congr (win_val4_2 d L I X k hA G r2 _ (list8_agree4 d L I k hA h2 S hS _) hin8 hI)
  have hw3 : (((oWin4_3 L k hA).view.loc (thr4 d L) ↦[(oWin4_3 L k hA).view.set]{fullShare}
      ((oWin4_3 L k hA).view.writes (Elt F) G [⟨Rect.whole S128x128, tripC4.sl.dma0_4 d L X I k hA h2 S r3 hin9⟩])) : sProp 𝕄)
      = ((oW).view.loc (thr4 d L) ↦[oSet4 L k hA 3]{fullShare} gath (F := F) X I) :=
    pointsTo_congr (win_val4_3 d L I X k hA G r3 _ (list9_agree4 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC4.sl.HsI_w0 d L I k hA h2 S)
    isplitr
    · ipureintro; exact slot_agree_next4 d L I k k' hk' hA hA' h2 S
    rw [slot_next_set4 L k k' hk' hA hA' h2, chunk_next_set4 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr4 d L) (sep_mono_left (Entails.of_eq hw0))) $$ Hw0
    isplitl [Hw1]
    · iapply (Transfers.Flight_mono countersEmb (thr4 d L) (sep_mono_left (Entails.of_eq hw1))) $$ Hw1
    isplitl [Hw2]
    · iapply (Transfers.Flight_mono countersEmb (thr4 d L) (sep_mono_left (Entails.of_eq hw2))) $$ Hw2
    · iapply (Transfers.Flight_mono countersEmb (thr4 d L) (sep_mono_left (Entails.of_eq hw3))) $$ Hw3
  isplitr [HR]
  rotate_left
  · iexact HR
  iexists _
  isplitr
  rotate_left
  · iexact HO
  · ipureintro
    exact none_ins4 (none_ins4 (none_ins4 (none_ins4 (none_ins4 (hW')))))

/-- An idle trip (its chunk number is 250 or more) does nothing. -/
theorem tripI4 (k : Fin k4_t1_loop.trips) (hnA : ¬ Act4 L k) (R : sProp 𝕄) :
    R ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => R := by
  iintro HR
  have k4_h1 : ¬ k4_cond1 L k = 1#1 := hnA
  sl_unfold [k4_t1_body]
  sl_exec
  sl_step
  iexact HR

end Cert.KernelIdeal.KP

end
-- ==== Proof.TileOut4.lean ====
/-
  The result's windows through the loop of call 4's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody4b

noncomputable section

namespace Cert.KernelIdeal.KP

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable (d : Dev nD) (L : grid4.Coords)

/-! ## Which trips are active -/

theorem wid_lt4 : wid4 L < 32 := by
  have h0 : (L 0).val < 2 := (L 0).isLt
  have h1 : (L 1).val < 16 := (L 1).isLt
  show 2 * (L 1).val + (L 0).val < 32
  omega

theorem act_iff_lt4 (t : Fin k4_t1_loop.trips) : Act4 L t ↔ t.val < nAct4 L := by
  have hw := wid_lt4 L
  refine (tb4_act_iff L t).trans ?_
  show wid4 L + 32 * t.val < 250 ↔ t.val < (250 - wid4 L + 31) / 32
  omega

theorem nAct_bounds4 : 7 ≤ nAct4 L ∧ nAct4 L ≤ 8 := by
  have hw := wid_lt4 L
  show 7 ≤ (250 - wid4 L + 31) / 32 ∧ (250 - wid4 L + 31) / 32 ≤ 8
  omega

theorem pre_iff_lt4 (k : Fin k4_t1_loop.trips) : k4_cond2 L k = 1#1 ↔ k.val + 1 < nAct4 L := by
  have hw := wid_lt4 L
  refine (tb4_pre_iff L k).trans ?_
  show wid4 L + 32 * k.val + 32 < 250 ↔ k.val + 1 < (250 - wid4 L + 31) / 32
  omega

theorem cnt_act4 (k : Fin k4_t1_loop.trips) (hA : Act4 L k) : cnt4 L k.val = k.val ∧ cnt4 L (k.val + 1) = k.val + 1 := by
  have h := (act_iff_lt4 L k).mp hA
  show min k.val (nAct4 L) = k.val ∧ min (k.val + 1) (nAct4 L) = k.val + 1
  omega

theorem cnt_idle4 (k : Fin k4_t1_loop.trips) (hnA : ¬ Act4 L k) : cnt4 L k.val = nAct4 L ∧ cnt4 L (k.val + 1) = nAct4 L := by
  have h : ¬ k.val < nAct4 L := fun h => hnA ((act_iff_lt4 L k).mpr h)
  show min k.val (nAct4 L) = nAct4 L ∧ min (k.val + 1) (nAct4 L) = nAct4 L
  omega

theorem cnt_end4 : cnt4 L k4_t1_loop.trips = nAct4 L := by
  have h := (nAct_bounds4 L).2
  show min k4_t1_loop.trips (nAct4 L) = nAct4 L
  rw [tb4_trips]
  omega

/-! ## The windows' family -/

variable (X : Buf (Elt F) (xLoc d)) (I : Buf (Elt F) (iLoc4 d)) (G : Buf (Elt F) (oLoc4 d))

/-- Trip `t`'s windows after `n` active trips: at the gathered array, in flight, or as found. -/
def outPhi4 (n : ℕ) (t : Fin k4_t1_loop.trips) : sProp 𝕄 :=
  if t.val + 1 < n then oTrip4 d L (gath (F := F) X I) t else if t.val + 1 = n then iprop(emp) else oTrip4 d L G t

theorem outPart4_eq (n : ℕ) : outPart4 d L X I G n = bigSep Finset.univ (outPhi4 d L X I G n) := rfl

theorem outPhi4_done {n : ℕ} {t : Fin k4_t1_loop.trips} (h : t.val + 1 < n) : outPhi4 d L X I G n t = oTrip4 d L (gath (F := F) X I) t := by
  unfold outPhi4; rw [if_pos h]
theorem outPhi4_flight {n : ℕ} {t : Fin k4_t1_loop.trips} (h : t.val + 1 = n) : outPhi4 d L X I G n t = (iprop(emp) : sProp 𝕄) := by
  unfold outPhi4; rw [if_neg (by omega), if_pos h]
theorem outPhi4_found {n : ℕ} {t : Fin k4_t1_loop.trips} (h : n < t.val + 1) : outPhi4 d L X I G n t = oTrip4 d L G t := by
  unfold outPhi4; rw [if_neg (by omega), if_neg (by omega)]

/-- Before any trip every window is as found. -/
theorem out_init4 : (bigSep Finset.univ fun t : Fin k4_t1_loop.trips => oTrip4 d L G t) = outPart4 d L X I G 0 := by
  rw [outPart4_eq]
  exact bigSep_congr fun t _ => (outPhi4_found d L X I G (Nat.succ_pos _)).symm

/-- Entering trip `k` (the trip before it, `tp`, in flight): its own windows come out, as found. -/
theorem out_take4 (k tp : Fin k4_t1_loop.trips) (hp : tp.val + 1 = k.val) (hA : Act4 L k) :
    outPart4 d L X I G k.val ⊢ iprop(oWins4 d L k hA G ∗ bigSep ((Finset.univ.erase k).erase tp) (outPhi4 d L X I G k.val)) := by
  have hne : tp ≠ k := fun e => by rw [e] at hp; omega
  rw [outPart4_eq, SparseCore.bigSep_erase' (Finset.mem_univ k),
    SparseCore.bigSep_erase' (Finset.mem_erase.mpr ⟨hne, Finset.mem_univ tp⟩),
    outPhi4_found d L X I G (Nat.lt_succ_self _), outPhi4_flight d L X I G hp, oTrip4_act d L k hA]
  iintro ⟨Hw, -, Hr⟩
  isplitl [Hw] <;> iassumption

/-- Leaving trip `k`: the previous trip's windows go back, at the gathered array; trip `k`'s are now the ones in flight. -/
theorem out_put4 (k tp : Fin k4_t1_loop.trips) (hp : tp.val + 1 = k.val) (hAp : Act4 L tp) :
    iprop(oWins4 d L tp hAp (gath (F := F) X I) ∗ bigSep ((Finset.univ.erase k).erase tp) (outPhi4 d L X I G k.val))
      ⊢ outPart4 d L X I G (k.val + 1) := by
  have hne : tp ≠ k := fun e => by rw [e] at hp; omega
  rw [outPart4_eq, SparseCore.bigSep_erase' (Finset.mem_univ k),
    SparseCore.bigSep_erase' (Finset.mem_erase.mpr ⟨hne, Finset.mem_univ tp⟩),
    outPhi4_flight d L X I G rfl, outPhi4_done d L X I G (show tp.val + 1 < k.val + 1 by omega), oTrip4_act d L tp hAp,
    show bigSep ((Finset.univ.erase k).erase tp) (outPhi4 d L X I G (k.val + 1)) = bigSep ((Finset.univ.erase k).erase tp) (outPhi4 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi4
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first4 (h0 : 0 < k4_t1_loop.trips) (hA : Act4 L ⟨0, h0⟩) :
    outPart4 d L X I G 0 ⊢ iprop(oWins4 d L ⟨0, h0⟩ hA G ∗ bigSep (Finset.univ.erase ⟨0, h0⟩) (outPhi4 d L X I G 0)) := by
  rw [outPart4_eq, SparseCore.bigSep_erase' (Finset.mem_univ (⟨0, h0⟩ : Fin k4_t1_loop.trips)),
    outPhi4_found d L X I G (Nat.succ_pos _), oTrip4_act d L ⟨0, h0⟩ hA]

/-- Leaving it: nothing goes back yet. -/
theorem out_put_first4 (h0 : 0 < k4_t1_loop.trips) :
    bigSep (Finset.univ.erase (⟨0, h0⟩ : Fin k4_t1_loop.trips)) (outPhi4 d L X I G 0) ⊢ outPart4 d L X I G 1 := by
  rw [outPart4_eq, SparseCore.bigSep_erase' (Finset.mem_univ (⟨0, h0⟩ : Fin k4_t1_loop.trips)),
    outPhi4_flight d L X I G (show (⟨0, h0⟩ : Fin k4_t1_loop.trips).val + 1 = 1 from rfl),
    show bigSep (Finset.univ.erase (⟨0, h0⟩ : Fin k4_t1_loop.trips)) (outPhi4 d L X I G 1) = bigSep (Finset.univ.erase (⟨0, h0⟩ : Fin k4_t1_loop.trips)) (outPhi4 d L X I G 0) from
      bigSep_congr fun t ht => by
        have h1 : t ≠ ⟨0, h0⟩ := (Finset.mem_erase.mp ht).1
        have h1' : t.val ≠ 0 := fun e => h1 (Fin.ext e)
        rw [outPhi4_found d L X I G (show 1 < t.val + 1 by omega), outPhi4_found d L X I G (Nat.succ_pos _)]]
  iintro Hr
  isplitr; · iempintro
  iexact Hr

/-- After the last active trip `tl`, with its windows back: every trip's windows hold the gathered array (the idle
    trips have none). -/
theorem out_final4 (tl : Fin k4_t1_loop.trips) (hAl : Act4 L tl) (hidle : ∀ t : Fin k4_t1_loop.trips, tl.val < t.val → ¬ Act4 L t) :
    iprop(outPart4 d L X I G (tl.val + 1) ∗ oWins4 d L tl hAl (gath (F := F) X I))
      ⊢ bigSep Finset.univ fun t : Fin k4_t1_loop.trips => oTrip4 d L (gath (F := F) X I) t := by
  rw [outPart4_eq, SparseCore.bigSep_erase' (Finset.mem_univ tl) (Φ := outPhi4 d L X I G (tl.val + 1)),
    SparseCore.bigSep_erase' (Finset.mem_univ tl) (Φ := fun t : Fin k4_t1_loop.trips => oTrip4 d L (gath (F := F) X I) t),
    outPhi4_flight d L X I G rfl, oTrip4_act d L tl hAl,
    show bigSep (Finset.univ.erase tl) (outPhi4 d L X I G (tl.val + 1)) = bigSep (Finset.univ.erase tl) (fun t : Fin k4_t1_loop.trips => oTrip4 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi4_done d L X I G (by omega)
        · have hi := hidle t (by omega)
          rw [outPhi4_found d L X I G (show tl.val + 1 < t.val + 1 by omega), oTrip4_idle d L t hi, oTrip4_idle d L t hi]]
  iintro ⟨⟨-, Hr⟩, Hw⟩
  isplitl [Hw] <;> iassumption

end Cert.KernelIdeal.KP

end
-- ==== Proof.TileScoped4.lean ====
/-
  The scoped storage of one vector subcore as call 4's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody4b

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable (d : Dev nD) (L : grid4.Coords)

/-! ## The task's nine semaphores among the subcore's own -/

/-- The nine DMA semaphores of the task, as semaphore locations. -/
def semS4 : List (SemLoc sig) := [SemLoc.dma cc4_scratch2.sem, SemLoc.dma cc4_scratch3.sem, SemLoc.dma cc4_scratch4.sem, SemLoc.dma cc4_scratch5.sem, SemLoc.dma cc4_scratch6.sem, SemLoc.dma cc4_scratch7.sem, SemLoc.dma cc4_scratch8.sem, SemLoc.dma cc4_scratch9.sem, SemLoc.dma cc4_scratch10.sem]

theorem semS4_nodup : (semS4).Nodup := by decide
theorem semS4_scoped : ∀ s ∈ semS4, (s : SemLoc sig).isScoped .scVector = true := by decide

/-- The same as cells of the tile's thread. -/
def semL4 : List (GSem nD τ sig) := semS4.map fun s => (thr4 d L, s)

theorem semL4_nodup : (semL4 d L).Nodup :=
  semS4_nodup.map fun _ _ h => (Prod.mk.inj h).2

theorem semL4_sub : (semL4 d L).toFinset ⊆ ownCells (thr4 d L) := by
  intro g hg
  rw [List.mem_toFinset, semL4, List.mem_map] at hg
  obtain ⟨s, hs, rfl⟩ := hg
  exact mem_ownCells.mpr ⟨rfl, semS4_scoped s hs⟩

/-- The subcore's own semaphores that the task does not use, each at zero. -/
def RestSems4 : sProp 𝕄 := bigSep (ownCells (thr4 d L) \ (semL4 d L).toFinset) fun g => semVal g 0

/-- The subcore's own semaphores at zero are the task's nine at zero and the rest. -/
theorem ownSems0_V4 :
    (ownSems0 (thr4 d L) : sProp 𝕄)
      = iprop(semVal (cellD4 d L cc4_scratch2) 0 ∗ semVal (cellD4 d L cc4_scratch3) 0 ∗ semVal (cellD4 d L cc4_scratch4) 0 ∗ semVal (cellD4 d L cc4_scratch5) 0 ∗ semVal (cellD4 d L cc4_scratch6) 0 ∗ semVal (cellD4 d L cc4_scratch7) 0 ∗ semVal (cellD4 d L cc4_scratch8) 0 ∗ semVal (cellD4 d L cc4_scratch9) 0 ∗ semVal (cellD4 d L cc4_scratch10) 0 ∗ RestSems4 d L) := by
  unfold SparseCore.Cfg.ownSems0 RestSems4
  rw [SparseCore.bigSep_sdiff_split' (semL4_sub d L), bigSep_eq_bigSepL (semL4 d L) (semL4_nodup d L)]
  unfold semL4 semS4
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs4 : sProp 𝕄 :=
  bigSep (((ownRefs (τ := τ) (.scVector (cV4 L) (jV4 L))).erase ((Proc.scVector (cV4 L) (jV4 L)).devRef cc4_scratch0)).erase
      ((Proc.scVector (cV4 L) (jV4 L)).devRef cc4_scratch1))
    fun b => iprop(∃ f, ((d, b) : Loc nD τ sig) ↦{fullShare} f)

/-- The subcore's own buffers are the index scratch, the row scratch, each at some contents, and the rest. -/
theorem ownBufs_V4 :
    (ownBufs (thr4 d L) : sProp 𝕄)
      = iprop((∃ f, (thr4 d L).loc cc4_scratch0 ↦{fullShare} f) ∗ (∃ f, (thr4 d L).loc cc4_scratch1 ↦{fullShare} f) ∗ RestBufs4 d L) := by
  unfold SparseCore.Cfg.ownBufs RestBufs4
  refine (SparseCore.bigSep_erase' (SparseCore.Cfg.mem_ownRefs_of_owner (p := Proc.scVector (cV4 L) (jV4 L))
    (b := (Proc.scVector (cV4 L) (jV4 L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV4 L) (jV4 L)) (b := (Proc.scVector (cV4 L) (jV4 L)).devRef cc4_scratch1) rfl⟩)]

/-! ## The whole arrays under the subcore's names -/

theorem pts_sI4 (f : Buf (Elt F) ((thr4 d L).loc cc4_scratch0)) :
    ((sI).view.loc (thr4 d L) ↦{fullShare} f : sProp 𝕄) = (thr4 d L).loc cc4_scratch0 ↦{fullShare} f := rfl
theorem pts_sR4 (f : Buf (Elt F) ((thr4 d L).loc cc4_scratch1)) :
    ((sR).view.loc (thr4 d L) ↦{fullShare} f : sProp 𝕄) = (thr4 d L).loc cc4_scratch1 ↦{fullShare} f := rfl
theorem pts_x4 (q : PosShare TreeShare) (f : Buf (Elt F) (xLoc d)) :
    ((xW).view.loc (thr4 d L) ↦{q} f : sProp 𝕄) = xLoc d ↦{q} f := rfl
theorem pts_i4 (q : PosShare TreeShare) (f : Buf (Elt F) (iLoc4 d)) :
    ((iW).view.loc (thr4 d L) ↦{q} f : sProp 𝕄) = iLoc4 d ↦{q} f := rfl
theorem pts_o4 (K : Finset S4x32000x128.Idx) (q : PosShare TreeShare) (f : Buf (Elt F) (oLoc4 d)) :
    ((oW).view.loc (thr4 d L) ↦[K]{q} f : sProp 𝕄) = oLoc4 d ↦[K]{q} f := rfl

/-! ## The row scratch is its four planes -/

theorem pl_inb4 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet4 (j : Fin 4) : Finset S4x128x128.Idx := (Rect.unit (s := S4x128x128) ![j.val, 0, 0] S1x128x128.size (pl_inb4 j)).set

theorem set_rPl4_0 : (rPl4_0).view.set = plSet4 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc4_scratch1 : Ref sig .scVector) _).trans rfl
theorem set_rPl4_1 : (rPl4_1).view.set = plSet4 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc4_scratch1 : Ref sig .scVector) _).trans rfl
theorem set_rPl4_2 : (rPl4_2).view.set = plSet4 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc4_scratch1 : Ref sig .scVector) _).trans rfl
theorem set_rPl4_3 : (rPl4_3).view.set = plSet4 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc4_scratch1 : Ref sig .scVector) _).trans rfl

/-- Different planes are disjoint: they differ in the first coordinate. -/
theorem pl_disjoint4 : ∀ i ∈ (Finset.univ : Finset (Fin 4)), ∀ j ∈ (Finset.univ : Finset (Fin 4)), i ≠ j → Disjoint (plSet4 i) (plSet4 j) := by
  intro i _ j _ h
  have hv := Fin.val_ne_of_ne h
  refine Rect.unit_disjoint 0 ?_
  simp
  omega

/-- The four planes cover the scratch. -/
theorem pl_cover4 : (Finset.univ : Finset (Fin 4)).biUnion plSet4 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet4
  rw [Rect.mem_set_unit]
  intro a
  fin_cases a <;> simp at h0 h1 h2 ⊢ <;> omega

/-- Holding the row scratch whole at `r` is holding its four planes at `r`. -/
theorem sR_planes4 (r : Buf (Elt F) ((thr4 d L).loc cc4_scratch1)) :
    ((thr4 d L).loc cc4_scratch1 ↦{fullShare} r : sProp 𝕄) = iprop(pl4_0 d L r ∗ pl4_1 d L r ∗ pl4_2 d L r ∗ pl4_3 d L r) := by
  have e : ((thr4 d L).loc cc4_scratch1 ↦{fullShare} r : sProp 𝕄)
      = bigSep Finset.univ fun j : Fin 4 => ((thr4 d L).loc cc4_scratch1 ↦[plSet4 j]{fullShare} r : sProp 𝕄) := by
    rw [← pointsTo_biUnion Finset.univ (ℓ := (thr4 d L).loc cc4_scratch1) plSet4 pl_disjoint4, pl_cover4]; try rfl
  rw [e, bigSep_univ_eq_bigSepL [(0 : Fin 4), 1, 2, 3] (by decide) (by decide)]
  unfold pl4_0 pl4_1 pl4_2 pl4_3
  rw [set_rPl4_0, set_rPl4_1, set_rPl4_2, set_rPl4_3]
  rfl

/-- Four planes at four contents join into the row scratch whole at some contents. -/
theorem sR_join4 (r0 r1 r2 r3 : Buf (Elt F) ((thr4 d L).loc cc4_scratch1)) :
    iprop(pl4_0 d L r0 ∗ pl4_1 d L r1 ∗ pl4_2 d L r2 ∗ pl4_3 d L r3)
      ⊢ (iprop(∃ r, (thr4 d L).loc cc4_scratch1 ↦{fullShare} r) : sProp 𝕄) := by
  have e : (bigSep Finset.univ fun j : Fin 4 => ((thr4 d L).loc cc4_scratch1 ↦[plSet4 j]{fullShare} (![r0, r1, r2, r3] : Fin 4 → Buf (Elt F) ((thr4 d L).loc cc4_scratch1)) j : sProp 𝕄))
      = iprop(pl4_0 d L r0 ∗ pl4_1 d L r1 ∗ pl4_2 d L r2 ∗ pl4_3 d L r3) := by
    rw [bigSep_univ_eq_bigSepL [(0 : Fin 4), 1, 2, 3] (by decide) (by decide)]
    unfold pl4_0 pl4_1 pl4_2 pl4_3
    rw [set_rPl4_0, set_rPl4_1, set_rPl4_2, set_rPl4_3]
    rfl
  rw [← e]
  iintro H
  ihave H' := (pointsTo_biUnion_join Finset.univ plSet4 (![r0, r1, r2, r3] : Fin 4 → Buf (Elt F) ((thr4 d L).loc cc4_scratch1)) r0 pl_disjoint4) $$ H
  icases H' with ⟨%g, -, Hg⟩
  rw [pl_cover4]
  iexists g; iexact Hg

/-! ## A read share of the table as a remainder and four tokens -/

theorem x_toks4 (q : PosShare TreeShare) (X : Buf (Elt F) (xLoc d)) :
    ((xW).view.loc (thr4 d L) ↦{q} X : sProp 𝕄)
      ⊣⊢ iprop(((xW).view.loc (thr4 d L) ↦{Transfers.shareDrop q 4} X) ∗ ((xW).view.loc (thr4 d L) ↦{Transfers.shareTok q 4 0} X)
          ∗ ((xW).view.loc (thr4 d L) ↦{Transfers.shareTok q 4 1} X) ∗ ((xW).view.loc (thr4 d L) ↦{Transfers.shareTok q 4 2} X)
          ∗ ((xW).view.loc (thr4 d L) ↦{Transfers.shareTok q 4 3} X)) := by
  have e : (iprop(((xW).view.loc (thr4 d L) ↦{Transfers.shareTok q 4 0} X)
          ∗ ((xW).view.loc (thr4 d L) ↦{Transfers.shareTok q 4 1} X) ∗ ((xW).view.loc (thr4 d L) ↦{Transfers.shareTok q 4 2} X)
          ∗ ((xW).view.loc (thr4 d L) ↦{Transfers.shareTok q 4 3} X)) : sProp 𝕄)
      = bigSep Finset.univ fun i : Fin 4 => ((xW).view.loc (thr4 d L) ↦{Transfers.shareTok q 4 i} X : sProp 𝕄) :=
    (bigSep_univ_eq_bigSepL [(0 : Fin 4), 1, 2, 3] (by decide) (by decide)
      (fun i : Fin 4 => ((xW).view.loc (thr4 d L) ↦{Transfers.shareTok q 4 i} X : sProp 𝕄))).symm
  rw [e]
  exact Transfers.pointsTo_toks q 4

end Cert.KernelIdeal.KP

end
-- ==== Proof.TileLoop4.lean ====
/-
  The body of call 4's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip4
import proofs.«210879_g80607946211848_cont_9to1_m_1212_13_alg».proof.Proof.TileOut4
import proofs.«210879_g80607946211848_cont_9to1_m_1212_13_alg».proof.Proof.TileScoped4

noncomputable section

namespace Cert.KernelIdeal.KP

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.KernelIdeal.main_v1_scv : Memref Cert.KernelIdeal.sig Kind.scVector Space.hbm Cert.KernelIdeal.S160000x128 EltTy.f32)
local notation "iW" => (Memref.whole Cert.KernelIdeal.main_v16_scv : Memref Cert.KernelIdeal.sig Kind.scVector Space.hbm Cert.KernelIdeal.S250x4x128 EltTy.i32)
local notation "oW" => (Memref.whole Cert.KernelIdeal.main_v17_scv : Memref Cert.KernelIdeal.sig Kind.scVector Space.hbm Cert.KernelIdeal.S4x32000x128 EltTy.f32)
local notation "sI" => (Memref.whole Cert.KernelIdeal.cc4_scratch0 : Memref Cert.KernelIdeal.sig Kind.scVector Space.vmem Cert.KernelIdeal.S2x4x128 EltTy.i32)
local notation "sR" => (Memref.whole Cert.KernelIdeal.cc4_scratch1 : Memref Cert.KernelIdeal.sig Kind.scVector Space.vmem Cert.KernelIdeal.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The row scratch and the write-out semaphores after `n` active trips. -/
def rowsAt4 : ℕ → sProp 𝕄
  | 0 => rowsIdle4 d L
  | m + 1 => if hm : m < k4_t1_loop.trips then (if hA : Act4 L ⟨m, hm⟩ then rowsFly4 d L X I ⟨m, hm⟩ hA else iprop(False)) else iprop(False)

/-- The index side before trip `k`. -/
def idxAt4 (k : ℕ) : sProp 𝕄 :=
  if hk : k < k4_t1_loop.trips then (if hA : Act4 L ⟨k, hk⟩ then idxFly4 d L q I ⟨k, hk⟩ hA else idxIdle4 d L q I) else idxIdle4 d L q I

/-- The loop's invariant before trip `k`. -/
def invL4 (O : CellTallies nD τ sig (HIx 5)) (W : Waits sig (HIx 5)) (k : ℕ) (_ : PUnit) : sProp 𝕄 :=
  iprop(Transfers.MayWaits (thr4 d L) (none : HIx 5) O ∗ xPart4 d L q X ∗ idxAt4 d L q I k ∗ gsems4 d L
    ∗ rowsAt4 d L X I (cnt4 L k) ∗ outPart4 d L X I G (cnt4 L k) ∗ owesPart4 d L O W)

omit [FloatOps F] in
theorem idxAt4_act (k : Fin k4_t1_loop.trips) (hA : Act4 L k) : idxAt4 d L q I k.val = idxFly4 d L q I k hA := by
  unfold idxAt4; rw [dif_pos k.isLt, dif_pos hA]
omit [FloatOps F] in
theorem idxAt4_idle (k : Fin k4_t1_loop.trips) (hnA : ¬ Act4 L k) : idxAt4 d L q I k.val = idxIdle4 d L q I := by
  unfold idxAt4; rw [dif_pos k.isLt, dif_neg hnA]
omit [FloatOps F] in
theorem idxAt4_end (k : ℕ) (hk : ¬ k < k4_t1_loop.trips) : idxAt4 d L q I k = idxIdle4 d L q I := by
  unfold idxAt4; rw [dif_neg hk]
omit [FloatOps F] in
theorem rowsAt4_succ (t : Fin k4_t1_loop.trips) (hA : Act4 L t) : rowsAt4 d L X I (t.val + 1) = rowsFly4 d L X I t hA := by
  show (if hm : t.val < k4_t1_loop.trips then (if hA : Act4 L ⟨t.val, hm⟩ then rowsFly4 d L X I ⟨t.val, hm⟩ hA else iprop(False)) else iprop(False)) = _
  rw [dif_pos t.isLt, dif_pos hA]

omit [FloatOps F] in
theorem out_take_first4' (k : Fin k4_t1_loop.trips) (hk0 : k.val = 0) (hA : Act4 L k) :
    outPart4 d L X I G k.val ⊢ iprop(oWins4 d L k hA G ∗ bigSep (Finset.univ.erase k) (outPhi4 d L X I G k.val)) := by
  obtain ⟨kv, hkv⟩ := k
  simp only at hk0
  subst hk0
  exact out_take_first4 d L X I G hkv hA

omit [FloatOps F] in
theorem out_put_first4' (k : Fin k4_t1_loop.trips) (hk0 : k.val = 0) :
    bigSep (Finset.univ.erase k) (outPhi4 d L X I G k.val) ⊢ outPart4 d L X I G (k.val + 1) := by
  obtain ⟨kv, hkv⟩ := k
  simp only at hk0
  subst hk0
  exact out_put_first4 d L X I G hkv

set_option maxHeartbeats 4000000 in
set_option sl_exec.dmaWindow true in
theorem tile_body4 (hF : (K (F := F)).Facts) (d : Dev nD) (L : grid4.Coords)
    (X : Buf (Elt F) (xLoc d)) (I : Buf (Elt F) (iLoc4 d)) (G : Buf (Elt F) (oLoc4 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo4 d X I G L
        ∗ scopedBufs (thr4 d L) ∗ scopedSems0 (thr4 d L) ∗ owes (thr4 d L) O W)
      ⊢ wp frame (wpE (defs₀ (F := F)) 𝒱₀ (thr4 d L) none) Set.univ
          (cc4__sc_gather_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10)
          fun _ => iprop(tileTd4 d X I L ∗ scopedBufs (thr4 d L) ∗ scopedSems0 (thr4 d L)
            ∗ ∃ W', ⌜∀ p ∈ W', p ∈ W ∨ p.2 = none⌝ ∗ owes (thr4 d L) O W') := by
  rw [(K (F := F)).scopedBufs_V hF d (cV4 L) (jV4 L), SparseCore.Cfg.scopedSems0_V (Val := Elt F) d (cV4 L) (jV4 L),
    ownSems0_V4, ownBufs_V4]
  unfold tileGo4 tileTd4
  rw [out_init4 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr4 d L) hO) $$ Hlv
  ihave Hx' := (Entails.of_eq (pts_x4 d L (qTile4 L) X).symm) $$ Hx
  ihave Hxt := (x_toks4 d L (qTile4 L) X).1 $$ Hx'
  icases Hxt with ⟨Hxr, Hx0, Hx1, Hx2, Hx3⟩
  ihave Hi' := (Entails.of_eq (pts_i4 d L (qTile4 L) I).symm) $$ Hi
  ihave HsI' := (Entails.of_eq (pts_sI4 d L s0).symm) $$ HsI
  ihave Hpl := (Entails.of_eq (sR_planes4 d L r)) $$ HsR
  icases Hpl with ⟨Hr0, Hr1, Hr2, Hr3⟩
  sl_unfold [cc4__sc_gather_body]
  sl_exec (disch := exact View.amount_pos _ _ (show 0 < S4x128.numel by decide))
  sl_for (invL4 d L (qTile4 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k4_t1_loop.trips = 8 := tb4_trips
    obtain ⟨hn7, hn8⟩ := nAct_bounds4 L
    by_cases hA : Act4 L k
    · obtain ⟨hc, hc'⟩ := cnt_act4 L k hA
      have hkA := (act_iff_lt4 L k).mp hA
      unfold invL4
      rw [hc, hc', idxAt4_act d L (qTile4 L) I k hA, rowsAt4_succ d L X I k hA]
      by_cases h2 : k4_cond2 L k = 1#1
      · have hlt := (pre_iff_lt4 L k).mp h2
        have hk1 : k.val + 1 < k4_t1_loop.trips := by omega
        have hA' : Act4 L ⟨k.val + 1, hk1⟩ := (act_iff_lt4 L ⟨k.val + 1, hk1⟩).mpr hlt
        rw [idxAt4_act d L (qTile4 L) I ⟨k.val + 1, hk1⟩ hA']
        rcases Nat.eq_zero_or_pos k.val with hk0 | hkp
        · -- the first trip
          have hrows0 : rowsAt4 d L X I k.val = rowsIdle4 d L := by rw [hk0]; rfl
          rw [hrows0]
          have hT := tripC4 d L (qTile4 L) X I G O W k ⟨k.val + 1, hk1⟩ hk0 rfl hA hA' h2 hin
            iprop(Transfers.MayWaits (thr4 d L) (none : HIx 5) O ∗ bigSep (Finset.univ.erase k) (outPhi4 d L X I G k.val))
          have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first4' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first4' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k4_t1_loop.trips := by omega
          have hp : (⟨k.val - 1, htp⟩ : Fin k4_t1_loop.trips).val + 1 = k.val := by simp only; omega
          have hAp : Act4 L ⟨k.val - 1, htp⟩ := (act_iff_lt4 L ⟨k.val - 1, htp⟩).mpr (by simp only; omega)
          have hrows : rowsAt4 d L X I k.val = rowsFly4 d L X I ⟨k.val - 1, htp⟩ hAp := by
            have h := rowsAt4_succ d L X I ⟨k.val - 1, htp⟩ hAp
            rwa [hp] at h
          rw [hrows]
          have hT := tripA4 d L (qTile4 L) X I G O W k ⟨k.val - 1, htp⟩ ⟨k.val + 1, hk1⟩ hp rfl hA hAp hA' h2 hin
            iprop(Transfers.MayWaits (thr4 d L) (none : HIx 5) O ∗ bigSep ((Finset.univ.erase k).erase ⟨k.val - 1, htp⟩) (outPhi4 d L X I G k.val))
          have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take4 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put4 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct4 L := fun h => h2 ((pre_iff_lt4 L k).mpr h)
        have hidx' : idxAt4 d L (qTile4 L) I (k.val + 1) = idxIdle4 d L (qTile4 L) I := by
          unfold idxAt4
          split_ifs with h1 h3
          · exact absurd ((act_iff_lt4 L ⟨k.val + 1, h1⟩).mp h3) hnlt
          · rfl
          · rfl
        rw [hidx']
        have htp : k.val - 1 < k4_t1_loop.trips := by omega
        have hp : (⟨k.val - 1, htp⟩ : Fin k4_t1_loop.trips).val + 1 = k.val := by simp only; omega
        have hAp : Act4 L ⟨k.val - 1, htp⟩ := (act_iff_lt4 L ⟨k.val - 1, htp⟩).mpr (by simp only; omega)
        have hrows : rowsAt4 d L X I k.val = rowsFly4 d L X I ⟨k.val - 1, htp⟩ hAp := by
          have h := rowsAt4_succ d L X I ⟨k.val - 1, htp⟩ hAp
          rwa [hp] at h
        rw [hrows]
        have hT := tripB4 d L (qTile4 L) X I G O W k ⟨k.val - 1, htp⟩ hp hA hAp h2 hin
          iprop(Transfers.MayWaits (thr4 d L) (none : HIx 5) O ∗ bigSep ((Finset.univ.erase k).erase ⟨k.val - 1, htp⟩) (outPhi4 d L X I G k.val))
        have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take4 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put4 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle4 L k hA
      have hge : nAct4 L ≤ k.val := Nat.not_lt.mp (fun h => hA ((act_iff_lt4 L k).mpr h))
      have hidx' : idxAt4 d L (qTile4 L) I (k.val + 1) = idxIdle4 d L (qTile4 L) I := by
        unfold idxAt4
        split_ifs with h1 h3
        · exact absurd ((act_iff_lt4 L ⟨k.val + 1, h1⟩).mp h3) (by simp only; omega)
        · rfl
        · rfl
      unfold invL4
      rw [hc, hc', idxAt4_idle d L (qTile4 L) I k hA, hidx']
      have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
          (Scalar.addi (Scalar.muli (BitVec.ofNat 32 (L 1).val) 2#32) (BitVec.ofNat 32 (L 0).val)) k () := rfl
      rw [hprog]
      exact tripI4 d L k hA _
  · -- the invariant before the first trip
    have h0 : 0 < k4_t1_loop.trips := by rw [tb4_trips]; omega
    have hA0 : Act4 L ⟨0, h0⟩ := (act_iff_lt4 L ⟨0, h0⟩).mpr (by have := (nAct_bounds4 L).1; simp only; omega)
    unfold invL4
    rw [show cnt4 L 0 = 0 from Nat.zero_min _, idxAt4_act d L (qTile4 L) I ⟨0, h0⟩ hA0, show rowsAt4 d L X I 0 = rowsIdle4 d L from rfl]
    unfold xPart4 idxFly4 gsems4 rowsIdle4 owesPart4 idxDeliv4
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first4 d L I h0 hA0 s0
      rw [slot_first_set4 L h0 hA0, chunk_first_set4 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds4 L
  have htr : k4_t1_loop.trips = 8 := tb4_trips
  obtain ⟨m, hm⟩ : ∃ m, nAct4 L = m + 1 := ⟨nAct4 L - 1, by omega⟩
  have hmlt : m < k4_t1_loop.trips := by omega
  have hAm : Act4 L ⟨m, hmlt⟩ := (act_iff_lt4 L ⟨m, hmlt⟩).mpr (by simp only; omega)
  have hidle : ∀ t : Fin k4_t1_loop.trips, (⟨m, hmlt⟩ : Fin k4_t1_loop.trips).val < t.val → ¬ Act4 L t :=
    fun t ht h => by have := (act_iff_lt4 L t).mp h; simp only at ht; omega
  unfold invL4
  rw [cnt_end4 L, idxAt4_end d L (qTile4 L) I _ (lt_irrefl _), hm, rowsAt4_succ d L X I ⟨m, hmlt⟩ hAm]
  unfold xPart4 idxIdle4 gsems4 rowsFly4 owesPart4
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv4 pl4_0 pl4_1 pl4_2 pl4_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x4 d L (qTile4 L) X))
      iapply (x_toks4 d L (qTile4 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i4 d L (qTile4 L) I)) $$ Hi
    iapply (out_final4 d L X I G ⟨m, hmlt⟩ hAm hidle)
    isplitl [Hout]; · iexact Hout
    unfold oWins4
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI4 d L S)) $$ HsI
    isplitl [Hf0_src Hf1_src Hf2_src Hf3_src]
    · iapply (sR_join4 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins4 (none_ins4 (none_ins4 (none_ins4 hW')))

end Cert.KernelIdeal.KP

end
-- ==== Proof.TileBody4aB.lean ====
/-
  Groundwork for the body of call 4's task on one vector subcore: the index chunks and the two slots of the index
  scratch as the loop slices them, the four planes of the row scratch, the loop's two conditions in closed form
  (trip t is active iff its chunk number 2 s + c + 32 t is below 250; it prefetches iff the next one is), the task's
  nine DMA semaphores among the subcore's own, and what the transfers carried from one trip to the next deliver.
-/
import proofs.«210879_g80607946211848_cont_9to1_m_1212_13_alg».proof.Proof.TileRes4B
import proofs.«210879_g80607946211848_cont_9to1_m_1212_13_alg».proof.Proof.Gen.Kernel.Skeleton

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

/-! ## The loop's conditions, in closed form -/

/-- The tile's number. -/
abbrev wid4 (L : grid4.Coords) : ℕ := 2 * (L 1).val + (L 0).val

theorem tb4_trips : k4_t1_loop.trips = 8 := by decide

theorem tb4_act_iff : ∀ (L : grid4.Coords) (t : Fin k4_t1_loop.trips), k4_cond1 L t = 1#1 ↔ wid4 L + 32 * t.val < 250 := by decide +kernel
theorem tb4_pre_iff : ∀ (L : grid4.Coords) (t : Fin k4_t1_loop.trips), k4_cond2 L t = 1#1 ↔ wid4 L + 32 * t.val + 32 < 250 := by decide +kernel

/-! ## The memrefs, as the loop slices them -/

/-- Index chunk of trip `t` (the copy's source the trip waits for). -/
abbrev iCh4 (L : grid4.Coords) (t : Fin k4_t1_loop.trips) (h : Act4 L t) : Memref sig .scVector .hbm S4x128 .i32 :=
  ((iW).slice (Rect.unit (s := S250x4x128) (k4_off3 L t) S1x4x128.size (k4_off3_inb L t h)) (fun _ => rfl)).squeeze S4x128 squeezes_S1x4x128_S4x128
/-- The slot of the index scratch trip `t` reads its indices from: slot `t % 2`. -/
abbrev sSl4 (L : grid4.Coords) (t : Fin k4_t1_loop.trips) (h : Act4 L t) : Memref sig .scVector .vmem S4x128 .i32 :=
  ((sI).slice (Rect.unit (s := S2x4x128) (k4_off2 t) S1x4x128.size (k4_off2_inb L t h)) (fun _ => rfl)).squeeze S4x128 squeezes_S1x4x128_S4x128
/-- Plane `j` of the row scratch. -/
abbrev rPl4_0 : Memref sig .scVector .vmem S128x128 .f32 :=
  ((sR).slice (Rect.unit (s := S4x128x128) ![0, 0, 0] S1x128x128.size inb_S4x128x128_S1x128x128_0_0_0) (fun _ => rfl)).squeeze S128x128 squeezes_S1x128x128_S128x128
abbrev rPl4_1 : Memref sig .scVector .vmem S128x128 .f32 :=
  ((sR).slice (Rect.unit (s := S4x128x128) ![1, 0, 0] S1x128x128.size inb_S4x128x128_S1x128x128_1_0_0) (fun _ => rfl)).squeeze S128x128 squeezes_S1x128x128_S128x128
abbrev rPl4_2 : Memref sig .scVector .vmem S128x128 .f32 :=
  ((sR).slice (Rect.unit (s := S4x128x128) ![2, 0, 0] S1x128x128.size inb_S4x128x128_S1x128x128_2_0_0) (fun _ => rfl)).squeeze S128x128 squeezes_S1x128x128_S128x128
abbrev rPl4_3 : Memref sig .scVector .vmem S128x128 .f32 :=
  ((sR).slice (Rect.unit (s := S4x128x128) ![3, 0, 0] S1x128x128.size inb_S4x128x128_S1x128x128_3_0_0) (fun _ => rfl)).squeeze S128x128 squeezes_S1x128x128_S128x128

/-! ## The task's semaphores -/

abbrev cellD4 (d : Dev nD) (L : grid4.Coords) (n : DmaSems sig S_) : GSem nD τ sig := (thr4 d L, SemLoc.dma n.sem)

end Cert.Kernel.KP

end
-- ==== Proof.TileBody4bB.lean ====
/-
  The loop of call 4's task on one vector subcore, as an invariant.  Before trip k, with n = min(k, number of active
  trips) trips done: the index fetch of trip k is in flight while that trip is active (its chunk of the index block
  and its slot of the index scratch lent, the slot to come back showing the chunk's words); the four write-outs of
  trip n - 1 are in flight (their windows of the result to come back at the gathered array, their planes of the row
  scratch lent); the windows of earlier trips hold the gathered array, those of later trips what the call found.
  Also here: the geometry of the index scratch (the two slots are disjoint; each of a trip's four index lists lies in
  the trip's slot, so its words are words of the index block and name rows of the table).
-/
import proofs.«210879_g80607946211848_cont_9to1_m_1212_13_alg».proof.Proof.TileBody4aB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The number of the tile's active trips: its chunks `w, w + 32, …` below 250. -/
abbrev nAct4 (L : grid4.Coords) : ℕ := (250 - wid4 L + 31) / 32
/-- The active trips among the first `k`. -/
abbrev cnt4 (L : grid4.Coords) (k : ℕ) : ℕ := min k (nAct4 L)

/-- The index scratch showing, in both slots, the words of trip `t`'s chunk (chunk number reduced modulo 250: the
    identity for an active trip). -/
def slotImg4 (t : ℕ) : Buf (Elt F) ((thr4 d L).loc cc4_scratch0) :=
  fun i => I (ix3 (⟨(wid4 L + 32 * t) % 250, Nat.mod_lt _ (by decide)⟩ : Fin 250) (i 1) (i 2))

/-- Contents `S` of the index scratch show, on the slot trip `t` reads, the words of the trip's chunk. -/
def SlotAgrees4 (t : Fin k4_t1_loop.trips) (h : Act4 L t) (S : Buf (Elt F) ((thr4 d L).loc cc4_scratch0)) : Prop :=
  ∀ i ∈ (sSl4 L t h).view.set, S i = slotImg4 d L I t.val i

/-- What the index fetch for trip `t` delivers: the slot at contents `S`, and the chunk's share back. -/
def idxDeliv4 (t : Fin k4_t1_loop.trips) (h : Act4 L t) (S : Buf (Elt F) ((thr4 d L).loc cc4_scratch0)) : sProp 𝕄 :=
  iprop(((sI).view.loc (thr4 d L) ↦[(sSl4 L t h).view.set]{fullShare} S)
    ∗ ((iW).view.loc (thr4 d L) ↦[(iCh4 L t h).view.set]{q} I))

/-- The index side before trip `k`: while the trip is active its chunk's fetch is in flight (the chunk and its slot
    lent); afterwards the semaphore rests at zero and block and scratch are whole. -/
def idxPart4 (k : ℕ) : sProp 𝕄 :=
  if hk : k < k4_t1_loop.trips then
    if hA : Act4 L ⟨k, hk⟩ then
      iprop(∃ S, ⌜SlotAgrees4 d L I ⟨k, hk⟩ hA S⌝
        ∗ Transfers.Flight countersEmb (thr4 d L) (SemLoc.dma cc4_scratch10.sem) (default : HIx 5) 16384 (idxDeliv4 d L q I ⟨k, hk⟩ hA S)
        ∗ ((iW).view.loc (thr4 d L) ↦[Finset.univ \ (iCh4 L ⟨k, hk⟩ hA).view.set]{q} I)
        ∗ ((sI).view.loc (thr4 d L) ↦[Finset.univ \ (sSl4 L ⟨k, hk⟩ hA).view.set]{fullShare} S))
    else iprop(semVal (cellD4 d L cc4_scratch10) 0 ∗ ((iW).view.loc (thr4 d L) ↦{q} I) ∗ ∃ s, (sI).view.loc (thr4 d L) ↦{fullShare} s)
  else iprop(semVal (cellD4 d L cc4_scratch10) 0 ∗ ((iW).view.loc (thr4 d L) ↦{q} I) ∗ ∃ s, (sI).view.loc (thr4 d L) ↦{fullShare} s)

/-- What the write-out of plane `j` of trip `t` delivers: the window at the gathered array, and the plane back. -/
def wDeliv4 (t : Fin k4_t1_loop.trips) (h : Act4 L t) (j : Fin 4) (Dsrc : sProp 𝕄) : sProp 𝕄 :=
  iprop(((oW).view.loc (thr4 d L) ↦[oSet4 L t h j]{fullShare} gath (F := F) X I) ∗ Dsrc)

/-- The four windows of trip `t` at contents `f`, each spelt through its own memref. -/
def oWins4 (t : Fin k4_t1_loop.trips) (h : Act4 L t) (f : Buf (Elt F) (oLoc4 d)) : sProp 𝕄 :=
  iprop(((oWin4_0 L t h).view.loc (thr4 d L) ↦[(oWin4_0 L t h).view.set]{fullShare} f)
    ∗ ((oWin4_1 L t h).view.loc (thr4 d L) ↦[(oWin4_1 L t h).view.set]{fullShare} f)
    ∗ ((oWin4_2 L t h).view.loc (thr4 d L) ↦[(oWin4_2 L t h).view.set]{fullShare} f)
    ∗ ((oWin4_3 L t h).view.loc (thr4 d L) ↦[(oWin4_3 L t h).view.set]{fullShare} f))

omit [FloatOps F] in
/-- An active trip's share of the result is its four windows. -/
theorem oTrip4_act (t : Fin k4_t1_loop.trips) (h : Act4 L t) (f : Buf (Elt F) (oLoc4 d)) :
    oTrip4 d L f t = oWins4 d L t h f := by
  unfold oTrip4 oWins4; rw [dif_pos h]

omit [FloatOps F] in
/-- An idle trip has none. -/
theorem oTrip4_idle (t : Fin k4_t1_loop.trips) (h : ¬ Act4 L t) (f : Buf (Elt F) (oLoc4 d)) :
    oTrip4 d L f t = (iprop(emp) : sProp 𝕄) := by
  unfold oTrip4; rw [dif_neg h]

/-- Plane `j` of the row scratch at contents `r`. -/
abbrev pl4_0 (r : Buf (Elt F) ((thr4 d L).loc cc4_scratch1)) : sProp 𝕄 := (rPl4_0).view.loc (thr4 d L) ↦[(rPl4_0).view.set]{fullShare} r
abbrev pl4_1 (r : Buf (Elt F) ((thr4 d L).loc cc4_scratch1)) : sProp 𝕄 := (rPl4_1).view.loc (thr4 d L) ↦[(rPl4_1).view.set]{fullShare} r
abbrev pl4_2 (r : Buf (Elt F) ((thr4 d L).loc cc4_scratch1)) : sProp 𝕄 := (rPl4_2).view.loc (thr4 d L) ↦[(rPl4_2).view.set]{fullShare} r
abbrev pl4_3 (r : Buf (Elt F) ((thr4 d L).loc cc4_scratch1)) : sProp 𝕄 := (rPl4_3).view.loc (thr4 d L) ↦[(rPl4_3).view.set]{fullShare} r

/-- The row scratch and the write-out semaphores after `n` active trips: none done, the planes and the semaphores
    rest; else the last trip's four write-outs are in flight. -/
def rowsPart4 (n : ℕ) : sProp 𝕄 :=
  if hn : 0 < n then
    if hk : n - 1 < k4_t1_loop.trips then
      if hA : Act4 L ⟨n - 1, hk⟩ then
        iprop(∃ r0 r1 r2 r3, Transfers.Flight countersEmb (thr4 d L) (SemLoc.dma cc4_scratch6.sem) (default : HIx 5) 524288 (wDeliv4 d L X I ⟨n - 1, hk⟩ hA 0 (pl4_0 d L r0))
          ∗ Transfers.Flight countersEmb (thr4 d L) (SemLoc.dma cc4_scratch7.sem) (default : HIx 5) 524288 (wDeliv4 d L X I ⟨n - 1, hk⟩ hA 1 (pl4_1 d L r1))
          ∗ Transfers.Flight countersEmb (thr4 d L) (SemLoc.dma cc4_scratch8.sem) (default : HIx 5) 524288 (wDeliv4 d L X I ⟨n - 1, hk⟩ hA 2 (pl4_2 d L r2))
          ∗ Transfers.Flight countersEmb (thr4 d L) (SemLoc.dma cc4_scratch9.sem) (default : HIx 5) 524288 (wDeliv4 d L X I ⟨n - 1, hk⟩ hA 3 (pl4_3 d L r3)))
      else iprop(False)
    else iprop(False)
  else
    iprop((semVal (cellD4 d L cc4_scratch6) 0 ∗ ∃ r, pl4_0 d L r) ∗ (semVal (cellD4 d L cc4_scratch7) 0 ∗ ∃ r, pl4_1 d L r)
      ∗ (semVal (cellD4 d L cc4_scratch8) 0 ∗ ∃ r, pl4_2 d L r) ∗ (semVal (cellD4 d L cc4_scratch9) 0 ∗ ∃ r, pl4_3 d L r))

/-- The result's windows after `n` active trips: the trips before the last at the gathered array, the last one's
    in flight, the later ones as found. -/
def outPart4 (n : ℕ) : sProp 𝕄 :=
  bigSep Finset.univ fun t : Fin k4_t1_loop.trips =>
    if t.val + 1 < n then oTrip4 d L (gath (F := F) X I) t else if t.val + 1 = n then iprop(emp) else oTrip4 d L G t

/-- The loop's invariant before trip `k`. -/
def inv4 (O : CellTallies nD τ sig (HIx 5)) (W : Waits sig (HIx 5)) (k : ℕ) (_ : PUnit) : sProp 𝕄 :=
  iprop(Transfers.MayWaits (thr4 d L) (none : HIx 5) O
    ∗ (((xW).view.loc (thr4 d L) ↦{Transfers.shareDrop q 4} X) ∗ ((xW).view.loc (thr4 d L) ↦{Transfers.shareTok q 4 0} X) ∗ ((xW).view.loc (thr4 d L) ↦{Transfers.shareTok q 4 1} X)
        ∗ ((xW).view.loc (thr4 d L) ↦{Transfers.shareTok q 4 2} X) ∗ ((xW).view.loc (thr4 d L) ↦{Transfers.shareTok q 4 3} X))
    ∗ idxPart4 d L q I k
    ∗ (semVal (cellD4 d L cc4_scratch2) 0 ∗ semVal (cellD4 d L cc4_scratch3) 0 ∗ semVal (cellD4 d L cc4_scratch4) 0 ∗ semVal (cellD4 d L cc4_scratch5) 0)
    ∗ rowsPart4 d L X I (cnt4 L k)
    ∗ outPart4 d L X I G (cnt4 L k)
    ∗ ∃ W', ⌜∀ p ∈ W', p ∈ W ∨ p.2 = none⌝ ∗ owes (thr4 d L) O W')

/-! ## Geometry of the index scratch: the two slots, the four index lists -/

omit [FloatOps F] in
/-- The slot a prefetch writes (slot `1 - k % 2`) and the slot the trip reads (slot `k % 2`) are disjoint. -/
theorem slots_disj4 (k : Fin k4_t1_loop.trips) (hA : Act4 L k) (h2 : k4_cond2 L k = 1#1) :
    Disjoint (((sI).slice (Rect.unit (s := S2x4x128) (k4_off4 k) S1x4x128.size (k4_off4_inb L k hA h2)) (fun _ => rfl)).squeeze S4x128 squeezes_S1x4x128_S4x128).view.set
      (sSl4 L k hA).view.set := by
  show Disjoint ((((sI).view.slice (Rect.unit (s := S2x4x128) (k4_off4 k) S1x4x128.size (k4_off4_inb L k hA h2))).reshape S4x128 squeezes_S1x4x128_S4x128.numel_eq).set)
    ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  refine Rect.unit_disjoint 0 ?_
  rw [k4_off4_eq, k4_off2_eq]
  simp
  omega
omit [FloatOps F] in
theorem list6_disj4 (k : Fin k4_t1_loop.trips) (hA : Act4 L k) (h2 : k4_cond2 L k = 1#1) :
    Disjoint (((sI).slice (Rect.unit (s := S2x4x128) (k4_off6 k) S1x1x128.size (k4_off6_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off6 k) S1x1x128.size (k4_off6_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off6_eq]
  simp
  omega

omit [FloatOps F] in
/-- Index list `0` of the trip lies in the trip's slot. -/
theorem list6_sub4 (k : Fin k4_t1_loop.trips) (hA : Act4 L k) :
    (((sI).slice (Rect.unit (s := S2x4x128) (k4_off6 k) S1x1x128.size (k4_off6_inb L k hA)) (fun _ => rfl)).squeeze S128 squeezes_S1x1x128_S128).view.set
      ⊆ (sSl4 L k hA).view.set := by
  show ((((sI).view.slice (Rect.unit (s := S2x4x128) (k4_off6 k) S1x1x128.size (k4_off6_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off6_eq] at hi
  intro a
  have h0 := hi 0; have h1 := hi 1; have h2 := hi 2
  fin_cases a <;> simp at h0 h1 h2 ⊢ <;> first | omega | exact h2

/-- Whatever is written through the prefetched slot, on index list `0` the scratch still shows the chunk's words. -/
theorem list6_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off6 k) S1x1x128.size (k4_off6_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list6_disj4 L k hA h2) hi) hm)]
  exact hS i (list6_sub4 L k hA hi)

/-- So the words of index list `0` name rows of the table. -/
theorem list6_inr4 (k : Fin k4_t1_loop.trips) (hA : Act4 L k) (S' : Buf (Elt F) ((thr4 d L).loc cc4_scratch0))
    (hS' : ∀ i ∈ (((sI).slice (Rect.unit (s := S2x4x128) (k4_off6 k) S1x1x128.size (k4_off6_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off6 k) S1x1x128.size (k4_off6_inb L k hA)) (fun _ => rfl)).squeeze S128 squeezes_S1x1x128_S128).view S' x).toNat < 160000 := by
  intro x
  rw [View.read_apply, hS' _ (View.emb_mem_set _ x)]
  exact hI _

omit [FloatOps F] in
theorem list7_disj4 (k : Fin k4_t1_loop.trips) (hA : Act4 L k) (h2 : k4_cond2 L k = 1#1) :
    Disjoint (((sI).slice (Rect.unit (s := S2x4x128) (k4_off7 k) S1x1x128.size (k4_off7_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off7 k) S1x1x128.size (k4_off7_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off7_eq]
  simp
  omega

omit [FloatOps F] in
/-- Index list `1` of the trip lies in the trip's slot. -/
theorem list7_sub4 (k : Fin k4_t1_loop.trips) (hA : Act4 L k) :
    (((sI).slice (Rect.unit (s := S2x4x128) (k4_off7 k) S1x1x128.size (k4_off7_inb L k hA)) (fun _ => rfl)).squeeze S128 squeezes_S1x1x128_S128).view.set
      ⊆ (sSl4 L k hA).view.set := by
  show ((((sI).view.slice (Rect.unit (s := S2x4x128) (k4_off7 k) S1x1x128.size (k4_off7_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off7_eq] at hi
  intro a
  have h0 := hi 0; have h1 := hi 1; have h2 := hi 2
  fin_cases a <;> simp at h0 h1 h2 ⊢ <;> first | omega | exact h2

/-- Whatever is written through the prefetched slot, on index list `1` the scratch still shows the chunk's words. -/
theorem list7_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off7 k) S1x1x128.size (k4_off7_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list7_disj4 L k hA h2) hi) hm)]
  exact hS i (list7_sub4 L k hA hi)

/-- So the words of index list `1` name rows of the table. -/
theorem list7_inr4 (k : Fin k4_t1_loop.trips) (hA : Act4 L k) (S' : Buf (Elt F) ((thr4 d L).loc cc4_scratch0))
    (hS' : ∀ i ∈ (((sI).slice (Rect.unit (s := S2x4x128) (k4_off7 k) S1x1x128.size (k4_off7_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off7 k) S1x1x128.size (k4_off7_inb L k hA)) (fun _ => rfl)).squeeze S128 squeezes_S1x1x128_S128).view S' x).toNat < 160000 := by
  intro x
  rw [View.read_apply, hS' _ (View.emb_mem_set _ x)]
  exact hI _

omit [FloatOps F] in
theorem list8_disj4 (k : Fin k4_t1_loop.trips) (hA : Act4 L k) (h2 : k4_cond2 L k = 1#1) :
    Disjoint (((sI).slice (Rect.unit (s := S2x4x128) (k4_off8 k) S1x1x128.size (k4_off8_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off8 k) S1x1x128.size (k4_off8_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off8_eq]
  simp
  omega

omit [FloatOps F] in
/-- Index list `2` of the trip lies in the trip's slot. -/
theorem list8_sub4 (k : Fin k4_t1_loop.trips) (hA : Act4 L k) :
    (((sI).slice (Rect.unit (s := S2x4x128) (k4_off8 k) S1x1x128.size (k4_off8_inb L k hA)) (fun _ => rfl)).squeeze S128 squeezes_S1x1x128_S128).view.set
      ⊆ (sSl4 L k hA).view.set := by
  show ((((sI).view.slice (Rect.unit (s := S2x4x128) (k4_off8 k) S1x1x128.size (k4_off8_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off8_eq] at hi
  intro a
  have h0 := hi 0; have h1 := hi 1; have h2 := hi 2
  fin_cases a <;> simp at h0 h1 h2 ⊢ <;> first | omega | exact h2

/-- Whatever is written through the prefetched slot, on index list `2` the scratch still shows the chunk's words. -/
theorem list8_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off8 k) S1x1x128.size (k4_off8_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list8_disj4 L k hA h2) hi) hm)]
  exact hS i (list8_sub4 L k hA hi)

/-- So the words of index list `2` name rows of the table. -/
theorem list8_inr4 (k : Fin k4_t1_loop.trips) (hA : Act4 L k) (S' : Buf (Elt F) ((thr4 d L).loc cc4_scratch0))
    (hS' : ∀ i ∈ (((sI).slice (Rect.unit (s := S2x4x128) (k4_off8 k) S1x1x128.size (k4_off8_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off8 k) S1x1x128.size (k4_off8_inb L k hA)) (fun _ => rfl)).squeeze S128 squeezes_S1x1x128_S128).view S' x).toNat < 160000 := by
  intro x
  rw [View.read_apply, hS' _ (View.emb_mem_set _ x)]
  exact hI _

omit [FloatOps F] in
theorem list9_disj4 (k : Fin k4_t1_loop.trips) (hA : Act4 L k) (h2 : k4_cond2 L k = 1#1) :
    Disjoint (((sI).slice (Rect.unit (s := S2x4x128) (k4_off9 k) S1x1x128.size (k4_off9_inb L k hA)) (fun _ => rfl)).squeeze S128 squeezes_S1x1x128_S128).view.set
      (((sI).slice (Rect.unit (s := S2x4x128) (k4_off4 k) S1x4x128.size (k4_off4_inb L k hA h2)) (fun _ => rfl)).squeeze S4x128 squeezes_S1x4x128_S4x128).view.set := by
  show Disjoint ((((sI).view.slice (Rect.unit (s := S2x4x128) (k4_off9 k) S1x1x128.size (k4_off9_inb L k hA))).reshape S128 squeezes_S1x1x128_S128.numel_eq).set)
    ((((sI).view.slice (Rect.unit (s := S2x4x128) (k4_off4 k) S1x4x128.size (k4_off4_inb L k hA h2))).reshape S4x128 squeezes_S1x4x128_S4x128.numel_eq).set)
  rw [View.set_reshape, View.set_reshape, Memref.view_whole, View.set_slice_whole, View.set_slice_whole]
  refine Rect.unit_disjoint 0 ?_
  rw [k4_off4_eq, k4_off9_eq]
  simp
  omega

omit [FloatOps F] in
/-- Index list `3` of the trip lies in the trip's slot. -/
theorem list9_sub4 (k : Fin k4_t1_loop.trips) (hA : Act4 L k) :
    (((sI).slice (Rect.unit (s := S2x4x128) (k4_off9 k) S1x1x128.size (k4_off9_inb L k hA)) (fun _ => rfl)).squeeze S128 squeezes_S1x1x128_S128).view.set
      ⊆ (sSl4 L k hA).view.set := by
  show ((((sI).view.slice (Rect.unit (s := S2x4x128) (k4_off9 k) S1x1x128.size (k4_off9_inb L k hA))).reshape S128 squeezes_S1x1x128_S128.numel_eq).set)
    ⊆ ((((sI).view.slice (Rect.unit (s := S2x4x128) (k4_off2 k) S1x4x128.size (k4_off2_inb L k hA))).reshape S4x128 squeezes_S1x4x128_S4x128.numel_eq).set)
  rw [View.set_reshape, View.set_reshape, Memref.view_whole, View.set_slice_whole, View.set_slice_whole]
  intro i hi
  rw [Rect.mem_set_unit] at hi ⊢
  rw [k4_off2_eq]; rw [k4_off9_eq] at hi
  intro a
  have h0 := hi 0; have h1 := hi 1; have h2 := hi 2
  fin_cases a <;> simp at h0 h1 h2 ⊢ <;> first | omega | exact h2

/-- Whatever is written through the prefetched slot, on index list `3` the scratch still shows the chunk's words. -/
theorem list9_agree4 (k : Fin k4_t1_loop.trips) (hA : Act4 L k) (h2 : k4_cond2 L k = 1#1)
    (S : Buf (Elt F) ((thr4 d L).loc cc4_scratch0)) (hS : SlotAgrees4 d L I k hA S) (w : S4x128.Idx → Elt F .i32) :
    ∀ i ∈ (((sI).slice (Rect.unit (s := S2x4x128) (k4_off9 k) S1x1x128.size (k4_off9_inb L k hA)) (fun _ => rfl)).squeeze S128 squeezes_S1x1x128_S128).view.set,
      (((sI).slice (Rect.unit (s := S2x4x128) (k4_off4 k) S1x4x128.size (k4_off4_inb L k hA h2)) (fun _ => rfl)).squeeze S4x128 squeezes_S1x4x128_S4x128).view.write (Elt F) S w Finset.univ i
        = slotImg4 d L I k.val i := by
  intro i hi
  rw [View.write_of_not_mem _ _ _ (by
    rw [View.setOn_univ]
    exact fun hm => (Finset.disjoint_left.mp (list9_disj4 L k hA h2) hi) hm)]
  exact hS i (list9_sub4 L k hA hi)

/-- So the words of index list `3` name rows of the table. -/
theorem list9_inr4 (k : Fin k4_t1_loop.trips) (hA : Act4 L k) (S' : Buf (Elt F) ((thr4 d L).loc cc4_scratch0))
    (hS' : ∀ i ∈ (((sI).slice (Rect.unit (s := S2x4x128) (k4_off9 k) S1x1x128.size (k4_off9_inb L k hA)) (fun _ => rfl)).squeeze S128 squeezes_S1x1x128_S128).view.set, S' i = slotImg4 d L I k.val i)
    (hI : ∀ i, (I i).toNat < 160000) :
    ∀ x : S128.Idx, (View.read (Elt F) (((sI).slice (Rect.unit (s := S2x4x128) (k4_off9 k) S1x1x128.size (k4_off9_inb L k hA)) (fun _ => rfl)).squeeze S128 squeezes_S1x1x128_S128).view S' x).toNat < 160000 := by
  intro x
  rw [View.read_apply, hS' _ (View.emb_mem_set _ x)]
  exact hI _

/-- From the second trip on, the loop's test `i ≥ 1` holds (in the words the body computes it with). -/
theorem ge1_cond4 : ∀ k : Fin k4_t1_loop.trips, 1 ≤ k.val →
    Scalar.cmpi CmpIPredicate.ne (Scalar.extui (Scalar.cmpi CmpIPredicate.sge (Scf.iv 0#32 1#32 k) 1#32)) 0#32 = 1#1 := by decide

end Cert.Kernel.KP

end
-- ==== Proof.TileVal4B.lean ====
/-
  The values the task's transfers carry, call 4.  The index fetch of a trip lands the words of the trip's chunk in the
  slot the trip reads; the slot and the chunk a trip prefetches are the next trip's own; and the window a trip writes
  out holds, element by element, the gathered array: row r of plane j of the window is the table's row named by word
  (j, r) of the trip's chunk.
-/
import proofs.«210879_g80607946211848_cont_9to1_m_1212_13_alg».proof.Proof.TileBody4bB
import proofs.«210879_g80607946211848_cont_9to1_m_1212_13_alg».proof.Proof.TileVal0B

noncomputable section

namespace Cert.Kernel.KP

open Cert.Kernel Cert.Kernel.Gen

open Idealize.ShloMosaic
open Idealize.ShloMosaic.SparseCore (S V T)
open Idealize.ShloMosaic.SparseCore.Cfg (HIx)
open Idealize.ShloMosaic.ValueIdx

variable {F : FTy → Type}

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable (d : Dev nD) (L : grid4.Coords)

/-! ## The slot and the chunk a trip prefetches are the next trip's; the first fetch's are trip 0's -/

/-- A 1 × 4 × 128 window of the index scratch, squeezed: its elements are its rectangle's. -/
theorem set_slot4 (off : Fin S2x4x128.rank → ℕ) (inb : ∀ a, off a + S1x4x128.size a ≤ S2x4x128.size a) :
    (((sI).slice (Rect.unit (s := S2x4x128) off S1x4x128.size inb) (fun _ => rfl)).squeeze S4x128 squeezes_S1x4x128_S4x128).view.set
      = (Rect.unit (s := S2x4x128) off S1x4x128.size inb).set := by
  show (((View.whole (cc4_scratch0 : Ref sig .scVector)).slice (Rect.unit (s := S2x4x128) off S1x4x128.size inb)).reshape S4x128 squeezes_S1x4x128_S4x128.numel_eq).set = _
  rw [View.set_reshape, View.set_slice_whole]
/-- The same of the index block. -/
theorem set_chunk4 (off : Fin S250x4x128.rank → ℕ) (inb : ∀ a, off a + S1x4x128.size a ≤ S250x4x128.size a) :
    (((iW).slice (Rect.unit (s := S250x4x128) off S1x4x128.size inb) (fun _ => rfl)).squeeze S4x128 squeezes_S1x4x128_S4x128).view.set
      = (Rect.unit (s := S250x4x128) off S1x4x128.size inb).set := by
  show (((View.whole (main_v16_scv : Ref sig .scVector)).slice (Rect.unit (s := S250x4x128) off S1x4x128.size inb)).reshape S4x128 squeezes_S1x4x128_S4x128.numel_eq).set = _
  rw [View.set_reshape, View.set_slice_whole]

theorem slot_next_set4 (k k' : Fin k4_t1_loop.trips) (hk : k'.val = k.val + 1) (hA : Act4 L k) (hA' : Act4 L k') (h2 : k4_cond2 L k = 1#1) :
    (sSl4 L k' hA').view.set
      = (((sI).slice (Rect.unit (s := S2x4x128) (k4_off4 k) S1x4x128.size (k4_off4_inb L k hA h2)) (fun _ => rfl)).squeeze S4x128 squeezes_S1x4x128_S4x128).view.set := by
  rw [set_slot4, set_slot4]
  refine unit_set_congr ?_
  have e : (k.val + 1) % 2 = 1 - k.val % 2 := by omega
  rw [k4_off2_eq, k4_off4_eq, hk, e]

theorem chunk_next_set4 (k k' : Fin k4_t1_loop.trips) (hk : k'.val = k.val + 1) (hA : Act4 L k) (hA' : Act4 L k') (h2 : k4_cond2 L k = 1#1) :
    (iCh4 L k' hA').view.set
      = (((iW).slice (Rect.unit (s := S250x4x128) (k4_off5 L k) S1x4x128.size (k4_off5_inb L k hA h2)) (fun _ => rfl)).squeeze S4x128 squeezes_S1x4x128_S4x128).view.set := by
  rw [set_chunk4, set_chunk4]
  refine unit_set_congr ?_
  have e : 2 * (L 1).val + (L 0).val + 32 * (k.val + 1) = 2 * (L 1).val + (L 0).val + 32 * k.val + 32 := by omega
  rw [k4_off3_eq, k4_off5_eq, hk, e]

theorem slot_first_set4 (h0 : 0 < k4_t1_loop.trips) (hA0 : Act4 L ⟨0, h0⟩) :
    (sSl4 L ⟨0, h0⟩ hA0).view.set
      = (((sI).slice (Rect.unit (s := S2x4x128) ![0, 0, 0] S1x4x128.size inb_S2x4x128_S1x4x128_0_0_0) (fun _ => rfl)).squeeze S4x128 squeezes_S1x4x128_S4x128).view.set := by
  rw [set_slot4, set_slot4]
  refine unit_set_congr ?_
  rw [k4_off2_eq]
  rfl

theorem chunk_first_set4 (h0 : 0 < k4_t1_loop.trips) (hA0 : Act4 L ⟨0, h0⟩) :
    (iCh4 L ⟨0, h0⟩ hA0).view.set
      = (((iW).slice (Rect.unit (s := S250x4x128) (k4_off1 L) S1x4x128.size (k4_off1_inb L)) (fun _ => rfl)).squeeze S4x128 squeezes_S1x4x128_S4x128).view.set := by
  rw [set_chunk4, set_chunk4]
  refine unit_set_congr ?_
  rw [k4_off3_eq, k4_off1_eq]
  rfl

/-! ## What an index fetch lands: the chunk's words, in the slot -/

/-- Where element `y` of a squeezed 1 × 4 × 128 window of the index scratch at offsets `off` lies. -/
theorem emb_slot4 (off : Fin S2x4x128.rank → ℕ) (inb : ∀ a, off a + S1x4x128.size a ≤ S2x4x128.size a) (y : S4x128.Idx) (a : Fin S2x4x128.rank) :
    (((((sI).slice (Rect.unit (s := S2x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S2x4x128) off S1x4x128.size inb).emb (Shape.reshapeEquiv squeezes_S1x4x128_S4x128.numel_eq y) a : ℕ) = _
  rw [Rect.emb_apply, sq_4x128]
  simp
/-- The same of the index block. -/
theorem emb_chunk4 (off : Fin S250x4x128.rank → ℕ) (inb : ∀ a, off a + S1x4x128.size a ≤ S250x4x128.size a) (y : S4x128.Idx) (a : Fin S250x4x128.rank) :
    (((((iW).slice (Rect.unit (s := S250x4x128) off S1x4x128.size inb) (fun _ => rfl)).squeeze S4x128 squeezes_S1x4x128_S4x128).view.emb y) a : ℕ)
      = off a + ((ix3 (⟨0, Nat.one_pos⟩ : Fin 1) (y 0) (y 1)) a : ℕ) := by
  show ((Rect.unit (s := S250x4x128) off S1x4x128.size inb).emb (Shape.reshapeEquiv squeezes_S1x4x128_S4x128.numel_eq y) a : ℕ) = _
  rw [Rect.emb_apply, sq_4x128]
  simp

variable (I : Buf (Elt F) (iLoc4 d))

/-- A fetch of chunk `n` (below 250) into slot `p` leaves, on that slot, the words the slot image of a trip whose chunk
    is `n` shows. -/
theorem fetch_agrees4 (offS : Fin S2x4x128.rank → ℕ) (inbS : ∀ a, offS a + S1x4x128.size a ≤ S2x4x128.size a)
    (offC : Fin S250x4x128.rank → ℕ) (inbC : ∀ a, offC a + S1x4x128.size a ≤ S250x4x128.size a)
    (p n t : ℕ) (hS : offS = ![p, 0, 0]) (hC : offC = ![n, 0, 0]) (hn : (wid4 L + 32 * t) % 250 = n)
    (S : Buf (Elt F) ((thr4 d L).loc cc4_scratch0)) :
    ∀ i ∈ (((sI).slice (Rect.unit (s := S2x4x128) offS S1x4x128.size inbS) (fun _ => rfl)).squeeze S4x128 squeezes_S1x4x128_S4x128).view.set,
      View.write (Elt F) (((sI).slice (Rect.unit (s := S2x4x128) offS S1x4x128.size inbS) (fun _ => rfl)).squeeze S4x128 squeezes_S1x4x128_S4x128).view S
          (ReadAs.same.apply (View.read (Elt F) (((iW).slice (Rect.unit (s := S250x4x128) offC S1x4x128.size inbC) (fun _ => rfl)).squeeze S4x128 squeezes_S1x4x128_S4x128).view I)) Finset.univ i
        = slotImg4 d L I t i := by
  intro i hi
  obtain ⟨y, -, rfl⟩ := Finset.mem_map.mp hi
  rw [View.write_emb_of_mem _ _ (Finset.mem_univ y)]
  unfold slotImg4
  show I ((((iW).slice (Rect.unit (s := S250x4x128) offC S1x4x128.size inbC) (fun _ => rfl)).squeeze S4x128 squeezes_S1x4x128_S4x128).view.emb y) = I _
  congr 1
  funext a
  apply Fin.ext
  have c0 := emb_chunk4 offC inbC y 0
  have c1 := emb_chunk4 offC inbC y 1
  have c2 := emb_chunk4 offC inbC y 2
  have s1 := emb_slot4 offS inbS y 1
  have s2 := emb_slot4 offS inbS y 2
  subst hS hC
  match a with
  | 0 => exact c0.trans (show n + 0 = (wid4 L + 32 * t) % 250 from by omega)
  | 1 => exact c1.trans s1.symm
  | 2 => exact c2.trans s2.symm

/-- The prefetched slot shows the NEXT trip's chunk. -/
theorem slot_agree_next4 (k k' : Fin k4_t1_loop.trips) (hk : k'.val = k.val + 1) (hA : Act4 L k) (hA' : Act4 L k') (h2 : k4_cond2 L k = 1#1)
    (S : Buf (Elt F) ((thr4 d L).loc cc4_scratch0)) :
    SlotAgrees4 d L I k' hA' (View.write (Elt F) (((sI).slice (Rect.unit (s := S2x4x128) (k4_off4 k) S1x4x128.size (k4_off4_inb L k hA h2)) (fun _ => rfl)).squeeze S4x128 squeezes_S1x4x128_S4x128).view S
      (ReadAs.same.apply (View.read (Elt F) (((iW).slice (Rect.unit (s := S250x4x128) (k4_off5 L k) S1x4x128.size (k4_off5_inb L k hA h2)) (fun _ => rfl)).squeeze S4x128 squeezes_S1x4x128_S4x128).view I)) Finset.univ) := by
  intro i hi
  rw [slot_next_set4 L k k' hk hA hA' h2] at hi
  have hlt : wid4 L + 32 * k'.val < 250 := (tb4_act_iff L k').mp hA'
  exact fetch_agrees4 d L I (k4_off4 k) (k4_off4_inb L k hA h2) (k4_off5 L k) (k4_off5_inb L k hA h2) (1 - k.val % 2) (wid4 L + 32 * k.val + 32) k'.val (k4_off4_eq k) (k4_off5_eq L k)
    (by rw [hk] at hlt ⊢; omega) S i hi

/-- The first fetch's slot shows trip 0's chunk. -/
theorem slot_agree_first4 (h0 : 0 < k4_t1_loop.trips) (hA0 : Act4 L ⟨0, h0⟩) (S : Buf (Elt F) ((thr4 d L).loc cc4_scratch0)) :
    SlotAgrees4 d L I ⟨0, h0⟩ hA0 (View.write (Elt F) (((sI).slice (Rect.unit (s := S2x4x128) ![0, 0, 0] S1x4x128.size inb_S2x4x128_S1x4x128_0_0_0) (fun _ => rfl)).squeeze S4x128 squeezes_S1x4x128_S4x128).view S
      (ReadAs.same.apply (View.read (Elt F) (((iW).slice (Rect.unit (s := S250x4x128) (k4_off1 L) S1x4x128.size (k4_off1_inb L)) (fun _ => rfl)).squeeze S4x128 squeezes_S1x4x128_S4x128).view I)) Finset.univ) := by
  intro i hi
  rw [slot_first_set4 L h0 hA0] at hi
  have hlt : wid4 L + 32 * (⟨0, h0⟩ : Fin k4_t1_loop.trips).val < 250 := (tb4_act_iff L ⟨0, h0⟩).mp hA0
  exact fetch_agrees4 d L I ![0, 0, 0] inb_S2x4x128_S1x4x128_0_0_0 (k4_off1 L) (k4_off1_inb L) 0 (wid4 L) 0 rfl (k4_off1_eq L) (by simp only [] at hlt; omega) S i hi

/-! ## What a write-out carries: the gathered array on its window -/

/-- Where element `y` of a squeezed 1 × 128 × 128 window of the result at offsets `off` lies. -/
theorem emb_win4 (off : Fin S4x32000x128.rank → ℕ) (inb : ∀ a, off a + S1x128x128.size a ≤ S4x32000x128.size a) (y : S128x128.Idx) (a : Fin S4x32000x128.rank) :
    (((((oW).slice (Rect.unit (s := S4x32000x128) off S1x128x128.size inb) (fun _ => rfl)).squeeze S128x128 squeezes_S1x128x128_S128x128).view.emb y) a : ℕ)
      = off a + ((ix3 (⟨0, Nat.one_pos⟩ : Fin 1) (y 0) (y 1)) a : ℕ) := by
  show ((Rect.unit (s := S4x32000x128) off S1x128x128.size inb).emb (Shape.reshapeEquiv squeezes_S1x128x128_S128x128.numel_eq y) a : ℕ) = _
  rw [Rect.emb_apply, sq_128x128]
  simp
/-- Where word `x` of a squeezed 1 × 1 × 128 index list of the index scratch at offsets `off` lies. -/
theorem emb_list4 (off : Fin S2x4x128.rank → ℕ) (inb : ∀ a, off a + S1x1x128.size a ≤ S2x4x128.size a) (x : S128.Idx) (a : Fin S2x4x128.rank) :
    (((((sI).slice (Rect.unit (s := S2x4x128) off S1x1x128.size inb) (fun _ => rfl)).squeeze S128 squeezes_S1x1x128_S128).view.emb x) a : ℕ)
      = off a + ((ix3 (⟨0, Nat.one_pos⟩ : Fin 1) (⟨0, Nat.one_pos⟩ : Fin 1) (⟨(x 0).val, (x 0).isLt⟩ : Fin 128)) a : ℕ) := by
  show ((Rect.unit (s := S2x4x128) off S1x1x128.size inb).emb (Shape.reshapeEquiv squeezes_S1x1x128_S128.numel_eq x) a : ℕ) = _
  rw [Rect.emb_apply, sq_128]
  simp

variable (X : Buf (Elt F) (xLoc d))

/-- The general form: a window of the result at offsets `(j, 128 n, 0)`, written with what a plane of the row scratch
    reads after a gather of the table's rows named by the index list at offsets `(p, j, 0)` of the index scratch, holds
    the gathered array — when the scratch shows there the words of chunk `n`. -/
theorem win_val_gen4 (offW : Fin S4x32000x128.rank → ℕ) (inbW : ∀ a, offW a + S1x128x128.size a ≤ S4x32000x128.size a)
    (offL : Fin S2x4x128.rank → ℕ) (inbL : ∀ a, offL a + S1x1x128.size a ≤ S2x4x128.size a)
    (j : Fin 4) (p n m t : ℕ) (hW : offW = ![j.val, m, 0]) (hm : m = 128 * n) (hL : offL = ![p, j.val, 0]) (ht : (wid4 L + 32 * t) % 250 = n)
    (vR : View sig .scVector .vmem S128x128 .f32) (r : vR.ty.Contents (Elt F))
    (hnum : S128.numel = (Rect.whole S128x128).shape.size gathers_S160000x128_S128x128.axis')
    (G : Buf (Elt F) (oLoc4 d)) (S' : Buf (Elt F) ((thr4 d L).loc cc4_scratch0))
    (hS' : ∀ i ∈ (((sI).slice (Rect.unit (s := S2x4x128) offL S1x1x128.size inbL) (fun _ => rfl)).squeeze S128 squeezes_S1x1x128_S128).view.set, S' i = slotImg4 d L I t i)
    (hin : ∀ x : S128.Idx, (View.read (Elt F) (((sI).slice (Rect.unit (s := S2x4x128) offL S1x1x128.size inbL) (fun _ => rfl)).squeeze S128 squeezes_S1x1x128_S128).view S' x).toNat < 160000)
    (hI : ∀ i, (I i).toNat < 160000) :
    ∀ i ∈ (((oW).slice (Rect.unit (s := S4x32000x128) offW S1x128x128.size inbW) (fun _ => rfl)).squeeze S128x128 squeezes_S1x128x128_S128x128).view.set,
      (((oW).slice (Rect.unit (s := S4x32000x128) offW S1x128x128.size inbW) (fun _ => rfl)).squeeze S128x128 squeezes_S1x128x128_S128x128).view.writes (Elt F) G
        [⟨Rect.whole S128x128, ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))⟩] i
        = gath (F := F) X I i := by
  intro i hi
  obtain ⟨y, -, rfl⟩ := Finset.mem_map.mp hi
  have e1 := View.read_writes_cons_emb (((oW).slice (Rect.unit (s := S4x32000x128) offW S1x128x128.size inbW) (fun _ => rfl)).squeeze S128x128 squeezes_S1x128x128_S128x128).view G
    (Rect.whole S128x128) (ReadAs.same.apply (View.read (Elt F) vR (vR.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)⟩]))) [] y
  have e2 := View.read_writes_cons_emb vR r (Rect.whole S128x128) (SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) offL S1x1x128.size inbL) (fun _ => rfl)).squeeze S128 squeezes_S1x1x128_S128).view S') hnum hin)) [] y
  rw [Rect.emb_whole_apply] at e1 e2
  have e12 := e1.trans e2
  rw [View.read_apply, cast_eq] at e12
  rw [e12]
  unfold SparseCore.gatherPayload gath
  rw [View.read_apply, cast_eq, emb_x0]
  -- the window's element, coordinate by coordinate
  have w0 := emb_win4 offW inbW y 0
  have w1 := emb_win4 offW inbW y 1
  have w2 := emb_win4 offW inbW y 2
  have hy0 : (y 0).val < 128 := (y 0).isLt
  subst hW hL
  congr 1
  funext b
  apply Fin.ext
  match b with
  | 0 =>
    refine (congrArg Fin.val (Shape.Gathers.idx_axis gathers_S160000x128_S128x128 _ y)).trans ?_
    change BitVec.toNat (View.read (Elt F) (((sI).slice (Rect.unit (s := S2x4x128) ![p, j.val, 0] S1x1x128.size inbL) (fun _ => rfl)).squeeze S128 squeezes_S1x1x128_S128).view S' _) = BitVec.toNat (I _) % 160000
    rw [Nat.mod_eq_of_lt (hI _), View.read_apply, cast_eq, hS' _ (View.emb_mem_set _ _)]
    unfold slotImg4
    congr 2
    have l1 := emb_list4 ![p, j.val, 0] inbL (S128.rowMajor.symm (Fin.cast hnum.symm (y gathers_S160000x128_S128x128.axis'))) 1
    have l2 := emb_list4 ![p, j.val, 0] inbL (S128.rowMajor.symm (Fin.cast hnum.symm (y gathers_S160000x128_S128x128.axis'))) 2
    have x0 := congrArg Fin.val (rowMajor_symm_128 (Fin.cast hnum.symm (y gathers_S160000x128_S128x128.axis')))
    have w0' := w0.trans (Nat.add_zero j.val)
    have w1' : _ = m + (y 0).val := w1
    have l1' := l1.trans (Nat.add_zero j.val)
    have l2' := l2.trans ((Nat.zero_add _).trans x0)
    subst hm
    funext c
    apply Fin.ext
    match c with
    | 0 => exact (ht.trans (by omega : n = (128 * n + (y 0).val) / 128)).trans (congrArg (· / 128) w1'.symm)
    | 1 => exact l1'.trans w0'.symm
    | 2 => exact l2'.trans ((by omega : (y 0).val = (128 * n + (y 0).val) % 128).trans (congrArg (· % 128) w1'.symm))
  | 1 =>
    exact (Shape.Gathers.idx_of_ne gathers_S160000x128_S128x128 _ y 1 (by decide)).trans ((w2.trans (Nat.zero_add (y 1).val)).symm)

/-- Plane 0 of a trip: its window of the result, written with the plane of the row scratch after the gather of the rows
    its index list names, holds the gathered array. -/
theorem win_val4_0 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off6 k) S1x1x128.size (k4_off6_inb L k hA)) (fun _ => rfl)).squeeze S128 squeezes_S1x1x128_S128).view.set, S' i = slotImg4 d L I k.val i)
    (hin : ∀ x : S128.Idx, (View.read (Elt F) (((sI).slice (Rect.unit (s := S2x4x128) (k4_off6 k) S1x1x128.size (k4_off6_inb L k hA)) (fun _ => rfl)).squeeze S128 squeezes_S1x1x128_S128).view S' x).toNat < 160000)
    (hI : ∀ i, (I i).toNat < 160000) :
    ∀ i ∈ (oWin4_0 L k hA).view.set,
      (oWin4_0 L k hA).view.writes (Elt F) G [⟨Rect.whole S128x128, ReadAs.same.apply (View.read (Elt F) (rPl4_0).view ((rPl4_0).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off6 k) S1x1x128.size (k4_off6_inb L k hA)) (fun _ => rfl)).squeeze S128 squeezes_S1x1x128_S128).view S') (by decide) hin)⟩]))⟩] i
        = gath (F := F) X I i :=
  win_val_gen4 d L I X (k4_off10 L k) (k4_off10_inb L k hA) (k4_off6 k) (k4_off6_inb L k hA) 0 (k.val % 2) (wid4 L + 32 * k.val)
    (256 * (L 1).val + 128 * (L 0).val + 4096 * k.val) k.val (k4_off10_eq L k)
    (show 256 * (L 1).val + 128 * (L 0).val + 4096 * k.val = 128 * (2 * (L 1).val + (L 0).val + 32 * k.val) by omega)
    (k4_off6_eq k) (Nat.mod_eq_of_lt ((tb4_act_iff L k).mp hA)) (rPl4_0).view r (by decide) G S' hS' hin hI

/-- Plane 1 of a trip: its window of the result, written with the plane of the row scratch after the gather of the rows
    its index list names, holds the gathered array. -/
theorem win_val4_1 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off7 k) S1x1x128.size (k4_off7_inb L k hA)) (fun _ => rfl)).squeeze S128 squeezes_S1x1x128_S128).view.set, S' i = slotImg4 d L I k.val i)
    (hin : ∀ x : S128.Idx, (View.read (Elt F) (((sI).slice (Rect.unit (s := S2x4x128) (k4_off7 k) S1x1x128.size (k4_off7_inb L k hA)) (fun _ => rfl)).squeeze S128 squeezes_S1x1x128_S128).view S' x).toNat < 160000)
    (hI : ∀ i, (I i).toNat < 160000) :
    ∀ i ∈ (oWin4_1 L k hA).view.set,
      (oWin4_1 L k hA).view.writes (Elt F) G [⟨Rect.whole S128x128, ReadAs.same.apply (View.read (Elt F) (rPl4_1).view ((rPl4_1).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off7 k) S1x1x128.size (k4_off7_inb L k hA)) (fun _ => rfl)).squeeze S128 squeezes_S1x1x128_S128).view S') (by decide) hin)⟩]))⟩] i
        = gath (F := F) X I i :=
  win_val_gen4 d L I X (k4_off11 L k) (k4_off11_inb L k hA) (k4_off7 k) (k4_off7_inb L k hA) 1 (k.val % 2) (wid4 L + 32 * k.val)
    (256 * (L 1).val + 128 * (L 0).val + 4096 * k.val) k.val (k4_off11_eq L k)
    (show 256 * (L 1).val + 128 * (L 0).val + 4096 * k.val = 128 * (2 * (L 1).val + (L 0).val + 32 * k.val) by omega)
    (k4_off7_eq k) (Nat.mod_eq_of_lt ((tb4_act_iff L k).mp hA)) (rPl4_1).view r (by decide) G S' hS' hin hI

/-- Plane 2 of a trip: its window of the result, written with the plane of the row scratch after the gather of the rows
    its index list names, holds the gathered array. -/
theorem win_val4_2 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off8 k) S1x1x128.size (k4_off8_inb L k hA)) (fun _ => rfl)).squeeze S128 squeezes_S1x1x128_S128).view.set, S' i = slotImg4 d L I k.val i)
    (hin : ∀ x : S128.Idx, (View.read (Elt F) (((sI).slice (Rect.unit (s := S2x4x128) (k4_off8 k) S1x1x128.size (k4_off8_inb L k hA)) (fun _ => rfl)).squeeze S128 squeezes_S1x1x128_S128).view S' x).toNat < 160000)
    (hI : ∀ i, (I i).toNat < 160000) :
    ∀ i ∈ (oWin4_2 L k hA).view.set,
      (oWin4_2 L k hA).view.writes (Elt F) G [⟨Rect.whole S128x128, ReadAs.same.apply (View.read (Elt F) (rPl4_2).view ((rPl4_2).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off8 k) S1x1x128.size (k4_off8_inb L k hA)) (fun _ => rfl)).squeeze S128 squeezes_S1x1x128_S128).view S') (by decide) hin)⟩]))⟩] i
        = gath (F := F) X I i :=
  win_val_gen4 d L I X (k4_off12 L k) (k4_off12_inb L k hA) (k4_off8 k) (k4_off8_inb L k hA) 2 (k.val % 2) (wid4 L + 32 * k.val)
    (256 * (L 1).val + 128 * (L 0).val + 4096 * k.val) k.val (k4_off12_eq L k)
    (show 256 * (L 1).val + 128 * (L 0).val + 4096 * k.val = 128 * (2 * (L 1).val + (L 0).val + 32 * k.val) by omega)
    (k4_off8_eq k) (Nat.mod_eq_of_lt ((tb4_act_iff L k).mp hA)) (rPl4_2).view r (by decide) G S' hS' hin hI

/-- Plane 3 of a trip: its window of the result, written with the plane of the row scratch after the gather of the rows
    its index list names, holds the gathered array. -/
theorem win_val4_3 (k : Fin k4_t1_loop.trips) (hA : Act4 L k) (G : Buf (Elt F) (oLoc4 d)) (r : Buf (Elt F) ((thr4 d L).loc cc4_scratch1)) (S' : Buf (Elt F) ((thr4 d L).loc cc4_scratch0))
    (hS' : ∀ i ∈ (((sI).slice (Rect.unit (s := S2x4x128) (k4_off9 k) S1x1x128.size (k4_off9_inb L k hA)) (fun _ => rfl)).squeeze S128 squeezes_S1x1x128_S128).view.set, S' i = slotImg4 d L I k.val i)
    (hin : ∀ x : S128.Idx, (View.read (Elt F) (((sI).slice (Rect.unit (s := S2x4x128) (k4_off9 k) S1x1x128.size (k4_off9_inb L k hA)) (fun _ => rfl)).squeeze S128 squeezes_S1x1x128_S128).view S' x).toNat < 160000)
    (hI : ∀ i, (I i).toNat < 160000) :
    ∀ i ∈ (oWin4_3 L k hA).view.set,
      (oWin4_3 L k hA).view.writes (Elt F) G [⟨Rect.whole S128x128, ReadAs.same.apply (View.read (Elt F) (rPl4_3).view ((rPl4_3).view.writes (Elt F) r [⟨Rect.whole S128x128,
          SparseCore.gatherPayload gathers_S160000x128_S128x128 (View.read (Elt F) ((xW).slice (Rect.unit (s := S160000x128) ![0, 0] S160000x128.size inb_S160000x128_S160000x128_0_0) (fun _ => rfl)).view X)
            (SparseCore.rows (View.read (Elt F) (((sI).slice (Rect.unit (s := S2x4x128) (k4_off9 k) S1x1x128.size (k4_off9_inb L k hA)) (fun _ => rfl)).squeeze S128 squeezes_S1x1x128_S128).view S') (by decide) hin)⟩]))⟩] i
        = gath (F := F) X I i :=
  win_val_gen4 d L I X (k4_off13 L k) (k4_off13_inb L k hA) (k4_off9 k) (k4_off9_inb L k hA) 3 (k.val % 2) (wid4 L + 32 * k.val)
    (256 * (L 1).val + 128 * (L 0).val + 4096 * k.val) k.val (k4_off13_eq L k)
    (show 256 * (L 1).val + 128 * (L 0).val + 4096 * k.val = 128 * (2 * (L 1).val + (L 0).val + 32 * k.val) by omega)
    (k4_off9_eq k) (Nat.mod_eq_of_lt ((tb4_act_iff L k).mp hA)) (rPl4_3).view r (by decide) G S' hS' hin hI

end Cert.Kernel.KP

end
-- ==== Proof.TileTrip4B.lean ====
/-
  One trip of the loop of call 4's task, in its four forms: a trip that prefetches the next index chunk, the last
  active trip (which does not), the first trip (nothing written out yet), and an idle trip.  An active trip waits for
  its index chunk, prefetches the next one into the other slot, waits for the previous trip's four write-outs, gathers
  the 128 rows each of its four index lists names into the four planes of the row scratch, and starts writing the
  planes out to its four windows of the result.
-/
import proofs.«210879_g80607946211848_cont_9to1_m_1212_13_alg».proof.Proof.TileVal4B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The table's share as the remainder and one read token per gather semaphore. -/
def xPart4 : sProp 𝕄 :=
  iprop(((xW).view.loc (thr4 d L) ↦{Transfers.shareDrop q 4} X) ∗ ((xW).view.loc (thr4 d L) ↦{Transfers.shareTok q 4 0} X) ∗ ((xW).view.loc (thr4 d L) ↦{Transfers.shareTok q 4 1} X)
    ∗ ((xW).view.loc (thr4 d L) ↦{Transfers.shareTok q 4 2} X) ∗ ((xW).view.loc (thr4 d L) ↦{Transfers.shareTok q 4 3} X))
/-- The gather semaphores at rest. -/
def gsems4 : sProp 𝕄 :=
  iprop(semVal (cellD4 d L cc4_scratch2) 0 ∗ semVal (cellD4 d L cc4_scratch3) 0 ∗ semVal (cellD4 d L cc4_scratch4) 0 ∗ semVal (cellD4 d L cc4_scratch5) 0)
/-- The index fetch of an active trip `t` in flight. -/
def idxFly4 (t : Fin k4_t1_loop.trips) (h : Act4 L t) : sProp 𝕄 :=
  iprop(∃ S, ⌜SlotAgrees4 d L I t h S⌝
    ∗ Transfers.Flight countersEmb (thr4 d L) (SemLoc.dma cc4_scratch10.sem) (default : HIx 5) 16384 (idxDeliv4 d L q I t h S)
    ∗ ((iW).view.loc (thr4 d L) ↦[Finset.univ \ (iCh4 L t h).view.set]{q} I)
    ∗ ((sI).view.loc (thr4 d L) ↦[Finset.univ \ (sSl4 L t h).view.set]{fullShare} S))
/-- The four write-outs of an active trip `t` in flight. -/
def rowsFly4 (t : Fin k4_t1_loop.trips) (h : Act4 L t) : sProp 𝕄 :=
  iprop(∃ r0 r1 r2 r3, Transfers.Flight countersEmb (thr4 d L) (SemLoc.dma cc4_scratch6.sem) (default : HIx 5) 524288 (wDeliv4 d L X I t h 0 (pl4_0 d L r0))
    ∗ Transfers.Flight countersEmb (thr4 d L) (SemLoc.dma cc4_scratch7.sem) (default : HIx 5) 524288 (wDeliv4 d L X I t h 1 (pl4_1 d L r1))
    ∗ Transfers.Flight countersEmb (thr4 d L) (SemLoc.dma cc4_scratch8.sem) (default : HIx 5) 524288 (wDeliv4 d L X I t h 2 (pl4_2 d L r2))
    ∗ Transfers.Flight countersEmb (thr4 d L) (SemLoc.dma cc4_scratch9.sem) (default : HIx 5) 524288 (wDeliv4 d L X I t h 3 (pl4_3 d L r3)))
omit [FloatOps F] in
/-- One more wait recorded at index `none` keeps the recorded waits within `W` and index `none`. -/
theorem none_ins4 {W W' : Waits sig (HIx 5)} {sm : SemLoc sig} (h : ∀ p ∈ W', p ∈ W ∨ p.2 = none) :
    ∀ p ∈ insert (sm, (default : HIx 5)) W', p ∈ W ∨ p.2 = none := by
  intro p hp
  rcases Finset.mem_insert.mp hp with rfl | hp
  · exact .inr rfl
  · exact h p hp

/-- What the thread owes, with the waits recorded so far at index `none`. -/
def owesPart4 (O : CellTallies nD τ sig (HIx 5)) (W : Waits sig (HIx 5)) : sProp 𝕄 :=
  iprop(∃ W', ⌜∀ p ∈ W', p ∈ W ∨ p.2 = none⌝ ∗ owes (thr4 d L) O W')

/-- The index side at rest: the semaphore at zero, block and scratch whole. -/
def idxIdle4 : sProp 𝕄 :=
  iprop(semVal (cellD4 d L cc4_scratch10) 0 ∗ ((iW).view.loc (thr4 d L) ↦{q} I) ∗ ∃ S, (sI).view.loc (thr4 d L) ↦{fullShare} S)
/-- The row scratch and the write-out semaphores at rest. -/
def rowsIdle4 : sProp 𝕄 :=
  iprop((semVal (cellD4 d L cc4_scratch6) 0 ∗ ∃ r, pl4_0 d L r) ∗ (semVal (cellD4 d L cc4_scratch7) 0 ∗ ∃ r, pl4_1 d L r)
    ∗ (semVal (cellD4 d L cc4_scratch8) 0 ∗ ∃ r, pl4_2 d L r) ∗ (semVal (cellD4 d L cc4_scratch9) 0 ∗ ∃ r, pl4_3 d L r))

/-- On the first trip the loop's test `i ≥ 1` fails (in the words the body computes it with). -/
theorem lt1_cond4 : ∀ k : Fin k4_t1_loop.trips, k.val = 0 →
    ¬ Scalar.cmpi CmpIPredicate.ne (Scalar.extui (Scalar.cmpi CmpIPredicate.sge (Scf.iv 0#32 1#32 k) 1#32)) 0#32 = 1#1 := by decide

set_option maxHeartbeats 1000000 in
set_option sl_exec.dmaWindow true in
/-- An active trip `k ≥ 1` that prefetches: from the index fetch of `k` and the write-outs of `k - 1` in flight to the
    index fetch of `k + 1` and the write-outs of `k` in flight, the windows of `k - 1` at the gathered array. -/
theorem tripA4 (O : CellTallies nD τ sig (HIx 5)) (W : Waits sig (HIx 5))
    (k tp k' : Fin k4_t1_loop.trips) (hp : tp.val + 1 = k.val) (hk' : k'.val = k.val + 1) (hA : Act4 L k) (hAp : Act4 L tp) (hA' : Act4 L k')
    (h2 : k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsFly4 d L X I tp hAp ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxFly4 d L q I k' hA' ∗ gsems4 d L ∗ rowsFly4 d L X I k hA
            ∗ oWins4 d L tp hAp (gath (F := F) X I) ∗ owesPart4 d L O W ∗ R) := by
  unfold xPart4 idxFly4 gsems4 rowsFly4 oWins4 owesPart4
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have hdisj := slots_disj4 L k hA h2
  have hd6 := list6_disj4 L k hA h2
  have hd7 := list7_disj4 L k hA h2
  have hd8 := list8_disj4 L k hA h2
  have hd9 := list9_disj4 L k hA h2
  have hk1 : 1 ≤ k.val := by omega
  have k4_h3 := ge1_cond4 k hk1
  sl_unfold [k4_t1_body]
  sl_exec
  have hin6 := list6_inr4 d L I k hA (tripA4.sl.HsI_w0 d L I k hA h2 S) (list6_agree4 d L I k hA h2 S hS _) hI
  have hin7 := list7_inr4 d L I k hA (tripA4.sl.HsI_w0 d L I k hA h2 S) (list7_agree4 d L I k hA h2 S hS _) hI
  have hin8 := list8_inr4 d L I k hA (tripA4.sl.HsI_w0 d L I k hA h2 S) (list8_agree4 d L I k hA h2 S hS _) hI
  have hin9 := list9_inr4 d L I k hA (tripA4.sl.HsI_w0 d L I k hA h2 S) (list9_agree4 d L I k hA h2 S hS _) hI
  sl_exec
  have hw0 : (((oWin4_0 L k hA).view.loc (thr4 d L) ↦[(oWin4_0 L k hA).view.set]{fullShare}
      ((oWin4_0 L k hA).view.writes (Elt F) G [⟨Rect.whole S128x128, tripA4.sl.dma0_1 d L X I k hA h2 S r0 hin6⟩])) : sProp 𝕄)
      = ((oW).view.loc (thr4 d L) ↦[oSet4 L k hA 0]{fullShare} gath (F := F) X I) :=
    pointsTo_congr (win_val4_0 d L I X k hA G r0 _ (list6_agree4 d L I k hA h2 S hS _) hin6 hI)
  have hw1 : (((oWin4_1 L k hA).view.loc (thr4 d L) ↦[(oWin4_1 L k hA).view.set]{fullShare}
      ((oWin4_1 L k hA).view.writes (Elt F) G [⟨Rect.whole S128x128, tripA4.sl.dma0_2 d L X I k hA h2 S r1 hin7⟩])) : sProp 𝕄)
      = ((oW).view.loc (thr4 d L) ↦[oSet4 L k hA 1]{fullShare} gath (F := F) X I) :=
    pointsTo_congr (win_val4_1 d L I X k hA G r1 _ (list7_agree4 d L I k hA h2 S hS _) hin7 hI)
  have hw2 : (((oWin4_2 L k hA).view.loc (thr4 d L) ↦[(oWin4_2 L k hA).view.set]{fullShare}
      ((oWin4_2 L k hA).view.writes (Elt F) G [⟨Rect.whole S128x128, tripA4.sl.dma0_3 d L X I k hA h2 S r2 hin8⟩])) : sProp 𝕄)
      = ((oW).view.loc (thr4 d L) ↦[oSet4 L k hA 2]{fullShare} gath (F := F) X I) :=
    pointsTo_congr (win_val4_2 d L I X k hA G r2 _ (list8_agree4 d L I k hA h2 S hS _) hin8 hI)
  have hw3 : (((oWin4_3 L k hA).view.loc (thr4 d L) ↦[(oWin4_3 L k hA).view.set]{fullShare}
      ((oWin4_3 L k hA).view.writes (Elt F) G [⟨Rect.whole S128x128, tripA4.sl.dma0_4 d L X I k hA h2 S r3 hin9⟩])) : sProp 𝕄)
      = ((oW).view.loc (thr4 d L) ↦[oSet4 L k hA 3]{fullShare} gath (F := F) X I) :=
    pointsTo_congr (win_val4_3 d L I X k hA G r3 _ (list9_agree4 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripA4.sl.HsI_w0 d L I k hA h2 S)
    isplitr
    · ipureintro; exact slot_agree_next4 d L I k k' hk' hA hA' h2 S
    rw [slot_next_set4 L k k' hk' hA hA' h2, chunk_next_set4 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr4 d L) (sep_mono_left (Entails.of_eq hw0))) $$ Hf0
    isplitl [Hf1]
    · iapply (Transfers.Flight_mono countersEmb (thr4 d L) (sep_mono_left (Entails.of_eq hw1))) $$ Hf1
    isplitl [Hf2]
    · iapply (Transfers.Flight_mono countersEmb (thr4 d L) (sep_mono_left (Entails.of_eq hw2))) $$ Hf2
    · iapply (Transfers.Flight_mono countersEmb (thr4 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins4 (none_ins4 (none_ins4 (none_ins4 (none_ins4 (none_ins4 (none_ins4 (none_ins4 (none_ins4 hW'))))))))

set_option maxHeartbeats 1000000 in
set_option sl_exec.dmaWindow true in
/-- The last active trip `k ≥ 1` (no prefetch): from the index fetch of `k` and the write-outs of `k - 1` in flight to
    the index side at rest and the write-outs of `k` in flight, the windows of `k - 1` at the gathered array. -/
theorem tripB4 (O : CellTallies nD τ sig (HIx 5)) (W : Waits sig (HIx 5))
    (k tp : Fin k4_t1_loop.trips) (hp : tp.val + 1 = k.val) (hA : Act4 L k) (hAp : Act4 L tp)
    (hn2 : ¬ k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsFly4 d L X I tp hAp ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxIdle4 d L q I ∗ gsems4 d L ∗ rowsFly4 d L X I k hA
            ∗ oWins4 d L tp hAp (gath (F := F) X I) ∗ owesPart4 d L O W ∗ R) := by
  unfold xPart4 idxFly4 idxIdle4 gsems4 rowsFly4 oWins4 owesPart4
  iintro ⟨#Hmw, ⟨Hxr, Hx0, Hx1, Hx2, Hx3⟩, ⟨%S, %hS, Hif, Hi, HsI⟩, ⟨Hg0, Hg1, Hg2, Hg3⟩, ⟨%r0, %r1, %r2, %r3, Hf0, Hf1, Hf2, Hf3⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have k4_h2 : ¬ k4_cond2 L k = 1#1 := hn2
  have hk1 : 1 ≤ k.val := by omega
  have k4_h3 := ge1_cond4 k hk1
  have hin6 := list6_inr4 d L I k hA S (fun i hi => hS i (list6_sub4 L k hA hi)) hI
  have hin7 := list7_inr4 d L I k hA S (fun i hi => hS i (list7_sub4 L k hA hi)) hI
  have hin8 := list8_inr4 d L I k hA S (fun i hi => hS i (list8_sub4 L k hA hi)) hI
  have hin9 := list9_inr4 d L I k hA S (fun i hi => hS i (list9_sub4 L k hA hi)) hI
  sl_unfold [k4_t1_body]
  sl_exec
  have hw0 : (((oWin4_0 L k hA).view.loc (thr4 d L) ↦[(oWin4_0 L k hA).view.set]{fullShare}
      ((oWin4_0 L k hA).view.writes (Elt F) G [⟨Rect.whole S128x128, tripB4.sl.dma0 d L X k hA S r0 hin6⟩])) : sProp 𝕄)
      = ((oW).view.loc (thr4 d L) ↦[oSet4 L k hA 0]{fullShare} gath (F := F) X I) :=
    pointsTo_congr (win_val4_0 d L I X k hA G r0 S (fun i hi => hS i (list6_sub4 L k hA hi)) hin6 hI)
  have hw1 : (((oWin4_1 L k hA).view.loc (thr4 d L) ↦[(oWin4_1 L k hA).view.set]{fullShare}
      ((oWin4_1 L k hA).view.writes (Elt F) G [⟨Rect.whole S128x128, tripB4.sl.dma0_1 d L X k hA S r1 hin7⟩])) : sProp 𝕄)
      = ((oW).view.loc (thr4 d L) ↦[oSet4 L k hA 1]{fullShare} gath (F := F) X I) :=
    pointsTo_congr (win_val4_1 d L I X k hA G r1 S (fun i hi => hS i (list7_sub4 L k hA hi)) hin7 hI)
  have hw2 : (((oWin4_2 L k hA).view.loc (thr4 d L) ↦[(oWin4_2 L k hA).view.set]{fullShare}
      ((oWin4_2 L k hA).view.writes (Elt F) G [⟨Rect.whole S128x128, tripB4.sl.dma0_2 d L X k hA S r2 hin8⟩])) : sProp 𝕄)
      = ((oW).view.loc (thr4 d L) ↦[oSet4 L k hA 2]{fullShare} gath (F := F) X I) :=
    pointsTo_congr (win_val4_2 d L I X k hA G r2 S (fun i hi => hS i (list8_sub4 L k hA hi)) hin8 hI)
  have hw3 : (((oWin4_3 L k hA).view.loc (thr4 d L) ↦[(oWin4_3 L k hA).view.set]{fullShare}
      ((oWin4_3 L k hA).view.writes (Elt F) G [⟨Rect.whole S128x128, tripB4.sl.dma0_3 d L X k hA S r3 hin9⟩])) : sProp 𝕄)
      = ((oW).view.loc (thr4 d L) ↦[oSet4 L k hA 3]{fullShare} gath (F := F) X I) :=
    pointsTo_congr (win_val4_3 d L I X k hA G r3 S (fun i hi => hS i (list9_sub4 L k hA hi)) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · isplitl [Hif]; · iexact Hif
    isplitl [Hi]; · iexact Hi
    iexists S; iexact HsI
  isplitl [Hg0 Hg1 Hg2 Hg3]
  · isplitl [Hg0]; · iexact Hg0
    isplitl [Hg1]; · iexact Hg1
    isplitl [Hg2]; · iexact Hg2
    iexact Hg3
  isplitl [Hf0 Hf1 Hf2 Hf3]
  · iexists _, _, _, _
    isplitl [Hf0]
    · iapply (Transfers.Flight_mono countersEmb (thr4 d L) (sep_mono_left (Entails.of_eq hw0))) $$ Hf0
    isplitl [Hf1]
    · iapply (Transfers.Flight_mono countersEmb (thr4 d L) (sep_mono_left (Entails.of_eq hw1))) $$ Hf1
    isplitl [Hf2]
    · iapply (Transfers.Flight_mono countersEmb (thr4 d L) (sep_mono_left (Entails.of_eq hw2))) $$ Hf2
    · iapply (Transfers.Flight_mono countersEmb (thr4 d L) (sep_mono_left (Entails.of_eq hw3))) $$ Hf3
  isplitl [Hf0_dst Hf1_dst Hf2_dst Hf3_dst]
  · isplitl [Hf0_dst]; · iexact Hf0_dst
    isplitl [Hf1_dst]; · iexact Hf1_dst
    isplitl [Hf2_dst]; · iexact Hf2_dst
    iexact Hf3_dst
  isplitr [HR]
  rotate_left
  · iexact HR
  iexists _
  isplitr
  rotate_left
  · iexact HO
  · ipureintro
    exact none_ins4 (none_ins4 (none_ins4 (none_ins4 (none_ins4 (none_ins4 (none_ins4 (none_ins4 (none_ins4 (hW')))))))))

set_option maxHeartbeats 1000000 in
set_option sl_exec.dmaWindow true in
/-- The first trip: from its index fetch in flight and the row scratch at rest to the index fetch of trip 1 and its own
    four write-outs in flight. -/
theorem tripC4 (O : CellTallies nD τ sig (HIx 5)) (W : Waits sig (HIx 5))
    (k k' : Fin k4_t1_loop.trips) (hk0 : k.val = 0) (hk' : k'.val = k.val + 1) (hA : Act4 L k) (hA' : Act4 L k')
    (h2 : k4_cond2 L k = 1#1) (hI : ∀ i, (I i).toNat < 160000) (R : sProp 𝕄) :
    iprop((Transfers.MayWaits (thr4 d L) (none : HIx 5) O : sProp 𝕄) ∗ xPart4 d L q X ∗ idxFly4 d L q I k hA ∗ gsems4 d L
        ∗ rowsIdle4 d L ∗ oWins4 d L k hA G ∗ owesPart4 d L O W ∗ R)
      ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => iprop(xPart4 d L q X ∗ idxFly4 d L q I k' hA' ∗ gsems4 d L ∗ rowsFly4 d L X I k hA ∗ owesPart4 d L O W ∗ R) := by
  unfold xPart4 idxFly4 gsems4 rowsIdle4 rowsFly4 oWins4 owesPart4
  iintro ⟨#Hmw, ⟨Hxr, Hx0, Hx1, Hx2, Hx3⟩, ⟨%S, %hS, Hif, Hi, HsI⟩, ⟨Hg0, Hg1, Hg2, Hg3⟩, ⟨⟨Hw0, %r0, Hr0⟩, ⟨Hw1, %r1, Hr1⟩, ⟨Hw2, %r2, Hr2⟩, ⟨Hw3, %r3, Hr3⟩⟩, ⟨Ho0, Ho1, Ho2, Ho3⟩, ⟨%W', %hW', HO⟩, HR⟩
  unfold idxDeliv4 wDeliv4 pl4_0 pl4_1 pl4_2 pl4_3
  have k4_h1 : k4_cond1 L k = 1#1 := hA
  have k4_h3 := lt1_cond4 k hk0
  have hdisj := slots_disj4 L k hA h2
  have hd6 := list6_disj4 L k hA h2
  have hd7 := list7_disj4 L k hA h2
  have hd8 := list8_disj4 L k hA h2
  have hd9 := list9_disj4 L k hA h2
  sl_unfold [k4_t1_body]
  sl_exec
  have hin6 := list6_inr4 d L I k hA (tripC4.sl.HsI_w0 d L I k hA h2 S) (list6_agree4 d L I k hA h2 S hS _) hI
  have hin7 := list7_inr4 d L I k hA (tripC4.sl.HsI_w0 d L I k hA h2 S) (list7_agree4 d L I k hA h2 S hS _) hI
  have hin8 := list8_inr4 d L I k hA (tripC4.sl.HsI_w0 d L I k hA h2 S) (list8_agree4 d L I k hA h2 S hS _) hI
  have hin9 := list9_inr4 d L I k hA (tripC4.sl.HsI_w0 d L I k hA h2 S) (list9_agree4 d L I k hA h2 S hS _) hI
  sl_exec
  have hw0 : (((oWin4_0 L k hA).view.loc (thr4 d L) ↦[(oWin4_0 L k hA).view.set]{fullShare}
      ((oWin4_0 L k hA).view.writes (Elt F) G [⟨Rect.whole S128x128, tripC4.sl.dma0_1 d L X I k hA h2 S r0 hin6⟩])) : sProp 𝕄)
      = ((oW).view.loc (thr4 d L) ↦[oSet4 L k hA 0]{fullShare} gath (F := F) X I) :=
    pointsTo_congr (win_val4_0 d L I X k hA G r0 _ (list6_agree4 d L I k hA h2 S hS _) hin6 hI)
  have hw1 : (((oWin4_1 L k hA).view.loc (thr4 d L) ↦[(oWin4_1 L k hA).view.set]{fullShare}
      ((oWin4_1 L k hA).view.writes (Elt F) G [⟨Rect.whole S128x128, tripC4.sl.dma0_2 d L X I k hA h2 S r1 hin7⟩])) : sProp 𝕄)
      = ((oW).view.loc (thr4 d L) ↦[oSet4 L k hA 1]{fullShare} gath (F := F) X I) :=
    pointsTo_congr (win_val4_1 d L I X k hA G r1 _ (list7_agree4 d L I k hA h2 S hS _) hin7 hI)
  have hw2 : (((oWin4_2 L k hA).view.loc (thr4 d L) ↦[(oWin4_2 L k hA).view.set]{fullShare}
      ((oWin4_2 L k hA).view.writes (Elt F) G [⟨Rect.whole S128x128, tripC4.sl.dma0_3 d L X I k hA h2 S r2 hin8⟩])) : sProp 𝕄)
      = ((oW).view.loc (thr4 d L) ↦[oSet4 L k hA 2]{fullShare} gath (F := F) X I) :=
    pointsTo_congr (win_val4_2 d L I X k hA G r2 _ (list8_agree4 d L I k hA h2 S hS _) hin8 hI)
  have hw3 : (((oWin4_3 L k hA).view.loc (thr4 d L) ↦[(oWin4_3 L k hA).view.set]{fullShare}
      ((oWin4_3 L k hA).view.writes (Elt F) G [⟨Rect.whole S128x128, tripC4.sl.dma0_4 d L X I k hA h2 S r3 hin9⟩])) : sProp 𝕄)
      = ((oW).view.loc (thr4 d L) ↦[oSet4 L k hA 3]{fullShare} gath (F := F) X I) :=
    pointsTo_congr (win_val4_3 d L I X k hA G r3 _ (list9_agree4 d L I k hA h2 S hS _) hin9 hI)
  sl_step
  isplitl [Hxr Hx0 Hx1 Hx2 Hx3]
  · isplitl [Hxr]; · iexact Hxr
    isplitl [Hx0]; · iexact Hx0
    isplitl [Hx1]; · iexact Hx1
    isplitl [Hx2]; · iexact Hx2
    iexact Hx3
  isplitl [Hif Hi HsI]
  · iexists (tripC4.sl.HsI_w0 d L I k hA h2 S)
    isplitr
    · ipureintro; exact slot_agree_next4 d L I k k' hk' hA hA' h2 S
    rw [slot_next_set4 L k k' hk' hA hA' h2, chunk_next_set4 L k k' hk' hA hA' h2]
    isplitl [Hif]; · iexact Hif
    isplitl [Hi]; · iexact Hi
    iexact HsI
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · iexists _, _, _, _
    isplitl [Hw0]
    · iapply (Transfers.Flight_mono countersEmb (thr4 d L) (sep_mono_left (Entails.of_eq hw0))) $$ Hw0
    isplitl [Hw1]
    · iapply (Transfers.Flight_mono countersEmb (thr4 d L) (sep_mono_left (Entails.of_eq hw1))) $$ Hw1
    isplitl [Hw2]
    · iapply (Transfers.Flight_mono countersEmb (thr4 d L) (sep_mono_left (Entails.of_eq hw2))) $$ Hw2
    · iapply (Transfers.Flight_mono countersEmb (thr4 d L) (sep_mono_left (Entails.of_eq hw3))) $$ Hw3
  isplitr [HR]
  rotate_left
  · iexact HR
  iexists _
  isplitr
  rotate_left
  · iexact HO
  · ipureintro
    exact none_ins4 (none_ins4 (none_ins4 (none_ins4 (none_ins4 (hW')))))

/-- An idle trip (its chunk number is 250 or more) does nothing. -/
theorem tripI4 (k : Fin k4_t1_loop.trips) (hnA : ¬ Act4 L k) (R : sProp 𝕄) :
    R ⊢ wp frame (wpE (defs₀ (F := F)) 𝒱₀ (thr4 d L) none) Set.univ
          (k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k ())
          fun _ => R := by
  iintro HR
  have k4_h1 : ¬ k4_cond1 L k = 1#1 := hnA
  sl_unfold [k4_t1_body]
  sl_exec
  sl_step
  iexact HR

end Cert.Kernel.KP

end
-- ==== Proof.TileOut4B.lean ====
/-
  The result's windows through the loop of call 4's task.  After `n` active trips the windows of the trips before the
  last hold the gathered array, the last trip's are in flight, the later trips' are as the call found them.  Entering a
  trip takes the trip's own windows out of that family; leaving it puts the previous trip's windows back, at the
  gathered array.  Also the arithmetic of active trips: tile `w` serves chunks `w, w + 32, …` below 250, so its first
  `(250 - w + 31) / 32` trips (seven or eight) are the active ones.
-/
import proofs.«210879_g80607946211848_cont_9to1_m_1212_13_alg».proof.Proof.TileBody4bB

noncomputable section

namespace Cert.Kernel.KP

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable (d : Dev nD) (L : grid4.Coords)

/-! ## Which trips are active -/

theorem wid_lt4 : wid4 L < 32 := by
  have h0 : (L 0).val < 2 := (L 0).isLt
  have h1 : (L 1).val < 16 := (L 1).isLt
  show 2 * (L 1).val + (L 0).val < 32
  omega

theorem act_iff_lt4 (t : Fin k4_t1_loop.trips) : Act4 L t ↔ t.val < nAct4 L := by
  have hw := wid_lt4 L
  refine (tb4_act_iff L t).trans ?_
  show wid4 L + 32 * t.val < 250 ↔ t.val < (250 - wid4 L + 31) / 32
  omega

theorem nAct_bounds4 : 7 ≤ nAct4 L ∧ nAct4 L ≤ 8 := by
  have hw := wid_lt4 L
  show 7 ≤ (250 - wid4 L + 31) / 32 ∧ (250 - wid4 L + 31) / 32 ≤ 8
  omega

theorem pre_iff_lt4 (k : Fin k4_t1_loop.trips) : k4_cond2 L k = 1#1 ↔ k.val + 1 < nAct4 L := by
  have hw := wid_lt4 L
  refine (tb4_pre_iff L k).trans ?_
  show wid4 L + 32 * k.val + 32 < 250 ↔ k.val + 1 < (250 - wid4 L + 31) / 32
  omega

theorem cnt_act4 (k : Fin k4_t1_loop.trips) (hA : Act4 L k) : cnt4 L k.val = k.val ∧ cnt4 L (k.val + 1) = k.val + 1 := by
  have h := (act_iff_lt4 L k).mp hA
  show min k.val (nAct4 L) = k.val ∧ min (k.val + 1) (nAct4 L) = k.val + 1
  omega

theorem cnt_idle4 (k : Fin k4_t1_loop.trips) (hnA : ¬ Act4 L k) : cnt4 L k.val = nAct4 L ∧ cnt4 L (k.val + 1) = nAct4 L := by
  have h : ¬ k.val < nAct4 L := fun h => hnA ((act_iff_lt4 L k).mpr h)
  show min k.val (nAct4 L) = nAct4 L ∧ min (k.val + 1) (nAct4 L) = nAct4 L
  omega

theorem cnt_end4 : cnt4 L k4_t1_loop.trips = nAct4 L := by
  have h := (nAct_bounds4 L).2
  show min k4_t1_loop.trips (nAct4 L) = nAct4 L
  rw [tb4_trips]
  omega

/-! ## The windows' family -/

variable (X : Buf (Elt F) (xLoc d)) (I : Buf (Elt F) (iLoc4 d)) (G : Buf (Elt F) (oLoc4 d))

/-- Trip `t`'s windows after `n` active trips: at the gathered array, in flight, or as found. -/
def outPhi4 (n : ℕ) (t : Fin k4_t1_loop.trips) : sProp 𝕄 :=
  if t.val + 1 < n then oTrip4 d L (gath (F := F) X I) t else if t.val + 1 = n then iprop(emp) else oTrip4 d L G t

theorem outPart4_eq (n : ℕ) : outPart4 d L X I G n = bigSep Finset.univ (outPhi4 d L X I G n) := rfl

theorem outPhi4_done {n : ℕ} {t : Fin k4_t1_loop.trips} (h : t.val + 1 < n) : outPhi4 d L X I G n t = oTrip4 d L (gath (F := F) X I) t := by
  unfold outPhi4; rw [if_pos h]
theorem outPhi4_flight {n : ℕ} {t : Fin k4_t1_loop.trips} (h : t.val + 1 = n) : outPhi4 d L X I G n t = (iprop(emp) : sProp 𝕄) := by
  unfold outPhi4; rw [if_neg (by omega), if_pos h]
theorem outPhi4_found {n : ℕ} {t : Fin k4_t1_loop.trips} (h : n < t.val + 1) : outPhi4 d L X I G n t = oTrip4 d L G t := by
  unfold outPhi4; rw [if_neg (by omega), if_neg (by omega)]

/-- Before any trip every window is as found. -/
theorem out_init4 : (bigSep Finset.univ fun t : Fin k4_t1_loop.trips => oTrip4 d L G t) = outPart4 d L X I G 0 := by
  rw [outPart4_eq]
  exact bigSep_congr fun t _ => (outPhi4_found d L X I G (Nat.succ_pos _)).symm

/-- Entering trip `k` (the trip before it, `tp`, in flight): its own windows come out, as found. -/
theorem out_take4 (k tp : Fin k4_t1_loop.trips) (hp : tp.val + 1 = k.val) (hA : Act4 L k) :
    outPart4 d L X I G k.val ⊢ iprop(oWins4 d L k hA G ∗ bigSep ((Finset.univ.erase k).erase tp) (outPhi4 d L X I G k.val)) := by
  have hne : tp ≠ k := fun e => by rw [e] at hp; omega
  rw [outPart4_eq, SparseCore.bigSep_erase' (Finset.mem_univ k),
    SparseCore.bigSep_erase' (Finset.mem_erase.mpr ⟨hne, Finset.mem_univ tp⟩),
    outPhi4_found d L X I G (Nat.lt_succ_self _), outPhi4_flight d L X I G hp, oTrip4_act d L k hA]
  iintro ⟨Hw, -, Hr⟩
  isplitl [Hw] <;> iassumption

/-- Leaving trip `k`: the previous trip's windows go back, at the gathered array; trip `k`'s are now the ones in flight. -/
theorem out_put4 (k tp : Fin k4_t1_loop.trips) (hp : tp.val + 1 = k.val) (hAp : Act4 L tp) :
    iprop(oWins4 d L tp hAp (gath (F := F) X I) ∗ bigSep ((Finset.univ.erase k).erase tp) (outPhi4 d L X I G k.val))
      ⊢ outPart4 d L X I G (k.val + 1) := by
  have hne : tp ≠ k := fun e => by rw [e] at hp; omega
  rw [outPart4_eq, SparseCore.bigSep_erase' (Finset.mem_univ k),
    SparseCore.bigSep_erase' (Finset.mem_erase.mpr ⟨hne, Finset.mem_univ tp⟩),
    outPhi4_flight d L X I G rfl, outPhi4_done d L X I G (show tp.val + 1 < k.val + 1 by omega), oTrip4_act d L tp hAp,
    show bigSep ((Finset.univ.erase k).erase tp) (outPhi4 d L X I G (k.val + 1)) = bigSep ((Finset.univ.erase k).erase tp) (outPhi4 d L X I G k.val) from
      bigSep_congr fun t ht => by
        have h1 : t ≠ tp := (Finset.mem_erase.mp ht).1
        have h2 : t ≠ k := (Finset.mem_erase.mp (Finset.mem_erase.mp ht).2).1
        have h1' : t.val ≠ tp.val := fun e => h1 (Fin.ext e)
        have h2' : t.val ≠ k.val := fun e => h2 (Fin.ext e)
        unfold outPhi4
        by_cases hlt : t.val + 1 < k.val
        · rw [if_pos hlt, if_pos (by omega)]
        · rw [if_neg hlt, if_neg (by omega), if_neg (by omega), if_neg (by omega)]]
  iintro ⟨Hw, Hr⟩
  isplitr; · iempintro
  isplitl [Hw] <;> iassumption

/-- Entering the first trip. -/
theorem out_take_first4 (h0 : 0 < k4_t1_loop.trips) (hA : Act4 L ⟨0, h0⟩) :
    outPart4 d L X I G 0 ⊢ iprop(oWins4 d L ⟨0, h0⟩ hA G ∗ bigSep (Finset.univ.erase ⟨0, h0⟩) (outPhi4 d L X I G 0)) := by
  rw [outPart4_eq, SparseCore.bigSep_erase' (Finset.mem_univ (⟨0, h0⟩ : Fin k4_t1_loop.trips)),
    outPhi4_found d L X I G (Nat.succ_pos _), oTrip4_act d L ⟨0, h0⟩ hA]

/-- Leaving it: nothing goes back yet. -/
theorem out_put_first4 (h0 : 0 < k4_t1_loop.trips) :
    bigSep (Finset.univ.erase (⟨0, h0⟩ : Fin k4_t1_loop.trips)) (outPhi4 d L X I G 0) ⊢ outPart4 d L X I G 1 := by
  rw [outPart4_eq, SparseCore.bigSep_erase' (Finset.mem_univ (⟨0, h0⟩ : Fin k4_t1_loop.trips)),
    outPhi4_flight d L X I G (show (⟨0, h0⟩ : Fin k4_t1_loop.trips).val + 1 = 1 from rfl),
    show bigSep (Finset.univ.erase (⟨0, h0⟩ : Fin k4_t1_loop.trips)) (outPhi4 d L X I G 1) = bigSep (Finset.univ.erase (⟨0, h0⟩ : Fin k4_t1_loop.trips)) (outPhi4 d L X I G 0) from
      bigSep_congr fun t ht => by
        have h1 : t ≠ ⟨0, h0⟩ := (Finset.mem_erase.mp ht).1
        have h1' : t.val ≠ 0 := fun e => h1 (Fin.ext e)
        rw [outPhi4_found d L X I G (show 1 < t.val + 1 by omega), outPhi4_found d L X I G (Nat.succ_pos _)]]
  iintro Hr
  isplitr; · iempintro
  iexact Hr

/-- After the last active trip `tl`, with its windows back: every trip's windows hold the gathered array (the idle
    trips have none). -/
theorem out_final4 (tl : Fin k4_t1_loop.trips) (hAl : Act4 L tl) (hidle : ∀ t : Fin k4_t1_loop.trips, tl.val < t.val → ¬ Act4 L t) :
    iprop(outPart4 d L X I G (tl.val + 1) ∗ oWins4 d L tl hAl (gath (F := F) X I))
      ⊢ bigSep Finset.univ fun t : Fin k4_t1_loop.trips => oTrip4 d L (gath (F := F) X I) t := by
  rw [outPart4_eq, SparseCore.bigSep_erase' (Finset.mem_univ tl) (Φ := outPhi4 d L X I G (tl.val + 1)),
    SparseCore.bigSep_erase' (Finset.mem_univ tl) (Φ := fun t : Fin k4_t1_loop.trips => oTrip4 d L (gath (F := F) X I) t),
    outPhi4_flight d L X I G rfl, oTrip4_act d L tl hAl,
    show bigSep (Finset.univ.erase tl) (outPhi4 d L X I G (tl.val + 1)) = bigSep (Finset.univ.erase tl) (fun t : Fin k4_t1_loop.trips => oTrip4 d L (gath (F := F) X I) t) from
      bigSep_congr fun t ht => by
        have h1 : t ≠ tl := (Finset.mem_erase.mp ht).1
        have h1' : t.val ≠ tl.val := fun e => h1 (Fin.ext e)
        by_cases hlt : t.val < tl.val
        · exact outPhi4_done d L X I G (by omega)
        · have hi := hidle t (by omega)
          rw [outPhi4_found d L X I G (show tl.val + 1 < t.val + 1 by omega), oTrip4_idle d L t hi, oTrip4_idle d L t hi]]
  iintro ⟨⟨-, Hr⟩, Hw⟩
  isplitl [Hw] <;> iassumption

end Cert.Kernel.KP

end
-- ==== Proof.TileScoped4B.lean ====
/-
  The scoped storage of one vector subcore as call 4's task uses it.  Among the subcore's own semaphores are the task's
  nine DMA semaphores, each at zero, and among its own buffers the index scratch and the row scratch.  The row scratch
  is the disjoint union of its four planes, so holding it whole is holding the four planes, at one contents or, to put
  it together again, at four.  The whole arrays the task is passed are the TensorCore's arrays under the subcore's
  names, and a read share of the table is a remainder and four tokens, one per gather in flight.
-/
import proofs.«210879_g80607946211848_cont_9to1_m_1212_13_alg».proof.Proof.TileBody4bB

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable (d : Dev nD) (L : grid4.Coords)

/-! ## The task's nine semaphores among the subcore's own -/

/-- The nine DMA semaphores of the task, as semaphore locations. -/
def semS4 : List (SemLoc sig) := [SemLoc.dma cc4_scratch2.sem, SemLoc.dma cc4_scratch3.sem, SemLoc.dma cc4_scratch4.sem, SemLoc.dma cc4_scratch5.sem, SemLoc.dma cc4_scratch6.sem, SemLoc.dma cc4_scratch7.sem, SemLoc.dma cc4_scratch8.sem, SemLoc.dma cc4_scratch9.sem, SemLoc.dma cc4_scratch10.sem]

theorem semS4_nodup : (semS4).Nodup := by decide
theorem semS4_scoped : ∀ s ∈ semS4, (s : SemLoc sig).isScoped .scVector = true := by decide

/-- The same as cells of the tile's thread. -/
def semL4 : List (GSem nD τ sig) := semS4.map fun s => (thr4 d L, s)

theorem semL4_nodup : (semL4 d L).Nodup :=
  semS4_nodup.map fun _ _ h => (Prod.mk.inj h).2

theorem semL4_sub : (semL4 d L).toFinset ⊆ ownCells (thr4 d L) := by
  intro g hg
  rw [List.mem_toFinset, semL4, List.mem_map] at hg
  obtain ⟨s, hs, rfl⟩ := hg
  exact mem_ownCells.mpr ⟨rfl, semS4_scoped s hs⟩

/-- The subcore's own semaphores that the task does not use, each at zero. -/
def RestSems4 : sProp 𝕄 := bigSep (ownCells (thr4 d L) \ (semL4 d L).toFinset) fun g => semVal g 0

/-- The subcore's own semaphores at zero are the task's nine at zero and the rest. -/
theorem ownSems0_V4 :
    (ownSems0 (thr4 d L) : sProp 𝕄)
      = iprop(semVal (cellD4 d L cc4_scratch2) 0 ∗ semVal (cellD4 d L cc4_scratch3) 0 ∗ semVal (cellD4 d L cc4_scratch4) 0 ∗ semVal (cellD4 d L cc4_scratch5) 0 ∗ semVal (cellD4 d L cc4_scratch6) 0 ∗ semVal (cellD4 d L cc4_scratch7) 0 ∗ semVal (cellD4 d L cc4_scratch8) 0 ∗ semVal (cellD4 d L cc4_scratch9) 0 ∗ semVal (cellD4 d L cc4_scratch10) 0 ∗ RestSems4 d L) := by
  unfold SparseCore.Cfg.ownSems0 RestSems4
  rw [SparseCore.bigSep_sdiff_split' (semL4_sub d L), bigSep_eq_bigSepL (semL4 d L) (semL4_nodup d L)]
  unfold semL4 semS4
  simp only [List.map_cons, List.map_nil, bigSepL_cons_cons, bigSepL_singleton]
  have sepA : ∀ A B C : sProp 𝕄, (iprop((BI.sep A B) ∗ C) : sProp 𝕄) = iprop(A ∗ B ∗ C) := fun A B C =>
    BI.equiv_iff.mp ⟨(Laws.sep_assoc (P := A) (Q := B) (R := C)).1, (Laws.sep_assoc (P := A) (Q := B) (R := C)).2⟩
  simp only [sepA]

/-! ## The two scratch buffers among the subcore's own -/

/-- The subcore's own buffers other than the two scratch buffers, each whole at some contents. -/
def RestBufs4 : sProp 𝕄 :=
  bigSep (((ownRefs (τ := τ) (.scVector (cV4 L) (jV4 L))).erase ((Proc.scVector (cV4 L) (jV4 L)).devRef cc4_scratch0)).erase
      ((Proc.scVector (cV4 L) (jV4 L)).devRef cc4_scratch1))
    fun b => iprop(∃ f, ((d, b) : Loc nD τ sig) ↦{fullShare} f)

/-- The subcore's own buffers are the index scratch, the row scratch, each at some contents, and the rest. -/
theorem ownBufs_V4 :
    (ownBufs (thr4 d L) : sProp 𝕄)
      = iprop((∃ f, (thr4 d L).loc cc4_scratch0 ↦{fullShare} f) ∗ (∃ f, (thr4 d L).loc cc4_scratch1 ↦{fullShare} f) ∗ RestBufs4 d L) := by
  unfold SparseCore.Cfg.ownBufs RestBufs4
  refine (SparseCore.bigSep_erase' (SparseCore.Cfg.mem_ownRefs_of_owner (p := Proc.scVector (cV4 L) (jV4 L))
    (b := (Proc.scVector (cV4 L) (jV4 L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV4 L) (jV4 L)) (b := (Proc.scVector (cV4 L) (jV4 L)).devRef cc4_scratch1) rfl⟩)]

/-! ## The whole arrays under the subcore's names -/

theorem pts_sI4 (f : Buf (Elt F) ((thr4 d L).loc cc4_scratch0)) :
    ((sI).view.loc (thr4 d L) ↦{fullShare} f : sProp 𝕄) = (thr4 d L).loc cc4_scratch0 ↦{fullShare} f := rfl
theorem pts_sR4 (f : Buf (Elt F) ((thr4 d L).loc cc4_scratch1)) :
    ((sR).view.loc (thr4 d L) ↦{fullShare} f : sProp 𝕄) = (thr4 d L).loc cc4_scratch1 ↦{fullShare} f := rfl
theorem pts_x4 (q : PosShare TreeShare) (f : Buf (Elt F) (xLoc d)) :
    ((xW).view.loc (thr4 d L) ↦{q} f : sProp 𝕄) = xLoc d ↦{q} f := rfl
theorem pts_i4 (q : PosShare TreeShare) (f : Buf (Elt F) (iLoc4 d)) :
    ((iW).view.loc (thr4 d L) ↦{q} f : sProp 𝕄) = iLoc4 d ↦{q} f := rfl
theorem pts_o4 (K : Finset S4x32000x128.Idx) (q : PosShare TreeShare) (f : Buf (Elt F) (oLoc4 d)) :
    ((oW).view.loc (thr4 d L) ↦[K]{q} f : sProp 𝕄) = oLoc4 d ↦[K]{q} f := rfl

/-! ## The row scratch is its four planes -/

theorem pl_inb4 (j : Fin 4) : ∀ a, (![j.val, 0, 0] : Fin 3 → ℕ) a + S1x128x128.size a ≤ S4x128x128.size a := by
  intro a
  have := j.isLt
  fin_cases a <;> simp <;> omega

/-- Plane `j` of the row scratch, as a set of its elements. -/
def plSet4 (j : Fin 4) : Finset S4x128x128.Idx := (Rect.unit (s := S4x128x128) ![j.val, 0, 0] S1x128x128.size (pl_inb4 j)).set

theorem set_rPl4_0 : (rPl4_0).view.set = plSet4 0 := by
  show ((((sR).view.slice (Rect.unit (s := S4x128x128) ![0, 0, 0] S1x128x128.size inb_S4x128x128_S1x128x128_0_0_0)).reshape S128x128 squeezes_S1x128x128_S128x128.numel_eq).set) = _
  rw [View.set_reshape]
  exact (View.set_slice_whole (cc4_scratch1 : Ref sig .scVector) _).trans rfl
theorem set_rPl4_1 : (rPl4_1).view.set = plSet4 1 := by
  show ((((sR).view.slice (Rect.unit (s := S4x128x128) ![1, 0, 0] S1x128x128.size inb_S4x128x128_S1x128x128_1_0_0)).reshape S128x128 squeezes_S1x128x128_S128x128.numel_eq).set) = _
  rw [View.set_reshape]
  exact (View.set_slice_whole (cc4_scratch1 : Ref sig .scVector) _).trans rfl
theorem set_rPl4_2 : (rPl4_2).view.set = plSet4 2 := by
  show ((((sR).view.slice (Rect.unit (s := S4x128x128) ![2, 0, 0] S1x128x128.size inb_S4x128x128_S1x128x128_2_0_0)).reshape S128x128 squeezes_S1x128x128_S128x128.numel_eq).set) = _
  rw [View.set_reshape]
  exact (View.set_slice_whole (cc4_scratch1 : Ref sig .scVector) _).trans rfl
theorem set_rPl4_3 : (rPl4_3).view.set = plSet4 3 := by
  show ((((sR).view.slice (Rect.unit (s := S4x128x128) ![3, 0, 0] S1x128x128.size inb_S4x128x128_S1x128x128_3_0_0)).reshape S128x128 squeezes_S1x128x128_S128x128.numel_eq).set) = _
  rw [View.set_reshape]
  exact (View.set_slice_whole (cc4_scratch1 : Ref sig .scVector) _).trans rfl

/-- Different planes are disjoint: they differ in the first coordinate. -/
theorem pl_disjoint4 : ∀ i ∈ (Finset.univ : Finset (Fin 4)), ∀ j ∈ (Finset.univ : Finset (Fin 4)), i ≠ j → Disjoint (plSet4 i) (plSet4 j) := by
  intro i _ j _ h
  have hv := Fin.val_ne_of_ne h
  refine Rect.unit_disjoint 0 ?_
  simp
  omega

/-- The four planes cover the scratch. -/
theorem pl_cover4 : (Finset.univ : Finset (Fin 4)).biUnion plSet4 = Finset.univ := by
  ext i
  simp only [Finset.mem_biUnion, Finset.mem_univ, true_and, iff_true]
  have h0 := (i 0).isLt; have h1 := (i 1).isLt; have h2 := (i 2).isLt
  refine ⟨⟨(i 0).val, h0⟩, ?_⟩
  unfold plSet4
  rw [Rect.mem_set_unit]
  intro a
  fin_cases a <;> simp at h0 h1 h2 ⊢ <;> omega

/-- Holding the row scratch whole at `r` is holding its four planes at `r`. -/
theorem sR_planes4 (r : Buf (Elt F) ((thr4 d L).loc cc4_scratch1)) :
    ((thr4 d L).loc cc4_scratch1 ↦{fullShare} r : sProp 𝕄) = iprop(pl4_0 d L r ∗ pl4_1 d L r ∗ pl4_2 d L r ∗ pl4_3 d L r) := by
  have e : ((thr4 d L).loc cc4_scratch1 ↦{fullShare} r : sProp 𝕄)
      = bigSep Finset.univ fun j : Fin 4 => ((thr4 d L).loc cc4_scratch1 ↦[plSet4 j]{fullShare} r : sProp 𝕄) := by
    rw [← pointsTo_biUnion Finset.univ (ℓ := (thr4 d L).loc cc4_scratch1) plSet4 pl_disjoint4, pl_cover4]; try rfl
  rw [e, bigSep_univ_eq_bigSepL [(0 : Fin 4), 1, 2, 3] (by decide) (by decide)]
  unfold pl4_0 pl4_1 pl4_2 pl4_3
  rw [set_rPl4_0, set_rPl4_1, set_rPl4_2, set_rPl4_3]
  rfl

/-- Four planes at four contents join into the row scratch whole at some contents. -/
theorem sR_join4 (r0 r1 r2 r3 : Buf (Elt F) ((thr4 d L).loc cc4_scratch1)) :
    iprop(pl4_0 d L r0 ∗ pl4_1 d L r1 ∗ pl4_2 d L r2 ∗ pl4_3 d L r3)
      ⊢ (iprop(∃ r, (thr4 d L).loc cc4_scratch1 ↦{fullShare} r) : sProp 𝕄) := by
  have e : (bigSep Finset.univ fun j : Fin 4 => ((thr4 d L).loc cc4_scratch1 ↦[plSet4 j]{fullShare} (![r0, r1, r2, r3] : Fin 4 → Buf (Elt F) ((thr4 d L).loc cc4_scratch1)) j : sProp 𝕄))
      = iprop(pl4_0 d L r0 ∗ pl4_1 d L r1 ∗ pl4_2 d L r2 ∗ pl4_3 d L r3) := by
    rw [bigSep_univ_eq_bigSepL [(0 : Fin 4), 1, 2, 3] (by decide) (by decide)]
    unfold pl4_0 pl4_1 pl4_2 pl4_3
    rw [set_rPl4_0, set_rPl4_1, set_rPl4_2, set_rPl4_3]
    rfl
  rw [← e]
  iintro H
  ihave H' := (pointsTo_biUnion_join Finset.univ plSet4 (![r0, r1, r2, r3] : Fin 4 → Buf (Elt F) ((thr4 d L).loc cc4_scratch1)) r0 pl_disjoint4) $$ H
  icases H' with ⟨%g, -, Hg⟩
  rw [pl_cover4]
  iexists g; iexact Hg

/-! ## A read share of the table as a remainder and four tokens -/

theorem x_toks4 (q : PosShare TreeShare) (X : Buf (Elt F) (xLoc d)) :
    ((xW).view.loc (thr4 d L) ↦{q} X : sProp 𝕄)
      ⊣⊢ iprop(((xW).view.loc (thr4 d L) ↦{Transfers.shareDrop q 4} X) ∗ ((xW).view.loc (thr4 d L) ↦{Transfers.shareTok q 4 0} X)
          ∗ ((xW).view.loc (thr4 d L) ↦{Transfers.shareTok q 4 1} X) ∗ ((xW).view.loc (thr4 d L) ↦{Transfers.shareTok q 4 2} X)
          ∗ ((xW).view.loc (thr4 d L) ↦{Transfers.shareTok q 4 3} X)) := by
  have e : (iprop(((xW).view.loc (thr4 d L) ↦{Transfers.shareTok q 4 0} X)
          ∗ ((xW).view.loc (thr4 d L) ↦{Transfers.shareTok q 4 1} X) ∗ ((xW).view.loc (thr4 d L) ↦{Transfers.shareTok q 4 2} X)
          ∗ ((xW).view.loc (thr4 d L) ↦{Transfers.shareTok q 4 3} X)) : sProp 𝕄)
      = bigSep Finset.univ fun i : Fin 4 => ((xW).view.loc (thr4 d L) ↦{Transfers.shareTok q 4 i} X : sProp 𝕄) :=
    (bigSep_univ_eq_bigSepL [(0 : Fin 4), 1, 2, 3] (by decide) (by decide)
      (fun i : Fin 4 => ((xW).view.loc (thr4 d L) ↦{Transfers.shareTok q 4 i} X : sProp 𝕄))).symm
  rw [e]
  exact Transfers.pointsTo_toks q 4

end Cert.Kernel.KP

end
-- ==== Proof.TileLoop4B.lean ====
/-
  The body of call 4's task on one vector subcore: the first index fetch, the loop by its invariant (one trip by the
  trip lemmas, the result's windows taken from and put back into their family), the four last write-outs awaited,
  and the subcore's storage handed back as it was found.
-/
import proofs.«210879_g80607946211848_cont_9to1_m_1212_13_alg».proof.Proof.TileTrip4B
import proofs.«210879_g80607946211848_cont_9to1_m_1212_13_alg».proof.Proof.TileOut4B
import proofs.«210879_g80607946211848_cont_9to1_m_1212_13_alg».proof.Proof.TileScoped4B

noncomputable section

namespace Cert.Kernel.KP

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

local notation "xW" => (Memref.whole Cert.Kernel.main_v1_scv : Memref Cert.Kernel.sig Kind.scVector Space.hbm Cert.Kernel.S160000x128 EltTy.f32)
local notation "iW" => (Memref.whole Cert.Kernel.main_v16_scv : Memref Cert.Kernel.sig Kind.scVector Space.hbm Cert.Kernel.S250x4x128 EltTy.i32)
local notation "oW" => (Memref.whole Cert.Kernel.main_v17_scv : Memref Cert.Kernel.sig Kind.scVector Space.hbm Cert.Kernel.S4x32000x128 EltTy.f32)
local notation "sI" => (Memref.whole Cert.Kernel.cc4_scratch0 : Memref Cert.Kernel.sig Kind.scVector Space.vmem Cert.Kernel.S2x4x128 EltTy.i32)
local notation "sR" => (Memref.whole Cert.Kernel.cc4_scratch1 : Memref Cert.Kernel.sig Kind.scVector Space.vmem Cert.Kernel.S4x128x128 EltTy.f32)

variable [FloatOps F] (d : Dev nD) (L : grid4.Coords) (q : PosShare TreeShare)
  (X : Buf (Elt F) (xLoc d)) (I : Buf (Elt F) (iLoc4 d)) (G : Buf (Elt F) (oLoc4 d))

/-- The row scratch and the write-out semaphores after `n` active trips. -/
def rowsAt4 : ℕ → sProp 𝕄
  | 0 => rowsIdle4 d L
  | m + 1 => if hm : m < k4_t1_loop.trips then (if hA : Act4 L ⟨m, hm⟩ then rowsFly4 d L X I ⟨m, hm⟩ hA else iprop(False)) else iprop(False)

/-- The index side before trip `k`. -/
def idxAt4 (k : ℕ) : sProp 𝕄 :=
  if hk : k < k4_t1_loop.trips then (if hA : Act4 L ⟨k, hk⟩ then idxFly4 d L q I ⟨k, hk⟩ hA else idxIdle4 d L q I) else idxIdle4 d L q I

/-- The loop's invariant before trip `k`. -/
def invL4 (O : CellTallies nD τ sig (HIx 5)) (W : Waits sig (HIx 5)) (k : ℕ) (_ : PUnit) : sProp 𝕄 :=
  iprop(Transfers.MayWaits (thr4 d L) (none : HIx 5) O ∗ xPart4 d L q X ∗ idxAt4 d L q I k ∗ gsems4 d L
    ∗ rowsAt4 d L X I (cnt4 L k) ∗ outPart4 d L X I G (cnt4 L k) ∗ owesPart4 d L O W)

omit [FloatOps F] in
theorem idxAt4_act (k : Fin k4_t1_loop.trips) (hA : Act4 L k) : idxAt4 d L q I k.val = idxFly4 d L q I k hA := by
  unfold idxAt4; rw [dif_pos k.isLt, dif_pos hA]
omit [FloatOps F] in
theorem idxAt4_idle (k : Fin k4_t1_loop.trips) (hnA : ¬ Act4 L k) : idxAt4 d L q I k.val = idxIdle4 d L q I := by
  unfold idxAt4; rw [dif_pos k.isLt, dif_neg hnA]
omit [FloatOps F] in
theorem idxAt4_end (k : ℕ) (hk : ¬ k < k4_t1_loop.trips) : idxAt4 d L q I k = idxIdle4 d L q I := by
  unfold idxAt4; rw [dif_neg hk]
omit [FloatOps F] in
theorem rowsAt4_succ (t : Fin k4_t1_loop.trips) (hA : Act4 L t) : rowsAt4 d L X I (t.val + 1) = rowsFly4 d L X I t hA := by
  show (if hm : t.val < k4_t1_loop.trips then (if hA : Act4 L ⟨t.val, hm⟩ then rowsFly4 d L X I ⟨t.val, hm⟩ hA else iprop(False)) else iprop(False)) = _
  rw [dif_pos t.isLt, dif_pos hA]

omit [FloatOps F] in
theorem out_take_first4' (k : Fin k4_t1_loop.trips) (hk0 : k.val = 0) (hA : Act4 L k) :
    outPart4 d L X I G k.val ⊢ iprop(oWins4 d L k hA G ∗ bigSep (Finset.univ.erase k) (outPhi4 d L X I G k.val)) := by
  obtain ⟨kv, hkv⟩ := k
  simp only at hk0
  subst hk0
  exact out_take_first4 d L X I G hkv hA

omit [FloatOps F] in
theorem out_put_first4' (k : Fin k4_t1_loop.trips) (hk0 : k.val = 0) :
    bigSep (Finset.univ.erase k) (outPhi4 d L X I G k.val) ⊢ outPart4 d L X I G (k.val + 1) := by
  obtain ⟨kv, hkv⟩ := k
  simp only at hk0
  subst hk0
  exact out_put_first4 d L X I G hkv

set_option maxHeartbeats 4000000 in
set_option sl_exec.dmaWindow true in
theorem tile_body4 (hF : (K (F := F)).Facts) (d : Dev nD) (L : grid4.Coords)
    (X : Buf (Elt F) (xLoc d)) (I : Buf (Elt F) (iLoc4 d)) (G : Buf (Elt F) (oLoc4 d)) (hin : ∀ i, (I i).toNat < 160000)
    (O : CellTallies nD τ sig (HIx 5)) (W : Waits sig (HIx 5)) (hO : ∀ g, O g none = 0) :
    iprop((levAts (K (F := F)).L (K (F := F)).lev : sProp 𝕄) ∗ emp ∗ tileGo4 d X I G L
        ∗ scopedBufs (thr4 d L) ∗ scopedSems0 (thr4 d L) ∗ owes (thr4 d L) O W)
      ⊢ wp frame (wpE (defs₀ (F := F)) 𝒱₀ (thr4 d L) none) Set.univ
          (cc4__sc_gather_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10)
          fun _ => iprop(tileTd4 d X I L ∗ scopedBufs (thr4 d L) ∗ scopedSems0 (thr4 d L)
            ∗ ∃ W', ⌜∀ p ∈ W', p ∈ W ∨ p.2 = none⌝ ∗ owes (thr4 d L) O W') := by
  rw [(K (F := F)).scopedBufs_V hF d (cV4 L) (jV4 L), SparseCore.Cfg.scopedSems0_V (Val := Elt F) d (cV4 L) (jV4 L),
    ownSems0_V4, ownBufs_V4]
  unfold tileGo4 tileTd4
  rw [out_init4 d L X I G]
  iintro ⟨#Hlv, -, ⟨Hx, Hi, Hout⟩, ⟨⟨%s0, HsI⟩, ⟨%r, HsR⟩, Hbufs⟩, ⟨Hg0, Hg1, Hg2, Hg3, Hw0, Hw1, Hw2, Hw3, His, Hsems⟩, HO⟩
  ihave Hmw := ((K (F := F)).mayWaits_none (thr := thr4 d L) hO) $$ Hlv
  ihave Hx' := (Entails.of_eq (pts_x4 d L (qTile4 L) X).symm) $$ Hx
  ihave Hxt := (x_toks4 d L (qTile4 L) X).1 $$ Hx'
  icases Hxt with ⟨Hxr, Hx0, Hx1, Hx2, Hx3⟩
  ihave Hi' := (Entails.of_eq (pts_i4 d L (qTile4 L) I).symm) $$ Hi
  ihave HsI' := (Entails.of_eq (pts_sI4 d L s0).symm) $$ HsI
  ihave Hpl := (Entails.of_eq (sR_planes4 d L r)) $$ HsR
  icases Hpl with ⟨Hr0, Hr1, Hr2, Hr3⟩
  sl_unfold [cc4__sc_gather_body]
  sl_exec (disch := exact View.amount_pos _ _ (show 0 < S4x128.numel by decide))
  sl_for (invL4 d L (qTile4 L) X I G O W) $$ [Hmw Hxr Hx0 Hx1 Hx2 Hx3 Hi' Hout HsI' Hr0 Hr1 Hr2 Hr3 Hg0 Hg1 Hg2 Hg3 Hw0 Hw1 Hw2 Hw3 His HO]
  case region =>
    intro k acc
    have htr : k4_t1_loop.trips = 8 := tb4_trips
    obtain ⟨hn7, hn8⟩ := nAct_bounds4 L
    by_cases hA : Act4 L k
    · obtain ⟨hc, hc'⟩ := cnt_act4 L k hA
      have hkA := (act_iff_lt4 L k).mp hA
      unfold invL4
      rw [hc, hc', idxAt4_act d L (qTile4 L) I k hA, rowsAt4_succ d L X I k hA]
      by_cases h2 : k4_cond2 L k = 1#1
      · have hlt := (pre_iff_lt4 L k).mp h2
        have hk1 : k.val + 1 < k4_t1_loop.trips := by omega
        have hA' : Act4 L ⟨k.val + 1, hk1⟩ := (act_iff_lt4 L ⟨k.val + 1, hk1⟩).mpr hlt
        rw [idxAt4_act d L (qTile4 L) I ⟨k.val + 1, hk1⟩ hA']
        rcases Nat.eq_zero_or_pos k.val with hk0 | hkp
        · -- the first trip
          have hrows0 : rowsAt4 d L X I k.val = rowsIdle4 d L := by rw [hk0]; rfl
          rw [hrows0]
          have hT := tripC4 d L (qTile4 L) X I G O W k ⟨k.val + 1, hk1⟩ hk0 rfl hA hA' h2 hin
            iprop(Transfers.MayWaits (thr4 d L) (none : HIx 5) O ∗ bigSep (Finset.univ.erase k) (outPhi4 d L X I G k.val))
          have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take_first4' d L X I G k hk0 hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, HO, #Hmw, Hrest⟩
            ihave Hout := (out_put_first4' d L X I G k hk0) $$ Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
        · -- a later trip that prefetches
          have htp : k.val - 1 < k4_t1_loop.trips := by omega
          have hp : (⟨k.val - 1, htp⟩ : Fin k4_t1_loop.trips).val + 1 = k.val := by simp only; omega
          have hAp : Act4 L ⟨k.val - 1, htp⟩ := (act_iff_lt4 L ⟨k.val - 1, htp⟩).mpr (by simp only; omega)
          have hrows : rowsAt4 d L X I k.val = rowsFly4 d L X I ⟨k.val - 1, htp⟩ hAp := by
            have h := rowsAt4_succ d L X I ⟨k.val - 1, htp⟩ hAp
            rwa [hp] at h
          rw [hrows]
          have hT := tripA4 d L (qTile4 L) X I G O W k ⟨k.val - 1, htp⟩ ⟨k.val + 1, hk1⟩ hp rfl hA hAp hA' h2 hin
            iprop(Transfers.MayWaits (thr4 d L) (none : HIx 5) O ∗ bigSep ((Finset.univ.erase k).erase ⟨k.val - 1, htp⟩) (outPhi4 d L X I G k.val))
          have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
              (Scalar.addi (Scalar.muli (BitVec.ofNat 32 (L 1).val) 2#32) (BitVec.ofNat 32 (L 0).val)) k () := rfl
          rw [hprog]
          refine BIBase.Entails.trans ?_ (BIBase.Entails.trans hT (wp_mono frame _ _ fun _ => ?_))
          · iintro ⟨#Hmw, Hx, Hidx, Hg, Hrows, Hout, HO⟩
            ihave Hout' := (out_take4 d L X I G k ⟨k.val - 1, htp⟩ hp hA) $$ Hout
            icases Hout' with ⟨Hwin, Hrest⟩
            isplitl []; · iexact Hmw
            isplitl [Hx]; · iexact Hx
            isplitl [Hidx]; · iexact Hidx
            isplitl [Hg]; · iexact Hg
            isplitl [Hrows]; · iexact Hrows
            isplitl [Hwin]; · iexact Hwin
            isplitl [HO]; · iexact HO
            isplitl []; · iexact Hmw
            iexact Hrest
          · iintro ⟨Hx, Hidx, Hg, Hrows, Hwin, HO, #Hmw, Hrest⟩
            ihave Hout := (out_put4 d L X I G k ⟨k.val - 1, htp⟩ hp hAp) $$ [Hwin Hrest]
            · isplitl [Hwin]; · iexact Hwin
              iexact Hrest
            isplitl []; · iexact Hmw
            isplitl [Hx]; · iexact Hx
            isplitl [Hidx]; · iexact Hidx
            isplitl [Hg]; · iexact Hg
            isplitl [Hrows]; · iexact Hrows
            isplitl [Hout]; · iexact Hout
            iexact HO
      · -- the last active trip
        have hnlt : ¬ k.val + 1 < nAct4 L := fun h => h2 ((pre_iff_lt4 L k).mpr h)
        have hidx' : idxAt4 d L (qTile4 L) I (k.val + 1) = idxIdle4 d L (qTile4 L) I := by
          unfold idxAt4
          split_ifs with h1 h3
          · exact absurd ((act_iff_lt4 L ⟨k.val + 1, h1⟩).mp h3) hnlt
          · rfl
          · rfl
        rw [hidx']
        have htp : k.val - 1 < k4_t1_loop.trips := by omega
        have hp : (⟨k.val - 1, htp⟩ : Fin k4_t1_loop.trips).val + 1 = k.val := by simp only; omega
        have hAp : Act4 L ⟨k.val - 1, htp⟩ := (act_iff_lt4 L ⟨k.val - 1, htp⟩).mpr (by simp only; omega)
        have hrows : rowsAt4 d L X I k.val = rowsFly4 d L X I ⟨k.val - 1, htp⟩ hAp := by
          have h := rowsAt4_succ d L X I ⟨k.val - 1, htp⟩ hAp
          rwa [hp] at h
        rw [hrows]
        have hT := tripB4 d L (qTile4 L) X I G O W k ⟨k.val - 1, htp⟩ hp hA hAp h2 hin
          iprop(Transfers.MayWaits (thr4 d L) (none : HIx 5) O ∗ bigSep ((Finset.univ.erase k).erase ⟨k.val - 1, htp⟩) (outPhi4 d L X I G k.val))
        have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
            (Scalar.addi (Scalar.muli (BitVec.ofNat 32 (L 1).val) 2#32) (BitVec.ofNat 32 (L 0).val)) k () := rfl
        rw [hprog]
        refine BIBase.Entails.trans ?_ (BIBase.Entails.trans hT (wp_mono frame _ _ fun _ => ?_))
        · iintro ⟨#Hmw, Hx, Hidx, Hg, Hrows, Hout, HO⟩
          ihave Hout' := (out_take4 d L X I G k ⟨k.val - 1, htp⟩ hp hA) $$ Hout
          icases Hout' with ⟨Hwin, Hrest⟩
          isplitl []; · iexact Hmw
          isplitl [Hx]; · iexact Hx
          isplitl [Hidx]; · iexact Hidx
          isplitl [Hg]; · iexact Hg
          isplitl [Hrows]; · iexact Hrows
          isplitl [Hwin]; · iexact Hwin
          isplitl [HO]; · iexact HO
          isplitl []; · iexact Hmw
          iexact Hrest
        · iintro ⟨Hx, Hidx, Hg, Hrows, Hwin, HO, #Hmw, Hrest⟩
          ihave Hout := (out_put4 d L X I G k ⟨k.val - 1, htp⟩ hp hAp) $$ [Hwin Hrest]
          · isplitl [Hwin]; · iexact Hwin
            iexact Hrest
          isplitl []; · iexact Hmw
          isplitl [Hx]; · iexact Hx
          isplitl [Hidx]; · iexact Hidx
          isplitl [Hg]; · iexact Hg
          isplitl [Hrows]; · iexact Hrows
          isplitl [Hout]; · iexact Hout
          iexact HO
    · -- an idle trip
      obtain ⟨hc, hc'⟩ := cnt_idle4 L k hA
      have hge : nAct4 L ≤ k.val := Nat.not_lt.mp (fun h => hA ((act_iff_lt4 L k).mpr h))
      have hidx' : idxAt4 d L (qTile4 L) I (k.val + 1) = idxIdle4 d L (qTile4 L) I := by
        unfold idxAt4
        split_ifs with h1 h3
        · exact absurd ((act_iff_lt4 L ⟨k.val + 1, h1⟩).mp h3) (by simp only; omega)
        · rfl
        · rfl
      unfold invL4
      rw [hc, hc', idxAt4_idle d L (qTile4 L) I k hA, hidx']
      have hprog : tile_body4.sl.prog.body_1 (F := F) L k acc = k4_t1_body L xW (Memref.isWhole_whole _) iW (Memref.isWhole_whole _) oW (Memref.isWhole_whole _)
            sI (Memref.isWhole_whole _) sR (Memref.isWhole_whole _) cc4_scratch2 cc4_scratch3 cc4_scratch4 cc4_scratch5 cc4_scratch6 cc4_scratch7 cc4_scratch8 cc4_scratch9 cc4_scratch10
          (Scalar.addi (Scalar.muli (BitVec.ofNat 32 (L 1).val) 2#32) (BitVec.ofNat 32 (L 0).val)) k () := rfl
      rw [hprog]
      exact tripI4 d L k hA _
  · -- the invariant before the first trip
    have h0 : 0 < k4_t1_loop.trips := by rw [tb4_trips]; omega
    have hA0 : Act4 L ⟨0, h0⟩ := (act_iff_lt4 L ⟨0, h0⟩).mpr (by have := (nAct_bounds4 L).1; simp only; omega)
    unfold invL4
    rw [show cnt4 L 0 = 0 from Nat.zero_min _, idxAt4_act d L (qTile4 L) I ⟨0, h0⟩ hA0, show rowsAt4 d L X I 0 = rowsIdle4 d L from rfl]
    unfold xPart4 idxFly4 gsems4 rowsIdle4 owesPart4 idxDeliv4
    isplitl []; · iexact Hmw
    isplitl [Hxr Hx0 Hx1 Hx2 Hx3]
    · isplitl [Hxr]; · iexact Hxr
      isplitl [Hx0]; · iexact Hx0
      isplitl [Hx1]; · iexact Hx1
      isplitl [Hx2]; · iexact Hx2
      iexact Hx3
    isplitl [His Hi' HsI']
    · iexists _
      isplitr
      · ipureintro; exact slot_agree_first4 d L I h0 hA0 s0
      rw [slot_first_set4 L h0 hA0, chunk_first_set4 L h0 hA0]
      isplitl [His]; · iexact His
      isplitl [Hi']; · iexact Hi'
      iexact HsI'
    isplitl [Hg0 Hg1 Hg2 Hg3]
    · isplitl [Hg0]; · iexact Hg0
      isplitl [Hg1]; · iexact Hg1
      isplitl [Hg2]; · iexact Hg2
      iexact Hg3
    isplitl [Hw0 Hw1 Hw2 Hw3 Hr0 Hr1 Hr2 Hr3]
    · isplitl [Hw0 Hr0]
      · isplitl [Hw0]; · iexact Hw0
        iexists r; iexact Hr0
      isplitl [Hw1 Hr1]
      · isplitl [Hw1]; · iexact Hw1
        iexists r; iexact Hr1
      isplitl [Hw2 Hr2]
      · isplitl [Hw2]; · iexact Hw2
        iexists r; iexact Hr2
      isplitl [Hw3]; · iexact Hw3
      iexists r; iexact Hr3
    isplitl [Hout]; · iexact Hout
    iexists W
    isplitr
    · ipureintro; exact fun p hp => .inl hp
    · iexact HO
  -- after the loop: the last trip's four write-outs are awaited, and everything is handed back
  iintro %_ HI
  obtain ⟨hn7, hn8⟩ := nAct_bounds4 L
  have htr : k4_t1_loop.trips = 8 := tb4_trips
  obtain ⟨m, hm⟩ : ∃ m, nAct4 L = m + 1 := ⟨nAct4 L - 1, by omega⟩
  have hmlt : m < k4_t1_loop.trips := by omega
  have hAm : Act4 L ⟨m, hmlt⟩ := (act_iff_lt4 L ⟨m, hmlt⟩).mpr (by simp only; omega)
  have hidle : ∀ t : Fin k4_t1_loop.trips, (⟨m, hmlt⟩ : Fin k4_t1_loop.trips).val < t.val → ¬ Act4 L t :=
    fun t ht h => by have := (act_iff_lt4 L t).mp h; simp only at ht; omega
  unfold invL4
  rw [cnt_end4 L, idxAt4_end d L (qTile4 L) I _ (lt_irrefl _), hm, rowsAt4_succ d L X I ⟨m, hmlt⟩ hAm]
  unfold xPart4 idxIdle4 gsems4 rowsFly4 owesPart4
  icases HI with ⟨#Hmw, ⟨Hxr, Hx0, Hx1, Hx2, Hx3⟩, ⟨His, Hi, %S, HsI⟩, ⟨Hg0, Hg1, Hg2, Hg3⟩, ⟨%r0, %r1, %r2, %r3, Hf0, Hf1, Hf2, Hf3⟩, Hout, ⟨%W', %hW', HO⟩⟩
  unfold wDeliv4 pl4_0 pl4_1 pl4_2 pl4_3
  sl_exec
  sl_step
  isplitl [Hxr Hx0 Hx1 Hx2 Hx3 Hi Hout Hf0_dst Hf1_dst Hf2_dst Hf3_dst]
  · isplitl [Hxr Hx0 Hx1 Hx2 Hx3]
    · iapply (Entails.of_eq (pts_x4 d L (qTile4 L) X))
      iapply (x_toks4 d L (qTile4 L) X).2
      isplitl [Hxr]; · iexact Hxr
      isplitl [Hx0]; · iexact Hx0
      isplitl [Hx1]; · iexact Hx1
      isplitl [Hx2]; · iexact Hx2
      iexact Hx3
    isplitl [Hi]
    · iapply (Entails.of_eq (pts_i4 d L (qTile4 L) I)) $$ Hi
    iapply (out_final4 d L X I G ⟨m, hmlt⟩ hAm hidle)
    isplitl [Hout]; · iexact Hout
    unfold oWins4
    isplitl [Hf0_dst]; · iexact Hf0_dst
    isplitl [Hf1_dst]; · iexact Hf1_dst
    isplitl [Hf2_dst]; · iexact Hf2_dst
    iexact Hf3_dst
  isplitl [HsI Hf0_src Hf1_src Hf2_src Hf3_src Hbufs]
  · isplitl [HsI]
    · iexists S
      iapply (Entails.of_eq (pts_sI4 d L S)) $$ HsI
    isplitl [Hf0_src Hf1_src Hf2_src Hf3_src]
    · iapply (sR_join4 d L r0 r1 r2 r3)
      isplitl [Hf0_src]; · iexact Hf0_src
      isplitl [Hf1_src]; · iexact Hf1_src
      isplitl [Hf2_src]; · iexact Hf2_src
      iexact Hf3_src
    iexact Hbufs
  isplitl [Hg0 Hg1 Hg2 Hg3 Hf0 Hf1 Hf2 Hf3 His Hsems]
  · isplitl [Hg0]; · iexact Hg0
    isplitl [Hg1]; · iexact Hg1
    isplitl [Hg2]; · iexact Hg2
    isplitl [Hg3]; · iexact Hg3
    isplitl [Hf0]; · iexact Hf0
    isplitl [Hf1]; · iexact Hf1
    isplitl [Hf2]; · iexact Hf2
    isplitl [Hf3]; · iexact Hf3
    isplitl [His]; · iexact His
    iexact Hsems
  iexists _
  isplitr
  rotate_left
  · iexact HO
  · ipureintro
    exact none_ins4 (none_ins4 (none_ins4 (none_ins4 hW')))

end Cert.Kernel.KP

end
-- ==== Proof.RefOps.lean ====
/-
  The reference program's @main as the list of its 81 host operations (the two outlined functions' operations
  listed at their call sites over the calls' buffer records), and the operations' composed pure term, in stages.
-/
import proofs.«210879_g80607946211848_cont_9to1_m_1212_13_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The three concatenations, as functions of their pieces -/

/-- The self id in front of the four neighbour ids: `[1, 160000, 1]` and `[1, 160000, 4]` along the last axis. -/
def catIdx (a : IVec S1x160000x1 32) (b : IVec S1x160000x4 32) : IVec S1x160000x5 32 :=
  concatenate S1x160000x5 2 [⟨S1x160000x1, a⟩, ⟨S1x160000x4, b⟩] concatenates_S1x160000x1_S1x160000x4_S1x160000x5_d2

/-- One column in front of the 160000 edge columns: `[1, 128, 1]` and `[1, 128, 160000]` along the last axis. -/
def catPad (a : FVec F S1x128x1 .f32) (b : FVec F S1x128x160000 .f32) : FVec F S1x128x160001 .f32 :=
  concatenate S1x128x160001 2 [⟨S1x128x1, a⟩, ⟨S1x128x160000, b⟩] concatenates_S1x128x1_S1x128x160000_S1x128x160001_d2

/-- Five `[1, 128, 160000, 1]` pieces along the last axis. -/
def cat5 (a b c d e : FVec F S1x128x160000x1 .f32) : FVec F S1x128x160000x5 .f32 :=
  concatenate S1x128x160000x5 3
    [⟨S1x128x160000x1, a⟩, ⟨S1x128x160000x1, b⟩, ⟨S1x128x160000x1, c⟩, ⟨S1x128x160000x1, d⟩, ⟨S1x128x160000x1, e⟩]
    concatenates_S1x128x160000x1_S1x128x160000x1_S1x128x160000x1_S1x128x160000x1_S1x128x160000x1_S1x128x160000x5_d3

/-- @main's 81 operations, in order: 19 of its own, the 23 of the lookup function (the index select of the
    nested function among them) over that call's buffers, then 39 of its own. -/
abbrev ops : List (HloOp τ sig (Elt F)) :=
  [ StableHlo.nullary main_v0 (iotaInDim S160000 32 0),
    StableHlo.unary main_v0 main_v1 (broadcastInDim S1x160000x1 ![1] bcast_S160000_S1x160000x1_1 : (⟨S160000, .i32⟩ : BufTy).Contents (Elt F) → (⟨S1x160000x1, .i32⟩ : BufTy).Contents (Elt F)),
    StableHlo.binary main_v1 main_arg1 main_v2 (catIdx : (⟨S1x160000x1, .i32⟩ : BufTy).Contents (Elt F) → (⟨S1x160000x4, .i32⟩ : BufTy).Contents (Elt F) → (⟨S1x160000x5, .i32⟩ : BufTy).Contents (Elt F)),
    StableHlo.nullary main_c (constantI S_ 32 1#32),
    StableHlo.unary main_c main_v3 (broadcastInDim S1x160000x5 ![] bcast_S_S1x160000x5 : (⟨S_, .i32⟩ : BufTy).Contents (Elt F) → (⟨S1x160000x5, .i32⟩ : BufTy).Contents (Elt F)),
    StableHlo.binary main_v2 main_v3 main_v4 (addi : (⟨S1x160000x5, .i32⟩ : BufTy).Contents (Elt F) → (⟨S1x160000x5, .i32⟩ : BufTy).Contents (Elt F) → (⟨S1x160000x5, .i32⟩ : BufTy).Contents (Elt F)),
    StableHlo.nullary main_v5 (iotaInDim S1 32 0),
    StableHlo.nullary main_c_0 (constantI S_ 32 160001#32),
    StableHlo.unary main_c_0 main_v6 (broadcastInDim S1 ![] bcast_S_S1 : (⟨S_, .i32⟩ : BufTy).Contents (Elt F) → (⟨S1, .i32⟩ : BufTy).Contents (Elt F)),
    StableHlo.binary main_v5 main_v6 main_v7 (muli : (⟨S1, .i32⟩ : BufTy).Contents (Elt F) → (⟨S1, .i32⟩ : BufTy).Contents (Elt F) → (⟨S1, .i32⟩ : BufTy).Contents (Elt F)),
    StableHlo.unary main_v7 main_v8 (broadcastInDim S1x1x1 ![0] bcast_S1_S1x1x1_0 : (⟨S1, .i32⟩ : BufTy).Contents (Elt F) → (⟨S1x1x1, .i32⟩ : BufTy).Contents (Elt F)),
    StableHlo.unary main_v8 main_v9 (broadcastInDim S1x160000x5 ![0, 1, 2] bcast_S1x1x1_S1x160000x5_0_1_2 : (⟨S1x1x1, .i32⟩ : BufTy).Contents (Elt F) → (⟨S1x160000x5, .i32⟩ : BufTy).Contents (Elt F)),
    StableHlo.binary main_v4 main_v9 main_v10 (addi : (⟨S1x160000x5, .i32⟩ : BufTy).Contents (Elt F) → (⟨S1x160000x5, .i32⟩ : BufTy).Contents (Elt F) → (⟨S1x160000x5, .i32⟩ : BufTy).Contents (Elt F)),
    StableHlo.reshape main_v10 main_v11 rfl shapeCasts_S1x160000x5_S800000,
    StableHlo.nullary main_cst (constant S_ .f32 0x00000000#32),
    StableHlo.unary main_cst main_v12 (broadcastInDim S1x128x1 ![] bcast_S_S1x128x1 : (⟨S_, .f32⟩ : BufTy).Contents (Elt F) → (⟨S1x128x1, .f32⟩ : BufTy).Contents (Elt F)),
    StableHlo.binary main_v12 main_arg0 main_v13 (catPad : (⟨S1x128x1, .f32⟩ : BufTy).Contents (Elt F) → (⟨S1x128x160000, .f32⟩ : BufTy).Contents (Elt F) → (⟨S1x128x160001, .f32⟩ : BufTy).Contents (Elt F)),
    StableHlo.unary main_v13 main_v14 ((transpose S1x160001x128 [0, 2, 1] · transposes_S1x128x160001_S1x160001x128_0_2_1) : (⟨S1x128x160001, .f32⟩ : BufTy).Contents (Elt F) → (⟨S1x160001x128, .f32⟩ : BufTy).Contents (Elt F)),
    StableHlo.reshape main_v14 main_v15 rfl shapeCasts_S1x160001x128_S160001x128,
    StableHlo.TRef.nullary main_call0.c (constantI S_ 32 0#32),
    StableHlo.TRef.unary main_call0.c main_call0.v0 (broadcastInDim S800000 ![] bcast_S_S800000),
    StableHlo.TRef.binary (.of main_v11 : StableHlo.TRef sig ⟨S800000, .i32⟩) main_call0.v0 main_call0.v1 (cmpi .slt),
    StableHlo.TRef.nullary main_call0.c_0 (constantI S_ 32 160001#32),
    StableHlo.TRef.unary main_call0.c_0 main_call0.v2 (broadcastInDim S800000 ![] bcast_S_S800000),
    StableHlo.TRef.binary (.of main_v11 : StableHlo.TRef sig ⟨S800000, .i32⟩) main_call0.v2 main_call0.v3 addi,
    StableHlo.TRef.ternary main_call0.v1 main_call0.v3 (.of main_v11 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 160000#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_v15 : StableHlo.TRef sig ⟨S160001x128, .f32⟩) main_call0.v5 main_call0.v13 (fun x i => Host.gather gather_S160001x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select,
    StableHlo.reshape main_v16 main_v17 rfl shapeCasts_S800000x128_S1x160000x5x128,
    StableHlo.unary main_v17 main_v18 ((transpose S1x128x160000x5 [0, 3, 1, 2] · transposes_S1x160000x5x128_S1x128x160000x5_0_3_1_2) : (⟨S1x160000x5x128, .f32⟩ : BufTy).Contents (Elt F) → (⟨S1x128x160000x5, .f32⟩ : BufTy).Contents (Elt F)),
    StableHlo.unary main_v18 main_v19 ((extractStridedSlice S1x128x160000x1 ![0, 0, 0, 1] · slices_S1x128x160000x5_S1x128x160000x1_0_0_0_1) : (⟨S1x128x160000x5, .f32⟩ : BufTy).Contents (Elt F) → (⟨S1x128x160000x1, .f32⟩ : BufTy).Contents (Elt F)),
    StableHlo.reshape main_v19 main_v20 rfl shapeCasts_S1x128x160000x1_S1x128x160000,
    StableHlo.unary main_v18 main_v21 ((extractStridedSlice S1x128x160000x1 ![0, 0, 0, 3] · slices_S1x128x160000x5_S1x128x160000x1_0_0_0_3) : (⟨S1x128x160000x5, .f32⟩ : BufTy).Contents (Elt F) → (⟨S1x128x160000x1, .f32⟩ : BufTy).Contents (Elt F)),
    StableHlo.reshape main_v21 main_v22 rfl shapeCasts_S1x128x160000x1_S1x128x160000,
    StableHlo.binary main_v20 main_v22 main_v23 (addf : (⟨S1x128x160000, .f32⟩ : BufTy).Contents (Elt F) → (⟨S1x128x160000, .f32⟩ : BufTy).Contents (Elt F) → (⟨S1x128x160000, .f32⟩ : BufTy).Contents (Elt F)),
    StableHlo.unary main_v18 main_v24 ((extractStridedSlice S1x128x160000x1 ![0, 0, 0, 2] · slices_S1x128x160000x5_S1x128x160000x1_0_0_0_2) : (⟨S1x128x160000x5, .f32⟩ : BufTy).Contents (Elt F) → (⟨S1x128x160000x1, .f32⟩ : BufTy).Contents (Elt F)),
    StableHlo.reshape main_v24 main_v25 rfl shapeCasts_S1x128x160000x1_S1x128x160000,
    StableHlo.unary main_v18 main_v26 ((extractStridedSlice S1x128x160000x1 ![0, 0, 0, 4] · slices_S1x128x160000x5_S1x128x160000x1_0_0_0_4) : (⟨S1x128x160000x5, .f32⟩ : BufTy).Contents (Elt F) → (⟨S1x128x160000x1, .f32⟩ : BufTy).Contents (Elt F)),
    StableHlo.reshape main_v26 main_v27 rfl shapeCasts_S1x128x160000x1_S1x128x160000,
    StableHlo.binary main_v25 main_v27 main_v28 (addf : (⟨S1x128x160000, .f32⟩ : BufTy).Contents (Elt F) → (⟨S1x128x160000, .f32⟩ : BufTy).Contents (Elt F) → (⟨S1x128x160000, .f32⟩ : BufTy).Contents (Elt F)),
    StableHlo.unary main_v18 main_v29 ((extractStridedSlice S1x128x160000x1 ![0, 0, 0, 1] · slices_S1x128x160000x5_S1x128x160000x1_0_0_0_1) : (⟨S1x128x160000x5, .f32⟩ : BufTy).Contents (Elt F) → (⟨S1x128x160000x1, .f32⟩ : BufTy).Contents (Elt F)),
    StableHlo.reshape main_v29 main_v30 rfl shapeCasts_S1x128x160000x1_S1x128x160000,
    StableHlo.unary main_v18 main_v31 ((extractStridedSlice S1x128x160000x1 ![0, 0, 0, 3] · slices_S1x128x160000x5_S1x128x160000x1_0_0_0_3) : (⟨S1x128x160000x5, .f32⟩ : BufTy).Contents (Elt F) → (⟨S1x128x160000x1, .f32⟩ : BufTy).Contents (Elt F)),
    StableHlo.reshape main_v31 main_v32 rfl shapeCasts_S1x128x160000x1_S1x128x160000,
    StableHlo.binary main_v30 main_v32 main_v33 (subf : (⟨S1x128x160000, .f32⟩ : BufTy).Contents (Elt F) → (⟨S1x128x160000, .f32⟩ : BufTy).Contents (Elt F) → (⟨S1x128x160000, .f32⟩ : BufTy).Contents (Elt F)),
    StableHlo.unary main_v33 main_v34 (Host.absf : (⟨S1x128x160000, .f32⟩ : BufTy).Contents (Elt F) → (⟨S1x128x160000, .f32⟩ : BufTy).Contents (Elt F)),
    StableHlo.unary main_v18 main_v35 ((extractStridedSlice S1x128x160000x1 ![0, 0, 0, 2] · slices_S1x128x160000x5_S1x128x160000x1_0_0_0_2) : (⟨S1x128x160000x5, .f32⟩ : BufTy).Contents (Elt F) → (⟨S1x128x160000x1, .f32⟩ : BufTy).Contents (Elt F)),
    StableHlo.reshape main_v35 main_v36 rfl shapeCasts_S1x128x160000x1_S1x128x160000,
    StableHlo.unary main_v18 main_v37 ((extractStridedSlice S1x128x160000x1 ![0, 0, 0, 4] · slices_S1x128x160000x5_S1x128x160000x1_0_0_0_4) : (⟨S1x128x160000x5, .f32⟩ : BufTy).Contents (Elt F) → (⟨S1x128x160000x1, .f32⟩ : BufTy).Contents (Elt F)),
    StableHlo.reshape main_v37 main_v38 rfl shapeCasts_S1x128x160000x1_S1x128x160000,
    StableHlo.binary main_v36 main_v38 main_v39 (subf : (⟨S1x128x160000, .f32⟩ : BufTy).Contents (Elt F) → (⟨S1x128x160000, .f32⟩ : BufTy).Contents (Elt F) → (⟨S1x128x160000, .f32⟩ : BufTy).Contents (Elt F)),
    StableHlo.unary main_v39 main_v40 (Host.absf : (⟨S1x128x160000, .f32⟩ : BufTy).Contents (Elt F) → (⟨S1x128x160000, .f32⟩ : BufTy).Contents (Elt F)),
    StableHlo.unary main_v18 main_v41 ((extractStridedSlice S1x128x160000x1 ![0, 0, 0, 0] · slices_S1x128x160000x5_S1x128x160000x1_0_0_0_0) : (⟨S1x128x160000x5, .f32⟩ : BufTy).Contents (Elt F) → (⟨S1x128x160000x1, .f32⟩ : BufTy).Contents (Elt F)),
    StableHlo.reshape main_v41 main_v42 rfl shapeCasts_S1x128x160000x1_S1x128x160000,
    StableHlo.unary main_v42 main_v43 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v23 main_v44 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v28 main_v45 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v34 main_v46 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v40 main_v47 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.nary ![main_v43, main_v44, main_v45, main_v46, main_v47] main_v48 (fun u => cat5 (u 0) (u 1) (u 2) (u 3) (u 4)),
    StableHlo.reshape main_arg2 main_v49 rfl shapeCasts_S128x128x1x5_S128x128x5,
    StableHlo.binary main_v49 main_v48 main_v50 ((fun l r => Host.dotGeneral dot_S128x128x5_S1x128x160000x5_S128x1x160000_12_13_0_02_n_n none l r) : (⟨S128x128x5, .f32⟩ : BufTy).Contents (Elt F) → (⟨S1x128x160000x5, .f32⟩ : BufTy).Contents (Elt F) → (⟨S128x1x160000, .f32⟩ : BufTy).Contents (Elt F)),
    StableHlo.unary main_v50 main_v51 ((transpose S1x128x160000 [1, 0, 2] · transposes_S128x1x160000_S1x128x160000_1_0_2) : (⟨S128x1x160000, .f32⟩ : BufTy).Contents (Elt F) → (⟨S1x128x160000, .f32⟩ : BufTy).Contents (Elt F)),
    StableHlo.unary main_arg3 main_v52 (broadcastInDim S1x128x1 ![1] bcast_S128_S1x128x1_1 : (⟨S128, .f32⟩ : BufTy).Contents (Elt F) → (⟨S1x128x1, .f32⟩ : BufTy).Contents (Elt F)),
    StableHlo.unary main_v52 main_v53 (broadcastInDim S1x128x160000 ![0, 1, 2] bcast_S1x128x1_S1x128x160000_0_1_2 : (⟨S1x128x1, .f32⟩ : BufTy).Contents (Elt F) → (⟨S1x128x160000, .f32⟩ : BufTy).Contents (Elt F)),
    StableHlo.binary main_v51 main_v53 main_v54 (addf : (⟨S1x128x160000, .f32⟩ : BufTy).Contents (Elt F) → (⟨S1x128x160000, .f32⟩ : BufTy).Contents (Elt F) → (⟨S1x128x160000, .f32⟩ : BufTy).Contents (Elt F)),
    StableHlo.unary main_v54 main_v55 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)) ]

set_option maxRecDepth 4096 in
set_option maxHeartbeats 4000000 in
/-- @main is that straight line: the functions unfolded at their calls, sequencing reassociated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., binary_bufs_sub .., unary_bufs_sub .., unary_bufs_sub .., binary_bufs_sub .., reshape_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., reshape_bufs_sub .., unary_bufs_sub .., reshape_bufs_sub .., binary_bufs_sub .., unary_bufs_sub .., unary_bufs_sub .., reshape_bufs_sub .., unary_bufs_sub .., unary_bufs_sub .., unary_bufs_sub .., unary_bufs_sub .., unary_bufs_sub .., nary_bufs_sub .., reshape_bufs_sub .., binary_bufs_sub .., unary_bufs_sub .., unary_bufs_sub .., unary_bufs_sub .., binary_bufs_sub .., unary_bufs_sub ..⟩

/-! ## The line in three stretches -/

/-- The 19 operations before the lookup: the index column and the padded table. -/
abbrev opsA : List (HloOp τ sig (Elt F)) :=
  [ StableHlo.nullary main_v0 (iotaInDim S160000 32 0),
    StableHlo.unary main_v0 main_v1 (broadcastInDim S1x160000x1 ![1] bcast_S160000_S1x160000x1_1 : (⟨S160000, .i32⟩ : BufTy).Contents (Elt F) → (⟨S1x160000x1, .i32⟩ : BufTy).Contents (Elt F)),
    StableHlo.binary main_v1 main_arg1 main_v2 (catIdx : (⟨S1x160000x1, .i32⟩ : BufTy).Contents (Elt F) → (⟨S1x160000x4, .i32⟩ : BufTy).Contents (Elt F) → (⟨S1x160000x5, .i32⟩ : BufTy).Contents (Elt F)),
    StableHlo.nullary main_c (constantI S_ 32 1#32),
    StableHlo.unary main_c main_v3 (broadcastInDim S1x160000x5 ![] bcast_S_S1x160000x5 : (⟨S_, .i32⟩ : BufTy).Contents (Elt F) → (⟨S1x160000x5, .i32⟩ : BufTy).Contents (Elt F)),
    StableHlo.binary main_v2 main_v3 main_v4 (addi : (⟨S1x160000x5, .i32⟩ : BufTy).Contents (Elt F) → (⟨S1x160000x5, .i32⟩ : BufTy).Contents (Elt F) → (⟨S1x160000x5, .i32⟩ : BufTy).Contents (Elt F)),
    StableHlo.nullary main_v5 (iotaInDim S1 32 0),
    StableHlo.nullary main_c_0 (constantI S_ 32 160001#32),
    StableHlo.unary main_c_0 main_v6 (broadcastInDim S1 ![] bcast_S_S1 : (⟨S_, .i32⟩ : BufTy).Contents (Elt F) → (⟨S1, .i32⟩ : BufTy).Contents (Elt F)),
    StableHlo.binary main_v5 main_v6 main_v7 (muli : (⟨S1, .i32⟩ : BufTy).Contents (Elt F) → (⟨S1, .i32⟩ : BufTy).Contents (Elt F) → (⟨S1, .i32⟩ : BufTy).Contents (Elt F)),
    StableHlo.unary main_v7 main_v8 (broadcastInDim S1x1x1 ![0] bcast_S1_S1x1x1_0 : (⟨S1, .i32⟩ : BufTy).Contents (Elt F) → (⟨S1x1x1, .i32⟩ : BufTy).Contents (Elt F)),
    StableHlo.unary main_v8 main_v9 (broadcastInDim S1x160000x5 ![0, 1, 2] bcast_S1x1x1_S1x160000x5_0_1_2 : (⟨S1x1x1, .i32⟩ : BufTy).Contents (Elt F) → (⟨S1x160000x5, .i32⟩ : BufTy).Contents (Elt F)),
    StableHlo.binary main_v4 main_v9 main_v10 (addi : (⟨S1x160000x5, .i32⟩ : BufTy).Contents (Elt F) → (⟨S1x160000x5, .i32⟩ : BufTy).Contents (Elt F) → (⟨S1x160000x5, .i32⟩ : BufTy).Contents (Elt F)),
    StableHlo.reshape main_v10 main_v11 rfl shapeCasts_S1x160000x5_S800000,
    StableHlo.nullary main_cst (constant S_ .f32 0x00000000#32),
    StableHlo.unary main_cst main_v12 (broadcastInDim S1x128x1 ![] bcast_S_S1x128x1 : (⟨S_, .f32⟩ : BufTy).Contents (Elt F) → (⟨S1x128x1, .f32⟩ : BufTy).Contents (Elt F)),
    StableHlo.binary main_v12 main_arg0 main_v13 (catPad : (⟨S1x128x1, .f32⟩ : BufTy).Contents (Elt F) → (⟨S1x128x160000, .f32⟩ : BufTy).Contents (Elt F) → (⟨S1x128x160001, .f32⟩ : BufTy).Contents (Elt F)),
    StableHlo.unary main_v13 main_v14 ((transpose S1x160001x128 [0, 2, 1] · transposes_S1x128x160001_S1x160001x128_0_2_1) : (⟨S1x128x160001, .f32⟩ : BufTy).Contents (Elt F) → (⟨S1x160001x128, .f32⟩ : BufTy).Contents (Elt F)),
    StableHlo.reshape main_v14 main_v15 rfl shapeCasts_S1x160001x128_S160001x128 ]

/-- The lookup function's 23 operations. -/
abbrev opsB : List (HloOp τ sig (Elt F)) :=
  [ StableHlo.TRef.nullary main_call0.c (constantI S_ 32 0#32),
    StableHlo.TRef.unary main_call0.c main_call0.v0 (broadcastInDim S800000 ![] bcast_S_S800000),
    StableHlo.TRef.binary (.of main_v11 : StableHlo.TRef sig ⟨S800000, .i32⟩) main_call0.v0 main_call0.v1 (cmpi .slt),
    StableHlo.TRef.nullary main_call0.c_0 (constantI S_ 32 160001#32),
    StableHlo.TRef.unary main_call0.c_0 main_call0.v2 (broadcastInDim S800000 ![] bcast_S_S800000),
    StableHlo.TRef.binary (.of main_v11 : StableHlo.TRef sig ⟨S800000, .i32⟩) main_call0.v2 main_call0.v3 addi,
    StableHlo.TRef.ternary main_call0.v1 main_call0.v3 (.of main_v11 : StableHlo.TRef sig ⟨S800000, .i32⟩) main_call0.call0.v0 select,
    StableHlo.TRef.unary main_call0.call0.v0 main_call0.v5 (broadcastInDim S800000x1 ![0] bcast_S800000_S800000x1_0),
    StableHlo.TRef.nullary main_call0.c_1 (constantI S1 32 160000#32),
    StableHlo.TRef.nullary main_call0.c_2 (constantI S_ 32 0#32),
    StableHlo.TRef.unary main_call0.c_2 main_call0.v6 (broadcastInDim S800000x1 ![] bcast_S_S800000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S800000x1 ![0, 1] bcast_S1x1_S800000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S800000x1_S800000_d1 h_S_),
    StableHlo.TRef.binary (.of main_v15 : StableHlo.TRef sig ⟨S160001x128, .f32⟩) main_call0.v5 main_call0.v13 (fun x i => Host.gather gather_S160001x128_S800000x1_S800000x128_1_0_n_n_0_1_1128 x i),
    StableHlo.TRef.unary main_call0.v12 main_call0.v14 (broadcastInDim S800000x128 ![0] bcast_S800000_S800000x128_0),
    StableHlo.TRef.nullary main_call0.cst (constant S_ .f32 0x7FC00000#32),
    StableHlo.TRef.unary main_call0.cst main_call0.v15 (broadcastInDim S800000x128 ![] bcast_S_S800000x128),
    StableHlo.TRef.ternary main_call0.v14 main_call0.v13 main_call0.v15 main_call0.v16 select ]

/-- The 39 operations after the lookup: the features, the contraction, the bias. -/
abbrev opsC : List (HloOp τ sig (Elt F)) :=
  [ StableHlo.reshape main_v16 main_v17 rfl shapeCasts_S800000x128_S1x160000x5x128,
    StableHlo.unary main_v17 main_v18 ((transpose S1x128x160000x5 [0, 3, 1, 2] · transposes_S1x160000x5x128_S1x128x160000x5_0_3_1_2) : (⟨S1x160000x5x128, .f32⟩ : BufTy).Contents (Elt F) → (⟨S1x128x160000x5, .f32⟩ : BufTy).Contents (Elt F)),
    StableHlo.unary main_v18 main_v19 ((extractStridedSlice S1x128x160000x1 ![0, 0, 0, 1] · slices_S1x128x160000x5_S1x128x160000x1_0_0_0_1) : (⟨S1x128x160000x5, .f32⟩ : BufTy).Contents (Elt F) → (⟨S1x128x160000x1, .f32⟩ : BufTy).Contents (Elt F)),
    StableHlo.reshape main_v19 main_v20 rfl shapeCasts_S1x128x160000x1_S1x128x160000,
    StableHlo.unary main_v18 main_v21 ((extractStridedSlice S1x128x160000x1 ![0, 0, 0, 3] · slices_S1x128x160000x5_S1x128x160000x1_0_0_0_3) : (⟨S1x128x160000x5, .f32⟩ : BufTy).Contents (Elt F) → (⟨S1x128x160000x1, .f32⟩ : BufTy).Contents (Elt F)),
    StableHlo.reshape main_v21 main_v22 rfl shapeCasts_S1x128x160000x1_S1x128x160000,
    StableHlo.binary main_v20 main_v22 main_v23 (addf : (⟨S1x128x160000, .f32⟩ : BufTy).Contents (Elt F) → (⟨S1x128x160000, .f32⟩ : BufTy).Contents (Elt F) → (⟨S1x128x160000, .f32⟩ : BufTy).Contents (Elt F)),
    StableHlo.unary main_v18 main_v24 ((extractStridedSlice S1x128x160000x1 ![0, 0, 0, 2] · slices_S1x128x160000x5_S1x128x160000x1_0_0_0_2) : (⟨S1x128x160000x5, .f32⟩ : BufTy).Contents (Elt F) → (⟨S1x128x160000x1, .f32⟩ : BufTy).Contents (Elt F)),
    StableHlo.reshape main_v24 main_v25 rfl shapeCasts_S1x128x160000x1_S1x128x160000,
    StableHlo.unary main_v18 main_v26 ((extractStridedSlice S1x128x160000x1 ![0, 0, 0, 4] · slices_S1x128x160000x5_S1x128x160000x1_0_0_0_4) : (⟨S1x128x160000x5, .f32⟩ : BufTy).Contents (Elt F) → (⟨S1x128x160000x1, .f32⟩ : BufTy).Contents (Elt F)),
    StableHlo.reshape main_v26 main_v27 rfl shapeCasts_S1x128x160000x1_S1x128x160000,
    StableHlo.binary main_v25 main_v27 main_v28 (addf : (⟨S1x128x160000, .f32⟩ : BufTy).Contents (Elt F) → (⟨S1x128x160000, .f32⟩ : BufTy).Contents (Elt F) → (⟨S1x128x160000, .f32⟩ : BufTy).Contents (Elt F)),
    StableHlo.unary main_v18 main_v29 ((extractStridedSlice S1x128x160000x1 ![0, 0, 0, 1] · slices_S1x128x160000x5_S1x128x160000x1_0_0_0_1) : (⟨S1x128x160000x5, .f32⟩ : BufTy).Contents (Elt F) → (⟨S1x128x160000x1, .f32⟩ : BufTy).Contents (Elt F)),
    StableHlo.reshape main_v29 main_v30 rfl shapeCasts_S1x128x160000x1_S1x128x160000,
    StableHlo.unary main_v18 main_v31 ((extractStridedSlice S1x128x160000x1 ![0, 0, 0, 3] · slices_S1x128x160000x5_S1x128x160000x1_0_0_0_3) : (⟨S1x128x160000x5, .f32⟩ : BufTy).Contents (Elt F) → (⟨S1x128x160000x1, .f32⟩ : BufTy).Contents (Elt F)),
    StableHlo.reshape main_v31 main_v32 rfl shapeCasts_S1x128x160000x1_S1x128x160000,
    StableHlo.binary main_v30 main_v32 main_v33 (subf : (⟨S1x128x160000, .f32⟩ : BufTy).Contents (Elt F) → (⟨S1x128x160000, .f32⟩ : BufTy).Contents (Elt F) → (⟨S1x128x160000, .f32⟩ : BufTy).Contents (Elt F)),
    StableHlo.unary main_v33 main_v34 (Host.absf : (⟨S1x128x160000, .f32⟩ : BufTy).Contents (Elt F) → (⟨S1x128x160000, .f32⟩ : BufTy).Contents (Elt F)),
    StableHlo.unary main_v18 main_v35 ((extractStridedSlice S1x128x160000x1 ![0, 0, 0, 2] · slices_S1x128x160000x5_S1x128x160000x1_0_0_0_2) : (⟨S1x128x160000x5, .f32⟩ : BufTy).Contents (Elt F) → (⟨S1x128x160000x1, .f32⟩ : BufTy).Contents (Elt F)),
    StableHlo.reshape main_v35 main_v36 rfl shapeCasts_S1x128x160000x1_S1x128x160000,
    StableHlo.unary main_v18 main_v37 ((extractStridedSlice S1x128x160000x1 ![0, 0, 0, 4] · slices_S1x128x160000x5_S1x128x160000x1_0_0_0_4) : (⟨S1x128x160000x5, .f32⟩ : BufTy).Contents (Elt F) → (⟨S1x128x160000x1, .f32⟩ : BufTy).Contents (Elt F)),
    StableHlo.reshape main_v37 main_v38 rfl shapeCasts_S1x128x160000x1_S1x128x160000,
    StableHlo.binary main_v36 main_v38 main_v39 (subf : (⟨S1x128x160000, .f32⟩ : BufTy).Contents (Elt F) → (⟨S1x128x160000, .f32⟩ : BufTy).Contents (Elt F) → (⟨S1x128x160000, .f32⟩ : BufTy).Contents (Elt F)),
    StableHlo.unary main_v39 main_v40 (Host.absf : (⟨S1x128x160000, .f32⟩ : BufTy).Contents (Elt F) → (⟨S1x128x160000, .f32⟩ : BufTy).Contents (Elt F)),
    StableHlo.unary main_v18 main_v41 ((extractStridedSlice S1x128x160000x1 ![0, 0, 0, 0] · slices_S1x128x160000x5_S1x128x160000x1_0_0_0_0) : (⟨S1x128x160000x5, .f32⟩ : BufTy).Contents (Elt F) → (⟨S1x128x160000x1, .f32⟩ : BufTy).Contents (Elt F)),
    StableHlo.reshape main_v41 main_v42 rfl shapeCasts_S1x128x160000x1_S1x128x160000,
    StableHlo.unary main_v42 main_v43 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v23 main_v44 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v28 main_v45 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v34 main_v46 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.unary main_v40 main_v47 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)),
    StableHlo.nary ![main_v43, main_v44, main_v45, main_v46, main_v47] main_v48 (fun u => cat5 (u 0) (u 1) (u 2) (u 3) (u 4)),
    StableHlo.reshape main_arg2 main_v49 rfl shapeCasts_S128x128x1x5_S128x128x5,
    StableHlo.binary main_v49 main_v48 main_v50 ((fun l r => Host.dotGeneral dot_S128x128x5_S1x128x160000x5_S128x1x160000_12_13_0_02_n_n none l r) : (⟨S128x128x5, .f32⟩ : BufTy).Contents (Elt F) → (⟨S1x128x160000x5, .f32⟩ : BufTy).Contents (Elt F) → (⟨S128x1x160000, .f32⟩ : BufTy).Contents (Elt F)),
    StableHlo.unary main_v50 main_v51 ((transpose S1x128x160000 [1, 0, 2] · transposes_S128x1x160000_S1x128x160000_1_0_2) : (⟨S128x1x160000, .f32⟩ : BufTy).Contents (Elt F) → (⟨S1x128x160000, .f32⟩ : BufTy).Contents (Elt F)),
    StableHlo.unary main_arg3 main_v52 (broadcastInDim S1x128x1 ![1] bcast_S128_S1x128x1_1 : (⟨S128, .f32⟩ : BufTy).Contents (Elt F) → (⟨S1x128x1, .f32⟩ : BufTy).Contents (Elt F)),
    StableHlo.unary main_v52 main_v53 (broadcastInDim S1x128x160000 ![0, 1, 2] bcast_S1x128x1_S1x128x160000_0_1_2 : (⟨S1x128x1, .f32⟩ : BufTy).Contents (Elt F) → (⟨S1x128x160000, .f32⟩ : BufTy).Contents (Elt F)),
    StableHlo.binary main_v51 main_v53 main_v54 (addf : (⟨S1x128x160000, .f32⟩ : BufTy).Contents (Elt F) → (⟨S1x128x160000, .f32⟩ : BufTy).Contents (Elt F) → (⟨S1x128x160000, .f32⟩ : BufTy).Contents (Elt F)),
    StableHlo.unary main_v54 main_v55 (broadcastInDim S1x128x160000x1 ![0, 1, 2] bcast_S1x128x160000_S1x128x160000x1_0_1_2 : (⟨S1x128x160000, .f32⟩ : BufTy).Contents (Elt F) → (⟨S1x128x160000x1, .f32⟩ : BufTy).Contents (Elt F)) ]

theorem ops_split : (ops : List (HloOp τ sig (Elt F))) = opsA ++ (opsB ++ opsC) := rfl

/-- The fold over a concatenation is the fold over the second list from the fold over the first. -/
theorem after_append {τ' : Topo} {sig' : RefSig} {Val : EltTy → Type} (l₁ l₂ : List (HloOp τ' sig' Val)) :
    ∀ V : Valuation τ' sig' Val, after (l₁ ++ l₂) V = after l₂ (after l₁ V) := by
  induction l₁ with
  | nil => intro V; rfl
  | cons op l ih => intro V; rw [List.cons_append, after_cons, after_cons, ih]

/-! ## The operations' composed pure term, in stages -/

/-- The flat index column: per edge `e` the five ids (`e` itself, then its four neighbour ids), each shifted by one
    (row 0 of the padded table is the zero row) plus the batch offset (`0 * 160001`), laid out as `5 e + j`. -/
def tIdx (ge : IVec S1x160000x4 32) : IVec S800000 32 :=
  shapeCast S800000
    (addi
      (addi
        (catIdx (broadcastInDim S1x160000x1 ![1] bcast_S160000_S1x160000x1_1 (iotaInDim S160000 32 0)) ge)
        (broadcastInDim S1x160000x5 ![] bcast_S_S1x160000x5 (constantI S_ 32 1#32)))
      (broadcastInDim S1x160000x5 ![0, 1, 2] bcast_S1x1x1_S1x160000x5_0_1_2
        (broadcastInDim S1x1x1 ![0] bcast_S1_S1x1x1_0
          (muli (iotaInDim S1 32 0) (broadcastInDim S1 ![] bcast_S_S1 (constantI S_ 32 160001#32))))))
    shapeCasts_S1x160000x5_S800000

/-- The padded table `[160001, 128]`: row 0 is zero, row `n + 1` is edge `n`'s channels. -/
def tXf (x : FVec F S1x128x160000 .f32) : FVec F S160001x128 .f32 :=
  shapeCast S160001x128
    (transpose S1x160001x128 [0, 2, 1]
      (catPad (broadcastInDim S1x128x1 ![] bcast_S_S1x128x1 (constant S_ .f32 0x00000000#32)) x)
      transposes_S1x128x160001_S1x160001x128_0_2_1)
    shapeCasts_S1x160001x128_S160001x128

/-- The lookup's index column: a negative index wrapped by the table's height, as a `[800000, 1]` column. -/
def tWrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 160001#32))) idx)

/-- The lookup's in-bounds mask: `0 ≤ i ≤ 160000`, per row. -/
def tMask (i5 : IVec S800000x1 32) : IVec S800000 1 :=
  Host.reduce IntOp.andi
    (andi (cmpi .sge i5 (broadcastInDim S800000x1 ![] bcast_S_S800000x1 (constantI S_ 32 0#32)))
      (cmpi .sle i5 (broadcastInDim S800000x1 ![0, 1] bcast_S1x1_S800000x1_0_1
        (broadcastInDim S1x1 ![1] bcast_S1_S1x1_1 (constantI S1 32 160000#32)))))
    (constantI S_ 1 1#1) reducesTo_S800000x1_S800000_d1 h_S_

/-- The lookup: the table's rows at the index column where in bounds, the fill value elsewhere. -/
def tTake (xf : FVec F S160001x128 .f32) (idx : IVec S800000 32) : FVec F S800000x128 .f32 :=
  select (broadcastInDim S800000x128 ![0] bcast_S800000_S800000x128_0 (tMask (tWrap idx)))
    (Host.gather gather_S160001x128_S800000x1_S800000x128_1_0_n_n_0_1_1128 xf (tWrap idx))
    (broadcastInDim S800000x128 ![] bcast_S_S800000x128 (constant S_ .f32 0x7FC00000#32))

/-- The looked-up rows as `[1, 128, 160000, 5]`: (channel, edge, which of the five ids). -/
def tV18 (t16 : FVec F S800000x128 .f32) : FVec F S1x128x160000x5 .f32 :=
  transpose S1x128x160000x5 [0, 3, 1, 2] (shapeCast S1x160000x5x128 t16 shapeCasts_S800000x128_S1x160000x5x128)
    transposes_S1x160000x5x128_S1x128x160000x5_0_3_1_2

/-- One of the five columns, as `[1, 128, 160000]`. -/
def tCol (v18 : FVec F S1x128x160000x5 .f32) (off : Fin S1x128x160000x5.rank → Nat)
    (h : S1x128x160000x5.Slices off S1x128x160000x1) : FVec F S1x128x160000 .f32 :=
  shapeCast S1x128x160000 (extractStridedSlice S1x128x160000x1 off v18 h) shapeCasts_S1x128x160000x1_S1x128x160000

/-- A `[1, 128, 160000]` array as `[1, 128, 160000, 1]`. -/
def tUnit (v : FVec F S1x128x160000 .f32) : FVec F S1x128x160000x1 .f32 :=
  broadcastInDim S1x128x160000x1 ![0, 1, 2] bcast_S1x128x160000_S1x128x160000x1_0_1_2 v

/-- The five features `[1, 128, 160000, 5]`: the self column, two sums, two absolute differences. -/
def tFeat (v18 : FVec F S1x128x160000x5 .f32) : FVec F S1x128x160000x5 .f32 :=
  cat5
    (tUnit (tCol v18 ![0, 0, 0, 0] slices_S1x128x160000x5_S1x128x160000x1_0_0_0_0))
    (tUnit (addf (tCol v18 ![0, 0, 0, 1] slices_S1x128x160000x5_S1x128x160000x1_0_0_0_1)
      (tCol v18 ![0, 0, 0, 3] slices_S1x128x160000x5_S1x128x160000x1_0_0_0_3)))
    (tUnit (addf (tCol v18 ![0, 0, 0, 2] slices_S1x128x160000x5_S1x128x160000x1_0_0_0_2)
      (tCol v18 ![0, 0, 0, 4] slices_S1x128x160000x5_S1x128x160000x1_0_0_0_4)))
    (tUnit (Host.absf (subf (tCol v18 ![0, 0, 0, 1] slices_S1x128x160000x5_S1x128x160000x1_0_0_0_1)
      (tCol v18 ![0, 0, 0, 3] slices_S1x128x160000x5_S1x128x160000x1_0_0_0_3))))
    (tUnit (Host.absf (subf (tCol v18 ![0, 0, 0, 2] slices_S1x128x160000x5_S1x128x160000x1_0_0_0_2)
      (tCol v18 ![0, 0, 0, 4] slices_S1x128x160000x5_S1x128x160000x1_0_0_0_4))))

/-- The contraction over (channel, feature) with the weights, transposed to `[1, 128, 160000]`, plus the bias,
    as `[1, 128, 160000, 1]`. -/
def tOut (w : FVec F S128x128x1x5 .f32) (b : FVec F S128 .f32) (v48 : FVec F S1x128x160000x5 .f32) :
    FVec F S1x128x160000x1 .f32 :=
  tUnit
    (addf
      (transpose S1x128x160000 [1, 0, 2]
        (Host.dotGeneral dot_S128x128x5_S1x128x160000x5_S128x1x160000_12_13_0_02_n_n none
          (shapeCast S128x128x5 w shapeCasts_S128x128x1x5_S128x128x5) v48)
        transposes_S128x1x160000_S1x128x160000_1_0_2)
      (broadcastInDim S1x128x160000 ![0, 1, 2] bcast_S1x128x1_S1x128x160000_0_1_2
        (broadcastInDim S1x128x1 ![1] bcast_S128_S1x128x1_1 b)))

/-- The operations' composed pure term: the result buffer's contents as a function of the four arguments'. -/
def refTerm (x : FVec F S1x128x160000 .f32) (ge : IVec S1x160000x4 32) (w : FVec F S128x128x1x5 .f32)
    (b : FVec F S128 .f32) : FVec F S1x128x160000x1 .f32 :=
  tOut w b (tFeat (tV18 (tTake (tXf x) (tIdx ge))))

end Cert.ReferenceIdeal.RefRun

end
-- ==== Proof.RefRun.lean ====
/-
  The reference's run read back: every weakly fair execution of its @main terminates, the result buffer holds the
  operations' composed pure term of the arguments' launch contents, and the arguments are unchanged. The fold over the
  81 operations is read in three stretches (before the lookup, the lookup, after it), each at the buffers the next reads.
-/
import proofs.«210879_g80607946211848_cont_9to1_m_1212_13_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The five-piece concatenation leaves, at its result, the concatenation of the five operands' contents. -/
theorem feat_result (hxs hy) (V : Valuation τ sig (Elt F)) :
    (nary (τ := τ) ![main_v43, main_v44, main_v45, main_v46, main_v47] main_v48
        (fun u => cat5 (u 0) (u 1) (u 2) (u 3) (u 4)) hxs hy).result V (no_index (Proc.devRef .tc main_v48))
      = cat5 (V (Proc.devRef .tc main_v43)) (V (Proc.devRef .tc main_v44)) (V (Proc.devRef .tc main_v45))
          (V (Proc.devRef .tc main_v46)) (V (Proc.devRef .tc main_v47)) :=
  nary_result _ _ _ hxs hy V

/-- The fold read at a buffer in one pass: each operation's result at its own buffer is its function's value, at any
    other buffer what was there. -/
macro "fold_results" : tactic =>
  `(tactic| (simp (disch := decide) only [after_cons, after_nil,
      nullary_result', unary_result', binary_result', ternary_result', reshape_result', feat_result,
      nullary_result_ne', unary_result_ne', binary_result_ne', ternary_result_ne', reshape_result_ne', nary_result_ne']))

theorem shape_main_v11 : (main_v11 : Ref sig .tc).ty.shape = S800000 := rfl
theorem shape_main_v15 : (main_v15 : Ref sig .tc).ty.shape = S160001x128 := rfl
theorem shape_main_v17 : (main_v17 : Ref sig .tc).ty.shape = S1x160000x5x128 := rfl
theorem shape_main_v20 : (main_v20 : Ref sig .tc).ty.shape = S1x128x160000 := rfl
theorem shape_main_v22 : (main_v22 : Ref sig .tc).ty.shape = S1x128x160000 := rfl
theorem shape_main_v25 : (main_v25 : Ref sig .tc).ty.shape = S1x128x160000 := rfl
theorem shape_main_v27 : (main_v27 : Ref sig .tc).ty.shape = S1x128x160000 := rfl
theorem shape_main_v30 : (main_v30 : Ref sig .tc).ty.shape = S1x128x160000 := rfl
theorem shape_main_v32 : (main_v32 : Ref sig .tc).ty.shape = S1x128x160000 := rfl
theorem shape_main_v36 : (main_v36 : Ref sig .tc).ty.shape = S1x128x160000 := rfl
theorem shape_main_v38 : (main_v38 : Ref sig .tc).ty.shape = S1x128x160000 := rfl
theorem shape_main_v42 : (main_v42 : Ref sig .tc).ty.shape = S1x128x160000 := rfl
theorem shape_main_v49 : (main_v49 : Ref sig .tc).ty.shape = S128x128x5 := rfl

/-- Contents moved to a typed reference's buffer type and back are the contents. -/
theorem ofBuf_toBuf {sig' : RefSig} {T : BufTy} {Val : EltTy → Type} (x : TRef sig' T) (v : T.Contents Val) :
    x.ofBuf (x.toBuf (Val := Val) v) = v := by
  obtain ⟨r, h, _, _⟩ := x
  subst h
  rfl

/-! ## The three stretches, folded -/

set_option maxRecDepth 8192 in
set_option maxHeartbeats 4000000 in
/-- After the first stretch the index buffer holds the index column of the neighbour ids. -/
theorem stageA_idx (V : Valuation τ sig (Elt F)) :
    after opsA V (main_v11 : DevRef τ sig) = tIdx (V (main_arg1 : DevRef τ sig)) := by
  fold_results
  simp only [shape_main_v11, shape_main_v15, shape_main_v17, shape_main_v20, shape_main_v22, shape_main_v25, shape_main_v27, shape_main_v30, shape_main_v32, shape_main_v36, shape_main_v38, shape_main_v42, shape_main_v49]
  rfl

set_option maxRecDepth 8192 in
set_option maxHeartbeats 4000000 in
/-- After the first stretch the table buffer holds the padded table of the edge features. -/
theorem stageA_xf (V : Valuation τ sig (Elt F)) :
    after opsA V (main_v15 : DevRef τ sig) = tXf (V (main_arg0 : DevRef τ sig)) := by
  fold_results
  simp only [shape_main_v11, shape_main_v15, shape_main_v17, shape_main_v20, shape_main_v22, shape_main_v25, shape_main_v27, shape_main_v30, shape_main_v32, shape_main_v36, shape_main_v38, shape_main_v42, shape_main_v49]
  rfl

set_option maxRecDepth 8192 in
set_option maxHeartbeats 4000000 in
theorem stageA_arg2 (V : Valuation τ sig (Elt F)) :
    after opsA V (main_arg2 : DevRef τ sig) = V (main_arg2 : DevRef τ sig) := by
  fold_results

set_option maxRecDepth 8192 in
set_option maxHeartbeats 4000000 in
theorem stageA_arg3 (V : Valuation τ sig (Elt F)) :
    after opsA V (main_arg3 : DevRef τ sig) = V (main_arg3 : DevRef τ sig) := by
  fold_results

attribute [local irreducible] Host.reduce Host.gather broadcastInDim select cmpi addi andi in
set_option maxRecDepth 8192 in
set_option maxHeartbeats 4000000 in
/-- After the lookup's stretch its result buffer holds the lookup of the table at the index column. -/
theorem stageB_take (W : Valuation τ sig (Elt F)) :
    after opsB W (main_v16 : DevRef τ sig) = tTake (W (main_v15 : DevRef τ sig)) (W (main_v11 : DevRef τ sig)) := by
  fold_results
  simp only [ofBuf_toBuf]
  rfl

set_option maxRecDepth 8192 in
set_option maxHeartbeats 4000000 in
theorem stageB_arg2 (W : Valuation τ sig (Elt F)) :
    after opsB W (main_arg2 : DevRef τ sig) = W (main_arg2 : DevRef τ sig) := by
  fold_results

set_option maxRecDepth 8192 in
set_option maxHeartbeats 4000000 in
theorem stageB_arg3 (W : Valuation τ sig (Elt F)) :
    after opsB W (main_arg3 : DevRef τ sig) = W (main_arg3 : DevRef τ sig) := by
  fold_results

attribute [local irreducible] broadcastInDim shapeCast transpose extractStridedSlice concatenate addf subf Host.absf in
set_option maxRecDepth 8192 in
set_option maxHeartbeats 4000000 in
/-- After the last stretch the result buffer holds the contraction of the weights with the features of the
    looked-up rows, plus the bias. -/
theorem stageC_out (W : Valuation τ sig (Elt F)) :
    after opsC W (main_v55 : DevRef τ sig)
      = tOut (W (main_arg2 : DevRef τ sig)) (W (main_arg3 : DevRef τ sig)) (tFeat (tV18 (W (main_v16 : DevRef τ sig)))) := by
  fold_results
  simp only [shape_main_v11, shape_main_v15, shape_main_v17, shape_main_v20, shape_main_v22, shape_main_v25, shape_main_v27, shape_main_v30, shape_main_v32, shape_main_v36, shape_main_v38, shape_main_v42, shape_main_v49]
  rfl

/-! ## The fold at the result and argument buffers -/

/-- The result buffer after the 81 operations holds `refTerm` of the four arguments' contents. -/
theorem out_eq (V : Valuation τ sig (Elt F)) :
    after ops V (main_v55 : DevRef τ sig)
      = refTerm (V (main_arg0 : DevRef τ sig)) (V (main_arg1 : DevRef τ sig)) (V (main_arg2 : DevRef τ sig))
          (V (main_arg3 : DevRef τ sig)) := by
  rw [ops_split, after_append, after_append, stageC_out, stageB_take, stageB_arg2, stageB_arg3, stageA_idx, stageA_xf,
    stageA_arg2, stageA_arg3]
  rfl

set_option maxRecDepth 8192 in
set_option maxHeartbeats 4000000 in
theorem arg0_eq (V : Valuation τ sig (Elt F)) :
    after ops V (main_arg0 : DevRef τ sig) = V (main_arg0 : DevRef τ sig) := by
  fold_results

set_option maxRecDepth 8192 in
set_option maxHeartbeats 4000000 in
theorem arg1_eq (V : Valuation τ sig (Elt F)) :
    after ops V (main_arg1 : DevRef τ sig) = V (main_arg1 : DevRef τ sig) := by
  fold_results

set_option maxRecDepth 8192 in
set_option maxHeartbeats 4000000 in
theorem arg2_eq (V : Valuation τ sig (Elt F)) :
    after ops V (main_arg2 : DevRef τ sig) = V (main_arg2 : DevRef τ sig) := by
  fold_results

set_option maxRecDepth 8192 in
set_option maxHeartbeats 4000000 in
theorem arg3_eq (V : Valuation τ sig (Elt F)) :
    after ops V (main_arg3 : DevRef τ sig) = V (main_arg3 : DevRef τ sig) := by
  fold_results
/-! ## The run -/

/-- On every device, for any float values, from any memory with zero counters: every weakly fair execution of @main
    terminates, the result buffer holds `refTerm` of the arguments' launch contents, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v55).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.Spec.lean ====
/-
  The mathematical specification of the edge convolution, index by index, over the extended reals.
  Inputs: x : [1,128,160000] (channel c, edge e), ge : [1,160000,4] (the four neighbour edge ids of each edge),
  w : [128,128,1,5], b : [128]. With n_j(c,e) = x[0, c, ge[0,e,j]] the five features of (c, e) are
    f0 = x[0,c,e],  f1 = n_0 + n_2,  f2 = n_1 + n_3,  f3 = |n_0 - n_2|,  f4 = |n_1 - n_3|
  (|t| = max t (-t) on the extended reals), and
    out[0,o,e,0] = (∑ c < 128, ∑ k < 5, w[o,c,0,k] * f_k(c,e)) + b[o].
  The neighbour lookup is made total by reducing the id modulo 160000; on ids in [0, 159999] it is the plain lookup.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![1, 128, 160000]⟩
abbrev SE : Shape := ⟨3, ![1, 160000, 4]⟩
abbrev SW : Shape := ⟨4, ![128, 128, 1, 5]⟩
abbrev SB : Shape := ⟨1, ![128]⟩
abbrev SO : Shape := ⟨4, ![1, 128, 160000, 1]⟩

/-- Every neighbour id, read as a natural number, is an edge id: below 160000. -/
def InRange (ge : IVec SE 32) : Prop := ∀ i : SE.Idx, (ge i).toNat < 160000

/-- The `j`-th neighbour id of edge `e`, as an edge id: the word's value modulo 160000 (total). -/
def nbrIdx (ge : IVec SE 32) (e : Fin 160000) (j : Fin 4) : Fin 160000 :=
  ⟨(ge (ix3 (0 : Fin 1) e j)).toNat % 160000, Nat.mod_lt _ (by norm_num)⟩

/-- On ids in range the reduction is the identity: the neighbour id is the word's value. -/
theorem nbrIdx_val (ge : IVec SE 32) (h : InRange ge) (e : Fin 160000) (j : Fin 4) :
    (nbrIdx ge e j).val = (ge (ix3 (0 : Fin 1) e j)).toNat :=
  Nat.mod_eq_of_lt (h _)

/-- The same as an equation between edge ids. -/
theorem nbrIdx_eq (ge : IVec SE 32) (h : InRange ge) (e : Fin 160000) (j : Fin 4) :
    nbrIdx ge e j = ⟨(ge (ix3 (0 : Fin 1) e j)).toNat, h _⟩ :=
  Fin.ext (nbrIdx_val ge h e j)

/-- `n_j(c, e)`: channel `c` of `x` at the `j`-th neighbour of edge `e`. -/
def nbr (x : FVec Ideal SX .f32) (ge : IVec SE 32) (c : Fin 128) (e : Fin 160000) (j : Fin 4) : EReal :=
  x (ix3 (0 : Fin 1) c (nbrIdx ge e j))

/-- The five features of (channel `c`, edge `e`). -/
def feat (x : FVec Ideal SX .f32) (ge : IVec SE 32) (k : Fin 5) (c : Fin 128) (e : Fin 160000) : EReal :=
  match k with
  | 0 => x (ix3 (0 : Fin 1) c e)
  | 1 => nbr x ge c e 0 + nbr x ge c e 2
  | 2 => nbr x ge c e 1 + nbr x ge c e 3
  | 3 => max (nbr x ge c e 0 - nbr x ge c e 2) (-(nbr x ge c e 0 - nbr x ge c e 2))
  | 4 => max (nbr x ge c e 1 - nbr x ge c e 3) (-(nbr x ge c e 1 - nbr x ge c e 3))

theorem feat_zero (x : FVec Ideal SX .f32) (ge : IVec SE 32) (c : Fin 128) (e : Fin 160000) :
    feat x ge 0 c e = x (ix3 (0 : Fin 1) c e) := rfl
theorem feat_one (x : FVec Ideal SX .f32) (ge : IVec SE 32) (c : Fin 128) (e : Fin 160000) :
    feat x ge 1 c e = nbr x ge c e 0 + nbr x ge c e 2 := rfl
theorem feat_two (x : FVec Ideal SX .f32) (ge : IVec SE 32) (c : Fin 128) (e : Fin 160000) :
    feat x ge 2 c e = nbr x ge c e 1 + nbr x ge c e 3 := rfl
theorem feat_three (x : FVec Ideal SX .f32) (ge : IVec SE 32) (c : Fin 128) (e : Fin 160000) :
    feat x ge 3 c e = max (nbr x ge c e 0 - nbr x ge c e 2) (-(nbr x ge c e 0 - nbr x ge c e 2)) := rfl
theorem feat_four (x : FVec Ideal SX .f32) (ge : IVec SE 32) (c : Fin 128) (e : Fin 160000) :
    feat x ge 4 c e = max (nbr x ge c e 1 - nbr x ge c e 3) (-(nbr x ge c e 1 - nbr x ge c e 3)) := rfl

/-- The result at output channel `o` and edge `e`: the contraction over (input channel, feature), the weight the
    LEFT factor of each product, plus the bias. -/
def outAt (x : FVec Ideal SX .f32) (ge : IVec SE 32) (w : FVec Ideal SW .f32) (b : FVec Ideal SB .f32)
    (o : Fin 128) (e : Fin 160000) : EReal :=
  (∑ c : Fin 128, ∑ k : Fin 5, w (ix4 o c (0 : Fin 1) k) * feat x ge k c e) + b (ix1 o)

/-- The whole result `[1,128,160000,1]`, index by index. -/
def out (x : FVec Ideal SX .f32) (ge : IVec SE 32) (w : FVec Ideal SW .f32) (b : FVec Ideal SB .f32) :
    FVec Ideal SO .f32 :=
  fun i => outAt x ge w b (i 1) (i 2)

theorem out_apply (x : FVec Ideal SX .f32) (ge : IVec SE 32) (w : FVec Ideal SW .f32) (b : FVec Ideal SB .f32)
    (i : SO.Idx) : out x ge w b i = outAt x ge w b (i 1) (i 2) := rfl

theorem out_ix4 (x : FVec Ideal SX .f32) (ge : IVec SE 32) (w : FVec Ideal SW .f32) (b : FVec Ideal SB .f32)
    (z : Fin 1) (o : Fin 128) (e : Fin 160000) (u : Fin 1) :
    out x ge w b (ix4 z o e u) = outAt x ge w b o e := rfl

end Cert.Spec

end
-- ==== Proof.LibGatherRows.lean ====
/-
  Rows of a matrix selected by an index column, read at an entry, for any element type and any extents.

  A `gather` whose operand is an `[N, C]` matrix, whose start indices are an `[R, 1]` column and whose slices are
  whole rows (`slice_sizes = [1, C]`, the row axis collapsed, the column axis the one offset axis) returns the
  `[R, C]` matrix whose row `e` is the operand's row number `idx (e, 0)`, that number read as a signed integer and
  clamped into `[0, N - 1]`. The row read depends on `e` and on the index column only, not on the column `k` and
  not on the operand: so a map that acts on each row of a matrix by itself commutes with the selection.
-/
import Idealize.ShloMosaic.Lib.ValueIdx
import Idealize.ShloMosaic.Lib.Pipeline.Value

namespace Cert.Lib.GatherRows

open Idealize.ShloMosaic Idealize.ShloMosaic.ValueIdx

variable {α : Type}

/-- The dimension numbers of a selection of whole rows of an `[N, C]` matrix by an `[R, 1]` index column. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that row `e` of the result reads: entry `(e, 0)` of the index column, signed, clamped
    into `[0, N - 1]`. -/
def rowOf {N R w : Nat} (hN : 0 < N) (idx : IVec ⟨2, ![R, 1]⟩ w) (e : Fin R) : Fin N :=
  ⟨min (idx (ix2 e (0 : Fin 1))).toInt.toNat (N - 1), by omega⟩

/-- THE SELECTION READ AT `(e, k)`: the operand at `(rowOf idx e, k)`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k) = x (ix2 (rowOf hN idx e) k) := by
  unfold Host.gather
  congr 1
  funext a
  refine Fin.ext ?_
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e k) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e k) idx 1 + (rowsDims N R C wf).batchCoord (ix2 e k) 1
      + (rowsDims N R C wf).offCoord (ix2 e k) 1 = k.val
    rw [GatherDims.batchCoord_eq_zero _ _ _ List.not_mem_nil]
    have hst : (rowsDims N R C wf).start (ix2 e k) idx 1 = 0 := by
      unfold GatherDims.start
      rw [dif_neg (show (1 : Fin 2) ∉ ([0] : List (Fin 2)) from by decide)]
    rw [hst]
    have hk : (1 : Fin 2) ∈ (rowsDims N R C wf).sKept :=
      (GatherDims.mem_sKept _ _).mpr ⟨(show (1 : Fin 2) ∉ ([0] : List (Fin 2)) from by decide), List.not_mem_nil⟩
    unfold GatherDims.offCoord
    rw [dif_pos hk]
    simp only [Nat.zero_add, Nat.add_zero]
    rfl

end Cert.Lib.GatherRows
-- ==== Proof.RefValue.lean ====
/-
  The reference's composed term is the specification, index by index, on neighbour ids in range.
  Read at an index, each stage of the term is one lookup: the index column at position 5 e + j names table row
  (e or the j-th neighbour id) + 1; the padded table's row n + 1 is edge n; in range the lookup's mask is true and the
  clamp is the identity, so the looked-up array at (c, e, j) is x at (c, e) for j = 0 and at (c, neighbour j - 1)
  otherwise; the five features and the two-axis contraction then are the specification's.
-/
import proofs.«210879_g80607946211848_cont_9to1_m_1212_13_alg».proof.Proof.RefOps
import proofs.«210879_g80607946211848_cont_9to1_m_1212_13_alg».proof.Proof.Spec
import proofs.«210879_g80607946211848_cont_9to1_m_1212_13_alg».proof.Proof.LibGatherRows
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Words and vectors at an index -/

theorem addi_apply {s : Shape} {w : Nat} (a b : IVec s w) (i : s.Idx) : addi a b i = a i + b i := rfl
theorem muli_apply {s : Shape} {w : Nat} (a b : IVec s w) (i : s.Idx) : muli a b i = a i * b i := rfl
theorem andi_apply {s : Shape} {w : Nat} (a b : IVec s w) (i : s.Idx) : andi a b i = IntOp.andi (a i) (b i) := rfl
theorem cmpi_apply {s : Shape} {w : Nat} (p : CmpIPredicate) (a b : IVec s w) (i : s.Idx) :
    cmpi p a b i = IntOp.cmpi p (a i) (b i) := rfl

/-- A 32-bit word plus one plus zero is the word of its value plus one. -/
theorem add_one_zero (x : BitVec 32) : x + 1#32 + 0#32 = BitVec.ofNat 32 (x.toNat + 1) := by
  rw [BitVec.add_zero]
  apply BitVec.eq_of_toNat_eq
  simp [BitVec.toNat_add, BitVec.toNat_ofNat]

/-- A word below 2^31 read signed is its value. -/
theorem toInt_ofNat_small (n : Nat) (h : n < 2147483648) : (BitVec.ofNat 32 n).toInt = (n : Int) := by
  rw [BitVec.toInt_eq_toNat_cond, BitVec.toNat_ofNat]
  have : n % 2 ^ 32 = n := Nat.mod_eq_of_lt (by omega)
  rw [this]
  split_ifs with h2
  · rfl
  · omega

/-! ## The index column -/

/-- The row of the padded table that position `5 e + j` of the index column names: one more than the edge id
    (`e` itself for `j = 0`, its neighbour `j - 1` otherwise). -/
def srcRow (ge : IVec S1x160000x4 32) (e : Fin 160000) (j : Fin 5) : Nat :=
  (if h : j.val = 0 then e.val else (ge (ix3 (0 : Fin 1) e ⟨j.val - 1, by omega⟩)).toNat) + 1

theorem srcRow_pos (ge : IVec S1x160000x4 32) (e : Fin 160000) (j : Fin 5) : 1 ≤ srcRow ge e j := Nat.le_add_left _ _

theorem srcRow_le (ge : IVec S1x160000x4 32) (hge : Cert.Spec.InRange ge) (e : Fin 160000) (j : Fin 5) :
    srcRow ge e j ≤ 160000 := by
  unfold srcRow
  split_ifs with h
  · omega
  · have := hge (ix3 (0 : Fin 1) e ⟨j.val - 1, by omega⟩); omega

/-- The batch offset is zero everywhere: the batch number (an iota over one element) times the table's height. -/
theorem zeroOff_apply (i : S1x160000x5.Idx) :
    broadcastInDim S1x160000x5 ![0, 1, 2] bcast_S1x1x1_S1x160000x5_0_1_2
        (broadcastInDim S1x1x1 ![0] bcast_S1_S1x1x1_0
          (muli (iotaInDim S1 32 0) (broadcastInDim S1 ![] bcast_S_S1 (constantI S_ 32 160001#32)))) i = 0#32 := by
  rw [broadcastInDim_apply _ _ _ i (ix3 (0 : Fin 1) (0 : Fin 1) (0 : Fin 1))
      (fun a => match a with | ⟨0, _⟩ => rfl | ⟨1, _⟩ => rfl | ⟨2, _⟩ => rfl),
    broadcastInDim_apply _ _ _ _ (ix1 (0 : Fin 1)) (fun a => match a with | ⟨0, _⟩ => rfl)]
  rw [muli_apply]
  show (BitVec.ofNat 32 0) * _ = 0#32
  exact BitVec.zero_mul

/-- The index column at position `5 e + j` is the word of `srcRow ge e j`. -/
theorem tIdx_apply (ge : IVec S1x160000x4 32) (hge : Cert.Spec.InRange ge) (e : Fin 160000) (j : Fin 5) (r : Fin 800000)
    (hr : r.val = 5 * e.val + j.val) : tIdx ge (ix1 r) = BitVec.ofNat 32 (srcRow ge e j) := by
  unfold tIdx catIdx
  rw [shapeCast_apply _ _ (ix1 r) (ix3 (0 : Fin 1) e j) (by
    rw [Shape.rowMajor_val_three, Shape.rowMajor_val_one]
    show (0 * 160000 + e.val) * 5 + j.val = r.val
    omega)]
  rw [addi_apply, addi_apply, zeroOff_apply, broadcastInDim_scalar_apply, constantI_apply]
  unfold srcRow
  by_cases hj : j.val = 0
  · rw [dif_pos hj]
    rw [concatenate_pair_apply_left (t := S1x160000x5) (s₁ := S1x160000x1) (s₂ := S1x160000x4) 2 _ _ _ (ix3 (0 : Fin 1) e j) rfl (ix3 (0 : Fin 1) e (0 : Fin 1))
      (fun b => match b with | ⟨0, _⟩ => rfl | ⟨1, _⟩ => rfl | ⟨2, _⟩ => hj.symm)]
    rw [broadcastInDim_apply _ _ _ _ (ix1 e) (fun a => match a with | ⟨0, _⟩ => rfl)]
    rw [iotaInDim_apply, add_one_zero, BitVec.toNat_ofNat]
    have : e.val % 2 ^ 32 = e.val := Nat.mod_eq_of_lt (by have := e.isLt; omega)
    show BitVec.ofNat 32 (e.val % 2 ^ 32 + 1) = _
    rw [this]
  · rw [dif_neg hj]
    rw [concatenate_pair_apply_right (t := S1x160000x5) (s₁ := S1x160000x1) (s₂ := S1x160000x4) 2 _ _ _ (ix3 (0 : Fin 1) e j) rfl rfl (ix3 (0 : Fin 1) e ⟨j.val - 1, by omega⟩)
      (fun b => match b with | ⟨0, _⟩ => fun _ => rfl | ⟨1, _⟩ => fun _ => rfl | ⟨2, _⟩ => fun hb => absurd rfl hb)
      (by show (j.val - 1) + 1 = j.val; omega)]
    rw [add_one_zero]

/-! ## The padded table -/

/-- Row `n + 1` of the padded table is edge `n`'s channels. -/
theorem tXf_apply_succ (x : FVec Ideal S1x128x160000 .f32) (n : Fin 160000) (c : Fin 128) (r : Fin 160001)
    (hr : r.val = n.val + 1) : tXf x (ix2 r c) = x (ix3 (0 : Fin 1) c n) := by
  unfold tXf catPad
  rw [shapeCast_1ab_ab_apply, transpose_ix3_021_apply]
  exact concatenate_pair_apply_right (t := S1x128x160001) (s₁ := S1x128x1) (s₂ := S1x128x160000) 2 _ _ _ (ix3 (0 : Fin 1) c r) rfl rfl (ix3 (0 : Fin 1) c n)
    (fun b => match b with | ⟨0, _⟩ => fun _ => rfl | ⟨1, _⟩ => fun _ => rfl | ⟨2, _⟩ => fun hb => absurd rfl hb)
    (by show n.val + 1 = r.val; omega)

/-! ## The lookup -/

/-- A left fold by `and` from 1 over 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The in-bounds mask is true everywhere when every index of the column is in `[0, 160000]`. -/
theorem tMask_one (i5 : IVec S800000x1 32) (h : ∀ i, 0 ≤ (i5 i).toInt ∧ (i5 i).toInt ≤ 160000) (r : S800000.Idx) :
    tMask i5 r = 1#1 := by
  unfold tMask
  rw [Host.reduce_eq_foldl]
  refine foldl_andi_one _ (fun i => ?_) _
  show IntOp.andi (IntOp.cmpi .sge (i5 i) 0#32) (IntOp.cmpi .sle (i5 i) 160000#32) = 1#1
  refine IntOp.andi_eq_one.2 ⟨IntOp.cmpi_sge.2 ?_, IntOp.cmpi_sle.2 ?_⟩
  · rw [show (0#32 : BitVec 32).toInt = 0 from by decide]; exact (h i).1
  · rw [show (160000#32 : BitVec 32).toInt = 160000 from by decide]; exact (h i).2

/-- The wrap of negative indices is the identity at a nonnegative index. -/
theorem tWrap_apply (idx : IVec S800000 32) (r : Fin 800000) (h0 : 0 ≤ (idx (ix1 r)).toInt) (u : Fin 1) :
    tWrap idx (ix2 r u) = idx (ix1 r) := by
  unfold tWrap
  rw [broadcastInDim_apply _ _ _ _ (ix1 r) (fun a => match a with | ⟨0, _⟩ => rfl)]
  rw [select_apply, cmpi_apply, broadcastInDim_scalar_apply, constantI_apply]
  have hc : IntOp.cmpi .slt (idx (ix1 r)) 0#32 = 0#1 := eq_zero_of_ne_one (fun h => by
    have h' := IntOp.cmpi_slt.1 h
    rw [show (0#32 : BitVec 32).toInt = 0 from by decide] at h'
    omega)
  rw [hc, select_zero]

/-- In range, the lookup at `(r, c)` is the table at the row the index column names. -/
theorem tTake_apply (xf : FVec Ideal S160001x128 .f32) (idx : IVec S800000 32)
    (hidx : ∀ r : Fin 800000, 0 ≤ (idx (ix1 r)).toInt ∧ (idx (ix1 r)).toInt ≤ 160000) (r : Fin 800000) (c : Fin 128)
    (n : Fin 160001) (hn : (idx (ix1 r)).toInt = (n.val : Int)) :
    tTake xf idx (ix2 r c) = xf (ix2 n c) := by
  have hw : ∀ i : S800000x1.Idx, 0 ≤ (tWrap idx i).toInt ∧ (tWrap idx i).toInt ≤ 160000 := fun i => by
    obtain ⟨a, u, rfl⟩ : ∃ (a : Fin 800000) (u : Fin 1), i = ix2 a u := ⟨i 0, i 1, eq_ix2 i⟩
    rw [tWrap_apply idx a (hidx a).1 u]
    exact hidx a
  unfold tTake
  rw [select_apply, broadcastInDim_apply _ _ _ _ (ix1 r) (fun a => match a with | ⟨0, _⟩ => rfl),
    tMask_one _ hw, select_one]
  show Host.gather (Cert.Lib.GatherRows.rowsDims 160001 800000 128
      gather_S160001x128_S800000x1_S800000x128_1_0_n_n_0_1_1128_wf) xf (tWrap idx) (ix2 r c) = _
  rw [Cert.Lib.GatherRows.gather_rows_apply (by norm_num)]
  congr 2
  refine Fin.ext ?_
  show min (tWrap idx (ix2 r (0 : Fin 1))).toInt.toNat (160001 - 1) = n.val
  rw [tWrap_apply idx r (hidx r).1, hn, Int.toNat_natCast]
  have := n.isLt
  omega

/-! ## The looked-up array, its columns, the features -/

/-- The looked-up array at (channel `c`, edge `e`, id `j`) is the lookup's row `5 e + j`, column `c`. -/
theorem tV18_apply (t16 : FVec Ideal S800000x128 .f32) (c : Fin 128) (e : Fin 160000) (j : Fin 5) (r : Fin 800000)
    (hr : r.val = 5 * e.val + j.val) : tV18 t16 (ix4 (0 : Fin 1) c e j) = t16 (ix2 r c) := by
  unfold tV18
  rw [transpose_apply (s := S1x160000x5x128) (t := S1x128x160000x5) [0, 3, 1, 2] _ _ (ix4 (0 : Fin 1) c e j)
    (ix4 (0 : Fin 1) e j c)
    (fun b => match b with | ⟨0, _⟩ => rfl | ⟨1, _⟩ => rfl | ⟨2, _⟩ => rfl | ⟨3, _⟩ => rfl)]
  exact shapeCast_apply (s := S800000x128) (t := S1x160000x5x128) _ _ (ix4 (0 : Fin 1) e j c) (ix2 r c) (by
    rw [Shape.rowMajor_val_two, Shape.rowMajor_val_four]
    show r.val * 128 + c.val = ((0 * 160000 + e.val) * 5 + j.val) * 128 + c.val
    omega)

/-- Column `o` of the looked-up array. -/
theorem tCol_apply (v18 : FVec Ideal S1x128x160000x5 .f32) (o : Fin 5)
    (h : S1x128x160000x5.Slices ![0, 0, 0, o.val] S1x128x160000x1) (c : Fin 128) (e : Fin 160000) :
    tCol v18 ![0, 0, 0, o.val] h (ix3 (0 : Fin 1) c e) = v18 (ix4 (0 : Fin 1) c e o) := by
  unfold tCol
  rw [shapeCast_apply (s := S1x128x160000x1) (t := S1x128x160000) _ _ (ix3 (0 : Fin 1) c e)
    (ix4 (0 : Fin 1) c e (0 : Fin 1)) (by
      rw [Shape.rowMajor_val_four, Shape.rowMajor_val_three]
      show ((0 * 128 + c.val) * 160000 + e.val) * 1 + 0 = (0 * 128 + c.val) * 160000 + e.val
      omega)]
  exact extractStridedSlice_apply (s := S1x128x160000x5) (t := S1x128x160000x1) _ _ _
    (ix4 (0 : Fin 1) c e (0 : Fin 1)) (ix4 (0 : Fin 1) c e o)
    (fun a => match a with
      | ⟨0, _⟩ => rfl
      | ⟨1, _⟩ => by show c.val = 0 + c.val; omega
      | ⟨2, _⟩ => by show e.val = 0 + e.val; omega
      | ⟨3, _⟩ => rfl)

theorem tCol0_apply (v18 : FVec Ideal S1x128x160000x5 .f32) (c : Fin 128) (e : Fin 160000) :
    tCol v18 ![0, 0, 0, 0] slices_S1x128x160000x5_S1x128x160000x1_0_0_0_0 (ix3 (0 : Fin 1) c e)
      = v18 (ix4 (0 : Fin 1) c e (0 : Fin 5)) := tCol_apply v18 0 _ c e
theorem tCol1_apply (v18 : FVec Ideal S1x128x160000x5 .f32) (c : Fin 128) (e : Fin 160000) :
    tCol v18 ![0, 0, 0, 1] slices_S1x128x160000x5_S1x128x160000x1_0_0_0_1 (ix3 (0 : Fin 1) c e)
      = v18 (ix4 (0 : Fin 1) c e (1 : Fin 5)) := tCol_apply v18 1 _ c e
theorem tCol2_apply (v18 : FVec Ideal S1x128x160000x5 .f32) (c : Fin 128) (e : Fin 160000) :
    tCol v18 ![0, 0, 0, 2] slices_S1x128x160000x5_S1x128x160000x1_0_0_0_2 (ix3 (0 : Fin 1) c e)
      = v18 (ix4 (0 : Fin 1) c e (2 : Fin 5)) := tCol_apply v18 2 _ c e
theorem tCol3_apply (v18 : FVec Ideal S1x128x160000x5 .f32) (c : Fin 128) (e : Fin 160000) :
    tCol v18 ![0, 0, 0, 3] slices_S1x128x160000x5_S1x128x160000x1_0_0_0_3 (ix3 (0 : Fin 1) c e)
      = v18 (ix4 (0 : Fin 1) c e (3 : Fin 5)) := tCol_apply v18 3 _ c e
theorem tCol4_apply (v18 : FVec Ideal S1x128x160000x5 .f32) (c : Fin 128) (e : Fin 160000) :
    tCol v18 ![0, 0, 0, 4] slices_S1x128x160000x5_S1x128x160000x1_0_0_0_4 (ix3 (0 : Fin 1) c e)
      = v18 (ix4 (0 : Fin 1) c e (4 : Fin 5)) := tCol_apply v18 4 _ c e

/-- A trailing unit axis added by a broadcast. -/
theorem tUnit_apply (v : FVec Ideal S1x128x160000 .f32) (z : Fin 1) (c : Fin 128) (e : Fin 160000) (u : Fin 1) :
    tUnit v (ix4 z c e u) = v (ix3 z c e) := by
  unfold tUnit
  obtain rfl : z = 0 := Subsingleton.elim _ _
  exact broadcastInDim_apply (s := S1x128x160000) (t := S1x128x160000x1) ![0, 1, 2] _ v (ix4 (0 : Fin 1) c e u)
    (ix3 (0 : Fin 1) c e) (fun a => match a with | ⟨0, _⟩ => rfl | ⟨1, _⟩ => rfl | ⟨2, _⟩ => rfl)

/-- Piece `k` of the five-piece concatenation, read at last coordinate `k`. -/
theorem cat5_apply0 (p0 p1 p2 p3 p4 : FVec Ideal S1x128x160000x1 .f32) (c : Fin 128) (e : Fin 160000) :
    cat5 p0 p1 p2 p3 p4 (ix4 (0 : Fin 1) c e (0 : Fin 5)) = p0 (ix4 (0 : Fin 1) c e (0 : Fin 1)) := by
  unfold cat5
  exact concatenate_apply_piece (t := S1x128x160000x5) 3 _ _ (ix4 (0 : Fin 1) c e (0 : Fin 5)) 0 (by show 0 < 5; decide)
    S1x128x160000x1 p0 rfl rfl 0 rfl (ix4 (0 : Fin 1) c e (0 : Fin 1))
    (fun b => match b with
      | ⟨0, _⟩ => fun _ => rfl | ⟨1, _⟩ => fun _ => rfl | ⟨2, _⟩ => fun _ => rfl | ⟨3, _⟩ => fun hb => absurd rfl hb) rfl
theorem cat5_apply1 (p0 p1 p2 p3 p4 : FVec Ideal S1x128x160000x1 .f32) (c : Fin 128) (e : Fin 160000) :
    cat5 p0 p1 p2 p3 p4 (ix4 (0 : Fin 1) c e (1 : Fin 5)) = p1 (ix4 (0 : Fin 1) c e (0 : Fin 1)) := by
  unfold cat5
  exact concatenate_apply_piece (t := S1x128x160000x5) 3 _ _ (ix4 (0 : Fin 1) c e (1 : Fin 5)) 1 (by show 1 < 5; decide)
    S1x128x160000x1 p1 rfl rfl 1 rfl (ix4 (0 : Fin 1) c e (0 : Fin 1))
    (fun b => match b with
      | ⟨0, _⟩ => fun _ => rfl | ⟨1, _⟩ => fun _ => rfl | ⟨2, _⟩ => fun _ => rfl | ⟨3, _⟩ => fun hb => absurd rfl hb) rfl
theorem cat5_apply2 (p0 p1 p2 p3 p4 : FVec Ideal S1x128x160000x1 .f32) (c : Fin 128) (e : Fin 160000) :
    cat5 p0 p1 p2 p3 p4 (ix4 (0 : Fin 1) c e (2 : Fin 5)) = p2 (ix4 (0 : Fin 1) c e (0 : Fin 1)) := by
  unfold cat5
  exact concatenate_apply_piece (t := S1x128x160000x5) 3 _ _ (ix4 (0 : Fin 1) c e (2 : Fin 5)) 2 (by show 2 < 5; decide)
    S1x128x160000x1 p2 rfl rfl 2 rfl (ix4 (0 : Fin 1) c e (0 : Fin 1))
    (fun b => match b with
      | ⟨0, _⟩ => fun _ => rfl | ⟨1, _⟩ => fun _ => rfl | ⟨2, _⟩ => fun _ => rfl | ⟨3, _⟩ => fun hb => absurd rfl hb) rfl
theorem cat5_apply3 (p0 p1 p2 p3 p4 : FVec Ideal S1x128x160000x1 .f32) (c : Fin 128) (e : Fin 160000) :
    cat5 p0 p1 p2 p3 p4 (ix4 (0 : Fin 1) c e (3 : Fin 5)) = p3 (ix4 (0 : Fin 1) c e (0 : Fin 1)) := by
  unfold cat5
  exact concatenate_apply_piece (t := S1x128x160000x5) 3 _ _ (ix4 (0 : Fin 1) c e (3 : Fin 5)) 3 (by show 3 < 5; decide)
    S1x128x160000x1 p3 rfl rfl 3 rfl (ix4 (0 : Fin 1) c e (0 : Fin 1))
    (fun b => match b with
      | ⟨0, _⟩ => fun _ => rfl | ⟨1, _⟩ => fun _ => rfl | ⟨2, _⟩ => fun _ => rfl | ⟨3, _⟩ => fun hb => absurd rfl hb) rfl
theorem cat5_apply4 (p0 p1 p2 p3 p4 : FVec Ideal S1x128x160000x1 .f32) (c : Fin 128) (e : Fin 160000) :
    cat5 p0 p1 p2 p3 p4 (ix4 (0 : Fin 1) c e (4 : Fin 5)) = p4 (ix4 (0 : Fin 1) c e (0 : Fin 1)) := by
  unfold cat5
  exact concatenate_apply_piece (t := S1x128x160000x5) 3 _ _ (ix4 (0 : Fin 1) c e (4 : Fin 5)) 4 (by show 4 < 5; decide)
    S1x128x160000x1 p4 rfl rfl 4 rfl (ix4 (0 : Fin 1) c e (0 : Fin 1))
    (fun b => match b with
      | ⟨0, _⟩ => fun _ => rfl | ⟨1, _⟩ => fun _ => rfl | ⟨2, _⟩ => fun _ => rfl | ⟨3, _⟩ => fun hb => absurd rfl hb) rfl

/-- The five features as functions of the five looked-up values of (channel, edge). -/
def featOf (f : Fin 5 → EReal) (k : Fin 5) : EReal :=
  match k with
  | 0 => f 0
  | 1 => f 1 + f 3
  | 2 => f 2 + f 4
  | 3 => max (f 1 - f 3) (-(f 1 - f 3))
  | 4 => max (f 2 - f 4) (-(f 2 - f 4))

theorem featOf_zero (f : Fin 5 → EReal) : featOf f 0 = f 0 := rfl
theorem featOf_one (f : Fin 5 → EReal) : featOf f 1 = f 1 + f 3 := rfl
theorem featOf_two (f : Fin 5 → EReal) : featOf f 2 = f 2 + f 4 := rfl
theorem featOf_three (f : Fin 5 → EReal) : featOf f 3 = max (f 1 - f 3) (-(f 1 - f 3)) := rfl
theorem featOf_four (f : Fin 5 → EReal) : featOf f 4 = max (f 2 - f 4) (-(f 2 - f 4)) := rfl

/-- The feature array at (channel `c`, edge `e`, feature `k`). -/
theorem tFeat_apply (v18 : FVec Ideal S1x128x160000x5 .f32) (c : Fin 128) (e : Fin 160000) (k : Fin 5) :
    tFeat v18 (ix4 (0 : Fin 1) c e k) = featOf (fun j => v18 (ix4 (0 : Fin 1) c e j)) k := by
  unfold tFeat
  match k with
  | 0 => rw [cat5_apply0, tUnit_apply, tCol0_apply, featOf_zero]
  | 1 => rw [cat5_apply1, tUnit_apply, addf_apply, tCol1_apply, tCol3_apply, featOf_one]
  | 2 => rw [cat5_apply2, tUnit_apply, addf_apply, tCol2_apply, tCol4_apply, featOf_two]
  | 3 =>
    rw [cat5_apply3, tUnit_apply, featOf_three]
    show max (subf _ _ (ix3 (0 : Fin 1) c e)) (-(subf _ _ (ix3 (0 : Fin 1) c e))) = _
    rw [subf_apply, tCol1_apply, tCol3_apply]
  | 4 =>
    rw [cat5_apply4, tUnit_apply, featOf_four]
    show max (subf _ _ (ix3 (0 : Fin 1) c e)) (-(subf _ _ (ix3 (0 : Fin 1) c e))) = _
    rw [subf_apply, tCol2_apply, tCol4_apply]

/-! ## The contraction over (channel, feature) -/

/-- The reference's contraction: axes 1, 2 of the weights `[128, 128, 5]` with axes 1, 3 of the features. -/
abbrev DD := dot_S128x128x5_S1x128x160000x5_S128x1x160000_12_13_0_02_n_n

/-- The contraction index set, of shape `[128, 5]`, as pairs (channel, feature). -/
def contrEquiv : DD.contr.Idx ≃ Fin 128 × Fin 5 where
  toFun q := (⟨(q ⟨0, by decide⟩).val, (q ⟨0, by decide⟩).isLt⟩, ⟨(q ⟨1, by decide⟩).val, (q ⟨1, by decide⟩).isLt⟩)
  invFun p := fun a => match a with | ⟨0, _⟩ => ⟨p.1.val, p.1.isLt⟩ | ⟨1, _⟩ => ⟨p.2.val, p.2.isLt⟩
  left_inv q := by funext a; match a with | ⟨0, _⟩ => rfl | ⟨1, _⟩ => rfl
  right_inv p := rfl

/-- The weights' index at result `(o, ·, e)` and contraction index `q`. -/
theorem lhsIdx_eq (o : Fin 128) (z : Fin 1) (e : Fin 160000) (q : DD.contr.Idx) :
    DD.lhsIdx (ix3 o z e) q = ix3 o (contrEquiv q).1 (contrEquiv q).2 := by
  funext a
  match a with
  | ⟨0, _⟩ => exact Fin.ext rfl
  | ⟨1, _⟩ => exact Fin.ext rfl
  | ⟨2, _⟩ => exact Fin.ext rfl

/-- The features' index at result `(o, z, e)` and contraction index `q`. -/
theorem rhsIdx_eq (o : Fin 128) (z : Fin 1) (e : Fin 160000) (q : DD.contr.Idx) :
    DD.rhsIdx (ix3 o z e) q = ix4 z (contrEquiv q).1 e (contrEquiv q).2 := by
  funext a
  match a with
  | ⟨0, _⟩ => exact Fin.ext rfl
  | ⟨1, _⟩ => exact Fin.ext rfl
  | ⟨2, _⟩ => exact Fin.ext rfl
  | ⟨3, _⟩ => exact Fin.ext rfl

/-- The weights with their unit axis dropped. -/
theorem wcast_apply (w : FVec Ideal S128x128x1x5 .f32) (o c : Fin 128) (k : Fin 5) :
    shapeCast S128x128x5 w shapeCasts_S128x128x1x5_S128x128x5 (ix3 o c k) = w (ix4 o c (0 : Fin 1) k) :=
  shapeCast_apply (s := S128x128x1x5) (t := S128x128x5) _ _ (ix3 o c k) (ix4 o c (0 : Fin 1) k) (by
    rw [Shape.rowMajor_val_four, Shape.rowMajor_val_three]
    show ((o.val * 128 + c.val) * 1 + 0) * 5 + k.val = (o.val * 128 + c.val) * 5 + k.val
    omega)

/-- The last stage at `(z, o, e, u)`: the double sum over (channel, feature) of weight times feature, plus the bias. -/
theorem tOut_apply (w : FVec Ideal S128x128x1x5 .f32) (b : FVec Ideal S128 .f32) (v48 : FVec Ideal S1x128x160000x5 .f32)
    (z : Fin 1) (o : Fin 128) (e : Fin 160000) (u : Fin 1) :
    tOut w b v48 (ix4 z o e u)
      = (∑ c : Fin 128, ∑ k : Fin 5, w (ix4 o c (0 : Fin 1) k) * v48 (ix4 z c e k)) + b (ix1 o) := by
  unfold tOut
  rw [tUnit_apply, addf_apply]
  rw [transpose_apply (s := S128x1x160000) (t := S1x128x160000) [1, 0, 2] _ _ (ix3 z o e) (ix3 o z e)
    (fun a => match a with | ⟨0, _⟩ => rfl | ⟨1, _⟩ => rfl | ⟨2, _⟩ => rfl)]
  congr 1
  · refine (Ideal.dotGeneral_apply DD none .single _ _ _).trans ?_
    exact (Fintype.sum_equiv contrEquiv _
      (fun p : Fin 128 × Fin 5 => w (ix4 o p.1 (0 : Fin 1) p.2) * v48 (ix4 z p.1 e p.2))
      (fun q => by rw [lhsIdx_eq, rhsIdx_eq, wcast_apply])).trans (Fintype.sum_prod_type _)
  · obtain rfl : z = 0 := Subsingleton.elim _ _
    rw [broadcastInDim_apply (s := S1x128x1) (t := S1x128x160000) ![0, 1, 2] _ _ (ix3 (0 : Fin 1) o e)
      (ix3 (0 : Fin 1) o (0 : Fin 1)) (fun a => match a with | ⟨0, _⟩ => rfl | ⟨1, _⟩ => rfl | ⟨2, _⟩ => rfl)]
    exact broadcastInDim_apply (s := S128) (t := S1x128x1) ![1] _ _ (ix3 (0 : Fin 1) o (0 : Fin 1)) (ix1 o)
      (fun a => match a with | ⟨0, _⟩ => rfl)

/-! ## The looked-up values are the specification's -/

/-- In range every entry of the index column, read signed, is its table row, in `[1, 160000]`. -/
theorem tIdx_toInt (ge : IVec S1x160000x4 32) (hge : Cert.Spec.InRange ge) (e : Fin 160000) (j : Fin 5) (r : Fin 800000)
    (hr : r.val = 5 * e.val + j.val) : (tIdx ge (ix1 r)).toInt = (srcRow ge e j : Int) := by
  rw [tIdx_apply ge hge e j r hr]
  exact toInt_ofNat_small _ (by have := srcRow_le ge hge e j; omega)

theorem tIdx_bounds (ge : IVec S1x160000x4 32) (hge : Cert.Spec.InRange ge) (r : Fin 800000) :
    0 ≤ (tIdx ge (ix1 r)).toInt ∧ (tIdx ge (ix1 r)).toInt ≤ 160000 := by
  have hr : r.val = 5 * (⟨r.val / 5, by have := r.isLt; omega⟩ : Fin 160000).val
      + (⟨r.val % 5, Nat.mod_lt _ (by norm_num)⟩ : Fin 5).val := by
    show r.val = 5 * (r.val / 5) + r.val % 5
    omega
  rw [tIdx_toInt ge hge _ _ r hr]
  have h1 := srcRow_le ge hge ⟨r.val / 5, by have := r.isLt; omega⟩ ⟨r.val % 5, Nat.mod_lt _ (by norm_num)⟩
  omega

/-- In range, the looked-up array at (channel `c`, edge `e`, id `j`) is `x` at channel `c` and the edge the index
    column names there. -/
theorem v18_eq (x : FVec Ideal S1x128x160000 .f32) (ge : IVec S1x160000x4 32) (hge : Cert.Spec.InRange ge)
    (c : Fin 128) (e : Fin 160000) (j : Fin 5) :
    tV18 (tTake (tXf x) (tIdx ge)) (ix4 (0 : Fin 1) c e j)
      = x (ix3 (0 : Fin 1) c ⟨srcRow ge e j - 1, by
          have := srcRow_le ge hge e j; have := srcRow_pos ge e j; omega⟩) := by
  have hle := srcRow_le ge hge e j
  have hpos := srcRow_pos ge e j
  have hrlt : 5 * e.val + j.val < 800000 := by have := e.isLt; have := j.isLt; omega
  rw [tV18_apply _ c e j ⟨5 * e.val + j.val, hrlt⟩ rfl]
  rw [tTake_apply (tXf x) (tIdx ge) (tIdx_bounds ge hge) ⟨5 * e.val + j.val, hrlt⟩ c
    ⟨srcRow ge e j, by omega⟩ (tIdx_toInt ge hge e j _ rfl)]
  exact tXf_apply_succ x ⟨srcRow ge e j - 1, by omega⟩ c ⟨srcRow ge e j, by omega⟩ (by show srcRow ge e j = srcRow ge e j - 1 + 1; omega)

/-- Id 0 is the edge itself. -/
theorem v18_self (x : FVec Ideal S1x128x160000 .f32) (ge : IVec S1x160000x4 32) (hge : Cert.Spec.InRange ge)
    (c : Fin 128) (e : Fin 160000) :
    tV18 (tTake (tXf x) (tIdx ge)) (ix4 (0 : Fin 1) c e (0 : Fin 5)) = x (ix3 (0 : Fin 1) c e) := by
  rw [v18_eq x ge hge c e 0]
  congr 2

/-- Id `j + 1` is the `j`-th neighbour. -/
theorem v18_nbr (x : FVec Ideal S1x128x160000 .f32) (ge : IVec S1x160000x4 32) (hge : Cert.Spec.InRange ge)
    (c : Fin 128) (e : Fin 160000) (j : Fin 4) :
    tV18 (tTake (tXf x) (tIdx ge)) (ix4 (0 : Fin 1) c e j.succ) = Cert.Spec.nbr x ge c e j := by
  rw [v18_eq x ge hge c e j.succ]
  unfold Cert.Spec.nbr
  congr 2
  refine Fin.ext ?_
  rw [Cert.Spec.nbrIdx_val ge hge e j]
  show srcRow ge e j.succ - 1 = _
  unfold srcRow
  rw [dif_neg (by simp)]
  have : (⟨j.succ.val - 1, by have := j.isLt; simp⟩ : Fin 4) = j := Fin.ext (by simp)
  rw [this]
  omega

/-- The five features of the looked-up values are the specification's. -/
theorem feat_eq (x : FVec Ideal S1x128x160000 .f32) (ge : IVec S1x160000x4 32) (hge : Cert.Spec.InRange ge)
    (c : Fin 128) (e : Fin 160000) (k : Fin 5) :
    featOf (fun j => tV18 (tTake (tXf x) (tIdx ge)) (ix4 (0 : Fin 1) c e j)) k = Cert.Spec.feat x ge k c e := by
  have h0 := v18_self x ge hge c e
  have h1 : tV18 (tTake (tXf x) (tIdx ge)) (ix4 (0 : Fin 1) c e (1 : Fin 5)) = Cert.Spec.nbr x ge c e 0 := v18_nbr x ge hge c e 0
  have h2 : tV18 (tTake (tXf x) (tIdx ge)) (ix4 (0 : Fin 1) c e (2 : Fin 5)) = Cert.Spec.nbr x ge c e 1 := v18_nbr x ge hge c e 1
  have h3 : tV18 (tTake (tXf x) (tIdx ge)) (ix4 (0 : Fin 1) c e (3 : Fin 5)) = Cert.Spec.nbr x ge c e 2 := v18_nbr x ge hge c e 2
  have h4 : tV18 (tTake (tXf x) (tIdx ge)) (ix4 (0 : Fin 1) c e (4 : Fin 5)) = Cert.Spec.nbr x ge c e 3 := v18_nbr x ge hge c e 3
  match k with
  | 0 => rw [featOf_zero, Cert.Spec.feat_zero]; exact h0
  | 1 => rw [featOf_one, Cert.Spec.feat_one]; exact congrArg₂ (· + ·) h1 h3
  | 2 => rw [featOf_two, Cert.Spec.feat_two]; exact congrArg₂ (· + ·) h2 h4
  | 3 =>
    rw [featOf_three, Cert.Spec.feat_three]
    exact congrArg₂ max (congrArg₂ (· - ·) h1 h3) (congrArg Neg.neg (congrArg₂ (· - ·) h1 h3))
  | 4 =>
    rw [featOf_four, Cert.Spec.feat_four]
    exact congrArg₂ max (congrArg₂ (· - ·) h2 h4) (congrArg Neg.neg (congrArg₂ (· - ·) h2 h4))

/-! ## The law -/

/-- On neighbour ids in range, the reference's composed term is the specification. -/
theorem refTerm_eq_spec (x : FVec Ideal S1x128x160000 .f32) (ge : IVec S1x160000x4 32) (w : FVec Ideal S128x128x1x5 .f32)
    (b : FVec Ideal S128 .f32) (hge : Cert.Spec.InRange ge) : refTerm x ge w b = Cert.Spec.out x ge w b := by
  funext i
  obtain ⟨z, o, e, u, rfl⟩ : ∃ (z : Fin 1) (o : Fin 128) (e : Fin 160000) (u : Fin 1), i = ix4 z o e u :=
    ⟨i 0, i 1, i 2, i 3, eq_ix4 i⟩
  obtain rfl : z = 0 := Subsingleton.elim _ _
  rw [Cert.Spec.out_ix4]
  unfold refTerm Cert.Spec.outAt
  rw [tOut_apply]
  refine congrArg₂ (· + ·) ?_ rfl
  refine Finset.sum_congr rfl fun c _ => Finset.sum_congr rfl fun k _ => ?_
  refine congrArg₂ (· * ·) rfl ?_
  rw [tFeat_apply]
  exact feat_eq x ge hge c e k

end Cert.ReferenceIdeal.RefValue

end
-- ==== Proof.RefClaims.lean ====
/-
  The reference's two claims-to-be: its frame (it runs, faults nowhere, leaves its arguments unchanged), and, under
  the precondition, its run with the result buffer at the specification of the arguments' launch contents.
-/
import proofs.«210879_g80607946211848_cont_9to1_m_1212_13_alg».proof.Defs
import proofs.«210879_g80607946211848_cont_9to1_m_1212_13_alg».proof.Proof.Gen.ReferenceIdeal
import proofs.«210879_g80607946211848_cont_9to1_m_1212_13_alg».proof.Proof.Gen.Pre_input_domain
import proofs.«210879_g80607946211848_cont_9to1_m_1212_13_alg».proof.Proof.RefRun
import proofs.«210879_g80607946211848_cont_9to1_m_1212_13_alg».proof.Proof.RefValue
import proofs.«210879_g80607946211848_cont_9to1_m_1212_13_alg».proof.Proof.PreRange

noncomputable section

namespace Cert.ReferenceIdeal.RefClaims

open Cert.ReferenceIdeal Cert.ReferenceIdeal.Gen Idealize.ShloMosaic Idealize.ShloMosaic.TcCoe Idealize.SL.Sem

/-- The reference runs, faults nowhere and leaves its arguments unchanged: its run with the value dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Under the precondition the reference's result buffer ends at the specification of the arguments' launch contents,
    and the arguments are unchanged. -/
theorem run_spec (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v55)
          = Cert.Spec.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans (Cert.ReferenceIdeal.RefValue.refTerm_eq_spec _ _ _ _
        (Cert.PreRange.ge_range _ _ _ _ (hpre c))), (h c).2⟩)
    (Cert.ReferenceIdeal.RefRun.run (F := Ideal) m ρ)

end Cert.ReferenceIdeal.RefClaims

end
-- ==== Proof.KBridgeMath.lean ====
/-
  The kernel's arithmetic is the specification's. The kernel works on reshaped copies of its arguments: the edge
  features as a 128 × 160000 matrix and its transpose (the table), the neighbour ids as 1250 chunks of 4 planes of
  128 lanes cut into five blocks of 250 chunks, the weights as five 128 × 128 matrices, the bias as a column. Five calls
  each gather, for 32000 consecutive edges, the table's rows at the four neighbour ids, and five updates each overwrite
  those 32000 columns of the output with five sums over the channels plus the bias. Read at an index, every reshaped
  copy is the argument at one index; a column lies in exactly one call's range; and the five sums over the channels are
  the specification's double sum over (channel, feature).
-/
import proofs.«210879_g80607946211848_cont_9to1_m_1212_13_alg».proof.Proof.Spec
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx Cert.Spec

abbrev S128x160000 : Shape := ⟨2, ![128, 160000]⟩
abbrev S160000x128 : Shape := ⟨2, ![160000, 128]⟩
abbrev S160000x4 : Shape := ⟨2, ![160000, 4]⟩
abbrev S1250x128x4 : Shape := ⟨3, ![1250, 128, 4]⟩
abbrev S1250x4x128 : Shape := ⟨3, ![1250, 4, 128]⟩
abbrev S250x4x128 : Shape := ⟨3, ![250, 4, 128]⟩
abbrev S4x32000x128 : Shape := ⟨3, ![4, 32000, 128]⟩
abbrev S128x128x5 : Shape := ⟨3, ![128, 128, 5]⟩
abbrev S5x128x128 : Shape := ⟨3, ![5, 128, 128]⟩
abbrev S128x1 : Shape := ⟨2, ![128, 1]⟩

/-! ## The gathered array -/

/-- The table row an index block names at plane `j`, row `r`: chunk `r / 128`, lane `r % 128`, modulo 160000. -/
def gRow (I : IVec S250x4x128 32) (j : Fin 4) (r : Fin 32000) : Fin 160000 :=
  ⟨(I (ix3 (⟨r.val / 128, by have := r.isLt; omega⟩ : Fin 250) j (⟨r.val % 128, Nat.mod_lt _ (by decide)⟩ : Fin 128))).toNat % 160000,
    Nat.mod_lt _ (by decide)⟩

/-- A call's result: entry `(j, r, k)` is entry `(gRow I j r, k)` of the table. -/
def gath (X : FVec Ideal S160000x128 .f32) (I : IVec S250x4x128 32) : FVec Ideal S4x32000x128 .f32 :=
  fun i => X (ix2 (gRow I (i 0) (i 1)) (i 2))

/-! ## One update's value on a column of its range -/

/-- Five sums over the channels — the self term, two sums of neighbour pairs, two absolute differences — plus the bias. -/
def convF (X0 : FVec Ideal S128x160000 .f32) (Gq : FVec Ideal S4x32000x128 .f32) (Wt : FVec Ideal S5x128x128 .f32)
    (Bs : FVec Ideal S128x1 .f32) (o : Fin 128) (e : Fin 160000) (r : Fin 32000) : EReal :=
  (((((∑ c : Fin 128, Wt (ix3 (0 : Fin 5) o c) * X0 (ix2 c e))
    + ∑ c : Fin 128, Wt (ix3 (1 : Fin 5) o c) * (Gq (ix3 (0 : Fin 4) r c) + Gq (ix3 (2 : Fin 4) r c)))
    + ∑ c : Fin 128, Wt (ix3 (2 : Fin 5) o c) * (Gq (ix3 (1 : Fin 4) r c) + Gq (ix3 (3 : Fin 4) r c)))
    + ∑ c : Fin 128, Wt (ix3 (3 : Fin 5) o c)
        * max (Gq (ix3 (0 : Fin 4) r c) - Gq (ix3 (2 : Fin 4) r c)) (-(Gq (ix3 (0 : Fin 4) r c) - Gq (ix3 (2 : Fin 4) r c))))
    + ∑ c : Fin 128, Wt (ix3 (4 : Fin 5) o c)
        * max (Gq (ix3 (1 : Fin 4) r c) - Gq (ix3 (3 : Fin 4) r c)) (-(Gq (ix3 (1 : Fin 4) r c) - Gq (ix3 (3 : Fin 4) r c))))
    + Bs (ix2 o (0 : Fin 1))

/-! ## The reshaped copies at an index -/

section Copies

variable (x : FVec Ideal SX .f32) (ge : IVec SE 32) (w : FVec Ideal SW .f32) (b : FVec Ideal SB .f32)
variable (hx : SX.ShapeCasts S128x160000) (hxt : S128x160000.Transposes [1, 0] S160000x128)
variable (hg2 : SE.ShapeCasts S160000x4) (hg3 : S160000x4.ShapeCasts S1250x128x4)
variable (hg4 : S1250x128x4.Transposes [0, 2, 1] S1250x4x128)
variable (hw5 : SW.ShapeCasts S128x128x5) (hwt : S128x128x5.Transposes [2, 0, 1] S5x128x128)
variable (hbs : SB.ShapeCasts S128x1)

/-- The edge features as a matrix. -/
theorem x2_apply (c : Fin 128) (e : Fin 160000) : shapeCast S128x160000 x hx (ix2 c e) = x (ix3 (0 : Fin 1) c e) :=
  shapeCast_1ab_ab_apply x hx c e

/-- The table: row `n` is edge `n`'s channels. -/
theorem table_apply (n : Fin 160000) (c : Fin 128) :
    transpose S160000x128 [1, 0] (shapeCast S128x160000 x hx) hxt (ix2 n c) = x (ix3 (0 : Fin 1) c n) := by
  rw [transpose_ix2_apply, x2_apply]

/-- The 1250 index chunks: chunk `n`, plane `j`, lane `l` is neighbour `j` of edge `128 n + l`. -/
theorem chunks_apply (n : Fin 1250) (j : Fin 4) (l : Fin 128) (e : Fin 160000) (he : e.val = 128 * n.val + l.val) :
    transpose S1250x4x128 [0, 2, 1] (shapeCast S1250x128x4 (shapeCast S160000x4 ge hg2) hg3) hg4 (ix3 n j l)
      = ge (ix3 (0 : Fin 1) e j) := by
  rw [transpose_ix3_021_apply]
  rw [shapeCast_apply (s := S160000x4) (t := S1250x128x4) _ hg3 (ix3 n l j) (ix2 e j) (by
    rw [Shape.rowMajor_val_two, Shape.rowMajor_val_three]
    show e.val * 4 + j.val = (n.val * 128 + l.val) * 4 + j.val
    omega)]
  exact shapeCast_1ab_ab_apply ge hg2 e j

/-- The five weight matrices: matrix `k` at `(o, c)` is the weight of (output `o`, channel `c`, feature `k`). -/
theorem wt_apply (k : Fin 5) (o c : Fin 128) :
    transpose S5x128x128 [2, 0, 1] (shapeCast S128x128x5 w hw5) hwt (ix3 k o c) = w (ix4 o c (0 : Fin 1) k) := by
  rw [transpose_apply (s := S128x128x5) (t := S5x128x128) [2, 0, 1] _ hwt (ix3 k o c) (ix3 o c k)
    (fun a => match a with | ⟨0, _⟩ => rfl | ⟨1, _⟩ => rfl | ⟨2, _⟩ => rfl)]
  exact shapeCast_apply (s := SW) (t := S128x128x5) _ hw5 (ix3 o c k) (ix4 o c (0 : Fin 1) k) (by
    rw [Shape.rowMajor_val_four, Shape.rowMajor_val_three]
    show ((o.val * 128 + c.val) * 1 + 0) * 5 + k.val = (o.val * 128 + c.val) * 5 + k.val
    omega)

/-- The bias as a column. -/
theorem bs_apply (o : Fin 128) (u : Fin 1) : shapeCast S128x1 b hbs (ix2 o u) = b (ix1 o) :=
  shapeCast_apply (s := SB) (t := S128x1) _ hbs (ix2 o u) (ix1 o) (by
    rw [Shape.rowMajor_val_one, Shape.rowMajor_val_two]
    show o.val = o.val * 1 + u.val
    have := u.isLt
    omega)

/-- Block `p` of the index chunks names, at plane `j` and row `r`, neighbour `j` of edge `32000 p + r`. -/
theorem gRow_block (off : Nat) (hoff : off + 250 ≤ 1250) (hs : S1250x4x128.Slices ![off, 0, 0] S250x4x128) (j : Fin 4)
    (r : Fin 32000) (e : Fin 160000) (he : e.val = 128 * off + r.val) :
    gRow (extractStridedSlice S250x4x128 ![off, 0, 0]
        (transpose S1250x4x128 [0, 2, 1] (shapeCast S1250x128x4 (shapeCast S160000x4 ge hg2) hg3) hg4) hs) j r
      = nbrIdx ge e j := by
  have hlt : off + r.val / 128 < 1250 := by have := r.isLt; omega
  have hI : extractStridedSlice S250x4x128 ![off, 0, 0]
        (transpose S1250x4x128 [0, 2, 1] (shapeCast S1250x128x4 (shapeCast S160000x4 ge hg2) hg3) hg4) hs
        (ix3 (⟨r.val / 128, by have := r.isLt; omega⟩ : Fin 250) j (⟨r.val % 128, Nat.mod_lt _ (by decide)⟩ : Fin 128))
      = ge (ix3 (0 : Fin 1) e j) := by
    rw [extractStridedSlice_apply (s := S1250x4x128) (t := S250x4x128) ![off, 0, 0] _ hs _
      (ix3 (⟨off + r.val / 128, hlt⟩ : Fin 1250) j (⟨r.val % 128, Nat.mod_lt _ (by decide)⟩ : Fin 128))
      (fun a => match a with
        | ⟨0, _⟩ => rfl
        | ⟨1, _⟩ => by show j.val = 0 + j.val; omega
        | ⟨2, _⟩ => by show r.val % 128 = 0 + r.val % 128; omega)]
    exact chunks_apply ge hg2 hg3 hg4 _ j _ e (by show e.val = 128 * (off + r.val / 128) + r.val % 128; omega)
  exact Fin.ext (congrArg (fun v : BitVec 32 => v.toNat % 160000) hI)

/-- A call's gathered array at plane `j`, row `r`, channel `c` is the `j`-th neighbour's channel `c`. -/
theorem gath_block (off : Nat) (hoff : off + 250 ≤ 1250) (hs : S1250x4x128.Slices ![off, 0, 0] S250x4x128) (j : Fin 4)
    (r : Fin 32000) (c : Fin 128) (e : Fin 160000) (he : e.val = 128 * off + r.val) :
    gath (transpose S160000x128 [1, 0] (shapeCast S128x160000 x hx) hxt)
        (extractStridedSlice S250x4x128 ![off, 0, 0]
          (transpose S1250x4x128 [0, 2, 1] (shapeCast S1250x128x4 (shapeCast S160000x4 ge hg2) hg3) hg4) hs) (ix3 j r c)
      = nbr x ge c e j := by
  show transpose S160000x128 [1, 0] (shapeCast S128x160000 x hx) hxt (ix2 (gRow _ j r) c) = _
  rw [gRow_block ge hg2 hg3 hg4 off hoff hs j r e he, table_apply]
  rfl

end Copies

/-! ## Five sums over the channels are the double sum over (channel, feature) -/

theorem five_sums (g : Fin 128 → Fin 5 → EReal) :
    ((((∑ c, g c 0) + ∑ c, g c 1) + ∑ c, g c 2) + ∑ c, g c 3) + ∑ c, g c 4 = ∑ c : Fin 128, ∑ k : Fin 5, g c k := by
  simp only [Fin.sum_univ_five, Finset.sum_add_distrib]

/-- An update's value is the specification's, given its four operands read at the indices it uses. -/
theorem convF_eq (x : FVec Ideal SX .f32) (ge : IVec SE 32) (w : FVec Ideal SW .f32) (b : FVec Ideal SB .f32)
    (X0 : FVec Ideal S128x160000 .f32) (Gq : FVec Ideal S4x32000x128 .f32) (Wt : FVec Ideal S5x128x128 .f32)
    (Bs : FVec Ideal S128x1 .f32) (o : Fin 128) (e : Fin 160000) (r : Fin 32000)
    (hX0 : ∀ c, X0 (ix2 c e) = x (ix3 (0 : Fin 1) c e))
    (hG : ∀ (j : Fin 4) (c : Fin 128), Gq (ix3 j r c) = nbr x ge c e j)
    (hW : ∀ (k : Fin 5) (c : Fin 128), Wt (ix3 k o c) = w (ix4 o c (0 : Fin 1) k))
    (hB : Bs (ix2 o (0 : Fin 1)) = b (ix1 o)) :
    convF X0 Gq Wt Bs o e r = outAt x ge w b o e := by
  unfold convF outAt
  rw [← five_sums (fun c k => w (ix4 o c (0 : Fin 1) k) * feat x ge k c e), hB]
  simp only [hX0, hG, hW, feat_zero, feat_one, feat_two, feat_three, feat_four]

/-! ## A column lies in exactly one update's range -/

/-- The type of an update: input matrix, gathered array, weights, bias, output as found ↦ output. -/
abbrev Upd : Type :=
  FVec Ideal S128x160000 .f32 → FVec Ideal S4x32000x128 .f32 → FVec Ideal S5x128x128 .f32 → FVec Ideal S128x1 .f32
    → FVec Ideal S128x160000 .f32 → FVec Ideal S128x160000 .f32

/-- Update `p` overwrites columns `[lo, hi)` with `convF` of its operands and keeps the others. -/
def IsUpd (C : Upd) (lo hi : Nat) : Prop :=
  ∀ (X0 : FVec Ideal S128x160000 .f32) (Gq : FVec Ideal S4x32000x128 .f32) (Wt : FVec Ideal S5x128x128 .f32)
    (Bs : FVec Ideal S128x1 .f32) (A : FVec Ideal S128x160000 .f32) (o : Fin 128) (e : Fin 160000),
    C X0 Gq Wt Bs A (ix2 o e)
      = if lo ≤ e.val ∧ e.val < hi then convF X0 Gq Wt Bs o e ⟨e.val % 32000, Nat.mod_lt _ (by norm_num)⟩ else A (ix2 o e)

theorem select_col (C0 C1 C2 C3 C4 : Upd) (h0 : IsUpd C0 0 32000) (h1 : IsUpd C1 32000 64000) (h2 : IsUpd C2 64000 96000)
    (h3 : IsUpd C3 96000 128000) (h4 : IsUpd C4 128000 160000)
    (V0 : FVec Ideal S128x160000 .f32) (G0 G1 G2 G3 G4 : FVec Ideal S4x32000x128 .f32) (Wt : FVec Ideal S5x128x128 .f32)
    (Bs : FVec Ideal S128x1 .f32) (A0 : FVec Ideal S128x160000 .f32) (o : Fin 128) (e : Fin 160000) (T : EReal)
    (t0 : e.val < 32000 → convF V0 G0 Wt Bs o e ⟨e.val % 32000, Nat.mod_lt _ (by norm_num)⟩ = T)
    (t1 : 32000 ≤ e.val → e.val < 64000 → convF V0 G1 Wt Bs o e ⟨e.val % 32000, Nat.mod_lt _ (by norm_num)⟩ = T)
    (t2 : 64000 ≤ e.val → e.val < 96000 → convF V0 G2 Wt Bs o e ⟨e.val % 32000, Nat.mod_lt _ (by norm_num)⟩ = T)
    (t3 : 96000 ≤ e.val → e.val < 128000 → convF V0 G3 Wt Bs o e ⟨e.val % 32000, Nat.mod_lt _ (by norm_num)⟩ = T)
    (t4 : 128000 ≤ e.val → convF V0 G4 Wt Bs o e ⟨e.val % 32000, Nat.mod_lt _ (by norm_num)⟩ = T) :
    C4 V0 G4 Wt Bs (C3 V0 G3 Wt Bs (C2 V0 G2 Wt Bs (C1 V0 G1 Wt Bs (C0 V0 G0 Wt Bs A0)))) (ix2 o e) = T := by
  rw [h4]
  split_ifs with c4
  · exact t4 c4.1
  · rw [h3]
    split_ifs with c3
    · exact t3 c3.1 c3.2
    · rw [h2]
      split_ifs with c2
      · exact t2 c2.1 c2.2
      · rw [h1]
        split_ifs with c1
        · exact t1 c1.1 c1.2
        · rw [h0]
          split_ifs with c0
          · exact t0 c0.2
          · exfalso
            have := e.isLt
            omega

/-! ## The kernel's result is the specification -/

section Assembly

variable (x : FVec Ideal SX .f32) (ge : IVec SE 32) (w : FVec Ideal SW .f32) (b : FVec Ideal SB .f32)
variable (hx : SX.ShapeCasts S128x160000) (hxt : S128x160000.Transposes [1, 0] S160000x128)
variable (hg2 : SE.ShapeCasts S160000x4) (hg3 : S160000x4.ShapeCasts S1250x128x4)
variable (hg4 : S1250x128x4.Transposes [0, 2, 1] S1250x4x128)
variable (hw5 : SW.ShapeCasts S128x128x5) (hwt : S128x128x5.Transposes [2, 0, 1] S5x128x128)
variable (hbs : SB.ShapeCasts S128x1)
variable (hs0 : S1250x4x128.Slices ![0, 0, 0] S250x4x128) (hs1 : S1250x4x128.Slices ![250, 0, 0] S250x4x128)
variable (hs2 : S1250x4x128.Slices ![500, 0, 0] S250x4x128) (hs3 : S1250x4x128.Slices ![750, 0, 0] S250x4x128)
variable (hs4 : S1250x4x128.Slices ![1000, 0, 0] S250x4x128)
variable (hbc : S128x160000.BroadcastsInDim SO ![1, 2])

/-- The five updates, each on its call's gathered array, from any output as found, broadcast to the result's shape,
    are the specification of the four arguments. -/
theorem bridge (C0 C1 C2 C3 C4 : Upd) (h0 : IsUpd C0 0 32000) (h1 : IsUpd C1 32000 64000) (h2 : IsUpd C2 64000 96000)
    (h3 : IsUpd C3 96000 128000) (h4 : IsUpd C4 128000 160000) (A0 : FVec Ideal S128x160000 .f32) :
    broadcastInDim SO ![1, 2] hbc
        (C4 (shapeCast S128x160000 x hx)
          (gath (transpose S160000x128 [1, 0] (shapeCast S128x160000 x hx) hxt)
            (extractStridedSlice S250x4x128 ![1000, 0, 0]
              (transpose S1250x4x128 [0, 2, 1] (shapeCast S1250x128x4 (shapeCast S160000x4 ge hg2) hg3) hg4) hs4))
          (transpose S5x128x128 [2, 0, 1] (shapeCast S128x128x5 w hw5) hwt) (shapeCast S128x1 b hbs)
        (C3 (shapeCast S128x160000 x hx)
          (gath (transpose S160000x128 [1, 0] (shapeCast S128x160000 x hx) hxt)
            (extractStridedSlice S250x4x128 ![750, 0, 0]
              (transpose S1250x4x128 [0, 2, 1] (shapeCast S1250x128x4 (shapeCast S160000x4 ge hg2) hg3) hg4) hs3))
          (transpose S5x128x128 [2, 0, 1] (shapeCast S128x128x5 w hw5) hwt) (shapeCast S128x1 b hbs)
        (C2 (shapeCast S128x160000 x hx)
          (gath (transpose S160000x128 [1, 0] (shapeCast S128x160000 x hx) hxt)
            (extractStridedSlice S250x4x128 ![500, 0, 0]
              (transpose S1250x4x128 [0, 2, 1] (shapeCast S1250x128x4 (shapeCast S160000x4 ge hg2) hg3) hg4) hs2))
          (transpose S5x128x128 [2, 0, 1] (shapeCast S128x128x5 w hw5) hwt) (shapeCast S128x1 b hbs)
        (C1 (shapeCast S128x160000 x hx)
          (gath (transpose S160000x128 [1, 0] (shapeCast S128x160000 x hx) hxt)
            (extractStridedSlice S250x4x128 ![250, 0, 0]
              (transpose S1250x4x128 [0, 2, 1] (shapeCast S1250x128x4 (shapeCast S160000x4 ge hg2) hg3) hg4) hs1))
          (transpose S5x128x128 [2, 0, 1] (shapeCast S128x128x5 w hw5) hwt) (shapeCast S128x1 b hbs)
        (C0 (shapeCast S128x160000 x hx)
          (gath (transpose S160000x128 [1, 0] (shapeCast S128x160000 x hx) hxt)
            (extractStridedSlice S250x4x128 ![0, 0, 0]
              (transpose S1250x4x128 [0, 2, 1] (shapeCast S1250x128x4 (shapeCast S160000x4 ge hg2) hg3) hg4) hs0))
          (transpose S5x128x128 [2, 0, 1] (shapeCast S128x128x5 w hw5) hwt) (shapeCast S128x1 b hbs) A0)))))
      = Cert.Spec.out x ge w b := by
  funext i
  obtain ⟨z, o, e, u, rfl⟩ : ∃ (z : Fin 1) (o : Fin 128) (e : Fin 160000) (u : Fin 1), i = ix4 z o e u :=
    ⟨i 0, i 1, i 2, i 3, eq_ix4 i⟩
  rw [Cert.Spec.out_ix4]
  rw [broadcastInDim_apply (s := S128x160000) (t := SO) ![1, 2] hbc _ (ix4 z o e u) (ix2 o e)
    (fun a => match a with | ⟨0, _⟩ => rfl | ⟨1, _⟩ => rfl)]
  have key : ∀ (off : Nat) (hoff : off + 250 ≤ 1250) (hs : S1250x4x128.Slices ![off, 0, 0] S250x4x128)
      (he : e.val = 128 * off + e.val % 32000),
      convF (shapeCast S128x160000 x hx)
        (gath (transpose S160000x128 [1, 0] (shapeCast S128x160000 x hx) hxt)
          (extractStridedSlice S250x4x128 ![off, 0, 0]
            (transpose S1250x4x128 [0, 2, 1] (shapeCast S1250x128x4 (shapeCast S160000x4 ge hg2) hg3) hg4) hs))
        (transpose S5x128x128 [2, 0, 1] (shapeCast S128x128x5 w hw5) hwt) (shapeCast S128x1 b hbs) o e
        ⟨e.val % 32000, Nat.mod_lt _ (by norm_num)⟩ = outAt x ge w b o e := fun off hoff hs he =>
    convF_eq x ge w b _ _ _ _ o e _ (fun c => x2_apply x hx c e)
      (fun j c => gath_block x ge hx hxt hg2 hg3 hg4 off hoff hs j _ c e he)
      (fun k c => wt_apply w hw5 hwt k o c) (bs_apply b hbs o 0)
  exact select_col C0 C1 C2 C3 C4 h0 h1 h2 h3 h4 _ _ _ _ _ _ _ _ A0 o e _
    (fun hh => key 0 (by norm_num) hs0 (by omega))
    (fun hl hh => key 250 (by norm_num) hs1 (by omega))
    (fun hl hh => key 500 (by norm_num) hs2 (by omega))
    (fun hl hh => key 750 (by norm_num) hs3 (by omega))
    (fun hl => key 1000 (by norm_num) hs4 (by have := e.isLt; omega))

end Assembly

end Cert.Bridge

end
-- ==== Proof.KBridge.lean ====
/-
  The kernel's result array is the specification of its four arguments. The result is the broadcast of the output
  array after the five updates; each update is handed the reshaped input, its call's gathered array, the weights and
  the bias, all pure terms of the launch memory; given that update `p` overwrites columns
  `[32000 p, 32000 (p + 1))` with the five sums over the channels plus the bias and keeps the other columns, the result
  is `Cert.Spec.out` of the arguments, for any neighbour ids (the gather reduces an id modulo the table's height
  exactly as the specification's lookup does).
-/
import proofs.«210879_g80607946211848_cont_9to1_m_1212_13_alg».proof.Proof.KMain
import proofs.«210879_g80607946211848_cont_9to1_m_1212_13_alg».proof.Proof.KBridgeMath

noncomputable section

namespace Cert.KernelIdeal.KP

open Cert.KernelIdeal Cert.KernelIdeal.Gen

open Idealize.ShloMosaic
open Idealize.ShloMosaic.SparseCore (S V T)
open Idealize.ShloMosaic.SparseCore.Cfg (HIx Pay)
open Idealize.ShloMosaic.ValueIdx
open Idealize.SL Idealize.SL.Sem

/-- The gathered array of the calls is the bridge's: the same function of the table and the index block. -/
theorem gath_eq (X : FVec Ideal S160000x128 .f32) (I : IVec S250x4x128 32) :
    gath (F := Ideal) X I = Cert.Bridge.gath X I := rfl

/-- THE BRIDGE: the result array is the specification of the arguments' launch contents. -/
theorem kout_eq_spec (m : (ℓ : Loc nD τ sig) → Buf (Elt Ideal) ℓ) (hr : Regions (P (F := Ideal) m)) (d : Dev nD)
    (h0 : Cert.Bridge.IsUpd (hr.Conv 0 d) 0 32000) (h1 : Cert.Bridge.IsUpd (hr.Conv 1 d) 32000 64000)
    (h2 : Cert.Bridge.IsUpd (hr.Conv 2 d) 64000 96000) (h3 : Cert.Bridge.IsUpd (hr.Conv 3 d) 96000 128000)
    (h4 : Cert.Bridge.IsUpd (hr.Conv 4 d) 128000 160000) :
    KOut hr d = Cert.Spec.out (m ((SparseCore.T d).loc main_arg0)) (m ((SparseCore.T d).loc main_arg1))
      (m ((SparseCore.T d).loc main_arg2)) (m ((SparseCore.T d).loc main_arg3)) := by
  unfold KOut R4 R3 R2 R1 R0
  rw [gath_eq, gath_eq, gath_eq, gath_eq, gath_eq]
  unfold Iv0 Iv1 Iv2 Iv3 Iv4 V4v V3v V2v Xv V0v Wtv W5v Bsv
  exact Cert.Bridge.bridge (m ((SparseCore.T d).loc main_arg0)) (m ((SparseCore.T d).loc main_arg1))
    (m ((SparseCore.T d).loc main_arg2)) (m ((SparseCore.T d).loc main_arg3)) _ _ _ _ _ _ _ _ _ _ _ _ _ _
    (hr.Conv 0 d) (hr.Conv 1 d) (hr.Conv 2 d) (hr.Conv 3 d) (hr.Conv 4 d) h0 h1 h2 h3 h4 _

end Cert.KernelIdeal.KP

end
-- ==== Proof.KConvValue.lean ====
/-
  From blocks to the array: what a TensorCore pipeline's write-backs make of its written-back array, as ONE function of
  the contents of its five arrays at entry — on the columns the pipeline's ten blocks cover, the body's result of the
  covering point's input blocks; the entry contents on every other column.
-/
import proofs.«210879_g80607946211848_cont_9to1_m_1212_13_alg».proof.Proof.KConvDat
import Idealize.ShloMosaic.Lib.Pipeline.Value
import Idealize.ShloMosaic.Lib.ValueIdx

set_option maxRecDepth 16384

noncomputable section

namespace Cert.KernelIdeal.KP

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.SparseCore.Cfg (HIx)
open Idealize.ShloMosaic.Pipeline (Dat Cfg Window)

variable {F : FTy → Type} [FloatOps F]

/-! ## Pipeline 0: columns [0, 32000) of main_v18 -/

section Value5

variable (d : Dev nD) (V : (b : Ref sig .tc) → Buf (Elt F) ((d : Thread nD τ).loc b)) (B : Set (SemLoc sig × HIx 5))

/-- The output window's block index at point `t`: row block 0, column block `t + 0` (decided over the grid). -/
theorem idx5_4 : ∀ t : Fin cfg5.N, win5_4.index t (0 : Fin 2) = 0 ∧ win5_4.index t (1 : Fin 2) = t.val + 0 :=
  (by decide +kernel : ∀ t : Fin grid5.N, _)

/-- The grid point whose block holds column `e` (made total by reduction modulo the ten points). -/
def ptOf5 (e : ℕ) : Fin cfg5.N := ⟨((e - 0) / 3200) % 10, by rw [show cfg5.N = 10 from N_5]; exact Nat.mod_lt _ (by norm_num)⟩

/-- The written-back array after the pipeline, index by index: on a column of the pipeline's range the body's result
    of the covering point's four input blocks, at the column's place in the block; elsewhere the entry contents. -/
def convG5 : Buf (Elt F) ((cfg5.win 4).arr.view.loc (d.tc : Thread nD τ)) := fun i =>
  if 0 ≤ (i 1).val ∧ (i 1).val < 32000 then
    out5 (iblk5 d V 0 (ptOf5 (i 1).val)) (iblk5 d V 1 (ptOf5 (i 1).val)) (iblk5 d V 2 (ptOf5 (i 1).val)) (iblk5 d V 3 (ptOf5 (i 1).val))
      (ix2 (i 0) ⟨(i 1).val % 3200, Nat.mod_lt _ (by norm_num)⟩)
  else V (Pipeline.arrRef spec5 4) i

/-- What point `t` writes back is block `t` of `convG5`. -/
theorem flushed5_eq (t : Fin cfg5.N) :
    (dat5 d V B).flushed 4 t = ((cfg5.win 4).blk t).view.read (Elt F) (convG5 d V) := by
  show (cfg5.win 4).cut (grid5.coords t) ((dat5 d V B).after 4 t) = _
  rw [after5_4]
  obtain ⟨i0, i1⟩ := idx5_4 t
  have htN : t.val < 10 := lt_of_lt_of_eq t.isLt (show cfg5.N = 10 from N_5)
  funext j
  show out5 (iblk5 d V 0 t) (iblk5 d V 1 t) (iblk5 d V 2 t) (iblk5 d V 3 t) j = convG5 d V (((cfg5.win 4).blk t).view.emb j)
  have hj0 : (j 0).val < 128 := (j 0).isLt
  have hj1 : (j 1).val < 3200 := (j 1).isLt
  have e0 : ((((cfg5.win 4).blk t).view.emb j) 0).val = win5_4.index t (0 : Fin 2) * 128 + 1 * (j 0).val := rfl
  have e1 : ((((cfg5.win 4).blk t).view.emb j) 1).val = win5_4.index t (1 : Fin 2) * 3200 + 1 * (j 1).val := rfl
  rw [i0] at e0; rw [i1] at e1
  unfold convG5
  rw [if_pos ⟨by omega, by omega⟩]
  have hp : ptOf5 ((((cfg5.win 4).blk t).view.emb j) 1).val = t := Fin.ext (by show ((_ - 0) / 3200) % 10 = t.val; omega)
  rw [hp]
  congr 1
  funext a; apply Fin.ext
  match a with
  | ⟨0, _⟩ => show (j 0).val = ((((cfg5.win 4).blk t).view.emb j) 0).val; omega
  | ⟨1, _⟩ => show (j 1).val = ((((cfg5.win 4).blk t).view.emb j) 1).val % 3200; omega

/-- An index of the array is in point `t`'s block iff each coordinate is in the block's range on its axis. -/
theorem mem_blk5 (t : Fin cfg5.N) (i : S128x160000.Idx) :
    i ∈ ((cfg5.win 4).blk t).view.set ↔ ∀ a : Fin 2, win5_4.index t a * S128x3200.size a ≤ (i a).val ∧ (i a).val < win5_4.index t a * S128x3200.size a + S128x3200.size a := by
  show i ∈ ((View.whole main_v18).slice (win5_4.rect t)).set ↔ _
  rw [View.set_slice_whole, Rect.mem_set_unit]
  exact Iff.rfl

/-- Every column of the pipeline's range is in some point's block. -/
theorem covered5 (i : S128x160000.Idx) (h : 0 ≤ (i 1).val ∧ (i 1).val < 32000) :
    ∃ t : Fin cfg5.N, (cfg5.win 4).flush t = true ∧ i ∈ ((cfg5.win 4).blk t).view.set := by
  have hi0 : (i 0).val < 128 := (i 0).isLt
  refine ⟨⟨((i 1).val - 0) / 3200, by rw [show cfg5.N = 10 from N_5]; omega⟩, flush5_4 _, ?_⟩
  rw [mem_blk5]
  obtain ⟨i0, i1⟩ := idx5_4 ⟨((i 1).val - 0) / 3200, by rw [show cfg5.N = 10 from N_5]; omega⟩
  intro a
  match a with
  | ⟨0, _⟩ => show win5_4.index _ (0 : Fin 2) * 128 ≤ (i 0).val ∧ (i 0).val < win5_4.index _ (0 : Fin 2) * 128 + 128; rw [i0]; omega
  | ⟨1, _⟩ => show win5_4.index _ (1 : Fin 2) * 3200 ≤ (i 1).val ∧ (i 1).val < win5_4.index _ (1 : Fin 2) * 3200 + 3200; rw [i1]; show (((i 1).val - 0) / 3200 + 0) * 3200 ≤ (i 1).val ∧ (i 1).val < (((i 1).val - 0) / 3200 + 0) * 3200 + 3200; omega

/-- A column in some point's block is in the pipeline's range. -/
theorem range_of_covered5 (i : S128x160000.Idx) (h : ∃ t : Fin cfg5.N, (cfg5.win 4).flush t = true ∧ i ∈ ((cfg5.win 4).blk t).view.set) :
    0 ≤ (i 1).val ∧ (i 1).val < 32000 := by
  obtain ⟨t, -, hi⟩ := h
  rw [mem_blk5] at hi
  have b1 : win5_4.index t (1 : Fin 2) * 3200 ≤ (i 1).val ∧ (i 1).val < win5_4.index t (1 : Fin 2) * 3200 + 3200 := hi 1
  obtain ⟨i0, i1⟩ := idx5_4 t
  have htN : t.val < 10 := lt_of_lt_of_eq t.isLt (show cfg5.N = 10 from N_5)
  rw [i1] at b1
  omega

/-- THE ARRAY after the pipeline is `convG5` of the entry contents. -/
theorem arrAt5_eq : (dat5 d V B).arrAt 4 cfg5.N = convG5 d V := by
  funext i
  rw [(dat5 d V B).arrAt_eq_piecewise 4 (convG5 d V) (fun t _ => flushed5_eq d V B t) i]
  split
  · rfl
  · rename_i h
    have hn : ¬ (0 ≤ (i 1).val ∧ (i 1).val < 32000) := fun hr => h (covered5 i hr)
    unfold convG5; rw [if_neg hn, A5_eq]

end Value5

/-! ## Pipeline 1: columns [32000, 64000) of main_v19 -/

section Value6

variable (d : Dev nD) (V : (b : Ref sig .tc) → Buf (Elt F) ((d : Thread nD τ).loc b)) (B : Set (SemLoc sig × HIx 5))

/-- The output window's block index at point `t`: row block 0, column block `t + 10` (decided over the grid). -/
theorem idx6_4 : ∀ t : Fin cfg6.N, win6_4.index t (0 : Fin 2) = 0 ∧ win6_4.index t (1 : Fin 2) = t.val + 10 :=
  (by decide +kernel : ∀ t : Fin grid6.N, _)

/-- The grid point whose block holds column `e` (made total by reduction modulo the ten points). -/
def ptOf6 (e : ℕ) : Fin cfg6.N := ⟨((e - 32000) / 3200) % 10, by rw [show cfg6.N = 10 from N_6]; exact Nat.mod_lt _ (by norm_num)⟩

/-- The written-back array after the pipeline, index by index: on a column of the pipeline's range the body's result
    of the covering point's four input blocks, at the column's place in the block; elsewhere the entry contents. -/
def convG6 : Buf (Elt F) ((cfg6.win 4).arr.view.loc (d.tc : Thread nD τ)) := fun i =>
  if 32000 ≤ (i 1).val ∧ (i 1).val < 64000 then
    out6 (iblk6 d V 0 (ptOf6 (i 1).val)) (iblk6 d V 1 (ptOf6 (i 1).val)) (iblk6 d V 2 (ptOf6 (i 1).val)) (iblk6 d V 3 (ptOf6 (i 1).val))
      (ix2 (i 0) ⟨(i 1).val % 3200, Nat.mod_lt _ (by norm_num)⟩)
  else V (Pipeline.arrRef spec6 4) i

/-- What point `t` writes back is block `t` of `convG6`. -/
theorem flushed6_eq (t : Fin cfg6.N) :
    (dat6 d V B).flushed 4 t = ((cfg6.win 4).blk t).view.read (Elt F) (convG6 d V) := by
  show (cfg6.win 4).cut (grid6.coords t) ((dat6 d V B).after 4 t) = _
  rw [after6_4]
  obtain ⟨i0, i1⟩ := idx6_4 t
  have htN : t.val < 10 := lt_of_lt_of_eq t.isLt (show cfg6.N = 10 from N_6)
  funext j
  show out6 (iblk6 d V 0 t) (iblk6 d V 1 t) (iblk6 d V 2 t) (iblk6 d V 3 t) j = convG6 d V (((cfg6.win 4).blk t).view.emb j)
  have hj0 : (j 0).val < 128 := (j 0).isLt
  have hj1 : (j 1).val < 3200 := (j 1).isLt
  have e0 : ((((cfg6.win 4).blk t).view.emb j) 0).val = win6_4.index t (0 : Fin 2) * 128 + 1 * (j 0).val := rfl
  have e1 : ((((cfg6.win 4).blk t).view.emb j) 1).val = win6_4.index t (1 : Fin 2) * 3200 + 1 * (j 1).val := rfl
  rw [i0] at e0; rw [i1] at e1
  unfold convG6
  rw [if_pos ⟨by omega, by omega⟩]
  have hp : ptOf6 ((((cfg6.win 4).blk t).view.emb j) 1).val = t := Fin.ext (by show ((_ - 32000) / 3200) % 10 = t.val; omega)
  rw [hp]
  congr 1
  funext a; apply Fin.ext
  match a with
  | ⟨0, _⟩ => show (j 0).val = ((((cfg6.win 4).blk t).view.emb j) 0).val; omega
  | ⟨1, _⟩ => show (j 1).val = ((((cfg6.win 4).blk t).view.emb j) 1).val % 3200; omega

/-- An index of the array is in point `t`'s block iff each coordinate is in the block's range on its axis. -/
theorem mem_blk6 (t : Fin cfg6.N) (i : S128x160000.Idx) :
    i ∈ ((cfg6.win 4).blk t).view.set ↔ ∀ a : Fin 2, win6_4.index t a * S128x3200.size a ≤ (i a).val ∧ (i a).val < win6_4.index t a * S128x3200.size a + S128x3200.size a := by
  show i ∈ ((View.whole main_v19).slice (win6_4.rect t)).set ↔ _
  rw [View.set_slice_whole, Rect.mem_set_unit]
  exact Iff.rfl

/-- Every column of the pipeline's range is in some point's block. -/
theorem covered6 (i : S128x160000.Idx) (h : 32000 ≤ (i 1).val ∧ (i 1).val < 64000) :
    ∃ t : Fin cfg6.N, (cfg6.win 4).flush t = true ∧ i ∈ ((cfg6.win 4).blk t).view.set := by
  have hi0 : (i 0).val < 128 := (i 0).isLt
  refine ⟨⟨((i 1).val - 32000) / 3200, by rw [show cfg6.N = 10 from N_6]; omega⟩, flush6_4 _, ?_⟩
  rw [mem_blk6]
  obtain ⟨i0, i1⟩ := idx6_4 ⟨((i 1).val - 32000) / 3200, by rw [show cfg6.N = 10 from N_6]; omega⟩
  intro a
  match a with
  | ⟨0, _⟩ => show win6_4.index _ (0 : Fin 2) * 128 ≤ (i 0).val ∧ (i 0).val < win6_4.index _ (0 : Fin 2) * 128 + 128; rw [i0]; omega
  | ⟨1, _⟩ => show win6_4.index _ (1 : Fin 2) * 3200 ≤ (i 1).val ∧ (i 1).val < win6_4.index _ (1 : Fin 2) * 3200 + 3200; rw [i1]; show (((i 1).val - 32000) / 3200 + 10) * 3200 ≤ (i 1).val ∧ (i 1).val < (((i 1).val - 32000) / 3200 + 10) * 3200 + 3200; omega

/-- A column in some point's block is in the pipeline's range. -/
theorem range_of_covered6 (i : S128x160000.Idx) (h : ∃ t : Fin cfg6.N, (cfg6.win 4).flush t = true ∧ i ∈ ((cfg6.win 4).blk t).view.set) :
    32000 ≤ (i 1).val ∧ (i 1).val < 64000 := by
  obtain ⟨t, -, hi⟩ := h
  rw [mem_blk6] at hi
  have b1 : win6_4.index t (1 : Fin 2) * 3200 ≤ (i 1).val ∧ (i 1).val < win6_4.index t (1 : Fin 2) * 3200 + 3200 := hi 1
  obtain ⟨i0, i1⟩ := idx6_4 t
  have htN : t.val < 10 := lt_of_lt_of_eq t.isLt (show cfg6.N = 10 from N_6)
  rw [i1] at b1
  omega

/-- THE ARRAY after the pipeline is `convG6` of the entry contents. -/
theorem arrAt6_eq : (dat6 d V B).arrAt 4 cfg6.N = convG6 d V := by
  funext i
  rw [(dat6 d V B).arrAt_eq_piecewise 4 (convG6 d V) (fun t _ => flushed6_eq d V B t) i]
  split
  · rfl
  · rename_i h
    have hn : ¬ (32000 ≤ (i 1).val ∧ (i 1).val < 64000) := fun hr => h (covered6 i hr)
    unfold convG6; rw [if_neg hn, A6_eq]

end Value6

/-! ## Pipeline 2: columns [64000, 96000) of main_v20 -/

section Value7

variable (d : Dev nD) (V : (b : Ref sig .tc) → Buf (Elt F) ((d : Thread nD τ).loc b)) (B : Set (SemLoc sig × HIx 5))

/-- The output window's block index at point `t`: row block 0, column block `t + 20` (decided over the grid). -/
theorem idx7_4 : ∀ t : Fin cfg7.N, win7_4.index t (0 : Fin 2) = 0 ∧ win7_4.index t (1 : Fin 2) = t.val + 20 :=
  (by decide +kernel : ∀ t : Fin grid7.N, _)

/-- The grid point whose block holds column `e` (made total by reduction modulo the ten points). -/
def ptOf7 (e : ℕ) : Fin cfg7.N := ⟨((e - 64000) / 3200) % 10, by rw [show cfg7.N = 10 from N_7]; exact Nat.mod_lt _ (by norm_num)⟩

/-- The written-back array after the pipeline, index by index: on a column of the pipeline's range the body's result
    of the covering point's four input blocks, at the column's place in the block; elsewhere the entry contents. -/
def convG7 : Buf (Elt F) ((cfg7.win 4).arr.view.loc (d.tc : Thread nD τ)) := fun i =>
  if 64000 ≤ (i 1).val ∧ (i 1).val < 96000 then
    out7 (iblk7 d V 0 (ptOf7 (i 1).val)) (iblk7 d V 1 (ptOf7 (i 1).val)) (iblk7 d V 2 (ptOf7 (i 1).val)) (iblk7 d V 3 (ptOf7 (i 1).val))
      (ix2 (i 0) ⟨(i 1).val % 3200, Nat.mod_lt _ (by norm_num)⟩)
  else V (Pipeline.arrRef spec7 4) i

/-- What point `t` writes back is block `t` of `convG7`. -/
theorem flushed7_eq (t : Fin cfg7.N) :
    (dat7 d V B).flushed 4 t = ((cfg7.win 4).blk t).view.read (Elt F) (convG7 d V) := by
  show (cfg7.win 4).cut (grid7.coords t) ((dat7 d V B).after 4 t) = _
  rw [after7_4]
  obtain ⟨i0, i1⟩ := idx7_4 t
  have htN : t.val < 10 := lt_of_lt_of_eq t.isLt (show cfg7.N = 10 from N_7)
  funext j
  show out7 (iblk7 d V 0 t) (iblk7 d V 1 t) (iblk7 d V 2 t) (iblk7 d V 3 t) j = convG7 d V (((cfg7.win 4).blk t).view.emb j)
  have hj0 : (j 0).val < 128 := (j 0).isLt
  have hj1 : (j 1).val < 3200 := (j 1).isLt
  have e0 : ((((cfg7.win 4).blk t).view.emb j) 0).val = win7_4.index t (0 : Fin 2) * 128 + 1 * (j 0).val := rfl
  have e1 : ((((cfg7.win 4).blk t).view.emb j) 1).val = win7_4.index t (1 : Fin 2) * 3200 + 1 * (j 1).val := rfl
  rw [i0] at e0; rw [i1] at e1
  unfold convG7
  rw [if_pos ⟨by omega, by omega⟩]
  have hp : ptOf7 ((((cfg7.win 4).blk t).view.emb j) 1).val = t := Fin.ext (by show ((_ - 64000) / 3200) % 10 = t.val; omega)
  rw [hp]
  congr 1
  funext a; apply Fin.ext
  match a with
  | ⟨0, _⟩ => show (j 0).val = ((((cfg7.win 4).blk t).view.emb j) 0).val; omega
  | ⟨1, _⟩ => show (j 1).val = ((((cfg7.win 4).blk t).view.emb j) 1).val % 3200; omega

/-- An index of the array is in point `t`'s block iff each coordinate is in the block's range on its axis. -/
theorem mem_blk7 (t : Fin cfg7.N) (i : S128x160000.Idx) :
    i ∈ ((cfg7.win 4).blk t).view.set ↔ ∀ a : Fin 2, win7_4.index t a * S128x3200.size a ≤ (i a).val ∧ (i a).val < win7_4.index t a * S128x3200.size a + S128x3200.size a := by
  show i ∈ ((View.whole main_v20).slice (win7_4.rect t)).set ↔ _
  rw [View.set_slice_whole, Rect.mem_set_unit]
  exact Iff.rfl

/-- Every column of the pipeline's range is in some point's block. -/
theorem covered7 (i : S128x160000.Idx) (h : 64000 ≤ (i 1).val ∧ (i 1).val < 96000) :
    ∃ t : Fin cfg7.N, (cfg7.win 4).flush t = true ∧ i ∈ ((cfg7.win 4).blk t).view.set := by
  have hi0 : (i 0).val < 128 := (i 0).isLt
  refine ⟨⟨((i 1).val - 64000) / 3200, by rw [show cfg7.N = 10 from N_7]; omega⟩, flush7_4 _, ?_⟩
  rw [mem_blk7]
  obtain ⟨i0, i1⟩ := idx7_4 ⟨((i 1).val - 64000) / 3200, by rw [show cfg7.N = 10 from N_7]; omega⟩
  intro a
  match a with
  | ⟨0, _⟩ => show win7_4.index _ (0 : Fin 2) * 128 ≤ (i 0).val ∧ (i 0).val < win7_4.index _ (0 : Fin 2) * 128 + 128; rw [i0]; omega
  | ⟨1, _⟩ => show win7_4.index _ (1 : Fin 2) * 3200 ≤ (i 1).val ∧ (i 1).val < win7_4.index _ (1 : Fin 2) * 3200 + 3200; rw [i1]; show (((i 1).val - 64000) / 3200 + 20) * 3200 ≤ (i 1).val ∧ (i 1).val < (((i 1).val - 64000) / 3200 + 20) * 3200 + 3200; omega

/-- A column in some point's block is in the pipeline's range. -/
theorem range_of_covered7 (i : S128x160000.Idx) (h : ∃ t : Fin cfg7.N, (cfg7.win 4).flush t = true ∧ i ∈ ((cfg7.win 4).blk t).view.set) :
    64000 ≤ (i 1).val ∧ (i 1).val < 96000 := by
  obtain ⟨t, -, hi⟩ := h
  rw [mem_blk7] at hi
  have b1 : win7_4.index t (1 : Fin 2) * 3200 ≤ (i 1).val ∧ (i 1).val < win7_4.index t (1 : Fin 2) * 3200 + 3200 := hi 1
  obtain ⟨i0, i1⟩ := idx7_4 t
  have htN : t.val < 10 := lt_of_lt_of_eq t.isLt (show cfg7.N = 10 from N_7)
  rw [i1] at b1
  omega

/-- THE ARRAY after the pipeline is `convG7` of the entry contents. -/
theorem arrAt7_eq : (dat7 d V B).arrAt 4 cfg7.N = convG7 d V := by
  funext i
  rw [(dat7 d V B).arrAt_eq_piecewise 4 (convG7 d V) (fun t _ => flushed7_eq d V B t) i]
  split
  · rfl
  · rename_i h
    have hn : ¬ (64000 ≤ (i 1).val ∧ (i 1).val < 96000) := fun hr => h (covered7 i hr)
    unfold convG7; rw [if_neg hn, A7_eq]

end Value7

/-! ## Pipeline 3: columns [96000, 128000) of main_v21 -/

section Value8

variable (d : Dev nD) (V : (b : Ref sig .tc) → Buf (Elt F) ((d : Thread nD τ).loc b)) (B : Set (SemLoc sig × HIx 5))

/-- The output window's block index at point `t`: row block 0, column block `t + 30` (decided over the grid). -/
theorem idx8_4 : ∀ t : Fin cfg8.N, win8_4.index t (0 : Fin 2) = 0 ∧ win8_4.index t (1 : Fin 2) = t.val + 30 :=
  (by decide +kernel : ∀ t : Fin grid8.N, _)

/-- The grid point whose block holds column `e` (made total by reduction modulo the ten points). -/
def ptOf8 (e : ℕ) : Fin cfg8.N := ⟨((e - 96000) / 3200) % 10, by rw [show cfg8.N = 10 from N_8]; exact Nat.mod_lt _ (by norm_num)⟩

/-- The written-back array after the pipeline, index by index: on a column of the pipeline's range the body's result
    of the covering point's four input blocks, at the column's place in the block; elsewhere the entry contents. -/
def convG8 : Buf (Elt F) ((cfg8.win 4).arr.view.loc (d.tc : Thread nD τ)) := fun i =>
  if 96000 ≤ (i 1).val ∧ (i 1).val < 128000 then
    out8 (iblk8 d V 0 (ptOf8 (i 1).val)) (iblk8 d V 1 (ptOf8 (i 1).val)) (iblk8 d V 2 (ptOf8 (i 1).val)) (iblk8 d V 3 (ptOf8 (i 1).val))
      (ix2 (i 0) ⟨(i 1).val % 3200, Nat.mod_lt _ (by norm_num)⟩)
  else V (Pipeline.arrRef spec8 4) i

/-- What point `t` writes back is block `t` of `convG8`. -/
theorem flushed8_eq (t : Fin cfg8.N) :
    (dat8 d V B).flushed 4 t = ((cfg8.win 4).blk t).view.read (Elt F) (convG8 d V) := by
  show (cfg8.win 4).cut (grid8.coords t) ((dat8 d V B).after 4 t) = _
  rw [after8_4]
  obtain ⟨i0, i1⟩ := idx8_4 t
  have htN : t.val < 10 := lt_of_lt_of_eq t.isLt (show cfg8.N = 10 from N_8)
  funext j
  show out8 (iblk8 d V 0 t) (iblk8 d V 1 t) (iblk8 d V 2 t) (iblk8 d V 3 t) j = convG8 d V (((cfg8.win 4).blk t).view.emb j)
  have hj0 : (j 0).val < 128 := (j 0).isLt
  have hj1 : (j 1).val < 3200 := (j 1).isLt
  have e0 : ((((cfg8.win 4).blk t).view.emb j) 0).val = win8_4.index t (0 : Fin 2) * 128 + 1 * (j 0).val := rfl
  have e1 : ((((cfg8.win 4).blk t).view.emb j) 1).val = win8_4.index t (1 : Fin 2) * 3200 + 1 * (j 1).val := rfl
  rw [i0] at e0; rw [i1] at e1
  unfold convG8
  rw [if_pos ⟨by omega, by omega⟩]
  have hp : ptOf8 ((((cfg8.win 4).blk t).view.emb j) 1).val = t := Fin.ext (by show ((_ - 96000) / 3200) % 10 = t.val; omega)
  rw [hp]
  congr 1
  funext a; apply Fin.ext
  match a with
  | ⟨0, _⟩ => show (j 0).val = ((((cfg8.win 4).blk t).view.emb j) 0).val; omega
  | ⟨1, _⟩ => show (j 1).val = ((((cfg8.win 4).blk t).view.emb j) 1).val % 3200; omega

/-- An index of the array is in point `t`'s block iff each coordinate is in the block's range on its axis. -/
theorem mem_blk8 (t : Fin cfg8.N) (i : S128x160000.Idx) :
    i ∈ ((cfg8.win 4).blk t).view.set ↔ ∀ a : Fin 2, win8_4.index t a * S128x3200.size a ≤ (i a).val ∧ (i a).val < win8_4.index t a * S128x3200.size a + S128x3200.size a := by
  show i ∈ ((View.whole main_v21).slice (win8_4.rect t)).set ↔ _
  rw [View.set_slice_whole, Rect.mem_set_unit]
  exact Iff.rfl

/-- Every column of the pipeline's range is in some point's block. -/
theorem covered8 (i : S128x160000.Idx) (h : 96000 ≤ (i 1).val ∧ (i 1).val < 128000) :
    ∃ t : Fin cfg8.N, (cfg8.win 4).flush t = true ∧ i ∈ ((cfg8.win 4).blk t).view.set := by
  have hi0 : (i 0).val < 128 := (i 0).isLt
  refine ⟨⟨((i 1).val - 96000) / 3200, by rw [show cfg8.N = 10 from N_8]; omega⟩, flush8_4 _, ?_⟩
  rw [mem_blk8]
  obtain ⟨i0, i1⟩ := idx8_4 ⟨((i 1).val - 96000) / 3200, by rw [show cfg8.N = 10 from N_8]; omega⟩
  intro a
  match a with
  | ⟨0, _⟩ => show win8_4.index _ (0 : Fin 2) * 128 ≤ (i 0).val ∧ (i 0).val < win8_4.index _ (0 : Fin 2) * 128 + 128; rw [i0]; omega
  | ⟨1, _⟩ => show win8_4.index _ (1 : Fin 2) * 3200 ≤ (i 1).val ∧ (i 1).val < win8_4.index _ (1 : Fin 2) * 3200 + 3200; rw [i1]; show (((i 1).val - 96000) / 3200 + 30) * 3200 ≤ (i 1).val ∧ (i 1).val < (((i 1).val - 96000) / 3200 + 30) * 3200 + 3200; omega

/-- A column in some point's block is in the pipeline's range. -/
theorem range_of_covered8 (i : S128x160000.Idx) (h : ∃ t : Fin cfg8.N, (cfg8.win 4).flush t = true ∧ i ∈ ((cfg8.win 4).blk t).view.set) :
    96000 ≤ (i 1).val ∧ (i 1).val < 128000 := by
  obtain ⟨t, -, hi⟩ := h
  rw [mem_blk8] at hi
  have b1 : win8_4.index t (1 : Fin 2) * 3200 ≤ (i 1).val ∧ (i 1).val < win8_4.index t (1 : Fin 2) * 3200 + 3200 := hi 1
  obtain ⟨i0, i1⟩ := idx8_4 t
  have htN : t.val < 10 := lt_of_lt_of_eq t.isLt (show cfg8.N = 10 from N_8)
  rw [i1] at b1
  omega

/-- THE ARRAY after the pipeline is `convG8` of the entry contents. -/
theorem arrAt8_eq : (dat8 d V B).arrAt 4 cfg8.N = convG8 d V := by
  funext i
  rw [(dat8 d V B).arrAt_eq_piecewise 4 (convG8 d V) (fun t _ => flushed8_eq d V B t) i]
  split
  · rfl
  · rename_i h
    have hn : ¬ (96000 ≤ (i 1).val ∧ (i 1).val < 128000) := fun hr => h (covered8 i hr)
    unfold convG8; rw [if_neg hn, A8_eq]

end Value8

/-! ## Pipeline 4: columns [128000, 160000) of main_v22 -/

section Value9

variable (d : Dev nD) (V : (b : Ref sig .tc) → Buf (Elt F) ((d : Thread nD τ).loc b)) (B : Set (SemLoc sig × HIx 5))

/-- The output window's block index at point `t`: row block 0, column block `t + 40` (decided over the grid). -/
theorem idx9_4 : ∀ t : Fin cfg9.N, win9_4.index t (0 : Fin 2) = 0 ∧ win9_4.index t (1 : Fin 2) = t.val + 40 :=
  (by decide +kernel : ∀ t : Fin grid9.N, _)

/-- The grid point whose block holds column `e` (made total by reduction modulo the ten points). -/
def ptOf9 (e : ℕ) : Fin cfg9.N := ⟨((e - 128000) / 3200) % 10, by rw [show cfg9.N = 10 from N_9]; exact Nat.mod_lt _ (by norm_num)⟩

/-- The written-back array after the pipeline, index by index: on a column of the pipeline's range the body's result
    of the covering point's four input blocks, at the column's place in the block; elsewhere the entry contents. -/
def convG9 : Buf (Elt F) ((cfg9.win 4).arr.view.loc (d.tc : Thread nD τ)) := fun i =>
  if 128000 ≤ (i 1).val ∧ (i 1).val < 160000 then
    out9 (iblk9 d V 0 (ptOf9 (i 1).val)) (iblk9 d V 1 (ptOf9 (i 1).val)) (iblk9 d V 2 (ptOf9 (i 1).val)) (iblk9 d V 3 (ptOf9 (i 1).val))
      (ix2 (i 0) ⟨(i 1).val % 3200, Nat.mod_lt _ (by norm_num)⟩)
  else V (Pipeline.arrRef spec9 4) i

/-- What point `t` writes back is block `t` of `convG9`. -/
theorem flushed9_eq (t : Fin cfg9.N) :
    (dat9 d V B).flushed 4 t = ((cfg9.win 4).blk t).view.read (Elt F) (convG9 d V) := by
  show (cfg9.win 4).cut (grid9.coords t) ((dat9 d V B).after 4 t) = _
  rw [after9_4]
  obtain ⟨i0, i1⟩ := idx9_4 t
  have htN : t.val < 10 := lt_of_lt_of_eq t.isLt (show cfg9.N = 10 from N_9)
  funext j
  show out9 (iblk9 d V 0 t) (iblk9 d V 1 t) (iblk9 d V 2 t) (iblk9 d V 3 t) j = convG9 d V (((cfg9.win 4).blk t).view.emb j)
  have hj0 : (j 0).val < 128 := (j 0).isLt
  have hj1 : (j 1).val < 3200 := (j 1).isLt
  have e0 : ((((cfg9.win 4).blk t).view.emb j) 0).val = win9_4.index t (0 : Fin 2) * 128 + 1 * (j 0).val := rfl
  have e1 : ((((cfg9.win 4).blk t).view.emb j) 1).val = win9_4.index t (1 : Fin 2) * 3200 + 1 * (j 1).val := rfl
  rw [i0] at e0; rw [i1] at e1
  unfold convG9
  rw [if_pos ⟨by omega, by omega⟩]
  have hp : ptOf9 ((((cfg9.win 4).blk t).view.emb j) 1).val = t := Fin.ext (by show ((_ - 128000) / 3200) % 10 = t.val; omega)
  rw [hp]
  congr 1
  funext a; apply Fin.ext
  match a with
  | ⟨0, _⟩ => show (j 0).val = ((((cfg9.win 4).blk t).view.emb j) 0).val; omega
  | ⟨1, _⟩ => show (j 1).val = ((((cfg9.win 4).blk t).view.emb j) 1).val % 3200; omega

/-- An index of the array is in point `t`'s block iff each coordinate is in the block's range on its axis. -/
theorem mem_blk9 (t : Fin cfg9.N) (i : S128x160000.Idx) :
    i ∈ ((cfg9.win 4).blk t).view.set ↔ ∀ a : Fin 2, win9_4.index t a * S128x3200.size a ≤ (i a).val ∧ (i a).val < win9_4.index t a * S128x3200.size a + S128x3200.size a := by
  show i ∈ ((View.whole main_v22).slice (win9_4.rect t)).set ↔ _
  rw [View.set_slice_whole, Rect.mem_set_unit]
  exact Iff.rfl

/-- Every column of the pipeline's range is in some point's block. -/
theorem covered9 (i : S128x160000.Idx) (h : 128000 ≤ (i 1).val ∧ (i 1).val < 160000) :
    ∃ t : Fin cfg9.N, (cfg9.win 4).flush t = true ∧ i ∈ ((cfg9.win 4).blk t).view.set := by
  have hi0 : (i 0).val < 128 := (i 0).isLt
  refine ⟨⟨((i 1).val - 128000) / 3200, by rw [show cfg9.N = 10 from N_9]; omega⟩, flush9_4 _, ?_⟩
  rw [mem_blk9]
  obtain ⟨i0, i1⟩ := idx9_4 ⟨((i 1).val - 128000) / 3200, by rw [show cfg9.N = 10 from N_9]; omega⟩
  intro a
  match a with
  | ⟨0, _⟩ => show win9_4.index _ (0 : Fin 2) * 128 ≤ (i 0).val ∧ (i 0).val < win9_4.index _ (0 : Fin 2) * 128 + 128; rw [i0]; omega
  | ⟨1, _⟩ => show win9_4.index _ (1 : Fin 2) * 3200 ≤ (i 1).val ∧ (i 1).val < win9_4.index _ (1 : Fin 2) * 3200 + 3200; rw [i1]; show (((i 1).val - 128000) / 3200 + 40) * 3200 ≤ (i 1).val ∧ (i 1).val < (((i 1).val - 128000) / 3200 + 40) * 3200 + 3200; omega

/-- A column in some point's block is in the pipeline's range. -/
theorem range_of_covered9 (i : S128x160000.Idx) (h : ∃ t : Fin cfg9.N, (cfg9.win 4).flush t = true ∧ i ∈ ((cfg9.win 4).blk t).view.set) :
    128000 ≤ (i 1).val ∧ (i 1).val < 160000 := by
  obtain ⟨t, -, hi⟩ := h
  rw [mem_blk9] at hi
  have b1 : win9_4.index t (1 : Fin 2) * 3200 ≤ (i 1).val ∧ (i 1).val < win9_4.index t (1 : Fin 2) * 3200 + 3200 := hi 1
  obtain ⟨i0, i1⟩ := idx9_4 t
  have htN : t.val < 10 := lt_of_lt_of_eq t.isLt (show cfg9.N = 10 from N_9)
  rw [i1] at b1
  omega

/-- THE ARRAY after the pipeline is `convG9` of the entry contents. -/
theorem arrAt9_eq : (dat9 d V B).arrAt 4 cfg9.N = convG9 d V := by
  funext i
  rw [(dat9 d V B).arrAt_eq_piecewise 4 (convG9 d V) (fun t _ => flushed9_eq d V B t) i]
  split
  · rfl
  · rename_i h
    have hn : ¬ (128000 ≤ (i 1).val ∧ (i 1).val < 160000) := fun hr => h (covered9 i hr)
    unfold convG9; rw [if_neg hn, A9_eq]

end Value9

end Cert.KernelIdeal.KP

end
-- ==== Proof.KConvOut.lean ====
/-
  Each pipeline's result array index by index, from the five named contents the region is entered at: on a column of
  the pipeline's range the body's result of the covering point's four input blocks — each block read off its array —,
  on every other column the array's contents at entry.
-/
import proofs.«210879_g80607946211848_cont_9to1_m_1212_13_alg».proof.Proof.KHreg
import proofs.«210879_g80607946211848_cont_9to1_m_1212_13_alg».proof.Proof.KConvValue

set_option maxRecDepth 16384

noncomputable section

namespace Cert.KernelIdeal.KP

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.SL Idealize.SL.Sem
open Idealize.ShloMosaic.SparseCore.Cfg (HIx)
open Idealize.ShloMosaic.Pipeline (Dat Cfg Window)

variable {F : FTy → Type} [FloatOps F]

/-! ## Pipeline 0 -/

section Out5

variable {d : Dev nD} (X0 : Buf (Elt F) ((T d : Thread nD τ).loc main_v0)) (Gq : Buf (Elt F) ((T d : Thread nD τ).loc main_v9))
  (Wt : Buf (Elt F) ((T d : Thread nD τ).loc main_v6)) (Bs : Buf (Elt F) ((T d : Thread nD τ).loc main_v7)) (A : Buf (Elt F) ((T d : Thread nD τ).loc main_v18))

theorem val5_0 : val5 d X0 Gq Wt Bs A main_v0 = X0 := valOf_0 ..
theorem val5_1 : val5 d X0 Gq Wt Bs A main_v9 = Gq := valOf_1 _ _ _ _ _ _ _ _ _ _ _ (by decide)
theorem val5_2 : val5 d X0 Gq Wt Bs A main_v6 = Wt := valOf_2 _ _ _ _ _ _ _ _ _ _ _ (by decide) (by decide)
theorem val5_3 : val5 d X0 Gq Wt Bs A main_v7 = Bs := valOf_3 _ _ _ _ _ _ _ _ _ _ _ (by decide) (by decide) (by decide)
theorem val5_4 : val5 d X0 Gq Wt Bs A main_v18 = A := valOf_4 _ _ _ _ _ _ _ _ _ _ _ (by decide) (by decide) (by decide) (by decide)

/-- Each input window's block at a point, read off the named contents. -/
theorem iblk5_val_0 (t : Fin cfg5.N) : iblk5 d (val5 d X0 Gq Wt Bs A) 0 t = ((cfg5.win 0).blk t).view.read (Elt F) X0 := by
  show ((cfg5.win 0).blk t).view.read (Elt F) (val5 d X0 Gq Wt Bs A main_v0) = _; rw [val5_0]
theorem iblk5_val_1 (t : Fin cfg5.N) : iblk5 d (val5 d X0 Gq Wt Bs A) 1 t = ((cfg5.win 1).blk t).view.read (Elt F) Gq := by
  show ((cfg5.win 1).blk t).view.read (Elt F) (val5 d X0 Gq Wt Bs A main_v9) = _; rw [val5_1]
theorem iblk5_val_2 (t : Fin cfg5.N) : iblk5 d (val5 d X0 Gq Wt Bs A) 2 t = ((cfg5.win 2).blk t).view.read (Elt F) Wt := by
  show ((cfg5.win 2).blk t).view.read (Elt F) (val5 d X0 Gq Wt Bs A main_v6) = _; rw [val5_2]
theorem iblk5_val_3 (t : Fin cfg5.N) : iblk5 d (val5 d X0 Gq Wt Bs A) 3 t = ((cfg5.win 3).blk t).view.read (Elt F) Bs := by
  show ((cfg5.win 3).blk t).view.read (Elt F) (val5 d X0 Gq Wt Bs A main_v7) = _; rw [val5_3]

/-- THE RESULT ARRAY of pipeline 0, index by index. -/
theorem Conv0_apply (i : S128x160000.Idx) :
    Conv0 X0 Gq Wt Bs A i =
      if 0 ≤ (i 1).val ∧ (i 1).val < 32000 then
        out5 (((cfg5.win 0).blk (ptOf5 (i 1).val)).view.read (Elt F) X0) (((cfg5.win 1).blk (ptOf5 (i 1).val)).view.read (Elt F) Gq)
          (((cfg5.win 2).blk (ptOf5 (i 1).val)).view.read (Elt F) Wt) (((cfg5.win 3).blk (ptOf5 (i 1).val)).view.read (Elt F) Bs)
          (ix2 (i 0) ⟨(i 1).val % 3200, Nat.mod_lt _ (by norm_num)⟩)
      else A i := by
  unfold Conv0
  rw [arrAt5_eq]
  unfold convG5
  rw [iblk5_val_0, iblk5_val_1, iblk5_val_2, iblk5_val_3]
  show (if _ then _ else val5 d X0 Gq Wt Bs A main_v18 i) = _
  rw [val5_4]

end Out5

/-! ## Pipeline 1 -/

section Out6

variable {d : Dev nD} (X0 : Buf (Elt F) ((T d : Thread nD τ).loc main_v0)) (Gq : Buf (Elt F) ((T d : Thread nD τ).loc main_v11))
  (Wt : Buf (Elt F) ((T d : Thread nD τ).loc main_v6)) (Bs : Buf (Elt F) ((T d : Thread nD τ).loc main_v7)) (A : Buf (Elt F) ((T d : Thread nD τ).loc main_v19))

theorem val6_0 : val6 d X0 Gq Wt Bs A main_v0 = X0 := valOf_0 ..
theorem val6_1 : val6 d X0 Gq Wt Bs A main_v11 = Gq := valOf_1 _ _ _ _ _ _ _ _ _ _ _ (by decide)
theorem val6_2 : val6 d X0 Gq Wt Bs A main_v6 = Wt := valOf_2 _ _ _ _ _ _ _ _ _ _ _ (by decide) (by decide)
theorem val6_3 : val6 d X0 Gq Wt Bs A main_v7 = Bs := valOf_3 _ _ _ _ _ _ _ _ _ _ _ (by decide) (by decide) (by decide)
theorem val6_4 : val6 d X0 Gq Wt Bs A main_v19 = A := valOf_4 _ _ _ _ _ _ _ _ _ _ _ (by decide) (by decide) (by decide) (by decide)

/-- Each input window's block at a point, read off the named contents. -/
theorem iblk6_val_0 (t : Fin cfg6.N) : iblk6 d (val6 d X0 Gq Wt Bs A) 0 t = ((cfg6.win 0).blk t).view.read (Elt F) X0 := by
  show ((cfg6.win 0).blk t).view.read (Elt F) (val6 d X0 Gq Wt Bs A main_v0) = _; rw [val6_0]
theorem iblk6_val_1 (t : Fin cfg6.N) : iblk6 d (val6 d X0 Gq Wt Bs A) 1 t = ((cfg6.win 1).blk t).view.read (Elt F) Gq := by
  show ((cfg6.win 1).blk t).view.read (Elt F) (val6 d X0 Gq Wt Bs A main_v11) = _; rw [val6_1]
theorem iblk6_val_2 (t : Fin cfg6.N) : iblk6 d (val6 d X0 Gq Wt Bs A) 2 t = ((cfg6.win 2).blk t).view.read (Elt F) Wt := by
  show ((cfg6.win 2).blk t).view.read (Elt F) (val6 d X0 Gq Wt Bs A main_v6) = _; rw [val6_2]
theorem iblk6_val_3 (t : Fin cfg6.N) : iblk6 d (val6 d X0 Gq Wt Bs A) 3 t = ((cfg6.win 3).blk t).view.read (Elt F) Bs := by
  show ((cfg6.win 3).blk t).view.read (Elt F) (val6 d X0 Gq Wt Bs A main_v7) = _; rw [val6_3]

/-- THE RESULT ARRAY of pipeline 1, index by index. -/
theorem Conv1_apply (i : S128x160000.Idx) :
    Conv1 X0 Gq Wt Bs A i =
      if 32000 ≤ (i 1).val ∧ (i 1).val < 64000 then
        out6 (((cfg6.win 0).blk (ptOf6 (i 1).val)).view.read (Elt F) X0) (((cfg6.win 1).blk (ptOf6 (i 1).val)).view.read (Elt F) Gq)
          (((cfg6.win 2).blk (ptOf6 (i 1).val)).view.read (Elt F) Wt) (((cfg6.win 3).blk (ptOf6 (i 1).val)).view.read (Elt F) Bs)
          (ix2 (i 0) ⟨(i 1).val % 3200, Nat.mod_lt _ (by norm_num)⟩)
      else A i := by
  unfold Conv1
  rw [arrAt6_eq]
  unfold convG6
  rw [iblk6_val_0, iblk6_val_1, iblk6_val_2, iblk6_val_3]
  show (if _ then _ else val6 d X0 Gq Wt Bs A main_v19 i) = _
  rw [val6_4]

end Out6

/-! ## Pipeline 2 -/

section Out7

variable {d : Dev nD} (X0 : Buf (Elt F) ((T d : Thread nD τ).loc main_v0)) (Gq : Buf (Elt F) ((T d : Thread nD τ).loc main_v13))
  (Wt : Buf (Elt F) ((T d : Thread nD τ).loc main_v6)) (Bs : Buf (Elt F) ((T d : Thread nD τ).loc main_v7)) (A : Buf (Elt F) ((T d : Thread nD τ).loc main_v20))

theorem val7_0 : val7 d X0 Gq Wt Bs A main_v0 = X0 := valOf_0 ..
theorem val7_1 : val7 d X0 Gq Wt Bs A main_v13 = Gq := valOf_1 _ _ _ _ _ _ _ _ _ _ _ (by decide)
theorem val7_2 : val7 d X0 Gq Wt Bs A main_v6 = Wt := valOf_2 _ _ _ _ _ _ _ _ _ _ _ (by decide) (by decide)
theorem val7_3 : val7 d X0 Gq Wt Bs A main_v7 = Bs := valOf_3 _ _ _ _ _ _ _ _ _ _ _ (by decide) (by decide) (by decide)
theorem val7_4 : val7 d X0 Gq Wt Bs A main_v20 = A := valOf_4 _ _ _ _ _ _ _ _ _ _ _ (by decide) (by decide) (by decide) (by decide)

/-- Each input window's block at a point, read off the named contents. -/
theorem iblk7_val_0 (t : Fin cfg7.N) : iblk7 d (val7 d X0 Gq Wt Bs A) 0 t = ((cfg7.win 0).blk t).view.read (Elt F) X0 := by
  show ((cfg7.win 0).blk t).view.read (Elt F) (val7 d X0 Gq Wt Bs A main_v0) = _; rw [val7_0]
theorem iblk7_val_1 (t : Fin cfg7.N) : iblk7 d (val7 d X0 Gq Wt Bs A) 1 t = ((cfg7.win 1).blk t).view.read (Elt F) Gq := by
  show ((cfg7.win 1).blk t).view.read (Elt F) (val7 d X0 Gq Wt Bs A main_v13) = _; rw [val7_1]
theorem iblk7_val_2 (t : Fin cfg7.N) : iblk7 d (val7 d X0 Gq Wt Bs A) 2 t = ((cfg7.win 2).blk t).view.read (Elt F) Wt := by
  show ((cfg7.win 2).blk t).view.read (Elt F) (val7 d X0 Gq Wt Bs A main_v6) = _; rw [val7_2]
theorem iblk7_val_3 (t : Fin cfg7.N) : iblk7 d (val7 d X0 Gq Wt Bs A) 3 t = ((cfg7.win 3).blk t).view.read (Elt F) Bs := by
  show ((cfg7.win 3).blk t).view.read (Elt F) (val7 d X0 Gq Wt Bs A main_v7) = _; rw [val7_3]

/-- THE RESULT ARRAY of pipeline 2, index by index. -/
theorem Conv2_apply (i : S128x160000.Idx) :
    Conv2 X0 Gq Wt Bs A i =
      if 64000 ≤ (i 1).val ∧ (i 1).val < 96000 then
        out7 (((cfg7.win 0).blk (ptOf7 (i 1).val)).view.read (Elt F) X0) (((cfg7.win 1).blk (ptOf7 (i 1).val)).view.read (Elt F) Gq)
          (((cfg7.win 2).blk (ptOf7 (i 1).val)).view.read (Elt F) Wt) (((cfg7.win 3).blk (ptOf7 (i 1).val)).view.read (Elt F) Bs)
          (ix2 (i 0) ⟨(i 1).val % 3200, Nat.mod_lt _ (by norm_num)⟩)
      else A i := by
  unfold Conv2
  rw [arrAt7_eq]
  unfold convG7
  rw [iblk7_val_0, iblk7_val_1, iblk7_val_2, iblk7_val_3]
  show (if _ then _ else val7 d X0 Gq Wt Bs A main_v20 i) = _
  rw [val7_4]

end Out7

/-! ## Pipeline 3 -/

section Out8

variable {d : Dev nD} (X0 : Buf (Elt F) ((T d : Thread nD τ).loc main_v0)) (Gq : Buf (Elt F) ((T d : Thread nD τ).loc main_v15))
  (Wt : Buf (Elt F) ((T d : Thread nD τ).loc main_v6)) (Bs : Buf (Elt F) ((T d : Thread nD τ).loc main_v7)) (A : Buf (Elt F) ((T d : Thread nD τ).loc main_v21))

theorem val8_0 : val8 d X0 Gq Wt Bs A main_v0 = X0 := valOf_0 ..
theorem val8_1 : val8 d X0 Gq Wt Bs A main_v15 = Gq := valOf_1 _ _ _ _ _ _ _ _ _ _ _ (by decide)
theorem val8_2 : val8 d X0 Gq Wt Bs A main_v6 = Wt := valOf_2 _ _ _ _ _ _ _ _ _ _ _ (by decide) (by decide)
theorem val8_3 : val8 d X0 Gq Wt Bs A main_v7 = Bs := valOf_3 _ _ _ _ _ _ _ _ _ _ _ (by decide) (by decide) (by decide)
theorem val8_4 : val8 d X0 Gq Wt Bs A main_v21 = A := valOf_4 _ _ _ _ _ _ _ _ _ _ _ (by decide) (by decide) (by decide) (by decide)

/-- Each input window's block at a point, read off the named contents. -/
theorem iblk8_val_0 (t : Fin cfg8.N) : iblk8 d (val8 d X0 Gq Wt Bs A) 0 t = ((cfg8.win 0).blk t).view.read (Elt F) X0 := by
  show ((cfg8.win 0).blk t).view.read (Elt F) (val8 d X0 Gq Wt Bs A main_v0) = _; rw [val8_0]
theorem iblk8_val_1 (t : Fin cfg8.N) : iblk8 d (val8 d X0 Gq Wt Bs A) 1 t = ((cfg8.win 1).blk t).view.read (Elt F) Gq := by
  show ((cfg8.win 1).blk t).view.read (Elt F) (val8 d X0 Gq Wt Bs A main_v15) = _; rw [val8_1]
theorem iblk8_val_2 (t : Fin cfg8.N) : iblk8 d (val8 d X0 Gq Wt Bs A) 2 t = ((cfg8.win 2).blk t).view.read (Elt F) Wt := by
  show ((cfg8.win 2).blk t).view.read (Elt F) (val8 d X0 Gq Wt Bs A main_v6) = _; rw [val8_2]
theorem iblk8_val_3 (t : Fin cfg8.N) : iblk8 d (val8 d X0 Gq Wt Bs A) 3 t = ((cfg8.win 3).blk t).view.read (Elt F) Bs := by
  show ((cfg8.win 3).blk t).view.read (Elt F) (val8 d X0 Gq Wt Bs A main_v7) = _; rw [val8_3]

/-- THE RESULT ARRAY of pipeline 3, index by index. -/
theorem Conv3_apply (i : S128x160000.Idx) :
    Conv3 X0 Gq Wt Bs A i =
      if 96000 ≤ (i 1).val ∧ (i 1).val < 128000 then
        out8 (((cfg8.win 0).blk (ptOf8 (i 1).val)).view.read (Elt F) X0) (((cfg8.win 1).blk (ptOf8 (i 1).val)).view.read (Elt F) Gq)
          (((cfg8.win 2).blk (ptOf8 (i 1).val)).view.read (Elt F) Wt) (((cfg8.win 3).blk (ptOf8 (i 1).val)).view.read (Elt F) Bs)
          (ix2 (i 0) ⟨(i 1).val % 3200, Nat.mod_lt _ (by norm_num)⟩)
      else A i := by
  unfold Conv3
  rw [arrAt8_eq]
  unfold convG8
  rw [iblk8_val_0, iblk8_val_1, iblk8_val_2, iblk8_val_3]
  show (if _ then _ else val8 d X0 Gq Wt Bs A main_v21 i) = _
  rw [val8_4]

end Out8

/-! ## Pipeline 4 -/

section Out9

variable {d : Dev nD} (X0 : Buf (Elt F) ((T d : Thread nD τ).loc main_v0)) (Gq : Buf (Elt F) ((T d : Thread nD τ).loc main_v17))
  (Wt : Buf (Elt F) ((T d : Thread nD τ).loc main_v6)) (Bs : Buf (Elt F) ((T d : Thread nD τ).loc main_v7)) (A : Buf (Elt F) ((T d : Thread nD τ).loc main_v22))

theorem val9_0 : val9 d X0 Gq Wt Bs A main_v0 = X0 := valOf_0 ..
theorem val9_1 : val9 d X0 Gq Wt Bs A main_v17 = Gq := valOf_1 _ _ _ _ _ _ _ _ _ _ _ (by decide)
theorem val9_2 : val9 d X0 Gq Wt Bs A main_v6 = Wt := valOf_2 _ _ _ _ _ _ _ _ _ _ _ (by decide) (by decide)
theorem val9_3 : val9 d X0 Gq Wt Bs A main_v7 = Bs := valOf_3 _ _ _ _ _ _ _ _ _ _ _ (by decide) (by decide) (by decide)
theorem val9_4 : val9 d X0 Gq Wt Bs A main_v22 = A := valOf_4 _ _ _ _ _ _ _ _ _ _ _ (by decide) (by decide) (by decide) (by decide)

/-- Each input window's block at a point, read off the named contents. -/
theorem iblk9_val_0 (t : Fin cfg9.N) : iblk9 d (val9 d X0 Gq Wt Bs A) 0 t = ((cfg9.win 0).blk t).view.read (Elt F) X0 := by
  show ((cfg9.win 0).blk t).view.read (Elt F) (val9 d X0 Gq Wt Bs A main_v0) = _; rw [val9_0]
theorem iblk9_val_1 (t : Fin cfg9.N) : iblk9 d (val9 d X0 Gq Wt Bs A) 1 t = ((cfg9.win 1).blk t).view.read (Elt F) Gq := by
  show ((cfg9.win 1).blk t).view.read (Elt F) (val9 d X0 Gq Wt Bs A main_v17) = _; rw [val9_1]
theorem iblk9_val_2 (t : Fin cfg9.N) : iblk9 d (val9 d X0 Gq Wt Bs A) 2 t = ((cfg9.win 2).blk t).view.read (Elt F) Wt := by
  show ((cfg9.win 2).blk t).view.read (Elt F) (val9 d X0 Gq Wt Bs A main_v6) = _; rw [val9_2]
theorem iblk9_val_3 (t : Fin cfg9.N) : iblk9 d (val9 d X0 Gq Wt Bs A) 3 t = ((cfg9.win 3).blk t).view.read (Elt F) Bs := by
  show ((cfg9.win 3).blk t).view.read (Elt F) (val9 d X0 Gq Wt Bs A main_v7) = _; rw [val9_3]

/-- THE RESULT ARRAY of pipeline 4, index by index. -/
theorem Conv4_apply (i : S128x160000.Idx) :
    Conv4 X0 Gq Wt Bs A i =
      if 128000 ≤ (i 1).val ∧ (i 1).val < 160000 then
        out9 (((cfg9.win 0).blk (ptOf9 (i 1).val)).view.read (Elt F) X0) (((cfg9.win 1).blk (ptOf9 (i 1).val)).view.read (Elt F) Gq)
          (((cfg9.win 2).blk (ptOf9 (i 1).val)).view.read (Elt F) Wt) (((cfg9.win 3).blk (ptOf9 (i 1).val)).view.read (Elt F) Bs)
          (ix2 (i 0) ⟨(i 1).val % 3200, Nat.mod_lt _ (by norm_num)⟩)
      else A i := by
  unfold Conv4
  rw [arrAt9_eq]
  unfold convG9
  rw [iblk9_val_0, iblk9_val_1, iblk9_val_2, iblk9_val_3]
  show (if _ then _ else val9 d X0 Gq Wt Bs A main_v22 i) = _
  rw [val9_4]

end Out9

end Cert.KernelIdeal.KP

end
-- ==== Proof.KConvIdeal.lean ====
/-
  The convolution body's result at the ideal values, index by index: the two matrix products read at an index as sums
  over the contracted channel, and the stored block at (output channel, column of the block) as the five contractions
  plus the bias.
-/
import proofs.«210879_g80607946211848_cont_9to1_m_1212_13_alg».proof.Proof.KConvBody
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KP

open Cert.KernelIdeal Cert.KernelIdeal.Gen
open Idealize.ShloMosaic Idealize.ShloMosaic.ValueIdx

/-! ## The two matrix products at an index -/

/-- `A · Bᵀ` (both operands contracted on their second axis) into a zero accumulator, at (o, e). -/
theorem mmT_apply (A : FVec Ideal S128x128 .f32) (Bm : FVec Ideal S3200x128 .f32) (o : Fin 128) (e : Fin 3200) :
    matmul dot_S128x128_S3200x128_S128x3200_1_1_0_0_n_n none A Bm (constant (F := Ideal) S128x3200 .f32 0x00000000#32) (ix2 o e)
      = ∑ c : Fin 128, A (ix2 o c) * Bm (ix2 e c) := by
  show FloatOps.matmul _ none A Bm _ (ix2 o e) = _
  rw [Ideal.matmul_constant_zero_apply, ← Equiv.sum_comp (contrEquiv1 dot_S128x128_S3200x128_S128x3200_1_1_0_0_n_n 128 rfl rfl).symm]
  refine Finset.sum_congr rfl fun c _ => ?_
  have c2 := contrEquiv1_symm_val dot_S128x128_S3200x128_S128x3200_1_1_0_0_n_n 128 rfl rfl c
  have l2 : dot_S128x128_S3200x128_S128x3200_1_1_0_0_n_n.lhsIdx (ix2 o e) ((contrEquiv1 _ 128 rfl rfl).symm c) = ix2 o c := by
    funext ax; apply Fin.ext
    match ax with
    | ⟨0, _⟩ => simp [DotDims.lhsIdx, dot_S128x128_S3200x128_S128x3200_1_1_0_0_n_n]; rfl
    | ⟨1, _⟩ => simp [DotDims.lhsIdx, dot_S128x128_S3200x128_S128x3200_1_1_0_0_n_n]; exact c2
  have r2 : dot_S128x128_S3200x128_S128x3200_1_1_0_0_n_n.rhsIdx (ix2 o e) ((contrEquiv1 _ 128 rfl rfl).symm c) = ix2 e c := by
    funext ax; apply Fin.ext
    match ax with
    | ⟨0, _⟩ => simp [DotDims.rhsIdx, dot_S128x128_S3200x128_S128x3200_1_1_0_0_n_n]; rfl
    | ⟨1, _⟩ => simp [DotDims.rhsIdx, dot_S128x128_S3200x128_S128x3200_1_1_0_0_n_n]; exact c2
  rw [l2, r2]

/-- `A · B` (the plain product) into a zero accumulator, at (o, e). -/
theorem mm_apply (A : FVec Ideal S128x128 .f32) (Bm : FVec Ideal S128x3200 .f32) (o : Fin 128) (e : Fin 3200) :
    matmul dot_S128x128_S128x3200_S128x3200_1_0_0_1_n_n none A Bm (constant (F := Ideal) S128x3200 .f32 0x00000000#32) (ix2 o e)
      = ∑ c : Fin 128, A (ix2 o c) * Bm (ix2 c e) := by
  show FloatOps.matmul _ none A Bm _ (ix2 o e) = _
  rw [Ideal.matmul_constant_zero_apply, ← Equiv.sum_comp (contrEquiv1 dot_S128x128_S128x3200_S128x3200_1_0_0_1_n_n 128 rfl rfl).symm]
  refine Finset.sum_congr rfl fun c _ => ?_
  have c2 := contrEquiv1_symm_val dot_S128x128_S128x3200_S128x3200_1_0_0_1_n_n 128 rfl rfl c
  have l2 : dot_S128x128_S128x3200_S128x3200_1_0_0_1_n_n.lhsIdx (ix2 o e) ((contrEquiv1 _ 128 rfl rfl).symm c) = ix2 o c := by
    funext ax; apply Fin.ext
    match ax with
    | ⟨0, _⟩ => simp [DotDims.lhsIdx, dot_S128x128_S128x3200_S128x3200_1_0_0_1_n_n]; rfl
    | ⟨1, _⟩ => simp [DotDims.lhsIdx, dot_S128x128_S128x3200_S128x3200_1_0_0_1_n_n]; exact c2
  have r2 : dot_S128x128_S128x3200_S128x3200_1_0_0_1_n_n.rhsIdx (ix2 o e) ((contrEquiv1 _ 128 rfl rfl).symm c) = ix2 c e := by
    funext ax; apply Fin.ext
    match ax with
    | ⟨0, _⟩ => simp [DotDims.rhsIdx, dot_S128x128_S128x3200_S128x3200_1_0_0_1_n_n]; exact c2
    | ⟨1, _⟩ => simp [DotDims.rhsIdx, dot_S128x128_S128x3200_S128x3200_1_0_0_1_n_n]; rfl
  rw [l2, r2]

/-! ## The stored block at an index -/

theorem hz2 : (![0, 0] : Fin 2 → Nat) = fun _ => 0 := funext fun a => by fin_cases a <;> rfl

/-- The convolution at output channel `o` and column `e` of a block, from the block of `x` (channel, column), the gathered
    block (neighbour, column, channel), the weights (feature, output channel, channel) and the bias (output channel, 0):
    the five contractions over the channel, the weight the left factor, added in order, then the bias. -/
def convF (x0 : FVec Ideal S128x3200 .f32) (x1 : FVec Ideal S4x3200x128 .f32) (x2 : FVec Ideal S5x128x128 .f32) (x3 : FVec Ideal S128x1 .f32)
    (o : Fin 128) (e : Fin 3200) : EReal :=
  ((((∑ c : Fin 128, x2 (ix3 (0 : Fin 5) o c) * x0 (ix2 c e)
    + ∑ c : Fin 128, x2 (ix3 (1 : Fin 5) o c) * (x1 (ix3 (0 : Fin 4) e c) + x1 (ix3 (2 : Fin 4) e c)))
    + ∑ c : Fin 128, x2 (ix3 (2 : Fin 5) o c) * (x1 (ix3 (1 : Fin 4) e c) + x1 (ix3 (3 : Fin 4) e c)))
    + ∑ c : Fin 128, x2 (ix3 (3 : Fin 5) o c) * max (x1 (ix3 (0 : Fin 4) e c) - x1 (ix3 (2 : Fin 4) e c)) (-(x1 (ix3 (0 : Fin 4) e c) - x1 (ix3 (2 : Fin 4) e c))))
    + ∑ c : Fin 128, x2 (ix3 (4 : Fin 5) o c) * max (x1 (ix3 (1 : Fin 4) e c) - x1 (ix3 (3 : Fin 4) e c)) (-(x1 (ix3 (1 : Fin 4) e c) - x1 (ix3 (3 : Fin 4) e c))))
    + x3 (ix2 o (0 : Fin 1))

/-! ## The loaded planes and the layout operations at an index -/

theorem absf_apply' {s : Shape} {φ : FTy} (a : FVec Ideal s φ) (i : s.Idx) : absf a i = max (a i) (-(a i)) := rfl

theorem scW0 (x2 : Vec Ideal S5x128x128 .f32) (o c : Fin 128) :
    shapeCast S128x128 (View.ld x2 rW0) shapeCasts_S1x128x128_S128x128 (ix2 o c) = x2 (ix3 (0 : Fin 5) o c) := by
  refine (shapeCast_1ab_ab_apply _ _ o c).trans ?_
  show x2 (rW0.idx (ix3 (0 : Fin 1) o c)) = _
  congr 1; funext a; apply Fin.ext
  match a with
  | ⟨0, _⟩ => rfl
  | ⟨1, _⟩ => show 0 + 1 * o.val = o.val; omega
  | ⟨2, _⟩ => show 0 + 1 * c.val = c.val; omega

theorem scW1 (x2 : Vec Ideal S5x128x128 .f32) (o c : Fin 128) :
    shapeCast S128x128 (View.ld x2 rW1) shapeCasts_S1x128x128_S128x128 (ix2 o c) = x2 (ix3 (1 : Fin 5) o c) := by
  refine (shapeCast_1ab_ab_apply _ _ o c).trans ?_
  show x2 (rW1.idx (ix3 (0 : Fin 1) o c)) = _
  congr 1; funext a; apply Fin.ext
  match a with
  | ⟨0, _⟩ => rfl
  | ⟨1, _⟩ => show 0 + 1 * o.val = o.val; omega
  | ⟨2, _⟩ => show 0 + 1 * c.val = c.val; omega

theorem scW2 (x2 : Vec Ideal S5x128x128 .f32) (o c : Fin 128) :
    shapeCast S128x128 (View.ld x2 rW2) shapeCasts_S1x128x128_S128x128 (ix2 o c) = x2 (ix3 (2 : Fin 5) o c) := by
  refine (shapeCast_1ab_ab_apply _ _ o c).trans ?_
  show x2 (rW2.idx (ix3 (0 : Fin 1) o c)) = _
  congr 1; funext a; apply Fin.ext
  match a with
  | ⟨0, _⟩ => rfl
  | ⟨1, _⟩ => show 0 + 1 * o.val = o.val; omega
  | ⟨2, _⟩ => show 0 + 1 * c.val = c.val; omega

theorem scW3 (x2 : Vec Ideal S5x128x128 .f32) (o c : Fin 128) :
    shapeCast S128x128 (View.ld x2 rW3) shapeCasts_S1x128x128_S128x128 (ix2 o c) = x2 (ix3 (3 : Fin 5) o c) := by
  refine (shapeCast_1ab_ab_apply _ _ o c).trans ?_
  show x2 (rW3.idx (ix3 (0 : Fin 1) o c)) = _
  congr 1; funext a; apply Fin.ext
  match a with
  | ⟨0, _⟩ => rfl
  | ⟨1, _⟩ => show 0 + 1 * o.val = o.val; omega
  | ⟨2, _⟩ => show 0 + 1 * c.val = c.val; omega

theorem scW4 (x2 : Vec Ideal S5x128x128 .f32) (o c : Fin 128) :
    shapeCast S128x128 (View.ld x2 rW4) shapeCasts_S1x128x128_S128x128 (ix2 o c) = x2 (ix3 (4 : Fin 5) o c) := by
  refine (shapeCast_1ab_ab_apply _ _ o c).trans ?_
  show x2 (rW4.idx (ix3 (0 : Fin 1) o c)) = _
  congr 1; funext a; apply Fin.ext
  match a with
  | ⟨0, _⟩ => rfl
  | ⟨1, _⟩ => show 0 + 1 * o.val = o.val; omega
  | ⟨2, _⟩ => show 0 + 1 * c.val = c.val; omega

theorem scG0 (x1 : Vec Ideal S4x3200x128 .f32) (e : Fin 3200) (c : Fin 128) :
    shapeCast S3200x128 (View.ld x1 rG0) shapeCasts_S1x3200x128_S3200x128 (ix2 e c) = x1 (ix3 (0 : Fin 4) e c) := by
  refine (shapeCast_1ab_ab_apply _ _ e c).trans ?_
  show x1 (rG0.idx (ix3 (0 : Fin 1) e c)) = _
  congr 1; funext a; apply Fin.ext
  match a with
  | ⟨0, _⟩ => rfl
  | ⟨1, _⟩ => show 0 + 1 * e.val = e.val; omega
  | ⟨2, _⟩ => show 0 + 1 * c.val = c.val; omega

theorem scG1 (x1 : Vec Ideal S4x3200x128 .f32) (e : Fin 3200) (c : Fin 128) :
    shapeCast S3200x128 (View.ld x1 rG1) shapeCasts_S1x3200x128_S3200x128 (ix2 e c) = x1 (ix3 (1 : Fin 4) e c) := by
  refine (shapeCast_1ab_ab_apply _ _ e c).trans ?_
  show x1 (rG1.idx (ix3 (0 : Fin 1) e c)) = _
  congr 1; funext a; apply Fin.ext
  match a with
  | ⟨0, _⟩ => rfl
  | ⟨1, _⟩ => show 0 + 1 * e.val = e.val; omega
  | ⟨2, _⟩ => show 0 + 1 * c.val = c.val; omega

theorem scG2 (x1 : Vec Ideal S4x3200x128 .f32) (e : Fin 3200) (c : Fin 128) :
    shapeCast S3200x128 (View.ld x1 rG2) shapeCasts_S1x3200x128_S3200x128 (ix2 e c) = x1 (ix3 (2 : Fin 4) e c) := by
  refine (shapeCast_1ab_ab_apply _ _ e c).trans ?_
  show x1 (rG2.idx (ix3 (0 : Fin 1) e c)) = _
  congr 1; funext a; apply Fin.ext
  match a with
  | ⟨0, _⟩ => rfl
  | ⟨1, _⟩ => show 0 + 1 * e.val = e.val; omega
  | ⟨2, _⟩ => show 0 + 1 * c.val = c.val; omega

theorem scG3 (x1 : Vec Ideal S4x3200x128 .f32) (e : Fin 3200) (c : Fin 128) :
    shapeCast S3200x128 (View.ld x1 rG3) shapeCasts_S1x3200x128_S3200x128 (ix2 e c) = x1 (ix3 (3 : Fin 4) e c) := by
  refine (shapeCast_1ab_ab_apply _ _ e c).trans ?_
  show x1 (rG3.idx (ix3 (0 : Fin 1) e c)) = _
  congr 1; funext a; apply Fin.ext
  match a with
  | ⟨0, _⟩ => rfl
  | ⟨1, _⟩ => show 0 + 1 * e.val = e.val; omega
  | ⟨2, _⟩ => show 0 + 1 * c.val = c.val; omega

theorem bcB (x3 : Vec Ideal S128x1 .f32) (o : Fin 128) (e : Fin 3200) :
    broadcastTo S128x3200 (shapeCast S128x1 x3 shapeCasts_S128x1_S128x1) broadcasts_S128x1_S128x3200 (ix2 o e) = x3 (ix2 o (0 : Fin 1)) := by
  rw [shapeCast_self]
  exact broadcastTo_apply x3 _ (ix2 o e) (ix2 o (0 : Fin 1)) fun a => by
    match a with
    | ⟨0, _⟩ => rfl
    | ⟨1, _⟩ => rfl

/-- Body 5's stored block at (output channel `o`, column `e` of the block), at the ideal values. -/
theorem out5_apply (x0 : FVec Ideal S128x3200 .f32) (x1 : FVec Ideal S4x3200x128 .f32) (x2 : FVec Ideal S5x128x128 .f32) (x3 : FVec Ideal S128x1 .f32)
    (o : Fin 128) (e : Fin 3200) : out5 (F := Ideal) x0 x1 x2 x3 (ix2 o e) = convF x0 x1 x2 x3 o e := by
  unfold out5
  rw [View.canon_unit_zero hz2]
  unfold k5_pay1 k5_pay4 k5_pay2 k5_pay3
  dsimp only
  rw [View.ld_unit_zero (S := S128x3200) hz2, View.ld_unit_zero (S := S128x1) hz2]
  rw [addf_apply, addf_apply, addf_apply, addf_apply, addf_apply, mm_apply, mmT_apply, mmT_apply, mmT_apply, mmT_apply, bcB]
  unfold convF
  refine congrArg₂ (· + ·) (congrArg₂ (· + ·) (congrArg₂ (· + ·) (congrArg₂ (· + ·) (congrArg₂ (· + ·) ?_ ?_) ?_) ?_) ?_) rfl
  all_goals refine Finset.sum_congr rfl fun c _ => ?_
  · exact congrArg₂ (· * ·) (scW0 x2 o c) (congrFun (shapeCast_self x0 _) (ix2 c e))
  · exact congrArg₂ (· * ·) (scW1 x2 o c) (congrArg₂ (· + ·) (scG0 x1 e c) (scG2 x1 e c))
  · exact congrArg₂ (· * ·) (scW2 x2 o c) (congrArg₂ (· + ·) (scG1 x1 e c) (scG3 x1 e c))
  · exact congrArg₂ (· * ·) (scW3 x2 o c) (congrArg₂ max (congrArg₂ (· - ·) (scG0 x1 e c) (scG2 x1 e c)) (congrArg Neg.neg (congrArg₂ (· - ·) (scG0 x1 e c) (scG2 x1 e c))))
  · exact congrArg₂ (· * ·) (scW4 x2 o c) (congrArg₂ max (congrArg₂ (· - ·) (scG1 x1 e c) (scG3 x1 e c)) (congrArg Neg.neg (congrArg₂ (· - ·) (scG1 x1 e c) (scG3 x1 e c))))

/-- Body 6's stored block at (output channel `o`, column `e` of the block), at the ideal values. -/
theorem out6_apply (x0 : FVec Ideal S128x3200 .f32) (x1 : FVec Ideal S4x3200x128 .f32) (x2 : FVec Ideal S5x128x128 .f32) (x3 : FVec Ideal S128x1 .f32)
    (o : Fin 128) (e : Fin 3200) : out6 (F := Ideal) x0 x1 x2 x3 (ix2 o e) = convF x0 x1 x2 x3 o e := by
  unfold out6
  rw [View.canon_unit_zero hz2]
  unfold k6_pay1 k6_pay4 k6_pay2 k6_pay3
  dsimp only
  rw [View.ld_unit_zero (S := S128x3200) hz2, View.ld_unit_zero (S := S128x1) hz2]
  rw [addf_apply, addf_apply, addf_apply, addf_apply, addf_apply, mm_apply, mmT_apply, mmT_apply, mmT_apply, mmT_apply, bcB]
  unfold convF
  refine congrArg₂ (· + ·) (congrArg₂ (· + ·) (congrArg₂ (· + ·) (congrArg₂ (· + ·) (congrArg₂ (· + ·) ?_ ?_) ?_) ?_) ?_) rfl
  all_goals refine Finset.sum_congr rfl fun c _ => ?_
  · exact congrArg₂ (· * ·) (scW0 x2 o c) (congrFun (shapeCast_self x0 _) (ix2 c e))
  · exact congrArg₂ (· * ·) (scW1 x2 o c) (congrArg₂ (· + ·) (scG0 x1 e c) (scG2 x1 e c))
  · exact congrArg₂ (· * ·) (scW2 x2 o c) (congrArg₂ (· + ·) (scG1 x1 e c) (scG3 x1 e c))
  · exact congrArg₂ (· * ·) (scW3 x2 o c) (congrArg₂ max (congrArg₂ (· - ·) (scG0 x1 e c) (scG2 x1 e c)) (congrArg Neg.neg (congrArg₂ (· - ·) (scG0 x1 e c) (scG2 x1 e c))))
  · exact congrArg₂ (· * ·) (scW4 x2 o c) (congrArg₂ max (congrArg₂ (· - ·) (scG1 x1 e c) (scG3 x1 e c)) (congrArg Neg.neg (congrArg₂ (· - ·) (scG1 x1 e c) (scG3 x1 e c))))

/-- Body 7's stored block at (output channel `o`, column `e` of the block), at the ideal values. -/
theorem out7_apply (x0 : FVec Ideal S128x3200 .f32) (x1 : FVec Ideal S4x3200x128 .f32) (x2 : FVec Ideal S5x128x128 .f32) (x3 : FVec Ideal S128x1 .f32)
    (o : Fin 128) (e : Fin 3200) : out7 (F := Ideal) x0 x1 x2 x3 (ix2 o e) = convF x0 x1 x2 x3 o e := by
  unfold out7
  rw [View.canon_unit_zero hz2]
  unfold k7_pay1 k7_pay4 k7_pay2 k7_pay3
  dsimp only
  rw [View.ld_unit_zero (S := S128x3200) hz2, View.ld_unit_zero (S := S128x1) hz2]
  rw [addf_apply, addf_apply, addf_apply, addf_apply, addf_apply, mm_apply, mmT_apply, mmT_apply, mmT_apply, mmT_apply, bcB]
  unfold convF
  refine congrArg₂ (· + ·) (congrArg₂ (· + ·) (congrArg₂ (· + ·) (congrArg₂ (· + ·) (congrArg₂ (· + ·) ?_ ?_) ?_) ?_) ?_) rfl
  all_goals refine Finset.sum_congr rfl fun c _ => ?_
  · exact congrArg₂ (· * ·) (scW0 x2 o c) (congrFun (shapeCast_self x0 _) (ix2 c e))
  · exact congrArg₂ (· * ·) (scW1 x2 o c) (congrArg₂ (· + ·) (scG0 x1 e c) (scG2 x1 e c))
  · exact congrArg₂ (· * ·) (scW2 x2 o c) (congrArg₂ (· + ·) (scG1 x1 e c) (scG3 x1 e c))
  · exact congrArg₂ (· * ·) (scW3 x2 o c) (congrArg₂ max (congrArg₂ (· - ·) (scG0 x1 e c) (scG2 x1 e c)) (congrArg Neg.neg (congrArg₂ (· - ·) (scG0 x1 e c) (scG2 x1 e c))))
  · exact congrArg₂ (· * ·) (scW4 x2 o c) (congrArg₂ max (congrArg₂ (· - ·) (scG1 x1 e c) (scG3 x1 e c)) (congrArg Neg.neg (congrArg₂ (· - ·) (scG1 x1 e c) (scG3 x1 e c))))

/-- Body 8's stored block at (output channel `o`, column `e` of the block), at the ideal values. -/
theorem out8_apply (x0 : FVec Ideal S128x3200 .f32) (x1 : FVec Ideal S4x3200x128 .f32) (x2 : FVec Ideal S5x128x128 .f32) (x3 : FVec Ideal S128x1 .f32)
    (o : Fin 128) (e : Fin 3200) : out8 (F := Ideal) x0 x1 x2 x3 (ix2 o e) = convF x0 x1 x2 x3 o e := by
  unfold out8
  rw [View.canon_unit_zero hz2]
  unfold k8_pay1 k8_pay4 k8_pay2 k8_pay3
  dsimp only
  rw [View.ld_unit_zero (S := S128x3200) hz2, View.ld_unit_zero (S := S128x1) hz2]
  rw [addf_apply, addf_apply, addf_apply, addf_apply, addf_apply, mm_apply, mmT_apply, mmT_apply, mmT_apply, mmT_apply, bcB]
  unfold convF
  refine congrArg₂ (· + ·) (congrArg₂ (· + ·) (congrArg₂ (· + ·) (congrArg₂ (· + ·) (congrArg₂ (· + ·) ?_ ?_) ?_) ?_) ?_) rfl
  all_goals refine Finset.sum_congr rfl fun c _ => ?_
  · exact congrArg₂ (· * ·) (scW0 x2 o c) (congrFun (shapeCast_self x0 _) (ix2 c e))
  · exact congrArg₂ (· * ·) (scW1 x2 o c) (congrArg₂ (· + ·) (scG0 x1 e c) (scG2 x1 e c))
  · exact congrArg₂ (· * ·) (scW2 x2 o c) (congrArg₂ (· + ·) (scG1 x1 e c) (scG3 x1 e c))
  · exact congrArg₂ (· * ·) (scW3 x2 o c) (congrArg₂ max (congrArg₂ (· - ·) (scG0 x1 e c) (scG2 x1 e c)) (congrArg Neg.neg (congrArg₂ (· - ·) (scG0 x1 e c) (scG2 x1 e c))))
  · exact congrArg₂ (· * ·) (scW4 x2 o c) (congrArg₂ max (congrArg₂ (· - ·) (scG1 x1 e c) (scG3 x1 e c)) (congrArg Neg.neg (congrArg₂ (· - ·) (scG1 x1 e c) (scG3 x1 e c))))

/-- Body 9's stored block at (output channel `o`, column `e` of the block), at the ideal values. -/
theorem out9_apply (x0 : FVec Ideal S128x3200 .f32) (x1 : FVec Ideal S4x3200x128 .f32) (x2 : FVec Ideal S5x128x128 .f32) (x3 : FVec Ideal S128x1 .f32)
    (o : Fin 128) (e : Fin 3200) : out9 (F := Ideal) x0 x1 x2 x3 (ix2 o e) = convF x0 x1 x2 x3 o e := by
  unfold out9
  rw [View.canon_unit_zero hz2]
  unfold k9_pay1 k9_pay4 k9_pay2 k9_pay3
  dsimp only
  rw [View.ld_unit_zero (S := S128x3200) hz2, View.ld_unit_zero (S := S128x1) hz2]
  rw [addf_apply, addf_apply, addf_apply, addf_apply, addf_apply, mm_apply, mmT_apply, mmT_apply, mmT_apply, mmT_apply, bcB]
  unfold convF
  refine congrArg₂ (· + ·) (congrArg₂ (· + ·) (congrArg₂ (· + ·) (congrArg₂ (· + ·) (congrArg₂ (· + ·) ?_ ?_) ?_) ?_) ?_) rfl
  all_goals refine Finset.sum_congr rfl fun c _ => ?_
  · exact congrArg₂ (· * ·) (scW0 x2 o c) (congrFun (shapeCast_self x0 _) (ix2 c e))
  · exact congrArg₂ (· * ·) (scW1 x2 o c) (congrArg₂ (· + ·) (scG0 x1 e c) (scG2 x1 e c))
  · exact congrArg₂ (· * ·) (scW2 x2 o c) (congrArg₂ (· + ·) (scG1 x1 e c) (scG3 x1 e c))
  · exact congrArg₂ (· * ·) (scW3 x2 o c) (congrArg₂ max (congrArg₂ (· - ·) (scG0 x1 e c) (scG2 x1 e c)) (congrArg Neg.neg (congrArg₂ (· - ·) (scG0 x1 e c) (scG2 x1 e c))))
  · exact congrArg₂ (· * ·) (scW4 x2 o c) (congrArg₂ max (congrArg₂ (· - ·) (scG1 x1 e c) (scG3 x1 e c)) (congrArg Neg.neg (congrArg₂ (· - ·) (scG1 x1 e c) (scG3 x1 e c))))

end Cert.KernelIdeal.KP

end
-- ==== Proof.KConvSpec.lean ====
/-
  Each pipeline's result array at the ideal values, at (output channel, edge) of the pipeline's column range, over the
  WHOLE arrays the region is entered at: the five contractions over the channel of the weights against the edge's own
  column of `x` and the four gathered neighbour rows (sums and absolute differences), plus the bias.
-/
import proofs.«210879_g80607946211848_cont_9to1_m_1212_13_alg».proof.Proof.KConvOut
import proofs.«210879_g80607946211848_cont_9to1_m_1212_13_alg».proof.Proof.KConvIdeal
import proofs.«210879_g80607946211848_cont_9to1_m_1212_13_alg».proof.Proof.KBridgeMath

set_option maxRecDepth 16384

noncomputable section

open scoped BigOperators

namespace Cert.KernelIdeal.KP

open Cert.KernelIdeal Cert.KernelIdeal.Gen
open Idealize.ShloMosaic Idealize.ShloMosaic.TcCoe Idealize.ShloMosaic.Tactic Idealize.ShloMosaic.ValueIdx
open Idealize.ShloMosaic.SparseCore (S V T)
open Idealize.SL Idealize.SL.Sem
open Idealize.ShloMosaic.SparseCore.Cfg (HIx)
open Idealize.ShloMosaic.Pipeline (Dat Cfg Window)

/-- The convolution at output channel `o` and edge `e`, whose gathered neighbour rows are row `r` of the four planes of
    `G`: over the whole arrays `X` (channel, edge), `G` (neighbour, row, channel), `W` (feature, output channel, channel)
    and `Bb` (output channel, 0). -/
def convAt (X : S128x160000.Idx → EReal) (G : S4x32000x128.Idx → EReal) (W : S5x128x128.Idx → EReal) (Bb : S128x1.Idx → EReal)
    (o : Fin 128) (e : Fin 160000) (r : Fin 32000) : EReal :=
  ((((∑ c : Fin 128, W (ix3 (0 : Fin 5) o c) * X (ix2 c e)
    + ∑ c : Fin 128, W (ix3 (1 : Fin 5) o c) * (G (ix3 (0 : Fin 4) r c) + G (ix3 (2 : Fin 4) r c)))
    + ∑ c : Fin 128, W (ix3 (2 : Fin 5) o c) * (G (ix3 (1 : Fin 4) r c) + G (ix3 (3 : Fin 4) r c)))
    + ∑ c : Fin 128, W (ix3 (3 : Fin 5) o c) * max (G (ix3 (0 : Fin 4) r c) - G (ix3 (2 : Fin 4) r c)) (-(G (ix3 (0 : Fin 4) r c) - G (ix3 (2 : Fin 4) r c))))
    + ∑ c : Fin 128, W (ix3 (4 : Fin 5) o c) * max (G (ix3 (1 : Fin 4) r c) - G (ix3 (3 : Fin 4) r c)) (-(G (ix3 (1 : Fin 4) r c) - G (ix3 (3 : Fin 4) r c))))
    + Bb (ix2 o (0 : Fin 1))

/-! ## Pipeline 0 -/

section Spec5

/-- The input windows' block indices at point `t` (decided over the grid). -/
theorem idx5_0 : ∀ t : Fin cfg5.N, win5_0.index t (0 : Fin 2) = 0 ∧ win5_0.index t (1 : Fin 2) = t.val + 0 :=
  (by decide +kernel : ∀ t : Fin grid5.N, _)
theorem idx5_1 : ∀ t : Fin cfg5.N, win5_1.index t (0 : Fin 3) = 0 ∧ win5_1.index t (1 : Fin 3) = t.val ∧ win5_1.index t (2 : Fin 3) = 0 :=
  (by decide +kernel : ∀ t : Fin grid5.N, _)
theorem idx5_2 : ∀ t : Fin cfg5.N, win5_2.index t (0 : Fin 3) = 0 ∧ win5_2.index t (1 : Fin 3) = 0 ∧ win5_2.index t (2 : Fin 3) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)

variable {d : Dev nD} (X0 : Buf (Elt Ideal) ((T d : Thread nD τ).loc main_v0)) (Gq : Buf (Elt Ideal) ((T d : Thread nD τ).loc main_v9))
  (Wt : Buf (Elt Ideal) ((T d : Thread nD τ).loc main_v6)) (Bs : Buf (Elt Ideal) ((T d : Thread nD τ).loc main_v7)) (A : Buf (Elt Ideal) ((T d : Thread nD τ).loc main_v18))

theorem ptOf5_val (e : Fin 160000) (h : 0 ≤ e.val ∧ e.val < 32000) : (ptOf5 e.val).val = (e.val - 0) / 3200 := by
  show ((e.val - 0) / 3200) % 10 = _; omega

/-- The `x` block of the point that covers edge `e`, at (channel, the edge's place in the block), is `x` at (channel, edge). -/
theorem rd5_0 (c : Fin 128) (e : Fin 160000) (h : 0 ≤ e.val ∧ e.val < 32000) :
    ((cfg5.win 0).blk (ptOf5 e.val)).view.read (Elt Ideal) X0 (ix2 c ⟨e.val % 3200, Nat.mod_lt _ (by norm_num)⟩) = X0 (ix2 c e) := by
  obtain ⟨i0, i1⟩ := idx5_0 (ptOf5 e.val)
  have ht := ptOf5_val e h
  show X0 (((cfg5.win 0).blk (ptOf5 e.val)).view.emb (ix2 c ⟨e.val % 3200, Nat.mod_lt _ (by norm_num)⟩)) = X0 (ix2 c e)
  congr 1; funext a; apply Fin.ext
  match a with
  | ⟨0, _⟩ => show win5_0.index (ptOf5 e.val) (0 : Fin 2) * 128 + 1 * c.val = c.val; rw [i0]; omega
  | ⟨1, _⟩ => show win5_0.index (ptOf5 e.val) (1 : Fin 2) * 3200 + 1 * (e.val % 3200) = e.val; rw [i1, ht]; omega

/-- The gathered block of that point, at (neighbour, the edge's place in the block, channel), is the gathered array at
    (neighbour, the edge's row among the pipeline's, channel). -/
theorem rd5_1 (j : Fin 4) (c : Fin 128) (e : Fin 160000) (h : 0 ≤ e.val ∧ e.val < 32000) :
    ((cfg5.win 1).blk (ptOf5 e.val)).view.read (Elt Ideal) Gq (ix3 j (⟨e.val % 3200, Nat.mod_lt _ (by norm_num)⟩ : Fin 3200) c)
      = Gq (ix3 j (⟨e.val - 0, by omega⟩ : Fin 32000) c) := by
  obtain ⟨i0, i1, i2⟩ := idx5_1 (ptOf5 e.val)
  have ht := ptOf5_val e h
  show Gq (((cfg5.win 1).blk (ptOf5 e.val)).view.emb (ix3 j (⟨e.val % 3200, Nat.mod_lt _ (by norm_num)⟩ : Fin 3200) c)) = _
  congr 1; funext a; apply Fin.ext
  match a with
  | ⟨0, _⟩ => show win5_1.index (ptOf5 e.val) (0 : Fin 3) * 4 + 1 * j.val = j.val; rw [i0]; omega
  | ⟨1, _⟩ => show win5_1.index (ptOf5 e.val) (1 : Fin 3) * 3200 + 1 * (e.val % 3200) = e.val - 0; rw [i1, ht]; omega
  | ⟨2, _⟩ => show win5_1.index (ptOf5 e.val) (2 : Fin 3) * 128 + 1 * c.val = c.val; rw [i2]; omega

/-- The weights' one block is the weights. -/
theorem rd5_2 (t : Fin cfg5.N) (kf : Fin 5) (o c : Fin 128) :
    ((cfg5.win 2).blk t).view.read (Elt Ideal) Wt (ix3 kf o c) = Wt (ix3 kf o c) := by
  obtain ⟨i0, i1, i2⟩ := idx5_2 t
  show Wt (((cfg5.win 2).blk t).view.emb (ix3 kf o c)) = _
  congr 1; funext a; apply Fin.ext
  match a with
  | ⟨0, _⟩ => show win5_2.index t (0 : Fin 3) * 5 + 1 * kf.val = kf.val; rw [i0]; omega
  | ⟨1, _⟩ => show win5_2.index t (1 : Fin 3) * 128 + 1 * o.val = o.val; rw [i1]; omega
  | ⟨2, _⟩ => show win5_2.index t (2 : Fin 3) * 128 + 1 * c.val = c.val; rw [i2]; omega

/-- The bias's one block is the bias. -/
theorem rd5_3 (t : Fin cfg5.N) (o : Fin 128) :
    ((cfg5.win 3).blk t).view.read (Elt Ideal) Bs (ix2 o (0 : Fin 1)) = Bs (ix2 o (0 : Fin 1)) := by
  obtain ⟨i0, i1⟩ := idx5_3 t
  show Bs (((cfg5.win 3).blk t).view.emb (ix2 o (0 : Fin 1))) = _
  congr 1; funext a; apply Fin.ext
  match a with
  | ⟨0, _⟩ => show win5_3.index t (0 : Fin 2) * 128 + 1 * o.val = o.val; rw [i0]; omega
  | ⟨1, _⟩ => show win5_3.index t (1 : Fin 2) * 1 + 1 * 0 = 0; rw [i1]

/-- THE RESULT of pipeline 0 at the ideal values, at output channel `o` and an edge `e` of its range. -/
theorem Conv0_ideal (o : Fin 128) (e : Fin 160000) (h : 0 ≤ e.val ∧ e.val < 32000) :
    Conv0 (F := Ideal) X0 Gq Wt Bs A (ix2 o e) = convAt X0 Gq Wt Bs o e ⟨e.val - 0, by omega⟩ := by
  rw [Conv0_apply, if_pos (show 0 ≤ ((ix2 o e : S128x160000.Idx) 1).val ∧ ((ix2 o e : S128x160000.Idx) 1).val < 32000 from h)]
  refine (out5_apply _ _ _ _ o ⟨e.val % 3200, Nat.mod_lt _ (by norm_num)⟩).trans ?_
  unfold convF convAt
  refine congrArg₂ (· + ·) (congrArg₂ (· + ·) (congrArg₂ (· + ·) (congrArg₂ (· + ·) (congrArg₂ (· + ·) ?_ ?_) ?_) ?_) ?_) (rd5_3 Bs _ o)
  all_goals refine Finset.sum_congr rfl fun c _ => ?_
  · exact congrArg₂ (· * ·) (rd5_2 Wt _ 0 o c) (rd5_0 X0 c e h)
  · exact congrArg₂ (· * ·) (rd5_2 Wt _ 1 o c) (congrArg₂ (· + ·) (rd5_1 Gq 0 c e h) (rd5_1 Gq 2 c e h))
  · exact congrArg₂ (· * ·) (rd5_2 Wt _ 2 o c) (congrArg₂ (· + ·) (rd5_1 Gq 1 c e h) (rd5_1 Gq 3 c e h))
  · exact congrArg₂ (· * ·) (rd5_2 Wt _ 3 o c) (congrArg₂ max (congrArg₂ (· - ·) (rd5_1 Gq 0 c e h) (rd5_1 Gq 2 c e h)) (congrArg Neg.neg (congrArg₂ (· - ·) (rd5_1 Gq 0 c e h) (rd5_1 Gq 2 c e h))))
  · exact congrArg₂ (· * ·) (rd5_2 Wt _ 4 o c) (congrArg₂ max (congrArg₂ (· - ·) (rd5_1 Gq 1 c e h) (rd5_1 Gq 3 c e h)) (congrArg Neg.neg (congrArg₂ (· - ·) (rd5_1 Gq 1 c e h) (rd5_1 Gq 3 c e h))))

/-- and on an edge outside its range the array keeps its contents at entry. -/
theorem Conv0_ideal_else (o : Fin 128) (e : Fin 160000) (h : ¬ (0 ≤ e.val ∧ e.val < 32000)) :
    Conv0 (F := Ideal) X0 Gq Wt Bs A (ix2 o e) = A (ix2 o e) := by
  rw [Conv0_apply, if_neg (show ¬ (0 ≤ ((ix2 o e : S128x160000.Idx) 1).val ∧ ((ix2 o e : S128x160000.Idx) 1).val < 32000) from h)]

/-- Both cases at once, the gathered row named by reduction modulo the 32000 rows of a gathered array. -/
theorem Conv0_ideal_ite (o : Fin 128) (e : Fin 160000) :
    Conv0 (F := Ideal) X0 Gq Wt Bs A (ix2 o e)
      = if 0 ≤ e.val ∧ e.val < 32000 then convAt X0 Gq Wt Bs o e ⟨e.val % 32000, Nat.mod_lt _ (by norm_num)⟩ else A (ix2 o e) := by
  split
  · rename_i h
    rw [Conv0_ideal X0 Gq Wt Bs A o e h]
    have hr : (⟨e.val - 0, by omega⟩ : Fin 32000) = ⟨e.val % 32000, Nat.mod_lt _ (by norm_num)⟩ := by
      rw [Fin.mk.injEq]; omega
    rw [hr]
  · rename_i h
    exact Conv0_ideal_else X0 Gq Wt Bs A o e h

end Spec5

/-! ## Pipeline 1 -/

section Spec6

/-- The input windows' block indices at point `t` (decided over the grid). -/
theorem idx6_0 : ∀ t : Fin cfg6.N, win6_0.index t (0 : Fin 2) = 0 ∧ win6_0.index t (1 : Fin 2) = t.val + 10 :=
  (by decide +kernel : ∀ t : Fin grid6.N, _)
theorem idx6_1 : ∀ t : Fin cfg6.N, win6_1.index t (0 : Fin 3) = 0 ∧ win6_1.index t (1 : Fin 3) = t.val ∧ win6_1.index t (2 : Fin 3) = 0 :=
  (by decide +kernel : ∀ t : Fin grid6.N, _)
theorem idx6_2 : ∀ t : Fin cfg6.N, win6_2.index t (0 : Fin 3) = 0 ∧ win6_2.index t (1 : Fin 3) = 0 ∧ win6_2.index t (2 : Fin 3) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)

variable {d : Dev nD} (X0 : Buf (Elt Ideal) ((T d : Thread nD τ).loc main_v0)) (Gq : Buf (Elt Ideal) ((T d : Thread nD τ).loc main_v11))
  (Wt : Buf (Elt Ideal) ((T d : Thread nD τ).loc main_v6)) (Bs : Buf (Elt Ideal) ((T d : Thread nD τ).loc main_v7)) (A : Buf (Elt Ideal) ((T d : Thread nD τ).loc main_v19))

theorem ptOf6_val (e : Fin 160000) (h : 32000 ≤ e.val ∧ e.val < 64000) : (ptOf6 e.val).val = (e.val - 32000) / 3200 := by
  show ((e.val - 32000) / 3200) % 10 = _; omega

/-- The `x` block of the point that covers edge `e`, at (channel, the edge's place in the block), is `x` at (channel, edge). -/
theorem rd6_0 (c : Fin 128) (e : Fin 160000) (h : 32000 ≤ e.val ∧ e.val < 64000) :
    ((cfg6.win 0).blk (ptOf6 e.val)).view.read (Elt Ideal) X0 (ix2 c ⟨e.val % 3200, Nat.mod_lt _ (by norm_num)⟩) = X0 (ix2 c e) := by
  obtain ⟨i0, i1⟩ := idx6_0 (ptOf6 e.val)
  have ht := ptOf6_val e h
  show X0 (((cfg6.win 0).blk (ptOf6 e.val)).view.emb (ix2 c ⟨e.val % 3200, Nat.mod_lt _ (by norm_num)⟩)) = X0 (ix2 c e)
  congr 1; funext a; apply Fin.ext
  match a with
  | ⟨0, _⟩ => show win6_0.index (ptOf6 e.val) (0 : Fin 2) * 128 + 1 * c.val = c.val; rw [i0]; omega
  | ⟨1, _⟩ => show win6_0.index (ptOf6 e.val) (1 : Fin 2) * 3200 + 1 * (e.val % 3200) = e.val; rw [i1, ht]; omega

/-- The gathered block of that point, at (neighbour, the edge's place in the block, channel), is the gathered array at
    (neighbour, the edge's row among the pipeline's, channel). -/
theorem rd6_1 (j : Fin 4) (c : Fin 128) (e : Fin 160000) (h : 32000 ≤ e.val ∧ e.val < 64000) :
    ((cfg6.win 1).blk (ptOf6 e.val)).view.read (Elt Ideal) Gq (ix3 j (⟨e.val % 3200, Nat.mod_lt _ (by norm_num)⟩ : Fin 3200) c)
      = Gq (ix3 j (⟨e.val - 32000, by omega⟩ : Fin 32000) c) := by
  obtain ⟨i0, i1, i2⟩ := idx6_1 (ptOf6 e.val)
  have ht := ptOf6_val e h
  show Gq (((cfg6.win 1).blk (ptOf6 e.val)).view.emb (ix3 j (⟨e.val % 3200, Nat.mod_lt _ (by norm_num)⟩ : Fin 3200) c)) = _
  congr 1; funext a; apply Fin.ext
  match a with
  | ⟨0, _⟩ => show win6_1.index (ptOf6 e.val) (0 : Fin 3) * 4 + 1 * j.val = j.val; rw [i0]; omega
  | ⟨1, _⟩ => show win6_1.index (ptOf6 e.val) (1 : Fin 3) * 3200 + 1 * (e.val % 3200) = e.val - 32000; rw [i1, ht]; omega
  | ⟨2, _⟩ => show win6_1.index (ptOf6 e.val) (2 : Fin 3) * 128 + 1 * c.val = c.val; rw [i2]; omega

/-- The weights' one block is the weights. -/
theorem rd6_2 (t : Fin cfg6.N) (kf : Fin 5) (o c : Fin 128) :
    ((cfg6.win 2).blk t).view.read (Elt Ideal) Wt (ix3 kf o c) = Wt (ix3 kf o c) := by
  obtain ⟨i0, i1, i2⟩ := idx6_2 t
  show Wt (((cfg6.win 2).blk t).view.emb (ix3 kf o c)) = _
  congr 1; funext a; apply Fin.ext
  match a with
  | ⟨0, _⟩ => show win6_2.index t (0 : Fin 3) * 5 + 1 * kf.val = kf.val; rw [i0]; omega
  | ⟨1, _⟩ => show win6_2.index t (1 : Fin 3) * 128 + 1 * o.val = o.val; rw [i1]; omega
  | ⟨2, _⟩ => show win6_2.index t (2 : Fin 3) * 128 + 1 * c.val = c.val; rw [i2]; omega

/-- The bias's one block is the bias. -/
theorem rd6_3 (t : Fin cfg6.N) (o : Fin 128) :
    ((cfg6.win 3).blk t).view.read (Elt Ideal) Bs (ix2 o (0 : Fin 1)) = Bs (ix2 o (0 : Fin 1)) := by
  obtain ⟨i0, i1⟩ := idx6_3 t
  show Bs (((cfg6.win 3).blk t).view.emb (ix2 o (0 : Fin 1))) = _
  congr 1; funext a; apply Fin.ext
  match a with
  | ⟨0, _⟩ => show win6_3.index t (0 : Fin 2) * 128 + 1 * o.val = o.val; rw [i0]; omega
  | ⟨1, _⟩ => show win6_3.index t (1 : Fin 2) * 1 + 1 * 0 = 0; rw [i1]

/-- THE RESULT of pipeline 1 at the ideal values, at output channel `o` and an edge `e` of its range. -/
theorem Conv1_ideal (o : Fin 128) (e : Fin 160000) (h : 32000 ≤ e.val ∧ e.val < 64000) :
    Conv1 (F := Ideal) X0 Gq Wt Bs A (ix2 o e) = convAt X0 Gq Wt Bs o e ⟨e.val - 32000, by omega⟩ := by
  rw [Conv1_apply, if_pos (show 32000 ≤ ((ix2 o e : S128x160000.Idx) 1).val ∧ ((ix2 o e : S128x160000.Idx) 1).val < 64000 from h)]
  refine (out6_apply _ _ _ _ o ⟨e.val % 3200, Nat.mod_lt _ (by norm_num)⟩).trans ?_
  unfold convF convAt
  refine congrArg₂ (· + ·) (congrArg₂ (· + ·) (congrArg₂ (· + ·) (congrArg₂ (· + ·) (congrArg₂ (· + ·) ?_ ?_) ?_) ?_) ?_) (rd6_3 Bs _ o)
  all_goals refine Finset.sum_congr rfl fun c _ => ?_
  · exact congrArg₂ (· * ·) (rd6_2 Wt _ 0 o c) (rd6_0 X0 c e h)
  · exact congrArg₂ (· * ·) (rd6_2 Wt _ 1 o c) (congrArg₂ (· + ·) (rd6_1 Gq 0 c e h) (rd6_1 Gq 2 c e h))
  · exact congrArg₂ (· * ·) (rd6_2 Wt _ 2 o c) (congrArg₂ (· + ·) (rd6_1 Gq 1 c e h) (rd6_1 Gq 3 c e h))
  · exact congrArg₂ (· * ·) (rd6_2 Wt _ 3 o c) (congrArg₂ max (congrArg₂ (· - ·) (rd6_1 Gq 0 c e h) (rd6_1 Gq 2 c e h)) (congrArg Neg.neg (congrArg₂ (· - ·) (rd6_1 Gq 0 c e h) (rd6_1 Gq 2 c e h))))
  · exact congrArg₂ (· * ·) (rd6_2 Wt _ 4 o c) (congrArg₂ max (congrArg₂ (· - ·) (rd6_1 Gq 1 c e h) (rd6_1 Gq 3 c e h)) (congrArg Neg.neg (congrArg₂ (· - ·) (rd6_1 Gq 1 c e h) (rd6_1 Gq 3 c e h))))

/-- and on an edge outside its range the array keeps its contents at entry. -/
theorem Conv1_ideal_else (o : Fin 128) (e : Fin 160000) (h : ¬ (32000 ≤ e.val ∧ e.val < 64000)) :
    Conv1 (F := Ideal) X0 Gq Wt Bs A (ix2 o e) = A (ix2 o e) := by
  rw [Conv1_apply, if_neg (show ¬ (32000 ≤ ((ix2 o e : S128x160000.Idx) 1).val ∧ ((ix2 o e : S128x160000.Idx) 1).val < 64000) from h)]

/-- Both cases at once, the gathered row named by reduction modulo the 32000 rows of a gathered array. -/
theorem Conv1_ideal_ite (o : Fin 128) (e : Fin 160000) :
    Conv1 (F := Ideal) X0 Gq Wt Bs A (ix2 o e)
      = if 32000 ≤ e.val ∧ e.val < 64000 then convAt X0 Gq Wt Bs o e ⟨e.val % 32000, Nat.mod_lt _ (by norm_num)⟩ else A (ix2 o e) := by
  split
  · rename_i h
    rw [Conv1_ideal X0 Gq Wt Bs A o e h]
    have hr : (⟨e.val - 32000, by omega⟩ : Fin 32000) = ⟨e.val % 32000, Nat.mod_lt _ (by norm_num)⟩ := by
      rw [Fin.mk.injEq]; omega
    rw [hr]
  · rename_i h
    exact Conv1_ideal_else X0 Gq Wt Bs A o e h

end Spec6

/-! ## Pipeline 2 -/

section Spec7

/-- The input windows' block indices at point `t` (decided over the grid). -/
theorem idx7_0 : ∀ t : Fin cfg7.N, win7_0.index t (0 : Fin 2) = 0 ∧ win7_0.index t (1 : Fin 2) = t.val + 20 :=
  (by decide +kernel : ∀ t : Fin grid7.N, _)
theorem idx7_1 : ∀ t : Fin cfg7.N, win7_1.index t (0 : Fin 3) = 0 ∧ win7_1.index t (1 : Fin 3) = t.val ∧ win7_1.index t (2 : Fin 3) = 0 :=
  (by decide +kernel : ∀ t : Fin grid7.N, _)
theorem idx7_2 : ∀ t : Fin cfg7.N, win7_2.index t (0 : Fin 3) = 0 ∧ win7_2.index t (1 : Fin 3) = 0 ∧ win7_2.index t (2 : Fin 3) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)

variable {d : Dev nD} (X0 : Buf (Elt Ideal) ((T d : Thread nD τ).loc main_v0)) (Gq : Buf (Elt Ideal) ((T d : Thread nD τ).loc main_v13))
  (Wt : Buf (Elt Ideal) ((T d : Thread nD τ).loc main_v6)) (Bs : Buf (Elt Ideal) ((T d : Thread nD τ).loc main_v7)) (A : Buf (Elt Ideal) ((T d : Thread nD τ).loc main_v20))

theorem ptOf7_val (e : Fin 160000) (h : 64000 ≤ e.val ∧ e.val < 96000) : (ptOf7 e.val).val = (e.val - 64000) / 3200 := by
  show ((e.val - 64000) / 3200) % 10 = _; omega

/-- The `x` block of the point that covers edge `e`, at (channel, the edge's place in the block), is `x` at (channel, edge). -/
theorem rd7_0 (c : Fin 128) (e : Fin 160000) (h : 64000 ≤ e.val ∧ e.val < 96000) :
    ((cfg7.win 0).blk (ptOf7 e.val)).view.read (Elt Ideal) X0 (ix2 c ⟨e.val % 3200, Nat.mod_lt _ (by norm_num)⟩) = X0 (ix2 c e) := by
  obtain ⟨i0, i1⟩ := idx7_0 (ptOf7 e.val)
  have ht := ptOf7_val e h
  show X0 (((cfg7.win 0).blk (ptOf7 e.val)).view.emb (ix2 c ⟨e.val % 3200, Nat.mod_lt _ (by norm_num)⟩)) = X0 (ix2 c e)
  congr 1; funext a; apply Fin.ext
  match a with
  | ⟨0, _⟩ => show win7_0.index (ptOf7 e.val) (0 : Fin 2) * 128 + 1 * c.val = c.val; rw [i0]; omega
  | ⟨1, _⟩ => show win7_0.index (ptOf7 e.val) (1 : Fin 2) * 3200 + 1 * (e.val % 3200) = e.val; rw [i1, ht]; omega

/-- The gathered block of that point, at (neighbour, the edge's place in the block, channel), is the gathered array at
    (neighbour, the edge's row among the pipeline's, channel). -/
theorem rd7_1 (j : Fin 4) (c : Fin 128) (e : Fin 160000) (h : 64000 ≤ e.val ∧ e.val < 96000) :
    ((cfg7.win 1).blk (ptOf7 e.val)).view.read (Elt Ideal) Gq (ix3 j (⟨e.val % 3200, Nat.mod_lt _ (by norm_num)⟩ : Fin 3200) c)
      = Gq (ix3 j (⟨e.val - 64000, by omega⟩ : Fin 32000) c) := by
  obtain ⟨i0, i1, i2⟩ := idx7_1 (ptOf7 e.val)
  have ht := ptOf7_val e h
  show Gq (((cfg7.win 1).blk (ptOf7 e.val)).view.emb (ix3 j (⟨e.val % 3200, Nat.mod_lt _ (by norm_num)⟩ : Fin 3200) c)) = _
  congr 1; funext a; apply Fin.ext
  match a with
  | ⟨0, _⟩ => show win7_1.index (ptOf7 e.val) (0 : Fin 3) * 4 + 1 * j.val = j.val; rw [i0]; omega
  | ⟨1, _⟩ => show win7_1.index (ptOf7 e.val) (1 : Fin 3) * 3200 + 1 * (e.val % 3200) = e.val - 64000; rw [i1, ht]; omega
  | ⟨2, _⟩ => show win7_1.index (ptOf7 e.val) (2 : Fin 3) * 128 + 1 * c.val = c.val; rw [i2]; omega

/-- The weights' one block is the weights. -/
theorem rd7_2 (t : Fin cfg7.N) (kf : Fin 5) (o c : Fin 128) :
    ((cfg7.win 2).blk t).view.read (Elt Ideal) Wt (ix3 kf o c) = Wt (ix3 kf o c) := by
  obtain ⟨i0, i1, i2⟩ := idx7_2 t
  show Wt (((cfg7.win 2).blk t).view.emb (ix3 kf o c)) = _
  congr 1; funext a; apply Fin.ext
  match a with
  | ⟨0, _⟩ => show win7_2.index t (0 : Fin 3) * 5 + 1 * kf.val = kf.val; rw [i0]; omega
  | ⟨1, _⟩ => show win7_2.index t (1 : Fin 3) * 128 + 1 * o.val = o.val; rw [i1]; omega
  | ⟨2, _⟩ => show win7_2.index t (2 : Fin 3) * 128 + 1 * c.val = c.val; rw [i2]; omega

/-- The bias's one block is the bias. -/
theorem rd7_3 (t : Fin cfg7.N) (o : Fin 128) :
    ((cfg7.win 3).blk t).view.read (Elt Ideal) Bs (ix2 o (0 : Fin 1)) = Bs (ix2 o (0 : Fin 1)) := by
  obtain ⟨i0, i1⟩ := idx7_3 t
  show Bs (((cfg7.win 3).blk t).view.emb (ix2 o (0 : Fin 1))) = _
  congr 1; funext a; apply Fin.ext
  match a with
  | ⟨0, _⟩ => show win7_3.index t (0 : Fin 2) * 128 + 1 * o.val = o.val; rw [i0]; omega
  | ⟨1, _⟩ => show win7_3.index t (1 : Fin 2) * 1 + 1 * 0 = 0; rw [i1]

/-- THE RESULT of pipeline 2 at the ideal values, at output channel `o` and an edge `e` of its range. -/
theorem Conv2_ideal (o : Fin 128) (e : Fin 160000) (h : 64000 ≤ e.val ∧ e.val < 96000) :
    Conv2 (F := Ideal) X0 Gq Wt Bs A (ix2 o e) = convAt X0 Gq Wt Bs o e ⟨e.val - 64000, by omega⟩ := by
  rw [Conv2_apply, if_pos (show 64000 ≤ ((ix2 o e : S128x160000.Idx) 1).val ∧ ((ix2 o e : S128x160000.Idx) 1).val < 96000 from h)]
  refine (out7_apply _ _ _ _ o ⟨e.val % 3200, Nat.mod_lt _ (by norm_num)⟩).trans ?_
  unfold convF convAt
  refine congrArg₂ (· + ·) (congrArg₂ (· + ·) (congrArg₂ (· + ·) (congrArg₂ (· + ·) (congrArg₂ (· + ·) ?_ ?_) ?_) ?_) ?_) (rd7_3 Bs _ o)
  all_goals refine Finset.sum_congr rfl fun c _ => ?_
  · exact congrArg₂ (· * ·) (rd7_2 Wt _ 0 o c) (rd7_0 X0 c e h)
  · exact congrArg₂ (· * ·) (rd7_2 Wt _ 1 o c) (congrArg₂ (· + ·) (rd7_1 Gq 0 c e h) (rd7_1 Gq 2 c e h))
  · exact congrArg₂ (· * ·) (rd7_2 Wt _ 2 o c) (congrArg₂ (· + ·) (rd7_1 Gq 1 c e h) (rd7_1 Gq 3 c e h))
  · exact congrArg₂ (· * ·) (rd7_2 Wt _ 3 o c) (congrArg₂ max (congrArg₂ (· - ·) (rd7_1 Gq 0 c e h) (rd7_1 Gq 2 c e h)) (congrArg Neg.neg (congrArg₂ (· - ·) (rd7_1 Gq 0 c e h) (rd7_1 Gq 2 c e h))))
  · exact congrArg₂ (· * ·) (rd7_2 Wt _ 4 o c) (congrArg₂ max (congrArg₂ (· - ·) (rd7_1 Gq 1 c e h) (rd7_1 Gq 3 c e h)) (congrArg Neg.neg (congrArg₂ (· - ·) (rd7_1 Gq 1 c e h) (rd7_1 Gq 3 c e h))))

/-- and on an edge outside its range the array keeps its contents at entry. -/
theorem Conv2_ideal_else (o : Fin 128) (e : Fin 160000) (h : ¬ (64000 ≤ e.val ∧ e.val < 96000)) :
    Conv2 (F := Ideal) X0 Gq Wt Bs A (ix2 o e) = A (ix2 o e) := by
  rw [Conv2_apply, if_neg (show ¬ (64000 ≤ ((ix2 o e : S128x160000.Idx) 1).val ∧ ((ix2 o e : S128x160000.Idx) 1).val < 96000) from h)]

/-- Both cases at once, the gathered row named by reduction modulo the 32000 rows of a gathered array. -/
theorem Conv2_ideal_ite (o : Fin 128) (e : Fin 160000) :
    Conv2 (F := Ideal) X0 Gq Wt Bs A (ix2 o e)
      = if 64000 ≤ e.val ∧ e.val < 96000 then convAt X0 Gq Wt Bs o e ⟨e.val % 32000, Nat.mod_lt _ (by norm_num)⟩ else A (ix2 o e) := by
  split
  · rename_i h
    rw [Conv2_ideal X0 Gq Wt Bs A o e h]
    have hr : (⟨e.val - 64000, by omega⟩ : Fin 32000) = ⟨e.val % 32000, Nat.mod_lt _ (by norm_num)⟩ := by
      rw [Fin.mk.injEq]; omega
    rw [hr]
  · rename_i h
    exact Conv2_ideal_else X0 Gq Wt Bs A o e h

end Spec7

/-! ## Pipeline 3 -/

section Spec8

/-- The input windows' block indices at point `t` (decided over the grid). -/
theorem idx8_0 : ∀ t : Fin cfg8.N, win8_0.index t (0 : Fin 2) = 0 ∧ win8_0.index t (1 : Fin 2) = t.val + 30 :=
  (by decide +kernel : ∀ t : Fin grid8.N, _)
theorem idx8_1 : ∀ t : Fin cfg8.N, win8_1.index t (0 : Fin 3) = 0 ∧ win8_1.index t (1 : Fin 3) = t.val ∧ win8_1.index t (2 : Fin 3) = 0 :=
  (by decide +kernel : ∀ t : Fin grid8.N, _)
theorem idx8_2 : ∀ t : Fin cfg8.N, win8_2.index t (0 : Fin 3) = 0 ∧ win8_2.index t (1 : Fin 3) = 0 ∧ win8_2.index t (2 : Fin 3) = 0 :=
  (by decide +kernel : ∀ t : Fin grid8.N, _)
theorem idx8_3 : ∀ t : Fin cfg8.N, win8_3.index t (0 : Fin 2) = 0 ∧ win8_3.index t (1 : Fin 2) = 0 :=
  (by decide +kernel : ∀ t : Fin grid8.N, _)

variable {d : Dev nD} (X0 : Buf (Elt Ideal) ((T d : Thread nD τ).loc main_v0)) (Gq : Buf (Elt Ideal) ((T d : Thread nD τ).loc main_v15))
  (Wt : Buf (Elt Ideal) ((T d : Thread nD τ).loc main_v6)) (Bs : Buf (Elt Ideal) ((T d : Thread nD τ).loc main_v7)) (A : Buf (Elt Ideal) ((T d : Thread nD τ).loc main_v21))

theorem ptOf8_val (e : Fin 160000) (h : 96000 ≤ e.val ∧ e.val < 128000) : (ptOf8 e.val).val = (e.val - 96000) / 3200 := by
  show ((e.val - 96000) / 3200) % 10 = _; omega

/-- The `x` block of the point that covers edge `e`, at (channel, the edge's place in the block), is `x` at (channel, edge). -/
theorem rd8_0 (c : Fin 128) (e : Fin 160000) (h : 96000 ≤ e.val ∧ e.val < 128000) :
    ((cfg8.win 0).blk (ptOf8 e.val)).view.read (Elt Ideal) X0 (ix2 c ⟨e.val % 3200, Nat.mod_lt _ (by norm_num)⟩) = X0 (ix2 c e) := by
  obtain ⟨i0, i1⟩ := idx8_0 (ptOf8 e.val)
  have ht := ptOf8_val e h
  show X0 (((cfg8.win 0).blk (ptOf8 e.val)).view.emb (ix2 c ⟨e.val % 3200, Nat.mod_lt _ (by norm_num)⟩)) = X0 (ix2 c e)
  congr 1; funext a; apply Fin.ext
  match a with
  | ⟨0, _⟩ => show win8_0.index (ptOf8 e.val) (0 : Fin 2) * 128 + 1 * c.val = c.val; rw [i0]; omega
  | ⟨1, _⟩ => show win8_0.index (ptOf8 e.val) (1 : Fin 2) * 3200 + 1 * (e.val % 3200) = e.val; rw [i1, ht]; omega

/-- The gathered block of that point, at (neighbour, the edge's place in the block, channel), is the gathered array at
    (neighbour, the edge's row among the pipeline's, channel). -/
theorem rd8_1 (j : Fin 4) (c : Fin 128) (e : Fin 160000) (h : 96000 ≤ e.val ∧ e.val < 128000) :
    ((cfg8.win 1).blk (ptOf8 e.val)).view.read (Elt Ideal) Gq (ix3 j (⟨e.val % 3200, Nat.mod_lt _ (by norm_num)⟩ : Fin 3200) c)
      = Gq (ix3 j (⟨e.val - 96000, by omega⟩ : Fin 32000) c) := by
  obtain ⟨i0, i1, i2⟩ := idx8_1 (ptOf8 e.val)
  have ht := ptOf8_val e h
  show Gq (((cfg8.win 1).blk (ptOf8 e.val)).view.emb (ix3 j (⟨e.val % 3200, Nat.mod_lt _ (by norm_num)⟩ : Fin 3200) c)) = _
  congr 1; funext a; apply Fin.ext
  match a with
  | ⟨0, _⟩ => show win8_1.index (ptOf8 e.val) (0 : Fin 3) * 4 + 1 * j.val = j.val; rw [i0]; omega
  | ⟨1, _⟩ => show win8_1.index (ptOf8 e.val) (1 : Fin 3) * 3200 + 1 * (e.val % 3200) = e.val - 96000; rw [i1, ht]; omega
  | ⟨2, _⟩ => show win8_1.index (ptOf8 e.val) (2 : Fin 3) * 128 + 1 * c.val = c.val; rw [i2]; omega

/-- The weights' one block is the weights. -/
theorem rd8_2 (t : Fin cfg8.N) (kf : Fin 5) (o c : Fin 128) :
    ((cfg8.win 2).blk t).view.read (Elt Ideal) Wt (ix3 kf o c) = Wt (ix3 kf o c) := by
  obtain ⟨i0, i1, i2⟩ := idx8_2 t
  show Wt (((cfg8.win 2).blk t).view.emb (ix3 kf o c)) = _
  congr 1; funext a; apply Fin.ext
  match a with
  | ⟨0, _⟩ => show win8_2.index t (0 : Fin 3) * 5 + 1 * kf.val = kf.val; rw [i0]; omega
  | ⟨1, _⟩ => show win8_2.index t (1 : Fin 3) * 128 + 1 * o.val = o.val; rw [i1]; omega
  | ⟨2, _⟩ => show win8_2.index t (2 : Fin 3) * 128 + 1 * c.val = c.val; rw [i2]; omega

/-- The bias's one block is the bias. -/
theorem rd8_3 (t : Fin cfg8.N) (o : Fin 128) :
    ((cfg8.win 3).blk t).view.read (Elt Ideal) Bs (ix2 o (0 : Fin 1)) = Bs (ix2 o (0 : Fin 1)) := by
  obtain ⟨i0, i1⟩ := idx8_3 t
  show Bs (((cfg8.win 3).blk t).view.emb (ix2 o (0 : Fin 1))) = _
  congr 1; funext a; apply Fin.ext
  match a with
  | ⟨0, _⟩ => show win8_3.index t (0 : Fin 2) * 128 + 1 * o.val = o.val; rw [i0]; omega
  | ⟨1, _⟩ => show win8_3.index t (1 : Fin 2) * 1 + 1 * 0 = 0; rw [i1]

/-- THE RESULT of pipeline 3 at the ideal values, at output channel `o` and an edge `e` of its range. -/
theorem Conv3_ideal (o : Fin 128) (e : Fin 160000) (h : 96000 ≤ e.val ∧ e.val < 128000) :
    Conv3 (F := Ideal) X0 Gq Wt Bs A (ix2 o e) = convAt X0 Gq Wt Bs o e ⟨e.val - 96000, by omega⟩ := by
  rw [Conv3_apply, if_pos (show 96000 ≤ ((ix2 o e : S128x160000.Idx) 1).val ∧ ((ix2 o e : S128x160000.Idx) 1).val < 128000 from h)]
  refine (out8_apply _ _ _ _ o ⟨e.val % 3200, Nat.mod_lt _ (by norm_num)⟩).trans ?_
  unfold convF convAt
  refine congrArg₂ (· + ·) (congrArg₂ (· + ·) (congrArg₂ (· + ·) (congrArg₂ (· + ·) (congrArg₂ (· + ·) ?_ ?_) ?_) ?_) ?_) (rd8_3 Bs _ o)
  all_goals refine Finset.sum_congr rfl fun c _ => ?_
  · exact congrArg₂ (· * ·) (rd8_2 Wt _ 0 o c) (rd8_0 X0 c e h)
  · exact congrArg₂ (· * ·) (rd8_2 Wt _ 1 o c) (congrArg₂ (· + ·) (rd8_1 Gq 0 c e h) (rd8_1 Gq 2 c e h))
  · exact congrArg₂ (· * ·) (rd8_2 Wt _ 2 o c) (congrArg₂ (· + ·) (rd8_1 Gq 1 c e h) (rd8_1 Gq 3 c e h))
  · exact congrArg₂ (· * ·) (rd8_2 Wt _ 3 o c) (congrArg₂ max (congrArg₂ (· - ·) (rd8_1 Gq 0 c e h) (rd8_1 Gq 2 c e h)) (congrArg Neg.neg (congrArg₂ (· - ·) (rd8_1 Gq 0 c e h) (rd8_1 Gq 2 c e h))))
  · exact congrArg₂ (· * ·) (rd8_2 Wt _ 4 o c) (congrArg₂ max (congrArg₂ (· - ·) (rd8_1 Gq 1 c e h) (rd8_1 Gq 3 c e h)) (congrArg Neg.neg (congrArg₂ (· - ·) (rd8_1 Gq 1 c e h) (rd8_1 Gq 3 c e h))))

/-- and on an edge outside its range the array keeps its contents at entry. -/
theorem Conv3_ideal_else (o : Fin 128) (e : Fin 160000) (h : ¬ (96000 ≤ e.val ∧ e.val < 128000)) :
    Conv3 (F := Ideal) X0 Gq Wt Bs A (ix2 o e) = A (ix2 o e) := by
  rw [Conv3_apply, if_neg (show ¬ (96000 ≤ ((ix2 o e : S128x160000.Idx) 1).val ∧ ((ix2 o e : S128x160000.Idx) 1).val < 128000) from h)]

/-- Both cases at once, the gathered row named by reduction modulo the 32000 rows of a gathered array. -/
theorem Conv3_ideal_ite (o : Fin 128) (e : Fin 160000) :
    Conv3 (F := Ideal) X0 Gq Wt Bs A (ix2 o e)
      = if 96000 ≤ e.val ∧ e.val < 128000 then convAt X0 Gq Wt Bs o e ⟨e.val % 32000, Nat.mod_lt _ (by norm_num)⟩ else A (ix2 o e) := by
  split
  · rename_i h
    rw [Conv3_ideal X0 Gq Wt Bs A o e h]
    have hr : (⟨e.val - 96000, by omega⟩ : Fin 32000) = ⟨e.val % 32000, Nat.mod_lt _ (by norm_num)⟩ := by
      rw [Fin.mk.injEq]; omega
    rw [hr]
  · rename_i h
    exact Conv3_ideal_else X0 Gq Wt Bs A o e h

end Spec8

/-! ## Pipeline 4 -/

section Spec9

/-- The input windows' block indices at point `t` (decided over the grid). -/
theorem idx9_0 : ∀ t : Fin cfg9.N, win9_0.index t (0 : Fin 2) = 0 ∧ win9_0.index t (1 : Fin 2) = t.val + 40 :=
  (by decide +kernel : ∀ t : Fin grid9.N, _)
theorem idx9_1 : ∀ t : Fin cfg9.N, win9_1.index t (0 : Fin 3) = 0 ∧ win9_1.index t (1 : Fin 3) = t.val ∧ win9_1.index t (2 : Fin 3) = 0 :=
  (by decide +kernel : ∀ t : Fin grid9.N, _)
theorem idx9_2 : ∀ t : Fin cfg9.N, win9_2.index t (0 : Fin 3) = 0 ∧ win9_2.index t (1 : Fin 3) = 0 ∧ win9_2.index t (2 : Fin 3) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)

variable {d : Dev nD} (X0 : Buf (Elt Ideal) ((T d : Thread nD τ).loc main_v0)) (Gq : Buf (Elt Ideal) ((T d : Thread nD τ).loc main_v17))
  (Wt : Buf (Elt Ideal) ((T d : Thread nD τ).loc main_v6)) (Bs : Buf (Elt Ideal) ((T d : Thread nD τ).loc main_v7)) (A : Buf (Elt Ideal) ((T d : Thread nD τ).loc main_v22))

theorem ptOf9_val (e : Fin 160000) (h : 128000 ≤ e.val ∧ e.val < 160000) : (ptOf9 e.val).val = (e.val - 128000) / 3200 := by
  show ((e.val - 128000) / 3200) % 10 = _; omega

/-- The `x` block of the point that covers edge `e`, at (channel, the edge's place in the block), is `x` at (channel, edge). -/
theorem rd9_0 (c : Fin 128) (e : Fin 160000) (h : 128000 ≤ e.val ∧ e.val < 160000) :
    ((cfg9.win 0).blk (ptOf9 e.val)).view.read (Elt Ideal) X0 (ix2 c ⟨e.val % 3200, Nat.mod_lt _ (by norm_num)⟩) = X0 (ix2 c e) := by
  obtain ⟨i0, i1⟩ := idx9_0 (ptOf9 e.val)
  have ht := ptOf9_val e h
  show X0 (((cfg9.win 0).blk (ptOf9 e.val)).view.emb (ix2 c ⟨e.val % 3200, Nat.mod_lt _ (by norm_num)⟩)) = X0 (ix2 c e)
  congr 1; funext a; apply Fin.ext
  match a with
  | ⟨0, _⟩ => show win9_0.index (ptOf9 e.val) (0 : Fin 2) * 128 + 1 * c.val = c.val; rw [i0]; omega
  | ⟨1, _⟩ => show win9_0.index (ptOf9 e.val) (1 : Fin 2) * 3200 + 1 * (e.val % 3200) = e.val; rw [i1, ht]; omega

/-- The gathered block of that point, at (neighbour, the edge's place in the block, channel), is the gathered array at
    (neighbour, the edge's row among the pipeline's, channel). -/
theorem rd9_1 (j : Fin 4) (c : Fin 128) (e : Fin 160000) (h : 128000 ≤ e.val ∧ e.val < 160000) :
    ((cfg9.win 1).blk (ptOf9 e.val)).view.read (Elt Ideal) Gq (ix3 j (⟨e.val % 3200, Nat.mod_lt _ (by norm_num)⟩ : Fin 3200) c)
      = Gq (ix3 j (⟨e.val - 128000, by omega⟩ : Fin 32000) c) := by
  obtain ⟨i0, i1, i2⟩ := idx9_1 (ptOf9 e.val)
  have ht := ptOf9_val e h
  show Gq (((cfg9.win 1).blk (ptOf9 e.val)).view.emb (ix3 j (⟨e.val % 3200, Nat.mod_lt _ (by norm_num)⟩ : Fin 3200) c)) = _
  congr 1; funext a; apply Fin.ext
  match a with
  | ⟨0, _⟩ => show win9_1.index (ptOf9 e.val) (0 : Fin 3) * 4 + 1 * j.val = j.val; rw [i0]; omega
  | ⟨1, _⟩ => show win9_1.index (ptOf9 e.val) (1 : Fin 3) * 3200 + 1 * (e.val % 3200) = e.val - 128000; rw [i1, ht]; omega
  | ⟨2, _⟩ => show win9_1.index (ptOf9 e.val) (2 : Fin 3) * 128 + 1 * c.val = c.val; rw [i2]; omega

/-- The weights' one block is the weights. -/
theorem rd9_2 (t : Fin cfg9.N) (kf : Fin 5) (o c : Fin 128) :
    ((cfg9.win 2).blk t).view.read (Elt Ideal) Wt (ix3 kf o c) = Wt (ix3 kf o c) := by
  obtain ⟨i0, i1, i2⟩ := idx9_2 t
  show Wt (((cfg9.win 2).blk t).view.emb (ix3 kf o c)) = _
  congr 1; funext a; apply Fin.ext
  match a with
  | ⟨0, _⟩ => show win9_2.index t (0 : Fin 3) * 5 + 1 * kf.val = kf.val; rw [i0]; omega
  | ⟨1, _⟩ => show win9_2.index t (1 : Fin 3) * 128 + 1 * o.val = o.val; rw [i1]; omega
  | ⟨2, _⟩ => show win9_2.index t (2 : Fin 3) * 128 + 1 * c.val = c.val; rw [i2]; omega

/-- The bias's one block is the bias. -/
theorem rd9_3 (t : Fin cfg9.N) (o : Fin 128) :
    ((cfg9.win 3).blk t).view.read (Elt Ideal) Bs (ix2 o (0 : Fin 1)) = Bs (ix2 o (0 : Fin 1)) := by
  obtain ⟨i0, i1⟩ := idx9_3 t
  show Bs (((cfg9.win 3).blk t).view.emb (ix2 o (0 : Fin 1))) = _
  congr 1; funext a; apply Fin.ext
  match a with
  | ⟨0, _⟩ => show win9_3.index t (0 : Fin 2) * 128 + 1 * o.val = o.val; rw [i0]; omega
  | ⟨1, _⟩ => show win9_3.index t (1 : Fin 2) * 1 + 1 * 0 = 0; rw [i1]

/-- THE RESULT of pipeline 4 at the ideal values, at output channel `o` and an edge `e` of its range. -/
theorem Conv4_ideal (o : Fin 128) (e : Fin 160000) (h : 128000 ≤ e.val ∧ e.val < 160000) :
    Conv4 (F := Ideal) X0 Gq Wt Bs A (ix2 o e) = convAt X0 Gq Wt Bs o e ⟨e.val - 128000, by omega⟩ := by
  rw [Conv4_apply, if_pos (show 128000 ≤ ((ix2 o e : S128x160000.Idx) 1).val ∧ ((ix2 o e : S128x160000.Idx) 1).val < 160000 from h)]
  refine (out9_apply _ _ _ _ o ⟨e.val % 3200, Nat.mod_lt _ (by norm_num)⟩).trans ?_
  unfold convF convAt
  refine congrArg₂ (· + ·) (congrArg₂ (· + ·) (congrArg₂ (· + ·) (congrArg₂ (· + ·) (congrArg₂ (· + ·) ?_ ?_) ?_) ?_) ?_) (rd9_3 Bs _ o)
  all_goals refine Finset.sum_congr rfl fun c _ => ?_
  · exact congrArg₂ (· * ·) (rd9_2 Wt _ 0 o c) (rd9_0 X0 c e h)
  · exact congrArg₂ (· * ·) (rd9_2 Wt _ 1 o c) (congrArg₂ (· + ·) (rd9_1 Gq 0 c e h) (rd9_1 Gq 2 c e h))
  · exact congrArg₂ (· * ·) (rd9_2 Wt _ 2 o c) (congrArg₂ (· + ·) (rd9_1 Gq 1 c e h) (rd9_1 Gq 3 c e h))
  · exact congrArg₂ (· * ·) (rd9_2 Wt _ 3 o c) (congrArg₂ max (congrArg₂ (· - ·) (rd9_1 Gq 0 c e h) (rd9_1 Gq 2 c e h)) (congrArg Neg.neg (congrArg₂ (· - ·) (rd9_1 Gq 0 c e h) (rd9_1 Gq 2 c e h))))
  · exact congrArg₂ (· * ·) (rd9_2 Wt _ 4 o c) (congrArg₂ max (congrArg₂ (· - ·) (rd9_1 Gq 1 c e h) (rd9_1 Gq 3 c e h)) (congrArg Neg.neg (congrArg₂ (· - ·) (rd9_1 Gq 1 c e h) (rd9_1 Gq 3 c e h))))

/-- and on an edge outside its range the array keeps its contents at entry. -/
theorem Conv4_ideal_else (o : Fin 128) (e : Fin 160000) (h : ¬ (128000 ≤ e.val ∧ e.val < 160000)) :
    Conv4 (F := Ideal) X0 Gq Wt Bs A (ix2 o e) = A (ix2 o e) := by
  rw [Conv4_apply, if_neg (show ¬ (128000 ≤ ((ix2 o e : S128x160000.Idx) 1).val ∧ ((ix2 o e : S128x160000.Idx) 1).val < 160000) from h)]

/-- Both cases at once, the gathered row named by reduction modulo the 32000 rows of a gathered array. -/
theorem Conv4_ideal_ite (o : Fin 128) (e : Fin 160000) :
    Conv4 (F := Ideal) X0 Gq Wt Bs A (ix2 o e)
      = if 128000 ≤ e.val ∧ e.val < 160000 then convAt X0 Gq Wt Bs o e ⟨e.val % 32000, Nat.mod_lt _ (by norm_num)⟩ else A (ix2 o e) := by
  split
  · rename_i h
    rw [Conv4_ideal X0 Gq Wt Bs A o e h]
    have hr : (⟨e.val - 128000, by omega⟩ : Fin 32000) = ⟨e.val % 32000, Nat.mod_lt _ (by norm_num)⟩ := by
      rw [Fin.mk.injEq]; omega
    rw [hr]
  · rename_i h
    exact Conv4_ideal_else X0 Gq Wt Bs A o e h

end Spec9

/-! ## Each pipeline as an update of the output matrix -/

section Updates

variable {d : Dev nD}

/-- Pipeline 0 overwrites columns [0, 32000) with the convolution of its operands and keeps the others. -/
theorem conv0_isUpd : Cert.Bridge.IsUpd (Conv0 (F := Ideal) (d := d)) 0 32000 :=
  fun X0 Gq Wt Bs A o e => Conv0_ideal_ite X0 Gq Wt Bs A o e

/-- Pipeline 1 overwrites columns [32000, 64000) with the convolution of its operands and keeps the others. -/
theorem conv1_isUpd : Cert.Bridge.IsUpd (Conv1 (F := Ideal) (d := d)) 32000 64000 :=
  fun X0 Gq Wt Bs A o e => Conv1_ideal_ite X0 Gq Wt Bs A o e

/-- Pipeline 2 overwrites columns [64000, 96000) with the convolution of its operands and keeps the others. -/
theorem conv2_isUpd : Cert.Bridge.IsUpd (Conv2 (F := Ideal) (d := d)) 64000 96000 :=
  fun X0 Gq Wt Bs A o e => Conv2_ideal_ite X0 Gq Wt Bs A o e

/-- Pipeline 3 overwrites columns [96000, 128000) with the convolution of its operands and keeps the others. -/
theorem conv3_isUpd : Cert.Bridge.IsUpd (Conv3 (F := Ideal) (d := d)) 96000 128000 :=
  fun X0 Gq Wt Bs A o e => Conv3_ideal_ite X0 Gq Wt Bs A o e

/-- Pipeline 4 overwrites columns [128000, 160000) with the convolution of its operands and keeps the others. -/
theorem conv4_isUpd : Cert.Bridge.IsUpd (Conv4 (F := Ideal) (d := d)) 128000 160000 :=
  fun X0 Gq Wt Bs A o e => Conv4_ideal_ite X0 Gq Wt Bs A o e

end Updates

end Cert.KernelIdeal.KP

end
-- ==== Proof.lean ====
/- The proof of `Cert.Claim`: the three frames, the trivial preservation (the ideal pass rewrote nothing), and the
   algebraic claim — the idealized kernel's result and the idealized reference's are the same function of the four
   arguments.  `claim_of` takes the five tile bodies' theorems at both instances; `claim` supplies them. -/
import proofs.«210879_g80607946211848_cont_9to1_m_1212_13_alg».proof.Defs
import proofs.«210879_g80607946211848_cont_9to1_m_1212_13_alg».proof.Proof.Gen.Kernel
import proofs.«210879_g80607946211848_cont_9to1_m_1212_13_alg».proof.Proof.Gen.Kernel.Skeleton
import proofs.«210879_g80607946211848_cont_9to1_m_1212_13_alg».proof.Proof.Gen.Kernel.Launch
import proofs.«210879_g80607946211848_cont_9to1_m_1212_13_alg».proof.Proof.Gen.Kernel.Regions
import proofs.«210879_g80607946211848_cont_9to1_m_1212_13_alg».proof.Proof.Gen.Kernel.Points
import proofs.«210879_g80607946211848_cont_9to1_m_1212_13_alg».proof.Proof.Gen.KernelIdeal
import proofs.«210879_g80607946211848_cont_9to1_m_1212_13_alg».proof.Proof.Gen.KernelIdeal.Skeleton
import proofs.«210879_g80607946211848_cont_9to1_m_1212_13_alg».proof.Proof.Gen.KernelIdeal.Launch
import proofs.«210879_g80607946211848_cont_9to1_m_1212_13_alg».proof.Proof.Gen.KernelIdeal.Regions
import proofs.«210879_g80607946211848_cont_9to1_m_1212_13_alg».proof.Proof.Gen.KernelIdeal.Points
import proofs.«210879_g80607946211848_cont_9to1_m_1212_13_alg».proof.Proof.Gen.ReferenceIdeal
import proofs.«210879_g80607946211848_cont_9to1_m_1212_13_alg».proof.Proof.Gen.Pre_input_domain
import proofs.«210879_g80607946211848_cont_9to1_m_1212_13_alg».proof.Proof.KFinal
import proofs.«210879_g80607946211848_cont_9to1_m_1212_13_alg».proof.Proof.KFinalB
import proofs.«210879_g80607946211848_cont_9to1_m_1212_13_alg».proof.Proof.TileLoop0
import proofs.«210879_g80607946211848_cont_9to1_m_1212_13_alg».proof.Proof.TileLoop0B
import proofs.«210879_g80607946211848_cont_9to1_m_1212_13_alg».proof.Proof.TileLoop1
import proofs.«210879_g80607946211848_cont_9to1_m_1212_13_alg».proof.Proof.TileLoop1B
import proofs.«210879_g80607946211848_cont_9to1_m_1212_13_alg».proof.Proof.TileLoop2
import proofs.«210879_g80607946211848_cont_9to1_m_1212_13_alg».proof.Proof.TileLoop2B
import proofs.«210879_g80607946211848_cont_9to1_m_1212_13_alg».proof.Proof.TileLoop3
import proofs.«210879_g80607946211848_cont_9to1_m_1212_13_alg».proof.Proof.TileLoop3B
import proofs.«210879_g80607946211848_cont_9to1_m_1212_13_alg».proof.Proof.TileLoop4
import proofs.«210879_g80607946211848_cont_9to1_m_1212_13_alg».proof.Proof.TileLoop4B
import proofs.«210879_g80607946211848_cont_9to1_m_1212_13_alg».proof.Proof.RefClaims
import proofs.«210879_g80607946211848_cont_9to1_m_1212_13_alg».proof.Proof.Spec
import proofs.«210879_g80607946211848_cont_9to1_m_1212_13_alg».proof.Proof.KBridge
import proofs.«210879_g80607946211848_cont_9to1_m_1212_13_alg».proof.Proof.KConvSpec
import Idealize.ShloMosaic.Adequacy
import Idealize.ShloMosaic.Init

noncomputable section

namespace Cert.Proof

open Idealize.ShloMosaic Idealize.ShloMosaic.TcCoe Idealize.SL.Sem

/-- The specification of the result at the kernel's launch memory on device `c`. -/
abbrev specAt (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v23) :=
  Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))

/-- The kernel's composed term is the specification of the arguments: each region updates its fifth of the columns. -/
theorem bridge (m : (ℓ : Loc Cert.KernelIdeal.nD Cert.KernelIdeal.τ Cert.KernelIdeal.sig) → Buf (Elt Ideal) ℓ) (c : Dev Cert.KernelIdeal.nD) :
    Cert.KernelIdeal.KP.KOutOf m c = specAt m c :=
  Cert.KernelIdeal.KP.kout_eq_spec m (Cert.KernelIdeal.KP.regionsOf (Cert.KernelIdeal.KP.P m)) c
    (Cert.KernelIdeal.KP.conv0_isUpd (d := c)) (Cert.KernelIdeal.KP.conv1_isUpd (d := c)) (Cert.KernelIdeal.KP.conv2_isUpd (d := c))
    (Cert.KernelIdeal.KP.conv3_isUpd (d := c)) (Cert.KernelIdeal.KP.conv4_isUpd (d := c))

/-- The algebraic claim, from the five tile bodies' theorems and the bridge: the kernel's composed term is the
    specification of the arguments. -/
theorem algebraic_of
    (hb0 : Cert.KernelIdeal.KP.TileBody0 (F := Ideal)) (hb1 : Cert.KernelIdeal.KP.TileBody1 (F := Ideal)) (hb2 : Cert.KernelIdeal.KP.TileBody2 (F := Ideal))
    (hb3 : Cert.KernelIdeal.KP.TileBody3 (F := Ideal)) (hb4 : Cert.KernelIdeal.KP.TileBody4 (F := Ideal)) :
    Cert.algebraic_KernelIdeal_ReferenceIdeal := by
  intro m g m' g' hpre hagree
  refine ⟨fun c => specAt m c, ?_, ?_⟩
  · have h := Cert.KernelIdeal.KP.iv_range_all (F := Ideal) m hpre
    refine (θ_run Cert.KernelIdeal.defs _ _).mono (fun r hr c => ?_)
      (Cert.KernelIdeal.KP.run_all (F := Ideal) m g hb0 hb1 hb2 hb3 hb4 h.1 h.2.1 h.2.2.1 h.2.2.2.1 h.2.2.2.2)
    obtain ⟨h23, h0, h1, h2, h3⟩ := hr c
    exact ⟨h23.trans (bridge m c), h0, h1, h2, h3⟩
  · have hpre' : Cert.Pre_ReferenceIdeal m' := fun c => by
      rw [(hagree c).1, (hagree c).2.1, (hagree c).2.2.1, (hagree c).2.2.2]; exact hpre c
    refine (θ_run Cert.ReferenceIdeal.defs _ _).mono (fun r hr c => ?_) (Cert.ReferenceIdeal.RefClaims.run_spec m' g' hpre')
    obtain ⟨h55, h0, h1, h2, h3⟩ := hr c
    refine ⟨?_, h0, h1, h2, h3⟩
    rw [h55, (hagree c).1, (hagree c).2.1, (hagree c).2.2.1, (hagree c).2.2.2]

/-- `Cert.Claim` from the tile bodies' theorems at both instances. -/
theorem claim_of
    (hb0 : Cert.KernelIdeal.KP.TileBody0 (F := Ideal)) (hb1 : Cert.KernelIdeal.KP.TileBody1 (F := Ideal)) (hb2 : Cert.KernelIdeal.KP.TileBody2 (F := Ideal))
    (hb3 : Cert.KernelIdeal.KP.TileBody3 (F := Ideal)) (hb4 : Cert.KernelIdeal.KP.TileBody4 (F := Ideal))
    (hb0B : Cert.Kernel.KP.TileBody0 (F := Bits)) (hb1B : Cert.Kernel.KP.TileBody1 (F := Bits)) (hb2B : Cert.Kernel.KP.TileBody2 (F := Bits))
    (hb3B : Cert.Kernel.KP.TileBody3 (F := Bits)) (hb4B : Cert.Kernel.KP.TileBody4 (F := Bits)) :
    Cert.Claim :=
  ⟨Cert.Kernel.Gen.facts, Cert.KernelIdeal.Gen.facts, Cert.ReferenceIdeal.Gen.facts, Cert.Pre_input_domain.Gen.facts,
    Cert.Kernel.KP.frame_Kernel_all hb0B hb1B hb2B hb3B hb4B,
    Cert.KernelIdeal.KP.frame_KernelIdeal_all hb0 hb1 hb2 hb3 hb4,
    Cert.ReferenceIdeal.RefClaims.frame_ri,
    trivial,
    algebraic_of hb0 hb1 hb2 hb3 hb4⟩

/-- `Cert.Claim`. -/
theorem claim : Cert.Claim :=
  claim_of
    (fun hF d L X I G hin O W hO => Cert.KernelIdeal.KP.tile_body0 hF d L X I G hin O W hO)
    (fun hF d L X I G hin O W hO => Cert.KernelIdeal.KP.tile_body1 hF d L X I G hin O W hO)
    (fun hF d L X I G hin O W hO => Cert.KernelIdeal.KP.tile_body2 hF d L X I G hin O W hO)
    (fun hF d L X I G hin O W hO => Cert.KernelIdeal.KP.tile_body3 hF d L X I G hin O W hO)
    (fun hF d L X I G hin O W hO => Cert.KernelIdeal.KP.tile_body4 hF d L X I G hin O W hO)
    (fun hF d L X I G hin O W hO => Cert.Kernel.KP.tile_body0 hF d L X I G hin O W hO)
    (fun hF d L X I G hin O W hO => Cert.Kernel.KP.tile_body1 hF d L X I G hin O W hO)
    (fun hF d L X I G hin O W hO => Cert.Kernel.KP.tile_body2 hF d L X I G hin O W hO)
    (fun hF d L X I G hin O W hO => Cert.Kernel.KP.tile_body3 hF d L X I G hin O W hO)
    (fun hF d L X I G hin O W hO => Cert.Kernel.KP.tile_body4 hF d L X I G hin O W hO)

end Cert.Proof

end
